-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x128 : Shape := ⟨2, ![1000000, 128]⟩
abbrev S64x128 : Shape := ⟨2, ![64, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x128 .f32) (main_arg2 : FVec F S64x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_c_2 : IVec S_ 32 := constantI S_ 32 0#32
  let main_v9 : IVec S16384x50 32 := broadcastInDim S16384x50 ![] bcast_S_S16384x50 main_c_2
  let main_v10 : IVec S16384x50 1 := cmpi .sge main_arg0 main_v9
  let main_c_3 : IVec S_ 32 := constantI S_ 32 999999#32
  let main_v11 : IVec S16384x50 32 := broadcastInDim S16384x50 ![] bcast_S_S16384x50 main_c_3
  let main_v12 : IVec S16384x50 1 := cmpi .sle main_arg0 main_v11
  let main_v13 : IVec S16384x50 1 := andi main_v10 main_v12
  let main_c_4 : IVec S_ 1 := constantI S_ 1 1#1
  let main_v14 : IVec S_ 1 := (fun x v => Host.reduce IntOp.andi x v reducesTo_S16384x50_S_d0_1 h_S_) main_v13 main_c_4
  let main_v15 : IVec S_ 1 := andi main_v8 main_v14
  main_v15
-- ==== Kernel.lean ====
abbrev S16384x50 : Shape := ⟨2, ![16384, 50]⟩
abbrev S1000000x128 : Shape := ⟨2, ![1000000, 128]⟩
abbrev S64x128 : Shape := ⟨2, ![64, 128]⟩
abbrev S50x16384 : Shape := ⟨2, ![50, 16384]⟩
abbrev S819200 : Shape := ⟨1, ![819200]⟩
abbrev S163840 : Shape := ⟨1, ![163840]⟩
abbrev S32x40x128 : Shape := ⟨3, ![32, 40, 128]⟩
abbrev S163840x128 : Shape := ⟨2, ![163840, 128]⟩
abbrev S40x128 : Shape := ⟨2, ![40, 128]⟩
abbrev S5x128x128 : Shape := ⟨3, ![5, 128, 128]⟩
abbrev S_ : Shape := ⟨0, ![]⟩
abbrev S1x40x128 : Shape := ⟨3, ![1, 40, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50x64x16384 : Shape := ⟨3, ![50, 64, 16384]⟩
abbrev S16384x128 : Shape := ⟨2, ![16384, 128]⟩
abbrev S1x64x16384 : Shape := ⟨3, ![1, 64, 16384]⟩
abbrev S64x16384 : Shape := ⟨2, ![64, 16384]⟩
abbrev S16384x50x64 : Shape := ⟨3, ![16384, 50, 64]⟩

abbrev nBuf : Table → Nat
  | .hbm => 26
  | .local .tc .vmem => 25
  | .local .scVector .vmem => 10
  | _ => 0

abbrev bufTy : (tb : Table) → Fin (nBuf tb) → BufTy
  | .hbm, ⟨0, _⟩ => ⟨S16384x50, .i32⟩
  | .hbm, ⟨1, _⟩ => ⟨S1000000x128, .f32⟩
  | .hbm, ⟨2, _⟩ => ⟨S64x128, .f32⟩
  | .hbm, ⟨3, _⟩ => ⟨S50x16384, .i32⟩
  | .hbm, ⟨4, _⟩ => ⟨S819200, .i32⟩
  | .hbm, ⟨5, _⟩ => ⟨S163840, .i32⟩
  | .hbm, ⟨6, _⟩ => ⟨S32x40x128, .i32⟩
  | .hbm, ⟨7, _⟩ => ⟨S163840x128, .f32⟩
  | .hbm, ⟨8, _⟩ => ⟨S50x64x16384, .f32⟩
  | .hbm, ⟨9, _⟩ => ⟨S163840, .i32⟩
  | .hbm, ⟨10, _⟩ => ⟨S32x40x128, .i32⟩
  | .hbm, ⟨11, _⟩ => ⟨S163840x128, .f32⟩
  | .hbm, ⟨12, _⟩ => ⟨S50x64x16384, .f32⟩
  | .hbm, ⟨13, _⟩ => ⟨S163840, .i32⟩
  | .hbm, ⟨14, _⟩ => ⟨S32x40x128, .i32⟩
  | .hbm, ⟨15, _⟩ => ⟨S163840x128, .f32⟩
  | .hbm, ⟨16, _⟩ => ⟨S50x64x16384, .f32⟩
  | .hbm, ⟨17, _⟩ => ⟨S163840, .i32⟩
  | .hbm, ⟨18, _⟩ => ⟨S32x40x128, .i32⟩
  | .hbm, ⟨19, _⟩ => ⟨S163840x128, .f32⟩
  | .hbm, ⟨20, _⟩ => ⟨S50x64x16384, .f32⟩
  | .hbm, ⟨21, _⟩ => ⟨S163840, .i32⟩
  | .hbm, ⟨22, _⟩ => ⟨S32x40x128, .i32⟩
  | .hbm, ⟨23, _⟩ => ⟨S163840x128, .f32⟩
  | .hbm, ⟨24, _⟩ => ⟨S50x64x16384, .f32⟩
  | .hbm, ⟨25, _⟩ => ⟨S16384x50x64, .f32⟩
  | .local .tc .vmem, ⟨0, _⟩ => ⟨S64x128, .f32⟩
  | .local .tc .vmem, ⟨1, _⟩ => ⟨S16384x128, .f32⟩
  | .local .tc .vmem, ⟨2, _⟩ => ⟨S16384x128, .f32⟩
  | .local .tc .vmem, ⟨3, _⟩ => ⟨S1x64x16384, .f32⟩
  | .local .tc .vmem, ⟨4, _⟩ => ⟨S1x64x16384, .f32⟩
  | .local .tc .vmem, ⟨5, _⟩ => ⟨S64x128, .f32⟩
  | .local .tc .vmem, ⟨6, _⟩ => ⟨S16384x128, .f32⟩
  | .local .tc .vmem, ⟨7, _⟩ => ⟨S16384x128, .f32⟩
  | .local .tc .vmem, ⟨8, _⟩ => ⟨S1x64x16384, .f32⟩
  | .local .tc .vmem, ⟨9, _⟩ => ⟨S1x64x16384, .f32⟩
  | .local .tc .vmem, ⟨10, _⟩ => ⟨S64x128, .f32⟩
  | .local .tc .vmem, ⟨11, _⟩ => ⟨S16384x128, .f32⟩
  | .local .tc .vmem, ⟨12, _⟩ => ⟨S16384x128, .f32⟩
  | .local .tc .vmem, ⟨13, _⟩ => ⟨S1x64x16384, .f32⟩
  | .local .tc .vmem, ⟨14, _⟩ => ⟨S1x64x16384, .f32⟩
  | .local .tc .vmem, ⟨15, _⟩ => ⟨S64x128, .f32⟩
  | .local .tc .vmem, ⟨16, _⟩ => ⟨S16384x128, .f32⟩
  | .local .tc .vmem, ⟨17, _⟩ => ⟨S16384x128, .f32⟩
  | .local .tc .vmem, ⟨18, _⟩ => ⟨S1x64x16384, .f32⟩
  | .local .tc .vmem, ⟨19, _⟩ => ⟨S1x64x16384, .f32⟩
  | .local .tc .vmem, ⟨20, _⟩ => ⟨S64x128, .f32⟩
  | .local .tc .vmem, ⟨21, _⟩ => ⟨S16384x128, .f32⟩
  | .local .tc .vmem, ⟨22, _⟩ => ⟨S16384x128, .f32⟩
  | .local .tc .vmem, ⟨23, _⟩ => ⟨S1x64x16384, .f32⟩
  | .local .tc .vmem, ⟨24, _⟩ => ⟨S1x64x16384, .f32⟩
  | .local .scVector .vmem, ⟨0, _⟩ => ⟨S40x128, .i32⟩
  | .local .scVector .vmem, ⟨1, _⟩ => ⟨S5x128x128, .f32⟩
  | .local .scVector .vmem, ⟨2, _⟩ => ⟨S40x128, .i32⟩
  | .local .scVector .vmem, ⟨3, _⟩ => ⟨S5x128x128, .f32⟩
  | .local .scVector .vmem, ⟨4, _⟩ => ⟨S40x128, .i32⟩
  | .local .scVector .vmem, ⟨5, _⟩ => ⟨S5x128x128, .f32⟩
  | .local .scVector .vmem, ⟨6, _⟩ => ⟨S40x128, .i32⟩
  | .local .scVector .vmem, ⟨7, _⟩ => ⟨S5x128x128, .f32⟩
  | .local .scVector .vmem, ⟨8, _⟩ => ⟨S40x128, .i32⟩
  | .local .scVector .vmem, ⟨9, _⟩ => ⟨S5x128x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 80 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => true
  | ⟨44, _⟩ => true
  | ⟨45, _⟩ => true
  | ⟨46, _⟩ => true
  | ⟨47, _⟩ => true
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => true
  | ⟨60, _⟩ => true
  | ⟨61, _⟩ => true
  | ⟨62, _⟩ => true
  | ⟨63, _⟩ => true
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => true
  | ⟨76, _⟩ => true
  | ⟨77, _⟩ => true
  | ⟨78, _⟩ => true
  | ⟨79, _⟩ => true
  | _ => false

abbrev sig : RefSig :=
  ofTables nBuf rfl bufTy 4 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_arg1_scv : Ref sig .scVector := ⟨.hbm, 1, rfl⟩
abbrev main_v3_scv : Ref sig .scVector := ⟨.hbm, 6, rfl⟩
abbrev main_v4_scv : Ref sig .scVector := ⟨.hbm, 7, rfl⟩
abbrev main_v7_scv : Ref sig .scVector := ⟨.hbm, 10, rfl⟩
abbrev main_v8_scv : Ref sig .scVector := ⟨.hbm, 11, rfl⟩
abbrev main_v11_scv : Ref sig .scVector := ⟨.hbm, 14, rfl⟩
abbrev main_v12_scv : Ref sig .scVector := ⟨.hbm, 15, rfl⟩
abbrev main_v15_scv : Ref sig .scVector := ⟨.hbm, 18, rfl⟩
abbrev main_v16_scv : Ref sig .scVector := ⟨.hbm, 19, rfl⟩
abbrev main_v19_scv : Ref sig .scVector := ⟨.hbm, 22, rfl⟩
abbrev main_v20_scv : Ref sig .scVector := ⟨.hbm, 23, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc3_stg0_0 : Ref sig .tc := ⟨.vmem, 5, rfl⟩
abbrev cc3_stg1_0 : Ref sig .tc := ⟨.vmem, 6, rfl⟩
abbrev cc3_stg1_1 : Ref sig .tc := ⟨.vmem, 7, rfl⟩
abbrev cc3_stg2_0 : Ref sig .tc := ⟨.vmem, 8, rfl⟩
abbrev cc3_stg2_1 : Ref sig .tc := ⟨.vmem, 9, rfl⟩
abbrev cc5_stg0_0 : Ref sig .tc := ⟨.vmem, 10, rfl⟩
abbrev cc5_stg1_0 : Ref sig .tc := ⟨.vmem, 11, rfl⟩
abbrev cc5_stg1_1 : Ref sig .tc := ⟨.vmem, 12, rfl⟩
abbrev cc5_stg2_0 : Ref sig .tc := ⟨.vmem, 13, rfl⟩
abbrev cc5_stg2_1 : Ref sig .tc := ⟨.vmem, 14, rfl⟩
abbrev cc7_stg0_0 : Ref sig .tc := ⟨.vmem, 15, rfl⟩
abbrev cc7_stg1_0 : Ref sig .tc := ⟨.vmem, 16, rfl⟩
abbrev cc7_stg1_1 : Ref sig .tc := ⟨.vmem, 17, rfl⟩
abbrev cc7_stg2_0 : Ref sig .tc := ⟨.vmem, 18, rfl⟩
abbrev cc7_stg2_1 : Ref sig .tc := ⟨.vmem, 19, rfl⟩
abbrev cc9_stg0_0 : Ref sig .tc := ⟨.vmem, 20, rfl⟩
abbrev cc9_stg1_0 : Ref sig .tc := ⟨.vmem, 21, rfl⟩
abbrev cc9_stg1_1 : Ref sig .tc := ⟨.vmem, 22, rfl⟩
abbrev cc9_stg2_0 : Ref sig .tc := ⟨.vmem, 23, rfl⟩
abbrev cc9_stg2_1 : Ref sig .tc := ⟨.vmem, 24, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc4_scratch0 : Ref sig .scVector := ⟨.vmem, 4, rfl⟩
abbrev cc4_scratch1 : Ref sig .scVector := ⟨.vmem, 5, rfl⟩
abbrev cc6_scratch0 : Ref sig .scVector := ⟨.vmem, 6, rfl⟩
abbrev cc6_scratch1 : Ref sig .scVector := ⟨.vmem, 7, rfl⟩
abbrev cc8_scratch0 : Ref sig .scVector := ⟨.vmem, 8, rfl⟩
abbrev cc8_scratch1 : Ref sig .scVector := ⟨.vmem, 9, rfl⟩
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc5_sem0_0 : DmaSem sig := 43
abbrev cc5_sem1_0 : DmaSem sig := 44
abbrev cc5_sem1_1 : DmaSem sig := 45
abbrev cc5_sem2_0 : DmaSem sig := 46
abbrev cc5_sem2_1 : DmaSem sig := 47
abbrev cc7_sem0_0 : DmaSem sig := 59
abbrev cc7_sem1_0 : DmaSem sig := 60
abbrev cc7_sem1_1 : DmaSem sig := 61
abbrev cc7_sem2_0 : DmaSem sig := 62
abbrev cc7_sem2_1 : DmaSem sig := 63
abbrev cc9_sem0_0 : DmaSem sig := 75
abbrev cc9_sem1_0 : DmaSem sig := 76
abbrev cc9_sem1_1 : DmaSem sig := 77
abbrev cc9_sem2_0 : DmaSem sig := 78
abbrev cc9_sem2_1 : DmaSem sig := 79
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r0 : BitVec 32 := 0#32
  let c0_i32_36_r0 : BitVec 32 := 0#32
  ![v1.toNat, 0, 0]
@[reducible] def k0_t1_loop : Scf.Loop 32 :=
  let c0_i32_32 : BitVec 32 := 0#32
  let c8_i32 : BitVec 32 := 8#32
  let v28 : BitVec 32 := Scalar.addi c0_i32_32 c8_i32
  let c1_i32_33 : BitVec 32 := 1#32
  ⟨c0_i32_32, v28, c1_i32_33⟩
def k0_off2 (k0_t1 : Fin k0_t1_loop.trips) (c0_i32_35 : BitVec 32) : Fin 2 → Nat :=
  let c0_i32_32 : BitVec 32 := 0#32
  let c1_i32_33 : BitVec 32 := 1#32
  let arg17 : BitVec 32 := Scf.iv c0_i32_32 c1_i32_33 k0_t1
  let c5_i32 : BitVec 32 := 5#32
  let v29 : BitVec 32 := Scalar.muli arg17 c5_i32
  let v30 : BitVec 32 := Scalar.addi v29 c0_i32_35
  let c0_i32_39 : BitVec 32 := 0#32
  ![v30.toNat, 0]
def k0_off3 (i : grid0.Coords) (k0_t1 : Fin k0_t1_loop.trips) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let c0_i32_32 : BitVec 32 := 0#32
  let c1_i32_33 : BitVec 32 := 1#32
  let arg17 : BitVec 32 := Scf.iv c0_i32_32 c1_i32_33 k0_t1
  let c5_i32 : BitVec 32 := 5#32
  let v29 : BitVec 32 := Scalar.muli arg17 c5_i32
  let v30 : BitVec 32 := Scalar.addi v29 c0_i32_35
  let c128_i32 : BitVec 32 := 128#32
  let v36 : BitVec 32 := Scalar.muli v30 c128_i32
  let v37 : BitVec 32 := Scalar.addi v2 v36
  let c0_i32_45 : BitVec 32 := 0#32
  ![v37.toNat, 0]
def k0_cond1 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c7_i32 : BitVec 32 := 7#32
  let v114 : BitVec 1 := Scalar.cmpi .slt arg17 c7_i32
  let v115 : BitVec 32 := Scalar.extui v114
  let c0_i32_123 : BitVec 32 := 0#32
  let v116 : BitVec 1 := Scalar.cmpi .ne v115 c0_i32_123
  v116

def k0_off4 (k0_t1 : Fin k0_t1_loop.trips) : Fin 2 → Nat :=
  let c0_i32_32 : BitVec 32 := 0#32
  let c1_i32_33 : BitVec 32 := 1#32
  let arg17 : BitVec 32 := Scf.iv c0_i32_32 c1_i32_33 k0_t1
  let c5_i32_113 : BitVec 32 := 5#32
  let v104 : BitVec 32 := Scalar.muli arg17 c5_i32_113
  let c0_i32_114 : BitVec 32 := 0#32
  let v105 : BitVec 32 := Scalar.addi v104 c0_i32_114
  let c5_i32_172 : BitVec 32 := 5#32
  let v169 : BitVec 32 := Scalar.addi v105 c5_i32_172
  let c0_i32_176 : BitVec 32 := 0#32
  ![v169.toNat, 0]
def k0_cond2 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c7_i32_134 : BitVec 32 := 7#32
  let v127 : BitVec 1 := Scalar.cmpi .slt arg17 c7_i32_134
  let v128 : BitVec 32 := Scalar.extui v127
  let c0_i32_135 : BitVec 32 := 0#32
  let v129 : BitVec 1 := Scalar.cmpi .ne v128 c0_i32_135
  v129

def k0_off5 (k0_t1 : Fin k0_t1_loop.trips) : Fin 2 → Nat :=
  let c0_i32_32 : BitVec 32 := 0#32
  let c1_i32_33 : BitVec 32 := 1#32
  let arg17 : BitVec 32 := Scf.iv c0_i32_32 c1_i32_33 k0_t1
  let c5_i32_124 : BitVec 32 := 5#32
  let v117 : BitVec 32 := Scalar.muli arg17 c5_i32_124
  let c1_i32_125 : BitVec 32 := 1#32
  let v118 : BitVec 32 := Scalar.addi v117 c1_i32_125
  let c5_i32_172 : BitVec 32 := 5#32
  let v169 : BitVec 32 := Scalar.addi v118 c5_i32_172
  let c0_i32_176 : BitVec 32 := 0#32
  ![v169.toNat, 0]
def k0_cond3 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c7_i32_146 : BitVec 32 := 7#32
  let v140 : BitVec 1 := Scalar.cmpi .slt arg17 c7_i32_146
  let v141 : BitVec 32 := Scalar.extui v140
  let c0_i32_147 : BitVec 32 := 0#32
  let v142 : BitVec 1 := Scalar.cmpi .ne v141 c0_i32_147
  v142

def k0_off6 (k0_t1 : Fin k0_t1_loop.trips) : Fin 2 → Nat :=
  let c0_i32_32 : BitVec 32 := 0#32
  let c1_i32_33 : BitVec 32 := 1#32
  let arg17 : BitVec 32 := Scf.iv c0_i32_32 c1_i32_33 k0_t1
  let c5_i32_136 : BitVec 32 := 5#32
  let v130 : BitVec 32 := Scalar.muli arg17 c5_i32_136
  let c2_i32_137 : BitVec 32 := 2#32
  let v131 : BitVec 32 := Scalar.addi v130 c2_i32_137
  let c5_i32_172 : BitVec 32 := 5#32
  let v169 : BitVec 32 := Scalar.addi v131 c5_i32_172
  let c0_i32_176 : BitVec 32 := 0#32
  ![v169.toNat, 0]
def k0_cond4 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c7_i32_158 : BitVec 32 := 7#32
  let v153 : BitVec 1 := Scalar.cmpi .slt arg17 c7_i32_158
  let v154 : BitVec 32 := Scalar.extui v153
  let c0_i32_159 : BitVec 32 := 0#32
  let v155 : BitVec 1 := Scalar.cmpi .ne v154 c0_i32_159
  v155

def k0_off7 (k0_t1 : Fin k0_t1_loop.trips) : Fin 2 → Nat :=
  let c0_i32_32 : BitVec 32 := 0#32
  let c1_i32_33 : BitVec 32 := 1#32
  let arg17 : BitVec 32 := Scf.iv c0_i32_32 c1_i32_33 k0_t1
  let c5_i32_148 : BitVec 32 := 5#32
  let v143 : BitVec 32 := Scalar.muli arg17 c5_i32_148
  let c3_i32_149 : BitVec 32 := 3#32
  let v144 : BitVec 32 := Scalar.addi v143 c3_i32_149
  let c5_i32_172 : BitVec 32 := 5#32
  let v169 : BitVec 32 := Scalar.addi v144 c5_i32_172
  let c0_i32_176 : BitVec 32 := 0#32
  ![v169.toNat, 0]
def k0_cond5 (k0_t1 : Fin k0_t1_loop.trips) : BitVec 1 :=
  let c0_i32_32 : BitVec 32 := 0#32
  let c1_i32_33 : BitVec 32 := 1#32
  let arg17 : BitVec 32 := Scf.iv c0_i32_32 c1_i32_33 k0_t1
  let c7_i32_170 : BitVec 32 := 7#32
  let v166 : BitVec 1 := Scalar.cmpi .slt arg17 c7_i32_170
  let v167 : BitVec 32 := Scalar.extui v166
  let c0_i32_171 : BitVec 32 := 0#32
  let v168 : BitVec 1 := Scalar.cmpi .ne v167 c0_i32_171
  v168

def k0_off8 (k0_t1 : Fin k0_t1_loop.trips) : Fin 2 → Nat :=
  let c0_i32_32 : BitVec 32 := 0#32
  let c1_i32_33 : BitVec 32 := 1#32
  let arg17 : BitVec 32 := Scf.iv c0_i32_32 c1_i32_33 k0_t1
  let c5_i32_160 : BitVec 32 := 5#32
  let v156 : BitVec 32 := Scalar.muli arg17 c5_i32_160
  let c4_i32_161 : BitVec 32 := 4#32
  let v157 : BitVec 32 := Scalar.addi v156 c4_i32_161
  let c5_i32_172 : BitVec 32 := 5#32
  let v169 : BitVec 32 := Scalar.addi v157 c5_i32_172
  let c0_i32_176 : BitVec 32 := 0#32
  ![v169.toNat, 0]
abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg0 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v17.toNat, c0_i32_13.toNat, v28.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r0 : BitVec 32 := 0#32
  let c0_i32_36_r0 : BitVec 32 := 0#32
  ![v1.toNat, 0, 0]
@[reducible] def k2_t1_loop : Scf.Loop 32 :=
  let c0_i32_32 : BitVec 32 := 0#32
  let c8_i32 : BitVec 32 := 8#32
  let v28 : BitVec 32 := Scalar.addi c0_i32_32 c8_i32
  let c1_i32_33 : BitVec 32 := 1#32
  ⟨c0_i32_32, v28, c1_i32_33⟩
def k2_off2 (k2_t1 : Fin k2_t1_loop.trips) (c0_i32_35 : BitVec 32) : Fin 2 → Nat :=
  let c0_i32_32 : BitVec 32 := 0#32
  let c1_i32_33 : BitVec 32 := 1#32
  let arg17 : BitVec 32 := Scf.iv c0_i32_32 c1_i32_33 k2_t1
  let c5_i32 : BitVec 32 := 5#32
  let v29 : BitVec 32 := Scalar.muli arg17 c5_i32
  let v30 : BitVec 32 := Scalar.addi v29 c0_i32_35
  let c0_i32_39 : BitVec 32 := 0#32
  ![v30.toNat, 0]
def k2_off3 (i : grid2.Coords) (k2_t1 : Fin k2_t1_loop.trips) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let c0_i32_32 : BitVec 32 := 0#32
  let c1_i32_33 : BitVec 32 := 1#32
  let arg17 : BitVec 32 := Scf.iv c0_i32_32 c1_i32_33 k2_t1
  let c5_i32 : BitVec 32 := 5#32
  let v29 : BitVec 32 := Scalar.muli arg17 c5_i32
  let v30 : BitVec 32 := Scalar.addi v29 c0_i32_35
  let c128_i32 : BitVec 32 := 128#32
  let v36 : BitVec 32 := Scalar.muli v30 c128_i32
  let v37 : BitVec 32 := Scalar.addi v2 v36
  let c0_i32_45 : BitVec 32 := 0#32
  ![v37.toNat, 0]
def k2_cond1 (k2_t1 : Fin k2_t1_loop.trips) : BitVec 1 :=
  let c0_i32_32 : BitVec 32 := 0#32
  let c1_i32_33 : BitVec 32 := 1#32
  let arg17 : BitVec 32 := Scf.iv c0_i32_32 c1_i32_33 k2_t1
  let c7_i32 : BitVec 32 := 7#32
  let v114 : BitVec 1 := Scalar.cmpi .slt arg17 c7_i32
  let v115 : BitVec 32 := Scalar.extui v114
  let c0_i32_123 : BitVec 32 := 0#32
  let v116 : BitVec 1 := Scalar.cmpi .ne v115 c0_i32_123
  v116

def k2_off4 (k2_t1 : Fin k2_t1_loop.trips) : Fin 2 → Nat :=
  let c0_i32_32 : BitVec 32 := 0#32
  let c1_i32_33 : BitVec 32 := 1#32
  let arg17 : BitVec 32 := Scf.iv c0_i32_32 c1_i32_33 k2_t1
  let c5_i32_113 : BitVec 32 := 5#32
  let v104 : BitVec 32 := Scalar.muli arg17 c5_i32_113
  let c0_i32_114 : BitVec 32 := 0#32
  let v105 : BitVec 32 := Scalar.addi v104 c0_i32_114
  let c5_i32_172 : BitVec 32 := 5#32
  let v169 : BitVec 32 := Scalar.addi v105 c5_i32_172
  let c0_i32_176 : BitVec 32 := 0#32
  ![v169.toNat, 0]
def k2_cond2 (k2_t1 : Fin k2_t1_loop.trips) : BitVec 1 :=
  let c0_i32_32 : BitVec 32 := 0#32
  let c1_i32_33 : BitVec 32 := 1#32
  let arg17 : BitVec 32 := Scf.iv c0_i32_32 c1_i32_33 k2_t1
  let c7_i32_134 : BitVec 32 := 7#32
  let v127 : BitVec 1 := Scalar.cmpi .slt arg17 c7_i32_134
  let v128 : BitVec 32 := Scalar.extui v127
  let c0_i32_135 : BitVec 32 := 0#32
  let v129 : BitVec 1 := Scalar.cmpi .ne v128 c0_i32_135
  v129

def k2_off5 (k2_t1 : Fin k2_t1_loop.trips) : Fin 2 → Nat :=
  let c0_i32_32 : BitVec 32 := 0#32
  let c1_i32_33 : BitVec 32 := 1#32
  let arg17 : BitVec 32 := Scf.iv c0_i32_32 c1_i32_33 k2_t1
  let c5_i32_124 : BitVec 32 := 5#32
  let v117 : BitVec 32 := Scalar.muli arg17 c5_i32_124
  let c1_i32_125 : BitVec 32 := 1#32
  let v118 : BitVec 32 := Scalar.addi v117 c1_i32_125
  let c5_i32_172 : BitVec 32 := 5#32
  let v169 : BitVec 32 := Scalar.addi v118 c5_i32_172
  let c0_i32_176 : BitVec 32 := 0#32
  ![v169.toNat, 0]
def k2_cond3 (k2_t1 : Fin k2_t1_loop.trips) : BitVec 1 :=
  let c0_i32_32 : BitVec 32 := 0#32
  let c1_i32_33 : BitVec 32 := 1#32
  let arg17 : BitVec 32 := Scf.iv c0_i32_32 c1_i32_33 k2_t1
  let c7_i32_146 : BitVec 32 := 7#32
  let v140 : BitVec 1 := Scalar.cmpi .slt arg17 c7_i32_146
  let v141 : BitVec 32 := Scalar.extui v140
  let c0_i32_147 : BitVec 32 := 0#32
  let v142 : BitVec 1 := Scalar.cmpi .ne v141 c0_i32_147
  v142

def k2_off6 (k2_t1 : Fin k2_t1_loop.trips) : Fin 2 → Nat :=
  let c0_i32_32 : BitVec 32 := 0#32
  let c1_i32_33 : BitVec 32 := 1#32
  let arg17 : BitVec 32 := Scf.iv c0_i32_32 c1_i32_33 k2_t1
  let c5_i32_136 : BitVec 32 := 5#32
  let v130 : BitVec 32 := Scalar.muli arg17 c5_i32_136
  let c2_i32_137 : BitVec 32 := 2#32
  let v131 : BitVec 32 := Scalar.addi v130 c2_i32_137
  let c5_i32_172 : BitVec 32 := 5#32
  let v169 : BitVec 32 := Scalar.addi v131 c5_i32_172
  let c0_i32_176 : BitVec 32 := 0#32
  ![v169.toNat, 0]
def k2_cond4 (k2_t1 : Fin k2_t1_loop.trips) : BitVec 1 :=
  let c0_i32_32 : BitVec 32 := 0#32
  let c1_i32_33 : BitVec 32 := 1#32
  let arg17 : BitVec 32 := Scf.iv c0_i32_32 c1_i32_33 k2_t1
  let c7_i32_158 : BitVec 32 := 7#32
  let v153 : BitVec 1 := Scalar.cmpi .slt arg17 c7_i32_158
  let v154 : BitVec 32 := Scalar.extui v153
  let c0_i32_159 : BitVec 32 := 0#32
  let v155 : BitVec 1 := Scalar.cmpi .ne v154 c0_i32_159
  v155

def k2_off7 (k2_t1 : Fin k2_t1_loop.trips) : Fin 2 → Nat :=
  let c0_i32_32 : BitVec 32 := 0#32
  let c1_i32_33 : BitVec 32 := 1#32
  let arg17 : BitVec 32 := Scf.iv c0_i32_32 c1_i32_33 k2_t1
  let c5_i32_148 : BitVec 32 := 5#32
  let v143 : BitVec 32 := Scalar.muli arg17 c5_i32_148
  let c3_i32_149 : BitVec 32 := 3#32
  let v144 : BitVec 32 := Scalar.addi v143 c3_i32_149
  let c5_i32_172 : BitVec 32 := 5#32
  let v169 : BitVec 32 := Scalar.addi v144 c5_i32_172
  let c0_i32_176 : BitVec 32 := 0#32
  ![v169.toNat, 0]
def k2_cond5 (k2_t1 : Fin k2_t1_loop.trips) : BitVec 1 :=
  let c0_i32_32 : BitVec 32 := 0#32
  let c1_i32_33 : BitVec 32 := 1#32
  let arg17 : BitVec 32 := Scf.iv c0_i32_32 c1_i32_33 k2_t1
  let c7_i32_170 : BitVec 32 := 7#32
  let v166 : BitVec 1 := Scalar.cmpi .slt arg17 c7_i32_170
  let v167 : BitVec 32 := Scalar.extui v166
  let c0_i32_171 : BitVec 32 := 0#32
  let v168 : BitVec 1 := Scalar.cmpi .ne v167 c0_i32_171
  v168

def k2_off8 (k2_t1 : Fin k2_t1_loop.trips) : Fin 2 → Nat :=
  let c0_i32_32 : BitVec 32 := 0#32
  let c1_i32_33 : BitVec 32 := 1#32
  let arg17 : BitVec 32 := Scf.iv c0_i32_32 c1_i32_33 k2_t1
  let c5_i32_160 : BitVec 32 := 5#32
  let v156 : BitVec 32 := Scalar.muli arg17 c5_i32_160
  let c4_i32_161 : BitVec 32 := 4#32
  let v157 : BitVec 32 := Scalar.addi v156 c4_i32_161
  let c5_i32_172 : BitVec 32 := 5#32
  let v169 : BitVec 32 := Scalar.addi v157 c5_i32_172
  let c0_i32_176 : BitVec 32 := 0#32
  ![v169.toNat, 0]
abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c10_i32 : BitVec 32 := 10#32
  let v0 : BitVec 32 := Scalar.addi arg0 c10_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c10_i32_5 : BitVec 32 := 10#32
  let v18 : BitVec 32 := Scalar.addi arg0 c10_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S16384x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x16384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r0 : BitVec 32 := 0#32
  let c0_i32_36_r0 : BitVec 32 := 0#32
  ![v1.toNat, 0, 0]
@[reducible] def k4_t1_loop : Scf.Loop 32 :=
  let c0_i32_32 : BitVec 32 := 0#32
  let c8_i32 : BitVec 32 := 8#32
  let v28 : BitVec 32 := Scalar.addi c0_i32_32 c8_i32
  let c1_i32_33 : BitVec 32 := 1#32
  ⟨c0_i32_32, v28, c1_i32_33⟩
def k4_off2 (k4_t1 : Fin k4_t1_loop.trips) (c0_i32_35 : BitVec 32) : Fin 2 → Nat :=
  let c0_i32_32 : BitVec 32 := 0#32
  let c1_i32_33 : BitVec 32 := 1#32
  let arg17 : BitVec 32 := Scf.iv c0_i32_32 c1_i32_33 k4_t1
  let c5_i32 : BitVec 32 := 5#32
  let v29 : BitVec 32 := Scalar.muli arg17 c5_i32
  let v30 : BitVec 32 := Scalar.addi v29 c0_i32_35
  let c0_i32_39 : BitVec 32 := 0#32
  ![v30.toNat, 0]
def k4_off3 (i : grid4.Coords) (k4_t1 : Fin k4_t1_loop.trips) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let c0_i32_32 : BitVec 32 := 0#32
  let c1_i32_33 : BitVec 32 := 1#32
  let arg17 : BitVec 32 := Scf.iv c0_i32_32 c1_i32_33 k4_t1
  let c5_i32 : BitVec 32 := 5#32
  let v29 : BitVec 32 := Scalar.muli arg17 c5_i32
  let v30 : BitVec 32 := Scalar.addi v29 c0_i32_35
  let c128_i32 : BitVec 32 := 128#32
  let v36 : BitVec 32 := Scalar.muli v30 c128_i32
  let v37 : BitVec 32 := Scalar.addi v2 v36
  let c0_i32_45 : BitVec 32 := 0#32
  ![v37.toNat, 0]
def k4_cond1 (k4_t1 : Fin k4_t1_loop.trips) : BitVec 1 :=
  let c0_i32_32 : BitVec 32 := 0#32
  let c1_i32_33 : BitVec 32 := 1#32
  let arg17 : BitVec 32 := Scf.iv c0_i32_32 c1_i32_33 k4_t1
  let c7_i32 : BitVec 32 := 7#32
  let v114 : BitVec 1 := Scalar.cmpi .slt arg17 c7_i32
  let v115 : BitVec 32 := Scalar.extui v114
  let c0_i32_123 : BitVec 32 := 0#32
  let v116 : BitVec 1 := Scalar.cmpi .ne v115 c0_i32_123
  v116

def k4_off4 (k4_t1 : Fin k4_t1_loop.trips) : Fin 2 → Nat :=
  let c0_i32_32 : BitVec 32 := 0#32
  let c1_i32_33 : BitVec 32 := 1#32
  let arg17 : BitVec 32 := Scf.iv c0_i32_32 c1_i32_33 k4_t1
  let c5_i32_113 : BitVec 32 := 5#32
  let v104 : BitVec 32 := Scalar.muli arg17 c5_i32_113
  let c0_i32_114 : BitVec 32 := 0#32
  let v105 : BitVec 32 := Scalar.addi v104 c0_i32_114
  let c5_i32_172 : BitVec 32 := 5#32
  let v169 : BitVec 32 := Scalar.addi v105 c5_i32_172
  let c0_i32_176 : BitVec 32 := 0#32
  ![v169.toNat, 0]
def k4_cond2 (k4_t1 : Fin k4_t1_loop.trips) : BitVec 1 :=
  let c0_i32_32 : BitVec 32 := 0#32
  let c1_i32_33 : BitVec 32 := 1#32
  let arg17 : BitVec 32 := Scf.iv c0_i32_32 c1_i32_33 k4_t1
  let c7_i32_134 : BitVec 32 := 7#32
  let v127 : BitVec 1 := Scalar.cmpi .slt arg17 c7_i32_134
  let v128 : BitVec 32 := Scalar.extui v127
  let c0_i32_135 : BitVec 32 := 0#32
  let v129 : BitVec 1 := Scalar.cmpi .ne v128 c0_i32_135
  v129

def k4_off5 (k4_t1 : Fin k4_t1_loop.trips) : Fin 2 → Nat :=
  let c0_i32_32 : BitVec 32 := 0#32
  let c1_i32_33 : BitVec 32 := 1#32
  let arg17 : BitVec 32 := Scf.iv c0_i32_32 c1_i32_33 k4_t1
  let c5_i32_124 : BitVec 32 := 5#32
  let v117 : BitVec 32 := Scalar.muli arg17 c5_i32_124
  let c1_i32_125 : BitVec 32 := 1#32
  let v118 : BitVec 32 := Scalar.addi v117 c1_i32_125
  let c5_i32_172 : BitVec 32 := 5#32
  let v169 : BitVec 32 := Scalar.addi v118 c5_i32_172
  let c0_i32_176 : BitVec 32 := 0#32
  ![v169.toNat, 0]
def k4_cond3 (k4_t1 : Fin k4_t1_loop.trips) : BitVec 1 :=
  let c0_i32_32 : BitVec 32 := 0#32
  let c1_i32_33 : BitVec 32 := 1#32
  let arg17 : BitVec 32 := Scf.iv c0_i32_32 c1_i32_33 k4_t1
  let c7_i32_146 : BitVec 32 := 7#32
  let v140 : BitVec 1 := Scalar.cmpi .slt arg17 c7_i32_146
  let v141 : BitVec 32 := Scalar.extui v140
  let c0_i32_147 : BitVec 32 := 0#32
  let v142 : BitVec 1 := Scalar.cmpi .ne v141 c0_i32_147
  v142

def k4_off6 (k4_t1 : Fin k4_t1_loop.trips) : Fin 2 → Nat :=
  let c0_i32_32 : BitVec 32 := 0#32
  let c1_i32_33 : BitVec 32 := 1#32
  let arg17 : BitVec 32 := Scf.iv c0_i32_32 c1_i32_33 k4_t1
  let c5_i32_136 : BitVec 32 := 5#32
  let v130 : BitVec 32 := Scalar.muli arg17 c5_i32_136
  let c2_i32_137 : BitVec 32 := 2#32
  let v131 : BitVec 32 := Scalar.addi v130 c2_i32_137
  let c5_i32_172 : BitVec 32 := 5#32
  let v169 : BitVec 32 := Scalar.addi v131 c5_i32_172
  let c0_i32_176 : BitVec 32 := 0#32
  ![v169.toNat, 0]
def k4_cond4 (k4_t1 : Fin k4_t1_loop.trips) : BitVec 1 :=
  let c0_i32_32 : BitVec 32 := 0#32
  let c1_i32_33 : BitVec 32 := 1#32
  let arg17 : BitVec 32 := Scf.iv c0_i32_32 c1_i32_33 k4_t1
  let c7_i32_158 : BitVec 32 := 7#32
  let v153 : BitVec 1 := Scalar.cmpi .slt arg17 c7_i32_158
  let v154 : BitVec 32 := Scalar.extui v153
  let c0_i32_159 : BitVec 32 := 0#32
  let v155 : BitVec 1 := Scalar.cmpi .ne v154 c0_i32_159
  v155

def k4_off7 (k4_t1 : Fin k4_t1_loop.trips) : Fin 2 → Nat :=
  let c0_i32_32 : BitVec 32 := 0#32
  let c1_i32_33 : BitVec 32 := 1#32
  let arg17 : BitVec 32 := Scf.iv c0_i32_32 c1_i32_33 k4_t1
  let c5_i32_148 : BitVec 32 := 5#32
  let v143 : BitVec 32 := Scalar.muli arg17 c5_i32_148
  let c3_i32_149 : BitVec 32 := 3#32
  let v144 : BitVec 32 := Scalar.addi v143 c3_i32_149
  let c5_i32_172 : BitVec 32 := 5#32
  let v169 : BitVec 32 := Scalar.addi v144 c5_i32_172
  let c0_i32_176 : BitVec 32 := 0#32
  ![v169.toNat, 0]
def k4_cond5 (k4_t1 : Fin k4_t1_loop.trips) : BitVec 1 :=
  let c0_i32_32 : BitVec 32 := 0#32
  let c1_i32_33 : BitVec 32 := 1#32
  let arg17 : BitVec 32 := Scf.iv c0_i32_32 c1_i32_33 k4_t1
  let c7_i32_170 : BitVec 32 := 7#32
  let v166 : BitVec 1 := Scalar.cmpi .slt arg17 c7_i32_170
  let v167 : BitVec 32 := Scalar.extui v166
  let c0_i32_171 : BitVec 32 := 0#32
  let v168 : BitVec 1 := Scalar.cmpi .ne v167 c0_i32_171
  v168

def k4_off8 (k4_t1 : Fin k4_t1_loop.trips) : Fin 2 → Nat :=
  let c0_i32_32 : BitVec 32 := 0#32
  let c1_i32_33 : BitVec 32 := 1#32
  let arg17 : BitVec 32 := Scf.iv c0_i32_32 c1_i32_33 k4_t1
  let c5_i32_160 : BitVec 32 := 5#32
  let v156 : BitVec 32 := Scalar.muli arg17 c5_i32_160
  let c4_i32_161 : BitVec 32 := 4#32
  let v157 : BitVec 32 := Scalar.addi v156 c4_i32_161
  let c5_i32_172 : BitVec 32 := 5#32
  let v169 : BitVec 32 := Scalar.addi v157 c5_i32_172
  let c0_i32_176 : BitVec 32 := 0#32
  ![v169.toNat, 0]
abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let c20_i32 : BitVec 32 := 20#32
  let v0 : BitVec 32 := Scalar.addi arg0 c20_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c20_i32_5 : BitVec 32 := 20#32
  let v18 : BitVec 32 := Scalar.addi arg0 c20_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S16384x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x64x16384 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![2, 16], ![false, false]⟩

def k6_off1 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r0 : BitVec 32 := 0#32
  let c0_i32_36_r0 : BitVec 32 := 0#32
  ![v1.toNat, 0, 0]
@[reducible] def k6_t1_loop : Scf.Loop 32 :=
  let c0_i32_32 : BitVec 32 := 0#32
  let c8_i32 : BitVec 32 := 8#32
  let v28 : BitVec 32 := Scalar.addi c0_i32_32 c8_i32
  let c1_i32_33 : BitVec 32 := 1#32
  ⟨c0_i32_32, v28, c1_i32_33⟩
def k6_off2 (k6_t1 : Fin k6_t1_loop.trips) (c0_i32_35 : BitVec 32) : Fin 2 → Nat :=
  let c0_i32_32 : BitVec 32 := 0#32
  let c1_i32_33 : BitVec 32 := 1#32
  let arg17 : BitVec 32 := Scf.iv c0_i32_32 c1_i32_33 k6_t1
  let c5_i32 : BitVec 32 := 5#32
  let v29 : BitVec 32 := Scalar.muli arg17 c5_i32
  let v30 : BitVec 32 := Scalar.addi v29 c0_i32_35
  let c0_i32_39 : BitVec 32 := 0#32
  ![v30.toNat, 0]
def k6_off3 (i : grid6.Coords) (k6_t1 : Fin k6_t1_loop.trips) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let c0_i32_32 : BitVec 32 := 0#32
  let c1_i32_33 : BitVec 32 := 1#32
  let arg17 : BitVec 32 := Scf.iv c0_i32_32 c1_i32_33 k6_t1
  let c5_i32 : BitVec 32 := 5#32
  let v29 : BitVec 32 := Scalar.muli arg17 c5_i32
  let v30 : BitVec 32 := Scalar.addi v29 c0_i32_35
  let c128_i32 : BitVec 32 := 128#32
  let v36 : BitVec 32 := Scalar.muli v30 c128_i32
  let v37 : BitVec 32 := Scalar.addi v2 v36
  let c0_i32_45 : BitVec 32 := 0#32
  ![v37.toNat, 0]
def k6_cond1 (k6_t1 : Fin k6_t1_loop.trips) : BitVec 1 :=
  let c0_i32_32 : BitVec 32 := 0#32
  let c1_i32_33 : BitVec 32 := 1#32
  let arg17 : BitVec 32 := Scf.iv c0_i32_32 c1_i32_33 k6_t1
  let c7_i32 : BitVec 32 := 7#32
  let v114 : BitVec 1 := Scalar.cmpi .slt arg17 c7_i32
  let v115 : BitVec 32 := Scalar.extui v114
  let c0_i32_123 : BitVec 32 := 0#32
  let v116 : BitVec 1 := Scalar.cmpi .ne v115 c0_i32_123
  v116

def k6_off4 (k6_t1 : Fin k6_t1_loop.trips) : Fin 2 → Nat :=
  let c0_i32_32 : BitVec 32 := 0#32
  let c1_i32_33 : BitVec 32 := 1#32
  let arg17 : BitVec 32 := Scf.iv c0_i32_32 c1_i32_33 k6_t1
  let c5_i32_113 : BitVec 32 := 5#32
  let v104 : BitVec 32 := Scalar.muli arg17 c5_i32_113
  let c0_i32_114 : BitVec 32 := 0#32
  let v105 : BitVec 32 := Scalar.addi v104 c0_i32_114
  let c5_i32_172 : BitVec 32 := 5#32
  let v169 : BitVec 32 := Scalar.addi v105 c5_i32_172
  let c0_i32_176 : BitVec 32 := 0#32
  ![v169.toNat, 0]
def k6_cond2 (k6_t1 : Fin k6_t1_loop.trips) : BitVec 1 :=
  let c0_i32_32 : BitVec 32 := 0#32
  let c1_i32_33 : BitVec 32 := 1#32
  let arg17 : BitVec 32 := Scf.iv c0_i32_32 c1_i32_33 k6_t1
  let c7_i32_134 : BitVec 32 := 7#32
  let v127 : BitVec 1 := Scalar.cmpi .slt arg17 c7_i32_134
  let v128 : BitVec 32 := Scalar.extui v127
  let c0_i32_135 : BitVec 32 := 0#32
  let v129 : BitVec 1 := Scalar.cmpi .ne v128 c0_i32_135
  v129

def k6_off5 (k6_t1 : Fin k6_t1_loop.trips) : Fin 2 → Nat :=
  let c0_i32_32 : BitVec 32 := 0#32
  let c1_i32_33 : BitVec 32 := 1#32
  let arg17 : BitVec 32 := Scf.iv c0_i32_32 c1_i32_33 k6_t1
  let c5_i32_124 : BitVec 32 := 5#32
  let v117 : BitVec 32 := Scalar.muli arg17 c5_i32_124
  let c1_i32_125 : BitVec 32 := 1#32
  let v118 : BitVec 32 := Scalar.addi v117 c1_i32_125
  let c5_i32_172 : BitVec 32 := 5#32
  let v169 : BitVec 32 := Scalar.addi v118 c5_i32_172
  let c0_i32_176 : BitVec 32 := 0#32
  ![v169.toNat, 0]
def k6_cond3 (k6_t1 : Fin k6_t1_loop.trips) : BitVec 1 :=
  let c0_i32_32 : BitVec 32 := 0#32
  let c1_i32_33 : BitVec 32 := 1#32
  let arg17 : BitVec 32 := Scf.iv c0_i32_32 c1_i32_33 k6_t1
  let c7_i32_146 : BitVec 32 := 7#32
  let v140 : BitVec 1 := Scalar.cmpi .slt arg17 c7_i32_146
  let v141 : BitVec 32 := Scalar.extui v140
  let c0_i32_147 : BitVec 32 := 0#32
  let v142 : BitVec 1 := Scalar.cmpi .ne v141 c0_i32_147
  v142

def k6_off6 (k6_t1 : Fin k6_t1_loop.trips) : Fin 2 → Nat :=
  let c0_i32_32 : BitVec 32 := 0#32
  let c1_i32_33 : BitVec 32 := 1#32
  let arg17 : BitVec 32 := Scf.iv c0_i32_32 c1_i32_33 k6_t1
  let c5_i32_136 : BitVec 32 := 5#32
  let v130 : BitVec 32 := Scalar.muli arg17 c5_i32_136
  let c2_i32_137 : BitVec 32 := 2#32
  let v131 : BitVec 32 := Scalar.addi v130 c2_i32_137
  let c5_i32_172 : BitVec 32 := 5#32
  let v169 : BitVec 32 := Scalar.addi v131 c5_i32_172
  let c0_i32_176 : BitVec 32 := 0#32
  ![v169.toNat, 0]
def k6_cond4 (k6_t1 : Fin k6_t1_loop.trips) : BitVec 1 :=
  let c0_i32_32 : BitVec 32 := 0#32
  let c1_i32_33 : BitVec 32 := 1#32
  let arg17 : BitVec 32 := Scf.iv c0_i32_32 c1_i32_33 k6_t1
  let c7_i32_158 : BitVec 32 := 7#32
  let v153 : BitVec 1 := Scalar.cmpi .slt arg17 c7_i32_158
  let v154 : BitVec 32 := Scalar.extui v153
  let c0_i32_159 : BitVec 32 := 0#32
  let v155 : BitVec 1 := Scalar.cmpi .ne v154 c0_i32_159
  v155

def k6_off7 (k6_t1 : Fin k6_t1_loop.trips) : Fin 2 → Nat :=
  let c0_i32_32 : BitVec 32 := 0#32
  let c1_i32_33 : BitVec 32 := 1#32
  let arg17 : BitVec 32 := Scf.iv c0_i32_32 c1_i32_33 k6_t1
  let c5_i32_148 : BitVec 32 := 5#32
  let v143 : BitVec 32 := Scalar.muli arg17 c5_i32_148
  let c3_i32_149 : BitVec 32 := 3#32
  let v144 : BitVec 32 := Scalar.addi v143 c3_i32_149
  let c5_i32_172 : BitVec 32 := 5#32
  let v169 : BitVec 32 := Scalar.addi v144 c5_i32_172
  let c0_i32_176 : BitVec 32 := 0#32
  ![v169.toNat, 0]
def k6_cond5 (k6_t1 : Fin k6_t1_loop.trips) : BitVec 1 :=
  let c0_i32_32 : BitVec 32 := 0#32
  let c1_i32_33 : BitVec 32 := 1#32
  let arg17 : BitVec 32 := Scf.iv c0_i32_32 c1_i32_33 k6_t1
  let c7_i32_170 : BitVec 32 := 7#32
  let v166 : BitVec 1 := Scalar.cmpi .slt arg17 c7_i32_170
  let v167 : BitVec 32 := Scalar.extui v166
  let c0_i32_171 : BitVec 32 := 0#32
  let v168 : BitVec 1 := Scalar.cmpi .ne v167 c0_i32_171
  v168

def k6_off8 (k6_t1 : Fin k6_t1_loop.trips) : Fin 2 → Nat :=
  let c0_i32_32 : BitVec 32 := 0#32
  let c1_i32_33 : BitVec 32 := 1#32
  let arg17 : BitVec 32 := Scf.iv c0_i32_32 c1_i32_33 k6_t1
  let c5_i32_160 : BitVec 32 := 5#32
  let v156 : BitVec 32 := Scalar.muli arg17 c5_i32_160
  let c4_i32_161 : BitVec 32 := 4#32
  let v157 : BitVec 32 := Scalar.addi v156 c4_i32_161
  let c5_i32_172 : BitVec 32 := 5#32
  let v169 : BitVec 32 := Scalar.addi v157 c5_i32_172
  let c0_i32_176 : BitVec 32 := 0#32
  ![v169.toNat, 0]
abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 3 → Nat :=
  let arg0 : BitVec 32 := BitVec.ofNat 32 (i 0).val
  let c30_i32 : BitVec 32 := 30#32
  let v0 : BitVec 32 := Scalar.addi arg0 c30_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c30_i32_5 : BitVec 32 := 30#32
  let v18 : BitVec 32 := Scalar.addi arg0 c30_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S16384x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x64x16384 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![2, 16], ![false, false]⟩

def k8_off1 (i : grid8.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r0 : BitVec 32 := 0#32
  let c0_i32_36_r0 : BitVec 32 := 0#32
  ![v1.toNat, 0, 0]
@[reducible] def k8_t1_loop : Scf.Loop 32 :=
  let c0_i32_32 : BitVec 32 := 0#32
  let c8_i32 : BitVec 32 := 8#32
  let v28 : BitVec 32 := Scalar.addi c0_i32_32 c8_i32
  let c1_i32_33 : BitVec 32 := 1#32
  ⟨c0_i32_32, v28, c1_i32_33⟩
def k8_off2 (k8_t1 : Fin k8_t1_loop.trips) (c0_i32_35 : BitVec 32) : Fin 2 → Nat :=
  let c0_i32_32 : BitVec 32 := 0#32
  let c1_i32_33 : BitVec 32 := 1#32
  let arg17 : BitVec 32 := Scf.iv c0_i32_32 c1_i32_33 k8_t1
  let c5_i32 : BitVec 32 := 5#32
  let v29 : BitVec 32 := Scalar.muli arg17 c5_i32
  let v30 : BitVec 32 := Scalar.addi v29 c0_i32_35
  let c0_i32_39 : BitVec 32 := 0#32
  ![v30.toNat, 0]
def k8_off3 (i : grid8.Coords) (k8_t1 : Fin k8_t1_loop.trips) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5120_i32 : BitVec 32 := 5120#32
  let v2 : BitVec 32 := Scalar.muli v1 c5120_i32
  let c0_i32_32 : BitVec 32 := 0#32
  let c1_i32_33 : BitVec 32 := 1#32
  let arg17 : BitVec 32 := Scf.iv c0_i32_32 c1_i32_33 k8_t1
  let c5_i32 : BitVec 32 := 5#32
  let v29 : BitVec 32 := Scalar.muli arg17 c5_i32
  let v30 : BitVec 32 := Scalar.addi v29 c0_i32_35
  let c128_i32 : BitVec 32 := 128#32
  let v36 : BitVec 32 := Scalar.muli v30 c128_i32
  let v37 : BitVec 32 := Scalar.addi v2 v36
  let c0_i32_45 : BitVec 32 := 0#32
  ![v37.toNat, 0]
def k8_cond1 (k8_t1 : Fin k8_t1_loop.trips) : BitVec 1 :=
  let c0_i32_32 : BitVec 32 := 0#32
  let c1_i32_33 : BitVec 32 := 1#32
  let arg17 : BitVec 32 := Scf.iv c0_i32_32 c1_i32_33 k8_t1
  let c7_i32 : BitVec 32 := 7#32
  let v114 : BitVec 1 := Scalar.cmpi .slt arg17 c7_i32
  let v115 : BitVec 32 := Scalar.extui v114
  let c0_i32_123 : BitVec 32 := 0#32
  let v116 : BitVec 1 := Scalar.cmpi .ne v115 c0_i32_123
  v116

def k8_off4 (k8_t1 : Fin k8_t1_loop.trips) : Fin 2 → Nat :=
  let c0_i32_32 : BitVec 32 := 0#32
  let c1_i32_33 : BitVec 32 := 1#32
  let arg17 : BitVec 32 := Scf.iv c0_i32_32 c1_i32_33 k8_t1
  let c5_i32_113 : BitVec 32 := 5#32
  let v104 : BitVec 32 := Scalar.muli arg17 c5_i32_113
  let c0_i32_114 : BitVec 32 := 0#32
  let v105 : BitVec 32 := Scalar.addi v104 c0_i32_114
  let c5_i32_172 : BitVec 32 := 5#32
  let v169 : BitVec 32 := Scalar.addi v105 c5_i32_172
  let c0_i32_176 : BitVec 32 := 0#32
  ![v169.toNat, 0]
def k8_cond2 (k8_t1 : Fin k8_t1_loop.trips) : BitVec 1 :=
  let c0_i32_32 : BitVec 32 := 0#32
  let c1_i32_33 : BitVec 32 := 1#32
  let arg17 : BitVec 32 := Scf.iv c0_i32_32 c1_i32_33 k8_t1
  let c7_i32_134 : BitVec 32 := 7#32
  let v127 : BitVec 1 := Scalar.cmpi .slt arg17 c7_i32_134
  let v128 : BitVec 32 := Scalar.extui v127
  let c0_i32_135 : BitVec 32 := 0#32
  let v129 : BitVec 1 := Scalar.cmpi .ne v128 c0_i32_135
  v129

def k8_off5 (k8_t1 : Fin k8_t1_loop.trips) : Fin 2 → Nat :=
  let c0_i32_32 : BitVec 32 := 0#32
  let c1_i32_33 : BitVec 32 := 1#32
  let arg17 : BitVec 32 := Scf.iv c0_i32_32 c1_i32_33 k8_t1
  let c5_i32_124 : BitVec 32 := 5#32
  let v117 : BitVec 32 := Scalar.muli arg17 c5_i32_124
  let c1_i32_125 : BitVec 32 := 1#32
  let v118 : BitVec 32 := Scalar.addi v117 c1_i32_125
  let c5_i32_172 : BitVec 32 := 5#32
  let v169 : BitVec 32 := Scalar.addi v118 c5_i32_172
  let c0_i32_176 : BitVec 32 := 0#32
  ![v169.toNat, 0]
def k8_cond3 (k8_t1 : Fin k8_t1_loop.trips) : BitVec 1 :=
  let c0_i32_32 : BitVec 32 := 0#32
  let c1_i32_33 : BitVec 32 := 1#32
  let arg17 : BitVec 32 := Scf.iv c0_i32_32 c1_i32_33 k8_t1
  let c7_i32_146 : BitVec 32 := 7#32
  let v140 : BitVec 1 := Scalar.cmpi .slt arg17 c7_i32_146
  let v141 : BitVec 32 := Scalar.extui v140
  let c0_i32_147 : BitVec 32 := 0#32
  let v142 : BitVec 1 := Scalar.cmpi .ne v141 c0_i32_147
  v142

def k8_off6 (k8_t1 : Fin k8_t1_loop.trips) : Fin 2 → Nat :=
  let c0_i32_32 : BitVec 32 := 0#32
  let c1_i32_33 : BitVec 32 := 1#32
  let arg17 : BitVec 32 := Scf.iv c0_i32_32 c1_i32_33 k8_t1
  let c5_i32_136 : BitVec 32 := 5#32
  let v130 : BitVec 32 := Scalar.muli arg17 c5_i32_136
  let c2_i32_137 : BitVec 32 := 2#32
  let v131 : BitVec 32 := Scalar.addi v130 c2_i32_137
  let c5_i32_172 : BitVec 32 := 5#32
  let v169 : BitVec 32 := Scalar.addi v131 c5_i32_172
  let c0_i32_176 : BitVec 32 := 0#32
  ![v169.toNat, 0]
def k8_cond4 (k8_t1 : Fin k8_t1_loop.trips) : BitVec 1 :=
  let c0_i32_32 : BitVec 32 := 0#32
  let c1_i32_33 : BitVec 32 := 1#32
  let arg17 : BitVec 32 := Scf.iv c0_i32_32 c1_i32_33 k8_t1
  let c7_i32_158 : BitVec 32 := 7#32
  let v153 : BitVec 1 := Scalar.cmpi .slt arg17 c7_i32_158
  let v154 : BitVec 32 := Scalar.extui v153
  let c0_i32_159 : BitVec 32 := 0#32
  let v155 : BitVec 1 := Scalar.cmpi .ne v154 c0_i32_159
  v155

def k8_off7 (k8_t1 : Fin k8_t1_loop.trips) : Fin 2 → Nat :=
  let c0_i32_32 : BitVec 32 := 0#32
  let c1_i32_33 : BitVec 32 := 1#32
  let arg17 : BitVec 32 := Scf.iv c0_i32_32 c1_i32_33 k8_t1
  let c5_i32_148 : BitVec 32 := 5#32
  let v143 : BitVec 32 := Scalar.muli arg17 c5_i32_148
  let c3_i32_149 : BitVec 32 := 3#32
  let v144 : BitVec 32 := Scalar.addi v143 c3_i32_149
  let c5_i32_172 : BitVec 32 := 5#32
  let v169 : BitVec 32 := Scalar.addi v144 c5_i32_172
  let c0_i32_176 : BitVec 32 := 0#32
  ![v169.toNat, 0]
def k8_cond5 (k8_t1 : Fin k8_t1_loop.trips) : BitVec 1 :=
  let c0_i32_32 : BitVec 32 := 0#32
  let c1_i32_33 : BitVec 32 := 1#32
  let arg17 : BitVec 32 := Scf.iv c0_i32_32 c1_i32_33 k8_t1
  let c7_i32_170 : BitVec 32 := 7#32
  let v166 : BitVec 1 := Scalar.cmpi .slt arg17 c7_i32_170
  let v167 : BitVec 32 := Scalar.extui v166
  let c0_i32_171 : BitVec 32 := 0#32
  let v168 : BitVec 1 := Scalar.cmpi .ne v167 c0_i32_171
  v168

def k8_off8 (k8_t1 : Fin k8_t1_loop.trips) : Fin 2 → Nat :=
  let c0_i32_32 : BitVec 32 := 0#32
  let c1_i32_33 : BitVec 32 := 1#32
  let arg17 : BitVec 32 := Scf.iv c0_i32_32 c1_i32_33 k8_t1
  let c5_i32_160 : BitVec 32 := 5#32
  let v156 : BitVec 32 := Scalar.muli arg17 c5_i32_160
  let c4_i32_161 : BitVec 32 := 4#32
  let v157 : BitVec 32 := Scalar.addi v156 c4_i32_161
  let c5_i32_172 : BitVec 32 := 5#32
  let v169 : BitVec 32 := Scalar.addi v157 c5_i32_172
  let c0_i32_176 : BitVec 32 := 0#32
  ![v169.toNat, 0]
abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 3 → Nat :=
  let arg0 : BitVec 32 := BitVec.ofNat 32 (i 0).val
  let c40_i32 : BitVec 32 := 40#32
  let v0 : BitVec 32 := Scalar.addi arg0 c40_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c40_i32_5 : BitVec 32 := 40#32
  let v18 : BitVec 32 := Scalar.addi arg0 c40_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S16384x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x64x16384 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))

class Facts₀ : Prop where
  transposes_S16384x50_S50x16384_1_0 : S16384x50.Transposes [1, 0] S50x16384
  shapeCasts_S50x16384_S819200 : S50x16384.ShapeCasts S819200
  slices_S819200_S163840_0 : S819200.Slices ![0] S163840
  shapeCasts_S163840_S32x40x128 : S163840.ShapeCasts S32x40x128
  squeezes_S1x40x128_S40x128 : S1x40x128.Squeezes S40x128
  inb_S5x128x128_S1x128x128_0_0_0 : ∀ a, (![0, 0, 0] : Fin 3 → Nat) a + S1x128x128.size a ≤ S5x128x128.size a
  squeezes_S1x128x128_S128x128 : S1x128x128.Squeezes S128x128
  inb_S40x128_S1x128_0_0 : ∀ a, (![0, 0] : Fin 2 → Nat) a + S1x128.size a ≤ S40x128.size a
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  inb_S5x128x128_S1x128x128_1_0_0 : ∀ a, (![1, 0, 0] : Fin 3 → Nat) a + S1x128x128.size a ≤ S5x128x128.size a
  inb_S40x128_S1x128_1_0 : ∀ a, (![1, 0] : Fin 2 → Nat) a + S1x128.size a ≤ S40x128.size a
  inb_S5x128x128_S1x128x128_2_0_0 : ∀ a, (![2, 0, 0] : Fin 3 → Nat) a + S1x128x128.size a ≤ S5x128x128.size a
  inb_S40x128_S1x128_2_0 : ∀ a, (![2, 0] : Fin 2 → Nat) a + S1x128.size a ≤ S40x128.size a
  inb_S5x128x128_S1x128x128_3_0_0 : ∀ a, (![3, 0, 0] : Fin 3 → Nat) a + S1x128x128.size a ≤ S5x128x128.size a
  inb_S40x128_S1x128_3_0 : ∀ a, (![3, 0] : Fin 2 → Nat) a + S1x128.size a ≤ S40x128.size a
  inb_S5x128x128_S1x128x128_4_0_0 : ∀ a, (![4, 0, 0] : Fin 3 → Nat) a + S1x128x128.size a ≤ S5x128x128.size a
  inb_S40x128_S1x128_4_0 : ∀ a, (![4, 0] : Fin 2 → Nat) a + S1x128.size a ≤ S40x128.size a
  inb_S64x128_S64x128_0_0 : ∀ a, (![0, 0] : Fin 2 → Nat) a + S64x128.size a ≤ S64x128.size a
  h_S64x128 : 0 < S64x128.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S64x16384_S1x64x16384 : S64x16384.ShapeCasts S1x64x16384
  inb_S1x64x16384_S1x64x16384_0_0_0 : ∀ a, (![0, 0, 0] : Fin 3 → Nat) a + S1x64x16384.size a ≤ S1x64x16384.size a
  h_S1x64x16384 : 0 < S1x64x16384.numel
  slices_S819200_S163840_163840 : S819200.Slices ![163840] S163840
  slices_S819200_S163840_327680 : S819200.Slices ![327680] S163840
  slices_S819200_S163840_491520 : S819200.Slices ![491520] S163840
  slices_S819200_S163840_655360 : S819200.Slices ![655360] S163840
  transposes_S50x64x16384_S16384x50x64_2_0_1 : S50x64x16384.Transposes [2, 0, 1] S16384x50x64
  dot_S64x128_S16384x128_S64x16384_1_1_0_0_n_n_wf : DotDims.WF S64x128 S16384x128 S64x16384 [1] [1] [0] [0] [] []
  hcc0_scratch2 : 0 + S_.numel ≤ 80
  hcc0_scratch3 : 1 + S_.numel ≤ 80
  hcc0_scratch4 : 2 + S_.numel ≤ 80
  hcc0_scratch5 : 3 + S_.numel ≤ 80
  hcc0_scratch6 : 4 + S_.numel ≤ 80
  hcc0_scratch7 : 5 + S_.numel ≤ 80
  hcc0_scratch8 : 6 + S_.numel ≤ 80
  hcc0_scratch9 : 7 + S_.numel ≤ 80
  hcc0_scratch10 : 8 + S_.numel ≤ 80
  hcc0_scratch11 : 9 + S_.numel ≤ 80
  hcc0_scoped0 : 10 + S_.numel ≤ 80
  hcc2_scratch2 : 16 + S_.numel ≤ 80
  hcc2_scratch3 : 17 + S_.numel ≤ 80
  hcc2_scratch4 : 18 + S_.numel ≤ 80
  hcc2_scratch5 : 19 + S_.numel ≤ 80
  hcc2_scratch6 : 20 + S_.numel ≤ 80
  hcc2_scratch7 : 21 + S_.numel ≤ 80
  hcc2_scratch8 : 22 + S_.numel ≤ 80
  hcc2_scratch9 : 23 + S_.numel ≤ 80
  hcc2_scratch10 : 24 + S_.numel ≤ 80
  hcc2_scratch11 : 25 + S_.numel ≤ 80
  hcc2_scoped0 : 26 + S_.numel ≤ 80
  hcc4_scratch2 : 32 + S_.numel ≤ 80
  hcc4_scratch3 : 33 + S_.numel ≤ 80
  hcc4_scratch4 : 34 + S_.numel ≤ 80
  hcc4_scratch5 : 35 + S_.numel ≤ 80
  hcc4_scratch6 : 36 + S_.numel ≤ 80
  hcc4_scratch7 : 37 + S_.numel ≤ 80
  hcc4_scratch8 : 38 + S_.numel ≤ 80
  hcc4_scratch9 : 39 + S_.numel ≤ 80
  hcc4_scratch10 : 40 + S_.numel ≤ 80
  hcc4_scratch11 : 41 + S_.numel ≤ 80
  hcc4_scoped0 : 42 + S_.numel ≤ 80
  hcc6_scratch2 : 48 + S_.numel ≤ 80
  hcc6_scratch3 : 49 + S_.numel ≤ 80
  hcc6_scratch4 : 50 + S_.numel ≤ 80
  hcc6_scratch5 : 51 + S_.numel ≤ 80
  hcc6_scratch6 : 52 + S_.numel ≤ 80
  hcc6_scratch7 : 53 + S_.numel ≤ 80
  hcc6_scratch8 : 54 + S_.numel ≤ 80
  hcc6_scratch9 : 55 + S_.numel ≤ 80
  hcc6_scratch10 : 56 + S_.numel ≤ 80
  hcc6_scratch11 : 57 + S_.numel ≤ 80
  hcc6_scoped0 : 58 + S_.numel ≤ 80
  hcc8_scratch2 : 64 + S_.numel ≤ 80
  hcc8_scratch3 : 65 + S_.numel ≤ 80
  hcc8_scratch4 : 66 + S_.numel ≤ 80
  hcc8_scratch5 : 67 + S_.numel ≤ 80
  hcc8_scratch6 : 68 + S_.numel ≤ 80
  hcc8_scratch7 : 69 + S_.numel ≤ 80
  hcc8_scratch8 : 70 + S_.numel ≤ 80
  hcc8_scratch9 : 71 + S_.numel ≤ 80
  hcc8_scratch10 : 72 + S_.numel ≤ 80
  hcc8_scratch11 : 73 + S_.numel ≤ 80
  hcc8_scoped0 : 74 + S_.numel ≤ 80
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x40x128.size a ≤ S32x40x128.size a
  k0_t1_ok : k0_t1_loop.OK
  k0_off2_inb : ∀ k0_t1 : Fin k0_t1_loop.trips, ∀ (r : Fin 5), ∀ a, (k0_off2 k0_t1 (BitVec.ofNat 32 r.val)) a + S1x128.size a ≤ S40x128.size a
  k0_off3_inb : ∀ (i : grid0.Coords) (k0_t1 : Fin k0_t1_loop.trips), ∀ (r : Fin 5), ∀ a, (k0_off3 i k0_t1 (BitVec.ofNat 32 r.val)) a + S128x128.size a ≤ S163840x128.size a
  k0_off4_inb : ∀ k0_t1 : Fin k0_t1_loop.trips, ∀ (k0_h1 : k0_cond1 k0_t1 = 1#1), ∀ a, (k0_off4 k0_t1) a + S1x128.size a ≤ S40x128.size a
  k0_off5_inb : ∀ k0_t1 : Fin k0_t1_loop.trips, ∀ (k0_h2 : k0_cond2 k0_t1 = 1#1), ∀ a, (k0_off5 k0_t1) a + S1x128.size a ≤ S40x128.size a
  k0_off6_inb : ∀ k0_t1 : Fin k0_t1_loop.trips, ∀ (k0_h3 : k0_cond3 k0_t1 = 1#1), ∀ a, (k0_off6 k0_t1) a + S1x128.size a ≤ S40x128.size a
  k0_off7_inb : ∀ k0_t1 : Fin k0_t1_loop.trips, ∀ (k0_h4 : k0_cond4 k0_t1 = 1#1), ∀ a, (k0_off7 k0_t1) a + S1x128.size a ≤ S40x128.size a
  k0_off8_inb : ∀ k0_t1 : Fin k0_t1_loop.trips, ∀ (k0_h5 : k0_cond5 k0_t1 = 1#1), ∀ a, (k0_off8 k0_t1) a + S1x128.size a ≤ S40x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x128.size a
  hwx1_0 : ∀ i : grid1.Coords, EltTy.bits .f32 = 32 ∨ (Rect.block (s := S64x128) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S163840x128.size a
  hwx1_1 : ∀ i : grid1.Coords, EltTy.bits .f32 = 32 ∨ (Rect.block (s := S163840x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x16384.size a ≤ S50x64x16384.size a
  hwx1_2 : ∀ i : grid1.Coords, EltTy.bits .f32 = 32 ∨ (Rect.block (s := S50x64x16384) S1x64x16384.size (cc1_transform_2 i) (hinb1_2 i)).WholeWords (EltTy.packing .f32)
  hcore2 : grid2.bound 0 ≤ τ.nSC
  hsub2 : grid2.bound 1 ≤ τ.nSub
  k2_off1_inb : ∀ i : grid2.Coords, ∀ a, (k2_off1 i) a + S1x40x128.size a ≤ S32x40x128.size a
  k2_t1_ok : k2_t1_loop.OK
  k2_off2_inb : ∀ k2_t1 : Fin k2_t1_loop.trips, ∀ (r : Fin 5), ∀ a, (k2_off2 k2_t1 (BitVec.ofNat 32 r.val)) a + S1x128.size a ≤ S40x128.size a
  k2_off3_inb : ∀ (i : grid2.Coords) (k2_t1 : Fin k2_t1_loop.trips), ∀ (r : Fin 5), ∀ a, (k2_off3 i k2_t1 (BitVec.ofNat 32 r.val)) a + S128x128.size a ≤ S163840x128.size a
  k2_off4_inb : ∀ k2_t1 : Fin k2_t1_loop.trips, ∀ (k2_h1 : k2_cond1 k2_t1 = 1#1), ∀ a, (k2_off4 k2_t1) a + S1x128.size a ≤ S40x128.size a
  k2_off5_inb : ∀ k2_t1 : Fin k2_t1_loop.trips, ∀ (k2_h2 : k2_cond2 k2_t1 = 1#1), ∀ a, (k2_off5 k2_t1) a + S1x128.size a ≤ S40x128.size a
  k2_off6_inb : ∀ k2_t1 : Fin k2_t1_loop.trips, ∀ (k2_h3 : k2_cond3 k2_t1 = 1#1), ∀ a, (k2_off6 k2_t1) a + S1x128.size a ≤ S40x128.size a
  k2_off7_inb : ∀ k2_t1 : Fin k2_t1_loop.trips, ∀ (k2_h4 : k2_cond4 k2_t1 = 1#1), ∀ a, (k2_off7 k2_t1) a + S1x128.size a ≤ S40x128.size a
  k2_off8_inb : ∀ k2_t1 : Fin k2_t1_loop.trips, ∀ (k2_h5 : k2_cond5 k2_t1 = 1#1), ∀ a, (k2_off8 k2_t1) a + S1x128.size a ≤ S40x128.size a
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16384x128.size a ≤ S163840x128.size a
  hwx3_1 : ∀ i : grid3.Coords, EltTy.bits .f32 = 32 ∨ (Rect.block (s := S163840x128) S16384x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_3 i = cc3_transform_3 i'
  hinb3_2 : ∀ (i : grid3.Coords) a, (cc3_transform_3 i a + 1) * S1x64x16384.size a ≤ S50x64x16384.size a
  hwx3_2 : ∀ i : grid3.Coords, EltTy.bits .f32 = 32 ∨ (Rect.block (s := S50x64x16384) S1x64x16384.size (cc3_transform_3 i) (hinb3_2 i)).WholeWords (EltTy.packing .f32)
  hcore4 : grid4.bound 0 ≤ τ.nSC
  hsub4 : grid4.bound 1 ≤ τ.nSub
  k4_off1_inb : ∀ i : grid4.Coords, ∀ a, (k4_off1 i) a + S1x40x128.size a ≤ S32x40x128.size a
  k4_t1_ok : k4_t1_loop.OK
  k4_off2_inb : ∀ k4_t1 : Fin k4_t1_loop.trips, ∀ (r : Fin 5), ∀ a, (k4_off2 k4_t1 (BitVec.ofNat 32 r.val)) a + S1x128.size a ≤ S40x128.size a
  k4_off3_inb : ∀ (i : grid4.Coords) (k4_t1 : Fin k4_t1_loop.trips), ∀ (r : Fin 5), ∀ a, (k4_off3 i k4_t1 (BitVec.ofNat 32 r.val)) a + S128x128.size a ≤ S163840x128.size a
  k4_off4_inb : ∀ k4_t1 : Fin k4_t1_loop.trips, ∀ (k4_h1 : k4_cond1 k4_t1 = 1#1), ∀ a, (k4_off4 k4_t1) a + S1x128.size a ≤ S40x128.size a
  k4_off5_inb : ∀ k4_t1 : Fin k4_t1_loop.trips, ∀ (k4_h2 : k4_cond2 k4_t1 = 1#1), ∀ a, (k4_off5 k4_t1) a + S1x128.size a ≤ S40x128.size a
  k4_off6_inb : ∀ k4_t1 : Fin k4_t1_loop.trips, ∀ (k4_h3 : k4_cond3 k4_t1 = 1#1), ∀ a, (k4_off6 k4_t1) a + S1x128.size a ≤ S40x128.size a
  k4_off7_inb : ∀ k4_t1 : Fin k4_t1_loop.trips, ∀ (k4_h4 : k4_cond4 k4_t1 = 1#1), ∀ a, (k4_off7 k4_t1) a + S1x128.size a ≤ S40x128.size a
  k4_off8_inb : ∀ k4_t1 : Fin k4_t1_loop.trips, ∀ (k4_h5 : k4_cond5 k4_t1 = 1#1), ∀ a, (k4_off8 k4_t1) a + S1x128.size a ≤ S40x128.size a
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x128.size a ≤ S64x128.size a
  hwx5_0 : ∀ i : grid5.Coords, EltTy.bits .f32 = 32 ∨ (Rect.block (s := S64x128) S64x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16384x128.size a ≤ S163840x128.size a
  hwx5_1 : ∀ i : grid5.Coords, EltTy.bits .f32 = 32 ∨ (Rect.block (s := S163840x128) S16384x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_3 i = cc5_transform_3 i'
  hinb5_2 : ∀ (i : grid5.Coords) a, (cc5_transform_3 i a + 1) * S1x64x16384.size a ≤ S50x64x16384.size a
  hwx5_2 : ∀ i : grid5.Coords, EltTy.bits .f32 = 32 ∨ (Rect.block (s := S50x64x16384) S1x64x16384.size (cc5_transform_3 i) (hinb5_2 i)).WholeWords (EltTy.packing .f32)
  hcore6 : grid6.bound 0 ≤ τ.nSC
  hsub6 : grid6.bound 1 ≤ τ.nSub
  k6_off1_inb : ∀ i : grid6.Coords, ∀ a, (k6_off1 i) a + S1x40x128.size a ≤ S32x40x128.size a
  k6_t1_ok : k6_t1_loop.OK
  k6_off2_inb : ∀ k6_t1 : Fin k6_t1_loop.trips, ∀ (r : Fin 5), ∀ a, (k6_off2 k6_t1 (BitVec.ofNat 32 r.val)) a + S1x128.size a ≤ S40x128.size a
  k6_off3_inb : ∀ (i : grid6.Coords) (k6_t1 : Fin k6_t1_loop.trips), ∀ (r : Fin 5), ∀ a, (k6_off3 i k6_t1 (BitVec.ofNat 32 r.val)) a + S128x128.size a ≤ S163840x128.size a
  k6_off4_inb : ∀ k6_t1 : Fin k6_t1_loop.trips, ∀ (k6_h1 : k6_cond1 k6_t1 = 1#1), ∀ a, (k6_off4 k6_t1) a + S1x128.size a ≤ S40x128.size a
  k6_off5_inb : ∀ k6_t1 : Fin k6_t1_loop.trips, ∀ (k6_h2 : k6_cond2 k6_t1 = 1#1), ∀ a, (k6_off5 k6_t1) a + S1x128.size a ≤ S40x128.size a
  k6_off6_inb : ∀ k6_t1 : Fin k6_t1_loop.trips, ∀ (k6_h3 : k6_cond3 k6_t1 = 1#1), ∀ a, (k6_off6 k6_t1) a + S1x128.size a ≤ S40x128.size a
  k6_off7_inb : ∀ k6_t1 : Fin k6_t1_loop.trips, ∀ (k6_h4 : k6_cond4 k6_t1 = 1#1), ∀ a, (k6_off7 k6_t1) a + S1x128.size a ≤ S40x128.size a
  k6_off8_inb : ∀ k6_t1 : Fin k6_t1_loop.trips, ∀ (k6_h5 : k6_cond5 k6_t1 = 1#1), ∀ a, (k6_off8 k6_t1) a + S1x128.size a ≤ S40x128.size a
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x128.size a ≤ S64x128.size a
  hwx7_0 : ∀ i : grid7.Coords, EltTy.bits .f32 = 32 ∨ (Rect.block (s := S64x128) S64x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S16384x128.size a ≤ S163840x128.size a
  hwx7_1 : ∀ i : grid7.Coords, EltTy.bits .f32 = 32 ∨ (Rect.block (s := S163840x128) S16384x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_3 i = cc7_transform_3 i'
  hinb7_2 : ∀ (i : grid7.Coords) a, (cc7_transform_3 i a + 1) * S1x64x16384.size a ≤ S50x64x16384.size a
  hwx7_2 : ∀ i : grid7.Coords, EltTy.bits .f32 = 32 ∨ (Rect.block (s := S50x64x16384) S1x64x16384.size (cc7_transform_3 i) (hinb7_2 i)).WholeWords (EltTy.packing .f32)
  hcore8 : grid8.bound 0 ≤ τ.nSC
  hsub8 : grid8.bound 1 ≤ τ.nSub
  k8_off1_inb : ∀ i : grid8.Coords, ∀ a, (k8_off1 i) a + S1x40x128.size a ≤ S32x40x128.size a
  k8_t1_ok : k8_t1_loop.OK
  k8_off2_inb : ∀ k8_t1 : Fin k8_t1_loop.trips, ∀ (r : Fin 5), ∀ a, (k8_off2 k8_t1 (BitVec.ofNat 32 r.val)) a + S1x128.size a ≤ S40x128.size a
  k8_off3_inb : ∀ (i : grid8.Coords) (k8_t1 : Fin k8_t1_loop.trips), ∀ (r : Fin 5), ∀ a, (k8_off3 i k8_t1 (BitVec.ofNat 32 r.val)) a + S128x128.size a ≤ S163840x128.size a
  k8_off4_inb : ∀ k8_t1 : Fin k8_t1_loop.trips, ∀ (k8_h1 : k8_cond1 k8_t1 = 1#1), ∀ a, (k8_off4 k8_t1) a + S1x128.size a ≤ S40x128.size a
  k8_off5_inb : ∀ k8_t1 : Fin k8_t1_loop.trips, ∀ (k8_h2 : k8_cond2 k8_t1 = 1#1), ∀ a, (k8_off5 k8_t1) a + S1x128.size a ≤ S40x128.size a
  k8_off6_inb : ∀ k8_t1 : Fin k8_t1_loop.trips, ∀ (k8_h3 : k8_cond3 k8_t1 = 1#1), ∀ a, (k8_off6 k8_t1) a + S1x128.size a ≤ S40x128.size a
  k8_off7_inb : ∀ k8_t1 : Fin k8_t1_loop.trips, ∀ (k8_h4 : k8_cond4 k8_t1 = 1#1), ∀ a, (k8_off7 k8_t1) a + S1x128.size a ≤ S40x128.size a
  k8_off8_inb : ∀ k8_t1 : Fin k8_t1_loop.trips, ∀ (k8_h5 : k8_cond5 k8_t1 = 1#1), ∀ a, (k8_off8 k8_t1) a + S1x128.size a ≤ S40x128.size a
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .f32 = 32 ∨ (Rect.block (s := S64x128) S64x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S16384x128.size a ≤ S163840x128.size a
  hwx9_1 : ∀ i : grid9.Coords, EltTy.bits .f32 = 32 ∨ (Rect.block (s := S163840x128) S16384x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_3 i = cc9_transform_3 i'
  hinb9_2 : ∀ (i : grid9.Coords) a, (cc9_transform_3 i a + 1) * S1x64x16384.size a ≤ S50x64x16384.size a
  hwx9_2 : ∀ i : grid9.Coords, EltTy.bits .f32 = 32 ∨ (Rect.block (s := S50x64x16384) S1x64x16384.size (cc9_transform_3 i) (hinb9_2 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scoped0 : DmaSems sig S_ := SemArray.consecutive 10 S_ hcc0_scoped0
abbrev cc2_scratch2 : DmaSems sig S_ := SemArray.consecutive 16 S_ hcc2_scratch2
abbrev cc2_scratch3 : DmaSems sig S_ := SemArray.consecutive 17 S_ hcc2_scratch3
abbrev cc2_scratch4 : DmaSems sig S_ := SemArray.consecutive 18 S_ hcc2_scratch4
abbrev cc2_scratch5 : DmaSems sig S_ := SemArray.consecutive 19 S_ hcc2_scratch5
abbrev cc2_scratch6 : DmaSems sig S_ := SemArray.consecutive 20 S_ hcc2_scratch6
abbrev cc2_scratch7 : DmaSems sig S_ := SemArray.consecutive 21 S_ hcc2_scratch7
abbrev cc2_scratch8 : DmaSems sig S_ := SemArray.consecutive 22 S_ hcc2_scratch8
abbrev cc2_scratch9 : DmaSems sig S_ := SemArray.consecutive 23 S_ hcc2_scratch9
abbrev cc2_scratch10 : DmaSems sig S_ := SemArray.consecutive 24 S_ hcc2_scratch10
abbrev cc2_scratch11 : DmaSems sig S_ := SemArray.consecutive 25 S_ hcc2_scratch11
abbrev cc2_scoped0 : DmaSems sig S_ := SemArray.consecutive 26 S_ hcc2_scoped0
abbrev cc4_scratch2 : DmaSems sig S_ := SemArray.consecutive 32 S_ hcc4_scratch2
abbrev cc4_scratch3 : DmaSems sig S_ := SemArray.consecutive 33 S_ hcc4_scratch3
abbrev cc4_scratch4 : DmaSems sig S_ := SemArray.consecutive 34 S_ hcc4_scratch4
abbrev cc4_scratch5 : DmaSems sig S_ := SemArray.consecutive 35 S_ hcc4_scratch5
abbrev cc4_scratch6 : DmaSems sig S_ := SemArray.consecutive 36 S_ hcc4_scratch6
abbrev cc4_scratch7 : DmaSems sig S_ := SemArray.consecutive 37 S_ hcc4_scratch7
abbrev cc4_scratch8 : DmaSems sig S_ := SemArray.consecutive 38 S_ hcc4_scratch8
abbrev cc4_scratch9 : DmaSems sig S_ := SemArray.consecutive 39 S_ hcc4_scratch9
abbrev cc4_scratch10 : DmaSems sig S_ := SemArray.consecutive 40 S_ hcc4_scratch10
abbrev cc4_scratch11 : DmaSems sig S_ := SemArray.consecutive 41 S_ hcc4_scratch11
abbrev cc4_scoped0 : DmaSems sig S_ := SemArray.consecutive 42 S_ hcc4_scoped0
abbrev cc6_scratch2 : DmaSems sig S_ := SemArray.consecutive 48 S_ hcc6_scratch2
abbrev cc6_scratch3 : DmaSems sig S_ := SemArray.consecutive 49 S_ hcc6_scratch3
abbrev cc6_scratch4 : DmaSems sig S_ := SemArray.consecutive 50 S_ hcc6_scratch4
abbrev cc6_scratch5 : DmaSems sig S_ := SemArray.consecutive 51 S_ hcc6_scratch5
abbrev cc6_scratch6 : DmaSems sig S_ := SemArray.consecutive 52 S_ hcc6_scratch6
abbrev cc6_scratch7 : DmaSems sig S_ := SemArray.consecutive 53 S_ hcc6_scratch7
abbrev cc6_scratch8 : DmaSems sig S_ := SemArray.consecutive 54 S_ hcc6_scratch8
abbrev cc6_scratch9 : DmaSems sig S_ := SemArray.consecutive 55 S_ hcc6_scratch9
abbrev cc6_scratch10 : DmaSems sig S_ := SemArray.consecutive 56 S_ hcc6_scratch10
abbrev cc6_scratch11 : DmaSems sig S_ := SemArray.consecutive 57 S_ hcc6_scratch11
abbrev cc6_scoped0 : DmaSems sig S_ := SemArray.consecutive 58 S_ hcc6_scoped0
abbrev cc8_scratch2 : DmaSems sig S_ := SemArray.consecutive 64 S_ hcc8_scratch2
abbrev cc8_scratch3 : DmaSems sig S_ := SemArray.consecutive 65 S_ hcc8_scratch3
abbrev cc8_scratch4 : DmaSems sig S_ := SemArray.consecutive 66 S_ hcc8_scratch4
abbrev cc8_scratch5 : DmaSems sig S_ := SemArray.consecutive 67 S_ hcc8_scratch5
abbrev cc8_scratch6 : DmaSems sig S_ := SemArray.consecutive 68 S_ hcc8_scratch6
abbrev cc8_scratch7 : DmaSems sig S_ := SemArray.consecutive 69 S_ hcc8_scratch7
abbrev cc8_scratch8 : DmaSems sig S_ := SemArray.consecutive 70 S_ hcc8_scratch8
abbrev cc8_scratch9 : DmaSems sig S_ := SemArray.consecutive 71 S_ hcc8_scratch9
abbrev cc8_scratch10 : DmaSems sig S_ := SemArray.consecutive 72 S_ hcc8_scratch10
abbrev cc8_scratch11 : DmaSems sig S_ := SemArray.consecutive 73 S_ hcc8_scratch11
abbrev cc8_scoped0 : DmaSems sig S_ := SemArray.consecutive 74 S_ hcc8_scoped0
def dot_S64x128_S16384x128_S64x16384_1_1_0_0_n_n : DotDims S64x128 S16384x128 S64x16384 where
  lhsContracting := [1]
  rhsContracting := [1]
  lhsNonContracting := [0]
  rhsNonContracting := [0]
  lhsBatch := []
  rhsBatch := []
  wf := dot_S64x128_S16384x128_S64x16384_1_1_0_0_n_n_wf

abbrev win1_0 : Pipeline.Window sig grid1 :=
  Pipeline.Window.ofSpec (Memref.whole main_arg2) S64x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16384x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win3_0 : Pipeline.Window sig grid3 :=
  Pipeline.Window.ofSpec (Memref.whole main_arg2) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v8) S16384x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x64x16384.size cc3_transform_3 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win5_0 : Pipeline.Window sig grid5 :=
  Pipeline.Window.ofSpec (Memref.whole main_arg2) S64x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v12) S16384x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S1x64x16384.size cc5_transform_3 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win7_0 : Pipeline.Window sig grid7 :=
  Pipeline.Window.ofSpec (Memref.whole main_arg2) S64x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v16) S16384x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v17) S1x64x16384.size cc7_transform_3 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win9_0 : Pipeline.Window sig grid9 :=
  Pipeline.Window.ofSpec (Memref.whole main_arg2) S64x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v20) S16384x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v21) S1x64x16384.size cc9_transform_3 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S16384x50 : Shape := ⟨2, ![16384, 50]⟩
abbrev S1000000x128 : Shape := ⟨2, ![1000000, 128]⟩
abbrev S64x128 : Shape := ⟨2, ![64, 128]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩
abbrev S16384x50x64 : Shape := ⟨3, ![16384, 50, 64]⟩

abbrev nBuf : Space → Nat
  | .hbm => 27
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x128, .f32⟩
  | .hbm, ⟨2, _⟩ => ⟨S64x128, .f32⟩
  | .hbm, ⟨3, _⟩ => ⟨S_, .i32⟩
  | .hbm, ⟨4, _⟩ => ⟨S16384x50, .i32⟩
  | .hbm, ⟨5, _⟩ => ⟨S16384x50, .i1⟩
  | .hbm, ⟨6, _⟩ => ⟨S_, .i32⟩
  | .hbm, ⟨7, _⟩ => ⟨S16384x50, .i32⟩
  | .hbm, ⟨8, _⟩ => ⟨S16384x50, .i32⟩
  | .hbm, ⟨9, _⟩ => ⟨S16384x50, .i32⟩
  | .hbm, ⟨10, _⟩ => ⟨S16384x50x1, .i32⟩
  | .hbm, ⟨11, _⟩ => ⟨S1, .i32⟩
  | .hbm, ⟨12, _⟩ => ⟨S_, .i32⟩
  | .hbm, ⟨13, _⟩ => ⟨S16384x50x1, .i32⟩
  | .hbm, ⟨14, _⟩ => ⟨S16384x50x1, .i1⟩
  | .hbm, ⟨15, _⟩ => ⟨S1x1x1, .i32⟩
  | .hbm, ⟨16, _⟩ => ⟨S16384x50x1, .i32⟩
  | .hbm, ⟨17, _⟩ => ⟨S16384x50x1, .i1⟩
  | .hbm, ⟨18, _⟩ => ⟨S16384x50x1, .i1⟩
  | .hbm, ⟨19, _⟩ => ⟨S_, .i1⟩
  | .hbm, ⟨20, _⟩ => ⟨S16384x50, .i1⟩
  | .hbm, ⟨21, _⟩ => ⟨S16384x50x128, .f32⟩
  | .hbm, ⟨22, _⟩ => ⟨S16384x50x128, .i1⟩
  | .hbm, ⟨23, _⟩ => ⟨S_, .f32⟩
  | .hbm, ⟨24, _⟩ => ⟨S16384x50x128, .f32⟩
  | .hbm, ⟨25, _⟩ => ⟨S16384x50x128, .f32⟩
  | .hbm, ⟨26, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  gather_S1000000x128_S16384x50x1_S16384x50x128_2_0_n_n_0_2_1128_wf : GatherDims.WF S1000000x128 S16384x50x1 S16384x50x128 [2] [0] [] [0] [] 2 ![1, 128]
  dot_S16384x50x128_S64x128_S16384x50x64_2_1_01_0_n_n_wf : DotDims.WF S16384x50x128 S64x128 S16384x50x64 [2] [1] [0, 1] [0] [] []

variable [Facts₀]

def gather_S1000000x128_S16384x50x1_S16384x50x128_2_0_n_n_0_2_1128 : GatherDims S1000000x128 S16384x50x1 S16384x50x128 where
  offsetDims := [2]
  collapsedSliceDims := [0]
  operandBatchingDims := []
  startIndicesBatchingDims := []
  startIndexMap := [0]
  indexVectorDim := 2
  sliceSizes := ![1, 128]
  wf := gather_S1000000x128_S16384x50x1_S16384x50x128_2_0_n_n_0_2_1128_wf
def dot_S16384x50x128_S64x128_S16384x50x64_2_1_01_0_n_n : DotDims S16384x50x128 S64x128 S16384x50x64 where
  lhsContracting := [2]
  rhsContracting := [1]
  lhsNonContracting := [0, 1]
  rhsNonContracting := [0]
  lhsBatch := []
  rhsBatch := []
  wf := dot_S16384x50x128_S64x128_S16384x50x64_2_1_01_0_n_n_wf

class Facts : Prop extends Facts₀ where

variable [Facts]
-- ==== Proof.Base.lean ====
/-
  The program as the launch theorem of a SparseCore program sees it: five vector-subcore gather calls and five
  TensorCore matrix-product regions in one @main. This module fixes the label set, the body table, the
  ghost-state algebra (the handshakes' rounds, the TensorCore pipelines' rounds, the transfers' counters) and
  the embeddings of each factor, for every float instance at once.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206421_g46840913330738_cont_8to1c4_247_26_alg».proof.Proof.Gen.KernelIdeal
import proofs.«206421_g46840913330738_cont_8to1c4_247_26_alg».proof.Proof.Gen.KernelIdeal.Skeleton
import proofs.«206421_g46840913330738_cont_8to1c4_247_26_alg».proof.Proof.Gen.KernelIdeal.Launch
import proofs.«206421_g46840913330738_cont_8to1c4_247_26_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

/-- The machine's algebra at float instance `F`. -/
abbrev MM (F : FTy → Type) : Type := MT nD τ sig (HIx 5) (Elt F) ℕ UU ℕ

/-- The handshakes' rounds sit in the left factor. -/
abbrev EH : Emb UH (MM F) := embL
/-- The pipelines' rounds sit in the left factor of the right factor; the counters are found by instance beside them. -/
def EP : Emb UP (MM F) :=
  ((Emb.inl : Emb UP (UP × Counters)).trans (Emb.inr : Emb (UP × Counters) UU)).trans
    (uEmb (nD := nD) (sig := sig) (Ix := HIx 5) (Val := Elt F) (Name := ℕ) (U := UU) (Lvl := ℕ)).toEmb

instance EP_landsIn : (EP : Emb UP (MM F)).LandsIn (upEmb : UEmb _ (MM F)) := by unfold EP; infer_instance

end Cert.KernelIdeal.Hand

end
-- ==== Proof.Host.lean ====
/-
  @main's host operations on the TensorCore, named one by one as the program prints them, and the set of the
  TensorCore's unscoped arrays they all live in: the arguments, the transposed and sliced index arrays, the five
  gathered arrays, the five projected arrays and the result. Every operation reads and writes inside that set, so the
  whole set is carried across each of them at a valuation that the operation updates at its result.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

/-- The TensorCore's unscoped arrays, as buffers of the device. -/
def Sall : Finset (DevRef τ sig) :=
  (Finset.univ.filter fun b : Ref sig .tc => ¬ b.isScoped).map ⟨Proc.devRef .tc, Proc.devRef_injective _⟩

/-- The launch valuation of device `d`: every buffer at its launch contents. -/
def V0 (m : (ℓ : Loc nD τ sig) → Buf (Elt F) ℓ) (d : Dev nD) : Valuation τ sig (Elt F) := fun b => m (d, b)

/-- What the launch deals the TensorCore of its arrays is the whole set at the launch valuation. -/
theorem unscoped_held (m : (ℓ : Loc nD τ sig) → Buf (Elt F) ℓ) (d : Dev nD) :
    (unscopedBufs d (fun b => m ((SparseCore.T d).loc b)) : sProp (MM F)) = held (T d) Sall (V0 m d) := by
  unfold unscopedBufs held Sall
  rw [BI.bigSep_map]
  rfl

variable [FloatOps F]

/-- `main_v0` is `main_arg0` with its axes permuted. -/
abbrev op0 : HloOp τ sig (Elt F) := StableHlo.unary main_arg0 main_v0 ((transpose S50x16384 [1, 0] · transposes_S16384x50_S50x16384_1_0) : (⟨S16384x50, .i32⟩ : BufTy).Contents (Elt F) → (⟨S50x16384, .i32⟩ : BufTy).Contents (Elt F))
theorem op0_sub : (op0 (F := F)).bufs ⊆ Sall :=
  show ({Proc.devRef .tc main_arg0, Proc.devRef .tc main_v0} : Finset (DevRef τ sig)) ⊆ Sall by decide
/-- `main_v1` is `main_v0` re-laid in row-major order at another shape. -/
abbrev op1 : HloOp τ sig (Elt F) := StableHlo.reshape main_v0 main_v1 rfl shapeCasts_S50x16384_S819200
theorem op1_sub : (op1 (F := F)).bufs ⊆ Sall :=
  show ({Proc.devRef .tc main_v0, Proc.devRef .tc main_v1} : Finset (DevRef τ sig)) ⊆ Sall by decide
/-- `main_v2` is the stretch of `main_v1` that starts at position 0. -/
abbrev op2 : HloOp τ sig (Elt F) := StableHlo.unary main_v1 main_v2 ((extractStridedSlice S163840 ![0] · slices_S819200_S163840_0) : (⟨S819200, .i32⟩ : BufTy).Contents (Elt F) → (⟨S163840, .i32⟩ : BufTy).Contents (Elt F))
theorem op2_sub : (op2 (F := F)).bufs ⊆ Sall :=
  show ({Proc.devRef .tc main_v1, Proc.devRef .tc main_v2} : Finset (DevRef τ sig)) ⊆ Sall by decide
/-- `main_v3` is `main_v2` re-laid in row-major order at another shape. -/
abbrev op3 : HloOp τ sig (Elt F) := StableHlo.reshape main_v2 main_v3 rfl shapeCasts_S163840_S32x40x128
theorem op3_sub : (op3 (F := F)).bufs ⊆ Sall :=
  show ({Proc.devRef .tc main_v2, Proc.devRef .tc main_v3} : Finset (DevRef τ sig)) ⊆ Sall by decide
/-- `main_v6` is the stretch of `main_v1` that starts at position 163840. -/
abbrev op6 : HloOp τ sig (Elt F) := StableHlo.unary main_v1 main_v6 ((extractStridedSlice S163840 ![163840] · slices_S819200_S163840_163840) : (⟨S819200, .i32⟩ : BufTy).Contents (Elt F) → (⟨S163840, .i32⟩ : BufTy).Contents (Elt F))
theorem op6_sub : (op6 (F := F)).bufs ⊆ Sall :=
  show ({Proc.devRef .tc main_v1, Proc.devRef .tc main_v6} : Finset (DevRef τ sig)) ⊆ Sall by decide
/-- `main_v7` is `main_v6` re-laid in row-major order at another shape. -/
abbrev op7 : HloOp τ sig (Elt F) := StableHlo.reshape main_v6 main_v7 rfl shapeCasts_S163840_S32x40x128
theorem op7_sub : (op7 (F := F)).bufs ⊆ Sall :=
  show ({Proc.devRef .tc main_v6, Proc.devRef .tc main_v7} : Finset (DevRef τ sig)) ⊆ Sall by decide
/-- `main_v9` starts as a copy of `main_v5`: the next matrix-product region writes its own rows into the copy. -/
abbrev op9 : HloOp τ sig (Elt F) := StableHlo.unary main_v5 main_v9 id
theorem op9_sub : (op9 (F := F)).bufs ⊆ Sall :=
  show ({Proc.devRef .tc main_v5, Proc.devRef .tc main_v9} : Finset (DevRef τ sig)) ⊆ Sall by decide
/-- `main_v10` is the stretch of `main_v1` that starts at position 327680. -/
abbrev op11 : HloOp τ sig (Elt F) := StableHlo.unary main_v1 main_v10 ((extractStridedSlice S163840 ![327680] · slices_S819200_S163840_327680) : (⟨S819200, .i32⟩ : BufTy).Contents (Elt F) → (⟨S163840, .i32⟩ : BufTy).Contents (Elt F))
theorem op11_sub : (op11 (F := F)).bufs ⊆ Sall :=
  show ({Proc.devRef .tc main_v1, Proc.devRef .tc main_v10} : Finset (DevRef τ sig)) ⊆ Sall by decide
/-- `main_v11` is `main_v10` re-laid in row-major order at another shape. -/
abbrev op12 : HloOp τ sig (Elt F) := StableHlo.reshape main_v10 main_v11 rfl shapeCasts_S163840_S32x40x128
theorem op12_sub : (op12 (F := F)).bufs ⊆ Sall :=
  show ({Proc.devRef .tc main_v10, Proc.devRef .tc main_v11} : Finset (DevRef τ sig)) ⊆ Sall by decide
/-- `main_v13` starts as a copy of `main_v9`: the next matrix-product region writes its own rows into the copy. -/
abbrev op14 : HloOp τ sig (Elt F) := StableHlo.unary main_v9 main_v13 id
theorem op14_sub : (op14 (F := F)).bufs ⊆ Sall :=
  show ({Proc.devRef .tc main_v9, Proc.devRef .tc main_v13} : Finset (DevRef τ sig)) ⊆ Sall by decide
/-- `main_v14` is the stretch of `main_v1` that starts at position 491520. -/
abbrev op16 : HloOp τ sig (Elt F) := StableHlo.unary main_v1 main_v14 ((extractStridedSlice S163840 ![491520] · slices_S819200_S163840_491520) : (⟨S819200, .i32⟩ : BufTy).Contents (Elt F) → (⟨S163840, .i32⟩ : BufTy).Contents (Elt F))
theorem op16_sub : (op16 (F := F)).bufs ⊆ Sall :=
  show ({Proc.devRef .tc main_v1, Proc.devRef .tc main_v14} : Finset (DevRef τ sig)) ⊆ Sall by decide
/-- `main_v15` is `main_v14` re-laid in row-major order at another shape. -/
abbrev op17 : HloOp τ sig (Elt F) := StableHlo.reshape main_v14 main_v15 rfl shapeCasts_S163840_S32x40x128
theorem op17_sub : (op17 (F := F)).bufs ⊆ Sall :=
  show ({Proc.devRef .tc main_v14, Proc.devRef .tc main_v15} : Finset (DevRef τ sig)) ⊆ Sall by decide
/-- `main_v17` starts as a copy of `main_v13`: the next matrix-product region writes its own rows into the copy. -/
abbrev op19 : HloOp τ sig (Elt F) := StableHlo.unary main_v13 main_v17 id
theorem op19_sub : (op19 (F := F)).bufs ⊆ Sall :=
  show ({Proc.devRef .tc main_v13, Proc.devRef .tc main_v17} : Finset (DevRef τ sig)) ⊆ Sall by decide
/-- `main_v18` is the stretch of `main_v1` that starts at position 655360. -/
abbrev op21 : HloOp τ sig (Elt F) := StableHlo.unary main_v1 main_v18 ((extractStridedSlice S163840 ![655360] · slices_S819200_S163840_655360) : (⟨S819200, .i32⟩ : BufTy).Contents (Elt F) → (⟨S163840, .i32⟩ : BufTy).Contents (Elt F))
theorem op21_sub : (op21 (F := F)).bufs ⊆ Sall :=
  show ({Proc.devRef .tc main_v1, Proc.devRef .tc main_v18} : Finset (DevRef τ sig)) ⊆ Sall by decide
/-- `main_v19` is `main_v18` re-laid in row-major order at another shape. -/
abbrev op22 : HloOp τ sig (Elt F) := StableHlo.reshape main_v18 main_v19 rfl shapeCasts_S163840_S32x40x128
theorem op22_sub : (op22 (F := F)).bufs ⊆ Sall :=
  show ({Proc.devRef .tc main_v18, Proc.devRef .tc main_v19} : Finset (DevRef τ sig)) ⊆ Sall by decide
/-- `main_v21` starts as a copy of `main_v17`: the next matrix-product region writes its own rows into the copy. -/
abbrev op24 : HloOp τ sig (Elt F) := StableHlo.unary main_v17 main_v21 id
theorem op24_sub : (op24 (F := F)).bufs ⊆ Sall :=
  show ({Proc.devRef .tc main_v17, Proc.devRef .tc main_v21} : Finset (DevRef τ sig)) ⊆ Sall by decide
/-- `main_v22` is `main_v21` with its axes permuted. -/
abbrev op26 : HloOp τ sig (Elt F) := StableHlo.unary main_v21 main_v22 ((transpose S16384x50x64 [2, 0, 1] · transposes_S50x64x16384_S16384x50x64_2_0_1) : (⟨S50x64x16384, .f32⟩ : BufTy).Contents (Elt F) → (⟨S16384x50x64, .f32⟩ : BufTy).Contents (Elt F))
theorem op26_sub : (op26 (F := F)).bufs ⊆ Sall :=
  show ({Proc.devRef .tc main_v21, Proc.devRef .tc main_v22} : Finset (DevRef τ sig)) ⊆ Sall by decide

end Cert.KernelIdeal.Hand

end
-- ==== Proof.Tile0Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The SparseCore and the vector subcore the coordinates name. -/
abbrev cV (L : grid0.Coords) : Fin τ.nSC := (L 0).castLE hcore0
abbrev jV (L : grid0.Coords) : Fin τ.nSub := (L 1).castLE hsub0

/-! ## The three arrays, as the TensorCore names them -/

abbrev tabLoc (d : Dev nD) : Loc nD τ sig := (SparseCore.T d).loc main_arg1
abbrev idxLoc (d : Dev nD) : Loc nD τ sig := (SparseCore.T d).loc main_v3
abbrev outLoc (d : Dev nD) : Loc nD τ sig := (SparseCore.T d).loc main_v4

/-! ## The subcore's block of the index array: its leading coordinate is the worker number -/

/-- The block as the body slices it. -/
abbrev idxRect0 (L : grid0.Coords) : Rect S32x40x128 :=
  Rect.unit (s := S32x40x128) (k0_off1 L) S1x40x128.size (k0_off1_inb L)

def idxRows0 (d : Dev nD) (L : grid0.Coords) : Finset (Idx (idxLoc d)) := (idxRect0 L).set

theorem mem_idxRows0 (d : Dev nD) (L : grid0.Coords) (x : S32x40x128.Idx) :
    Iff (x ∈ idxRows0 d L) ((x 0).val = wid L) := by
  show Iff (x ∈ (Rect.unit (s := S32x40x128) (k0_off1 L) S1x40x128.size (k0_off1_inb L)).set) _
  rw [Rect.mem_set_unit]
  have e := k0_off1_eq L
  constructor
  · intro h
    have h0 : 2 * (L 1).val + (L 0).val ≤ (x 0).val ∧ (x 0).val < 2 * (L 1).val + (L 0).val + 1 := by
      have := h 0; rw [e] at this; exact this
    unfold wid; omega
  · intro h a
    rw [e]
    have h1 : (x 1).val < 40 := (x 1).isLt
    have h2 : (x 2).val < 128 := (x 2).isLt
    unfold wid at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect0_inb (L : grid0.Coords) :
    ∀ a, (![5120 * wid L, 0] : Fin 2 → ℕ) a + (![5120, 128] : Fin 2 → ℕ) a ≤ S163840x128.size a := by
  have h := wid_lt L
  intro a
  fin_cases a
  · show 5120 * wid L + 5120 ≤ 163840
    omega
  · show 0 + 128 ≤ 128
    omega

abbrev outRect0 (L : grid0.Coords) : Rect S163840x128 :=
  Rect.unit (s := S163840x128) ![5120 * wid L, 0] ![5120, 128] (outRect0_inb L)

def outRows0 (d : Dev nD) (L : grid0.Coords) : Finset (Idx (outLoc d)) := (outRect0 L).set

theorem mem_outRows0 (d : Dev nD) (L : grid0.Coords) (x : S163840x128.Idx) :
    Iff (x ∈ outRows0 d L) (5120 * wid L ≤ (x 0).val ∧ (x 0).val < 5120 * wid L + 5120) := by
  show Iff (x ∈ (Rect.unit (s := S163840x128) ![5120 * wid L, 0] ![5120, 128] (outRect0_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow0 (I : S32x40x128.Idx → Elt F .i32) (r : Fin 163840) : Fin 1000000 :=
  ⟨(BitVec.toNat (I (S32x40x128.rowMajor.symm (r.cast (by decide))))) % 1000000, Nat.mod_lt _ (by decide)⟩

theorem gatherRow0_val (I : S32x40x128.Idx → Elt F .i32) (r : Fin 163840)
    (h : (BitVec.toNat (I (S32x40x128.rowMajor.symm (r.cast (by decide))))) < 1000000) :
    (gatherRow0 I r).val = BitVec.toNat (I (S32x40x128.rowMajor.symm (r.cast (by decide)))) :=
  Nat.mod_eq_of_lt h

/-- A gather of the table's rows into an array of 163840 rows. -/
theorem gathersAll : S1000000x128.Gathers 0 S163840x128 := Shape.Gathers.rank2 1000000 163840 128

/-- Row r of the gathered array is the table row the index word at flat position r names; the same function for
    every subcore. -/
def gathered0 {d : Dev nD} (tab : Buf (Elt F) (tabLoc d)) (I : Buf (Elt F) (idxLoc d)) : Buf (Elt F) (outLoc d) :=
  SparseCore.gatherPayload (F := F) (e := .f32) gathersAll tab (fun r => gatherRow0 I r)

theorem gathered0_apply {d : Dev nD} (tab : Buf (Elt F) (tabLoc d)) (I : Buf (Elt F) (idxLoc d)) (x : S163840x128.Idx) :
    gathered0 tab I x = tab (gathersAll.idx (fun r => gatherRow0 (F := F) I r) x) := rfl

/-! ## What the subcore is dealt and what it hands back -/

/-- Dealt: a read share of the whole table, the subcore's block of the index array, its rows of the gathered array
    at whatever they hold. -/
def goRes0 (d : Dev nD) (L : grid0.Coords) (tab : Buf (Elt F) (tabLoc d)) (I : Buf (Elt F) (idxLoc d))
    (f : Buf (Elt F) (outLoc d)) : sProp (MM F) :=
  iprop((tabLoc d ↦[Finset.univ]{Transfers.shareTok fullShare 32 ⟨wid L, wid_lt L⟩} tab)
    ∗ (idxLoc d ↦[idxRows0 d L]{fullShare} I)
    ∗ (outLoc d ↦[outRows0 d L]{fullShare} f))

/-- Handed back: the same share and block, and its rows of the gathered array at the gathered rows. -/
def tdRes0 (d : Dev nD) (L : grid0.Coords) (tab : Buf (Elt F) (tabLoc d)) (I : Buf (Elt F) (idxLoc d)) : sProp (MM F) :=
  iprop((tabLoc d ↦[Finset.univ]{Transfers.shareTok fullShare 32 ⟨wid L, wid_lt L⟩} tab)
    ∗ (idxLoc d ↦[idxRows0 d L]{fullShare} I)
    ∗ (outLoc d ↦[outRows0 d L]{fullShare} gathered0 tab I))

end Cert.KernelIdeal.Hand

end
-- ==== Proof.Tile2Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid2 (L : grid2.Coords) : ℕ := 2 * (L 1).val + (L 0).val

theorem wid_lt2 (L : grid2.Coords) : wid2 L < 32 := by
  have h0 : (L 0).val < 2 := (L 0).isLt
  have h1 : (L 1).val < 16 := (L 1).isLt
  unfold wid2; omega

/-- The SparseCore and the vector subcore the coordinates name. -/
abbrev cV2 (L : grid2.Coords) : Fin τ.nSC := (L 0).castLE hcore2
abbrev jV2 (L : grid2.Coords) : Fin τ.nSub := (L 1).castLE hsub2

/-! ## The three arrays, as the TensorCore names them -/

abbrev tabLoc2 (d : Dev nD) : Loc nD τ sig := (SparseCore.T d).loc main_arg1
abbrev idxLoc2 (d : Dev nD) : Loc nD τ sig := (SparseCore.T d).loc main_v7
abbrev outLoc2 (d : Dev nD) : Loc nD τ sig := (SparseCore.T d).loc main_v8

/-! ## The subcore's block of the index array: its leading coordinate is the worker number -/

/-- The block as the body slices it. -/
abbrev idxRect2 (L : grid2.Coords) : Rect S32x40x128 :=
  Rect.unit (s := S32x40x128) (k2_off1 L) S1x40x128.size (k2_off1_inb L)

def idxRows2 (d : Dev nD) (L : grid2.Coords) : Finset (Idx (idxLoc2 d)) := (idxRect2 L).set

theorem mem_idxRows2 (d : Dev nD) (L : grid2.Coords) (x : S32x40x128.Idx) :
    Iff (x ∈ idxRows2 d L) ((x 0).val = wid2 L) := by
  show Iff (x ∈ (Rect.unit (s := S32x40x128) (k2_off1 L) S1x40x128.size (k2_off1_inb L)).set) _
  rw [Rect.mem_set_unit]
  have e := k2_off1_eq L
  constructor
  · intro h
    have h0 : 2 * (L 1).val + (L 0).val ≤ (x 0).val ∧ (x 0).val < 2 * (L 1).val + (L 0).val + 1 := by
      have := h 0; rw [e] at this; exact this
    unfold wid2; omega
  · intro h a
    rw [e]
    have h1 : (x 1).val < 40 := (x 1).isLt
    have h2 : (x 2).val < 128 := (x 2).isLt
    unfold wid2 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect2_inb (L : grid2.Coords) :
    ∀ a, (![5120 * wid2 L, 0] : Fin 2 → ℕ) a + (![5120, 128] : Fin 2 → ℕ) a ≤ S163840x128.size a := by
  have h := wid_lt2 L
  intro a
  fin_cases a
  · show 5120 * wid2 L + 5120 ≤ 163840
    omega
  · show 0 + 128 ≤ 128
    omega

abbrev outRect2 (L : grid2.Coords) : Rect S163840x128 :=
  Rect.unit (s := S163840x128) ![5120 * wid2 L, 0] ![5120, 128] (outRect2_inb L)

def outRows2 (d : Dev nD) (L : grid2.Coords) : Finset (Idx (outLoc2 d)) := (outRect2 L).set

theorem mem_outRows2 (d : Dev nD) (L : grid2.Coords) (x : S163840x128.Idx) :
    Iff (x ∈ outRows2 d L) (5120 * wid2 L ≤ (x 0).val ∧ (x 0).val < 5120 * wid2 L + 5120) := by
  show Iff (x ∈ (Rect.unit (s := S163840x128) ![5120 * wid2 L, 0] ![5120, 128] (outRect2_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow2 (I : S32x40x128.Idx → Elt F .i32) (r : Fin 163840) : Fin 1000000 :=
  ⟨(BitVec.toNat (I (S32x40x128.rowMajor.symm (r.cast (by decide))))) % 1000000, Nat.mod_lt _ (by decide)⟩

theorem gatherRow2_val (I : S32x40x128.Idx → Elt F .i32) (r : Fin 163840)
    (h : (BitVec.toNat (I (S32x40x128.rowMajor.symm (r.cast (by decide))))) < 1000000) :
    (gatherRow2 I r).val = BitVec.toNat (I (S32x40x128.rowMajor.symm (r.cast (by decide)))) :=
  Nat.mod_eq_of_lt h

/-- A gather of the table's rows into an array of 163840 rows. -/
theorem gathersAll2 : S1000000x128.Gathers 0 S163840x128 := Shape.Gathers.rank2 1000000 163840 128

/-- Row r of the gathered array is the table row the index word at flat position r names; the same function for
    every subcore. -/
def gathered2 {d : Dev nD} (tab : Buf (Elt F) (tabLoc2 d)) (I : Buf (Elt F) (idxLoc2 d)) : Buf (Elt F) (outLoc2 d) :=
  SparseCore.gatherPayload (F := F) (e := .f32) gathersAll2 tab (fun r => gatherRow2 I r)

theorem gathered2_apply {d : Dev nD} (tab : Buf (Elt F) (tabLoc2 d)) (I : Buf (Elt F) (idxLoc2 d)) (x : S163840x128.Idx) :
    gathered2 tab I x = tab (gathersAll2.idx (fun r => gatherRow2 (F := F) I r) x) := rfl

/-! ## What the subcore is dealt and what it hands back -/

/-- Dealt: a read share of the whole table, the subcore's block of the index array, its rows of the gathered array
    at whatever they hold. -/
def goRes2 (d : Dev nD) (L : grid2.Coords) (tab : Buf (Elt F) (tabLoc2 d)) (I : Buf (Elt F) (idxLoc2 d))
    (f : Buf (Elt F) (outLoc2 d)) : sProp (MM F) :=
  iprop((tabLoc2 d ↦[Finset.univ]{Transfers.shareTok fullShare 32 ⟨wid2 L, wid_lt2 L⟩} tab)
    ∗ (idxLoc2 d ↦[idxRows2 d L]{fullShare} I)
    ∗ (outLoc2 d ↦[outRows2 d L]{fullShare} f))

/-- Handed back: the same share and block, and its rows of the gathered array at the gathered rows. -/
def tdRes2 (d : Dev nD) (L : grid2.Coords) (tab : Buf (Elt F) (tabLoc2 d)) (I : Buf (Elt F) (idxLoc2 d)) : sProp (MM F) :=
  iprop((tabLoc2 d ↦[Finset.univ]{Transfers.shareTok fullShare 32 ⟨wid2 L, wid_lt2 L⟩} tab)
    ∗ (idxLoc2 d ↦[idxRows2 d L]{fullShare} I)
    ∗ (outLoc2 d ↦[outRows2 d L]{fullShare} gathered2 tab I))

end Cert.KernelIdeal.Hand

end
-- ==== Proof.Tile4Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid4 (L : grid4.Coords) : ℕ := 2 * (L 1).val + (L 0).val

theorem wid_lt4 (L : grid4.Coords) : wid4 L < 32 := by
  have h0 : (L 0).val < 2 := (L 0).isLt
  have h1 : (L 1).val < 16 := (L 1).isLt
  unfold wid4; omega

/-- The SparseCore and the vector subcore the coordinates name. -/
abbrev cV4 (L : grid4.Coords) : Fin τ.nSC := (L 0).castLE hcore4
abbrev jV4 (L : grid4.Coords) : Fin τ.nSub := (L 1).castLE hsub4

/-! ## The three arrays, as the TensorCore names them -/

abbrev tabLoc4 (d : Dev nD) : Loc nD τ sig := (SparseCore.T d).loc main_arg1
abbrev idxLoc4 (d : Dev nD) : Loc nD τ sig := (SparseCore.T d).loc main_v11
abbrev outLoc4 (d : Dev nD) : Loc nD τ sig := (SparseCore.T d).loc main_v12

/-! ## The subcore's block of the index array: its leading coordinate is the worker number -/

/-- The block as the body slices it. -/
abbrev idxRect4 (L : grid4.Coords) : Rect S32x40x128 :=
  Rect.unit (s := S32x40x128) (k4_off1 L) S1x40x128.size (k4_off1_inb L)

def idxRows4 (d : Dev nD) (L : grid4.Coords) : Finset (Idx (idxLoc4 d)) := (idxRect4 L).set

theorem mem_idxRows4 (d : Dev nD) (L : grid4.Coords) (x : S32x40x128.Idx) :
    Iff (x ∈ idxRows4 d L) ((x 0).val = wid4 L) := by
  show Iff (x ∈ (Rect.unit (s := S32x40x128) (k4_off1 L) S1x40x128.size (k4_off1_inb L)).set) _
  rw [Rect.mem_set_unit]
  have e := k4_off1_eq L
  constructor
  · intro h
    have h0 : 2 * (L 1).val + (L 0).val ≤ (x 0).val ∧ (x 0).val < 2 * (L 1).val + (L 0).val + 1 := by
      have := h 0; rw [e] at this; exact this
    unfold wid4; omega
  · intro h a
    rw [e]
    have h1 : (x 1).val < 40 := (x 1).isLt
    have h2 : (x 2).val < 128 := (x 2).isLt
    unfold wid4 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect4_inb (L : grid4.Coords) :
    ∀ a, (![5120 * wid4 L, 0] : Fin 2 → ℕ) a + (![5120, 128] : Fin 2 → ℕ) a ≤ S163840x128.size a := by
  have h := wid_lt4 L
  intro a
  fin_cases a
  · show 5120 * wid4 L + 5120 ≤ 163840
    omega
  · show 0 + 128 ≤ 128
    omega

abbrev outRect4 (L : grid4.Coords) : Rect S163840x128 :=
  Rect.unit (s := S163840x128) ![5120 * wid4 L, 0] ![5120, 128] (outRect4_inb L)

def outRows4 (d : Dev nD) (L : grid4.Coords) : Finset (Idx (outLoc4 d)) := (outRect4 L).set

theorem mem_outRows4 (d : Dev nD) (L : grid4.Coords) (x : S163840x128.Idx) :
    Iff (x ∈ outRows4 d L) (5120 * wid4 L ≤ (x 0).val ∧ (x 0).val < 5120 * wid4 L + 5120) := by
  show Iff (x ∈ (Rect.unit (s := S163840x128) ![5120 * wid4 L, 0] ![5120, 128] (outRect4_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow4 (I : S32x40x128.Idx → Elt F .i32) (r : Fin 163840) : Fin 1000000 :=
  ⟨(BitVec.toNat (I (S32x40x128.rowMajor.symm (r.cast (by decide))))) % 1000000, Nat.mod_lt _ (by decide)⟩

theorem gatherRow4_val (I : S32x40x128.Idx → Elt F .i32) (r : Fin 163840)
    (h : (BitVec.toNat (I (S32x40x128.rowMajor.symm (r.cast (by decide))))) < 1000000) :
    (gatherRow4 I r).val = BitVec.toNat (I (S32x40x128.rowMajor.symm (r.cast (by decide)))) :=
  Nat.mod_eq_of_lt h

/-- A gather of the table's rows into an array of 163840 rows. -/
theorem gathersAll4 : S1000000x128.Gathers 0 S163840x128 := Shape.Gathers.rank2 1000000 163840 128

/-- Row r of the gathered array is the table row the index word at flat position r names; the same function for
    every subcore. -/
def gathered4 {d : Dev nD} (tab : Buf (Elt F) (tabLoc4 d)) (I : Buf (Elt F) (idxLoc4 d)) : Buf (Elt F) (outLoc4 d) :=
  SparseCore.gatherPayload (F := F) (e := .f32) gathersAll4 tab (fun r => gatherRow4 I r)

theorem gathered4_apply {d : Dev nD} (tab : Buf (Elt F) (tabLoc4 d)) (I : Buf (Elt F) (idxLoc4 d)) (x : S163840x128.Idx) :
    gathered4 tab I x = tab (gathersAll4.idx (fun r => gatherRow4 (F := F) I r) x) := rfl

/-! ## What the subcore is dealt and what it hands back -/

/-- Dealt: a read share of the whole table, the subcore's block of the index array, its rows of the gathered array
    at whatever they hold. -/
def goRes4 (d : Dev nD) (L : grid4.Coords) (tab : Buf (Elt F) (tabLoc4 d)) (I : Buf (Elt F) (idxLoc4 d))
    (f : Buf (Elt F) (outLoc4 d)) : sProp (MM F) :=
  iprop((tabLoc4 d ↦[Finset.univ]{Transfers.shareTok fullShare 32 ⟨wid4 L, wid_lt4 L⟩} tab)
    ∗ (idxLoc4 d ↦[idxRows4 d L]{fullShare} I)
    ∗ (outLoc4 d ↦[outRows4 d L]{fullShare} f))

/-- Handed back: the same share and block, and its rows of the gathered array at the gathered rows. -/
def tdRes4 (d : Dev nD) (L : grid4.Coords) (tab : Buf (Elt F) (tabLoc4 d)) (I : Buf (Elt F) (idxLoc4 d)) : sProp (MM F) :=
  iprop((tabLoc4 d ↦[Finset.univ]{Transfers.shareTok fullShare 32 ⟨wid4 L, wid_lt4 L⟩} tab)
    ∗ (idxLoc4 d ↦[idxRows4 d L]{fullShare} I)
    ∗ (outLoc4 d ↦[outRows4 d L]{fullShare} gathered4 tab I))

end Cert.KernelIdeal.Hand

end
-- ==== Proof.Tile6Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid6 (L : grid6.Coords) : ℕ := 2 * (L 1).val + (L 0).val

theorem wid_lt6 (L : grid6.Coords) : wid6 L < 32 := by
  have h0 : (L 0).val < 2 := (L 0).isLt
  have h1 : (L 1).val < 16 := (L 1).isLt
  unfold wid6; omega

/-- The SparseCore and the vector subcore the coordinates name. -/
abbrev cV6 (L : grid6.Coords) : Fin τ.nSC := (L 0).castLE hcore6
abbrev jV6 (L : grid6.Coords) : Fin τ.nSub := (L 1).castLE hsub6

/-! ## The three arrays, as the TensorCore names them -/

abbrev tabLoc6 (d : Dev nD) : Loc nD τ sig := (SparseCore.T d).loc main_arg1
abbrev idxLoc6 (d : Dev nD) : Loc nD τ sig := (SparseCore.T d).loc main_v15
abbrev outLoc6 (d : Dev nD) : Loc nD τ sig := (SparseCore.T d).loc main_v16

/-! ## The subcore's block of the index array: its leading coordinate is the worker number -/

/-- The block as the body slices it. -/
abbrev idxRect6 (L : grid6.Coords) : Rect S32x40x128 :=
  Rect.unit (s := S32x40x128) (k6_off1 L) S1x40x128.size (k6_off1_inb L)

def idxRows6 (d : Dev nD) (L : grid6.Coords) : Finset (Idx (idxLoc6 d)) := (idxRect6 L).set

theorem mem_idxRows6 (d : Dev nD) (L : grid6.Coords) (x : S32x40x128.Idx) :
    Iff (x ∈ idxRows6 d L) ((x 0).val = wid6 L) := by
  show Iff (x ∈ (Rect.unit (s := S32x40x128) (k6_off1 L) S1x40x128.size (k6_off1_inb L)).set) _
  rw [Rect.mem_set_unit]
  have e := k6_off1_eq L
  constructor
  · intro h
    have h0 : 2 * (L 1).val + (L 0).val ≤ (x 0).val ∧ (x 0).val < 2 * (L 1).val + (L 0).val + 1 := by
      have := h 0; rw [e] at this; exact this
    unfold wid6; omega
  · intro h a
    rw [e]
    have h1 : (x 1).val < 40 := (x 1).isLt
    have h2 : (x 2).val < 128 := (x 2).isLt
    unfold wid6 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect6_inb (L : grid6.Coords) :
    ∀ a, (![5120 * wid6 L, 0] : Fin 2 → ℕ) a + (![5120, 128] : Fin 2 → ℕ) a ≤ S163840x128.size a := by
  have h := wid_lt6 L
  intro a
  fin_cases a
  · show 5120 * wid6 L + 5120 ≤ 163840
    omega
  · show 0 + 128 ≤ 128
    omega

abbrev outRect6 (L : grid6.Coords) : Rect S163840x128 :=
  Rect.unit (s := S163840x128) ![5120 * wid6 L, 0] ![5120, 128] (outRect6_inb L)

def outRows6 (d : Dev nD) (L : grid6.Coords) : Finset (Idx (outLoc6 d)) := (outRect6 L).set

theorem mem_outRows6 (d : Dev nD) (L : grid6.Coords) (x : S163840x128.Idx) :
    Iff (x ∈ outRows6 d L) (5120 * wid6 L ≤ (x 0).val ∧ (x 0).val < 5120 * wid6 L + 5120) := by
  show Iff (x ∈ (Rect.unit (s := S163840x128) ![5120 * wid6 L, 0] ![5120, 128] (outRect6_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow6 (I : S32x40x128.Idx → Elt F .i32) (r : Fin 163840) : Fin 1000000 :=
  ⟨(BitVec.toNat (I (S32x40x128.rowMajor.symm (r.cast (by decide))))) % 1000000, Nat.mod_lt _ (by decide)⟩

theorem gatherRow6_val (I : S32x40x128.Idx → Elt F .i32) (r : Fin 163840)
    (h : (BitVec.toNat (I (S32x40x128.rowMajor.symm (r.cast (by decide))))) < 1000000) :
    (gatherRow6 I r).val = BitVec.toNat (I (S32x40x128.rowMajor.symm (r.cast (by decide)))) :=
  Nat.mod_eq_of_lt h

/-- A gather of the table's rows into an array of 163840 rows. -/
theorem gathersAll6 : S1000000x128.Gathers 0 S163840x128 := Shape.Gathers.rank2 1000000 163840 128

/-- Row r of the gathered array is the table row the index word at flat position r names; the same function for
    every subcore. -/
def gathered6 {d : Dev nD} (tab : Buf (Elt F) (tabLoc6 d)) (I : Buf (Elt F) (idxLoc6 d)) : Buf (Elt F) (outLoc6 d) :=
  SparseCore.gatherPayload (F := F) (e := .f32) gathersAll6 tab (fun r => gatherRow6 I r)

theorem gathered6_apply {d : Dev nD} (tab : Buf (Elt F) (tabLoc6 d)) (I : Buf (Elt F) (idxLoc6 d)) (x : S163840x128.Idx) :
    gathered6 tab I x = tab (gathersAll6.idx (fun r => gatherRow6 (F := F) I r) x) := rfl

/-! ## What the subcore is dealt and what it hands back -/

/-- Dealt: a read share of the whole table, the subcore's block of the index array, its rows of the gathered array
    at whatever they hold. -/
def goRes6 (d : Dev nD) (L : grid6.Coords) (tab : Buf (Elt F) (tabLoc6 d)) (I : Buf (Elt F) (idxLoc6 d))
    (f : Buf (Elt F) (outLoc6 d)) : sProp (MM F) :=
  iprop((tabLoc6 d ↦[Finset.univ]{Transfers.shareTok fullShare 32 ⟨wid6 L, wid_lt6 L⟩} tab)
    ∗ (idxLoc6 d ↦[idxRows6 d L]{fullShare} I)
    ∗ (outLoc6 d ↦[outRows6 d L]{fullShare} f))

/-- Handed back: the same share and block, and its rows of the gathered array at the gathered rows. -/
def tdRes6 (d : Dev nD) (L : grid6.Coords) (tab : Buf (Elt F) (tabLoc6 d)) (I : Buf (Elt F) (idxLoc6 d)) : sProp (MM F) :=
  iprop((tabLoc6 d ↦[Finset.univ]{Transfers.shareTok fullShare 32 ⟨wid6 L, wid_lt6 L⟩} tab)
    ∗ (idxLoc6 d ↦[idxRows6 d L]{fullShare} I)
    ∗ (outLoc6 d ↦[outRows6 d L]{fullShare} gathered6 tab I))

end Cert.KernelIdeal.Hand

end
-- ==== Proof.Tile8Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid8 (L : grid8.Coords) : ℕ := 2 * (L 1).val + (L 0).val

theorem wid_lt8 (L : grid8.Coords) : wid8 L < 32 := by
  have h0 : (L 0).val < 2 := (L 0).isLt
  have h1 : (L 1).val < 16 := (L 1).isLt
  unfold wid8; omega

/-- The SparseCore and the vector subcore the coordinates name. -/
abbrev cV8 (L : grid8.Coords) : Fin τ.nSC := (L 0).castLE hcore8
abbrev jV8 (L : grid8.Coords) : Fin τ.nSub := (L 1).castLE hsub8

/-! ## The three arrays, as the TensorCore names them -/

abbrev tabLoc8 (d : Dev nD) : Loc nD τ sig := (SparseCore.T d).loc main_arg1
abbrev idxLoc8 (d : Dev nD) : Loc nD τ sig := (SparseCore.T d).loc main_v19
abbrev outLoc8 (d : Dev nD) : Loc nD τ sig := (SparseCore.T d).loc main_v20

/-! ## The subcore's block of the index array: its leading coordinate is the worker number -/

/-- The block as the body slices it. -/
abbrev idxRect8 (L : grid8.Coords) : Rect S32x40x128 :=
  Rect.unit (s := S32x40x128) (k8_off1 L) S1x40x128.size (k8_off1_inb L)

def idxRows8 (d : Dev nD) (L : grid8.Coords) : Finset (Idx (idxLoc8 d)) := (idxRect8 L).set

theorem mem_idxRows8 (d : Dev nD) (L : grid8.Coords) (x : S32x40x128.Idx) :
    Iff (x ∈ idxRows8 d L) ((x 0).val = wid8 L) := by
  show Iff (x ∈ (Rect.unit (s := S32x40x128) (k8_off1 L) S1x40x128.size (k8_off1_inb L)).set) _
  rw [Rect.mem_set_unit]
  have e := k8_off1_eq L
  constructor
  · intro h
    have h0 : 2 * (L 1).val + (L 0).val ≤ (x 0).val ∧ (x 0).val < 2 * (L 1).val + (L 0).val + 1 := by
      have := h 0; rw [e] at this; exact this
    unfold wid8; omega
  · intro h a
    rw [e]
    have h1 : (x 1).val < 40 := (x 1).isLt
    have h2 : (x 2).val < 128 := (x 2).isLt
    unfold wid8 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect8_inb (L : grid8.Coords) :
    ∀ a, (![5120 * wid8 L, 0] : Fin 2 → ℕ) a + (![5120, 128] : Fin 2 → ℕ) a ≤ S163840x128.size a := by
  have h := wid_lt8 L
  intro a
  fin_cases a
  · show 5120 * wid8 L + 5120 ≤ 163840
    omega
  · show 0 + 128 ≤ 128
    omega

abbrev outRect8 (L : grid8.Coords) : Rect S163840x128 :=
  Rect.unit (s := S163840x128) ![5120 * wid8 L, 0] ![5120, 128] (outRect8_inb L)

def outRows8 (d : Dev nD) (L : grid8.Coords) : Finset (Idx (outLoc8 d)) := (outRect8 L).set

theorem mem_outRows8 (d : Dev nD) (L : grid8.Coords) (x : S163840x128.Idx) :
    Iff (x ∈ outRows8 d L) (5120 * wid8 L ≤ (x 0).val ∧ (x 0).val < 5120 * wid8 L + 5120) := by
  show Iff (x ∈ (Rect.unit (s := S163840x128) ![5120 * wid8 L, 0] ![5120, 128] (outRect8_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow8 (I : S32x40x128.Idx → Elt F .i32) (r : Fin 163840) : Fin 1000000 :=
  ⟨(BitVec.toNat (I (S32x40x128.rowMajor.symm (r.cast (by decide))))) % 1000000, Nat.mod_lt _ (by decide)⟩

theorem gatherRow8_val (I : S32x40x128.Idx → Elt F .i32) (r : Fin 163840)
    (h : (BitVec.toNat (I (S32x40x128.rowMajor.symm (r.cast (by decide))))) < 1000000) :
    (gatherRow8 I r).val = BitVec.toNat (I (S32x40x128.rowMajor.symm (r.cast (by decide)))) :=
  Nat.mod_eq_of_lt h

/-- A gather of the table's rows into an array of 163840 rows. -/
theorem gathersAll8 : S1000000x128.Gathers 0 S163840x128 := Shape.Gathers.rank2 1000000 163840 128

/-- Row r of the gathered array is the table row the index word at flat position r names; the same function for
    every subcore. -/
def gathered8 {d : Dev nD} (tab : Buf (Elt F) (tabLoc8 d)) (I : Buf (Elt F) (idxLoc8 d)) : Buf (Elt F) (outLoc8 d) :=
  SparseCore.gatherPayload (F := F) (e := .f32) gathersAll8 tab (fun r => gatherRow8 I r)

theorem gathered8_apply {d : Dev nD} (tab : Buf (Elt F) (tabLoc8 d)) (I : Buf (Elt F) (idxLoc8 d)) (x : S163840x128.Idx) :
    gathered8 tab I x = tab (gathersAll8.idx (fun r => gatherRow8 (F := F) I r) x) := rfl

/-! ## What the subcore is dealt and what it hands back -/

/-- Dealt: a read share of the whole table, the subcore's block of the index array, its rows of the gathered array
    at whatever they hold. -/
def goRes8 (d : Dev nD) (L : grid8.Coords) (tab : Buf (Elt F) (tabLoc8 d)) (I : Buf (Elt F) (idxLoc8 d))
    (f : Buf (Elt F) (outLoc8 d)) : sProp (MM F) :=
  iprop((tabLoc8 d ↦[Finset.univ]{Transfers.shareTok fullShare 32 ⟨wid8 L, wid_lt8 L⟩} tab)
    ∗ (idxLoc8 d ↦[idxRows8 d L]{fullShare} I)
    ∗ (outLoc8 d ↦[outRows8 d L]{fullShare} f))

/-- Handed back: the same share and block, and its rows of the gathered array at the gathered rows. -/
def tdRes8 (d : Dev nD) (L : grid8.Coords) (tab : Buf (Elt F) (tabLoc8 d)) (I : Buf (Elt F) (idxLoc8 d)) : sProp (MM F) :=
  iprop((tabLoc8 d ↦[Finset.univ]{Transfers.shareTok fullShare 32 ⟨wid8 L, wid_lt8 L⟩} tab)
    ∗ (idxLoc8 d ↦[idxRows8 d L]{fullShare} I)
    ∗ (outLoc8 d ↦[outRows8 d L]{fullShare} gathered8 tab I))

end Cert.KernelIdeal.Hand

end
-- ==== Proof.Region1Defs.lean ====
/-
  What the TensorCore matrix-product regions compute, as whole-array functions of the arrays they are entered with,
  for every float instance at once.

  Region 1 reads the weight matrix W (64 × 128) and the gathered rows g (163840 × 128, ten blocks of 16384 rows) and
  writes the first ten leading slices of the output array (50 × 64 × 16384): slice l is the product of W with the
  transposed block l of g, contracting the 128-axis, accumulated into zero; every other entry keeps what it held.
-/
import proofs.«206421_g46840913330738_cont_8to1c4_247_26_alg».proof.Proof.Base

noncomputable section

namespace Cert.KernelIdeal.Hand

open Cert.KernelIdeal Cert.KernelIdeal.Gen
open Idealize.ShloMosaic

variable {F : FTy → Type} [FloatOps F]

/-- The index (a, b) of a two-axis shape. -/
def idx2 {m k : ℕ} (a : Fin m) (b : Fin k) : (⟨2, ![m, k]⟩ : Shape).Idx
  | ⟨0, _⟩ => a
  | ⟨1, _⟩ => b

/-- The index (a, b, c) of a three-axis shape. -/
def idx3 {m k l : ℕ} (a : Fin m) (b : Fin k) (c : Fin l) : (⟨3, ![m, k, l]⟩ : Shape).Idx
  | ⟨0, _⟩ => a
  | ⟨1, _⟩ => b
  | ⟨2, _⟩ => c

/-- An output index inside its leading slice: the leading coordinate dropped to 0. -/
def toBlk (i : S50x64x16384.Idx) : S1x64x16384.Idx :=
  idx3 (⟨0, Nat.one_pos⟩ : Fin 1) (i 1) (i 2)

/-- Block l of the gathered rows: rows 16384 l … 16384 l + 16383. -/
def gBlock (g : Vec F S163840x128 .f32) (l : Fin 10) : Vec F S16384x128 .f32 :=
  fun y => g (idx2 (⟨l.val * 16384 + (y 0).val, by have h1 := l.isLt; have h2 : (y 0).val < 16384 := (y 0).isLt; omega⟩ : Fin 163840) (y 1))

/-- The output array after region 1: on the first ten leading slices the body's product of W and the matching block of
    g, elsewhere the entry contents. -/
def regionVal1 (w : Vec F S64x128 .f32) (g : Vec F S163840x128 .f32) (f0 : Vec F S50x64x16384 .f32) : Vec F S50x64x16384 .f32 :=
  fun i => if h : (i 0).val < 10 then k1_pay1 w (gBlock g ⟨(i 0).val, h⟩) (toBlk i) else f0 i

end Cert.KernelIdeal.Hand

end
-- ==== Proof.Region3Defs.lean ====
/-
  What matrix-product region 3 computes, as a whole-array function of the arrays it is entered with: it writes the
  leading slices 10 … 19 of the output array, slice l the product of W with block l − 10 of its gathered rows,
  and keeps every other entry.
-/
import proofs.«206421_g46840913330738_cont_8to1c4_247_26_alg».proof.Proof.Region1Defs

noncomputable section

namespace Cert.KernelIdeal.Hand

open Cert.KernelIdeal Cert.KernelIdeal.Gen
open Idealize.ShloMosaic

variable {F : FTy → Type} [FloatOps F]

/-- The output array after region 3: on leading slices 10 … 19 the body's product of W and the matching block
    of g, elsewhere the entry contents. -/
def regionVal3 (w : Vec F S64x128 .f32) (g : Vec F S163840x128 .f32) (f0 : Vec F S50x64x16384 .f32) : Vec F S50x64x16384 .f32 :=
  fun i => if h : 10 ≤ (i 0).val ∧ (i 0).val < 20 then k3_pay1 w (gBlock g ⟨(i 0).val - 10, by omega⟩) (toBlk i) else f0 i

end Cert.KernelIdeal.Hand

end
-- ==== Proof.Region5Defs.lean ====
/-
  What matrix-product region 5 computes, as a whole-array function of the arrays it is entered with: it writes the
  leading slices 20 … 29 of the output array, slice l the product of W with block l − 20 of its gathered rows,
  and keeps every other entry.
-/
import proofs.«206421_g46840913330738_cont_8to1c4_247_26_alg».proof.Proof.Region1Defs

noncomputable section

namespace Cert.KernelIdeal.Hand

open Cert.KernelIdeal Cert.KernelIdeal.Gen
open Idealize.ShloMosaic

variable {F : FTy → Type} [FloatOps F]

/-- The output array after region 5: on leading slices 20 … 29 the body's product of W and the matching block
    of g, elsewhere the entry contents. -/
def regionVal5 (w : Vec F S64x128 .f32) (g : Vec F S163840x128 .f32) (f0 : Vec F S50x64x16384 .f32) : Vec F S50x64x16384 .f32 :=
  fun i => if h : 20 ≤ (i 0).val ∧ (i 0).val < 30 then k5_pay1 w (gBlock g ⟨(i 0).val - 20, by omega⟩) (toBlk i) else f0 i

end Cert.KernelIdeal.Hand

end
-- ==== Proof.Region7Defs.lean ====
/-
  What matrix-product region 7 computes, as a whole-array function of the arrays it is entered with: it writes the
  leading slices 30 … 39 of the output array, slice l the product of W with block l − 30 of its gathered rows,
  and keeps every other entry.
-/
import proofs.«206421_g46840913330738_cont_8to1c4_247_26_alg».proof.Proof.Region1Defs

noncomputable section

namespace Cert.KernelIdeal.Hand

open Cert.KernelIdeal Cert.KernelIdeal.Gen
open Idealize.ShloMosaic

variable {F : FTy → Type} [FloatOps F]

/-- The output array after region 7: on leading slices 30 … 39 the body's product of W and the matching block
    of g, elsewhere the entry contents. -/
def regionVal7 (w : Vec F S64x128 .f32) (g : Vec F S163840x128 .f32) (f0 : Vec F S50x64x16384 .f32) : Vec F S50x64x16384 .f32 :=
  fun i => if h : 30 ≤ (i 0).val ∧ (i 0).val < 40 then k7_pay1 w (gBlock g ⟨(i 0).val - 30, by omega⟩) (toBlk i) else f0 i

end Cert.KernelIdeal.Hand

end
-- ==== Proof.Region9Defs.lean ====
/-
  What matrix-product region 9 computes, as a whole-array function of the arrays it is entered with: it writes the
  leading slices 40 … 49 of the output array, slice l the product of W with block l − 40 of its gathered rows,
  and keeps every other entry.
-/
import proofs.«206421_g46840913330738_cont_8to1c4_247_26_alg».proof.Proof.Region1Defs

noncomputable section

namespace Cert.KernelIdeal.Hand

open Cert.KernelIdeal Cert.KernelIdeal.Gen
open Idealize.ShloMosaic

variable {F : FTy → Type} [FloatOps F]

/-- The output array after region 9: on leading slices 40 … 49 the body's product of W and the matching block
    of g, elsewhere the entry contents. -/
def regionVal9 (w : Vec F S64x128 .f32) (g : Vec F S163840x128 .f32) (f0 : Vec F S50x64x16384 .f32) : Vec F S50x64x16384 .f32 :=
  fun i => if h : 40 ≤ (i 0).val ∧ (i 0).val < 50 then k9_pay1 w (gBlock g ⟨(i 0).val - 40, by omega⟩) (toBlk i) else f0 i

end Cert.KernelIdeal.Hand

end
-- ==== Proof.Vals.lean ====
/-
  The contents of the TensorCore's arrays after each step of @main, as one valuation per step: a host operation
  updates its result at the operation's function of its operands; gather call q sets its gathered array to the table
  rows its index array names; matrix-product region p sets rows 10p … 10p+9 of its output to the products of the
  weights with the gathered rows and keeps the other rows.
-/
import proofs.«206421_g46840913330738_cont_8to1c4_247_26_alg».proof.Proof.Base
import proofs.«206421_g46840913330738_cont_8to1c4_247_26_alg».proof.Proof.Host
import proofs.«206421_g46840913330738_cont_8to1c4_247_26_alg».proof.Proof.Tile0Defs
import proofs.«206421_g46840913330738_cont_8to1c4_247_26_alg».proof.Proof.Tile2Defs
import proofs.«206421_g46840913330738_cont_8to1c4_247_26_alg».proof.Proof.Tile4Defs
import proofs.«206421_g46840913330738_cont_8to1c4_247_26_alg».proof.Proof.Tile6Defs
import proofs.«206421_g46840913330738_cont_8to1c4_247_26_alg».proof.Proof.Tile8Defs
import proofs.«206421_g46840913330738_cont_8to1c4_247_26_alg».proof.Proof.Region1Defs
import proofs.«206421_g46840913330738_cont_8to1c4_247_26_alg».proof.Proof.Region3Defs
import proofs.«206421_g46840913330738_cont_8to1c4_247_26_alg».proof.Proof.Region5Defs
import proofs.«206421_g46840913330738_cont_8to1c4_247_26_alg».proof.Proof.Region7Defs
import proofs.«206421_g46840913330738_cont_8to1c4_247_26_alg».proof.Proof.Region9Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (d : Dev nD) [FloatOps F]

/-- A TensorCore array as a buffer of the device. -/
abbrev r (x : Ref sig .tc) : DevRef τ sig := Proc.devRef .tc x

/-- Before @main's first step: the launch contents. -/
def W0 : Valuation τ sig (Elt F) := V0 m d
/-- After step 0, a host operation. -/
def W1 : Valuation τ sig (Elt F) := (op0 (F := F)).result (W0 m d)
/-- After step 1, a host operation. -/
def W2 : Valuation τ sig (Elt F) := (op1 (F := F)).result (W1 m d)
/-- After step 2, a host operation. -/
def W3 : Valuation τ sig (Elt F) := (op2 (F := F)).result (W2 m d)
/-- After step 3, a host operation. -/
def W4 : Valuation τ sig (Elt F) := (op3 (F := F)).result (W3 m d)
/-- After step 4, gather call 0: `main_v4` holds the table rows `main_v3` names. -/
def W5 : Valuation τ sig (Elt F) :=
  Function.update (W4 m d) (r main_v4) (gathered0 (d := d) (W4 m d (r main_arg1)) (W4 m d (r main_v3)))
/-- After step 5, matrix-product region 0: rows 0 … 9 of `main_v5` are written. -/
def W6 : Valuation τ sig (Elt F) :=
  Function.update (W5 m d) (r main_v5) (regionVal1 (W5 m d (r main_arg2)) (W5 m d (r main_v4)) (W5 m d (r main_v5)))
/-- After step 6, a host operation. -/
def W7 : Valuation τ sig (Elt F) := (op6 (F := F)).result (W6 m d)
/-- After step 7, a host operation. -/
def W8 : Valuation τ sig (Elt F) := (op7 (F := F)).result (W7 m d)
/-- After step 8, gather call 1: `main_v8` holds the table rows `main_v7` names. -/
def W9 : Valuation τ sig (Elt F) :=
  Function.update (W8 m d) (r main_v8) (gathered2 (d := d) (W8 m d (r main_arg1)) (W8 m d (r main_v7)))
/-- After step 9, a host operation. -/
def W10 : Valuation τ sig (Elt F) := (op9 (F := F)).result (W9 m d)
/-- After step 10, matrix-product region 1: rows 10 … 19 of `main_v9` are written. -/
def W11 : Valuation τ sig (Elt F) :=
  Function.update (W10 m d) (r main_v9) (regionVal3 (W10 m d (r main_arg2)) (W10 m d (r main_v8)) (W10 m d (r main_v9)))
/-- After step 11, a host operation. -/
def W12 : Valuation τ sig (Elt F) := (op11 (F := F)).result (W11 m d)
/-- After step 12, a host operation. -/
def W13 : Valuation τ sig (Elt F) := (op12 (F := F)).result (W12 m d)
/-- After step 13, gather call 2: `main_v12` holds the table rows `main_v11` names. -/
def W14 : Valuation τ sig (Elt F) :=
  Function.update (W13 m d) (r main_v12) (gathered4 (d := d) (W13 m d (r main_arg1)) (W13 m d (r main_v11)))
/-- After step 14, a host operation. -/
def W15 : Valuation τ sig (Elt F) := (op14 (F := F)).result (W14 m d)
/-- After step 15, matrix-product region 2: rows 20 … 29 of `main_v13` are written. -/
def W16 : Valuation τ sig (Elt F) :=
  Function.update (W15 m d) (r main_v13) (regionVal5 (W15 m d (r main_arg2)) (W15 m d (r main_v12)) (W15 m d (r main_v13)))
/-- After step 16, a host operation. -/
def W17 : Valuation τ sig (Elt F) := (op16 (F := F)).result (W16 m d)
/-- After step 17, a host operation. -/
def W18 : Valuation τ sig (Elt F) := (op17 (F := F)).result (W17 m d)
/-- After step 18, gather call 3: `main_v16` holds the table rows `main_v15` names. -/
def W19 : Valuation τ sig (Elt F) :=
  Function.update (W18 m d) (r main_v16) (gathered6 (d := d) (W18 m d (r main_arg1)) (W18 m d (r main_v15)))
/-- After step 19, a host operation. -/
def W20 : Valuation τ sig (Elt F) := (op19 (F := F)).result (W19 m d)
/-- After step 20, matrix-product region 3: rows 30 … 39 of `main_v17` are written. -/
def W21 : Valuation τ sig (Elt F) :=
  Function.update (W20 m d) (r main_v17) (regionVal7 (W20 m d (r main_arg2)) (W20 m d (r main_v16)) (W20 m d (r main_v17)))
/-- After step 21, a host operation. -/
def W22 : Valuation τ sig (Elt F) := (op21 (F := F)).result (W21 m d)
/-- After step 22, a host operation. -/
def W23 : Valuation τ sig (Elt F) := (op22 (F := F)).result (W22 m d)
/-- After step 23, gather call 4: `main_v20` holds the table rows `main_v19` names. -/
def W24 : Valuation τ sig (Elt F) :=
  Function.update (W23 m d) (r main_v20) (gathered8 (d := d) (W23 m d (r main_arg1)) (W23 m d (r main_v19)))
/-- After step 24, a host operation. -/
def W25 : Valuation τ sig (Elt F) := (op24 (F := F)).result (W24 m d)
/-- After step 25, matrix-product region 4: rows 40 … 49 of `main_v21` are written. -/
def W26 : Valuation τ sig (Elt F) :=
  Function.update (W25 m d) (r main_v21) (regionVal9 (W25 m d (r main_arg2)) (W25 m d (r main_v20)) (W25 m d (r main_v21)))
/-- After step 26, a host operation. -/
def W27 : Valuation τ sig (Elt F) := (op26 (F := F)).result (W26 m d)

end Cert.KernelIdeal.Hand

end
-- ==== Proof.Kept.lean ====
/-
  The three arguments pass through @main untouched: no host operation, gather call or matrix-product region writes
  one of them, so at every step each holds its launch contents.
-/
import proofs.«206421_g46840913330738_cont_8to1c4_247_26_alg».proof.Proof.Base
import proofs.«206421_g46840913330738_cont_8to1c4_247_26_alg».proof.Proof.Vals

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (d : Dev nD) [FloatOps F]

/-- A buffer that is one of the three arguments. -/
def IsArg (b : DevRef τ sig) : Prop := b = r main_arg0 ∨ b = r main_arg1 ∨ b = r main_arg2

theorem W1_arg {b : DevRef τ sig} (hb : IsArg b) : W1 m d b = W0 m d b :=
  (op0 (F := F)).result_of_not_mem (W0 m d)
    (by rcases hb with rfl | rfl | rfl <;> (show _ ∉ ({Proc.devRef .tc main_v0} : Finset (DevRef τ sig)); decide))
theorem W2_arg {b : DevRef τ sig} (hb : IsArg b) : W2 m d b = W1 m d b :=
  (op1 (F := F)).result_of_not_mem (W1 m d)
    (by rcases hb with rfl | rfl | rfl <;> (show _ ∉ ({Proc.devRef .tc main_v1} : Finset (DevRef τ sig)); decide))
theorem W3_arg {b : DevRef τ sig} (hb : IsArg b) : W3 m d b = W2 m d b :=
  (op2 (F := F)).result_of_not_mem (W2 m d)
    (by rcases hb with rfl | rfl | rfl <;> (show _ ∉ ({Proc.devRef .tc main_v2} : Finset (DevRef τ sig)); decide))
theorem W4_arg {b : DevRef τ sig} (hb : IsArg b) : W4 m d b = W3 m d b :=
  (op3 (F := F)).result_of_not_mem (W3 m d)
    (by rcases hb with rfl | rfl | rfl <;> (show _ ∉ ({Proc.devRef .tc main_v3} : Finset (DevRef τ sig)); decide))
theorem W5_arg {b : DevRef τ sig} (hb : IsArg b) : W5 m d b = W4 m d b :=
  Function.update_of_ne (by rcases hb with rfl | rfl | rfl <;> decide) _ _
theorem W6_arg {b : DevRef τ sig} (hb : IsArg b) : W6 m d b = W5 m d b :=
  Function.update_of_ne (by rcases hb with rfl | rfl | rfl <;> decide) _ _
theorem W7_arg {b : DevRef τ sig} (hb : IsArg b) : W7 m d b = W6 m d b :=
  (op6 (F := F)).result_of_not_mem (W6 m d)
    (by rcases hb with rfl | rfl | rfl <;> (show _ ∉ ({Proc.devRef .tc main_v6} : Finset (DevRef τ sig)); decide))
theorem W8_arg {b : DevRef τ sig} (hb : IsArg b) : W8 m d b = W7 m d b :=
  (op7 (F := F)).result_of_not_mem (W7 m d)
    (by rcases hb with rfl | rfl | rfl <;> (show _ ∉ ({Proc.devRef .tc main_v7} : Finset (DevRef τ sig)); decide))
theorem W9_arg {b : DevRef τ sig} (hb : IsArg b) : W9 m d b = W8 m d b :=
  Function.update_of_ne (by rcases hb with rfl | rfl | rfl <;> decide) _ _
theorem W10_arg {b : DevRef τ sig} (hb : IsArg b) : W10 m d b = W9 m d b :=
  (op9 (F := F)).result_of_not_mem (W9 m d)
    (by rcases hb with rfl | rfl | rfl <;> (show _ ∉ ({Proc.devRef .tc main_v9} : Finset (DevRef τ sig)); decide))
theorem W11_arg {b : DevRef τ sig} (hb : IsArg b) : W11 m d b = W10 m d b :=
  Function.update_of_ne (by rcases hb with rfl | rfl | rfl <;> decide) _ _
theorem W12_arg {b : DevRef τ sig} (hb : IsArg b) : W12 m d b = W11 m d b :=
  (op11 (F := F)).result_of_not_mem (W11 m d)
    (by rcases hb with rfl | rfl | rfl <;> (show _ ∉ ({Proc.devRef .tc main_v10} : Finset (DevRef τ sig)); decide))
theorem W13_arg {b : DevRef τ sig} (hb : IsArg b) : W13 m d b = W12 m d b :=
  (op12 (F := F)).result_of_not_mem (W12 m d)
    (by rcases hb with rfl | rfl | rfl <;> (show _ ∉ ({Proc.devRef .tc main_v11} : Finset (DevRef τ sig)); decide))
theorem W14_arg {b : DevRef τ sig} (hb : IsArg b) : W14 m d b = W13 m d b :=
  Function.update_of_ne (by rcases hb with rfl | rfl | rfl <;> decide) _ _
theorem W15_arg {b : DevRef τ sig} (hb : IsArg b) : W15 m d b = W14 m d b :=
  (op14 (F := F)).result_of_not_mem (W14 m d)
    (by rcases hb with rfl | rfl | rfl <;> (show _ ∉ ({Proc.devRef .tc main_v13} : Finset (DevRef τ sig)); decide))
theorem W16_arg {b : DevRef τ sig} (hb : IsArg b) : W16 m d b = W15 m d b :=
  Function.update_of_ne (by rcases hb with rfl | rfl | rfl <;> decide) _ _
theorem W17_arg {b : DevRef τ sig} (hb : IsArg b) : W17 m d b = W16 m d b :=
  (op16 (F := F)).result_of_not_mem (W16 m d)
    (by rcases hb with rfl | rfl | rfl <;> (show _ ∉ ({Proc.devRef .tc main_v14} : Finset (DevRef τ sig)); decide))
theorem W18_arg {b : DevRef τ sig} (hb : IsArg b) : W18 m d b = W17 m d b :=
  (op17 (F := F)).result_of_not_mem (W17 m d)
    (by rcases hb with rfl | rfl | rfl <;> (show _ ∉ ({Proc.devRef .tc main_v15} : Finset (DevRef τ sig)); decide))
theorem W19_arg {b : DevRef τ sig} (hb : IsArg b) : W19 m d b = W18 m d b :=
  Function.update_of_ne (by rcases hb with rfl | rfl | rfl <;> decide) _ _
theorem W20_arg {b : DevRef τ sig} (hb : IsArg b) : W20 m d b = W19 m d b :=
  (op19 (F := F)).result_of_not_mem (W19 m d)
    (by rcases hb with rfl | rfl | rfl <;> (show _ ∉ ({Proc.devRef .tc main_v17} : Finset (DevRef τ sig)); decide))
theorem W21_arg {b : DevRef τ sig} (hb : IsArg b) : W21 m d b = W20 m d b :=
  Function.update_of_ne (by rcases hb with rfl | rfl | rfl <;> decide) _ _
theorem W22_arg {b : DevRef τ sig} (hb : IsArg b) : W22 m d b = W21 m d b :=
  (op21 (F := F)).result_of_not_mem (W21 m d)
    (by rcases hb with rfl | rfl | rfl <;> (show _ ∉ ({Proc.devRef .tc main_v18} : Finset (DevRef τ sig)); decide))
theorem W23_arg {b : DevRef τ sig} (hb : IsArg b) : W23 m d b = W22 m d b :=
  (op22 (F := F)).result_of_not_mem (W22 m d)
    (by rcases hb with rfl | rfl | rfl <;> (show _ ∉ ({Proc.devRef .tc main_v19} : Finset (DevRef τ sig)); decide))
theorem W24_arg {b : DevRef τ sig} (hb : IsArg b) : W24 m d b = W23 m d b :=
  Function.update_of_ne (by rcases hb with rfl | rfl | rfl <;> decide) _ _
theorem W25_arg {b : DevRef τ sig} (hb : IsArg b) : W25 m d b = W24 m d b :=
  (op24 (F := F)).result_of_not_mem (W24 m d)
    (by rcases hb with rfl | rfl | rfl <;> (show _ ∉ ({Proc.devRef .tc main_v21} : Finset (DevRef τ sig)); decide))
theorem W26_arg {b : DevRef τ sig} (hb : IsArg b) : W26 m d b = W25 m d b :=
  Function.update_of_ne (by rcases hb with rfl | rfl | rfl <;> decide) _ _
theorem W27_arg {b : DevRef τ sig} (hb : IsArg b) : W27 m d b = W26 m d b :=
  (op26 (F := F)).result_of_not_mem (W26 m d)
    (by rcases hb with rfl | rfl | rfl <;> (show _ ∉ ({Proc.devRef .tc main_v22} : Finset (DevRef τ sig)); decide))

/-- At the end of @main an argument holds its launch contents; -/
theorem W27_arg_launch {b : DevRef τ sig} (hb : IsArg b) : W27 m d b = m (d, b) := by
  rw [W27_arg m d hb, W26_arg m d hb, W25_arg m d hb, W24_arg m d hb, W23_arg m d hb, W22_arg m d hb, W21_arg m d hb, W20_arg m d hb, W19_arg m d hb, W18_arg m d hb, W17_arg m d hb, W16_arg m d hb, W15_arg m d hb, W14_arg m d hb, W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl
theorem W4_arg_launch {b : DevRef τ sig} (hb : IsArg b) : W4 m d b = m (d, b) := by
  rw [W4_arg m d hb, W3_arg m d hb, W2_arg m d hb, W1_arg m d hb]
  rfl
theorem W8_arg_launch {b : DevRef τ sig} (hb : IsArg b) : W8 m d b = m (d, b) := by
  rw [W8_arg m d hb, W7_arg m d hb, W6_arg m d hb, W5_arg m d hb, W4_arg m d hb, W3_arg m d hb, W2_arg m d hb, W1_arg m d hb]
  rfl
theorem W13_arg_launch {b : DevRef τ sig} (hb : IsArg b) : W13 m d b = m (d, b) := by
  rw [W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl
theorem W18_arg_launch {b : DevRef τ sig} (hb : IsArg b) : W18 m d b = m (d, b) := by
  rw [W18_arg m d hb, W17_arg m d hb, W16_arg m d hb, W15_arg m d hb, W14_arg m d hb, W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl
theorem W23_arg_launch {b : DevRef τ sig} (hb : IsArg b) : W23 m d b = m (d, b) := by
  rw [W23_arg m d hb, W22_arg m d hb, W21_arg m d hb, W20_arg m d hb, W19_arg m d hb, W18_arg m d hb, W17_arg m d hb, W16_arg m d hb, W15_arg m d hb, W14_arg m d hb, W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl

end Cert.KernelIdeal.Hand

end
-- ==== Proof.End.lean ====
/-
  What @main leaves the claim and how the final memory reads it: the three arguments at their launch contents and
  the result array at the last valuation's contents.
-/
import proofs.«206421_g46840913330738_cont_8to1c4_247_26_alg».proof.Proof.Base
import proofs.«206421_g46840913330738_cont_8to1c4_247_26_alg».proof.Proof.Kept

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev resLoc (d : Dev nD) : Loc nD τ sig := (SparseCore.T d).loc main_v22

/-- The result array's contents at the end of @main. -/
def resVal (d : Dev nD) : Buf (Elt F) (resLoc d) := W27 m d (r main_v22)

/-- What @main leaves the claim: the arguments as launched, the result. -/
def FIN (d : Dev nD) : sProp (MM F) :=
  iprop((a0Loc d ↦{fullShare} m (a0Loc d)) ∗ (a1Loc d ↦{fullShare} m (a1Loc d)) ∗ (a2Loc d ↦{fullShare} m (a2Loc d))
    ∗ (resLoc d ↦{fullShare} resVal m d))

/-- The four arrays the claim reads. -/
abbrev SF : Finset (DevRef τ sig) := {r main_arg0, r main_arg1, r main_arg2, r main_v22}
omit [FloatOps F] in
theorem SF_sub : SF ⊆ Sall := by decide

omit [FloatOps F] in
theorem held_SF (d : Dev nD) (V : Valuation τ sig (Elt F)) :
    (held (T d) SF V : sProp (MM F))
      = iprop((a0Loc d ↦{fullShare} V (r main_arg0)) ∗ (a1Loc d ↦{fullShare} V (r main_arg1)) ∗ (a2Loc d ↦{fullShare} V (r main_arg2))
          ∗ (resLoc d ↦{fullShare} V (r main_v22))) := by
  unfold held SF
  rw [SparseCore.bigSep_insert' (by decide), SparseCore.bigSep_insert' (by decide), SparseCore.bigSep_insert' (by decide), bigSep_singleton]

/-- All the TensorCore's arrays at the last valuation hold what the claim reads. -/
theorem held_FIN (d : Dev nD) : (held (T d) Sall (W27 m d) : sProp (MM F)) ⊢ FIN m d := by
  rw [held_sub_split (T d) SF_sub (W27 m d), held_SF,
    W27_arg_launch m d (Or.inl rfl), W27_arg_launch m d (Or.inr (Or.inl rfl)), W27_arg_launch m d (Or.inr (Or.inr rfl))]
  unfold FIN resVal
  iintro ⟨H, -⟩
  iexact H

def fq (d : Dev nD) (s' : Phys nD τ sig (Elt F)) : Prop :=
  s'.mem.mem (resLoc d) = resVal m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp (MM F)) := by
  unfold FIN
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := resLoc d) (I := Finset.univ) (q := fullShare) (f := resVal m d)) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

/-- The run's post, in the claim's shape: the result, then the three arguments. -/
def QC : PUnit × MemSt nD τ sig (Elt F) → Prop := fun x => ∀ c : Dev nD,
  x.2.mem (resLoc c) = resVal m c ∧ x.2.mem (a0Loc c) = m (a0Loc c) ∧ x.2.mem (a1Loc c) = m (a1Loc c) ∧ x.2.mem (a2Loc c) = m (a2Loc c)

end Cert.KernelIdeal.Hand

end
-- ==== Proof.LaunchElem.lean ====
/-
  The launch element of the ghost state and what it funds. The handshakes' component is the rounds library's
  element at the launch's handshake cells; the pipelines' component is the rounds library's element at the staging
  cells of the five matrix-product regions, which funds each region's cells and duty tokens; the counters' component
  is the unit. Nothing is dealt to a tile for its kernel: a gather task only issues local copies and waits for them.
-/
import proofs.«206421_g46840913330738_cont_8to1c4_247_26_alg».proof.Proof.Base

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

/-- What the TensorCore of `d` starts @main from, beside what the launch theorem deals it: the five regions' staging
    cells, not yet under a schedule, and the duty tokens of the transfers their loops issue. -/
def G (d : Dev nD) : sProp (MM F) :=
  bigSep Finset.univ fun p : Fin 5 => iprop(Pipeline.cellsGhost (nD := nD) (τ := τ) cfgs EP p d ∗ Pipeline.toksInit (nD := nD) (τ := τ) cfgs EP p d)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem EP_eq : (EP : Emb UP (MM F)) = (Emb.inl : Emb UP (UP × Counters)).trans embR := rfl

theorem bigSep_emp' {I : Type} (s : Finset I) : (bigSep s fun _ => iprop(emp)) = (iprop(emp) : sProp (MM F)) := bigSep_emp_const s

/-- From the launch element: the handshakes' rounds, each TensorCore's five regions' ghost state, and nothing for the
    SparseCore threads. -/
theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun _ : Thread nD τ => bigSep Finset.univ fun _ : Fin 5 => (iprop(emp) : sProp (MM F))) := by
  unfold u₀
  iintro Hu
  ihave H := (ownU_pair _ _) $$ Hu
  icases H with ⟨HH, HR⟩
  ihave H2 := (own_pair_emb embR _ _) $$ HR
  icases H2 with ⟨HP, -⟩
  rw [← EP_eq]
  imod (Pipeline.fund_ghost (nD := nD) (τ := τ) cfgs EP cellOf_inj) $$ HP with ⟨Hg, Ht⟩
  imodintro
  isplitl [HH]; · iexact HH
  isplitl [Hg Ht]
  · unfold G
    simp only [bigSep_sep']
    isplitl [Hg]; · iexact Hg
    iexact Ht
  · rw [bigSep_congr fun _ _ => bigSep_emp' _, bigSep_emp']
    iempintro

end Cert.KernelIdeal.Hand

end
-- ==== Proof.Split0.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.Base
import proofs.«206421_g46840913330738_cont_8to1c4_247_26_alg».proof.Proof.Tile0Defs
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Task number t as grid coordinates: core t mod 2, subcore t div 2. -/
def tileL (t : Fin 32) : grid0.Coords := coordsV ⟨t.val % 2, by show t.val % 2 < 2; omega⟩ ⟨t.val / 2, by show t.val / 2 < 16; omega⟩

/-- (core, subcore) ↦ 2·subcore + core numbers the 32 tasks. -/
def tileE : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL (t : Fin 32) : wid (tileL t) = t.val := by
  show 2 * (t.val / 2) + t.val % 2 = t.val; omega

omit [FloatOps F] in
theorem tileL_tileE (c : Fin 2) (i : Fin 16) : tileL (tileE (c, i)) = coordsV c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles (X : grid0.Coords → sProp (MM F)) :
    (bigSep Finset.univ fun c : Fin 2 => bigSep Finset.univ fun i : Fin 16 => X (coordsV c i)) = bigSep Finset.univ fun t : Fin 32 => X (tileL t) := by
  rw [← bigSep_univ_prod (fun p : Fin 2 × Fin 16 => X (coordsV p.1 p.2)), bigSep_univ_equiv tileE (fun t => X (tileL t))]
  exact bigSep_congr fun p _ => by rw [tileL_tileE]

/-! ## The index array's 32 blocks -/

omit [FloatOps F] in
theorem idxOff_lead (t : Fin 32) : k0_off1 (tileL t) 0 = 1 * t.val := by
  rw [k0_off1_eq]; show 2 * (t.val / 2) + t.val % 2 = 1 * t.val; omega
omit [FloatOps F] in
theorem idxOff_rest (t : Fin 32) (a : Fin 3) (ha : a ≠ 0) : k0_off1 (tileL t) a = 0 := by
  rw [k0_off1_eq]
  match a with
  | 0 => exact absurd rfl ha
  | 1 => rfl
  | 2 => rfl

omit [FloatOps F] in
theorem idx_disj : ∀ t ∈ (Finset.univ : Finset (Fin 32)), ∀ t' ∈ (Finset.univ : Finset (Fin 32)), t ≠ t' →
    Disjoint (idxRows0 d (tileL t)) (idxRows0 d (tileL t')) :=
  fun t _ t' _ h => Ring.lead_disjoint (s := S32x40x128) (NB := 32) 0 1 (fun t => k0_off1 (tileL t)) S1x40x128.size (fun t => k0_off1_inb (tileL t))
    idxOff_lead rfl t t' h

omit [FloatOps F] in
theorem idx_cover : Finset.univ.biUnion (fun t : Fin 32 => idxRows0 d (tileL t)) = (Finset.univ : Finset (Idx (idxLoc d))) :=
  Ring.lead_cover (s := S32x40x128) (NB := 32) 0 1 (fun t => k0_off1 (tileL t)) S1x40x128.size (fun t => k0_off1_inb (tileL t))
    idxOff_lead idxOff_rest rfl (fun a ha => by match a with | 0 => exact absurd rfl ha | 1 => rfl | 2 => rfl) rfl

omit [FloatOps F] in
/-- The index array whole is its 32 blocks, at one contents function. -/
theorem idx_split (I : Buf (Elt F) (idxLoc d)) :
    (idxLoc d ↦{fullShare} I : sProp (MM F)) = bigSep Finset.univ fun t : Fin 32 => idxLoc d ↦[idxRows0 d (tileL t)]{fullShare} I := by
  rw [← pointsTo_biUnion Finset.univ _ (idx_disj d), idx_cover]

/-! ## The gathered array's 32 row ranges -/

omit [FloatOps F] in
theorem out_disj : ∀ t ∈ (Finset.univ : Finset (Fin 32)), ∀ t' ∈ (Finset.univ : Finset (Fin 32)), t ≠ t' →
    Disjoint (outRows0 d (tileL t)) (outRows0 d (tileL t')) :=
  fun t _ t' _ h => Ring.lead_disjoint (s := S163840x128) (NB := 32) 0 5120 (fun t => ![5120 * wid (tileL t), 0]) ![5120, 128] (fun t => outRect0_inb (tileL t))
    (fun t => by show 5120 * wid (tileL t) = 5120 * t.val; rw [wid_tileL]) rfl t t' h

omit [FloatOps F] in
theorem out_cover : Finset.univ.biUnion (fun t : Fin 32 => outRows0 d (tileL t)) = (Finset.univ : Finset (Idx (outLoc d))) :=
  Ring.lead_cover (s := S163840x128) (NB := 32) 0 5120 (fun t => ![5120 * wid (tileL t), 0]) ![5120, 128] (fun t => outRect0_inb (tileL t))
    (fun t => by show 5120 * wid (tileL t) = 5120 * t.val; rw [wid_tileL])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split (f : Buf (Elt F) (outLoc d)) :
    (outLoc d ↦{fullShare} f : sProp (MM F)) = bigSep Finset.univ fun t : Fin 32 => outLoc d ↦[outRows0 d (tileL t)]{fullShare} f := by
  rw [← pointsTo_biUnion Finset.univ _ (out_disj d), out_cover]

/-! ## The table's 32 read tokens -/

omit [FloatOps F] in
theorem tok_tile (tab : Buf (Elt F) (tabLoc d)) :
    (bigSep Finset.univ fun t : Fin 32 => (tabLoc d ↦[Finset.univ]{Transfers.shareTok fullShare 32 ⟨wid (tileL t), wid_lt (tileL t)⟩} tab : sProp (MM F)))
      = bigSep Finset.univ fun t : Fin 32 => tabLoc d ↦[Finset.univ]{Transfers.shareTok fullShare 32 t} tab :=
  bigSep_congr fun t _ => by rw [show (⟨wid (tileL t), wid_lt (tileL t)⟩ : Fin 32) = t from Fin.ext (wid_tileL t)]

/-! ## The call's operands to its tasks, and the results back -/

/-- The three whole arrays are the table's remainder and every task's operands. -/
theorem split0 (tab : Buf (Elt F) (tabLoc d)) (I : Buf (Elt F) (idxLoc d)) (f : Buf (Elt F) (outLoc d)) :
    iprop((tabLoc d ↦{fullShare} tab) ∗ (idxLoc d ↦{fullShare} I) ∗ (outLoc d ↦{fullShare} f))
      ⊢ (iprop((tabLoc d ↦{Transfers.shareDrop fullShare 32} tab)
          ∗ bigSep Finset.univ fun c : Fin 2 => bigSep Finset.univ fun i : Fin 16 => goRes0 d (coordsV c i) tab I f) : sProp (MM F)) := by
  rw [bigSep_tiles (fun L => goRes0 d L tab I f)]
  unfold goRes0
  simp only [bigSep_sep']
  rw [tok_tile, idx_split, out_split]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join0 (tab : Buf (Elt F) (tabLoc d)) (I : Buf (Elt F) (idxLoc d)) :
    (iprop((tabLoc d ↦{Transfers.shareDrop fullShare 32} tab)
        ∗ bigSep Finset.univ fun c : Fin 2 => bigSep Finset.univ fun i : Fin 16 => tdRes0 d (coordsV c i) tab I) : sProp (MM F))
      ⊢ iprop((tabLoc d ↦{fullShare} tab) ∗ (idxLoc d ↦{fullShare} I) ∗ (outLoc d ↦{fullShare} gathered0 tab I)) := by
  rw [bigSep_tiles (fun L => tdRes0 d L tab I)]
  unfold tdRes0
  simp only [bigSep_sep']
  rw [tok_tile, idx_split, out_split]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.KernelIdeal.Hand

end
-- ==== Proof.Split2.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.Base
import proofs.«206421_g46840913330738_cont_8to1c4_247_26_alg».proof.Proof.Tile2Defs
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV2 (c : Fin (grid2.bound 0)) (s : Fin (grid2.bound 1)) : grid2.Coords :=
  fun | 0 => c | 1 => s | ⟨_ + 2, h⟩ => absurd h (Nat.not_lt.2 (Nat.le_add_left _ _))

/-- Task number t as grid coordinates: core t mod 2, subcore t div 2. -/
def tileL2 (t : Fin 32) : grid2.Coords := coordsV2 ⟨t.val % 2, by show t.val % 2 < 2; omega⟩ ⟨t.val / 2, by show t.val / 2 < 16; omega⟩

/-- (core, subcore) ↦ 2·subcore + core numbers the 32 tasks. -/
def tileE2 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL2 (t : Fin 32) : wid2 (tileL2 t) = t.val := by
  show 2 * (t.val / 2) + t.val % 2 = t.val; omega

omit [FloatOps F] in
theorem tileL_tileE2 (c : Fin 2) (i : Fin 16) : tileL2 (tileE2 (c, i)) = coordsV2 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles2 (X : grid2.Coords → sProp (MM F)) :
    (bigSep Finset.univ fun c : Fin 2 => bigSep Finset.univ fun i : Fin 16 => X (coordsV2 c i)) = bigSep Finset.univ fun t : Fin 32 => X (tileL2 t) := by
  rw [← bigSep_univ_prod (fun p : Fin 2 × Fin 16 => X (coordsV2 p.1 p.2)), bigSep_univ_equiv tileE2 (fun t => X (tileL2 t))]
  exact bigSep_congr fun p _ => by rw [tileL_tileE2]

/-! ## The index array's 32 blocks -/

omit [FloatOps F] in
theorem idxOff_lead2 (t : Fin 32) : k2_off1 (tileL2 t) 0 = 1 * t.val := by
  rw [k2_off1_eq]; show 2 * (t.val / 2) + t.val % 2 = 1 * t.val; omega
omit [FloatOps F] in
theorem idxOff_rest2 (t : Fin 32) (a : Fin 3) (ha : a ≠ 0) : k2_off1 (tileL2 t) a = 0 := by
  rw [k2_off1_eq]
  match a with
  | 0 => exact absurd rfl ha
  | 1 => rfl
  | 2 => rfl

omit [FloatOps F] in
theorem idx_disj2 : ∀ t ∈ (Finset.univ : Finset (Fin 32)), ∀ t' ∈ (Finset.univ : Finset (Fin 32)), t ≠ t' →
    Disjoint (idxRows2 d (tileL2 t)) (idxRows2 d (tileL2 t')) :=
  fun t _ t' _ h => Ring.lead_disjoint (s := S32x40x128) (NB := 32) 0 1 (fun t => k2_off1 (tileL2 t)) S1x40x128.size (fun t => k2_off1_inb (tileL2 t))
    idxOff_lead2 rfl t t' h

omit [FloatOps F] in
theorem idx_cover2 : Finset.univ.biUnion (fun t : Fin 32 => idxRows2 d (tileL2 t)) = (Finset.univ : Finset (Idx (idxLoc2 d))) :=
  Ring.lead_cover (s := S32x40x128) (NB := 32) 0 1 (fun t => k2_off1 (tileL2 t)) S1x40x128.size (fun t => k2_off1_inb (tileL2 t))
    idxOff_lead2 idxOff_rest2 rfl (fun a ha => by match a with | 0 => exact absurd rfl ha | 1 => rfl | 2 => rfl) rfl

omit [FloatOps F] in
/-- The index array whole is its 32 blocks, at one contents function. -/
theorem idx_split2 (I : Buf (Elt F) (idxLoc2 d)) :
    (idxLoc2 d ↦{fullShare} I : sProp (MM F)) = bigSep Finset.univ fun t : Fin 32 => idxLoc2 d ↦[idxRows2 d (tileL2 t)]{fullShare} I := by
  rw [← pointsTo_biUnion Finset.univ _ (idx_disj2 d), idx_cover2]

/-! ## The gathered array's 32 row ranges -/

omit [FloatOps F] in
theorem out_disj2 : ∀ t ∈ (Finset.univ : Finset (Fin 32)), ∀ t' ∈ (Finset.univ : Finset (Fin 32)), t ≠ t' →
    Disjoint (outRows2 d (tileL2 t)) (outRows2 d (tileL2 t')) :=
  fun t _ t' _ h => Ring.lead_disjoint (s := S163840x128) (NB := 32) 0 5120 (fun t => ![5120 * wid2 (tileL2 t), 0]) ![5120, 128] (fun t => outRect2_inb (tileL2 t))
    (fun t => by show 5120 * wid2 (tileL2 t) = 5120 * t.val; rw [wid_tileL2]) rfl t t' h

omit [FloatOps F] in
theorem out_cover2 : Finset.univ.biUnion (fun t : Fin 32 => outRows2 d (tileL2 t)) = (Finset.univ : Finset (Idx (outLoc2 d))) :=
  Ring.lead_cover (s := S163840x128) (NB := 32) 0 5120 (fun t => ![5120 * wid2 (tileL2 t), 0]) ![5120, 128] (fun t => outRect2_inb (tileL2 t))
    (fun t => by show 5120 * wid2 (tileL2 t) = 5120 * t.val; rw [wid_tileL2])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split2 (f : Buf (Elt F) (outLoc2 d)) :
    (outLoc2 d ↦{fullShare} f : sProp (MM F)) = bigSep Finset.univ fun t : Fin 32 => outLoc2 d ↦[outRows2 d (tileL2 t)]{fullShare} f := by
  rw [← pointsTo_biUnion Finset.univ _ (out_disj2 d), out_cover2]

/-! ## The table's 32 read tokens -/

omit [FloatOps F] in
theorem tok_tile2 (tab : Buf (Elt F) (tabLoc2 d)) :
    (bigSep Finset.univ fun t : Fin 32 => (tabLoc2 d ↦[Finset.univ]{Transfers.shareTok fullShare 32 ⟨wid2 (tileL2 t), wid_lt2 (tileL2 t)⟩} tab : sProp (MM F)))
      = bigSep Finset.univ fun t : Fin 32 => tabLoc2 d ↦[Finset.univ]{Transfers.shareTok fullShare 32 t} tab :=
  bigSep_congr fun t _ => by rw [show (⟨wid2 (tileL2 t), wid_lt2 (tileL2 t)⟩ : Fin 32) = t from Fin.ext (wid_tileL2 t)]

/-! ## The call's operands to its tasks, and the results back -/

/-- The three whole arrays are the table's remainder and every task's operands. -/
theorem split2 (tab : Buf (Elt F) (tabLoc2 d)) (I : Buf (Elt F) (idxLoc2 d)) (f : Buf (Elt F) (outLoc2 d)) :
    iprop((tabLoc2 d ↦{fullShare} tab) ∗ (idxLoc2 d ↦{fullShare} I) ∗ (outLoc2 d ↦{fullShare} f))
      ⊢ (iprop((tabLoc2 d ↦{Transfers.shareDrop fullShare 32} tab)
          ∗ bigSep Finset.univ fun c : Fin 2 => bigSep Finset.univ fun i : Fin 16 => goRes2 d (coordsV2 c i) tab I f) : sProp (MM F)) := by
  rw [bigSep_tiles2 (fun L => goRes2 d L tab I f)]
  unfold goRes2
  simp only [bigSep_sep']
  rw [tok_tile2, idx_split2, out_split2]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join2 (tab : Buf (Elt F) (tabLoc2 d)) (I : Buf (Elt F) (idxLoc2 d)) :
    (iprop((tabLoc2 d ↦{Transfers.shareDrop fullShare 32} tab)
        ∗ bigSep Finset.univ fun c : Fin 2 => bigSep Finset.univ fun i : Fin 16 => tdRes2 d (coordsV2 c i) tab I) : sProp (MM F))
      ⊢ iprop((tabLoc2 d ↦{fullShare} tab) ∗ (idxLoc2 d ↦{fullShare} I) ∗ (outLoc2 d ↦{fullShare} gathered2 tab I)) := by
  rw [bigSep_tiles2 (fun L => tdRes2 d L tab I)]
  unfold tdRes2
  simp only [bigSep_sep']
  rw [tok_tile2, idx_split2, out_split2]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.KernelIdeal.Hand

end
-- ==== Proof.Split4.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.Base
import proofs.«206421_g46840913330738_cont_8to1c4_247_26_alg».proof.Proof.Tile4Defs
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV4 (c : Fin (grid4.bound 0)) (s : Fin (grid4.bound 1)) : grid4.Coords :=
  fun | 0 => c | 1 => s | ⟨_ + 2, h⟩ => absurd h (Nat.not_lt.2 (Nat.le_add_left _ _))

/-- Task number t as grid coordinates: core t mod 2, subcore t div 2. -/
def tileL4 (t : Fin 32) : grid4.Coords := coordsV4 ⟨t.val % 2, by show t.val % 2 < 2; omega⟩ ⟨t.val / 2, by show t.val / 2 < 16; omega⟩

/-- (core, subcore) ↦ 2·subcore + core numbers the 32 tasks. -/
def tileE4 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL4 (t : Fin 32) : wid4 (tileL4 t) = t.val := by
  show 2 * (t.val / 2) + t.val % 2 = t.val; omega

omit [FloatOps F] in
theorem tileL_tileE4 (c : Fin 2) (i : Fin 16) : tileL4 (tileE4 (c, i)) = coordsV4 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles4 (X : grid4.Coords → sProp (MM F)) :
    (bigSep Finset.univ fun c : Fin 2 => bigSep Finset.univ fun i : Fin 16 => X (coordsV4 c i)) = bigSep Finset.univ fun t : Fin 32 => X (tileL4 t) := by
  rw [← bigSep_univ_prod (fun p : Fin 2 × Fin 16 => X (coordsV4 p.1 p.2)), bigSep_univ_equiv tileE4 (fun t => X (tileL4 t))]
  exact bigSep_congr fun p _ => by rw [tileL_tileE4]

/-! ## The index array's 32 blocks -/

omit [FloatOps F] in
theorem idxOff_lead4 (t : Fin 32) : k4_off1 (tileL4 t) 0 = 1 * t.val := by
  rw [k4_off1_eq]; show 2 * (t.val / 2) + t.val % 2 = 1 * t.val; omega
omit [FloatOps F] in
theorem idxOff_rest4 (t : Fin 32) (a : Fin 3) (ha : a ≠ 0) : k4_off1 (tileL4 t) a = 0 := by
  rw [k4_off1_eq]
  match a with
  | 0 => exact absurd rfl ha
  | 1 => rfl
  | 2 => rfl

omit [FloatOps F] in
theorem idx_disj4 : ∀ t ∈ (Finset.univ : Finset (Fin 32)), ∀ t' ∈ (Finset.univ : Finset (Fin 32)), t ≠ t' →
    Disjoint (idxRows4 d (tileL4 t)) (idxRows4 d (tileL4 t')) :=
  fun t _ t' _ h => Ring.lead_disjoint (s := S32x40x128) (NB := 32) 0 1 (fun t => k4_off1 (tileL4 t)) S1x40x128.size (fun t => k4_off1_inb (tileL4 t))
    idxOff_lead4 rfl t t' h

omit [FloatOps F] in
theorem idx_cover4 : Finset.univ.biUnion (fun t : Fin 32 => idxRows4 d (tileL4 t)) = (Finset.univ : Finset (Idx (idxLoc4 d))) :=
  Ring.lead_cover (s := S32x40x128) (NB := 32) 0 1 (fun t => k4_off1 (tileL4 t)) S1x40x128.size (fun t => k4_off1_inb (tileL4 t))
    idxOff_lead4 idxOff_rest4 rfl (fun a ha => by match a with | 0 => exact absurd rfl ha | 1 => rfl | 2 => rfl) rfl

omit [FloatOps F] in
/-- The index array whole is its 32 blocks, at one contents function. -/
theorem idx_split4 (I : Buf (Elt F) (idxLoc4 d)) :
    (idxLoc4 d ↦{fullShare} I : sProp (MM F)) = bigSep Finset.univ fun t : Fin 32 => idxLoc4 d ↦[idxRows4 d (tileL4 t)]{fullShare} I := by
  rw [← pointsTo_biUnion Finset.univ _ (idx_disj4 d), idx_cover4]

/-! ## The gathered array's 32 row ranges -/

omit [FloatOps F] in
theorem out_disj4 : ∀ t ∈ (Finset.univ : Finset (Fin 32)), ∀ t' ∈ (Finset.univ : Finset (Fin 32)), t ≠ t' →
    Disjoint (outRows4 d (tileL4 t)) (outRows4 d (tileL4 t')) :=
  fun t _ t' _ h => Ring.lead_disjoint (s := S163840x128) (NB := 32) 0 5120 (fun t => ![5120 * wid4 (tileL4 t), 0]) ![5120, 128] (fun t => outRect4_inb (tileL4 t))
    (fun t => by show 5120 * wid4 (tileL4 t) = 5120 * t.val; rw [wid_tileL4]) rfl t t' h

omit [FloatOps F] in
theorem out_cover4 : Finset.univ.biUnion (fun t : Fin 32 => outRows4 d (tileL4 t)) = (Finset.univ : Finset (Idx (outLoc4 d))) :=
  Ring.lead_cover (s := S163840x128) (NB := 32) 0 5120 (fun t => ![5120 * wid4 (tileL4 t), 0]) ![5120, 128] (fun t => outRect4_inb (tileL4 t))
    (fun t => by show 5120 * wid4 (tileL4 t) = 5120 * t.val; rw [wid_tileL4])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split4 (f : Buf (Elt F) (outLoc4 d)) :
    (outLoc4 d ↦{fullShare} f : sProp (MM F)) = bigSep Finset.univ fun t : Fin 32 => outLoc4 d ↦[outRows4 d (tileL4 t)]{fullShare} f := by
  rw [← pointsTo_biUnion Finset.univ _ (out_disj4 d), out_cover4]

/-! ## The table's 32 read tokens -/

omit [FloatOps F] in
theorem tok_tile4 (tab : Buf (Elt F) (tabLoc4 d)) :
    (bigSep Finset.univ fun t : Fin 32 => (tabLoc4 d ↦[Finset.univ]{Transfers.shareTok fullShare 32 ⟨wid4 (tileL4 t), wid_lt4 (tileL4 t)⟩} tab : sProp (MM F)))
      = bigSep Finset.univ fun t : Fin 32 => tabLoc4 d ↦[Finset.univ]{Transfers.shareTok fullShare 32 t} tab :=
  bigSep_congr fun t _ => by rw [show (⟨wid4 (tileL4 t), wid_lt4 (tileL4 t)⟩ : Fin 32) = t from Fin.ext (wid_tileL4 t)]

/-! ## The call's operands to its tasks, and the results back -/

/-- The three whole arrays are the table's remainder and every task's operands. -/
theorem split4 (tab : Buf (Elt F) (tabLoc4 d)) (I : Buf (Elt F) (idxLoc4 d)) (f : Buf (Elt F) (outLoc4 d)) :
    iprop((tabLoc4 d ↦{fullShare} tab) ∗ (idxLoc4 d ↦{fullShare} I) ∗ (outLoc4 d ↦{fullShare} f))
      ⊢ (iprop((tabLoc4 d ↦{Transfers.shareDrop fullShare 32} tab)
          ∗ bigSep Finset.univ fun c : Fin 2 => bigSep Finset.univ fun i : Fin 16 => goRes4 d (coordsV4 c i) tab I f) : sProp (MM F)) := by
  rw [bigSep_tiles4 (fun L => goRes4 d L tab I f)]
  unfold goRes4
  simp only [bigSep_sep']
  rw [tok_tile4, idx_split4, out_split4]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join4 (tab : Buf (Elt F) (tabLoc4 d)) (I : Buf (Elt F) (idxLoc4 d)) :
    (iprop((tabLoc4 d ↦{Transfers.shareDrop fullShare 32} tab)
        ∗ bigSep Finset.univ fun c : Fin 2 => bigSep Finset.univ fun i : Fin 16 => tdRes4 d (coordsV4 c i) tab I) : sProp (MM F))
      ⊢ iprop((tabLoc4 d ↦{fullShare} tab) ∗ (idxLoc4 d ↦{fullShare} I) ∗ (outLoc4 d ↦{fullShare} gathered4 tab I)) := by
  rw [bigSep_tiles4 (fun L => tdRes4 d L tab I)]
  unfold tdRes4
  simp only [bigSep_sep']
  rw [tok_tile4, idx_split4, out_split4]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.KernelIdeal.Hand

end
-- ==== Proof.Split6.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.Base
import proofs.«206421_g46840913330738_cont_8to1c4_247_26_alg».proof.Proof.Tile6Defs
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV6 (c : Fin (grid6.bound 0)) (s : Fin (grid6.bound 1)) : grid6.Coords :=
  fun | 0 => c | 1 => s | ⟨_ + 2, h⟩ => absurd h (Nat.not_lt.2 (Nat.le_add_left _ _))

/-- Task number t as grid coordinates: core t mod 2, subcore t div 2. -/
def tileL6 (t : Fin 32) : grid6.Coords := coordsV6 ⟨t.val % 2, by show t.val % 2 < 2; omega⟩ ⟨t.val / 2, by show t.val / 2 < 16; omega⟩

/-- (core, subcore) ↦ 2·subcore + core numbers the 32 tasks. -/
def tileE6 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL6 (t : Fin 32) : wid6 (tileL6 t) = t.val := by
  show 2 * (t.val / 2) + t.val % 2 = t.val; omega

omit [FloatOps F] in
theorem tileL_tileE6 (c : Fin 2) (i : Fin 16) : tileL6 (tileE6 (c, i)) = coordsV6 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles6 (X : grid6.Coords → sProp (MM F)) :
    (bigSep Finset.univ fun c : Fin 2 => bigSep Finset.univ fun i : Fin 16 => X (coordsV6 c i)) = bigSep Finset.univ fun t : Fin 32 => X (tileL6 t) := by
  rw [← bigSep_univ_prod (fun p : Fin 2 × Fin 16 => X (coordsV6 p.1 p.2)), bigSep_univ_equiv tileE6 (fun t => X (tileL6 t))]
  exact bigSep_congr fun p _ => by rw [tileL_tileE6]

/-! ## The index array's 32 blocks -/

omit [FloatOps F] in
theorem idxOff_lead6 (t : Fin 32) : k6_off1 (tileL6 t) 0 = 1 * t.val := by
  rw [k6_off1_eq]; show 2 * (t.val / 2) + t.val % 2 = 1 * t.val; omega
omit [FloatOps F] in
theorem idxOff_rest6 (t : Fin 32) (a : Fin 3) (ha : a ≠ 0) : k6_off1 (tileL6 t) a = 0 := by
  rw [k6_off1_eq]
  match a with
  | 0 => exact absurd rfl ha
  | 1 => rfl
  | 2 => rfl

omit [FloatOps F] in
theorem idx_disj6 : ∀ t ∈ (Finset.univ : Finset (Fin 32)), ∀ t' ∈ (Finset.univ : Finset (Fin 32)), t ≠ t' →
    Disjoint (idxRows6 d (tileL6 t)) (idxRows6 d (tileL6 t')) :=
  fun t _ t' _ h => Ring.lead_disjoint (s := S32x40x128) (NB := 32) 0 1 (fun t => k6_off1 (tileL6 t)) S1x40x128.size (fun t => k6_off1_inb (tileL6 t))
    idxOff_lead6 rfl t t' h

omit [FloatOps F] in
theorem idx_cover6 : Finset.univ.biUnion (fun t : Fin 32 => idxRows6 d (tileL6 t)) = (Finset.univ : Finset (Idx (idxLoc6 d))) :=
  Ring.lead_cover (s := S32x40x128) (NB := 32) 0 1 (fun t => k6_off1 (tileL6 t)) S1x40x128.size (fun t => k6_off1_inb (tileL6 t))
    idxOff_lead6 idxOff_rest6 rfl (fun a ha => by match a with | 0 => exact absurd rfl ha | 1 => rfl | 2 => rfl) rfl

omit [FloatOps F] in
/-- The index array whole is its 32 blocks, at one contents function. -/
theorem idx_split6 (I : Buf (Elt F) (idxLoc6 d)) :
    (idxLoc6 d ↦{fullShare} I : sProp (MM F)) = bigSep Finset.univ fun t : Fin 32 => idxLoc6 d ↦[idxRows6 d (tileL6 t)]{fullShare} I := by
  rw [← pointsTo_biUnion Finset.univ _ (idx_disj6 d), idx_cover6]

/-! ## The gathered array's 32 row ranges -/

omit [FloatOps F] in
theorem out_disj6 : ∀ t ∈ (Finset.univ : Finset (Fin 32)), ∀ t' ∈ (Finset.univ : Finset (Fin 32)), t ≠ t' →
    Disjoint (outRows6 d (tileL6 t)) (outRows6 d (tileL6 t')) :=
  fun t _ t' _ h => Ring.lead_disjoint (s := S163840x128) (NB := 32) 0 5120 (fun t => ![5120 * wid6 (tileL6 t), 0]) ![5120, 128] (fun t => outRect6_inb (tileL6 t))
    (fun t => by show 5120 * wid6 (tileL6 t) = 5120 * t.val; rw [wid_tileL6]) rfl t t' h

omit [FloatOps F] in
theorem out_cover6 : Finset.univ.biUnion (fun t : Fin 32 => outRows6 d (tileL6 t)) = (Finset.univ : Finset (Idx (outLoc6 d))) :=
  Ring.lead_cover (s := S163840x128) (NB := 32) 0 5120 (fun t => ![5120 * wid6 (tileL6 t), 0]) ![5120, 128] (fun t => outRect6_inb (tileL6 t))
    (fun t => by show 5120 * wid6 (tileL6 t) = 5120 * t.val; rw [wid_tileL6])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split6 (f : Buf (Elt F) (outLoc6 d)) :
    (outLoc6 d ↦{fullShare} f : sProp (MM F)) = bigSep Finset.univ fun t : Fin 32 => outLoc6 d ↦[outRows6 d (tileL6 t)]{fullShare} f := by
  rw [← pointsTo_biUnion Finset.univ _ (out_disj6 d), out_cover6]

/-! ## The table's 32 read tokens -/

omit [FloatOps F] in
theorem tok_tile6 (tab : Buf (Elt F) (tabLoc6 d)) :
    (bigSep Finset.univ fun t : Fin 32 => (tabLoc6 d ↦[Finset.univ]{Transfers.shareTok fullShare 32 ⟨wid6 (tileL6 t), wid_lt6 (tileL6 t)⟩} tab : sProp (MM F)))
      = bigSep Finset.univ fun t : Fin 32 => tabLoc6 d ↦[Finset.univ]{Transfers.shareTok fullShare 32 t} tab :=
  bigSep_congr fun t _ => by rw [show (⟨wid6 (tileL6 t), wid_lt6 (tileL6 t)⟩ : Fin 32) = t from Fin.ext (wid_tileL6 t)]

/-! ## The call's operands to its tasks, and the results back -/

/-- The three whole arrays are the table's remainder and every task's operands. -/
theorem split6 (tab : Buf (Elt F) (tabLoc6 d)) (I : Buf (Elt F) (idxLoc6 d)) (f : Buf (Elt F) (outLoc6 d)) :
    iprop((tabLoc6 d ↦{fullShare} tab) ∗ (idxLoc6 d ↦{fullShare} I) ∗ (outLoc6 d ↦{fullShare} f))
      ⊢ (iprop((tabLoc6 d ↦{Transfers.shareDrop fullShare 32} tab)
          ∗ bigSep Finset.univ fun c : Fin 2 => bigSep Finset.univ fun i : Fin 16 => goRes6 d (coordsV6 c i) tab I f) : sProp (MM F)) := by
  rw [bigSep_tiles6 (fun L => goRes6 d L tab I f)]
  unfold goRes6
  simp only [bigSep_sep']
  rw [tok_tile6, idx_split6, out_split6]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join6 (tab : Buf (Elt F) (tabLoc6 d)) (I : Buf (Elt F) (idxLoc6 d)) :
    (iprop((tabLoc6 d ↦{Transfers.shareDrop fullShare 32} tab)
        ∗ bigSep Finset.univ fun c : Fin 2 => bigSep Finset.univ fun i : Fin 16 => tdRes6 d (coordsV6 c i) tab I) : sProp (MM F))
      ⊢ iprop((tabLoc6 d ↦{fullShare} tab) ∗ (idxLoc6 d ↦{fullShare} I) ∗ (outLoc6 d ↦{fullShare} gathered6 tab I)) := by
  rw [bigSep_tiles6 (fun L => tdRes6 d L tab I)]
  unfold tdRes6
  simp only [bigSep_sep']
  rw [tok_tile6, idx_split6, out_split6]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.KernelIdeal.Hand

end
-- ==== Proof.Split8.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.Base
import proofs.«206421_g46840913330738_cont_8to1c4_247_26_alg».proof.Proof.Tile8Defs
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV8 (c : Fin (grid8.bound 0)) (s : Fin (grid8.bound 1)) : grid8.Coords :=
  fun | 0 => c | 1 => s | ⟨_ + 2, h⟩ => absurd h (Nat.not_lt.2 (Nat.le_add_left _ _))

/-- Task number t as grid coordinates: core t mod 2, subcore t div 2. -/
def tileL8 (t : Fin 32) : grid8.Coords := coordsV8 ⟨t.val % 2, by show t.val % 2 < 2; omega⟩ ⟨t.val / 2, by show t.val / 2 < 16; omega⟩

/-- (core, subcore) ↦ 2·subcore + core numbers the 32 tasks. -/
def tileE8 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL8 (t : Fin 32) : wid8 (tileL8 t) = t.val := by
  show 2 * (t.val / 2) + t.val % 2 = t.val; omega

omit [FloatOps F] in
theorem tileL_tileE8 (c : Fin 2) (i : Fin 16) : tileL8 (tileE8 (c, i)) = coordsV8 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles8 (X : grid8.Coords → sProp (MM F)) :
    (bigSep Finset.univ fun c : Fin 2 => bigSep Finset.univ fun i : Fin 16 => X (coordsV8 c i)) = bigSep Finset.univ fun t : Fin 32 => X (tileL8 t) := by
  rw [← bigSep_univ_prod (fun p : Fin 2 × Fin 16 => X (coordsV8 p.1 p.2)), bigSep_univ_equiv tileE8 (fun t => X (tileL8 t))]
  exact bigSep_congr fun p _ => by rw [tileL_tileE8]

/-! ## The index array's 32 blocks -/

omit [FloatOps F] in
theorem idxOff_lead8 (t : Fin 32) : k8_off1 (tileL8 t) 0 = 1 * t.val := by
  rw [k8_off1_eq]; show 2 * (t.val / 2) + t.val % 2 = 1 * t.val; omega
omit [FloatOps F] in
theorem idxOff_rest8 (t : Fin 32) (a : Fin 3) (ha : a ≠ 0) : k8_off1 (tileL8 t) a = 0 := by
  rw [k8_off1_eq]
  match a with
  | 0 => exact absurd rfl ha
  | 1 => rfl
  | 2 => rfl

omit [FloatOps F] in
theorem idx_disj8 : ∀ t ∈ (Finset.univ : Finset (Fin 32)), ∀ t' ∈ (Finset.univ : Finset (Fin 32)), t ≠ t' →
    Disjoint (idxRows8 d (tileL8 t)) (idxRows8 d (tileL8 t')) :=
  fun t _ t' _ h => Ring.lead_disjoint (s := S32x40x128) (NB := 32) 0 1 (fun t => k8_off1 (tileL8 t)) S1x40x128.size (fun t => k8_off1_inb (tileL8 t))
    idxOff_lead8 rfl t t' h

omit [FloatOps F] in
theorem idx_cover8 : Finset.univ.biUnion (fun t : Fin 32 => idxRows8 d (tileL8 t)) = (Finset.univ : Finset (Idx (idxLoc8 d))) :=
  Ring.lead_cover (s := S32x40x128) (NB := 32) 0 1 (fun t => k8_off1 (tileL8 t)) S1x40x128.size (fun t => k8_off1_inb (tileL8 t))
    idxOff_lead8 idxOff_rest8 rfl (fun a ha => by match a with | 0 => exact absurd rfl ha | 1 => rfl | 2 => rfl) rfl

omit [FloatOps F] in
/-- The index array whole is its 32 blocks, at one contents function. -/
theorem idx_split8 (I : Buf (Elt F) (idxLoc8 d)) :
    (idxLoc8 d ↦{fullShare} I : sProp (MM F)) = bigSep Finset.univ fun t : Fin 32 => idxLoc8 d ↦[idxRows8 d (tileL8 t)]{fullShare} I := by
  rw [← pointsTo_biUnion Finset.univ _ (idx_disj8 d), idx_cover8]

/-! ## The gathered array's 32 row ranges -/

omit [FloatOps F] in
theorem out_disj8 : ∀ t ∈ (Finset.univ : Finset (Fin 32)), ∀ t' ∈ (Finset.univ : Finset (Fin 32)), t ≠ t' →
    Disjoint (outRows8 d (tileL8 t)) (outRows8 d (tileL8 t')) :=
  fun t _ t' _ h => Ring.lead_disjoint (s := S163840x128) (NB := 32) 0 5120 (fun t => ![5120 * wid8 (tileL8 t), 0]) ![5120, 128] (fun t => outRect8_inb (tileL8 t))
    (fun t => by show 5120 * wid8 (tileL8 t) = 5120 * t.val; rw [wid_tileL8]) rfl t t' h

omit [FloatOps F] in
theorem out_cover8 : Finset.univ.biUnion (fun t : Fin 32 => outRows8 d (tileL8 t)) = (Finset.univ : Finset (Idx (outLoc8 d))) :=
  Ring.lead_cover (s := S163840x128) (NB := 32) 0 5120 (fun t => ![5120 * wid8 (tileL8 t), 0]) ![5120, 128] (fun t => outRect8_inb (tileL8 t))
    (fun t => by show 5120 * wid8 (tileL8 t) = 5120 * t.val; rw [wid_tileL8])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split8 (f : Buf (Elt F) (outLoc8 d)) :
    (outLoc8 d ↦{fullShare} f : sProp (MM F)) = bigSep Finset.univ fun t : Fin 32 => outLoc8 d ↦[outRows8 d (tileL8 t)]{fullShare} f := by
  rw [← pointsTo_biUnion Finset.univ _ (out_disj8 d), out_cover8]

/-! ## The table's 32 read tokens -/

omit [FloatOps F] in
theorem tok_tile8 (tab : Buf (Elt F) (tabLoc8 d)) :
    (bigSep Finset.univ fun t : Fin 32 => (tabLoc8 d ↦[Finset.univ]{Transfers.shareTok fullShare 32 ⟨wid8 (tileL8 t), wid_lt8 (tileL8 t)⟩} tab : sProp (MM F)))
      = bigSep Finset.univ fun t : Fin 32 => tabLoc8 d ↦[Finset.univ]{Transfers.shareTok fullShare 32 t} tab :=
  bigSep_congr fun t _ => by rw [show (⟨wid8 (tileL8 t), wid_lt8 (tileL8 t)⟩ : Fin 32) = t from Fin.ext (wid_tileL8 t)]

/-! ## The call's operands to its tasks, and the results back -/

/-- The three whole arrays are the table's remainder and every task's operands. -/
theorem split8 (tab : Buf (Elt F) (tabLoc8 d)) (I : Buf (Elt F) (idxLoc8 d)) (f : Buf (Elt F) (outLoc8 d)) :
    iprop((tabLoc8 d ↦{fullShare} tab) ∗ (idxLoc8 d ↦{fullShare} I) ∗ (outLoc8 d ↦{fullShare} f))
      ⊢ (iprop((tabLoc8 d ↦{Transfers.shareDrop fullShare 32} tab)
          ∗ bigSep Finset.univ fun c : Fin 2 => bigSep Finset.univ fun i : Fin 16 => goRes8 d (coordsV8 c i) tab I f) : sProp (MM F)) := by
  rw [bigSep_tiles8 (fun L => goRes8 d L tab I f)]
  unfold goRes8
  simp only [bigSep_sep']
  rw [tok_tile8, idx_split8, out_split8]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join8 (tab : Buf (Elt F) (tabLoc8 d)) (I : Buf (Elt F) (idxLoc8 d)) :
    (iprop((tabLoc8 d ↦{Transfers.shareDrop fullShare 32} tab)
        ∗ bigSep Finset.univ fun c : Fin 2 => bigSep Finset.univ fun i : Fin 16 => tdRes8 d (coordsV8 c i) tab I) : sProp (MM F))
      ⊢ iprop((tabLoc8 d ↦{fullShare} tab) ∗ (idxLoc8 d ↦{fullShare} I) ∗ (outLoc8 d ↦{fullShare} gathered8 tab I)) := by
  rw [bigSep_tiles8 (fun L => tdRes8 d L tab I)]
  unfold tdRes8
  simp only [bigSep_sep']
  rw [tok_tile8, idx_split8, out_split8]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.KernelIdeal.Hand

end
-- ==== Proof.Pay.lean ====
/-
  What the launch's handshakes carry at each gather call. A call hands each SparseCore the operands of its sixteen
  tasks, side by side, and gets their results back side by side; a task's operands are its read token of the table,
  its block of the call's index array and its rows of the call's gathered array, at the contents the TensorCore's
  arrays hold when the call is made; its results are the same with its rows at the gathered rows. A SparseCore's
  operands ARE its tasks' operands, so handing them on is the identity.
-/
import proofs.«206421_g46840913330738_cont_8to1c4_247_26_alg».proof.Proof.Base
import proofs.«206421_g46840913330738_cont_8to1c4_247_26_alg».proof.Proof.Vals
import proofs.«206421_g46840913330738_cont_8to1c4_247_26_alg».proof.Proof.Split0
import proofs.«206421_g46840913330738_cont_8to1c4_247_26_alg».proof.Proof.Split2
import proofs.«206421_g46840913330738_cont_8to1c4_247_26_alg».proof.Proof.Split4
import proofs.«206421_g46840913330738_cont_8to1c4_247_26_alg».proof.Proof.Split6
import proofs.«206421_g46840913330738_cont_8to1c4_247_26_alg».proof.Proof.Split8

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- What task (c, i) of call q is handed. -/
def goAt (q : Fin 5) (d : Dev nD) (c : Fin ((K (F := F)).nCore q)) (i : Fin ((K (F := F)).nSub q)) : sProp (MM F) :=
  match q with
  | 0 => goRes0 d (coordsV c i) (W4 m d (r main_arg1)) (W4 m d (r main_v3)) (W4 m d (r main_v4))
  | 1 => goRes2 d (coordsV2 c i) (W8 m d (r main_arg1)) (W8 m d (r main_v7)) (W8 m d (r main_v8))
  | 2 => goRes4 d (coordsV4 c i) (W13 m d (r main_arg1)) (W13 m d (r main_v11)) (W13 m d (r main_v12))
  | 3 => goRes6 d (coordsV6 c i) (W18 m d (r main_arg1)) (W18 m d (r main_v15)) (W18 m d (r main_v16))
  | 4 => goRes8 d (coordsV8 c i) (W23 m d (r main_arg1)) (W23 m d (r main_v19)) (W23 m d (r main_v20))
  | ⟨_ + 5, h⟩ => absurd h (Nat.not_lt.2 (Nat.le_add_left _ _))

/-- What it hands back. -/
def tdAt (q : Fin 5) (d : Dev nD) (c : Fin ((K (F := F)).nCore q)) (i : Fin ((K (F := F)).nSub q)) : sProp (MM F) :=
  match q with
  | 0 => tdRes0 d (coordsV c i) (W4 m d (r main_arg1)) (W4 m d (r main_v3))
  | 1 => tdRes2 d (coordsV2 c i) (W8 m d (r main_arg1)) (W8 m d (r main_v7))
  | 2 => tdRes4 d (coordsV4 c i) (W13 m d (r main_arg1)) (W13 m d (r main_v11))
  | 3 => tdRes6 d (coordsV6 c i) (W18 m d (r main_arg1)) (W18 m d (r main_v15))
  | 4 => tdRes8 d (coordsV8 c i) (W23 m d (r main_arg1)) (W23 m d (r main_v19))
  | ⟨_ + 5, h⟩ => absurd h (Nat.not_lt.2 (Nat.le_add_left _ _))

instance goAt_storable (q : Fin 5) (d : Dev nD) (c : Fin ((K (F := F)).nCore q)) (i : Fin ((K (F := F)).nSub q)) :
    BI.Storable (upEmb : UEmb _ (MM F)) (goAt m q d c i) := by
  match q with
  | 0 => unfold goAt goRes0; infer_instance
  | 1 => unfold goAt goRes2; infer_instance
  | 2 => unfold goAt goRes4; infer_instance
  | 3 => unfold goAt goRes6; infer_instance
  | 4 => unfold goAt goRes8; infer_instance
  | ⟨_ + 5, h⟩ => exact absurd h (Nat.not_lt.2 (Nat.le_add_left _ _))

instance tdAt_storable (q : Fin 5) (d : Dev nD) (c : Fin ((K (F := F)).nCore q)) (i : Fin ((K (F := F)).nSub q)) :
    BI.Storable (upEmb : UEmb _ (MM F)) (tdAt m q d c i) := by
  match q with
  | 0 => unfold tdAt tdRes0; infer_instance
  | 1 => unfold tdAt tdRes2; infer_instance
  | 2 => unfold tdAt tdRes4; infer_instance
  | 3 => unfold tdAt tdRes6; infer_instance
  | 4 => unfold tdAt tdRes8; infer_instance
  | ⟨_ + 5, h⟩ => exact absurd h (Nat.not_lt.2 (Nat.le_add_left _ _))

/-- The five calls' payloads. -/
def P : (K (F := F)).Pay (nD := nD) (Val := Elt F) (Name := ℕ) (U := UU) where
  st := fun q d c => bigSep Finset.univ fun i : Fin ((K (F := F)).nSub q) => goAt m q d c i
  dn := fun q d c => bigSep Finset.univ fun i : Fin ((K (F := F)).nSub q) => tdAt m q d c i
  go := goAt m
  td := tdAt m
  x := fun _ _ => iprop(emp)

instance P_storable : (P (F := F) m).IsStorable where
  st q d c := by unfold P; infer_instance
  dn q d c := by unfold P; infer_instance
  go q d c i := by unfold P; infer_instance
  td q d c i := by unfold P; infer_instance

/-- A SparseCore's operands are its tasks', and their results its own. -/
theorem vecSplit (q : Fin 5) : (K (F := F)).VecSplit' (P m) q := by
  intro d c
  show (bigSep Finset.univ fun i : Fin ((K (F := F)).nSub q) => goAt m q d c i)
    ⊢ |={Set.univ}=> iprop((bigSep Finset.univ fun i : Fin ((K (F := F)).nSub q) => goAt m q d c i)
      ∗ ((bigSep Finset.univ fun i : Fin ((K (F := F)).nSub q) => tdAt m q d c i) -∗ bigSep Finset.univ fun i : Fin ((K (F := F)).nSub q) => tdAt m q d c i))
  iintro H
  imodintro
  isplitl [H]; · iexact H
  iintro H; iexact H

/-- A kernel's post without the call's index is one with it. -/
theorem obl_post {thr : Thread nD τ} {A B C : sProp (MM F)} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.KernelIdeal.Hand

end
-- ==== Proof.CallStep0.lean ====
/-
  Gather call 0, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.Base
import proofs.«206421_g46840913330738_cont_8to1c4_247_26_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC0 : Finset (DevRef τ sig) := {r main_arg1, r main_v3, r main_v4}
omit [FloatOps F] in
theorem SC0_sub : SC0 ⊆ Sall := by decide

omit [FloatOps F] in
theorem held_SC0 (d : Dev nD) (V : Valuation τ sig (Elt F)) :
    (held (T d) SC0 V : sProp (MM F))
      = iprop((tabLoc d ↦{fullShare} V (r main_arg1)) ∗ (idxLoc d ↦{fullShare} V (r main_v3)) ∗ (outLoc d ↦{fullShare} V (r main_v4))) := by
  unfold held SC0
  rw [SparseCore.bigSep_insert' (by decide), SparseCore.bigSep_insert' (by decide), bigSep_singleton]

theorem held_SC0_after (d : Dev nD) :
    (held (T d) SC0 (W5 m d) : sProp (MM F))
      = iprop((tabLoc d ↦{fullShare} W4 m d (r main_arg1)) ∗ (idxLoc d ↦{fullShare} W4 m d (r main_v3))
          ∗ (outLoc d ↦{fullShare} gathered0 (d := d) (W4 m d (r main_arg1)) (W4 m d (r main_v3)))) := by
  rw [held_SC0]; unfold W5
  rw [Function.update_of_ne (show r main_arg1 ≠ r main_v4 by decide), Function.update_of_ne (show r main_v3 ≠ r main_v4 by decide),
    Function.update_self]

theorem held_restC0_after (d : Dev nD) :
    (held (T d) (Sall \ SC0) (W5 m d) : sProp (MM F)) = held (T d) (Sall \ SC0) (W4 m d) :=
  held_congr _ fun b hb => by
    unfold W5
    exact Function.update_of_ne (fun e => (Finset.mem_sdiff.mp hb).2 (by rw [e]; decide)) _ _

/-- What the call hands the two SparseCores is every task's operands. -/
theorem st0_eq (d : Dev nD) :
    (bigSep Finset.univ fun c : Fin ((K (F := F)).nCore 0) => (P m).st 0 d c)
      = bigSep Finset.univ fun c : Fin 2 => bigSep Finset.univ fun i : Fin 16 =>
          goRes0 d (coordsV c i) (W4 m d (r main_arg1)) (W4 m d (r main_v3)) (W4 m d (r main_v4)) := rfl
theorem dn0_eq (d : Dev nD) :
    (bigSep Finset.univ fun c : Fin ((K (F := F)).nCore 0) => (P m).dn 0 d c)
      = bigSep Finset.univ fun c : Fin 2 => bigSep Finset.univ fun i : Fin 16 =>
          tdRes0 d (coordsV c i) (W4 m d (r main_arg1)) (W4 m d (r main_v3)) := rfl

/-- Gather call 0 on the TensorCore of `d`: all its arrays before, all its arrays after. -/
theorem call0 (κ : GSem nD τ sig → ℕ) (d : Dev nD) {Φ : PUnit → sProp (MM F)} :
    iprop((K (F := F)).ctx EH (P m) κ ∗ (K (F := F)).tcSt EH d 0 ∗ held (T d) Sall (W4 m d)
        ∗ (((K (F := F)).tcSt EH d 1 ∗ held (T d) Sall (W5 m d)) -∗ Φ ⟨⟩))
      ⊢ wp frame (wpE ((K (F := F)).defs (D (F := F))) 𝒱 (SparseCore.T d) none) Set.univ ((K (F := F)).run d 0) Φ := by
  rw [held_sub_split (T d) SC0_sub (W4 m d), held_SC0]
  iintro ⟨#Hctx, Hst, ⟨⟨Ht, Hi, Ho⟩, Hrest⟩, HΦ⟩
  ihave Hsp := (split0 d (W4 m d (r main_arg1)) (W4 m d (r main_v3)) (W4 m d (r main_v4))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 0) $$ [Hst Hgo Hrem Hrest HΦ]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (join0 d (W4 m d (r main_arg1)) (W4 m d (r main_v3))) $$ [Hrem Hdn']
  · isplitl [Hrem]; · iexact Hrem
    iexact Hdn'
  icases Hj with ⟨Ht, Hi, Ho⟩
  iapply HΦ
  isplitl [Hst]; · iexact Hst
  rw [held_sub_split (T d) SC0_sub (W5 m d), held_SC0_after, held_restC0_after]
  isplitr [Hrest]
  · isplitl [Ht]; · iexact Ht
    isplitl [Hi]; · iexact Hi
    iexact Ho
  iexact Hrest

end Cert.KernelIdeal.Hand

end
-- ==== Proof.CallStep2.lean ====
/-
  Gather call 1, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.Base
import proofs.«206421_g46840913330738_cont_8to1c4_247_26_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC2 : Finset (DevRef τ sig) := {r main_arg1, r main_v7, r main_v8}
omit [FloatOps F] in
theorem SC2_sub : SC2 ⊆ Sall := by decide

omit [FloatOps F] in
theorem held_SC2 (d : Dev nD) (V : Valuation τ sig (Elt F)) :
    (held (T d) SC2 V : sProp (MM F))
      = iprop((tabLoc2 d ↦{fullShare} V (r main_arg1)) ∗ (idxLoc2 d ↦{fullShare} V (r main_v7)) ∗ (outLoc2 d ↦{fullShare} V (r main_v8))) := by
  unfold held SC2
  rw [SparseCore.bigSep_insert' (by decide), SparseCore.bigSep_insert' (by decide), bigSep_singleton]

theorem held_SC2_after (d : Dev nD) :
    (held (T d) SC2 (W9 m d) : sProp (MM F))
      = iprop((tabLoc2 d ↦{fullShare} W8 m d (r main_arg1)) ∗ (idxLoc2 d ↦{fullShare} W8 m d (r main_v7))
          ∗ (outLoc2 d ↦{fullShare} gathered2 (d := d) (W8 m d (r main_arg1)) (W8 m d (r main_v7)))) := by
  rw [held_SC2]; unfold W9
  rw [Function.update_of_ne (show r main_arg1 ≠ r main_v8 by decide), Function.update_of_ne (show r main_v7 ≠ r main_v8 by decide),
    Function.update_self]

theorem held_restC2_after (d : Dev nD) :
    (held (T d) (Sall \ SC2) (W9 m d) : sProp (MM F)) = held (T d) (Sall \ SC2) (W8 m d) :=
  held_congr _ fun b hb => by
    unfold W9
    exact Function.update_of_ne (fun e => (Finset.mem_sdiff.mp hb).2 (by rw [e]; decide)) _ _

/-- What the call hands the two SparseCores is every task's operands. -/
theorem st2_eq (d : Dev nD) :
    (bigSep Finset.univ fun c : Fin ((K (F := F)).nCore 1) => (P m).st 1 d c)
      = bigSep Finset.univ fun c : Fin 2 => bigSep Finset.univ fun i : Fin 16 =>
          goRes2 d (coordsV2 c i) (W8 m d (r main_arg1)) (W8 m d (r main_v7)) (W8 m d (r main_v8)) := rfl
theorem dn2_eq (d : Dev nD) :
    (bigSep Finset.univ fun c : Fin ((K (F := F)).nCore 1) => (P m).dn 1 d c)
      = bigSep Finset.univ fun c : Fin 2 => bigSep Finset.univ fun i : Fin 16 =>
          tdRes2 d (coordsV2 c i) (W8 m d (r main_arg1)) (W8 m d (r main_v7)) := rfl

/-- Gather call 1 on the TensorCore of `d`: all its arrays before, all its arrays after. -/
theorem call2 (κ : GSem nD τ sig → ℕ) (d : Dev nD) {Φ : PUnit → sProp (MM F)} :
    iprop((K (F := F)).ctx EH (P m) κ ∗ (K (F := F)).tcSt EH d 1 ∗ held (T d) Sall (W8 m d)
        ∗ (((K (F := F)).tcSt EH d 2 ∗ held (T d) Sall (W9 m d)) -∗ Φ ⟨⟩))
      ⊢ wp frame (wpE ((K (F := F)).defs (D (F := F))) 𝒱 (SparseCore.T d) none) Set.univ ((K (F := F)).run d 1) Φ := by
  rw [held_sub_split (T d) SC2_sub (W8 m d), held_SC2]
  iintro ⟨#Hctx, Hst, ⟨⟨Ht, Hi, Ho⟩, Hrest⟩, HΦ⟩
  ihave Hsp := (split2 d (W8 m d (r main_arg1)) (W8 m d (r main_v7)) (W8 m d (r main_v8))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 1) $$ [Hst Hgo Hrem Hrest HΦ]
  isplitr; · iexact Hctx
  isplitl [Hst]; · iexact Hst
  isplitl [Hgo]
  · rw [st2_eq]; iexact Hgo
  iintro ⟨Hst, Hdn⟩
  ihave Hdn' := (Entails.of_eq (dn2_eq m d)) $$ Hdn
  ihave Hj := (join2 d (W8 m d (r main_arg1)) (W8 m d (r main_v7))) $$ [Hrem Hdn']
  · isplitl [Hrem]; · iexact Hrem
    iexact Hdn'
  icases Hj with ⟨Ht, Hi, Ho⟩
  iapply HΦ
  isplitl [Hst]; · iexact Hst
  rw [held_sub_split (T d) SC2_sub (W9 m d), held_SC2_after, held_restC2_after]
  isplitr [Hrest]
  · isplitl [Ht]; · iexact Ht
    isplitl [Hi]; · iexact Hi
    iexact Ho
  iexact Hrest

end Cert.KernelIdeal.Hand

end
-- ==== Proof.CallStep4.lean ====
/-
  Gather call 2, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.Base
import proofs.«206421_g46840913330738_cont_8to1c4_247_26_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC4 : Finset (DevRef τ sig) := {r main_arg1, r main_v11, r main_v12}
omit [FloatOps F] in
theorem SC4_sub : SC4 ⊆ Sall := by decide

omit [FloatOps F] in
theorem held_SC4 (d : Dev nD) (V : Valuation τ sig (Elt F)) :
    (held (T d) SC4 V : sProp (MM F))
      = iprop((tabLoc4 d ↦{fullShare} V (r main_arg1)) ∗ (idxLoc4 d ↦{fullShare} V (r main_v11)) ∗ (outLoc4 d ↦{fullShare} V (r main_v12))) := by
  unfold held SC4
  rw [SparseCore.bigSep_insert' (by decide), SparseCore.bigSep_insert' (by decide), bigSep_singleton]

theorem held_SC4_after (d : Dev nD) :
    (held (T d) SC4 (W14 m d) : sProp (MM F))
      = iprop((tabLoc4 d ↦{fullShare} W13 m d (r main_arg1)) ∗ (idxLoc4 d ↦{fullShare} W13 m d (r main_v11))
          ∗ (outLoc4 d ↦{fullShare} gathered4 (d := d) (W13 m d (r main_arg1)) (W13 m d (r main_v11)))) := by
  rw [held_SC4]; unfold W14
  rw [Function.update_of_ne (show r main_arg1 ≠ r main_v12 by decide), Function.update_of_ne (show r main_v11 ≠ r main_v12 by decide),
    Function.update_self]

theorem held_restC4_after (d : Dev nD) :
    (held (T d) (Sall \ SC4) (W14 m d) : sProp (MM F)) = held (T d) (Sall \ SC4) (W13 m d) :=
  held_congr _ fun b hb => by
    unfold W14
    exact Function.update_of_ne (fun e => (Finset.mem_sdiff.mp hb).2 (by rw [e]; decide)) _ _

/-- What the call hands the two SparseCores is every task's operands. -/
theorem st4_eq (d : Dev nD) :
    (bigSep Finset.univ fun c : Fin ((K (F := F)).nCore 2) => (P m).st 2 d c)
      = bigSep Finset.univ fun c : Fin 2 => bigSep Finset.univ fun i : Fin 16 =>
          goRes4 d (coordsV4 c i) (W13 m d (r main_arg1)) (W13 m d (r main_v11)) (W13 m d (r main_v12)) := rfl
theorem dn4_eq (d : Dev nD) :
    (bigSep Finset.univ fun c : Fin ((K (F := F)).nCore 2) => (P m).dn 2 d c)
      = bigSep Finset.univ fun c : Fin 2 => bigSep Finset.univ fun i : Fin 16 =>
          tdRes4 d (coordsV4 c i) (W13 m d (r main_arg1)) (W13 m d (r main_v11)) := rfl

/-- Gather call 2 on the TensorCore of `d`: all its arrays before, all its arrays after. -/
theorem call4 (κ : GSem nD τ sig → ℕ) (d : Dev nD) {Φ : PUnit → sProp (MM F)} :
    iprop((K (F := F)).ctx EH (P m) κ ∗ (K (F := F)).tcSt EH d 2 ∗ held (T d) Sall (W13 m d)
        ∗ (((K (F := F)).tcSt EH d 3 ∗ held (T d) Sall (W14 m d)) -∗ Φ ⟨⟩))
      ⊢ wp frame (wpE ((K (F := F)).defs (D (F := F))) 𝒱 (SparseCore.T d) none) Set.univ ((K (F := F)).run d 2) Φ := by
  rw [held_sub_split (T d) SC4_sub (W13 m d), held_SC4]
  iintro ⟨#Hctx, Hst, ⟨⟨Ht, Hi, Ho⟩, Hrest⟩, HΦ⟩
  ihave Hsp := (split4 d (W13 m d (r main_arg1)) (W13 m d (r main_v11)) (W13 m d (r main_v12))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 2) $$ [Hst Hgo Hrem Hrest HΦ]
  isplitr; · iexact Hctx
  isplitl [Hst]; · iexact Hst
  isplitl [Hgo]
  · rw [st4_eq]; iexact Hgo
  iintro ⟨Hst, Hdn⟩
  ihave Hdn' := (Entails.of_eq (dn4_eq m d)) $$ Hdn
  ihave Hj := (join4 d (W13 m d (r main_arg1)) (W13 m d (r main_v11))) $$ [Hrem Hdn']
  · isplitl [Hrem]; · iexact Hrem
    iexact Hdn'
  icases Hj with ⟨Ht, Hi, Ho⟩
  iapply HΦ
  isplitl [Hst]; · iexact Hst
  rw [held_sub_split (T d) SC4_sub (W14 m d), held_SC4_after, held_restC4_after]
  isplitr [Hrest]
  · isplitl [Ht]; · iexact Ht
    isplitl [Hi]; · iexact Hi
    iexact Ho
  iexact Hrest

end Cert.KernelIdeal.Hand

end
-- ==== Proof.CallStep6.lean ====
/-
  Gather call 3, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.Base
import proofs.«206421_g46840913330738_cont_8to1c4_247_26_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC6 : Finset (DevRef τ sig) := {r main_arg1, r main_v15, r main_v16}
omit [FloatOps F] in
theorem SC6_sub : SC6 ⊆ Sall := by decide

omit [FloatOps F] in
theorem held_SC6 (d : Dev nD) (V : Valuation τ sig (Elt F)) :
    (held (T d) SC6 V : sProp (MM F))
      = iprop((tabLoc6 d ↦{fullShare} V (r main_arg1)) ∗ (idxLoc6 d ↦{fullShare} V (r main_v15)) ∗ (outLoc6 d ↦{fullShare} V (r main_v16))) := by
  unfold held SC6
  rw [SparseCore.bigSep_insert' (by decide), SparseCore.bigSep_insert' (by decide), bigSep_singleton]

theorem held_SC6_after (d : Dev nD) :
    (held (T d) SC6 (W19 m d) : sProp (MM F))
      = iprop((tabLoc6 d ↦{fullShare} W18 m d (r main_arg1)) ∗ (idxLoc6 d ↦{fullShare} W18 m d (r main_v15))
          ∗ (outLoc6 d ↦{fullShare} gathered6 (d := d) (W18 m d (r main_arg1)) (W18 m d (r main_v15)))) := by
  rw [held_SC6]; unfold W19
  rw [Function.update_of_ne (show r main_arg1 ≠ r main_v16 by decide), Function.update_of_ne (show r main_v15 ≠ r main_v16 by decide),
    Function.update_self]

theorem held_restC6_after (d : Dev nD) :
    (held (T d) (Sall \ SC6) (W19 m d) : sProp (MM F)) = held (T d) (Sall \ SC6) (W18 m d) :=
  held_congr _ fun b hb => by
    unfold W19
    exact Function.update_of_ne (fun e => (Finset.mem_sdiff.mp hb).2 (by rw [e]; decide)) _ _

/-- What the call hands the two SparseCores is every task's operands. -/
theorem st6_eq (d : Dev nD) :
    (bigSep Finset.univ fun c : Fin ((K (F := F)).nCore 3) => (P m).st 3 d c)
      = bigSep Finset.univ fun c : Fin 2 => bigSep Finset.univ fun i : Fin 16 =>
          goRes6 d (coordsV6 c i) (W18 m d (r main_arg1)) (W18 m d (r main_v15)) (W18 m d (r main_v16)) := rfl
theorem dn6_eq (d : Dev nD) :
    (bigSep Finset.univ fun c : Fin ((K (F := F)).nCore 3) => (P m).dn 3 d c)
      = bigSep Finset.univ fun c : Fin 2 => bigSep Finset.univ fun i : Fin 16 =>
          tdRes6 d (coordsV6 c i) (W18 m d (r main_arg1)) (W18 m d (r main_v15)) := rfl

/-- Gather call 3 on the TensorCore of `d`: all its arrays before, all its arrays after. -/
theorem call6 (κ : GSem nD τ sig → ℕ) (d : Dev nD) {Φ : PUnit → sProp (MM F)} :
    iprop((K (F := F)).ctx EH (P m) κ ∗ (K (F := F)).tcSt EH d 3 ∗ held (T d) Sall (W18 m d)
        ∗ (((K (F := F)).tcSt EH d 4 ∗ held (T d) Sall (W19 m d)) -∗ Φ ⟨⟩))
      ⊢ wp frame (wpE ((K (F := F)).defs (D (F := F))) 𝒱 (SparseCore.T d) none) Set.univ ((K (F := F)).run d 3) Φ := by
  rw [held_sub_split (T d) SC6_sub (W18 m d), held_SC6]
  iintro ⟨#Hctx, Hst, ⟨⟨Ht, Hi, Ho⟩, Hrest⟩, HΦ⟩
  ihave Hsp := (split6 d (W18 m d (r main_arg1)) (W18 m d (r main_v15)) (W18 m d (r main_v16))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 3) $$ [Hst Hgo Hrem Hrest HΦ]
  isplitr; · iexact Hctx
  isplitl [Hst]; · iexact Hst
  isplitl [Hgo]
  · rw [st6_eq]; iexact Hgo
  iintro ⟨Hst, Hdn⟩
  ihave Hdn' := (Entails.of_eq (dn6_eq m d)) $$ Hdn
  ihave Hj := (join6 d (W18 m d (r main_arg1)) (W18 m d (r main_v15))) $$ [Hrem Hdn']
  · isplitl [Hrem]; · iexact Hrem
    iexact Hdn'
  icases Hj with ⟨Ht, Hi, Ho⟩
  iapply HΦ
  isplitl [Hst]; · iexact Hst
  rw [held_sub_split (T d) SC6_sub (W19 m d), held_SC6_after, held_restC6_after]
  isplitr [Hrest]
  · isplitl [Ht]; · iexact Ht
    isplitl [Hi]; · iexact Hi
    iexact Ho
  iexact Hrest

end Cert.KernelIdeal.Hand

end
-- ==== Proof.CallStep8.lean ====
/-
  Gather call 4, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.Base
import proofs.«206421_g46840913330738_cont_8to1c4_247_26_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC8 : Finset (DevRef τ sig) := {r main_arg1, r main_v19, r main_v20}
omit [FloatOps F] in
theorem SC8_sub : SC8 ⊆ Sall := by decide

omit [FloatOps F] in
theorem held_SC8 (d : Dev nD) (V : Valuation τ sig (Elt F)) :
    (held (T d) SC8 V : sProp (MM F))
      = iprop((tabLoc8 d ↦{fullShare} V (r main_arg1)) ∗ (idxLoc8 d ↦{fullShare} V (r main_v19)) ∗ (outLoc8 d ↦{fullShare} V (r main_v20))) := by
  unfold held SC8
  rw [SparseCore.bigSep_insert' (by decide), SparseCore.bigSep_insert' (by decide), bigSep_singleton]

theorem held_SC8_after (d : Dev nD) :
    (held (T d) SC8 (W24 m d) : sProp (MM F))
      = iprop((tabLoc8 d ↦{fullShare} W23 m d (r main_arg1)) ∗ (idxLoc8 d ↦{fullShare} W23 m d (r main_v19))
          ∗ (outLoc8 d ↦{fullShare} gathered8 (d := d) (W23 m d (r main_arg1)) (W23 m d (r main_v19)))) := by
  rw [held_SC8]; unfold W24
  rw [Function.update_of_ne (show r main_arg1 ≠ r main_v20 by decide), Function.update_of_ne (show r main_v19 ≠ r main_v20 by decide),
    Function.update_self]

theorem held_restC8_after (d : Dev nD) :
    (held (T d) (Sall \ SC8) (W24 m d) : sProp (MM F)) = held (T d) (Sall \ SC8) (W23 m d) :=
  held_congr _ fun b hb => by
    unfold W24
    exact Function.update_of_ne (fun e => (Finset.mem_sdiff.mp hb).2 (by rw [e]; decide)) _ _

/-- What the call hands the two SparseCores is every task's operands. -/
theorem st8_eq (d : Dev nD) :
    (bigSep Finset.univ fun c : Fin ((K (F := F)).nCore 4) => (P m).st 4 d c)
      = bigSep Finset.univ fun c : Fin 2 => bigSep Finset.univ fun i : Fin 16 =>
          goRes8 d (coordsV8 c i) (W23 m d (r main_arg1)) (W23 m d (r main_v19)) (W23 m d (r main_v20)) := rfl
theorem dn8_eq (d : Dev nD) :
    (bigSep Finset.univ fun c : Fin ((K (F := F)).nCore 4) => (P m).dn 4 d c)
      = bigSep Finset.univ fun c : Fin 2 => bigSep Finset.univ fun i : Fin 16 =>
          tdRes8 d (coordsV8 c i) (W23 m d (r main_arg1)) (W23 m d (r main_v19)) := rfl

/-- Gather call 4 on the TensorCore of `d`: all its arrays before, all its arrays after. -/
theorem call8 (κ : GSem nD τ sig → ℕ) (d : Dev nD) {Φ : PUnit → sProp (MM F)} :
    iprop((K (F := F)).ctx EH (P m) κ ∗ (K (F := F)).tcSt EH d 4 ∗ held (T d) Sall (W23 m d)
        ∗ (((K (F := F)).tcSt EH d 5 ∗ held (T d) Sall (W24 m d)) -∗ Φ ⟨⟩))
      ⊢ wp frame (wpE ((K (F := F)).defs (D (F := F))) 𝒱 (SparseCore.T d) none) Set.univ ((K (F := F)).run d 4) Φ := by
  rw [held_sub_split (T d) SC8_sub (W23 m d), held_SC8]
  iintro ⟨#Hctx, Hst, ⟨⟨Ht, Hi, Ho⟩, Hrest⟩, HΦ⟩
  ihave Hsp := (split8 d (W23 m d (r main_arg1)) (W23 m d (r main_v19)) (W23 m d (r main_v20))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 4) $$ [Hst Hgo Hrem Hrest HΦ]
  isplitr; · iexact Hctx
  isplitl [Hst]; · iexact Hst
  isplitl [Hgo]
  · rw [st8_eq]; iexact Hgo
  iintro ⟨Hst, Hdn⟩
  ihave Hdn' := (Entails.of_eq (dn8_eq m d)) $$ Hdn
  ihave Hj := (join8 d (W23 m d (r main_arg1)) (W23 m d (r main_v19))) $$ [Hrem Hdn']
  · isplitl [Hrem]; · iexact Hrem
    iexact Hdn'
  icases Hj with ⟨Ht, Hi, Ho⟩
  iapply HΦ
  isplitl [Hst]; · iexact Hst
  rw [held_sub_split (T d) SC8_sub (W24 m d), held_SC8_after, held_restC8_after]
  isplitr [Hrest]
  · isplitl [Ht]; · iexact Ht
    isplitl [Hi]; · iexact Hi
    iexact Ho
  iexact Hrest

end Cert.KernelIdeal.Hand

end
-- ==== Proof.Region1.lean ====
/-
  The first TensorCore matrix-product region of the program, as the TensorCore meets it between two SparseCore calls.

  The region is a software pipeline over ten grid points. At point j it holds the weight matrix W (64 × 128, fetched
  once), block j of the gathered rows g (rows 16384 j … 16384 j + 16383 of the 163840 × 128 array), and writes block
  (j, 0, 0) of shape 1 × 64 × 16384 of the output array (50 × 64 × 16384): the product of W with the transposed block,
  contracting the 128-axis, accumulated into zero. Every other entry of the output array keeps what it held.

  This module gives the pipeline's proof data at a device (generic in the float instance), the body's triple, the body
  obligation at a symbolic point, the region as a record around the thread state "the TensorCore's handshake state and
  the three arrays", and the region's rule inside the extended body table of the SparseCore program. The TensorCore
  owes its later start signals while the region runs: they sit at the calls' indices, strictly above the level of the
  pipeline's own waits (index none), so every wait of the pipeline is allowed.
-/
import proofs.«206421_g46840913330738_cont_8to1c4_247_26_alg».proof.Proof.Base
import Idealize.ShloMosaic.Lib.Pipeline.Regions
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What every region shares -/

/-- No pipeline of the program has a prefetched table. -/
abbrev adm : (p : Fin 5) → (pcfgs (F := F) p).Adm := fun p => (cfgs p).toPCfg_adm

/-- Before call n the TensorCore owes nothing at the index none: every unit it owes is a later call's start signal. -/
theorem Otc_none (d : Dev nD) (n : ℕ) (g : GSem nD τ sig) : (K (F := F)).Otc d n g none = 0 := by
  by_contra h
  have h' := SparseCore.Cfg.lev_of_Otc_pos (K := K (F := F)) (d := d) (n := n) (g := g) (ι := none) (Nat.pos_of_ne_zero h)
  rw [SparseCore.Cfg.lev_none] at h'
  omega

/-- Proof data that says nothing: for the pipelines a region's record does not enter. -/
def datIdle (cfg : Pipeline.Cfg sig Λ₀) (c : Dev nD) : Dat τ (Elt F) (HIx 5) ℕ UU ℕ cfg c where
  A _ := fun _ => Classical.arbitrary _
  after _ _ := fun _ => Classical.arbitrary _
  Φ _ := BI.emp
  q _ := fullShare
  owed _ := 0

/-- The handshake pairs recorded before call n sit at or below level 8 n. -/
def recBelow (c : Dev nD) (n : ℕ) : Set (SemLoc sig × HIx 5) := {p | (K (F := F)).lev (SparseCore.T c, p.1) p.2 ≤ 8 * n}

omit [FloatOps F] in
theorem zero2 : (![0, 0] : Fin 2 → Nat) = fun _ => 0 := by funext a; fin_cases a <;> rfl
omit [FloatOps F] in
theorem zero3 : (![0, 0, 0] : Fin 3 → Nat) = fun _ => 0 := by funext a; fin_cases a <;> rfl

/-! ## Region 1 (pipeline 0): the arrays, the blocks, the body -/

section Region1

variable (w : (c : Dev nD) → Buf (Elt F) ((SparseCore.T c : Thread nD τ).loc main_arg2)) (g : (c : Dev nD) → Buf (Elt F) ((SparseCore.T c : Thread nD τ).loc main_v4))
  (f0 : (c : Dev nD) → Buf (Elt F) ((SparseCore.T c : Thread nD τ).loc main_v5))

/-- The three windowed arrays as the region finds them. -/
def arr1 (c : Dev nD) : (x : Fin cfg1.W) → Buf (Elt F) ((cfg1.win x).arr.view.loc (c : Thread nD τ))
  | ⟨0, _⟩ => w c
  | ⟨1, _⟩ => g c
  | ⟨2, _⟩ => f0 c

/-- Window x's block at point t, read off its array. -/
def iblk1 (c : Dev nD) (x : Fin cfg1.W) (t : Fin cfg1.N) : ((cfg1.win x).xblock (cfg1.grid.coords t)).Idx → Elt F (cfg1.win x).elt :=
  ((cfg1.win x).blk t).view.read (Elt F) (arr1 w g f0 c x)

abbrev r1_0 : Rect S64x128 := Rect.unit (s := S64x128) ![0, 0] S64x128.size inb_S64x128_S64x128_0_0
abbrev r1_1 : Rect S16384x128 := Rect.unit (s := S16384x128) ![0, 0] S16384x128.size inb_S16384x128_S16384x128_0_0
abbrev r1_2 : Rect S1x64x16384 := Rect.unit (s := S1x64x16384) ![0, 0, 0] S1x64x16384.size inb_S1x64x16384_S1x64x16384_0_0_0

/-- What the body leaves in the output window's buffer, from the two input blocks: its one store, whole. -/
def out1 (x0 : Vec F S64x128 .f32) (x1 : Vec F S16384x128 .f32) : Vec F S1x64x16384 .f32 :=
  View.canon [⟨r1_2, k1_pay1 (View.ld x0 r1_0) (View.ld x1 r1_1)⟩]

/-- The store covers the buffer. -/
theorem cover1_2 (p0 : Vec F S1x64x16384 .f32) (y : S1x64x16384.Idx) :
    ∃ pc ∈ ([⟨r1_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out1_eq (x0 : Vec F S64x128 .f32) (x1 : Vec F S16384x128 .f32) : out1 x0 x1 = k1_pay1 x0 x1 := by
  unfold out1
  rw [View.canon_unit_zero zero3, View.ld_unit_zero zero2, View.ld_unit_zero zero2]

set_option maxHeartbeats 1000000 in
/-- The body on whole staging memrefs: the inputs' at read contents x0, x1, the output's at anything; it leaves the
    inputs as they were and the output at out1 of them. -/
theorem sound_kernel1 (c : Dev nD) (E : Set ℕ) (i : grid1.Coords)
    (arg1 : Memref sig .tc .vmem S64x128 .f32) (harg1 : arg1.IsWhole) (arg2 : Memref sig .tc .vmem S16384x128 .f32) (harg2 : arg2.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ Kc ⟨⟩))
      ⊢ wp frame (wpE (defs₀ (F := F)) 𝒱₀ c none) E (cc1_body i arg1 harg1 arg2 harg2 arg3 harg3) Kc := by
  simp only [cc1_body_eq_skeleton]; unfold cc1_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover1_2 _)

/-! ## The proof data -/

variable (n : ℕ)

/-- The proof data of pipeline 0 on device c between calls: the arrays as found; after the body at point t each
    input's buffer at its block and the output's at out1 of the blocks; the invariant the scoped buffers no window
    stages; the TensorCore owing what it owes before call n, its recorded pairs at or below level 8 n. -/
def dat1 (c : Dev nD) : Dat τ (Elt F) (HIx 5) ℕ UU ℕ cfg1 c where
  A := arr1 w g f0 c
  after x t := match x with
    | ⟨0, _⟩ => iblk1 w g f0 c 0 t
    | ⟨1, _⟩ => iblk1 w g f0 c 1 t
    | ⟨2, _⟩ => out1 (iblk1 w g f0 c 0 t) (iblk1 w g f0 c 1 t)
  Φ _ := Pipeline.scopedRest (Ix := HIx 5) (Name := ℕ) (U := UU) (Lvl := ℕ) (Val := Elt F) spec1 c
  q _ := fullShare
  owed _ := (K (F := F)).Otc c n
  recorded _ := recBelow (F := F) c n

theorem after1_0 (c : Dev nD) (t : Fin cfg1.N) : (dat1 w g f0 n c).after 0 t = iblk1 w g f0 c 0 t := by dsimp only [dat1]
theorem after1_1 (c : Dev nD) (t : Fin cfg1.N) : (dat1 w g f0 n c).after 1 t = iblk1 w g f0 c 1 t := by dsimp only [dat1]
theorem after1_2 (c : Dev nD) (t : Fin cfg1.N) :
    (dat1 w g f0 n c).after 2 t = out1 (iblk1 w g f0 c 0 t) (iblk1 w g f0 c 1 t) := by dsimp only [dat1]

/-- Each input's current staging buffer holds its block at every point, fetched there or not. -/
theorem before1_0 (c : Dev nD) (t : Fin cfg1.N) (d) : (dat1 w g f0 n c).before 0 t d = iblk1 w g f0 c 0 t :=
  ((dat1 w g f0 n c).before_in_eq_fetched 0 rfl (fun _ => rfl) (fun _ _ _ => rfl)
    (fun t => by rw [after1_0]; unfold Dat.blockOf iblk1; rfl) t d).trans
    (by unfold Dat.fetched Dat.blockOf iblk1; rfl)
theorem before1_1 (c : Dev nD) (t : Fin cfg1.N) (d) : (dat1 w g f0 n c).before 1 t d = iblk1 w g f0 c 1 t :=
  ((dat1 w g f0 n c).before_in_eq_fetched 1 rfl (fun _ => rfl) (fun _ _ _ => rfl)
    (fun t => by rw [after1_1]; unfold Dat.blockOf iblk1; rfl) t d).trans
    (by unfold Dat.fetched Dat.blockOf iblk1; rfl)

/-! ## The body obligation, at a generic point -/

def bodyPre1 (c : Dev nD) (t : Fin cfg1.N) : sProp 𝕄 :=
  iprop((dat1 w g f0 n c).Φ t.castSucc ∗ (dat1 w g f0 n c).owesAt none t.castSucc
    ∗ (∃ d, owns (c : Thread nD τ) (st1_0 t) fullShare ((dat1 w g f0 n c).before 0 t d))
    ∗ (∃ d, owns (c : Thread nD τ) (st1_1 t) fullShare ((dat1 w g f0 n c).before 1 t d))
    ∗ (∃ d, owns (c : Thread nD τ) (st1_2 t) fullShare ((dat1 w g f0 n c).before 2 t d)))

def bodyPost1 (c : Dev nD) (t : Fin cfg1.N) : sProp 𝕄 :=
  iprop((dat1 w g f0 n c).Φ t.succ ∗ (dat1 w g f0 n c).owesAt none t.succ
    ∗ owns (c : Thread nD τ) (st1_0 t) fullShare ((dat1 w g f0 n c).after 0 t)
    ∗ owns (c : Thread nD τ) (st1_1 t) fullShare ((dat1 w g f0 n c).after 1 t)
    ∗ owns (c : Thread nD τ) (st1_2 t) fullShare ((dat1 w g f0 n c).after 2 t))

/-- The body at any point: the inputs' memrefs hold their blocks, so the body's triple applies; the invariant and what
    the TensorCore owes pass through unread. -/
theorem sound_body1 (c : Dev nD) (t : Fin cfg1.N) :
    bodyPre1 w g f0 n c t ⊢ wp frame (wpE (defs₀ (F := F)) 𝒱₀ c none) Set.univ (bodyAt1 t) (fun _ => bodyPost1 w g f0 n c t) := by
  unfold bodyPre1 bodyPost1 bodyAt1
  simp only [before1_0, before1_1]
  rw [show (dat1 w g f0 n c).Φ t.succ = (dat1 w g f0 n c).Φ t.castSucc from rfl,
    show (dat1 w g f0 n c).owesAt none t.succ = (dat1 w g f0 n c).owesAt none t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 w g f0 c 0 t) (iblk1 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 w g f0 n c) (defs₀ (F := F)) 𝒱₀ none Set.univ := fun t => by
  rw [bigSep_W1, bigSep_W1]
  exact sound_body1 w g f0 n c t

/-! ## The region as a record -/

/-- Every pipeline's proof data as region 1's record sees it: pipeline 0's, and nothing said of the others. -/
def pdats1 : (p : Fin 5) → (c : Dev nD) → Dat τ (Elt F) (HIx 5) ℕ UU ℕ (Pipeline.pin (pcfgs (F := F)) adm p) c
  | ⟨0, _⟩ => fun c => dat1 w g f0 n c
  | ⟨1, _⟩ => fun c => datIdle _ c
  | ⟨2, _⟩ => fun c => datIdle _ c
  | ⟨3, _⟩ => fun c => datIdle _ c
  | ⟨4, _⟩ => fun c => datIdle _ c

/-- The inputs' arrays are never written. -/
theorem arrAt1_0 (c : Dev nD) (k : ℕ) : (dat1 w g f0 n c).arrAt 0 k = w c := (dat1 w g f0 n c).arrAt_in 0 rfl k
theorem arrAt1_1 (c : Dev nD) (k : ℕ) : (dat1 w g f0 n c).arrAt 1 k = g c := (dat1 w g f0 n c).arrAt_in 1 rfl k

/-- The output array after the region: the entry contents overwritten by the ten write-backs. -/
def fin1 (c : Dev nD) : Buf (Elt F) ((SparseCore.T c : Thread nD τ).loc main_v5) := (dat1 w g f0 n c).arrAt 2 cfg1.N

/-- The thread state around the region: what the TensorCore owes before call n with its recorded pairs bounded, and
    the three arrays whole. -/
def st1 (c : Dev nD) (f : Buf (Elt F) ((SparseCore.T c : Thread nD τ).loc main_v5)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v4) ↦{fullShare} g c) ∗ (((SparseCore.T c : Thread nD τ).loc main_v5) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg1 : Pipeline.RegionSeg (pcfgs (F := F)) adm (pdats1 w g f0 n) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation1 w g f0 n c).loose
  hwaits c := Pipeline.cellsWaits_intro (Pipeline.pin (pcfgs (F := F)) adm) (pdats1 w g f0 n) none 0 c (R := levAts (K (F := F)).L lv)
    fun x s t => SparseCore.Cfg.mayWait_none (K := K (F := F)) (.dma _) (fun g' => Otc_none c n g') lv hlv
  pre c := st1 w g n c (f0 c)
  post c := st1 w g n c (fin1 w g f0 n c)
  X _ := BI.emp
  Y _ := BI.emp
  Z _ := BI.emp
  hentry c := by
    rw [Pipeline.ownSems0_none, Pipeline.arrays_eq (Pipeline.pin (pcfgs (F := F)) adm) (pdats1 w g f0 n) 0 c launch1.arr_whole
      ((pdats1 w g f0 n 0 c).share_full fun _ => rfl), bigSep_W1]
    unfold st1
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats1 w g f0 n 0 c).Φ 0 = Pipeline.scopedRest spec1 c from rfl]
    iintro ⟨-, -, Hr⟩; iexact Hr
  hout c := by
    rw [Pipeline.ownSems0_none, show (pdats1 w g f0 n 0 c).Φ (Fin.last _) = Pipeline.scopedRest spec1 c from rfl]
    iintro Hr
    isplitr; · iempintro
    isplitr; · iempintro
    iexact Hr
  hexit c := by
    rw [Pipeline.arrays_eq (Pipeline.pin (pcfgs (F := F)) adm) (pdats1 w g f0 n) 0 c launch1.arr_whole
      ((pdats1 w g f0 n 0 c).share_full fun _ => rfl), bigSep_W1]
    unfold st1
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats1 w g f0 n 0 c).arrAt 0 (Pipeline.pin (pcfgs (F := F)) adm 0).N = w c from arrAt1_0 w g f0 n c _]; iexact H0
    isplitl [H1]; · rw [show (pdats1 w g f0 n 0 c).arrAt 1 (Pipeline.pin (pcfgs (F := F)) adm 0).N = g c from arrAt1_1 w g f0 n c _]; iexact H1
    iexact H2

/-- What the region hands on: the boundary, the TensorCore's handshake state, the arrays with the output at what the
    write-backs leave. -/
def post1 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v4) ↦{fullShare} g d)
    ∗ (((SparseCore.T d : Thread nD τ).loc main_v5) ↦{fullShare} fin1 w g f0 n d))

include hlv in
set_option maxHeartbeats 2000000 in
set_option backward.isDefEq.respectTransparency.types false in
/-- THE REGION inside the program: from the region boundary, the TensorCore's handshake state before call n, the level
    facts, the three arrays whole and pipeline 0's ghost state, the region's call runs to the same with the output
    array at what the ten write-backs leave. -/
theorem region1 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v4) ↦{fullShare} g d)
        ∗ (((SparseCore.T d : Thread nD τ).loc main_v5) ↦{fullShare} f0 d)
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d : Thread nD τ) none) Set.univ
          (Prog.lift (.customCall (SparseCore.inner (Pipeline.entry (0 : Fin 5))) ()))
          (fun _ => post1 w g f0 n d) := by
  have hreg := Pipeline.RegionSeg.wp (pcfgs (F := F)) adm (pdats1 w g f0 n) none cellOf_inj EP defs₀ 𝒱₀ (K (F := F)).L lv
    (reg1 w g f0 n hlv) d none (fun _ h => by cases h) (α := PUnit) (fun _ => .ret PUnit.unit) (fun _ => post1 w g f0 n d)
  have hlift := (K (F := F)).wp_liftProg (D (F := F)) 𝒱 (SparseCore.T d : Thread nD τ) Set.univ none
    (α := PUnit) (.op (.customCall (Pipeline.entry (0 : Fin 5)) ()) fun _ => .ret PUnit.unit) (fun _ => post1 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post1 SparseCore.Cfg.tcSt
    ihave Hpost' := (show (reg1 w g f0 n hlv).post d ⊢ st1 w g n d (fin1 w g f0 n d) from .rfl) $$ Hpost
    unfold st1
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show st1 w g n d (f0 d) ⊢ (reg1 w g f0 n hlv).pre d from .rfl)
    unfold st1
    isplitl [HO]; · iexact HO
    isplitl [H0]; · iexact H0
    isplitl [H1]; · iexact H1
    iexact H2
  isplitr; · iexact Hlev
  isplitl [Hg]; · iexact Hg
  iexact Ht

end Region1

end Cert.KernelIdeal.Hand

end
-- ==== Proof.Region1Value.lean ====
/-
  What region 1 leaves in the output array, in closed form.

  The pipeline's account of the output array after the ten write-backs is the entry contents overwritten, point by
  point, by what the body left. Each point's block is block (t, 0, 0) of ONE whole-array function of the region's
  arrays: on leading slice t the product of the weight matrix with the transposed block t of the gathered rows. So
  the array ends at that function on the first ten leading slices and at its entry contents elsewhere.
-/
import proofs.«206421_g46840913330738_cont_8to1c4_247_26_alg».proof.Proof.Region1
import proofs.«206421_g46840913330738_cont_8to1c4_247_26_alg».proof.Proof.Region1Defs

set_option maxRecDepth 16384

noncomputable section

namespace Cert.KernelIdeal.Hand

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal1_of_lt (w : Vec F S64x128 .f32) (g : Vec F S163840x128 .f32) (f0 : Vec F S50x64x16384 .f32) (i : S50x64x16384.Idx)
    (h : (i 0).val < 10) : regionVal1 w g f0 i = k1_pay1 w (gBlock g ⟨(i 0).val, h⟩) (toBlk i) := dif_pos h

theorem regionVal1_of_ge (w : Vec F S64x128 .f32) (g : Vec F S163840x128 .f32) (f0 : Vec F S50x64x16384 .f32) (i : S50x64x16384.Idx)
    (h : ¬(i 0).val < 10) : regionVal1 w g f0 i = f0 i := dif_neg h

/-! ## The windows' block indices -/

omit [FloatOps F] in
theorem index1_0 : ∀ t : Fin grid1.N, win1_0.index t 0 = 0 ∧ win1_0.index t 1 = 0 := by decide +kernel
omit [FloatOps F] in
theorem index1_1 : ∀ t : Fin grid1.N, win1_1.index t 0 = t.val ∧ win1_1.index t 1 = 0 := by decide +kernel
omit [FloatOps F] in
theorem index1_2 : ∀ t : Fin grid1.N, win1_2.index t 0 = t.val ∧ win1_2.index t 1 = 0 ∧ win1_2.index t 2 = 0 := by decide +kernel

/-- The grid point that writes leading slice l. -/
def ptAt1 (l : ℕ) (h : l < 10) : Fin cfg1.N := ⟨l, by have e : cfg1.N = 10 := N_1; omega⟩

/-- A point of the grid as a number below ten. -/
def pt1 (t : Fin cfg1.N) : Fin 10 := ⟨t.val, by have h := t.isLt; have e : cfg1.N = 10 := N_1; omega⟩

section Blocks

variable (w : (c : Dev nD) → Buf (Elt F) ((SparseCore.T c).loc main_arg2)) (g : (c : Dev nD) → Buf (Elt F) ((SparseCore.T c).loc main_v4))
  (f0 : (c : Dev nD) → Buf (Elt F) ((SparseCore.T c).loc main_v5)) (n : ℕ)

/-- The weight window's block is the whole matrix at every point. -/
theorem iblk1_0_eq (c : Dev nD) (t : Fin cfg1.N) : iblk1 w g f0 c 0 t = w c := by
  funext y
  show (w c) ((win1_0.rect t).emb y) = (w c) y
  congr 1
  funext a
  apply Fin.ext
  rw [Window.rect_emb_val]
  have h := index1_0 t
  match a with
  | ⟨0, _⟩ => show win1_0.index t 0 * 64 + (y 0).val = (y 0).val; rw [h.1]; omega
  | ⟨1, _⟩ => show win1_0.index t 1 * 128 + (y 1).val = (y 1).val; rw [h.2]; omega

/-- The gathered rows' window holds block t at point t. -/
theorem iblk1_1_eq (c : Dev nD) (t : Fin cfg1.N) : iblk1 w g f0 c 1 t = gBlock (g c) (pt1 t) := by
  funext y
  show (g c) ((win1_1.rect t).emb y) = gBlock (g c) (pt1 t) y
  unfold gBlock
  congr 1
  funext a
  apply Fin.ext
  rw [Window.rect_emb_val]
  have h := index1_1 t
  match a with
  | ⟨0, _⟩ => show win1_1.index t 0 * 16384 + (y 0).val = t.val * 16384 + (y 0).val; rw [h.1]
  | ⟨1, _⟩ => show win1_1.index t 1 * 128 + (y 1).val = (y 1).val; rw [h.2]; omega

/-- The output window's block at point t sits at leading slice t. -/
theorem emb1_2_zero (t : Fin cfg1.N) (y : S1x64x16384.Idx) : (((win1_2.rect t).emb y) 0).val = t.val := by
  rw [Window.rect_emb_val]
  show win1_2.index t 0 * 1 + (y 0).val = t.val
  rw [(index1_2 t).1]
  have : (y 0).val < 1 := (y 0).isLt
  omega

theorem toBlk_emb1_2 (t : Fin cfg1.N) (y : S1x64x16384.Idx) : toBlk ((win1_2.rect t).emb y) = y := by
  funext a
  apply Fin.ext
  have h := index1_2 t
  match a with
  | ⟨0, _⟩ => show 0 = (y 0).val; have : (y 0).val < 1 := (y 0).isLt; omega
  | ⟨1, _⟩ =>
    show (((win1_2.rect t).emb y) 1).val = (y 1).val
    rw [Window.rect_emb_val]; show win1_2.index t 1 * 64 + (y 1).val = (y 1).val; rw [h.2.1]; omega
  | ⟨2, _⟩ =>
    show (((win1_2.rect t).emb y) 2).val = (y 2).val
    rw [Window.rect_emb_val]; show win1_2.index t 2 * 16384 + (y 2).val = (y 2).val; rw [h.2.2]; omega

theorem emb1_2_toBlk (i : S50x64x16384.Idx) (h : (i 0).val < 10) :
    (win1_2.rect (ptAt1 (i 0).val h)).emb (toBlk i) = i := by
  funext a
  apply Fin.ext
  rw [Window.rect_emb_val]
  have hx := index1_2 (ptAt1 (i 0).val h)
  match a with
  | ⟨0, _⟩ => show win1_2.index _ 0 * 1 + 0 = (i 0).val; rw [hx.1]; show (i 0).val * 1 + 0 = (i 0).val; omega
  | ⟨1, _⟩ => show win1_2.index _ 1 * 64 + (i 1).val = (i 1).val; rw [hx.2.1]; omega
  | ⟨2, _⟩ => show win1_2.index _ 2 * 16384 + (i 2).val = (i 2).val; rw [hx.2.2]; omega

/-- What point t writes back is block t of the whole-array function. -/
theorem flushed1_2 (d : Dev nD) (t : Fin cfg1.N) :
    (dat1 w g f0 n d).flushed 2 t = ((cfg1.win 2).blk t).view.read (Elt F) (regionVal1 (w d) (g d) (f0 d)) := by
  funext y
  show (dat1 w g f0 n d).after 2 t y = regionVal1 (w d) (g d) (f0 d) ((win1_2.rect t).emb y)
  rw [after1_2, out1_eq, iblk1_0_eq, iblk1_1_eq]
  have h0 := emb1_2_zero t y
  have hlt : (((win1_2.rect t).emb y) 0).val < 10 := by rw [h0]; exact (pt1 t).isLt
  rw [regionVal1_of_lt _ _ _ _ hlt]
  have e1 : (⟨(((win1_2.rect t).emb y) 0).val, hlt⟩ : Fin 10) = pt1 t := Fin.ext h0
  rw [e1, toBlk_emb1_2]

/-- THE OUTPUT ARRAY AFTER THE REGION is the whole-array function. -/
theorem fin1_eq (d : Dev nD) : fin1 w g f0 n d = regionVal1 (w d) (g d) (f0 d) := by
  funext i
  unfold fin1
  by_cases h : (i 0).val < 10
  · refine (dat1 w g f0 n d).arrAt_apply_of_mem 2 (regionVal1 (w d) (g d) (f0 d)) (fun t _ => flushed1_2 w g f0 n d t) cfg1.N
      (ptAt1 (i 0).val h) i (Fin.isLt _) (flush1_2 _) ?_
    have hm : ((win1_2.rect (ptAt1 (i 0).val h)).emb (toBlk i)
          : ((cfg1.win 2).blk (ptAt1 (i 0).val h)).view.ty.Idx)
        ∈ ((cfg1.win 2).blk (ptAt1 (i 0).val h)).view.set :=
      ((cfg1.win 2).blk (ptAt1 (i 0).val h)).view.emb_mem_set (toBlk i)
    rw [emb1_2_toBlk i h] at hm
    exact hm
  · rw [regionVal1_of_ge _ _ _ _ h]
    refine (dat1 w g f0 n d).arrAt_apply_of_forall_not_mem 2 cfg1.N i fun t _ _ hi => h ?_
    obtain ⟨y, rfl⟩ := View.exists_emb_of_mem_set _ hi
    have h0 := emb1_2_zero t y
    show (((win1_2.rect t).emb y) 0).val < 10
    rw [h0]; exact (pt1 t).isLt

end Blocks

end Cert.KernelIdeal.Hand

end
-- ==== Proof.RegStep1.lean ====
/-
  Matrix-product region 1, as @main's TensorCore meets it. Of all its arrays the region's pipeline works on three:
  the weights, the gathered rows of the call before it, and the output array. The pipeline's run leaves the first two
  as they were and the output with its ten leading slices 0 … 9 written; the TensorCore's other arrays are
  untouched, and what the TensorCore owes the launch's handshakes is the same before and after.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Region1
import proofs.«206421_g46840913330738_cont_8to1c4_247_26_alg».proof.Proof.Region1Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR1 : Finset (DevRef τ sig) := {r main_arg2, r main_v4, r main_v5}
omit [FloatOps F] in
theorem SR1_sub : SR1 ⊆ Sall := by decide

omit [FloatOps F] in
theorem held_SR1 (d : Dev nD) (V : Valuation τ sig (Elt F)) :
    (held (T d) SR1 V : sProp (MM F))
      = iprop(((SparseCore.T d).loc main_arg2 ↦{fullShare} V (r main_arg2)) ∗ ((SparseCore.T d).loc main_v4 ↦{fullShare} V (r main_v4))
          ∗ ((SparseCore.T d).loc main_v5 ↦{fullShare} V (r main_v5))) := by
  unfold held SR1
  rw [SparseCore.bigSep_insert' (by decide), SparseCore.bigSep_insert' (by decide), bigSep_singleton]

theorem held_SR1_after (d : Dev nD) :
    (held (T d) SR1 (W6 m d) : sProp (MM F))
      = iprop(((SparseCore.T d).loc main_arg2 ↦{fullShare} W5 m d (r main_arg2)) ∗ ((SparseCore.T d).loc main_v4 ↦{fullShare} W5 m d (r main_v4))
          ∗ ((SparseCore.T d).loc main_v5 ↦{fullShare} regionVal1 (W5 m d (r main_arg2)) (W5 m d (r main_v4)) (W5 m d (r main_v5)))) := by
  rw [held_SR1]; unfold W6
  rw [Function.update_of_ne (show r main_arg2 ≠ r main_v5 by decide), Function.update_of_ne (show r main_v4 ≠ r main_v5 by decide),
    Function.update_self]

theorem held_restR1_after (d : Dev nD) :
    (held (T d) (Sall \ SR1) (W6 m d) : sProp (MM F)) = held (T d) (Sall \ SR1) (W5 m d) :=
  held_congr _ fun b hb => by
    unfold W6
    exact Function.update_of_ne (fun e => (Finset.mem_sdiff.mp hb).2 (by rw [e]; decide)) _ _

/-- Region 1 on the TensorCore of `d`: all its arrays before, all its arrays after. -/
theorem rstep1 (κ : GSem nD τ sig → ℕ) (d : Dev nD) {Φ : PUnit → sProp (MM F)} :
    iprop((K (F := F)).ctx EH (P m) κ ∗ boundary (SparseCore.T d : Thread nD τ) ∗ (K (F := F)).tcSt EH d 1 ∗ held (T d) Sall (W5 m d)
        ∗ (Pipeline.cellsGhost (nD := nD) (τ := τ) cfgs EP 0 d ∗ Pipeline.toksInit (nD := nD) (τ := τ) cfgs EP 0 d)
        ∗ ((boundary (SparseCore.T d : Thread nD τ) ∗ (K (F := F)).tcSt EH d 1 ∗ held (T d) Sall (W6 m d)) -∗ Φ ⟨⟩))
      ⊢ wp frame (wpE ((K (F := F)).defs (D (F := F))) 𝒱 (SparseCore.T d) none) Set.univ
          (Prog.lift (.customCall (SparseCore.inner (Pipeline.entry (0 : Fin 5))) ())) Φ := by
  rw [held_sub_split (T d) SR1_sub (W5 m d), held_SR1]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post1 (fun c => W5 m c (r main_arg2)) (fun c => W5 m c (r main_v4)) (fun c => W5 m c (r main_v5)) 1 d))
  isplitl [Hb Hst Hw Hg Hf Hcg Htk]
  · iapply (region1 (fun c => W5 m c (r main_arg2)) (fun c => W5 m c (r main_v4)) (fun c => W5 m c (r main_v5)) 1
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post1
  icases Hpost with ⟨Hb, Hst, Hw, Hg, Hf⟩
  rw [fin1_eq]
  iapply HΦ
  isplitl [Hb]; · iexact Hb
  isplitl [Hst]; · iexact Hst
  rw [held_sub_split (T d) SR1_sub (W6 m d), held_SR1_after, held_restR1_after]
  isplitr [Hrest]
  · isplitl [Hw]; · iexact Hw
    isplitl [Hg]; · iexact Hg
    iexact Hf
  iexact Hrest

end Cert.KernelIdeal.Hand

end
-- ==== Proof.Region3.lean ====
/-
  The second TensorCore matrix-product region of the program (pipeline 1), as the TensorCore meets it between two
  SparseCore calls. It is the first region's pipeline over the second gathered array and the second output array: at
  point j it holds the weight matrix, block j of the gathered rows, and writes block (10 + j, 0, 0) of the output
  array; every other entry of the output array keeps what it held. The body is handed the previous output array as
  an operand left in place and never touches it.
-/
import proofs.«206421_g46840913330738_cont_8to1c4_247_26_alg».proof.Proof.Region1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 3 (pipeline 1): the arrays, the blocks, the body -/

section Region3

variable (w : (c : Dev nD) → Buf (Elt F) ((SparseCore.T c : Thread nD τ).loc main_arg2)) (g : (c : Dev nD) → Buf (Elt F) ((SparseCore.T c : Thread nD τ).loc main_v8))
  (f0 : (c : Dev nD) → Buf (Elt F) ((SparseCore.T c : Thread nD τ).loc main_v9))

/-- The three windowed arrays as the region finds them. -/
def arr3 (c : Dev nD) : (x : Fin cfg3.W) → Buf (Elt F) ((cfg3.win x).arr.view.loc (c : Thread nD τ))
  | ⟨0, _⟩ => w c
  | ⟨1, _⟩ => g c
  | ⟨2, _⟩ => f0 c

/-- Window x's block at point t, read off its array. -/
def iblk3 (c : Dev nD) (x : Fin cfg3.W) (t : Fin cfg3.N) : ((cfg3.win x).xblock (cfg3.grid.coords t)).Idx → Elt F (cfg3.win x).elt :=
  ((cfg3.win x).blk t).view.read (Elt F) (arr3 w g f0 c x)

abbrev r3_0 : Rect S64x128 := Rect.unit (s := S64x128) ![0, 0] S64x128.size inb_S64x128_S64x128_0_0
abbrev r3_1 : Rect S16384x128 := Rect.unit (s := S16384x128) ![0, 0] S16384x128.size inb_S16384x128_S16384x128_0_0
abbrev r3_2 : Rect S1x64x16384 := Rect.unit (s := S1x64x16384) ![0, 0, 0] S1x64x16384.size inb_S1x64x16384_S1x64x16384_0_0_0

/-- What the body leaves in the output window's buffer, from the two input blocks: its one store, whole. -/
def out3 (x0 : Vec F S64x128 .f32) (x1 : Vec F S16384x128 .f32) : Vec F S1x64x16384 .f32 :=
  View.canon [⟨r3_2, k3_pay1 (View.ld x0 r3_0) (View.ld x1 r3_1)⟩]

/-- The store covers the buffer. -/
theorem cover3_2 (p0 : Vec F S1x64x16384 .f32) (y : S1x64x16384.Idx) :
    ∃ pc ∈ ([⟨r3_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out3_eq (x0 : Vec F S64x128 .f32) (x1 : Vec F S16384x128 .f32) : out3 x0 x1 = k3_pay1 x0 x1 := by
  unfold out3
  rw [View.canon_unit_zero zero3, View.ld_unit_zero zero2, View.ld_unit_zero zero2]

set_option maxHeartbeats 1000000 in
/-- The body on whole staging memrefs: the inputs' at read contents x0, x1, the output's at anything; it leaves the
    inputs as they were and the output at out3 of them. -/
theorem sound_kernel3 (c : Dev nD) (E : Set ℕ) (i : grid3.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ Kc ⟨⟩))
      ⊢ wp frame (wpE (defs₀ (F := F)) 𝒱₀ c none) E (cc3_body i arg1 harg1 arg2 harg2 argA hargA arg3 harg3) Kc := by
  simp only [cc3_body_eq_skeleton]; unfold cc3_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover3_2 _)

/-! ## The proof data -/

variable (n : ℕ)

/-- The proof data of pipeline 1 on device c between calls: the arrays as found; after the body at point t each
    input's buffer at its block and the output's at out3 of the blocks; the invariant the scoped buffers no window
    stages; the TensorCore owing what it owes before call n, its recorded pairs at or below level 8 n. -/
def dat3 (c : Dev nD) : Dat τ (Elt F) (HIx 5) ℕ UU ℕ cfg3 c where
  A := arr3 w g f0 c
  after x t := match x with
    | ⟨0, _⟩ => iblk3 w g f0 c 0 t
    | ⟨1, _⟩ => iblk3 w g f0 c 1 t
    | ⟨2, _⟩ => out3 (iblk3 w g f0 c 0 t) (iblk3 w g f0 c 1 t)
  Φ _ := Pipeline.scopedRest (Ix := HIx 5) (Name := ℕ) (U := UU) (Lvl := ℕ) (Val := Elt F) spec3 c
  q _ := fullShare
  owed _ := (K (F := F)).Otc c n
  recorded _ := recBelow (F := F) c n

theorem after3_0 (c : Dev nD) (t : Fin cfg3.N) : (dat3 w g f0 n c).after 0 t = iblk3 w g f0 c 0 t := by dsimp only [dat3]
theorem after3_1 (c : Dev nD) (t : Fin cfg3.N) : (dat3 w g f0 n c).after 1 t = iblk3 w g f0 c 1 t := by dsimp only [dat3]
theorem after3_2 (c : Dev nD) (t : Fin cfg3.N) :
    (dat3 w g f0 n c).after 2 t = out3 (iblk3 w g f0 c 0 t) (iblk3 w g f0 c 1 t) := by dsimp only [dat3]

/-- Each input's current staging buffer holds its block at every point, fetched there or not. -/
theorem before3_0 (c : Dev nD) (t : Fin cfg3.N) (d) : (dat3 w g f0 n c).before 0 t d = iblk3 w g f0 c 0 t :=
  ((dat3 w g f0 n c).before_in_eq_fetched 0 rfl (fun _ => rfl) (fun _ _ _ => rfl)
    (fun t => by rw [after3_0]; unfold Dat.blockOf iblk3; rfl) t d).trans
    (by unfold Dat.fetched Dat.blockOf iblk3; rfl)
theorem before3_1 (c : Dev nD) (t : Fin cfg3.N) (d) : (dat3 w g f0 n c).before 1 t d = iblk3 w g f0 c 1 t :=
  ((dat3 w g f0 n c).before_in_eq_fetched 1 rfl (fun _ => rfl) (fun _ _ _ => rfl)
    (fun t => by rw [after3_1]; unfold Dat.blockOf iblk3; rfl) t d).trans
    (by unfold Dat.fetched Dat.blockOf iblk3; rfl)

/-! ## The body obligation, at a generic point -/

def bodyPre3 (c : Dev nD) (t : Fin cfg3.N) : sProp 𝕄 :=
  iprop((dat3 w g f0 n c).Φ t.castSucc ∗ (dat3 w g f0 n c).owesAt none t.castSucc
    ∗ (∃ d, owns (c : Thread nD τ) (st3_0 t) fullShare ((dat3 w g f0 n c).before 0 t d))
    ∗ (∃ d, owns (c : Thread nD τ) (st3_1 t) fullShare ((dat3 w g f0 n c).before 1 t d))
    ∗ (∃ d, owns (c : Thread nD τ) (st3_2 t) fullShare ((dat3 w g f0 n c).before 2 t d)))

def bodyPost3 (c : Dev nD) (t : Fin cfg3.N) : sProp 𝕄 :=
  iprop((dat3 w g f0 n c).Φ t.succ ∗ (dat3 w g f0 n c).owesAt none t.succ
    ∗ owns (c : Thread nD τ) (st3_0 t) fullShare ((dat3 w g f0 n c).after 0 t)
    ∗ owns (c : Thread nD τ) (st3_1 t) fullShare ((dat3 w g f0 n c).after 1 t)
    ∗ owns (c : Thread nD τ) (st3_2 t) fullShare ((dat3 w g f0 n c).after 2 t))

/-- The body at any point: the inputs' memrefs hold their blocks, so the body's triple applies; the invariant and what
    the TensorCore owes pass through unread. -/
theorem sound_body3 (c : Dev nD) (t : Fin cfg3.N) :
    bodyPre3 w g f0 n c t ⊢ wp frame (wpE (defs₀ (F := F)) 𝒱₀ c none) Set.univ (bodyAt3 t) (fun _ => bodyPost3 w g f0 n c t) := by
  unfold bodyPre3 bodyPost3 bodyAt3
  simp only [before3_0, before3_1]
  rw [show (dat3 w g f0 n c).Φ t.succ = (dat3 w g f0 n c).Φ t.castSucc from rfl,
    show (dat3 w g f0 n c).owesAt none t.succ = (dat3 w g f0 n c).owesAt none t.castSucc from rfl,
    after3_0, after3_1, after3_2]
  iintro ⟨HΦ, Ho, ⟨%d0, H0⟩, ⟨%d1, H1⟩, ⟨%d2, H2⟩⟩
  iapply (sound_kernel3 c Set.univ _ _ _ _ _ _ _ _ _ (iblk3 w g f0 c 0 t) (iblk3 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 w g f0 n c) (defs₀ (F := F)) 𝒱₀ none Set.univ := fun t => by
  rw [bigSep_W3, bigSep_W3]
  exact sound_body3 w g f0 n c t

/-! ## The region as a record -/

/-- Every pipeline's proof data as region 1's record sees it: pipeline 1's, and nothing said of the others. -/
def pdats3 : (p : Fin 5) → (c : Dev nD) → Dat τ (Elt F) (HIx 5) ℕ UU ℕ (Pipeline.pin (pcfgs (F := F)) adm p) c
  | ⟨0, _⟩ => fun c => datIdle _ c
  | ⟨1, _⟩ => fun c => dat3 w g f0 n c
  | ⟨2, _⟩ => fun c => datIdle _ c
  | ⟨3, _⟩ => fun c => datIdle _ c
  | ⟨4, _⟩ => fun c => datIdle _ c

/-- The inputs' arrays are never written. -/
theorem arrAt3_0 (c : Dev nD) (k : ℕ) : (dat3 w g f0 n c).arrAt 0 k = w c := (dat3 w g f0 n c).arrAt_in 0 rfl k
theorem arrAt3_1 (c : Dev nD) (k : ℕ) : (dat3 w g f0 n c).arrAt 1 k = g c := (dat3 w g f0 n c).arrAt_in 1 rfl k

/-- The output array after the region: the entry contents overwritten by the ten write-backs. -/
def fin3 (c : Dev nD) : Buf (Elt F) ((SparseCore.T c : Thread nD τ).loc main_v9) := (dat3 w g f0 n c).arrAt 2 cfg3.N

/-- The thread state around the region: what the TensorCore owes before call n with its recorded pairs bounded, and
    the three arrays whole. -/
def tst3 (c : Dev nD) (f : Buf (Elt F) ((SparseCore.T c : Thread nD τ).loc main_v9)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v8) ↦{fullShare} g c) ∗ (((SparseCore.T c : Thread nD τ).loc main_v9) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg3 : Pipeline.RegionSeg (pcfgs (F := F)) adm (pdats3 w g f0 n) none defs₀ 𝒱₀ (K (F := F)).L lv 1 where
  win := launch3.win.to₀
  block_pos := launch3.block_pos
  stage_whole := launch3.stage_whole
  K := PEmpty
  osem k := k.elim
  ho := Pipeline.OwnSemFacts.none _
  hbody c := (body_obligation3 w g f0 n c).loose
  hwaits c := Pipeline.cellsWaits_intro (Pipeline.pin (pcfgs (F := F)) adm) (pdats3 w g f0 n) none 1 c (R := levAts (K (F := F)).L lv)
    fun x s t => SparseCore.Cfg.mayWait_none (K := K (F := F)) (.dma _) (fun g' => Otc_none c n g') lv hlv
  pre c := tst3 w g n c (f0 c)
  post c := tst3 w g n c (fin3 w g f0 n c)
  X _ := BI.emp
  Y _ := BI.emp
  Z _ := BI.emp
  hentry c := by
    rw [Pipeline.ownSems0_none, Pipeline.arrays_eq (Pipeline.pin (pcfgs (F := F)) adm) (pdats3 w g f0 n) 1 c launch3.arr_whole
      ((pdats3 w g f0 n 1 c).share_full fun _ => rfl), bigSep_W3]
    unfold tst3
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats3 w g f0 n 1 c).Φ 0 = Pipeline.scopedRest spec3 c from rfl]
    iintro ⟨-, -, Hr⟩; iexact Hr
  hout c := by
    rw [Pipeline.ownSems0_none, show (pdats3 w g f0 n 1 c).Φ (Fin.last _) = Pipeline.scopedRest spec3 c from rfl]
    iintro Hr
    isplitr; · iempintro
    isplitr; · iempintro
    iexact Hr
  hexit c := by
    rw [Pipeline.arrays_eq (Pipeline.pin (pcfgs (F := F)) adm) (pdats3 w g f0 n) 1 c launch3.arr_whole
      ((pdats3 w g f0 n 1 c).share_full fun _ => rfl), bigSep_W3]
    unfold tst3
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats3 w g f0 n 1 c).arrAt 0 (Pipeline.pin (pcfgs (F := F)) adm 1).N = w c from arrAt3_0 w g f0 n c _]; iexact H0
    isplitl [H1]; · rw [show (pdats3 w g f0 n 1 c).arrAt 1 (Pipeline.pin (pcfgs (F := F)) adm 1).N = g c from arrAt3_1 w g f0 n c _]; iexact H1
    iexact H2

/-- What the region hands on: the boundary, the TensorCore's handshake state, the arrays with the output at what the
    write-backs leave. -/
def post3 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v8) ↦{fullShare} g d)
    ∗ (((SparseCore.T d : Thread nD τ).loc main_v9) ↦{fullShare} fin3 w g f0 n d))

include hlv in
set_option maxHeartbeats 2000000 in
set_option backward.isDefEq.respectTransparency.types false in
/-- THE REGION inside the program: from the region boundary, the TensorCore's handshake state before call n, the level
    facts, the three arrays whole and pipeline 1's ghost state, the region's call runs to the same with the output
    array at what the ten write-backs leave. -/
theorem region3 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v8) ↦{fullShare} g d)
        ∗ (((SparseCore.T d : Thread nD τ).loc main_v9) ↦{fullShare} f0 d)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d : Thread nD τ) none) Set.univ
          (Prog.lift (.customCall (SparseCore.inner (Pipeline.entry (1 : Fin 5))) ()))
          (fun _ => post3 w g f0 n d) := by
  have hreg := Pipeline.RegionSeg.wp (pcfgs (F := F)) adm (pdats3 w g f0 n) none cellOf_inj EP defs₀ 𝒱₀ (K (F := F)).L lv
    (reg3 w g f0 n hlv) d none (fun _ h => by cases h) (α := PUnit) (fun _ => .ret PUnit.unit) (fun _ => post3 w g f0 n d)
  have hlift := (K (F := F)).wp_liftProg (D (F := F)) 𝒱 (SparseCore.T d : Thread nD τ) Set.univ none
    (α := PUnit) (.op (.customCall (Pipeline.entry (1 : Fin 5)) ()) fun _ => .ret PUnit.unit) (fun _ => post3 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post3 SparseCore.Cfg.tcSt
    ihave Hpost' := (show (reg3 w g f0 n hlv).post d ⊢ tst3 w g n d (fin3 w g f0 n d) from .rfl) $$ Hpost
    unfold tst3
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst3 w g n d (f0 d) ⊢ (reg3 w g f0 n hlv).pre d from .rfl)
    unfold tst3
    isplitl [HO]; · iexact HO
    isplitl [H0]; · iexact H0
    isplitl [H1]; · iexact H1
    iexact H2
  isplitr; · iexact Hlev
  isplitl [Hg]; · iexact Hg
  iexact Ht

end Region3

end Cert.KernelIdeal.Hand

end
-- ==== Proof.Region3Value.lean ====
/-
  What region 3 leaves in the output array, in closed form.

  Each point's block of the output is block (10 + t, 0, 0) of ONE whole-array function of the region's arrays: on
  leading slice 10 + t the product of the weight matrix with the transposed block t of the gathered rows. So the
  array ends at that function on leading slices 10 … 19 and at its entry contents elsewhere.
-/
import proofs.«206421_g46840913330738_cont_8to1c4_247_26_alg».proof.Proof.Region3
import proofs.«206421_g46840913330738_cont_8to1c4_247_26_alg».proof.Proof.Region3Defs

set_option maxRecDepth 16384

noncomputable section

namespace Cert.KernelIdeal.Hand

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal3_of_mem (w : Vec F S64x128 .f32) (g : Vec F S163840x128 .f32) (f0 : Vec F S50x64x16384 .f32) (i : S50x64x16384.Idx)
    (h : 10 ≤ (i 0).val ∧ (i 0).val < 20) :
    regionVal3 w g f0 i = k3_pay1 w (gBlock g ⟨(i 0).val - 10, by omega⟩) (toBlk i) := dif_pos h

theorem regionVal3_of_not (w : Vec F S64x128 .f32) (g : Vec F S163840x128 .f32) (f0 : Vec F S50x64x16384 .f32) (i : S50x64x16384.Idx)
    (h : ¬(10 ≤ (i 0).val ∧ (i 0).val < 20)) : regionVal3 w g f0 i = f0 i := dif_neg h

/-! ## The windows' block indices -/

omit [FloatOps F] in
theorem index3_0 : ∀ t : Fin grid3.N, win3_0.index t 0 = 0 ∧ win3_0.index t 1 = 0 := by decide +kernel
omit [FloatOps F] in
theorem index3_1 : ∀ t : Fin grid3.N, win3_1.index t 0 = t.val ∧ win3_1.index t 1 = 0 := by decide +kernel
omit [FloatOps F] in
theorem index3_2 : ∀ t : Fin grid3.N, win3_2.index t 0 = 10 + t.val ∧ win3_2.index t 1 = 0 ∧ win3_2.index t 2 = 0 := by decide +kernel

/-- The grid point that writes leading slice l. -/
def ptAt3 (l : ℕ) (h : 10 ≤ l ∧ l < 20) : Fin cfg3.N := ⟨l - 10, by have e : cfg3.N = 10 := N_3; omega⟩

/-- A point of the grid as a number below ten. -/
def pt3 (t : Fin cfg3.N) : Fin 10 := ⟨t.val, by have h := t.isLt; have e : cfg3.N = 10 := N_3; omega⟩

section Blocks

variable (w : (c : Dev nD) → Buf (Elt F) ((SparseCore.T c : Thread nD τ).loc main_arg2)) (g : (c : Dev nD) → Buf (Elt F) ((SparseCore.T c : Thread nD τ).loc main_v8))
  (f0 : (c : Dev nD) → Buf (Elt F) ((SparseCore.T c : Thread nD τ).loc main_v9)) (n : ℕ)

/-- The weight window's block is the whole matrix at every point. -/
theorem iblk3_0_eq (c : Dev nD) (t : Fin cfg3.N) : iblk3 w g f0 c 0 t = w c := by
  funext y
  show (w c) ((win3_0.rect t).emb y) = (w c) y
  congr 1
  funext a
  apply Fin.ext
  rw [Window.rect_emb_val]
  have h := index3_0 t
  match a with
  | ⟨0, _⟩ => show win3_0.index t 0 * 64 + (y 0).val = (y 0).val; rw [h.1]; omega
  | ⟨1, _⟩ => show win3_0.index t 1 * 128 + (y 1).val = (y 1).val; rw [h.2]; omega

/-- The gathered rows' window holds block t at point t. -/
theorem iblk3_1_eq (c : Dev nD) (t : Fin cfg3.N) : iblk3 w g f0 c 1 t = gBlock (g c) (pt3 t) := by
  funext y
  show (g c) ((win3_1.rect t).emb y) = gBlock (g c) (pt3 t) y
  unfold gBlock
  congr 1
  funext a
  apply Fin.ext
  rw [Window.rect_emb_val]
  have h := index3_1 t
  match a with
  | ⟨0, _⟩ => show win3_1.index t 0 * 16384 + (y 0).val = t.val * 16384 + (y 0).val; rw [h.1]
  | ⟨1, _⟩ => show win3_1.index t 1 * 128 + (y 1).val = (y 1).val; rw [h.2]; omega

/-- The output window's block at point t sits at leading slice 10 + t. -/
theorem emb3_2_zero (t : Fin cfg3.N) (y : S1x64x16384.Idx) : (((win3_2.rect t).emb y) 0).val = 10 + t.val := by
  rw [Window.rect_emb_val]
  show win3_2.index t 0 * 1 + (y 0).val = 10 + t.val
  rw [(index3_2 t).1]
  have : (y 0).val < 1 := (y 0).isLt
  omega

theorem toBlk_emb3_2 (t : Fin cfg3.N) (y : S1x64x16384.Idx) : toBlk ((win3_2.rect t).emb y) = y := by
  funext a
  apply Fin.ext
  have h := index3_2 t
  match a with
  | ⟨0, _⟩ => show 0 = (y 0).val; have : (y 0).val < 1 := (y 0).isLt; omega
  | ⟨1, _⟩ =>
    show (((win3_2.rect t).emb y) 1).val = (y 1).val
    rw [Window.rect_emb_val]; show win3_2.index t 1 * 64 + (y 1).val = (y 1).val; rw [h.2.1]; omega
  | ⟨2, _⟩ =>
    show (((win3_2.rect t).emb y) 2).val = (y 2).val
    rw [Window.rect_emb_val]; show win3_2.index t 2 * 16384 + (y 2).val = (y 2).val; rw [h.2.2]; omega

theorem emb3_2_toBlk (i : S50x64x16384.Idx) (h : 10 ≤ (i 0).val ∧ (i 0).val < 20) :
    (win3_2.rect (ptAt3 (i 0).val h)).emb (toBlk i) = i := by
  funext a
  apply Fin.ext
  rw [Window.rect_emb_val]
  have hx := index3_2 (ptAt3 (i 0).val h)
  match a with
  | ⟨0, _⟩ =>
    show win3_2.index _ 0 * 1 + 0 = (i 0).val
    rw [hx.1]; show (10 + ((i 0).val - 10)) * 1 + 0 = (i 0).val; omega
  | ⟨1, _⟩ => show win3_2.index _ 1 * 64 + (i 1).val = (i 1).val; rw [hx.2.1]; omega
  | ⟨2, _⟩ => show win3_2.index _ 2 * 16384 + (i 2).val = (i 2).val; rw [hx.2.2]; omega

/-- What point t writes back is block t of the whole-array function. -/
theorem flushed3_2 (d : Dev nD) (t : Fin cfg3.N) :
    (dat3 w g f0 n d).flushed 2 t = ((cfg3.win 2).blk t).view.read (Elt F) (regionVal3 (w d) (g d) (f0 d)) := by
  funext y
  show (dat3 w g f0 n d).after 2 t y = regionVal3 (w d) (g d) (f0 d) ((win3_2.rect t).emb y)
  rw [after3_2, out3_eq, iblk3_0_eq, iblk3_1_eq]
  have h0 := emb3_2_zero t y
  have hmem : 10 ≤ (((win3_2.rect t).emb y) 0).val ∧ (((win3_2.rect t).emb y) 0).val < 20 := by
    have ht : t.val < 10 := (pt3 t).isLt
    rw [h0]; exact ⟨by omega, by omega⟩
  rw [regionVal3_of_mem _ _ _ _ hmem]
  have e1 : (⟨(((win3_2.rect t).emb y) 0).val - 10, by omega⟩ : Fin 10) = pt3 t := Fin.ext (by show _ - 10 = t.val; omega)
  rw [e1, toBlk_emb3_2]

/-- THE OUTPUT ARRAY AFTER THE REGION is the whole-array function. -/
theorem fin3_eq (d : Dev nD) : fin3 w g f0 n d = regionVal3 (w d) (g d) (f0 d) := by
  funext i
  unfold fin3
  by_cases h : 10 ≤ (i 0).val ∧ (i 0).val < 20
  · refine (dat3 w g f0 n d).arrAt_apply_of_mem 2 (regionVal3 (w d) (g d) (f0 d)) (fun t _ => flushed3_2 w g f0 n d t) cfg3.N
      (ptAt3 (i 0).val h) i (Fin.isLt _) (flush3_2 _) ?_
    have hm : ((win3_2.rect (ptAt3 (i 0).val h)).emb (toBlk i)
          : ((cfg3.win 2).blk (ptAt3 (i 0).val h)).view.ty.Idx)
        ∈ ((cfg3.win 2).blk (ptAt3 (i 0).val h)).view.set :=
      ((cfg3.win 2).blk (ptAt3 (i 0).val h)).view.emb_mem_set (toBlk i)
    rw [emb3_2_toBlk i h] at hm
    exact hm
  · rw [regionVal3_of_not _ _ _ _ h]
    refine (dat3 w g f0 n d).arrAt_apply_of_forall_not_mem 2 cfg3.N i fun t _ _ hi => h ?_
    obtain ⟨y, rfl⟩ := View.exists_emb_of_mem_set _ hi
    have h0 := emb3_2_zero t y
    have ht : t.val < 10 := (pt3 t).isLt
    show 10 ≤ (((win3_2.rect t).emb y) 0).val ∧ (((win3_2.rect t).emb y) 0).val < 20
    rw [h0]; exact ⟨by omega, by omega⟩

end Blocks

end Cert.KernelIdeal.Hand

end
-- ==== Proof.RegStep3.lean ====
/-
  Matrix-product region 3, as @main's TensorCore meets it. Of all its arrays the region's pipeline works on three:
  the weights, the gathered rows of the call before it, and the output array. The pipeline's run leaves the first two
  as they were and the output with its ten leading slices 10 … 19 written; the TensorCore's other arrays are
  untouched, and what the TensorCore owes the launch's handshakes is the same before and after.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Region3
import proofs.«206421_g46840913330738_cont_8to1c4_247_26_alg».proof.Proof.Region3Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR3 : Finset (DevRef τ sig) := {r main_arg2, r main_v8, r main_v9}
omit [FloatOps F] in
theorem SR3_sub : SR3 ⊆ Sall := by decide

omit [FloatOps F] in
theorem held_SR3 (d : Dev nD) (V : Valuation τ sig (Elt F)) :
    (held (T d) SR3 V : sProp (MM F))
      = iprop(((SparseCore.T d).loc main_arg2 ↦{fullShare} V (r main_arg2)) ∗ ((SparseCore.T d).loc main_v8 ↦{fullShare} V (r main_v8))
          ∗ ((SparseCore.T d).loc main_v9 ↦{fullShare} V (r main_v9))) := by
  unfold held SR3
  rw [SparseCore.bigSep_insert' (by decide), SparseCore.bigSep_insert' (by decide), bigSep_singleton]

theorem held_SR3_after (d : Dev nD) :
    (held (T d) SR3 (W11 m d) : sProp (MM F))
      = iprop(((SparseCore.T d).loc main_arg2 ↦{fullShare} W10 m d (r main_arg2)) ∗ ((SparseCore.T d).loc main_v8 ↦{fullShare} W10 m d (r main_v8))
          ∗ ((SparseCore.T d).loc main_v9 ↦{fullShare} regionVal3 (W10 m d (r main_arg2)) (W10 m d (r main_v8)) (W10 m d (r main_v9)))) := by
  rw [held_SR3]; unfold W11
  rw [Function.update_of_ne (show r main_arg2 ≠ r main_v9 by decide), Function.update_of_ne (show r main_v8 ≠ r main_v9 by decide),
    Function.update_self]

theorem held_restR3_after (d : Dev nD) :
    (held (T d) (Sall \ SR3) (W11 m d) : sProp (MM F)) = held (T d) (Sall \ SR3) (W10 m d) :=
  held_congr _ fun b hb => by
    unfold W11
    exact Function.update_of_ne (fun e => (Finset.mem_sdiff.mp hb).2 (by rw [e]; decide)) _ _

/-- Region 3 on the TensorCore of `d`: all its arrays before, all its arrays after. -/
theorem rstep3 (κ : GSem nD τ sig → ℕ) (d : Dev nD) {Φ : PUnit → sProp (MM F)} :
    iprop((K (F := F)).ctx EH (P m) κ ∗ boundary (SparseCore.T d : Thread nD τ) ∗ (K (F := F)).tcSt EH d 2 ∗ held (T d) Sall (W10 m d)
        ∗ (Pipeline.cellsGhost (nD := nD) (τ := τ) cfgs EP 1 d ∗ Pipeline.toksInit (nD := nD) (τ := τ) cfgs EP 1 d)
        ∗ ((boundary (SparseCore.T d : Thread nD τ) ∗ (K (F := F)).tcSt EH d 2 ∗ held (T d) Sall (W11 m d)) -∗ Φ ⟨⟩))
      ⊢ wp frame (wpE ((K (F := F)).defs (D (F := F))) 𝒱 (SparseCore.T d) none) Set.univ
          (Prog.lift (.customCall (SparseCore.inner (Pipeline.entry (1 : Fin 5))) ())) Φ := by
  rw [held_sub_split (T d) SR3_sub (W10 m d), held_SR3]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post3 (fun c => W10 m c (r main_arg2)) (fun c => W10 m c (r main_v8)) (fun c => W10 m c (r main_v9)) 2 d))
  isplitl [Hb Hst Hw Hg Hf Hcg Htk]
  · iapply (region3 (fun c => W10 m c (r main_arg2)) (fun c => W10 m c (r main_v8)) (fun c => W10 m c (r main_v9)) 2
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post3
  icases Hpost with ⟨Hb, Hst, Hw, Hg, Hf⟩
  rw [fin3_eq]
  iapply HΦ
  isplitl [Hb]; · iexact Hb
  isplitl [Hst]; · iexact Hst
  rw [held_sub_split (T d) SR3_sub (W11 m d), held_SR3_after, held_restR3_after]
  isplitr [Hrest]
  · isplitl [Hw]; · iexact Hw
    isplitl [Hg]; · iexact Hg
    iexact Hf
  iexact Hrest

end Cert.KernelIdeal.Hand

end
-- ==== Proof.Region5.lean ====
/-
  The third TensorCore matrix-product region of the program (pipeline 2), as the TensorCore meets it between two
  SparseCore calls. It is the first region's pipeline over the third gathered array and the third output array: at
  point j it holds the weight matrix, block j of the gathered rows, and writes block (20 + j, 0, 0) of the output
  array; every other entry of the output array keeps what it held. The body is handed the previous output array as
  an operand left in place and never touches it.
-/
import proofs.«206421_g46840913330738_cont_8to1c4_247_26_alg».proof.Proof.Region1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 5 (pipeline 2): the arrays, the blocks, the body -/

section Region5

variable (w : (c : Dev nD) → Buf (Elt F) ((SparseCore.T c : Thread nD τ).loc main_arg2)) (g : (c : Dev nD) → Buf (Elt F) ((SparseCore.T c : Thread nD τ).loc main_v12))
  (f0 : (c : Dev nD) → Buf (Elt F) ((SparseCore.T c : Thread nD τ).loc main_v13))

/-- The three windowed arrays as the region finds them. -/
def arr5 (c : Dev nD) : (x : Fin cfg5.W) → Buf (Elt F) ((cfg5.win x).arr.view.loc (c : Thread nD τ))
  | ⟨0, _⟩ => w c
  | ⟨1, _⟩ => g c
  | ⟨2, _⟩ => f0 c

/-- Window x's block at point t, read off its array. -/
def iblk5 (c : Dev nD) (x : Fin cfg5.W) (t : Fin cfg5.N) : ((cfg5.win x).xblock (cfg5.grid.coords t)).Idx → Elt F (cfg5.win x).elt :=
  ((cfg5.win x).blk t).view.read (Elt F) (arr5 w g f0 c x)

abbrev r5_0 : Rect S64x128 := Rect.unit (s := S64x128) ![0, 0] S64x128.size inb_S64x128_S64x128_0_0
abbrev r5_1 : Rect S16384x128 := Rect.unit (s := S16384x128) ![0, 0] S16384x128.size inb_S16384x128_S16384x128_0_0
abbrev r5_2 : Rect S1x64x16384 := Rect.unit (s := S1x64x16384) ![0, 0, 0] S1x64x16384.size inb_S1x64x16384_S1x64x16384_0_0_0

/-- What the body leaves in the output window's buffer, from the two input blocks: its one store, whole. -/
def out5 (x0 : Vec F S64x128 .f32) (x1 : Vec F S16384x128 .f32) : Vec F S1x64x16384 .f32 :=
  View.canon [⟨r5_2, k5_pay1 (View.ld x0 r5_0) (View.ld x1 r5_1)⟩]

/-- The store covers the buffer. -/
theorem cover5_2 (p0 : Vec F S1x64x16384 .f32) (y : S1x64x16384.Idx) :
    ∃ pc ∈ ([⟨r5_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out5_eq (x0 : Vec F S64x128 .f32) (x1 : Vec F S16384x128 .f32) : out5 x0 x1 = k5_pay1 x0 x1 := by
  unfold out5
  rw [View.canon_unit_zero zero3, View.ld_unit_zero zero2, View.ld_unit_zero zero2]

set_option maxHeartbeats 1000000 in
/-- The body on whole staging memrefs: the inputs' at read contents x0, x1, the output's at anything; it leaves the
    inputs as they were and the output at out5 of them. -/
theorem sound_kernel5 (c : Dev nD) (E : Set ℕ) (i : grid5.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5 x0 x1)) -∗ Kc ⟨⟩))
      ⊢ wp frame (wpE (defs₀ (F := F)) 𝒱₀ c none) E (cc5_body i arg1 harg1 arg2 harg2 argA hargA arg3 harg3) Kc := by
  simp only [cc5_body_eq_skeleton]; unfold cc5_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover5_2 _)

/-! ## The proof data -/

variable (n : ℕ)

/-- The proof data of pipeline 2 on device c between calls: the arrays as found; after the body at point t each
    input's buffer at its block and the output's at out5 of the blocks; the invariant the scoped buffers no window
    stages; the TensorCore owing what it owes before call n, its recorded pairs at or below level 8 n. -/
def dat5 (c : Dev nD) : Dat τ (Elt F) (HIx 5) ℕ UU ℕ cfg5 c where
  A := arr5 w g f0 c
  after x t := match x with
    | ⟨0, _⟩ => iblk5 w g f0 c 0 t
    | ⟨1, _⟩ => iblk5 w g f0 c 1 t
    | ⟨2, _⟩ => out5 (iblk5 w g f0 c 0 t) (iblk5 w g f0 c 1 t)
  Φ _ := Pipeline.scopedRest (Ix := HIx 5) (Name := ℕ) (U := UU) (Lvl := ℕ) (Val := Elt F) spec5 c
  q _ := fullShare
  owed _ := (K (F := F)).Otc c n
  recorded _ := recBelow (F := F) c n

theorem after5_0 (c : Dev nD) (t : Fin cfg5.N) : (dat5 w g f0 n c).after 0 t = iblk5 w g f0 c 0 t := by dsimp only [dat5]
theorem after5_1 (c : Dev nD) (t : Fin cfg5.N) : (dat5 w g f0 n c).after 1 t = iblk5 w g f0 c 1 t := by dsimp only [dat5]
theorem after5_2 (c : Dev nD) (t : Fin cfg5.N) :
    (dat5 w g f0 n c).after 2 t = out5 (iblk5 w g f0 c 0 t) (iblk5 w g f0 c 1 t) := by dsimp only [dat5]

/-- Each input's current staging buffer holds its block at every point, fetched there or not. -/
theorem before5_0 (c : Dev nD) (t : Fin cfg5.N) (d) : (dat5 w g f0 n c).before 0 t d = iblk5 w g f0 c 0 t :=
  ((dat5 w g f0 n c).before_in_eq_fetched 0 rfl (fun _ => rfl) (fun _ _ _ => rfl)
    (fun t => by rw [after5_0]; unfold Dat.blockOf iblk5; rfl) t d).trans
    (by unfold Dat.fetched Dat.blockOf iblk5; rfl)
theorem before5_1 (c : Dev nD) (t : Fin cfg5.N) (d) : (dat5 w g f0 n c).before 1 t d = iblk5 w g f0 c 1 t :=
  ((dat5 w g f0 n c).before_in_eq_fetched 1 rfl (fun _ => rfl) (fun _ _ _ => rfl)
    (fun t => by rw [after5_1]; unfold Dat.blockOf iblk5; rfl) t d).trans
    (by unfold Dat.fetched Dat.blockOf iblk5; rfl)

/-! ## The body obligation, at a generic point -/

def bodyPre5 (c : Dev nD) (t : Fin cfg5.N) : sProp 𝕄 :=
  iprop((dat5 w g f0 n c).Φ t.castSucc ∗ (dat5 w g f0 n c).owesAt none t.castSucc
    ∗ (∃ d, owns (c : Thread nD τ) (st5_0 t) fullShare ((dat5 w g f0 n c).before 0 t d))
    ∗ (∃ d, owns (c : Thread nD τ) (st5_1 t) fullShare ((dat5 w g f0 n c).before 1 t d))
    ∗ (∃ d, owns (c : Thread nD τ) (st5_2 t) fullShare ((dat5 w g f0 n c).before 2 t d)))

def bodyPost5 (c : Dev nD) (t : Fin cfg5.N) : sProp 𝕄 :=
  iprop((dat5 w g f0 n c).Φ t.succ ∗ (dat5 w g f0 n c).owesAt none t.succ
    ∗ owns (c : Thread nD τ) (st5_0 t) fullShare ((dat5 w g f0 n c).after 0 t)
    ∗ owns (c : Thread nD τ) (st5_1 t) fullShare ((dat5 w g f0 n c).after 1 t)
    ∗ owns (c : Thread nD τ) (st5_2 t) fullShare ((dat5 w g f0 n c).after 2 t))

/-- The body at any point: the inputs' memrefs hold their blocks, so the body's triple applies; the invariant and what
    the TensorCore owes pass through unread. -/
theorem sound_body5 (c : Dev nD) (t : Fin cfg5.N) :
    bodyPre5 w g f0 n c t ⊢ wp frame (wpE (defs₀ (F := F)) 𝒱₀ c none) Set.univ (bodyAt5 t) (fun _ => bodyPost5 w g f0 n c t) := by
  unfold bodyPre5 bodyPost5 bodyAt5
  simp only [before5_0, before5_1]
  rw [show (dat5 w g f0 n c).Φ t.succ = (dat5 w g f0 n c).Φ t.castSucc from rfl,
    show (dat5 w g f0 n c).owesAt none t.succ = (dat5 w g f0 n c).owesAt none t.castSucc from rfl,
    after5_0, after5_1, after5_2]
  iintro ⟨HΦ, Ho, ⟨%d0, H0⟩, ⟨%d1, H1⟩, ⟨%d2, H2⟩⟩
  iapply (sound_kernel5 c Set.univ _ _ _ _ _ _ _ _ _ (iblk5 w g f0 c 0 t) (iblk5 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 w g f0 n c) (defs₀ (F := F)) 𝒱₀ none Set.univ := fun t => by
  rw [bigSep_W5, bigSep_W5]
  exact sound_body5 w g f0 n c t

/-! ## The region as a record -/

/-- Every pipeline's proof data as region 1's record sees it: pipeline 2's, and nothing said of the others. -/
def pdats5 : (p : Fin 5) → (c : Dev nD) → Dat τ (Elt F) (HIx 5) ℕ UU ℕ (Pipeline.pin (pcfgs (F := F)) adm p) c
  | ⟨0, _⟩ => fun c => datIdle _ c
  | ⟨1, _⟩ => fun c => datIdle _ c
  | ⟨2, _⟩ => fun c => dat5 w g f0 n c
  | ⟨3, _⟩ => fun c => datIdle _ c
  | ⟨4, _⟩ => fun c => datIdle _ c

/-- The inputs' arrays are never written. -/
theorem arrAt5_0 (c : Dev nD) (k : ℕ) : (dat5 w g f0 n c).arrAt 0 k = w c := (dat5 w g f0 n c).arrAt_in 0 rfl k
theorem arrAt5_1 (c : Dev nD) (k : ℕ) : (dat5 w g f0 n c).arrAt 1 k = g c := (dat5 w g f0 n c).arrAt_in 1 rfl k

/-- The output array after the region: the entry contents overwritten by the ten write-backs. -/
def fin5 (c : Dev nD) : Buf (Elt F) ((SparseCore.T c : Thread nD τ).loc main_v13) := (dat5 w g f0 n c).arrAt 2 cfg5.N

/-- The thread state around the region: what the TensorCore owes before call n with its recorded pairs bounded, and
    the three arrays whole. -/
def tst5 (c : Dev nD) (f : Buf (Elt F) ((SparseCore.T c : Thread nD τ).loc main_v13)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v12) ↦{fullShare} g c) ∗ (((SparseCore.T c : Thread nD τ).loc main_v13) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg5 : Pipeline.RegionSeg (pcfgs (F := F)) adm (pdats5 w g f0 n) none defs₀ 𝒱₀ (K (F := F)).L lv 2 where
  win := launch5.win.to₀
  block_pos := launch5.block_pos
  stage_whole := launch5.stage_whole
  K := PEmpty
  osem k := k.elim
  ho := Pipeline.OwnSemFacts.none _
  hbody c := (body_obligation5 w g f0 n c).loose
  hwaits c := Pipeline.cellsWaits_intro (Pipeline.pin (pcfgs (F := F)) adm) (pdats5 w g f0 n) none 2 c (R := levAts (K (F := F)).L lv)
    fun x s t => SparseCore.Cfg.mayWait_none (K := K (F := F)) (.dma _) (fun g' => Otc_none c n g') lv hlv
  pre c := tst5 w g n c (f0 c)
  post c := tst5 w g n c (fin5 w g f0 n c)
  X _ := BI.emp
  Y _ := BI.emp
  Z _ := BI.emp
  hentry c := by
    rw [Pipeline.ownSems0_none, Pipeline.arrays_eq (Pipeline.pin (pcfgs (F := F)) adm) (pdats5 w g f0 n) 2 c launch5.arr_whole
      ((pdats5 w g f0 n 2 c).share_full fun _ => rfl), bigSep_W5]
    unfold tst5
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats5 w g f0 n 2 c).Φ 0 = Pipeline.scopedRest spec5 c from rfl]
    iintro ⟨-, -, Hr⟩; iexact Hr
  hout c := by
    rw [Pipeline.ownSems0_none, show (pdats5 w g f0 n 2 c).Φ (Fin.last _) = Pipeline.scopedRest spec5 c from rfl]
    iintro Hr
    isplitr; · iempintro
    isplitr; · iempintro
    iexact Hr
  hexit c := by
    rw [Pipeline.arrays_eq (Pipeline.pin (pcfgs (F := F)) adm) (pdats5 w g f0 n) 2 c launch5.arr_whole
      ((pdats5 w g f0 n 2 c).share_full fun _ => rfl), bigSep_W5]
    unfold tst5
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats5 w g f0 n 2 c).arrAt 0 (Pipeline.pin (pcfgs (F := F)) adm 2).N = w c from arrAt5_0 w g f0 n c _]; iexact H0
    isplitl [H1]; · rw [show (pdats5 w g f0 n 2 c).arrAt 1 (Pipeline.pin (pcfgs (F := F)) adm 2).N = g c from arrAt5_1 w g f0 n c _]; iexact H1
    iexact H2

/-- What the region hands on: the boundary, the TensorCore's handshake state, the arrays with the output at what the
    write-backs leave. -/
def post5 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v12) ↦{fullShare} g d)
    ∗ (((SparseCore.T d : Thread nD τ).loc main_v13) ↦{fullShare} fin5 w g f0 n d))

include hlv in
set_option maxHeartbeats 2000000 in
set_option backward.isDefEq.respectTransparency.types false in
/-- THE REGION inside the program: from the region boundary, the TensorCore's handshake state before call n, the level
    facts, the three arrays whole and pipeline 2's ghost state, the region's call runs to the same with the output
    array at what the ten write-backs leave. -/
theorem region5 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v12) ↦{fullShare} g d)
        ∗ (((SparseCore.T d : Thread nD τ).loc main_v13) ↦{fullShare} f0 d)
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (SparseCore.T d : Thread nD τ) none) Set.univ
          (Prog.lift (.customCall (SparseCore.inner (Pipeline.entry (2 : Fin 5))) ()))
          (fun _ => post5 w g f0 n d) := by
  have hreg := Pipeline.RegionSeg.wp (pcfgs (F := F)) adm (pdats5 w g f0 n) none cellOf_inj EP defs₀ 𝒱₀ (K (F := F)).L lv
    (reg5 w g f0 n hlv) d none (fun _ h => by cases h) (α := PUnit) (fun _ => .ret PUnit.unit) (fun _ => post5 w g f0 n d)
  have hlift := (K (F := F)).wp_liftProg (D (F := F)) 𝒱 (SparseCore.T d : Thread nD τ) Set.univ none
    (α := PUnit) (.op (.customCall (Pipeline.entry (2 : Fin 5)) ()) fun _ => .ret PUnit.unit) (fun _ => post5 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post5 SparseCore.Cfg.tcSt
    ihave Hpost' := (show (reg5 w g f0 n hlv).post d ⊢ tst5 w g n d (fin5 w g f0 n d) from .rfl) $$ Hpost
    unfold tst5
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst5 w g n d (f0 d) ⊢ (reg5 w g f0 n hlv).pre d from .rfl)
    unfold tst5
    isplitl [HO]; · iexact HO
    isplitl [H0]; · iexact H0
    isplitl [H1]; · iexact H1
    iexact H2
  isplitr; · iexact Hlev
  isplitl [Hg]; · iexact Hg
  iexact Ht

end Region5

end Cert.KernelIdeal.Hand

end
-- ==== Proof.Region5Value.lean ====
/-
  What region 5 leaves in the output array, in closed form.

  Each point's block of the output is block (20 + t, 0, 0) of ONE whole-array function of the region's arrays: on
  leading slice 20 + t the product of the weight matrix with the transposed block t of the gathered rows. So the
  array ends at that function on leading slices 20 … 29 and at its entry contents elsewhere.
-/
import proofs.«206421_g46840913330738_cont_8to1c4_247_26_alg».proof.Proof.Region5
import proofs.«206421_g46840913330738_cont_8to1c4_247_26_alg».proof.Proof.Region5Defs

set_option maxRecDepth 16384

noncomputable section

namespace Cert.KernelIdeal.Hand

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal5_of_mem (w : Vec F S64x128 .f32) (g : Vec F S163840x128 .f32) (f0 : Vec F S50x64x16384 .f32) (i : S50x64x16384.Idx)
    (h : 20 ≤ (i 0).val ∧ (i 0).val < 30) :
    regionVal5 w g f0 i = k5_pay1 w (gBlock g ⟨(i 0).val - 20, by omega⟩) (toBlk i) := dif_pos h

theorem regionVal5_of_not (w : Vec F S64x128 .f32) (g : Vec F S163840x128 .f32) (f0 : Vec F S50x64x16384 .f32) (i : S50x64x16384.Idx)
    (h : ¬(20 ≤ (i 0).val ∧ (i 0).val < 30)) : regionVal5 w g f0 i = f0 i := dif_neg h

/-! ## The windows' block indices -/

omit [FloatOps F] in
theorem index5_0 : ∀ t : Fin grid5.N, win5_0.index t 0 = 0 ∧ win5_0.index t 1 = 0 := by decide +kernel
omit [FloatOps F] in
theorem index5_1 : ∀ t : Fin grid5.N, win5_1.index t 0 = t.val ∧ win5_1.index t 1 = 0 := by decide +kernel
omit [FloatOps F] in
theorem index5_2 : ∀ t : Fin grid5.N, win5_2.index t 0 = 20 + t.val ∧ win5_2.index t 1 = 0 ∧ win5_2.index t 2 = 0 := by decide +kernel

/-- The grid point that writes leading slice l. -/
def ptAt5 (l : ℕ) (h : 20 ≤ l ∧ l < 30) : Fin cfg5.N := ⟨l - 20, by have e : cfg5.N = 10 := N_5; omega⟩

/-- A point of the grid as a number below ten. -/
def pt5 (t : Fin cfg5.N) : Fin 10 := ⟨t.val, by have h := t.isLt; have e : cfg5.N = 10 := N_5; omega⟩

section Blocks

variable (w : (c : Dev nD) → Buf (Elt F) ((SparseCore.T c : Thread nD τ).loc main_arg2)) (g : (c : Dev nD) → Buf (Elt F) ((SparseCore.T c : Thread nD τ).loc main_v12))
  (f0 : (c : Dev nD) → Buf (Elt F) ((SparseCore.T c : Thread nD τ).loc main_v13)) (n : ℕ)

/-- The weight window's block is the whole matrix at every point. -/
theorem iblk5_0_eq (c : Dev nD) (t : Fin cfg5.N) : iblk5 w g f0 c 0 t = w c := by
  funext y
  show (w c) ((win5_0.rect t).emb y) = (w c) y
  congr 1
  funext a
  apply Fin.ext
  rw [Window.rect_emb_val]
  have h := index5_0 t
  match a with
  | ⟨0, _⟩ => show win5_0.index t 0 * 64 + (y 0).val = (y 0).val; rw [h.1]; omega
  | ⟨1, _⟩ => show win5_0.index t 1 * 128 + (y 1).val = (y 1).val; rw [h.2]; omega

/-- The gathered rows' window holds block t at point t. -/
theorem iblk5_1_eq (c : Dev nD) (t : Fin cfg5.N) : iblk5 w g f0 c 1 t = gBlock (g c) (pt5 t) := by
  funext y
  show (g c) ((win5_1.rect t).emb y) = gBlock (g c) (pt5 t) y
  unfold gBlock
  congr 1
  funext a
  apply Fin.ext
  rw [Window.rect_emb_val]
  have h := index5_1 t
  match a with
  | ⟨0, _⟩ => show win5_1.index t 0 * 16384 + (y 0).val = t.val * 16384 + (y 0).val; rw [h.1]
  | ⟨1, _⟩ => show win5_1.index t 1 * 128 + (y 1).val = (y 1).val; rw [h.2]; omega

/-- The output window's block at point t sits at leading slice 20 + t. -/
theorem emb5_2_zero (t : Fin cfg5.N) (y : S1x64x16384.Idx) : (((win5_2.rect t).emb y) 0).val = 20 + t.val := by
  rw [Window.rect_emb_val]
  show win5_2.index t 0 * 1 + (y 0).val = 20 + t.val
  rw [(index5_2 t).1]
  have : (y 0).val < 1 := (y 0).isLt
  omega

theorem toBlk_emb5_2 (t : Fin cfg5.N) (y : S1x64x16384.Idx) : toBlk ((win5_2.rect t).emb y) = y := by
  funext a
  apply Fin.ext
  have h := index5_2 t
  match a with
  | ⟨0, _⟩ => show 0 = (y 0).val; have : (y 0).val < 1 := (y 0).isLt; omega
  | ⟨1, _⟩ =>
    show (((win5_2.rect t).emb y) 1).val = (y 1).val
    rw [Window.rect_emb_val]; show win5_2.index t 1 * 64 + (y 1).val = (y 1).val; rw [h.2.1]; omega
  | ⟨2, _⟩ =>
    show (((win5_2.rect t).emb y) 2).val = (y 2).val
    rw [Window.rect_emb_val]; show win5_2.index t 2 * 16384 + (y 2).val = (y 2).val; rw [h.2.2]; omega

theorem emb5_2_toBlk (i : S50x64x16384.Idx) (h : 20 ≤ (i 0).val ∧ (i 0).val < 30) :
    (win5_2.rect (ptAt5 (i 0).val h)).emb (toBlk i) = i := by
  funext a
  apply Fin.ext
  rw [Window.rect_emb_val]
  have hx := index5_2 (ptAt5 (i 0).val h)
  match a with
  | ⟨0, _⟩ =>
    show win5_2.index _ 0 * 1 + 0 = (i 0).val
    rw [hx.1]; show (20 + ((i 0).val - 20)) * 1 + 0 = (i 0).val; omega
  | ⟨1, _⟩ => show win5_2.index _ 1 * 64 + (i 1).val = (i 1).val; rw [hx.2.1]; omega
  | ⟨2, _⟩ => show win5_2.index _ 2 * 16384 + (i 2).val = (i 2).val; rw [hx.2.2]; omega

/-- What point t writes back is block t of the whole-array function. -/
theorem flushed5_2 (d : Dev nD) (t : Fin cfg5.N) :
    (dat5 w g f0 n d).flushed 2 t = ((cfg5.win 2).blk t).view.read (Elt F) (regionVal5 (w d) (g d) (f0 d)) := by
  funext y
  show (dat5 w g f0 n d).after 2 t y = regionVal5 (w d) (g d) (f0 d) ((win5_2.rect t).emb y)
  rw [after5_2, out5_eq, iblk5_0_eq, iblk5_1_eq]
  have h0 := emb5_2_zero t y
  have hmem : 20 ≤ (((win5_2.rect t).emb y) 0).val ∧ (((win5_2.rect t).emb y) 0).val < 30 := by
    have ht : t.val < 10 := (pt5 t).isLt
    rw [h0]; exact ⟨by omega, by omega⟩
  rw [regionVal5_of_mem _ _ _ _ hmem]
  have e1 : (⟨(((win5_2.rect t).emb y) 0).val - 20, by omega⟩ : Fin 10) = pt5 t := Fin.ext (by show _ - 20 = t.val; omega)
  rw [e1, toBlk_emb5_2]

/-- THE OUTPUT ARRAY AFTER THE REGION is the whole-array function. -/
theorem fin5_eq (d : Dev nD) : fin5 w g f0 n d = regionVal5 (w d) (g d) (f0 d) := by
  funext i
  unfold fin5
  by_cases h : 20 ≤ (i 0).val ∧ (i 0).val < 30
  · refine (dat5 w g f0 n d).arrAt_apply_of_mem 2 (regionVal5 (w d) (g d) (f0 d)) (fun t _ => flushed5_2 w g f0 n d t) cfg5.N
      (ptAt5 (i 0).val h) i (Fin.isLt _) (flush5_2 _) ?_
    have hm : ((win5_2.rect (ptAt5 (i 0).val h)).emb (toBlk i)
          : ((cfg5.win 2).blk (ptAt5 (i 0).val h)).view.ty.Idx)
        ∈ ((cfg5.win 2).blk (ptAt5 (i 0).val h)).view.set :=
      ((cfg5.win 2).blk (ptAt5 (i 0).val h)).view.emb_mem_set (toBlk i)
    rw [emb5_2_toBlk i h] at hm
    exact hm
  · rw [regionVal5_of_not _ _ _ _ h]
    refine (dat5 w g f0 n d).arrAt_apply_of_forall_not_mem 2 cfg5.N i fun t _ _ hi => h ?_
    obtain ⟨y, rfl⟩ := View.exists_emb_of_mem_set _ hi
    have h0 := emb5_2_zero t y
    have ht : t.val < 10 := (pt5 t).isLt
    show 20 ≤ (((win5_2.rect t).emb y) 0).val ∧ (((win5_2.rect t).emb y) 0).val < 30
    rw [h0]; exact ⟨by omega, by omega⟩

end Blocks

end Cert.KernelIdeal.Hand

end
-- ==== Proof.RegStep5.lean ====
/-
  Matrix-product region 5, as @main's TensorCore meets it. Of all its arrays the region's pipeline works on three:
  the weights, the gathered rows of the call before it, and the output array. The pipeline's run leaves the first two
  as they were and the output with its ten leading slices 20 … 29 written; the TensorCore's other arrays are
  untouched, and what the TensorCore owes the launch's handshakes is the same before and after.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Region5
import proofs.«206421_g46840913330738_cont_8to1c4_247_26_alg».proof.Proof.Region5Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR5 : Finset (DevRef τ sig) := {r main_arg2, r main_v12, r main_v13}
omit [FloatOps F] in
theorem SR5_sub : SR5 ⊆ Sall := by decide

omit [FloatOps F] in
theorem held_SR5 (d : Dev nD) (V : Valuation τ sig (Elt F)) :
    (held (T d) SR5 V : sProp (MM F))
      = iprop(((SparseCore.T d).loc main_arg2 ↦{fullShare} V (r main_arg2)) ∗ ((SparseCore.T d).loc main_v12 ↦{fullShare} V (r main_v12))
          ∗ ((SparseCore.T d).loc main_v13 ↦{fullShare} V (r main_v13))) := by
  unfold held SR5
  rw [SparseCore.bigSep_insert' (by decide), SparseCore.bigSep_insert' (by decide), bigSep_singleton]

theorem held_SR5_after (d : Dev nD) :
    (held (T d) SR5 (W16 m d) : sProp (MM F))
      = iprop(((SparseCore.T d).loc main_arg2 ↦{fullShare} W15 m d (r main_arg2)) ∗ ((SparseCore.T d).loc main_v12 ↦{fullShare} W15 m d (r main_v12))
          ∗ ((SparseCore.T d).loc main_v13 ↦{fullShare} regionVal5 (W15 m d (r main_arg2)) (W15 m d (r main_v12)) (W15 m d (r main_v13)))) := by
  rw [held_SR5]; unfold W16
  rw [Function.update_of_ne (show r main_arg2 ≠ r main_v13 by decide), Function.update_of_ne (show r main_v12 ≠ r main_v13 by decide),
    Function.update_self]

theorem held_restR5_after (d : Dev nD) :
    (held (T d) (Sall \ SR5) (W16 m d) : sProp (MM F)) = held (T d) (Sall \ SR5) (W15 m d) :=
  held_congr _ fun b hb => by
    unfold W16
    exact Function.update_of_ne (fun e => (Finset.mem_sdiff.mp hb).2 (by rw [e]; decide)) _ _

/-- Region 5 on the TensorCore of `d`: all its arrays before, all its arrays after. -/
theorem rstep5 (κ : GSem nD τ sig → ℕ) (d : Dev nD) {Φ : PUnit → sProp (MM F)} :
    iprop((K (F := F)).ctx EH (P m) κ ∗ boundary (SparseCore.T d : Thread nD τ) ∗ (K (F := F)).tcSt EH d 3 ∗ held (T d) Sall (W15 m d)
        ∗ (Pipeline.cellsGhost (nD := nD) (τ := τ) cfgs EP 2 d ∗ Pipeline.toksInit (nD := nD) (τ := τ) cfgs EP 2 d)
        ∗ ((boundary (SparseCore.T d : Thread nD τ) ∗ (K (F := F)).tcSt EH d 3 ∗ held (T d) Sall (W16 m d)) -∗ Φ ⟨⟩))
      ⊢ wp frame (wpE ((K (F := F)).defs (D (F := F))) 𝒱 (SparseCore.T d) none) Set.univ
          (Prog.lift (.customCall (SparseCore.inner (Pipeline.entry (2 : Fin 5))) ())) Φ := by
  rw [held_sub_split (T d) SR5_sub (W15 m d), held_SR5]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post5 (fun c => W15 m c (r main_arg2)) (fun c => W15 m c (r main_v12)) (fun c => W15 m c (r main_v13)) 3 d))
  isplitl [Hb Hst Hw Hg Hf Hcg Htk]
  · iapply (region5 (fun c => W15 m c (r main_arg2)) (fun c => W15 m c (r main_v12)) (fun c => W15 m c (r main_v13)) 3
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post5
  icases Hpost with ⟨Hb, Hst, Hw, Hg, Hf⟩
  rw [fin5_eq]
  iapply HΦ
  isplitl [Hb]; · iexact Hb
  isplitl [Hst]; · iexact Hst
  rw [held_sub_split (T d) SR5_sub (W16 m d), held_SR5_after, held_restR5_after]
  isplitr [Hrest]
  · isplitl [Hw]; · iexact Hw
    isplitl [Hg]; · iexact Hg
    iexact Hf
  iexact Hrest

end Cert.KernelIdeal.Hand

end
-- ==== Proof.Region7.lean ====
/-
  The fourth TensorCore matrix-product region of the program (pipeline 3), as the TensorCore meets it between two
  SparseCore calls. It is the first region's pipeline over the fourth gathered array and the fourth output array: at
  point j it holds the weight matrix, block j of the gathered rows, and writes block (30 + j, 0, 0) of the output
  array; every other entry of the output array keeps what it held. The body is handed the previous output array as
  an operand left in place and never touches it.
-/
import proofs.«206421_g46840913330738_cont_8to1c4_247_26_alg».proof.Proof.Region1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 7 (pipeline 3): the arrays, the blocks, the body -/

section Region7

variable (w : (c : Dev nD) → Buf (Elt F) ((SparseCore.T c : Thread nD τ).loc main_arg2)) (g : (c : Dev nD) → Buf (Elt F) ((SparseCore.T c : Thread nD τ).loc main_v16))
  (f0 : (c : Dev nD) → Buf (Elt F) ((SparseCore.T c : Thread nD τ).loc main_v17))

/-- The three windowed arrays as the region finds them. -/
def arr7 (c : Dev nD) : (x : Fin cfg7.W) → Buf (Elt F) ((cfg7.win x).arr.view.loc (c : Thread nD τ))
  | ⟨0, _⟩ => w c
  | ⟨1, _⟩ => g c
  | ⟨2, _⟩ => f0 c

/-- Window x's block at point t, read off its array. -/
def iblk7 (c : Dev nD) (x : Fin cfg7.W) (t : Fin cfg7.N) : ((cfg7.win x).xblock (cfg7.grid.coords t)).Idx → Elt F (cfg7.win x).elt :=
  ((cfg7.win x).blk t).view.read (Elt F) (arr7 w g f0 c x)

abbrev r7_0 : Rect S64x128 := Rect.unit (s := S64x128) ![0, 0] S64x128.size inb_S64x128_S64x128_0_0
abbrev r7_1 : Rect S16384x128 := Rect.unit (s := S16384x128) ![0, 0] S16384x128.size inb_S16384x128_S16384x128_0_0
abbrev r7_2 : Rect S1x64x16384 := Rect.unit (s := S1x64x16384) ![0, 0, 0] S1x64x16384.size inb_S1x64x16384_S1x64x16384_0_0_0

/-- What the body leaves in the output window's buffer, from the two input blocks: its one store, whole. -/
def out7 (x0 : Vec F S64x128 .f32) (x1 : Vec F S16384x128 .f32) : Vec F S1x64x16384 .f32 :=
  View.canon [⟨r7_2, k7_pay1 (View.ld x0 r7_0) (View.ld x1 r7_1)⟩]

/-- The store covers the buffer. -/
theorem cover7_2 (p0 : Vec F S1x64x16384 .f32) (y : S1x64x16384.Idx) :
    ∃ pc ∈ ([⟨r7_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out7_eq (x0 : Vec F S64x128 .f32) (x1 : Vec F S16384x128 .f32) : out7 x0 x1 = k7_pay1 x0 x1 := by
  unfold out7
  rw [View.canon_unit_zero zero3, View.ld_unit_zero zero2, View.ld_unit_zero zero2]

set_option maxHeartbeats 1000000 in
/-- The body on whole staging memrefs: the inputs' at read contents x0, x1, the output's at anything; it leaves the
    inputs as they were and the output at out7 of them. -/
theorem sound_kernel7 (c : Dev nD) (E : Set ℕ) (i : grid7.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7 x0 x1)) -∗ Kc ⟨⟩))
      ⊢ wp frame (wpE (defs₀ (F := F)) 𝒱₀ c none) E (cc7_body i arg1 harg1 arg2 harg2 argA hargA arg3 harg3) Kc := by
  simp only [cc7_body_eq_skeleton]; unfold cc7_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover7_2 _)

/-! ## The proof data -/

variable (n : ℕ)

/-- The proof data of pipeline 3 on device c between calls: the arrays as found; after the body at point t each
    input's buffer at its block and the output's at out7 of the blocks; the invariant the scoped buffers no window
    stages; the TensorCore owing what it owes before call n, its recorded pairs at or below level 8 n. -/
def dat7 (c : Dev nD) : Dat τ (Elt F) (HIx 5) ℕ UU ℕ cfg7 c where
  A := arr7 w g f0 c
  after x t := match x with
    | ⟨0, _⟩ => iblk7 w g f0 c 0 t
    | ⟨1, _⟩ => iblk7 w g f0 c 1 t
    | ⟨2, _⟩ => out7 (iblk7 w g f0 c 0 t) (iblk7 w g f0 c 1 t)
  Φ _ := Pipeline.scopedRest (Ix := HIx 5) (Name := ℕ) (U := UU) (Lvl := ℕ) (Val := Elt F) spec7 c
  q _ := fullShare
  owed _ := (K (F := F)).Otc c n
  recorded _ := recBelow (F := F) c n

theorem after7_0 (c : Dev nD) (t : Fin cfg7.N) : (dat7 w g f0 n c).after 0 t = iblk7 w g f0 c 0 t := by dsimp only [dat7]
theorem after7_1 (c : Dev nD) (t : Fin cfg7.N) : (dat7 w g f0 n c).after 1 t = iblk7 w g f0 c 1 t := by dsimp only [dat7]
theorem after7_2 (c : Dev nD) (t : Fin cfg7.N) :
    (dat7 w g f0 n c).after 2 t = out7 (iblk7 w g f0 c 0 t) (iblk7 w g f0 c 1 t) := by dsimp only [dat7]

/-- Each input's current staging buffer holds its block at every point, fetched there or not. -/
theorem before7_0 (c : Dev nD) (t : Fin cfg7.N) (d) : (dat7 w g f0 n c).before 0 t d = iblk7 w g f0 c 0 t :=
  ((dat7 w g f0 n c).before_in_eq_fetched 0 rfl (fun _ => rfl) (fun _ _ _ => rfl)
    (fun t => by rw [after7_0]; unfold Dat.blockOf iblk7; rfl) t d).trans
    (by unfold Dat.fetched Dat.blockOf iblk7; rfl)
theorem before7_1 (c : Dev nD) (t : Fin cfg7.N) (d) : (dat7 w g f0 n c).before 1 t d = iblk7 w g f0 c 1 t :=
  ((dat7 w g f0 n c).before_in_eq_fetched 1 rfl (fun _ => rfl) (fun _ _ _ => rfl)
    (fun t => by rw [after7_1]; unfold Dat.blockOf iblk7; rfl) t d).trans
    (by unfold Dat.fetched Dat.blockOf iblk7; rfl)

/-! ## The body obligation, at a generic point -/

def bodyPre7 (c : Dev nD) (t : Fin cfg7.N) : sProp 𝕄 :=
  iprop((dat7 w g f0 n c).Φ t.castSucc ∗ (dat7 w g f0 n c).owesAt none t.castSucc
    ∗ (∃ d, owns (c : Thread nD τ) (st7_0 t) fullShare ((dat7 w g f0 n c).before 0 t d))
    ∗ (∃ d, owns (c : Thread nD τ) (st7_1 t) fullShare ((dat7 w g f0 n c).before 1 t d))
    ∗ (∃ d, owns (c : Thread nD τ) (st7_2 t) fullShare ((dat7 w g f0 n c).before 2 t d)))

def bodyPost7 (c : Dev nD) (t : Fin cfg7.N) : sProp 𝕄 :=
  iprop((dat7 w g f0 n c).Φ t.succ ∗ (dat7 w g f0 n c).owesAt none t.succ
    ∗ owns (c : Thread nD τ) (st7_0 t) fullShare ((dat7 w g f0 n c).after 0 t)
    ∗ owns (c : Thread nD τ) (st7_1 t) fullShare ((dat7 w g f0 n c).after 1 t)
    ∗ owns (c : Thread nD τ) (st7_2 t) fullShare ((dat7 w g f0 n c).after 2 t))

/-- The body at any point: the inputs' memrefs hold their blocks, so the body's triple applies; the invariant and what
    the TensorCore owes pass through unread. -/
theorem sound_body7 (c : Dev nD) (t : Fin cfg7.N) :
    bodyPre7 w g f0 n c t ⊢ wp frame (wpE (defs₀ (F := F)) 𝒱₀ c none) Set.univ (bodyAt7 t) (fun _ => bodyPost7 w g f0 n c t) := by
  unfold bodyPre7 bodyPost7 bodyAt7
  simp only [before7_0, before7_1]
  rw [show (dat7 w g f0 n c).Φ t.succ = (dat7 w g f0 n c).Φ t.castSucc from rfl,
    show (dat7 w g f0 n c).owesAt none t.succ = (dat7 w g f0 n c).owesAt none t.castSucc from rfl,
    after7_0, after7_1, after7_2]
  iintro ⟨HΦ, Ho, ⟨%d0, H0⟩, ⟨%d1, H1⟩, ⟨%d2, H2⟩⟩
  iapply (sound_kernel7 c Set.univ _ _ _ _ _ _ _ _ _ (iblk7 w g f0 c 0 t) (iblk7 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 w g f0 n c) (defs₀ (F := F)) 𝒱₀ none Set.univ := fun t => by
  rw [bigSep_W7, bigSep_W7]
  exact sound_body7 w g f0 n c t

/-! ## The region as a record -/

/-- Every pipeline's proof data as region 1's record sees it: pipeline 3's, and nothing said of the others. -/
def pdats7 : (p : Fin 5) → (c : Dev nD) → Dat τ (Elt F) (HIx 5) ℕ UU ℕ (Pipeline.pin (pcfgs (F := F)) adm p) c
  | ⟨0, _⟩ => fun c => datIdle _ c
  | ⟨1, _⟩ => fun c => datIdle _ c
  | ⟨2, _⟩ => fun c => datIdle _ c
  | ⟨3, _⟩ => fun c => dat7 w g f0 n c
  | ⟨4, _⟩ => fun c => datIdle _ c

/-- The inputs' arrays are never written. -/
theorem arrAt7_0 (c : Dev nD) (k : ℕ) : (dat7 w g f0 n c).arrAt 0 k = w c := (dat7 w g f0 n c).arrAt_in 0 rfl k
theorem arrAt7_1 (c : Dev nD) (k : ℕ) : (dat7 w g f0 n c).arrAt 1 k = g c := (dat7 w g f0 n c).arrAt_in 1 rfl k

/-- The output array after the region: the entry contents overwritten by the ten write-backs. -/
def fin7 (c : Dev nD) : Buf (Elt F) ((SparseCore.T c : Thread nD τ).loc main_v17) := (dat7 w g f0 n c).arrAt 2 cfg7.N

/-- The thread state around the region: what the TensorCore owes before call n with its recorded pairs bounded, and
    the three arrays whole. -/
def tst7 (c : Dev nD) (f : Buf (Elt F) ((SparseCore.T c : Thread nD τ).loc main_v17)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v16) ↦{fullShare} g c) ∗ (((SparseCore.T c : Thread nD τ).loc main_v17) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg7 : Pipeline.RegionSeg (pcfgs (F := F)) adm (pdats7 w g f0 n) none defs₀ 𝒱₀ (K (F := F)).L lv 3 where
  win := launch7.win.to₀
  block_pos := launch7.block_pos
  stage_whole := launch7.stage_whole
  K := PEmpty
  osem k := k.elim
  ho := Pipeline.OwnSemFacts.none _
  hbody c := (body_obligation7 w g f0 n c).loose
  hwaits c := Pipeline.cellsWaits_intro (Pipeline.pin (pcfgs (F := F)) adm) (pdats7 w g f0 n) none 3 c (R := levAts (K (F := F)).L lv)
    fun x s t => SparseCore.Cfg.mayWait_none (K := K (F := F)) (.dma _) (fun g' => Otc_none c n g') lv hlv
  pre c := tst7 w g n c (f0 c)
  post c := tst7 w g n c (fin7 w g f0 n c)
  X _ := BI.emp
  Y _ := BI.emp
  Z _ := BI.emp
  hentry c := by
    rw [Pipeline.ownSems0_none, Pipeline.arrays_eq (Pipeline.pin (pcfgs (F := F)) adm) (pdats7 w g f0 n) 3 c launch7.arr_whole
      ((pdats7 w g f0 n 3 c).share_full fun _ => rfl), bigSep_W7]
    unfold tst7
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats7 w g f0 n 3 c).Φ 0 = Pipeline.scopedRest spec7 c from rfl]
    iintro ⟨-, -, Hr⟩; iexact Hr
  hout c := by
    rw [Pipeline.ownSems0_none, show (pdats7 w g f0 n 3 c).Φ (Fin.last _) = Pipeline.scopedRest spec7 c from rfl]
    iintro Hr
    isplitr; · iempintro
    isplitr; · iempintro
    iexact Hr
  hexit c := by
    rw [Pipeline.arrays_eq (Pipeline.pin (pcfgs (F := F)) adm) (pdats7 w g f0 n) 3 c launch7.arr_whole
      ((pdats7 w g f0 n 3 c).share_full fun _ => rfl), bigSep_W7]
    unfold tst7
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats7 w g f0 n 3 c).arrAt 0 (Pipeline.pin (pcfgs (F := F)) adm 3).N = w c from arrAt7_0 w g f0 n c _]; iexact H0
    isplitl [H1]; · rw [show (pdats7 w g f0 n 3 c).arrAt 1 (Pipeline.pin (pcfgs (F := F)) adm 3).N = g c from arrAt7_1 w g f0 n c _]; iexact H1
    iexact H2

/-- What the region hands on: the boundary, the TensorCore's handshake state, the arrays with the output at what the
    write-backs leave. -/
def post7 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v16) ↦{fullShare} g d)
    ∗ (((SparseCore.T d : Thread nD τ).loc main_v17) ↦{fullShare} fin7 w g f0 n d))

include hlv in
set_option maxHeartbeats 2000000 in
set_option backward.isDefEq.respectTransparency.types false in
/-- THE REGION inside the program: from the region boundary, the TensorCore's handshake state before call n, the level
    facts, the three arrays whole and pipeline 3's ghost state, the region's call runs to the same with the output
    array at what the ten write-backs leave. -/
theorem region7 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v16) ↦{fullShare} g d)
        ∗ (((SparseCore.T d : Thread nD τ).loc main_v17) ↦{fullShare} f0 d)
        ∗ Pipeline.cellsGhost (Pipeline.pin (pcfgs (F := F)) adm) EP 3 d ∗ Pipeline.toksInit (Pipeline.pin (pcfgs (F := F)) adm) EP 3 d)
      ⊢ wp frame (wpE ((K (F := F)).defs (D (F := F))) 𝒱 (SparseCore.T d : Thread nD τ) none) Set.univ
          (Prog.lift (.customCall (SparseCore.inner (Pipeline.entry (3 : Fin 5))) ()))
          (fun _ => post7 w g f0 n d) := by
  have hreg := Pipeline.RegionSeg.wp (pcfgs (F := F)) adm (pdats7 w g f0 n) none cellOf_inj EP defs₀ 𝒱₀ (K (F := F)).L lv
    (reg7 w g f0 n hlv) d none (fun _ h => by cases h) (α := PUnit) (fun _ => .ret PUnit.unit) (fun _ => post7 w g f0 n d)
  have hlift := (K (F := F)).wp_liftProg (D (F := F)) 𝒱 (SparseCore.T d : Thread nD τ) Set.univ none
    (α := PUnit) (.op (.customCall (Pipeline.entry (3 : Fin 5)) ()) fun _ => .ret PUnit.unit) (fun _ => post7 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post7 SparseCore.Cfg.tcSt
    ihave Hpost' := (show (reg7 w g f0 n hlv).post d ⊢ tst7 w g n d (fin7 w g f0 n d) from .rfl) $$ Hpost
    unfold tst7
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst7 w g n d (f0 d) ⊢ (reg7 w g f0 n hlv).pre d from .rfl)
    unfold tst7
    isplitl [HO]; · iexact HO
    isplitl [H0]; · iexact H0
    isplitl [H1]; · iexact H1
    iexact H2
  isplitr; · iexact Hlev
  isplitl [Hg]; · iexact Hg
  iexact Ht

end Region7

end Cert.KernelIdeal.Hand

end
-- ==== Proof.Region7Value.lean ====
/-
  What region 7 leaves in the output array, in closed form.

  Each point's block of the output is block (30 + t, 0, 0) of ONE whole-array function of the region's arrays: on
  leading slice 30 + t the product of the weight matrix with the transposed block t of the gathered rows. So the
  array ends at that function on leading slices 30 … 39 and at its entry contents elsewhere.
-/
import proofs.«206421_g46840913330738_cont_8to1c4_247_26_alg».proof.Proof.Region7
import proofs.«206421_g46840913330738_cont_8to1c4_247_26_alg».proof.Proof.Region7Defs

set_option maxRecDepth 16384

noncomputable section

namespace Cert.KernelIdeal.Hand

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal7_of_mem (w : Vec F S64x128 .f32) (g : Vec F S163840x128 .f32) (f0 : Vec F S50x64x16384 .f32) (i : S50x64x16384.Idx)
    (h : 30 ≤ (i 0).val ∧ (i 0).val < 40) :
    regionVal7 w g f0 i = k7_pay1 w (gBlock g ⟨(i 0).val - 30, by omega⟩) (toBlk i) := dif_pos h

theorem regionVal7_of_not (w : Vec F S64x128 .f32) (g : Vec F S163840x128 .f32) (f0 : Vec F S50x64x16384 .f32) (i : S50x64x16384.Idx)
    (h : ¬(30 ≤ (i 0).val ∧ (i 0).val < 40)) : regionVal7 w g f0 i = f0 i := dif_neg h

/-! ## The windows' block indices -/

omit [FloatOps F] in
theorem index7_0 : ∀ t : Fin grid7.N, win7_0.index t 0 = 0 ∧ win7_0.index t 1 = 0 := by decide +kernel
omit [FloatOps F] in
theorem index7_1 : ∀ t : Fin grid7.N, win7_1.index t 0 = t.val ∧ win7_1.index t 1 = 0 := by decide +kernel
omit [FloatOps F] in
theorem index7_2 : ∀ t : Fin grid7.N, win7_2.index t 0 = 30 + t.val ∧ win7_2.index t 1 = 0 ∧ win7_2.index t 2 = 0 := by decide +kernel

/-- The grid point that writes leading slice l. -/
def ptAt7 (l : ℕ) (h : 30 ≤ l ∧ l < 40) : Fin cfg7.N := ⟨l - 30, by have e : cfg7.N = 10 := N_7; omega⟩

/-- A point of the grid as a number below ten. -/
def pt7 (t : Fin cfg7.N) : Fin 10 := ⟨t.val, by have h := t.isLt; have e : cfg7.N = 10 := N_7; omega⟩

section Blocks

variable (w : (c : Dev nD) → Buf (Elt F) ((SparseCore.T c : Thread nD τ).loc main_arg2)) (g : (c : Dev nD) → Buf (Elt F) ((SparseCore.T c : Thread nD τ).loc main_v16))
  (f0 : (c : Dev nD) → Buf (Elt F) ((SparseCore.T c : Thread nD τ).loc main_v17)) (n : ℕ)

/-- The weight window's block is the whole matrix at every point. -/
theorem iblk7_0_eq (c : Dev nD) (t : Fin cfg7.N) : iblk7 w g f0 c 0 t = w c := by
  funext y
  show (w c) ((win7_0.rect t).emb y) = (w c) y
  congr 1
  funext a
  apply Fin.ext
  rw [Window.rect_emb_val]
  have h := index7_0 t
  match a with
  | ⟨0, _⟩ => show win7_0.index t 0 * 64 + (y 0).val = (y 0).val; rw [h.1]; omega
  | ⟨1, _⟩ => show win7_0.index t 1 * 128 + (y 1).val = (y 1).val; rw [h.2]; omega

/-- The gathered rows' window holds block t at point t. -/
theorem iblk7_1_eq (c : Dev nD) (t : Fin cfg7.N) : iblk7 w g f0 c 1 t = gBlock (g c) (pt7 t) := by
  funext y
  show (g c) ((win7_1.rect t).emb y) = gBlock (g c) (pt7 t) y
  unfold gBlock
  congr 1
  funext a
  apply Fin.ext
  rw [Window.rect_emb_val]
  have h := index7_1 t
  match a with
  | ⟨0, _⟩ => show win7_1.index t 0 * 16384 + (y 0).val = t.val * 16384 + (y 0).val; rw [h.1]
  | ⟨1, _⟩ => show win7_1.index t 1 * 128 + (y 1).val = (y 1).val; rw [h.2]; omega

/-- The output window's block at point t sits at leading slice 30 + t. -/
theorem emb7_2_zero (t : Fin cfg7.N) (y : S1x64x16384.Idx) : (((win7_2.rect t).emb y) 0).val = 30 + t.val := by
  rw [Window.rect_emb_val]
  show win7_2.index t 0 * 1 + (y 0).val = 30 + t.val
  rw [(index7_2 t).1]
  have : (y 0).val < 1 := (y 0).isLt
  omega

theorem toBlk_emb7_2 (t : Fin cfg7.N) (y : S1x64x16384.Idx) : toBlk ((win7_2.rect t).emb y) = y := by
  funext a
  apply Fin.ext
  have h := index7_2 t
  match a with
  | ⟨0, _⟩ => show 0 = (y 0).val; have : (y 0).val < 1 := (y 0).isLt; omega
  | ⟨1, _⟩ =>
    show (((win7_2.rect t).emb y) 1).val = (y 1).val
    rw [Window.rect_emb_val]; show win7_2.index t 1 * 64 + (y 1).val = (y 1).val; rw [h.2.1]; omega
  | ⟨2, _⟩ =>
    show (((win7_2.rect t).emb y) 2).val = (y 2).val
    rw [Window.rect_emb_val]; show win7_2.index t 2 * 16384 + (y 2).val = (y 2).val; rw [h.2.2]; omega

theorem emb7_2_toBlk (i : S50x64x16384.Idx) (h : 30 ≤ (i 0).val ∧ (i 0).val < 40) :
    (win7_2.rect (ptAt7 (i 0).val h)).emb (toBlk i) = i := by
  funext a
  apply Fin.ext
  rw [Window.rect_emb_val]
  have hx := index7_2 (ptAt7 (i 0).val h)
  match a with
  | ⟨0, _⟩ =>
    show win7_2.index _ 0 * 1 + 0 = (i 0).val
    rw [hx.1]; show (30 + ((i 0).val - 30)) * 1 + 0 = (i 0).val; omega
  | ⟨1, _⟩ => show win7_2.index _ 1 * 64 + (i 1).val = (i 1).val; rw [hx.2.1]; omega
  | ⟨2, _⟩ => show win7_2.index _ 2 * 16384 + (i 2).val = (i 2).val; rw [hx.2.2]; omega

/-- What point t writes back is block t of the whole-array function. -/
theorem flushed7_2 (d : Dev nD) (t : Fin cfg7.N) :
    (dat7 w g f0 n d).flushed 2 t = ((cfg7.win 2).blk t).view.read (Elt F) (regionVal7 (w d) (g d) (f0 d)) := by
  funext y
  show (dat7 w g f0 n d).after 2 t y = regionVal7 (w d) (g d) (f0 d) ((win7_2.rect t).emb y)
  rw [after7_2, out7_eq, iblk7_0_eq, iblk7_1_eq]
  have h0 := emb7_2_zero t y
  have hmem : 30 ≤ (((win7_2.rect t).emb y) 0).val ∧ (((win7_2.rect t).emb y) 0).val < 40 := by
    have ht : t.val < 10 := (pt7 t).isLt
    rw [h0]; exact ⟨by omega, by omega⟩
  rw [regionVal7_of_mem _ _ _ _ hmem]
  have e1 : (⟨(((win7_2.rect t).emb y) 0).val - 30, by omega⟩ : Fin 10) = pt7 t := Fin.ext (by show _ - 30 = t.val; omega)
  rw [e1, toBlk_emb7_2]

/-- THE OUTPUT ARRAY AFTER THE REGION is the whole-array function. -/
theorem fin7_eq (d : Dev nD) : fin7 w g f0 n d = regionVal7 (w d) (g d) (f0 d) := by
  funext i
  unfold fin7
  by_cases h : 30 ≤ (i 0).val ∧ (i 0).val < 40
  · refine (dat7 w g f0 n d).arrAt_apply_of_mem 2 (regionVal7 (w d) (g d) (f0 d)) (fun t _ => flushed7_2 w g f0 n d t) cfg7.N
      (ptAt7 (i 0).val h) i (Fin.isLt _) (flush7_2 _) ?_
    have hm : ((win7_2.rect (ptAt7 (i 0).val h)).emb (toBlk i)
          : ((cfg7.win 2).blk (ptAt7 (i 0).val h)).view.ty.Idx)
        ∈ ((cfg7.win 2).blk (ptAt7 (i 0).val h)).view.set :=
      ((cfg7.win 2).blk (ptAt7 (i 0).val h)).view.emb_mem_set (toBlk i)
    rw [emb7_2_toBlk i h] at hm
    exact hm
  · rw [regionVal7_of_not _ _ _ _ h]
    refine (dat7 w g f0 n d).arrAt_apply_of_forall_not_mem 2 cfg7.N i fun t _ _ hi => h ?_
    obtain ⟨y, rfl⟩ := View.exists_emb_of_mem_set _ hi
    have h0 := emb7_2_zero t y
    have ht : t.val < 10 := (pt7 t).isLt
    show 30 ≤ (((win7_2.rect t).emb y) 0).val ∧ (((win7_2.rect t).emb y) 0).val < 40
    rw [h0]; exact ⟨by omega, by omega⟩

end Blocks

end Cert.KernelIdeal.Hand

end
-- ==== Proof.RegStep7.lean ====
/-
  Matrix-product region 7, as @main's TensorCore meets it. Of all its arrays the region's pipeline works on three:
  the weights, the gathered rows of the call before it, and the output array. The pipeline's run leaves the first two
  as they were and the output with its ten leading slices 30 … 39 written; the TensorCore's other arrays are
  untouched, and what the TensorCore owes the launch's handshakes is the same before and after.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Region7
import proofs.«206421_g46840913330738_cont_8to1c4_247_26_alg».proof.Proof.Region7Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR7 : Finset (DevRef τ sig) := {r main_arg2, r main_v16, r main_v17}
omit [FloatOps F] in
theorem SR7_sub : SR7 ⊆ Sall := by decide

omit [FloatOps F] in
theorem held_SR7 (d : Dev nD) (V : Valuation τ sig (Elt F)) :
    (held (T d) SR7 V : sProp (MM F))
      = iprop(((SparseCore.T d).loc main_arg2 ↦{fullShare} V (r main_arg2)) ∗ ((SparseCore.T d).loc main_v16 ↦{fullShare} V (r main_v16))
          ∗ ((SparseCore.T d).loc main_v17 ↦{fullShare} V (r main_v17))) := by
  unfold held SR7
  rw [SparseCore.bigSep_insert' (by decide), SparseCore.bigSep_insert' (by decide), bigSep_singleton]

theorem held_SR7_after (d : Dev nD) :
    (held (T d) SR7 (W21 m d) : sProp (MM F))
      = iprop(((SparseCore.T d).loc main_arg2 ↦{fullShare} W20 m d (r main_arg2)) ∗ ((SparseCore.T d).loc main_v16 ↦{fullShare} W20 m d (r main_v16))
          ∗ ((SparseCore.T d).loc main_v17 ↦{fullShare} regionVal7 (W20 m d (r main_arg2)) (W20 m d (r main_v16)) (W20 m d (r main_v17)))) := by
  rw [held_SR7]; unfold W21
  rw [Function.update_of_ne (show r main_arg2 ≠ r main_v17 by decide), Function.update_of_ne (show r main_v16 ≠ r main_v17 by decide),
    Function.update_self]

theorem held_restR7_after (d : Dev nD) :
    (held (T d) (Sall \ SR7) (W21 m d) : sProp (MM F)) = held (T d) (Sall \ SR7) (W20 m d) :=
  held_congr _ fun b hb => by
    unfold W21
    exact Function.update_of_ne (fun e => (Finset.mem_sdiff.mp hb).2 (by rw [e]; decide)) _ _

/-- Region 7 on the TensorCore of `d`: all its arrays before, all its arrays after. -/
theorem rstep7 (κ : GSem nD τ sig → ℕ) (d : Dev nD) {Φ : PUnit → sProp (MM F)} :
    iprop((K (F := F)).ctx EH (P m) κ ∗ boundary (SparseCore.T d : Thread nD τ) ∗ (K (F := F)).tcSt EH d 4 ∗ held (T d) Sall (W20 m d)
        ∗ (Pipeline.cellsGhost (nD := nD) (τ := τ) cfgs EP 3 d ∗ Pipeline.toksInit (nD := nD) (τ := τ) cfgs EP 3 d)
        ∗ ((boundary (SparseCore.T d : Thread nD τ) ∗ (K (F := F)).tcSt EH d 4 ∗ held (T d) Sall (W21 m d)) -∗ Φ ⟨⟩))
      ⊢ wp frame (wpE ((K (F := F)).defs (D (F := F))) 𝒱 (SparseCore.T d) none) Set.univ
          (Prog.lift (.customCall (SparseCore.inner (Pipeline.entry (3 : Fin 5))) ())) Φ := by
  rw [held_sub_split (T d) SR7_sub (W20 m d), held_SR7]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post7 (fun c => W20 m c (r main_arg2)) (fun c => W20 m c (r main_v16)) (fun c => W20 m c (r main_v17)) 4 d))
  isplitl [Hb Hst Hw Hg Hf Hcg Htk]
  · iapply (region7 (fun c => W20 m c (r main_arg2)) (fun c => W20 m c (r main_v16)) (fun c => W20 m c (r main_v17)) 4
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post7
  icases Hpost with ⟨Hb, Hst, Hw, Hg, Hf⟩
  rw [fin7_eq]
  iapply HΦ
  isplitl [Hb]; · iexact Hb
  isplitl [Hst]; · iexact Hst
  rw [held_sub_split (T d) SR7_sub (W21 m d), held_SR7_after, held_restR7_after]
  isplitr [Hrest]
  · isplitl [Hw]; · iexact Hw
    isplitl [Hg]; · iexact Hg
    iexact Hf
  iexact Hrest

end Cert.KernelIdeal.Hand

end
-- ==== Proof.Region9.lean ====
/-
  The fifth TensorCore matrix-product region of the program (pipeline 4), as the TensorCore meets it between two
  SparseCore calls. It is the first region's pipeline over the fifth gathered array and the fifth output array: at
  point j it holds the weight matrix, block j of the gathered rows, and writes block (40 + j, 0, 0) of the output
  array; every other entry of the output array keeps what it held. The body is handed the previous output array as
  an operand left in place and never touches it.
-/
import proofs.«206421_g46840913330738_cont_8to1c4_247_26_alg».proof.Proof.Region1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 9 (pipeline 4): the arrays, the blocks, the body -/

section Region9

variable (w : (c : Dev nD) → Buf (Elt F) ((SparseCore.T c : Thread nD τ).loc main_arg2)) (g : (c : Dev nD) → Buf (Elt F) ((SparseCore.T c : Thread nD τ).loc main_v20))
  (f0 : (c : Dev nD) → Buf (Elt F) ((SparseCore.T c : Thread nD τ).loc main_v21))

/-- The three windowed arrays as the region finds them. -/
def arr9 (c : Dev nD) : (x : Fin cfg9.W) → Buf (Elt F) ((cfg9.win x).arr.view.loc (c : Thread nD τ))
  | ⟨0, _⟩ => w c
  | ⟨1, _⟩ => g c
  | ⟨2, _⟩ => f0 c

/-- Window x's block at point t, read off its array. -/
def iblk9 (c : Dev nD) (x : Fin cfg9.W) (t : Fin cfg9.N) : ((cfg9.win x).xblock (cfg9.grid.coords t)).Idx → Elt F (cfg9.win x).elt :=
  ((cfg9.win x).blk t).view.read (Elt F) (arr9 w g f0 c x)

abbrev r9_0 : Rect S64x128 := Rect.unit (s := S64x128) ![0, 0] S64x128.size inb_S64x128_S64x128_0_0
abbrev r9_1 : Rect S16384x128 := Rect.unit (s := S16384x128) ![0, 0] S16384x128.size inb_S16384x128_S16384x128_0_0
abbrev r9_2 : Rect S1x64x16384 := Rect.unit (s := S1x64x16384) ![0, 0, 0] S1x64x16384.size inb_S1x64x16384_S1x64x16384_0_0_0

/-- What the body leaves in the output window's buffer, from the two input blocks: its one store, whole. -/
def out9 (x0 : Vec F S64x128 .f32) (x1 : Vec F S16384x128 .f32) : Vec F S1x64x16384 .f32 :=
  View.canon [⟨r9_2, k9_pay1 (View.ld x0 r9_0) (View.ld x1 r9_1)⟩]

/-- The store covers the buffer. -/
theorem cover9_2 (p0 : Vec F S1x64x16384 .f32) (y : S1x64x16384.Idx) :
    ∃ pc ∈ ([⟨r9_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out9_eq (x0 : Vec F S64x128 .f32) (x1 : Vec F S16384x128 .f32) : out9 x0 x1 = k9_pay1 x0 x1 := by
  unfold out9
  rw [View.canon_unit_zero zero3, View.ld_unit_zero zero2, View.ld_unit_zero zero2]

set_option maxHeartbeats 1000000 in
/-- The body on whole staging memrefs: the inputs' at read contents x0, x1, the output's at anything; it leaves the
    inputs as they were and the output at out9 of them. -/
theorem sound_kernel9 (c : Dev nD) (E : Set ℕ) (i : grid9.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9 x0 x1)) -∗ Kc ⟨⟩))
      ⊢ wp frame (wpE (defs₀ (F := F)) 𝒱₀ c none) E (cc9_body i arg1 harg1 arg2 harg2 argA hargA arg3 harg3) Kc := by
  simp only [cc9_body_eq_skeleton]; unfold cc9_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover9_2 _)

/-! ## The proof data -/

variable (n : ℕ)

/-- The proof data of pipeline 4 on device c between calls: the arrays as found; after the body at point t each
    input's buffer at its block and the output's at out9 of the blocks; the invariant the scoped buffers no window
    stages; the TensorCore owing what it owes before call n, its recorded pairs at or below level 8 n. -/
def dat9 (c : Dev nD) : Dat τ (Elt F) (HIx 5) ℕ UU ℕ cfg9 c where
  A := arr9 w g f0 c
  after x t := match x with
    | ⟨0, _⟩ => iblk9 w g f0 c 0 t
    | ⟨1, _⟩ => iblk9 w g f0 c 1 t
    | ⟨2, _⟩ => out9 (iblk9 w g f0 c 0 t) (iblk9 w g f0 c 1 t)
  Φ _ := Pipeline.scopedRest (Ix := HIx 5) (Name := ℕ) (U := UU) (Lvl := ℕ) (Val := Elt F) spec9 c
  q _ := fullShare
  owed _ := (K (F := F)).Otc c n
  recorded _ := recBelow (F := F) c n

theorem after9_0 (c : Dev nD) (t : Fin cfg9.N) : (dat9 w g f0 n c).after 0 t = iblk9 w g f0 c 0 t := by dsimp only [dat9]
theorem after9_1 (c : Dev nD) (t : Fin cfg9.N) : (dat9 w g f0 n c).after 1 t = iblk9 w g f0 c 1 t := by dsimp only [dat9]
theorem after9_2 (c : Dev nD) (t : Fin cfg9.N) :
    (dat9 w g f0 n c).after 2 t = out9 (iblk9 w g f0 c 0 t) (iblk9 w g f0 c 1 t) := by dsimp only [dat9]

/-- Each input's current staging buffer holds its block at every point, fetched there or not. -/
theorem before9_0 (c : Dev nD) (t : Fin cfg9.N) (d) : (dat9 w g f0 n c).before 0 t d = iblk9 w g f0 c 0 t :=
  ((dat9 w g f0 n c).before_in_eq_fetched 0 rfl (fun _ => rfl) (fun _ _ _ => rfl)
    (fun t => by rw [after9_0]; unfold Dat.blockOf iblk9; rfl) t d).trans
    (by unfold Dat.fetched Dat.blockOf iblk9; rfl)
theorem before9_1 (c : Dev nD) (t : Fin cfg9.N) (d) : (dat9 w g f0 n c).before 1 t d = iblk9 w g f0 c 1 t :=
  ((dat9 w g f0 n c).before_in_eq_fetched 1 rfl (fun _ => rfl) (fun _ _ _ => rfl)
    (fun t => by rw [after9_1]; unfold Dat.blockOf iblk9; rfl) t d).trans
    (by unfold Dat.fetched Dat.blockOf iblk9; rfl)

/-! ## The body obligation, at a generic point -/

def bodyPre9 (c : Dev nD) (t : Fin cfg9.N) : sProp 𝕄 :=
  iprop((dat9 w g f0 n c).Φ t.castSucc ∗ (dat9 w g f0 n c).owesAt none t.castSucc
    ∗ (∃ d, owns (c : Thread nD τ) (st9_0 t) fullShare ((dat9 w g f0 n c).before 0 t d))
    ∗ (∃ d, owns (c : Thread nD τ) (st9_1 t) fullShare ((dat9 w g f0 n c).before 1 t d))
    ∗ (∃ d, owns (c : Thread nD τ) (st9_2 t) fullShare ((dat9 w g f0 n c).before 2 t d)))

def bodyPost9 (c : Dev nD) (t : Fin cfg9.N) : sProp 𝕄 :=
  iprop((dat9 w g f0 n c).Φ t.succ ∗ (dat9 w g f0 n c).owesAt none t.succ
    ∗ owns (c : Thread nD τ) (st9_0 t) fullShare ((dat9 w g f0 n c).after 0 t)
    ∗ owns (c : Thread nD τ) (st9_1 t) fullShare ((dat9 w g f0 n c).after 1 t)
    ∗ owns (c : Thread nD τ) (st9_2 t) fullShare ((dat9 w g f0 n c).after 2 t))

/-- The body at any point: the inputs' memrefs hold their blocks, so the body's triple applies; the invariant and what
    the TensorCore owes pass through unread. -/
theorem sound_body9 (c : Dev nD) (t : Fin cfg9.N) :
    bodyPre9 w g f0 n c t ⊢ wp frame (wpE (defs₀ (F := F)) 𝒱₀ c none) Set.univ (bodyAt9 t) (fun _ => bodyPost9 w g f0 n c t) := by
  unfold bodyPre9 bodyPost9 bodyAt9
  simp only [before9_0, before9_1]
  rw [show (dat9 w g f0 n c).Φ t.succ = (dat9 w g f0 n c).Φ t.castSucc from rfl,
    show (dat9 w g f0 n c).owesAt none t.succ = (dat9 w g f0 n c).owesAt none t.castSucc from rfl,
    after9_0, after9_1, after9_2]
  iintro ⟨HΦ, Ho, ⟨%d0, H0⟩, ⟨%d1, H1⟩, ⟨%d2, H2⟩⟩
  iapply (sound_kernel9 c Set.univ _ _ _ _ _ _ _ _ _ (iblk9 w g f0 c 0 t) (iblk9 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 w g f0 n c) (defs₀ (F := F)) 𝒱₀ none Set.univ := fun t => by
  rw [bigSep_W9, bigSep_W9]
  exact sound_body9 w g f0 n c t

/-! ## The region as a record -/

/-- Every pipeline's proof data as region 1's record sees it: pipeline 4's, and nothing said of the others. -/
def pdats9 : (p : Fin 5) → (c : Dev nD) → Dat τ (Elt F) (HIx 5) ℕ UU ℕ (Pipeline.pin (pcfgs (F := F)) adm p) c
  | ⟨0, _⟩ => fun c => datIdle _ c
  | ⟨1, _⟩ => fun c => datIdle _ c
  | ⟨2, _⟩ => fun c => datIdle _ c
  | ⟨3, _⟩ => fun c => datIdle _ c
  | ⟨4, _⟩ => fun c => dat9 w g f0 n c

/-- The inputs' arrays are never written. -/
theorem arrAt9_0 (c : Dev nD) (k : ℕ) : (dat9 w g f0 n c).arrAt 0 k = w c := (dat9 w g f0 n c).arrAt_in 0 rfl k
theorem arrAt9_1 (c : Dev nD) (k : ℕ) : (dat9 w g f0 n c).arrAt 1 k = g c := (dat9 w g f0 n c).arrAt_in 1 rfl k

/-- The output array after the region: the entry contents overwritten by the ten write-backs. -/
def fin9 (c : Dev nD) : Buf (Elt F) ((SparseCore.T c : Thread nD τ).loc main_v21) := (dat9 w g f0 n c).arrAt 2 cfg9.N

/-- The thread state around the region: what the TensorCore owes before call n with its recorded pairs bounded, and
    the three arrays whole. -/
def tst9 (c : Dev nD) (f : Buf (Elt F) ((SparseCore.T c : Thread nD τ).loc main_v21)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v20) ↦{fullShare} g c) ∗ (((SparseCore.T c : Thread nD τ).loc main_v21) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg9 : Pipeline.RegionSeg (pcfgs (F := F)) adm (pdats9 w g f0 n) none defs₀ 𝒱₀ (K (F := F)).L lv 4 where
  win := launch9.win.to₀
  block_pos := launch9.block_pos
  stage_whole := launch9.stage_whole
  K := PEmpty
  osem k := k.elim
  ho := Pipeline.OwnSemFacts.none _
  hbody c := (body_obligation9 w g f0 n c).loose
  hwaits c := Pipeline.cellsWaits_intro (Pipeline.pin (pcfgs (F := F)) adm) (pdats9 w g f0 n) none 4 c (R := levAts (K (F := F)).L lv)
    fun x s t => SparseCore.Cfg.mayWait_none (K := K (F := F)) (.dma _) (fun g' => Otc_none c n g') lv hlv
  pre c := tst9 w g n c (f0 c)
  post c := tst9 w g n c (fin9 w g f0 n c)
  X _ := BI.emp
  Y _ := BI.emp
  Z _ := BI.emp
  hentry c := by
    rw [Pipeline.ownSems0_none, Pipeline.arrays_eq (Pipeline.pin (pcfgs (F := F)) adm) (pdats9 w g f0 n) 4 c launch9.arr_whole
      ((pdats9 w g f0 n 4 c).share_full fun _ => rfl), bigSep_W9]
    unfold tst9
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats9 w g f0 n 4 c).Φ 0 = Pipeline.scopedRest spec9 c from rfl]
    iintro ⟨-, -, Hr⟩; iexact Hr
  hout c := by
    rw [Pipeline.ownSems0_none, show (pdats9 w g f0 n 4 c).Φ (Fin.last _) = Pipeline.scopedRest spec9 c from rfl]
    iintro Hr
    isplitr; · iempintro
    isplitr; · iempintro
    iexact Hr
  hexit c := by
    rw [Pipeline.arrays_eq (Pipeline.pin (pcfgs (F := F)) adm) (pdats9 w g f0 n) 4 c launch9.arr_whole
      ((pdats9 w g f0 n 4 c).share_full fun _ => rfl), bigSep_W9]
    unfold tst9
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats9 w g f0 n 4 c).arrAt 0 (Pipeline.pin (pcfgs (F := F)) adm 4).N = w c from arrAt9_0 w g f0 n c _]; iexact H0
    isplitl [H1]; · rw [show (pdats9 w g f0 n 4 c).arrAt 1 (Pipeline.pin (pcfgs (F := F)) adm 4).N = g c from arrAt9_1 w g f0 n c _]; iexact H1
    iexact H2

/-- What the region hands on: the boundary, the TensorCore's handshake state, the arrays with the output at what the
    write-backs leave. -/
def post9 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v20) ↦{fullShare} g d)
    ∗ (((SparseCore.T d : Thread nD τ).loc main_v21) ↦{fullShare} fin9 w g f0 n d))

include hlv in
set_option maxHeartbeats 2000000 in
set_option backward.isDefEq.respectTransparency.types false in
/-- THE REGION inside the program: from the region boundary, the TensorCore's handshake state before call n, the level
    facts, the three arrays whole and pipeline 4's ghost state, the region's call runs to the same with the output
    array at what the ten write-backs leave. -/
theorem region9 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v20) ↦{fullShare} g d)
        ∗ (((SparseCore.T d : Thread nD τ).loc main_v21) ↦{fullShare} f0 d)
        ∗ Pipeline.cellsGhost (Pipeline.pin (pcfgs (F := F)) adm) EP 4 d ∗ Pipeline.toksInit (Pipeline.pin (pcfgs (F := F)) adm) EP 4 d)
      ⊢ wp frame (wpE ((K (F := F)).defs (D (F := F))) 𝒱 (SparseCore.T d : Thread nD τ) none) Set.univ
          (Prog.lift (.customCall (SparseCore.inner (Pipeline.entry (4 : Fin 5))) ()))
          (fun _ => post9 w g f0 n d) := by
  have hreg := Pipeline.RegionSeg.wp (pcfgs (F := F)) adm (pdats9 w g f0 n) none cellOf_inj EP defs₀ 𝒱₀ (K (F := F)).L lv
    (reg9 w g f0 n hlv) d none (fun _ h => by cases h) (α := PUnit) (fun _ => .ret PUnit.unit) (fun _ => post9 w g f0 n d)
  have hlift := (K (F := F)).wp_liftProg (D (F := F)) 𝒱 (SparseCore.T d : Thread nD τ) Set.univ none
    (α := PUnit) (.op (.customCall (Pipeline.entry (4 : Fin 5)) ()) fun _ => .ret PUnit.unit) (fun _ => post9 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post9 SparseCore.Cfg.tcSt
    ihave Hpost' := (show (reg9 w g f0 n hlv).post d ⊢ tst9 w g n d (fin9 w g f0 n d) from .rfl) $$ Hpost
    unfold tst9
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst9 w g n d (f0 d) ⊢ (reg9 w g f0 n hlv).pre d from .rfl)
    unfold tst9
    isplitl [HO]; · iexact HO
    isplitl [H0]; · iexact H0
    isplitl [H1]; · iexact H1
    iexact H2
  isplitr; · iexact Hlev
  isplitl [Hg]; · iexact Hg
  iexact Ht

end Region9

end Cert.KernelIdeal.Hand

end
-- ==== Proof.Region9Value.lean ====
/-
  What region 9 leaves in the output array, in closed form.

  Each point's block of the output is block (40 + t, 0, 0) of ONE whole-array function of the region's arrays: on
  leading slice 40 + t the product of the weight matrix with the transposed block t of the gathered rows. So the
  array ends at that function on leading slices 40 … 49 and at its entry contents elsewhere.
-/
import proofs.«206421_g46840913330738_cont_8to1c4_247_26_alg».proof.Proof.Region9
import proofs.«206421_g46840913330738_cont_8to1c4_247_26_alg».proof.Proof.Region9Defs

set_option maxRecDepth 16384

noncomputable section

namespace Cert.KernelIdeal.Hand

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal9_of_mem (w : Vec F S64x128 .f32) (g : Vec F S163840x128 .f32) (f0 : Vec F S50x64x16384 .f32) (i : S50x64x16384.Idx)
    (h : 40 ≤ (i 0).val ∧ (i 0).val < 50) :
    regionVal9 w g f0 i = k9_pay1 w (gBlock g ⟨(i 0).val - 40, by omega⟩) (toBlk i) := dif_pos h

theorem regionVal9_of_not (w : Vec F S64x128 .f32) (g : Vec F S163840x128 .f32) (f0 : Vec F S50x64x16384 .f32) (i : S50x64x16384.Idx)
    (h : ¬(40 ≤ (i 0).val ∧ (i 0).val < 50)) : regionVal9 w g f0 i = f0 i := dif_neg h

/-! ## The windows' block indices -/

omit [FloatOps F] in
theorem index9_0 : ∀ t : Fin grid9.N, win9_0.index t 0 = 0 ∧ win9_0.index t 1 = 0 := by decide +kernel
omit [FloatOps F] in
theorem index9_1 : ∀ t : Fin grid9.N, win9_1.index t 0 = t.val ∧ win9_1.index t 1 = 0 := by decide +kernel
omit [FloatOps F] in
theorem index9_2 : ∀ t : Fin grid9.N, win9_2.index t 0 = 40 + t.val ∧ win9_2.index t 1 = 0 ∧ win9_2.index t 2 = 0 := by decide +kernel

/-- The grid point that writes leading slice l. -/
def ptAt9 (l : ℕ) (h : 40 ≤ l ∧ l < 50) : Fin cfg9.N := ⟨l - 40, by have e : cfg9.N = 10 := N_9; omega⟩

/-- A point of the grid as a number below ten. -/
def pt9 (t : Fin cfg9.N) : Fin 10 := ⟨t.val, by have h := t.isLt; have e : cfg9.N = 10 := N_9; omega⟩

section Blocks

variable (w : (c : Dev nD) → Buf (Elt F) ((SparseCore.T c : Thread nD τ).loc main_arg2)) (g : (c : Dev nD) → Buf (Elt F) ((SparseCore.T c : Thread nD τ).loc main_v20))
  (f0 : (c : Dev nD) → Buf (Elt F) ((SparseCore.T c : Thread nD τ).loc main_v21)) (n : ℕ)

/-- The weight window's block is the whole matrix at every point. -/
theorem iblk9_0_eq (c : Dev nD) (t : Fin cfg9.N) : iblk9 w g f0 c 0 t = w c := by
  funext y
  show (w c) ((win9_0.rect t).emb y) = (w c) y
  congr 1
  funext a
  apply Fin.ext
  rw [Window.rect_emb_val]
  have h := index9_0 t
  match a with
  | ⟨0, _⟩ => show win9_0.index t 0 * 64 + (y 0).val = (y 0).val; rw [h.1]; omega
  | ⟨1, _⟩ => show win9_0.index t 1 * 128 + (y 1).val = (y 1).val; rw [h.2]; omega

/-- The gathered rows' window holds block t at point t. -/
theorem iblk9_1_eq (c : Dev nD) (t : Fin cfg9.N) : iblk9 w g f0 c 1 t = gBlock (g c) (pt9 t) := by
  funext y
  show (g c) ((win9_1.rect t).emb y) = gBlock (g c) (pt9 t) y
  unfold gBlock
  congr 1
  funext a
  apply Fin.ext
  rw [Window.rect_emb_val]
  have h := index9_1 t
  match a with
  | ⟨0, _⟩ => show win9_1.index t 0 * 16384 + (y 0).val = t.val * 16384 + (y 0).val; rw [h.1]
  | ⟨1, _⟩ => show win9_1.index t 1 * 128 + (y 1).val = (y 1).val; rw [h.2]; omega

/-- The output window's block at point t sits at leading slice 40 + t. -/
theorem emb9_2_zero (t : Fin cfg9.N) (y : S1x64x16384.Idx) : (((win9_2.rect t).emb y) 0).val = 40 + t.val := by
  rw [Window.rect_emb_val]
  show win9_2.index t 0 * 1 + (y 0).val = 40 + t.val
  rw [(index9_2 t).1]
  have : (y 0).val < 1 := (y 0).isLt
  omega

theorem toBlk_emb9_2 (t : Fin cfg9.N) (y : S1x64x16384.Idx) : toBlk ((win9_2.rect t).emb y) = y := by
  funext a
  apply Fin.ext
  have h := index9_2 t
  match a with
  | ⟨0, _⟩ => show 0 = (y 0).val; have : (y 0).val < 1 := (y 0).isLt; omega
  | ⟨1, _⟩ =>
    show (((win9_2.rect t).emb y) 1).val = (y 1).val
    rw [Window.rect_emb_val]; show win9_2.index t 1 * 64 + (y 1).val = (y 1).val; rw [h.2.1]; omega
  | ⟨2, _⟩ =>
    show (((win9_2.rect t).emb y) 2).val = (y 2).val
    rw [Window.rect_emb_val]; show win9_2.index t 2 * 16384 + (y 2).val = (y 2).val; rw [h.2.2]; omega

theorem emb9_2_toBlk (i : S50x64x16384.Idx) (h : 40 ≤ (i 0).val ∧ (i 0).val < 50) :
    (win9_2.rect (ptAt9 (i 0).val h)).emb (toBlk i) = i := by
  funext a
  apply Fin.ext
  rw [Window.rect_emb_val]
  have hx := index9_2 (ptAt9 (i 0).val h)
  match a with
  | ⟨0, _⟩ =>
    show win9_2.index _ 0 * 1 + 0 = (i 0).val
    rw [hx.1]; show (40 + ((i 0).val - 40)) * 1 + 0 = (i 0).val; omega
  | ⟨1, _⟩ => show win9_2.index _ 1 * 64 + (i 1).val = (i 1).val; rw [hx.2.1]; omega
  | ⟨2, _⟩ => show win9_2.index _ 2 * 16384 + (i 2).val = (i 2).val; rw [hx.2.2]; omega

/-- What point t writes back is block t of the whole-array function. -/
theorem flushed9_2 (d : Dev nD) (t : Fin cfg9.N) :
    (dat9 w g f0 n d).flushed 2 t = ((cfg9.win 2).blk t).view.read (Elt F) (regionVal9 (w d) (g d) (f0 d)) := by
  funext y
  show (dat9 w g f0 n d).after 2 t y = regionVal9 (w d) (g d) (f0 d) ((win9_2.rect t).emb y)
  rw [after9_2, out9_eq, iblk9_0_eq, iblk9_1_eq]
  have h0 := emb9_2_zero t y
  have hmem : 40 ≤ (((win9_2.rect t).emb y) 0).val ∧ (((win9_2.rect t).emb y) 0).val < 50 := by
    have ht : t.val < 10 := (pt9 t).isLt
    rw [h0]; exact ⟨by omega, by omega⟩
  rw [regionVal9_of_mem _ _ _ _ hmem]
  have e1 : (⟨(((win9_2.rect t).emb y) 0).val - 40, by omega⟩ : Fin 10) = pt9 t := Fin.ext (by show _ - 40 = t.val; omega)
  rw [e1, toBlk_emb9_2]

/-- THE OUTPUT ARRAY AFTER THE REGION is the whole-array function. -/
theorem fin9_eq (d : Dev nD) : fin9 w g f0 n d = regionVal9 (w d) (g d) (f0 d) := by
  funext i
  unfold fin9
  by_cases h : 40 ≤ (i 0).val ∧ (i 0).val < 50
  · refine (dat9 w g f0 n d).arrAt_apply_of_mem 2 (regionVal9 (w d) (g d) (f0 d)) (fun t _ => flushed9_2 w g f0 n d t) cfg9.N
      (ptAt9 (i 0).val h) i (Fin.isLt _) (flush9_2 _) ?_
    have hm : ((win9_2.rect (ptAt9 (i 0).val h)).emb (toBlk i)
          : ((cfg9.win 2).blk (ptAt9 (i 0).val h)).view.ty.Idx)
        ∈ ((cfg9.win 2).blk (ptAt9 (i 0).val h)).view.set :=
      ((cfg9.win 2).blk (ptAt9 (i 0).val h)).view.emb_mem_set (toBlk i)
    rw [emb9_2_toBlk i h] at hm
    exact hm
  · rw [regionVal9_of_not _ _ _ _ h]
    refine (dat9 w g f0 n d).arrAt_apply_of_forall_not_mem 2 cfg9.N i fun t _ _ hi => h ?_
    obtain ⟨y, rfl⟩ := View.exists_emb_of_mem_set _ hi
    have h0 := emb9_2_zero t y
    have ht : t.val < 10 := (pt9 t).isLt
    show 40 ≤ (((win9_2.rect t).emb y) 0).val ∧ (((win9_2.rect t).emb y) 0).val < 50
    rw [h0]; exact ⟨by omega, by omega⟩

end Blocks

end Cert.KernelIdeal.Hand

end
-- ==== Proof.RegStep9.lean ====
/-
  Matrix-product region 9, as @main's TensorCore meets it. Of all its arrays the region's pipeline works on three:
  the weights, the gathered rows of the call before it, and the output array. The pipeline's run leaves the first two
  as they were and the output with its ten leading slices 40 … 49 written; the TensorCore's other arrays are
  untouched, and what the TensorCore owes the launch's handshakes is the same before and after.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Region9
import proofs.«206421_g46840913330738_cont_8to1c4_247_26_alg».proof.Proof.Region9Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR9 : Finset (DevRef τ sig) := {r main_arg2, r main_v20, r main_v21}
omit [FloatOps F] in
theorem SR9_sub : SR9 ⊆ Sall := by decide

omit [FloatOps F] in
theorem held_SR9 (d : Dev nD) (V : Valuation τ sig (Elt F)) :
    (held (T d) SR9 V : sProp (MM F))
      = iprop(((SparseCore.T d).loc main_arg2 ↦{fullShare} V (r main_arg2)) ∗ ((SparseCore.T d).loc main_v20 ↦{fullShare} V (r main_v20))
          ∗ ((SparseCore.T d).loc main_v21 ↦{fullShare} V (r main_v21))) := by
  unfold held SR9
  rw [SparseCore.bigSep_insert' (by decide), SparseCore.bigSep_insert' (by decide), bigSep_singleton]

theorem held_SR9_after (d : Dev nD) :
    (held (T d) SR9 (W26 m d) : sProp (MM F))
      = iprop(((SparseCore.T d).loc main_arg2 ↦{fullShare} W25 m d (r main_arg2)) ∗ ((SparseCore.T d).loc main_v20 ↦{fullShare} W25 m d (r main_v20))
          ∗ ((SparseCore.T d).loc main_v21 ↦{fullShare} regionVal9 (W25 m d (r main_arg2)) (W25 m d (r main_v20)) (W25 m d (r main_v21)))) := by
  rw [held_SR9]; unfold W26
  rw [Function.update_of_ne (show r main_arg2 ≠ r main_v21 by decide), Function.update_of_ne (show r main_v20 ≠ r main_v21 by decide),
    Function.update_self]

theorem held_restR9_after (d : Dev nD) :
    (held (T d) (Sall \ SR9) (W26 m d) : sProp (MM F)) = held (T d) (Sall \ SR9) (W25 m d) :=
  held_congr _ fun b hb => by
    unfold W26
    exact Function.update_of_ne (fun e => (Finset.mem_sdiff.mp hb).2 (by rw [e]; decide)) _ _

/-- Region 9 on the TensorCore of `d`: all its arrays before, all its arrays after. -/
theorem rstep9 (κ : GSem nD τ sig → ℕ) (d : Dev nD) {Φ : PUnit → sProp (MM F)} :
    iprop((K (F := F)).ctx EH (P m) κ ∗ boundary (SparseCore.T d : Thread nD τ) ∗ (K (F := F)).tcSt EH d 5 ∗ held (T d) Sall (W25 m d)
        ∗ (Pipeline.cellsGhost (nD := nD) (τ := τ) cfgs EP 4 d ∗ Pipeline.toksInit (nD := nD) (τ := τ) cfgs EP 4 d)
        ∗ ((boundary (SparseCore.T d : Thread nD τ) ∗ (K (F := F)).tcSt EH d 5 ∗ held (T d) Sall (W26 m d)) -∗ Φ ⟨⟩))
      ⊢ wp frame (wpE ((K (F := F)).defs (D (F := F))) 𝒱 (SparseCore.T d) none) Set.univ
          (Prog.lift (.customCall (SparseCore.inner (Pipeline.entry (4 : Fin 5))) ())) Φ := by
  rw [held_sub_split (T d) SR9_sub (W25 m d), held_SR9]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post9 (fun c => W25 m c (r main_arg2)) (fun c => W25 m c (r main_v20)) (fun c => W25 m c (r main_v21)) 5 d))
  isplitl [Hb Hst Hw Hg Hf Hcg Htk]
  · iapply (region9 (fun c => W25 m c (r main_arg2)) (fun c => W25 m c (r main_v20)) (fun c => W25 m c (r main_v21)) 5
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post9
  icases Hpost with ⟨Hb, Hst, Hw, Hg, Hf⟩
  rw [fin9_eq]
  iapply HΦ
  isplitl [Hb]; · iexact Hb
  isplitl [Hst]; · iexact Hst
  rw [held_sub_split (T d) SR9_sub (W26 m d), held_SR9_after, held_restR9_after]
  isplitr [Hrest]
  · isplitl [Hw]; · iexact Hw
    isplitl [Hg]; · iexact Hg
    iexact Hf
  iexact Hrest

end Cert.KernelIdeal.Hand

end
-- ==== Proof.MainRun.lean ====
/-
  @main on the TensorCore, from what the launch deals it to what the claim reads. All the TensorCore's arrays are
  held together at one valuation; a host operation moves the valuation by the operation's function; a gather call
  hands three of the arrays to the SparseCores and takes them back with the gathered rows; a matrix-product region
  runs its pipeline over three of them and leaves its rows of the output written. After the last step the arguments
  hold their launch contents and the result holds the last valuation's.
-/
import proofs.«206421_g46840913330738_cont_8to1c4_247_26_alg».proof.Proof.Base
import proofs.«206421_g46840913330738_cont_8to1c4_247_26_alg».proof.Proof.End
import proofs.«206421_g46840913330738_cont_8to1c4_247_26_alg».proof.Proof.LaunchElem
import proofs.«206421_g46840913330738_cont_8to1c4_247_26_alg».proof.Proof.CallStep0
import proofs.«206421_g46840913330738_cont_8to1c4_247_26_alg».proof.Proof.CallStep2
import proofs.«206421_g46840913330738_cont_8to1c4_247_26_alg».proof.Proof.CallStep4
import proofs.«206421_g46840913330738_cont_8to1c4_247_26_alg».proof.Proof.CallStep6
import proofs.«206421_g46840913330738_cont_8to1c4_247_26_alg».proof.Proof.CallStep8
import proofs.«206421_g46840913330738_cont_8to1c4_247_26_alg».proof.Proof.RegStep1
import proofs.«206421_g46840913330738_cont_8to1c4_247_26_alg».proof.Proof.RegStep3
import proofs.«206421_g46840913330738_cont_8to1c4_247_26_alg».proof.Proof.RegStep5
import proofs.«206421_g46840913330738_cont_8to1c4_247_26_alg».proof.Proof.RegStep7
import proofs.«206421_g46840913330738_cont_8to1c4_247_26_alg».proof.Proof.RegStep9

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (ρ : Dev nD → PrngReg) [FloatOps F]

/-- The five regions' ghost state, one by one. -/
theorem G_eq (d : Dev nD) :
    (G (F := F) d) = iprop(
      (Pipeline.cellsGhost (nD := nD) (τ := τ) cfgs EP 0 d ∗ Pipeline.toksInit (nD := nD) (τ := τ) cfgs EP 0 d)
      ∗ (Pipeline.cellsGhost (nD := nD) (τ := τ) cfgs EP 1 d ∗ Pipeline.toksInit (nD := nD) (τ := τ) cfgs EP 1 d)
      ∗ (Pipeline.cellsGhost (nD := nD) (τ := τ) cfgs EP 2 d ∗ Pipeline.toksInit (nD := nD) (τ := τ) cfgs EP 2 d)
      ∗ (Pipeline.cellsGhost (nD := nD) (τ := τ) cfgs EP 3 d ∗ Pipeline.toksInit (nD := nD) (τ := τ) cfgs EP 3 d)
      ∗ (Pipeline.cellsGhost (nD := nD) (τ := τ) cfgs EP 4 d ∗ Pipeline.toksInit (nD := nD) (τ := τ) cfgs EP 4 d)) := by
  unfold G
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m d) := by
  unfold SparseCore.Cfg.tcRes
  rw [unscoped_held, G_eq]
  simp only [main, wp_bind, wp_pure]
  iintro ⟨#Hctx, Hst, ⟨Hb, Hheld, -, -⟩, HG0, HG1, HG2, HG3, HG4⟩
  -- step 0: a host operation
  iapply (wp_hlo_within 𝒱 (SparseCore.T d) none Set.univ (op := op0) (S := Sall) op0_sub (V := W0 m d)) $$ [Hb Hheld]
  · isplitl [Hb]; · iexact Hb
    iexact Hheld
  iintro ⟨Hb, Hheld⟩
  rw [wp_ret]; imodintro
  -- step 1: a host operation
  iapply (wp_hlo_within 𝒱 (SparseCore.T d) none Set.univ (op := op1) (S := Sall) op1_sub (V := W1 m d)) $$ [Hb Hheld]
  · isplitl [Hb]; · iexact Hb
    iexact Hheld
  iintro ⟨Hb, Hheld⟩
  rw [wp_ret]; imodintro
  -- step 2: a host operation
  iapply (wp_hlo_within 𝒱 (SparseCore.T d) none Set.univ (op := op2) (S := Sall) op2_sub (V := W2 m d)) $$ [Hb Hheld]
  · isplitl [Hb]; · iexact Hb
    iexact Hheld
  iintro ⟨Hb, Hheld⟩
  rw [wp_ret]; imodintro
  -- step 3: a host operation
  iapply (wp_hlo_within 𝒱 (SparseCore.T d) none Set.univ (op := op3) (S := Sall) op3_sub (V := W3 m d)) $$ [Hb Hheld]
  · isplitl [Hb]; · iexact Hb
    iexact Hheld
  iintro ⟨Hb, Hheld⟩
  rw [wp_ret]; imodintro
  -- step 4: gather call 0
  iapply (call0 m κ d)
  isplitr; · iexact Hctx
  isplitl [Hst]; · iexact Hst
  isplitl [Hheld]; · iexact Hheld
  iintro ⟨Hst, Hheld⟩
  -- step 5: matrix-product region 0
  iapply (rstep1 m κ d)
  isplitr; · iexact Hctx
  isplitl [Hb]; · iexact Hb
  isplitl [Hst]; · iexact Hst
  isplitl [Hheld]; · iexact Hheld
  isplitl [HG0]; · iexact HG0
  iintro ⟨Hb, Hst, Hheld⟩
  -- step 6: a host operation
  iapply (wp_hlo_within 𝒱 (SparseCore.T d) none Set.univ (op := op6) (S := Sall) op6_sub (V := W6 m d)) $$ [Hb Hheld]
  · isplitl [Hb]; · iexact Hb
    iexact Hheld
  iintro ⟨Hb, Hheld⟩
  rw [wp_ret]; imodintro
  -- step 7: a host operation
  iapply (wp_hlo_within 𝒱 (SparseCore.T d) none Set.univ (op := op7) (S := Sall) op7_sub (V := W7 m d)) $$ [Hb Hheld]
  · isplitl [Hb]; · iexact Hb
    iexact Hheld
  iintro ⟨Hb, Hheld⟩
  rw [wp_ret]; imodintro
  -- step 8: gather call 1
  iapply (call2 m κ d)
  isplitr; · iexact Hctx
  isplitl [Hst]; · iexact Hst
  isplitl [Hheld]; · iexact Hheld
  iintro ⟨Hst, Hheld⟩
  -- step 9: a host operation
  iapply (wp_hlo_within 𝒱 (SparseCore.T d) none Set.univ (op := op9) (S := Sall) op9_sub (V := W9 m d)) $$ [Hb Hheld]
  · isplitl [Hb]; · iexact Hb
    iexact Hheld
  iintro ⟨Hb, Hheld⟩
  rw [wp_ret]; imodintro
  -- step 10: matrix-product region 1
  iapply (rstep3 m κ d)
  isplitr; · iexact Hctx
  isplitl [Hb]; · iexact Hb
  isplitl [Hst]; · iexact Hst
  isplitl [Hheld]; · iexact Hheld
  isplitl [HG1]; · iexact HG1
  iintro ⟨Hb, Hst, Hheld⟩
  -- step 11: a host operation
  iapply (wp_hlo_within 𝒱 (SparseCore.T d) none Set.univ (op := op11) (S := Sall) op11_sub (V := W11 m d)) $$ [Hb Hheld]
  · isplitl [Hb]; · iexact Hb
    iexact Hheld
  iintro ⟨Hb, Hheld⟩
  rw [wp_ret]; imodintro
  -- step 12: a host operation
  iapply (wp_hlo_within 𝒱 (SparseCore.T d) none Set.univ (op := op12) (S := Sall) op12_sub (V := W12 m d)) $$ [Hb Hheld]
  · isplitl [Hb]; · iexact Hb
    iexact Hheld
  iintro ⟨Hb, Hheld⟩
  rw [wp_ret]; imodintro
  -- step 13: gather call 2
  iapply (call4 m κ d)
  isplitr; · iexact Hctx
  isplitl [Hst]; · iexact Hst
  isplitl [Hheld]; · iexact Hheld
  iintro ⟨Hst, Hheld⟩
  -- step 14: a host operation
  iapply (wp_hlo_within 𝒱 (SparseCore.T d) none Set.univ (op := op14) (S := Sall) op14_sub (V := W14 m d)) $$ [Hb Hheld]
  · isplitl [Hb]; · iexact Hb
    iexact Hheld
  iintro ⟨Hb, Hheld⟩
  rw [wp_ret]; imodintro
  -- step 15: matrix-product region 2
  iapply (rstep5 m κ d)
  isplitr; · iexact Hctx
  isplitl [Hb]; · iexact Hb
  isplitl [Hst]; · iexact Hst
  isplitl [Hheld]; · iexact Hheld
  isplitl [HG2]; · iexact HG2
  iintro ⟨Hb, Hst, Hheld⟩
  -- step 16: a host operation
  iapply (wp_hlo_within 𝒱 (SparseCore.T d) none Set.univ (op := op16) (S := Sall) op16_sub (V := W16 m d)) $$ [Hb Hheld]
  · isplitl [Hb]; · iexact Hb
    iexact Hheld
  iintro ⟨Hb, Hheld⟩
  rw [wp_ret]; imodintro
  -- step 17: a host operation
  iapply (wp_hlo_within 𝒱 (SparseCore.T d) none Set.univ (op := op17) (S := Sall) op17_sub (V := W17 m d)) $$ [Hb Hheld]
  · isplitl [Hb]; · iexact Hb
    iexact Hheld
  iintro ⟨Hb, Hheld⟩
  rw [wp_ret]; imodintro
  -- step 18: gather call 3
  iapply (call6 m κ d)
  isplitr; · iexact Hctx
  isplitl [Hst]; · iexact Hst
  isplitl [Hheld]; · iexact Hheld
  iintro ⟨Hst, Hheld⟩
  -- step 19: a host operation
  iapply (wp_hlo_within 𝒱 (SparseCore.T d) none Set.univ (op := op19) (S := Sall) op19_sub (V := W19 m d)) $$ [Hb Hheld]
  · isplitl [Hb]; · iexact Hb
    iexact Hheld
  iintro ⟨Hb, Hheld⟩
  rw [wp_ret]; imodintro
  -- step 20: matrix-product region 3
  iapply (rstep7 m κ d)
  isplitr; · iexact Hctx
  isplitl [Hb]; · iexact Hb
  isplitl [Hst]; · iexact Hst
  isplitl [Hheld]; · iexact Hheld
  isplitl [HG3]; · iexact HG3
  iintro ⟨Hb, Hst, Hheld⟩
  -- step 21: a host operation
  iapply (wp_hlo_within 𝒱 (SparseCore.T d) none Set.univ (op := op21) (S := Sall) op21_sub (V := W21 m d)) $$ [Hb Hheld]
  · isplitl [Hb]; · iexact Hb
    iexact Hheld
  iintro ⟨Hb, Hheld⟩
  rw [wp_ret]; imodintro
  -- step 22: a host operation
  iapply (wp_hlo_within 𝒱 (SparseCore.T d) none Set.univ (op := op22) (S := Sall) op22_sub (V := W22 m d)) $$ [Hb Hheld]
  · isplitl [Hb]; · iexact Hb
    iexact Hheld
  iintro ⟨Hb, Hheld⟩
  rw [wp_ret]; imodintro
  -- step 23: gather call 4
  iapply (call8 m κ d)
  isplitr; · iexact Hctx
  isplitl [Hst]; · iexact Hst
  isplitl [Hheld]; · iexact Hheld
  iintro ⟨Hst, Hheld⟩
  -- step 24: a host operation
  iapply (wp_hlo_within 𝒱 (SparseCore.T d) none Set.univ (op := op24) (S := Sall) op24_sub (V := W24 m d)) $$ [Hb Hheld]
  · isplitl [Hb]; · iexact Hb
    iexact Hheld
  iintro ⟨Hb, Hheld⟩
  rw [wp_ret]; imodintro
  -- step 25: matrix-product region 4
  iapply (rstep9 m κ d)
  isplitr; · iexact Hctx
  isplitl [Hb]; · iexact Hb
  isplitl [Hst]; · iexact Hst
  isplitl [Hheld]; · iexact Hheld
  isplitl [HG4]; · iexact HG4
  iintro ⟨Hb, Hst, Hheld⟩
  -- step 26: a host operation
  iapply (wp_hlo_within 𝒱 (SparseCore.T d) none Set.univ (op := op26) (S := Sall) op26_sub (V := W26 m d)) $$ [Hb Hheld]
  · isplitl [Hb]; · iexact Hb
    iexact Hheld
  iintro ⟨Hb, Hheld⟩
  rw [wp_ret]; imodintro
  -- the end: the handshake state after five calls, and what the claim reads
  imodintro
  isplitl [Hst]; · iexact Hst
  iapply (held_FIN m d); iexact Hheld

end Cert.KernelIdeal.Hand

end
-- ==== Proof.Tile0a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.Tile0Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt (d : Dev nD) (L : grid0.Coords) : Thread nD τ := V d (cV L) (jV L)

abbrev tabW : Memref sig .scVector .hbm S1000000x128 .f32 := Memref.whole main_arg1_scv
abbrev idxW : Memref sig .scVector .hbm S32x40x128 .i32 := Memref.whole main_v3_scv
abbrev outW : Memref sig .scVector .hbm S163840x128 .f32 := Memref.whole main_v4_scv
abbrev listW : Memref sig .scVector .vmem S40x128 .i32 := Memref.whole cc0_scratch0
abbrev ringW : Memref sig .scVector .vmem S5x128x128 .f32 := Memref.whole cc0_scratch1
/-- The table as every gather names it: the slice that is all of it. -/
abbrev tabS : Memref sig .scVector .hbm S1000000x128 .f32 :=
  tabW.slice (Rect.unit (s := S1000000x128) ![0, 0] S1000000x128.size inb_S1000000x128_S1000000x128_0_0) (fun _ => rfl)
/-- The subcore's block of the index array, as the block copy names it. -/
abbrev idxBlkM (L : grid0.Coords) : Memref sig .scVector .hbm S40x128 .i32 :=
  (idxW.slice (Rect.unit (s := S32x40x128) (k0_off1 L) S1x40x128.size (k0_off1_inb L)) (fun _ => rfl)).squeeze S40x128 squeezes_S1x40x128_S40x128
/-- The five slots of the ring. -/
abbrev slot0M : Memref sig .scVector .vmem S128x128 .f32 :=
  (ringW.slice (Rect.unit (s := S5x128x128) ![0, 0, 0] S1x128x128.size inb_S5x128x128_S1x128x128_0_0_0) (fun _ => rfl)).squeeze S128x128 squeezes_S1x128x128_S128x128
abbrev slot1M : Memref sig .scVector .vmem S128x128 .f32 :=
  (ringW.slice (Rect.unit (s := S5x128x128) ![1, 0, 0] S1x128x128.size inb_S5x128x128_S1x128x128_1_0_0) (fun _ => rfl)).squeeze S128x128 squeezes_S1x128x128_S128x128
abbrev slot2M : Memref sig .scVector .vmem S128x128 .f32 :=
  (ringW.slice (Rect.unit (s := S5x128x128) ![2, 0, 0] S1x128x128.size inb_S5x128x128_S1x128x128_2_0_0) (fun _ => rfl)).squeeze S128x128 squeezes_S1x128x128_S128x128
abbrev slot3M : Memref sig .scVector .vmem S128x128 .f32 :=
  (ringW.slice (Rect.unit (s := S5x128x128) ![3, 0, 0] S1x128x128.size inb_S5x128x128_S1x128x128_3_0_0) (fun _ => rfl)).squeeze S128x128 squeezes_S1x128x128_S128x128
abbrev slot4M : Memref sig .scVector .vmem S128x128 .f32 :=
  (ringW.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM (o : Fin 2 → ℕ) (h : ∀ a, o a + S1x128.size a ≤ S40x128.size a) : Memref sig .scVector .vmem S128 .i32 :=
  (listW.slice (Rect.unit (s := S40x128) o S1x128.size h) (fun _ => rfl)).squeeze S128 squeezes_S1x128_S128

theorem rowInb (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0 (g : ℕ) (h : g < 8) : ∀ a, (![5 * g + 0, 0] : Fin 2 → ℕ) a + S1x128.size a ≤ S40x128.size a := rowInb (5 * g + 0) (by omega)
theorem rowInb1 (g : ℕ) (h : g < 8) : ∀ a, (![5 * g + 1, 0] : Fin 2 → ℕ) a + S1x128.size a ≤ S40x128.size a := rowInb (5 * g + 1) (by omega)
theorem rowInb2 (g : ℕ) (h : g < 8) : ∀ a, (![5 * g + 2, 0] : Fin 2 → ℕ) a + S1x128.size a ≤ S40x128.size a := rowInb (5 * g + 2) (by omega)
theorem rowInb3 (g : ℕ) (h : g < 8) : ∀ a, (![5 * g + 3, 0] : Fin 2 → ℕ) a + S1x128.size a ≤ S40x128.size a := rowInb (5 * g + 3) (by omega)
theorem rowInb4 (g : ℕ) (h : g < 8) : ∀ a, (![5 * g + 4, 0] : Fin 2 → ℕ) a + S1x128.size a ≤ S40x128.size a := rowInb (5 * g + 4) (by omega)

theorem rowM_congr {o o' : Fin 2 → ℕ} (e : o = o') (h : ∀ a, o a + S1x128.size a ≤ S40x128.size a)
    (h' : ∀ a, o' a + S1x128.size a ≤ S40x128.size a) : rowM o h = rowM o' h' := by
  subst e; rfl

/-- The subcore's rows of the gathered array as a rectangle in the grid coordinates themselves. -/
theorem outWinR_inb (L : grid0.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR (L : grid0.Coords) : Rect S163840x128 :=
  Rect.unit (s := S163840x128) ![10240 * (L 1).val + 5120 * (L 0).val, 0] ![5120, 128] (outWinR_inb L)

theorem outWinR_eq (L : grid0.Coords) : outWinR L = outRect0 L :=
  Rect.unit_congr (by unfold wid; rw [show 5120 * (2 * (L 1).val + (L 0).val) = 10240 * (L 1).val + 5120 * (L 0).val by omega]) _ _

/-! ## The trips' offsets and conditions in closed form -/

theorem off4 (k : Fin k0_t1_loop.trips) : k0_off4 k = ![5 * (k.val + 1) + 0, 0] :=
  (k0_off4_eq k).trans (by rw [show 5 * (k.val + 1) + 0 = 5 * k.val + 5 by omega])
theorem off5 (k : Fin k0_t1_loop.trips) : k0_off5 k = ![5 * (k.val + 1) + 1, 0] :=
  (k0_off5_eq k).trans (by rw [show 5 * (k.val + 1) + 1 = 5 * k.val + 6 by omega])
theorem off6 (k : Fin k0_t1_loop.trips) : k0_off6 k = ![5 * (k.val + 1) + 2, 0] :=
  (k0_off6_eq k).trans (by rw [show 5 * (k.val + 1) + 2 = 5 * k.val + 7 by omega])
theorem off7 (k : Fin k0_t1_loop.trips) : k0_off7 k = ![5 * (k.val + 1) + 3, 0] :=
  (k0_off7_eq k).trans (by rw [show 5 * (k.val + 1) + 3 = 5 * k.val + 8 by omega])
theorem off8 (k : Fin k0_t1_loop.trips) : k0_off8 k = ![5 * (k.val + 1) + 4, 0] :=
  (k0_off8_eq k).trans (by rw [show 5 * (k.val + 1) + 4 = 5 * k.val + 9 by omega])

theorem conds_lt : ∀ k : Fin k0_t1_loop.trips, k.val < 7 →
    k0_cond1 k = 1#1 ∧ k0_cond2 k = 1#1 ∧ k0_cond3 k = 1#1 ∧ k0_cond4 k = 1#1 ∧ k0_cond5 k = 1#1 := by decide +kernel
theorem conds_last : ∀ k : Fin k0_t1_loop.trips, ¬ k.val < 7 →
    ¬ k0_cond1 k = 1#1 ∧ ¬ k0_cond2 k = 1#1 ∧ ¬ k0_cond3 k = 1#1 ∧ ¬ k0_cond4 k = 1#1 ∧ ¬ k0_cond5 k = 1#1 := by decide +kernel
theorem trips_eq : k0_t1_loop.trips = 8 := by decide +kernel

/-! ## The words of the list scratch are words of the block -/

theorem list_words (d : Dev nD) (L : grid0.Coords) (I : Buf (Elt F) ((idxBlkM L).view.loc (Vt d L)))
    (g0 : Buf (Elt F) (listW.view.loc (Vt d L)))
    (hI : ∀ z ∈ (idxBlkM L).view.set, BitVec.toNat (I z) < 1000000)
    (o : Fin 2 → ℕ) (h : ∀ a, o a + S1x128.size a ≤ S40x128.size a) (x : S128.Idx) :
    BitVec.toNat (View.read (Elt F) (rowM o h).view
      (View.write (Elt F) listW.view g0 (ReadAs.same.apply (View.read (Elt F) (idxBlkM L).view I)) Finset.univ) x) < 1000000 := by
  rw [View.read_apply]
  have e : (rowM o h).view.emb x = listW.view.emb ((rowM o h).view.emb x) := rfl
  rw [e, View.write_emb_of_mem _ _ (Finset.mem_univ _)]
  simp only [cast_cast, cast_eq]
  show BitVec.toNat (View.read (Elt F) (idxBlkM L).view I _) < 1000000
  rw [View.read_apply]
  simp only [cast_eq]
  exact hI _ (View.emb_mem_set _ _)

theorem set_idxBlkM (d : Dev nD) (L : grid0.Coords) : (idxBlkM L).view.set = idxRows0 d L := by
  show ((idxW.view.slice (Rect.unit (s := S32x40x128) (k0_off1 L) S1x40x128.size (k0_off1_inb L))).reshape S40x128 _).set = _
  rw [View.set_reshape]
  exact View.set_slice_whole _ _

/-! ## What lands -/

/-- The list scratch after the block of indices is copied into it. -/
abbrev listFill (d : Dev nD) (L : grid0.Coords) (I : Buf (Elt F) ((idxBlkM L).view.loc (Vt d L)))
    (g0 : Buf (Elt F) (listW.view.loc (Vt d L))) : Buf (Elt F) (listW.view.loc (Vt d L)) :=
  View.write (Elt F) listW.view g0 (ReadAs.same.apply (View.read (Elt F) (idxBlkM L).view I)) Finset.univ

/-- What the gather over the list row at offsets o lands in its slot: at row j of the slot, the table row the j-th
    word of that list row names. -/
abbrev landed (d : Dev nD) (L : grid0.Coords) (tab : Buf (Elt F) (tabW.view.loc (Vt d L)))
    (fl : Buf (Elt F) (listW.view.loc (Vt d L))) (o : Fin 2 → ℕ) (h : ∀ a, o a + S1x128.size a ≤ S40x128.size a)
    (hin : ∀ x : S128.Idx, BitVec.toNat (View.read (Elt F) (rowM o h).view fl x) < 1000000) : S128x128.Idx → Elt F .f32 :=
  SparseCore.gatherPayload gathers_S1000000x128_S128x128 (View.read (Elt F) tabS.view tab)
    (SparseCore.rows (View.read (Elt F) (rowM o h).view fl) rfl hin)

variable [FloatOps F]

/-! ## What the loop keeps -/

/-- The subcore owes what it owed, its waits recorded beyond W all at the launch's index. -/
def owesW (d : Dev nD) (L : grid0.Coords) (O : CellTallies nD τ sig (HIx 5)) (W : Waits sig (HIx 5)) : sProp (MM F) :=
  iprop(∃ W', ⌜∀ p ∈ W', p ∈ W ∨ p.2 = none⌝ ∗ owes (Vt d L) O W')

theorem owesW_intro {d : Dev nD} {L : grid0.Coords} {O : CellTallies nD τ sig (HIx 5)} {W W' : Waits sig (HIx 5)}
    (h : ∀ p ∈ W', p ∈ W ∨ p.2 = none) : (owes (Vt d L) O W' : sProp (MM F)) ⊢ owesW d L O W := by
  unfold owesW
  iintro H
  iexists W'
  isplitr
  · ipureintro; exact h
  · iexact H

theorem owesW_elim {d : Dev nD} {L : grid0.Coords} {O : CellTallies nD τ sig (HIx 5)} {W : Waits sig (HIx 5)} :
    (owesW d L O W : sProp (MM F)) ⊢ iprop(∃ W', ⌜∀ p ∈ W', p ∈ W ∨ p.2 = none⌝ ∗ owes (Vt d L) O W') := by
  unfold owesW; exact .rfl

theorem ins_none {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr (d : Dev nD) (L : grid0.Coords) {o o' : Fin 2 → ℕ} (e : o = o')
    (h : ∀ a, o a + S1x128.size a ≤ S40x128.size a) (h' : ∀ a, o' a + S1x128.size a ≤ S40x128.size a) :
    ((rowM o h).view.set : Finset (Idx (listW.view.loc (Vt d L)))) = (rowM o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0 (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L))) (g : ℕ) (_ : PUnit) : sProp (MM F) :=
  iprop(Transfers.MayWaits (Vt d L) (default : HIx 5) O
    ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
    ∗ owesW d L O W
    ∗ (∃ f : Buf (Elt F) (outW.view.loc (Vt d L)), outW.view.loc (Vt d L) ↦[outW.view.setOn (outWinR L).set]{fullShare} f)
    ∗ (if h : g < 8 then
        iprop(((∃ s : Buf (Elt F) (slot0M.view.loc (Vt d L)),
            Transfers.Flight countersEmb (Vt d L) (SemLoc.dma cc0_scratch2.sem) (default : HIx 5) 524288
              iprop(((slot0M.view.loc (Vt d L) ↦[slot0M.view.set]{fullShare} s)
                  ∗ (listW.view.loc (Vt d L) ↦[(rowM ![5 * g + 0, 0] (rowInb0 g h)).view.set]{fullShare} fl))
                ∗ (tabW.view.loc (Vt d L) ↦[tabS.view.set]{Transfers.shareTok q 80 cc0_scratch2.sem} tab))
            ∗ (slot0M.view.loc (Vt d L) ↦[slot0M.view.set \ slot0M.view.set]{fullShare} s))
          ∗ (tabW.view.loc (Vt d L) ↦[Finset.univ \ tabS.view.set]{Transfers.shareTok q 80 cc0_scratch2.sem} tab))
          ∗ ((∃ s : Buf (Elt F) (slot1M.view.loc (Vt d L)),
            Transfers.Flight countersEmb (Vt d L) (SemLoc.dma cc0_scratch3.sem) (default : HIx 5) 524288
              iprop(((slot1M.view.loc (Vt d L) ↦[slot1M.view.set]{fullShare} s)
                  ∗ (listW.view.loc (Vt d L) ↦[(rowM ![5 * g + 1, 0] (rowInb1 g h)).view.set]{fullShare} fl))
                ∗ (tabW.view.loc (Vt d L) ↦[tabS.view.set]{Transfers.shareTok q 80 cc0_scratch3.sem} tab))
            ∗ (slot1M.view.loc (Vt d L) ↦[slot1M.view.set \ slot1M.view.set]{fullShare} s))
          ∗ (tabW.view.loc (Vt d L) ↦[Finset.univ \ tabS.view.set]{Transfers.shareTok q 80 cc0_scratch3.sem} tab))
          ∗ ((∃ s : Buf (Elt F) (slot2M.view.loc (Vt d L)),
            Transfers.Flight countersEmb (Vt d L) (SemLoc.dma cc0_scratch4.sem) (default : HIx 5) 524288
              iprop(((slot2M.view.loc (Vt d L) ↦[slot2M.view.set]{fullShare} s)
                  ∗ (listW.view.loc (Vt d L) ↦[(rowM ![5 * g + 2, 0] (rowInb2 g h)).view.set]{fullShare} fl))
                ∗ (tabW.view.loc (Vt d L) ↦[tabS.view.set]{Transfers.shareTok q 80 cc0_scratch4.sem} tab))
            ∗ (slot2M.view.loc (Vt d L) ↦[slot2M.view.set \ slot2M.view.set]{fullShare} s))
          ∗ (tabW.view.loc (Vt d L) ↦[Finset.univ \ tabS.view.set]{Transfers.shareTok q 80 cc0_scratch4.sem} tab))
          ∗ ((∃ s : Buf (Elt F) (slot3M.view.loc (Vt d L)),
            Transfers.Flight countersEmb (Vt d L) (SemLoc.dma cc0_scratch5.sem) (default : HIx 5) 524288
              iprop(((slot3M.view.loc (Vt d L) ↦[slot3M.view.set]{fullShare} s)
                  ∗ (listW.view.loc (Vt d L) ↦[(rowM ![5 * g + 3, 0] (rowInb3 g h)).view.set]{fullShare} fl))
                ∗ (tabW.view.loc (Vt d L) ↦[tabS.view.set]{Transfers.shareTok q 80 cc0_scratch5.sem} tab))
            ∗ (slot3M.view.loc (Vt d L) ↦[slot3M.view.set \ slot3M.view.set]{fullShare} s))
          ∗ (tabW.view.loc (Vt d L) ↦[Finset.univ \ tabS.view.set]{Transfers.shareTok q 80 cc0_scratch5.sem} tab))
          ∗ ((∃ s : Buf (Elt F) (slot4M.view.loc (Vt d L)),
            Transfers.Flight countersEmb (Vt d L) (SemLoc.dma cc0_scratch6.sem) (default : HIx 5) 524288
              iprop(((slot4M.view.loc (Vt d L) ↦[slot4M.view.set]{fullShare} s)
                  ∗ (listW.view.loc (Vt d L) ↦[(rowM ![5 * g + 4, 0] (rowInb4 g h)).view.set]{fullShare} fl))
                ∗ (tabW.view.loc (Vt d L) ↦[tabS.view.set]{Transfers.shareTok q 80 cc0_scratch6.sem} tab))
            ∗ (slot4M.view.loc (Vt d L) ↦[slot4M.view.set \ slot4M.view.set]{fullShare} s))
          ∗ (tabW.view.loc (Vt d L) ↦[Finset.univ \ tabS.view.set]{Transfers.shareTok q 80 cc0_scratch6.sem} tab))
          ∗ (listW.view.loc (Vt d L) ↦[((((Finset.univ \ (rowM ![5 * g + 0, 0] (rowInb0 g h)).view.set) \ (rowM ![5 * g + 1, 0] (rowInb1 g h)).view.set)
              \ (rowM ![5 * g + 2, 0] (rowInb2 g h)).view.set) \ (rowM ![5 * g + 3, 0] (rowInb3 g h)).view.set) \ (rowM ![5 * g + 4, 0] (rowInb4 g h)).view.set]{fullShare} fl))
      else
        iprop(((tabW.view.loc (Vt d L) ↦{Transfers.shareTok q 80 cc0_scratch2.sem} tab) ∗ semVal (Vt d L, SemLoc.dma cc0_scratch2.sem) 0
          ∗ (∃ s : Buf (Elt F) (slot0M.view.loc (Vt d L)), slot0M.view.loc (Vt d L) ↦[slot0M.view.set]{fullShare} s))
          ∗ ((tabW.view.loc (Vt d L) ↦{Transfers.shareTok q 80 cc0_scratch3.sem} tab) ∗ semVal (Vt d L, SemLoc.dma cc0_scratch3.sem) 0
          ∗ (∃ s : Buf (Elt F) (slot1M.view.loc (Vt d L)), slot1M.view.loc (Vt d L) ↦[slot1M.view.set]{fullShare} s))
          ∗ ((tabW.view.loc (Vt d L) ↦{Transfers.shareTok q 80 cc0_scratch4.sem} tab) ∗ semVal (Vt d L, SemLoc.dma cc0_scratch4.sem) 0
          ∗ (∃ s : Buf (Elt F) (slot2M.view.loc (Vt d L)), slot2M.view.loc (Vt d L) ↦[slot2M.view.set]{fullShare} s))
          ∗ ((tabW.view.loc (Vt d L) ↦{Transfers.shareTok q 80 cc0_scratch5.sem} tab) ∗ semVal (Vt d L, SemLoc.dma cc0_scratch5.sem) 0
          ∗ (∃ s : Buf (Elt F) (slot3M.view.loc (Vt d L)), slot3M.view.loc (Vt d L) ↦[slot3M.view.set]{fullShare} s))
          ∗ ((tabW.view.loc (Vt d L) ↦{Transfers.shareTok q 80 cc0_scratch6.sem} tab) ∗ semVal (Vt d L, SemLoc.dma cc0_scratch6.sem) 0
          ∗ (∃ s : Buf (Elt F) (slot4M.view.loc (Vt d L)), slot4M.view.loc (Vt d L) ↦[slot4M.view.set]{fullShare} s))
          ∗ (listW.view.loc (Vt d L) ↦{fullShare} fl))))

/-! ## One trip -/

set_option maxHeartbeats 4000000 in
theorem trip0 (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L)))
    (hin : ∀ (o : Fin 2 → ℕ) (h : ∀ a, o a + S1x128.size a ≤ S40x128.size a) (x : S128.Idx),
      BitVec.toNat (View.read (Elt F) (rowM o h).view fl x) < 1000000)
    (v2 : BitVec 32) (k : Fin k0_t1_loop.trips) (acc : PUnit) :
    inv0 d L q O W tab fl k.val acc
      ⊢ wp frame (wpE (defs₀ (F := F)) 𝒱₀ (Vt d L) none) Set.univ
          (k0_t1_body L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0 v2 k acc)
          (inv0 d L q O W tab fl (k.val + 1)) := by
  have hk8 : k.val < 8 := trips_eq ▸ k.isLt
  unfold inv0
  rw [dif_pos hk8]
  by_cases hk : k.val < 7
  · obtain ⟨hc1, hc2, hc3, hc4, hc5⟩ := conds_lt k hk
    rw [dif_pos (show k.val + 1 < 8 by omega)]
    unfold k0_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    rw [rowSet_congr d L (off4 k) (k0_off4_inb k hc1) (rowInb0 (k.val + 1) (by omega)), rowSet_congr d L (off5 k) (k0_off5_inb k hc2) (rowInb1 (k.val + 1) (by omega)),
      rowSet_congr d L (off6 k) (k0_off6_inb k hc3) (rowInb2 (k.val + 1) (by omega)), rowSet_congr d L (off7 k) (k0_off7_inb k hc4) (rowInb3 (k.val + 1) (by omega)),
      rowSet_congr d L (off8 k) (k0_off8_inb k hc5) (rowInb4 (k.val + 1) (by omega))]
    ihave HO' := (owesW_intro (W := W) (ins_none (ins_none (ins_none (ins_none (ins_none (ins_none (ins_none (ins_none (ins_none (ins_none hW' _) _) _) _) _) _) _) _) _) _)) $$ HO
    sl_close
  · obtain ⟨hc1, hc2, hc3, hc4, hc5⟩ := conds_last k hk
    rw [dif_neg (show ¬ k.val + 1 < 8 by omega)]
    unfold k0_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    ihave HO' := (owesW_intro (W := W) (ins_none (ins_none (ins_none (ins_none (ins_none (ins_none (ins_none (ins_none (ins_none (ins_none hW' _) _) _) _) _) _) _) _) _) _)) $$ HO
    sl_close

end Cert.KernelIdeal.Hand

end
-- ==== Proof.Tile0.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.Tile0a

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0 (d : Dev nD) (L : grid0.Coords) (q : PosShare TreeShare) (O : CellTallies nD τ sig (HIx 5)) (W : Waits sig (HIx 5))
    (tab : Buf (Elt F) (tabW.view.loc (Vt d L))) (I : Buf (Elt F) ((idxBlkM L).view.loc (Vt d L)))
    (hI : ∀ z ∈ (idxBlkM L).view.set, BitVec.toNat (I z) < 1000000)
    (g0 : Buf (Elt F) (listW.view.loc (Vt d L))) (r : Buf (Elt F) (ringW.view.loc (Vt d L)))
    (f : Buf (Elt F) (outW.view.loc (Vt d L))) :
    (iprop(Transfers.MayWaits (Vt d L) (default : HIx 5) O
        ∗ (tabW.view.loc (Vt d L) ↦{Transfers.shareTok q 80 cc0_scratch2.sem} tab)
        ∗ (tabW.view.loc (Vt d L) ↦{Transfers.shareTok q 80 cc0_scratch3.sem} tab)
        ∗ (tabW.view.loc (Vt d L) ↦{Transfers.shareTok q 80 cc0_scratch4.sem} tab)
        ∗ (tabW.view.loc (Vt d L) ↦{Transfers.shareTok q 80 cc0_scratch5.sem} tab)
        ∗ (tabW.view.loc (Vt d L) ↦{Transfers.shareTok q 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok q 80 cc0_scratch2.sem} tab)
            ∗ (tabW.view.loc (Vt d L) ↦{Transfers.shareTok q 80 cc0_scratch3.sem} tab)
            ∗ (tabW.view.loc (Vt d L) ↦{Transfers.shareTok q 80 cc0_scratch4.sem} tab)
            ∗ (tabW.view.loc (Vt d L) ↦{Transfers.shareTok q 80 cc0_scratch5.sem} tab)
            ∗ (tabW.view.loc (Vt d L) ↦{Transfers.shareTok q 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ (∃ f' : Buf (Elt F) (outW.view.loc (Vt d L)), outW.view.loc (Vt d L) ↦[outW.view.setOn (outWinR L).set]{fullShare} f')) := by
  have hin := list_words d L I g0 hI
  rw [cc0_gather_k_eq_skeleton]; unfold cc0_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0 d L q O W tab (View.write (Elt F) listW.view g0 (ReadAs.same.apply (View.read (Elt F) (idxBlkM L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0 d L q O W tab _ hin _ k acc
  · unfold inv0
    rw [dif_pos (show 0 < 8 by decide)]
    ihave HO' := (owesW_intro (W := W) (ins_none (fun p hp => Or.inl hp) _)) $$ HO
    sl_close
  iintro %acc HI
  unfold inv0
  rw [dif_neg (show ¬ k0_t1_loop.trips < 8 by rw [trips_eq]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.KernelIdeal.Hand

end
-- ==== Proof.Tile0Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.Tile0a
import proofs.«206421_g46840913330738_cont_8to1c4_247_26_alg».proof.Proof.Tile0

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0 : Fin 11 → DmaSem sig :=
  ![cc0_scratch2.sem, cc0_scratch3.sem, cc0_scratch4.sem, cc0_scratch5.sem, cc0_scratch6.sem, cc0_scratch7.sem,
    cc0_scratch8.sem, cc0_scratch9.sem, cc0_scratch10.sem, cc0_scratch11.sem, cc0_scoped0.sem]

theorem sems0_inj : Function.Injective sems0 := by decide

/-- The k-th of them on the subcore at (c, i) of device d. -/
abbrev dcell0 (d : Dev nD) (c : Fin τ.nSC) (i : Fin τ.nSub) (k : Fin 11) : GSem nD τ sig := (V d c i, .dma (sems0 k))

theorem dcell0_mem (d : Dev nD) (c : Fin τ.nSC) (i : Fin τ.nSub) (k : Fin 11) : dcell0 d c i k ∈ ownCells (V d c i) :=
  mem_ownCells.mpr ⟨rfl, (show ∀ s : DmaSem sig, (SemLoc.dma s : SemLoc sig).isScoped .scVector = true by decide) _⟩

/-- The eleven cells, each at zero. -/
def cells0 (d : Dev nD) (L : grid0.Coords) : sProp (MM F) :=
  iprop(semVal (Vt d L, SemLoc.dma cc0_scratch2.sem) 0 ∗ semVal (Vt d L, SemLoc.dma cc0_scratch3.sem) 0
    ∗ semVal (Vt d L, SemLoc.dma cc0_scratch4.sem) 0 ∗ semVal (Vt d L, SemLoc.dma cc0_scratch5.sem) 0
    ∗ semVal (Vt d L, SemLoc.dma cc0_scratch6.sem) 0 ∗ semVal (Vt d L, SemLoc.dma cc0_scratch7.sem) 0
    ∗ semVal (Vt d L, SemLoc.dma cc0_scratch8.sem) 0 ∗ semVal (Vt d L, SemLoc.dma cc0_scratch9.sem) 0
    ∗ semVal (Vt d L, SemLoc.dma cc0_scratch10.sem) 0 ∗ semVal (Vt d L, SemLoc.dma cc0_scratch11.sem) 0
    ∗ semVal (Vt d L, SemLoc.dma cc0_scoped0.sem) 0)

/-- The subcore's own cells at zero: the eleven the kernel function names, and the rest. -/
theorem ownSems0_V0 (d : Dev nD) (L : grid0.Coords) :
    (ownSems0 (Vt d L) : sProp (MM F))
      = iprop(cells0 d L ∗ bigSep ((ownCells (Vt d L)) \ Finset.univ.image (dcell0 d (cV L) (jV L))) fun g => semVal g 0) := by
  unfold SparseCore.Cfg.ownSems0
  rw [SparseCore.bigSep_sdiff_split' (t := Finset.univ.image (dcell0 d (cV L) (jV L)))
      (Finset.image_subset_iff.mpr fun k _ => dcell0_mem d (cV L) (jV L) k),
    SparseCore.bigSep_image_of_injOn (fun a _ b _ h => sems0_inj (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0 (d : Dev nD) (L : grid0.Coords) :
    (ownBufs (Vt d L) : sProp (MM F))
      = iprop((∃ f, (Vt d L).loc cc0_scratch0 ↦{fullShare} f) ∗ (∃ f, (Vt d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The dealt pieces in the body's spelling -/

theorem pts_idx0 (d : Dev nD) (L : grid0.Coords) (I : Buf (Elt F) (idxLoc d)) :
    ((idxBlkM L).view.loc (Vt d L) ↦[(idxBlkM L).view.set]{fullShare} I : sProp (MM F)) = idxLoc d ↦[idxRows0 d L]{fullShare} I := by
  rw [set_idxBlkM d L]

theorem setOn_out0 (d : Dev nD) (L : grid0.Coords) :
    (outW.view.setOn (outWinR L).set : Finset (Idx (outW.view.loc (Vt d L)))) = outRows0 d L := by
  show Finset.map (Function.Embedding.refl _) (outWinR L).set = _
  rw [Finset.map_refl, outWinR_eq]; rfl

theorem pts_out0 (d : Dev nD) (L : grid0.Coords) (f : Buf (Elt F) (outLoc d)) :
    (outW.view.loc (Vt d L) ↦[outW.view.setOn (outWinR L).set]{fullShare} f : sProp (MM F)) = outLoc d ↦[outRows0 d L]{fullShare} f := by
  rw [setOn_out0 d L]

/-- The read tokens of the table other than the five gather cells'. -/
abbrev otherToks0 : Finset (Fin 80) :=
  ((((Finset.univ.erase cc0_scratch2.sem).erase cc0_scratch3.sem).erase cc0_scratch4.sem).erase cc0_scratch5.sem).erase cc0_scratch6.sem

/-- The subcore's read share of the table as one read token per cell: the five gather cells', and the remainder with
    the other cells' tokens. -/
theorem tabToks0 (d : Dev nD) (L : grid0.Coords) (q : PosShare TreeShare) (tab : Buf (Elt F) (tabLoc d)) :
    (tabLoc d ↦[Finset.univ]{q} tab : sProp (MM F)) ⊣⊢ iprop((tabLoc d ↦[Finset.univ]{Transfers.shareDrop q 80} tab)
      ∗ (tabW.view.loc (Vt d L) ↦{Transfers.shareTok q 80 cc0_scratch2.sem} tab)
      ∗ (tabW.view.loc (Vt d L) ↦{Transfers.shareTok q 80 cc0_scratch3.sem} tab)
      ∗ (tabW.view.loc (Vt d L) ↦{Transfers.shareTok q 80 cc0_scratch4.sem} tab)
      ∗ (tabW.view.loc (Vt d L) ↦{Transfers.shareTok q 80 cc0_scratch5.sem} tab)
      ∗ (tabW.view.loc (Vt d L) ↦{Transfers.shareTok q 80 cc0_scratch6.sem} tab)
      ∗ bigSep otherToks0 fun i => (tabLoc d ↦[Finset.univ]{Transfers.shareTok q 80 i} tab : sProp (MM F))) := by
  have h := Transfers.pointsTo_toks (Ix := HIx 5) (Name := ℕ) (U := UU) (Lvl := ℕ) (ℓ := tabLoc d) (S := Finset.univ) (f := tab) q 80
  rw [SparseCore.bigSep_erase' (Finset.mem_univ (cc0_scratch2.sem : Fin 80)),
    SparseCore.bigSep_erase' (Finset.mem_erase.mpr ⟨(by decide : (cc0_scratch3.sem : Fin 80) ≠ cc0_scratch2.sem), Finset.mem_univ _⟩),
    SparseCore.bigSep_erase' (Finset.mem_erase.mpr ⟨(by decide : (cc0_scratch4.sem : Fin 80) ≠ cc0_scratch3.sem),
      Finset.mem_erase.mpr ⟨(by decide : (cc0_scratch4.sem : Fin 80) ≠ cc0_scratch2.sem), Finset.mem_univ _⟩⟩),
    SparseCore.bigSep_erase' (Finset.mem_erase.mpr ⟨(by decide : (cc0_scratch5.sem : Fin 80) ≠ cc0_scratch4.sem),
      Finset.mem_erase.mpr ⟨(by decide : (cc0_scratch5.sem : Fin 80) ≠ cc0_scratch3.sem),
        Finset.mem_erase.mpr ⟨(by decide : (cc0_scratch5.sem : Fin 80) ≠ cc0_scratch2.sem), Finset.mem_univ _⟩⟩⟩),
    SparseCore.bigSep_erase' (Finset.mem_erase.mpr ⟨(by decide : (cc0_scratch6.sem : Fin 80) ≠ cc0_scratch5.sem),
      Finset.mem_erase.mpr ⟨(by decide : (cc0_scratch6.sem : Fin 80) ≠ cc0_scratch4.sem),
        Finset.mem_erase.mpr ⟨(by decide : (cc0_scratch6.sem : Fin 80) ≠ cc0_scratch3.sem),
          Finset.mem_erase.mpr ⟨(by decide : (cc0_scratch6.sem : Fin 80) ≠ cc0_scratch2.sem), Finset.mem_univ _⟩⟩⟩⟩)] at h
  exact h

/-! ## The ring scratch as its five slots -/

theorem unit_congr2 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr {κ : Kind} {sp : Space} {s : Shape} {e : EltTy} (v : View sig κ sp s e) {R R' : Rect s} (h : R = R') :
    (v.slice R).set = (v.slice R').set := by
  subst h; rfl

/-- Row k of the ring along its leading axis. -/
abbrev ringRow (d : Dev nD) (L : grid0.Coords) (k : Fin 5) : Finset (Idx (ringW.view.loc (Vt d L))) :=
  ((View.whole cc0_scratch1 : View sig .scVector .vmem S5x128x128 .f32).slice (S5x128x128.rowRect 0 k)).set

theorem slot0_set (d : Dev nD) (L : grid0.Coords) : (slot0M.view.set : Finset (Idx (ringW.view.loc (Vt d L)))) = ringRow d L 0 := by
  show (((View.whole cc0_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot1_set (d : Dev nD) (L : grid0.Coords) : (slot1M.view.set : Finset (Idx (ringW.view.loc (Vt d L)))) = ringRow d L 1 := by
  show (((View.whole cc0_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot2_set (d : Dev nD) (L : grid0.Coords) : (slot2M.view.set : Finset (Idx (ringW.view.loc (Vt d L)))) = ringRow d L 2 := by
  show (((View.whole cc0_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot3_set (d : Dev nD) (L : grid0.Coords) : (slot3M.view.set : Finset (Idx (ringW.view.loc (Vt d L)))) = ringRow d L 3 := by
  show (((View.whole cc0_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot4_set (d : Dev nD) (L : grid0.Coords) : (slot4M.view.set : Finset (Idx (ringW.view.loc (Vt d L)))) = ringRow d L 4 := by
  show (((View.whole cc0_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)

/-- Five functions on the ring's rows, over the five rows, as the five slots each at its own function. -/
theorem ring_rows0 (d : Dev nD) (L : grid0.Coords) (s : Fin 5 → Buf (Elt F) (ringW.view.loc (Vt d L))) :
    (bigSep (Finset.univ : Finset (Fin 5)) fun k => (ringW.view.loc (Vt d L) ↦[ringRow d L k]{fullShare} s k : sProp (MM F)))
      = iprop((slot0M.view.loc (Vt d L) ↦[slot0M.view.set]{fullShare} s 0)
        ∗ (slot1M.view.loc (Vt d L) ↦[slot1M.view.set]{fullShare} s 1)
        ∗ (slot2M.view.loc (Vt d L) ↦[slot2M.view.set]{fullShare} s 2)
        ∗ (slot3M.view.loc (Vt d L) ↦[slot3M.view.set]{fullShare} s 3)
        ∗ (slot4M.view.loc (Vt d L) ↦[slot4M.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set d L, slot1_set d L, slot2_set d L, slot3_set d L, slot4_set d L]

/-- The ring whole at one function is its five slots at that function. -/
theorem ring_split0 (d : Dev nD) (L : grid0.Coords) (r : Buf (Elt F) (ringW.view.loc (Vt d L))) :
    ((Vt d L).loc cc0_scratch1 ↦{fullShare} r : sProp (MM F))
      = iprop((slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)) := by
  rw [← ring_rows0 d L (fun _ => r)]
  have h := pointsTo_rows (Ix := HIx 5) (Name := ℕ) (U := UU) (Lvl := ℕ) (Val := Elt F) (Vt d L)
    (View.whole cc0_scratch1 : View sig .scVector .vmem S5x128x128 .f32) 0 fullShare r
  rw [View.set_whole] at h
  exact h

/-- The five slots, each at some function, are the ring whole at some function. -/
theorem ring_join0 (d : Dev nD) (L : grid0.Coords) (s : Fin 5 → Buf (Elt F) (ringW.view.loc (Vt d L))) :
    iprop((slot0M.view.loc (Vt d L) ↦[slot0M.view.set]{fullShare} s 0)
        ∗ (slot1M.view.loc (Vt d L) ↦[slot1M.view.set]{fullShare} s 1)
        ∗ (slot2M.view.loc (Vt d L) ↦[slot2M.view.set]{fullShare} s 2)
        ∗ (slot3M.view.loc (Vt d L) ↦[slot3M.view.set]{fullShare} s 3)
        ∗ (slot4M.view.loc (Vt d L) ↦[slot4M.view.set]{fullShare} s 4))
      ⊢ (iprop(∃ f, (Vt d L).loc cc0_scratch1 ↦{fullShare} f) : sProp (MM F)) := by
  rw [← ring_rows0 d L s]
  refine (pointsTo_biUnion_join (Ix := HIx 5) (Name := ℕ) (U := UU) (Lvl := ℕ) (ℓ := ringW.view.loc (Vt d L)) (q := fullShare)
    Finset.univ (fun k : Fin 5 => ringRow d L k) s (s 0)
    (fun k _ k' _ h => (View.whole cc0_scratch1 : View sig .scVector .vmem S5x128x128 .f32).disjoint_rows 0 h)).trans ?_
  iintro ⟨%g, -, H⟩
  iexists g
  have e : (Finset.univ : Finset (Fin 5)).biUnion (fun k => ringRow d L k) = (Finset.univ : Finset (Idx (ringW.view.loc (Vt d L)))) := by
    rw [← View.set_whole (cc0_scratch1 : Ref sig .scVector)]
    exact ((View.whole cc0_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0 (d : Dev nD) (L : grid0.Coords) (tab : Buf (Elt F) (tabLoc d)) (I : Buf (Elt F) (idxLoc d))
    (f : Buf (Elt F) (outLoc d)) (hF : (K (F := F)).Facts) (hI : ∀ x ∈ idxRows0 d L, BitVec.toNat (I x) < 1000000)
    (O : CellTallies nD τ sig (HIx 5)) (W : Waits sig (HIx 5)) (hO : ∀ g, O g none = 0) (outP outQ : sProp (MM F))
    (hrun : ∀ (g0 : Buf (Elt F) (listW.view.loc (Vt d L))) (r : Buf (Elt F) (ringW.view.loc (Vt d L))),
      (iprop(Transfers.MayWaits (Vt d L) (default : HIx 5) O
        ∗ (tabW.view.loc (Vt d L) ↦{Transfers.shareTok (Transfers.shareTok fullShare 32 ⟨wid L, wid_lt L⟩) 80 cc0_scratch2.sem} tab)
        ∗ (tabW.view.loc (Vt d L) ↦{Transfers.shareTok (Transfers.shareTok fullShare 32 ⟨wid L, wid_lt L⟩) 80 cc0_scratch3.sem} tab)
        ∗ (tabW.view.loc (Vt d L) ↦{Transfers.shareTok (Transfers.shareTok fullShare 32 ⟨wid L, wid_lt L⟩) 80 cc0_scratch4.sem} tab)
        ∗ (tabW.view.loc (Vt d L) ↦{Transfers.shareTok (Transfers.shareTok fullShare 32 ⟨wid L, wid_lt L⟩) 80 cc0_scratch5.sem} tab)
        ∗ (tabW.view.loc (Vt d L) ↦{Transfers.shareTok (Transfers.shareTok fullShare 32 ⟨wid L, wid_lt L⟩) 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok (Transfers.shareTok fullShare 32 ⟨wid L, wid_lt L⟩) 80 cc0_scratch2.sem} tab)
            ∗ (tabW.view.loc (Vt d L) ↦{Transfers.shareTok (Transfers.shareTok fullShare 32 ⟨wid L, wid_lt L⟩) 80 cc0_scratch3.sem} tab)
            ∗ (tabW.view.loc (Vt d L) ↦{Transfers.shareTok (Transfers.shareTok fullShare 32 ⟨wid L, wid_lt L⟩) 80 cc0_scratch4.sem} tab)
            ∗ (tabW.view.loc (Vt d L) ↦{Transfers.shareTok (Transfers.shareTok fullShare 32 ⟨wid L, wid_lt L⟩) 80 cc0_scratch5.sem} tab)
            ∗ (tabW.view.loc (Vt d L) ↦{Transfers.shareTok (Transfers.shareTok fullShare 32 ⟨wid L, wid_lt L⟩) 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ outP))
    (hclose : outP ⊢ outQ) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(((tabLoc d ↦[Finset.univ]{Transfers.shareTok fullShare 32 ⟨wid L, wid_lt L⟩} tab)
              ∗ (idxLoc d ↦[idxRows0 d L]{fullShare} I) ∗ outQ)
            ∗ scopedBufs (Vt d L) ∗ scopedSems0 (Vt d L)
            ∗ ∃ W', ⌜∀ p ∈ W', p ∈ W ∨ p.2 = none⌝ ∗ owes (Vt d L) O W') := by
  rw [(K (F := F)).scopedBufs_V hF d (cV L) (jV L), SparseCore.Cfg.scopedSems0_V (Val := Elt F) d (cV L) (jV L), ownSems0_V0, ownBufs_V0]
  unfold goRes0 cells0
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt d L) hO) $$ Hlv
  ihave Htoks := (tabToks0 (F := F) d L (Transfers.shareTok fullShare 32 ⟨wid L, wid_lt L⟩) tab).1 $$ Htab
  icases Htoks with ⟨Hdrop, Ht0, Ht1, Ht2, Ht3, Ht4, Hother⟩
  ihave Hidx' := (Entails.of_eq (pts_idx0 (F := F) d L I).symm) $$ Hidx
  ihave Hout' := (Entails.of_eq (pts_out0 (F := F) d L f).symm) $$ Hout
  ihave Hring := (Entails.of_eq (ring_split0 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt d L) none) Set.univ
    (R := iprop((tabLoc d ↦[Finset.univ]{Transfers.shareDrop (Transfers.shareTok fullShare 32 ⟨wid L, wid_lt L⟩) 80} tab)
      ∗ (bigSep otherToks0 fun i => (tabLoc d ↦[Finset.univ]{Transfers.shareTok (Transfers.shareTok fullShare 32 ⟨wid L, wid_lt L⟩) 80 i} tab : sProp (MM F)))
      ∗ (bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
      ∗ (bigSep ((ownCells (Vt d L)) \ Finset.univ.image (dcell0 d (cV L) (jV L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0 (F := F) d L (Transfers.shareTok fullShare 32 ⟨wid L, wid_lt L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim $$ HOw
  ihave Hq := hclose $$ Hout
  isplitl [Htab Hidx Hq]
  · isplitl [Htab]; · iexact Htab
    isplitl [Hidx]; · iapply (Entails.of_eq (pts_idx0 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0 (d : Dev nD) (L : grid0.Coords) :
    (iprop(∃ f' : Buf (Elt F) (outW.view.loc (Vt d L)), outW.view.loc (Vt d L) ↦[outW.view.setOn (outWinR L).set]{fullShare} f') : sProp (MM F))
      ⊢ iprop(∃ f' : Buf (Elt F) (outLoc d), outLoc d ↦[outRows0 d L]{fullShare} f') := by
  iintro ⟨%f', H⟩
  iexists f'
  iapply (Entails.of_eq (pts_out0 (F := F) d L f')); iexact H

/-- Rows the run leaves at contents that are the gathered rows on the subcore's rows are those rows at the gathered
    rows. -/
theorem out_valued0 (d : Dev nD) (L : grid0.Coords) (tab : Buf (Elt F) (tabLoc d)) (I : Buf (Elt F) (idxLoc d)) :
    (iprop(∃ f' : Buf (Elt F) (outW.view.loc (Vt d L)), (outW.view.loc (Vt d L) ↦[outW.view.setOn (outWinR L).set]{fullShare} f')
        ∗ ⌜∀ x : S163840x128.Idx, 5120 * wid L ≤ (x 0).val ∧ (x 0).val < 5120 * wid L + 5120 → f' x = gathered0 (d := d) tab I x⌝) : sProp (MM F))
      ⊢ (outLoc d ↦[outRows0 d L]{fullShare} gathered0 (d := d) tab I) := by
  iintro ⟨%f', H, %hf⟩
  have e : (outW.view.loc (Vt d L) ↦[outW.view.setOn (outWinR L).set]{fullShare} f' : sProp (MM F))
      = (outLoc d ↦[outRows0 d L]{fullShare} gathered0 (d := d) tab I) := by
    rw [pts_out0 (F := F) d L f']
    exact pointsTo_congr (fun x hx => hf x ((mem_outRows0 d L x).mp hx))
  iapply (Entails.of_eq e); iexact H

/-! ## The task as the launch theorem's obligation consumes it -/

/-- The body's run with the gathered rows named: the statement of the run with, of the subcore's rows of the gathered
    array, contents that are the gathered rows on those rows. -/
def TileRunV0 (F : FTy → Type) [FloatOps F] : Prop :=
  ∀ (d : Dev nD) (L : grid0.Coords) (q : PosShare TreeShare) (O : CellTallies nD τ sig (HIx 5)) (W : Waits sig (HIx 5))
    (tab : Buf (Elt F) (tabW.view.loc (Vt d L))) (I : Buf (Elt F) ((idxBlkM L).view.loc (Vt d L)))
    (hI : ∀ z ∈ (idxBlkM L).view.set, BitVec.toNat (I z) < 1000000)
    (g0 : Buf (Elt F) (listW.view.loc (Vt d L))) (r : Buf (Elt F) (ringW.view.loc (Vt d L)))
    (f : Buf (Elt F) (outW.view.loc (Vt d L))),
    (iprop(Transfers.MayWaits (Vt d L) (default : HIx 5) O
        ∗ (tabW.view.loc (Vt d L) ↦{Transfers.shareTok q 80 cc0_scratch2.sem} tab)
        ∗ (tabW.view.loc (Vt d L) ↦{Transfers.shareTok q 80 cc0_scratch3.sem} tab)
        ∗ (tabW.view.loc (Vt d L) ↦{Transfers.shareTok q 80 cc0_scratch4.sem} tab)
        ∗ (tabW.view.loc (Vt d L) ↦{Transfers.shareTok q 80 cc0_scratch5.sem} tab)
        ∗ (tabW.view.loc (Vt d L) ↦{Transfers.shareTok q 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok q 80 cc0_scratch2.sem} tab)
            ∗ (tabW.view.loc (Vt d L) ↦{Transfers.shareTok q 80 cc0_scratch3.sem} tab)
            ∗ (tabW.view.loc (Vt d L) ↦{Transfers.shareTok q 80 cc0_scratch4.sem} tab)
            ∗ (tabW.view.loc (Vt d L) ↦{Transfers.shareTok q 80 cc0_scratch5.sem} tab)
            ∗ (tabW.view.loc (Vt d L) ↦{Transfers.shareTok q 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ (∃ f' : Buf (Elt F) (outW.view.loc (Vt d L)), (outW.view.loc (Vt d L) ↦[outW.view.setOn (outWinR L).set]{fullShare} f')
                ∗ ⌜∀ x : S163840x128.Idx, 5120 * wid L ≤ (x 0).val ∧ (x 0).val < 5120 * wid L + 5120 → f' x = gathered0 (d := d) tab I x⌝))

/-- THE TASK, with the gathered rows: what the launch theorem's obligation for the call consumes, from the run with
    the gathered rows named. -/
theorem tile_body0_of (hrun : TileRunV0 F) (d : Dev nD) (L : grid0.Coords) (tab : Buf (Elt F) (tabLoc d)) (I : Buf (Elt F) (idxLoc d))
    (f : Buf (Elt F) (outLoc d)) (hF : (K (F := F)).Facts) (hI : ∀ x ∈ idxRows0 d L, BitVec.toNat (I x) < 1000000)
    (O : CellTallies nD τ sig (HIx 5)) (W : Waits sig (HIx 5)) (hO : ∀ g, O g none = 0) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(tdRes0 d L tab I ∗ scopedBufs (Vt d L) ∗ scopedSems0 (Vt d L)
            ∗ ∃ W', ⌜∀ p ∈ W', p ∈ W ∨ p.2 = none⌝ ∗ owes (Vt d L) O W') := by
  unfold tdRes0
  exact tile_wrap0 d L tab I f hF hI O W hO _ _
    (fun g0 r => hrun d L _ O W tab I (fun z hz => hI z (set_idxBlkM d L ▸ hz)) g0 r f) (out_valued0 d L tab I)

/-- THE TASK, the rows at some contents: from the run as proved, which does not name what it gathers. -/
theorem tile_frame0 (d : Dev nD) (L : grid0.Coords) (tab : Buf (Elt F) (tabLoc d)) (I : Buf (Elt F) (idxLoc d))
    (f : Buf (Elt F) (outLoc d)) (hF : (K (F := F)).Facts) (hI : ∀ x ∈ idxRows0 d L, BitVec.toNat (I x) < 1000000)
    (O : CellTallies nD τ sig (HIx 5)) (W : Waits sig (HIx 5)) (hO : ∀ g, O g none = 0) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(((tabLoc d ↦[Finset.univ]{Transfers.shareTok fullShare 32 ⟨wid L, wid_lt L⟩} tab)
              ∗ (idxLoc d ↦[idxRows0 d L]{fullShare} I) ∗ ∃ f' : Buf (Elt F) (outLoc d), outLoc d ↦[outRows0 d L]{fullShare} f')
            ∗ scopedBufs (Vt d L) ∗ scopedSems0 (Vt d L)
            ∗ ∃ W', ⌜∀ p ∈ W', p ∈ W ∨ p.2 = none⌝ ∗ owes (Vt d L) O W') :=
  tile_wrap0 d L tab I f hF hI O W hO _ _
    (fun g0 r => tile_run0 d L _ O W tab I (fun z hz => hI z (set_idxBlkM d L ▸ hz)) g0 r f) (out_frame0 d L)

end Cert.KernelIdeal.Hand

end
-- ==== Proof.Tile0k.lean ====
/-
  The value of one chunk of the first gather call.

  The subcore's list scratch holds its block of the index array: word (c, x) of the scratch is word (wid, c, x) of the
  array. The gather of chunk c reads row c of the scratch as its list and lands, at row j of the ring slot, the table
  row that word (c, j) names. Row 5120 wid + 128 c + j of the whole-array function is the table row named by the
  index word at flat position 5120 wid + 128 c + j, which is word (wid, c, j): the same row. So what a chunk's gather
  lands is its rows of the one function.
-/
import proofs.«206421_g46840913330738_cont_8to1c4_247_26_alg».proof.Proof.Tile0a
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0 (d : Dev nD) (L : grid0.Coords) (fl : Buf (Elt F) (listW.view.loc (Vt d L))) (c : ℕ) (hc : c < 40)
    (o : Fin 2 → ℕ) (h : ∀ a, o a + S1x128.size a ≤ S40x128.size a) (ho : o = ![c, 0]) (y : S128.Idx) :
    View.read (Elt F) (rowM o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid, c, x) of the index array. -/
theorem idxBlk_read0 (d : Dev nD) (L : grid0.Coords) (I : Buf (Elt F) ((idxBlkM L).view.loc (Vt d L))) (z : S40x128.Idx) :
    View.read (Elt F) (idxBlkM L).view I z = I (ix3 (⟨wid L, wid_lt L⟩ : Fin 32) (z 0) (z 1)) := by
  rw [View.read_apply]
  simp only [cast_eq]
  congr 1
  show (Rect.unit (s := S32x40x128) (k0_off1 L) S1x40x128.size (k0_off1_inb L)).emb (Shape.reshapeEquiv _ z) = _
  rw [Shape.reshapeEquiv_cons_one]
  funext a
  apply Fin.ext
  rw [Rect.emb_apply]
  have e := k0_off1_eq L
  match a with
  | ⟨0, _⟩ => show k0_off1 L 0 + 1 * 0 = wid L; rw [e]; show 2 * (L 1).val + (L 0).val + 1 * 0 = wid L; unfold wid; omega
  | ⟨1, _⟩ => show k0_off1 L 1 + 1 * (z 0).val = (z 0).val; rw [e]; show 0 + 1 * (z 0).val = (z 0).val; omega
  | ⟨2, _⟩ => show k0_off1 L 2 + 1 * (z 1).val = (z 1).val; rw [e]; show 0 + 1 * (z 1).val = (z 1).val; omega

/-- After the block copy the list scratch holds the subcore's block: word (c, x) is word (wid, c, x) of the array. -/
theorem listFill_apply0 (d : Dev nD) (L : grid0.Coords) (I : Buf (Elt F) ((idxBlkM L).view.loc (Vt d L)))
    (g0 : Buf (Elt F) (listW.view.loc (Vt d L))) (z : S40x128.Idx) :
    listFill d L I g0 z = I (ix3 (⟨wid L, wid_lt L⟩ : Fin 32) (z 0) (z 1)) := by
  unfold listFill
  show View.write (Elt F) listW.view g0 _ Finset.univ (listW.view.emb z) = _
  rw [View.write_emb_of_mem _ _ (Finset.mem_univ _)]
  simp only [cast_eq]
  exact idxBlk_read0 d L I z

/-! ## What a chunk's gather lands is its rows of the whole-array function -/

/-- The flat position of word (w, c, j) of the index array. -/
theorem rowMajor_ix3_0 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0 (v : S1000000x128.Idx) : tabS.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid + 128 c + j, column e. -/
theorem landed_eq_gathered0 (d : Dev nD) (L : grid0.Coords) (tab : Buf (Elt F) (tabLoc d)) (I : Buf (Elt F) (idxLoc d))
    (g0 : Buf (Elt F) (listW.view.loc (Vt d L)))
    (hI : ∀ z ∈ idxRows0 d L, BitVec.toNat (I z) < 1000000)
    (c : ℕ) (hc : c < 40)
    (hin : ∀ x : S128.Idx, BitVec.toNat (View.read (Elt F) (rowM ![c, 0] (rowInb c hc)).view (listFill d L I g0) x) < 1000000)
    (y : S128x128.Idx) (x : S163840x128.Idx)
    (hx0 : (x 0).val = 5120 * wid L + 128 * c + (y 0).val) (hx1 : (x 1).val = (y 1).val) :
    landed d L tab (listFill d L I g0) ![c, 0] (rowInb c hc) hin y = gathered0 tab I x := by
  rw [gathered0_apply]
  unfold landed SparseCore.gatherPayload
  rw [View.read_apply]
  simp only [cast_eq]
  congr 1
  refine (tabS_emb0 _).trans ?_
  have hw : ∀ u : S128.Idx, View.read (Elt F) (rowM ![c, 0] (rowInb c hc)).view (listFill d L I g0) u
      = I (ix3 (⟨wid L, wid_lt L⟩ : Fin 32) (⟨c, hc⟩ : Fin 40) (u 0)) := fun u => by
    rw [rowM_read0 d L _ c hc _ _ rfl u, listFill_apply0]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll (fun r => gatherRow0 I r) x)).symm
    show BitVec.toNat (View.read (Elt F) (rowM ![c, 0] (rowInb c hc)).view (listFill d L I g0)
        (S128.rowMajor.symm (Fin.cast _ (y gathers_S1000000x128_S128x128.axis'))))
      = BitVec.toNat (I (S32x40x128.rowMajor.symm (Fin.cast _ (x gathersAll.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll.axis'))
        = ix3 (⟨wid L, wid_lt L⟩ : Fin 32) (⟨c, hc⟩ : Fin 40) (u 0) :=
      (Equiv.symm_apply_eq _).mpr (Fin.ext ((show (x gathersAll.axis').val = 5120 * wid L + 128 * c + (u 0).val from by
        rw [hu0, ← hx0]; rfl).trans (rowMajor_ix3_0 (⟨wid L, wid_lt L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll (fun r => gatherRow0 I r) x ⟨1, by decide⟩ Nat.one_ne_zero).symm
    exact hx1.symm

end Cert.KernelIdeal.Hand

end
-- ==== Proof.Tile0b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.Tile0a
import proofs.«206421_g46840913330738_cont_8to1c4_247_26_alg».proof.Proof.Tile0k

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo (d : Dev nD) (L : grid0.Coords) (tab : Buf (Elt F) (tabW.view.loc (Vt d L))) (I : Buf (Elt F) ((idxBlkM L).view.loc (Vt d L)))
    (n : ℕ) (f : Buf (Elt F) (outW.view.loc (Vt d L))) : Prop :=
  ∀ x : S163840x128.Idx, 5120 * wid L ≤ (x 0).val → (x 0).val < 5120 * wid L + 128 * n → f x = gathered0 (d := d) tab I x

/-- Before trip g < 8, of the contents: the rows of the chunks before 5g hold the gathered rows, and slot b is
    to hold what the gather of chunk 5g + b lands. -/
def FactsFly (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000) (g : ℕ) (h : g < 8) (s0 s1 s2 s3 s4 : Buf (Elt F) (ringW.view.loc (Vt d L))) (f : Buf (Elt F) (outW.view.loc (Vt d L))) : Prop :=
  DoneUpTo d L tab I (5 * g) f
    ∧ View.read (Elt F) slot0M.view s0 = landed d L tab (listFill d L I g0) ![5 * g + 0, 0] (rowInb0 g h) (hin _ _)
    ∧ View.read (Elt F) slot1M.view s1 = landed d L tab (listFill d L I g0) ![5 * g + 1, 0] (rowInb1 g h) (hin _ _)
    ∧ View.read (Elt F) slot2M.view s2 = landed d L tab (listFill d L I g0) ![5 * g + 2, 0] (rowInb2 g h) (hin _ _)
    ∧ View.read (Elt F) slot3M.view s3 = landed d L tab (listFill d L I g0) ![5 * g + 3, 0] (rowInb3 g h) (hin _ _)
    ∧ View.read (Elt F) slot4M.view s4 = landed d L tab (listFill d L I g0) ![5 * g + 4, 0] (rowInb4 g h) (hin _ _)

/-- A slot written whole reads back what was written. -/
theorem read_writes_whole {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr (d : Dev nD) (L : grid0.Coords) (tab : Buf (Elt F) (tabW.view.loc (Vt d L)))
    (fl : Buf (Elt F) (listW.view.loc (Vt d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM o h).view fl x) < 1000000)
    (hin' : ∀ x : S128.Idx, BitVec.toNat (View.read (Elt F) (rowM o' h').view fl x) < 1000000) :
    landed d L tab fl o h hin = landed d L tab fl o' h' hin' := by
  subst e; rfl

/-- One chunk copied out extends what is done by that chunk. -/
theorem done_step (d : Dev nD) (L : grid0.Coords) (tab : Buf (Elt F) (tabW.view.loc (Vt d L))) (I : Buf (Elt F) ((idxBlkM L).view.loc (Vt d L)))
    (n : ℕ) (o : Fin 2 → ℕ) (ho : o = ![5120 * wid L + 128 * n, 0])
    (hinb : ∀ a, o a + S128x128.size a ≤ S163840x128.size a)
    (f : Buf (Elt F) (outW.view.loc (Vt d L))) (p : S128x128.Idx → Elt F .f32)
    (hf : DoneUpTo d L tab I n f)
    (hp : ∀ (y : S128x128.Idx) (x : S163840x128.Idx), (x 0).val = 5120 * wid L + 128 * n + (y 0).val → (x 1).val = (y 1).val →
      p y = gathered0 (d := d) tab I x) :
    DoneUpTo d L tab I (n + 1)
      (View.write (Elt F) (outW.slice (Rect.unit (s := S163840x128) o S128x128.size hinb) (fun _ => rfl)).view f p Finset.univ) := by
  subst ho
  intro x hlo hhi
  by_cases hx : (x 0).val < 5120 * wid L + 128 * n
  · rw [View.write_of_not_mem]
    · exact hf x hlo hx
    · rw [View.setOn_univ]
      show x ∉ ((View.whole main_v4_scv : View sig .scVector .hbm S163840x128 .f32).slice (Rect.unit (s := S163840x128) ![5120 * wid L + 128 * n, 0] S128x128.size hinb)).set
      rw [View.set_slice_whole, Rect.mem_set_unit]
      intro h
      have h0 : 5120 * wid L + 128 * n ≤ (x 0).val := (h 0).1
      omega
  · have hmem : x ∈ (Rect.unit (s := S163840x128) ![5120 * wid L + 128 * n, 0] S128x128.size hinb).set := by
      rw [Rect.mem_set_unit]
      intro a
      have h1 : (x 1).val < 128 := (x 1).isLt
      fin_cases a
      · show 5120 * wid L + 128 * n ≤ (x 0).val ∧ (x 0).val < 5120 * wid L + 128 * n + 128
        omega
      · show 0 ≤ (x 1).val ∧ (x 1).val < 0 + 128
        omega
    rw [← Rect.map_emb_univ] at hmem
    obtain ⟨y, -, rfl⟩ := Finset.mem_map.mp hmem
    have e : (outW.slice (Rect.unit (s := S163840x128) ![5120 * wid L + 128 * n, 0] S128x128.size hinb) (fun _ => rfl)).view.emb y
        = (Rect.unit (s := S163840x128) ![5120 * wid L + 128 * n, 0] S128x128.size hinb).emb y := rfl
    rw [← e, View.write_emb_of_mem _ _ (Finset.mem_univ y)]
    simp only [cast_eq]
    refine hp y _ ?_ ?_
    · rw [e, Rect.emb_apply]
      show 5120 * wid L + 128 * n + 1 * (y 0).val = 5120 * wid L + 128 * n + (y 0).val
      omega
    · rw [e, Rect.emb_apply]
      show 0 + 1 * (y 1).val = (y 1).val
      omega

theorem off3c (L : grid0.Coords) (k : Fin k0_t1_loop.trips) (r : Fin 5) :
    k0_off3 L k (BitVec.ofNat 32 r.val) = ![5120 * wid L + 128 * (5 * k.val + r.val), 0] :=
  (k0_off3_eq L k r).trans (by unfold wid; rw [show 10240 * (L 1).val + 5120 * (L 0).val + 640 * k.val + 128 * r.val = 5120 * (2 * (L 1).val + (L 0).val) + 128 * (5 * k.val + r.val) by omega])

/-- The five chunks a trip copies out extend what is done by five chunks. -/
theorem done5 (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000)
    (hK : ∀ (c : ℕ) (hc : c < 40) (hin' : ∀ x : S128.Idx, BitVec.toNat (View.read (Elt F) (rowM ![c, 0] (rowInb c hc)).view (listFill d L I g0) x) < 1000000)
      (y : S128x128.Idx) (x : S163840x128.Idx), (x 0).val = 5120 * wid L + 128 * c + (y 0).val → (x 1).val = (y 1).val →
      landed d L tab (listFill d L I g0) ![c, 0] (rowInb c hc) hin' y = gathered0 (d := d) tab I x)
    (k : Fin k0_t1_loop.trips) (hk8 : k.val < 8) (s0 s1 s2 s3 s4 : Buf (Elt F) (ringW.view.loc (Vt d L))) (f : Buf (Elt F) (outW.view.loc (Vt d L)))
    (hF : FactsFly d L tab I g0 hin k.val hk8 s0 s1 s2 s3 s4 f) :
    DoneUpTo d L tab I (5 * (k.val + 1))
      (View.write (Elt F) (outW.slice (Rect.unit (s := S163840x128) (k0_off3 L k 4#32) S128x128.size (k0_off3_inb L k 4)) (fun _ => rfl)).view (View.write (Elt F) (outW.slice (Rect.unit (s := S163840x128) (k0_off3 L k 3#32) S128x128.size (k0_off3_inb L k 3)) (fun _ => rfl)).view (View.write (Elt F) (outW.slice (Rect.unit (s := S163840x128) (k0_off3 L k 2#32) S128x128.size (k0_off3_inb L k 2)) (fun _ => rfl)).view (View.write (Elt F) (outW.slice (Rect.unit (s := S163840x128) (k0_off3 L k 1#32) S128x128.size (k0_off3_inb L k 1)) (fun _ => rfl)).view (View.write (Elt F) (outW.slice (Rect.unit (s := S163840x128) (k0_off3 L k 0#32) S128x128.size (k0_off3_inb L k 0)) (fun _ => rfl)).view f (ReadAs.same.apply (View.read (Elt F) slot0M.view s0)) Finset.univ) (ReadAs.same.apply (View.read (Elt F) slot1M.view s1)) Finset.univ) (ReadAs.same.apply (View.read (Elt F) slot2M.view s2)) Finset.univ) (ReadAs.same.apply (View.read (Elt F) slot3M.view s3)) Finset.univ) (ReadAs.same.apply (View.read (Elt F) slot4M.view s4)) Finset.univ) := by
  obtain ⟨hd, h0, h1, h2, h3, h4⟩ := hF
  have e : 5 * (k.val + 1) = 5 * k.val + 0 + 1 + 1 + 1 + 1 + 1 := by omega
  rw [e]
  refine done_step d L tab I _ _ (off3c L k 4) _ _ _ ?_ ?_
  refine done_step d L tab I _ _ (off3c L k 3) _ _ _ ?_ ?_
  refine done_step d L tab I _ _ (off3c L k 2) _ _ _ ?_ ?_
  refine done_step d L tab I _ _ (off3c L k 1) _ _ _ ?_ ?_
  refine done_step d L tab I _ _ (off3c L k 0) _ _ _ ?_ ?_
  · exact hd
  · intro y x hx0 hx1
    show View.read (Elt F) slot0M.view s0 y = _
    rw [h0]; exact hK (5 * k.val + 0) (by omega) _ y x hx0 hx1
  · intro y x hx0 hx1
    show View.read (Elt F) slot1M.view s1 y = _
    rw [h1]; exact hK (5 * k.val + 1) (by omega) _ y x hx0 hx1
  · intro y x hx0 hx1
    show View.read (Elt F) slot2M.view s2 y = _
    rw [h2]; exact hK (5 * k.val + 2) (by omega) _ y x hx0 hx1
  · intro y x hx0 hx1
    show View.read (Elt F) slot3M.view s3 y = _
    rw [h3]; exact hK (5 * k.val + 3) (by omega) _ y x hx0 hx1
  · intro y x hx0 hx1
    show View.read (Elt F) slot4M.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L))) (g : ℕ) (h : g < 8) (s0 s1 s2 s3 s4 : Buf (Elt F) (ringW.view.loc (Vt d L))) (f : Buf (Elt F) (outW.view.loc (Vt d L))) : sProp (MM F) :=
  iprop(Transfers.MayWaits (Vt d L) (default : HIx 5) O
    ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
    ∗ owesW d L O W
    ∗ (outW.view.loc (Vt d L) ↦[outW.view.setOn (outWinR L).set]{fullShare} f)
    ∗ ((Transfers.Flight countersEmb (Vt d L) (SemLoc.dma cc0_scratch2.sem) (default : HIx 5) 524288
              iprop(((slot0M.view.loc (Vt d L) ↦[slot0M.view.set]{fullShare} s0)
                  ∗ (listW.view.loc (Vt d L) ↦[(rowM ![5 * g + 0, 0] (rowInb0 g h)).view.set]{fullShare} fl))
                ∗ (tabW.view.loc (Vt d L) ↦[tabS.view.set]{Transfers.shareTok q 80 cc0_scratch2.sem} tab))
            ∗ (slot0M.view.loc (Vt d L) ↦[slot0M.view.set \ slot0M.view.set]{fullShare} s0))
          ∗ (tabW.view.loc (Vt d L) ↦[Finset.univ \ tabS.view.set]{Transfers.shareTok q 80 cc0_scratch2.sem} tab))
    ∗ ((Transfers.Flight countersEmb (Vt d L) (SemLoc.dma cc0_scratch3.sem) (default : HIx 5) 524288
              iprop(((slot1M.view.loc (Vt d L) ↦[slot1M.view.set]{fullShare} s1)
                  ∗ (listW.view.loc (Vt d L) ↦[(rowM ![5 * g + 1, 0] (rowInb1 g h)).view.set]{fullShare} fl))
                ∗ (tabW.view.loc (Vt d L) ↦[tabS.view.set]{Transfers.shareTok q 80 cc0_scratch3.sem} tab))
            ∗ (slot1M.view.loc (Vt d L) ↦[slot1M.view.set \ slot1M.view.set]{fullShare} s1))
          ∗ (tabW.view.loc (Vt d L) ↦[Finset.univ \ tabS.view.set]{Transfers.shareTok q 80 cc0_scratch3.sem} tab))
    ∗ ((Transfers.Flight countersEmb (Vt d L) (SemLoc.dma cc0_scratch4.sem) (default : HIx 5) 524288
              iprop(((slot2M.view.loc (Vt d L) ↦[slot2M.view.set]{fullShare} s2)
                  ∗ (listW.view.loc (Vt d L) ↦[(rowM ![5 * g + 2, 0] (rowInb2 g h)).view.set]{fullShare} fl))
                ∗ (tabW.view.loc (Vt d L) ↦[tabS.view.set]{Transfers.shareTok q 80 cc0_scratch4.sem} tab))
            ∗ (slot2M.view.loc (Vt d L) ↦[slot2M.view.set \ slot2M.view.set]{fullShare} s2))
          ∗ (tabW.view.loc (Vt d L) ↦[Finset.univ \ tabS.view.set]{Transfers.shareTok q 80 cc0_scratch4.sem} tab))
    ∗ ((Transfers.Flight countersEmb (Vt d L) (SemLoc.dma cc0_scratch5.sem) (default : HIx 5) 524288
              iprop(((slot3M.view.loc (Vt d L) ↦[slot3M.view.set]{fullShare} s3)
                  ∗ (listW.view.loc (Vt d L) ↦[(rowM ![5 * g + 3, 0] (rowInb3 g h)).view.set]{fullShare} fl))
                ∗ (tabW.view.loc (Vt d L) ↦[tabS.view.set]{Transfers.shareTok q 80 cc0_scratch5.sem} tab))
            ∗ (slot3M.view.loc (Vt d L) ↦[slot3M.view.set \ slot3M.view.set]{fullShare} s3))
          ∗ (tabW.view.loc (Vt d L) ↦[Finset.univ \ tabS.view.set]{Transfers.shareTok q 80 cc0_scratch5.sem} tab))
    ∗ ((Transfers.Flight countersEmb (Vt d L) (SemLoc.dma cc0_scratch6.sem) (default : HIx 5) 524288
              iprop(((slot4M.view.loc (Vt d L) ↦[slot4M.view.set]{fullShare} s4)
                  ∗ (listW.view.loc (Vt d L) ↦[(rowM ![5 * g + 4, 0] (rowInb4 g h)).view.set]{fullShare} fl))
                ∗ (tabW.view.loc (Vt d L) ↦[tabS.view.set]{Transfers.shareTok q 80 cc0_scratch6.sem} tab))
            ∗ (slot4M.view.loc (Vt d L) ↦[slot4M.view.set \ slot4M.view.set]{fullShare} s4))
          ∗ (tabW.view.loc (Vt d L) ↦[Finset.univ \ tabS.view.set]{Transfers.shareTok q 80 cc0_scratch6.sem} tab))
    ∗ (listW.view.loc (Vt d L) ↦[((((Finset.univ \ (rowM ![5 * g + 0, 0] (rowInb0 g h)).view.set) \ (rowM ![5 * g + 1, 0] (rowInb1 g h)).view.set)
              \ (rowM ![5 * g + 2, 0] (rowInb2 g h)).view.set) \ (rowM ![5 * g + 3, 0] (rowInb3 g h)).view.set) \ (rowM ![5 * g + 4, 0] (rowInb4 g h)).view.set]{fullShare} fl))

/-- After the last trip: every cell at zero, the slots, the list and the shares back. -/
def invIdle (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L))) (s0 s1 s2 s3 s4 : Buf (Elt F) (ringW.view.loc (Vt d L))) (f : Buf (Elt F) (outW.view.loc (Vt d L))) : sProp (MM F) :=
  iprop(Transfers.MayWaits (Vt d L) (default : HIx 5) O
    ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
    ∗ owesW d L O W
    ∗ (outW.view.loc (Vt d L) ↦[outW.view.setOn (outWinR L).set]{fullShare} f)
    ∗ ((tabW.view.loc (Vt d L) ↦{Transfers.shareTok q 80 cc0_scratch2.sem} tab) ∗ semVal (Vt d L, SemLoc.dma cc0_scratch2.sem) 0
          ∗ (slot0M.view.loc (Vt d L) ↦[slot0M.view.set]{fullShare} s0))
    ∗ ((tabW.view.loc (Vt d L) ↦{Transfers.shareTok q 80 cc0_scratch3.sem} tab) ∗ semVal (Vt d L, SemLoc.dma cc0_scratch3.sem) 0
          ∗ (slot1M.view.loc (Vt d L) ↦[slot1M.view.set]{fullShare} s1))
    ∗ ((tabW.view.loc (Vt d L) ↦{Transfers.shareTok q 80 cc0_scratch4.sem} tab) ∗ semVal (Vt d L, SemLoc.dma cc0_scratch4.sem) 0
          ∗ (slot2M.view.loc (Vt d L) ↦[slot2M.view.set]{fullShare} s2))
    ∗ ((tabW.view.loc (Vt d L) ↦{Transfers.shareTok q 80 cc0_scratch5.sem} tab) ∗ semVal (Vt d L, SemLoc.dma cc0_scratch5.sem) 0
          ∗ (slot3M.view.loc (Vt d L) ↦[slot3M.view.set]{fullShare} s3))
    ∗ ((tabW.view.loc (Vt d L) ↦{Transfers.shareTok q 80 cc0_scratch6.sem} tab) ∗ semVal (Vt d L, SemLoc.dma cc0_scratch6.sem) 0
          ∗ (slot4M.view.loc (Vt d L) ↦[slot4M.view.set]{fullShare} s4))
    ∗ (listW.view.loc (Vt d L) ↦{fullShare} fl))

/-- What the loop keeps. -/
def inv0v (q : PosShare TreeShare) (O : CellTallies nD τ sig (HIx 5)) (W : Waits sig (HIx 5)) (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000) (g : ℕ) (_ : PUnit) : sProp (MM F) :=
  if h : g < 8 then
    iprop(∃ s0 s1 s2 s3 s4 f, ⌜FactsFly d L tab I g0 hin g h s0 s1 s2 s3 s4 f⌝ ∗ invFly d L q O W tab (listFill d L I g0) g h s0 s1 s2 s3 s4 f)
  else
    iprop(∃ s0 s1 s2 s3 s4 f, ⌜DoneUpTo d L tab I (5 * g) f⌝ ∗ invIdle d L q O W tab (listFill d L I g0) s0 s1 s2 s3 s4 f)

/-! ## One trip, with the contents -/

set_option maxHeartbeats 4000000 in
theorem trip0v (q : PosShare TreeShare) (O : CellTallies nD τ sig (HIx 5)) (W : Waits sig (HIx 5)) (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000)
    (hK : ∀ (c : ℕ) (hc : c < 40) (hin' : ∀ x : S128.Idx, BitVec.toNat (View.read (Elt F) (rowM ![c, 0] (rowInb c hc)).view (listFill d L I g0) x) < 1000000)
      (y : S128x128.Idx) (x : S163840x128.Idx), (x 0).val = 5120 * wid L + 128 * c + (y 0).val → (x 1).val = (y 1).val →
      landed d L tab (listFill d L I g0) ![c, 0] (rowInb c hc) hin' y = gathered0 (d := d) tab I x)
    (v2 : BitVec 32) (k : Fin k0_t1_loop.trips) (acc : PUnit) :
    inv0v q O W d L tab I g0 hin k.val acc
      ⊢ wp frame (wpE (defs₀ (F := F)) 𝒱₀ (Vt d L) none) Set.univ
          (k0_t1_body L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0 v2 k acc)
          (inv0v q O W d L tab I g0 hin (k.val + 1)) := by
  have hk8 : k.val < 8 := trips_eq ▸ k.isLt
  unfold inv0v
  rw [dif_pos hk8]
  by_cases hk : k.val < 7
  · obtain ⟨hc1, hc2, hc3, hc4, hc5⟩ := conds_lt k hk
    have hk1 : k.val + 1 < 8 := by omega
    rw [dif_pos hk1]
    unfold k0_t1_body
    iintro ⟨%s0, %s1, %s2, %s3, %s4, %f, %hF, HP⟩
    unfold invFly
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    rw [rowSet_congr d L (off4 k) (k0_off4_inb k hc1) (rowInb0 (k.val + 1) hk1), rowSet_congr d L (off5 k) (k0_off5_inb k hc2) (rowInb1 (k.val + 1) hk1),
      rowSet_congr d L (off6 k) (k0_off6_inb k hc3) (rowInb2 (k.val + 1) hk1), rowSet_congr d L (off7 k) (k0_off7_inb k hc4) (rowInb3 (k.val + 1) hk1),
      rowSet_congr d L (off8 k) (k0_off8_inb k hc5) (rowInb4 (k.val + 1) hk1)]
    ihave HO' := (owesW_intro (W := W) (ins_none (ins_none (ins_none (ins_none (ins_none (ins_none (ins_none (ins_none (ins_none (ins_none hW' _) _) _) _) _) _) _) _) _) _)) $$ HO
    iexists _; iexists _; iexists _; iexists _; iexists _; iexists _
    isplitr
    swap
    · sl_close
    · ipureintro
      refine ⟨done5 d L tab I g0 hin hK k hk8 s0 s1 s2 s3 s4 f hF, ?_, ?_, ?_, ?_, ?_⟩
      · exact (read_writes_whole _ _ _).trans (landed_congr d L tab _ (off4 k) _ _ _ _)
      · exact (read_writes_whole _ _ _).trans (landed_congr d L tab _ (off5 k) _ _ _ _)
      · exact (read_writes_whole _ _ _).trans (landed_congr d L tab _ (off6 k) _ _ _ _)
      · exact (read_writes_whole _ _ _).trans (landed_congr d L tab _ (off7 k) _ _ _ _)
      · exact (read_writes_whole _ _ _).trans (landed_congr d L tab _ (off8 k) _ _ _ _)
  · obtain ⟨hc1, hc2, hc3, hc4, hc5⟩ := conds_last k hk
    rw [dif_neg (show ¬ k.val + 1 < 8 by omega)]
    unfold k0_t1_body
    iintro ⟨%s0, %s1, %s2, %s3, %s4, %f, %hF, HP⟩
    unfold invFly
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    ihave HO' := (owesW_intro (W := W) (ins_none (ins_none (ins_none (ins_none (ins_none (ins_none (ins_none (ins_none (ins_none (ins_none hW' _) _) _) _) _) _) _) _) _) _)) $$ HO
    iexists _; iexists _; iexists _; iexists _; iexists _; iexists _
    isplitr
    swap
    · unfold invIdle
      sl_close
    · ipureintro
      exact done5 d L tab I g0 hin hK k hk8 s0 s1 s2 s3 s4 f hF

end Cert.KernelIdeal.Hand

end
-- ==== Proof.Tile0v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.Tile0b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0 (d : Dev nD) (L : grid0.Coords) (q : PosShare TreeShare) (O : CellTallies nD τ sig (HIx 5)) (W : Waits sig (HIx 5))
    (tab : Buf (Elt F) (tabW.view.loc (Vt d L))) (I : Buf (Elt F) ((idxBlkM L).view.loc (Vt d L)))
    (hI : ∀ z ∈ (idxBlkM L).view.set, BitVec.toNat (I z) < 1000000)
    (g0 : Buf (Elt F) (listW.view.loc (Vt d L))) (r : Buf (Elt F) (ringW.view.loc (Vt d L)))
    (f : Buf (Elt F) (outW.view.loc (Vt d L))) :
    (iprop(Transfers.MayWaits (Vt d L) (default : HIx 5) O
        ∗ (tabW.view.loc (Vt d L) ↦{Transfers.shareTok q 80 cc0_scratch2.sem} tab)
        ∗ (tabW.view.loc (Vt d L) ↦{Transfers.shareTok q 80 cc0_scratch3.sem} tab)
        ∗ (tabW.view.loc (Vt d L) ↦{Transfers.shareTok q 80 cc0_scratch4.sem} tab)
        ∗ (tabW.view.loc (Vt d L) ↦{Transfers.shareTok q 80 cc0_scratch5.sem} tab)
        ∗ (tabW.view.loc (Vt d L) ↦{Transfers.shareTok q 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok q 80 cc0_scratch2.sem} tab)
            ∗ (tabW.view.loc (Vt d L) ↦{Transfers.shareTok q 80 cc0_scratch3.sem} tab)
            ∗ (tabW.view.loc (Vt d L) ↦{Transfers.shareTok q 80 cc0_scratch4.sem} tab)
            ∗ (tabW.view.loc (Vt d L) ↦{Transfers.shareTok q 80 cc0_scratch5.sem} tab)
            ∗ (tabW.view.loc (Vt d L) ↦{Transfers.shareTok q 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ (∃ f' : Buf (Elt F) (outW.view.loc (Vt d L)), (outW.view.loc (Vt d L) ↦[outW.view.setOn (outWinR L).set]{fullShare} f')
                ∗ ⌜∀ x : S163840x128.Idx, 5120 * wid L ≤ (x 0).val ∧ (x 0).val < 5120 * wid L + 5120 → f' x = gathered0 (d := d) tab I x⌝)) := by
  have hin := list_words d L I g0 hI
  have hI' : ∀ z ∈ idxRows0 d L, BitVec.toNat (I z) < 1000000 := fun z hz => hI z (by rw [set_idxBlkM d L]; exact hz)
  have hK := fun c hc hin' y x hx0 hx1 => landed_eq_gathered0 (F := F) d L tab I g0 hI' c hc hin' y x hx0 hx1
  rw [cc0_gather_k_eq_skeleton]; unfold cc0_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v q O W d L tab I g0 hin hK _ k acc
  · unfold inv0v
    rw [dif_pos (show 0 < 8 by decide)]
    ihave HO' := (owesW_intro (W := W) (ins_none (fun p hp => Or.inl hp) _)) $$ HO
    iexists _; iexists _; iexists _; iexists _; iexists _; iexists _
    isplitr
    swap
    · unfold invFly
      sl_close
    · ipureintro
      refine ⟨fun x h1 h2 => absurd h2 (by omega), ?_, ?_, ?_, ?_, ?_⟩
      · exact (read_writes_whole _ _ _).trans (landed_congr d L tab _ (show (![0, 0] : Fin 2 → ℕ) = ![5 * 0 + 0, 0] from rfl) _ _ _ _)
      · exact (read_writes_whole _ _ _).trans (landed_congr d L tab _ (show (![1, 0] : Fin 2 → ℕ) = ![5 * 0 + 1, 0] from rfl) _ _ _ _)
      · exact (read_writes_whole _ _ _).trans (landed_congr d L tab _ (show (![2, 0] : Fin 2 → ℕ) = ![5 * 0 + 2, 0] from rfl) _ _ _ _)
      · exact (read_writes_whole _ _ _).trans (landed_congr d L tab _ (show (![3, 0] : Fin 2 → ℕ) = ![5 * 0 + 3, 0] from rfl) _ _ _ _)
      · exact (read_writes_whole _ _ _).trans (landed_congr d L tab _ (show (![4, 0] : Fin 2 → ℕ) = ![5 * 0 + 4, 0] from rfl) _ _ _ _)
  unfold inv0v
  rw [dif_neg (show ¬ k0_t1_loop.trips < 8 by rw [trips_eq]; decide)]
  iintro %acc ⟨%s0, %s1, %s2, %s3, %s4, %f', %hdone, HP⟩
  unfold invIdle
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k0_t1_loop.lb k0_t1_loop.ub k0_t1_loop.st = 8 := trips_eq
  rw [h8] at hdone
  have hfin : ∀ x : S163840x128.Idx, 5120 * wid L ≤ (x 0).val ∧ (x 0).val < 5120 * wid L + 5120 → f' x = gathered0 (d := d) tab I x :=
    fun x h => hdone x h.1 (by omega)
  sl_close

end Cert.KernelIdeal.Hand

end
-- ==== Proof.Tile0Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.Tile0Wrap
import proofs.«206421_g46840913330738_cont_8to1c4_247_26_alg».proof.Proof.Tile0v

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body0 (d : Dev nD) (L : grid0.Coords) (tab : Buf (Elt F) (tabLoc d)) (I : Buf (Elt F) (idxLoc d)) (f : Buf (Elt F) (outLoc d))
    (hF : (K (F := F)).Facts) (hI : ∀ x ∈ idxRows0 d L, BitVec.toNat (I x) < 1000000)
    (O : CellTallies nD τ sig (HIx 5)) (W : Waits sig (HIx 5)) (hO : ∀ g, O g none = 0) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(tdRes0 d L tab I ∗ scopedBufs (Vt d L) ∗ scopedSems0 (Vt d L)
            ∗ ∃ W', ⌜∀ p ∈ W', p ∈ W ∨ p.2 = none⌝ ∗ owes (Vt d L) O W') :=
  tile_body0_of (F := F) tile_runV0 d L tab I f hF hI O W hO

end Cert.KernelIdeal.Hand

end
-- ==== Proof.TileObl0.lean ====
/-
  The launch theorem's obligation for gather call 0: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Tile0Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec0 (c : Fin τ.nSC) (s : Fin τ.nSub) :
    defs₀ (F := F) (.scVector c s) 0 ()
      = SparseCore.onTile hcore0 hsub0 (fun c s => cc0_gather_k (coordsV c s) (Memref.whole main_arg1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scoped0) ⟨⟩ c s := rfl

/-- Every index word of the call's index array names a table row. -/
def InRange0 : Prop := ∀ (d : Dev nD) (x : S32x40x128.Idx), (BitVec.toNat (W4 m d (r main_v3) x)) < 1000000

/-- The task of call 0, for every subcore of its grid. -/
theorem tileObl0 (hR : InRange0 m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vec0]; simp only [SparseCore.onTile, hc, and_self, ↓reduceDIte]
  show iprop(_ ∗ _ ∗ goRes0 d (coordsV c i) (W4 m d (r main_arg1)) (W4 m d (r main_v3)) (W4 m d (r main_v4)) ∗ _) ⊢ wp _ _ _ _
    (fun _ => iprop(tdRes0 d (coordsV c i) (W4 m d (r main_arg1)) (W4 m d (r main_v3)) ∗ _))
  exact (tile_body0 d (coordsV c i) (W4 m d (r main_arg1)) (W4 m d (r main_v3)) (W4 m d (r main_v4)) facts (fun x _ => hR d x) O W hO).trans
    (wp_mono frame _ _ fun _ => obl_post)

end Cert.KernelIdeal.Hand

end
-- ==== Proof.Tile2a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.Tile2Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c2 (d : Dev nD) (L : grid2.Coords) : Thread nD τ := V d (cV2 L) (jV2 L)

abbrev tabW_c2 : Memref sig .scVector .hbm S1000000x128 .f32 := Memref.whole main_arg1_scv
abbrev idxW_c2 : Memref sig .scVector .hbm S32x40x128 .i32 := Memref.whole main_v7_scv
abbrev outW_c2 : Memref sig .scVector .hbm S163840x128 .f32 := Memref.whole main_v8_scv
abbrev listW_c2 : Memref sig .scVector .vmem S40x128 .i32 := Memref.whole cc2_scratch0
abbrev ringW_c2 : Memref sig .scVector .vmem S5x128x128 .f32 := Memref.whole cc2_scratch1
/-- The table as every gather names it: the slice that is all of it. -/
abbrev tabS_c2 : Memref sig .scVector .hbm S1000000x128 .f32 :=
  tabW_c2.slice (Rect.unit (s := S1000000x128) ![0, 0] S1000000x128.size inb_S1000000x128_S1000000x128_0_0) (fun _ => rfl)
/-- The subcore's block of the index array, as the block copy names it. -/
abbrev idxBlkM_c2 (L : grid2.Coords) : Memref sig .scVector .hbm S40x128 .i32 :=
  (idxW_c2.slice (Rect.unit (s := S32x40x128) (k2_off1 L) S1x40x128.size (k2_off1_inb L)) (fun _ => rfl)).squeeze S40x128 squeezes_S1x40x128_S40x128
/-- The five slots of the ring. -/
abbrev slot0M_c2 : Memref sig .scVector .vmem S128x128 .f32 :=
  (ringW_c2.slice (Rect.unit (s := S5x128x128) ![0, 0, 0] S1x128x128.size inb_S5x128x128_S1x128x128_0_0_0) (fun _ => rfl)).squeeze S128x128 squeezes_S1x128x128_S128x128
abbrev slot1M_c2 : Memref sig .scVector .vmem S128x128 .f32 :=
  (ringW_c2.slice (Rect.unit (s := S5x128x128) ![1, 0, 0] S1x128x128.size inb_S5x128x128_S1x128x128_1_0_0) (fun _ => rfl)).squeeze S128x128 squeezes_S1x128x128_S128x128
abbrev slot2M_c2 : Memref sig .scVector .vmem S128x128 .f32 :=
  (ringW_c2.slice (Rect.unit (s := S5x128x128) ![2, 0, 0] S1x128x128.size inb_S5x128x128_S1x128x128_2_0_0) (fun _ => rfl)).squeeze S128x128 squeezes_S1x128x128_S128x128
abbrev slot3M_c2 : Memref sig .scVector .vmem S128x128 .f32 :=
  (ringW_c2.slice (Rect.unit (s := S5x128x128) ![3, 0, 0] S1x128x128.size inb_S5x128x128_S1x128x128_3_0_0) (fun _ => rfl)).squeeze S128x128 squeezes_S1x128x128_S128x128
abbrev slot4M_c2 : Memref sig .scVector .vmem S128x128 .f32 :=
  (ringW_c2.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c2 (o : Fin 2 → ℕ) (h : ∀ a, o a + S1x128.size a ≤ S40x128.size a) : Memref sig .scVector .vmem S128 .i32 :=
  (listW_c2.slice (Rect.unit (s := S40x128) o S1x128.size h) (fun _ => rfl)).squeeze S128 squeezes_S1x128_S128

theorem rowInb_c2 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c2 (g : ℕ) (h : g < 8) : ∀ a, (![5 * g + 0, 0] : Fin 2 → ℕ) a + S1x128.size a ≤ S40x128.size a := rowInb_c2 (5 * g + 0) (by omega)
theorem rowInb1_c2 (g : ℕ) (h : g < 8) : ∀ a, (![5 * g + 1, 0] : Fin 2 → ℕ) a + S1x128.size a ≤ S40x128.size a := rowInb_c2 (5 * g + 1) (by omega)
theorem rowInb2_c2 (g : ℕ) (h : g < 8) : ∀ a, (![5 * g + 2, 0] : Fin 2 → ℕ) a + S1x128.size a ≤ S40x128.size a := rowInb_c2 (5 * g + 2) (by omega)
theorem rowInb3_c2 (g : ℕ) (h : g < 8) : ∀ a, (![5 * g + 3, 0] : Fin 2 → ℕ) a + S1x128.size a ≤ S40x128.size a := rowInb_c2 (5 * g + 3) (by omega)
theorem rowInb4_c2 (g : ℕ) (h : g < 8) : ∀ a, (![5 * g + 4, 0] : Fin 2 → ℕ) a + S1x128.size a ≤ S40x128.size a := rowInb_c2 (5 * g + 4) (by omega)

theorem rowM_congr_c2 {o o' : Fin 2 → ℕ} (e : o = o') (h : ∀ a, o a + S1x128.size a ≤ S40x128.size a)
    (h' : ∀ a, o' a + S1x128.size a ≤ S40x128.size a) : rowM_c2 o h = rowM_c2 o' h' := by
  subst e; rfl

/-- The subcore's rows of the gathered array as a rectangle in the grid coordinates themselves. -/
theorem outWinR_inb_c2 (L : grid2.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c2 (L : grid2.Coords) : Rect S163840x128 :=
  Rect.unit (s := S163840x128) ![10240 * (L 1).val + 5120 * (L 0).val, 0] ![5120, 128] (outWinR_inb_c2 L)

theorem outWinR_eq_c2 (L : grid2.Coords) : outWinR_c2 L = outRect2 L :=
  Rect.unit_congr (by unfold wid2; rw [show 5120 * (2 * (L 1).val + (L 0).val) = 10240 * (L 1).val + 5120 * (L 0).val by omega]) _ _

/-! ## The trips' offsets and conditions in closed form -/

theorem off4_c2 (k : Fin k2_t1_loop.trips) : k2_off4 k = ![5 * (k.val + 1) + 0, 0] :=
  (k2_off4_eq k).trans (by rw [show 5 * (k.val + 1) + 0 = 5 * k.val + 5 by omega])
theorem off5_c2 (k : Fin k2_t1_loop.trips) : k2_off5 k = ![5 * (k.val + 1) + 1, 0] :=
  (k2_off5_eq k).trans (by rw [show 5 * (k.val + 1) + 1 = 5 * k.val + 6 by omega])
theorem off6_c2 (k : Fin k2_t1_loop.trips) : k2_off6 k = ![5 * (k.val + 1) + 2, 0] :=
  (k2_off6_eq k).trans (by rw [show 5 * (k.val + 1) + 2 = 5 * k.val + 7 by omega])
theorem off7_c2 (k : Fin k2_t1_loop.trips) : k2_off7 k = ![5 * (k.val + 1) + 3, 0] :=
  (k2_off7_eq k).trans (by rw [show 5 * (k.val + 1) + 3 = 5 * k.val + 8 by omega])
theorem off8_c2 (k : Fin k2_t1_loop.trips) : k2_off8 k = ![5 * (k.val + 1) + 4, 0] :=
  (k2_off8_eq k).trans (by rw [show 5 * (k.val + 1) + 4 = 5 * k.val + 9 by omega])

theorem conds_lt_c2 : ∀ k : Fin k2_t1_loop.trips, k.val < 7 →
    k2_cond1 k = 1#1 ∧ k2_cond2 k = 1#1 ∧ k2_cond3 k = 1#1 ∧ k2_cond4 k = 1#1 ∧ k2_cond5 k = 1#1 := by decide +kernel
theorem conds_last_c2 : ∀ k : Fin k2_t1_loop.trips, ¬ k.val < 7 →
    ¬ k2_cond1 k = 1#1 ∧ ¬ k2_cond2 k = 1#1 ∧ ¬ k2_cond3 k = 1#1 ∧ ¬ k2_cond4 k = 1#1 ∧ ¬ k2_cond5 k = 1#1 := by decide +kernel
theorem trips_eq_c2 : k2_t1_loop.trips = 8 := by decide +kernel

/-! ## The words of the list scratch are words of the block -/

theorem list_words_c2 (d : Dev nD) (L : grid2.Coords) (I : Buf (Elt F) ((idxBlkM_c2 L).view.loc (Vt_c2 d L)))
    (g0 : Buf (Elt F) (listW_c2.view.loc (Vt_c2 d L)))
    (hI : ∀ z ∈ (idxBlkM_c2 L).view.set, BitVec.toNat (I z) < 1000000)
    (o : Fin 2 → ℕ) (h : ∀ a, o a + S1x128.size a ≤ S40x128.size a) (x : S128.Idx) :
    BitVec.toNat (View.read (Elt F) (rowM_c2 o h).view
      (View.write (Elt F) listW_c2.view g0 (ReadAs.same.apply (View.read (Elt F) (idxBlkM_c2 L).view I)) Finset.univ) x) < 1000000 := by
  rw [View.read_apply]
  have e : (rowM_c2 o h).view.emb x = listW_c2.view.emb ((rowM_c2 o h).view.emb x) := rfl
  rw [e, View.write_emb_of_mem _ _ (Finset.mem_univ _)]
  simp only [cast_cast, cast_eq]
  show BitVec.toNat (View.read (Elt F) (idxBlkM_c2 L).view I _) < 1000000
  rw [View.read_apply]
  simp only [cast_eq]
  exact hI _ (View.emb_mem_set _ _)

theorem set_idxBlkM_c2 (d : Dev nD) (L : grid2.Coords) : (idxBlkM_c2 L).view.set = idxRows2 d L := by
  show ((idxW_c2.view.slice (Rect.unit (s := S32x40x128) (k2_off1 L) S1x40x128.size (k2_off1_inb L))).reshape S40x128 _).set = _
  rw [View.set_reshape]
  exact View.set_slice_whole _ _

/-! ## What lands -/

/-- The list scratch after the block of indices is copied into it. -/
abbrev listFill_c2 (d : Dev nD) (L : grid2.Coords) (I : Buf (Elt F) ((idxBlkM_c2 L).view.loc (Vt_c2 d L)))
    (g0 : Buf (Elt F) (listW_c2.view.loc (Vt_c2 d L))) : Buf (Elt F) (listW_c2.view.loc (Vt_c2 d L)) :=
  View.write (Elt F) listW_c2.view g0 (ReadAs.same.apply (View.read (Elt F) (idxBlkM_c2 L).view I)) Finset.univ

/-- What the gather over the list row at offsets o lands in its slot: at row j of the slot, the table row the j-th
    word of that list row names. -/
abbrev landed_c2 (d : Dev nD) (L : grid2.Coords) (tab : Buf (Elt F) (tabW_c2.view.loc (Vt_c2 d L)))
    (fl : Buf (Elt F) (listW_c2.view.loc (Vt_c2 d L))) (o : Fin 2 → ℕ) (h : ∀ a, o a + S1x128.size a ≤ S40x128.size a)
    (hin : ∀ x : S128.Idx, BitVec.toNat (View.read (Elt F) (rowM_c2 o h).view fl x) < 1000000) : S128x128.Idx → Elt F .f32 :=
  SparseCore.gatherPayload gathers_S1000000x128_S128x128 (View.read (Elt F) tabS_c2.view tab)
    (SparseCore.rows (View.read (Elt F) (rowM_c2 o h).view fl) rfl hin)

variable [FloatOps F]

/-! ## What the loop keeps -/

/-- The subcore owes what it owed, its waits recorded beyond W all at the launch's index. -/
def owesW_c2 (d : Dev nD) (L : grid2.Coords) (O : CellTallies nD τ sig (HIx 5)) (W : Waits sig (HIx 5)) : sProp (MM F) :=
  iprop(∃ W', ⌜∀ p ∈ W', p ∈ W ∨ p.2 = none⌝ ∗ owes (Vt_c2 d L) O W')

theorem owesW_intro_c2 {d : Dev nD} {L : grid2.Coords} {O : CellTallies nD τ sig (HIx 5)} {W W' : Waits sig (HIx 5)}
    (h : ∀ p ∈ W', p ∈ W ∨ p.2 = none) : (owes (Vt_c2 d L) O W' : sProp (MM F)) ⊢ owesW_c2 d L O W := by
  unfold owesW_c2
  iintro H
  iexists W'
  isplitr
  · ipureintro; exact h
  · iexact H

theorem owesW_elim_c2 {d : Dev nD} {L : grid2.Coords} {O : CellTallies nD τ sig (HIx 5)} {W : Waits sig (HIx 5)} :
    (owesW_c2 d L O W : sProp (MM F)) ⊢ iprop(∃ W', ⌜∀ p ∈ W', p ∈ W ∨ p.2 = none⌝ ∗ owes (Vt_c2 d L) O W') := by
  unfold owesW_c2; exact .rfl

theorem ins_none_c2 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c2 (d : Dev nD) (L : grid2.Coords) {o o' : Fin 2 → ℕ} (e : o = o')
    (h : ∀ a, o a + S1x128.size a ≤ S40x128.size a) (h' : ∀ a, o' a + S1x128.size a ≤ S40x128.size a) :
    ((rowM_c2 o h).view.set : Finset (Idx (listW_c2.view.loc (Vt_c2 d L)))) = (rowM_c2 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L))) (g : ℕ) (_ : PUnit) : sProp (MM F) :=
  iprop(Transfers.MayWaits (Vt_c2 d L) (default : HIx 5) O
    ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
    ∗ owesW_c2 d L O W
    ∗ (∃ f : Buf (Elt F) (outW_c2.view.loc (Vt_c2 d L)), outW_c2.view.loc (Vt_c2 d L) ↦[outW_c2.view.setOn (outWinR_c2 L).set]{fullShare} f)
    ∗ (if h : g < 8 then
        iprop(((∃ s : Buf (Elt F) (slot0M_c2.view.loc (Vt_c2 d L)),
            Transfers.Flight countersEmb (Vt_c2 d L) (SemLoc.dma cc2_scratch2.sem) (default : HIx 5) 524288
              iprop(((slot0M_c2.view.loc (Vt_c2 d L) ↦[slot0M_c2.view.set]{fullShare} s)
                  ∗ (listW_c2.view.loc (Vt_c2 d L) ↦[(rowM_c2 ![5 * g + 0, 0] (rowInb0_c2 g h)).view.set]{fullShare} fl))
                ∗ (tabW_c2.view.loc (Vt_c2 d L) ↦[tabS_c2.view.set]{Transfers.shareTok q 80 cc2_scratch2.sem} tab))
            ∗ (slot0M_c2.view.loc (Vt_c2 d L) ↦[slot0M_c2.view.set \ slot0M_c2.view.set]{fullShare} s))
          ∗ (tabW_c2.view.loc (Vt_c2 d L) ↦[Finset.univ \ tabS_c2.view.set]{Transfers.shareTok q 80 cc2_scratch2.sem} tab))
          ∗ ((∃ s : Buf (Elt F) (slot1M_c2.view.loc (Vt_c2 d L)),
            Transfers.Flight countersEmb (Vt_c2 d L) (SemLoc.dma cc2_scratch3.sem) (default : HIx 5) 524288
              iprop(((slot1M_c2.view.loc (Vt_c2 d L) ↦[slot1M_c2.view.set]{fullShare} s)
                  ∗ (listW_c2.view.loc (Vt_c2 d L) ↦[(rowM_c2 ![5 * g + 1, 0] (rowInb1_c2 g h)).view.set]{fullShare} fl))
                ∗ (tabW_c2.view.loc (Vt_c2 d L) ↦[tabS_c2.view.set]{Transfers.shareTok q 80 cc2_scratch3.sem} tab))
            ∗ (slot1M_c2.view.loc (Vt_c2 d L) ↦[slot1M_c2.view.set \ slot1M_c2.view.set]{fullShare} s))
          ∗ (tabW_c2.view.loc (Vt_c2 d L) ↦[Finset.univ \ tabS_c2.view.set]{Transfers.shareTok q 80 cc2_scratch3.sem} tab))
          ∗ ((∃ s : Buf (Elt F) (slot2M_c2.view.loc (Vt_c2 d L)),
            Transfers.Flight countersEmb (Vt_c2 d L) (SemLoc.dma cc2_scratch4.sem) (default : HIx 5) 524288
              iprop(((slot2M_c2.view.loc (Vt_c2 d L) ↦[slot2M_c2.view.set]{fullShare} s)
                  ∗ (listW_c2.view.loc (Vt_c2 d L) ↦[(rowM_c2 ![5 * g + 2, 0] (rowInb2_c2 g h)).view.set]{fullShare} fl))
                ∗ (tabW_c2.view.loc (Vt_c2 d L) ↦[tabS_c2.view.set]{Transfers.shareTok q 80 cc2_scratch4.sem} tab))
            ∗ (slot2M_c2.view.loc (Vt_c2 d L) ↦[slot2M_c2.view.set \ slot2M_c2.view.set]{fullShare} s))
          ∗ (tabW_c2.view.loc (Vt_c2 d L) ↦[Finset.univ \ tabS_c2.view.set]{Transfers.shareTok q 80 cc2_scratch4.sem} tab))
          ∗ ((∃ s : Buf (Elt F) (slot3M_c2.view.loc (Vt_c2 d L)),
            Transfers.Flight countersEmb (Vt_c2 d L) (SemLoc.dma cc2_scratch5.sem) (default : HIx 5) 524288
              iprop(((slot3M_c2.view.loc (Vt_c2 d L) ↦[slot3M_c2.view.set]{fullShare} s)
                  ∗ (listW_c2.view.loc (Vt_c2 d L) ↦[(rowM_c2 ![5 * g + 3, 0] (rowInb3_c2 g h)).view.set]{fullShare} fl))
                ∗ (tabW_c2.view.loc (Vt_c2 d L) ↦[tabS_c2.view.set]{Transfers.shareTok q 80 cc2_scratch5.sem} tab))
            ∗ (slot3M_c2.view.loc (Vt_c2 d L) ↦[slot3M_c2.view.set \ slot3M_c2.view.set]{fullShare} s))
          ∗ (tabW_c2.view.loc (Vt_c2 d L) ↦[Finset.univ \ tabS_c2.view.set]{Transfers.shareTok q 80 cc2_scratch5.sem} tab))
          ∗ ((∃ s : Buf (Elt F) (slot4M_c2.view.loc (Vt_c2 d L)),
            Transfers.Flight countersEmb (Vt_c2 d L) (SemLoc.dma cc2_scratch6.sem) (default : HIx 5) 524288
              iprop(((slot4M_c2.view.loc (Vt_c2 d L) ↦[slot4M_c2.view.set]{fullShare} s)
                  ∗ (listW_c2.view.loc (Vt_c2 d L) ↦[(rowM_c2 ![5 * g + 4, 0] (rowInb4_c2 g h)).view.set]{fullShare} fl))
                ∗ (tabW_c2.view.loc (Vt_c2 d L) ↦[tabS_c2.view.set]{Transfers.shareTok q 80 cc2_scratch6.sem} tab))
            ∗ (slot4M_c2.view.loc (Vt_c2 d L) ↦[slot4M_c2.view.set \ slot4M_c2.view.set]{fullShare} s))
          ∗ (tabW_c2.view.loc (Vt_c2 d L) ↦[Finset.univ \ tabS_c2.view.set]{Transfers.shareTok q 80 cc2_scratch6.sem} tab))
          ∗ (listW_c2.view.loc (Vt_c2 d L) ↦[((((Finset.univ \ (rowM_c2 ![5 * g + 0, 0] (rowInb0_c2 g h)).view.set) \ (rowM_c2 ![5 * g + 1, 0] (rowInb1_c2 g h)).view.set)
              \ (rowM_c2 ![5 * g + 2, 0] (rowInb2_c2 g h)).view.set) \ (rowM_c2 ![5 * g + 3, 0] (rowInb3_c2 g h)).view.set) \ (rowM_c2 ![5 * g + 4, 0] (rowInb4_c2 g h)).view.set]{fullShare} fl))
      else
        iprop(((tabW_c2.view.loc (Vt_c2 d L) ↦{Transfers.shareTok q 80 cc2_scratch2.sem} tab) ∗ semVal (Vt_c2 d L, SemLoc.dma cc2_scratch2.sem) 0
          ∗ (∃ s : Buf (Elt F) (slot0M_c2.view.loc (Vt_c2 d L)), slot0M_c2.view.loc (Vt_c2 d L) ↦[slot0M_c2.view.set]{fullShare} s))
          ∗ ((tabW_c2.view.loc (Vt_c2 d L) ↦{Transfers.shareTok q 80 cc2_scratch3.sem} tab) ∗ semVal (Vt_c2 d L, SemLoc.dma cc2_scratch3.sem) 0
          ∗ (∃ s : Buf (Elt F) (slot1M_c2.view.loc (Vt_c2 d L)), slot1M_c2.view.loc (Vt_c2 d L) ↦[slot1M_c2.view.set]{fullShare} s))
          ∗ ((tabW_c2.view.loc (Vt_c2 d L) ↦{Transfers.shareTok q 80 cc2_scratch4.sem} tab) ∗ semVal (Vt_c2 d L, SemLoc.dma cc2_scratch4.sem) 0
          ∗ (∃ s : Buf (Elt F) (slot2M_c2.view.loc (Vt_c2 d L)), slot2M_c2.view.loc (Vt_c2 d L) ↦[slot2M_c2.view.set]{fullShare} s))
          ∗ ((tabW_c2.view.loc (Vt_c2 d L) ↦{Transfers.shareTok q 80 cc2_scratch5.sem} tab) ∗ semVal (Vt_c2 d L, SemLoc.dma cc2_scratch5.sem) 0
          ∗ (∃ s : Buf (Elt F) (slot3M_c2.view.loc (Vt_c2 d L)), slot3M_c2.view.loc (Vt_c2 d L) ↦[slot3M_c2.view.set]{fullShare} s))
          ∗ ((tabW_c2.view.loc (Vt_c2 d L) ↦{Transfers.shareTok q 80 cc2_scratch6.sem} tab) ∗ semVal (Vt_c2 d L, SemLoc.dma cc2_scratch6.sem) 0
          ∗ (∃ s : Buf (Elt F) (slot4M_c2.view.loc (Vt_c2 d L)), slot4M_c2.view.loc (Vt_c2 d L) ↦[slot4M_c2.view.set]{fullShare} s))
          ∗ (listW_c2.view.loc (Vt_c2 d L) ↦{fullShare} fl))))

/-! ## One trip -/

set_option maxHeartbeats 4000000 in
theorem trip0_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view fl x) < 1000000)
    (v2 : BitVec 32) (k : Fin k2_t1_loop.trips) (acc : PUnit) :
    inv0_c2 d L q O W tab fl k.val acc
      ⊢ wp frame (wpE (defs₀ (F := F)) 𝒱₀ (Vt_c2 d L) none) Set.univ
          (k2_t1_body L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0 v2 k acc)
          (inv0_c2 d L q O W tab fl (k.val + 1)) := by
  have hk8 : k.val < 8 := trips_eq_c2 ▸ k.isLt
  unfold inv0_c2
  rw [dif_pos hk8]
  by_cases hk : k.val < 7
  · obtain ⟨hc1, hc2, hc3, hc4, hc5⟩ := conds_lt_c2 k hk
    rw [dif_pos (show k.val + 1 < 8 by omega)]
    unfold k2_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    rw [rowSet_congr_c2 d L (off4_c2 k) (k2_off4_inb k hc1) (rowInb0_c2 (k.val + 1) (by omega)), rowSet_congr_c2 d L (off5_c2 k) (k2_off5_inb k hc2) (rowInb1_c2 (k.val + 1) (by omega)),
      rowSet_congr_c2 d L (off6_c2 k) (k2_off6_inb k hc3) (rowInb2_c2 (k.val + 1) (by omega)), rowSet_congr_c2 d L (off7_c2 k) (k2_off7_inb k hc4) (rowInb3_c2 (k.val + 1) (by omega)),
      rowSet_congr_c2 d L (off8_c2 k) (k2_off8_inb k hc5) (rowInb4_c2 (k.val + 1) (by omega))]
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    sl_close
  · obtain ⟨hc1, hc2, hc3, hc4, hc5⟩ := conds_last_c2 k hk
    rw [dif_neg (show ¬ k.val + 1 < 8 by omega)]
    unfold k2_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    sl_close

end Cert.KernelIdeal.Hand

end
-- ==== Proof.Tile2.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.Tile2a

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c2 (d : Dev nD) (L : grid2.Coords) (q : PosShare TreeShare) (O : CellTallies nD τ sig (HIx 5)) (W : Waits sig (HIx 5))
    (tab : Buf (Elt F) (tabW_c2.view.loc (Vt_c2 d L))) (I : Buf (Elt F) ((idxBlkM_c2 L).view.loc (Vt_c2 d L)))
    (hI : ∀ z ∈ (idxBlkM_c2 L).view.set, BitVec.toNat (I z) < 1000000)
    (g0 : Buf (Elt F) (listW_c2.view.loc (Vt_c2 d L))) (r : Buf (Elt F) (ringW_c2.view.loc (Vt_c2 d L)))
    (f : Buf (Elt F) (outW_c2.view.loc (Vt_c2 d L))) :
    (iprop(Transfers.MayWaits (Vt_c2 d L) (default : HIx 5) O
        ∗ (tabW_c2.view.loc (Vt_c2 d L) ↦{Transfers.shareTok q 80 cc2_scratch2.sem} tab)
        ∗ (tabW_c2.view.loc (Vt_c2 d L) ↦{Transfers.shareTok q 80 cc2_scratch3.sem} tab)
        ∗ (tabW_c2.view.loc (Vt_c2 d L) ↦{Transfers.shareTok q 80 cc2_scratch4.sem} tab)
        ∗ (tabW_c2.view.loc (Vt_c2 d L) ↦{Transfers.shareTok q 80 cc2_scratch5.sem} tab)
        ∗ (tabW_c2.view.loc (Vt_c2 d L) ↦{Transfers.shareTok q 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok q 80 cc2_scratch2.sem} tab)
            ∗ (tabW_c2.view.loc (Vt_c2 d L) ↦{Transfers.shareTok q 80 cc2_scratch3.sem} tab)
            ∗ (tabW_c2.view.loc (Vt_c2 d L) ↦{Transfers.shareTok q 80 cc2_scratch4.sem} tab)
            ∗ (tabW_c2.view.loc (Vt_c2 d L) ↦{Transfers.shareTok q 80 cc2_scratch5.sem} tab)
            ∗ (tabW_c2.view.loc (Vt_c2 d L) ↦{Transfers.shareTok q 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ (∃ f' : Buf (Elt F) (outW_c2.view.loc (Vt_c2 d L)), outW_c2.view.loc (Vt_c2 d L) ↦[outW_c2.view.setOn (outWinR_c2 L).set]{fullShare} f')) := by
  have hin := list_words_c2 d L I g0 hI
  rw [cc2_gather_k_eq_skeleton]; unfold cc2_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c2 d L q O W tab (View.write (Elt F) listW_c2.view g0 (ReadAs.same.apply (View.read (Elt F) (idxBlkM_c2 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c2 d L q O W tab _ hin _ k acc
  · unfold inv0_c2
    rw [dif_pos (show 0 < 8 by decide)]
    ihave HO' := (owesW_intro_c2 (W := W) (ins_none_c2 (fun p hp => Or.inl hp) _)) $$ HO
    sl_close
  iintro %acc HI
  unfold inv0_c2
  rw [dif_neg (show ¬ k2_t1_loop.trips < 8 by rw [trips_eq_c2]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.KernelIdeal.Hand

end
-- ==== Proof.Tile2Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.Tile2a
import proofs.«206421_g46840913330738_cont_8to1c4_247_26_alg».proof.Proof.Tile2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c2 : Fin 11 → DmaSem sig :=
  ![cc2_scratch2.sem, cc2_scratch3.sem, cc2_scratch4.sem, cc2_scratch5.sem, cc2_scratch6.sem, cc2_scratch7.sem,
    cc2_scratch8.sem, cc2_scratch9.sem, cc2_scratch10.sem, cc2_scratch11.sem, cc2_scoped0.sem]

theorem sems0_inj_c2 : Function.Injective sems0_c2 := by decide

/-- The k-th of them on the subcore at (c, i) of device d. -/
abbrev dcell0_c2 (d : Dev nD) (c : Fin τ.nSC) (i : Fin τ.nSub) (k : Fin 11) : GSem nD τ sig := (V d c i, .dma (sems0_c2 k))

theorem dcell0_mem_c2 (d : Dev nD) (c : Fin τ.nSC) (i : Fin τ.nSub) (k : Fin 11) : dcell0_c2 d c i k ∈ ownCells (V d c i) :=
  mem_ownCells.mpr ⟨rfl, (show ∀ s : DmaSem sig, (SemLoc.dma s : SemLoc sig).isScoped .scVector = true by decide) _⟩

/-- The eleven cells, each at zero. -/
def cells0_c2 (d : Dev nD) (L : grid2.Coords) : sProp (MM F) :=
  iprop(semVal (Vt_c2 d L, SemLoc.dma cc2_scratch2.sem) 0 ∗ semVal (Vt_c2 d L, SemLoc.dma cc2_scratch3.sem) 0
    ∗ semVal (Vt_c2 d L, SemLoc.dma cc2_scratch4.sem) 0 ∗ semVal (Vt_c2 d L, SemLoc.dma cc2_scratch5.sem) 0
    ∗ semVal (Vt_c2 d L, SemLoc.dma cc2_scratch6.sem) 0 ∗ semVal (Vt_c2 d L, SemLoc.dma cc2_scratch7.sem) 0
    ∗ semVal (Vt_c2 d L, SemLoc.dma cc2_scratch8.sem) 0 ∗ semVal (Vt_c2 d L, SemLoc.dma cc2_scratch9.sem) 0
    ∗ semVal (Vt_c2 d L, SemLoc.dma cc2_scratch10.sem) 0 ∗ semVal (Vt_c2 d L, SemLoc.dma cc2_scratch11.sem) 0
    ∗ semVal (Vt_c2 d L, SemLoc.dma cc2_scoped0.sem) 0)

/-- The subcore's own cells at zero: the eleven the kernel function names, and the rest. -/
theorem ownSems0_V0_c2 (d : Dev nD) (L : grid2.Coords) :
    (ownSems0 (Vt_c2 d L) : sProp (MM F))
      = iprop(cells0_c2 d L ∗ bigSep ((ownCells (Vt_c2 d L)) \ Finset.univ.image (dcell0_c2 d (cV2 L) (jV2 L))) fun g => semVal g 0) := by
  unfold SparseCore.Cfg.ownSems0
  rw [SparseCore.bigSep_sdiff_split' (t := Finset.univ.image (dcell0_c2 d (cV2 L) (jV2 L)))
      (Finset.image_subset_iff.mpr fun k _ => dcell0_mem_c2 d (cV2 L) (jV2 L) k),
    SparseCore.bigSep_image_of_injOn (fun a _ b _ h => sems0_inj_c2 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c2 (d : Dev nD) (L : grid2.Coords) :
    (ownBufs (Vt_c2 d L) : sProp (MM F))
      = iprop((∃ f, (Vt_c2 d L).loc cc2_scratch0 ↦{fullShare} f) ∗ (∃ f, (Vt_c2 d L).loc cc2_scratch1 ↦{fullShare} f)
          ∗ bigSep (((ownRefs (τ := τ) (.scVector (cV2 L) (jV2 L))).erase ((Proc.scVector (cV2 L) (jV2 L)).devRef cc2_scratch0)).erase
              ((Proc.scVector (cV2 L) (jV2 L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩)]

/-! ## The dealt pieces in the body's spelling -/

theorem pts_idx0_c2 (d : Dev nD) (L : grid2.Coords) (I : Buf (Elt F) (idxLoc2 d)) :
    ((idxBlkM_c2 L).view.loc (Vt_c2 d L) ↦[(idxBlkM_c2 L).view.set]{fullShare} I : sProp (MM F)) = idxLoc2 d ↦[idxRows2 d L]{fullShare} I := by
  rw [set_idxBlkM_c2 d L]

theorem setOn_out0_c2 (d : Dev nD) (L : grid2.Coords) :
    (outW_c2.view.setOn (outWinR_c2 L).set : Finset (Idx (outW_c2.view.loc (Vt_c2 d L)))) = outRows2 d L := by
  show Finset.map (Function.Embedding.refl _) (outWinR_c2 L).set = _
  rw [Finset.map_refl, outWinR_eq_c2]; rfl

theorem pts_out0_c2 (d : Dev nD) (L : grid2.Coords) (f : Buf (Elt F) (outLoc2 d)) :
    (outW_c2.view.loc (Vt_c2 d L) ↦[outW_c2.view.setOn (outWinR_c2 L).set]{fullShare} f : sProp (MM F)) = outLoc2 d ↦[outRows2 d L]{fullShare} f := by
  rw [setOn_out0_c2 d L]

/-- The read tokens of the table other than the five gather cells'. -/
abbrev otherToks0_c2 : Finset (Fin 80) :=
  ((((Finset.univ.erase cc2_scratch2.sem).erase cc2_scratch3.sem).erase cc2_scratch4.sem).erase cc2_scratch5.sem).erase cc2_scratch6.sem

/-- The subcore's read share of the table as one read token per cell: the five gather cells', and the remainder with
    the other cells' tokens. -/
theorem tabToks0_c2 (d : Dev nD) (L : grid2.Coords) (q : PosShare TreeShare) (tab : Buf (Elt F) (tabLoc2 d)) :
    (tabLoc2 d ↦[Finset.univ]{q} tab : sProp (MM F)) ⊣⊢ iprop((tabLoc2 d ↦[Finset.univ]{Transfers.shareDrop q 80} tab)
      ∗ (tabW_c2.view.loc (Vt_c2 d L) ↦{Transfers.shareTok q 80 cc2_scratch2.sem} tab)
      ∗ (tabW_c2.view.loc (Vt_c2 d L) ↦{Transfers.shareTok q 80 cc2_scratch3.sem} tab)
      ∗ (tabW_c2.view.loc (Vt_c2 d L) ↦{Transfers.shareTok q 80 cc2_scratch4.sem} tab)
      ∗ (tabW_c2.view.loc (Vt_c2 d L) ↦{Transfers.shareTok q 80 cc2_scratch5.sem} tab)
      ∗ (tabW_c2.view.loc (Vt_c2 d L) ↦{Transfers.shareTok q 80 cc2_scratch6.sem} tab)
      ∗ bigSep otherToks0_c2 fun i => (tabLoc2 d ↦[Finset.univ]{Transfers.shareTok q 80 i} tab : sProp (MM F))) := by
  have h := Transfers.pointsTo_toks (Ix := HIx 5) (Name := ℕ) (U := UU) (Lvl := ℕ) (ℓ := tabLoc2 d) (S := Finset.univ) (f := tab) q 80
  rw [SparseCore.bigSep_erase' (Finset.mem_univ (cc2_scratch2.sem : Fin 80)),
    SparseCore.bigSep_erase' (Finset.mem_erase.mpr ⟨(by decide : (cc2_scratch3.sem : Fin 80) ≠ cc2_scratch2.sem), Finset.mem_univ _⟩),
    SparseCore.bigSep_erase' (Finset.mem_erase.mpr ⟨(by decide : (cc2_scratch4.sem : Fin 80) ≠ cc2_scratch3.sem),
      Finset.mem_erase.mpr ⟨(by decide : (cc2_scratch4.sem : Fin 80) ≠ cc2_scratch2.sem), Finset.mem_univ _⟩⟩),
    SparseCore.bigSep_erase' (Finset.mem_erase.mpr ⟨(by decide : (cc2_scratch5.sem : Fin 80) ≠ cc2_scratch4.sem),
      Finset.mem_erase.mpr ⟨(by decide : (cc2_scratch5.sem : Fin 80) ≠ cc2_scratch3.sem),
        Finset.mem_erase.mpr ⟨(by decide : (cc2_scratch5.sem : Fin 80) ≠ cc2_scratch2.sem), Finset.mem_univ _⟩⟩⟩),
    SparseCore.bigSep_erase' (Finset.mem_erase.mpr ⟨(by decide : (cc2_scratch6.sem : Fin 80) ≠ cc2_scratch5.sem),
      Finset.mem_erase.mpr ⟨(by decide : (cc2_scratch6.sem : Fin 80) ≠ cc2_scratch4.sem),
        Finset.mem_erase.mpr ⟨(by decide : (cc2_scratch6.sem : Fin 80) ≠ cc2_scratch3.sem),
          Finset.mem_erase.mpr ⟨(by decide : (cc2_scratch6.sem : Fin 80) ≠ cc2_scratch2.sem), Finset.mem_univ _⟩⟩⟩⟩)] at h
  exact h

/-! ## The ring scratch as its five slots -/

theorem unit_congr2_c2 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c2 {κ : Kind} {sp : Space} {s : Shape} {e : EltTy} (v : View sig κ sp s e) {R R' : Rect s} (h : R = R') :
    (v.slice R).set = (v.slice R').set := by
  subst h; rfl

/-- Row k of the ring along its leading axis. -/
abbrev ringRow_c2 (d : Dev nD) (L : grid2.Coords) (k : Fin 5) : Finset (Idx (ringW_c2.view.loc (Vt_c2 d L))) :=
  ((View.whole cc2_scratch1 : View sig .scVector .vmem S5x128x128 .f32).slice (S5x128x128.rowRect 0 k)).set

theorem slot0_set_c2 (d : Dev nD) (L : grid2.Coords) : (slot0M_c2.view.set : Finset (Idx (ringW_c2.view.loc (Vt_c2 d L)))) = ringRow_c2 d L 0 := by
  show (((View.whole cc2_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot1_set_c2 (d : Dev nD) (L : grid2.Coords) : (slot1M_c2.view.set : Finset (Idx (ringW_c2.view.loc (Vt_c2 d L)))) = ringRow_c2 d L 1 := by
  show (((View.whole cc2_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot2_set_c2 (d : Dev nD) (L : grid2.Coords) : (slot2M_c2.view.set : Finset (Idx (ringW_c2.view.loc (Vt_c2 d L)))) = ringRow_c2 d L 2 := by
  show (((View.whole cc2_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot3_set_c2 (d : Dev nD) (L : grid2.Coords) : (slot3M_c2.view.set : Finset (Idx (ringW_c2.view.loc (Vt_c2 d L)))) = ringRow_c2 d L 3 := by
  show (((View.whole cc2_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot4_set_c2 (d : Dev nD) (L : grid2.Coords) : (slot4M_c2.view.set : Finset (Idx (ringW_c2.view.loc (Vt_c2 d L)))) = ringRow_c2 d L 4 := by
  show (((View.whole cc2_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)

/-- Five functions on the ring's rows, over the five rows, as the five slots each at its own function. -/
theorem ring_rows0_c2 (d : Dev nD) (L : grid2.Coords) (s : Fin 5 → Buf (Elt F) (ringW_c2.view.loc (Vt_c2 d L))) :
    (bigSep (Finset.univ : Finset (Fin 5)) fun k => (ringW_c2.view.loc (Vt_c2 d L) ↦[ringRow_c2 d L k]{fullShare} s k : sProp (MM F)))
      = iprop((slot0M_c2.view.loc (Vt_c2 d L) ↦[slot0M_c2.view.set]{fullShare} s 0)
        ∗ (slot1M_c2.view.loc (Vt_c2 d L) ↦[slot1M_c2.view.set]{fullShare} s 1)
        ∗ (slot2M_c2.view.loc (Vt_c2 d L) ↦[slot2M_c2.view.set]{fullShare} s 2)
        ∗ (slot3M_c2.view.loc (Vt_c2 d L) ↦[slot3M_c2.view.set]{fullShare} s 3)
        ∗ (slot4M_c2.view.loc (Vt_c2 d L) ↦[slot4M_c2.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c2 d L, slot1_set_c2 d L, slot2_set_c2 d L, slot3_set_c2 d L, slot4_set_c2 d L]

/-- The ring whole at one function is its five slots at that function. -/
theorem ring_split0_c2 (d : Dev nD) (L : grid2.Coords) (r : Buf (Elt F) (ringW_c2.view.loc (Vt_c2 d L))) :
    ((Vt_c2 d L).loc cc2_scratch1 ↦{fullShare} r : sProp (MM F))
      = iprop((slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)) := by
  rw [← ring_rows0_c2 d L (fun _ => r)]
  have h := pointsTo_rows (Ix := HIx 5) (Name := ℕ) (U := UU) (Lvl := ℕ) (Val := Elt F) (Vt_c2 d L)
    (View.whole cc2_scratch1 : View sig .scVector .vmem S5x128x128 .f32) 0 fullShare r
  rw [View.set_whole] at h
  exact h

/-- The five slots, each at some function, are the ring whole at some function. -/
theorem ring_join0_c2 (d : Dev nD) (L : grid2.Coords) (s : Fin 5 → Buf (Elt F) (ringW_c2.view.loc (Vt_c2 d L))) :
    iprop((slot0M_c2.view.loc (Vt_c2 d L) ↦[slot0M_c2.view.set]{fullShare} s 0)
        ∗ (slot1M_c2.view.loc (Vt_c2 d L) ↦[slot1M_c2.view.set]{fullShare} s 1)
        ∗ (slot2M_c2.view.loc (Vt_c2 d L) ↦[slot2M_c2.view.set]{fullShare} s 2)
        ∗ (slot3M_c2.view.loc (Vt_c2 d L) ↦[slot3M_c2.view.set]{fullShare} s 3)
        ∗ (slot4M_c2.view.loc (Vt_c2 d L) ↦[slot4M_c2.view.set]{fullShare} s 4))
      ⊢ (iprop(∃ f, (Vt_c2 d L).loc cc2_scratch1 ↦{fullShare} f) : sProp (MM F)) := by
  rw [← ring_rows0_c2 d L s]
  refine (pointsTo_biUnion_join (Ix := HIx 5) (Name := ℕ) (U := UU) (Lvl := ℕ) (ℓ := ringW_c2.view.loc (Vt_c2 d L)) (q := fullShare)
    Finset.univ (fun k : Fin 5 => ringRow_c2 d L k) s (s 0)
    (fun k _ k' _ h => (View.whole cc2_scratch1 : View sig .scVector .vmem S5x128x128 .f32).disjoint_rows 0 h)).trans ?_
  iintro ⟨%g, -, H⟩
  iexists g
  have e : (Finset.univ : Finset (Fin 5)).biUnion (fun k => ringRow_c2 d L k) = (Finset.univ : Finset (Idx (ringW_c2.view.loc (Vt_c2 d L)))) := by
    rw [← View.set_whole (cc2_scratch1 : Ref sig .scVector)]
    exact ((View.whole cc2_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c2 (d : Dev nD) (L : grid2.Coords) (tab : Buf (Elt F) (tabLoc2 d)) (I : Buf (Elt F) (idxLoc2 d))
    (f : Buf (Elt F) (outLoc2 d)) (hF : (K (F := F)).Facts) (hI : ∀ x ∈ idxRows2 d L, BitVec.toNat (I x) < 1000000)
    (O : CellTallies nD τ sig (HIx 5)) (W : Waits sig (HIx 5)) (hO : ∀ g, O g none = 0) (outP outQ : sProp (MM F))
    (hrun : ∀ (g0 : Buf (Elt F) (listW_c2.view.loc (Vt_c2 d L))) (r : Buf (Elt F) (ringW_c2.view.loc (Vt_c2 d L))),
      (iprop(Transfers.MayWaits (Vt_c2 d L) (default : HIx 5) O
        ∗ (tabW_c2.view.loc (Vt_c2 d L) ↦{Transfers.shareTok (Transfers.shareTok fullShare 32 ⟨wid2 L, wid_lt2 L⟩) 80 cc2_scratch2.sem} tab)
        ∗ (tabW_c2.view.loc (Vt_c2 d L) ↦{Transfers.shareTok (Transfers.shareTok fullShare 32 ⟨wid2 L, wid_lt2 L⟩) 80 cc2_scratch3.sem} tab)
        ∗ (tabW_c2.view.loc (Vt_c2 d L) ↦{Transfers.shareTok (Transfers.shareTok fullShare 32 ⟨wid2 L, wid_lt2 L⟩) 80 cc2_scratch4.sem} tab)
        ∗ (tabW_c2.view.loc (Vt_c2 d L) ↦{Transfers.shareTok (Transfers.shareTok fullShare 32 ⟨wid2 L, wid_lt2 L⟩) 80 cc2_scratch5.sem} tab)
        ∗ (tabW_c2.view.loc (Vt_c2 d L) ↦{Transfers.shareTok (Transfers.shareTok fullShare 32 ⟨wid2 L, wid_lt2 L⟩) 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok (Transfers.shareTok fullShare 32 ⟨wid2 L, wid_lt2 L⟩) 80 cc2_scratch2.sem} tab)
            ∗ (tabW_c2.view.loc (Vt_c2 d L) ↦{Transfers.shareTok (Transfers.shareTok fullShare 32 ⟨wid2 L, wid_lt2 L⟩) 80 cc2_scratch3.sem} tab)
            ∗ (tabW_c2.view.loc (Vt_c2 d L) ↦{Transfers.shareTok (Transfers.shareTok fullShare 32 ⟨wid2 L, wid_lt2 L⟩) 80 cc2_scratch4.sem} tab)
            ∗ (tabW_c2.view.loc (Vt_c2 d L) ↦{Transfers.shareTok (Transfers.shareTok fullShare 32 ⟨wid2 L, wid_lt2 L⟩) 80 cc2_scratch5.sem} tab)
            ∗ (tabW_c2.view.loc (Vt_c2 d L) ↦{Transfers.shareTok (Transfers.shareTok fullShare 32 ⟨wid2 L, wid_lt2 L⟩) 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ outP))
    (hclose : outP ⊢ outQ) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(((tabLoc2 d ↦[Finset.univ]{Transfers.shareTok fullShare 32 ⟨wid2 L, wid_lt2 L⟩} tab)
              ∗ (idxLoc2 d ↦[idxRows2 d L]{fullShare} I) ∗ outQ)
            ∗ scopedBufs (Vt_c2 d L) ∗ scopedSems0 (Vt_c2 d L)
            ∗ ∃ W', ⌜∀ p ∈ W', p ∈ W ∨ p.2 = none⌝ ∗ owes (Vt_c2 d L) O W') := by
  rw [(K (F := F)).scopedBufs_V hF d (cV2 L) (jV2 L), SparseCore.Cfg.scopedSems0_V (Val := Elt F) d (cV2 L) (jV2 L), ownSems0_V0_c2, ownBufs_V0_c2]
  unfold goRes2 cells0_c2
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c2 d L) hO) $$ Hlv
  ihave Htoks := (tabToks0_c2 (F := F) d L (Transfers.shareTok fullShare 32 ⟨wid2 L, wid_lt2 L⟩) tab).1 $$ Htab
  icases Htoks with ⟨Hdrop, Ht0, Ht1, Ht2, Ht3, Ht4, Hother⟩
  ihave Hidx' := (Entails.of_eq (pts_idx0_c2 (F := F) d L I).symm) $$ Hidx
  ihave Hout' := (Entails.of_eq (pts_out0_c2 (F := F) d L f).symm) $$ Hout
  ihave Hring := (Entails.of_eq (ring_split0_c2 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c2 d L) none) Set.univ
    (R := iprop((tabLoc2 d ↦[Finset.univ]{Transfers.shareDrop (Transfers.shareTok fullShare 32 ⟨wid2 L, wid_lt2 L⟩) 80} tab)
      ∗ (bigSep otherToks0_c2 fun i => (tabLoc2 d ↦[Finset.univ]{Transfers.shareTok (Transfers.shareTok fullShare 32 ⟨wid2 L, wid_lt2 L⟩) 80 i} tab : sProp (MM F)))
      ∗ (bigSep (((ownRefs (τ := τ) (.scVector (cV2 L) (jV2 L))).erase ((Proc.scVector (cV2 L) (jV2 L)).devRef cc2_scratch0)).erase
              ((Proc.scVector (cV2 L) (jV2 L)).devRef cc2_scratch1))
              fun b => iprop(∃ f, ((d, b) : Loc nD τ sig) ↦{fullShare} f))
      ∗ (bigSep ((ownCells (Vt_c2 d L)) \ Finset.univ.image (dcell0_c2 d (cV2 L) (jV2 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c2 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c2 (F := F) d L (Transfers.shareTok fullShare 32 ⟨wid2 L, wid_lt2 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c2 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c2 $$ HOw
  ihave Hq := hclose $$ Hout
  isplitl [Htab Hidx Hq]
  · isplitl [Htab]; · iexact Htab
    isplitl [Hidx]; · iapply (Entails.of_eq (pts_idx0_c2 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c2 (d : Dev nD) (L : grid2.Coords) :
    (iprop(∃ f' : Buf (Elt F) (outW_c2.view.loc (Vt_c2 d L)), outW_c2.view.loc (Vt_c2 d L) ↦[outW_c2.view.setOn (outWinR_c2 L).set]{fullShare} f') : sProp (MM F))
      ⊢ iprop(∃ f' : Buf (Elt F) (outLoc2 d), outLoc2 d ↦[outRows2 d L]{fullShare} f') := by
  iintro ⟨%f', H⟩
  iexists f'
  iapply (Entails.of_eq (pts_out0_c2 (F := F) d L f')); iexact H

/-- Rows the run leaves at contents that are the gathered rows on the subcore's rows are those rows at the gathered
    rows. -/
theorem out_valued0_c2 (d : Dev nD) (L : grid2.Coords) (tab : Buf (Elt F) (tabLoc2 d)) (I : Buf (Elt F) (idxLoc2 d)) :
    (iprop(∃ f' : Buf (Elt F) (outW_c2.view.loc (Vt_c2 d L)), (outW_c2.view.loc (Vt_c2 d L) ↦[outW_c2.view.setOn (outWinR_c2 L).set]{fullShare} f')
        ∗ ⌜∀ x : S163840x128.Idx, 5120 * wid2 L ≤ (x 0).val ∧ (x 0).val < 5120 * wid2 L + 5120 → f' x = gathered2 (d := d) tab I x⌝) : sProp (MM F))
      ⊢ (outLoc2 d ↦[outRows2 d L]{fullShare} gathered2 (d := d) tab I) := by
  iintro ⟨%f', H, %hf⟩
  have e : (outW_c2.view.loc (Vt_c2 d L) ↦[outW_c2.view.setOn (outWinR_c2 L).set]{fullShare} f' : sProp (MM F))
      = (outLoc2 d ↦[outRows2 d L]{fullShare} gathered2 (d := d) tab I) := by
    rw [pts_out0_c2 (F := F) d L f']
    exact pointsTo_congr (fun x hx => hf x ((mem_outRows2 d L x).mp hx))
  iapply (Entails.of_eq e); iexact H

/-! ## The task as the launch theorem's obligation consumes it -/

/-- The body's run with the gathered rows named: the statement of the run with, of the subcore's rows of the gathered
    array, contents that are the gathered rows on those rows. -/
def TileRunV0_c2 (F : FTy → Type) [FloatOps F] : Prop :=
  ∀ (d : Dev nD) (L : grid2.Coords) (q : PosShare TreeShare) (O : CellTallies nD τ sig (HIx 5)) (W : Waits sig (HIx 5))
    (tab : Buf (Elt F) (tabW_c2.view.loc (Vt_c2 d L))) (I : Buf (Elt F) ((idxBlkM_c2 L).view.loc (Vt_c2 d L)))
    (hI : ∀ z ∈ (idxBlkM_c2 L).view.set, BitVec.toNat (I z) < 1000000)
    (g0 : Buf (Elt F) (listW_c2.view.loc (Vt_c2 d L))) (r : Buf (Elt F) (ringW_c2.view.loc (Vt_c2 d L)))
    (f : Buf (Elt F) (outW_c2.view.loc (Vt_c2 d L))),
    (iprop(Transfers.MayWaits (Vt_c2 d L) (default : HIx 5) O
        ∗ (tabW_c2.view.loc (Vt_c2 d L) ↦{Transfers.shareTok q 80 cc2_scratch2.sem} tab)
        ∗ (tabW_c2.view.loc (Vt_c2 d L) ↦{Transfers.shareTok q 80 cc2_scratch3.sem} tab)
        ∗ (tabW_c2.view.loc (Vt_c2 d L) ↦{Transfers.shareTok q 80 cc2_scratch4.sem} tab)
        ∗ (tabW_c2.view.loc (Vt_c2 d L) ↦{Transfers.shareTok q 80 cc2_scratch5.sem} tab)
        ∗ (tabW_c2.view.loc (Vt_c2 d L) ↦{Transfers.shareTok q 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok q 80 cc2_scratch2.sem} tab)
            ∗ (tabW_c2.view.loc (Vt_c2 d L) ↦{Transfers.shareTok q 80 cc2_scratch3.sem} tab)
            ∗ (tabW_c2.view.loc (Vt_c2 d L) ↦{Transfers.shareTok q 80 cc2_scratch4.sem} tab)
            ∗ (tabW_c2.view.loc (Vt_c2 d L) ↦{Transfers.shareTok q 80 cc2_scratch5.sem} tab)
            ∗ (tabW_c2.view.loc (Vt_c2 d L) ↦{Transfers.shareTok q 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ (∃ f' : Buf (Elt F) (outW_c2.view.loc (Vt_c2 d L)), (outW_c2.view.loc (Vt_c2 d L) ↦[outW_c2.view.setOn (outWinR_c2 L).set]{fullShare} f')
                ∗ ⌜∀ x : S163840x128.Idx, 5120 * wid2 L ≤ (x 0).val ∧ (x 0).val < 5120 * wid2 L + 5120 → f' x = gathered2 (d := d) tab I x⌝))

/-- THE TASK, with the gathered rows: what the launch theorem's obligation for the call consumes, from the run with
    the gathered rows named. -/
theorem tile_body0_of_c2 (hrun : TileRunV0_c2 F) (d : Dev nD) (L : grid2.Coords) (tab : Buf (Elt F) (tabLoc2 d)) (I : Buf (Elt F) (idxLoc2 d))
    (f : Buf (Elt F) (outLoc2 d)) (hF : (K (F := F)).Facts) (hI : ∀ x ∈ idxRows2 d L, BitVec.toNat (I x) < 1000000)
    (O : CellTallies nD τ sig (HIx 5)) (W : Waits sig (HIx 5)) (hO : ∀ g, O g none = 0) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(tdRes2 d L tab I ∗ scopedBufs (Vt_c2 d L) ∗ scopedSems0 (Vt_c2 d L)
            ∗ ∃ W', ⌜∀ p ∈ W', p ∈ W ∨ p.2 = none⌝ ∗ owes (Vt_c2 d L) O W') := by
  unfold tdRes2
  exact tile_wrap0_c2 d L tab I f hF hI O W hO _ _
    (fun g0 r => hrun d L _ O W tab I (fun z hz => hI z (set_idxBlkM_c2 d L ▸ hz)) g0 r f) (out_valued0_c2 d L tab I)

/-- THE TASK, the rows at some contents: from the run as proved, which does not name what it gathers. -/
theorem tile_frame0_c2 (d : Dev nD) (L : grid2.Coords) (tab : Buf (Elt F) (tabLoc2 d)) (I : Buf (Elt F) (idxLoc2 d))
    (f : Buf (Elt F) (outLoc2 d)) (hF : (K (F := F)).Facts) (hI : ∀ x ∈ idxRows2 d L, BitVec.toNat (I x) < 1000000)
    (O : CellTallies nD τ sig (HIx 5)) (W : Waits sig (HIx 5)) (hO : ∀ g, O g none = 0) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(((tabLoc2 d ↦[Finset.univ]{Transfers.shareTok fullShare 32 ⟨wid2 L, wid_lt2 L⟩} tab)
              ∗ (idxLoc2 d ↦[idxRows2 d L]{fullShare} I) ∗ ∃ f' : Buf (Elt F) (outLoc2 d), outLoc2 d ↦[outRows2 d L]{fullShare} f')
            ∗ scopedBufs (Vt_c2 d L) ∗ scopedSems0 (Vt_c2 d L)
            ∗ ∃ W', ⌜∀ p ∈ W', p ∈ W ∨ p.2 = none⌝ ∗ owes (Vt_c2 d L) O W') :=
  tile_wrap0_c2 d L tab I f hF hI O W hO _ _
    (fun g0 r => tile_run0_c2 d L _ O W tab I (fun z hz => hI z (set_idxBlkM_c2 d L ▸ hz)) g0 r f) (out_frame0_c2 d L)

end Cert.KernelIdeal.Hand

end
-- ==== Proof.Tile2k.lean ====
/-
  The value of one chunk of the first gather call.

  The subcore's list scratch holds its block of the index array: word (c, x) of the scratch is word (wid2, c, x) of the
  array. The gather of chunk c reads row c of the scratch as its list and lands, at row j of the ring slot, the table
  row that word (c, j) names. Row 5120 wid2 + 128 c + j of the whole-array function is the table row named by the
  index word at flat position 5120 wid2 + 128 c + j, which is word (wid2, c, j): the same row. So what a chunk's gather
  lands is its rows of the one function.
-/
import proofs.«206421_g46840913330738_cont_8to1c4_247_26_alg».proof.Proof.Tile2a
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c2 (d : Dev nD) (L : grid2.Coords) (fl : Buf (Elt F) (listW_c2.view.loc (Vt_c2 d L))) (c : ℕ) (hc : c < 40)
    (o : Fin 2 → ℕ) (h : ∀ a, o a + S1x128.size a ≤ S40x128.size a) (ho : o = ![c, 0]) (y : S128.Idx) :
    View.read (Elt F) (rowM_c2 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid2, c, x) of the index array. -/
theorem idxBlk_read0_c2 (d : Dev nD) (L : grid2.Coords) (I : Buf (Elt F) ((idxBlkM_c2 L).view.loc (Vt_c2 d L))) (z : S40x128.Idx) :
    View.read (Elt F) (idxBlkM_c2 L).view I z = I (ix3 (⟨wid2 L, wid_lt2 L⟩ : Fin 32) (z 0) (z 1)) := by
  rw [View.read_apply]
  simp only [cast_eq]
  congr 1
  show (Rect.unit (s := S32x40x128) (k2_off1 L) S1x40x128.size (k2_off1_inb L)).emb (Shape.reshapeEquiv _ z) = _
  rw [Shape.reshapeEquiv_cons_one]
  funext a
  apply Fin.ext
  rw [Rect.emb_apply]
  have e := k2_off1_eq L
  match a with
  | ⟨0, _⟩ => show k2_off1 L 0 + 1 * 0 = wid2 L; rw [e]; show 2 * (L 1).val + (L 0).val + 1 * 0 = wid2 L; unfold wid2; omega
  | ⟨1, _⟩ => show k2_off1 L 1 + 1 * (z 0).val = (z 0).val; rw [e]; show 0 + 1 * (z 0).val = (z 0).val; omega
  | ⟨2, _⟩ => show k2_off1 L 2 + 1 * (z 1).val = (z 1).val; rw [e]; show 0 + 1 * (z 1).val = (z 1).val; omega

/-- After the block copy the list scratch holds the subcore's block: word (c, x) is word (wid2, c, x) of the array. -/
theorem listFill_apply0_c2 (d : Dev nD) (L : grid2.Coords) (I : Buf (Elt F) ((idxBlkM_c2 L).view.loc (Vt_c2 d L)))
    (g0 : Buf (Elt F) (listW_c2.view.loc (Vt_c2 d L))) (z : S40x128.Idx) :
    listFill_c2 d L I g0 z = I (ix3 (⟨wid2 L, wid_lt2 L⟩ : Fin 32) (z 0) (z 1)) := by
  unfold listFill_c2
  show View.write (Elt F) listW_c2.view g0 _ Finset.univ (listW_c2.view.emb z) = _
  rw [View.write_emb_of_mem _ _ (Finset.mem_univ _)]
  simp only [cast_eq]
  exact idxBlk_read0_c2 d L I z

/-! ## What a chunk's gather lands is its rows of the whole-array function -/

/-- The flat position of word (w, c, j) of the index array. -/
theorem rowMajor_ix3_0_c2 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c2 (v : S1000000x128.Idx) : tabS_c2.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid2 + 128 c + j, column e. -/
theorem landed_eq_gathered0_c2 (d : Dev nD) (L : grid2.Coords) (tab : Buf (Elt F) (tabLoc2 d)) (I : Buf (Elt F) (idxLoc2 d))
    (g0 : Buf (Elt F) (listW_c2.view.loc (Vt_c2 d L)))
    (hI : ∀ z ∈ idxRows2 d L, BitVec.toNat (I z) < 1000000)
    (c : ℕ) (hc : c < 40)
    (hin : ∀ x : S128.Idx, BitVec.toNat (View.read (Elt F) (rowM_c2 ![c, 0] (rowInb_c2 c hc)).view (listFill_c2 d L I g0) x) < 1000000)
    (y : S128x128.Idx) (x : S163840x128.Idx)
    (hx0 : (x 0).val = 5120 * wid2 L + 128 * c + (y 0).val) (hx1 : (x 1).val = (y 1).val) :
    landed_c2 d L tab (listFill_c2 d L I g0) ![c, 0] (rowInb_c2 c hc) hin y = gathered2 tab I x := by
  rw [gathered2_apply]
  unfold landed_c2 SparseCore.gatherPayload
  rw [View.read_apply]
  simp only [cast_eq]
  congr 1
  refine (tabS_emb0_c2 _).trans ?_
  have hw : ∀ u : S128.Idx, View.read (Elt F) (rowM_c2 ![c, 0] (rowInb_c2 c hc)).view (listFill_c2 d L I g0) u
      = I (ix3 (⟨wid2 L, wid_lt2 L⟩ : Fin 32) (⟨c, hc⟩ : Fin 40) (u 0)) := fun u => by
    rw [rowM_read0_c2 d L _ c hc _ _ rfl u, listFill_apply0_c2]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll2 (fun r => gatherRow2 I r) x)).symm
    show BitVec.toNat (View.read (Elt F) (rowM_c2 ![c, 0] (rowInb_c2 c hc)).view (listFill_c2 d L I g0)
        (S128.rowMajor.symm (Fin.cast _ (y gathers_S1000000x128_S128x128.axis'))))
      = BitVec.toNat (I (S32x40x128.rowMajor.symm (Fin.cast _ (x gathersAll2.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll2.axis'))
        = ix3 (⟨wid2 L, wid_lt2 L⟩ : Fin 32) (⟨c, hc⟩ : Fin 40) (u 0) :=
      (Equiv.symm_apply_eq _).mpr (Fin.ext ((show (x gathersAll2.axis').val = 5120 * wid2 L + 128 * c + (u 0).val from by
        rw [hu0, ← hx0]; rfl).trans (rowMajor_ix3_0_c2 (⟨wid2 L, wid_lt2 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll2 (fun r => gatherRow2 I r) x ⟨1, by decide⟩ Nat.one_ne_zero).symm
    exact hx1.symm

end Cert.KernelIdeal.Hand

end
-- ==== Proof.Tile2b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.Tile2a
import proofs.«206421_g46840913330738_cont_8to1c4_247_26_alg».proof.Proof.Tile2k

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c2 (d : Dev nD) (L : grid2.Coords) (tab : Buf (Elt F) (tabW_c2.view.loc (Vt_c2 d L))) (I : Buf (Elt F) ((idxBlkM_c2 L).view.loc (Vt_c2 d L)))
    (n : ℕ) (f : Buf (Elt F) (outW_c2.view.loc (Vt_c2 d L))) : Prop :=
  ∀ x : S163840x128.Idx, 5120 * wid2 L ≤ (x 0).val → (x 0).val < 5120 * wid2 L + 128 * n → f x = gathered2 (d := d) tab I x

/-- Before trip g < 8, of the contents: the rows of the chunks before 5g hold the gathered rows, and slot b is
    to hold what the gather of chunk 5g + b lands. -/
def FactsFly_c2 (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000) (g : ℕ) (h : g < 8) (s0 s1 s2 s3 s4 : Buf (Elt F) (ringW_c2.view.loc (Vt_c2 d L))) (f : Buf (Elt F) (outW_c2.view.loc (Vt_c2 d L))) : Prop :=
  DoneUpTo_c2 d L tab I (5 * g) f
    ∧ View.read (Elt F) slot0M_c2.view s0 = landed_c2 d L tab (listFill_c2 d L I g0) ![5 * g + 0, 0] (rowInb0_c2 g h) (hin _ _)
    ∧ View.read (Elt F) slot1M_c2.view s1 = landed_c2 d L tab (listFill_c2 d L I g0) ![5 * g + 1, 0] (rowInb1_c2 g h) (hin _ _)
    ∧ View.read (Elt F) slot2M_c2.view s2 = landed_c2 d L tab (listFill_c2 d L I g0) ![5 * g + 2, 0] (rowInb2_c2 g h) (hin _ _)
    ∧ View.read (Elt F) slot3M_c2.view s3 = landed_c2 d L tab (listFill_c2 d L I g0) ![5 * g + 3, 0] (rowInb3_c2 g h) (hin _ _)
    ∧ View.read (Elt F) slot4M_c2.view s4 = landed_c2 d L tab (listFill_c2 d L I g0) ![5 * g + 4, 0] (rowInb4_c2 g h) (hin _ _)

/-- A slot written whole reads back what was written. -/
theorem read_writes_whole_c2 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c2 (d : Dev nD) (L : grid2.Coords) (tab : Buf (Elt F) (tabW_c2.view.loc (Vt_c2 d L)))
    (fl : Buf (Elt F) (listW_c2.view.loc (Vt_c2 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c2 o h).view fl x) < 1000000)
    (hin' : ∀ x : S128.Idx, BitVec.toNat (View.read (Elt F) (rowM_c2 o' h').view fl x) < 1000000) :
    landed_c2 d L tab fl o h hin = landed_c2 d L tab fl o' h' hin' := by
  subst e; rfl

/-- One chunk copied out extends what is done by that chunk. -/
theorem done_step_c2 (d : Dev nD) (L : grid2.Coords) (tab : Buf (Elt F) (tabW_c2.view.loc (Vt_c2 d L))) (I : Buf (Elt F) ((idxBlkM_c2 L).view.loc (Vt_c2 d L)))
    (n : ℕ) (o : Fin 2 → ℕ) (ho : o = ![5120 * wid2 L + 128 * n, 0])
    (hinb : ∀ a, o a + S128x128.size a ≤ S163840x128.size a)
    (f : Buf (Elt F) (outW_c2.view.loc (Vt_c2 d L))) (p : S128x128.Idx → Elt F .f32)
    (hf : DoneUpTo_c2 d L tab I n f)
    (hp : ∀ (y : S128x128.Idx) (x : S163840x128.Idx), (x 0).val = 5120 * wid2 L + 128 * n + (y 0).val → (x 1).val = (y 1).val →
      p y = gathered2 (d := d) tab I x) :
    DoneUpTo_c2 d L tab I (n + 1)
      (View.write (Elt F) (outW_c2.slice (Rect.unit (s := S163840x128) o S128x128.size hinb) (fun _ => rfl)).view f p Finset.univ) := by
  subst ho
  intro x hlo hhi
  by_cases hx : (x 0).val < 5120 * wid2 L + 128 * n
  · rw [View.write_of_not_mem]
    · exact hf x hlo hx
    · rw [View.setOn_univ]
      show x ∉ ((View.whole main_v8_scv : View sig .scVector .hbm S163840x128 .f32).slice (Rect.unit (s := S163840x128) ![5120 * wid2 L + 128 * n, 0] S128x128.size hinb)).set
      rw [View.set_slice_whole, Rect.mem_set_unit]
      intro h
      have h0 : 5120 * wid2 L + 128 * n ≤ (x 0).val := (h 0).1
      omega
  · have hmem : x ∈ (Rect.unit (s := S163840x128) ![5120 * wid2 L + 128 * n, 0] S128x128.size hinb).set := by
      rw [Rect.mem_set_unit]
      intro a
      have h1 : (x 1).val < 128 := (x 1).isLt
      fin_cases a
      · show 5120 * wid2 L + 128 * n ≤ (x 0).val ∧ (x 0).val < 5120 * wid2 L + 128 * n + 128
        omega
      · show 0 ≤ (x 1).val ∧ (x 1).val < 0 + 128
        omega
    rw [← Rect.map_emb_univ] at hmem
    obtain ⟨y, -, rfl⟩ := Finset.mem_map.mp hmem
    have e : (outW_c2.slice (Rect.unit (s := S163840x128) ![5120 * wid2 L + 128 * n, 0] S128x128.size hinb) (fun _ => rfl)).view.emb y
        = (Rect.unit (s := S163840x128) ![5120 * wid2 L + 128 * n, 0] S128x128.size hinb).emb y := rfl
    rw [← e, View.write_emb_of_mem _ _ (Finset.mem_univ y)]
    simp only [cast_eq]
    refine hp y _ ?_ ?_
    · rw [e, Rect.emb_apply]
      show 5120 * wid2 L + 128 * n + 1 * (y 0).val = 5120 * wid2 L + 128 * n + (y 0).val
      omega
    · rw [e, Rect.emb_apply]
      show 0 + 1 * (y 1).val = (y 1).val
      omega

theorem off3c_c2 (L : grid2.Coords) (k : Fin k2_t1_loop.trips) (r : Fin 5) :
    k2_off3 L k (BitVec.ofNat 32 r.val) = ![5120 * wid2 L + 128 * (5 * k.val + r.val), 0] :=
  (k2_off3_eq L k r).trans (by unfold wid2; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c2 (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000)
    (hK : ∀ (c : ℕ) (hc : c < 40) (hin' : ∀ x : S128.Idx, BitVec.toNat (View.read (Elt F) (rowM_c2 ![c, 0] (rowInb_c2 c hc)).view (listFill_c2 d L I g0) x) < 1000000)
      (y : S128x128.Idx) (x : S163840x128.Idx), (x 0).val = 5120 * wid2 L + 128 * c + (y 0).val → (x 1).val = (y 1).val →
      landed_c2 d L tab (listFill_c2 d L I g0) ![c, 0] (rowInb_c2 c hc) hin' y = gathered2 (d := d) tab I x)
    (k : Fin k2_t1_loop.trips) (hk8 : k.val < 8) (s0 s1 s2 s3 s4 : Buf (Elt F) (ringW_c2.view.loc (Vt_c2 d L))) (f : Buf (Elt F) (outW_c2.view.loc (Vt_c2 d L)))
    (hF : FactsFly_c2 d L tab I g0 hin k.val hk8 s0 s1 s2 s3 s4 f) :
    DoneUpTo_c2 d L tab I (5 * (k.val + 1))
      (View.write (Elt F) (outW_c2.slice (Rect.unit (s := S163840x128) (k2_off3 L k 4#32) S128x128.size (k2_off3_inb L k 4)) (fun _ => rfl)).view (View.write (Elt F) (outW_c2.slice (Rect.unit (s := S163840x128) (k2_off3 L k 3#32) S128x128.size (k2_off3_inb L k 3)) (fun _ => rfl)).view (View.write (Elt F) (outW_c2.slice (Rect.unit (s := S163840x128) (k2_off3 L k 2#32) S128x128.size (k2_off3_inb L k 2)) (fun _ => rfl)).view (View.write (Elt F) (outW_c2.slice (Rect.unit (s := S163840x128) (k2_off3 L k 1#32) S128x128.size (k2_off3_inb L k 1)) (fun _ => rfl)).view (View.write (Elt F) (outW_c2.slice (Rect.unit (s := S163840x128) (k2_off3 L k 0#32) S128x128.size (k2_off3_inb L k 0)) (fun _ => rfl)).view f (ReadAs.same.apply (View.read (Elt F) slot0M_c2.view s0)) Finset.univ) (ReadAs.same.apply (View.read (Elt F) slot1M_c2.view s1)) Finset.univ) (ReadAs.same.apply (View.read (Elt F) slot2M_c2.view s2)) Finset.univ) (ReadAs.same.apply (View.read (Elt F) slot3M_c2.view s3)) Finset.univ) (ReadAs.same.apply (View.read (Elt F) slot4M_c2.view s4)) Finset.univ) := by
  obtain ⟨hd, h0, h1, h2, h3, h4⟩ := hF
  have e : 5 * (k.val + 1) = 5 * k.val + 0 + 1 + 1 + 1 + 1 + 1 := by omega
  rw [e]
  refine done_step_c2 d L tab I _ _ (off3c_c2 L k 4) _ _ _ ?_ ?_
  refine done_step_c2 d L tab I _ _ (off3c_c2 L k 3) _ _ _ ?_ ?_
  refine done_step_c2 d L tab I _ _ (off3c_c2 L k 2) _ _ _ ?_ ?_
  refine done_step_c2 d L tab I _ _ (off3c_c2 L k 1) _ _ _ ?_ ?_
  refine done_step_c2 d L tab I _ _ (off3c_c2 L k 0) _ _ _ ?_ ?_
  · exact hd
  · intro y x hx0 hx1
    show View.read (Elt F) slot0M_c2.view s0 y = _
    rw [h0]; exact hK (5 * k.val + 0) (by omega) _ y x hx0 hx1
  · intro y x hx0 hx1
    show View.read (Elt F) slot1M_c2.view s1 y = _
    rw [h1]; exact hK (5 * k.val + 1) (by omega) _ y x hx0 hx1
  · intro y x hx0 hx1
    show View.read (Elt F) slot2M_c2.view s2 y = _
    rw [h2]; exact hK (5 * k.val + 2) (by omega) _ y x hx0 hx1
  · intro y x hx0 hx1
    show View.read (Elt F) slot3M_c2.view s3 y = _
    rw [h3]; exact hK (5 * k.val + 3) (by omega) _ y x hx0 hx1
  · intro y x hx0 hx1
    show View.read (Elt F) slot4M_c2.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L))) (g : ℕ) (h : g < 8) (s0 s1 s2 s3 s4 : Buf (Elt F) (ringW_c2.view.loc (Vt_c2 d L))) (f : Buf (Elt F) (outW_c2.view.loc (Vt_c2 d L))) : sProp (MM F) :=
  iprop(Transfers.MayWaits (Vt_c2 d L) (default : HIx 5) O
    ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
    ∗ owesW_c2 d L O W
    ∗ (outW_c2.view.loc (Vt_c2 d L) ↦[outW_c2.view.setOn (outWinR_c2 L).set]{fullShare} f)
    ∗ ((Transfers.Flight countersEmb (Vt_c2 d L) (SemLoc.dma cc2_scratch2.sem) (default : HIx 5) 524288
              iprop(((slot0M_c2.view.loc (Vt_c2 d L) ↦[slot0M_c2.view.set]{fullShare} s0)
                  ∗ (listW_c2.view.loc (Vt_c2 d L) ↦[(rowM_c2 ![5 * g + 0, 0] (rowInb0_c2 g h)).view.set]{fullShare} fl))
                ∗ (tabW_c2.view.loc (Vt_c2 d L) ↦[tabS_c2.view.set]{Transfers.shareTok q 80 cc2_scratch2.sem} tab))
            ∗ (slot0M_c2.view.loc (Vt_c2 d L) ↦[slot0M_c2.view.set \ slot0M_c2.view.set]{fullShare} s0))
          ∗ (tabW_c2.view.loc (Vt_c2 d L) ↦[Finset.univ \ tabS_c2.view.set]{Transfers.shareTok q 80 cc2_scratch2.sem} tab))
    ∗ ((Transfers.Flight countersEmb (Vt_c2 d L) (SemLoc.dma cc2_scratch3.sem) (default : HIx 5) 524288
              iprop(((slot1M_c2.view.loc (Vt_c2 d L) ↦[slot1M_c2.view.set]{fullShare} s1)
                  ∗ (listW_c2.view.loc (Vt_c2 d L) ↦[(rowM_c2 ![5 * g + 1, 0] (rowInb1_c2 g h)).view.set]{fullShare} fl))
                ∗ (tabW_c2.view.loc (Vt_c2 d L) ↦[tabS_c2.view.set]{Transfers.shareTok q 80 cc2_scratch3.sem} tab))
            ∗ (slot1M_c2.view.loc (Vt_c2 d L) ↦[slot1M_c2.view.set \ slot1M_c2.view.set]{fullShare} s1))
          ∗ (tabW_c2.view.loc (Vt_c2 d L) ↦[Finset.univ \ tabS_c2.view.set]{Transfers.shareTok q 80 cc2_scratch3.sem} tab))
    ∗ ((Transfers.Flight countersEmb (Vt_c2 d L) (SemLoc.dma cc2_scratch4.sem) (default : HIx 5) 524288
              iprop(((slot2M_c2.view.loc (Vt_c2 d L) ↦[slot2M_c2.view.set]{fullShare} s2)
                  ∗ (listW_c2.view.loc (Vt_c2 d L) ↦[(rowM_c2 ![5 * g + 2, 0] (rowInb2_c2 g h)).view.set]{fullShare} fl))
                ∗ (tabW_c2.view.loc (Vt_c2 d L) ↦[tabS_c2.view.set]{Transfers.shareTok q 80 cc2_scratch4.sem} tab))
            ∗ (slot2M_c2.view.loc (Vt_c2 d L) ↦[slot2M_c2.view.set \ slot2M_c2.view.set]{fullShare} s2))
          ∗ (tabW_c2.view.loc (Vt_c2 d L) ↦[Finset.univ \ tabS_c2.view.set]{Transfers.shareTok q 80 cc2_scratch4.sem} tab))
    ∗ ((Transfers.Flight countersEmb (Vt_c2 d L) (SemLoc.dma cc2_scratch5.sem) (default : HIx 5) 524288
              iprop(((slot3M_c2.view.loc (Vt_c2 d L) ↦[slot3M_c2.view.set]{fullShare} s3)
                  ∗ (listW_c2.view.loc (Vt_c2 d L) ↦[(rowM_c2 ![5 * g + 3, 0] (rowInb3_c2 g h)).view.set]{fullShare} fl))
                ∗ (tabW_c2.view.loc (Vt_c2 d L) ↦[tabS_c2.view.set]{Transfers.shareTok q 80 cc2_scratch5.sem} tab))
            ∗ (slot3M_c2.view.loc (Vt_c2 d L) ↦[slot3M_c2.view.set \ slot3M_c2.view.set]{fullShare} s3))
          ∗ (tabW_c2.view.loc (Vt_c2 d L) ↦[Finset.univ \ tabS_c2.view.set]{Transfers.shareTok q 80 cc2_scratch5.sem} tab))
    ∗ ((Transfers.Flight countersEmb (Vt_c2 d L) (SemLoc.dma cc2_scratch6.sem) (default : HIx 5) 524288
              iprop(((slot4M_c2.view.loc (Vt_c2 d L) ↦[slot4M_c2.view.set]{fullShare} s4)
                  ∗ (listW_c2.view.loc (Vt_c2 d L) ↦[(rowM_c2 ![5 * g + 4, 0] (rowInb4_c2 g h)).view.set]{fullShare} fl))
                ∗ (tabW_c2.view.loc (Vt_c2 d L) ↦[tabS_c2.view.set]{Transfers.shareTok q 80 cc2_scratch6.sem} tab))
            ∗ (slot4M_c2.view.loc (Vt_c2 d L) ↦[slot4M_c2.view.set \ slot4M_c2.view.set]{fullShare} s4))
          ∗ (tabW_c2.view.loc (Vt_c2 d L) ↦[Finset.univ \ tabS_c2.view.set]{Transfers.shareTok q 80 cc2_scratch6.sem} tab))
    ∗ (listW_c2.view.loc (Vt_c2 d L) ↦[((((Finset.univ \ (rowM_c2 ![5 * g + 0, 0] (rowInb0_c2 g h)).view.set) \ (rowM_c2 ![5 * g + 1, 0] (rowInb1_c2 g h)).view.set)
              \ (rowM_c2 ![5 * g + 2, 0] (rowInb2_c2 g h)).view.set) \ (rowM_c2 ![5 * g + 3, 0] (rowInb3_c2 g h)).view.set) \ (rowM_c2 ![5 * g + 4, 0] (rowInb4_c2 g h)).view.set]{fullShare} fl))

/-- After the last trip: every cell at zero, the slots, the list and the shares back. -/
def invIdle_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L))) (s0 s1 s2 s3 s4 : Buf (Elt F) (ringW_c2.view.loc (Vt_c2 d L))) (f : Buf (Elt F) (outW_c2.view.loc (Vt_c2 d L))) : sProp (MM F) :=
  iprop(Transfers.MayWaits (Vt_c2 d L) (default : HIx 5) O
    ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
    ∗ owesW_c2 d L O W
    ∗ (outW_c2.view.loc (Vt_c2 d L) ↦[outW_c2.view.setOn (outWinR_c2 L).set]{fullShare} f)
    ∗ ((tabW_c2.view.loc (Vt_c2 d L) ↦{Transfers.shareTok q 80 cc2_scratch2.sem} tab) ∗ semVal (Vt_c2 d L, SemLoc.dma cc2_scratch2.sem) 0
          ∗ (slot0M_c2.view.loc (Vt_c2 d L) ↦[slot0M_c2.view.set]{fullShare} s0))
    ∗ ((tabW_c2.view.loc (Vt_c2 d L) ↦{Transfers.shareTok q 80 cc2_scratch3.sem} tab) ∗ semVal (Vt_c2 d L, SemLoc.dma cc2_scratch3.sem) 0
          ∗ (slot1M_c2.view.loc (Vt_c2 d L) ↦[slot1M_c2.view.set]{fullShare} s1))
    ∗ ((tabW_c2.view.loc (Vt_c2 d L) ↦{Transfers.shareTok q 80 cc2_scratch4.sem} tab) ∗ semVal (Vt_c2 d L, SemLoc.dma cc2_scratch4.sem) 0
          ∗ (slot2M_c2.view.loc (Vt_c2 d L) ↦[slot2M_c2.view.set]{fullShare} s2))
    ∗ ((tabW_c2.view.loc (Vt_c2 d L) ↦{Transfers.shareTok q 80 cc2_scratch5.sem} tab) ∗ semVal (Vt_c2 d L, SemLoc.dma cc2_scratch5.sem) 0
          ∗ (slot3M_c2.view.loc (Vt_c2 d L) ↦[slot3M_c2.view.set]{fullShare} s3))
    ∗ ((tabW_c2.view.loc (Vt_c2 d L) ↦{Transfers.shareTok q 80 cc2_scratch6.sem} tab) ∗ semVal (Vt_c2 d L, SemLoc.dma cc2_scratch6.sem) 0
          ∗ (slot4M_c2.view.loc (Vt_c2 d L) ↦[slot4M_c2.view.set]{fullShare} s4))
    ∗ (listW_c2.view.loc (Vt_c2 d L) ↦{fullShare} fl))

/-- What the loop keeps. -/
def inv0v_c2 (q : PosShare TreeShare) (O : CellTallies nD τ sig (HIx 5)) (W : Waits sig (HIx 5)) (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000) (g : ℕ) (_ : PUnit) : sProp (MM F) :=
  if h : g < 8 then
    iprop(∃ s0 s1 s2 s3 s4 f, ⌜FactsFly_c2 d L tab I g0 hin g h s0 s1 s2 s3 s4 f⌝ ∗ invFly_c2 d L q O W tab (listFill_c2 d L I g0) g h s0 s1 s2 s3 s4 f)
  else
    iprop(∃ s0 s1 s2 s3 s4 f, ⌜DoneUpTo_c2 d L tab I (5 * g) f⌝ ∗ invIdle_c2 d L q O W tab (listFill_c2 d L I g0) s0 s1 s2 s3 s4 f)

/-! ## One trip, with the contents -/

set_option maxHeartbeats 4000000 in
theorem trip0v_c2 (q : PosShare TreeShare) (O : CellTallies nD τ sig (HIx 5)) (W : Waits sig (HIx 5)) (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000)
    (hK : ∀ (c : ℕ) (hc : c < 40) (hin' : ∀ x : S128.Idx, BitVec.toNat (View.read (Elt F) (rowM_c2 ![c, 0] (rowInb_c2 c hc)).view (listFill_c2 d L I g0) x) < 1000000)
      (y : S128x128.Idx) (x : S163840x128.Idx), (x 0).val = 5120 * wid2 L + 128 * c + (y 0).val → (x 1).val = (y 1).val →
      landed_c2 d L tab (listFill_c2 d L I g0) ![c, 0] (rowInb_c2 c hc) hin' y = gathered2 (d := d) tab I x)
    (v2 : BitVec 32) (k : Fin k2_t1_loop.trips) (acc : PUnit) :
    inv0v_c2 q O W d L tab I g0 hin k.val acc
      ⊢ wp frame (wpE (defs₀ (F := F)) 𝒱₀ (Vt_c2 d L) none) Set.univ
          (k2_t1_body L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0 v2 k acc)
          (inv0v_c2 q O W d L tab I g0 hin (k.val + 1)) := by
  have hk8 : k.val < 8 := trips_eq_c2 ▸ k.isLt
  unfold inv0v_c2
  rw [dif_pos hk8]
  by_cases hk : k.val < 7
  · obtain ⟨hc1, hc2, hc3, hc4, hc5⟩ := conds_lt_c2 k hk
    have hk1 : k.val + 1 < 8 := by omega
    rw [dif_pos hk1]
    unfold k2_t1_body
    iintro ⟨%s0, %s1, %s2, %s3, %s4, %f, %hF, HP⟩
    unfold invFly_c2
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    rw [rowSet_congr_c2 d L (off4_c2 k) (k2_off4_inb k hc1) (rowInb0_c2 (k.val + 1) hk1), rowSet_congr_c2 d L (off5_c2 k) (k2_off5_inb k hc2) (rowInb1_c2 (k.val + 1) hk1),
      rowSet_congr_c2 d L (off6_c2 k) (k2_off6_inb k hc3) (rowInb2_c2 (k.val + 1) hk1), rowSet_congr_c2 d L (off7_c2 k) (k2_off7_inb k hc4) (rowInb3_c2 (k.val + 1) hk1),
      rowSet_congr_c2 d L (off8_c2 k) (k2_off8_inb k hc5) (rowInb4_c2 (k.val + 1) hk1)]
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    iexists _; iexists _; iexists _; iexists _; iexists _; iexists _
    isplitr
    swap
    · sl_close
    · ipureintro
      refine ⟨done5_c2 d L tab I g0 hin hK k hk8 s0 s1 s2 s3 s4 f hF, ?_, ?_, ?_, ?_, ?_⟩
      · exact (read_writes_whole_c2 _ _ _).trans (landed_congr_c2 d L tab _ (off4_c2 k) _ _ _ _)
      · exact (read_writes_whole_c2 _ _ _).trans (landed_congr_c2 d L tab _ (off5_c2 k) _ _ _ _)
      · exact (read_writes_whole_c2 _ _ _).trans (landed_congr_c2 d L tab _ (off6_c2 k) _ _ _ _)
      · exact (read_writes_whole_c2 _ _ _).trans (landed_congr_c2 d L tab _ (off7_c2 k) _ _ _ _)
      · exact (read_writes_whole_c2 _ _ _).trans (landed_congr_c2 d L tab _ (off8_c2 k) _ _ _ _)
  · obtain ⟨hc1, hc2, hc3, hc4, hc5⟩ := conds_last_c2 k hk
    rw [dif_neg (show ¬ k.val + 1 < 8 by omega)]
    unfold k2_t1_body
    iintro ⟨%s0, %s1, %s2, %s3, %s4, %f, %hF, HP⟩
    unfold invFly_c2
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    iexists _; iexists _; iexists _; iexists _; iexists _; iexists _
    isplitr
    swap
    · unfold invIdle_c2
      sl_close
    · ipureintro
      exact done5_c2 d L tab I g0 hin hK k hk8 s0 s1 s2 s3 s4 f hF

end Cert.KernelIdeal.Hand

end
-- ==== Proof.Tile2v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.Tile2b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c2 (d : Dev nD) (L : grid2.Coords) (q : PosShare TreeShare) (O : CellTallies nD τ sig (HIx 5)) (W : Waits sig (HIx 5))
    (tab : Buf (Elt F) (tabW_c2.view.loc (Vt_c2 d L))) (I : Buf (Elt F) ((idxBlkM_c2 L).view.loc (Vt_c2 d L)))
    (hI : ∀ z ∈ (idxBlkM_c2 L).view.set, BitVec.toNat (I z) < 1000000)
    (g0 : Buf (Elt F) (listW_c2.view.loc (Vt_c2 d L))) (r : Buf (Elt F) (ringW_c2.view.loc (Vt_c2 d L)))
    (f : Buf (Elt F) (outW_c2.view.loc (Vt_c2 d L))) :
    (iprop(Transfers.MayWaits (Vt_c2 d L) (default : HIx 5) O
        ∗ (tabW_c2.view.loc (Vt_c2 d L) ↦{Transfers.shareTok q 80 cc2_scratch2.sem} tab)
        ∗ (tabW_c2.view.loc (Vt_c2 d L) ↦{Transfers.shareTok q 80 cc2_scratch3.sem} tab)
        ∗ (tabW_c2.view.loc (Vt_c2 d L) ↦{Transfers.shareTok q 80 cc2_scratch4.sem} tab)
        ∗ (tabW_c2.view.loc (Vt_c2 d L) ↦{Transfers.shareTok q 80 cc2_scratch5.sem} tab)
        ∗ (tabW_c2.view.loc (Vt_c2 d L) ↦{Transfers.shareTok q 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok q 80 cc2_scratch2.sem} tab)
            ∗ (tabW_c2.view.loc (Vt_c2 d L) ↦{Transfers.shareTok q 80 cc2_scratch3.sem} tab)
            ∗ (tabW_c2.view.loc (Vt_c2 d L) ↦{Transfers.shareTok q 80 cc2_scratch4.sem} tab)
            ∗ (tabW_c2.view.loc (Vt_c2 d L) ↦{Transfers.shareTok q 80 cc2_scratch5.sem} tab)
            ∗ (tabW_c2.view.loc (Vt_c2 d L) ↦{Transfers.shareTok q 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ (∃ f' : Buf (Elt F) (outW_c2.view.loc (Vt_c2 d L)), (outW_c2.view.loc (Vt_c2 d L) ↦[outW_c2.view.setOn (outWinR_c2 L).set]{fullShare} f')
                ∗ ⌜∀ x : S163840x128.Idx, 5120 * wid2 L ≤ (x 0).val ∧ (x 0).val < 5120 * wid2 L + 5120 → f' x = gathered2 (d := d) tab I x⌝)) := by
  have hin := list_words_c2 d L I g0 hI
  have hI' : ∀ z ∈ idxRows2 d L, BitVec.toNat (I z) < 1000000 := fun z hz => hI z (by rw [set_idxBlkM_c2 d L]; exact hz)
  have hK := fun c hc hin' y x hx0 hx1 => landed_eq_gathered0_c2 (F := F) d L tab I g0 hI' c hc hin' y x hx0 hx1
  rw [cc2_gather_k_eq_skeleton]; unfold cc2_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c2 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c2 q O W d L tab I g0 hin hK _ k acc
  · unfold inv0v_c2
    rw [dif_pos (show 0 < 8 by decide)]
    ihave HO' := (owesW_intro_c2 (W := W) (ins_none_c2 (fun p hp => Or.inl hp) _)) $$ HO
    iexists _; iexists _; iexists _; iexists _; iexists _; iexists _
    isplitr
    swap
    · unfold invFly_c2
      sl_close
    · ipureintro
      refine ⟨fun x h1 h2 => absurd h2 (by omega), ?_, ?_, ?_, ?_, ?_⟩
      · exact (read_writes_whole_c2 _ _ _).trans (landed_congr_c2 d L tab _ (show (![0, 0] : Fin 2 → ℕ) = ![5 * 0 + 0, 0] from rfl) _ _ _ _)
      · exact (read_writes_whole_c2 _ _ _).trans (landed_congr_c2 d L tab _ (show (![1, 0] : Fin 2 → ℕ) = ![5 * 0 + 1, 0] from rfl) _ _ _ _)
      · exact (read_writes_whole_c2 _ _ _).trans (landed_congr_c2 d L tab _ (show (![2, 0] : Fin 2 → ℕ) = ![5 * 0 + 2, 0] from rfl) _ _ _ _)
      · exact (read_writes_whole_c2 _ _ _).trans (landed_congr_c2 d L tab _ (show (![3, 0] : Fin 2 → ℕ) = ![5 * 0 + 3, 0] from rfl) _ _ _ _)
      · exact (read_writes_whole_c2 _ _ _).trans (landed_congr_c2 d L tab _ (show (![4, 0] : Fin 2 → ℕ) = ![5 * 0 + 4, 0] from rfl) _ _ _ _)
  unfold inv0v_c2
  rw [dif_neg (show ¬ k2_t1_loop.trips < 8 by rw [trips_eq_c2]; decide)]
  iintro %acc ⟨%s0, %s1, %s2, %s3, %s4, %f', %hdone, HP⟩
  unfold invIdle_c2
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k2_t1_loop.lb k2_t1_loop.ub k2_t1_loop.st = 8 := trips_eq_c2
  rw [h8] at hdone
  have hfin : ∀ x : S163840x128.Idx, 5120 * wid2 L ≤ (x 0).val ∧ (x 0).val < 5120 * wid2 L + 5120 → f' x = gathered2 (d := d) tab I x :=
    fun x h => hdone x h.1 (by omega)
  sl_close

end Cert.KernelIdeal.Hand

end
-- ==== Proof.Tile2Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.Tile2Wrap
import proofs.«206421_g46840913330738_cont_8to1c4_247_26_alg».proof.Proof.Tile2v

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body2 (d : Dev nD) (L : grid2.Coords) (tab : Buf (Elt F) (tabLoc2 d)) (I : Buf (Elt F) (idxLoc2 d)) (f : Buf (Elt F) (outLoc2 d))
    (hF : (K (F := F)).Facts) (hI : ∀ x ∈ idxRows2 d L, BitVec.toNat (I x) < 1000000)
    (O : CellTallies nD τ sig (HIx 5)) (W : Waits sig (HIx 5)) (hO : ∀ g, O g none = 0) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(tdRes2 d L tab I ∗ scopedBufs (Vt_c2 d L) ∗ scopedSems0 (Vt_c2 d L)
            ∗ ∃ W', ⌜∀ p ∈ W', p ∈ W ∨ p.2 = none⌝ ∗ owes (Vt_c2 d L) O W') :=
  tile_body0_of_c2 (F := F) tile_runV0_c2 d L tab I f hF hI O W hO

end Cert.KernelIdeal.Hand

end
-- ==== Proof.TileObl2.lean ====
/-
  The launch theorem's obligation for gather call 1: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Tile2Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec2 (c : Fin τ.nSC) (s : Fin τ.nSub) :
    defs₀ (F := F) (.scVector c s) 2 ()
      = SparseCore.onTile hcore2 hsub2 (fun c s => cc2_gather_k (coordsV2 c s) (Memref.whole main_arg1_scv) (Memref.isWhole_whole _) (Memref.whole main_v7_scv) (Memref.isWhole_whole _) (Memref.whole main_v8_scv) (Memref.isWhole_whole _) (Memref.whole cc2_scratch0) (Memref.isWhole_whole _) (Memref.whole cc2_scratch1) (Memref.isWhole_whole _) cc2_scratch2 cc2_scratch3 cc2_scratch4 cc2_scratch5 cc2_scratch6 cc2_scratch7 cc2_scratch8 cc2_scratch9 cc2_scratch10 cc2_scratch11 cc2_scoped0) ⟨⟩ c s := rfl

/-- Every index word of the call's index array names a table row. -/
def InRange2 : Prop := ∀ (d : Dev nD) (x : S32x40x128.Idx), (BitVec.toNat (W8 m d (r main_v7) x)) < 1000000

/-- The task of call 1, for every subcore of its grid. -/
theorem tileObl2 (hR : InRange2 m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vec2]; simp only [SparseCore.onTile, hc, and_self, ↓reduceDIte]
  show iprop(_ ∗ _ ∗ goRes2 d (coordsV2 c i) (W8 m d (r main_arg1)) (W8 m d (r main_v7)) (W8 m d (r main_v8)) ∗ _) ⊢ wp _ _ _ _
    (fun _ => iprop(tdRes2 d (coordsV2 c i) (W8 m d (r main_arg1)) (W8 m d (r main_v7)) ∗ _))
  exact (tile_body2 d (coordsV2 c i) (W8 m d (r main_arg1)) (W8 m d (r main_v7)) (W8 m d (r main_v8)) facts (fun x _ => hR d x) O W hO).trans
    (wp_mono frame _ _ fun _ => obl_post)

end Cert.KernelIdeal.Hand

end
-- ==== Proof.Tile4a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.Tile4Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c4 (d : Dev nD) (L : grid4.Coords) : Thread nD τ := V d (cV4 L) (jV4 L)

abbrev tabW_c4 : Memref sig .scVector .hbm S1000000x128 .f32 := Memref.whole main_arg1_scv
abbrev idxW_c4 : Memref sig .scVector .hbm S32x40x128 .i32 := Memref.whole main_v11_scv
abbrev outW_c4 : Memref sig .scVector .hbm S163840x128 .f32 := Memref.whole main_v12_scv
abbrev listW_c4 : Memref sig .scVector .vmem S40x128 .i32 := Memref.whole cc4_scratch0
abbrev ringW_c4 : Memref sig .scVector .vmem S5x128x128 .f32 := Memref.whole cc4_scratch1
/-- The table as every gather names it: the slice that is all of it. -/
abbrev tabS_c4 : Memref sig .scVector .hbm S1000000x128 .f32 :=
  tabW_c4.slice (Rect.unit (s := S1000000x128) ![0, 0] S1000000x128.size inb_S1000000x128_S1000000x128_0_0) (fun _ => rfl)
/-- The subcore's block of the index array, as the block copy names it. -/
abbrev idxBlkM_c4 (L : grid4.Coords) : Memref sig .scVector .hbm S40x128 .i32 :=
  (idxW_c4.slice (Rect.unit (s := S32x40x128) (k4_off1 L) S1x40x128.size (k4_off1_inb L)) (fun _ => rfl)).squeeze S40x128 squeezes_S1x40x128_S40x128
/-- The five slots of the ring. -/
abbrev slot0M_c4 : Memref sig .scVector .vmem S128x128 .f32 :=
  (ringW_c4.slice (Rect.unit (s := S5x128x128) ![0, 0, 0] S1x128x128.size inb_S5x128x128_S1x128x128_0_0_0) (fun _ => rfl)).squeeze S128x128 squeezes_S1x128x128_S128x128
abbrev slot1M_c4 : Memref sig .scVector .vmem S128x128 .f32 :=
  (ringW_c4.slice (Rect.unit (s := S5x128x128) ![1, 0, 0] S1x128x128.size inb_S5x128x128_S1x128x128_1_0_0) (fun _ => rfl)).squeeze S128x128 squeezes_S1x128x128_S128x128
abbrev slot2M_c4 : Memref sig .scVector .vmem S128x128 .f32 :=
  (ringW_c4.slice (Rect.unit (s := S5x128x128) ![2, 0, 0] S1x128x128.size inb_S5x128x128_S1x128x128_2_0_0) (fun _ => rfl)).squeeze S128x128 squeezes_S1x128x128_S128x128
abbrev slot3M_c4 : Memref sig .scVector .vmem S128x128 .f32 :=
  (ringW_c4.slice (Rect.unit (s := S5x128x128) ![3, 0, 0] S1x128x128.size inb_S5x128x128_S1x128x128_3_0_0) (fun _ => rfl)).squeeze S128x128 squeezes_S1x128x128_S128x128
abbrev slot4M_c4 : Memref sig .scVector .vmem S128x128 .f32 :=
  (ringW_c4.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c4 (o : Fin 2 → ℕ) (h : ∀ a, o a + S1x128.size a ≤ S40x128.size a) : Memref sig .scVector .vmem S128 .i32 :=
  (listW_c4.slice (Rect.unit (s := S40x128) o S1x128.size h) (fun _ => rfl)).squeeze S128 squeezes_S1x128_S128

theorem rowInb_c4 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c4 (g : ℕ) (h : g < 8) : ∀ a, (![5 * g + 0, 0] : Fin 2 → ℕ) a + S1x128.size a ≤ S40x128.size a := rowInb_c4 (5 * g + 0) (by omega)
theorem rowInb1_c4 (g : ℕ) (h : g < 8) : ∀ a, (![5 * g + 1, 0] : Fin 2 → ℕ) a + S1x128.size a ≤ S40x128.size a := rowInb_c4 (5 * g + 1) (by omega)
theorem rowInb2_c4 (g : ℕ) (h : g < 8) : ∀ a, (![5 * g + 2, 0] : Fin 2 → ℕ) a + S1x128.size a ≤ S40x128.size a := rowInb_c4 (5 * g + 2) (by omega)
theorem rowInb3_c4 (g : ℕ) (h : g < 8) : ∀ a, (![5 * g + 3, 0] : Fin 2 → ℕ) a + S1x128.size a ≤ S40x128.size a := rowInb_c4 (5 * g + 3) (by omega)
theorem rowInb4_c4 (g : ℕ) (h : g < 8) : ∀ a, (![5 * g + 4, 0] : Fin 2 → ℕ) a + S1x128.size a ≤ S40x128.size a := rowInb_c4 (5 * g + 4) (by omega)

theorem rowM_congr_c4 {o o' : Fin 2 → ℕ} (e : o = o') (h : ∀ a, o a + S1x128.size a ≤ S40x128.size a)
    (h' : ∀ a, o' a + S1x128.size a ≤ S40x128.size a) : rowM_c4 o h = rowM_c4 o' h' := by
  subst e; rfl

/-- The subcore's rows of the gathered array as a rectangle in the grid coordinates themselves. -/
theorem outWinR_inb_c4 (L : grid4.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c4 (L : grid4.Coords) : Rect S163840x128 :=
  Rect.unit (s := S163840x128) ![10240 * (L 1).val + 5120 * (L 0).val, 0] ![5120, 128] (outWinR_inb_c4 L)

theorem outWinR_eq_c4 (L : grid4.Coords) : outWinR_c4 L = outRect4 L :=
  Rect.unit_congr (by unfold wid4; rw [show 5120 * (2 * (L 1).val + (L 0).val) = 10240 * (L 1).val + 5120 * (L 0).val by omega]) _ _

/-! ## The trips' offsets and conditions in closed form -/

theorem off4_c4 (k : Fin k4_t1_loop.trips) : k4_off4 k = ![5 * (k.val + 1) + 0, 0] :=
  (k4_off4_eq k).trans (by rw [show 5 * (k.val + 1) + 0 = 5 * k.val + 5 by omega])
theorem off5_c4 (k : Fin k4_t1_loop.trips) : k4_off5 k = ![5 * (k.val + 1) + 1, 0] :=
  (k4_off5_eq k).trans (by rw [show 5 * (k.val + 1) + 1 = 5 * k.val + 6 by omega])
theorem off6_c4 (k : Fin k4_t1_loop.trips) : k4_off6 k = ![5 * (k.val + 1) + 2, 0] :=
  (k4_off6_eq k).trans (by rw [show 5 * (k.val + 1) + 2 = 5 * k.val + 7 by omega])
theorem off7_c4 (k : Fin k4_t1_loop.trips) : k4_off7 k = ![5 * (k.val + 1) + 3, 0] :=
  (k4_off7_eq k).trans (by rw [show 5 * (k.val + 1) + 3 = 5 * k.val + 8 by omega])
theorem off8_c4 (k : Fin k4_t1_loop.trips) : k4_off8 k = ![5 * (k.val + 1) + 4, 0] :=
  (k4_off8_eq k).trans (by rw [show 5 * (k.val + 1) + 4 = 5 * k.val + 9 by omega])

theorem conds_lt_c4 : ∀ k : Fin k4_t1_loop.trips, k.val < 7 →
    k4_cond1 k = 1#1 ∧ k4_cond2 k = 1#1 ∧ k4_cond3 k = 1#1 ∧ k4_cond4 k = 1#1 ∧ k4_cond5 k = 1#1 := by decide +kernel
theorem conds_last_c4 : ∀ k : Fin k4_t1_loop.trips, ¬ k.val < 7 →
    ¬ k4_cond1 k = 1#1 ∧ ¬ k4_cond2 k = 1#1 ∧ ¬ k4_cond3 k = 1#1 ∧ ¬ k4_cond4 k = 1#1 ∧ ¬ k4_cond5 k = 1#1 := by decide +kernel
theorem trips_eq_c4 : k4_t1_loop.trips = 8 := by decide +kernel

/-! ## The words of the list scratch are words of the block -/

theorem list_words_c4 (d : Dev nD) (L : grid4.Coords) (I : Buf (Elt F) ((idxBlkM_c4 L).view.loc (Vt_c4 d L)))
    (g0 : Buf (Elt F) (listW_c4.view.loc (Vt_c4 d L)))
    (hI : ∀ z ∈ (idxBlkM_c4 L).view.set, BitVec.toNat (I z) < 1000000)
    (o : Fin 2 → ℕ) (h : ∀ a, o a + S1x128.size a ≤ S40x128.size a) (x : S128.Idx) :
    BitVec.toNat (View.read (Elt F) (rowM_c4 o h).view
      (View.write (Elt F) listW_c4.view g0 (ReadAs.same.apply (View.read (Elt F) (idxBlkM_c4 L).view I)) Finset.univ) x) < 1000000 := by
  rw [View.read_apply]
  have e : (rowM_c4 o h).view.emb x = listW_c4.view.emb ((rowM_c4 o h).view.emb x) := rfl
  rw [e, View.write_emb_of_mem _ _ (Finset.mem_univ _)]
  simp only [cast_cast, cast_eq]
  show BitVec.toNat (View.read (Elt F) (idxBlkM_c4 L).view I _) < 1000000
  rw [View.read_apply]
  simp only [cast_eq]
  exact hI _ (View.emb_mem_set _ _)

theorem set_idxBlkM_c4 (d : Dev nD) (L : grid4.Coords) : (idxBlkM_c4 L).view.set = idxRows4 d L := by
  show ((idxW_c4.view.slice (Rect.unit (s := S32x40x128) (k4_off1 L) S1x40x128.size (k4_off1_inb L))).reshape S40x128 _).set = _
  rw [View.set_reshape]
  exact View.set_slice_whole _ _

/-! ## What lands -/

/-- The list scratch after the block of indices is copied into it. -/
abbrev listFill_c4 (d : Dev nD) (L : grid4.Coords) (I : Buf (Elt F) ((idxBlkM_c4 L).view.loc (Vt_c4 d L)))
    (g0 : Buf (Elt F) (listW_c4.view.loc (Vt_c4 d L))) : Buf (Elt F) (listW_c4.view.loc (Vt_c4 d L)) :=
  View.write (Elt F) listW_c4.view g0 (ReadAs.same.apply (View.read (Elt F) (idxBlkM_c4 L).view I)) Finset.univ

/-- What the gather over the list row at offsets o lands in its slot: at row j of the slot, the table row the j-th
    word of that list row names. -/
abbrev landed_c4 (d : Dev nD) (L : grid4.Coords) (tab : Buf (Elt F) (tabW_c4.view.loc (Vt_c4 d L)))
    (fl : Buf (Elt F) (listW_c4.view.loc (Vt_c4 d L))) (o : Fin 2 → ℕ) (h : ∀ a, o a + S1x128.size a ≤ S40x128.size a)
    (hin : ∀ x : S128.Idx, BitVec.toNat (View.read (Elt F) (rowM_c4 o h).view fl x) < 1000000) : S128x128.Idx → Elt F .f32 :=
  SparseCore.gatherPayload gathers_S1000000x128_S128x128 (View.read (Elt F) tabS_c4.view tab)
    (SparseCore.rows (View.read (Elt F) (rowM_c4 o h).view fl) rfl hin)

variable [FloatOps F]

/-! ## What the loop keeps -/

/-- The subcore owes what it owed, its waits recorded beyond W all at the launch's index. -/
def owesW_c4 (d : Dev nD) (L : grid4.Coords) (O : CellTallies nD τ sig (HIx 5)) (W : Waits sig (HIx 5)) : sProp (MM F) :=
  iprop(∃ W', ⌜∀ p ∈ W', p ∈ W ∨ p.2 = none⌝ ∗ owes (Vt_c4 d L) O W')

theorem owesW_intro_c4 {d : Dev nD} {L : grid4.Coords} {O : CellTallies nD τ sig (HIx 5)} {W W' : Waits sig (HIx 5)}
    (h : ∀ p ∈ W', p ∈ W ∨ p.2 = none) : (owes (Vt_c4 d L) O W' : sProp (MM F)) ⊢ owesW_c4 d L O W := by
  unfold owesW_c4
  iintro H
  iexists W'
  isplitr
  · ipureintro; exact h
  · iexact H

theorem owesW_elim_c4 {d : Dev nD} {L : grid4.Coords} {O : CellTallies nD τ sig (HIx 5)} {W : Waits sig (HIx 5)} :
    (owesW_c4 d L O W : sProp (MM F)) ⊢ iprop(∃ W', ⌜∀ p ∈ W', p ∈ W ∨ p.2 = none⌝ ∗ owes (Vt_c4 d L) O W') := by
  unfold owesW_c4; exact .rfl

theorem ins_none_c4 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c4 (d : Dev nD) (L : grid4.Coords) {o o' : Fin 2 → ℕ} (e : o = o')
    (h : ∀ a, o a + S1x128.size a ≤ S40x128.size a) (h' : ∀ a, o' a + S1x128.size a ≤ S40x128.size a) :
    ((rowM_c4 o h).view.set : Finset (Idx (listW_c4.view.loc (Vt_c4 d L)))) = (rowM_c4 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L))) (g : ℕ) (_ : PUnit) : sProp (MM F) :=
  iprop(Transfers.MayWaits (Vt_c4 d L) (default : HIx 5) O
    ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
    ∗ owesW_c4 d L O W
    ∗ (∃ f : Buf (Elt F) (outW_c4.view.loc (Vt_c4 d L)), outW_c4.view.loc (Vt_c4 d L) ↦[outW_c4.view.setOn (outWinR_c4 L).set]{fullShare} f)
    ∗ (if h : g < 8 then
        iprop(((∃ s : Buf (Elt F) (slot0M_c4.view.loc (Vt_c4 d L)),
            Transfers.Flight countersEmb (Vt_c4 d L) (SemLoc.dma cc4_scratch2.sem) (default : HIx 5) 524288
              iprop(((slot0M_c4.view.loc (Vt_c4 d L) ↦[slot0M_c4.view.set]{fullShare} s)
                  ∗ (listW_c4.view.loc (Vt_c4 d L) ↦[(rowM_c4 ![5 * g + 0, 0] (rowInb0_c4 g h)).view.set]{fullShare} fl))
                ∗ (tabW_c4.view.loc (Vt_c4 d L) ↦[tabS_c4.view.set]{Transfers.shareTok q 80 cc4_scratch2.sem} tab))
            ∗ (slot0M_c4.view.loc (Vt_c4 d L) ↦[slot0M_c4.view.set \ slot0M_c4.view.set]{fullShare} s))
          ∗ (tabW_c4.view.loc (Vt_c4 d L) ↦[Finset.univ \ tabS_c4.view.set]{Transfers.shareTok q 80 cc4_scratch2.sem} tab))
          ∗ ((∃ s : Buf (Elt F) (slot1M_c4.view.loc (Vt_c4 d L)),
            Transfers.Flight countersEmb (Vt_c4 d L) (SemLoc.dma cc4_scratch3.sem) (default : HIx 5) 524288
              iprop(((slot1M_c4.view.loc (Vt_c4 d L) ↦[slot1M_c4.view.set]{fullShare} s)
                  ∗ (listW_c4.view.loc (Vt_c4 d L) ↦[(rowM_c4 ![5 * g + 1, 0] (rowInb1_c4 g h)).view.set]{fullShare} fl))
                ∗ (tabW_c4.view.loc (Vt_c4 d L) ↦[tabS_c4.view.set]{Transfers.shareTok q 80 cc4_scratch3.sem} tab))
            ∗ (slot1M_c4.view.loc (Vt_c4 d L) ↦[slot1M_c4.view.set \ slot1M_c4.view.set]{fullShare} s))
          ∗ (tabW_c4.view.loc (Vt_c4 d L) ↦[Finset.univ \ tabS_c4.view.set]{Transfers.shareTok q 80 cc4_scratch3.sem} tab))
          ∗ ((∃ s : Buf (Elt F) (slot2M_c4.view.loc (Vt_c4 d L)),
            Transfers.Flight countersEmb (Vt_c4 d L) (SemLoc.dma cc4_scratch4.sem) (default : HIx 5) 524288
              iprop(((slot2M_c4.view.loc (Vt_c4 d L) ↦[slot2M_c4.view.set]{fullShare} s)
                  ∗ (listW_c4.view.loc (Vt_c4 d L) ↦[(rowM_c4 ![5 * g + 2, 0] (rowInb2_c4 g h)).view.set]{fullShare} fl))
                ∗ (tabW_c4.view.loc (Vt_c4 d L) ↦[tabS_c4.view.set]{Transfers.shareTok q 80 cc4_scratch4.sem} tab))
            ∗ (slot2M_c4.view.loc (Vt_c4 d L) ↦[slot2M_c4.view.set \ slot2M_c4.view.set]{fullShare} s))
          ∗ (tabW_c4.view.loc (Vt_c4 d L) ↦[Finset.univ \ tabS_c4.view.set]{Transfers.shareTok q 80 cc4_scratch4.sem} tab))
          ∗ ((∃ s : Buf (Elt F) (slot3M_c4.view.loc (Vt_c4 d L)),
            Transfers.Flight countersEmb (Vt_c4 d L) (SemLoc.dma cc4_scratch5.sem) (default : HIx 5) 524288
              iprop(((slot3M_c4.view.loc (Vt_c4 d L) ↦[slot3M_c4.view.set]{fullShare} s)
                  ∗ (listW_c4.view.loc (Vt_c4 d L) ↦[(rowM_c4 ![5 * g + 3, 0] (rowInb3_c4 g h)).view.set]{fullShare} fl))
                ∗ (tabW_c4.view.loc (Vt_c4 d L) ↦[tabS_c4.view.set]{Transfers.shareTok q 80 cc4_scratch5.sem} tab))
            ∗ (slot3M_c4.view.loc (Vt_c4 d L) ↦[slot3M_c4.view.set \ slot3M_c4.view.set]{fullShare} s))
          ∗ (tabW_c4.view.loc (Vt_c4 d L) ↦[Finset.univ \ tabS_c4.view.set]{Transfers.shareTok q 80 cc4_scratch5.sem} tab))
          ∗ ((∃ s : Buf (Elt F) (slot4M_c4.view.loc (Vt_c4 d L)),
            Transfers.Flight countersEmb (Vt_c4 d L) (SemLoc.dma cc4_scratch6.sem) (default : HIx 5) 524288
              iprop(((slot4M_c4.view.loc (Vt_c4 d L) ↦[slot4M_c4.view.set]{fullShare} s)
                  ∗ (listW_c4.view.loc (Vt_c4 d L) ↦[(rowM_c4 ![5 * g + 4, 0] (rowInb4_c4 g h)).view.set]{fullShare} fl))
                ∗ (tabW_c4.view.loc (Vt_c4 d L) ↦[tabS_c4.view.set]{Transfers.shareTok q 80 cc4_scratch6.sem} tab))
            ∗ (slot4M_c4.view.loc (Vt_c4 d L) ↦[slot4M_c4.view.set \ slot4M_c4.view.set]{fullShare} s))
          ∗ (tabW_c4.view.loc (Vt_c4 d L) ↦[Finset.univ \ tabS_c4.view.set]{Transfers.shareTok q 80 cc4_scratch6.sem} tab))
          ∗ (listW_c4.view.loc (Vt_c4 d L) ↦[((((Finset.univ \ (rowM_c4 ![5 * g + 0, 0] (rowInb0_c4 g h)).view.set) \ (rowM_c4 ![5 * g + 1, 0] (rowInb1_c4 g h)).view.set)
              \ (rowM_c4 ![5 * g + 2, 0] (rowInb2_c4 g h)).view.set) \ (rowM_c4 ![5 * g + 3, 0] (rowInb3_c4 g h)).view.set) \ (rowM_c4 ![5 * g + 4, 0] (rowInb4_c4 g h)).view.set]{fullShare} fl))
      else
        iprop(((tabW_c4.view.loc (Vt_c4 d L) ↦{Transfers.shareTok q 80 cc4_scratch2.sem} tab) ∗ semVal (Vt_c4 d L, SemLoc.dma cc4_scratch2.sem) 0
          ∗ (∃ s : Buf (Elt F) (slot0M_c4.view.loc (Vt_c4 d L)), slot0M_c4.view.loc (Vt_c4 d L) ↦[slot0M_c4.view.set]{fullShare} s))
          ∗ ((tabW_c4.view.loc (Vt_c4 d L) ↦{Transfers.shareTok q 80 cc4_scratch3.sem} tab) ∗ semVal (Vt_c4 d L, SemLoc.dma cc4_scratch3.sem) 0
          ∗ (∃ s : Buf (Elt F) (slot1M_c4.view.loc (Vt_c4 d L)), slot1M_c4.view.loc (Vt_c4 d L) ↦[slot1M_c4.view.set]{fullShare} s))
          ∗ ((tabW_c4.view.loc (Vt_c4 d L) ↦{Transfers.shareTok q 80 cc4_scratch4.sem} tab) ∗ semVal (Vt_c4 d L, SemLoc.dma cc4_scratch4.sem) 0
          ∗ (∃ s : Buf (Elt F) (slot2M_c4.view.loc (Vt_c4 d L)), slot2M_c4.view.loc (Vt_c4 d L) ↦[slot2M_c4.view.set]{fullShare} s))
          ∗ ((tabW_c4.view.loc (Vt_c4 d L) ↦{Transfers.shareTok q 80 cc4_scratch5.sem} tab) ∗ semVal (Vt_c4 d L, SemLoc.dma cc4_scratch5.sem) 0
          ∗ (∃ s : Buf (Elt F) (slot3M_c4.view.loc (Vt_c4 d L)), slot3M_c4.view.loc (Vt_c4 d L) ↦[slot3M_c4.view.set]{fullShare} s))
          ∗ ((tabW_c4.view.loc (Vt_c4 d L) ↦{Transfers.shareTok q 80 cc4_scratch6.sem} tab) ∗ semVal (Vt_c4 d L, SemLoc.dma cc4_scratch6.sem) 0
          ∗ (∃ s : Buf (Elt F) (slot4M_c4.view.loc (Vt_c4 d L)), slot4M_c4.view.loc (Vt_c4 d L) ↦[slot4M_c4.view.set]{fullShare} s))
          ∗ (listW_c4.view.loc (Vt_c4 d L) ↦{fullShare} fl))))

/-! ## One trip -/

set_option maxHeartbeats 4000000 in
theorem trip0_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view fl x) < 1000000)
    (v2 : BitVec 32) (k : Fin k4_t1_loop.trips) (acc : PUnit) :
    inv0_c4 d L q O W tab fl k.val acc
      ⊢ wp frame (wpE (defs₀ (F := F)) 𝒱₀ (Vt_c4 d L) none) Set.univ
          (k4_t1_body L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0 v2 k acc)
          (inv0_c4 d L q O W tab fl (k.val + 1)) := by
  have hk8 : k.val < 8 := trips_eq_c4 ▸ k.isLt
  unfold inv0_c4
  rw [dif_pos hk8]
  by_cases hk : k.val < 7
  · obtain ⟨hc1, hc2, hc3, hc4, hc5⟩ := conds_lt_c4 k hk
    rw [dif_pos (show k.val + 1 < 8 by omega)]
    unfold k4_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    rw [rowSet_congr_c4 d L (off4_c4 k) (k4_off4_inb k hc1) (rowInb0_c4 (k.val + 1) (by omega)), rowSet_congr_c4 d L (off5_c4 k) (k4_off5_inb k hc2) (rowInb1_c4 (k.val + 1) (by omega)),
      rowSet_congr_c4 d L (off6_c4 k) (k4_off6_inb k hc3) (rowInb2_c4 (k.val + 1) (by omega)), rowSet_congr_c4 d L (off7_c4 k) (k4_off7_inb k hc4) (rowInb3_c4 (k.val + 1) (by omega)),
      rowSet_congr_c4 d L (off8_c4 k) (k4_off8_inb k hc5) (rowInb4_c4 (k.val + 1) (by omega))]
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    sl_close
  · obtain ⟨hc1, hc2, hc3, hc4, hc5⟩ := conds_last_c4 k hk
    rw [dif_neg (show ¬ k.val + 1 < 8 by omega)]
    unfold k4_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    sl_close

end Cert.KernelIdeal.Hand

end
-- ==== Proof.Tile4.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.Tile4a

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c4 (d : Dev nD) (L : grid4.Coords) (q : PosShare TreeShare) (O : CellTallies nD τ sig (HIx 5)) (W : Waits sig (HIx 5))
    (tab : Buf (Elt F) (tabW_c4.view.loc (Vt_c4 d L))) (I : Buf (Elt F) ((idxBlkM_c4 L).view.loc (Vt_c4 d L)))
    (hI : ∀ z ∈ (idxBlkM_c4 L).view.set, BitVec.toNat (I z) < 1000000)
    (g0 : Buf (Elt F) (listW_c4.view.loc (Vt_c4 d L))) (r : Buf (Elt F) (ringW_c4.view.loc (Vt_c4 d L)))
    (f : Buf (Elt F) (outW_c4.view.loc (Vt_c4 d L))) :
    (iprop(Transfers.MayWaits (Vt_c4 d L) (default : HIx 5) O
        ∗ (tabW_c4.view.loc (Vt_c4 d L) ↦{Transfers.shareTok q 80 cc4_scratch2.sem} tab)
        ∗ (tabW_c4.view.loc (Vt_c4 d L) ↦{Transfers.shareTok q 80 cc4_scratch3.sem} tab)
        ∗ (tabW_c4.view.loc (Vt_c4 d L) ↦{Transfers.shareTok q 80 cc4_scratch4.sem} tab)
        ∗ (tabW_c4.view.loc (Vt_c4 d L) ↦{Transfers.shareTok q 80 cc4_scratch5.sem} tab)
        ∗ (tabW_c4.view.loc (Vt_c4 d L) ↦{Transfers.shareTok q 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok q 80 cc4_scratch2.sem} tab)
            ∗ (tabW_c4.view.loc (Vt_c4 d L) ↦{Transfers.shareTok q 80 cc4_scratch3.sem} tab)
            ∗ (tabW_c4.view.loc (Vt_c4 d L) ↦{Transfers.shareTok q 80 cc4_scratch4.sem} tab)
            ∗ (tabW_c4.view.loc (Vt_c4 d L) ↦{Transfers.shareTok q 80 cc4_scratch5.sem} tab)
            ∗ (tabW_c4.view.loc (Vt_c4 d L) ↦{Transfers.shareTok q 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ (∃ f' : Buf (Elt F) (outW_c4.view.loc (Vt_c4 d L)), outW_c4.view.loc (Vt_c4 d L) ↦[outW_c4.view.setOn (outWinR_c4 L).set]{fullShare} f')) := by
  have hin := list_words_c4 d L I g0 hI
  rw [cc4_gather_k_eq_skeleton]; unfold cc4_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c4 d L q O W tab (View.write (Elt F) listW_c4.view g0 (ReadAs.same.apply (View.read (Elt F) (idxBlkM_c4 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c4 d L q O W tab _ hin _ k acc
  · unfold inv0_c4
    rw [dif_pos (show 0 < 8 by decide)]
    ihave HO' := (owesW_intro_c4 (W := W) (ins_none_c4 (fun p hp => Or.inl hp) _)) $$ HO
    sl_close
  iintro %acc HI
  unfold inv0_c4
  rw [dif_neg (show ¬ k4_t1_loop.trips < 8 by rw [trips_eq_c4]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.KernelIdeal.Hand

end
-- ==== Proof.Tile4Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.Tile4a
import proofs.«206421_g46840913330738_cont_8to1c4_247_26_alg».proof.Proof.Tile4

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c4 : Fin 11 → DmaSem sig :=
  ![cc4_scratch2.sem, cc4_scratch3.sem, cc4_scratch4.sem, cc4_scratch5.sem, cc4_scratch6.sem, cc4_scratch7.sem,
    cc4_scratch8.sem, cc4_scratch9.sem, cc4_scratch10.sem, cc4_scratch11.sem, cc4_scoped0.sem]

theorem sems0_inj_c4 : Function.Injective sems0_c4 := by decide

/-- The k-th of them on the subcore at (c, i) of device d. -/
abbrev dcell0_c4 (d : Dev nD) (c : Fin τ.nSC) (i : Fin τ.nSub) (k : Fin 11) : GSem nD τ sig := (V d c i, .dma (sems0_c4 k))

theorem dcell0_mem_c4 (d : Dev nD) (c : Fin τ.nSC) (i : Fin τ.nSub) (k : Fin 11) : dcell0_c4 d c i k ∈ ownCells (V d c i) :=
  mem_ownCells.mpr ⟨rfl, (show ∀ s : DmaSem sig, (SemLoc.dma s : SemLoc sig).isScoped .scVector = true by decide) _⟩

/-- The eleven cells, each at zero. -/
def cells0_c4 (d : Dev nD) (L : grid4.Coords) : sProp (MM F) :=
  iprop(semVal (Vt_c4 d L, SemLoc.dma cc4_scratch2.sem) 0 ∗ semVal (Vt_c4 d L, SemLoc.dma cc4_scratch3.sem) 0
    ∗ semVal (Vt_c4 d L, SemLoc.dma cc4_scratch4.sem) 0 ∗ semVal (Vt_c4 d L, SemLoc.dma cc4_scratch5.sem) 0
    ∗ semVal (Vt_c4 d L, SemLoc.dma cc4_scratch6.sem) 0 ∗ semVal (Vt_c4 d L, SemLoc.dma cc4_scratch7.sem) 0
    ∗ semVal (Vt_c4 d L, SemLoc.dma cc4_scratch8.sem) 0 ∗ semVal (Vt_c4 d L, SemLoc.dma cc4_scratch9.sem) 0
    ∗ semVal (Vt_c4 d L, SemLoc.dma cc4_scratch10.sem) 0 ∗ semVal (Vt_c4 d L, SemLoc.dma cc4_scratch11.sem) 0
    ∗ semVal (Vt_c4 d L, SemLoc.dma cc4_scoped0.sem) 0)

/-- The subcore's own cells at zero: the eleven the kernel function names, and the rest. -/
theorem ownSems0_V0_c4 (d : Dev nD) (L : grid4.Coords) :
    (ownSems0 (Vt_c4 d L) : sProp (MM F))
      = iprop(cells0_c4 d L ∗ bigSep ((ownCells (Vt_c4 d L)) \ Finset.univ.image (dcell0_c4 d (cV4 L) (jV4 L))) fun g => semVal g 0) := by
  unfold SparseCore.Cfg.ownSems0
  rw [SparseCore.bigSep_sdiff_split' (t := Finset.univ.image (dcell0_c4 d (cV4 L) (jV4 L)))
      (Finset.image_subset_iff.mpr fun k _ => dcell0_mem_c4 d (cV4 L) (jV4 L) k),
    SparseCore.bigSep_image_of_injOn (fun a _ b _ h => sems0_inj_c4 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c4 (d : Dev nD) (L : grid4.Coords) :
    (ownBufs (Vt_c4 d L) : sProp (MM F))
      = iprop((∃ f, (Vt_c4 d L).loc cc4_scratch0 ↦{fullShare} f) ∗ (∃ f, (Vt_c4 d L).loc cc4_scratch1 ↦{fullShare} f)
          ∗ bigSep (((ownRefs (τ := τ) (.scVector (cV4 L) (jV4 L))).erase ((Proc.scVector (cV4 L) (jV4 L)).devRef cc4_scratch0)).erase
              ((Proc.scVector (cV4 L) (jV4 L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV4 L) (jV4 L))
    (b := (Proc.scVector (cV4 L) (jV4 L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV4 L) (jV4 L)) (b := (Proc.scVector (cV4 L) (jV4 L)).devRef cc4_scratch1) rfl⟩)]

/-! ## The dealt pieces in the body's spelling -/

theorem pts_idx0_c4 (d : Dev nD) (L : grid4.Coords) (I : Buf (Elt F) (idxLoc4 d)) :
    ((idxBlkM_c4 L).view.loc (Vt_c4 d L) ↦[(idxBlkM_c4 L).view.set]{fullShare} I : sProp (MM F)) = idxLoc4 d ↦[idxRows4 d L]{fullShare} I := by
  rw [set_idxBlkM_c4 d L]

theorem setOn_out0_c4 (d : Dev nD) (L : grid4.Coords) :
    (outW_c4.view.setOn (outWinR_c4 L).set : Finset (Idx (outW_c4.view.loc (Vt_c4 d L)))) = outRows4 d L := by
  show Finset.map (Function.Embedding.refl _) (outWinR_c4 L).set = _
  rw [Finset.map_refl, outWinR_eq_c4]; rfl

theorem pts_out0_c4 (d : Dev nD) (L : grid4.Coords) (f : Buf (Elt F) (outLoc4 d)) :
    (outW_c4.view.loc (Vt_c4 d L) ↦[outW_c4.view.setOn (outWinR_c4 L).set]{fullShare} f : sProp (MM F)) = outLoc4 d ↦[outRows4 d L]{fullShare} f := by
  rw [setOn_out0_c4 d L]

/-- The read tokens of the table other than the five gather cells'. -/
abbrev otherToks0_c4 : Finset (Fin 80) :=
  ((((Finset.univ.erase cc4_scratch2.sem).erase cc4_scratch3.sem).erase cc4_scratch4.sem).erase cc4_scratch5.sem).erase cc4_scratch6.sem

/-- The subcore's read share of the table as one read token per cell: the five gather cells', and the remainder with
    the other cells' tokens. -/
theorem tabToks0_c4 (d : Dev nD) (L : grid4.Coords) (q : PosShare TreeShare) (tab : Buf (Elt F) (tabLoc4 d)) :
    (tabLoc4 d ↦[Finset.univ]{q} tab : sProp (MM F)) ⊣⊢ iprop((tabLoc4 d ↦[Finset.univ]{Transfers.shareDrop q 80} tab)
      ∗ (tabW_c4.view.loc (Vt_c4 d L) ↦{Transfers.shareTok q 80 cc4_scratch2.sem} tab)
      ∗ (tabW_c4.view.loc (Vt_c4 d L) ↦{Transfers.shareTok q 80 cc4_scratch3.sem} tab)
      ∗ (tabW_c4.view.loc (Vt_c4 d L) ↦{Transfers.shareTok q 80 cc4_scratch4.sem} tab)
      ∗ (tabW_c4.view.loc (Vt_c4 d L) ↦{Transfers.shareTok q 80 cc4_scratch5.sem} tab)
      ∗ (tabW_c4.view.loc (Vt_c4 d L) ↦{Transfers.shareTok q 80 cc4_scratch6.sem} tab)
      ∗ bigSep otherToks0_c4 fun i => (tabLoc4 d ↦[Finset.univ]{Transfers.shareTok q 80 i} tab : sProp (MM F))) := by
  have h := Transfers.pointsTo_toks (Ix := HIx 5) (Name := ℕ) (U := UU) (Lvl := ℕ) (ℓ := tabLoc4 d) (S := Finset.univ) (f := tab) q 80
  rw [SparseCore.bigSep_erase' (Finset.mem_univ (cc4_scratch2.sem : Fin 80)),
    SparseCore.bigSep_erase' (Finset.mem_erase.mpr ⟨(by decide : (cc4_scratch3.sem : Fin 80) ≠ cc4_scratch2.sem), Finset.mem_univ _⟩),
    SparseCore.bigSep_erase' (Finset.mem_erase.mpr ⟨(by decide : (cc4_scratch4.sem : Fin 80) ≠ cc4_scratch3.sem),
      Finset.mem_erase.mpr ⟨(by decide : (cc4_scratch4.sem : Fin 80) ≠ cc4_scratch2.sem), Finset.mem_univ _⟩⟩),
    SparseCore.bigSep_erase' (Finset.mem_erase.mpr ⟨(by decide : (cc4_scratch5.sem : Fin 80) ≠ cc4_scratch4.sem),
      Finset.mem_erase.mpr ⟨(by decide : (cc4_scratch5.sem : Fin 80) ≠ cc4_scratch3.sem),
        Finset.mem_erase.mpr ⟨(by decide : (cc4_scratch5.sem : Fin 80) ≠ cc4_scratch2.sem), Finset.mem_univ _⟩⟩⟩),
    SparseCore.bigSep_erase' (Finset.mem_erase.mpr ⟨(by decide : (cc4_scratch6.sem : Fin 80) ≠ cc4_scratch5.sem),
      Finset.mem_erase.mpr ⟨(by decide : (cc4_scratch6.sem : Fin 80) ≠ cc4_scratch4.sem),
        Finset.mem_erase.mpr ⟨(by decide : (cc4_scratch6.sem : Fin 80) ≠ cc4_scratch3.sem),
          Finset.mem_erase.mpr ⟨(by decide : (cc4_scratch6.sem : Fin 80) ≠ cc4_scratch2.sem), Finset.mem_univ _⟩⟩⟩⟩)] at h
  exact h

/-! ## The ring scratch as its five slots -/

theorem unit_congr2_c4 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c4 {κ : Kind} {sp : Space} {s : Shape} {e : EltTy} (v : View sig κ sp s e) {R R' : Rect s} (h : R = R') :
    (v.slice R).set = (v.slice R').set := by
  subst h; rfl

/-- Row k of the ring along its leading axis. -/
abbrev ringRow_c4 (d : Dev nD) (L : grid4.Coords) (k : Fin 5) : Finset (Idx (ringW_c4.view.loc (Vt_c4 d L))) :=
  ((View.whole cc4_scratch1 : View sig .scVector .vmem S5x128x128 .f32).slice (S5x128x128.rowRect 0 k)).set

theorem slot0_set_c4 (d : Dev nD) (L : grid4.Coords) : (slot0M_c4.view.set : Finset (Idx (ringW_c4.view.loc (Vt_c4 d L)))) = ringRow_c4 d L 0 := by
  show (((View.whole cc4_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot1_set_c4 (d : Dev nD) (L : grid4.Coords) : (slot1M_c4.view.set : Finset (Idx (ringW_c4.view.loc (Vt_c4 d L)))) = ringRow_c4 d L 1 := by
  show (((View.whole cc4_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot2_set_c4 (d : Dev nD) (L : grid4.Coords) : (slot2M_c4.view.set : Finset (Idx (ringW_c4.view.loc (Vt_c4 d L)))) = ringRow_c4 d L 2 := by
  show (((View.whole cc4_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot3_set_c4 (d : Dev nD) (L : grid4.Coords) : (slot3M_c4.view.set : Finset (Idx (ringW_c4.view.loc (Vt_c4 d L)))) = ringRow_c4 d L 3 := by
  show (((View.whole cc4_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot4_set_c4 (d : Dev nD) (L : grid4.Coords) : (slot4M_c4.view.set : Finset (Idx (ringW_c4.view.loc (Vt_c4 d L)))) = ringRow_c4 d L 4 := by
  show (((View.whole cc4_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)

/-- Five functions on the ring's rows, over the five rows, as the five slots each at its own function. -/
theorem ring_rows0_c4 (d : Dev nD) (L : grid4.Coords) (s : Fin 5 → Buf (Elt F) (ringW_c4.view.loc (Vt_c4 d L))) :
    (bigSep (Finset.univ : Finset (Fin 5)) fun k => (ringW_c4.view.loc (Vt_c4 d L) ↦[ringRow_c4 d L k]{fullShare} s k : sProp (MM F)))
      = iprop((slot0M_c4.view.loc (Vt_c4 d L) ↦[slot0M_c4.view.set]{fullShare} s 0)
        ∗ (slot1M_c4.view.loc (Vt_c4 d L) ↦[slot1M_c4.view.set]{fullShare} s 1)
        ∗ (slot2M_c4.view.loc (Vt_c4 d L) ↦[slot2M_c4.view.set]{fullShare} s 2)
        ∗ (slot3M_c4.view.loc (Vt_c4 d L) ↦[slot3M_c4.view.set]{fullShare} s 3)
        ∗ (slot4M_c4.view.loc (Vt_c4 d L) ↦[slot4M_c4.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c4 d L, slot1_set_c4 d L, slot2_set_c4 d L, slot3_set_c4 d L, slot4_set_c4 d L]

/-- The ring whole at one function is its five slots at that function. -/
theorem ring_split0_c4 (d : Dev nD) (L : grid4.Coords) (r : Buf (Elt F) (ringW_c4.view.loc (Vt_c4 d L))) :
    ((Vt_c4 d L).loc cc4_scratch1 ↦{fullShare} r : sProp (MM F))
      = iprop((slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)) := by
  rw [← ring_rows0_c4 d L (fun _ => r)]
  have h := pointsTo_rows (Ix := HIx 5) (Name := ℕ) (U := UU) (Lvl := ℕ) (Val := Elt F) (Vt_c4 d L)
    (View.whole cc4_scratch1 : View sig .scVector .vmem S5x128x128 .f32) 0 fullShare r
  rw [View.set_whole] at h
  exact h

/-- The five slots, each at some function, are the ring whole at some function. -/
theorem ring_join0_c4 (d : Dev nD) (L : grid4.Coords) (s : Fin 5 → Buf (Elt F) (ringW_c4.view.loc (Vt_c4 d L))) :
    iprop((slot0M_c4.view.loc (Vt_c4 d L) ↦[slot0M_c4.view.set]{fullShare} s 0)
        ∗ (slot1M_c4.view.loc (Vt_c4 d L) ↦[slot1M_c4.view.set]{fullShare} s 1)
        ∗ (slot2M_c4.view.loc (Vt_c4 d L) ↦[slot2M_c4.view.set]{fullShare} s 2)
        ∗ (slot3M_c4.view.loc (Vt_c4 d L) ↦[slot3M_c4.view.set]{fullShare} s 3)
        ∗ (slot4M_c4.view.loc (Vt_c4 d L) ↦[slot4M_c4.view.set]{fullShare} s 4))
      ⊢ (iprop(∃ f, (Vt_c4 d L).loc cc4_scratch1 ↦{fullShare} f) : sProp (MM F)) := by
  rw [← ring_rows0_c4 d L s]
  refine (pointsTo_biUnion_join (Ix := HIx 5) (Name := ℕ) (U := UU) (Lvl := ℕ) (ℓ := ringW_c4.view.loc (Vt_c4 d L)) (q := fullShare)
    Finset.univ (fun k : Fin 5 => ringRow_c4 d L k) s (s 0)
    (fun k _ k' _ h => (View.whole cc4_scratch1 : View sig .scVector .vmem S5x128x128 .f32).disjoint_rows 0 h)).trans ?_
  iintro ⟨%g, -, H⟩
  iexists g
  have e : (Finset.univ : Finset (Fin 5)).biUnion (fun k => ringRow_c4 d L k) = (Finset.univ : Finset (Idx (ringW_c4.view.loc (Vt_c4 d L)))) := by
    rw [← View.set_whole (cc4_scratch1 : Ref sig .scVector)]
    exact ((View.whole cc4_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c4 (d : Dev nD) (L : grid4.Coords) (tab : Buf (Elt F) (tabLoc4 d)) (I : Buf (Elt F) (idxLoc4 d))
    (f : Buf (Elt F) (outLoc4 d)) (hF : (K (F := F)).Facts) (hI : ∀ x ∈ idxRows4 d L, BitVec.toNat (I x) < 1000000)
    (O : CellTallies nD τ sig (HIx 5)) (W : Waits sig (HIx 5)) (hO : ∀ g, O g none = 0) (outP outQ : sProp (MM F))
    (hrun : ∀ (g0 : Buf (Elt F) (listW_c4.view.loc (Vt_c4 d L))) (r : Buf (Elt F) (ringW_c4.view.loc (Vt_c4 d L))),
      (iprop(Transfers.MayWaits (Vt_c4 d L) (default : HIx 5) O
        ∗ (tabW_c4.view.loc (Vt_c4 d L) ↦{Transfers.shareTok (Transfers.shareTok fullShare 32 ⟨wid4 L, wid_lt4 L⟩) 80 cc4_scratch2.sem} tab)
        ∗ (tabW_c4.view.loc (Vt_c4 d L) ↦{Transfers.shareTok (Transfers.shareTok fullShare 32 ⟨wid4 L, wid_lt4 L⟩) 80 cc4_scratch3.sem} tab)
        ∗ (tabW_c4.view.loc (Vt_c4 d L) ↦{Transfers.shareTok (Transfers.shareTok fullShare 32 ⟨wid4 L, wid_lt4 L⟩) 80 cc4_scratch4.sem} tab)
        ∗ (tabW_c4.view.loc (Vt_c4 d L) ↦{Transfers.shareTok (Transfers.shareTok fullShare 32 ⟨wid4 L, wid_lt4 L⟩) 80 cc4_scratch5.sem} tab)
        ∗ (tabW_c4.view.loc (Vt_c4 d L) ↦{Transfers.shareTok (Transfers.shareTok fullShare 32 ⟨wid4 L, wid_lt4 L⟩) 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok (Transfers.shareTok fullShare 32 ⟨wid4 L, wid_lt4 L⟩) 80 cc4_scratch2.sem} tab)
            ∗ (tabW_c4.view.loc (Vt_c4 d L) ↦{Transfers.shareTok (Transfers.shareTok fullShare 32 ⟨wid4 L, wid_lt4 L⟩) 80 cc4_scratch3.sem} tab)
            ∗ (tabW_c4.view.loc (Vt_c4 d L) ↦{Transfers.shareTok (Transfers.shareTok fullShare 32 ⟨wid4 L, wid_lt4 L⟩) 80 cc4_scratch4.sem} tab)
            ∗ (tabW_c4.view.loc (Vt_c4 d L) ↦{Transfers.shareTok (Transfers.shareTok fullShare 32 ⟨wid4 L, wid_lt4 L⟩) 80 cc4_scratch5.sem} tab)
            ∗ (tabW_c4.view.loc (Vt_c4 d L) ↦{Transfers.shareTok (Transfers.shareTok fullShare 32 ⟨wid4 L, wid_lt4 L⟩) 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ outP))
    (hclose : outP ⊢ outQ) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(((tabLoc4 d ↦[Finset.univ]{Transfers.shareTok fullShare 32 ⟨wid4 L, wid_lt4 L⟩} tab)
              ∗ (idxLoc4 d ↦[idxRows4 d L]{fullShare} I) ∗ outQ)
            ∗ scopedBufs (Vt_c4 d L) ∗ scopedSems0 (Vt_c4 d L)
            ∗ ∃ W', ⌜∀ p ∈ W', p ∈ W ∨ p.2 = none⌝ ∗ owes (Vt_c4 d L) O W') := by
  rw [(K (F := F)).scopedBufs_V hF d (cV4 L) (jV4 L), SparseCore.Cfg.scopedSems0_V (Val := Elt F) d (cV4 L) (jV4 L), ownSems0_V0_c4, ownBufs_V0_c4]
  unfold goRes4 cells0_c4
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c4 d L) hO) $$ Hlv
  ihave Htoks := (tabToks0_c4 (F := F) d L (Transfers.shareTok fullShare 32 ⟨wid4 L, wid_lt4 L⟩) tab).1 $$ Htab
  icases Htoks with ⟨Hdrop, Ht0, Ht1, Ht2, Ht3, Ht4, Hother⟩
  ihave Hidx' := (Entails.of_eq (pts_idx0_c4 (F := F) d L I).symm) $$ Hidx
  ihave Hout' := (Entails.of_eq (pts_out0_c4 (F := F) d L f).symm) $$ Hout
  ihave Hring := (Entails.of_eq (ring_split0_c4 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c4 d L) none) Set.univ
    (R := iprop((tabLoc4 d ↦[Finset.univ]{Transfers.shareDrop (Transfers.shareTok fullShare 32 ⟨wid4 L, wid_lt4 L⟩) 80} tab)
      ∗ (bigSep otherToks0_c4 fun i => (tabLoc4 d ↦[Finset.univ]{Transfers.shareTok (Transfers.shareTok fullShare 32 ⟨wid4 L, wid_lt4 L⟩) 80 i} tab : sProp (MM F)))
      ∗ (bigSep (((ownRefs (τ := τ) (.scVector (cV4 L) (jV4 L))).erase ((Proc.scVector (cV4 L) (jV4 L)).devRef cc4_scratch0)).erase
              ((Proc.scVector (cV4 L) (jV4 L)).devRef cc4_scratch1))
              fun b => iprop(∃ f, ((d, b) : Loc nD τ sig) ↦{fullShare} f))
      ∗ (bigSep ((ownCells (Vt_c4 d L)) \ Finset.univ.image (dcell0_c4 d (cV4 L) (jV4 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c4 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c4 (F := F) d L (Transfers.shareTok fullShare 32 ⟨wid4 L, wid_lt4 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c4 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c4 $$ HOw
  ihave Hq := hclose $$ Hout
  isplitl [Htab Hidx Hq]
  · isplitl [Htab]; · iexact Htab
    isplitl [Hidx]; · iapply (Entails.of_eq (pts_idx0_c4 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c4 (d : Dev nD) (L : grid4.Coords) :
    (iprop(∃ f' : Buf (Elt F) (outW_c4.view.loc (Vt_c4 d L)), outW_c4.view.loc (Vt_c4 d L) ↦[outW_c4.view.setOn (outWinR_c4 L).set]{fullShare} f') : sProp (MM F))
      ⊢ iprop(∃ f' : Buf (Elt F) (outLoc4 d), outLoc4 d ↦[outRows4 d L]{fullShare} f') := by
  iintro ⟨%f', H⟩
  iexists f'
  iapply (Entails.of_eq (pts_out0_c4 (F := F) d L f')); iexact H

/-- Rows the run leaves at contents that are the gathered rows on the subcore's rows are those rows at the gathered
    rows. -/
theorem out_valued0_c4 (d : Dev nD) (L : grid4.Coords) (tab : Buf (Elt F) (tabLoc4 d)) (I : Buf (Elt F) (idxLoc4 d)) :
    (iprop(∃ f' : Buf (Elt F) (outW_c4.view.loc (Vt_c4 d L)), (outW_c4.view.loc (Vt_c4 d L) ↦[outW_c4.view.setOn (outWinR_c4 L).set]{fullShare} f')
        ∗ ⌜∀ x : S163840x128.Idx, 5120 * wid4 L ≤ (x 0).val ∧ (x 0).val < 5120 * wid4 L + 5120 → f' x = gathered4 (d := d) tab I x⌝) : sProp (MM F))
      ⊢ (outLoc4 d ↦[outRows4 d L]{fullShare} gathered4 (d := d) tab I) := by
  iintro ⟨%f', H, %hf⟩
  have e : (outW_c4.view.loc (Vt_c4 d L) ↦[outW_c4.view.setOn (outWinR_c4 L).set]{fullShare} f' : sProp (MM F))
      = (outLoc4 d ↦[outRows4 d L]{fullShare} gathered4 (d := d) tab I) := by
    rw [pts_out0_c4 (F := F) d L f']
    exact pointsTo_congr (fun x hx => hf x ((mem_outRows4 d L x).mp hx))
  iapply (Entails.of_eq e); iexact H

/-! ## The task as the launch theorem's obligation consumes it -/

/-- The body's run with the gathered rows named: the statement of the run with, of the subcore's rows of the gathered
    array, contents that are the gathered rows on those rows. -/
def TileRunV0_c4 (F : FTy → Type) [FloatOps F] : Prop :=
  ∀ (d : Dev nD) (L : grid4.Coords) (q : PosShare TreeShare) (O : CellTallies nD τ sig (HIx 5)) (W : Waits sig (HIx 5))
    (tab : Buf (Elt F) (tabW_c4.view.loc (Vt_c4 d L))) (I : Buf (Elt F) ((idxBlkM_c4 L).view.loc (Vt_c4 d L)))
    (hI : ∀ z ∈ (idxBlkM_c4 L).view.set, BitVec.toNat (I z) < 1000000)
    (g0 : Buf (Elt F) (listW_c4.view.loc (Vt_c4 d L))) (r : Buf (Elt F) (ringW_c4.view.loc (Vt_c4 d L)))
    (f : Buf (Elt F) (outW_c4.view.loc (Vt_c4 d L))),
    (iprop(Transfers.MayWaits (Vt_c4 d L) (default : HIx 5) O
        ∗ (tabW_c4.view.loc (Vt_c4 d L) ↦{Transfers.shareTok q 80 cc4_scratch2.sem} tab)
        ∗ (tabW_c4.view.loc (Vt_c4 d L) ↦{Transfers.shareTok q 80 cc4_scratch3.sem} tab)
        ∗ (tabW_c4.view.loc (Vt_c4 d L) ↦{Transfers.shareTok q 80 cc4_scratch4.sem} tab)
        ∗ (tabW_c4.view.loc (Vt_c4 d L) ↦{Transfers.shareTok q 80 cc4_scratch5.sem} tab)
        ∗ (tabW_c4.view.loc (Vt_c4 d L) ↦{Transfers.shareTok q 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok q 80 cc4_scratch2.sem} tab)
            ∗ (tabW_c4.view.loc (Vt_c4 d L) ↦{Transfers.shareTok q 80 cc4_scratch3.sem} tab)
            ∗ (tabW_c4.view.loc (Vt_c4 d L) ↦{Transfers.shareTok q 80 cc4_scratch4.sem} tab)
            ∗ (tabW_c4.view.loc (Vt_c4 d L) ↦{Transfers.shareTok q 80 cc4_scratch5.sem} tab)
            ∗ (tabW_c4.view.loc (Vt_c4 d L) ↦{Transfers.shareTok q 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ (∃ f' : Buf (Elt F) (outW_c4.view.loc (Vt_c4 d L)), (outW_c4.view.loc (Vt_c4 d L) ↦[outW_c4.view.setOn (outWinR_c4 L).set]{fullShare} f')
                ∗ ⌜∀ x : S163840x128.Idx, 5120 * wid4 L ≤ (x 0).val ∧ (x 0).val < 5120 * wid4 L + 5120 → f' x = gathered4 (d := d) tab I x⌝))

/-- THE TASK, with the gathered rows: what the launch theorem's obligation for the call consumes, from the run with
    the gathered rows named. -/
theorem tile_body0_of_c4 (hrun : TileRunV0_c4 F) (d : Dev nD) (L : grid4.Coords) (tab : Buf (Elt F) (tabLoc4 d)) (I : Buf (Elt F) (idxLoc4 d))
    (f : Buf (Elt F) (outLoc4 d)) (hF : (K (F := F)).Facts) (hI : ∀ x ∈ idxRows4 d L, BitVec.toNat (I x) < 1000000)
    (O : CellTallies nD τ sig (HIx 5)) (W : Waits sig (HIx 5)) (hO : ∀ g, O g none = 0) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(tdRes4 d L tab I ∗ scopedBufs (Vt_c4 d L) ∗ scopedSems0 (Vt_c4 d L)
            ∗ ∃ W', ⌜∀ p ∈ W', p ∈ W ∨ p.2 = none⌝ ∗ owes (Vt_c4 d L) O W') := by
  unfold tdRes4
  exact tile_wrap0_c4 d L tab I f hF hI O W hO _ _
    (fun g0 r => hrun d L _ O W tab I (fun z hz => hI z (set_idxBlkM_c4 d L ▸ hz)) g0 r f) (out_valued0_c4 d L tab I)

/-- THE TASK, the rows at some contents: from the run as proved, which does not name what it gathers. -/
theorem tile_frame0_c4 (d : Dev nD) (L : grid4.Coords) (tab : Buf (Elt F) (tabLoc4 d)) (I : Buf (Elt F) (idxLoc4 d))
    (f : Buf (Elt F) (outLoc4 d)) (hF : (K (F := F)).Facts) (hI : ∀ x ∈ idxRows4 d L, BitVec.toNat (I x) < 1000000)
    (O : CellTallies nD τ sig (HIx 5)) (W : Waits sig (HIx 5)) (hO : ∀ g, O g none = 0) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(((tabLoc4 d ↦[Finset.univ]{Transfers.shareTok fullShare 32 ⟨wid4 L, wid_lt4 L⟩} tab)
              ∗ (idxLoc4 d ↦[idxRows4 d L]{fullShare} I) ∗ ∃ f' : Buf (Elt F) (outLoc4 d), outLoc4 d ↦[outRows4 d L]{fullShare} f')
            ∗ scopedBufs (Vt_c4 d L) ∗ scopedSems0 (Vt_c4 d L)
            ∗ ∃ W', ⌜∀ p ∈ W', p ∈ W ∨ p.2 = none⌝ ∗ owes (Vt_c4 d L) O W') :=
  tile_wrap0_c4 d L tab I f hF hI O W hO _ _
    (fun g0 r => tile_run0_c4 d L _ O W tab I (fun z hz => hI z (set_idxBlkM_c4 d L ▸ hz)) g0 r f) (out_frame0_c4 d L)

end Cert.KernelIdeal.Hand

end
-- ==== Proof.Tile4k.lean ====
/-
  The value of one chunk of the first gather call.

  The subcore's list scratch holds its block of the index array: word (c, x) of the scratch is word (wid4, c, x) of the
  array. The gather of chunk c reads row c of the scratch as its list and lands, at row j of the ring slot, the table
  row that word (c, j) names. Row 5120 wid4 + 128 c + j of the whole-array function is the table row named by the
  index word at flat position 5120 wid4 + 128 c + j, which is word (wid4, c, j): the same row. So what a chunk's gather
  lands is its rows of the one function.
-/
import proofs.«206421_g46840913330738_cont_8to1c4_247_26_alg».proof.Proof.Tile4a
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c4 (d : Dev nD) (L : grid4.Coords) (fl : Buf (Elt F) (listW_c4.view.loc (Vt_c4 d L))) (c : ℕ) (hc : c < 40)
    (o : Fin 2 → ℕ) (h : ∀ a, o a + S1x128.size a ≤ S40x128.size a) (ho : o = ![c, 0]) (y : S128.Idx) :
    View.read (Elt F) (rowM_c4 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid4, c, x) of the index array. -/
theorem idxBlk_read0_c4 (d : Dev nD) (L : grid4.Coords) (I : Buf (Elt F) ((idxBlkM_c4 L).view.loc (Vt_c4 d L))) (z : S40x128.Idx) :
    View.read (Elt F) (idxBlkM_c4 L).view I z = I (ix3 (⟨wid4 L, wid_lt4 L⟩ : Fin 32) (z 0) (z 1)) := by
  rw [View.read_apply]
  simp only [cast_eq]
  congr 1
  show (Rect.unit (s := S32x40x128) (k4_off1 L) S1x40x128.size (k4_off1_inb L)).emb (Shape.reshapeEquiv _ z) = _
  rw [Shape.reshapeEquiv_cons_one]
  funext a
  apply Fin.ext
  rw [Rect.emb_apply]
  have e := k4_off1_eq L
  match a with
  | ⟨0, _⟩ => show k4_off1 L 0 + 1 * 0 = wid4 L; rw [e]; show 2 * (L 1).val + (L 0).val + 1 * 0 = wid4 L; unfold wid4; omega
  | ⟨1, _⟩ => show k4_off1 L 1 + 1 * (z 0).val = (z 0).val; rw [e]; show 0 + 1 * (z 0).val = (z 0).val; omega
  | ⟨2, _⟩ => show k4_off1 L 2 + 1 * (z 1).val = (z 1).val; rw [e]; show 0 + 1 * (z 1).val = (z 1).val; omega

/-- After the block copy the list scratch holds the subcore's block: word (c, x) is word (wid4, c, x) of the array. -/
theorem listFill_apply0_c4 (d : Dev nD) (L : grid4.Coords) (I : Buf (Elt F) ((idxBlkM_c4 L).view.loc (Vt_c4 d L)))
    (g0 : Buf (Elt F) (listW_c4.view.loc (Vt_c4 d L))) (z : S40x128.Idx) :
    listFill_c4 d L I g0 z = I (ix3 (⟨wid4 L, wid_lt4 L⟩ : Fin 32) (z 0) (z 1)) := by
  unfold listFill_c4
  show View.write (Elt F) listW_c4.view g0 _ Finset.univ (listW_c4.view.emb z) = _
  rw [View.write_emb_of_mem _ _ (Finset.mem_univ _)]
  simp only [cast_eq]
  exact idxBlk_read0_c4 d L I z

/-! ## What a chunk's gather lands is its rows of the whole-array function -/

/-- The flat position of word (w, c, j) of the index array. -/
theorem rowMajor_ix3_0_c4 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c4 (v : S1000000x128.Idx) : tabS_c4.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid4 + 128 c + j, column e. -/
theorem landed_eq_gathered0_c4 (d : Dev nD) (L : grid4.Coords) (tab : Buf (Elt F) (tabLoc4 d)) (I : Buf (Elt F) (idxLoc4 d))
    (g0 : Buf (Elt F) (listW_c4.view.loc (Vt_c4 d L)))
    (hI : ∀ z ∈ idxRows4 d L, BitVec.toNat (I z) < 1000000)
    (c : ℕ) (hc : c < 40)
    (hin : ∀ x : S128.Idx, BitVec.toNat (View.read (Elt F) (rowM_c4 ![c, 0] (rowInb_c4 c hc)).view (listFill_c4 d L I g0) x) < 1000000)
    (y : S128x128.Idx) (x : S163840x128.Idx)
    (hx0 : (x 0).val = 5120 * wid4 L + 128 * c + (y 0).val) (hx1 : (x 1).val = (y 1).val) :
    landed_c4 d L tab (listFill_c4 d L I g0) ![c, 0] (rowInb_c4 c hc) hin y = gathered4 tab I x := by
  rw [gathered4_apply]
  unfold landed_c4 SparseCore.gatherPayload
  rw [View.read_apply]
  simp only [cast_eq]
  congr 1
  refine (tabS_emb0_c4 _).trans ?_
  have hw : ∀ u : S128.Idx, View.read (Elt F) (rowM_c4 ![c, 0] (rowInb_c4 c hc)).view (listFill_c4 d L I g0) u
      = I (ix3 (⟨wid4 L, wid_lt4 L⟩ : Fin 32) (⟨c, hc⟩ : Fin 40) (u 0)) := fun u => by
    rw [rowM_read0_c4 d L _ c hc _ _ rfl u, listFill_apply0_c4]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll4 (fun r => gatherRow4 I r) x)).symm
    show BitVec.toNat (View.read (Elt F) (rowM_c4 ![c, 0] (rowInb_c4 c hc)).view (listFill_c4 d L I g0)
        (S128.rowMajor.symm (Fin.cast _ (y gathers_S1000000x128_S128x128.axis'))))
      = BitVec.toNat (I (S32x40x128.rowMajor.symm (Fin.cast _ (x gathersAll4.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll4.axis'))
        = ix3 (⟨wid4 L, wid_lt4 L⟩ : Fin 32) (⟨c, hc⟩ : Fin 40) (u 0) :=
      (Equiv.symm_apply_eq _).mpr (Fin.ext ((show (x gathersAll4.axis').val = 5120 * wid4 L + 128 * c + (u 0).val from by
        rw [hu0, ← hx0]; rfl).trans (rowMajor_ix3_0_c4 (⟨wid4 L, wid_lt4 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll4 (fun r => gatherRow4 I r) x ⟨1, by decide⟩ Nat.one_ne_zero).symm
    exact hx1.symm

end Cert.KernelIdeal.Hand

end
-- ==== Proof.Tile4b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.Tile4a
import proofs.«206421_g46840913330738_cont_8to1c4_247_26_alg».proof.Proof.Tile4k

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c4 (d : Dev nD) (L : grid4.Coords) (tab : Buf (Elt F) (tabW_c4.view.loc (Vt_c4 d L))) (I : Buf (Elt F) ((idxBlkM_c4 L).view.loc (Vt_c4 d L)))
    (n : ℕ) (f : Buf (Elt F) (outW_c4.view.loc (Vt_c4 d L))) : Prop :=
  ∀ x : S163840x128.Idx, 5120 * wid4 L ≤ (x 0).val → (x 0).val < 5120 * wid4 L + 128 * n → f x = gathered4 (d := d) tab I x

/-- Before trip g < 8, of the contents: the rows of the chunks before 5g hold the gathered rows, and slot b is
    to hold what the gather of chunk 5g + b lands. -/
def FactsFly_c4 (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000) (g : ℕ) (h : g < 8) (s0 s1 s2 s3 s4 : Buf (Elt F) (ringW_c4.view.loc (Vt_c4 d L))) (f : Buf (Elt F) (outW_c4.view.loc (Vt_c4 d L))) : Prop :=
  DoneUpTo_c4 d L tab I (5 * g) f
    ∧ View.read (Elt F) slot0M_c4.view s0 = landed_c4 d L tab (listFill_c4 d L I g0) ![5 * g + 0, 0] (rowInb0_c4 g h) (hin _ _)
    ∧ View.read (Elt F) slot1M_c4.view s1 = landed_c4 d L tab (listFill_c4 d L I g0) ![5 * g + 1, 0] (rowInb1_c4 g h) (hin _ _)
    ∧ View.read (Elt F) slot2M_c4.view s2 = landed_c4 d L tab (listFill_c4 d L I g0) ![5 * g + 2, 0] (rowInb2_c4 g h) (hin _ _)
    ∧ View.read (Elt F) slot3M_c4.view s3 = landed_c4 d L tab (listFill_c4 d L I g0) ![5 * g + 3, 0] (rowInb3_c4 g h) (hin _ _)
    ∧ View.read (Elt F) slot4M_c4.view s4 = landed_c4 d L tab (listFill_c4 d L I g0) ![5 * g + 4, 0] (rowInb4_c4 g h) (hin _ _)

/-- A slot written whole reads back what was written. -/
theorem read_writes_whole_c4 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c4 (d : Dev nD) (L : grid4.Coords) (tab : Buf (Elt F) (tabW_c4.view.loc (Vt_c4 d L)))
    (fl : Buf (Elt F) (listW_c4.view.loc (Vt_c4 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c4 o h).view fl x) < 1000000)
    (hin' : ∀ x : S128.Idx, BitVec.toNat (View.read (Elt F) (rowM_c4 o' h').view fl x) < 1000000) :
    landed_c4 d L tab fl o h hin = landed_c4 d L tab fl o' h' hin' := by
  subst e; rfl

/-- One chunk copied out extends what is done by that chunk. -/
theorem done_step_c4 (d : Dev nD) (L : grid4.Coords) (tab : Buf (Elt F) (tabW_c4.view.loc (Vt_c4 d L))) (I : Buf (Elt F) ((idxBlkM_c4 L).view.loc (Vt_c4 d L)))
    (n : ℕ) (o : Fin 2 → ℕ) (ho : o = ![5120 * wid4 L + 128 * n, 0])
    (hinb : ∀ a, o a + S128x128.size a ≤ S163840x128.size a)
    (f : Buf (Elt F) (outW_c4.view.loc (Vt_c4 d L))) (p : S128x128.Idx → Elt F .f32)
    (hf : DoneUpTo_c4 d L tab I n f)
    (hp : ∀ (y : S128x128.Idx) (x : S163840x128.Idx), (x 0).val = 5120 * wid4 L + 128 * n + (y 0).val → (x 1).val = (y 1).val →
      p y = gathered4 (d := d) tab I x) :
    DoneUpTo_c4 d L tab I (n + 1)
      (View.write (Elt F) (outW_c4.slice (Rect.unit (s := S163840x128) o S128x128.size hinb) (fun _ => rfl)).view f p Finset.univ) := by
  subst ho
  intro x hlo hhi
  by_cases hx : (x 0).val < 5120 * wid4 L + 128 * n
  · rw [View.write_of_not_mem]
    · exact hf x hlo hx
    · rw [View.setOn_univ]
      show x ∉ ((View.whole main_v12_scv : View sig .scVector .hbm S163840x128 .f32).slice (Rect.unit (s := S163840x128) ![5120 * wid4 L + 128 * n, 0] S128x128.size hinb)).set
      rw [View.set_slice_whole, Rect.mem_set_unit]
      intro h
      have h0 : 5120 * wid4 L + 128 * n ≤ (x 0).val := (h 0).1
      omega
  · have hmem : x ∈ (Rect.unit (s := S163840x128) ![5120 * wid4 L + 128 * n, 0] S128x128.size hinb).set := by
      rw [Rect.mem_set_unit]
      intro a
      have h1 : (x 1).val < 128 := (x 1).isLt
      fin_cases a
      · show 5120 * wid4 L + 128 * n ≤ (x 0).val ∧ (x 0).val < 5120 * wid4 L + 128 * n + 128
        omega
      · show 0 ≤ (x 1).val ∧ (x 1).val < 0 + 128
        omega
    rw [← Rect.map_emb_univ] at hmem
    obtain ⟨y, -, rfl⟩ := Finset.mem_map.mp hmem
    have e : (outW_c4.slice (Rect.unit (s := S163840x128) ![5120 * wid4 L + 128 * n, 0] S128x128.size hinb) (fun _ => rfl)).view.emb y
        = (Rect.unit (s := S163840x128) ![5120 * wid4 L + 128 * n, 0] S128x128.size hinb).emb y := rfl
    rw [← e, View.write_emb_of_mem _ _ (Finset.mem_univ y)]
    simp only [cast_eq]
    refine hp y _ ?_ ?_
    · rw [e, Rect.emb_apply]
      show 5120 * wid4 L + 128 * n + 1 * (y 0).val = 5120 * wid4 L + 128 * n + (y 0).val
      omega
    · rw [e, Rect.emb_apply]
      show 0 + 1 * (y 1).val = (y 1).val
      omega

theorem off3c_c4 (L : grid4.Coords) (k : Fin k4_t1_loop.trips) (r : Fin 5) :
    k4_off3 L k (BitVec.ofNat 32 r.val) = ![5120 * wid4 L + 128 * (5 * k.val + r.val), 0] :=
  (k4_off3_eq L k r).trans (by unfold wid4; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c4 (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000)
    (hK : ∀ (c : ℕ) (hc : c < 40) (hin' : ∀ x : S128.Idx, BitVec.toNat (View.read (Elt F) (rowM_c4 ![c, 0] (rowInb_c4 c hc)).view (listFill_c4 d L I g0) x) < 1000000)
      (y : S128x128.Idx) (x : S163840x128.Idx), (x 0).val = 5120 * wid4 L + 128 * c + (y 0).val → (x 1).val = (y 1).val →
      landed_c4 d L tab (listFill_c4 d L I g0) ![c, 0] (rowInb_c4 c hc) hin' y = gathered4 (d := d) tab I x)
    (k : Fin k4_t1_loop.trips) (hk8 : k.val < 8) (s0 s1 s2 s3 s4 : Buf (Elt F) (ringW_c4.view.loc (Vt_c4 d L))) (f : Buf (Elt F) (outW_c4.view.loc (Vt_c4 d L)))
    (hF : FactsFly_c4 d L tab I g0 hin k.val hk8 s0 s1 s2 s3 s4 f) :
    DoneUpTo_c4 d L tab I (5 * (k.val + 1))
      (View.write (Elt F) (outW_c4.slice (Rect.unit (s := S163840x128) (k4_off3 L k 4#32) S128x128.size (k4_off3_inb L k 4)) (fun _ => rfl)).view (View.write (Elt F) (outW_c4.slice (Rect.unit (s := S163840x128) (k4_off3 L k 3#32) S128x128.size (k4_off3_inb L k 3)) (fun _ => rfl)).view (View.write (Elt F) (outW_c4.slice (Rect.unit (s := S163840x128) (k4_off3 L k 2#32) S128x128.size (k4_off3_inb L k 2)) (fun _ => rfl)).view (View.write (Elt F) (outW_c4.slice (Rect.unit (s := S163840x128) (k4_off3 L k 1#32) S128x128.size (k4_off3_inb L k 1)) (fun _ => rfl)).view (View.write (Elt F) (outW_c4.slice (Rect.unit (s := S163840x128) (k4_off3 L k 0#32) S128x128.size (k4_off3_inb L k 0)) (fun _ => rfl)).view f (ReadAs.same.apply (View.read (Elt F) slot0M_c4.view s0)) Finset.univ) (ReadAs.same.apply (View.read (Elt F) slot1M_c4.view s1)) Finset.univ) (ReadAs.same.apply (View.read (Elt F) slot2M_c4.view s2)) Finset.univ) (ReadAs.same.apply (View.read (Elt F) slot3M_c4.view s3)) Finset.univ) (ReadAs.same.apply (View.read (Elt F) slot4M_c4.view s4)) Finset.univ) := by
  obtain ⟨hd, h0, h1, h2, h3, h4⟩ := hF
  have e : 5 * (k.val + 1) = 5 * k.val + 0 + 1 + 1 + 1 + 1 + 1 := by omega
  rw [e]
  refine done_step_c4 d L tab I _ _ (off3c_c4 L k 4) _ _ _ ?_ ?_
  refine done_step_c4 d L tab I _ _ (off3c_c4 L k 3) _ _ _ ?_ ?_
  refine done_step_c4 d L tab I _ _ (off3c_c4 L k 2) _ _ _ ?_ ?_
  refine done_step_c4 d L tab I _ _ (off3c_c4 L k 1) _ _ _ ?_ ?_
  refine done_step_c4 d L tab I _ _ (off3c_c4 L k 0) _ _ _ ?_ ?_
  · exact hd
  · intro y x hx0 hx1
    show View.read (Elt F) slot0M_c4.view s0 y = _
    rw [h0]; exact hK (5 * k.val + 0) (by omega) _ y x hx0 hx1
  · intro y x hx0 hx1
    show View.read (Elt F) slot1M_c4.view s1 y = _
    rw [h1]; exact hK (5 * k.val + 1) (by omega) _ y x hx0 hx1
  · intro y x hx0 hx1
    show View.read (Elt F) slot2M_c4.view s2 y = _
    rw [h2]; exact hK (5 * k.val + 2) (by omega) _ y x hx0 hx1
  · intro y x hx0 hx1
    show View.read (Elt F) slot3M_c4.view s3 y = _
    rw [h3]; exact hK (5 * k.val + 3) (by omega) _ y x hx0 hx1
  · intro y x hx0 hx1
    show View.read (Elt F) slot4M_c4.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L))) (g : ℕ) (h : g < 8) (s0 s1 s2 s3 s4 : Buf (Elt F) (ringW_c4.view.loc (Vt_c4 d L))) (f : Buf (Elt F) (outW_c4.view.loc (Vt_c4 d L))) : sProp (MM F) :=
  iprop(Transfers.MayWaits (Vt_c4 d L) (default : HIx 5) O
    ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
    ∗ owesW_c4 d L O W
    ∗ (outW_c4.view.loc (Vt_c4 d L) ↦[outW_c4.view.setOn (outWinR_c4 L).set]{fullShare} f)
    ∗ ((Transfers.Flight countersEmb (Vt_c4 d L) (SemLoc.dma cc4_scratch2.sem) (default : HIx 5) 524288
              iprop(((slot0M_c4.view.loc (Vt_c4 d L) ↦[slot0M_c4.view.set]{fullShare} s0)
                  ∗ (listW_c4.view.loc (Vt_c4 d L) ↦[(rowM_c4 ![5 * g + 0, 0] (rowInb0_c4 g h)).view.set]{fullShare} fl))
                ∗ (tabW_c4.view.loc (Vt_c4 d L) ↦[tabS_c4.view.set]{Transfers.shareTok q 80 cc4_scratch2.sem} tab))
            ∗ (slot0M_c4.view.loc (Vt_c4 d L) ↦[slot0M_c4.view.set \ slot0M_c4.view.set]{fullShare} s0))
          ∗ (tabW_c4.view.loc (Vt_c4 d L) ↦[Finset.univ \ tabS_c4.view.set]{Transfers.shareTok q 80 cc4_scratch2.sem} tab))
    ∗ ((Transfers.Flight countersEmb (Vt_c4 d L) (SemLoc.dma cc4_scratch3.sem) (default : HIx 5) 524288
              iprop(((slot1M_c4.view.loc (Vt_c4 d L) ↦[slot1M_c4.view.set]{fullShare} s1)
                  ∗ (listW_c4.view.loc (Vt_c4 d L) ↦[(rowM_c4 ![5 * g + 1, 0] (rowInb1_c4 g h)).view.set]{fullShare} fl))
                ∗ (tabW_c4.view.loc (Vt_c4 d L) ↦[tabS_c4.view.set]{Transfers.shareTok q 80 cc4_scratch3.sem} tab))
            ∗ (slot1M_c4.view.loc (Vt_c4 d L) ↦[slot1M_c4.view.set \ slot1M_c4.view.set]{fullShare} s1))
          ∗ (tabW_c4.view.loc (Vt_c4 d L) ↦[Finset.univ \ tabS_c4.view.set]{Transfers.shareTok q 80 cc4_scratch3.sem} tab))
    ∗ ((Transfers.Flight countersEmb (Vt_c4 d L) (SemLoc.dma cc4_scratch4.sem) (default : HIx 5) 524288
              iprop(((slot2M_c4.view.loc (Vt_c4 d L) ↦[slot2M_c4.view.set]{fullShare} s2)
                  ∗ (listW_c4.view.loc (Vt_c4 d L) ↦[(rowM_c4 ![5 * g + 2, 0] (rowInb2_c4 g h)).view.set]{fullShare} fl))
                ∗ (tabW_c4.view.loc (Vt_c4 d L) ↦[tabS_c4.view.set]{Transfers.shareTok q 80 cc4_scratch4.sem} tab))
            ∗ (slot2M_c4.view.loc (Vt_c4 d L) ↦[slot2M_c4.view.set \ slot2M_c4.view.set]{fullShare} s2))
          ∗ (tabW_c4.view.loc (Vt_c4 d L) ↦[Finset.univ \ tabS_c4.view.set]{Transfers.shareTok q 80 cc4_scratch4.sem} tab))
    ∗ ((Transfers.Flight countersEmb (Vt_c4 d L) (SemLoc.dma cc4_scratch5.sem) (default : HIx 5) 524288
              iprop(((slot3M_c4.view.loc (Vt_c4 d L) ↦[slot3M_c4.view.set]{fullShare} s3)
                  ∗ (listW_c4.view.loc (Vt_c4 d L) ↦[(rowM_c4 ![5 * g + 3, 0] (rowInb3_c4 g h)).view.set]{fullShare} fl))
                ∗ (tabW_c4.view.loc (Vt_c4 d L) ↦[tabS_c4.view.set]{Transfers.shareTok q 80 cc4_scratch5.sem} tab))
            ∗ (slot3M_c4.view.loc (Vt_c4 d L) ↦[slot3M_c4.view.set \ slot3M_c4.view.set]{fullShare} s3))
          ∗ (tabW_c4.view.loc (Vt_c4 d L) ↦[Finset.univ \ tabS_c4.view.set]{Transfers.shareTok q 80 cc4_scratch5.sem} tab))
    ∗ ((Transfers.Flight countersEmb (Vt_c4 d L) (SemLoc.dma cc4_scratch6.sem) (default : HIx 5) 524288
              iprop(((slot4M_c4.view.loc (Vt_c4 d L) ↦[slot4M_c4.view.set]{fullShare} s4)
                  ∗ (listW_c4.view.loc (Vt_c4 d L) ↦[(rowM_c4 ![5 * g + 4, 0] (rowInb4_c4 g h)).view.set]{fullShare} fl))
                ∗ (tabW_c4.view.loc (Vt_c4 d L) ↦[tabS_c4.view.set]{Transfers.shareTok q 80 cc4_scratch6.sem} tab))
            ∗ (slot4M_c4.view.loc (Vt_c4 d L) ↦[slot4M_c4.view.set \ slot4M_c4.view.set]{fullShare} s4))
          ∗ (tabW_c4.view.loc (Vt_c4 d L) ↦[Finset.univ \ tabS_c4.view.set]{Transfers.shareTok q 80 cc4_scratch6.sem} tab))
    ∗ (listW_c4.view.loc (Vt_c4 d L) ↦[((((Finset.univ \ (rowM_c4 ![5 * g + 0, 0] (rowInb0_c4 g h)).view.set) \ (rowM_c4 ![5 * g + 1, 0] (rowInb1_c4 g h)).view.set)
              \ (rowM_c4 ![5 * g + 2, 0] (rowInb2_c4 g h)).view.set) \ (rowM_c4 ![5 * g + 3, 0] (rowInb3_c4 g h)).view.set) \ (rowM_c4 ![5 * g + 4, 0] (rowInb4_c4 g h)).view.set]{fullShare} fl))

/-- After the last trip: every cell at zero, the slots, the list and the shares back. -/
def invIdle_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L))) (s0 s1 s2 s3 s4 : Buf (Elt F) (ringW_c4.view.loc (Vt_c4 d L))) (f : Buf (Elt F) (outW_c4.view.loc (Vt_c4 d L))) : sProp (MM F) :=
  iprop(Transfers.MayWaits (Vt_c4 d L) (default : HIx 5) O
    ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
    ∗ owesW_c4 d L O W
    ∗ (outW_c4.view.loc (Vt_c4 d L) ↦[outW_c4.view.setOn (outWinR_c4 L).set]{fullShare} f)
    ∗ ((tabW_c4.view.loc (Vt_c4 d L) ↦{Transfers.shareTok q 80 cc4_scratch2.sem} tab) ∗ semVal (Vt_c4 d L, SemLoc.dma cc4_scratch2.sem) 0
          ∗ (slot0M_c4.view.loc (Vt_c4 d L) ↦[slot0M_c4.view.set]{fullShare} s0))
    ∗ ((tabW_c4.view.loc (Vt_c4 d L) ↦{Transfers.shareTok q 80 cc4_scratch3.sem} tab) ∗ semVal (Vt_c4 d L, SemLoc.dma cc4_scratch3.sem) 0
          ∗ (slot1M_c4.view.loc (Vt_c4 d L) ↦[slot1M_c4.view.set]{fullShare} s1))
    ∗ ((tabW_c4.view.loc (Vt_c4 d L) ↦{Transfers.shareTok q 80 cc4_scratch4.sem} tab) ∗ semVal (Vt_c4 d L, SemLoc.dma cc4_scratch4.sem) 0
          ∗ (slot2M_c4.view.loc (Vt_c4 d L) ↦[slot2M_c4.view.set]{fullShare} s2))
    ∗ ((tabW_c4.view.loc (Vt_c4 d L) ↦{Transfers.shareTok q 80 cc4_scratch5.sem} tab) ∗ semVal (Vt_c4 d L, SemLoc.dma cc4_scratch5.sem) 0
          ∗ (slot3M_c4.view.loc (Vt_c4 d L) ↦[slot3M_c4.view.set]{fullShare} s3))
    ∗ ((tabW_c4.view.loc (Vt_c4 d L) ↦{Transfers.shareTok q 80 cc4_scratch6.sem} tab) ∗ semVal (Vt_c4 d L, SemLoc.dma cc4_scratch6.sem) 0
          ∗ (slot4M_c4.view.loc (Vt_c4 d L) ↦[slot4M_c4.view.set]{fullShare} s4))
    ∗ (listW_c4.view.loc (Vt_c4 d L) ↦{fullShare} fl))

/-- What the loop keeps. -/
def inv0v_c4 (q : PosShare TreeShare) (O : CellTallies nD τ sig (HIx 5)) (W : Waits sig (HIx 5)) (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000) (g : ℕ) (_ : PUnit) : sProp (MM F) :=
  if h : g < 8 then
    iprop(∃ s0 s1 s2 s3 s4 f, ⌜FactsFly_c4 d L tab I g0 hin g h s0 s1 s2 s3 s4 f⌝ ∗ invFly_c4 d L q O W tab (listFill_c4 d L I g0) g h s0 s1 s2 s3 s4 f)
  else
    iprop(∃ s0 s1 s2 s3 s4 f, ⌜DoneUpTo_c4 d L tab I (5 * g) f⌝ ∗ invIdle_c4 d L q O W tab (listFill_c4 d L I g0) s0 s1 s2 s3 s4 f)

/-! ## One trip, with the contents -/

set_option maxHeartbeats 4000000 in
theorem trip0v_c4 (q : PosShare TreeShare) (O : CellTallies nD τ sig (HIx 5)) (W : Waits sig (HIx 5)) (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000)
    (hK : ∀ (c : ℕ) (hc : c < 40) (hin' : ∀ x : S128.Idx, BitVec.toNat (View.read (Elt F) (rowM_c4 ![c, 0] (rowInb_c4 c hc)).view (listFill_c4 d L I g0) x) < 1000000)
      (y : S128x128.Idx) (x : S163840x128.Idx), (x 0).val = 5120 * wid4 L + 128 * c + (y 0).val → (x 1).val = (y 1).val →
      landed_c4 d L tab (listFill_c4 d L I g0) ![c, 0] (rowInb_c4 c hc) hin' y = gathered4 (d := d) tab I x)
    (v2 : BitVec 32) (k : Fin k4_t1_loop.trips) (acc : PUnit) :
    inv0v_c4 q O W d L tab I g0 hin k.val acc
      ⊢ wp frame (wpE (defs₀ (F := F)) 𝒱₀ (Vt_c4 d L) none) Set.univ
          (k4_t1_body L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0 v2 k acc)
          (inv0v_c4 q O W d L tab I g0 hin (k.val + 1)) := by
  have hk8 : k.val < 8 := trips_eq_c4 ▸ k.isLt
  unfold inv0v_c4
  rw [dif_pos hk8]
  by_cases hk : k.val < 7
  · obtain ⟨hc1, hc2, hc3, hc4, hc5⟩ := conds_lt_c4 k hk
    have hk1 : k.val + 1 < 8 := by omega
    rw [dif_pos hk1]
    unfold k4_t1_body
    iintro ⟨%s0, %s1, %s2, %s3, %s4, %f, %hF, HP⟩
    unfold invFly_c4
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    rw [rowSet_congr_c4 d L (off4_c4 k) (k4_off4_inb k hc1) (rowInb0_c4 (k.val + 1) hk1), rowSet_congr_c4 d L (off5_c4 k) (k4_off5_inb k hc2) (rowInb1_c4 (k.val + 1) hk1),
      rowSet_congr_c4 d L (off6_c4 k) (k4_off6_inb k hc3) (rowInb2_c4 (k.val + 1) hk1), rowSet_congr_c4 d L (off7_c4 k) (k4_off7_inb k hc4) (rowInb3_c4 (k.val + 1) hk1),
      rowSet_congr_c4 d L (off8_c4 k) (k4_off8_inb k hc5) (rowInb4_c4 (k.val + 1) hk1)]
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    iexists _; iexists _; iexists _; iexists _; iexists _; iexists _
    isplitr
    swap
    · sl_close
    · ipureintro
      refine ⟨done5_c4 d L tab I g0 hin hK k hk8 s0 s1 s2 s3 s4 f hF, ?_, ?_, ?_, ?_, ?_⟩
      · exact (read_writes_whole_c4 _ _ _).trans (landed_congr_c4 d L tab _ (off4_c4 k) _ _ _ _)
      · exact (read_writes_whole_c4 _ _ _).trans (landed_congr_c4 d L tab _ (off5_c4 k) _ _ _ _)
      · exact (read_writes_whole_c4 _ _ _).trans (landed_congr_c4 d L tab _ (off6_c4 k) _ _ _ _)
      · exact (read_writes_whole_c4 _ _ _).trans (landed_congr_c4 d L tab _ (off7_c4 k) _ _ _ _)
      · exact (read_writes_whole_c4 _ _ _).trans (landed_congr_c4 d L tab _ (off8_c4 k) _ _ _ _)
  · obtain ⟨hc1, hc2, hc3, hc4, hc5⟩ := conds_last_c4 k hk
    rw [dif_neg (show ¬ k.val + 1 < 8 by omega)]
    unfold k4_t1_body
    iintro ⟨%s0, %s1, %s2, %s3, %s4, %f, %hF, HP⟩
    unfold invFly_c4
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    iexists _; iexists _; iexists _; iexists _; iexists _; iexists _
    isplitr
    swap
    · unfold invIdle_c4
      sl_close
    · ipureintro
      exact done5_c4 d L tab I g0 hin hK k hk8 s0 s1 s2 s3 s4 f hF

end Cert.KernelIdeal.Hand

end
-- ==== Proof.Tile4v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.Tile4b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c4 (d : Dev nD) (L : grid4.Coords) (q : PosShare TreeShare) (O : CellTallies nD τ sig (HIx 5)) (W : Waits sig (HIx 5))
    (tab : Buf (Elt F) (tabW_c4.view.loc (Vt_c4 d L))) (I : Buf (Elt F) ((idxBlkM_c4 L).view.loc (Vt_c4 d L)))
    (hI : ∀ z ∈ (idxBlkM_c4 L).view.set, BitVec.toNat (I z) < 1000000)
    (g0 : Buf (Elt F) (listW_c4.view.loc (Vt_c4 d L))) (r : Buf (Elt F) (ringW_c4.view.loc (Vt_c4 d L)))
    (f : Buf (Elt F) (outW_c4.view.loc (Vt_c4 d L))) :
    (iprop(Transfers.MayWaits (Vt_c4 d L) (default : HIx 5) O
        ∗ (tabW_c4.view.loc (Vt_c4 d L) ↦{Transfers.shareTok q 80 cc4_scratch2.sem} tab)
        ∗ (tabW_c4.view.loc (Vt_c4 d L) ↦{Transfers.shareTok q 80 cc4_scratch3.sem} tab)
        ∗ (tabW_c4.view.loc (Vt_c4 d L) ↦{Transfers.shareTok q 80 cc4_scratch4.sem} tab)
        ∗ (tabW_c4.view.loc (Vt_c4 d L) ↦{Transfers.shareTok q 80 cc4_scratch5.sem} tab)
        ∗ (tabW_c4.view.loc (Vt_c4 d L) ↦{Transfers.shareTok q 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok q 80 cc4_scratch2.sem} tab)
            ∗ (tabW_c4.view.loc (Vt_c4 d L) ↦{Transfers.shareTok q 80 cc4_scratch3.sem} tab)
            ∗ (tabW_c4.view.loc (Vt_c4 d L) ↦{Transfers.shareTok q 80 cc4_scratch4.sem} tab)
            ∗ (tabW_c4.view.loc (Vt_c4 d L) ↦{Transfers.shareTok q 80 cc4_scratch5.sem} tab)
            ∗ (tabW_c4.view.loc (Vt_c4 d L) ↦{Transfers.shareTok q 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ (∃ f' : Buf (Elt F) (outW_c4.view.loc (Vt_c4 d L)), (outW_c4.view.loc (Vt_c4 d L) ↦[outW_c4.view.setOn (outWinR_c4 L).set]{fullShare} f')
                ∗ ⌜∀ x : S163840x128.Idx, 5120 * wid4 L ≤ (x 0).val ∧ (x 0).val < 5120 * wid4 L + 5120 → f' x = gathered4 (d := d) tab I x⌝)) := by
  have hin := list_words_c4 d L I g0 hI
  have hI' : ∀ z ∈ idxRows4 d L, BitVec.toNat (I z) < 1000000 := fun z hz => hI z (by rw [set_idxBlkM_c4 d L]; exact hz)
  have hK := fun c hc hin' y x hx0 hx1 => landed_eq_gathered0_c4 (F := F) d L tab I g0 hI' c hc hin' y x hx0 hx1
  rw [cc4_gather_k_eq_skeleton]; unfold cc4_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c4 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c4 q O W d L tab I g0 hin hK _ k acc
  · unfold inv0v_c4
    rw [dif_pos (show 0 < 8 by decide)]
    ihave HO' := (owesW_intro_c4 (W := W) (ins_none_c4 (fun p hp => Or.inl hp) _)) $$ HO
    iexists _; iexists _; iexists _; iexists _; iexists _; iexists _
    isplitr
    swap
    · unfold invFly_c4
      sl_close
    · ipureintro
      refine ⟨fun x h1 h2 => absurd h2 (by omega), ?_, ?_, ?_, ?_, ?_⟩
      · exact (read_writes_whole_c4 _ _ _).trans (landed_congr_c4 d L tab _ (show (![0, 0] : Fin 2 → ℕ) = ![5 * 0 + 0, 0] from rfl) _ _ _ _)
      · exact (read_writes_whole_c4 _ _ _).trans (landed_congr_c4 d L tab _ (show (![1, 0] : Fin 2 → ℕ) = ![5 * 0 + 1, 0] from rfl) _ _ _ _)
      · exact (read_writes_whole_c4 _ _ _).trans (landed_congr_c4 d L tab _ (show (![2, 0] : Fin 2 → ℕ) = ![5 * 0 + 2, 0] from rfl) _ _ _ _)
      · exact (read_writes_whole_c4 _ _ _).trans (landed_congr_c4 d L tab _ (show (![3, 0] : Fin 2 → ℕ) = ![5 * 0 + 3, 0] from rfl) _ _ _ _)
      · exact (read_writes_whole_c4 _ _ _).trans (landed_congr_c4 d L tab _ (show (![4, 0] : Fin 2 → ℕ) = ![5 * 0 + 4, 0] from rfl) _ _ _ _)
  unfold inv0v_c4
  rw [dif_neg (show ¬ k4_t1_loop.trips < 8 by rw [trips_eq_c4]; decide)]
  iintro %acc ⟨%s0, %s1, %s2, %s3, %s4, %f', %hdone, HP⟩
  unfold invIdle_c4
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k4_t1_loop.lb k4_t1_loop.ub k4_t1_loop.st = 8 := trips_eq_c4
  rw [h8] at hdone
  have hfin : ∀ x : S163840x128.Idx, 5120 * wid4 L ≤ (x 0).val ∧ (x 0).val < 5120 * wid4 L + 5120 → f' x = gathered4 (d := d) tab I x :=
    fun x h => hdone x h.1 (by omega)
  sl_close

end Cert.KernelIdeal.Hand

end
-- ==== Proof.Tile4Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.Tile4Wrap
import proofs.«206421_g46840913330738_cont_8to1c4_247_26_alg».proof.Proof.Tile4v

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body4 (d : Dev nD) (L : grid4.Coords) (tab : Buf (Elt F) (tabLoc4 d)) (I : Buf (Elt F) (idxLoc4 d)) (f : Buf (Elt F) (outLoc4 d))
    (hF : (K (F := F)).Facts) (hI : ∀ x ∈ idxRows4 d L, BitVec.toNat (I x) < 1000000)
    (O : CellTallies nD τ sig (HIx 5)) (W : Waits sig (HIx 5)) (hO : ∀ g, O g none = 0) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(tdRes4 d L tab I ∗ scopedBufs (Vt_c4 d L) ∗ scopedSems0 (Vt_c4 d L)
            ∗ ∃ W', ⌜∀ p ∈ W', p ∈ W ∨ p.2 = none⌝ ∗ owes (Vt_c4 d L) O W') :=
  tile_body0_of_c4 (F := F) tile_runV0_c4 d L tab I f hF hI O W hO

end Cert.KernelIdeal.Hand

end
-- ==== Proof.TileObl4.lean ====
/-
  The launch theorem's obligation for gather call 2: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Tile4Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec4 (c : Fin τ.nSC) (s : Fin τ.nSub) :
    defs₀ (F := F) (.scVector c s) 4 ()
      = SparseCore.onTile hcore4 hsub4 (fun c s => cc4_gather_k (coordsV4 c s) (Memref.whole main_arg1_scv) (Memref.isWhole_whole _) (Memref.whole main_v11_scv) (Memref.isWhole_whole _) (Memref.whole main_v12_scv) (Memref.isWhole_whole _) (Memref.whole cc4_scratch0) (Memref.isWhole_whole _) (Memref.whole cc4_scratch1) (Memref.isWhole_whole _) cc4_scratch2 cc4_scratch3 cc4_scratch4 cc4_scratch5 cc4_scratch6 cc4_scratch7 cc4_scratch8 cc4_scratch9 cc4_scratch10 cc4_scratch11 cc4_scoped0) ⟨⟩ c s := rfl

/-- Every index word of the call's index array names a table row. -/
def InRange4 : Prop := ∀ (d : Dev nD) (x : S32x40x128.Idx), (BitVec.toNat (W13 m d (r main_v11) x)) < 1000000

/-- The task of call 2, for every subcore of its grid. -/
theorem tileObl4 (hR : InRange4 m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vec4]; simp only [SparseCore.onTile, hc, and_self, ↓reduceDIte]
  show iprop(_ ∗ _ ∗ goRes4 d (coordsV4 c i) (W13 m d (r main_arg1)) (W13 m d (r main_v11)) (W13 m d (r main_v12)) ∗ _) ⊢ wp _ _ _ _
    (fun _ => iprop(tdRes4 d (coordsV4 c i) (W13 m d (r main_arg1)) (W13 m d (r main_v11)) ∗ _))
  exact (tile_body4 d (coordsV4 c i) (W13 m d (r main_arg1)) (W13 m d (r main_v11)) (W13 m d (r main_v12)) facts (fun x _ => hR d x) O W hO).trans
    (wp_mono frame _ _ fun _ => obl_post)

end Cert.KernelIdeal.Hand

end
-- ==== Proof.Tile6a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.Tile6Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c6 (d : Dev nD) (L : grid6.Coords) : Thread nD τ := V d (cV6 L) (jV6 L)

abbrev tabW_c6 : Memref sig .scVector .hbm S1000000x128 .f32 := Memref.whole main_arg1_scv
abbrev idxW_c6 : Memref sig .scVector .hbm S32x40x128 .i32 := Memref.whole main_v15_scv
abbrev outW_c6 : Memref sig .scVector .hbm S163840x128 .f32 := Memref.whole main_v16_scv
abbrev listW_c6 : Memref sig .scVector .vmem S40x128 .i32 := Memref.whole cc6_scratch0
abbrev ringW_c6 : Memref sig .scVector .vmem S5x128x128 .f32 := Memref.whole cc6_scratch1
/-- The table as every gather names it: the slice that is all of it. -/
abbrev tabS_c6 : Memref sig .scVector .hbm S1000000x128 .f32 :=
  tabW_c6.slice (Rect.unit (s := S1000000x128) ![0, 0] S1000000x128.size inb_S1000000x128_S1000000x128_0_0) (fun _ => rfl)
/-- The subcore's block of the index array, as the block copy names it. -/
abbrev idxBlkM_c6 (L : grid6.Coords) : Memref sig .scVector .hbm S40x128 .i32 :=
  (idxW_c6.slice (Rect.unit (s := S32x40x128) (k6_off1 L) S1x40x128.size (k6_off1_inb L)) (fun _ => rfl)).squeeze S40x128 squeezes_S1x40x128_S40x128
/-- The five slots of the ring. -/
abbrev slot0M_c6 : Memref sig .scVector .vmem S128x128 .f32 :=
  (ringW_c6.slice (Rect.unit (s := S5x128x128) ![0, 0, 0] S1x128x128.size inb_S5x128x128_S1x128x128_0_0_0) (fun _ => rfl)).squeeze S128x128 squeezes_S1x128x128_S128x128
abbrev slot1M_c6 : Memref sig .scVector .vmem S128x128 .f32 :=
  (ringW_c6.slice (Rect.unit (s := S5x128x128) ![1, 0, 0] S1x128x128.size inb_S5x128x128_S1x128x128_1_0_0) (fun _ => rfl)).squeeze S128x128 squeezes_S1x128x128_S128x128
abbrev slot2M_c6 : Memref sig .scVector .vmem S128x128 .f32 :=
  (ringW_c6.slice (Rect.unit (s := S5x128x128) ![2, 0, 0] S1x128x128.size inb_S5x128x128_S1x128x128_2_0_0) (fun _ => rfl)).squeeze S128x128 squeezes_S1x128x128_S128x128
abbrev slot3M_c6 : Memref sig .scVector .vmem S128x128 .f32 :=
  (ringW_c6.slice (Rect.unit (s := S5x128x128) ![3, 0, 0] S1x128x128.size inb_S5x128x128_S1x128x128_3_0_0) (fun _ => rfl)).squeeze S128x128 squeezes_S1x128x128_S128x128
abbrev slot4M_c6 : Memref sig .scVector .vmem S128x128 .f32 :=
  (ringW_c6.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c6 (o : Fin 2 → ℕ) (h : ∀ a, o a + S1x128.size a ≤ S40x128.size a) : Memref sig .scVector .vmem S128 .i32 :=
  (listW_c6.slice (Rect.unit (s := S40x128) o S1x128.size h) (fun _ => rfl)).squeeze S128 squeezes_S1x128_S128

theorem rowInb_c6 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c6 (g : ℕ) (h : g < 8) : ∀ a, (![5 * g + 0, 0] : Fin 2 → ℕ) a + S1x128.size a ≤ S40x128.size a := rowInb_c6 (5 * g + 0) (by omega)
theorem rowInb1_c6 (g : ℕ) (h : g < 8) : ∀ a, (![5 * g + 1, 0] : Fin 2 → ℕ) a + S1x128.size a ≤ S40x128.size a := rowInb_c6 (5 * g + 1) (by omega)
theorem rowInb2_c6 (g : ℕ) (h : g < 8) : ∀ a, (![5 * g + 2, 0] : Fin 2 → ℕ) a + S1x128.size a ≤ S40x128.size a := rowInb_c6 (5 * g + 2) (by omega)
theorem rowInb3_c6 (g : ℕ) (h : g < 8) : ∀ a, (![5 * g + 3, 0] : Fin 2 → ℕ) a + S1x128.size a ≤ S40x128.size a := rowInb_c6 (5 * g + 3) (by omega)
theorem rowInb4_c6 (g : ℕ) (h : g < 8) : ∀ a, (![5 * g + 4, 0] : Fin 2 → ℕ) a + S1x128.size a ≤ S40x128.size a := rowInb_c6 (5 * g + 4) (by omega)

theorem rowM_congr_c6 {o o' : Fin 2 → ℕ} (e : o = o') (h : ∀ a, o a + S1x128.size a ≤ S40x128.size a)
    (h' : ∀ a, o' a + S1x128.size a ≤ S40x128.size a) : rowM_c6 o h = rowM_c6 o' h' := by
  subst e; rfl

/-- The subcore's rows of the gathered array as a rectangle in the grid coordinates themselves. -/
theorem outWinR_inb_c6 (L : grid6.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c6 (L : grid6.Coords) : Rect S163840x128 :=
  Rect.unit (s := S163840x128) ![10240 * (L 1).val + 5120 * (L 0).val, 0] ![5120, 128] (outWinR_inb_c6 L)

theorem outWinR_eq_c6 (L : grid6.Coords) : outWinR_c6 L = outRect6 L :=
  Rect.unit_congr (by unfold wid6; rw [show 5120 * (2 * (L 1).val + (L 0).val) = 10240 * (L 1).val + 5120 * (L 0).val by omega]) _ _

/-! ## The trips' offsets and conditions in closed form -/

theorem off4_c6 (k : Fin k6_t1_loop.trips) : k6_off4 k = ![5 * (k.val + 1) + 0, 0] :=
  (k6_off4_eq k).trans (by rw [show 5 * (k.val + 1) + 0 = 5 * k.val + 5 by omega])
theorem off5_c6 (k : Fin k6_t1_loop.trips) : k6_off5 k = ![5 * (k.val + 1) + 1, 0] :=
  (k6_off5_eq k).trans (by rw [show 5 * (k.val + 1) + 1 = 5 * k.val + 6 by omega])
theorem off6_c6 (k : Fin k6_t1_loop.trips) : k6_off6 k = ![5 * (k.val + 1) + 2, 0] :=
  (k6_off6_eq k).trans (by rw [show 5 * (k.val + 1) + 2 = 5 * k.val + 7 by omega])
theorem off7_c6 (k : Fin k6_t1_loop.trips) : k6_off7 k = ![5 * (k.val + 1) + 3, 0] :=
  (k6_off7_eq k).trans (by rw [show 5 * (k.val + 1) + 3 = 5 * k.val + 8 by omega])
theorem off8_c6 (k : Fin k6_t1_loop.trips) : k6_off8 k = ![5 * (k.val + 1) + 4, 0] :=
  (k6_off8_eq k).trans (by rw [show 5 * (k.val + 1) + 4 = 5 * k.val + 9 by omega])

theorem conds_lt_c6 : ∀ k : Fin k6_t1_loop.trips, k.val < 7 →
    k6_cond1 k = 1#1 ∧ k6_cond2 k = 1#1 ∧ k6_cond3 k = 1#1 ∧ k6_cond4 k = 1#1 ∧ k6_cond5 k = 1#1 := by decide +kernel
theorem conds_last_c6 : ∀ k : Fin k6_t1_loop.trips, ¬ k.val < 7 →
    ¬ k6_cond1 k = 1#1 ∧ ¬ k6_cond2 k = 1#1 ∧ ¬ k6_cond3 k = 1#1 ∧ ¬ k6_cond4 k = 1#1 ∧ ¬ k6_cond5 k = 1#1 := by decide +kernel
theorem trips_eq_c6 : k6_t1_loop.trips = 8 := by decide +kernel

/-! ## The words of the list scratch are words of the block -/

theorem list_words_c6 (d : Dev nD) (L : grid6.Coords) (I : Buf (Elt F) ((idxBlkM_c6 L).view.loc (Vt_c6 d L)))
    (g0 : Buf (Elt F) (listW_c6.view.loc (Vt_c6 d L)))
    (hI : ∀ z ∈ (idxBlkM_c6 L).view.set, BitVec.toNat (I z) < 1000000)
    (o : Fin 2 → ℕ) (h : ∀ a, o a + S1x128.size a ≤ S40x128.size a) (x : S128.Idx) :
    BitVec.toNat (View.read (Elt F) (rowM_c6 o h).view
      (View.write (Elt F) listW_c6.view g0 (ReadAs.same.apply (View.read (Elt F) (idxBlkM_c6 L).view I)) Finset.univ) x) < 1000000 := by
  rw [View.read_apply]
  have e : (rowM_c6 o h).view.emb x = listW_c6.view.emb ((rowM_c6 o h).view.emb x) := rfl
  rw [e, View.write_emb_of_mem _ _ (Finset.mem_univ _)]
  simp only [cast_cast, cast_eq]
  show BitVec.toNat (View.read (Elt F) (idxBlkM_c6 L).view I _) < 1000000
  rw [View.read_apply]
  simp only [cast_eq]
  exact hI _ (View.emb_mem_set _ _)

theorem set_idxBlkM_c6 (d : Dev nD) (L : grid6.Coords) : (idxBlkM_c6 L).view.set = idxRows6 d L := by
  show ((idxW_c6.view.slice (Rect.unit (s := S32x40x128) (k6_off1 L) S1x40x128.size (k6_off1_inb L))).reshape S40x128 _).set = _
  rw [View.set_reshape]
  exact View.set_slice_whole _ _

/-! ## What lands -/

/-- The list scratch after the block of indices is copied into it. -/
abbrev listFill_c6 (d : Dev nD) (L : grid6.Coords) (I : Buf (Elt F) ((idxBlkM_c6 L).view.loc (Vt_c6 d L)))
    (g0 : Buf (Elt F) (listW_c6.view.loc (Vt_c6 d L))) : Buf (Elt F) (listW_c6.view.loc (Vt_c6 d L)) :=
  View.write (Elt F) listW_c6.view g0 (ReadAs.same.apply (View.read (Elt F) (idxBlkM_c6 L).view I)) Finset.univ

/-- What the gather over the list row at offsets o lands in its slot: at row j of the slot, the table row the j-th
    word of that list row names. -/
abbrev landed_c6 (d : Dev nD) (L : grid6.Coords) (tab : Buf (Elt F) (tabW_c6.view.loc (Vt_c6 d L)))
    (fl : Buf (Elt F) (listW_c6.view.loc (Vt_c6 d L))) (o : Fin 2 → ℕ) (h : ∀ a, o a + S1x128.size a ≤ S40x128.size a)
    (hin : ∀ x : S128.Idx, BitVec.toNat (View.read (Elt F) (rowM_c6 o h).view fl x) < 1000000) : S128x128.Idx → Elt F .f32 :=
  SparseCore.gatherPayload gathers_S1000000x128_S128x128 (View.read (Elt F) tabS_c6.view tab)
    (SparseCore.rows (View.read (Elt F) (rowM_c6 o h).view fl) rfl hin)

variable [FloatOps F]

/-! ## What the loop keeps -/

/-- The subcore owes what it owed, its waits recorded beyond W all at the launch's index. -/
def owesW_c6 (d : Dev nD) (L : grid6.Coords) (O : CellTallies nD τ sig (HIx 5)) (W : Waits sig (HIx 5)) : sProp (MM F) :=
  iprop(∃ W', ⌜∀ p ∈ W', p ∈ W ∨ p.2 = none⌝ ∗ owes (Vt_c6 d L) O W')

theorem owesW_intro_c6 {d : Dev nD} {L : grid6.Coords} {O : CellTallies nD τ sig (HIx 5)} {W W' : Waits sig (HIx 5)}
    (h : ∀ p ∈ W', p ∈ W ∨ p.2 = none) : (owes (Vt_c6 d L) O W' : sProp (MM F)) ⊢ owesW_c6 d L O W := by
  unfold owesW_c6
  iintro H
  iexists W'
  isplitr
  · ipureintro; exact h
  · iexact H

theorem owesW_elim_c6 {d : Dev nD} {L : grid6.Coords} {O : CellTallies nD τ sig (HIx 5)} {W : Waits sig (HIx 5)} :
    (owesW_c6 d L O W : sProp (MM F)) ⊢ iprop(∃ W', ⌜∀ p ∈ W', p ∈ W ∨ p.2 = none⌝ ∗ owes (Vt_c6 d L) O W') := by
  unfold owesW_c6; exact .rfl

theorem ins_none_c6 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c6 (d : Dev nD) (L : grid6.Coords) {o o' : Fin 2 → ℕ} (e : o = o')
    (h : ∀ a, o a + S1x128.size a ≤ S40x128.size a) (h' : ∀ a, o' a + S1x128.size a ≤ S40x128.size a) :
    ((rowM_c6 o h).view.set : Finset (Idx (listW_c6.view.loc (Vt_c6 d L)))) = (rowM_c6 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L))) (g : ℕ) (_ : PUnit) : sProp (MM F) :=
  iprop(Transfers.MayWaits (Vt_c6 d L) (default : HIx 5) O
    ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
    ∗ owesW_c6 d L O W
    ∗ (∃ f : Buf (Elt F) (outW_c6.view.loc (Vt_c6 d L)), outW_c6.view.loc (Vt_c6 d L) ↦[outW_c6.view.setOn (outWinR_c6 L).set]{fullShare} f)
    ∗ (if h : g < 8 then
        iprop(((∃ s : Buf (Elt F) (slot0M_c6.view.loc (Vt_c6 d L)),
            Transfers.Flight countersEmb (Vt_c6 d L) (SemLoc.dma cc6_scratch2.sem) (default : HIx 5) 524288
              iprop(((slot0M_c6.view.loc (Vt_c6 d L) ↦[slot0M_c6.view.set]{fullShare} s)
                  ∗ (listW_c6.view.loc (Vt_c6 d L) ↦[(rowM_c6 ![5 * g + 0, 0] (rowInb0_c6 g h)).view.set]{fullShare} fl))
                ∗ (tabW_c6.view.loc (Vt_c6 d L) ↦[tabS_c6.view.set]{Transfers.shareTok q 80 cc6_scratch2.sem} tab))
            ∗ (slot0M_c6.view.loc (Vt_c6 d L) ↦[slot0M_c6.view.set \ slot0M_c6.view.set]{fullShare} s))
          ∗ (tabW_c6.view.loc (Vt_c6 d L) ↦[Finset.univ \ tabS_c6.view.set]{Transfers.shareTok q 80 cc6_scratch2.sem} tab))
          ∗ ((∃ s : Buf (Elt F) (slot1M_c6.view.loc (Vt_c6 d L)),
            Transfers.Flight countersEmb (Vt_c6 d L) (SemLoc.dma cc6_scratch3.sem) (default : HIx 5) 524288
              iprop(((slot1M_c6.view.loc (Vt_c6 d L) ↦[slot1M_c6.view.set]{fullShare} s)
                  ∗ (listW_c6.view.loc (Vt_c6 d L) ↦[(rowM_c6 ![5 * g + 1, 0] (rowInb1_c6 g h)).view.set]{fullShare} fl))
                ∗ (tabW_c6.view.loc (Vt_c6 d L) ↦[tabS_c6.view.set]{Transfers.shareTok q 80 cc6_scratch3.sem} tab))
            ∗ (slot1M_c6.view.loc (Vt_c6 d L) ↦[slot1M_c6.view.set \ slot1M_c6.view.set]{fullShare} s))
          ∗ (tabW_c6.view.loc (Vt_c6 d L) ↦[Finset.univ \ tabS_c6.view.set]{Transfers.shareTok q 80 cc6_scratch3.sem} tab))
          ∗ ((∃ s : Buf (Elt F) (slot2M_c6.view.loc (Vt_c6 d L)),
            Transfers.Flight countersEmb (Vt_c6 d L) (SemLoc.dma cc6_scratch4.sem) (default : HIx 5) 524288
              iprop(((slot2M_c6.view.loc (Vt_c6 d L) ↦[slot2M_c6.view.set]{fullShare} s)
                  ∗ (listW_c6.view.loc (Vt_c6 d L) ↦[(rowM_c6 ![5 * g + 2, 0] (rowInb2_c6 g h)).view.set]{fullShare} fl))
                ∗ (tabW_c6.view.loc (Vt_c6 d L) ↦[tabS_c6.view.set]{Transfers.shareTok q 80 cc6_scratch4.sem} tab))
            ∗ (slot2M_c6.view.loc (Vt_c6 d L) ↦[slot2M_c6.view.set \ slot2M_c6.view.set]{fullShare} s))
          ∗ (tabW_c6.view.loc (Vt_c6 d L) ↦[Finset.univ \ tabS_c6.view.set]{Transfers.shareTok q 80 cc6_scratch4.sem} tab))
          ∗ ((∃ s : Buf (Elt F) (slot3M_c6.view.loc (Vt_c6 d L)),
            Transfers.Flight countersEmb (Vt_c6 d L) (SemLoc.dma cc6_scratch5.sem) (default : HIx 5) 524288
              iprop(((slot3M_c6.view.loc (Vt_c6 d L) ↦[slot3M_c6.view.set]{fullShare} s)
                  ∗ (listW_c6.view.loc (Vt_c6 d L) ↦[(rowM_c6 ![5 * g + 3, 0] (rowInb3_c6 g h)).view.set]{fullShare} fl))
                ∗ (tabW_c6.view.loc (Vt_c6 d L) ↦[tabS_c6.view.set]{Transfers.shareTok q 80 cc6_scratch5.sem} tab))
            ∗ (slot3M_c6.view.loc (Vt_c6 d L) ↦[slot3M_c6.view.set \ slot3M_c6.view.set]{fullShare} s))
          ∗ (tabW_c6.view.loc (Vt_c6 d L) ↦[Finset.univ \ tabS_c6.view.set]{Transfers.shareTok q 80 cc6_scratch5.sem} tab))
          ∗ ((∃ s : Buf (Elt F) (slot4M_c6.view.loc (Vt_c6 d L)),
            Transfers.Flight countersEmb (Vt_c6 d L) (SemLoc.dma cc6_scratch6.sem) (default : HIx 5) 524288
              iprop(((slot4M_c6.view.loc (Vt_c6 d L) ↦[slot4M_c6.view.set]{fullShare} s)
                  ∗ (listW_c6.view.loc (Vt_c6 d L) ↦[(rowM_c6 ![5 * g + 4, 0] (rowInb4_c6 g h)).view.set]{fullShare} fl))
                ∗ (tabW_c6.view.loc (Vt_c6 d L) ↦[tabS_c6.view.set]{Transfers.shareTok q 80 cc6_scratch6.sem} tab))
            ∗ (slot4M_c6.view.loc (Vt_c6 d L) ↦[slot4M_c6.view.set \ slot4M_c6.view.set]{fullShare} s))
          ∗ (tabW_c6.view.loc (Vt_c6 d L) ↦[Finset.univ \ tabS_c6.view.set]{Transfers.shareTok q 80 cc6_scratch6.sem} tab))
          ∗ (listW_c6.view.loc (Vt_c6 d L) ↦[((((Finset.univ \ (rowM_c6 ![5 * g + 0, 0] (rowInb0_c6 g h)).view.set) \ (rowM_c6 ![5 * g + 1, 0] (rowInb1_c6 g h)).view.set)
              \ (rowM_c6 ![5 * g + 2, 0] (rowInb2_c6 g h)).view.set) \ (rowM_c6 ![5 * g + 3, 0] (rowInb3_c6 g h)).view.set) \ (rowM_c6 ![5 * g + 4, 0] (rowInb4_c6 g h)).view.set]{fullShare} fl))
      else
        iprop(((tabW_c6.view.loc (Vt_c6 d L) ↦{Transfers.shareTok q 80 cc6_scratch2.sem} tab) ∗ semVal (Vt_c6 d L, SemLoc.dma cc6_scratch2.sem) 0
          ∗ (∃ s : Buf (Elt F) (slot0M_c6.view.loc (Vt_c6 d L)), slot0M_c6.view.loc (Vt_c6 d L) ↦[slot0M_c6.view.set]{fullShare} s))
          ∗ ((tabW_c6.view.loc (Vt_c6 d L) ↦{Transfers.shareTok q 80 cc6_scratch3.sem} tab) ∗ semVal (Vt_c6 d L, SemLoc.dma cc6_scratch3.sem) 0
          ∗ (∃ s : Buf (Elt F) (slot1M_c6.view.loc (Vt_c6 d L)), slot1M_c6.view.loc (Vt_c6 d L) ↦[slot1M_c6.view.set]{fullShare} s))
          ∗ ((tabW_c6.view.loc (Vt_c6 d L) ↦{Transfers.shareTok q 80 cc6_scratch4.sem} tab) ∗ semVal (Vt_c6 d L, SemLoc.dma cc6_scratch4.sem) 0
          ∗ (∃ s : Buf (Elt F) (slot2M_c6.view.loc (Vt_c6 d L)), slot2M_c6.view.loc (Vt_c6 d L) ↦[slot2M_c6.view.set]{fullShare} s))
          ∗ ((tabW_c6.view.loc (Vt_c6 d L) ↦{Transfers.shareTok q 80 cc6_scratch5.sem} tab) ∗ semVal (Vt_c6 d L, SemLoc.dma cc6_scratch5.sem) 0
          ∗ (∃ s : Buf (Elt F) (slot3M_c6.view.loc (Vt_c6 d L)), slot3M_c6.view.loc (Vt_c6 d L) ↦[slot3M_c6.view.set]{fullShare} s))
          ∗ ((tabW_c6.view.loc (Vt_c6 d L) ↦{Transfers.shareTok q 80 cc6_scratch6.sem} tab) ∗ semVal (Vt_c6 d L, SemLoc.dma cc6_scratch6.sem) 0
          ∗ (∃ s : Buf (Elt F) (slot4M_c6.view.loc (Vt_c6 d L)), slot4M_c6.view.loc (Vt_c6 d L) ↦[slot4M_c6.view.set]{fullShare} s))
          ∗ (listW_c6.view.loc (Vt_c6 d L) ↦{fullShare} fl))))

/-! ## One trip -/

set_option maxHeartbeats 4000000 in
theorem trip0_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view fl x) < 1000000)
    (v2 : BitVec 32) (k : Fin k6_t1_loop.trips) (acc : PUnit) :
    inv0_c6 d L q O W tab fl k.val acc
      ⊢ wp frame (wpE (defs₀ (F := F)) 𝒱₀ (Vt_c6 d L) none) Set.univ
          (k6_t1_body L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0 v2 k acc)
          (inv0_c6 d L q O W tab fl (k.val + 1)) := by
  have hk8 : k.val < 8 := trips_eq_c6 ▸ k.isLt
  unfold inv0_c6
  rw [dif_pos hk8]
  by_cases hk : k.val < 7
  · obtain ⟨hc1, hc2, hc3, hc4, hc5⟩ := conds_lt_c6 k hk
    rw [dif_pos (show k.val + 1 < 8 by omega)]
    unfold k6_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    rw [rowSet_congr_c6 d L (off4_c6 k) (k6_off4_inb k hc1) (rowInb0_c6 (k.val + 1) (by omega)), rowSet_congr_c6 d L (off5_c6 k) (k6_off5_inb k hc2) (rowInb1_c6 (k.val + 1) (by omega)),
      rowSet_congr_c6 d L (off6_c6 k) (k6_off6_inb k hc3) (rowInb2_c6 (k.val + 1) (by omega)), rowSet_congr_c6 d L (off7_c6 k) (k6_off7_inb k hc4) (rowInb3_c6 (k.val + 1) (by omega)),
      rowSet_congr_c6 d L (off8_c6 k) (k6_off8_inb k hc5) (rowInb4_c6 (k.val + 1) (by omega))]
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    sl_close
  · obtain ⟨hc1, hc2, hc3, hc4, hc5⟩ := conds_last_c6 k hk
    rw [dif_neg (show ¬ k.val + 1 < 8 by omega)]
    unfold k6_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    sl_close

end Cert.KernelIdeal.Hand

end
-- ==== Proof.Tile6.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.Tile6a

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c6 (d : Dev nD) (L : grid6.Coords) (q : PosShare TreeShare) (O : CellTallies nD τ sig (HIx 5)) (W : Waits sig (HIx 5))
    (tab : Buf (Elt F) (tabW_c6.view.loc (Vt_c6 d L))) (I : Buf (Elt F) ((idxBlkM_c6 L).view.loc (Vt_c6 d L)))
    (hI : ∀ z ∈ (idxBlkM_c6 L).view.set, BitVec.toNat (I z) < 1000000)
    (g0 : Buf (Elt F) (listW_c6.view.loc (Vt_c6 d L))) (r : Buf (Elt F) (ringW_c6.view.loc (Vt_c6 d L)))
    (f : Buf (Elt F) (outW_c6.view.loc (Vt_c6 d L))) :
    (iprop(Transfers.MayWaits (Vt_c6 d L) (default : HIx 5) O
        ∗ (tabW_c6.view.loc (Vt_c6 d L) ↦{Transfers.shareTok q 80 cc6_scratch2.sem} tab)
        ∗ (tabW_c6.view.loc (Vt_c6 d L) ↦{Transfers.shareTok q 80 cc6_scratch3.sem} tab)
        ∗ (tabW_c6.view.loc (Vt_c6 d L) ↦{Transfers.shareTok q 80 cc6_scratch4.sem} tab)
        ∗ (tabW_c6.view.loc (Vt_c6 d L) ↦{Transfers.shareTok q 80 cc6_scratch5.sem} tab)
        ∗ (tabW_c6.view.loc (Vt_c6 d L) ↦{Transfers.shareTok q 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok q 80 cc6_scratch2.sem} tab)
            ∗ (tabW_c6.view.loc (Vt_c6 d L) ↦{Transfers.shareTok q 80 cc6_scratch3.sem} tab)
            ∗ (tabW_c6.view.loc (Vt_c6 d L) ↦{Transfers.shareTok q 80 cc6_scratch4.sem} tab)
            ∗ (tabW_c6.view.loc (Vt_c6 d L) ↦{Transfers.shareTok q 80 cc6_scratch5.sem} tab)
            ∗ (tabW_c6.view.loc (Vt_c6 d L) ↦{Transfers.shareTok q 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ (∃ f' : Buf (Elt F) (outW_c6.view.loc (Vt_c6 d L)), outW_c6.view.loc (Vt_c6 d L) ↦[outW_c6.view.setOn (outWinR_c6 L).set]{fullShare} f')) := by
  have hin := list_words_c6 d L I g0 hI
  rw [cc6_gather_k_eq_skeleton]; unfold cc6_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c6 d L q O W tab (View.write (Elt F) listW_c6.view g0 (ReadAs.same.apply (View.read (Elt F) (idxBlkM_c6 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c6 d L q O W tab _ hin _ k acc
  · unfold inv0_c6
    rw [dif_pos (show 0 < 8 by decide)]
    ihave HO' := (owesW_intro_c6 (W := W) (ins_none_c6 (fun p hp => Or.inl hp) _)) $$ HO
    sl_close
  iintro %acc HI
  unfold inv0_c6
  rw [dif_neg (show ¬ k6_t1_loop.trips < 8 by rw [trips_eq_c6]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.KernelIdeal.Hand

end
-- ==== Proof.Tile6Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.Tile6a
import proofs.«206421_g46840913330738_cont_8to1c4_247_26_alg».proof.Proof.Tile6

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c6 : Fin 11 → DmaSem sig :=
  ![cc6_scratch2.sem, cc6_scratch3.sem, cc6_scratch4.sem, cc6_scratch5.sem, cc6_scratch6.sem, cc6_scratch7.sem,
    cc6_scratch8.sem, cc6_scratch9.sem, cc6_scratch10.sem, cc6_scratch11.sem, cc6_scoped0.sem]

theorem sems0_inj_c6 : Function.Injective sems0_c6 := by decide

/-- The k-th of them on the subcore at (c, i) of device d. -/
abbrev dcell0_c6 (d : Dev nD) (c : Fin τ.nSC) (i : Fin τ.nSub) (k : Fin 11) : GSem nD τ sig := (V d c i, .dma (sems0_c6 k))

theorem dcell0_mem_c6 (d : Dev nD) (c : Fin τ.nSC) (i : Fin τ.nSub) (k : Fin 11) : dcell0_c6 d c i k ∈ ownCells (V d c i) :=
  mem_ownCells.mpr ⟨rfl, (show ∀ s : DmaSem sig, (SemLoc.dma s : SemLoc sig).isScoped .scVector = true by decide) _⟩

/-- The eleven cells, each at zero. -/
def cells0_c6 (d : Dev nD) (L : grid6.Coords) : sProp (MM F) :=
  iprop(semVal (Vt_c6 d L, SemLoc.dma cc6_scratch2.sem) 0 ∗ semVal (Vt_c6 d L, SemLoc.dma cc6_scratch3.sem) 0
    ∗ semVal (Vt_c6 d L, SemLoc.dma cc6_scratch4.sem) 0 ∗ semVal (Vt_c6 d L, SemLoc.dma cc6_scratch5.sem) 0
    ∗ semVal (Vt_c6 d L, SemLoc.dma cc6_scratch6.sem) 0 ∗ semVal (Vt_c6 d L, SemLoc.dma cc6_scratch7.sem) 0
    ∗ semVal (Vt_c6 d L, SemLoc.dma cc6_scratch8.sem) 0 ∗ semVal (Vt_c6 d L, SemLoc.dma cc6_scratch9.sem) 0
    ∗ semVal (Vt_c6 d L, SemLoc.dma cc6_scratch10.sem) 0 ∗ semVal (Vt_c6 d L, SemLoc.dma cc6_scratch11.sem) 0
    ∗ semVal (Vt_c6 d L, SemLoc.dma cc6_scoped0.sem) 0)

/-- The subcore's own cells at zero: the eleven the kernel function names, and the rest. -/
theorem ownSems0_V0_c6 (d : Dev nD) (L : grid6.Coords) :
    (ownSems0 (Vt_c6 d L) : sProp (MM F))
      = iprop(cells0_c6 d L ∗ bigSep ((ownCells (Vt_c6 d L)) \ Finset.univ.image (dcell0_c6 d (cV6 L) (jV6 L))) fun g => semVal g 0) := by
  unfold SparseCore.Cfg.ownSems0
  rw [SparseCore.bigSep_sdiff_split' (t := Finset.univ.image (dcell0_c6 d (cV6 L) (jV6 L)))
      (Finset.image_subset_iff.mpr fun k _ => dcell0_mem_c6 d (cV6 L) (jV6 L) k),
    SparseCore.bigSep_image_of_injOn (fun a _ b _ h => sems0_inj_c6 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c6 (d : Dev nD) (L : grid6.Coords) :
    (ownBufs (Vt_c6 d L) : sProp (MM F))
      = iprop((∃ f, (Vt_c6 d L).loc cc6_scratch0 ↦{fullShare} f) ∗ (∃ f, (Vt_c6 d L).loc cc6_scratch1 ↦{fullShare} f)
          ∗ bigSep (((ownRefs (τ := τ) (.scVector (cV6 L) (jV6 L))).erase ((Proc.scVector (cV6 L) (jV6 L)).devRef cc6_scratch0)).erase
              ((Proc.scVector (cV6 L) (jV6 L)).devRef cc6_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV6 L) (jV6 L))
    (b := (Proc.scVector (cV6 L) (jV6 L)).devRef cc6_scratch0) rfl)).trans ?_
  rw [SparseCore.bigSep_erase' (Finset.mem_erase.mpr ⟨fun e => absurd (Proc.devRef_injective _ e) (show (cc6_scratch1 : Ref sig .scVector) ≠ cc6_scratch0 by decide),
    SparseCore.Cfg.mem_ownRefs_of_owner (p := Proc.scVector (cV6 L) (jV6 L)) (b := (Proc.scVector (cV6 L) (jV6 L)).devRef cc6_scratch1) rfl⟩)]

/-! ## The dealt pieces in the body's spelling -/

theorem pts_idx0_c6 (d : Dev nD) (L : grid6.Coords) (I : Buf (Elt F) (idxLoc6 d)) :
    ((idxBlkM_c6 L).view.loc (Vt_c6 d L) ↦[(idxBlkM_c6 L).view.set]{fullShare} I : sProp (MM F)) = idxLoc6 d ↦[idxRows6 d L]{fullShare} I := by
  rw [set_idxBlkM_c6 d L]

theorem setOn_out0_c6 (d : Dev nD) (L : grid6.Coords) :
    (outW_c6.view.setOn (outWinR_c6 L).set : Finset (Idx (outW_c6.view.loc (Vt_c6 d L)))) = outRows6 d L := by
  show Finset.map (Function.Embedding.refl _) (outWinR_c6 L).set = _
  rw [Finset.map_refl, outWinR_eq_c6]; rfl

theorem pts_out0_c6 (d : Dev nD) (L : grid6.Coords) (f : Buf (Elt F) (outLoc6 d)) :
    (outW_c6.view.loc (Vt_c6 d L) ↦[outW_c6.view.setOn (outWinR_c6 L).set]{fullShare} f : sProp (MM F)) = outLoc6 d ↦[outRows6 d L]{fullShare} f := by
  rw [setOn_out0_c6 d L]

/-- The read tokens of the table other than the five gather cells'. -/
abbrev otherToks0_c6 : Finset (Fin 80) :=
  ((((Finset.univ.erase cc6_scratch2.sem).erase cc6_scratch3.sem).erase cc6_scratch4.sem).erase cc6_scratch5.sem).erase cc6_scratch6.sem

/-- The subcore's read share of the table as one read token per cell: the five gather cells', and the remainder with
    the other cells' tokens. -/
theorem tabToks0_c6 (d : Dev nD) (L : grid6.Coords) (q : PosShare TreeShare) (tab : Buf (Elt F) (tabLoc6 d)) :
    (tabLoc6 d ↦[Finset.univ]{q} tab : sProp (MM F)) ⊣⊢ iprop((tabLoc6 d ↦[Finset.univ]{Transfers.shareDrop q 80} tab)
      ∗ (tabW_c6.view.loc (Vt_c6 d L) ↦{Transfers.shareTok q 80 cc6_scratch2.sem} tab)
      ∗ (tabW_c6.view.loc (Vt_c6 d L) ↦{Transfers.shareTok q 80 cc6_scratch3.sem} tab)
      ∗ (tabW_c6.view.loc (Vt_c6 d L) ↦{Transfers.shareTok q 80 cc6_scratch4.sem} tab)
      ∗ (tabW_c6.view.loc (Vt_c6 d L) ↦{Transfers.shareTok q 80 cc6_scratch5.sem} tab)
      ∗ (tabW_c6.view.loc (Vt_c6 d L) ↦{Transfers.shareTok q 80 cc6_scratch6.sem} tab)
      ∗ bigSep otherToks0_c6 fun i => (tabLoc6 d ↦[Finset.univ]{Transfers.shareTok q 80 i} tab : sProp (MM F))) := by
  have h := Transfers.pointsTo_toks (Ix := HIx 5) (Name := ℕ) (U := UU) (Lvl := ℕ) (ℓ := tabLoc6 d) (S := Finset.univ) (f := tab) q 80
  rw [SparseCore.bigSep_erase' (Finset.mem_univ (cc6_scratch2.sem : Fin 80)),
    SparseCore.bigSep_erase' (Finset.mem_erase.mpr ⟨(by decide : (cc6_scratch3.sem : Fin 80) ≠ cc6_scratch2.sem), Finset.mem_univ _⟩),
    SparseCore.bigSep_erase' (Finset.mem_erase.mpr ⟨(by decide : (cc6_scratch4.sem : Fin 80) ≠ cc6_scratch3.sem),
      Finset.mem_erase.mpr ⟨(by decide : (cc6_scratch4.sem : Fin 80) ≠ cc6_scratch2.sem), Finset.mem_univ _⟩⟩),
    SparseCore.bigSep_erase' (Finset.mem_erase.mpr ⟨(by decide : (cc6_scratch5.sem : Fin 80) ≠ cc6_scratch4.sem),
      Finset.mem_erase.mpr ⟨(by decide : (cc6_scratch5.sem : Fin 80) ≠ cc6_scratch3.sem),
        Finset.mem_erase.mpr ⟨(by decide : (cc6_scratch5.sem : Fin 80) ≠ cc6_scratch2.sem), Finset.mem_univ _⟩⟩⟩),
    SparseCore.bigSep_erase' (Finset.mem_erase.mpr ⟨(by decide : (cc6_scratch6.sem : Fin 80) ≠ cc6_scratch5.sem),
      Finset.mem_erase.mpr ⟨(by decide : (cc6_scratch6.sem : Fin 80) ≠ cc6_scratch4.sem),
        Finset.mem_erase.mpr ⟨(by decide : (cc6_scratch6.sem : Fin 80) ≠ cc6_scratch3.sem),
          Finset.mem_erase.mpr ⟨(by decide : (cc6_scratch6.sem : Fin 80) ≠ cc6_scratch2.sem), Finset.mem_univ _⟩⟩⟩⟩)] at h
  exact h

/-! ## The ring scratch as its five slots -/

theorem unit_congr2_c6 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c6 {κ : Kind} {sp : Space} {s : Shape} {e : EltTy} (v : View sig κ sp s e) {R R' : Rect s} (h : R = R') :
    (v.slice R).set = (v.slice R').set := by
  subst h; rfl

/-- Row k of the ring along its leading axis. -/
abbrev ringRow_c6 (d : Dev nD) (L : grid6.Coords) (k : Fin 5) : Finset (Idx (ringW_c6.view.loc (Vt_c6 d L))) :=
  ((View.whole cc6_scratch1 : View sig .scVector .vmem S5x128x128 .f32).slice (S5x128x128.rowRect 0 k)).set

theorem slot0_set_c6 (d : Dev nD) (L : grid6.Coords) : (slot0M_c6.view.set : Finset (Idx (ringW_c6.view.loc (Vt_c6 d L)))) = ringRow_c6 d L 0 := by
  show (((View.whole cc6_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot1_set_c6 (d : Dev nD) (L : grid6.Coords) : (slot1M_c6.view.set : Finset (Idx (ringW_c6.view.loc (Vt_c6 d L)))) = ringRow_c6 d L 1 := by
  show (((View.whole cc6_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot2_set_c6 (d : Dev nD) (L : grid6.Coords) : (slot2M_c6.view.set : Finset (Idx (ringW_c6.view.loc (Vt_c6 d L)))) = ringRow_c6 d L 2 := by
  show (((View.whole cc6_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot3_set_c6 (d : Dev nD) (L : grid6.Coords) : (slot3M_c6.view.set : Finset (Idx (ringW_c6.view.loc (Vt_c6 d L)))) = ringRow_c6 d L 3 := by
  show (((View.whole cc6_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot4_set_c6 (d : Dev nD) (L : grid6.Coords) : (slot4M_c6.view.set : Finset (Idx (ringW_c6.view.loc (Vt_c6 d L)))) = ringRow_c6 d L 4 := by
  show (((View.whole cc6_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)

/-- Five functions on the ring's rows, over the five rows, as the five slots each at its own function. -/
theorem ring_rows0_c6 (d : Dev nD) (L : grid6.Coords) (s : Fin 5 → Buf (Elt F) (ringW_c6.view.loc (Vt_c6 d L))) :
    (bigSep (Finset.univ : Finset (Fin 5)) fun k => (ringW_c6.view.loc (Vt_c6 d L) ↦[ringRow_c6 d L k]{fullShare} s k : sProp (MM F)))
      = iprop((slot0M_c6.view.loc (Vt_c6 d L) ↦[slot0M_c6.view.set]{fullShare} s 0)
        ∗ (slot1M_c6.view.loc (Vt_c6 d L) ↦[slot1M_c6.view.set]{fullShare} s 1)
        ∗ (slot2M_c6.view.loc (Vt_c6 d L) ↦[slot2M_c6.view.set]{fullShare} s 2)
        ∗ (slot3M_c6.view.loc (Vt_c6 d L) ↦[slot3M_c6.view.set]{fullShare} s 3)
        ∗ (slot4M_c6.view.loc (Vt_c6 d L) ↦[slot4M_c6.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c6 d L, slot1_set_c6 d L, slot2_set_c6 d L, slot3_set_c6 d L, slot4_set_c6 d L]

/-- The ring whole at one function is its five slots at that function. -/
theorem ring_split0_c6 (d : Dev nD) (L : grid6.Coords) (r : Buf (Elt F) (ringW_c6.view.loc (Vt_c6 d L))) :
    ((Vt_c6 d L).loc cc6_scratch1 ↦{fullShare} r : sProp (MM F))
      = iprop((slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)) := by
  rw [← ring_rows0_c6 d L (fun _ => r)]
  have h := pointsTo_rows (Ix := HIx 5) (Name := ℕ) (U := UU) (Lvl := ℕ) (Val := Elt F) (Vt_c6 d L)
    (View.whole cc6_scratch1 : View sig .scVector .vmem S5x128x128 .f32) 0 fullShare r
  rw [View.set_whole] at h
  exact h

/-- The five slots, each at some function, are the ring whole at some function. -/
theorem ring_join0_c6 (d : Dev nD) (L : grid6.Coords) (s : Fin 5 → Buf (Elt F) (ringW_c6.view.loc (Vt_c6 d L))) :
    iprop((slot0M_c6.view.loc (Vt_c6 d L) ↦[slot0M_c6.view.set]{fullShare} s 0)
        ∗ (slot1M_c6.view.loc (Vt_c6 d L) ↦[slot1M_c6.view.set]{fullShare} s 1)
        ∗ (slot2M_c6.view.loc (Vt_c6 d L) ↦[slot2M_c6.view.set]{fullShare} s 2)
        ∗ (slot3M_c6.view.loc (Vt_c6 d L) ↦[slot3M_c6.view.set]{fullShare} s 3)
        ∗ (slot4M_c6.view.loc (Vt_c6 d L) ↦[slot4M_c6.view.set]{fullShare} s 4))
      ⊢ (iprop(∃ f, (Vt_c6 d L).loc cc6_scratch1 ↦{fullShare} f) : sProp (MM F)) := by
  rw [← ring_rows0_c6 d L s]
  refine (pointsTo_biUnion_join (Ix := HIx 5) (Name := ℕ) (U := UU) (Lvl := ℕ) (ℓ := ringW_c6.view.loc (Vt_c6 d L)) (q := fullShare)
    Finset.univ (fun k : Fin 5 => ringRow_c6 d L k) s (s 0)
    (fun k _ k' _ h => (View.whole cc6_scratch1 : View sig .scVector .vmem S5x128x128 .f32).disjoint_rows 0 h)).trans ?_
  iintro ⟨%g, -, H⟩
  iexists g
  have e : (Finset.univ : Finset (Fin 5)).biUnion (fun k => ringRow_c6 d L k) = (Finset.univ : Finset (Idx (ringW_c6.view.loc (Vt_c6 d L)))) := by
    rw [← View.set_whole (cc6_scratch1 : Ref sig .scVector)]
    exact ((View.whole cc6_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c6 (d : Dev nD) (L : grid6.Coords) (tab : Buf (Elt F) (tabLoc6 d)) (I : Buf (Elt F) (idxLoc6 d))
    (f : Buf (Elt F) (outLoc6 d)) (hF : (K (F := F)).Facts) (hI : ∀ x ∈ idxRows6 d L, BitVec.toNat (I x) < 1000000)
    (O : CellTallies nD τ sig (HIx 5)) (W : Waits sig (HIx 5)) (hO : ∀ g, O g none = 0) (outP outQ : sProp (MM F))
    (hrun : ∀ (g0 : Buf (Elt F) (listW_c6.view.loc (Vt_c6 d L))) (r : Buf (Elt F) (ringW_c6.view.loc (Vt_c6 d L))),
      (iprop(Transfers.MayWaits (Vt_c6 d L) (default : HIx 5) O
        ∗ (tabW_c6.view.loc (Vt_c6 d L) ↦{Transfers.shareTok (Transfers.shareTok fullShare 32 ⟨wid6 L, wid_lt6 L⟩) 80 cc6_scratch2.sem} tab)
        ∗ (tabW_c6.view.loc (Vt_c6 d L) ↦{Transfers.shareTok (Transfers.shareTok fullShare 32 ⟨wid6 L, wid_lt6 L⟩) 80 cc6_scratch3.sem} tab)
        ∗ (tabW_c6.view.loc (Vt_c6 d L) ↦{Transfers.shareTok (Transfers.shareTok fullShare 32 ⟨wid6 L, wid_lt6 L⟩) 80 cc6_scratch4.sem} tab)
        ∗ (tabW_c6.view.loc (Vt_c6 d L) ↦{Transfers.shareTok (Transfers.shareTok fullShare 32 ⟨wid6 L, wid_lt6 L⟩) 80 cc6_scratch5.sem} tab)
        ∗ (tabW_c6.view.loc (Vt_c6 d L) ↦{Transfers.shareTok (Transfers.shareTok fullShare 32 ⟨wid6 L, wid_lt6 L⟩) 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok (Transfers.shareTok fullShare 32 ⟨wid6 L, wid_lt6 L⟩) 80 cc6_scratch2.sem} tab)
            ∗ (tabW_c6.view.loc (Vt_c6 d L) ↦{Transfers.shareTok (Transfers.shareTok fullShare 32 ⟨wid6 L, wid_lt6 L⟩) 80 cc6_scratch3.sem} tab)
            ∗ (tabW_c6.view.loc (Vt_c6 d L) ↦{Transfers.shareTok (Transfers.shareTok fullShare 32 ⟨wid6 L, wid_lt6 L⟩) 80 cc6_scratch4.sem} tab)
            ∗ (tabW_c6.view.loc (Vt_c6 d L) ↦{Transfers.shareTok (Transfers.shareTok fullShare 32 ⟨wid6 L, wid_lt6 L⟩) 80 cc6_scratch5.sem} tab)
            ∗ (tabW_c6.view.loc (Vt_c6 d L) ↦{Transfers.shareTok (Transfers.shareTok fullShare 32 ⟨wid6 L, wid_lt6 L⟩) 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ outP))
    (hclose : outP ⊢ outQ) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(((tabLoc6 d ↦[Finset.univ]{Transfers.shareTok fullShare 32 ⟨wid6 L, wid_lt6 L⟩} tab)
              ∗ (idxLoc6 d ↦[idxRows6 d L]{fullShare} I) ∗ outQ)
            ∗ scopedBufs (Vt_c6 d L) ∗ scopedSems0 (Vt_c6 d L)
            ∗ ∃ W', ⌜∀ p ∈ W', p ∈ W ∨ p.2 = none⌝ ∗ owes (Vt_c6 d L) O W') := by
  rw [(K (F := F)).scopedBufs_V hF d (cV6 L) (jV6 L), SparseCore.Cfg.scopedSems0_V (Val := Elt F) d (cV6 L) (jV6 L), ownSems0_V0_c6, ownBufs_V0_c6]
  unfold goRes6 cells0_c6
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c6 d L) hO) $$ Hlv
  ihave Htoks := (tabToks0_c6 (F := F) d L (Transfers.shareTok fullShare 32 ⟨wid6 L, wid_lt6 L⟩) tab).1 $$ Htab
  icases Htoks with ⟨Hdrop, Ht0, Ht1, Ht2, Ht3, Ht4, Hother⟩
  ihave Hidx' := (Entails.of_eq (pts_idx0_c6 (F := F) d L I).symm) $$ Hidx
  ihave Hout' := (Entails.of_eq (pts_out0_c6 (F := F) d L f).symm) $$ Hout
  ihave Hring := (Entails.of_eq (ring_split0_c6 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c6 d L) none) Set.univ
    (R := iprop((tabLoc6 d ↦[Finset.univ]{Transfers.shareDrop (Transfers.shareTok fullShare 32 ⟨wid6 L, wid_lt6 L⟩) 80} tab)
      ∗ (bigSep otherToks0_c6 fun i => (tabLoc6 d ↦[Finset.univ]{Transfers.shareTok (Transfers.shareTok fullShare 32 ⟨wid6 L, wid_lt6 L⟩) 80 i} tab : sProp (MM F)))
      ∗ (bigSep (((ownRefs (τ := τ) (.scVector (cV6 L) (jV6 L))).erase ((Proc.scVector (cV6 L) (jV6 L)).devRef cc6_scratch0)).erase
              ((Proc.scVector (cV6 L) (jV6 L)).devRef cc6_scratch1))
              fun b => iprop(∃ f, ((d, b) : Loc nD τ sig) ↦{fullShare} f))
      ∗ (bigSep ((ownCells (Vt_c6 d L)) \ Finset.univ.image (dcell0_c6 d (cV6 L) (jV6 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c6 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c6 (F := F) d L (Transfers.shareTok fullShare 32 ⟨wid6 L, wid_lt6 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c6 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c6 $$ HOw
  ihave Hq := hclose $$ Hout
  isplitl [Htab Hidx Hq]
  · isplitl [Htab]; · iexact Htab
    isplitl [Hidx]; · iapply (Entails.of_eq (pts_idx0_c6 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c6 (d : Dev nD) (L : grid6.Coords) :
    (iprop(∃ f' : Buf (Elt F) (outW_c6.view.loc (Vt_c6 d L)), outW_c6.view.loc (Vt_c6 d L) ↦[outW_c6.view.setOn (outWinR_c6 L).set]{fullShare} f') : sProp (MM F))
      ⊢ iprop(∃ f' : Buf (Elt F) (outLoc6 d), outLoc6 d ↦[outRows6 d L]{fullShare} f') := by
  iintro ⟨%f', H⟩
  iexists f'
  iapply (Entails.of_eq (pts_out0_c6 (F := F) d L f')); iexact H

/-- Rows the run leaves at contents that are the gathered rows on the subcore's rows are those rows at the gathered
    rows. -/
theorem out_valued0_c6 (d : Dev nD) (L : grid6.Coords) (tab : Buf (Elt F) (tabLoc6 d)) (I : Buf (Elt F) (idxLoc6 d)) :
    (iprop(∃ f' : Buf (Elt F) (outW_c6.view.loc (Vt_c6 d L)), (outW_c6.view.loc (Vt_c6 d L) ↦[outW_c6.view.setOn (outWinR_c6 L).set]{fullShare} f')
        ∗ ⌜∀ x : S163840x128.Idx, 5120 * wid6 L ≤ (x 0).val ∧ (x 0).val < 5120 * wid6 L + 5120 → f' x = gathered6 (d := d) tab I x⌝) : sProp (MM F))
      ⊢ (outLoc6 d ↦[outRows6 d L]{fullShare} gathered6 (d := d) tab I) := by
  iintro ⟨%f', H, %hf⟩
  have e : (outW_c6.view.loc (Vt_c6 d L) ↦[outW_c6.view.setOn (outWinR_c6 L).set]{fullShare} f' : sProp (MM F))
      = (outLoc6 d ↦[outRows6 d L]{fullShare} gathered6 (d := d) tab I) := by
    rw [pts_out0_c6 (F := F) d L f']
    exact pointsTo_congr (fun x hx => hf x ((mem_outRows6 d L x).mp hx))
  iapply (Entails.of_eq e); iexact H

/-! ## The task as the launch theorem's obligation consumes it -/

/-- The body's run with the gathered rows named: the statement of the run with, of the subcore's rows of the gathered
    array, contents that are the gathered rows on those rows. -/
def TileRunV0_c6 (F : FTy → Type) [FloatOps F] : Prop :=
  ∀ (d : Dev nD) (L : grid6.Coords) (q : PosShare TreeShare) (O : CellTallies nD τ sig (HIx 5)) (W : Waits sig (HIx 5))
    (tab : Buf (Elt F) (tabW_c6.view.loc (Vt_c6 d L))) (I : Buf (Elt F) ((idxBlkM_c6 L).view.loc (Vt_c6 d L)))
    (hI : ∀ z ∈ (idxBlkM_c6 L).view.set, BitVec.toNat (I z) < 1000000)
    (g0 : Buf (Elt F) (listW_c6.view.loc (Vt_c6 d L))) (r : Buf (Elt F) (ringW_c6.view.loc (Vt_c6 d L)))
    (f : Buf (Elt F) (outW_c6.view.loc (Vt_c6 d L))),
    (iprop(Transfers.MayWaits (Vt_c6 d L) (default : HIx 5) O
        ∗ (tabW_c6.view.loc (Vt_c6 d L) ↦{Transfers.shareTok q 80 cc6_scratch2.sem} tab)
        ∗ (tabW_c6.view.loc (Vt_c6 d L) ↦{Transfers.shareTok q 80 cc6_scratch3.sem} tab)
        ∗ (tabW_c6.view.loc (Vt_c6 d L) ↦{Transfers.shareTok q 80 cc6_scratch4.sem} tab)
        ∗ (tabW_c6.view.loc (Vt_c6 d L) ↦{Transfers.shareTok q 80 cc6_scratch5.sem} tab)
        ∗ (tabW_c6.view.loc (Vt_c6 d L) ↦{Transfers.shareTok q 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok q 80 cc6_scratch2.sem} tab)
            ∗ (tabW_c6.view.loc (Vt_c6 d L) ↦{Transfers.shareTok q 80 cc6_scratch3.sem} tab)
            ∗ (tabW_c6.view.loc (Vt_c6 d L) ↦{Transfers.shareTok q 80 cc6_scratch4.sem} tab)
            ∗ (tabW_c6.view.loc (Vt_c6 d L) ↦{Transfers.shareTok q 80 cc6_scratch5.sem} tab)
            ∗ (tabW_c6.view.loc (Vt_c6 d L) ↦{Transfers.shareTok q 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ (∃ f' : Buf (Elt F) (outW_c6.view.loc (Vt_c6 d L)), (outW_c6.view.loc (Vt_c6 d L) ↦[outW_c6.view.setOn (outWinR_c6 L).set]{fullShare} f')
                ∗ ⌜∀ x : S163840x128.Idx, 5120 * wid6 L ≤ (x 0).val ∧ (x 0).val < 5120 * wid6 L + 5120 → f' x = gathered6 (d := d) tab I x⌝))

/-- THE TASK, with the gathered rows: what the launch theorem's obligation for the call consumes, from the run with
    the gathered rows named. -/
theorem tile_body0_of_c6 (hrun : TileRunV0_c6 F) (d : Dev nD) (L : grid6.Coords) (tab : Buf (Elt F) (tabLoc6 d)) (I : Buf (Elt F) (idxLoc6 d))
    (f : Buf (Elt F) (outLoc6 d)) (hF : (K (F := F)).Facts) (hI : ∀ x ∈ idxRows6 d L, BitVec.toNat (I x) < 1000000)
    (O : CellTallies nD τ sig (HIx 5)) (W : Waits sig (HIx 5)) (hO : ∀ g, O g none = 0) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(tdRes6 d L tab I ∗ scopedBufs (Vt_c6 d L) ∗ scopedSems0 (Vt_c6 d L)
            ∗ ∃ W', ⌜∀ p ∈ W', p ∈ W ∨ p.2 = none⌝ ∗ owes (Vt_c6 d L) O W') := by
  unfold tdRes6
  exact tile_wrap0_c6 d L tab I f hF hI O W hO _ _
    (fun g0 r => hrun d L _ O W tab I (fun z hz => hI z (set_idxBlkM_c6 d L ▸ hz)) g0 r f) (out_valued0_c6 d L tab I)

/-- THE TASK, the rows at some contents: from the run as proved, which does not name what it gathers. -/
theorem tile_frame0_c6 (d : Dev nD) (L : grid6.Coords) (tab : Buf (Elt F) (tabLoc6 d)) (I : Buf (Elt F) (idxLoc6 d))
    (f : Buf (Elt F) (outLoc6 d)) (hF : (K (F := F)).Facts) (hI : ∀ x ∈ idxRows6 d L, BitVec.toNat (I x) < 1000000)
    (O : CellTallies nD τ sig (HIx 5)) (W : Waits sig (HIx 5)) (hO : ∀ g, O g none = 0) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(((tabLoc6 d ↦[Finset.univ]{Transfers.shareTok fullShare 32 ⟨wid6 L, wid_lt6 L⟩} tab)
              ∗ (idxLoc6 d ↦[idxRows6 d L]{fullShare} I) ∗ ∃ f' : Buf (Elt F) (outLoc6 d), outLoc6 d ↦[outRows6 d L]{fullShare} f')
            ∗ scopedBufs (Vt_c6 d L) ∗ scopedSems0 (Vt_c6 d L)
            ∗ ∃ W', ⌜∀ p ∈ W', p ∈ W ∨ p.2 = none⌝ ∗ owes (Vt_c6 d L) O W') :=
  tile_wrap0_c6 d L tab I f hF hI O W hO _ _
    (fun g0 r => tile_run0_c6 d L _ O W tab I (fun z hz => hI z (set_idxBlkM_c6 d L ▸ hz)) g0 r f) (out_frame0_c6 d L)

end Cert.KernelIdeal.Hand

end
-- ==== Proof.Tile6k.lean ====
/-
  The value of one chunk of the first gather call.

  The subcore's list scratch holds its block of the index array: word (c, x) of the scratch is word (wid6, c, x) of the
  array. The gather of chunk c reads row c of the scratch as its list and lands, at row j of the ring slot, the table
  row that word (c, j) names. Row 5120 wid6 + 128 c + j of the whole-array function is the table row named by the
  index word at flat position 5120 wid6 + 128 c + j, which is word (wid6, c, j): the same row. So what a chunk's gather
  lands is its rows of the one function.
-/
import proofs.«206421_g46840913330738_cont_8to1c4_247_26_alg».proof.Proof.Tile6a
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c6 (d : Dev nD) (L : grid6.Coords) (fl : Buf (Elt F) (listW_c6.view.loc (Vt_c6 d L))) (c : ℕ) (hc : c < 40)
    (o : Fin 2 → ℕ) (h : ∀ a, o a + S1x128.size a ≤ S40x128.size a) (ho : o = ![c, 0]) (y : S128.Idx) :
    View.read (Elt F) (rowM_c6 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid6, c, x) of the index array. -/
theorem idxBlk_read0_c6 (d : Dev nD) (L : grid6.Coords) (I : Buf (Elt F) ((idxBlkM_c6 L).view.loc (Vt_c6 d L))) (z : S40x128.Idx) :
    View.read (Elt F) (idxBlkM_c6 L).view I z = I (ix3 (⟨wid6 L, wid_lt6 L⟩ : Fin 32) (z 0) (z 1)) := by
  rw [View.read_apply]
  simp only [cast_eq]
  congr 1
  show (Rect.unit (s := S32x40x128) (k6_off1 L) S1x40x128.size (k6_off1_inb L)).emb (Shape.reshapeEquiv _ z) = _
  rw [Shape.reshapeEquiv_cons_one]
  funext a
  apply Fin.ext
  rw [Rect.emb_apply]
  have e := k6_off1_eq L
  match a with
  | ⟨0, _⟩ => show k6_off1 L 0 + 1 * 0 = wid6 L; rw [e]; show 2 * (L 1).val + (L 0).val + 1 * 0 = wid6 L; unfold wid6; omega
  | ⟨1, _⟩ => show k6_off1 L 1 + 1 * (z 0).val = (z 0).val; rw [e]; show 0 + 1 * (z 0).val = (z 0).val; omega
  | ⟨2, _⟩ => show k6_off1 L 2 + 1 * (z 1).val = (z 1).val; rw [e]; show 0 + 1 * (z 1).val = (z 1).val; omega

/-- After the block copy the list scratch holds the subcore's block: word (c, x) is word (wid6, c, x) of the array. -/
theorem listFill_apply0_c6 (d : Dev nD) (L : grid6.Coords) (I : Buf (Elt F) ((idxBlkM_c6 L).view.loc (Vt_c6 d L)))
    (g0 : Buf (Elt F) (listW_c6.view.loc (Vt_c6 d L))) (z : S40x128.Idx) :
    listFill_c6 d L I g0 z = I (ix3 (⟨wid6 L, wid_lt6 L⟩ : Fin 32) (z 0) (z 1)) := by
  unfold listFill_c6
  show View.write (Elt F) listW_c6.view g0 _ Finset.univ (listW_c6.view.emb z) = _
  rw [View.write_emb_of_mem _ _ (Finset.mem_univ _)]
  simp only [cast_eq]
  exact idxBlk_read0_c6 d L I z

/-! ## What a chunk's gather lands is its rows of the whole-array function -/

/-- The flat position of word (w, c, j) of the index array. -/
theorem rowMajor_ix3_0_c6 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c6 (v : S1000000x128.Idx) : tabS_c6.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid6 + 128 c + j, column e. -/
theorem landed_eq_gathered0_c6 (d : Dev nD) (L : grid6.Coords) (tab : Buf (Elt F) (tabLoc6 d)) (I : Buf (Elt F) (idxLoc6 d))
    (g0 : Buf (Elt F) (listW_c6.view.loc (Vt_c6 d L)))
    (hI : ∀ z ∈ idxRows6 d L, BitVec.toNat (I z) < 1000000)
    (c : ℕ) (hc : c < 40)
    (hin : ∀ x : S128.Idx, BitVec.toNat (View.read (Elt F) (rowM_c6 ![c, 0] (rowInb_c6 c hc)).view (listFill_c6 d L I g0) x) < 1000000)
    (y : S128x128.Idx) (x : S163840x128.Idx)
    (hx0 : (x 0).val = 5120 * wid6 L + 128 * c + (y 0).val) (hx1 : (x 1).val = (y 1).val) :
    landed_c6 d L tab (listFill_c6 d L I g0) ![c, 0] (rowInb_c6 c hc) hin y = gathered6 tab I x := by
  rw [gathered6_apply]
  unfold landed_c6 SparseCore.gatherPayload
  rw [View.read_apply]
  simp only [cast_eq]
  congr 1
  refine (tabS_emb0_c6 _).trans ?_
  have hw : ∀ u : S128.Idx, View.read (Elt F) (rowM_c6 ![c, 0] (rowInb_c6 c hc)).view (listFill_c6 d L I g0) u
      = I (ix3 (⟨wid6 L, wid_lt6 L⟩ : Fin 32) (⟨c, hc⟩ : Fin 40) (u 0)) := fun u => by
    rw [rowM_read0_c6 d L _ c hc _ _ rfl u, listFill_apply0_c6]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll6 (fun r => gatherRow6 I r) x)).symm
    show BitVec.toNat (View.read (Elt F) (rowM_c6 ![c, 0] (rowInb_c6 c hc)).view (listFill_c6 d L I g0)
        (S128.rowMajor.symm (Fin.cast _ (y gathers_S1000000x128_S128x128.axis'))))
      = BitVec.toNat (I (S32x40x128.rowMajor.symm (Fin.cast _ (x gathersAll6.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll6.axis'))
        = ix3 (⟨wid6 L, wid_lt6 L⟩ : Fin 32) (⟨c, hc⟩ : Fin 40) (u 0) :=
      (Equiv.symm_apply_eq _).mpr (Fin.ext ((show (x gathersAll6.axis').val = 5120 * wid6 L + 128 * c + (u 0).val from by
        rw [hu0, ← hx0]; rfl).trans (rowMajor_ix3_0_c6 (⟨wid6 L, wid_lt6 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll6 (fun r => gatherRow6 I r) x ⟨1, by decide⟩ Nat.one_ne_zero).symm
    exact hx1.symm

end Cert.KernelIdeal.Hand

end
-- ==== Proof.Tile6b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.Tile6a
import proofs.«206421_g46840913330738_cont_8to1c4_247_26_alg».proof.Proof.Tile6k

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c6 (d : Dev nD) (L : grid6.Coords) (tab : Buf (Elt F) (tabW_c6.view.loc (Vt_c6 d L))) (I : Buf (Elt F) ((idxBlkM_c6 L).view.loc (Vt_c6 d L)))
    (n : ℕ) (f : Buf (Elt F) (outW_c6.view.loc (Vt_c6 d L))) : Prop :=
  ∀ x : S163840x128.Idx, 5120 * wid6 L ≤ (x 0).val → (x 0).val < 5120 * wid6 L + 128 * n → f x = gathered6 (d := d) tab I x

/-- Before trip g < 8, of the contents: the rows of the chunks before 5g hold the gathered rows, and slot b is
    to hold what the gather of chunk 5g + b lands. -/
def FactsFly_c6 (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000) (g : ℕ) (h : g < 8) (s0 s1 s2 s3 s4 : Buf (Elt F) (ringW_c6.view.loc (Vt_c6 d L))) (f : Buf (Elt F) (outW_c6.view.loc (Vt_c6 d L))) : Prop :=
  DoneUpTo_c6 d L tab I (5 * g) f
    ∧ View.read (Elt F) slot0M_c6.view s0 = landed_c6 d L tab (listFill_c6 d L I g0) ![5 * g + 0, 0] (rowInb0_c6 g h) (hin _ _)
    ∧ View.read (Elt F) slot1M_c6.view s1 = landed_c6 d L tab (listFill_c6 d L I g0) ![5 * g + 1, 0] (rowInb1_c6 g h) (hin _ _)
    ∧ View.read (Elt F) slot2M_c6.view s2 = landed_c6 d L tab (listFill_c6 d L I g0) ![5 * g + 2, 0] (rowInb2_c6 g h) (hin _ _)
    ∧ View.read (Elt F) slot3M_c6.view s3 = landed_c6 d L tab (listFill_c6 d L I g0) ![5 * g + 3, 0] (rowInb3_c6 g h) (hin _ _)
    ∧ View.read (Elt F) slot4M_c6.view s4 = landed_c6 d L tab (listFill_c6 d L I g0) ![5 * g + 4, 0] (rowInb4_c6 g h) (hin _ _)

/-- A slot written whole reads back what was written. -/
theorem read_writes_whole_c6 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c6 (d : Dev nD) (L : grid6.Coords) (tab : Buf (Elt F) (tabW_c6.view.loc (Vt_c6 d L)))
    (fl : Buf (Elt F) (listW_c6.view.loc (Vt_c6 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c6 o h).view fl x) < 1000000)
    (hin' : ∀ x : S128.Idx, BitVec.toNat (View.read (Elt F) (rowM_c6 o' h').view fl x) < 1000000) :
    landed_c6 d L tab fl o h hin = landed_c6 d L tab fl o' h' hin' := by
  subst e; rfl

/-- One chunk copied out extends what is done by that chunk. -/
theorem done_step_c6 (d : Dev nD) (L : grid6.Coords) (tab : Buf (Elt F) (tabW_c6.view.loc (Vt_c6 d L))) (I : Buf (Elt F) ((idxBlkM_c6 L).view.loc (Vt_c6 d L)))
    (n : ℕ) (o : Fin 2 → ℕ) (ho : o = ![5120 * wid6 L + 128 * n, 0])
    (hinb : ∀ a, o a + S128x128.size a ≤ S163840x128.size a)
    (f : Buf (Elt F) (outW_c6.view.loc (Vt_c6 d L))) (p : S128x128.Idx → Elt F .f32)
    (hf : DoneUpTo_c6 d L tab I n f)
    (hp : ∀ (y : S128x128.Idx) (x : S163840x128.Idx), (x 0).val = 5120 * wid6 L + 128 * n + (y 0).val → (x 1).val = (y 1).val →
      p y = gathered6 (d := d) tab I x) :
    DoneUpTo_c6 d L tab I (n + 1)
      (View.write (Elt F) (outW_c6.slice (Rect.unit (s := S163840x128) o S128x128.size hinb) (fun _ => rfl)).view f p Finset.univ) := by
  subst ho
  intro x hlo hhi
  by_cases hx : (x 0).val < 5120 * wid6 L + 128 * n
  · rw [View.write_of_not_mem]
    · exact hf x hlo hx
    · rw [View.setOn_univ]
      show x ∉ ((View.whole main_v16_scv : View sig .scVector .hbm S163840x128 .f32).slice (Rect.unit (s := S163840x128) ![5120 * wid6 L + 128 * n, 0] S128x128.size hinb)).set
      rw [View.set_slice_whole, Rect.mem_set_unit]
      intro h
      have h0 : 5120 * wid6 L + 128 * n ≤ (x 0).val := (h 0).1
      omega
  · have hmem : x ∈ (Rect.unit (s := S163840x128) ![5120 * wid6 L + 128 * n, 0] S128x128.size hinb).set := by
      rw [Rect.mem_set_unit]
      intro a
      have h1 : (x 1).val < 128 := (x 1).isLt
      fin_cases a
      · show 5120 * wid6 L + 128 * n ≤ (x 0).val ∧ (x 0).val < 5120 * wid6 L + 128 * n + 128
        omega
      · show 0 ≤ (x 1).val ∧ (x 1).val < 0 + 128
        omega
    rw [← Rect.map_emb_univ] at hmem
    obtain ⟨y, -, rfl⟩ := Finset.mem_map.mp hmem
    have e : (outW_c6.slice (Rect.unit (s := S163840x128) ![5120 * wid6 L + 128 * n, 0] S128x128.size hinb) (fun _ => rfl)).view.emb y
        = (Rect.unit (s := S163840x128) ![5120 * wid6 L + 128 * n, 0] S128x128.size hinb).emb y := rfl
    rw [← e, View.write_emb_of_mem _ _ (Finset.mem_univ y)]
    simp only [cast_eq]
    refine hp y _ ?_ ?_
    · rw [e, Rect.emb_apply]
      show 5120 * wid6 L + 128 * n + 1 * (y 0).val = 5120 * wid6 L + 128 * n + (y 0).val
      omega
    · rw [e, Rect.emb_apply]
      show 0 + 1 * (y 1).val = (y 1).val
      omega

theorem off3c_c6 (L : grid6.Coords) (k : Fin k6_t1_loop.trips) (r : Fin 5) :
    k6_off3 L k (BitVec.ofNat 32 r.val) = ![5120 * wid6 L + 128 * (5 * k.val + r.val), 0] :=
  (k6_off3_eq L k r).trans (by unfold wid6; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c6 (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000)
    (hK : ∀ (c : ℕ) (hc : c < 40) (hin' : ∀ x : S128.Idx, BitVec.toNat (View.read (Elt F) (rowM_c6 ![c, 0] (rowInb_c6 c hc)).view (listFill_c6 d L I g0) x) < 1000000)
      (y : S128x128.Idx) (x : S163840x128.Idx), (x 0).val = 5120 * wid6 L + 128 * c + (y 0).val → (x 1).val = (y 1).val →
      landed_c6 d L tab (listFill_c6 d L I g0) ![c, 0] (rowInb_c6 c hc) hin' y = gathered6 (d := d) tab I x)
    (k : Fin k6_t1_loop.trips) (hk8 : k.val < 8) (s0 s1 s2 s3 s4 : Buf (Elt F) (ringW_c6.view.loc (Vt_c6 d L))) (f : Buf (Elt F) (outW_c6.view.loc (Vt_c6 d L)))
    (hF : FactsFly_c6 d L tab I g0 hin k.val hk8 s0 s1 s2 s3 s4 f) :
    DoneUpTo_c6 d L tab I (5 * (k.val + 1))
      (View.write (Elt F) (outW_c6.slice (Rect.unit (s := S163840x128) (k6_off3 L k 4#32) S128x128.size (k6_off3_inb L k 4)) (fun _ => rfl)).view (View.write (Elt F) (outW_c6.slice (Rect.unit (s := S163840x128) (k6_off3 L k 3#32) S128x128.size (k6_off3_inb L k 3)) (fun _ => rfl)).view (View.write (Elt F) (outW_c6.slice (Rect.unit (s := S163840x128) (k6_off3 L k 2#32) S128x128.size (k6_off3_inb L k 2)) (fun _ => rfl)).view (View.write (Elt F) (outW_c6.slice (Rect.unit (s := S163840x128) (k6_off3 L k 1#32) S128x128.size (k6_off3_inb L k 1)) (fun _ => rfl)).view (View.write (Elt F) (outW_c6.slice (Rect.unit (s := S163840x128) (k6_off3 L k 0#32) S128x128.size (k6_off3_inb L k 0)) (fun _ => rfl)).view f (ReadAs.same.apply (View.read (Elt F) slot0M_c6.view s0)) Finset.univ) (ReadAs.same.apply (View.read (Elt F) slot1M_c6.view s1)) Finset.univ) (ReadAs.same.apply (View.read (Elt F) slot2M_c6.view s2)) Finset.univ) (ReadAs.same.apply (View.read (Elt F) slot3M_c6.view s3)) Finset.univ) (ReadAs.same.apply (View.read (Elt F) slot4M_c6.view s4)) Finset.univ) := by
  obtain ⟨hd, h0, h1, h2, h3, h4⟩ := hF
  have e : 5 * (k.val + 1) = 5 * k.val + 0 + 1 + 1 + 1 + 1 + 1 := by omega
  rw [e]
  refine done_step_c6 d L tab I _ _ (off3c_c6 L k 4) _ _ _ ?_ ?_
  refine done_step_c6 d L tab I _ _ (off3c_c6 L k 3) _ _ _ ?_ ?_
  refine done_step_c6 d L tab I _ _ (off3c_c6 L k 2) _ _ _ ?_ ?_
  refine done_step_c6 d L tab I _ _ (off3c_c6 L k 1) _ _ _ ?_ ?_
  refine done_step_c6 d L tab I _ _ (off3c_c6 L k 0) _ _ _ ?_ ?_
  · exact hd
  · intro y x hx0 hx1
    show View.read (Elt F) slot0M_c6.view s0 y = _
    rw [h0]; exact hK (5 * k.val + 0) (by omega) _ y x hx0 hx1
  · intro y x hx0 hx1
    show View.read (Elt F) slot1M_c6.view s1 y = _
    rw [h1]; exact hK (5 * k.val + 1) (by omega) _ y x hx0 hx1
  · intro y x hx0 hx1
    show View.read (Elt F) slot2M_c6.view s2 y = _
    rw [h2]; exact hK (5 * k.val + 2) (by omega) _ y x hx0 hx1
  · intro y x hx0 hx1
    show View.read (Elt F) slot3M_c6.view s3 y = _
    rw [h3]; exact hK (5 * k.val + 3) (by omega) _ y x hx0 hx1
  · intro y x hx0 hx1
    show View.read (Elt F) slot4M_c6.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L))) (g : ℕ) (h : g < 8) (s0 s1 s2 s3 s4 : Buf (Elt F) (ringW_c6.view.loc (Vt_c6 d L))) (f : Buf (Elt F) (outW_c6.view.loc (Vt_c6 d L))) : sProp (MM F) :=
  iprop(Transfers.MayWaits (Vt_c6 d L) (default : HIx 5) O
    ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
    ∗ owesW_c6 d L O W
    ∗ (outW_c6.view.loc (Vt_c6 d L) ↦[outW_c6.view.setOn (outWinR_c6 L).set]{fullShare} f)
    ∗ ((Transfers.Flight countersEmb (Vt_c6 d L) (SemLoc.dma cc6_scratch2.sem) (default : HIx 5) 524288
              iprop(((slot0M_c6.view.loc (Vt_c6 d L) ↦[slot0M_c6.view.set]{fullShare} s0)
                  ∗ (listW_c6.view.loc (Vt_c6 d L) ↦[(rowM_c6 ![5 * g + 0, 0] (rowInb0_c6 g h)).view.set]{fullShare} fl))
                ∗ (tabW_c6.view.loc (Vt_c6 d L) ↦[tabS_c6.view.set]{Transfers.shareTok q 80 cc6_scratch2.sem} tab))
            ∗ (slot0M_c6.view.loc (Vt_c6 d L) ↦[slot0M_c6.view.set \ slot0M_c6.view.set]{fullShare} s0))
          ∗ (tabW_c6.view.loc (Vt_c6 d L) ↦[Finset.univ \ tabS_c6.view.set]{Transfers.shareTok q 80 cc6_scratch2.sem} tab))
    ∗ ((Transfers.Flight countersEmb (Vt_c6 d L) (SemLoc.dma cc6_scratch3.sem) (default : HIx 5) 524288
              iprop(((slot1M_c6.view.loc (Vt_c6 d L) ↦[slot1M_c6.view.set]{fullShare} s1)
                  ∗ (listW_c6.view.loc (Vt_c6 d L) ↦[(rowM_c6 ![5 * g + 1, 0] (rowInb1_c6 g h)).view.set]{fullShare} fl))
                ∗ (tabW_c6.view.loc (Vt_c6 d L) ↦[tabS_c6.view.set]{Transfers.shareTok q 80 cc6_scratch3.sem} tab))
            ∗ (slot1M_c6.view.loc (Vt_c6 d L) ↦[slot1M_c6.view.set \ slot1M_c6.view.set]{fullShare} s1))
          ∗ (tabW_c6.view.loc (Vt_c6 d L) ↦[Finset.univ \ tabS_c6.view.set]{Transfers.shareTok q 80 cc6_scratch3.sem} tab))
    ∗ ((Transfers.Flight countersEmb (Vt_c6 d L) (SemLoc.dma cc6_scratch4.sem) (default : HIx 5) 524288
              iprop(((slot2M_c6.view.loc (Vt_c6 d L) ↦[slot2M_c6.view.set]{fullShare} s2)
                  ∗ (listW_c6.view.loc (Vt_c6 d L) ↦[(rowM_c6 ![5 * g + 2, 0] (rowInb2_c6 g h)).view.set]{fullShare} fl))
                ∗ (tabW_c6.view.loc (Vt_c6 d L) ↦[tabS_c6.view.set]{Transfers.shareTok q 80 cc6_scratch4.sem} tab))
            ∗ (slot2M_c6.view.loc (Vt_c6 d L) ↦[slot2M_c6.view.set \ slot2M_c6.view.set]{fullShare} s2))
          ∗ (tabW_c6.view.loc (Vt_c6 d L) ↦[Finset.univ \ tabS_c6.view.set]{Transfers.shareTok q 80 cc6_scratch4.sem} tab))
    ∗ ((Transfers.Flight countersEmb (Vt_c6 d L) (SemLoc.dma cc6_scratch5.sem) (default : HIx 5) 524288
              iprop(((slot3M_c6.view.loc (Vt_c6 d L) ↦[slot3M_c6.view.set]{fullShare} s3)
                  ∗ (listW_c6.view.loc (Vt_c6 d L) ↦[(rowM_c6 ![5 * g + 3, 0] (rowInb3_c6 g h)).view.set]{fullShare} fl))
                ∗ (tabW_c6.view.loc (Vt_c6 d L) ↦[tabS_c6.view.set]{Transfers.shareTok q 80 cc6_scratch5.sem} tab))
            ∗ (slot3M_c6.view.loc (Vt_c6 d L) ↦[slot3M_c6.view.set \ slot3M_c6.view.set]{fullShare} s3))
          ∗ (tabW_c6.view.loc (Vt_c6 d L) ↦[Finset.univ \ tabS_c6.view.set]{Transfers.shareTok q 80 cc6_scratch5.sem} tab))
    ∗ ((Transfers.Flight countersEmb (Vt_c6 d L) (SemLoc.dma cc6_scratch6.sem) (default : HIx 5) 524288
              iprop(((slot4M_c6.view.loc (Vt_c6 d L) ↦[slot4M_c6.view.set]{fullShare} s4)
                  ∗ (listW_c6.view.loc (Vt_c6 d L) ↦[(rowM_c6 ![5 * g + 4, 0] (rowInb4_c6 g h)).view.set]{fullShare} fl))
                ∗ (tabW_c6.view.loc (Vt_c6 d L) ↦[tabS_c6.view.set]{Transfers.shareTok q 80 cc6_scratch6.sem} tab))
            ∗ (slot4M_c6.view.loc (Vt_c6 d L) ↦[slot4M_c6.view.set \ slot4M_c6.view.set]{fullShare} s4))
          ∗ (tabW_c6.view.loc (Vt_c6 d L) ↦[Finset.univ \ tabS_c6.view.set]{Transfers.shareTok q 80 cc6_scratch6.sem} tab))
    ∗ (listW_c6.view.loc (Vt_c6 d L) ↦[((((Finset.univ \ (rowM_c6 ![5 * g + 0, 0] (rowInb0_c6 g h)).view.set) \ (rowM_c6 ![5 * g + 1, 0] (rowInb1_c6 g h)).view.set)
              \ (rowM_c6 ![5 * g + 2, 0] (rowInb2_c6 g h)).view.set) \ (rowM_c6 ![5 * g + 3, 0] (rowInb3_c6 g h)).view.set) \ (rowM_c6 ![5 * g + 4, 0] (rowInb4_c6 g h)).view.set]{fullShare} fl))

/-- After the last trip: every cell at zero, the slots, the list and the shares back. -/
def invIdle_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L))) (s0 s1 s2 s3 s4 : Buf (Elt F) (ringW_c6.view.loc (Vt_c6 d L))) (f : Buf (Elt F) (outW_c6.view.loc (Vt_c6 d L))) : sProp (MM F) :=
  iprop(Transfers.MayWaits (Vt_c6 d L) (default : HIx 5) O
    ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
    ∗ owesW_c6 d L O W
    ∗ (outW_c6.view.loc (Vt_c6 d L) ↦[outW_c6.view.setOn (outWinR_c6 L).set]{fullShare} f)
    ∗ ((tabW_c6.view.loc (Vt_c6 d L) ↦{Transfers.shareTok q 80 cc6_scratch2.sem} tab) ∗ semVal (Vt_c6 d L, SemLoc.dma cc6_scratch2.sem) 0
          ∗ (slot0M_c6.view.loc (Vt_c6 d L) ↦[slot0M_c6.view.set]{fullShare} s0))
    ∗ ((tabW_c6.view.loc (Vt_c6 d L) ↦{Transfers.shareTok q 80 cc6_scratch3.sem} tab) ∗ semVal (Vt_c6 d L, SemLoc.dma cc6_scratch3.sem) 0
          ∗ (slot1M_c6.view.loc (Vt_c6 d L) ↦[slot1M_c6.view.set]{fullShare} s1))
    ∗ ((tabW_c6.view.loc (Vt_c6 d L) ↦{Transfers.shareTok q 80 cc6_scratch4.sem} tab) ∗ semVal (Vt_c6 d L, SemLoc.dma cc6_scratch4.sem) 0
          ∗ (slot2M_c6.view.loc (Vt_c6 d L) ↦[slot2M_c6.view.set]{fullShare} s2))
    ∗ ((tabW_c6.view.loc (Vt_c6 d L) ↦{Transfers.shareTok q 80 cc6_scratch5.sem} tab) ∗ semVal (Vt_c6 d L, SemLoc.dma cc6_scratch5.sem) 0
          ∗ (slot3M_c6.view.loc (Vt_c6 d L) ↦[slot3M_c6.view.set]{fullShare} s3))
    ∗ ((tabW_c6.view.loc (Vt_c6 d L) ↦{Transfers.shareTok q 80 cc6_scratch6.sem} tab) ∗ semVal (Vt_c6 d L, SemLoc.dma cc6_scratch6.sem) 0
          ∗ (slot4M_c6.view.loc (Vt_c6 d L) ↦[slot4M_c6.view.set]{fullShare} s4))
    ∗ (listW_c6.view.loc (Vt_c6 d L) ↦{fullShare} fl))

/-- What the loop keeps. -/
def inv0v_c6 (q : PosShare TreeShare) (O : CellTallies nD τ sig (HIx 5)) (W : Waits sig (HIx 5)) (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000) (g : ℕ) (_ : PUnit) : sProp (MM F) :=
  if h : g < 8 then
    iprop(∃ s0 s1 s2 s3 s4 f, ⌜FactsFly_c6 d L tab I g0 hin g h s0 s1 s2 s3 s4 f⌝ ∗ invFly_c6 d L q O W tab (listFill_c6 d L I g0) g h s0 s1 s2 s3 s4 f)
  else
    iprop(∃ s0 s1 s2 s3 s4 f, ⌜DoneUpTo_c6 d L tab I (5 * g) f⌝ ∗ invIdle_c6 d L q O W tab (listFill_c6 d L I g0) s0 s1 s2 s3 s4 f)

/-! ## One trip, with the contents -/

set_option maxHeartbeats 4000000 in
theorem trip0v_c6 (q : PosShare TreeShare) (O : CellTallies nD τ sig (HIx 5)) (W : Waits sig (HIx 5)) (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000)
    (hK : ∀ (c : ℕ) (hc : c < 40) (hin' : ∀ x : S128.Idx, BitVec.toNat (View.read (Elt F) (rowM_c6 ![c, 0] (rowInb_c6 c hc)).view (listFill_c6 d L I g0) x) < 1000000)
      (y : S128x128.Idx) (x : S163840x128.Idx), (x 0).val = 5120 * wid6 L + 128 * c + (y 0).val → (x 1).val = (y 1).val →
      landed_c6 d L tab (listFill_c6 d L I g0) ![c, 0] (rowInb_c6 c hc) hin' y = gathered6 (d := d) tab I x)
    (v2 : BitVec 32) (k : Fin k6_t1_loop.trips) (acc : PUnit) :
    inv0v_c6 q O W d L tab I g0 hin k.val acc
      ⊢ wp frame (wpE (defs₀ (F := F)) 𝒱₀ (Vt_c6 d L) none) Set.univ
          (k6_t1_body L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0 v2 k acc)
          (inv0v_c6 q O W d L tab I g0 hin (k.val + 1)) := by
  have hk8 : k.val < 8 := trips_eq_c6 ▸ k.isLt
  unfold inv0v_c6
  rw [dif_pos hk8]
  by_cases hk : k.val < 7
  · obtain ⟨hc1, hc2, hc3, hc4, hc5⟩ := conds_lt_c6 k hk
    have hk1 : k.val + 1 < 8 := by omega
    rw [dif_pos hk1]
    unfold k6_t1_body
    iintro ⟨%s0, %s1, %s2, %s3, %s4, %f, %hF, HP⟩
    unfold invFly_c6
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    rw [rowSet_congr_c6 d L (off4_c6 k) (k6_off4_inb k hc1) (rowInb0_c6 (k.val + 1) hk1), rowSet_congr_c6 d L (off5_c6 k) (k6_off5_inb k hc2) (rowInb1_c6 (k.val + 1) hk1),
      rowSet_congr_c6 d L (off6_c6 k) (k6_off6_inb k hc3) (rowInb2_c6 (k.val + 1) hk1), rowSet_congr_c6 d L (off7_c6 k) (k6_off7_inb k hc4) (rowInb3_c6 (k.val + 1) hk1),
      rowSet_congr_c6 d L (off8_c6 k) (k6_off8_inb k hc5) (rowInb4_c6 (k.val + 1) hk1)]
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    iexists _; iexists _; iexists _; iexists _; iexists _; iexists _
    isplitr
    swap
    · sl_close
    · ipureintro
      refine ⟨done5_c6 d L tab I g0 hin hK k hk8 s0 s1 s2 s3 s4 f hF, ?_, ?_, ?_, ?_, ?_⟩
      · exact (read_writes_whole_c6 _ _ _).trans (landed_congr_c6 d L tab _ (off4_c6 k) _ _ _ _)
      · exact (read_writes_whole_c6 _ _ _).trans (landed_congr_c6 d L tab _ (off5_c6 k) _ _ _ _)
      · exact (read_writes_whole_c6 _ _ _).trans (landed_congr_c6 d L tab _ (off6_c6 k) _ _ _ _)
      · exact (read_writes_whole_c6 _ _ _).trans (landed_congr_c6 d L tab _ (off7_c6 k) _ _ _ _)
      · exact (read_writes_whole_c6 _ _ _).trans (landed_congr_c6 d L tab _ (off8_c6 k) _ _ _ _)
  · obtain ⟨hc1, hc2, hc3, hc4, hc5⟩ := conds_last_c6 k hk
    rw [dif_neg (show ¬ k.val + 1 < 8 by omega)]
    unfold k6_t1_body
    iintro ⟨%s0, %s1, %s2, %s3, %s4, %f, %hF, HP⟩
    unfold invFly_c6
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    iexists _; iexists _; iexists _; iexists _; iexists _; iexists _
    isplitr
    swap
    · unfold invIdle_c6
      sl_close
    · ipureintro
      exact done5_c6 d L tab I g0 hin hK k hk8 s0 s1 s2 s3 s4 f hF

end Cert.KernelIdeal.Hand

end
-- ==== Proof.Tile6v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.Tile6b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c6 (d : Dev nD) (L : grid6.Coords) (q : PosShare TreeShare) (O : CellTallies nD τ sig (HIx 5)) (W : Waits sig (HIx 5))
    (tab : Buf (Elt F) (tabW_c6.view.loc (Vt_c6 d L))) (I : Buf (Elt F) ((idxBlkM_c6 L).view.loc (Vt_c6 d L)))
    (hI : ∀ z ∈ (idxBlkM_c6 L).view.set, BitVec.toNat (I z) < 1000000)
    (g0 : Buf (Elt F) (listW_c6.view.loc (Vt_c6 d L))) (r : Buf (Elt F) (ringW_c6.view.loc (Vt_c6 d L)))
    (f : Buf (Elt F) (outW_c6.view.loc (Vt_c6 d L))) :
    (iprop(Transfers.MayWaits (Vt_c6 d L) (default : HIx 5) O
        ∗ (tabW_c6.view.loc (Vt_c6 d L) ↦{Transfers.shareTok q 80 cc6_scratch2.sem} tab)
        ∗ (tabW_c6.view.loc (Vt_c6 d L) ↦{Transfers.shareTok q 80 cc6_scratch3.sem} tab)
        ∗ (tabW_c6.view.loc (Vt_c6 d L) ↦{Transfers.shareTok q 80 cc6_scratch4.sem} tab)
        ∗ (tabW_c6.view.loc (Vt_c6 d L) ↦{Transfers.shareTok q 80 cc6_scratch5.sem} tab)
        ∗ (tabW_c6.view.loc (Vt_c6 d L) ↦{Transfers.shareTok q 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok q 80 cc6_scratch2.sem} tab)
            ∗ (tabW_c6.view.loc (Vt_c6 d L) ↦{Transfers.shareTok q 80 cc6_scratch3.sem} tab)
            ∗ (tabW_c6.view.loc (Vt_c6 d L) ↦{Transfers.shareTok q 80 cc6_scratch4.sem} tab)
            ∗ (tabW_c6.view.loc (Vt_c6 d L) ↦{Transfers.shareTok q 80 cc6_scratch5.sem} tab)
            ∗ (tabW_c6.view.loc (Vt_c6 d L) ↦{Transfers.shareTok q 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ (∃ f' : Buf (Elt F) (outW_c6.view.loc (Vt_c6 d L)), (outW_c6.view.loc (Vt_c6 d L) ↦[outW_c6.view.setOn (outWinR_c6 L).set]{fullShare} f')
                ∗ ⌜∀ x : S163840x128.Idx, 5120 * wid6 L ≤ (x 0).val ∧ (x 0).val < 5120 * wid6 L + 5120 → f' x = gathered6 (d := d) tab I x⌝)) := by
  have hin := list_words_c6 d L I g0 hI
  have hI' : ∀ z ∈ idxRows6 d L, BitVec.toNat (I z) < 1000000 := fun z hz => hI z (by rw [set_idxBlkM_c6 d L]; exact hz)
  have hK := fun c hc hin' y x hx0 hx1 => landed_eq_gathered0_c6 (F := F) d L tab I g0 hI' c hc hin' y x hx0 hx1
  rw [cc6_gather_k_eq_skeleton]; unfold cc6_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c6 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c6 q O W d L tab I g0 hin hK _ k acc
  · unfold inv0v_c6
    rw [dif_pos (show 0 < 8 by decide)]
    ihave HO' := (owesW_intro_c6 (W := W) (ins_none_c6 (fun p hp => Or.inl hp) _)) $$ HO
    iexists _; iexists _; iexists _; iexists _; iexists _; iexists _
    isplitr
    swap
    · unfold invFly_c6
      sl_close
    · ipureintro
      refine ⟨fun x h1 h2 => absurd h2 (by omega), ?_, ?_, ?_, ?_, ?_⟩
      · exact (read_writes_whole_c6 _ _ _).trans (landed_congr_c6 d L tab _ (show (![0, 0] : Fin 2 → ℕ) = ![5 * 0 + 0, 0] from rfl) _ _ _ _)
      · exact (read_writes_whole_c6 _ _ _).trans (landed_congr_c6 d L tab _ (show (![1, 0] : Fin 2 → ℕ) = ![5 * 0 + 1, 0] from rfl) _ _ _ _)
      · exact (read_writes_whole_c6 _ _ _).trans (landed_congr_c6 d L tab _ (show (![2, 0] : Fin 2 → ℕ) = ![5 * 0 + 2, 0] from rfl) _ _ _ _)
      · exact (read_writes_whole_c6 _ _ _).trans (landed_congr_c6 d L tab _ (show (![3, 0] : Fin 2 → ℕ) = ![5 * 0 + 3, 0] from rfl) _ _ _ _)
      · exact (read_writes_whole_c6 _ _ _).trans (landed_congr_c6 d L tab _ (show (![4, 0] : Fin 2 → ℕ) = ![5 * 0 + 4, 0] from rfl) _ _ _ _)
  unfold inv0v_c6
  rw [dif_neg (show ¬ k6_t1_loop.trips < 8 by rw [trips_eq_c6]; decide)]
  iintro %acc ⟨%s0, %s1, %s2, %s3, %s4, %f', %hdone, HP⟩
  unfold invIdle_c6
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k6_t1_loop.lb k6_t1_loop.ub k6_t1_loop.st = 8 := trips_eq_c6
  rw [h8] at hdone
  have hfin : ∀ x : S163840x128.Idx, 5120 * wid6 L ≤ (x 0).val ∧ (x 0).val < 5120 * wid6 L + 5120 → f' x = gathered6 (d := d) tab I x :=
    fun x h => hdone x h.1 (by omega)
  sl_close

end Cert.KernelIdeal.Hand

end
-- ==== Proof.Tile6Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.Tile6Wrap
import proofs.«206421_g46840913330738_cont_8to1c4_247_26_alg».proof.Proof.Tile6v

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body6 (d : Dev nD) (L : grid6.Coords) (tab : Buf (Elt F) (tabLoc6 d)) (I : Buf (Elt F) (idxLoc6 d)) (f : Buf (Elt F) (outLoc6 d))
    (hF : (K (F := F)).Facts) (hI : ∀ x ∈ idxRows6 d L, BitVec.toNat (I x) < 1000000)
    (O : CellTallies nD τ sig (HIx 5)) (W : Waits sig (HIx 5)) (hO : ∀ g, O g none = 0) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(tdRes6 d L tab I ∗ scopedBufs (Vt_c6 d L) ∗ scopedSems0 (Vt_c6 d L)
            ∗ ∃ W', ⌜∀ p ∈ W', p ∈ W ∨ p.2 = none⌝ ∗ owes (Vt_c6 d L) O W') :=
  tile_body0_of_c6 (F := F) tile_runV0_c6 d L tab I f hF hI O W hO

end Cert.KernelIdeal.Hand

end
-- ==== Proof.TileObl6.lean ====
/-
  The launch theorem's obligation for gather call 3: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Tile6Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec6 (c : Fin τ.nSC) (s : Fin τ.nSub) :
    defs₀ (F := F) (.scVector c s) 6 ()
      = SparseCore.onTile hcore6 hsub6 (fun c s => cc6_gather_k (coordsV6 c s) (Memref.whole main_arg1_scv) (Memref.isWhole_whole _) (Memref.whole main_v15_scv) (Memref.isWhole_whole _) (Memref.whole main_v16_scv) (Memref.isWhole_whole _) (Memref.whole cc6_scratch0) (Memref.isWhole_whole _) (Memref.whole cc6_scratch1) (Memref.isWhole_whole _) cc6_scratch2 cc6_scratch3 cc6_scratch4 cc6_scratch5 cc6_scratch6 cc6_scratch7 cc6_scratch8 cc6_scratch9 cc6_scratch10 cc6_scratch11 cc6_scoped0) ⟨⟩ c s := rfl

/-- Every index word of the call's index array names a table row. -/
def InRange6 : Prop := ∀ (d : Dev nD) (x : S32x40x128.Idx), (BitVec.toNat (W18 m d (r main_v15) x)) < 1000000

/-- The task of call 3, for every subcore of its grid. -/
theorem tileObl6 (hR : InRange6 m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vec6]; simp only [SparseCore.onTile, hc, and_self, ↓reduceDIte]
  show iprop(_ ∗ _ ∗ goRes6 d (coordsV6 c i) (W18 m d (r main_arg1)) (W18 m d (r main_v15)) (W18 m d (r main_v16)) ∗ _) ⊢ wp _ _ _ _
    (fun _ => iprop(tdRes6 d (coordsV6 c i) (W18 m d (r main_arg1)) (W18 m d (r main_v15)) ∗ _))
  exact (tile_body6 d (coordsV6 c i) (W18 m d (r main_arg1)) (W18 m d (r main_v15)) (W18 m d (r main_v16)) facts (fun x _ => hR d x) O W hO).trans
    (wp_mono frame _ _ fun _ => obl_post)

end Cert.KernelIdeal.Hand

end
-- ==== Proof.Tile8a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.Tile8Defs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c8 (d : Dev nD) (L : grid8.Coords) : Thread nD τ := V d (cV8 L) (jV8 L)

abbrev tabW_c8 : Memref sig .scVector .hbm S1000000x128 .f32 := Memref.whole main_arg1_scv
abbrev idxW_c8 : Memref sig .scVector .hbm S32x40x128 .i32 := Memref.whole main_v19_scv
abbrev outW_c8 : Memref sig .scVector .hbm S163840x128 .f32 := Memref.whole main_v20_scv
abbrev listW_c8 : Memref sig .scVector .vmem S40x128 .i32 := Memref.whole cc8_scratch0
abbrev ringW_c8 : Memref sig .scVector .vmem S5x128x128 .f32 := Memref.whole cc8_scratch1
/-- The table as every gather names it: the slice that is all of it. -/
abbrev tabS_c8 : Memref sig .scVector .hbm S1000000x128 .f32 :=
  tabW_c8.slice (Rect.unit (s := S1000000x128) ![0, 0] S1000000x128.size inb_S1000000x128_S1000000x128_0_0) (fun _ => rfl)
/-- The subcore's block of the index array, as the block copy names it. -/
abbrev idxBlkM_c8 (L : grid8.Coords) : Memref sig .scVector .hbm S40x128 .i32 :=
  (idxW_c8.slice (Rect.unit (s := S32x40x128) (k8_off1 L) S1x40x128.size (k8_off1_inb L)) (fun _ => rfl)).squeeze S40x128 squeezes_S1x40x128_S40x128
/-- The five slots of the ring. -/
abbrev slot0M_c8 : Memref sig .scVector .vmem S128x128 .f32 :=
  (ringW_c8.slice (Rect.unit (s := S5x128x128) ![0, 0, 0] S1x128x128.size inb_S5x128x128_S1x128x128_0_0_0) (fun _ => rfl)).squeeze S128x128 squeezes_S1x128x128_S128x128
abbrev slot1M_c8 : Memref sig .scVector .vmem S128x128 .f32 :=
  (ringW_c8.slice (Rect.unit (s := S5x128x128) ![1, 0, 0] S1x128x128.size inb_S5x128x128_S1x128x128_1_0_0) (fun _ => rfl)).squeeze S128x128 squeezes_S1x128x128_S128x128
abbrev slot2M_c8 : Memref sig .scVector .vmem S128x128 .f32 :=
  (ringW_c8.slice (Rect.unit (s := S5x128x128) ![2, 0, 0] S1x128x128.size inb_S5x128x128_S1x128x128_2_0_0) (fun _ => rfl)).squeeze S128x128 squeezes_S1x128x128_S128x128
abbrev slot3M_c8 : Memref sig .scVector .vmem S128x128 .f32 :=
  (ringW_c8.slice (Rect.unit (s := S5x128x128) ![3, 0, 0] S1x128x128.size inb_S5x128x128_S1x128x128_3_0_0) (fun _ => rfl)).squeeze S128x128 squeezes_S1x128x128_S128x128
abbrev slot4M_c8 : Memref sig .scVector .vmem S128x128 .f32 :=
  (ringW_c8.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c8 (o : Fin 2 → ℕ) (h : ∀ a, o a + S1x128.size a ≤ S40x128.size a) : Memref sig .scVector .vmem S128 .i32 :=
  (listW_c8.slice (Rect.unit (s := S40x128) o S1x128.size h) (fun _ => rfl)).squeeze S128 squeezes_S1x128_S128

theorem rowInb_c8 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c8 (g : ℕ) (h : g < 8) : ∀ a, (![5 * g + 0, 0] : Fin 2 → ℕ) a + S1x128.size a ≤ S40x128.size a := rowInb_c8 (5 * g + 0) (by omega)
theorem rowInb1_c8 (g : ℕ) (h : g < 8) : ∀ a, (![5 * g + 1, 0] : Fin 2 → ℕ) a + S1x128.size a ≤ S40x128.size a := rowInb_c8 (5 * g + 1) (by omega)
theorem rowInb2_c8 (g : ℕ) (h : g < 8) : ∀ a, (![5 * g + 2, 0] : Fin 2 → ℕ) a + S1x128.size a ≤ S40x128.size a := rowInb_c8 (5 * g + 2) (by omega)
theorem rowInb3_c8 (g : ℕ) (h : g < 8) : ∀ a, (![5 * g + 3, 0] : Fin 2 → ℕ) a + S1x128.size a ≤ S40x128.size a := rowInb_c8 (5 * g + 3) (by omega)
theorem rowInb4_c8 (g : ℕ) (h : g < 8) : ∀ a, (![5 * g + 4, 0] : Fin 2 → ℕ) a + S1x128.size a ≤ S40x128.size a := rowInb_c8 (5 * g + 4) (by omega)

theorem rowM_congr_c8 {o o' : Fin 2 → ℕ} (e : o = o') (h : ∀ a, o a + S1x128.size a ≤ S40x128.size a)
    (h' : ∀ a, o' a + S1x128.size a ≤ S40x128.size a) : rowM_c8 o h = rowM_c8 o' h' := by
  subst e; rfl

/-- The subcore's rows of the gathered array as a rectangle in the grid coordinates themselves. -/
theorem outWinR_inb_c8 (L : grid8.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c8 (L : grid8.Coords) : Rect S163840x128 :=
  Rect.unit (s := S163840x128) ![10240 * (L 1).val + 5120 * (L 0).val, 0] ![5120, 128] (outWinR_inb_c8 L)

theorem outWinR_eq_c8 (L : grid8.Coords) : outWinR_c8 L = outRect8 L :=
  Rect.unit_congr (by unfold wid8; rw [show 5120 * (2 * (L 1).val + (L 0).val) = 10240 * (L 1).val + 5120 * (L 0).val by omega]) _ _

/-! ## The trips' offsets and conditions in closed form -/

theorem off4_c8 (k : Fin k8_t1_loop.trips) : k8_off4 k = ![5 * (k.val + 1) + 0, 0] :=
  (k8_off4_eq k).trans (by rw [show 5 * (k.val + 1) + 0 = 5 * k.val + 5 by omega])
theorem off5_c8 (k : Fin k8_t1_loop.trips) : k8_off5 k = ![5 * (k.val + 1) + 1, 0] :=
  (k8_off5_eq k).trans (by rw [show 5 * (k.val + 1) + 1 = 5 * k.val + 6 by omega])
theorem off6_c8 (k : Fin k8_t1_loop.trips) : k8_off6 k = ![5 * (k.val + 1) + 2, 0] :=
  (k8_off6_eq k).trans (by rw [show 5 * (k.val + 1) + 2 = 5 * k.val + 7 by omega])
theorem off7_c8 (k : Fin k8_t1_loop.trips) : k8_off7 k = ![5 * (k.val + 1) + 3, 0] :=
  (k8_off7_eq k).trans (by rw [show 5 * (k.val + 1) + 3 = 5 * k.val + 8 by omega])
theorem off8_c8 (k : Fin k8_t1_loop.trips) : k8_off8 k = ![5 * (k.val + 1) + 4, 0] :=
  (k8_off8_eq k).trans (by rw [show 5 * (k.val + 1) + 4 = 5 * k.val + 9 by omega])

theorem conds_lt_c8 : ∀ k : Fin k8_t1_loop.trips, k.val < 7 →
    k8_cond1 k = 1#1 ∧ k8_cond2 k = 1#1 ∧ k8_cond3 k = 1#1 ∧ k8_cond4 k = 1#1 ∧ k8_cond5 k = 1#1 := by decide +kernel
theorem conds_last_c8 : ∀ k : Fin k8_t1_loop.trips, ¬ k.val < 7 →
    ¬ k8_cond1 k = 1#1 ∧ ¬ k8_cond2 k = 1#1 ∧ ¬ k8_cond3 k = 1#1 ∧ ¬ k8_cond4 k = 1#1 ∧ ¬ k8_cond5 k = 1#1 := by decide +kernel
theorem trips_eq_c8 : k8_t1_loop.trips = 8 := by decide +kernel

/-! ## The words of the list scratch are words of the block -/

theorem list_words_c8 (d : Dev nD) (L : grid8.Coords) (I : Buf (Elt F) ((idxBlkM_c8 L).view.loc (Vt_c8 d L)))
    (g0 : Buf (Elt F) (listW_c8.view.loc (Vt_c8 d L)))
    (hI : ∀ z ∈ (idxBlkM_c8 L).view.set, BitVec.toNat (I z) < 1000000)
    (o : Fin 2 → ℕ) (h : ∀ a, o a + S1x128.size a ≤ S40x128.size a) (x : S128.Idx) :
    BitVec.toNat (View.read (Elt F) (rowM_c8 o h).view
      (View.write (Elt F) listW_c8.view g0 (ReadAs.same.apply (View.read (Elt F) (idxBlkM_c8 L).view I)) Finset.univ) x) < 1000000 := by
  rw [View.read_apply]
  have e : (rowM_c8 o h).view.emb x = listW_c8.view.emb ((rowM_c8 o h).view.emb x) := rfl
  rw [e, View.write_emb_of_mem _ _ (Finset.mem_univ _)]
  simp only [cast_cast, cast_eq]
  show BitVec.toNat (View.read (Elt F) (idxBlkM_c8 L).view I _) < 1000000
  rw [View.read_apply]
  simp only [cast_eq]
  exact hI _ (View.emb_mem_set _ _)

theorem set_idxBlkM_c8 (d : Dev nD) (L : grid8.Coords) : (idxBlkM_c8 L).view.set = idxRows8 d L := by
  show ((idxW_c8.view.slice (Rect.unit (s := S32x40x128) (k8_off1 L) S1x40x128.size (k8_off1_inb L))).reshape S40x128 _).set = _
  rw [View.set_reshape]
  exact View.set_slice_whole _ _

/-! ## What lands -/

/-- The list scratch after the block of indices is copied into it. -/
abbrev listFill_c8 (d : Dev nD) (L : grid8.Coords) (I : Buf (Elt F) ((idxBlkM_c8 L).view.loc (Vt_c8 d L)))
    (g0 : Buf (Elt F) (listW_c8.view.loc (Vt_c8 d L))) : Buf (Elt F) (listW_c8.view.loc (Vt_c8 d L)) :=
  View.write (Elt F) listW_c8.view g0 (ReadAs.same.apply (View.read (Elt F) (idxBlkM_c8 L).view I)) Finset.univ

/-- What the gather over the list row at offsets o lands in its slot: at row j of the slot, the table row the j-th
    word of that list row names. -/
abbrev landed_c8 (d : Dev nD) (L : grid8.Coords) (tab : Buf (Elt F) (tabW_c8.view.loc (Vt_c8 d L)))
    (fl : Buf (Elt F) (listW_c8.view.loc (Vt_c8 d L))) (o : Fin 2 → ℕ) (h : ∀ a, o a + S1x128.size a ≤ S40x128.size a)
    (hin : ∀ x : S128.Idx, BitVec.toNat (View.read (Elt F) (rowM_c8 o h).view fl x) < 1000000) : S128x128.Idx → Elt F .f32 :=
  SparseCore.gatherPayload gathers_S1000000x128_S128x128 (View.read (Elt F) tabS_c8.view tab)
    (SparseCore.rows (View.read (Elt F) (rowM_c8 o h).view fl) rfl hin)

variable [FloatOps F]

/-! ## What the loop keeps -/

/-- The subcore owes what it owed, its waits recorded beyond W all at the launch's index. -/
def owesW_c8 (d : Dev nD) (L : grid8.Coords) (O : CellTallies nD τ sig (HIx 5)) (W : Waits sig (HIx 5)) : sProp (MM F) :=
  iprop(∃ W', ⌜∀ p ∈ W', p ∈ W ∨ p.2 = none⌝ ∗ owes (Vt_c8 d L) O W')

theorem owesW_intro_c8 {d : Dev nD} {L : grid8.Coords} {O : CellTallies nD τ sig (HIx 5)} {W W' : Waits sig (HIx 5)}
    (h : ∀ p ∈ W', p ∈ W ∨ p.2 = none) : (owes (Vt_c8 d L) O W' : sProp (MM F)) ⊢ owesW_c8 d L O W := by
  unfold owesW_c8
  iintro H
  iexists W'
  isplitr
  · ipureintro; exact h
  · iexact H

theorem owesW_elim_c8 {d : Dev nD} {L : grid8.Coords} {O : CellTallies nD τ sig (HIx 5)} {W : Waits sig (HIx 5)} :
    (owesW_c8 d L O W : sProp (MM F)) ⊢ iprop(∃ W', ⌜∀ p ∈ W', p ∈ W ∨ p.2 = none⌝ ∗ owes (Vt_c8 d L) O W') := by
  unfold owesW_c8; exact .rfl

theorem ins_none_c8 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c8 (d : Dev nD) (L : grid8.Coords) {o o' : Fin 2 → ℕ} (e : o = o')
    (h : ∀ a, o a + S1x128.size a ≤ S40x128.size a) (h' : ∀ a, o' a + S1x128.size a ≤ S40x128.size a) :
    ((rowM_c8 o h).view.set : Finset (Idx (listW_c8.view.loc (Vt_c8 d L)))) = (rowM_c8 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L))) (g : ℕ) (_ : PUnit) : sProp (MM F) :=
  iprop(Transfers.MayWaits (Vt_c8 d L) (default : HIx 5) O
    ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
    ∗ owesW_c8 d L O W
    ∗ (∃ f : Buf (Elt F) (outW_c8.view.loc (Vt_c8 d L)), outW_c8.view.loc (Vt_c8 d L) ↦[outW_c8.view.setOn (outWinR_c8 L).set]{fullShare} f)
    ∗ (if h : g < 8 then
        iprop(((∃ s : Buf (Elt F) (slot0M_c8.view.loc (Vt_c8 d L)),
            Transfers.Flight countersEmb (Vt_c8 d L) (SemLoc.dma cc8_scratch2.sem) (default : HIx 5) 524288
              iprop(((slot0M_c8.view.loc (Vt_c8 d L) ↦[slot0M_c8.view.set]{fullShare} s)
                  ∗ (listW_c8.view.loc (Vt_c8 d L) ↦[(rowM_c8 ![5 * g + 0, 0] (rowInb0_c8 g h)).view.set]{fullShare} fl))
                ∗ (tabW_c8.view.loc (Vt_c8 d L) ↦[tabS_c8.view.set]{Transfers.shareTok q 80 cc8_scratch2.sem} tab))
            ∗ (slot0M_c8.view.loc (Vt_c8 d L) ↦[slot0M_c8.view.set \ slot0M_c8.view.set]{fullShare} s))
          ∗ (tabW_c8.view.loc (Vt_c8 d L) ↦[Finset.univ \ tabS_c8.view.set]{Transfers.shareTok q 80 cc8_scratch2.sem} tab))
          ∗ ((∃ s : Buf (Elt F) (slot1M_c8.view.loc (Vt_c8 d L)),
            Transfers.Flight countersEmb (Vt_c8 d L) (SemLoc.dma cc8_scratch3.sem) (default : HIx 5) 524288
              iprop(((slot1M_c8.view.loc (Vt_c8 d L) ↦[slot1M_c8.view.set]{fullShare} s)
                  ∗ (listW_c8.view.loc (Vt_c8 d L) ↦[(rowM_c8 ![5 * g + 1, 0] (rowInb1_c8 g h)).view.set]{fullShare} fl))
                ∗ (tabW_c8.view.loc (Vt_c8 d L) ↦[tabS_c8.view.set]{Transfers.shareTok q 80 cc8_scratch3.sem} tab))
            ∗ (slot1M_c8.view.loc (Vt_c8 d L) ↦[slot1M_c8.view.set \ slot1M_c8.view.set]{fullShare} s))
          ∗ (tabW_c8.view.loc (Vt_c8 d L) ↦[Finset.univ \ tabS_c8.view.set]{Transfers.shareTok q 80 cc8_scratch3.sem} tab))
          ∗ ((∃ s : Buf (Elt F) (slot2M_c8.view.loc (Vt_c8 d L)),
            Transfers.Flight countersEmb (Vt_c8 d L) (SemLoc.dma cc8_scratch4.sem) (default : HIx 5) 524288
              iprop(((slot2M_c8.view.loc (Vt_c8 d L) ↦[slot2M_c8.view.set]{fullShare} s)
                  ∗ (listW_c8.view.loc (Vt_c8 d L) ↦[(rowM_c8 ![5 * g + 2, 0] (rowInb2_c8 g h)).view.set]{fullShare} fl))
                ∗ (tabW_c8.view.loc (Vt_c8 d L) ↦[tabS_c8.view.set]{Transfers.shareTok q 80 cc8_scratch4.sem} tab))
            ∗ (slot2M_c8.view.loc (Vt_c8 d L) ↦[slot2M_c8.view.set \ slot2M_c8.view.set]{fullShare} s))
          ∗ (tabW_c8.view.loc (Vt_c8 d L) ↦[Finset.univ \ tabS_c8.view.set]{Transfers.shareTok q 80 cc8_scratch4.sem} tab))
          ∗ ((∃ s : Buf (Elt F) (slot3M_c8.view.loc (Vt_c8 d L)),
            Transfers.Flight countersEmb (Vt_c8 d L) (SemLoc.dma cc8_scratch5.sem) (default : HIx 5) 524288
              iprop(((slot3M_c8.view.loc (Vt_c8 d L) ↦[slot3M_c8.view.set]{fullShare} s)
                  ∗ (listW_c8.view.loc (Vt_c8 d L) ↦[(rowM_c8 ![5 * g + 3, 0] (rowInb3_c8 g h)).view.set]{fullShare} fl))
                ∗ (tabW_c8.view.loc (Vt_c8 d L) ↦[tabS_c8.view.set]{Transfers.shareTok q 80 cc8_scratch5.sem} tab))
            ∗ (slot3M_c8.view.loc (Vt_c8 d L) ↦[slot3M_c8.view.set \ slot3M_c8.view.set]{fullShare} s))
          ∗ (tabW_c8.view.loc (Vt_c8 d L) ↦[Finset.univ \ tabS_c8.view.set]{Transfers.shareTok q 80 cc8_scratch5.sem} tab))
          ∗ ((∃ s : Buf (Elt F) (slot4M_c8.view.loc (Vt_c8 d L)),
            Transfers.Flight countersEmb (Vt_c8 d L) (SemLoc.dma cc8_scratch6.sem) (default : HIx 5) 524288
              iprop(((slot4M_c8.view.loc (Vt_c8 d L) ↦[slot4M_c8.view.set]{fullShare} s)
                  ∗ (listW_c8.view.loc (Vt_c8 d L) ↦[(rowM_c8 ![5 * g + 4, 0] (rowInb4_c8 g h)).view.set]{fullShare} fl))
                ∗ (tabW_c8.view.loc (Vt_c8 d L) ↦[tabS_c8.view.set]{Transfers.shareTok q 80 cc8_scratch6.sem} tab))
            ∗ (slot4M_c8.view.loc (Vt_c8 d L) ↦[slot4M_c8.view.set \ slot4M_c8.view.set]{fullShare} s))
          ∗ (tabW_c8.view.loc (Vt_c8 d L) ↦[Finset.univ \ tabS_c8.view.set]{Transfers.shareTok q 80 cc8_scratch6.sem} tab))
          ∗ (listW_c8.view.loc (Vt_c8 d L) ↦[((((Finset.univ \ (rowM_c8 ![5 * g + 0, 0] (rowInb0_c8 g h)).view.set) \ (rowM_c8 ![5 * g + 1, 0] (rowInb1_c8 g h)).view.set)
              \ (rowM_c8 ![5 * g + 2, 0] (rowInb2_c8 g h)).view.set) \ (rowM_c8 ![5 * g + 3, 0] (rowInb3_c8 g h)).view.set) \ (rowM_c8 ![5 * g + 4, 0] (rowInb4_c8 g h)).view.set]{fullShare} fl))
      else
        iprop(((tabW_c8.view.loc (Vt_c8 d L) ↦{Transfers.shareTok q 80 cc8_scratch2.sem} tab) ∗ semVal (Vt_c8 d L, SemLoc.dma cc8_scratch2.sem) 0
          ∗ (∃ s : Buf (Elt F) (slot0M_c8.view.loc (Vt_c8 d L)), slot0M_c8.view.loc (Vt_c8 d L) ↦[slot0M_c8.view.set]{fullShare} s))
          ∗ ((tabW_c8.view.loc (Vt_c8 d L) ↦{Transfers.shareTok q 80 cc8_scratch3.sem} tab) ∗ semVal (Vt_c8 d L, SemLoc.dma cc8_scratch3.sem) 0
          ∗ (∃ s : Buf (Elt F) (slot1M_c8.view.loc (Vt_c8 d L)), slot1M_c8.view.loc (Vt_c8 d L) ↦[slot1M_c8.view.set]{fullShare} s))
          ∗ ((tabW_c8.view.loc (Vt_c8 d L) ↦{Transfers.shareTok q 80 cc8_scratch4.sem} tab) ∗ semVal (Vt_c8 d L, SemLoc.dma cc8_scratch4.sem) 0
          ∗ (∃ s : Buf (Elt F) (slot2M_c8.view.loc (Vt_c8 d L)), slot2M_c8.view.loc (Vt_c8 d L) ↦[slot2M_c8.view.set]{fullShare} s))
          ∗ ((tabW_c8.view.loc (Vt_c8 d L) ↦{Transfers.shareTok q 80 cc8_scratch5.sem} tab) ∗ semVal (Vt_c8 d L, SemLoc.dma cc8_scratch5.sem) 0
          ∗ (∃ s : Buf (Elt F) (slot3M_c8.view.loc (Vt_c8 d L)), slot3M_c8.view.loc (Vt_c8 d L) ↦[slot3M_c8.view.set]{fullShare} s))
          ∗ ((tabW_c8.view.loc (Vt_c8 d L) ↦{Transfers.shareTok q 80 cc8_scratch6.sem} tab) ∗ semVal (Vt_c8 d L, SemLoc.dma cc8_scratch6.sem) 0
          ∗ (∃ s : Buf (Elt F) (slot4M_c8.view.loc (Vt_c8 d L)), slot4M_c8.view.loc (Vt_c8 d L) ↦[slot4M_c8.view.set]{fullShare} s))
          ∗ (listW_c8.view.loc (Vt_c8 d L) ↦{fullShare} fl))))

/-! ## One trip -/

set_option maxHeartbeats 4000000 in
theorem trip0_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view fl x) < 1000000)
    (v2 : BitVec 32) (k : Fin k8_t1_loop.trips) (acc : PUnit) :
    inv0_c8 d L q O W tab fl k.val acc
      ⊢ wp frame (wpE (defs₀ (F := F)) 𝒱₀ (Vt_c8 d L) none) Set.univ
          (k8_t1_body L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0 v2 k acc)
          (inv0_c8 d L q O W tab fl (k.val + 1)) := by
  have hk8 : k.val < 8 := trips_eq_c8 ▸ k.isLt
  unfold inv0_c8
  rw [dif_pos hk8]
  by_cases hk : k.val < 7
  · obtain ⟨hc1, hc2, hc3, hc4, hc5⟩ := conds_lt_c8 k hk
    rw [dif_pos (show k.val + 1 < 8 by omega)]
    unfold k8_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    rw [rowSet_congr_c8 d L (off4_c8 k) (k8_off4_inb k hc1) (rowInb0_c8 (k.val + 1) (by omega)), rowSet_congr_c8 d L (off5_c8 k) (k8_off5_inb k hc2) (rowInb1_c8 (k.val + 1) (by omega)),
      rowSet_congr_c8 d L (off6_c8 k) (k8_off6_inb k hc3) (rowInb2_c8 (k.val + 1) (by omega)), rowSet_congr_c8 d L (off7_c8 k) (k8_off7_inb k hc4) (rowInb3_c8 (k.val + 1) (by omega)),
      rowSet_congr_c8 d L (off8_c8 k) (k8_off8_inb k hc5) (rowInb4_c8 (k.val + 1) (by omega))]
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    sl_close
  · obtain ⟨hc1, hc2, hc3, hc4, hc5⟩ := conds_last_c8 k hk
    rw [dif_neg (show ¬ k.val + 1 < 8 by omega)]
    unfold k8_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    sl_close

end Cert.KernelIdeal.Hand

end
-- ==== Proof.Tile8.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.Tile8a

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c8 (d : Dev nD) (L : grid8.Coords) (q : PosShare TreeShare) (O : CellTallies nD τ sig (HIx 5)) (W : Waits sig (HIx 5))
    (tab : Buf (Elt F) (tabW_c8.view.loc (Vt_c8 d L))) (I : Buf (Elt F) ((idxBlkM_c8 L).view.loc (Vt_c8 d L)))
    (hI : ∀ z ∈ (idxBlkM_c8 L).view.set, BitVec.toNat (I z) < 1000000)
    (g0 : Buf (Elt F) (listW_c8.view.loc (Vt_c8 d L))) (r : Buf (Elt F) (ringW_c8.view.loc (Vt_c8 d L)))
    (f : Buf (Elt F) (outW_c8.view.loc (Vt_c8 d L))) :
    (iprop(Transfers.MayWaits (Vt_c8 d L) (default : HIx 5) O
        ∗ (tabW_c8.view.loc (Vt_c8 d L) ↦{Transfers.shareTok q 80 cc8_scratch2.sem} tab)
        ∗ (tabW_c8.view.loc (Vt_c8 d L) ↦{Transfers.shareTok q 80 cc8_scratch3.sem} tab)
        ∗ (tabW_c8.view.loc (Vt_c8 d L) ↦{Transfers.shareTok q 80 cc8_scratch4.sem} tab)
        ∗ (tabW_c8.view.loc (Vt_c8 d L) ↦{Transfers.shareTok q 80 cc8_scratch5.sem} tab)
        ∗ (tabW_c8.view.loc (Vt_c8 d L) ↦{Transfers.shareTok q 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok q 80 cc8_scratch2.sem} tab)
            ∗ (tabW_c8.view.loc (Vt_c8 d L) ↦{Transfers.shareTok q 80 cc8_scratch3.sem} tab)
            ∗ (tabW_c8.view.loc (Vt_c8 d L) ↦{Transfers.shareTok q 80 cc8_scratch4.sem} tab)
            ∗ (tabW_c8.view.loc (Vt_c8 d L) ↦{Transfers.shareTok q 80 cc8_scratch5.sem} tab)
            ∗ (tabW_c8.view.loc (Vt_c8 d L) ↦{Transfers.shareTok q 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ (∃ f' : Buf (Elt F) (outW_c8.view.loc (Vt_c8 d L)), outW_c8.view.loc (Vt_c8 d L) ↦[outW_c8.view.setOn (outWinR_c8 L).set]{fullShare} f')) := by
  have hin := list_words_c8 d L I g0 hI
  rw [cc8_gather_k_eq_skeleton]; unfold cc8_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c8 d L q O W tab (View.write (Elt F) listW_c8.view g0 (ReadAs.same.apply (View.read (Elt F) (idxBlkM_c8 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c8 d L q O W tab _ hin _ k acc
  · unfold inv0_c8
    rw [dif_pos (show 0 < 8 by decide)]
    ihave HO' := (owesW_intro_c8 (W := W) (ins_none_c8 (fun p hp => Or.inl hp) _)) $$ HO
    sl_close
  iintro %acc HI
  unfold inv0_c8
  rw [dif_neg (show ¬ k8_t1_loop.trips < 8 by rw [trips_eq_c8]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.KernelIdeal.Hand

end
-- ==== Proof.Tile8Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.Tile8a
import proofs.«206421_g46840913330738_cont_8to1c4_247_26_alg».proof.Proof.Tile8

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c8 : Fin 11 → DmaSem sig :=
  ![cc8_scratch2.sem, cc8_scratch3.sem, cc8_scratch4.sem, cc8_scratch5.sem, cc8_scratch6.sem, cc8_scratch7.sem,
    cc8_scratch8.sem, cc8_scratch9.sem, cc8_scratch10.sem, cc8_scratch11.sem, cc8_scoped0.sem]

theorem sems0_inj_c8 : Function.Injective sems0_c8 := by decide

/-- The k-th of them on the subcore at (c, i) of device d. -/
abbrev dcell0_c8 (d : Dev nD) (c : Fin τ.nSC) (i : Fin τ.nSub) (k : Fin 11) : GSem nD τ sig := (V d c i, .dma (sems0_c8 k))

theorem dcell0_mem_c8 (d : Dev nD) (c : Fin τ.nSC) (i : Fin τ.nSub) (k : Fin 11) : dcell0_c8 d c i k ∈ ownCells (V d c i) :=
  mem_ownCells.mpr ⟨rfl, (show ∀ s : DmaSem sig, (SemLoc.dma s : SemLoc sig).isScoped .scVector = true by decide) _⟩

/-- The eleven cells, each at zero. -/
def cells0_c8 (d : Dev nD) (L : grid8.Coords) : sProp (MM F) :=
  iprop(semVal (Vt_c8 d L, SemLoc.dma cc8_scratch2.sem) 0 ∗ semVal (Vt_c8 d L, SemLoc.dma cc8_scratch3.sem) 0
    ∗ semVal (Vt_c8 d L, SemLoc.dma cc8_scratch4.sem) 0 ∗ semVal (Vt_c8 d L, SemLoc.dma cc8_scratch5.sem) 0
    ∗ semVal (Vt_c8 d L, SemLoc.dma cc8_scratch6.sem) 0 ∗ semVal (Vt_c8 d L, SemLoc.dma cc8_scratch7.sem) 0
    ∗ semVal (Vt_c8 d L, SemLoc.dma cc8_scratch8.sem) 0 ∗ semVal (Vt_c8 d L, SemLoc.dma cc8_scratch9.sem) 0
    ∗ semVal (Vt_c8 d L, SemLoc.dma cc8_scratch10.sem) 0 ∗ semVal (Vt_c8 d L, SemLoc.dma cc8_scratch11.sem) 0
    ∗ semVal (Vt_c8 d L, SemLoc.dma cc8_scoped0.sem) 0)

/-- The subcore's own cells at zero: the eleven the kernel function names, and the rest. -/
theorem ownSems0_V0_c8 (d : Dev nD) (L : grid8.Coords) :
    (ownSems0 (Vt_c8 d L) : sProp (MM F))
      = iprop(cells0_c8 d L ∗ bigSep ((ownCells (Vt_c8 d L)) \ Finset.univ.image (dcell0_c8 d (cV8 L) (jV8 L))) fun g => semVal g 0) := by
  unfold SparseCore.Cfg.ownSems0
  rw [SparseCore.bigSep_sdiff_split' (t := Finset.univ.image (dcell0_c8 d (cV8 L) (jV8 L)))
      (Finset.image_subset_iff.mpr fun k _ => dcell0_mem_c8 d (cV8 L) (jV8 L) k),
    SparseCore.bigSep_image_of_injOn (fun a _ b _ h => sems0_inj_c8 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c8 (d : Dev nD) (L : grid8.Coords) :
    (ownBufs (Vt_c8 d L) : sProp (MM F))
      = iprop((∃ f, (Vt_c8 d L).loc cc8_scratch0 ↦{fullShare} f) ∗ (∃ f, (Vt_c8 d L).loc cc8_scratch1 ↦{fullShare} f)
          ∗ bigSep (((ownRefs (τ := τ) (.scVector (cV8 L) (jV8 L))).erase ((Proc.scVector (cV8 L) (jV8 L)).devRef cc8_scratch0)).erase
              ((Proc.scVector (cV8 L) (jV8 L)).devRef cc8_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV8 L) (jV8 L))
    (b := (Proc.scVector (cV8 L) (jV8 L)).devRef cc8_scratch0) rfl)).trans ?_
  rw [SparseCore.bigSep_erase' (Finset.mem_erase.mpr ⟨fun e => absurd (Proc.devRef_injective _ e) (show (cc8_scratch1 : Ref sig .scVector) ≠ cc8_scratch0 by decide),
    SparseCore.Cfg.mem_ownRefs_of_owner (p := Proc.scVector (cV8 L) (jV8 L)) (b := (Proc.scVector (cV8 L) (jV8 L)).devRef cc8_scratch1) rfl⟩)]

/-! ## The dealt pieces in the body's spelling -/

theorem pts_idx0_c8 (d : Dev nD) (L : grid8.Coords) (I : Buf (Elt F) (idxLoc8 d)) :
    ((idxBlkM_c8 L).view.loc (Vt_c8 d L) ↦[(idxBlkM_c8 L).view.set]{fullShare} I : sProp (MM F)) = idxLoc8 d ↦[idxRows8 d L]{fullShare} I := by
  rw [set_idxBlkM_c8 d L]

theorem setOn_out0_c8 (d : Dev nD) (L : grid8.Coords) :
    (outW_c8.view.setOn (outWinR_c8 L).set : Finset (Idx (outW_c8.view.loc (Vt_c8 d L)))) = outRows8 d L := by
  show Finset.map (Function.Embedding.refl _) (outWinR_c8 L).set = _
  rw [Finset.map_refl, outWinR_eq_c8]; rfl

theorem pts_out0_c8 (d : Dev nD) (L : grid8.Coords) (f : Buf (Elt F) (outLoc8 d)) :
    (outW_c8.view.loc (Vt_c8 d L) ↦[outW_c8.view.setOn (outWinR_c8 L).set]{fullShare} f : sProp (MM F)) = outLoc8 d ↦[outRows8 d L]{fullShare} f := by
  rw [setOn_out0_c8 d L]

/-- The read tokens of the table other than the five gather cells'. -/
abbrev otherToks0_c8 : Finset (Fin 80) :=
  ((((Finset.univ.erase cc8_scratch2.sem).erase cc8_scratch3.sem).erase cc8_scratch4.sem).erase cc8_scratch5.sem).erase cc8_scratch6.sem

/-- The subcore's read share of the table as one read token per cell: the five gather cells', and the remainder with
    the other cells' tokens. -/
theorem tabToks0_c8 (d : Dev nD) (L : grid8.Coords) (q : PosShare TreeShare) (tab : Buf (Elt F) (tabLoc8 d)) :
    (tabLoc8 d ↦[Finset.univ]{q} tab : sProp (MM F)) ⊣⊢ iprop((tabLoc8 d ↦[Finset.univ]{Transfers.shareDrop q 80} tab)
      ∗ (tabW_c8.view.loc (Vt_c8 d L) ↦{Transfers.shareTok q 80 cc8_scratch2.sem} tab)
      ∗ (tabW_c8.view.loc (Vt_c8 d L) ↦{Transfers.shareTok q 80 cc8_scratch3.sem} tab)
      ∗ (tabW_c8.view.loc (Vt_c8 d L) ↦{Transfers.shareTok q 80 cc8_scratch4.sem} tab)
      ∗ (tabW_c8.view.loc (Vt_c8 d L) ↦{Transfers.shareTok q 80 cc8_scratch5.sem} tab)
      ∗ (tabW_c8.view.loc (Vt_c8 d L) ↦{Transfers.shareTok q 80 cc8_scratch6.sem} tab)
      ∗ bigSep otherToks0_c8 fun i => (tabLoc8 d ↦[Finset.univ]{Transfers.shareTok q 80 i} tab : sProp (MM F))) := by
  have h := Transfers.pointsTo_toks (Ix := HIx 5) (Name := ℕ) (U := UU) (Lvl := ℕ) (ℓ := tabLoc8 d) (S := Finset.univ) (f := tab) q 80
  rw [SparseCore.bigSep_erase' (Finset.mem_univ (cc8_scratch2.sem : Fin 80)),
    SparseCore.bigSep_erase' (Finset.mem_erase.mpr ⟨(by decide : (cc8_scratch3.sem : Fin 80) ≠ cc8_scratch2.sem), Finset.mem_univ _⟩),
    SparseCore.bigSep_erase' (Finset.mem_erase.mpr ⟨(by decide : (cc8_scratch4.sem : Fin 80) ≠ cc8_scratch3.sem),
      Finset.mem_erase.mpr ⟨(by decide : (cc8_scratch4.sem : Fin 80) ≠ cc8_scratch2.sem), Finset.mem_univ _⟩⟩),
    SparseCore.bigSep_erase' (Finset.mem_erase.mpr ⟨(by decide : (cc8_scratch5.sem : Fin 80) ≠ cc8_scratch4.sem),
      Finset.mem_erase.mpr ⟨(by decide : (cc8_scratch5.sem : Fin 80) ≠ cc8_scratch3.sem),
        Finset.mem_erase.mpr ⟨(by decide : (cc8_scratch5.sem : Fin 80) ≠ cc8_scratch2.sem), Finset.mem_univ _⟩⟩⟩),
    SparseCore.bigSep_erase' (Finset.mem_erase.mpr ⟨(by decide : (cc8_scratch6.sem : Fin 80) ≠ cc8_scratch5.sem),
      Finset.mem_erase.mpr ⟨(by decide : (cc8_scratch6.sem : Fin 80) ≠ cc8_scratch4.sem),
        Finset.mem_erase.mpr ⟨(by decide : (cc8_scratch6.sem : Fin 80) ≠ cc8_scratch3.sem),
          Finset.mem_erase.mpr ⟨(by decide : (cc8_scratch6.sem : Fin 80) ≠ cc8_scratch2.sem), Finset.mem_univ _⟩⟩⟩⟩)] at h
  exact h

/-! ## The ring scratch as its five slots -/

theorem unit_congr2_c8 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c8 {κ : Kind} {sp : Space} {s : Shape} {e : EltTy} (v : View sig κ sp s e) {R R' : Rect s} (h : R = R') :
    (v.slice R).set = (v.slice R').set := by
  subst h; rfl

/-- Row k of the ring along its leading axis. -/
abbrev ringRow_c8 (d : Dev nD) (L : grid8.Coords) (k : Fin 5) : Finset (Idx (ringW_c8.view.loc (Vt_c8 d L))) :=
  ((View.whole cc8_scratch1 : View sig .scVector .vmem S5x128x128 .f32).slice (S5x128x128.rowRect 0 k)).set

theorem slot0_set_c8 (d : Dev nD) (L : grid8.Coords) : (slot0M_c8.view.set : Finset (Idx (ringW_c8.view.loc (Vt_c8 d L)))) = ringRow_c8 d L 0 := by
  show (((View.whole cc8_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot1_set_c8 (d : Dev nD) (L : grid8.Coords) : (slot1M_c8.view.set : Finset (Idx (ringW_c8.view.loc (Vt_c8 d L)))) = ringRow_c8 d L 1 := by
  show (((View.whole cc8_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot2_set_c8 (d : Dev nD) (L : grid8.Coords) : (slot2M_c8.view.set : Finset (Idx (ringW_c8.view.loc (Vt_c8 d L)))) = ringRow_c8 d L 2 := by
  show (((View.whole cc8_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot3_set_c8 (d : Dev nD) (L : grid8.Coords) : (slot3M_c8.view.set : Finset (Idx (ringW_c8.view.loc (Vt_c8 d L)))) = ringRow_c8 d L 3 := by
  show (((View.whole cc8_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot4_set_c8 (d : Dev nD) (L : grid8.Coords) : (slot4M_c8.view.set : Finset (Idx (ringW_c8.view.loc (Vt_c8 d L)))) = ringRow_c8 d L 4 := by
  show (((View.whole cc8_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)

/-- Five functions on the ring's rows, over the five rows, as the five slots each at its own function. -/
theorem ring_rows0_c8 (d : Dev nD) (L : grid8.Coords) (s : Fin 5 → Buf (Elt F) (ringW_c8.view.loc (Vt_c8 d L))) :
    (bigSep (Finset.univ : Finset (Fin 5)) fun k => (ringW_c8.view.loc (Vt_c8 d L) ↦[ringRow_c8 d L k]{fullShare} s k : sProp (MM F)))
      = iprop((slot0M_c8.view.loc (Vt_c8 d L) ↦[slot0M_c8.view.set]{fullShare} s 0)
        ∗ (slot1M_c8.view.loc (Vt_c8 d L) ↦[slot1M_c8.view.set]{fullShare} s 1)
        ∗ (slot2M_c8.view.loc (Vt_c8 d L) ↦[slot2M_c8.view.set]{fullShare} s 2)
        ∗ (slot3M_c8.view.loc (Vt_c8 d L) ↦[slot3M_c8.view.set]{fullShare} s 3)
        ∗ (slot4M_c8.view.loc (Vt_c8 d L) ↦[slot4M_c8.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c8 d L, slot1_set_c8 d L, slot2_set_c8 d L, slot3_set_c8 d L, slot4_set_c8 d L]

/-- The ring whole at one function is its five slots at that function. -/
theorem ring_split0_c8 (d : Dev nD) (L : grid8.Coords) (r : Buf (Elt F) (ringW_c8.view.loc (Vt_c8 d L))) :
    ((Vt_c8 d L).loc cc8_scratch1 ↦{fullShare} r : sProp (MM F))
      = iprop((slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)) := by
  rw [← ring_rows0_c8 d L (fun _ => r)]
  have h := pointsTo_rows (Ix := HIx 5) (Name := ℕ) (U := UU) (Lvl := ℕ) (Val := Elt F) (Vt_c8 d L)
    (View.whole cc8_scratch1 : View sig .scVector .vmem S5x128x128 .f32) 0 fullShare r
  rw [View.set_whole] at h
  exact h

/-- The five slots, each at some function, are the ring whole at some function. -/
theorem ring_join0_c8 (d : Dev nD) (L : grid8.Coords) (s : Fin 5 → Buf (Elt F) (ringW_c8.view.loc (Vt_c8 d L))) :
    iprop((slot0M_c8.view.loc (Vt_c8 d L) ↦[slot0M_c8.view.set]{fullShare} s 0)
        ∗ (slot1M_c8.view.loc (Vt_c8 d L) ↦[slot1M_c8.view.set]{fullShare} s 1)
        ∗ (slot2M_c8.view.loc (Vt_c8 d L) ↦[slot2M_c8.view.set]{fullShare} s 2)
        ∗ (slot3M_c8.view.loc (Vt_c8 d L) ↦[slot3M_c8.view.set]{fullShare} s 3)
        ∗ (slot4M_c8.view.loc (Vt_c8 d L) ↦[slot4M_c8.view.set]{fullShare} s 4))
      ⊢ (iprop(∃ f, (Vt_c8 d L).loc cc8_scratch1 ↦{fullShare} f) : sProp (MM F)) := by
  rw [← ring_rows0_c8 d L s]
  refine (pointsTo_biUnion_join (Ix := HIx 5) (Name := ℕ) (U := UU) (Lvl := ℕ) (ℓ := ringW_c8.view.loc (Vt_c8 d L)) (q := fullShare)
    Finset.univ (fun k : Fin 5 => ringRow_c8 d L k) s (s 0)
    (fun k _ k' _ h => (View.whole cc8_scratch1 : View sig .scVector .vmem S5x128x128 .f32).disjoint_rows 0 h)).trans ?_
  iintro ⟨%g, -, H⟩
  iexists g
  have e : (Finset.univ : Finset (Fin 5)).biUnion (fun k => ringRow_c8 d L k) = (Finset.univ : Finset (Idx (ringW_c8.view.loc (Vt_c8 d L)))) := by
    rw [← View.set_whole (cc8_scratch1 : Ref sig .scVector)]
    exact ((View.whole cc8_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c8 (d : Dev nD) (L : grid8.Coords) (tab : Buf (Elt F) (tabLoc8 d)) (I : Buf (Elt F) (idxLoc8 d))
    (f : Buf (Elt F) (outLoc8 d)) (hF : (K (F := F)).Facts) (hI : ∀ x ∈ idxRows8 d L, BitVec.toNat (I x) < 1000000)
    (O : CellTallies nD τ sig (HIx 5)) (W : Waits sig (HIx 5)) (hO : ∀ g, O g none = 0) (outP outQ : sProp (MM F))
    (hrun : ∀ (g0 : Buf (Elt F) (listW_c8.view.loc (Vt_c8 d L))) (r : Buf (Elt F) (ringW_c8.view.loc (Vt_c8 d L))),
      (iprop(Transfers.MayWaits (Vt_c8 d L) (default : HIx 5) O
        ∗ (tabW_c8.view.loc (Vt_c8 d L) ↦{Transfers.shareTok (Transfers.shareTok fullShare 32 ⟨wid8 L, wid_lt8 L⟩) 80 cc8_scratch2.sem} tab)
        ∗ (tabW_c8.view.loc (Vt_c8 d L) ↦{Transfers.shareTok (Transfers.shareTok fullShare 32 ⟨wid8 L, wid_lt8 L⟩) 80 cc8_scratch3.sem} tab)
        ∗ (tabW_c8.view.loc (Vt_c8 d L) ↦{Transfers.shareTok (Transfers.shareTok fullShare 32 ⟨wid8 L, wid_lt8 L⟩) 80 cc8_scratch4.sem} tab)
        ∗ (tabW_c8.view.loc (Vt_c8 d L) ↦{Transfers.shareTok (Transfers.shareTok fullShare 32 ⟨wid8 L, wid_lt8 L⟩) 80 cc8_scratch5.sem} tab)
        ∗ (tabW_c8.view.loc (Vt_c8 d L) ↦{Transfers.shareTok (Transfers.shareTok fullShare 32 ⟨wid8 L, wid_lt8 L⟩) 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok (Transfers.shareTok fullShare 32 ⟨wid8 L, wid_lt8 L⟩) 80 cc8_scratch2.sem} tab)
            ∗ (tabW_c8.view.loc (Vt_c8 d L) ↦{Transfers.shareTok (Transfers.shareTok fullShare 32 ⟨wid8 L, wid_lt8 L⟩) 80 cc8_scratch3.sem} tab)
            ∗ (tabW_c8.view.loc (Vt_c8 d L) ↦{Transfers.shareTok (Transfers.shareTok fullShare 32 ⟨wid8 L, wid_lt8 L⟩) 80 cc8_scratch4.sem} tab)
            ∗ (tabW_c8.view.loc (Vt_c8 d L) ↦{Transfers.shareTok (Transfers.shareTok fullShare 32 ⟨wid8 L, wid_lt8 L⟩) 80 cc8_scratch5.sem} tab)
            ∗ (tabW_c8.view.loc (Vt_c8 d L) ↦{Transfers.shareTok (Transfers.shareTok fullShare 32 ⟨wid8 L, wid_lt8 L⟩) 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ outP))
    (hclose : outP ⊢ outQ) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(((tabLoc8 d ↦[Finset.univ]{Transfers.shareTok fullShare 32 ⟨wid8 L, wid_lt8 L⟩} tab)
              ∗ (idxLoc8 d ↦[idxRows8 d L]{fullShare} I) ∗ outQ)
            ∗ scopedBufs (Vt_c8 d L) ∗ scopedSems0 (Vt_c8 d L)
            ∗ ∃ W', ⌜∀ p ∈ W', p ∈ W ∨ p.2 = none⌝ ∗ owes (Vt_c8 d L) O W') := by
  rw [(K (F := F)).scopedBufs_V hF d (cV8 L) (jV8 L), SparseCore.Cfg.scopedSems0_V (Val := Elt F) d (cV8 L) (jV8 L), ownSems0_V0_c8, ownBufs_V0_c8]
  unfold goRes8 cells0_c8
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c8 d L) hO) $$ Hlv
  ihave Htoks := (tabToks0_c8 (F := F) d L (Transfers.shareTok fullShare 32 ⟨wid8 L, wid_lt8 L⟩) tab).1 $$ Htab
  icases Htoks with ⟨Hdrop, Ht0, Ht1, Ht2, Ht3, Ht4, Hother⟩
  ihave Hidx' := (Entails.of_eq (pts_idx0_c8 (F := F) d L I).symm) $$ Hidx
  ihave Hout' := (Entails.of_eq (pts_out0_c8 (F := F) d L f).symm) $$ Hout
  ihave Hring := (Entails.of_eq (ring_split0_c8 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c8 d L) none) Set.univ
    (R := iprop((tabLoc8 d ↦[Finset.univ]{Transfers.shareDrop (Transfers.shareTok fullShare 32 ⟨wid8 L, wid_lt8 L⟩) 80} tab)
      ∗ (bigSep otherToks0_c8 fun i => (tabLoc8 d ↦[Finset.univ]{Transfers.shareTok (Transfers.shareTok fullShare 32 ⟨wid8 L, wid_lt8 L⟩) 80 i} tab : sProp (MM F)))
      ∗ (bigSep (((ownRefs (τ := τ) (.scVector (cV8 L) (jV8 L))).erase ((Proc.scVector (cV8 L) (jV8 L)).devRef cc8_scratch0)).erase
              ((Proc.scVector (cV8 L) (jV8 L)).devRef cc8_scratch1))
              fun b => iprop(∃ f, ((d, b) : Loc nD τ sig) ↦{fullShare} f))
      ∗ (bigSep ((ownCells (Vt_c8 d L)) \ Finset.univ.image (dcell0_c8 d (cV8 L) (jV8 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c8 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c8 (F := F) d L (Transfers.shareTok fullShare 32 ⟨wid8 L, wid_lt8 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c8 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c8 $$ HOw
  ihave Hq := hclose $$ Hout
  isplitl [Htab Hidx Hq]
  · isplitl [Htab]; · iexact Htab
    isplitl [Hidx]; · iapply (Entails.of_eq (pts_idx0_c8 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c8 (d : Dev nD) (L : grid8.Coords) :
    (iprop(∃ f' : Buf (Elt F) (outW_c8.view.loc (Vt_c8 d L)), outW_c8.view.loc (Vt_c8 d L) ↦[outW_c8.view.setOn (outWinR_c8 L).set]{fullShare} f') : sProp (MM F))
      ⊢ iprop(∃ f' : Buf (Elt F) (outLoc8 d), outLoc8 d ↦[outRows8 d L]{fullShare} f') := by
  iintro ⟨%f', H⟩
  iexists f'
  iapply (Entails.of_eq (pts_out0_c8 (F := F) d L f')); iexact H

/-- Rows the run leaves at contents that are the gathered rows on the subcore's rows are those rows at the gathered
    rows. -/
theorem out_valued0_c8 (d : Dev nD) (L : grid8.Coords) (tab : Buf (Elt F) (tabLoc8 d)) (I : Buf (Elt F) (idxLoc8 d)) :
    (iprop(∃ f' : Buf (Elt F) (outW_c8.view.loc (Vt_c8 d L)), (outW_c8.view.loc (Vt_c8 d L) ↦[outW_c8.view.setOn (outWinR_c8 L).set]{fullShare} f')
        ∗ ⌜∀ x : S163840x128.Idx, 5120 * wid8 L ≤ (x 0).val ∧ (x 0).val < 5120 * wid8 L + 5120 → f' x = gathered8 (d := d) tab I x⌝) : sProp (MM F))
      ⊢ (outLoc8 d ↦[outRows8 d L]{fullShare} gathered8 (d := d) tab I) := by
  iintro ⟨%f', H, %hf⟩
  have e : (outW_c8.view.loc (Vt_c8 d L) ↦[outW_c8.view.setOn (outWinR_c8 L).set]{fullShare} f' : sProp (MM F))
      = (outLoc8 d ↦[outRows8 d L]{fullShare} gathered8 (d := d) tab I) := by
    rw [pts_out0_c8 (F := F) d L f']
    exact pointsTo_congr (fun x hx => hf x ((mem_outRows8 d L x).mp hx))
  iapply (Entails.of_eq e); iexact H

/-! ## The task as the launch theorem's obligation consumes it -/

/-- The body's run with the gathered rows named: the statement of the run with, of the subcore's rows of the gathered
    array, contents that are the gathered rows on those rows. -/
def TileRunV0_c8 (F : FTy → Type) [FloatOps F] : Prop :=
  ∀ (d : Dev nD) (L : grid8.Coords) (q : PosShare TreeShare) (O : CellTallies nD τ sig (HIx 5)) (W : Waits sig (HIx 5))
    (tab : Buf (Elt F) (tabW_c8.view.loc (Vt_c8 d L))) (I : Buf (Elt F) ((idxBlkM_c8 L).view.loc (Vt_c8 d L)))
    (hI : ∀ z ∈ (idxBlkM_c8 L).view.set, BitVec.toNat (I z) < 1000000)
    (g0 : Buf (Elt F) (listW_c8.view.loc (Vt_c8 d L))) (r : Buf (Elt F) (ringW_c8.view.loc (Vt_c8 d L)))
    (f : Buf (Elt F) (outW_c8.view.loc (Vt_c8 d L))),
    (iprop(Transfers.MayWaits (Vt_c8 d L) (default : HIx 5) O
        ∗ (tabW_c8.view.loc (Vt_c8 d L) ↦{Transfers.shareTok q 80 cc8_scratch2.sem} tab)
        ∗ (tabW_c8.view.loc (Vt_c8 d L) ↦{Transfers.shareTok q 80 cc8_scratch3.sem} tab)
        ∗ (tabW_c8.view.loc (Vt_c8 d L) ↦{Transfers.shareTok q 80 cc8_scratch4.sem} tab)
        ∗ (tabW_c8.view.loc (Vt_c8 d L) ↦{Transfers.shareTok q 80 cc8_scratch5.sem} tab)
        ∗ (tabW_c8.view.loc (Vt_c8 d L) ↦{Transfers.shareTok q 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok q 80 cc8_scratch2.sem} tab)
            ∗ (tabW_c8.view.loc (Vt_c8 d L) ↦{Transfers.shareTok q 80 cc8_scratch3.sem} tab)
            ∗ (tabW_c8.view.loc (Vt_c8 d L) ↦{Transfers.shareTok q 80 cc8_scratch4.sem} tab)
            ∗ (tabW_c8.view.loc (Vt_c8 d L) ↦{Transfers.shareTok q 80 cc8_scratch5.sem} tab)
            ∗ (tabW_c8.view.loc (Vt_c8 d L) ↦{Transfers.shareTok q 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ (∃ f' : Buf (Elt F) (outW_c8.view.loc (Vt_c8 d L)), (outW_c8.view.loc (Vt_c8 d L) ↦[outW_c8.view.setOn (outWinR_c8 L).set]{fullShare} f')
                ∗ ⌜∀ x : S163840x128.Idx, 5120 * wid8 L ≤ (x 0).val ∧ (x 0).val < 5120 * wid8 L + 5120 → f' x = gathered8 (d := d) tab I x⌝))

/-- THE TASK, with the gathered rows: what the launch theorem's obligation for the call consumes, from the run with
    the gathered rows named. -/
theorem tile_body0_of_c8 (hrun : TileRunV0_c8 F) (d : Dev nD) (L : grid8.Coords) (tab : Buf (Elt F) (tabLoc8 d)) (I : Buf (Elt F) (idxLoc8 d))
    (f : Buf (Elt F) (outLoc8 d)) (hF : (K (F := F)).Facts) (hI : ∀ x ∈ idxRows8 d L, BitVec.toNat (I x) < 1000000)
    (O : CellTallies nD τ sig (HIx 5)) (W : Waits sig (HIx 5)) (hO : ∀ g, O g none = 0) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(tdRes8 d L tab I ∗ scopedBufs (Vt_c8 d L) ∗ scopedSems0 (Vt_c8 d L)
            ∗ ∃ W', ⌜∀ p ∈ W', p ∈ W ∨ p.2 = none⌝ ∗ owes (Vt_c8 d L) O W') := by
  unfold tdRes8
  exact tile_wrap0_c8 d L tab I f hF hI O W hO _ _
    (fun g0 r => hrun d L _ O W tab I (fun z hz => hI z (set_idxBlkM_c8 d L ▸ hz)) g0 r f) (out_valued0_c8 d L tab I)

/-- THE TASK, the rows at some contents: from the run as proved, which does not name what it gathers. -/
theorem tile_frame0_c8 (d : Dev nD) (L : grid8.Coords) (tab : Buf (Elt F) (tabLoc8 d)) (I : Buf (Elt F) (idxLoc8 d))
    (f : Buf (Elt F) (outLoc8 d)) (hF : (K (F := F)).Facts) (hI : ∀ x ∈ idxRows8 d L, BitVec.toNat (I x) < 1000000)
    (O : CellTallies nD τ sig (HIx 5)) (W : Waits sig (HIx 5)) (hO : ∀ g, O g none = 0) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(((tabLoc8 d ↦[Finset.univ]{Transfers.shareTok fullShare 32 ⟨wid8 L, wid_lt8 L⟩} tab)
              ∗ (idxLoc8 d ↦[idxRows8 d L]{fullShare} I) ∗ ∃ f' : Buf (Elt F) (outLoc8 d), outLoc8 d ↦[outRows8 d L]{fullShare} f')
            ∗ scopedBufs (Vt_c8 d L) ∗ scopedSems0 (Vt_c8 d L)
            ∗ ∃ W', ⌜∀ p ∈ W', p ∈ W ∨ p.2 = none⌝ ∗ owes (Vt_c8 d L) O W') :=
  tile_wrap0_c8 d L tab I f hF hI O W hO _ _
    (fun g0 r => tile_run0_c8 d L _ O W tab I (fun z hz => hI z (set_idxBlkM_c8 d L ▸ hz)) g0 r f) (out_frame0_c8 d L)

end Cert.KernelIdeal.Hand

end
-- ==== Proof.Tile8k.lean ====
/-
  The value of one chunk of the first gather call.

  The subcore's list scratch holds its block of the index array: word (c, x) of the scratch is word (wid8, c, x) of the
  array. The gather of chunk c reads row c of the scratch as its list and lands, at row j of the ring slot, the table
  row that word (c, j) names. Row 5120 wid8 + 128 c + j of the whole-array function is the table row named by the
  index word at flat position 5120 wid8 + 128 c + j, which is word (wid8, c, j): the same row. So what a chunk's gather
  lands is its rows of the one function.
-/
import proofs.«206421_g46840913330738_cont_8to1c4_247_26_alg».proof.Proof.Tile8a
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c8 (d : Dev nD) (L : grid8.Coords) (fl : Buf (Elt F) (listW_c8.view.loc (Vt_c8 d L))) (c : ℕ) (hc : c < 40)
    (o : Fin 2 → ℕ) (h : ∀ a, o a + S1x128.size a ≤ S40x128.size a) (ho : o = ![c, 0]) (y : S128.Idx) :
    View.read (Elt F) (rowM_c8 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid8, c, x) of the index array. -/
theorem idxBlk_read0_c8 (d : Dev nD) (L : grid8.Coords) (I : Buf (Elt F) ((idxBlkM_c8 L).view.loc (Vt_c8 d L))) (z : S40x128.Idx) :
    View.read (Elt F) (idxBlkM_c8 L).view I z = I (ix3 (⟨wid8 L, wid_lt8 L⟩ : Fin 32) (z 0) (z 1)) := by
  rw [View.read_apply]
  simp only [cast_eq]
  congr 1
  show (Rect.unit (s := S32x40x128) (k8_off1 L) S1x40x128.size (k8_off1_inb L)).emb (Shape.reshapeEquiv _ z) = _
  rw [Shape.reshapeEquiv_cons_one]
  funext a
  apply Fin.ext
  rw [Rect.emb_apply]
  have e := k8_off1_eq L
  match a with
  | ⟨0, _⟩ => show k8_off1 L 0 + 1 * 0 = wid8 L; rw [e]; show 2 * (L 1).val + (L 0).val + 1 * 0 = wid8 L; unfold wid8; omega
  | ⟨1, _⟩ => show k8_off1 L 1 + 1 * (z 0).val = (z 0).val; rw [e]; show 0 + 1 * (z 0).val = (z 0).val; omega
  | ⟨2, _⟩ => show k8_off1 L 2 + 1 * (z 1).val = (z 1).val; rw [e]; show 0 + 1 * (z 1).val = (z 1).val; omega

/-- After the block copy the list scratch holds the subcore's block: word (c, x) is word (wid8, c, x) of the array. -/
theorem listFill_apply0_c8 (d : Dev nD) (L : grid8.Coords) (I : Buf (Elt F) ((idxBlkM_c8 L).view.loc (Vt_c8 d L)))
    (g0 : Buf (Elt F) (listW_c8.view.loc (Vt_c8 d L))) (z : S40x128.Idx) :
    listFill_c8 d L I g0 z = I (ix3 (⟨wid8 L, wid_lt8 L⟩ : Fin 32) (z 0) (z 1)) := by
  unfold listFill_c8
  show View.write (Elt F) listW_c8.view g0 _ Finset.univ (listW_c8.view.emb z) = _
  rw [View.write_emb_of_mem _ _ (Finset.mem_univ _)]
  simp only [cast_eq]
  exact idxBlk_read0_c8 d L I z

/-! ## What a chunk's gather lands is its rows of the whole-array function -/

/-- The flat position of word (w, c, j) of the index array. -/
theorem rowMajor_ix3_0_c8 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c8 (v : S1000000x128.Idx) : tabS_c8.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid8 + 128 c + j, column e. -/
theorem landed_eq_gathered0_c8 (d : Dev nD) (L : grid8.Coords) (tab : Buf (Elt F) (tabLoc8 d)) (I : Buf (Elt F) (idxLoc8 d))
    (g0 : Buf (Elt F) (listW_c8.view.loc (Vt_c8 d L)))
    (hI : ∀ z ∈ idxRows8 d L, BitVec.toNat (I z) < 1000000)
    (c : ℕ) (hc : c < 40)
    (hin : ∀ x : S128.Idx, BitVec.toNat (View.read (Elt F) (rowM_c8 ![c, 0] (rowInb_c8 c hc)).view (listFill_c8 d L I g0) x) < 1000000)
    (y : S128x128.Idx) (x : S163840x128.Idx)
    (hx0 : (x 0).val = 5120 * wid8 L + 128 * c + (y 0).val) (hx1 : (x 1).val = (y 1).val) :
    landed_c8 d L tab (listFill_c8 d L I g0) ![c, 0] (rowInb_c8 c hc) hin y = gathered8 tab I x := by
  rw [gathered8_apply]
  unfold landed_c8 SparseCore.gatherPayload
  rw [View.read_apply]
  simp only [cast_eq]
  congr 1
  refine (tabS_emb0_c8 _).trans ?_
  have hw : ∀ u : S128.Idx, View.read (Elt F) (rowM_c8 ![c, 0] (rowInb_c8 c hc)).view (listFill_c8 d L I g0) u
      = I (ix3 (⟨wid8 L, wid_lt8 L⟩ : Fin 32) (⟨c, hc⟩ : Fin 40) (u 0)) := fun u => by
    rw [rowM_read0_c8 d L _ c hc _ _ rfl u, listFill_apply0_c8]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll8 (fun r => gatherRow8 I r) x)).symm
    show BitVec.toNat (View.read (Elt F) (rowM_c8 ![c, 0] (rowInb_c8 c hc)).view (listFill_c8 d L I g0)
        (S128.rowMajor.symm (Fin.cast _ (y gathers_S1000000x128_S128x128.axis'))))
      = BitVec.toNat (I (S32x40x128.rowMajor.symm (Fin.cast _ (x gathersAll8.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll8.axis'))
        = ix3 (⟨wid8 L, wid_lt8 L⟩ : Fin 32) (⟨c, hc⟩ : Fin 40) (u 0) :=
      (Equiv.symm_apply_eq _).mpr (Fin.ext ((show (x gathersAll8.axis').val = 5120 * wid8 L + 128 * c + (u 0).val from by
        rw [hu0, ← hx0]; rfl).trans (rowMajor_ix3_0_c8 (⟨wid8 L, wid_lt8 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll8 (fun r => gatherRow8 I r) x ⟨1, by decide⟩ Nat.one_ne_zero).symm
    exact hx1.symm

end Cert.KernelIdeal.Hand

end
-- ==== Proof.Tile8b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.Tile8a
import proofs.«206421_g46840913330738_cont_8to1c4_247_26_alg».proof.Proof.Tile8k

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c8 (d : Dev nD) (L : grid8.Coords) (tab : Buf (Elt F) (tabW_c8.view.loc (Vt_c8 d L))) (I : Buf (Elt F) ((idxBlkM_c8 L).view.loc (Vt_c8 d L)))
    (n : ℕ) (f : Buf (Elt F) (outW_c8.view.loc (Vt_c8 d L))) : Prop :=
  ∀ x : S163840x128.Idx, 5120 * wid8 L ≤ (x 0).val → (x 0).val < 5120 * wid8 L + 128 * n → f x = gathered8 (d := d) tab I x

/-- Before trip g < 8, of the contents: the rows of the chunks before 5g hold the gathered rows, and slot b is
    to hold what the gather of chunk 5g + b lands. -/
def FactsFly_c8 (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000) (g : ℕ) (h : g < 8) (s0 s1 s2 s3 s4 : Buf (Elt F) (ringW_c8.view.loc (Vt_c8 d L))) (f : Buf (Elt F) (outW_c8.view.loc (Vt_c8 d L))) : Prop :=
  DoneUpTo_c8 d L tab I (5 * g) f
    ∧ View.read (Elt F) slot0M_c8.view s0 = landed_c8 d L tab (listFill_c8 d L I g0) ![5 * g + 0, 0] (rowInb0_c8 g h) (hin _ _)
    ∧ View.read (Elt F) slot1M_c8.view s1 = landed_c8 d L tab (listFill_c8 d L I g0) ![5 * g + 1, 0] (rowInb1_c8 g h) (hin _ _)
    ∧ View.read (Elt F) slot2M_c8.view s2 = landed_c8 d L tab (listFill_c8 d L I g0) ![5 * g + 2, 0] (rowInb2_c8 g h) (hin _ _)
    ∧ View.read (Elt F) slot3M_c8.view s3 = landed_c8 d L tab (listFill_c8 d L I g0) ![5 * g + 3, 0] (rowInb3_c8 g h) (hin _ _)
    ∧ View.read (Elt F) slot4M_c8.view s4 = landed_c8 d L tab (listFill_c8 d L I g0) ![5 * g + 4, 0] (rowInb4_c8 g h) (hin _ _)

/-- A slot written whole reads back what was written. -/
theorem read_writes_whole_c8 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c8 (d : Dev nD) (L : grid8.Coords) (tab : Buf (Elt F) (tabW_c8.view.loc (Vt_c8 d L)))
    (fl : Buf (Elt F) (listW_c8.view.loc (Vt_c8 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c8 o h).view fl x) < 1000000)
    (hin' : ∀ x : S128.Idx, BitVec.toNat (View.read (Elt F) (rowM_c8 o' h').view fl x) < 1000000) :
    landed_c8 d L tab fl o h hin = landed_c8 d L tab fl o' h' hin' := by
  subst e; rfl

/-- One chunk copied out extends what is done by that chunk. -/
theorem done_step_c8 (d : Dev nD) (L : grid8.Coords) (tab : Buf (Elt F) (tabW_c8.view.loc (Vt_c8 d L))) (I : Buf (Elt F) ((idxBlkM_c8 L).view.loc (Vt_c8 d L)))
    (n : ℕ) (o : Fin 2 → ℕ) (ho : o = ![5120 * wid8 L + 128 * n, 0])
    (hinb : ∀ a, o a + S128x128.size a ≤ S163840x128.size a)
    (f : Buf (Elt F) (outW_c8.view.loc (Vt_c8 d L))) (p : S128x128.Idx → Elt F .f32)
    (hf : DoneUpTo_c8 d L tab I n f)
    (hp : ∀ (y : S128x128.Idx) (x : S163840x128.Idx), (x 0).val = 5120 * wid8 L + 128 * n + (y 0).val → (x 1).val = (y 1).val →
      p y = gathered8 (d := d) tab I x) :
    DoneUpTo_c8 d L tab I (n + 1)
      (View.write (Elt F) (outW_c8.slice (Rect.unit (s := S163840x128) o S128x128.size hinb) (fun _ => rfl)).view f p Finset.univ) := by
  subst ho
  intro x hlo hhi
  by_cases hx : (x 0).val < 5120 * wid8 L + 128 * n
  · rw [View.write_of_not_mem]
    · exact hf x hlo hx
    · rw [View.setOn_univ]
      show x ∉ ((View.whole main_v20_scv : View sig .scVector .hbm S163840x128 .f32).slice (Rect.unit (s := S163840x128) ![5120 * wid8 L + 128 * n, 0] S128x128.size hinb)).set
      rw [View.set_slice_whole, Rect.mem_set_unit]
      intro h
      have h0 : 5120 * wid8 L + 128 * n ≤ (x 0).val := (h 0).1
      omega
  · have hmem : x ∈ (Rect.unit (s := S163840x128) ![5120 * wid8 L + 128 * n, 0] S128x128.size hinb).set := by
      rw [Rect.mem_set_unit]
      intro a
      have h1 : (x 1).val < 128 := (x 1).isLt
      fin_cases a
      · show 5120 * wid8 L + 128 * n ≤ (x 0).val ∧ (x 0).val < 5120 * wid8 L + 128 * n + 128
        omega
      · show 0 ≤ (x 1).val ∧ (x 1).val < 0 + 128
        omega
    rw [← Rect.map_emb_univ] at hmem
    obtain ⟨y, -, rfl⟩ := Finset.mem_map.mp hmem
    have e : (outW_c8.slice (Rect.unit (s := S163840x128) ![5120 * wid8 L + 128 * n, 0] S128x128.size hinb) (fun _ => rfl)).view.emb y
        = (Rect.unit (s := S163840x128) ![5120 * wid8 L + 128 * n, 0] S128x128.size hinb).emb y := rfl
    rw [← e, View.write_emb_of_mem _ _ (Finset.mem_univ y)]
    simp only [cast_eq]
    refine hp y _ ?_ ?_
    · rw [e, Rect.emb_apply]
      show 5120 * wid8 L + 128 * n + 1 * (y 0).val = 5120 * wid8 L + 128 * n + (y 0).val
      omega
    · rw [e, Rect.emb_apply]
      show 0 + 1 * (y 1).val = (y 1).val
      omega

theorem off3c_c8 (L : grid8.Coords) (k : Fin k8_t1_loop.trips) (r : Fin 5) :
    k8_off3 L k (BitVec.ofNat 32 r.val) = ![5120 * wid8 L + 128 * (5 * k.val + r.val), 0] :=
  (k8_off3_eq L k r).trans (by unfold wid8; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c8 (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000)
    (hK : ∀ (c : ℕ) (hc : c < 40) (hin' : ∀ x : S128.Idx, BitVec.toNat (View.read (Elt F) (rowM_c8 ![c, 0] (rowInb_c8 c hc)).view (listFill_c8 d L I g0) x) < 1000000)
      (y : S128x128.Idx) (x : S163840x128.Idx), (x 0).val = 5120 * wid8 L + 128 * c + (y 0).val → (x 1).val = (y 1).val →
      landed_c8 d L tab (listFill_c8 d L I g0) ![c, 0] (rowInb_c8 c hc) hin' y = gathered8 (d := d) tab I x)
    (k : Fin k8_t1_loop.trips) (hk8 : k.val < 8) (s0 s1 s2 s3 s4 : Buf (Elt F) (ringW_c8.view.loc (Vt_c8 d L))) (f : Buf (Elt F) (outW_c8.view.loc (Vt_c8 d L)))
    (hF : FactsFly_c8 d L tab I g0 hin k.val hk8 s0 s1 s2 s3 s4 f) :
    DoneUpTo_c8 d L tab I (5 * (k.val + 1))
      (View.write (Elt F) (outW_c8.slice (Rect.unit (s := S163840x128) (k8_off3 L k 4#32) S128x128.size (k8_off3_inb L k 4)) (fun _ => rfl)).view (View.write (Elt F) (outW_c8.slice (Rect.unit (s := S163840x128) (k8_off3 L k 3#32) S128x128.size (k8_off3_inb L k 3)) (fun _ => rfl)).view (View.write (Elt F) (outW_c8.slice (Rect.unit (s := S163840x128) (k8_off3 L k 2#32) S128x128.size (k8_off3_inb L k 2)) (fun _ => rfl)).view (View.write (Elt F) (outW_c8.slice (Rect.unit (s := S163840x128) (k8_off3 L k 1#32) S128x128.size (k8_off3_inb L k 1)) (fun _ => rfl)).view (View.write (Elt F) (outW_c8.slice (Rect.unit (s := S163840x128) (k8_off3 L k 0#32) S128x128.size (k8_off3_inb L k 0)) (fun _ => rfl)).view f (ReadAs.same.apply (View.read (Elt F) slot0M_c8.view s0)) Finset.univ) (ReadAs.same.apply (View.read (Elt F) slot1M_c8.view s1)) Finset.univ) (ReadAs.same.apply (View.read (Elt F) slot2M_c8.view s2)) Finset.univ) (ReadAs.same.apply (View.read (Elt F) slot3M_c8.view s3)) Finset.univ) (ReadAs.same.apply (View.read (Elt F) slot4M_c8.view s4)) Finset.univ) := by
  obtain ⟨hd, h0, h1, h2, h3, h4⟩ := hF
  have e : 5 * (k.val + 1) = 5 * k.val + 0 + 1 + 1 + 1 + 1 + 1 := by omega
  rw [e]
  refine done_step_c8 d L tab I _ _ (off3c_c8 L k 4) _ _ _ ?_ ?_
  refine done_step_c8 d L tab I _ _ (off3c_c8 L k 3) _ _ _ ?_ ?_
  refine done_step_c8 d L tab I _ _ (off3c_c8 L k 2) _ _ _ ?_ ?_
  refine done_step_c8 d L tab I _ _ (off3c_c8 L k 1) _ _ _ ?_ ?_
  refine done_step_c8 d L tab I _ _ (off3c_c8 L k 0) _ _ _ ?_ ?_
  · exact hd
  · intro y x hx0 hx1
    show View.read (Elt F) slot0M_c8.view s0 y = _
    rw [h0]; exact hK (5 * k.val + 0) (by omega) _ y x hx0 hx1
  · intro y x hx0 hx1
    show View.read (Elt F) slot1M_c8.view s1 y = _
    rw [h1]; exact hK (5 * k.val + 1) (by omega) _ y x hx0 hx1
  · intro y x hx0 hx1
    show View.read (Elt F) slot2M_c8.view s2 y = _
    rw [h2]; exact hK (5 * k.val + 2) (by omega) _ y x hx0 hx1
  · intro y x hx0 hx1
    show View.read (Elt F) slot3M_c8.view s3 y = _
    rw [h3]; exact hK (5 * k.val + 3) (by omega) _ y x hx0 hx1
  · intro y x hx0 hx1
    show View.read (Elt F) slot4M_c8.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L))) (g : ℕ) (h : g < 8) (s0 s1 s2 s3 s4 : Buf (Elt F) (ringW_c8.view.loc (Vt_c8 d L))) (f : Buf (Elt F) (outW_c8.view.loc (Vt_c8 d L))) : sProp (MM F) :=
  iprop(Transfers.MayWaits (Vt_c8 d L) (default : HIx 5) O
    ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
    ∗ owesW_c8 d L O W
    ∗ (outW_c8.view.loc (Vt_c8 d L) ↦[outW_c8.view.setOn (outWinR_c8 L).set]{fullShare} f)
    ∗ ((Transfers.Flight countersEmb (Vt_c8 d L) (SemLoc.dma cc8_scratch2.sem) (default : HIx 5) 524288
              iprop(((slot0M_c8.view.loc (Vt_c8 d L) ↦[slot0M_c8.view.set]{fullShare} s0)
                  ∗ (listW_c8.view.loc (Vt_c8 d L) ↦[(rowM_c8 ![5 * g + 0, 0] (rowInb0_c8 g h)).view.set]{fullShare} fl))
                ∗ (tabW_c8.view.loc (Vt_c8 d L) ↦[tabS_c8.view.set]{Transfers.shareTok q 80 cc8_scratch2.sem} tab))
            ∗ (slot0M_c8.view.loc (Vt_c8 d L) ↦[slot0M_c8.view.set \ slot0M_c8.view.set]{fullShare} s0))
          ∗ (tabW_c8.view.loc (Vt_c8 d L) ↦[Finset.univ \ tabS_c8.view.set]{Transfers.shareTok q 80 cc8_scratch2.sem} tab))
    ∗ ((Transfers.Flight countersEmb (Vt_c8 d L) (SemLoc.dma cc8_scratch3.sem) (default : HIx 5) 524288
              iprop(((slot1M_c8.view.loc (Vt_c8 d L) ↦[slot1M_c8.view.set]{fullShare} s1)
                  ∗ (listW_c8.view.loc (Vt_c8 d L) ↦[(rowM_c8 ![5 * g + 1, 0] (rowInb1_c8 g h)).view.set]{fullShare} fl))
                ∗ (tabW_c8.view.loc (Vt_c8 d L) ↦[tabS_c8.view.set]{Transfers.shareTok q 80 cc8_scratch3.sem} tab))
            ∗ (slot1M_c8.view.loc (Vt_c8 d L) ↦[slot1M_c8.view.set \ slot1M_c8.view.set]{fullShare} s1))
          ∗ (tabW_c8.view.loc (Vt_c8 d L) ↦[Finset.univ \ tabS_c8.view.set]{Transfers.shareTok q 80 cc8_scratch3.sem} tab))
    ∗ ((Transfers.Flight countersEmb (Vt_c8 d L) (SemLoc.dma cc8_scratch4.sem) (default : HIx 5) 524288
              iprop(((slot2M_c8.view.loc (Vt_c8 d L) ↦[slot2M_c8.view.set]{fullShare} s2)
                  ∗ (listW_c8.view.loc (Vt_c8 d L) ↦[(rowM_c8 ![5 * g + 2, 0] (rowInb2_c8 g h)).view.set]{fullShare} fl))
                ∗ (tabW_c8.view.loc (Vt_c8 d L) ↦[tabS_c8.view.set]{Transfers.shareTok q 80 cc8_scratch4.sem} tab))
            ∗ (slot2M_c8.view.loc (Vt_c8 d L) ↦[slot2M_c8.view.set \ slot2M_c8.view.set]{fullShare} s2))
          ∗ (tabW_c8.view.loc (Vt_c8 d L) ↦[Finset.univ \ tabS_c8.view.set]{Transfers.shareTok q 80 cc8_scratch4.sem} tab))
    ∗ ((Transfers.Flight countersEmb (Vt_c8 d L) (SemLoc.dma cc8_scratch5.sem) (default : HIx 5) 524288
              iprop(((slot3M_c8.view.loc (Vt_c8 d L) ↦[slot3M_c8.view.set]{fullShare} s3)
                  ∗ (listW_c8.view.loc (Vt_c8 d L) ↦[(rowM_c8 ![5 * g + 3, 0] (rowInb3_c8 g h)).view.set]{fullShare} fl))
                ∗ (tabW_c8.view.loc (Vt_c8 d L) ↦[tabS_c8.view.set]{Transfers.shareTok q 80 cc8_scratch5.sem} tab))
            ∗ (slot3M_c8.view.loc (Vt_c8 d L) ↦[slot3M_c8.view.set \ slot3M_c8.view.set]{fullShare} s3))
          ∗ (tabW_c8.view.loc (Vt_c8 d L) ↦[Finset.univ \ tabS_c8.view.set]{Transfers.shareTok q 80 cc8_scratch5.sem} tab))
    ∗ ((Transfers.Flight countersEmb (Vt_c8 d L) (SemLoc.dma cc8_scratch6.sem) (default : HIx 5) 524288
              iprop(((slot4M_c8.view.loc (Vt_c8 d L) ↦[slot4M_c8.view.set]{fullShare} s4)
                  ∗ (listW_c8.view.loc (Vt_c8 d L) ↦[(rowM_c8 ![5 * g + 4, 0] (rowInb4_c8 g h)).view.set]{fullShare} fl))
                ∗ (tabW_c8.view.loc (Vt_c8 d L) ↦[tabS_c8.view.set]{Transfers.shareTok q 80 cc8_scratch6.sem} tab))
            ∗ (slot4M_c8.view.loc (Vt_c8 d L) ↦[slot4M_c8.view.set \ slot4M_c8.view.set]{fullShare} s4))
          ∗ (tabW_c8.view.loc (Vt_c8 d L) ↦[Finset.univ \ tabS_c8.view.set]{Transfers.shareTok q 80 cc8_scratch6.sem} tab))
    ∗ (listW_c8.view.loc (Vt_c8 d L) ↦[((((Finset.univ \ (rowM_c8 ![5 * g + 0, 0] (rowInb0_c8 g h)).view.set) \ (rowM_c8 ![5 * g + 1, 0] (rowInb1_c8 g h)).view.set)
              \ (rowM_c8 ![5 * g + 2, 0] (rowInb2_c8 g h)).view.set) \ (rowM_c8 ![5 * g + 3, 0] (rowInb3_c8 g h)).view.set) \ (rowM_c8 ![5 * g + 4, 0] (rowInb4_c8 g h)).view.set]{fullShare} fl))

/-- After the last trip: every cell at zero, the slots, the list and the shares back. -/
def invIdle_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L))) (s0 s1 s2 s3 s4 : Buf (Elt F) (ringW_c8.view.loc (Vt_c8 d L))) (f : Buf (Elt F) (outW_c8.view.loc (Vt_c8 d L))) : sProp (MM F) :=
  iprop(Transfers.MayWaits (Vt_c8 d L) (default : HIx 5) O
    ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
    ∗ owesW_c8 d L O W
    ∗ (outW_c8.view.loc (Vt_c8 d L) ↦[outW_c8.view.setOn (outWinR_c8 L).set]{fullShare} f)
    ∗ ((tabW_c8.view.loc (Vt_c8 d L) ↦{Transfers.shareTok q 80 cc8_scratch2.sem} tab) ∗ semVal (Vt_c8 d L, SemLoc.dma cc8_scratch2.sem) 0
          ∗ (slot0M_c8.view.loc (Vt_c8 d L) ↦[slot0M_c8.view.set]{fullShare} s0))
    ∗ ((tabW_c8.view.loc (Vt_c8 d L) ↦{Transfers.shareTok q 80 cc8_scratch3.sem} tab) ∗ semVal (Vt_c8 d L, SemLoc.dma cc8_scratch3.sem) 0
          ∗ (slot1M_c8.view.loc (Vt_c8 d L) ↦[slot1M_c8.view.set]{fullShare} s1))
    ∗ ((tabW_c8.view.loc (Vt_c8 d L) ↦{Transfers.shareTok q 80 cc8_scratch4.sem} tab) ∗ semVal (Vt_c8 d L, SemLoc.dma cc8_scratch4.sem) 0
          ∗ (slot2M_c8.view.loc (Vt_c8 d L) ↦[slot2M_c8.view.set]{fullShare} s2))
    ∗ ((tabW_c8.view.loc (Vt_c8 d L) ↦{Transfers.shareTok q 80 cc8_scratch5.sem} tab) ∗ semVal (Vt_c8 d L, SemLoc.dma cc8_scratch5.sem) 0
          ∗ (slot3M_c8.view.loc (Vt_c8 d L) ↦[slot3M_c8.view.set]{fullShare} s3))
    ∗ ((tabW_c8.view.loc (Vt_c8 d L) ↦{Transfers.shareTok q 80 cc8_scratch6.sem} tab) ∗ semVal (Vt_c8 d L, SemLoc.dma cc8_scratch6.sem) 0
          ∗ (slot4M_c8.view.loc (Vt_c8 d L) ↦[slot4M_c8.view.set]{fullShare} s4))
    ∗ (listW_c8.view.loc (Vt_c8 d L) ↦{fullShare} fl))

/-- What the loop keeps. -/
def inv0v_c8 (q : PosShare TreeShare) (O : CellTallies nD τ sig (HIx 5)) (W : Waits sig (HIx 5)) (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000) (g : ℕ) (_ : PUnit) : sProp (MM F) :=
  if h : g < 8 then
    iprop(∃ s0 s1 s2 s3 s4 f, ⌜FactsFly_c8 d L tab I g0 hin g h s0 s1 s2 s3 s4 f⌝ ∗ invFly_c8 d L q O W tab (listFill_c8 d L I g0) g h s0 s1 s2 s3 s4 f)
  else
    iprop(∃ s0 s1 s2 s3 s4 f, ⌜DoneUpTo_c8 d L tab I (5 * g) f⌝ ∗ invIdle_c8 d L q O W tab (listFill_c8 d L I g0) s0 s1 s2 s3 s4 f)

/-! ## One trip, with the contents -/

set_option maxHeartbeats 4000000 in
theorem trip0v_c8 (q : PosShare TreeShare) (O : CellTallies nD τ sig (HIx 5)) (W : Waits sig (HIx 5)) (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000)
    (hK : ∀ (c : ℕ) (hc : c < 40) (hin' : ∀ x : S128.Idx, BitVec.toNat (View.read (Elt F) (rowM_c8 ![c, 0] (rowInb_c8 c hc)).view (listFill_c8 d L I g0) x) < 1000000)
      (y : S128x128.Idx) (x : S163840x128.Idx), (x 0).val = 5120 * wid8 L + 128 * c + (y 0).val → (x 1).val = (y 1).val →
      landed_c8 d L tab (listFill_c8 d L I g0) ![c, 0] (rowInb_c8 c hc) hin' y = gathered8 (d := d) tab I x)
    (v2 : BitVec 32) (k : Fin k8_t1_loop.trips) (acc : PUnit) :
    inv0v_c8 q O W d L tab I g0 hin k.val acc
      ⊢ wp frame (wpE (defs₀ (F := F)) 𝒱₀ (Vt_c8 d L) none) Set.univ
          (k8_t1_body L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0 v2 k acc)
          (inv0v_c8 q O W d L tab I g0 hin (k.val + 1)) := by
  have hk8 : k.val < 8 := trips_eq_c8 ▸ k.isLt
  unfold inv0v_c8
  rw [dif_pos hk8]
  by_cases hk : k.val < 7
  · obtain ⟨hc1, hc2, hc3, hc4, hc5⟩ := conds_lt_c8 k hk
    have hk1 : k.val + 1 < 8 := by omega
    rw [dif_pos hk1]
    unfold k8_t1_body
    iintro ⟨%s0, %s1, %s2, %s3, %s4, %f, %hF, HP⟩
    unfold invFly_c8
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    rw [rowSet_congr_c8 d L (off4_c8 k) (k8_off4_inb k hc1) (rowInb0_c8 (k.val + 1) hk1), rowSet_congr_c8 d L (off5_c8 k) (k8_off5_inb k hc2) (rowInb1_c8 (k.val + 1) hk1),
      rowSet_congr_c8 d L (off6_c8 k) (k8_off6_inb k hc3) (rowInb2_c8 (k.val + 1) hk1), rowSet_congr_c8 d L (off7_c8 k) (k8_off7_inb k hc4) (rowInb3_c8 (k.val + 1) hk1),
      rowSet_congr_c8 d L (off8_c8 k) (k8_off8_inb k hc5) (rowInb4_c8 (k.val + 1) hk1)]
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    iexists _; iexists _; iexists _; iexists _; iexists _; iexists _
    isplitr
    swap
    · sl_close
    · ipureintro
      refine ⟨done5_c8 d L tab I g0 hin hK k hk8 s0 s1 s2 s3 s4 f hF, ?_, ?_, ?_, ?_, ?_⟩
      · exact (read_writes_whole_c8 _ _ _).trans (landed_congr_c8 d L tab _ (off4_c8 k) _ _ _ _)
      · exact (read_writes_whole_c8 _ _ _).trans (landed_congr_c8 d L tab _ (off5_c8 k) _ _ _ _)
      · exact (read_writes_whole_c8 _ _ _).trans (landed_congr_c8 d L tab _ (off6_c8 k) _ _ _ _)
      · exact (read_writes_whole_c8 _ _ _).trans (landed_congr_c8 d L tab _ (off7_c8 k) _ _ _ _)
      · exact (read_writes_whole_c8 _ _ _).trans (landed_congr_c8 d L tab _ (off8_c8 k) _ _ _ _)
  · obtain ⟨hc1, hc2, hc3, hc4, hc5⟩ := conds_last_c8 k hk
    rw [dif_neg (show ¬ k.val + 1 < 8 by omega)]
    unfold k8_t1_body
    iintro ⟨%s0, %s1, %s2, %s3, %s4, %f, %hF, HP⟩
    unfold invFly_c8
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    iexists _; iexists _; iexists _; iexists _; iexists _; iexists _
    isplitr
    swap
    · unfold invIdle_c8
      sl_close
    · ipureintro
      exact done5_c8 d L tab I g0 hin hK k hk8 s0 s1 s2 s3 s4 f hF

end Cert.KernelIdeal.Hand

end
-- ==== Proof.Tile8v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.Tile8b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c8 (d : Dev nD) (L : grid8.Coords) (q : PosShare TreeShare) (O : CellTallies nD τ sig (HIx 5)) (W : Waits sig (HIx 5))
    (tab : Buf (Elt F) (tabW_c8.view.loc (Vt_c8 d L))) (I : Buf (Elt F) ((idxBlkM_c8 L).view.loc (Vt_c8 d L)))
    (hI : ∀ z ∈ (idxBlkM_c8 L).view.set, BitVec.toNat (I z) < 1000000)
    (g0 : Buf (Elt F) (listW_c8.view.loc (Vt_c8 d L))) (r : Buf (Elt F) (ringW_c8.view.loc (Vt_c8 d L)))
    (f : Buf (Elt F) (outW_c8.view.loc (Vt_c8 d L))) :
    (iprop(Transfers.MayWaits (Vt_c8 d L) (default : HIx 5) O
        ∗ (tabW_c8.view.loc (Vt_c8 d L) ↦{Transfers.shareTok q 80 cc8_scratch2.sem} tab)
        ∗ (tabW_c8.view.loc (Vt_c8 d L) ↦{Transfers.shareTok q 80 cc8_scratch3.sem} tab)
        ∗ (tabW_c8.view.loc (Vt_c8 d L) ↦{Transfers.shareTok q 80 cc8_scratch4.sem} tab)
        ∗ (tabW_c8.view.loc (Vt_c8 d L) ↦{Transfers.shareTok q 80 cc8_scratch5.sem} tab)
        ∗ (tabW_c8.view.loc (Vt_c8 d L) ↦{Transfers.shareTok q 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok q 80 cc8_scratch2.sem} tab)
            ∗ (tabW_c8.view.loc (Vt_c8 d L) ↦{Transfers.shareTok q 80 cc8_scratch3.sem} tab)
            ∗ (tabW_c8.view.loc (Vt_c8 d L) ↦{Transfers.shareTok q 80 cc8_scratch4.sem} tab)
            ∗ (tabW_c8.view.loc (Vt_c8 d L) ↦{Transfers.shareTok q 80 cc8_scratch5.sem} tab)
            ∗ (tabW_c8.view.loc (Vt_c8 d L) ↦{Transfers.shareTok q 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ (∃ f' : Buf (Elt F) (outW_c8.view.loc (Vt_c8 d L)), (outW_c8.view.loc (Vt_c8 d L) ↦[outW_c8.view.setOn (outWinR_c8 L).set]{fullShare} f')
                ∗ ⌜∀ x : S163840x128.Idx, 5120 * wid8 L ≤ (x 0).val ∧ (x 0).val < 5120 * wid8 L + 5120 → f' x = gathered8 (d := d) tab I x⌝)) := by
  have hin := list_words_c8 d L I g0 hI
  have hI' : ∀ z ∈ idxRows8 d L, BitVec.toNat (I z) < 1000000 := fun z hz => hI z (by rw [set_idxBlkM_c8 d L]; exact hz)
  have hK := fun c hc hin' y x hx0 hx1 => landed_eq_gathered0_c8 (F := F) d L tab I g0 hI' c hc hin' y x hx0 hx1
  rw [cc8_gather_k_eq_skeleton]; unfold cc8_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c8 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c8 q O W d L tab I g0 hin hK _ k acc
  · unfold inv0v_c8
    rw [dif_pos (show 0 < 8 by decide)]
    ihave HO' := (owesW_intro_c8 (W := W) (ins_none_c8 (fun p hp => Or.inl hp) _)) $$ HO
    iexists _; iexists _; iexists _; iexists _; iexists _; iexists _
    isplitr
    swap
    · unfold invFly_c8
      sl_close
    · ipureintro
      refine ⟨fun x h1 h2 => absurd h2 (by omega), ?_, ?_, ?_, ?_, ?_⟩
      · exact (read_writes_whole_c8 _ _ _).trans (landed_congr_c8 d L tab _ (show (![0, 0] : Fin 2 → ℕ) = ![5 * 0 + 0, 0] from rfl) _ _ _ _)
      · exact (read_writes_whole_c8 _ _ _).trans (landed_congr_c8 d L tab _ (show (![1, 0] : Fin 2 → ℕ) = ![5 * 0 + 1, 0] from rfl) _ _ _ _)
      · exact (read_writes_whole_c8 _ _ _).trans (landed_congr_c8 d L tab _ (show (![2, 0] : Fin 2 → ℕ) = ![5 * 0 + 2, 0] from rfl) _ _ _ _)
      · exact (read_writes_whole_c8 _ _ _).trans (landed_congr_c8 d L tab _ (show (![3, 0] : Fin 2 → ℕ) = ![5 * 0 + 3, 0] from rfl) _ _ _ _)
      · exact (read_writes_whole_c8 _ _ _).trans (landed_congr_c8 d L tab _ (show (![4, 0] : Fin 2 → ℕ) = ![5 * 0 + 4, 0] from rfl) _ _ _ _)
  unfold inv0v_c8
  rw [dif_neg (show ¬ k8_t1_loop.trips < 8 by rw [trips_eq_c8]; decide)]
  iintro %acc ⟨%s0, %s1, %s2, %s3, %s4, %f', %hdone, HP⟩
  unfold invIdle_c8
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k8_t1_loop.lb k8_t1_loop.ub k8_t1_loop.st = 8 := trips_eq_c8
  rw [h8] at hdone
  have hfin : ∀ x : S163840x128.Idx, 5120 * wid8 L ≤ (x 0).val ∧ (x 0).val < 5120 * wid8 L + 5120 → f' x = gathered8 (d := d) tab I x :=
    fun x h => hdone x h.1 (by omega)
  sl_close

end Cert.KernelIdeal.Hand

end
-- ==== Proof.Tile8Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.Tile8Wrap
import proofs.«206421_g46840913330738_cont_8to1c4_247_26_alg».proof.Proof.Tile8v

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body8 (d : Dev nD) (L : grid8.Coords) (tab : Buf (Elt F) (tabLoc8 d)) (I : Buf (Elt F) (idxLoc8 d)) (f : Buf (Elt F) (outLoc8 d))
    (hF : (K (F := F)).Facts) (hI : ∀ x ∈ idxRows8 d L, BitVec.toNat (I x) < 1000000)
    (O : CellTallies nD τ sig (HIx 5)) (W : Waits sig (HIx 5)) (hO : ∀ g, O g none = 0) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(tdRes8 d L tab I ∗ scopedBufs (Vt_c8 d L) ∗ scopedSems0 (Vt_c8 d L)
            ∗ ∃ W', ⌜∀ p ∈ W', p ∈ W ∨ p.2 = none⌝ ∗ owes (Vt_c8 d L) O W') :=
  tile_body0_of_c8 (F := F) tile_runV0_c8 d L tab I f hF hI O W hO

end Cert.KernelIdeal.Hand

end
-- ==== Proof.TileObl8.lean ====
/-
  The launch theorem's obligation for gather call 4: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.Base
import proofs.«206421_g46840913330738_cont_8to1c4_247_26_alg».proof.Proof.Pay
import proofs.«206421_g46840913330738_cont_8to1c4_247_26_alg».proof.Proof.Tile8Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec8 (c : Fin τ.nSC) (s : Fin τ.nSub) :
    defs₀ (F := F) (.scVector c s) 8 ()
      = SparseCore.onTile hcore8 hsub8 (fun c s => cc8_gather_k (coordsV8 c s) (Memref.whole main_arg1_scv) (Memref.isWhole_whole _) (Memref.whole main_v19_scv) (Memref.isWhole_whole _) (Memref.whole main_v20_scv) (Memref.isWhole_whole _) (Memref.whole cc8_scratch0) (Memref.isWhole_whole _) (Memref.whole cc8_scratch1) (Memref.isWhole_whole _) cc8_scratch2 cc8_scratch3 cc8_scratch4 cc8_scratch5 cc8_scratch6 cc8_scratch7 cc8_scratch8 cc8_scratch9 cc8_scratch10 cc8_scratch11 cc8_scoped0) ⟨⟩ c s := rfl

/-- Every index word of the call's index array names a table row. -/
def InRange8 : Prop := ∀ (d : Dev nD) (x : S32x40x128.Idx), (BitVec.toNat (W23 m d (r main_v19) x)) < 1000000

/-- The task of call 4, for every subcore of its grid. -/
theorem tileObl8 (hR : InRange8 m) : (K (F := F)).TileObl (D (F := F)) 𝒱 (P m) v₀ 4 := by
  intro d c i O W hO _ _
  simp only [show (P m).ox = fun _ _ => 0 from rfl, add_zero]
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  have hc : ((K (F := F)).core 4 c).val < grid8.bound 0 ∧ ((K (F := F)).sub 4 i).val < grid8.bound 1 := ⟨c.isLt, i.isLt⟩
  rw [defs₀_vec8]; simp only [SparseCore.onTile, hc, and_self, ↓reduceDIte]
  show iprop(_ ∗ _ ∗ goRes8 d (coordsV8 c i) (W23 m d (r main_arg1)) (W23 m d (r main_v19)) (W23 m d (r main_v20)) ∗ _) ⊢ wp _ _ _ _
    (fun _ => iprop(tdRes8 d (coordsV8 c i) (W23 m d (r main_arg1)) (W23 m d (r main_v19)) ∗ _))
  exact (tile_body8 d (coordsV8 c i) (W23 m d (r main_arg1)) (W23 m d (r main_v19)) (W23 m d (r main_v20)) facts (fun x _ => hR d x) O W hO).trans
    (wp_mono frame _ _ fun _ => obl_post)

end Cert.KernelIdeal.Hand

end
-- ==== Proof.Run.lean ====
/-
  The whole program's run, from the launch theorem of a SparseCore program: the five gather calls' task obligations,
  the hand-over of a SparseCore's operands to its tasks, @main on the TensorCore, the launch element of the ghost
  state, and how the final memory reads the claim. Every weakly fair execution of the device's threads terminates,
  nothing faulting, with the three arguments unchanged and the result array at the last valuation's contents.
-/
import proofs.«206421_g46840913330738_cont_8to1c4_247_26_alg».proof.Proof.Base
import proofs.«206421_g46840913330738_cont_8to1c4_247_26_alg».proof.Proof.End
import proofs.«206421_g46840913330738_cont_8to1c4_247_26_alg».proof.Proof.LaunchElem
import proofs.«206421_g46840913330738_cont_8to1c4_247_26_alg».proof.Proof.MainRun
import proofs.«206421_g46840913330738_cont_8to1c4_247_26_alg».proof.Proof.TileObl0
import proofs.«206421_g46840913330738_cont_8to1c4_247_26_alg».proof.Proof.TileObl2
import proofs.«206421_g46840913330738_cont_8to1c4_247_26_alg».proof.Proof.TileObl4
import proofs.«206421_g46840913330738_cont_8to1c4_247_26_alg».proof.Proof.TileObl6
import proofs.«206421_g46840913330738_cont_8to1c4_247_26_alg».proof.Proof.TileObl8

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (ρ : Dev nD → PrngReg) [FloatOps F]

/-- No call of this program is a scalar-subcore kernel. -/
theorem no_scalar : ∀ q : Fin 5, scKind q ≠ Kind.scScalar := by decide

/-- The launch element, as the launch theorem asks it: the credit and the free semaphores are not needed. -/
theorem hu₀' :
    iprop(ownU (u₀ (F := F)) ∗ (P m).oxCred ∗ (K (F := F)).freeSems0)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (P m).x q thr) :=
  sep_elim_left.trans hu₀

/-- The program's run. -/
theorem run_main [∀ e, Nonempty (Elt F e)] (h0 : InRange0 m) (h2 : InRange2 m) (h4 : InRange4 m) (h6 : InRange6 m) (h8 : InRange8 m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => absurd hq (no_scalar q))
    (fun q _ => match q with
      | 0 => tileObl0 m h0 | 1 => tileObl2 m h2 | 2 => tileObl4 m h4 | 3 => tileObl6 m h6 | 4 => tileObl8 m h8
      | ⟨_ + 5, h⟩ => absurd h (Nat.not_lt.2 (Nat.le_add_left _ _)))
    (fun q _ => SparseCore.Cfg.VecSplit.of_plain (vecSplit m q))
    m ρ main (fun d => G (F := F) d) (FIN m) (u₀ (F := F)) (hu₀' m) (hmain m ρ) (fq m) (hfin m) (QC m) (fun _ h => h)

end Cert.KernelIdeal.Hand

end
-- ==== Proof.BBase.lean ====
/-
  The program as the launch theorem of a SparseCore program sees it: five vector-subcore gather calls and five
  TensorCore matrix-product regions in one @main. This module fixes the label set, the body table, the
  ghost-state algebra (the handshakes' rounds, the TensorCore pipelines' rounds, the transfers' counters) and
  the embeddings of each factor, for every float instance at once.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206421_g46840913330738_cont_8to1c4_247_26_alg».proof.Proof.Gen.Kernel
import proofs.«206421_g46840913330738_cont_8to1c4_247_26_alg».proof.Proof.Gen.Kernel.Skeleton
import proofs.«206421_g46840913330738_cont_8to1c4_247_26_alg».proof.Proof.Gen.Kernel.Launch
import proofs.«206421_g46840913330738_cont_8to1c4_247_26_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

/-- The machine's algebra at float instance `F`. -/
abbrev MM (F : FTy → Type) : Type := MT nD τ sig (HIx 5) (Elt F) ℕ UU ℕ

/-- The handshakes' rounds sit in the left factor. -/
abbrev EH : Emb UH (MM F) := embL
/-- The pipelines' rounds sit in the left factor of the right factor; the counters are found by instance beside them. -/
def EP : Emb UP (MM F) :=
  ((Emb.inl : Emb UP (UP × Counters)).trans (Emb.inr : Emb (UP × Counters) UU)).trans
    (uEmb (nD := nD) (sig := sig) (Ix := HIx 5) (Val := Elt F) (Name := ℕ) (U := UU) (Lvl := ℕ)).toEmb

instance EP_landsIn : (EP : Emb UP (MM F)).LandsIn (upEmb : UEmb _ (MM F)) := by unfold EP; infer_instance

end Cert.Kernel.Hand

end
-- ==== Proof.BHost.lean ====
/-
  @main's host operations on the TensorCore, named one by one as the program prints them, and the set of the
  TensorCore's unscoped arrays they all live in: the arguments, the transposed and sliced index arrays, the five
  gathered arrays, the five projected arrays and the result. Every operation reads and writes inside that set, so the
  whole set is carried across each of them at a valuation that the operation updates at its result.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

/-- The TensorCore's unscoped arrays, as buffers of the device. -/
def Sall : Finset (DevRef τ sig) :=
  (Finset.univ.filter fun b : Ref sig .tc => ¬ b.isScoped).map ⟨Proc.devRef .tc, Proc.devRef_injective _⟩

/-- The launch valuation of device `d`: every buffer at its launch contents. -/
def V0 (m : (ℓ : Loc nD τ sig) → Buf (Elt F) ℓ) (d : Dev nD) : Valuation τ sig (Elt F) := fun b => m (d, b)

/-- What the launch deals the TensorCore of its arrays is the whole set at the launch valuation. -/
theorem unscoped_held (m : (ℓ : Loc nD τ sig) → Buf (Elt F) ℓ) (d : Dev nD) :
    (unscopedBufs d (fun b => m ((SparseCore.T d).loc b)) : sProp (MM F)) = held (T d) Sall (V0 m d) := by
  unfold unscopedBufs held Sall
  rw [BI.bigSep_map]
  rfl

variable [FloatOps F]

/-- `main_v0` is `main_arg0` with its axes permuted. -/
abbrev op0 : HloOp τ sig (Elt F) := StableHlo.unary main_arg0 main_v0 ((transpose S50x16384 [1, 0] · transposes_S16384x50_S50x16384_1_0) : (⟨S16384x50, .i32⟩ : BufTy).Contents (Elt F) → (⟨S50x16384, .i32⟩ : BufTy).Contents (Elt F))
theorem op0_sub : (op0 (F := F)).bufs ⊆ Sall :=
  show ({Proc.devRef .tc main_arg0, Proc.devRef .tc main_v0} : Finset (DevRef τ sig)) ⊆ Sall by decide
/-- `main_v1` is `main_v0` re-laid in row-major order at another shape. -/
abbrev op1 : HloOp τ sig (Elt F) := StableHlo.reshape main_v0 main_v1 rfl shapeCasts_S50x16384_S819200
theorem op1_sub : (op1 (F := F)).bufs ⊆ Sall :=
  show ({Proc.devRef .tc main_v0, Proc.devRef .tc main_v1} : Finset (DevRef τ sig)) ⊆ Sall by decide
/-- `main_v2` is the stretch of `main_v1` that starts at position 0. -/
abbrev op2 : HloOp τ sig (Elt F) := StableHlo.unary main_v1 main_v2 ((extractStridedSlice S163840 ![0] · slices_S819200_S163840_0) : (⟨S819200, .i32⟩ : BufTy).Contents (Elt F) → (⟨S163840, .i32⟩ : BufTy).Contents (Elt F))
theorem op2_sub : (op2 (F := F)).bufs ⊆ Sall :=
  show ({Proc.devRef .tc main_v1, Proc.devRef .tc main_v2} : Finset (DevRef τ sig)) ⊆ Sall by decide
/-- `main_v3` is `main_v2` re-laid in row-major order at another shape. -/
abbrev op3 : HloOp τ sig (Elt F) := StableHlo.reshape main_v2 main_v3 rfl shapeCasts_S163840_S32x40x128
theorem op3_sub : (op3 (F := F)).bufs ⊆ Sall :=
  show ({Proc.devRef .tc main_v2, Proc.devRef .tc main_v3} : Finset (DevRef τ sig)) ⊆ Sall by decide
/-- `main_v6` is the stretch of `main_v1` that starts at position 163840. -/
abbrev op6 : HloOp τ sig (Elt F) := StableHlo.unary main_v1 main_v6 ((extractStridedSlice S163840 ![163840] · slices_S819200_S163840_163840) : (⟨S819200, .i32⟩ : BufTy).Contents (Elt F) → (⟨S163840, .i32⟩ : BufTy).Contents (Elt F))
theorem op6_sub : (op6 (F := F)).bufs ⊆ Sall :=
  show ({Proc.devRef .tc main_v1, Proc.devRef .tc main_v6} : Finset (DevRef τ sig)) ⊆ Sall by decide
/-- `main_v7` is `main_v6` re-laid in row-major order at another shape. -/
abbrev op7 : HloOp τ sig (Elt F) := StableHlo.reshape main_v6 main_v7 rfl shapeCasts_S163840_S32x40x128
theorem op7_sub : (op7 (F := F)).bufs ⊆ Sall :=
  show ({Proc.devRef .tc main_v6, Proc.devRef .tc main_v7} : Finset (DevRef τ sig)) ⊆ Sall by decide
/-- `main_v9` starts as a copy of `main_v5`: the next matrix-product region writes its own rows into the copy. -/
abbrev op9 : HloOp τ sig (Elt F) := StableHlo.unary main_v5 main_v9 id
theorem op9_sub : (op9 (F := F)).bufs ⊆ Sall :=
  show ({Proc.devRef .tc main_v5, Proc.devRef .tc main_v9} : Finset (DevRef τ sig)) ⊆ Sall by decide
/-- `main_v10` is the stretch of `main_v1` that starts at position 327680. -/
abbrev op11 : HloOp τ sig (Elt F) := StableHlo.unary main_v1 main_v10 ((extractStridedSlice S163840 ![327680] · slices_S819200_S163840_327680) : (⟨S819200, .i32⟩ : BufTy).Contents (Elt F) → (⟨S163840, .i32⟩ : BufTy).Contents (Elt F))
theorem op11_sub : (op11 (F := F)).bufs ⊆ Sall :=
  show ({Proc.devRef .tc main_v1, Proc.devRef .tc main_v10} : Finset (DevRef τ sig)) ⊆ Sall by decide
/-- `main_v11` is `main_v10` re-laid in row-major order at another shape. -/
abbrev op12 : HloOp τ sig (Elt F) := StableHlo.reshape main_v10 main_v11 rfl shapeCasts_S163840_S32x40x128
theorem op12_sub : (op12 (F := F)).bufs ⊆ Sall :=
  show ({Proc.devRef .tc main_v10, Proc.devRef .tc main_v11} : Finset (DevRef τ sig)) ⊆ Sall by decide
/-- `main_v13` starts as a copy of `main_v9`: the next matrix-product region writes its own rows into the copy. -/
abbrev op14 : HloOp τ sig (Elt F) := StableHlo.unary main_v9 main_v13 id
theorem op14_sub : (op14 (F := F)).bufs ⊆ Sall :=
  show ({Proc.devRef .tc main_v9, Proc.devRef .tc main_v13} : Finset (DevRef τ sig)) ⊆ Sall by decide
/-- `main_v14` is the stretch of `main_v1` that starts at position 491520. -/
abbrev op16 : HloOp τ sig (Elt F) := StableHlo.unary main_v1 main_v14 ((extractStridedSlice S163840 ![491520] · slices_S819200_S163840_491520) : (⟨S819200, .i32⟩ : BufTy).Contents (Elt F) → (⟨S163840, .i32⟩ : BufTy).Contents (Elt F))
theorem op16_sub : (op16 (F := F)).bufs ⊆ Sall :=
  show ({Proc.devRef .tc main_v1, Proc.devRef .tc main_v14} : Finset (DevRef τ sig)) ⊆ Sall by decide
/-- `main_v15` is `main_v14` re-laid in row-major order at another shape. -/
abbrev op17 : HloOp τ sig (Elt F) := StableHlo.reshape main_v14 main_v15 rfl shapeCasts_S163840_S32x40x128
theorem op17_sub : (op17 (F := F)).bufs ⊆ Sall :=
  show ({Proc.devRef .tc main_v14, Proc.devRef .tc main_v15} : Finset (DevRef τ sig)) ⊆ Sall by decide
/-- `main_v17` starts as a copy of `main_v13`: the next matrix-product region writes its own rows into the copy. -/
abbrev op19 : HloOp τ sig (Elt F) := StableHlo.unary main_v13 main_v17 id
theorem op19_sub : (op19 (F := F)).bufs ⊆ Sall :=
  show ({Proc.devRef .tc main_v13, Proc.devRef .tc main_v17} : Finset (DevRef τ sig)) ⊆ Sall by decide
/-- `main_v18` is the stretch of `main_v1` that starts at position 655360. -/
abbrev op21 : HloOp τ sig (Elt F) := StableHlo.unary main_v1 main_v18 ((extractStridedSlice S163840 ![655360] · slices_S819200_S163840_655360) : (⟨S819200, .i32⟩ : BufTy).Contents (Elt F) → (⟨S163840, .i32⟩ : BufTy).Contents (Elt F))
theorem op21_sub : (op21 (F := F)).bufs ⊆ Sall :=
  show ({Proc.devRef .tc main_v1, Proc.devRef .tc main_v18} : Finset (DevRef τ sig)) ⊆ Sall by decide
/-- `main_v19` is `main_v18` re-laid in row-major order at another shape. -/
abbrev op22 : HloOp τ sig (Elt F) := StableHlo.reshape main_v18 main_v19 rfl shapeCasts_S163840_S32x40x128
theorem op22_sub : (op22 (F := F)).bufs ⊆ Sall :=
  show ({Proc.devRef .tc main_v18, Proc.devRef .tc main_v19} : Finset (DevRef τ sig)) ⊆ Sall by decide
/-- `main_v21` starts as a copy of `main_v17`: the next matrix-product region writes its own rows into the copy. -/
abbrev op24 : HloOp τ sig (Elt F) := StableHlo.unary main_v17 main_v21 id
theorem op24_sub : (op24 (F := F)).bufs ⊆ Sall :=
  show ({Proc.devRef .tc main_v17, Proc.devRef .tc main_v21} : Finset (DevRef τ sig)) ⊆ Sall by decide
/-- `main_v22` is `main_v21` with its axes permuted. -/
abbrev op26 : HloOp τ sig (Elt F) := StableHlo.unary main_v21 main_v22 ((transpose S16384x50x64 [2, 0, 1] · transposes_S50x64x16384_S16384x50x64_2_0_1) : (⟨S50x64x16384, .f32⟩ : BufTy).Contents (Elt F) → (⟨S16384x50x64, .f32⟩ : BufTy).Contents (Elt F))
theorem op26_sub : (op26 (F := F)).bufs ⊆ Sall :=
  show ({Proc.devRef .tc main_v21, Proc.devRef .tc main_v22} : Finset (DevRef τ sig)) ⊆ Sall by decide

end Cert.Kernel.Hand

end
-- ==== Proof.BTile0Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The SparseCore and the vector subcore the coordinates name. -/
abbrev cV (L : grid0.Coords) : Fin τ.nSC := (L 0).castLE hcore0
abbrev jV (L : grid0.Coords) : Fin τ.nSub := (L 1).castLE hsub0

/-! ## The three arrays, as the TensorCore names them -/

abbrev tabLoc (d : Dev nD) : Loc nD τ sig := (SparseCore.T d).loc main_arg1
abbrev idxLoc (d : Dev nD) : Loc nD τ sig := (SparseCore.T d).loc main_v3
abbrev outLoc (d : Dev nD) : Loc nD τ sig := (SparseCore.T d).loc main_v4

/-! ## The subcore's block of the index array: its leading coordinate is the worker number -/

/-- The block as the body slices it. -/
abbrev idxRect0 (L : grid0.Coords) : Rect S32x40x128 :=
  Rect.unit (s := S32x40x128) (k0_off1 L) S1x40x128.size (k0_off1_inb L)

def idxRows0 (d : Dev nD) (L : grid0.Coords) : Finset (Idx (idxLoc d)) := (idxRect0 L).set

theorem mem_idxRows0 (d : Dev nD) (L : grid0.Coords) (x : S32x40x128.Idx) :
    Iff (x ∈ idxRows0 d L) ((x 0).val = wid L) := by
  show Iff (x ∈ (Rect.unit (s := S32x40x128) (k0_off1 L) S1x40x128.size (k0_off1_inb L)).set) _
  rw [Rect.mem_set_unit]
  have e := k0_off1_eq L
  constructor
  · intro h
    have h0 : 2 * (L 1).val + (L 0).val ≤ (x 0).val ∧ (x 0).val < 2 * (L 1).val + (L 0).val + 1 := by
      have := h 0; rw [e] at this; exact this
    unfold wid; omega
  · intro h a
    rw [e]
    have h1 : (x 1).val < 40 := (x 1).isLt
    have h2 : (x 2).val < 128 := (x 2).isLt
    unfold wid at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect0_inb (L : grid0.Coords) :
    ∀ a, (![5120 * wid L, 0] : Fin 2 → ℕ) a + (![5120, 128] : Fin 2 → ℕ) a ≤ S163840x128.size a := by
  have h := wid_lt L
  intro a
  fin_cases a
  · show 5120 * wid L + 5120 ≤ 163840
    omega
  · show 0 + 128 ≤ 128
    omega

abbrev outRect0 (L : grid0.Coords) : Rect S163840x128 :=
  Rect.unit (s := S163840x128) ![5120 * wid L, 0] ![5120, 128] (outRect0_inb L)

def outRows0 (d : Dev nD) (L : grid0.Coords) : Finset (Idx (outLoc d)) := (outRect0 L).set

theorem mem_outRows0 (d : Dev nD) (L : grid0.Coords) (x : S163840x128.Idx) :
    Iff (x ∈ outRows0 d L) (5120 * wid L ≤ (x 0).val ∧ (x 0).val < 5120 * wid L + 5120) := by
  show Iff (x ∈ (Rect.unit (s := S163840x128) ![5120 * wid L, 0] ![5120, 128] (outRect0_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow0 (I : S32x40x128.Idx → Elt F .i32) (r : Fin 163840) : Fin 1000000 :=
  ⟨(BitVec.toNat (I (S32x40x128.rowMajor.symm (r.cast (by decide))))) % 1000000, Nat.mod_lt _ (by decide)⟩

theorem gatherRow0_val (I : S32x40x128.Idx → Elt F .i32) (r : Fin 163840)
    (h : (BitVec.toNat (I (S32x40x128.rowMajor.symm (r.cast (by decide))))) < 1000000) :
    (gatherRow0 I r).val = BitVec.toNat (I (S32x40x128.rowMajor.symm (r.cast (by decide)))) :=
  Nat.mod_eq_of_lt h

/-- A gather of the table's rows into an array of 163840 rows. -/
theorem gathersAll : S1000000x128.Gathers 0 S163840x128 := Shape.Gathers.rank2 1000000 163840 128

/-- Row r of the gathered array is the table row the index word at flat position r names; the same function for
    every subcore. -/
def gathered0 {d : Dev nD} (tab : Buf (Elt F) (tabLoc d)) (I : Buf (Elt F) (idxLoc d)) : Buf (Elt F) (outLoc d) :=
  SparseCore.gatherPayload (F := F) (e := .f32) gathersAll tab (fun r => gatherRow0 I r)

theorem gathered0_apply {d : Dev nD} (tab : Buf (Elt F) (tabLoc d)) (I : Buf (Elt F) (idxLoc d)) (x : S163840x128.Idx) :
    gathered0 tab I x = tab (gathersAll.idx (fun r => gatherRow0 (F := F) I r) x) := rfl

/-! ## What the subcore is dealt and what it hands back -/

/-- Dealt: a read share of the whole table, the subcore's block of the index array, its rows of the gathered array
    at whatever they hold. -/
def goRes0 (d : Dev nD) (L : grid0.Coords) (tab : Buf (Elt F) (tabLoc d)) (I : Buf (Elt F) (idxLoc d))
    (f : Buf (Elt F) (outLoc d)) : sProp (MM F) :=
  iprop((tabLoc d ↦[Finset.univ]{Transfers.shareTok fullShare 32 ⟨wid L, wid_lt L⟩} tab)
    ∗ (idxLoc d ↦[idxRows0 d L]{fullShare} I)
    ∗ (outLoc d ↦[outRows0 d L]{fullShare} f))

/-- Handed back: the same share and block, and its rows of the gathered array at the gathered rows. -/
def tdRes0 (d : Dev nD) (L : grid0.Coords) (tab : Buf (Elt F) (tabLoc d)) (I : Buf (Elt F) (idxLoc d)) : sProp (MM F) :=
  iprop((tabLoc d ↦[Finset.univ]{Transfers.shareTok fullShare 32 ⟨wid L, wid_lt L⟩} tab)
    ∗ (idxLoc d ↦[idxRows0 d L]{fullShare} I)
    ∗ (outLoc d ↦[outRows0 d L]{fullShare} gathered0 tab I))

end Cert.Kernel.Hand

end
-- ==== Proof.BTile2Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid2 (L : grid2.Coords) : ℕ := 2 * (L 1).val + (L 0).val

theorem wid_lt2 (L : grid2.Coords) : wid2 L < 32 := by
  have h0 : (L 0).val < 2 := (L 0).isLt
  have h1 : (L 1).val < 16 := (L 1).isLt
  unfold wid2; omega

/-- The SparseCore and the vector subcore the coordinates name. -/
abbrev cV2 (L : grid2.Coords) : Fin τ.nSC := (L 0).castLE hcore2
abbrev jV2 (L : grid2.Coords) : Fin τ.nSub := (L 1).castLE hsub2

/-! ## The three arrays, as the TensorCore names them -/

abbrev tabLoc2 (d : Dev nD) : Loc nD τ sig := (SparseCore.T d).loc main_arg1
abbrev idxLoc2 (d : Dev nD) : Loc nD τ sig := (SparseCore.T d).loc main_v7
abbrev outLoc2 (d : Dev nD) : Loc nD τ sig := (SparseCore.T d).loc main_v8

/-! ## The subcore's block of the index array: its leading coordinate is the worker number -/

/-- The block as the body slices it. -/
abbrev idxRect2 (L : grid2.Coords) : Rect S32x40x128 :=
  Rect.unit (s := S32x40x128) (k2_off1 L) S1x40x128.size (k2_off1_inb L)

def idxRows2 (d : Dev nD) (L : grid2.Coords) : Finset (Idx (idxLoc2 d)) := (idxRect2 L).set

theorem mem_idxRows2 (d : Dev nD) (L : grid2.Coords) (x : S32x40x128.Idx) :
    Iff (x ∈ idxRows2 d L) ((x 0).val = wid2 L) := by
  show Iff (x ∈ (Rect.unit (s := S32x40x128) (k2_off1 L) S1x40x128.size (k2_off1_inb L)).set) _
  rw [Rect.mem_set_unit]
  have e := k2_off1_eq L
  constructor
  · intro h
    have h0 : 2 * (L 1).val + (L 0).val ≤ (x 0).val ∧ (x 0).val < 2 * (L 1).val + (L 0).val + 1 := by
      have := h 0; rw [e] at this; exact this
    unfold wid2; omega
  · intro h a
    rw [e]
    have h1 : (x 1).val < 40 := (x 1).isLt
    have h2 : (x 2).val < 128 := (x 2).isLt
    unfold wid2 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect2_inb (L : grid2.Coords) :
    ∀ a, (![5120 * wid2 L, 0] : Fin 2 → ℕ) a + (![5120, 128] : Fin 2 → ℕ) a ≤ S163840x128.size a := by
  have h := wid_lt2 L
  intro a
  fin_cases a
  · show 5120 * wid2 L + 5120 ≤ 163840
    omega
  · show 0 + 128 ≤ 128
    omega

abbrev outRect2 (L : grid2.Coords) : Rect S163840x128 :=
  Rect.unit (s := S163840x128) ![5120 * wid2 L, 0] ![5120, 128] (outRect2_inb L)

def outRows2 (d : Dev nD) (L : grid2.Coords) : Finset (Idx (outLoc2 d)) := (outRect2 L).set

theorem mem_outRows2 (d : Dev nD) (L : grid2.Coords) (x : S163840x128.Idx) :
    Iff (x ∈ outRows2 d L) (5120 * wid2 L ≤ (x 0).val ∧ (x 0).val < 5120 * wid2 L + 5120) := by
  show Iff (x ∈ (Rect.unit (s := S163840x128) ![5120 * wid2 L, 0] ![5120, 128] (outRect2_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow2 (I : S32x40x128.Idx → Elt F .i32) (r : Fin 163840) : Fin 1000000 :=
  ⟨(BitVec.toNat (I (S32x40x128.rowMajor.symm (r.cast (by decide))))) % 1000000, Nat.mod_lt _ (by decide)⟩

theorem gatherRow2_val (I : S32x40x128.Idx → Elt F .i32) (r : Fin 163840)
    (h : (BitVec.toNat (I (S32x40x128.rowMajor.symm (r.cast (by decide))))) < 1000000) :
    (gatherRow2 I r).val = BitVec.toNat (I (S32x40x128.rowMajor.symm (r.cast (by decide)))) :=
  Nat.mod_eq_of_lt h

/-- A gather of the table's rows into an array of 163840 rows. -/
theorem gathersAll2 : S1000000x128.Gathers 0 S163840x128 := Shape.Gathers.rank2 1000000 163840 128

/-- Row r of the gathered array is the table row the index word at flat position r names; the same function for
    every subcore. -/
def gathered2 {d : Dev nD} (tab : Buf (Elt F) (tabLoc2 d)) (I : Buf (Elt F) (idxLoc2 d)) : Buf (Elt F) (outLoc2 d) :=
  SparseCore.gatherPayload (F := F) (e := .f32) gathersAll2 tab (fun r => gatherRow2 I r)

theorem gathered2_apply {d : Dev nD} (tab : Buf (Elt F) (tabLoc2 d)) (I : Buf (Elt F) (idxLoc2 d)) (x : S163840x128.Idx) :
    gathered2 tab I x = tab (gathersAll2.idx (fun r => gatherRow2 (F := F) I r) x) := rfl

/-! ## What the subcore is dealt and what it hands back -/

/-- Dealt: a read share of the whole table, the subcore's block of the index array, its rows of the gathered array
    at whatever they hold. -/
def goRes2 (d : Dev nD) (L : grid2.Coords) (tab : Buf (Elt F) (tabLoc2 d)) (I : Buf (Elt F) (idxLoc2 d))
    (f : Buf (Elt F) (outLoc2 d)) : sProp (MM F) :=
  iprop((tabLoc2 d ↦[Finset.univ]{Transfers.shareTok fullShare 32 ⟨wid2 L, wid_lt2 L⟩} tab)
    ∗ (idxLoc2 d ↦[idxRows2 d L]{fullShare} I)
    ∗ (outLoc2 d ↦[outRows2 d L]{fullShare} f))

/-- Handed back: the same share and block, and its rows of the gathered array at the gathered rows. -/
def tdRes2 (d : Dev nD) (L : grid2.Coords) (tab : Buf (Elt F) (tabLoc2 d)) (I : Buf (Elt F) (idxLoc2 d)) : sProp (MM F) :=
  iprop((tabLoc2 d ↦[Finset.univ]{Transfers.shareTok fullShare 32 ⟨wid2 L, wid_lt2 L⟩} tab)
    ∗ (idxLoc2 d ↦[idxRows2 d L]{fullShare} I)
    ∗ (outLoc2 d ↦[outRows2 d L]{fullShare} gathered2 tab I))

end Cert.Kernel.Hand

end
-- ==== Proof.BTile4Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid4 (L : grid4.Coords) : ℕ := 2 * (L 1).val + (L 0).val

theorem wid_lt4 (L : grid4.Coords) : wid4 L < 32 := by
  have h0 : (L 0).val < 2 := (L 0).isLt
  have h1 : (L 1).val < 16 := (L 1).isLt
  unfold wid4; omega

/-- The SparseCore and the vector subcore the coordinates name. -/
abbrev cV4 (L : grid4.Coords) : Fin τ.nSC := (L 0).castLE hcore4
abbrev jV4 (L : grid4.Coords) : Fin τ.nSub := (L 1).castLE hsub4

/-! ## The three arrays, as the TensorCore names them -/

abbrev tabLoc4 (d : Dev nD) : Loc nD τ sig := (SparseCore.T d).loc main_arg1
abbrev idxLoc4 (d : Dev nD) : Loc nD τ sig := (SparseCore.T d).loc main_v11
abbrev outLoc4 (d : Dev nD) : Loc nD τ sig := (SparseCore.T d).loc main_v12

/-! ## The subcore's block of the index array: its leading coordinate is the worker number -/

/-- The block as the body slices it. -/
abbrev idxRect4 (L : grid4.Coords) : Rect S32x40x128 :=
  Rect.unit (s := S32x40x128) (k4_off1 L) S1x40x128.size (k4_off1_inb L)

def idxRows4 (d : Dev nD) (L : grid4.Coords) : Finset (Idx (idxLoc4 d)) := (idxRect4 L).set

theorem mem_idxRows4 (d : Dev nD) (L : grid4.Coords) (x : S32x40x128.Idx) :
    Iff (x ∈ idxRows4 d L) ((x 0).val = wid4 L) := by
  show Iff (x ∈ (Rect.unit (s := S32x40x128) (k4_off1 L) S1x40x128.size (k4_off1_inb L)).set) _
  rw [Rect.mem_set_unit]
  have e := k4_off1_eq L
  constructor
  · intro h
    have h0 : 2 * (L 1).val + (L 0).val ≤ (x 0).val ∧ (x 0).val < 2 * (L 1).val + (L 0).val + 1 := by
      have := h 0; rw [e] at this; exact this
    unfold wid4; omega
  · intro h a
    rw [e]
    have h1 : (x 1).val < 40 := (x 1).isLt
    have h2 : (x 2).val < 128 := (x 2).isLt
    unfold wid4 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect4_inb (L : grid4.Coords) :
    ∀ a, (![5120 * wid4 L, 0] : Fin 2 → ℕ) a + (![5120, 128] : Fin 2 → ℕ) a ≤ S163840x128.size a := by
  have h := wid_lt4 L
  intro a
  fin_cases a
  · show 5120 * wid4 L + 5120 ≤ 163840
    omega
  · show 0 + 128 ≤ 128
    omega

abbrev outRect4 (L : grid4.Coords) : Rect S163840x128 :=
  Rect.unit (s := S163840x128) ![5120 * wid4 L, 0] ![5120, 128] (outRect4_inb L)

def outRows4 (d : Dev nD) (L : grid4.Coords) : Finset (Idx (outLoc4 d)) := (outRect4 L).set

theorem mem_outRows4 (d : Dev nD) (L : grid4.Coords) (x : S163840x128.Idx) :
    Iff (x ∈ outRows4 d L) (5120 * wid4 L ≤ (x 0).val ∧ (x 0).val < 5120 * wid4 L + 5120) := by
  show Iff (x ∈ (Rect.unit (s := S163840x128) ![5120 * wid4 L, 0] ![5120, 128] (outRect4_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow4 (I : S32x40x128.Idx → Elt F .i32) (r : Fin 163840) : Fin 1000000 :=
  ⟨(BitVec.toNat (I (S32x40x128.rowMajor.symm (r.cast (by decide))))) % 1000000, Nat.mod_lt _ (by decide)⟩

theorem gatherRow4_val (I : S32x40x128.Idx → Elt F .i32) (r : Fin 163840)
    (h : (BitVec.toNat (I (S32x40x128.rowMajor.symm (r.cast (by decide))))) < 1000000) :
    (gatherRow4 I r).val = BitVec.toNat (I (S32x40x128.rowMajor.symm (r.cast (by decide)))) :=
  Nat.mod_eq_of_lt h

/-- A gather of the table's rows into an array of 163840 rows. -/
theorem gathersAll4 : S1000000x128.Gathers 0 S163840x128 := Shape.Gathers.rank2 1000000 163840 128

/-- Row r of the gathered array is the table row the index word at flat position r names; the same function for
    every subcore. -/
def gathered4 {d : Dev nD} (tab : Buf (Elt F) (tabLoc4 d)) (I : Buf (Elt F) (idxLoc4 d)) : Buf (Elt F) (outLoc4 d) :=
  SparseCore.gatherPayload (F := F) (e := .f32) gathersAll4 tab (fun r => gatherRow4 I r)

theorem gathered4_apply {d : Dev nD} (tab : Buf (Elt F) (tabLoc4 d)) (I : Buf (Elt F) (idxLoc4 d)) (x : S163840x128.Idx) :
    gathered4 tab I x = tab (gathersAll4.idx (fun r => gatherRow4 (F := F) I r) x) := rfl

/-! ## What the subcore is dealt and what it hands back -/

/-- Dealt: a read share of the whole table, the subcore's block of the index array, its rows of the gathered array
    at whatever they hold. -/
def goRes4 (d : Dev nD) (L : grid4.Coords) (tab : Buf (Elt F) (tabLoc4 d)) (I : Buf (Elt F) (idxLoc4 d))
    (f : Buf (Elt F) (outLoc4 d)) : sProp (MM F) :=
  iprop((tabLoc4 d ↦[Finset.univ]{Transfers.shareTok fullShare 32 ⟨wid4 L, wid_lt4 L⟩} tab)
    ∗ (idxLoc4 d ↦[idxRows4 d L]{fullShare} I)
    ∗ (outLoc4 d ↦[outRows4 d L]{fullShare} f))

/-- Handed back: the same share and block, and its rows of the gathered array at the gathered rows. -/
def tdRes4 (d : Dev nD) (L : grid4.Coords) (tab : Buf (Elt F) (tabLoc4 d)) (I : Buf (Elt F) (idxLoc4 d)) : sProp (MM F) :=
  iprop((tabLoc4 d ↦[Finset.univ]{Transfers.shareTok fullShare 32 ⟨wid4 L, wid_lt4 L⟩} tab)
    ∗ (idxLoc4 d ↦[idxRows4 d L]{fullShare} I)
    ∗ (outLoc4 d ↦[outRows4 d L]{fullShare} gathered4 tab I))

end Cert.Kernel.Hand

end
-- ==== Proof.BTile6Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid6 (L : grid6.Coords) : ℕ := 2 * (L 1).val + (L 0).val

theorem wid_lt6 (L : grid6.Coords) : wid6 L < 32 := by
  have h0 : (L 0).val < 2 := (L 0).isLt
  have h1 : (L 1).val < 16 := (L 1).isLt
  unfold wid6; omega

/-- The SparseCore and the vector subcore the coordinates name. -/
abbrev cV6 (L : grid6.Coords) : Fin τ.nSC := (L 0).castLE hcore6
abbrev jV6 (L : grid6.Coords) : Fin τ.nSub := (L 1).castLE hsub6

/-! ## The three arrays, as the TensorCore names them -/

abbrev tabLoc6 (d : Dev nD) : Loc nD τ sig := (SparseCore.T d).loc main_arg1
abbrev idxLoc6 (d : Dev nD) : Loc nD τ sig := (SparseCore.T d).loc main_v15
abbrev outLoc6 (d : Dev nD) : Loc nD τ sig := (SparseCore.T d).loc main_v16

/-! ## The subcore's block of the index array: its leading coordinate is the worker number -/

/-- The block as the body slices it. -/
abbrev idxRect6 (L : grid6.Coords) : Rect S32x40x128 :=
  Rect.unit (s := S32x40x128) (k6_off1 L) S1x40x128.size (k6_off1_inb L)

def idxRows6 (d : Dev nD) (L : grid6.Coords) : Finset (Idx (idxLoc6 d)) := (idxRect6 L).set

theorem mem_idxRows6 (d : Dev nD) (L : grid6.Coords) (x : S32x40x128.Idx) :
    Iff (x ∈ idxRows6 d L) ((x 0).val = wid6 L) := by
  show Iff (x ∈ (Rect.unit (s := S32x40x128) (k6_off1 L) S1x40x128.size (k6_off1_inb L)).set) _
  rw [Rect.mem_set_unit]
  have e := k6_off1_eq L
  constructor
  · intro h
    have h0 : 2 * (L 1).val + (L 0).val ≤ (x 0).val ∧ (x 0).val < 2 * (L 1).val + (L 0).val + 1 := by
      have := h 0; rw [e] at this; exact this
    unfold wid6; omega
  · intro h a
    rw [e]
    have h1 : (x 1).val < 40 := (x 1).isLt
    have h2 : (x 2).val < 128 := (x 2).isLt
    unfold wid6 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect6_inb (L : grid6.Coords) :
    ∀ a, (![5120 * wid6 L, 0] : Fin 2 → ℕ) a + (![5120, 128] : Fin 2 → ℕ) a ≤ S163840x128.size a := by
  have h := wid_lt6 L
  intro a
  fin_cases a
  · show 5120 * wid6 L + 5120 ≤ 163840
    omega
  · show 0 + 128 ≤ 128
    omega

abbrev outRect6 (L : grid6.Coords) : Rect S163840x128 :=
  Rect.unit (s := S163840x128) ![5120 * wid6 L, 0] ![5120, 128] (outRect6_inb L)

def outRows6 (d : Dev nD) (L : grid6.Coords) : Finset (Idx (outLoc6 d)) := (outRect6 L).set

theorem mem_outRows6 (d : Dev nD) (L : grid6.Coords) (x : S163840x128.Idx) :
    Iff (x ∈ outRows6 d L) (5120 * wid6 L ≤ (x 0).val ∧ (x 0).val < 5120 * wid6 L + 5120) := by
  show Iff (x ∈ (Rect.unit (s := S163840x128) ![5120 * wid6 L, 0] ![5120, 128] (outRect6_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow6 (I : S32x40x128.Idx → Elt F .i32) (r : Fin 163840) : Fin 1000000 :=
  ⟨(BitVec.toNat (I (S32x40x128.rowMajor.symm (r.cast (by decide))))) % 1000000, Nat.mod_lt _ (by decide)⟩

theorem gatherRow6_val (I : S32x40x128.Idx → Elt F .i32) (r : Fin 163840)
    (h : (BitVec.toNat (I (S32x40x128.rowMajor.symm (r.cast (by decide))))) < 1000000) :
    (gatherRow6 I r).val = BitVec.toNat (I (S32x40x128.rowMajor.symm (r.cast (by decide)))) :=
  Nat.mod_eq_of_lt h

/-- A gather of the table's rows into an array of 163840 rows. -/
theorem gathersAll6 : S1000000x128.Gathers 0 S163840x128 := Shape.Gathers.rank2 1000000 163840 128

/-- Row r of the gathered array is the table row the index word at flat position r names; the same function for
    every subcore. -/
def gathered6 {d : Dev nD} (tab : Buf (Elt F) (tabLoc6 d)) (I : Buf (Elt F) (idxLoc6 d)) : Buf (Elt F) (outLoc6 d) :=
  SparseCore.gatherPayload (F := F) (e := .f32) gathersAll6 tab (fun r => gatherRow6 I r)

theorem gathered6_apply {d : Dev nD} (tab : Buf (Elt F) (tabLoc6 d)) (I : Buf (Elt F) (idxLoc6 d)) (x : S163840x128.Idx) :
    gathered6 tab I x = tab (gathersAll6.idx (fun r => gatherRow6 (F := F) I r) x) := rfl

/-! ## What the subcore is dealt and what it hands back -/

/-- Dealt: a read share of the whole table, the subcore's block of the index array, its rows of the gathered array
    at whatever they hold. -/
def goRes6 (d : Dev nD) (L : grid6.Coords) (tab : Buf (Elt F) (tabLoc6 d)) (I : Buf (Elt F) (idxLoc6 d))
    (f : Buf (Elt F) (outLoc6 d)) : sProp (MM F) :=
  iprop((tabLoc6 d ↦[Finset.univ]{Transfers.shareTok fullShare 32 ⟨wid6 L, wid_lt6 L⟩} tab)
    ∗ (idxLoc6 d ↦[idxRows6 d L]{fullShare} I)
    ∗ (outLoc6 d ↦[outRows6 d L]{fullShare} f))

/-- Handed back: the same share and block, and its rows of the gathered array at the gathered rows. -/
def tdRes6 (d : Dev nD) (L : grid6.Coords) (tab : Buf (Elt F) (tabLoc6 d)) (I : Buf (Elt F) (idxLoc6 d)) : sProp (MM F) :=
  iprop((tabLoc6 d ↦[Finset.univ]{Transfers.shareTok fullShare 32 ⟨wid6 L, wid_lt6 L⟩} tab)
    ∗ (idxLoc6 d ↦[idxRows6 d L]{fullShare} I)
    ∗ (outLoc6 d ↦[outRows6 d L]{fullShare} gathered6 tab I))

end Cert.Kernel.Hand

end
-- ==== Proof.BTile8Defs.lean ====
/-
  What the vector subcore at grid coordinates L is dealt for the first gather call, and what it hands back: its
  block of the index array, its rows of the gathered array, a read share of the table; and the ONE function of the
  table and the index array that every subcore's rows of the gathered array are rows of, so that the thirty-two
  pieces join into the whole array at that function.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The subcore's place -/

/-- The worker number of the subcore at grid coordinates L = (core, subcore): subcore-major, as the body computes it. -/
def wid8 (L : grid8.Coords) : ℕ := 2 * (L 1).val + (L 0).val

theorem wid_lt8 (L : grid8.Coords) : wid8 L < 32 := by
  have h0 : (L 0).val < 2 := (L 0).isLt
  have h1 : (L 1).val < 16 := (L 1).isLt
  unfold wid8; omega

/-- The SparseCore and the vector subcore the coordinates name. -/
abbrev cV8 (L : grid8.Coords) : Fin τ.nSC := (L 0).castLE hcore8
abbrev jV8 (L : grid8.Coords) : Fin τ.nSub := (L 1).castLE hsub8

/-! ## The three arrays, as the TensorCore names them -/

abbrev tabLoc8 (d : Dev nD) : Loc nD τ sig := (SparseCore.T d).loc main_arg1
abbrev idxLoc8 (d : Dev nD) : Loc nD τ sig := (SparseCore.T d).loc main_v19
abbrev outLoc8 (d : Dev nD) : Loc nD τ sig := (SparseCore.T d).loc main_v20

/-! ## The subcore's block of the index array: its leading coordinate is the worker number -/

/-- The block as the body slices it. -/
abbrev idxRect8 (L : grid8.Coords) : Rect S32x40x128 :=
  Rect.unit (s := S32x40x128) (k8_off1 L) S1x40x128.size (k8_off1_inb L)

def idxRows8 (d : Dev nD) (L : grid8.Coords) : Finset (Idx (idxLoc8 d)) := (idxRect8 L).set

theorem mem_idxRows8 (d : Dev nD) (L : grid8.Coords) (x : S32x40x128.Idx) :
    Iff (x ∈ idxRows8 d L) ((x 0).val = wid8 L) := by
  show Iff (x ∈ (Rect.unit (s := S32x40x128) (k8_off1 L) S1x40x128.size (k8_off1_inb L)).set) _
  rw [Rect.mem_set_unit]
  have e := k8_off1_eq L
  constructor
  · intro h
    have h0 : 2 * (L 1).val + (L 0).val ≤ (x 0).val ∧ (x 0).val < 2 * (L 1).val + (L 0).val + 1 := by
      have := h 0; rw [e] at this; exact this
    unfold wid8; omega
  · intro h a
    rw [e]
    have h1 : (x 1).val < 40 := (x 1).isLt
    have h2 : (x 2).val < 128 := (x 2).isLt
    unfold wid8 at h
    fin_cases a
    · show 2 * (L 1).val + (L 0).val ≤ (x 0).val ∧ (x 0).val < 2 * (L 1).val + (L 0).val + 1
      omega
    · show 0 ≤ (x 1).val ∧ (x 1).val < 0 + 40
      omega
    · show 0 ≤ (x 2).val ∧ (x 2).val < 0 + 128
      omega

/-! ## The subcore's rows of the gathered array: 5120 rows from 5120 times the worker number, every column -/

theorem outRect8_inb (L : grid8.Coords) :
    ∀ a, (![5120 * wid8 L, 0] : Fin 2 → ℕ) a + (![5120, 128] : Fin 2 → ℕ) a ≤ S163840x128.size a := by
  have h := wid_lt8 L
  intro a
  fin_cases a
  · show 5120 * wid8 L + 5120 ≤ 163840
    omega
  · show 0 + 128 ≤ 128
    omega

abbrev outRect8 (L : grid8.Coords) : Rect S163840x128 :=
  Rect.unit (s := S163840x128) ![5120 * wid8 L, 0] ![5120, 128] (outRect8_inb L)

def outRows8 (d : Dev nD) (L : grid8.Coords) : Finset (Idx (outLoc8 d)) := (outRect8 L).set

theorem mem_outRows8 (d : Dev nD) (L : grid8.Coords) (x : S163840x128.Idx) :
    Iff (x ∈ outRows8 d L) (5120 * wid8 L ≤ (x 0).val ∧ (x 0).val < 5120 * wid8 L + 5120) := by
  show Iff (x ∈ (Rect.unit (s := S163840x128) ![5120 * wid8 L, 0] ![5120, 128] (outRect8_inb L)).set) _
  rw [Rect.mem_set_unit]
  constructor
  · intro h
    exact h 0
  · intro h a
    have h1 : (x 1).val < 128 := (x 1).isLt
    fin_cases a
    · exact h
    · show 0 ≤ (x 1).val ∧ (x 1).val < 0 + 128
      omega

/-! ## The gathered array, whole -/

/-- The table row the index word at flat position r names: the word's unsigned value (reduced to make it a row
    whatever the word; the reduction changes nothing for a word below the table's height). -/
def gatherRow8 (I : S32x40x128.Idx → Elt F .i32) (r : Fin 163840) : Fin 1000000 :=
  ⟨(BitVec.toNat (I (S32x40x128.rowMajor.symm (r.cast (by decide))))) % 1000000, Nat.mod_lt _ (by decide)⟩

theorem gatherRow8_val (I : S32x40x128.Idx → Elt F .i32) (r : Fin 163840)
    (h : (BitVec.toNat (I (S32x40x128.rowMajor.symm (r.cast (by decide))))) < 1000000) :
    (gatherRow8 I r).val = BitVec.toNat (I (S32x40x128.rowMajor.symm (r.cast (by decide)))) :=
  Nat.mod_eq_of_lt h

/-- A gather of the table's rows into an array of 163840 rows. -/
theorem gathersAll8 : S1000000x128.Gathers 0 S163840x128 := Shape.Gathers.rank2 1000000 163840 128

/-- Row r of the gathered array is the table row the index word at flat position r names; the same function for
    every subcore. -/
def gathered8 {d : Dev nD} (tab : Buf (Elt F) (tabLoc8 d)) (I : Buf (Elt F) (idxLoc8 d)) : Buf (Elt F) (outLoc8 d) :=
  SparseCore.gatherPayload (F := F) (e := .f32) gathersAll8 tab (fun r => gatherRow8 I r)

theorem gathered8_apply {d : Dev nD} (tab : Buf (Elt F) (tabLoc8 d)) (I : Buf (Elt F) (idxLoc8 d)) (x : S163840x128.Idx) :
    gathered8 tab I x = tab (gathersAll8.idx (fun r => gatherRow8 (F := F) I r) x) := rfl

/-! ## What the subcore is dealt and what it hands back -/

/-- Dealt: a read share of the whole table, the subcore's block of the index array, its rows of the gathered array
    at whatever they hold. -/
def goRes8 (d : Dev nD) (L : grid8.Coords) (tab : Buf (Elt F) (tabLoc8 d)) (I : Buf (Elt F) (idxLoc8 d))
    (f : Buf (Elt F) (outLoc8 d)) : sProp (MM F) :=
  iprop((tabLoc8 d ↦[Finset.univ]{Transfers.shareTok fullShare 32 ⟨wid8 L, wid_lt8 L⟩} tab)
    ∗ (idxLoc8 d ↦[idxRows8 d L]{fullShare} I)
    ∗ (outLoc8 d ↦[outRows8 d L]{fullShare} f))

/-- Handed back: the same share and block, and its rows of the gathered array at the gathered rows. -/
def tdRes8 (d : Dev nD) (L : grid8.Coords) (tab : Buf (Elt F) (tabLoc8 d)) (I : Buf (Elt F) (idxLoc8 d)) : sProp (MM F) :=
  iprop((tabLoc8 d ↦[Finset.univ]{Transfers.shareTok fullShare 32 ⟨wid8 L, wid_lt8 L⟩} tab)
    ∗ (idxLoc8 d ↦[idxRows8 d L]{fullShare} I)
    ∗ (outLoc8 d ↦[outRows8 d L]{fullShare} gathered8 tab I))

end Cert.Kernel.Hand

end
-- ==== Proof.BRegion1Defs.lean ====
/-
  What the TensorCore matrix-product regions compute, as whole-array functions of the arrays they are entered with,
  for every float instance at once.

  Region 1 reads the weight matrix W (64 × 128) and the gathered rows g (163840 × 128, ten blocks of 16384 rows) and
  writes the first ten leading slices of the output array (50 × 64 × 16384): slice l is the product of W with the
  transposed block l of g, contracting the 128-axis, accumulated into zero; every other entry keeps what it held.
-/
import proofs.«206421_g46840913330738_cont_8to1c4_247_26_alg».proof.Proof.BBase

noncomputable section

namespace Cert.Kernel.Hand

open Cert.Kernel Cert.Kernel.Gen
open Idealize.ShloMosaic

variable {F : FTy → Type} [FloatOps F]

/-- The index (a, b) of a two-axis shape. -/
def idx2 {m k : ℕ} (a : Fin m) (b : Fin k) : (⟨2, ![m, k]⟩ : Shape).Idx
  | ⟨0, _⟩ => a
  | ⟨1, _⟩ => b

/-- The index (a, b, c) of a three-axis shape. -/
def idx3 {m k l : ℕ} (a : Fin m) (b : Fin k) (c : Fin l) : (⟨3, ![m, k, l]⟩ : Shape).Idx
  | ⟨0, _⟩ => a
  | ⟨1, _⟩ => b
  | ⟨2, _⟩ => c

/-- An output index inside its leading slice: the leading coordinate dropped to 0. -/
def toBlk (i : S50x64x16384.Idx) : S1x64x16384.Idx :=
  idx3 (⟨0, Nat.one_pos⟩ : Fin 1) (i 1) (i 2)

/-- Block l of the gathered rows: rows 16384 l … 16384 l + 16383. -/
def gBlock (g : Vec F S163840x128 .f32) (l : Fin 10) : Vec F S16384x128 .f32 :=
  fun y => g (idx2 (⟨l.val * 16384 + (y 0).val, by have h1 := l.isLt; have h2 : (y 0).val < 16384 := (y 0).isLt; omega⟩ : Fin 163840) (y 1))

/-- The output array after region 1: on the first ten leading slices the body's product of W and the matching block of
    g, elsewhere the entry contents. -/
def regionVal1 (w : Vec F S64x128 .f32) (g : Vec F S163840x128 .f32) (f0 : Vec F S50x64x16384 .f32) : Vec F S50x64x16384 .f32 :=
  fun i => if h : (i 0).val < 10 then k1_pay1 w (gBlock g ⟨(i 0).val, h⟩) (toBlk i) else f0 i

end Cert.Kernel.Hand

end
-- ==== Proof.BRegion3Defs.lean ====
/-
  What matrix-product region 3 computes, as a whole-array function of the arrays it is entered with: it writes the
  leading slices 10 … 19 of the output array, slice l the product of W with block l − 10 of its gathered rows,
  and keeps every other entry.
-/
import proofs.«206421_g46840913330738_cont_8to1c4_247_26_alg».proof.Proof.BRegion1Defs

noncomputable section

namespace Cert.Kernel.Hand

open Cert.Kernel Cert.Kernel.Gen
open Idealize.ShloMosaic

variable {F : FTy → Type} [FloatOps F]

/-- The output array after region 3: on leading slices 10 … 19 the body's product of W and the matching block
    of g, elsewhere the entry contents. -/
def regionVal3 (w : Vec F S64x128 .f32) (g : Vec F S163840x128 .f32) (f0 : Vec F S50x64x16384 .f32) : Vec F S50x64x16384 .f32 :=
  fun i => if h : 10 ≤ (i 0).val ∧ (i 0).val < 20 then k3_pay1 w (gBlock g ⟨(i 0).val - 10, by omega⟩) (toBlk i) else f0 i

end Cert.Kernel.Hand

end
-- ==== Proof.BRegion5Defs.lean ====
/-
  What matrix-product region 5 computes, as a whole-array function of the arrays it is entered with: it writes the
  leading slices 20 … 29 of the output array, slice l the product of W with block l − 20 of its gathered rows,
  and keeps every other entry.
-/
import proofs.«206421_g46840913330738_cont_8to1c4_247_26_alg».proof.Proof.BRegion1Defs

noncomputable section

namespace Cert.Kernel.Hand

open Cert.Kernel Cert.Kernel.Gen
open Idealize.ShloMosaic

variable {F : FTy → Type} [FloatOps F]

/-- The output array after region 5: on leading slices 20 … 29 the body's product of W and the matching block
    of g, elsewhere the entry contents. -/
def regionVal5 (w : Vec F S64x128 .f32) (g : Vec F S163840x128 .f32) (f0 : Vec F S50x64x16384 .f32) : Vec F S50x64x16384 .f32 :=
  fun i => if h : 20 ≤ (i 0).val ∧ (i 0).val < 30 then k5_pay1 w (gBlock g ⟨(i 0).val - 20, by omega⟩) (toBlk i) else f0 i

end Cert.Kernel.Hand

end
-- ==== Proof.BRegion7Defs.lean ====
/-
  What matrix-product region 7 computes, as a whole-array function of the arrays it is entered with: it writes the
  leading slices 30 … 39 of the output array, slice l the product of W with block l − 30 of its gathered rows,
  and keeps every other entry.
-/
import proofs.«206421_g46840913330738_cont_8to1c4_247_26_alg».proof.Proof.BRegion1Defs

noncomputable section

namespace Cert.Kernel.Hand

open Cert.Kernel Cert.Kernel.Gen
open Idealize.ShloMosaic

variable {F : FTy → Type} [FloatOps F]

/-- The output array after region 7: on leading slices 30 … 39 the body's product of W and the matching block
    of g, elsewhere the entry contents. -/
def regionVal7 (w : Vec F S64x128 .f32) (g : Vec F S163840x128 .f32) (f0 : Vec F S50x64x16384 .f32) : Vec F S50x64x16384 .f32 :=
  fun i => if h : 30 ≤ (i 0).val ∧ (i 0).val < 40 then k7_pay1 w (gBlock g ⟨(i 0).val - 30, by omega⟩) (toBlk i) else f0 i

end Cert.Kernel.Hand

end
-- ==== Proof.BRegion9Defs.lean ====
/-
  What matrix-product region 9 computes, as a whole-array function of the arrays it is entered with: it writes the
  leading slices 40 … 49 of the output array, slice l the product of W with block l − 40 of its gathered rows,
  and keeps every other entry.
-/
import proofs.«206421_g46840913330738_cont_8to1c4_247_26_alg».proof.Proof.BRegion1Defs

noncomputable section

namespace Cert.Kernel.Hand

open Cert.Kernel Cert.Kernel.Gen
open Idealize.ShloMosaic

variable {F : FTy → Type} [FloatOps F]

/-- The output array after region 9: on leading slices 40 … 49 the body's product of W and the matching block
    of g, elsewhere the entry contents. -/
def regionVal9 (w : Vec F S64x128 .f32) (g : Vec F S163840x128 .f32) (f0 : Vec F S50x64x16384 .f32) : Vec F S50x64x16384 .f32 :=
  fun i => if h : 40 ≤ (i 0).val ∧ (i 0).val < 50 then k9_pay1 w (gBlock g ⟨(i 0).val - 40, by omega⟩) (toBlk i) else f0 i

end Cert.Kernel.Hand

end
-- ==== Proof.BVals.lean ====
/-
  The contents of the TensorCore's arrays after each step of @main, as one valuation per step: a host operation
  updates its result at the operation's function of its operands; gather call q sets its gathered array to the table
  rows its index array names; matrix-product region p sets rows 10p … 10p+9 of its output to the products of the
  weights with the gathered rows and keeps the other rows.
-/
import proofs.«206421_g46840913330738_cont_8to1c4_247_26_alg».proof.Proof.BBase
import proofs.«206421_g46840913330738_cont_8to1c4_247_26_alg».proof.Proof.BHost
import proofs.«206421_g46840913330738_cont_8to1c4_247_26_alg».proof.Proof.BTile0Defs
import proofs.«206421_g46840913330738_cont_8to1c4_247_26_alg».proof.Proof.BTile2Defs
import proofs.«206421_g46840913330738_cont_8to1c4_247_26_alg».proof.Proof.BTile4Defs
import proofs.«206421_g46840913330738_cont_8to1c4_247_26_alg».proof.Proof.BTile6Defs
import proofs.«206421_g46840913330738_cont_8to1c4_247_26_alg».proof.Proof.BTile8Defs
import proofs.«206421_g46840913330738_cont_8to1c4_247_26_alg».proof.Proof.BRegion1Defs
import proofs.«206421_g46840913330738_cont_8to1c4_247_26_alg».proof.Proof.BRegion3Defs
import proofs.«206421_g46840913330738_cont_8to1c4_247_26_alg».proof.Proof.BRegion5Defs
import proofs.«206421_g46840913330738_cont_8to1c4_247_26_alg».proof.Proof.BRegion7Defs
import proofs.«206421_g46840913330738_cont_8to1c4_247_26_alg».proof.Proof.BRegion9Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (d : Dev nD) [FloatOps F]

/-- A TensorCore array as a buffer of the device. -/
abbrev r (x : Ref sig .tc) : DevRef τ sig := Proc.devRef .tc x

/-- Before @main's first step: the launch contents. -/
def W0 : Valuation τ sig (Elt F) := V0 m d
/-- After step 0, a host operation. -/
def W1 : Valuation τ sig (Elt F) := (op0 (F := F)).result (W0 m d)
/-- After step 1, a host operation. -/
def W2 : Valuation τ sig (Elt F) := (op1 (F := F)).result (W1 m d)
/-- After step 2, a host operation. -/
def W3 : Valuation τ sig (Elt F) := (op2 (F := F)).result (W2 m d)
/-- After step 3, a host operation. -/
def W4 : Valuation τ sig (Elt F) := (op3 (F := F)).result (W3 m d)
/-- After step 4, gather call 0: `main_v4` holds the table rows `main_v3` names. -/
def W5 : Valuation τ sig (Elt F) :=
  Function.update (W4 m d) (r main_v4) (gathered0 (d := d) (W4 m d (r main_arg1)) (W4 m d (r main_v3)))
/-- After step 5, matrix-product region 0: rows 0 … 9 of `main_v5` are written. -/
def W6 : Valuation τ sig (Elt F) :=
  Function.update (W5 m d) (r main_v5) (regionVal1 (W5 m d (r main_arg2)) (W5 m d (r main_v4)) (W5 m d (r main_v5)))
/-- After step 6, a host operation. -/
def W7 : Valuation τ sig (Elt F) := (op6 (F := F)).result (W6 m d)
/-- After step 7, a host operation. -/
def W8 : Valuation τ sig (Elt F) := (op7 (F := F)).result (W7 m d)
/-- After step 8, gather call 1: `main_v8` holds the table rows `main_v7` names. -/
def W9 : Valuation τ sig (Elt F) :=
  Function.update (W8 m d) (r main_v8) (gathered2 (d := d) (W8 m d (r main_arg1)) (W8 m d (r main_v7)))
/-- After step 9, a host operation. -/
def W10 : Valuation τ sig (Elt F) := (op9 (F := F)).result (W9 m d)
/-- After step 10, matrix-product region 1: rows 10 … 19 of `main_v9` are written. -/
def W11 : Valuation τ sig (Elt F) :=
  Function.update (W10 m d) (r main_v9) (regionVal3 (W10 m d (r main_arg2)) (W10 m d (r main_v8)) (W10 m d (r main_v9)))
/-- After step 11, a host operation. -/
def W12 : Valuation τ sig (Elt F) := (op11 (F := F)).result (W11 m d)
/-- After step 12, a host operation. -/
def W13 : Valuation τ sig (Elt F) := (op12 (F := F)).result (W12 m d)
/-- After step 13, gather call 2: `main_v12` holds the table rows `main_v11` names. -/
def W14 : Valuation τ sig (Elt F) :=
  Function.update (W13 m d) (r main_v12) (gathered4 (d := d) (W13 m d (r main_arg1)) (W13 m d (r main_v11)))
/-- After step 14, a host operation. -/
def W15 : Valuation τ sig (Elt F) := (op14 (F := F)).result (W14 m d)
/-- After step 15, matrix-product region 2: rows 20 … 29 of `main_v13` are written. -/
def W16 : Valuation τ sig (Elt F) :=
  Function.update (W15 m d) (r main_v13) (regionVal5 (W15 m d (r main_arg2)) (W15 m d (r main_v12)) (W15 m d (r main_v13)))
/-- After step 16, a host operation. -/
def W17 : Valuation τ sig (Elt F) := (op16 (F := F)).result (W16 m d)
/-- After step 17, a host operation. -/
def W18 : Valuation τ sig (Elt F) := (op17 (F := F)).result (W17 m d)
/-- After step 18, gather call 3: `main_v16` holds the table rows `main_v15` names. -/
def W19 : Valuation τ sig (Elt F) :=
  Function.update (W18 m d) (r main_v16) (gathered6 (d := d) (W18 m d (r main_arg1)) (W18 m d (r main_v15)))
/-- After step 19, a host operation. -/
def W20 : Valuation τ sig (Elt F) := (op19 (F := F)).result (W19 m d)
/-- After step 20, matrix-product region 3: rows 30 … 39 of `main_v17` are written. -/
def W21 : Valuation τ sig (Elt F) :=
  Function.update (W20 m d) (r main_v17) (regionVal7 (W20 m d (r main_arg2)) (W20 m d (r main_v16)) (W20 m d (r main_v17)))
/-- After step 21, a host operation. -/
def W22 : Valuation τ sig (Elt F) := (op21 (F := F)).result (W21 m d)
/-- After step 22, a host operation. -/
def W23 : Valuation τ sig (Elt F) := (op22 (F := F)).result (W22 m d)
/-- After step 23, gather call 4: `main_v20` holds the table rows `main_v19` names. -/
def W24 : Valuation τ sig (Elt F) :=
  Function.update (W23 m d) (r main_v20) (gathered8 (d := d) (W23 m d (r main_arg1)) (W23 m d (r main_v19)))
/-- After step 24, a host operation. -/
def W25 : Valuation τ sig (Elt F) := (op24 (F := F)).result (W24 m d)
/-- After step 25, matrix-product region 4: rows 40 … 49 of `main_v21` are written. -/
def W26 : Valuation τ sig (Elt F) :=
  Function.update (W25 m d) (r main_v21) (regionVal9 (W25 m d (r main_arg2)) (W25 m d (r main_v20)) (W25 m d (r main_v21)))
/-- After step 26, a host operation. -/
def W27 : Valuation τ sig (Elt F) := (op26 (F := F)).result (W26 m d)

end Cert.Kernel.Hand

end
-- ==== Proof.BKept.lean ====
/-
  The three arguments pass through @main untouched: no host operation, gather call or matrix-product region writes
  one of them, so at every step each holds its launch contents.
-/
import proofs.«206421_g46840913330738_cont_8to1c4_247_26_alg».proof.Proof.BBase
import proofs.«206421_g46840913330738_cont_8to1c4_247_26_alg».proof.Proof.BVals

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (d : Dev nD) [FloatOps F]

/-- A buffer that is one of the three arguments. -/
def IsArg (b : DevRef τ sig) : Prop := b = r main_arg0 ∨ b = r main_arg1 ∨ b = r main_arg2

theorem W1_arg {b : DevRef τ sig} (hb : IsArg b) : W1 m d b = W0 m d b :=
  (op0 (F := F)).result_of_not_mem (W0 m d)
    (by rcases hb with rfl | rfl | rfl <;> (show _ ∉ ({Proc.devRef .tc main_v0} : Finset (DevRef τ sig)); decide))
theorem W2_arg {b : DevRef τ sig} (hb : IsArg b) : W2 m d b = W1 m d b :=
  (op1 (F := F)).result_of_not_mem (W1 m d)
    (by rcases hb with rfl | rfl | rfl <;> (show _ ∉ ({Proc.devRef .tc main_v1} : Finset (DevRef τ sig)); decide))
theorem W3_arg {b : DevRef τ sig} (hb : IsArg b) : W3 m d b = W2 m d b :=
  (op2 (F := F)).result_of_not_mem (W2 m d)
    (by rcases hb with rfl | rfl | rfl <;> (show _ ∉ ({Proc.devRef .tc main_v2} : Finset (DevRef τ sig)); decide))
theorem W4_arg {b : DevRef τ sig} (hb : IsArg b) : W4 m d b = W3 m d b :=
  (op3 (F := F)).result_of_not_mem (W3 m d)
    (by rcases hb with rfl | rfl | rfl <;> (show _ ∉ ({Proc.devRef .tc main_v3} : Finset (DevRef τ sig)); decide))
theorem W5_arg {b : DevRef τ sig} (hb : IsArg b) : W5 m d b = W4 m d b :=
  Function.update_of_ne (by rcases hb with rfl | rfl | rfl <;> decide) _ _
theorem W6_arg {b : DevRef τ sig} (hb : IsArg b) : W6 m d b = W5 m d b :=
  Function.update_of_ne (by rcases hb with rfl | rfl | rfl <;> decide) _ _
theorem W7_arg {b : DevRef τ sig} (hb : IsArg b) : W7 m d b = W6 m d b :=
  (op6 (F := F)).result_of_not_mem (W6 m d)
    (by rcases hb with rfl | rfl | rfl <;> (show _ ∉ ({Proc.devRef .tc main_v6} : Finset (DevRef τ sig)); decide))
theorem W8_arg {b : DevRef τ sig} (hb : IsArg b) : W8 m d b = W7 m d b :=
  (op7 (F := F)).result_of_not_mem (W7 m d)
    (by rcases hb with rfl | rfl | rfl <;> (show _ ∉ ({Proc.devRef .tc main_v7} : Finset (DevRef τ sig)); decide))
theorem W9_arg {b : DevRef τ sig} (hb : IsArg b) : W9 m d b = W8 m d b :=
  Function.update_of_ne (by rcases hb with rfl | rfl | rfl <;> decide) _ _
theorem W10_arg {b : DevRef τ sig} (hb : IsArg b) : W10 m d b = W9 m d b :=
  (op9 (F := F)).result_of_not_mem (W9 m d)
    (by rcases hb with rfl | rfl | rfl <;> (show _ ∉ ({Proc.devRef .tc main_v9} : Finset (DevRef τ sig)); decide))
theorem W11_arg {b : DevRef τ sig} (hb : IsArg b) : W11 m d b = W10 m d b :=
  Function.update_of_ne (by rcases hb with rfl | rfl | rfl <;> decide) _ _
theorem W12_arg {b : DevRef τ sig} (hb : IsArg b) : W12 m d b = W11 m d b :=
  (op11 (F := F)).result_of_not_mem (W11 m d)
    (by rcases hb with rfl | rfl | rfl <;> (show _ ∉ ({Proc.devRef .tc main_v10} : Finset (DevRef τ sig)); decide))
theorem W13_arg {b : DevRef τ sig} (hb : IsArg b) : W13 m d b = W12 m d b :=
  (op12 (F := F)).result_of_not_mem (W12 m d)
    (by rcases hb with rfl | rfl | rfl <;> (show _ ∉ ({Proc.devRef .tc main_v11} : Finset (DevRef τ sig)); decide))
theorem W14_arg {b : DevRef τ sig} (hb : IsArg b) : W14 m d b = W13 m d b :=
  Function.update_of_ne (by rcases hb with rfl | rfl | rfl <;> decide) _ _
theorem W15_arg {b : DevRef τ sig} (hb : IsArg b) : W15 m d b = W14 m d b :=
  (op14 (F := F)).result_of_not_mem (W14 m d)
    (by rcases hb with rfl | rfl | rfl <;> (show _ ∉ ({Proc.devRef .tc main_v13} : Finset (DevRef τ sig)); decide))
theorem W16_arg {b : DevRef τ sig} (hb : IsArg b) : W16 m d b = W15 m d b :=
  Function.update_of_ne (by rcases hb with rfl | rfl | rfl <;> decide) _ _
theorem W17_arg {b : DevRef τ sig} (hb : IsArg b) : W17 m d b = W16 m d b :=
  (op16 (F := F)).result_of_not_mem (W16 m d)
    (by rcases hb with rfl | rfl | rfl <;> (show _ ∉ ({Proc.devRef .tc main_v14} : Finset (DevRef τ sig)); decide))
theorem W18_arg {b : DevRef τ sig} (hb : IsArg b) : W18 m d b = W17 m d b :=
  (op17 (F := F)).result_of_not_mem (W17 m d)
    (by rcases hb with rfl | rfl | rfl <;> (show _ ∉ ({Proc.devRef .tc main_v15} : Finset (DevRef τ sig)); decide))
theorem W19_arg {b : DevRef τ sig} (hb : IsArg b) : W19 m d b = W18 m d b :=
  Function.update_of_ne (by rcases hb with rfl | rfl | rfl <;> decide) _ _
theorem W20_arg {b : DevRef τ sig} (hb : IsArg b) : W20 m d b = W19 m d b :=
  (op19 (F := F)).result_of_not_mem (W19 m d)
    (by rcases hb with rfl | rfl | rfl <;> (show _ ∉ ({Proc.devRef .tc main_v17} : Finset (DevRef τ sig)); decide))
theorem W21_arg {b : DevRef τ sig} (hb : IsArg b) : W21 m d b = W20 m d b :=
  Function.update_of_ne (by rcases hb with rfl | rfl | rfl <;> decide) _ _
theorem W22_arg {b : DevRef τ sig} (hb : IsArg b) : W22 m d b = W21 m d b :=
  (op21 (F := F)).result_of_not_mem (W21 m d)
    (by rcases hb with rfl | rfl | rfl <;> (show _ ∉ ({Proc.devRef .tc main_v18} : Finset (DevRef τ sig)); decide))
theorem W23_arg {b : DevRef τ sig} (hb : IsArg b) : W23 m d b = W22 m d b :=
  (op22 (F := F)).result_of_not_mem (W22 m d)
    (by rcases hb with rfl | rfl | rfl <;> (show _ ∉ ({Proc.devRef .tc main_v19} : Finset (DevRef τ sig)); decide))
theorem W24_arg {b : DevRef τ sig} (hb : IsArg b) : W24 m d b = W23 m d b :=
  Function.update_of_ne (by rcases hb with rfl | rfl | rfl <;> decide) _ _
theorem W25_arg {b : DevRef τ sig} (hb : IsArg b) : W25 m d b = W24 m d b :=
  (op24 (F := F)).result_of_not_mem (W24 m d)
    (by rcases hb with rfl | rfl | rfl <;> (show _ ∉ ({Proc.devRef .tc main_v21} : Finset (DevRef τ sig)); decide))
theorem W26_arg {b : DevRef τ sig} (hb : IsArg b) : W26 m d b = W25 m d b :=
  Function.update_of_ne (by rcases hb with rfl | rfl | rfl <;> decide) _ _
theorem W27_arg {b : DevRef τ sig} (hb : IsArg b) : W27 m d b = W26 m d b :=
  (op26 (F := F)).result_of_not_mem (W26 m d)
    (by rcases hb with rfl | rfl | rfl <;> (show _ ∉ ({Proc.devRef .tc main_v22} : Finset (DevRef τ sig)); decide))

/-- At the end of @main an argument holds its launch contents; -/
theorem W27_arg_launch {b : DevRef τ sig} (hb : IsArg b) : W27 m d b = m (d, b) := by
  rw [W27_arg m d hb, W26_arg m d hb, W25_arg m d hb, W24_arg m d hb, W23_arg m d hb, W22_arg m d hb, W21_arg m d hb, W20_arg m d hb, W19_arg m d hb, W18_arg m d hb, W17_arg m d hb, W16_arg m d hb, W15_arg m d hb, W14_arg m d hb, W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl
theorem W4_arg_launch {b : DevRef τ sig} (hb : IsArg b) : W4 m d b = m (d, b) := by
  rw [W4_arg m d hb, W3_arg m d hb, W2_arg m d hb, W1_arg m d hb]
  rfl
theorem W8_arg_launch {b : DevRef τ sig} (hb : IsArg b) : W8 m d b = m (d, b) := by
  rw [W8_arg m d hb, W7_arg m d hb, W6_arg m d hb, W5_arg m d hb, W4_arg m d hb, W3_arg m d hb, W2_arg m d hb, W1_arg m d hb]
  rfl
theorem W13_arg_launch {b : DevRef τ sig} (hb : IsArg b) : W13 m d b = m (d, b) := by
  rw [W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl
theorem W18_arg_launch {b : DevRef τ sig} (hb : IsArg b) : W18 m d b = m (d, b) := by
  rw [W18_arg m d hb, W17_arg m d hb, W16_arg m d hb, W15_arg m d hb, W14_arg m d hb, W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl
theorem W23_arg_launch {b : DevRef τ sig} (hb : IsArg b) : W23 m d b = m (d, b) := by
  rw [W23_arg m d hb, W22_arg m d hb, W21_arg m d hb, W20_arg m d hb, W19_arg m d hb, W18_arg m d hb, W17_arg m d hb, W16_arg m d hb, W15_arg m d hb, W14_arg m d hb, W13_arg m d hb, W12_arg m d hb, W11_arg m d hb, W10_arg m d hb, W9_arg m d hb, W8_arg m d hb, W7_arg m d hb, W6_arg m d hb, W5_arg m d hb, W4_arg m d hb, W3_arg m d hb, W2_arg m d hb, W1_arg m d hb]
  rfl

end Cert.Kernel.Hand

end
-- ==== Proof.BEnd.lean ====
/-
  What @main leaves the claim and how the final memory reads it: the three arguments at their launch contents and
  the result array at the last valuation's contents.
-/
import proofs.«206421_g46840913330738_cont_8to1c4_247_26_alg».proof.Proof.BBase
import proofs.«206421_g46840913330738_cont_8to1c4_247_26_alg».proof.Proof.BKept

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev resLoc (d : Dev nD) : Loc nD τ sig := (SparseCore.T d).loc main_v22

/-- The result array's contents at the end of @main. -/
def resVal (d : Dev nD) : Buf (Elt F) (resLoc d) := W27 m d (r main_v22)

/-- What @main leaves the claim: the arguments as launched, the result. -/
def FIN (d : Dev nD) : sProp (MM F) :=
  iprop((a0Loc d ↦{fullShare} m (a0Loc d)) ∗ (a1Loc d ↦{fullShare} m (a1Loc d)) ∗ (a2Loc d ↦{fullShare} m (a2Loc d))
    ∗ (resLoc d ↦{fullShare} resVal m d))

/-- The four arrays the claim reads. -/
abbrev SF : Finset (DevRef τ sig) := {r main_arg0, r main_arg1, r main_arg2, r main_v22}
omit [FloatOps F] in
theorem SF_sub : SF ⊆ Sall := by decide

omit [FloatOps F] in
theorem held_SF (d : Dev nD) (V : Valuation τ sig (Elt F)) :
    (held (T d) SF V : sProp (MM F))
      = iprop((a0Loc d ↦{fullShare} V (r main_arg0)) ∗ (a1Loc d ↦{fullShare} V (r main_arg1)) ∗ (a2Loc d ↦{fullShare} V (r main_arg2))
          ∗ (resLoc d ↦{fullShare} V (r main_v22))) := by
  unfold held SF
  rw [SparseCore.bigSep_insert' (by decide), SparseCore.bigSep_insert' (by decide), SparseCore.bigSep_insert' (by decide), bigSep_singleton]

/-- All the TensorCore's arrays at the last valuation hold what the claim reads. -/
theorem held_FIN (d : Dev nD) : (held (T d) Sall (W27 m d) : sProp (MM F)) ⊢ FIN m d := by
  rw [held_sub_split (T d) SF_sub (W27 m d), held_SF,
    W27_arg_launch m d (Or.inl rfl), W27_arg_launch m d (Or.inr (Or.inl rfl)), W27_arg_launch m d (Or.inr (Or.inr rfl))]
  unfold FIN resVal
  iintro ⟨H, -⟩
  iexact H

def fq (d : Dev nD) (s' : Phys nD τ sig (Elt F)) : Prop :=
  s'.mem.mem (resLoc d) = resVal m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp (MM F)) := by
  unfold FIN
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := resLoc d) (I := Finset.univ) (q := fullShare) (f := resVal m d)) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

/-- The run's post, in the claim's shape: the result, then the three arguments. -/
def QC : PUnit × MemSt nD τ sig (Elt F) → Prop := fun x => ∀ c : Dev nD,
  x.2.mem (resLoc c) = resVal m c ∧ x.2.mem (a0Loc c) = m (a0Loc c) ∧ x.2.mem (a1Loc c) = m (a1Loc c) ∧ x.2.mem (a2Loc c) = m (a2Loc c)

end Cert.Kernel.Hand

end
-- ==== Proof.BLaunchElem.lean ====
/-
  The launch element of the ghost state and what it funds. The handshakes' component is the rounds library's
  element at the launch's handshake cells; the pipelines' component is the rounds library's element at the staging
  cells of the five matrix-product regions, which funds each region's cells and duty tokens; the counters' component
  is the unit. Nothing is dealt to a tile for its kernel: a gather task only issues local copies and waits for them.
-/
import proofs.«206421_g46840913330738_cont_8to1c4_247_26_alg».proof.Proof.BBase

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

/-- What the TensorCore of `d` starts @main from, beside what the launch theorem deals it: the five regions' staging
    cells, not yet under a schedule, and the duty tokens of the transfers their loops issue. -/
def G (d : Dev nD) : sProp (MM F) :=
  bigSep Finset.univ fun p : Fin 5 => iprop(Pipeline.cellsGhost (nD := nD) (τ := τ) cfgs EP p d ∗ Pipeline.toksInit (nD := nD) (τ := τ) cfgs EP p d)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem EP_eq : (EP : Emb UP (MM F)) = (Emb.inl : Emb UP (UP × Counters)).trans embR := rfl

theorem bigSep_emp' {I : Type} (s : Finset I) : (bigSep s fun _ => iprop(emp)) = (iprop(emp) : sProp (MM F)) := bigSep_emp_const s

/-- From the launch element: the handshakes' rounds, each TensorCore's five regions' ghost state, and nothing for the
    SparseCore threads. -/
theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun _ : Thread nD τ => bigSep Finset.univ fun _ : Fin 5 => (iprop(emp) : sProp (MM F))) := by
  unfold u₀
  iintro Hu
  ihave H := (ownU_pair _ _) $$ Hu
  icases H with ⟨HH, HR⟩
  ihave H2 := (own_pair_emb embR _ _) $$ HR
  icases H2 with ⟨HP, -⟩
  rw [← EP_eq]
  imod (Pipeline.fund_ghost (nD := nD) (τ := τ) cfgs EP cellOf_inj) $$ HP with ⟨Hg, Ht⟩
  imodintro
  isplitl [HH]; · iexact HH
  isplitl [Hg Ht]
  · unfold G
    simp only [bigSep_sep']
    isplitl [Hg]; · iexact Hg
    iexact Ht
  · rw [bigSep_congr fun _ _ => bigSep_emp' _, bigSep_emp']
    iempintro

end Cert.Kernel.Hand

end
-- ==== Proof.BSplit0.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.BBase
import proofs.«206421_g46840913330738_cont_8to1c4_247_26_alg».proof.Proof.BTile0Defs
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Task number t as grid coordinates: core t mod 2, subcore t div 2. -/
def tileL (t : Fin 32) : grid0.Coords := coordsV ⟨t.val % 2, by show t.val % 2 < 2; omega⟩ ⟨t.val / 2, by show t.val / 2 < 16; omega⟩

/-- (core, subcore) ↦ 2·subcore + core numbers the 32 tasks. -/
def tileE : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL (t : Fin 32) : wid (tileL t) = t.val := by
  show 2 * (t.val / 2) + t.val % 2 = t.val; omega

omit [FloatOps F] in
theorem tileL_tileE (c : Fin 2) (i : Fin 16) : tileL (tileE (c, i)) = coordsV c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles (X : grid0.Coords → sProp (MM F)) :
    (bigSep Finset.univ fun c : Fin 2 => bigSep Finset.univ fun i : Fin 16 => X (coordsV c i)) = bigSep Finset.univ fun t : Fin 32 => X (tileL t) := by
  rw [← bigSep_univ_prod (fun p : Fin 2 × Fin 16 => X (coordsV p.1 p.2)), bigSep_univ_equiv tileE (fun t => X (tileL t))]
  exact bigSep_congr fun p _ => by rw [tileL_tileE]

/-! ## The index array's 32 blocks -/

omit [FloatOps F] in
theorem idxOff_lead (t : Fin 32) : k0_off1 (tileL t) 0 = 1 * t.val := by
  rw [k0_off1_eq]; show 2 * (t.val / 2) + t.val % 2 = 1 * t.val; omega
omit [FloatOps F] in
theorem idxOff_rest (t : Fin 32) (a : Fin 3) (ha : a ≠ 0) : k0_off1 (tileL t) a = 0 := by
  rw [k0_off1_eq]
  match a with
  | 0 => exact absurd rfl ha
  | 1 => rfl
  | 2 => rfl

omit [FloatOps F] in
theorem idx_disj : ∀ t ∈ (Finset.univ : Finset (Fin 32)), ∀ t' ∈ (Finset.univ : Finset (Fin 32)), t ≠ t' →
    Disjoint (idxRows0 d (tileL t)) (idxRows0 d (tileL t')) :=
  fun t _ t' _ h => Ring.lead_disjoint (s := S32x40x128) (NB := 32) 0 1 (fun t => k0_off1 (tileL t)) S1x40x128.size (fun t => k0_off1_inb (tileL t))
    idxOff_lead rfl t t' h

omit [FloatOps F] in
theorem idx_cover : Finset.univ.biUnion (fun t : Fin 32 => idxRows0 d (tileL t)) = (Finset.univ : Finset (Idx (idxLoc d))) :=
  Ring.lead_cover (s := S32x40x128) (NB := 32) 0 1 (fun t => k0_off1 (tileL t)) S1x40x128.size (fun t => k0_off1_inb (tileL t))
    idxOff_lead idxOff_rest rfl (fun a ha => by match a with | 0 => exact absurd rfl ha | 1 => rfl | 2 => rfl) rfl

omit [FloatOps F] in
/-- The index array whole is its 32 blocks, at one contents function. -/
theorem idx_split (I : Buf (Elt F) (idxLoc d)) :
    (idxLoc d ↦{fullShare} I : sProp (MM F)) = bigSep Finset.univ fun t : Fin 32 => idxLoc d ↦[idxRows0 d (tileL t)]{fullShare} I := by
  rw [← pointsTo_biUnion Finset.univ _ (idx_disj d), idx_cover]

/-! ## The gathered array's 32 row ranges -/

omit [FloatOps F] in
theorem out_disj : ∀ t ∈ (Finset.univ : Finset (Fin 32)), ∀ t' ∈ (Finset.univ : Finset (Fin 32)), t ≠ t' →
    Disjoint (outRows0 d (tileL t)) (outRows0 d (tileL t')) :=
  fun t _ t' _ h => Ring.lead_disjoint (s := S163840x128) (NB := 32) 0 5120 (fun t => ![5120 * wid (tileL t), 0]) ![5120, 128] (fun t => outRect0_inb (tileL t))
    (fun t => by show 5120 * wid (tileL t) = 5120 * t.val; rw [wid_tileL]) rfl t t' h

omit [FloatOps F] in
theorem out_cover : Finset.univ.biUnion (fun t : Fin 32 => outRows0 d (tileL t)) = (Finset.univ : Finset (Idx (outLoc d))) :=
  Ring.lead_cover (s := S163840x128) (NB := 32) 0 5120 (fun t => ![5120 * wid (tileL t), 0]) ![5120, 128] (fun t => outRect0_inb (tileL t))
    (fun t => by show 5120 * wid (tileL t) = 5120 * t.val; rw [wid_tileL])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split (f : Buf (Elt F) (outLoc d)) :
    (outLoc d ↦{fullShare} f : sProp (MM F)) = bigSep Finset.univ fun t : Fin 32 => outLoc d ↦[outRows0 d (tileL t)]{fullShare} f := by
  rw [← pointsTo_biUnion Finset.univ _ (out_disj d), out_cover]

/-! ## The table's 32 read tokens -/

omit [FloatOps F] in
theorem tok_tile (tab : Buf (Elt F) (tabLoc d)) :
    (bigSep Finset.univ fun t : Fin 32 => (tabLoc d ↦[Finset.univ]{Transfers.shareTok fullShare 32 ⟨wid (tileL t), wid_lt (tileL t)⟩} tab : sProp (MM F)))
      = bigSep Finset.univ fun t : Fin 32 => tabLoc d ↦[Finset.univ]{Transfers.shareTok fullShare 32 t} tab :=
  bigSep_congr fun t _ => by rw [show (⟨wid (tileL t), wid_lt (tileL t)⟩ : Fin 32) = t from Fin.ext (wid_tileL t)]

/-! ## The call's operands to its tasks, and the results back -/

/-- The three whole arrays are the table's remainder and every task's operands. -/
theorem split0 (tab : Buf (Elt F) (tabLoc d)) (I : Buf (Elt F) (idxLoc d)) (f : Buf (Elt F) (outLoc d)) :
    iprop((tabLoc d ↦{fullShare} tab) ∗ (idxLoc d ↦{fullShare} I) ∗ (outLoc d ↦{fullShare} f))
      ⊢ (iprop((tabLoc d ↦{Transfers.shareDrop fullShare 32} tab)
          ∗ bigSep Finset.univ fun c : Fin 2 => bigSep Finset.univ fun i : Fin 16 => goRes0 d (coordsV c i) tab I f) : sProp (MM F)) := by
  rw [bigSep_tiles (fun L => goRes0 d L tab I f)]
  unfold goRes0
  simp only [bigSep_sep']
  rw [tok_tile, idx_split, out_split]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join0 (tab : Buf (Elt F) (tabLoc d)) (I : Buf (Elt F) (idxLoc d)) :
    (iprop((tabLoc d ↦{Transfers.shareDrop fullShare 32} tab)
        ∗ bigSep Finset.univ fun c : Fin 2 => bigSep Finset.univ fun i : Fin 16 => tdRes0 d (coordsV c i) tab I) : sProp (MM F))
      ⊢ iprop((tabLoc d ↦{fullShare} tab) ∗ (idxLoc d ↦{fullShare} I) ∗ (outLoc d ↦{fullShare} gathered0 tab I)) := by
  rw [bigSep_tiles (fun L => tdRes0 d L tab I)]
  unfold tdRes0
  simp only [bigSep_sep']
  rw [tok_tile, idx_split, out_split]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.Kernel.Hand

end
-- ==== Proof.BSplit2.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.BBase
import proofs.«206421_g46840913330738_cont_8to1c4_247_26_alg».proof.Proof.BTile2Defs
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV2 (c : Fin (grid2.bound 0)) (s : Fin (grid2.bound 1)) : grid2.Coords :=
  fun | 0 => c | 1 => s | ⟨_ + 2, h⟩ => absurd h (Nat.not_lt.2 (Nat.le_add_left _ _))

/-- Task number t as grid coordinates: core t mod 2, subcore t div 2. -/
def tileL2 (t : Fin 32) : grid2.Coords := coordsV2 ⟨t.val % 2, by show t.val % 2 < 2; omega⟩ ⟨t.val / 2, by show t.val / 2 < 16; omega⟩

/-- (core, subcore) ↦ 2·subcore + core numbers the 32 tasks. -/
def tileE2 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL2 (t : Fin 32) : wid2 (tileL2 t) = t.val := by
  show 2 * (t.val / 2) + t.val % 2 = t.val; omega

omit [FloatOps F] in
theorem tileL_tileE2 (c : Fin 2) (i : Fin 16) : tileL2 (tileE2 (c, i)) = coordsV2 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles2 (X : grid2.Coords → sProp (MM F)) :
    (bigSep Finset.univ fun c : Fin 2 => bigSep Finset.univ fun i : Fin 16 => X (coordsV2 c i)) = bigSep Finset.univ fun t : Fin 32 => X (tileL2 t) := by
  rw [← bigSep_univ_prod (fun p : Fin 2 × Fin 16 => X (coordsV2 p.1 p.2)), bigSep_univ_equiv tileE2 (fun t => X (tileL2 t))]
  exact bigSep_congr fun p _ => by rw [tileL_tileE2]

/-! ## The index array's 32 blocks -/

omit [FloatOps F] in
theorem idxOff_lead2 (t : Fin 32) : k2_off1 (tileL2 t) 0 = 1 * t.val := by
  rw [k2_off1_eq]; show 2 * (t.val / 2) + t.val % 2 = 1 * t.val; omega
omit [FloatOps F] in
theorem idxOff_rest2 (t : Fin 32) (a : Fin 3) (ha : a ≠ 0) : k2_off1 (tileL2 t) a = 0 := by
  rw [k2_off1_eq]
  match a with
  | 0 => exact absurd rfl ha
  | 1 => rfl
  | 2 => rfl

omit [FloatOps F] in
theorem idx_disj2 : ∀ t ∈ (Finset.univ : Finset (Fin 32)), ∀ t' ∈ (Finset.univ : Finset (Fin 32)), t ≠ t' →
    Disjoint (idxRows2 d (tileL2 t)) (idxRows2 d (tileL2 t')) :=
  fun t _ t' _ h => Ring.lead_disjoint (s := S32x40x128) (NB := 32) 0 1 (fun t => k2_off1 (tileL2 t)) S1x40x128.size (fun t => k2_off1_inb (tileL2 t))
    idxOff_lead2 rfl t t' h

omit [FloatOps F] in
theorem idx_cover2 : Finset.univ.biUnion (fun t : Fin 32 => idxRows2 d (tileL2 t)) = (Finset.univ : Finset (Idx (idxLoc2 d))) :=
  Ring.lead_cover (s := S32x40x128) (NB := 32) 0 1 (fun t => k2_off1 (tileL2 t)) S1x40x128.size (fun t => k2_off1_inb (tileL2 t))
    idxOff_lead2 idxOff_rest2 rfl (fun a ha => by match a with | 0 => exact absurd rfl ha | 1 => rfl | 2 => rfl) rfl

omit [FloatOps F] in
/-- The index array whole is its 32 blocks, at one contents function. -/
theorem idx_split2 (I : Buf (Elt F) (idxLoc2 d)) :
    (idxLoc2 d ↦{fullShare} I : sProp (MM F)) = bigSep Finset.univ fun t : Fin 32 => idxLoc2 d ↦[idxRows2 d (tileL2 t)]{fullShare} I := by
  rw [← pointsTo_biUnion Finset.univ _ (idx_disj2 d), idx_cover2]

/-! ## The gathered array's 32 row ranges -/

omit [FloatOps F] in
theorem out_disj2 : ∀ t ∈ (Finset.univ : Finset (Fin 32)), ∀ t' ∈ (Finset.univ : Finset (Fin 32)), t ≠ t' →
    Disjoint (outRows2 d (tileL2 t)) (outRows2 d (tileL2 t')) :=
  fun t _ t' _ h => Ring.lead_disjoint (s := S163840x128) (NB := 32) 0 5120 (fun t => ![5120 * wid2 (tileL2 t), 0]) ![5120, 128] (fun t => outRect2_inb (tileL2 t))
    (fun t => by show 5120 * wid2 (tileL2 t) = 5120 * t.val; rw [wid_tileL2]) rfl t t' h

omit [FloatOps F] in
theorem out_cover2 : Finset.univ.biUnion (fun t : Fin 32 => outRows2 d (tileL2 t)) = (Finset.univ : Finset (Idx (outLoc2 d))) :=
  Ring.lead_cover (s := S163840x128) (NB := 32) 0 5120 (fun t => ![5120 * wid2 (tileL2 t), 0]) ![5120, 128] (fun t => outRect2_inb (tileL2 t))
    (fun t => by show 5120 * wid2 (tileL2 t) = 5120 * t.val; rw [wid_tileL2])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split2 (f : Buf (Elt F) (outLoc2 d)) :
    (outLoc2 d ↦{fullShare} f : sProp (MM F)) = bigSep Finset.univ fun t : Fin 32 => outLoc2 d ↦[outRows2 d (tileL2 t)]{fullShare} f := by
  rw [← pointsTo_biUnion Finset.univ _ (out_disj2 d), out_cover2]

/-! ## The table's 32 read tokens -/

omit [FloatOps F] in
theorem tok_tile2 (tab : Buf (Elt F) (tabLoc2 d)) :
    (bigSep Finset.univ fun t : Fin 32 => (tabLoc2 d ↦[Finset.univ]{Transfers.shareTok fullShare 32 ⟨wid2 (tileL2 t), wid_lt2 (tileL2 t)⟩} tab : sProp (MM F)))
      = bigSep Finset.univ fun t : Fin 32 => tabLoc2 d ↦[Finset.univ]{Transfers.shareTok fullShare 32 t} tab :=
  bigSep_congr fun t _ => by rw [show (⟨wid2 (tileL2 t), wid_lt2 (tileL2 t)⟩ : Fin 32) = t from Fin.ext (wid_tileL2 t)]

/-! ## The call's operands to its tasks, and the results back -/

/-- The three whole arrays are the table's remainder and every task's operands. -/
theorem split2 (tab : Buf (Elt F) (tabLoc2 d)) (I : Buf (Elt F) (idxLoc2 d)) (f : Buf (Elt F) (outLoc2 d)) :
    iprop((tabLoc2 d ↦{fullShare} tab) ∗ (idxLoc2 d ↦{fullShare} I) ∗ (outLoc2 d ↦{fullShare} f))
      ⊢ (iprop((tabLoc2 d ↦{Transfers.shareDrop fullShare 32} tab)
          ∗ bigSep Finset.univ fun c : Fin 2 => bigSep Finset.univ fun i : Fin 16 => goRes2 d (coordsV2 c i) tab I f) : sProp (MM F)) := by
  rw [bigSep_tiles2 (fun L => goRes2 d L tab I f)]
  unfold goRes2
  simp only [bigSep_sep']
  rw [tok_tile2, idx_split2, out_split2]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join2 (tab : Buf (Elt F) (tabLoc2 d)) (I : Buf (Elt F) (idxLoc2 d)) :
    (iprop((tabLoc2 d ↦{Transfers.shareDrop fullShare 32} tab)
        ∗ bigSep Finset.univ fun c : Fin 2 => bigSep Finset.univ fun i : Fin 16 => tdRes2 d (coordsV2 c i) tab I) : sProp (MM F))
      ⊢ iprop((tabLoc2 d ↦{fullShare} tab) ∗ (idxLoc2 d ↦{fullShare} I) ∗ (outLoc2 d ↦{fullShare} gathered2 tab I)) := by
  rw [bigSep_tiles2 (fun L => tdRes2 d L tab I)]
  unfold tdRes2
  simp only [bigSep_sep']
  rw [tok_tile2, idx_split2, out_split2]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.Kernel.Hand

end
-- ==== Proof.BSplit4.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.BBase
import proofs.«206421_g46840913330738_cont_8to1c4_247_26_alg».proof.Proof.BTile4Defs
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV4 (c : Fin (grid4.bound 0)) (s : Fin (grid4.bound 1)) : grid4.Coords :=
  fun | 0 => c | 1 => s | ⟨_ + 2, h⟩ => absurd h (Nat.not_lt.2 (Nat.le_add_left _ _))

/-- Task number t as grid coordinates: core t mod 2, subcore t div 2. -/
def tileL4 (t : Fin 32) : grid4.Coords := coordsV4 ⟨t.val % 2, by show t.val % 2 < 2; omega⟩ ⟨t.val / 2, by show t.val / 2 < 16; omega⟩

/-- (core, subcore) ↦ 2·subcore + core numbers the 32 tasks. -/
def tileE4 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL4 (t : Fin 32) : wid4 (tileL4 t) = t.val := by
  show 2 * (t.val / 2) + t.val % 2 = t.val; omega

omit [FloatOps F] in
theorem tileL_tileE4 (c : Fin 2) (i : Fin 16) : tileL4 (tileE4 (c, i)) = coordsV4 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles4 (X : grid4.Coords → sProp (MM F)) :
    (bigSep Finset.univ fun c : Fin 2 => bigSep Finset.univ fun i : Fin 16 => X (coordsV4 c i)) = bigSep Finset.univ fun t : Fin 32 => X (tileL4 t) := by
  rw [← bigSep_univ_prod (fun p : Fin 2 × Fin 16 => X (coordsV4 p.1 p.2)), bigSep_univ_equiv tileE4 (fun t => X (tileL4 t))]
  exact bigSep_congr fun p _ => by rw [tileL_tileE4]

/-! ## The index array's 32 blocks -/

omit [FloatOps F] in
theorem idxOff_lead4 (t : Fin 32) : k4_off1 (tileL4 t) 0 = 1 * t.val := by
  rw [k4_off1_eq]; show 2 * (t.val / 2) + t.val % 2 = 1 * t.val; omega
omit [FloatOps F] in
theorem idxOff_rest4 (t : Fin 32) (a : Fin 3) (ha : a ≠ 0) : k4_off1 (tileL4 t) a = 0 := by
  rw [k4_off1_eq]
  match a with
  | 0 => exact absurd rfl ha
  | 1 => rfl
  | 2 => rfl

omit [FloatOps F] in
theorem idx_disj4 : ∀ t ∈ (Finset.univ : Finset (Fin 32)), ∀ t' ∈ (Finset.univ : Finset (Fin 32)), t ≠ t' →
    Disjoint (idxRows4 d (tileL4 t)) (idxRows4 d (tileL4 t')) :=
  fun t _ t' _ h => Ring.lead_disjoint (s := S32x40x128) (NB := 32) 0 1 (fun t => k4_off1 (tileL4 t)) S1x40x128.size (fun t => k4_off1_inb (tileL4 t))
    idxOff_lead4 rfl t t' h

omit [FloatOps F] in
theorem idx_cover4 : Finset.univ.biUnion (fun t : Fin 32 => idxRows4 d (tileL4 t)) = (Finset.univ : Finset (Idx (idxLoc4 d))) :=
  Ring.lead_cover (s := S32x40x128) (NB := 32) 0 1 (fun t => k4_off1 (tileL4 t)) S1x40x128.size (fun t => k4_off1_inb (tileL4 t))
    idxOff_lead4 idxOff_rest4 rfl (fun a ha => by match a with | 0 => exact absurd rfl ha | 1 => rfl | 2 => rfl) rfl

omit [FloatOps F] in
/-- The index array whole is its 32 blocks, at one contents function. -/
theorem idx_split4 (I : Buf (Elt F) (idxLoc4 d)) :
    (idxLoc4 d ↦{fullShare} I : sProp (MM F)) = bigSep Finset.univ fun t : Fin 32 => idxLoc4 d ↦[idxRows4 d (tileL4 t)]{fullShare} I := by
  rw [← pointsTo_biUnion Finset.univ _ (idx_disj4 d), idx_cover4]

/-! ## The gathered array's 32 row ranges -/

omit [FloatOps F] in
theorem out_disj4 : ∀ t ∈ (Finset.univ : Finset (Fin 32)), ∀ t' ∈ (Finset.univ : Finset (Fin 32)), t ≠ t' →
    Disjoint (outRows4 d (tileL4 t)) (outRows4 d (tileL4 t')) :=
  fun t _ t' _ h => Ring.lead_disjoint (s := S163840x128) (NB := 32) 0 5120 (fun t => ![5120 * wid4 (tileL4 t), 0]) ![5120, 128] (fun t => outRect4_inb (tileL4 t))
    (fun t => by show 5120 * wid4 (tileL4 t) = 5120 * t.val; rw [wid_tileL4]) rfl t t' h

omit [FloatOps F] in
theorem out_cover4 : Finset.univ.biUnion (fun t : Fin 32 => outRows4 d (tileL4 t)) = (Finset.univ : Finset (Idx (outLoc4 d))) :=
  Ring.lead_cover (s := S163840x128) (NB := 32) 0 5120 (fun t => ![5120 * wid4 (tileL4 t), 0]) ![5120, 128] (fun t => outRect4_inb (tileL4 t))
    (fun t => by show 5120 * wid4 (tileL4 t) = 5120 * t.val; rw [wid_tileL4])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split4 (f : Buf (Elt F) (outLoc4 d)) :
    (outLoc4 d ↦{fullShare} f : sProp (MM F)) = bigSep Finset.univ fun t : Fin 32 => outLoc4 d ↦[outRows4 d (tileL4 t)]{fullShare} f := by
  rw [← pointsTo_biUnion Finset.univ _ (out_disj4 d), out_cover4]

/-! ## The table's 32 read tokens -/

omit [FloatOps F] in
theorem tok_tile4 (tab : Buf (Elt F) (tabLoc4 d)) :
    (bigSep Finset.univ fun t : Fin 32 => (tabLoc4 d ↦[Finset.univ]{Transfers.shareTok fullShare 32 ⟨wid4 (tileL4 t), wid_lt4 (tileL4 t)⟩} tab : sProp (MM F)))
      = bigSep Finset.univ fun t : Fin 32 => tabLoc4 d ↦[Finset.univ]{Transfers.shareTok fullShare 32 t} tab :=
  bigSep_congr fun t _ => by rw [show (⟨wid4 (tileL4 t), wid_lt4 (tileL4 t)⟩ : Fin 32) = t from Fin.ext (wid_tileL4 t)]

/-! ## The call's operands to its tasks, and the results back -/

/-- The three whole arrays are the table's remainder and every task's operands. -/
theorem split4 (tab : Buf (Elt F) (tabLoc4 d)) (I : Buf (Elt F) (idxLoc4 d)) (f : Buf (Elt F) (outLoc4 d)) :
    iprop((tabLoc4 d ↦{fullShare} tab) ∗ (idxLoc4 d ↦{fullShare} I) ∗ (outLoc4 d ↦{fullShare} f))
      ⊢ (iprop((tabLoc4 d ↦{Transfers.shareDrop fullShare 32} tab)
          ∗ bigSep Finset.univ fun c : Fin 2 => bigSep Finset.univ fun i : Fin 16 => goRes4 d (coordsV4 c i) tab I f) : sProp (MM F)) := by
  rw [bigSep_tiles4 (fun L => goRes4 d L tab I f)]
  unfold goRes4
  simp only [bigSep_sep']
  rw [tok_tile4, idx_split4, out_split4]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join4 (tab : Buf (Elt F) (tabLoc4 d)) (I : Buf (Elt F) (idxLoc4 d)) :
    (iprop((tabLoc4 d ↦{Transfers.shareDrop fullShare 32} tab)
        ∗ bigSep Finset.univ fun c : Fin 2 => bigSep Finset.univ fun i : Fin 16 => tdRes4 d (coordsV4 c i) tab I) : sProp (MM F))
      ⊢ iprop((tabLoc4 d ↦{fullShare} tab) ∗ (idxLoc4 d ↦{fullShare} I) ∗ (outLoc4 d ↦{fullShare} gathered4 tab I)) := by
  rw [bigSep_tiles4 (fun L => tdRes4 d L tab I)]
  unfold tdRes4
  simp only [bigSep_sep']
  rw [tok_tile4, idx_split4, out_split4]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.Kernel.Hand

end
-- ==== Proof.BSplit6.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.BBase
import proofs.«206421_g46840913330738_cont_8to1c4_247_26_alg».proof.Proof.BTile6Defs
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV6 (c : Fin (grid6.bound 0)) (s : Fin (grid6.bound 1)) : grid6.Coords :=
  fun | 0 => c | 1 => s | ⟨_ + 2, h⟩ => absurd h (Nat.not_lt.2 (Nat.le_add_left _ _))

/-- Task number t as grid coordinates: core t mod 2, subcore t div 2. -/
def tileL6 (t : Fin 32) : grid6.Coords := coordsV6 ⟨t.val % 2, by show t.val % 2 < 2; omega⟩ ⟨t.val / 2, by show t.val / 2 < 16; omega⟩

/-- (core, subcore) ↦ 2·subcore + core numbers the 32 tasks. -/
def tileE6 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL6 (t : Fin 32) : wid6 (tileL6 t) = t.val := by
  show 2 * (t.val / 2) + t.val % 2 = t.val; omega

omit [FloatOps F] in
theorem tileL_tileE6 (c : Fin 2) (i : Fin 16) : tileL6 (tileE6 (c, i)) = coordsV6 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles6 (X : grid6.Coords → sProp (MM F)) :
    (bigSep Finset.univ fun c : Fin 2 => bigSep Finset.univ fun i : Fin 16 => X (coordsV6 c i)) = bigSep Finset.univ fun t : Fin 32 => X (tileL6 t) := by
  rw [← bigSep_univ_prod (fun p : Fin 2 × Fin 16 => X (coordsV6 p.1 p.2)), bigSep_univ_equiv tileE6 (fun t => X (tileL6 t))]
  exact bigSep_congr fun p _ => by rw [tileL_tileE6]

/-! ## The index array's 32 blocks -/

omit [FloatOps F] in
theorem idxOff_lead6 (t : Fin 32) : k6_off1 (tileL6 t) 0 = 1 * t.val := by
  rw [k6_off1_eq]; show 2 * (t.val / 2) + t.val % 2 = 1 * t.val; omega
omit [FloatOps F] in
theorem idxOff_rest6 (t : Fin 32) (a : Fin 3) (ha : a ≠ 0) : k6_off1 (tileL6 t) a = 0 := by
  rw [k6_off1_eq]
  match a with
  | 0 => exact absurd rfl ha
  | 1 => rfl
  | 2 => rfl

omit [FloatOps F] in
theorem idx_disj6 : ∀ t ∈ (Finset.univ : Finset (Fin 32)), ∀ t' ∈ (Finset.univ : Finset (Fin 32)), t ≠ t' →
    Disjoint (idxRows6 d (tileL6 t)) (idxRows6 d (tileL6 t')) :=
  fun t _ t' _ h => Ring.lead_disjoint (s := S32x40x128) (NB := 32) 0 1 (fun t => k6_off1 (tileL6 t)) S1x40x128.size (fun t => k6_off1_inb (tileL6 t))
    idxOff_lead6 rfl t t' h

omit [FloatOps F] in
theorem idx_cover6 : Finset.univ.biUnion (fun t : Fin 32 => idxRows6 d (tileL6 t)) = (Finset.univ : Finset (Idx (idxLoc6 d))) :=
  Ring.lead_cover (s := S32x40x128) (NB := 32) 0 1 (fun t => k6_off1 (tileL6 t)) S1x40x128.size (fun t => k6_off1_inb (tileL6 t))
    idxOff_lead6 idxOff_rest6 rfl (fun a ha => by match a with | 0 => exact absurd rfl ha | 1 => rfl | 2 => rfl) rfl

omit [FloatOps F] in
/-- The index array whole is its 32 blocks, at one contents function. -/
theorem idx_split6 (I : Buf (Elt F) (idxLoc6 d)) :
    (idxLoc6 d ↦{fullShare} I : sProp (MM F)) = bigSep Finset.univ fun t : Fin 32 => idxLoc6 d ↦[idxRows6 d (tileL6 t)]{fullShare} I := by
  rw [← pointsTo_biUnion Finset.univ _ (idx_disj6 d), idx_cover6]

/-! ## The gathered array's 32 row ranges -/

omit [FloatOps F] in
theorem out_disj6 : ∀ t ∈ (Finset.univ : Finset (Fin 32)), ∀ t' ∈ (Finset.univ : Finset (Fin 32)), t ≠ t' →
    Disjoint (outRows6 d (tileL6 t)) (outRows6 d (tileL6 t')) :=
  fun t _ t' _ h => Ring.lead_disjoint (s := S163840x128) (NB := 32) 0 5120 (fun t => ![5120 * wid6 (tileL6 t), 0]) ![5120, 128] (fun t => outRect6_inb (tileL6 t))
    (fun t => by show 5120 * wid6 (tileL6 t) = 5120 * t.val; rw [wid_tileL6]) rfl t t' h

omit [FloatOps F] in
theorem out_cover6 : Finset.univ.biUnion (fun t : Fin 32 => outRows6 d (tileL6 t)) = (Finset.univ : Finset (Idx (outLoc6 d))) :=
  Ring.lead_cover (s := S163840x128) (NB := 32) 0 5120 (fun t => ![5120 * wid6 (tileL6 t), 0]) ![5120, 128] (fun t => outRect6_inb (tileL6 t))
    (fun t => by show 5120 * wid6 (tileL6 t) = 5120 * t.val; rw [wid_tileL6])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split6 (f : Buf (Elt F) (outLoc6 d)) :
    (outLoc6 d ↦{fullShare} f : sProp (MM F)) = bigSep Finset.univ fun t : Fin 32 => outLoc6 d ↦[outRows6 d (tileL6 t)]{fullShare} f := by
  rw [← pointsTo_biUnion Finset.univ _ (out_disj6 d), out_cover6]

/-! ## The table's 32 read tokens -/

omit [FloatOps F] in
theorem tok_tile6 (tab : Buf (Elt F) (tabLoc6 d)) :
    (bigSep Finset.univ fun t : Fin 32 => (tabLoc6 d ↦[Finset.univ]{Transfers.shareTok fullShare 32 ⟨wid6 (tileL6 t), wid_lt6 (tileL6 t)⟩} tab : sProp (MM F)))
      = bigSep Finset.univ fun t : Fin 32 => tabLoc6 d ↦[Finset.univ]{Transfers.shareTok fullShare 32 t} tab :=
  bigSep_congr fun t _ => by rw [show (⟨wid6 (tileL6 t), wid_lt6 (tileL6 t)⟩ : Fin 32) = t from Fin.ext (wid_tileL6 t)]

/-! ## The call's operands to its tasks, and the results back -/

/-- The three whole arrays are the table's remainder and every task's operands. -/
theorem split6 (tab : Buf (Elt F) (tabLoc6 d)) (I : Buf (Elt F) (idxLoc6 d)) (f : Buf (Elt F) (outLoc6 d)) :
    iprop((tabLoc6 d ↦{fullShare} tab) ∗ (idxLoc6 d ↦{fullShare} I) ∗ (outLoc6 d ↦{fullShare} f))
      ⊢ (iprop((tabLoc6 d ↦{Transfers.shareDrop fullShare 32} tab)
          ∗ bigSep Finset.univ fun c : Fin 2 => bigSep Finset.univ fun i : Fin 16 => goRes6 d (coordsV6 c i) tab I f) : sProp (MM F)) := by
  rw [bigSep_tiles6 (fun L => goRes6 d L tab I f)]
  unfold goRes6
  simp only [bigSep_sep']
  rw [tok_tile6, idx_split6, out_split6]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join6 (tab : Buf (Elt F) (tabLoc6 d)) (I : Buf (Elt F) (idxLoc6 d)) :
    (iprop((tabLoc6 d ↦{Transfers.shareDrop fullShare 32} tab)
        ∗ bigSep Finset.univ fun c : Fin 2 => bigSep Finset.univ fun i : Fin 16 => tdRes6 d (coordsV6 c i) tab I) : sProp (MM F))
      ⊢ iprop((tabLoc6 d ↦{fullShare} tab) ∗ (idxLoc6 d ↦{fullShare} I) ∗ (outLoc6 d ↦{fullShare} gathered6 tab I)) := by
  rw [bigSep_tiles6 (fun L => tdRes6 d L tab I)]
  unfold tdRes6
  simp only [bigSep_sep']
  rw [tok_tile6, idx_split6, out_split6]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.Kernel.Hand

end
-- ==== Proof.BSplit8.lean ====
/-
  The whole arrays of the first gather call split among its 32 tasks and joined again. Task t = 2·subcore + core
  takes a read token of the whole table, block t of the index array (its leading coordinate is t) and rows
  [5120·t, 5120·t + 5120) of the gathered array. The 32 index blocks are pairwise disjoint and cover the index array,
  the 32 row ranges are pairwise disjoint and cover the gathered array, so a whole array is the separating
  conjunction of its 32 pieces at ONE contents function; the table's 32 read tokens and the remainder compose to the
  full share.
-/
import proofs.«206421_g46840913330738_cont_8to1c4_247_26_alg».proof.Proof.BBase
import proofs.«206421_g46840913330738_cont_8to1c4_247_26_alg».proof.Proof.BTile8Defs
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable [FloatOps F] (d : Dev nD)

/-- The grid coordinates of the task on SparseCore `c`, subcore `s`. -/
def coordsV8 (c : Fin (grid8.bound 0)) (s : Fin (grid8.bound 1)) : grid8.Coords :=
  fun | 0 => c | 1 => s | ⟨_ + 2, h⟩ => absurd h (Nat.not_lt.2 (Nat.le_add_left _ _))

/-- Task number t as grid coordinates: core t mod 2, subcore t div 2. -/
def tileL8 (t : Fin 32) : grid8.Coords := coordsV8 ⟨t.val % 2, by show t.val % 2 < 2; omega⟩ ⟨t.val / 2, by show t.val / 2 < 16; omega⟩

/-- (core, subcore) ↦ 2·subcore + core numbers the 32 tasks. -/
def tileE8 : Fin 2 × Fin 16 ≃ Fin 32 where
  toFun p := ⟨2 * p.2.val + p.1.val, by omega⟩
  invFun t := (⟨t.val % 2, by omega⟩, ⟨t.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

omit [FloatOps F] in
theorem wid_tileL8 (t : Fin 32) : wid8 (tileL8 t) = t.val := by
  show 2 * (t.val / 2) + t.val % 2 = t.val; omega

omit [FloatOps F] in
theorem tileL_tileE8 (c : Fin 2) (i : Fin 16) : tileL8 (tileE8 (c, i)) = coordsV8 c i := by
  funext a
  match a with
  | 0 => exact Fin.ext (by show (2 * i.val + c.val) % 2 = c.val; omega)
  | 1 => exact Fin.ext (by show (2 * i.val + c.val) / 2 = i.val; omega)

omit [FloatOps F] in
/-- A conjunction over cores and subcores is one over the 32 task numbers. -/
theorem bigSep_tiles8 (X : grid8.Coords → sProp (MM F)) :
    (bigSep Finset.univ fun c : Fin 2 => bigSep Finset.univ fun i : Fin 16 => X (coordsV8 c i)) = bigSep Finset.univ fun t : Fin 32 => X (tileL8 t) := by
  rw [← bigSep_univ_prod (fun p : Fin 2 × Fin 16 => X (coordsV8 p.1 p.2)), bigSep_univ_equiv tileE8 (fun t => X (tileL8 t))]
  exact bigSep_congr fun p _ => by rw [tileL_tileE8]

/-! ## The index array's 32 blocks -/

omit [FloatOps F] in
theorem idxOff_lead8 (t : Fin 32) : k8_off1 (tileL8 t) 0 = 1 * t.val := by
  rw [k8_off1_eq]; show 2 * (t.val / 2) + t.val % 2 = 1 * t.val; omega
omit [FloatOps F] in
theorem idxOff_rest8 (t : Fin 32) (a : Fin 3) (ha : a ≠ 0) : k8_off1 (tileL8 t) a = 0 := by
  rw [k8_off1_eq]
  match a with
  | 0 => exact absurd rfl ha
  | 1 => rfl
  | 2 => rfl

omit [FloatOps F] in
theorem idx_disj8 : ∀ t ∈ (Finset.univ : Finset (Fin 32)), ∀ t' ∈ (Finset.univ : Finset (Fin 32)), t ≠ t' →
    Disjoint (idxRows8 d (tileL8 t)) (idxRows8 d (tileL8 t')) :=
  fun t _ t' _ h => Ring.lead_disjoint (s := S32x40x128) (NB := 32) 0 1 (fun t => k8_off1 (tileL8 t)) S1x40x128.size (fun t => k8_off1_inb (tileL8 t))
    idxOff_lead8 rfl t t' h

omit [FloatOps F] in
theorem idx_cover8 : Finset.univ.biUnion (fun t : Fin 32 => idxRows8 d (tileL8 t)) = (Finset.univ : Finset (Idx (idxLoc8 d))) :=
  Ring.lead_cover (s := S32x40x128) (NB := 32) 0 1 (fun t => k8_off1 (tileL8 t)) S1x40x128.size (fun t => k8_off1_inb (tileL8 t))
    idxOff_lead8 idxOff_rest8 rfl (fun a ha => by match a with | 0 => exact absurd rfl ha | 1 => rfl | 2 => rfl) rfl

omit [FloatOps F] in
/-- The index array whole is its 32 blocks, at one contents function. -/
theorem idx_split8 (I : Buf (Elt F) (idxLoc8 d)) :
    (idxLoc8 d ↦{fullShare} I : sProp (MM F)) = bigSep Finset.univ fun t : Fin 32 => idxLoc8 d ↦[idxRows8 d (tileL8 t)]{fullShare} I := by
  rw [← pointsTo_biUnion Finset.univ _ (idx_disj8 d), idx_cover8]

/-! ## The gathered array's 32 row ranges -/

omit [FloatOps F] in
theorem out_disj8 : ∀ t ∈ (Finset.univ : Finset (Fin 32)), ∀ t' ∈ (Finset.univ : Finset (Fin 32)), t ≠ t' →
    Disjoint (outRows8 d (tileL8 t)) (outRows8 d (tileL8 t')) :=
  fun t _ t' _ h => Ring.lead_disjoint (s := S163840x128) (NB := 32) 0 5120 (fun t => ![5120 * wid8 (tileL8 t), 0]) ![5120, 128] (fun t => outRect8_inb (tileL8 t))
    (fun t => by show 5120 * wid8 (tileL8 t) = 5120 * t.val; rw [wid_tileL8]) rfl t t' h

omit [FloatOps F] in
theorem out_cover8 : Finset.univ.biUnion (fun t : Fin 32 => outRows8 d (tileL8 t)) = (Finset.univ : Finset (Idx (outLoc8 d))) :=
  Ring.lead_cover (s := S163840x128) (NB := 32) 0 5120 (fun t => ![5120 * wid8 (tileL8 t), 0]) ![5120, 128] (fun t => outRect8_inb (tileL8 t))
    (fun t => by show 5120 * wid8 (tileL8 t) = 5120 * t.val; rw [wid_tileL8])
    (fun t a ha => by match a with | 0 => exact absurd rfl ha | 1 => rfl) rfl
    (fun a ha => by match a with | 0 => exact absurd rfl ha | 1 => rfl) rfl

omit [FloatOps F] in
/-- The gathered array whole is its 32 row ranges, at one contents function. -/
theorem out_split8 (f : Buf (Elt F) (outLoc8 d)) :
    (outLoc8 d ↦{fullShare} f : sProp (MM F)) = bigSep Finset.univ fun t : Fin 32 => outLoc8 d ↦[outRows8 d (tileL8 t)]{fullShare} f := by
  rw [← pointsTo_biUnion Finset.univ _ (out_disj8 d), out_cover8]

/-! ## The table's 32 read tokens -/

omit [FloatOps F] in
theorem tok_tile8 (tab : Buf (Elt F) (tabLoc8 d)) :
    (bigSep Finset.univ fun t : Fin 32 => (tabLoc8 d ↦[Finset.univ]{Transfers.shareTok fullShare 32 ⟨wid8 (tileL8 t), wid_lt8 (tileL8 t)⟩} tab : sProp (MM F)))
      = bigSep Finset.univ fun t : Fin 32 => tabLoc8 d ↦[Finset.univ]{Transfers.shareTok fullShare 32 t} tab :=
  bigSep_congr fun t _ => by rw [show (⟨wid8 (tileL8 t), wid_lt8 (tileL8 t)⟩ : Fin 32) = t from Fin.ext (wid_tileL8 t)]

/-! ## The call's operands to its tasks, and the results back -/

/-- The three whole arrays are the table's remainder and every task's operands. -/
theorem split8 (tab : Buf (Elt F) (tabLoc8 d)) (I : Buf (Elt F) (idxLoc8 d)) (f : Buf (Elt F) (outLoc8 d)) :
    iprop((tabLoc8 d ↦{fullShare} tab) ∗ (idxLoc8 d ↦{fullShare} I) ∗ (outLoc8 d ↦{fullShare} f))
      ⊢ (iprop((tabLoc8 d ↦{Transfers.shareDrop fullShare 32} tab)
          ∗ bigSep Finset.univ fun c : Fin 2 => bigSep Finset.univ fun i : Fin 16 => goRes8 d (coordsV8 c i) tab I f) : sProp (MM F)) := by
  rw [bigSep_tiles8 (fun L => goRes8 d L tab I f)]
  unfold goRes8
  simp only [bigSep_sep']
  rw [tok_tile8, idx_split8, out_split8]
  iintro ⟨Ht, Hi, Ho⟩
  ihave Ht' := (Transfers.pointsTo_toks_split fullShare 32) $$ Ht
  icases Ht' with ⟨Hrem, Htoks⟩
  isplitl [Hrem]; · iexact Hrem
  isplitl [Htoks]; · iexact Htoks
  isplitl [Hi]; · iexact Hi
  iexact Ho

/-- The table's remainder and every task's results are the three whole arrays, the gathered one at the gathered rows. -/
theorem join8 (tab : Buf (Elt F) (tabLoc8 d)) (I : Buf (Elt F) (idxLoc8 d)) :
    (iprop((tabLoc8 d ↦{Transfers.shareDrop fullShare 32} tab)
        ∗ bigSep Finset.univ fun c : Fin 2 => bigSep Finset.univ fun i : Fin 16 => tdRes8 d (coordsV8 c i) tab I) : sProp (MM F))
      ⊢ iprop((tabLoc8 d ↦{fullShare} tab) ∗ (idxLoc8 d ↦{fullShare} I) ∗ (outLoc8 d ↦{fullShare} gathered8 tab I)) := by
  rw [bigSep_tiles8 (fun L => tdRes8 d L tab I)]
  unfold tdRes8
  simp only [bigSep_sep']
  rw [tok_tile8, idx_split8, out_split8]
  iintro ⟨Hrem, Htoks, Hi, Ho⟩
  isplitl [Hrem Htoks]
  · iapply (Transfers.pointsTo_toks_join fullShare 32)
    isplitl [Hrem]; · iexact Hrem
    iexact Htoks
  isplitl [Hi]; · iexact Hi
  iexact Ho

end Cert.Kernel.Hand

end
-- ==== Proof.BPay.lean ====
/-
  What the launch's handshakes carry at each gather call. A call hands each SparseCore the operands of its sixteen
  tasks, side by side, and gets their results back side by side; a task's operands are its read token of the table,
  its block of the call's index array and its rows of the call's gathered array, at the contents the TensorCore's
  arrays hold when the call is made; its results are the same with its rows at the gathered rows. A SparseCore's
  operands ARE its tasks' operands, so handing them on is the identity.
-/
import proofs.«206421_g46840913330738_cont_8to1c4_247_26_alg».proof.Proof.BBase
import proofs.«206421_g46840913330738_cont_8to1c4_247_26_alg».proof.Proof.BVals
import proofs.«206421_g46840913330738_cont_8to1c4_247_26_alg».proof.Proof.BSplit0
import proofs.«206421_g46840913330738_cont_8to1c4_247_26_alg».proof.Proof.BSplit2
import proofs.«206421_g46840913330738_cont_8to1c4_247_26_alg».proof.Proof.BSplit4
import proofs.«206421_g46840913330738_cont_8to1c4_247_26_alg».proof.Proof.BSplit6
import proofs.«206421_g46840913330738_cont_8to1c4_247_26_alg».proof.Proof.BSplit8

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- What task (c, i) of call q is handed. -/
def goAt (q : Fin 5) (d : Dev nD) (c : Fin ((K (F := F)).nCore q)) (i : Fin ((K (F := F)).nSub q)) : sProp (MM F) :=
  match q with
  | 0 => goRes0 d (coordsV c i) (W4 m d (r main_arg1)) (W4 m d (r main_v3)) (W4 m d (r main_v4))
  | 1 => goRes2 d (coordsV2 c i) (W8 m d (r main_arg1)) (W8 m d (r main_v7)) (W8 m d (r main_v8))
  | 2 => goRes4 d (coordsV4 c i) (W13 m d (r main_arg1)) (W13 m d (r main_v11)) (W13 m d (r main_v12))
  | 3 => goRes6 d (coordsV6 c i) (W18 m d (r main_arg1)) (W18 m d (r main_v15)) (W18 m d (r main_v16))
  | 4 => goRes8 d (coordsV8 c i) (W23 m d (r main_arg1)) (W23 m d (r main_v19)) (W23 m d (r main_v20))
  | ⟨_ + 5, h⟩ => absurd h (Nat.not_lt.2 (Nat.le_add_left _ _))

/-- What it hands back. -/
def tdAt (q : Fin 5) (d : Dev nD) (c : Fin ((K (F := F)).nCore q)) (i : Fin ((K (F := F)).nSub q)) : sProp (MM F) :=
  match q with
  | 0 => tdRes0 d (coordsV c i) (W4 m d (r main_arg1)) (W4 m d (r main_v3))
  | 1 => tdRes2 d (coordsV2 c i) (W8 m d (r main_arg1)) (W8 m d (r main_v7))
  | 2 => tdRes4 d (coordsV4 c i) (W13 m d (r main_arg1)) (W13 m d (r main_v11))
  | 3 => tdRes6 d (coordsV6 c i) (W18 m d (r main_arg1)) (W18 m d (r main_v15))
  | 4 => tdRes8 d (coordsV8 c i) (W23 m d (r main_arg1)) (W23 m d (r main_v19))
  | ⟨_ + 5, h⟩ => absurd h (Nat.not_lt.2 (Nat.le_add_left _ _))

instance goAt_storable (q : Fin 5) (d : Dev nD) (c : Fin ((K (F := F)).nCore q)) (i : Fin ((K (F := F)).nSub q)) :
    BI.Storable (upEmb : UEmb _ (MM F)) (goAt m q d c i) := by
  match q with
  | 0 => unfold goAt goRes0; infer_instance
  | 1 => unfold goAt goRes2; infer_instance
  | 2 => unfold goAt goRes4; infer_instance
  | 3 => unfold goAt goRes6; infer_instance
  | 4 => unfold goAt goRes8; infer_instance
  | ⟨_ + 5, h⟩ => exact absurd h (Nat.not_lt.2 (Nat.le_add_left _ _))

instance tdAt_storable (q : Fin 5) (d : Dev nD) (c : Fin ((K (F := F)).nCore q)) (i : Fin ((K (F := F)).nSub q)) :
    BI.Storable (upEmb : UEmb _ (MM F)) (tdAt m q d c i) := by
  match q with
  | 0 => unfold tdAt tdRes0; infer_instance
  | 1 => unfold tdAt tdRes2; infer_instance
  | 2 => unfold tdAt tdRes4; infer_instance
  | 3 => unfold tdAt tdRes6; infer_instance
  | 4 => unfold tdAt tdRes8; infer_instance
  | ⟨_ + 5, h⟩ => exact absurd h (Nat.not_lt.2 (Nat.le_add_left _ _))

/-- The five calls' payloads. -/
def P : (K (F := F)).Pay (nD := nD) (Val := Elt F) (Name := ℕ) (U := UU) where
  st := fun q d c => bigSep Finset.univ fun i : Fin ((K (F := F)).nSub q) => goAt m q d c i
  dn := fun q d c => bigSep Finset.univ fun i : Fin ((K (F := F)).nSub q) => tdAt m q d c i
  go := goAt m
  td := tdAt m
  x := fun _ _ => iprop(emp)

instance P_storable : (P (F := F) m).IsStorable where
  st q d c := by unfold P; infer_instance
  dn q d c := by unfold P; infer_instance
  go q d c i := by unfold P; infer_instance
  td q d c i := by unfold P; infer_instance

/-- A SparseCore's operands are its tasks', and their results its own. -/
theorem vecSplit (q : Fin 5) : (K (F := F)).VecSplit' (P m) q := by
  intro d c
  show (bigSep Finset.univ fun i : Fin ((K (F := F)).nSub q) => goAt m q d c i)
    ⊢ |={Set.univ}=> iprop((bigSep Finset.univ fun i : Fin ((K (F := F)).nSub q) => goAt m q d c i)
      ∗ ((bigSep Finset.univ fun i : Fin ((K (F := F)).nSub q) => tdAt m q d c i) -∗ bigSep Finset.univ fun i : Fin ((K (F := F)).nSub q) => tdAt m q d c i))
  iintro H
  imodintro
  isplitl [H]; · iexact H
  iintro H; iexact H

/-- A kernel's post without the call's index is one with it. -/
theorem obl_post {thr : Thread nD τ} {A B C : sProp (MM F)} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Kernel.Hand

end
-- ==== Proof.BCallStep0.lean ====
/-
  Gather call 0, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.BBase
import proofs.«206421_g46840913330738_cont_8to1c4_247_26_alg».proof.Proof.BPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC0 : Finset (DevRef τ sig) := {r main_arg1, r main_v3, r main_v4}
omit [FloatOps F] in
theorem SC0_sub : SC0 ⊆ Sall := by decide

omit [FloatOps F] in
theorem held_SC0 (d : Dev nD) (V : Valuation τ sig (Elt F)) :
    (held (T d) SC0 V : sProp (MM F))
      = iprop((tabLoc d ↦{fullShare} V (r main_arg1)) ∗ (idxLoc d ↦{fullShare} V (r main_v3)) ∗ (outLoc d ↦{fullShare} V (r main_v4))) := by
  unfold held SC0
  rw [SparseCore.bigSep_insert' (by decide), SparseCore.bigSep_insert' (by decide), bigSep_singleton]

theorem held_SC0_after (d : Dev nD) :
    (held (T d) SC0 (W5 m d) : sProp (MM F))
      = iprop((tabLoc d ↦{fullShare} W4 m d (r main_arg1)) ∗ (idxLoc d ↦{fullShare} W4 m d (r main_v3))
          ∗ (outLoc d ↦{fullShare} gathered0 (d := d) (W4 m d (r main_arg1)) (W4 m d (r main_v3)))) := by
  rw [held_SC0]; unfold W5
  rw [Function.update_of_ne (show r main_arg1 ≠ r main_v4 by decide), Function.update_of_ne (show r main_v3 ≠ r main_v4 by decide),
    Function.update_self]

theorem held_restC0_after (d : Dev nD) :
    (held (T d) (Sall \ SC0) (W5 m d) : sProp (MM F)) = held (T d) (Sall \ SC0) (W4 m d) :=
  held_congr _ fun b hb => by
    unfold W5
    exact Function.update_of_ne (fun e => (Finset.mem_sdiff.mp hb).2 (by rw [e]; decide)) _ _

/-- What the call hands the two SparseCores is every task's operands. -/
theorem st0_eq (d : Dev nD) :
    (bigSep Finset.univ fun c : Fin ((K (F := F)).nCore 0) => (P m).st 0 d c)
      = bigSep Finset.univ fun c : Fin 2 => bigSep Finset.univ fun i : Fin 16 =>
          goRes0 d (coordsV c i) (W4 m d (r main_arg1)) (W4 m d (r main_v3)) (W4 m d (r main_v4)) := rfl
theorem dn0_eq (d : Dev nD) :
    (bigSep Finset.univ fun c : Fin ((K (F := F)).nCore 0) => (P m).dn 0 d c)
      = bigSep Finset.univ fun c : Fin 2 => bigSep Finset.univ fun i : Fin 16 =>
          tdRes0 d (coordsV c i) (W4 m d (r main_arg1)) (W4 m d (r main_v3)) := rfl

/-- Gather call 0 on the TensorCore of `d`: all its arrays before, all its arrays after. -/
theorem call0 (κ : GSem nD τ sig → ℕ) (d : Dev nD) {Φ : PUnit → sProp (MM F)} :
    iprop((K (F := F)).ctx EH (P m) κ ∗ (K (F := F)).tcSt EH d 0 ∗ held (T d) Sall (W4 m d)
        ∗ (((K (F := F)).tcSt EH d 1 ∗ held (T d) Sall (W5 m d)) -∗ Φ ⟨⟩))
      ⊢ wp frame (wpE ((K (F := F)).defs (D (F := F))) 𝒱 (SparseCore.T d) none) Set.univ ((K (F := F)).run d 0) Φ := by
  rw [held_sub_split (T d) SC0_sub (W4 m d), held_SC0]
  iintro ⟨#Hctx, Hst, ⟨⟨Ht, Hi, Ho⟩, Hrest⟩, HΦ⟩
  ihave Hsp := (split0 d (W4 m d (r main_arg1)) (W4 m d (r main_v3)) (W4 m d (r main_v4))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 0) $$ [Hst Hgo Hrem Hrest HΦ]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (join0 d (W4 m d (r main_arg1)) (W4 m d (r main_v3))) $$ [Hrem Hdn']
  · isplitl [Hrem]; · iexact Hrem
    iexact Hdn'
  icases Hj with ⟨Ht, Hi, Ho⟩
  iapply HΦ
  isplitl [Hst]; · iexact Hst
  rw [held_sub_split (T d) SC0_sub (W5 m d), held_SC0_after, held_restC0_after]
  isplitr [Hrest]
  · isplitl [Ht]; · iexact Ht
    isplitl [Hi]; · iexact Hi
    iexact Ho
  iexact Hrest

end Cert.Kernel.Hand

end
-- ==== Proof.BCallStep2.lean ====
/-
  Gather call 1, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.BBase
import proofs.«206421_g46840913330738_cont_8to1c4_247_26_alg».proof.Proof.BPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC2 : Finset (DevRef τ sig) := {r main_arg1, r main_v7, r main_v8}
omit [FloatOps F] in
theorem SC2_sub : SC2 ⊆ Sall := by decide

omit [FloatOps F] in
theorem held_SC2 (d : Dev nD) (V : Valuation τ sig (Elt F)) :
    (held (T d) SC2 V : sProp (MM F))
      = iprop((tabLoc2 d ↦{fullShare} V (r main_arg1)) ∗ (idxLoc2 d ↦{fullShare} V (r main_v7)) ∗ (outLoc2 d ↦{fullShare} V (r main_v8))) := by
  unfold held SC2
  rw [SparseCore.bigSep_insert' (by decide), SparseCore.bigSep_insert' (by decide), bigSep_singleton]

theorem held_SC2_after (d : Dev nD) :
    (held (T d) SC2 (W9 m d) : sProp (MM F))
      = iprop((tabLoc2 d ↦{fullShare} W8 m d (r main_arg1)) ∗ (idxLoc2 d ↦{fullShare} W8 m d (r main_v7))
          ∗ (outLoc2 d ↦{fullShare} gathered2 (d := d) (W8 m d (r main_arg1)) (W8 m d (r main_v7)))) := by
  rw [held_SC2]; unfold W9
  rw [Function.update_of_ne (show r main_arg1 ≠ r main_v8 by decide), Function.update_of_ne (show r main_v7 ≠ r main_v8 by decide),
    Function.update_self]

theorem held_restC2_after (d : Dev nD) :
    (held (T d) (Sall \ SC2) (W9 m d) : sProp (MM F)) = held (T d) (Sall \ SC2) (W8 m d) :=
  held_congr _ fun b hb => by
    unfold W9
    exact Function.update_of_ne (fun e => (Finset.mem_sdiff.mp hb).2 (by rw [e]; decide)) _ _

/-- What the call hands the two SparseCores is every task's operands. -/
theorem st2_eq (d : Dev nD) :
    (bigSep Finset.univ fun c : Fin ((K (F := F)).nCore 1) => (P m).st 1 d c)
      = bigSep Finset.univ fun c : Fin 2 => bigSep Finset.univ fun i : Fin 16 =>
          goRes2 d (coordsV2 c i) (W8 m d (r main_arg1)) (W8 m d (r main_v7)) (W8 m d (r main_v8)) := rfl
theorem dn2_eq (d : Dev nD) :
    (bigSep Finset.univ fun c : Fin ((K (F := F)).nCore 1) => (P m).dn 1 d c)
      = bigSep Finset.univ fun c : Fin 2 => bigSep Finset.univ fun i : Fin 16 =>
          tdRes2 d (coordsV2 c i) (W8 m d (r main_arg1)) (W8 m d (r main_v7)) := rfl

/-- Gather call 1 on the TensorCore of `d`: all its arrays before, all its arrays after. -/
theorem call2 (κ : GSem nD τ sig → ℕ) (d : Dev nD) {Φ : PUnit → sProp (MM F)} :
    iprop((K (F := F)).ctx EH (P m) κ ∗ (K (F := F)).tcSt EH d 1 ∗ held (T d) Sall (W8 m d)
        ∗ (((K (F := F)).tcSt EH d 2 ∗ held (T d) Sall (W9 m d)) -∗ Φ ⟨⟩))
      ⊢ wp frame (wpE ((K (F := F)).defs (D (F := F))) 𝒱 (SparseCore.T d) none) Set.univ ((K (F := F)).run d 1) Φ := by
  rw [held_sub_split (T d) SC2_sub (W8 m d), held_SC2]
  iintro ⟨#Hctx, Hst, ⟨⟨Ht, Hi, Ho⟩, Hrest⟩, HΦ⟩
  ihave Hsp := (split2 d (W8 m d (r main_arg1)) (W8 m d (r main_v7)) (W8 m d (r main_v8))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 1) $$ [Hst Hgo Hrem Hrest HΦ]
  isplitr; · iexact Hctx
  isplitl [Hst]; · iexact Hst
  isplitl [Hgo]
  · rw [st2_eq]; iexact Hgo
  iintro ⟨Hst, Hdn⟩
  ihave Hdn' := (Entails.of_eq (dn2_eq m d)) $$ Hdn
  ihave Hj := (join2 d (W8 m d (r main_arg1)) (W8 m d (r main_v7))) $$ [Hrem Hdn']
  · isplitl [Hrem]; · iexact Hrem
    iexact Hdn'
  icases Hj with ⟨Ht, Hi, Ho⟩
  iapply HΦ
  isplitl [Hst]; · iexact Hst
  rw [held_sub_split (T d) SC2_sub (W9 m d), held_SC2_after, held_restC2_after]
  isplitr [Hrest]
  · isplitl [Ht]; · iexact Ht
    isplitl [Hi]; · iexact Hi
    iexact Ho
  iexact Hrest

end Cert.Kernel.Hand

end
-- ==== Proof.BCallStep4.lean ====
/-
  Gather call 2, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.BBase
import proofs.«206421_g46840913330738_cont_8to1c4_247_26_alg».proof.Proof.BPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC4 : Finset (DevRef τ sig) := {r main_arg1, r main_v11, r main_v12}
omit [FloatOps F] in
theorem SC4_sub : SC4 ⊆ Sall := by decide

omit [FloatOps F] in
theorem held_SC4 (d : Dev nD) (V : Valuation τ sig (Elt F)) :
    (held (T d) SC4 V : sProp (MM F))
      = iprop((tabLoc4 d ↦{fullShare} V (r main_arg1)) ∗ (idxLoc4 d ↦{fullShare} V (r main_v11)) ∗ (outLoc4 d ↦{fullShare} V (r main_v12))) := by
  unfold held SC4
  rw [SparseCore.bigSep_insert' (by decide), SparseCore.bigSep_insert' (by decide), bigSep_singleton]

theorem held_SC4_after (d : Dev nD) :
    (held (T d) SC4 (W14 m d) : sProp (MM F))
      = iprop((tabLoc4 d ↦{fullShare} W13 m d (r main_arg1)) ∗ (idxLoc4 d ↦{fullShare} W13 m d (r main_v11))
          ∗ (outLoc4 d ↦{fullShare} gathered4 (d := d) (W13 m d (r main_arg1)) (W13 m d (r main_v11)))) := by
  rw [held_SC4]; unfold W14
  rw [Function.update_of_ne (show r main_arg1 ≠ r main_v12 by decide), Function.update_of_ne (show r main_v11 ≠ r main_v12 by decide),
    Function.update_self]

theorem held_restC4_after (d : Dev nD) :
    (held (T d) (Sall \ SC4) (W14 m d) : sProp (MM F)) = held (T d) (Sall \ SC4) (W13 m d) :=
  held_congr _ fun b hb => by
    unfold W14
    exact Function.update_of_ne (fun e => (Finset.mem_sdiff.mp hb).2 (by rw [e]; decide)) _ _

/-- What the call hands the two SparseCores is every task's operands. -/
theorem st4_eq (d : Dev nD) :
    (bigSep Finset.univ fun c : Fin ((K (F := F)).nCore 2) => (P m).st 2 d c)
      = bigSep Finset.univ fun c : Fin 2 => bigSep Finset.univ fun i : Fin 16 =>
          goRes4 d (coordsV4 c i) (W13 m d (r main_arg1)) (W13 m d (r main_v11)) (W13 m d (r main_v12)) := rfl
theorem dn4_eq (d : Dev nD) :
    (bigSep Finset.univ fun c : Fin ((K (F := F)).nCore 2) => (P m).dn 2 d c)
      = bigSep Finset.univ fun c : Fin 2 => bigSep Finset.univ fun i : Fin 16 =>
          tdRes4 d (coordsV4 c i) (W13 m d (r main_arg1)) (W13 m d (r main_v11)) := rfl

/-- Gather call 2 on the TensorCore of `d`: all its arrays before, all its arrays after. -/
theorem call4 (κ : GSem nD τ sig → ℕ) (d : Dev nD) {Φ : PUnit → sProp (MM F)} :
    iprop((K (F := F)).ctx EH (P m) κ ∗ (K (F := F)).tcSt EH d 2 ∗ held (T d) Sall (W13 m d)
        ∗ (((K (F := F)).tcSt EH d 3 ∗ held (T d) Sall (W14 m d)) -∗ Φ ⟨⟩))
      ⊢ wp frame (wpE ((K (F := F)).defs (D (F := F))) 𝒱 (SparseCore.T d) none) Set.univ ((K (F := F)).run d 2) Φ := by
  rw [held_sub_split (T d) SC4_sub (W13 m d), held_SC4]
  iintro ⟨#Hctx, Hst, ⟨⟨Ht, Hi, Ho⟩, Hrest⟩, HΦ⟩
  ihave Hsp := (split4 d (W13 m d (r main_arg1)) (W13 m d (r main_v11)) (W13 m d (r main_v12))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 2) $$ [Hst Hgo Hrem Hrest HΦ]
  isplitr; · iexact Hctx
  isplitl [Hst]; · iexact Hst
  isplitl [Hgo]
  · rw [st4_eq]; iexact Hgo
  iintro ⟨Hst, Hdn⟩
  ihave Hdn' := (Entails.of_eq (dn4_eq m d)) $$ Hdn
  ihave Hj := (join4 d (W13 m d (r main_arg1)) (W13 m d (r main_v11))) $$ [Hrem Hdn']
  · isplitl [Hrem]; · iexact Hrem
    iexact Hdn'
  icases Hj with ⟨Ht, Hi, Ho⟩
  iapply HΦ
  isplitl [Hst]; · iexact Hst
  rw [held_sub_split (T d) SC4_sub (W14 m d), held_SC4_after, held_restC4_after]
  isplitr [Hrest]
  · isplitl [Ht]; · iexact Ht
    isplitl [Hi]; · iexact Hi
    iexact Ho
  iexact Hrest

end Cert.Kernel.Hand

end
-- ==== Proof.BCallStep6.lean ====
/-
  Gather call 3, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.BBase
import proofs.«206421_g46840913330738_cont_8to1c4_247_26_alg».proof.Proof.BPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC6 : Finset (DevRef τ sig) := {r main_arg1, r main_v15, r main_v16}
omit [FloatOps F] in
theorem SC6_sub : SC6 ⊆ Sall := by decide

omit [FloatOps F] in
theorem held_SC6 (d : Dev nD) (V : Valuation τ sig (Elt F)) :
    (held (T d) SC6 V : sProp (MM F))
      = iprop((tabLoc6 d ↦{fullShare} V (r main_arg1)) ∗ (idxLoc6 d ↦{fullShare} V (r main_v15)) ∗ (outLoc6 d ↦{fullShare} V (r main_v16))) := by
  unfold held SC6
  rw [SparseCore.bigSep_insert' (by decide), SparseCore.bigSep_insert' (by decide), bigSep_singleton]

theorem held_SC6_after (d : Dev nD) :
    (held (T d) SC6 (W19 m d) : sProp (MM F))
      = iprop((tabLoc6 d ↦{fullShare} W18 m d (r main_arg1)) ∗ (idxLoc6 d ↦{fullShare} W18 m d (r main_v15))
          ∗ (outLoc6 d ↦{fullShare} gathered6 (d := d) (W18 m d (r main_arg1)) (W18 m d (r main_v15)))) := by
  rw [held_SC6]; unfold W19
  rw [Function.update_of_ne (show r main_arg1 ≠ r main_v16 by decide), Function.update_of_ne (show r main_v15 ≠ r main_v16 by decide),
    Function.update_self]

theorem held_restC6_after (d : Dev nD) :
    (held (T d) (Sall \ SC6) (W19 m d) : sProp (MM F)) = held (T d) (Sall \ SC6) (W18 m d) :=
  held_congr _ fun b hb => by
    unfold W19
    exact Function.update_of_ne (fun e => (Finset.mem_sdiff.mp hb).2 (by rw [e]; decide)) _ _

/-- What the call hands the two SparseCores is every task's operands. -/
theorem st6_eq (d : Dev nD) :
    (bigSep Finset.univ fun c : Fin ((K (F := F)).nCore 3) => (P m).st 3 d c)
      = bigSep Finset.univ fun c : Fin 2 => bigSep Finset.univ fun i : Fin 16 =>
          goRes6 d (coordsV6 c i) (W18 m d (r main_arg1)) (W18 m d (r main_v15)) (W18 m d (r main_v16)) := rfl
theorem dn6_eq (d : Dev nD) :
    (bigSep Finset.univ fun c : Fin ((K (F := F)).nCore 3) => (P m).dn 3 d c)
      = bigSep Finset.univ fun c : Fin 2 => bigSep Finset.univ fun i : Fin 16 =>
          tdRes6 d (coordsV6 c i) (W18 m d (r main_arg1)) (W18 m d (r main_v15)) := rfl

/-- Gather call 3 on the TensorCore of `d`: all its arrays before, all its arrays after. -/
theorem call6 (κ : GSem nD τ sig → ℕ) (d : Dev nD) {Φ : PUnit → sProp (MM F)} :
    iprop((K (F := F)).ctx EH (P m) κ ∗ (K (F := F)).tcSt EH d 3 ∗ held (T d) Sall (W18 m d)
        ∗ (((K (F := F)).tcSt EH d 4 ∗ held (T d) Sall (W19 m d)) -∗ Φ ⟨⟩))
      ⊢ wp frame (wpE ((K (F := F)).defs (D (F := F))) 𝒱 (SparseCore.T d) none) Set.univ ((K (F := F)).run d 3) Φ := by
  rw [held_sub_split (T d) SC6_sub (W18 m d), held_SC6]
  iintro ⟨#Hctx, Hst, ⟨⟨Ht, Hi, Ho⟩, Hrest⟩, HΦ⟩
  ihave Hsp := (split6 d (W18 m d (r main_arg1)) (W18 m d (r main_v15)) (W18 m d (r main_v16))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 3) $$ [Hst Hgo Hrem Hrest HΦ]
  isplitr; · iexact Hctx
  isplitl [Hst]; · iexact Hst
  isplitl [Hgo]
  · rw [st6_eq]; iexact Hgo
  iintro ⟨Hst, Hdn⟩
  ihave Hdn' := (Entails.of_eq (dn6_eq m d)) $$ Hdn
  ihave Hj := (join6 d (W18 m d (r main_arg1)) (W18 m d (r main_v15))) $$ [Hrem Hdn']
  · isplitl [Hrem]; · iexact Hrem
    iexact Hdn'
  icases Hj with ⟨Ht, Hi, Ho⟩
  iapply HΦ
  isplitl [Hst]; · iexact Hst
  rw [held_sub_split (T d) SC6_sub (W19 m d), held_SC6_after, held_restC6_after]
  isplitr [Hrest]
  · isplitl [Ht]; · iexact Ht
    isplitl [Hi]; · iexact Hi
    iexact Ho
  iexact Hrest

end Cert.Kernel.Hand

end
-- ==== Proof.BCallStep8.lean ====
/-
  Gather call 4, as @main's TensorCore meets it. Of all its arrays the TensorCore hands over three, whole: the
  table, the call's index array and the call's gathered array. They split into the 32 tasks' operands (the table into
  read tokens, with a remainder that stays behind); the launch's handshakes carry them to the tasks and the results
  back; joined again, the table and the index array are as before and the gathered array holds the gathered rows. The
  TensorCore's other arrays are untouched.
-/
import proofs.«206421_g46840913330738_cont_8to1c4_247_26_alg».proof.Proof.BBase
import proofs.«206421_g46840913330738_cont_8to1c4_247_26_alg».proof.Proof.BPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The call's three arrays. -/
abbrev SC8 : Finset (DevRef τ sig) := {r main_arg1, r main_v19, r main_v20}
omit [FloatOps F] in
theorem SC8_sub : SC8 ⊆ Sall := by decide

omit [FloatOps F] in
theorem held_SC8 (d : Dev nD) (V : Valuation τ sig (Elt F)) :
    (held (T d) SC8 V : sProp (MM F))
      = iprop((tabLoc8 d ↦{fullShare} V (r main_arg1)) ∗ (idxLoc8 d ↦{fullShare} V (r main_v19)) ∗ (outLoc8 d ↦{fullShare} V (r main_v20))) := by
  unfold held SC8
  rw [SparseCore.bigSep_insert' (by decide), SparseCore.bigSep_insert' (by decide), bigSep_singleton]

theorem held_SC8_after (d : Dev nD) :
    (held (T d) SC8 (W24 m d) : sProp (MM F))
      = iprop((tabLoc8 d ↦{fullShare} W23 m d (r main_arg1)) ∗ (idxLoc8 d ↦{fullShare} W23 m d (r main_v19))
          ∗ (outLoc8 d ↦{fullShare} gathered8 (d := d) (W23 m d (r main_arg1)) (W23 m d (r main_v19)))) := by
  rw [held_SC8]; unfold W24
  rw [Function.update_of_ne (show r main_arg1 ≠ r main_v20 by decide), Function.update_of_ne (show r main_v19 ≠ r main_v20 by decide),
    Function.update_self]

theorem held_restC8_after (d : Dev nD) :
    (held (T d) (Sall \ SC8) (W24 m d) : sProp (MM F)) = held (T d) (Sall \ SC8) (W23 m d) :=
  held_congr _ fun b hb => by
    unfold W24
    exact Function.update_of_ne (fun e => (Finset.mem_sdiff.mp hb).2 (by rw [e]; decide)) _ _

/-- What the call hands the two SparseCores is every task's operands. -/
theorem st8_eq (d : Dev nD) :
    (bigSep Finset.univ fun c : Fin ((K (F := F)).nCore 4) => (P m).st 4 d c)
      = bigSep Finset.univ fun c : Fin 2 => bigSep Finset.univ fun i : Fin 16 =>
          goRes8 d (coordsV8 c i) (W23 m d (r main_arg1)) (W23 m d (r main_v19)) (W23 m d (r main_v20)) := rfl
theorem dn8_eq (d : Dev nD) :
    (bigSep Finset.univ fun c : Fin ((K (F := F)).nCore 4) => (P m).dn 4 d c)
      = bigSep Finset.univ fun c : Fin 2 => bigSep Finset.univ fun i : Fin 16 =>
          tdRes8 d (coordsV8 c i) (W23 m d (r main_arg1)) (W23 m d (r main_v19)) := rfl

/-- Gather call 4 on the TensorCore of `d`: all its arrays before, all its arrays after. -/
theorem call8 (κ : GSem nD τ sig → ℕ) (d : Dev nD) {Φ : PUnit → sProp (MM F)} :
    iprop((K (F := F)).ctx EH (P m) κ ∗ (K (F := F)).tcSt EH d 4 ∗ held (T d) Sall (W23 m d)
        ∗ (((K (F := F)).tcSt EH d 5 ∗ held (T d) Sall (W24 m d)) -∗ Φ ⟨⟩))
      ⊢ wp frame (wpE ((K (F := F)).defs (D (F := F))) 𝒱 (SparseCore.T d) none) Set.univ ((K (F := F)).run d 4) Φ := by
  rw [held_sub_split (T d) SC8_sub (W23 m d), held_SC8]
  iintro ⟨#Hctx, Hst, ⟨⟨Ht, Hi, Ho⟩, Hrest⟩, HΦ⟩
  ihave Hsp := (split8 d (W23 m d (r main_arg1)) (W23 m d (r main_v19)) (W23 m d (r main_v20))) $$ [Ht Hi Ho]
  · isplitl [Ht]; · iexact Ht
    isplitl [Hi]; · iexact Hi
    iexact Ho
  icases Hsp with ⟨Hrem, Hgo⟩
  iapply ((K (F := F)).wp_run (D (F := F)) 𝒱 (EH := EH) (P := P m) κ d 4) $$ [Hst Hgo Hrem Hrest HΦ]
  isplitr; · iexact Hctx
  isplitl [Hst]; · iexact Hst
  isplitl [Hgo]
  · rw [st8_eq]; iexact Hgo
  iintro ⟨Hst, Hdn⟩
  ihave Hdn' := (Entails.of_eq (dn8_eq m d)) $$ Hdn
  ihave Hj := (join8 d (W23 m d (r main_arg1)) (W23 m d (r main_v19))) $$ [Hrem Hdn']
  · isplitl [Hrem]; · iexact Hrem
    iexact Hdn'
  icases Hj with ⟨Ht, Hi, Ho⟩
  iapply HΦ
  isplitl [Hst]; · iexact Hst
  rw [held_sub_split (T d) SC8_sub (W24 m d), held_SC8_after, held_restC8_after]
  isplitr [Hrest]
  · isplitl [Ht]; · iexact Ht
    isplitl [Hi]; · iexact Hi
    iexact Ho
  iexact Hrest

end Cert.Kernel.Hand

end
-- ==== Proof.BRegion1.lean ====
/-
  The first TensorCore matrix-product region of the program, as the TensorCore meets it between two SparseCore calls.

  The region is a software pipeline over ten grid points. At point j it holds the weight matrix W (64 × 128, fetched
  once), block j of the gathered rows g (rows 16384 j … 16384 j + 16383 of the 163840 × 128 array), and writes block
  (j, 0, 0) of shape 1 × 64 × 16384 of the output array (50 × 64 × 16384): the product of W with the transposed block,
  contracting the 128-axis, accumulated into zero. Every other entry of the output array keeps what it held.

  This module gives the pipeline's proof data at a device (generic in the float instance), the body's triple, the body
  obligation at a symbolic point, the region as a record around the thread state "the TensorCore's handshake state and
  the three arrays", and the region's rule inside the extended body table of the SparseCore program. The TensorCore
  owes its later start signals while the region runs: they sit at the calls' indices, strictly above the level of the
  pipeline's own waits (index none), so every wait of the pipeline is allowed.
-/
import proofs.«206421_g46840913330738_cont_8to1c4_247_26_alg».proof.Proof.BBase
import Idealize.ShloMosaic.Lib.Pipeline.Regions
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What every region shares -/

/-- No pipeline of the program has a prefetched table. -/
abbrev adm : (p : Fin 5) → (pcfgs (F := F) p).Adm := fun p => (cfgs p).toPCfg_adm

/-- Before call n the TensorCore owes nothing at the index none: every unit it owes is a later call's start signal. -/
theorem Otc_none (d : Dev nD) (n : ℕ) (g : GSem nD τ sig) : (K (F := F)).Otc d n g none = 0 := by
  by_contra h
  have h' := SparseCore.Cfg.lev_of_Otc_pos (K := K (F := F)) (d := d) (n := n) (g := g) (ι := none) (Nat.pos_of_ne_zero h)
  rw [SparseCore.Cfg.lev_none] at h'
  omega

/-- Proof data that says nothing: for the pipelines a region's record does not enter. -/
def datIdle (cfg : Pipeline.Cfg sig Λ₀) (c : Dev nD) : Dat τ (Elt F) (HIx 5) ℕ UU ℕ cfg c where
  A _ := fun _ => Classical.arbitrary _
  after _ _ := fun _ => Classical.arbitrary _
  Φ _ := BI.emp
  q _ := fullShare
  owed _ := 0

/-- The handshake pairs recorded before call n sit at or below level 8 n. -/
def recBelow (c : Dev nD) (n : ℕ) : Set (SemLoc sig × HIx 5) := {p | (K (F := F)).lev (SparseCore.T c, p.1) p.2 ≤ 8 * n}

omit [FloatOps F] in
theorem zero2 : (![0, 0] : Fin 2 → Nat) = fun _ => 0 := by funext a; fin_cases a <;> rfl
omit [FloatOps F] in
theorem zero3 : (![0, 0, 0] : Fin 3 → Nat) = fun _ => 0 := by funext a; fin_cases a <;> rfl

/-! ## Region 1 (pipeline 0): the arrays, the blocks, the body -/

section Region1

variable (w : (c : Dev nD) → Buf (Elt F) ((SparseCore.T c : Thread nD τ).loc main_arg2)) (g : (c : Dev nD) → Buf (Elt F) ((SparseCore.T c : Thread nD τ).loc main_v4))
  (f0 : (c : Dev nD) → Buf (Elt F) ((SparseCore.T c : Thread nD τ).loc main_v5))

/-- The three windowed arrays as the region finds them. -/
def arr1 (c : Dev nD) : (x : Fin cfg1.W) → Buf (Elt F) ((cfg1.win x).arr.view.loc (c : Thread nD τ))
  | ⟨0, _⟩ => w c
  | ⟨1, _⟩ => g c
  | ⟨2, _⟩ => f0 c

/-- Window x's block at point t, read off its array. -/
def iblk1 (c : Dev nD) (x : Fin cfg1.W) (t : Fin cfg1.N) : ((cfg1.win x).xblock (cfg1.grid.coords t)).Idx → Elt F (cfg1.win x).elt :=
  ((cfg1.win x).blk t).view.read (Elt F) (arr1 w g f0 c x)

abbrev r1_0 : Rect S64x128 := Rect.unit (s := S64x128) ![0, 0] S64x128.size inb_S64x128_S64x128_0_0
abbrev r1_1 : Rect S16384x128 := Rect.unit (s := S16384x128) ![0, 0] S16384x128.size inb_S16384x128_S16384x128_0_0
abbrev r1_2 : Rect S1x64x16384 := Rect.unit (s := S1x64x16384) ![0, 0, 0] S1x64x16384.size inb_S1x64x16384_S1x64x16384_0_0_0

/-- What the body leaves in the output window's buffer, from the two input blocks: its one store, whole. -/
def out1 (x0 : Vec F S64x128 .f32) (x1 : Vec F S16384x128 .f32) : Vec F S1x64x16384 .f32 :=
  View.canon [⟨r1_2, k1_pay1 (View.ld x0 r1_0) (View.ld x1 r1_1)⟩]

/-- The store covers the buffer. -/
theorem cover1_2 (p0 : Vec F S1x64x16384 .f32) (y : S1x64x16384.Idx) :
    ∃ pc ∈ ([⟨r1_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out1_eq (x0 : Vec F S64x128 .f32) (x1 : Vec F S16384x128 .f32) : out1 x0 x1 = k1_pay1 x0 x1 := by
  unfold out1
  rw [View.canon_unit_zero zero3, View.ld_unit_zero zero2, View.ld_unit_zero zero2]

set_option maxHeartbeats 1000000 in
/-- The body on whole staging memrefs: the inputs' at read contents x0, x1, the output's at anything; it leaves the
    inputs as they were and the output at out1 of them. -/
theorem sound_kernel1 (c : Dev nD) (E : Set ℕ) (i : grid1.Coords)
    (arg1 : Memref sig .tc .vmem S64x128 .f32) (harg1 : arg1.IsWhole) (arg2 : Memref sig .tc .vmem S16384x128 .f32) (harg2 : arg2.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ Kc ⟨⟩))
      ⊢ wp frame (wpE (defs₀ (F := F)) 𝒱₀ c none) E (cc1_body i arg1 harg1 arg2 harg2 arg3 harg3) Kc := by
  simp only [cc1_body_eq_skeleton]; unfold cc1_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover1_2 _)

/-! ## The proof data -/

variable (n : ℕ)

/-- The proof data of pipeline 0 on device c between calls: the arrays as found; after the body at point t each
    input's buffer at its block and the output's at out1 of the blocks; the invariant the scoped buffers no window
    stages; the TensorCore owing what it owes before call n, its recorded pairs at or below level 8 n. -/
def dat1 (c : Dev nD) : Dat τ (Elt F) (HIx 5) ℕ UU ℕ cfg1 c where
  A := arr1 w g f0 c
  after x t := match x with
    | ⟨0, _⟩ => iblk1 w g f0 c 0 t
    | ⟨1, _⟩ => iblk1 w g f0 c 1 t
    | ⟨2, _⟩ => out1 (iblk1 w g f0 c 0 t) (iblk1 w g f0 c 1 t)
  Φ _ := Pipeline.scopedRest (Ix := HIx 5) (Name := ℕ) (U := UU) (Lvl := ℕ) (Val := Elt F) spec1 c
  q _ := fullShare
  owed _ := (K (F := F)).Otc c n
  recorded _ := recBelow (F := F) c n

theorem after1_0 (c : Dev nD) (t : Fin cfg1.N) : (dat1 w g f0 n c).after 0 t = iblk1 w g f0 c 0 t := by dsimp only [dat1]
theorem after1_1 (c : Dev nD) (t : Fin cfg1.N) : (dat1 w g f0 n c).after 1 t = iblk1 w g f0 c 1 t := by dsimp only [dat1]
theorem after1_2 (c : Dev nD) (t : Fin cfg1.N) :
    (dat1 w g f0 n c).after 2 t = out1 (iblk1 w g f0 c 0 t) (iblk1 w g f0 c 1 t) := by dsimp only [dat1]

/-- Each input's current staging buffer holds its block at every point, fetched there or not. -/
theorem before1_0 (c : Dev nD) (t : Fin cfg1.N) (d) : (dat1 w g f0 n c).before 0 t d = iblk1 w g f0 c 0 t :=
  ((dat1 w g f0 n c).before_in_eq_fetched 0 rfl (fun _ => rfl) (fun _ _ _ => rfl)
    (fun t => by rw [after1_0]; unfold Dat.blockOf iblk1; rfl) t d).trans
    (by unfold Dat.fetched Dat.blockOf iblk1; rfl)
theorem before1_1 (c : Dev nD) (t : Fin cfg1.N) (d) : (dat1 w g f0 n c).before 1 t d = iblk1 w g f0 c 1 t :=
  ((dat1 w g f0 n c).before_in_eq_fetched 1 rfl (fun _ => rfl) (fun _ _ _ => rfl)
    (fun t => by rw [after1_1]; unfold Dat.blockOf iblk1; rfl) t d).trans
    (by unfold Dat.fetched Dat.blockOf iblk1; rfl)

/-! ## The body obligation, at a generic point -/

def bodyPre1 (c : Dev nD) (t : Fin cfg1.N) : sProp 𝕄 :=
  iprop((dat1 w g f0 n c).Φ t.castSucc ∗ (dat1 w g f0 n c).owesAt none t.castSucc
    ∗ (∃ d, owns (c : Thread nD τ) (st1_0 t) fullShare ((dat1 w g f0 n c).before 0 t d))
    ∗ (∃ d, owns (c : Thread nD τ) (st1_1 t) fullShare ((dat1 w g f0 n c).before 1 t d))
    ∗ (∃ d, owns (c : Thread nD τ) (st1_2 t) fullShare ((dat1 w g f0 n c).before 2 t d)))

def bodyPost1 (c : Dev nD) (t : Fin cfg1.N) : sProp 𝕄 :=
  iprop((dat1 w g f0 n c).Φ t.succ ∗ (dat1 w g f0 n c).owesAt none t.succ
    ∗ owns (c : Thread nD τ) (st1_0 t) fullShare ((dat1 w g f0 n c).after 0 t)
    ∗ owns (c : Thread nD τ) (st1_1 t) fullShare ((dat1 w g f0 n c).after 1 t)
    ∗ owns (c : Thread nD τ) (st1_2 t) fullShare ((dat1 w g f0 n c).after 2 t))

/-- The body at any point: the inputs' memrefs hold their blocks, so the body's triple applies; the invariant and what
    the TensorCore owes pass through unread. -/
theorem sound_body1 (c : Dev nD) (t : Fin cfg1.N) :
    bodyPre1 w g f0 n c t ⊢ wp frame (wpE (defs₀ (F := F)) 𝒱₀ c none) Set.univ (bodyAt1 t) (fun _ => bodyPost1 w g f0 n c t) := by
  unfold bodyPre1 bodyPost1 bodyAt1
  simp only [before1_0, before1_1]
  rw [show (dat1 w g f0 n c).Φ t.succ = (dat1 w g f0 n c).Φ t.castSucc from rfl,
    show (dat1 w g f0 n c).owesAt none t.succ = (dat1 w g f0 n c).owesAt none t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 w g f0 c 0 t) (iblk1 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 w g f0 n c) (defs₀ (F := F)) 𝒱₀ none Set.univ := fun t => by
  rw [bigSep_W1, bigSep_W1]
  exact sound_body1 w g f0 n c t

/-! ## The region as a record -/

/-- Every pipeline's proof data as region 1's record sees it: pipeline 0's, and nothing said of the others. -/
def pdats1 : (p : Fin 5) → (c : Dev nD) → Dat τ (Elt F) (HIx 5) ℕ UU ℕ (Pipeline.pin (pcfgs (F := F)) adm p) c
  | ⟨0, _⟩ => fun c => dat1 w g f0 n c
  | ⟨1, _⟩ => fun c => datIdle _ c
  | ⟨2, _⟩ => fun c => datIdle _ c
  | ⟨3, _⟩ => fun c => datIdle _ c
  | ⟨4, _⟩ => fun c => datIdle _ c

/-- The inputs' arrays are never written. -/
theorem arrAt1_0 (c : Dev nD) (k : ℕ) : (dat1 w g f0 n c).arrAt 0 k = w c := (dat1 w g f0 n c).arrAt_in 0 rfl k
theorem arrAt1_1 (c : Dev nD) (k : ℕ) : (dat1 w g f0 n c).arrAt 1 k = g c := (dat1 w g f0 n c).arrAt_in 1 rfl k

/-- The output array after the region: the entry contents overwritten by the ten write-backs. -/
def fin1 (c : Dev nD) : Buf (Elt F) ((SparseCore.T c : Thread nD τ).loc main_v5) := (dat1 w g f0 n c).arrAt 2 cfg1.N

/-- The thread state around the region: what the TensorCore owes before call n with its recorded pairs bounded, and
    the three arrays whole. -/
def st1 (c : Dev nD) (f : Buf (Elt F) ((SparseCore.T c : Thread nD τ).loc main_v5)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v4) ↦{fullShare} g c) ∗ (((SparseCore.T c : Thread nD τ).loc main_v5) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg1 : Pipeline.RegionSeg (pcfgs (F := F)) adm (pdats1 w g f0 n) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation1 w g f0 n c).loose
  hwaits c := Pipeline.cellsWaits_intro (Pipeline.pin (pcfgs (F := F)) adm) (pdats1 w g f0 n) none 0 c (R := levAts (K (F := F)).L lv)
    fun x s t => SparseCore.Cfg.mayWait_none (K := K (F := F)) (.dma _) (fun g' => Otc_none c n g') lv hlv
  pre c := st1 w g n c (f0 c)
  post c := st1 w g n c (fin1 w g f0 n c)
  X _ := BI.emp
  Y _ := BI.emp
  Z _ := BI.emp
  hentry c := by
    rw [Pipeline.ownSems0_none, Pipeline.arrays_eq (Pipeline.pin (pcfgs (F := F)) adm) (pdats1 w g f0 n) 0 c launch1.arr_whole
      ((pdats1 w g f0 n 0 c).share_full fun _ => rfl), bigSep_W1]
    unfold st1
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats1 w g f0 n 0 c).Φ 0 = Pipeline.scopedRest spec1 c from rfl]
    iintro ⟨-, -, Hr⟩; iexact Hr
  hout c := by
    rw [Pipeline.ownSems0_none, show (pdats1 w g f0 n 0 c).Φ (Fin.last _) = Pipeline.scopedRest spec1 c from rfl]
    iintro Hr
    isplitr; · iempintro
    isplitr; · iempintro
    iexact Hr
  hexit c := by
    rw [Pipeline.arrays_eq (Pipeline.pin (pcfgs (F := F)) adm) (pdats1 w g f0 n) 0 c launch1.arr_whole
      ((pdats1 w g f0 n 0 c).share_full fun _ => rfl), bigSep_W1]
    unfold st1
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats1 w g f0 n 0 c).arrAt 0 (Pipeline.pin (pcfgs (F := F)) adm 0).N = w c from arrAt1_0 w g f0 n c _]; iexact H0
    isplitl [H1]; · rw [show (pdats1 w g f0 n 0 c).arrAt 1 (Pipeline.pin (pcfgs (F := F)) adm 0).N = g c from arrAt1_1 w g f0 n c _]; iexact H1
    iexact H2

/-- What the region hands on: the boundary, the TensorCore's handshake state, the arrays with the output at what the
    write-backs leave. -/
def post1 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v4) ↦{fullShare} g d)
    ∗ (((SparseCore.T d : Thread nD τ).loc main_v5) ↦{fullShare} fin1 w g f0 n d))

include hlv in
set_option maxHeartbeats 2000000 in
set_option backward.isDefEq.respectTransparency.types false in
/-- THE REGION inside the program: from the region boundary, the TensorCore's handshake state before call n, the level
    facts, the three arrays whole and pipeline 0's ghost state, the region's call runs to the same with the output
    array at what the ten write-backs leave. -/
theorem region1 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v4) ↦{fullShare} g d)
        ∗ (((SparseCore.T d : Thread nD τ).loc main_v5) ↦{fullShare} f0 d)
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d : Thread nD τ) none) Set.univ
          (Prog.lift (.customCall (SparseCore.inner (Pipeline.entry (0 : Fin 5))) ()))
          (fun _ => post1 w g f0 n d) := by
  have hreg := Pipeline.RegionSeg.wp (pcfgs (F := F)) adm (pdats1 w g f0 n) none cellOf_inj EP defs₀ 𝒱₀ (K (F := F)).L lv
    (reg1 w g f0 n hlv) d none (fun _ h => by cases h) (α := PUnit) (fun _ => .ret PUnit.unit) (fun _ => post1 w g f0 n d)
  have hlift := (K (F := F)).wp_liftProg (D (F := F)) 𝒱 (SparseCore.T d : Thread nD τ) Set.univ none
    (α := PUnit) (.op (.customCall (Pipeline.entry (0 : Fin 5)) ()) fun _ => .ret PUnit.unit) (fun _ => post1 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post1 SparseCore.Cfg.tcSt
    ihave Hpost' := (show (reg1 w g f0 n hlv).post d ⊢ st1 w g n d (fin1 w g f0 n d) from .rfl) $$ Hpost
    unfold st1
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show st1 w g n d (f0 d) ⊢ (reg1 w g f0 n hlv).pre d from .rfl)
    unfold st1
    isplitl [HO]; · iexact HO
    isplitl [H0]; · iexact H0
    isplitl [H1]; · iexact H1
    iexact H2
  isplitr; · iexact Hlev
  isplitl [Hg]; · iexact Hg
  iexact Ht

end Region1

end Cert.Kernel.Hand

end
-- ==== Proof.BRegion1Value.lean ====
/-
  What region 1 leaves in the output array, in closed form.

  The pipeline's account of the output array after the ten write-backs is the entry contents overwritten, point by
  point, by what the body left. Each point's block is block (t, 0, 0) of ONE whole-array function of the region's
  arrays: on leading slice t the product of the weight matrix with the transposed block t of the gathered rows. So
  the array ends at that function on the first ten leading slices and at its entry contents elsewhere.
-/
import proofs.«206421_g46840913330738_cont_8to1c4_247_26_alg».proof.Proof.BRegion1
import proofs.«206421_g46840913330738_cont_8to1c4_247_26_alg».proof.Proof.BRegion1Defs

set_option maxRecDepth 16384

noncomputable section

namespace Cert.Kernel.Hand

open Cert.Kernel Cert.Kernel.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal1_of_lt (w : Vec F S64x128 .f32) (g : Vec F S163840x128 .f32) (f0 : Vec F S50x64x16384 .f32) (i : S50x64x16384.Idx)
    (h : (i 0).val < 10) : regionVal1 w g f0 i = k1_pay1 w (gBlock g ⟨(i 0).val, h⟩) (toBlk i) := dif_pos h

theorem regionVal1_of_ge (w : Vec F S64x128 .f32) (g : Vec F S163840x128 .f32) (f0 : Vec F S50x64x16384 .f32) (i : S50x64x16384.Idx)
    (h : ¬(i 0).val < 10) : regionVal1 w g f0 i = f0 i := dif_neg h

/-! ## The windows' block indices -/

omit [FloatOps F] in
theorem index1_0 : ∀ t : Fin grid1.N, win1_0.index t 0 = 0 ∧ win1_0.index t 1 = 0 := by decide +kernel
omit [FloatOps F] in
theorem index1_1 : ∀ t : Fin grid1.N, win1_1.index t 0 = t.val ∧ win1_1.index t 1 = 0 := by decide +kernel
omit [FloatOps F] in
theorem index1_2 : ∀ t : Fin grid1.N, win1_2.index t 0 = t.val ∧ win1_2.index t 1 = 0 ∧ win1_2.index t 2 = 0 := by decide +kernel

/-- The grid point that writes leading slice l. -/
def ptAt1 (l : ℕ) (h : l < 10) : Fin cfg1.N := ⟨l, by have e : cfg1.N = 10 := N_1; omega⟩

/-- A point of the grid as a number below ten. -/
def pt1 (t : Fin cfg1.N) : Fin 10 := ⟨t.val, by have h := t.isLt; have e : cfg1.N = 10 := N_1; omega⟩

section Blocks

variable (w : (c : Dev nD) → Buf (Elt F) ((SparseCore.T c).loc main_arg2)) (g : (c : Dev nD) → Buf (Elt F) ((SparseCore.T c).loc main_v4))
  (f0 : (c : Dev nD) → Buf (Elt F) ((SparseCore.T c).loc main_v5)) (n : ℕ)

/-- The weight window's block is the whole matrix at every point. -/
theorem iblk1_0_eq (c : Dev nD) (t : Fin cfg1.N) : iblk1 w g f0 c 0 t = w c := by
  funext y
  show (w c) ((win1_0.rect t).emb y) = (w c) y
  congr 1
  funext a
  apply Fin.ext
  rw [Window.rect_emb_val]
  have h := index1_0 t
  match a with
  | ⟨0, _⟩ => show win1_0.index t 0 * 64 + (y 0).val = (y 0).val; rw [h.1]; omega
  | ⟨1, _⟩ => show win1_0.index t 1 * 128 + (y 1).val = (y 1).val; rw [h.2]; omega

/-- The gathered rows' window holds block t at point t. -/
theorem iblk1_1_eq (c : Dev nD) (t : Fin cfg1.N) : iblk1 w g f0 c 1 t = gBlock (g c) (pt1 t) := by
  funext y
  show (g c) ((win1_1.rect t).emb y) = gBlock (g c) (pt1 t) y
  unfold gBlock
  congr 1
  funext a
  apply Fin.ext
  rw [Window.rect_emb_val]
  have h := index1_1 t
  match a with
  | ⟨0, _⟩ => show win1_1.index t 0 * 16384 + (y 0).val = t.val * 16384 + (y 0).val; rw [h.1]
  | ⟨1, _⟩ => show win1_1.index t 1 * 128 + (y 1).val = (y 1).val; rw [h.2]; omega

/-- The output window's block at point t sits at leading slice t. -/
theorem emb1_2_zero (t : Fin cfg1.N) (y : S1x64x16384.Idx) : (((win1_2.rect t).emb y) 0).val = t.val := by
  rw [Window.rect_emb_val]
  show win1_2.index t 0 * 1 + (y 0).val = t.val
  rw [(index1_2 t).1]
  have : (y 0).val < 1 := (y 0).isLt
  omega

theorem toBlk_emb1_2 (t : Fin cfg1.N) (y : S1x64x16384.Idx) : toBlk ((win1_2.rect t).emb y) = y := by
  funext a
  apply Fin.ext
  have h := index1_2 t
  match a with
  | ⟨0, _⟩ => show 0 = (y 0).val; have : (y 0).val < 1 := (y 0).isLt; omega
  | ⟨1, _⟩ =>
    show (((win1_2.rect t).emb y) 1).val = (y 1).val
    rw [Window.rect_emb_val]; show win1_2.index t 1 * 64 + (y 1).val = (y 1).val; rw [h.2.1]; omega
  | ⟨2, _⟩ =>
    show (((win1_2.rect t).emb y) 2).val = (y 2).val
    rw [Window.rect_emb_val]; show win1_2.index t 2 * 16384 + (y 2).val = (y 2).val; rw [h.2.2]; omega

theorem emb1_2_toBlk (i : S50x64x16384.Idx) (h : (i 0).val < 10) :
    (win1_2.rect (ptAt1 (i 0).val h)).emb (toBlk i) = i := by
  funext a
  apply Fin.ext
  rw [Window.rect_emb_val]
  have hx := index1_2 (ptAt1 (i 0).val h)
  match a with
  | ⟨0, _⟩ => show win1_2.index _ 0 * 1 + 0 = (i 0).val; rw [hx.1]; show (i 0).val * 1 + 0 = (i 0).val; omega
  | ⟨1, _⟩ => show win1_2.index _ 1 * 64 + (i 1).val = (i 1).val; rw [hx.2.1]; omega
  | ⟨2, _⟩ => show win1_2.index _ 2 * 16384 + (i 2).val = (i 2).val; rw [hx.2.2]; omega

/-- What point t writes back is block t of the whole-array function. -/
theorem flushed1_2 (d : Dev nD) (t : Fin cfg1.N) :
    (dat1 w g f0 n d).flushed 2 t = ((cfg1.win 2).blk t).view.read (Elt F) (regionVal1 (w d) (g d) (f0 d)) := by
  funext y
  show (dat1 w g f0 n d).after 2 t y = regionVal1 (w d) (g d) (f0 d) ((win1_2.rect t).emb y)
  rw [after1_2, out1_eq, iblk1_0_eq, iblk1_1_eq]
  have h0 := emb1_2_zero t y
  have hlt : (((win1_2.rect t).emb y) 0).val < 10 := by rw [h0]; exact (pt1 t).isLt
  rw [regionVal1_of_lt _ _ _ _ hlt]
  have e1 : (⟨(((win1_2.rect t).emb y) 0).val, hlt⟩ : Fin 10) = pt1 t := Fin.ext h0
  rw [e1, toBlk_emb1_2]

/-- THE OUTPUT ARRAY AFTER THE REGION is the whole-array function. -/
theorem fin1_eq (d : Dev nD) : fin1 w g f0 n d = regionVal1 (w d) (g d) (f0 d) := by
  funext i
  unfold fin1
  by_cases h : (i 0).val < 10
  · refine (dat1 w g f0 n d).arrAt_apply_of_mem 2 (regionVal1 (w d) (g d) (f0 d)) (fun t _ => flushed1_2 w g f0 n d t) cfg1.N
      (ptAt1 (i 0).val h) i (Fin.isLt _) (flush1_2 _) ?_
    have hm : ((win1_2.rect (ptAt1 (i 0).val h)).emb (toBlk i)
          : ((cfg1.win 2).blk (ptAt1 (i 0).val h)).view.ty.Idx)
        ∈ ((cfg1.win 2).blk (ptAt1 (i 0).val h)).view.set :=
      ((cfg1.win 2).blk (ptAt1 (i 0).val h)).view.emb_mem_set (toBlk i)
    rw [emb1_2_toBlk i h] at hm
    exact hm
  · rw [regionVal1_of_ge _ _ _ _ h]
    refine (dat1 w g f0 n d).arrAt_apply_of_forall_not_mem 2 cfg1.N i fun t _ _ hi => h ?_
    obtain ⟨y, rfl⟩ := View.exists_emb_of_mem_set _ hi
    have h0 := emb1_2_zero t y
    show (((win1_2.rect t).emb y) 0).val < 10
    rw [h0]; exact (pt1 t).isLt

end Blocks

end Cert.Kernel.Hand

end
-- ==== Proof.BRegStep1.lean ====
/-
  Matrix-product region 1, as @main's TensorCore meets it. Of all its arrays the region's pipeline works on three:
  the weights, the gathered rows of the call before it, and the output array. The pipeline's run leaves the first two
  as they were and the output with its ten leading slices 0 … 9 written; the TensorCore's other arrays are
  untouched, and what the TensorCore owes the launch's handshakes is the same before and after.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BRegion1
import proofs.«206421_g46840913330738_cont_8to1c4_247_26_alg».proof.Proof.BRegion1Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR1 : Finset (DevRef τ sig) := {r main_arg2, r main_v4, r main_v5}
omit [FloatOps F] in
theorem SR1_sub : SR1 ⊆ Sall := by decide

omit [FloatOps F] in
theorem held_SR1 (d : Dev nD) (V : Valuation τ sig (Elt F)) :
    (held (T d) SR1 V : sProp (MM F))
      = iprop(((SparseCore.T d).loc main_arg2 ↦{fullShare} V (r main_arg2)) ∗ ((SparseCore.T d).loc main_v4 ↦{fullShare} V (r main_v4))
          ∗ ((SparseCore.T d).loc main_v5 ↦{fullShare} V (r main_v5))) := by
  unfold held SR1
  rw [SparseCore.bigSep_insert' (by decide), SparseCore.bigSep_insert' (by decide), bigSep_singleton]

theorem held_SR1_after (d : Dev nD) :
    (held (T d) SR1 (W6 m d) : sProp (MM F))
      = iprop(((SparseCore.T d).loc main_arg2 ↦{fullShare} W5 m d (r main_arg2)) ∗ ((SparseCore.T d).loc main_v4 ↦{fullShare} W5 m d (r main_v4))
          ∗ ((SparseCore.T d).loc main_v5 ↦{fullShare} regionVal1 (W5 m d (r main_arg2)) (W5 m d (r main_v4)) (W5 m d (r main_v5)))) := by
  rw [held_SR1]; unfold W6
  rw [Function.update_of_ne (show r main_arg2 ≠ r main_v5 by decide), Function.update_of_ne (show r main_v4 ≠ r main_v5 by decide),
    Function.update_self]

theorem held_restR1_after (d : Dev nD) :
    (held (T d) (Sall \ SR1) (W6 m d) : sProp (MM F)) = held (T d) (Sall \ SR1) (W5 m d) :=
  held_congr _ fun b hb => by
    unfold W6
    exact Function.update_of_ne (fun e => (Finset.mem_sdiff.mp hb).2 (by rw [e]; decide)) _ _

/-- Region 1 on the TensorCore of `d`: all its arrays before, all its arrays after. -/
theorem rstep1 (κ : GSem nD τ sig → ℕ) (d : Dev nD) {Φ : PUnit → sProp (MM F)} :
    iprop((K (F := F)).ctx EH (P m) κ ∗ boundary (SparseCore.T d : Thread nD τ) ∗ (K (F := F)).tcSt EH d 1 ∗ held (T d) Sall (W5 m d)
        ∗ (Pipeline.cellsGhost (nD := nD) (τ := τ) cfgs EP 0 d ∗ Pipeline.toksInit (nD := nD) (τ := τ) cfgs EP 0 d)
        ∗ ((boundary (SparseCore.T d : Thread nD τ) ∗ (K (F := F)).tcSt EH d 1 ∗ held (T d) Sall (W6 m d)) -∗ Φ ⟨⟩))
      ⊢ wp frame (wpE ((K (F := F)).defs (D (F := F))) 𝒱 (SparseCore.T d) none) Set.univ
          (Prog.lift (.customCall (SparseCore.inner (Pipeline.entry (0 : Fin 5))) ())) Φ := by
  rw [held_sub_split (T d) SR1_sub (W5 m d), held_SR1]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post1 (fun c => W5 m c (r main_arg2)) (fun c => W5 m c (r main_v4)) (fun c => W5 m c (r main_v5)) 1 d))
  isplitl [Hb Hst Hw Hg Hf Hcg Htk]
  · iapply (region1 (fun c => W5 m c (r main_arg2)) (fun c => W5 m c (r main_v4)) (fun c => W5 m c (r main_v5)) 1
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post1
  icases Hpost with ⟨Hb, Hst, Hw, Hg, Hf⟩
  rw [fin1_eq]
  iapply HΦ
  isplitl [Hb]; · iexact Hb
  isplitl [Hst]; · iexact Hst
  rw [held_sub_split (T d) SR1_sub (W6 m d), held_SR1_after, held_restR1_after]
  isplitr [Hrest]
  · isplitl [Hw]; · iexact Hw
    isplitl [Hg]; · iexact Hg
    iexact Hf
  iexact Hrest

end Cert.Kernel.Hand

end
-- ==== Proof.BRegion3.lean ====
/-
  The second TensorCore matrix-product region of the program (pipeline 1), as the TensorCore meets it between two
  SparseCore calls. It is the first region's pipeline over the second gathered array and the second output array: at
  point j it holds the weight matrix, block j of the gathered rows, and writes block (10 + j, 0, 0) of the output
  array; every other entry of the output array keeps what it held. The body is handed the previous output array as
  an operand left in place and never touches it.
-/
import proofs.«206421_g46840913330738_cont_8to1c4_247_26_alg».proof.Proof.BRegion1

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 3 (pipeline 1): the arrays, the blocks, the body -/

section Region3

variable (w : (c : Dev nD) → Buf (Elt F) ((SparseCore.T c : Thread nD τ).loc main_arg2)) (g : (c : Dev nD) → Buf (Elt F) ((SparseCore.T c : Thread nD τ).loc main_v8))
  (f0 : (c : Dev nD) → Buf (Elt F) ((SparseCore.T c : Thread nD τ).loc main_v9))

/-- The three windowed arrays as the region finds them. -/
def arr3 (c : Dev nD) : (x : Fin cfg3.W) → Buf (Elt F) ((cfg3.win x).arr.view.loc (c : Thread nD τ))
  | ⟨0, _⟩ => w c
  | ⟨1, _⟩ => g c
  | ⟨2, _⟩ => f0 c

/-- Window x's block at point t, read off its array. -/
def iblk3 (c : Dev nD) (x : Fin cfg3.W) (t : Fin cfg3.N) : ((cfg3.win x).xblock (cfg3.grid.coords t)).Idx → Elt F (cfg3.win x).elt :=
  ((cfg3.win x).blk t).view.read (Elt F) (arr3 w g f0 c x)

abbrev r3_0 : Rect S64x128 := Rect.unit (s := S64x128) ![0, 0] S64x128.size inb_S64x128_S64x128_0_0
abbrev r3_1 : Rect S16384x128 := Rect.unit (s := S16384x128) ![0, 0] S16384x128.size inb_S16384x128_S16384x128_0_0
abbrev r3_2 : Rect S1x64x16384 := Rect.unit (s := S1x64x16384) ![0, 0, 0] S1x64x16384.size inb_S1x64x16384_S1x64x16384_0_0_0

/-- What the body leaves in the output window's buffer, from the two input blocks: its one store, whole. -/
def out3 (x0 : Vec F S64x128 .f32) (x1 : Vec F S16384x128 .f32) : Vec F S1x64x16384 .f32 :=
  View.canon [⟨r3_2, k3_pay1 (View.ld x0 r3_0) (View.ld x1 r3_1)⟩]

/-- The store covers the buffer. -/
theorem cover3_2 (p0 : Vec F S1x64x16384 .f32) (y : S1x64x16384.Idx) :
    ∃ pc ∈ ([⟨r3_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out3_eq (x0 : Vec F S64x128 .f32) (x1 : Vec F S16384x128 .f32) : out3 x0 x1 = k3_pay1 x0 x1 := by
  unfold out3
  rw [View.canon_unit_zero zero3, View.ld_unit_zero zero2, View.ld_unit_zero zero2]

set_option maxHeartbeats 1000000 in
/-- The body on whole staging memrefs: the inputs' at read contents x0, x1, the output's at anything; it leaves the
    inputs as they were and the output at out3 of them. -/
theorem sound_kernel3 (c : Dev nD) (E : Set ℕ) (i : grid3.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ Kc ⟨⟩))
      ⊢ wp frame (wpE (defs₀ (F := F)) 𝒱₀ c none) E (cc3_body i arg1 harg1 arg2 harg2 argA hargA arg3 harg3) Kc := by
  simp only [cc3_body_eq_skeleton]; unfold cc3_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover3_2 _)

/-! ## The proof data -/

variable (n : ℕ)

/-- The proof data of pipeline 1 on device c between calls: the arrays as found; after the body at point t each
    input's buffer at its block and the output's at out3 of the blocks; the invariant the scoped buffers no window
    stages; the TensorCore owing what it owes before call n, its recorded pairs at or below level 8 n. -/
def dat3 (c : Dev nD) : Dat τ (Elt F) (HIx 5) ℕ UU ℕ cfg3 c where
  A := arr3 w g f0 c
  after x t := match x with
    | ⟨0, _⟩ => iblk3 w g f0 c 0 t
    | ⟨1, _⟩ => iblk3 w g f0 c 1 t
    | ⟨2, _⟩ => out3 (iblk3 w g f0 c 0 t) (iblk3 w g f0 c 1 t)
  Φ _ := Pipeline.scopedRest (Ix := HIx 5) (Name := ℕ) (U := UU) (Lvl := ℕ) (Val := Elt F) spec3 c
  q _ := fullShare
  owed _ := (K (F := F)).Otc c n
  recorded _ := recBelow (F := F) c n

theorem after3_0 (c : Dev nD) (t : Fin cfg3.N) : (dat3 w g f0 n c).after 0 t = iblk3 w g f0 c 0 t := by dsimp only [dat3]
theorem after3_1 (c : Dev nD) (t : Fin cfg3.N) : (dat3 w g f0 n c).after 1 t = iblk3 w g f0 c 1 t := by dsimp only [dat3]
theorem after3_2 (c : Dev nD) (t : Fin cfg3.N) :
    (dat3 w g f0 n c).after 2 t = out3 (iblk3 w g f0 c 0 t) (iblk3 w g f0 c 1 t) := by dsimp only [dat3]

/-- Each input's current staging buffer holds its block at every point, fetched there or not. -/
theorem before3_0 (c : Dev nD) (t : Fin cfg3.N) (d) : (dat3 w g f0 n c).before 0 t d = iblk3 w g f0 c 0 t :=
  ((dat3 w g f0 n c).before_in_eq_fetched 0 rfl (fun _ => rfl) (fun _ _ _ => rfl)
    (fun t => by rw [after3_0]; unfold Dat.blockOf iblk3; rfl) t d).trans
    (by unfold Dat.fetched Dat.blockOf iblk3; rfl)
theorem before3_1 (c : Dev nD) (t : Fin cfg3.N) (d) : (dat3 w g f0 n c).before 1 t d = iblk3 w g f0 c 1 t :=
  ((dat3 w g f0 n c).before_in_eq_fetched 1 rfl (fun _ => rfl) (fun _ _ _ => rfl)
    (fun t => by rw [after3_1]; unfold Dat.blockOf iblk3; rfl) t d).trans
    (by unfold Dat.fetched Dat.blockOf iblk3; rfl)

/-! ## The body obligation, at a generic point -/

def bodyPre3 (c : Dev nD) (t : Fin cfg3.N) : sProp 𝕄 :=
  iprop((dat3 w g f0 n c).Φ t.castSucc ∗ (dat3 w g f0 n c).owesAt none t.castSucc
    ∗ (∃ d, owns (c : Thread nD τ) (st3_0 t) fullShare ((dat3 w g f0 n c).before 0 t d))
    ∗ (∃ d, owns (c : Thread nD τ) (st3_1 t) fullShare ((dat3 w g f0 n c).before 1 t d))
    ∗ (∃ d, owns (c : Thread nD τ) (st3_2 t) fullShare ((dat3 w g f0 n c).before 2 t d)))

def bodyPost3 (c : Dev nD) (t : Fin cfg3.N) : sProp 𝕄 :=
  iprop((dat3 w g f0 n c).Φ t.succ ∗ (dat3 w g f0 n c).owesAt none t.succ
    ∗ owns (c : Thread nD τ) (st3_0 t) fullShare ((dat3 w g f0 n c).after 0 t)
    ∗ owns (c : Thread nD τ) (st3_1 t) fullShare ((dat3 w g f0 n c).after 1 t)
    ∗ owns (c : Thread nD τ) (st3_2 t) fullShare ((dat3 w g f0 n c).after 2 t))

/-- The body at any point: the inputs' memrefs hold their blocks, so the body's triple applies; the invariant and what
    the TensorCore owes pass through unread. -/
theorem sound_body3 (c : Dev nD) (t : Fin cfg3.N) :
    bodyPre3 w g f0 n c t ⊢ wp frame (wpE (defs₀ (F := F)) 𝒱₀ c none) Set.univ (bodyAt3 t) (fun _ => bodyPost3 w g f0 n c t) := by
  unfold bodyPre3 bodyPost3 bodyAt3
  simp only [before3_0, before3_1]
  rw [show (dat3 w g f0 n c).Φ t.succ = (dat3 w g f0 n c).Φ t.castSucc from rfl,
    show (dat3 w g f0 n c).owesAt none t.succ = (dat3 w g f0 n c).owesAt none t.castSucc from rfl,
    after3_0, after3_1, after3_2]
  iintro ⟨HΦ, Ho, ⟨%d0, H0⟩, ⟨%d1, H1⟩, ⟨%d2, H2⟩⟩
  iapply (sound_kernel3 c Set.univ _ _ _ _ _ _ _ _ _ (iblk3 w g f0 c 0 t) (iblk3 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 w g f0 n c) (defs₀ (F := F)) 𝒱₀ none Set.univ := fun t => by
  rw [bigSep_W3, bigSep_W3]
  exact sound_body3 w g f0 n c t

/-! ## The region as a record -/

/-- Every pipeline's proof data as region 1's record sees it: pipeline 1's, and nothing said of the others. -/
def pdats3 : (p : Fin 5) → (c : Dev nD) → Dat τ (Elt F) (HIx 5) ℕ UU ℕ (Pipeline.pin (pcfgs (F := F)) adm p) c
  | ⟨0, _⟩ => fun c => datIdle _ c
  | ⟨1, _⟩ => fun c => dat3 w g f0 n c
  | ⟨2, _⟩ => fun c => datIdle _ c
  | ⟨3, _⟩ => fun c => datIdle _ c
  | ⟨4, _⟩ => fun c => datIdle _ c

/-- The inputs' arrays are never written. -/
theorem arrAt3_0 (c : Dev nD) (k : ℕ) : (dat3 w g f0 n c).arrAt 0 k = w c := (dat3 w g f0 n c).arrAt_in 0 rfl k
theorem arrAt3_1 (c : Dev nD) (k : ℕ) : (dat3 w g f0 n c).arrAt 1 k = g c := (dat3 w g f0 n c).arrAt_in 1 rfl k

/-- The output array after the region: the entry contents overwritten by the ten write-backs. -/
def fin3 (c : Dev nD) : Buf (Elt F) ((SparseCore.T c : Thread nD τ).loc main_v9) := (dat3 w g f0 n c).arrAt 2 cfg3.N

/-- The thread state around the region: what the TensorCore owes before call n with its recorded pairs bounded, and
    the three arrays whole. -/
def tst3 (c : Dev nD) (f : Buf (Elt F) ((SparseCore.T c : Thread nD τ).loc main_v9)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v8) ↦{fullShare} g c) ∗ (((SparseCore.T c : Thread nD τ).loc main_v9) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg3 : Pipeline.RegionSeg (pcfgs (F := F)) adm (pdats3 w g f0 n) none defs₀ 𝒱₀ (K (F := F)).L lv 1 where
  win := launch3.win.to₀
  block_pos := launch3.block_pos
  stage_whole := launch3.stage_whole
  K := PEmpty
  osem k := k.elim
  ho := Pipeline.OwnSemFacts.none _
  hbody c := (body_obligation3 w g f0 n c).loose
  hwaits c := Pipeline.cellsWaits_intro (Pipeline.pin (pcfgs (F := F)) adm) (pdats3 w g f0 n) none 1 c (R := levAts (K (F := F)).L lv)
    fun x s t => SparseCore.Cfg.mayWait_none (K := K (F := F)) (.dma _) (fun g' => Otc_none c n g') lv hlv
  pre c := tst3 w g n c (f0 c)
  post c := tst3 w g n c (fin3 w g f0 n c)
  X _ := BI.emp
  Y _ := BI.emp
  Z _ := BI.emp
  hentry c := by
    rw [Pipeline.ownSems0_none, Pipeline.arrays_eq (Pipeline.pin (pcfgs (F := F)) adm) (pdats3 w g f0 n) 1 c launch3.arr_whole
      ((pdats3 w g f0 n 1 c).share_full fun _ => rfl), bigSep_W3]
    unfold tst3
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats3 w g f0 n 1 c).Φ 0 = Pipeline.scopedRest spec3 c from rfl]
    iintro ⟨-, -, Hr⟩; iexact Hr
  hout c := by
    rw [Pipeline.ownSems0_none, show (pdats3 w g f0 n 1 c).Φ (Fin.last _) = Pipeline.scopedRest spec3 c from rfl]
    iintro Hr
    isplitr; · iempintro
    isplitr; · iempintro
    iexact Hr
  hexit c := by
    rw [Pipeline.arrays_eq (Pipeline.pin (pcfgs (F := F)) adm) (pdats3 w g f0 n) 1 c launch3.arr_whole
      ((pdats3 w g f0 n 1 c).share_full fun _ => rfl), bigSep_W3]
    unfold tst3
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats3 w g f0 n 1 c).arrAt 0 (Pipeline.pin (pcfgs (F := F)) adm 1).N = w c from arrAt3_0 w g f0 n c _]; iexact H0
    isplitl [H1]; · rw [show (pdats3 w g f0 n 1 c).arrAt 1 (Pipeline.pin (pcfgs (F := F)) adm 1).N = g c from arrAt3_1 w g f0 n c _]; iexact H1
    iexact H2

/-- What the region hands on: the boundary, the TensorCore's handshake state, the arrays with the output at what the
    write-backs leave. -/
def post3 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v8) ↦{fullShare} g d)
    ∗ (((SparseCore.T d : Thread nD τ).loc main_v9) ↦{fullShare} fin3 w g f0 n d))

include hlv in
set_option maxHeartbeats 2000000 in
set_option backward.isDefEq.respectTransparency.types false in
/-- THE REGION inside the program: from the region boundary, the TensorCore's handshake state before call n, the level
    facts, the three arrays whole and pipeline 1's ghost state, the region's call runs to the same with the output
    array at what the ten write-backs leave. -/
theorem region3 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v8) ↦{fullShare} g d)
        ∗ (((SparseCore.T d : Thread nD τ).loc main_v9) ↦{fullShare} f0 d)
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d : Thread nD τ) none) Set.univ
          (Prog.lift (.customCall (SparseCore.inner (Pipeline.entry (1 : Fin 5))) ()))
          (fun _ => post3 w g f0 n d) := by
  have hreg := Pipeline.RegionSeg.wp (pcfgs (F := F)) adm (pdats3 w g f0 n) none cellOf_inj EP defs₀ 𝒱₀ (K (F := F)).L lv
    (reg3 w g f0 n hlv) d none (fun _ h => by cases h) (α := PUnit) (fun _ => .ret PUnit.unit) (fun _ => post3 w g f0 n d)
  have hlift := (K (F := F)).wp_liftProg (D (F := F)) 𝒱 (SparseCore.T d : Thread nD τ) Set.univ none
    (α := PUnit) (.op (.customCall (Pipeline.entry (1 : Fin 5)) ()) fun _ => .ret PUnit.unit) (fun _ => post3 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post3 SparseCore.Cfg.tcSt
    ihave Hpost' := (show (reg3 w g f0 n hlv).post d ⊢ tst3 w g n d (fin3 w g f0 n d) from .rfl) $$ Hpost
    unfold tst3
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst3 w g n d (f0 d) ⊢ (reg3 w g f0 n hlv).pre d from .rfl)
    unfold tst3
    isplitl [HO]; · iexact HO
    isplitl [H0]; · iexact H0
    isplitl [H1]; · iexact H1
    iexact H2
  isplitr; · iexact Hlev
  isplitl [Hg]; · iexact Hg
  iexact Ht

end Region3

end Cert.Kernel.Hand

end
-- ==== Proof.BRegion3Value.lean ====
/-
  What region 3 leaves in the output array, in closed form.

  Each point's block of the output is block (10 + t, 0, 0) of ONE whole-array function of the region's arrays: on
  leading slice 10 + t the product of the weight matrix with the transposed block t of the gathered rows. So the
  array ends at that function on leading slices 10 … 19 and at its entry contents elsewhere.
-/
import proofs.«206421_g46840913330738_cont_8to1c4_247_26_alg».proof.Proof.BRegion3
import proofs.«206421_g46840913330738_cont_8to1c4_247_26_alg».proof.Proof.BRegion3Defs

set_option maxRecDepth 16384

noncomputable section

namespace Cert.Kernel.Hand

open Cert.Kernel Cert.Kernel.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal3_of_mem (w : Vec F S64x128 .f32) (g : Vec F S163840x128 .f32) (f0 : Vec F S50x64x16384 .f32) (i : S50x64x16384.Idx)
    (h : 10 ≤ (i 0).val ∧ (i 0).val < 20) :
    regionVal3 w g f0 i = k3_pay1 w (gBlock g ⟨(i 0).val - 10, by omega⟩) (toBlk i) := dif_pos h

theorem regionVal3_of_not (w : Vec F S64x128 .f32) (g : Vec F S163840x128 .f32) (f0 : Vec F S50x64x16384 .f32) (i : S50x64x16384.Idx)
    (h : ¬(10 ≤ (i 0).val ∧ (i 0).val < 20)) : regionVal3 w g f0 i = f0 i := dif_neg h

/-! ## The windows' block indices -/

omit [FloatOps F] in
theorem index3_0 : ∀ t : Fin grid3.N, win3_0.index t 0 = 0 ∧ win3_0.index t 1 = 0 := by decide +kernel
omit [FloatOps F] in
theorem index3_1 : ∀ t : Fin grid3.N, win3_1.index t 0 = t.val ∧ win3_1.index t 1 = 0 := by decide +kernel
omit [FloatOps F] in
theorem index3_2 : ∀ t : Fin grid3.N, win3_2.index t 0 = 10 + t.val ∧ win3_2.index t 1 = 0 ∧ win3_2.index t 2 = 0 := by decide +kernel

/-- The grid point that writes leading slice l. -/
def ptAt3 (l : ℕ) (h : 10 ≤ l ∧ l < 20) : Fin cfg3.N := ⟨l - 10, by have e : cfg3.N = 10 := N_3; omega⟩

/-- A point of the grid as a number below ten. -/
def pt3 (t : Fin cfg3.N) : Fin 10 := ⟨t.val, by have h := t.isLt; have e : cfg3.N = 10 := N_3; omega⟩

section Blocks

variable (w : (c : Dev nD) → Buf (Elt F) ((SparseCore.T c : Thread nD τ).loc main_arg2)) (g : (c : Dev nD) → Buf (Elt F) ((SparseCore.T c : Thread nD τ).loc main_v8))
  (f0 : (c : Dev nD) → Buf (Elt F) ((SparseCore.T c : Thread nD τ).loc main_v9)) (n : ℕ)

/-- The weight window's block is the whole matrix at every point. -/
theorem iblk3_0_eq (c : Dev nD) (t : Fin cfg3.N) : iblk3 w g f0 c 0 t = w c := by
  funext y
  show (w c) ((win3_0.rect t).emb y) = (w c) y
  congr 1
  funext a
  apply Fin.ext
  rw [Window.rect_emb_val]
  have h := index3_0 t
  match a with
  | ⟨0, _⟩ => show win3_0.index t 0 * 64 + (y 0).val = (y 0).val; rw [h.1]; omega
  | ⟨1, _⟩ => show win3_0.index t 1 * 128 + (y 1).val = (y 1).val; rw [h.2]; omega

/-- The gathered rows' window holds block t at point t. -/
theorem iblk3_1_eq (c : Dev nD) (t : Fin cfg3.N) : iblk3 w g f0 c 1 t = gBlock (g c) (pt3 t) := by
  funext y
  show (g c) ((win3_1.rect t).emb y) = gBlock (g c) (pt3 t) y
  unfold gBlock
  congr 1
  funext a
  apply Fin.ext
  rw [Window.rect_emb_val]
  have h := index3_1 t
  match a with
  | ⟨0, _⟩ => show win3_1.index t 0 * 16384 + (y 0).val = t.val * 16384 + (y 0).val; rw [h.1]
  | ⟨1, _⟩ => show win3_1.index t 1 * 128 + (y 1).val = (y 1).val; rw [h.2]; omega

/-- The output window's block at point t sits at leading slice 10 + t. -/
theorem emb3_2_zero (t : Fin cfg3.N) (y : S1x64x16384.Idx) : (((win3_2.rect t).emb y) 0).val = 10 + t.val := by
  rw [Window.rect_emb_val]
  show win3_2.index t 0 * 1 + (y 0).val = 10 + t.val
  rw [(index3_2 t).1]
  have : (y 0).val < 1 := (y 0).isLt
  omega

theorem toBlk_emb3_2 (t : Fin cfg3.N) (y : S1x64x16384.Idx) : toBlk ((win3_2.rect t).emb y) = y := by
  funext a
  apply Fin.ext
  have h := index3_2 t
  match a with
  | ⟨0, _⟩ => show 0 = (y 0).val; have : (y 0).val < 1 := (y 0).isLt; omega
  | ⟨1, _⟩ =>
    show (((win3_2.rect t).emb y) 1).val = (y 1).val
    rw [Window.rect_emb_val]; show win3_2.index t 1 * 64 + (y 1).val = (y 1).val; rw [h.2.1]; omega
  | ⟨2, _⟩ =>
    show (((win3_2.rect t).emb y) 2).val = (y 2).val
    rw [Window.rect_emb_val]; show win3_2.index t 2 * 16384 + (y 2).val = (y 2).val; rw [h.2.2]; omega

theorem emb3_2_toBlk (i : S50x64x16384.Idx) (h : 10 ≤ (i 0).val ∧ (i 0).val < 20) :
    (win3_2.rect (ptAt3 (i 0).val h)).emb (toBlk i) = i := by
  funext a
  apply Fin.ext
  rw [Window.rect_emb_val]
  have hx := index3_2 (ptAt3 (i 0).val h)
  match a with
  | ⟨0, _⟩ =>
    show win3_2.index _ 0 * 1 + 0 = (i 0).val
    rw [hx.1]; show (10 + ((i 0).val - 10)) * 1 + 0 = (i 0).val; omega
  | ⟨1, _⟩ => show win3_2.index _ 1 * 64 + (i 1).val = (i 1).val; rw [hx.2.1]; omega
  | ⟨2, _⟩ => show win3_2.index _ 2 * 16384 + (i 2).val = (i 2).val; rw [hx.2.2]; omega

/-- What point t writes back is block t of the whole-array function. -/
theorem flushed3_2 (d : Dev nD) (t : Fin cfg3.N) :
    (dat3 w g f0 n d).flushed 2 t = ((cfg3.win 2).blk t).view.read (Elt F) (regionVal3 (w d) (g d) (f0 d)) := by
  funext y
  show (dat3 w g f0 n d).after 2 t y = regionVal3 (w d) (g d) (f0 d) ((win3_2.rect t).emb y)
  rw [after3_2, out3_eq, iblk3_0_eq, iblk3_1_eq]
  have h0 := emb3_2_zero t y
  have hmem : 10 ≤ (((win3_2.rect t).emb y) 0).val ∧ (((win3_2.rect t).emb y) 0).val < 20 := by
    have ht : t.val < 10 := (pt3 t).isLt
    rw [h0]; exact ⟨by omega, by omega⟩
  rw [regionVal3_of_mem _ _ _ _ hmem]
  have e1 : (⟨(((win3_2.rect t).emb y) 0).val - 10, by omega⟩ : Fin 10) = pt3 t := Fin.ext (by show _ - 10 = t.val; omega)
  rw [e1, toBlk_emb3_2]

/-- THE OUTPUT ARRAY AFTER THE REGION is the whole-array function. -/
theorem fin3_eq (d : Dev nD) : fin3 w g f0 n d = regionVal3 (w d) (g d) (f0 d) := by
  funext i
  unfold fin3
  by_cases h : 10 ≤ (i 0).val ∧ (i 0).val < 20
  · refine (dat3 w g f0 n d).arrAt_apply_of_mem 2 (regionVal3 (w d) (g d) (f0 d)) (fun t _ => flushed3_2 w g f0 n d t) cfg3.N
      (ptAt3 (i 0).val h) i (Fin.isLt _) (flush3_2 _) ?_
    have hm : ((win3_2.rect (ptAt3 (i 0).val h)).emb (toBlk i)
          : ((cfg3.win 2).blk (ptAt3 (i 0).val h)).view.ty.Idx)
        ∈ ((cfg3.win 2).blk (ptAt3 (i 0).val h)).view.set :=
      ((cfg3.win 2).blk (ptAt3 (i 0).val h)).view.emb_mem_set (toBlk i)
    rw [emb3_2_toBlk i h] at hm
    exact hm
  · rw [regionVal3_of_not _ _ _ _ h]
    refine (dat3 w g f0 n d).arrAt_apply_of_forall_not_mem 2 cfg3.N i fun t _ _ hi => h ?_
    obtain ⟨y, rfl⟩ := View.exists_emb_of_mem_set _ hi
    have h0 := emb3_2_zero t y
    have ht : t.val < 10 := (pt3 t).isLt
    show 10 ≤ (((win3_2.rect t).emb y) 0).val ∧ (((win3_2.rect t).emb y) 0).val < 20
    rw [h0]; exact ⟨by omega, by omega⟩

end Blocks

end Cert.Kernel.Hand

end
-- ==== Proof.BRegStep3.lean ====
/-
  Matrix-product region 3, as @main's TensorCore meets it. Of all its arrays the region's pipeline works on three:
  the weights, the gathered rows of the call before it, and the output array. The pipeline's run leaves the first two
  as they were and the output with its ten leading slices 10 … 19 written; the TensorCore's other arrays are
  untouched, and what the TensorCore owes the launch's handshakes is the same before and after.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BRegion3
import proofs.«206421_g46840913330738_cont_8to1c4_247_26_alg».proof.Proof.BRegion3Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR3 : Finset (DevRef τ sig) := {r main_arg2, r main_v8, r main_v9}
omit [FloatOps F] in
theorem SR3_sub : SR3 ⊆ Sall := by decide

omit [FloatOps F] in
theorem held_SR3 (d : Dev nD) (V : Valuation τ sig (Elt F)) :
    (held (T d) SR3 V : sProp (MM F))
      = iprop(((SparseCore.T d).loc main_arg2 ↦{fullShare} V (r main_arg2)) ∗ ((SparseCore.T d).loc main_v8 ↦{fullShare} V (r main_v8))
          ∗ ((SparseCore.T d).loc main_v9 ↦{fullShare} V (r main_v9))) := by
  unfold held SR3
  rw [SparseCore.bigSep_insert' (by decide), SparseCore.bigSep_insert' (by decide), bigSep_singleton]

theorem held_SR3_after (d : Dev nD) :
    (held (T d) SR3 (W11 m d) : sProp (MM F))
      = iprop(((SparseCore.T d).loc main_arg2 ↦{fullShare} W10 m d (r main_arg2)) ∗ ((SparseCore.T d).loc main_v8 ↦{fullShare} W10 m d (r main_v8))
          ∗ ((SparseCore.T d).loc main_v9 ↦{fullShare} regionVal3 (W10 m d (r main_arg2)) (W10 m d (r main_v8)) (W10 m d (r main_v9)))) := by
  rw [held_SR3]; unfold W11
  rw [Function.update_of_ne (show r main_arg2 ≠ r main_v9 by decide), Function.update_of_ne (show r main_v8 ≠ r main_v9 by decide),
    Function.update_self]

theorem held_restR3_after (d : Dev nD) :
    (held (T d) (Sall \ SR3) (W11 m d) : sProp (MM F)) = held (T d) (Sall \ SR3) (W10 m d) :=
  held_congr _ fun b hb => by
    unfold W11
    exact Function.update_of_ne (fun e => (Finset.mem_sdiff.mp hb).2 (by rw [e]; decide)) _ _

/-- Region 3 on the TensorCore of `d`: all its arrays before, all its arrays after. -/
theorem rstep3 (κ : GSem nD τ sig → ℕ) (d : Dev nD) {Φ : PUnit → sProp (MM F)} :
    iprop((K (F := F)).ctx EH (P m) κ ∗ boundary (SparseCore.T d : Thread nD τ) ∗ (K (F := F)).tcSt EH d 2 ∗ held (T d) Sall (W10 m d)
        ∗ (Pipeline.cellsGhost (nD := nD) (τ := τ) cfgs EP 1 d ∗ Pipeline.toksInit (nD := nD) (τ := τ) cfgs EP 1 d)
        ∗ ((boundary (SparseCore.T d : Thread nD τ) ∗ (K (F := F)).tcSt EH d 2 ∗ held (T d) Sall (W11 m d)) -∗ Φ ⟨⟩))
      ⊢ wp frame (wpE ((K (F := F)).defs (D (F := F))) 𝒱 (SparseCore.T d) none) Set.univ
          (Prog.lift (.customCall (SparseCore.inner (Pipeline.entry (1 : Fin 5))) ())) Φ := by
  rw [held_sub_split (T d) SR3_sub (W10 m d), held_SR3]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post3 (fun c => W10 m c (r main_arg2)) (fun c => W10 m c (r main_v8)) (fun c => W10 m c (r main_v9)) 2 d))
  isplitl [Hb Hst Hw Hg Hf Hcg Htk]
  · iapply (region3 (fun c => W10 m c (r main_arg2)) (fun c => W10 m c (r main_v8)) (fun c => W10 m c (r main_v9)) 2
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post3
  icases Hpost with ⟨Hb, Hst, Hw, Hg, Hf⟩
  rw [fin3_eq]
  iapply HΦ
  isplitl [Hb]; · iexact Hb
  isplitl [Hst]; · iexact Hst
  rw [held_sub_split (T d) SR3_sub (W11 m d), held_SR3_after, held_restR3_after]
  isplitr [Hrest]
  · isplitl [Hw]; · iexact Hw
    isplitl [Hg]; · iexact Hg
    iexact Hf
  iexact Hrest

end Cert.Kernel.Hand

end
-- ==== Proof.BRegion5.lean ====
/-
  The third TensorCore matrix-product region of the program (pipeline 2), as the TensorCore meets it between two
  SparseCore calls. It is the first region's pipeline over the third gathered array and the third output array: at
  point j it holds the weight matrix, block j of the gathered rows, and writes block (20 + j, 0, 0) of the output
  array; every other entry of the output array keeps what it held. The body is handed the previous output array as
  an operand left in place and never touches it.
-/
import proofs.«206421_g46840913330738_cont_8to1c4_247_26_alg».proof.Proof.BRegion1

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 5 (pipeline 2): the arrays, the blocks, the body -/

section Region5

variable (w : (c : Dev nD) → Buf (Elt F) ((SparseCore.T c : Thread nD τ).loc main_arg2)) (g : (c : Dev nD) → Buf (Elt F) ((SparseCore.T c : Thread nD τ).loc main_v12))
  (f0 : (c : Dev nD) → Buf (Elt F) ((SparseCore.T c : Thread nD τ).loc main_v13))

/-- The three windowed arrays as the region finds them. -/
def arr5 (c : Dev nD) : (x : Fin cfg5.W) → Buf (Elt F) ((cfg5.win x).arr.view.loc (c : Thread nD τ))
  | ⟨0, _⟩ => w c
  | ⟨1, _⟩ => g c
  | ⟨2, _⟩ => f0 c

/-- Window x's block at point t, read off its array. -/
def iblk5 (c : Dev nD) (x : Fin cfg5.W) (t : Fin cfg5.N) : ((cfg5.win x).xblock (cfg5.grid.coords t)).Idx → Elt F (cfg5.win x).elt :=
  ((cfg5.win x).blk t).view.read (Elt F) (arr5 w g f0 c x)

abbrev r5_0 : Rect S64x128 := Rect.unit (s := S64x128) ![0, 0] S64x128.size inb_S64x128_S64x128_0_0
abbrev r5_1 : Rect S16384x128 := Rect.unit (s := S16384x128) ![0, 0] S16384x128.size inb_S16384x128_S16384x128_0_0
abbrev r5_2 : Rect S1x64x16384 := Rect.unit (s := S1x64x16384) ![0, 0, 0] S1x64x16384.size inb_S1x64x16384_S1x64x16384_0_0_0

/-- What the body leaves in the output window's buffer, from the two input blocks: its one store, whole. -/
def out5 (x0 : Vec F S64x128 .f32) (x1 : Vec F S16384x128 .f32) : Vec F S1x64x16384 .f32 :=
  View.canon [⟨r5_2, k5_pay1 (View.ld x0 r5_0) (View.ld x1 r5_1)⟩]

/-- The store covers the buffer. -/
theorem cover5_2 (p0 : Vec F S1x64x16384 .f32) (y : S1x64x16384.Idx) :
    ∃ pc ∈ ([⟨r5_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out5_eq (x0 : Vec F S64x128 .f32) (x1 : Vec F S16384x128 .f32) : out5 x0 x1 = k5_pay1 x0 x1 := by
  unfold out5
  rw [View.canon_unit_zero zero3, View.ld_unit_zero zero2, View.ld_unit_zero zero2]

set_option maxHeartbeats 1000000 in
/-- The body on whole staging memrefs: the inputs' at read contents x0, x1, the output's at anything; it leaves the
    inputs as they were and the output at out5 of them. -/
theorem sound_kernel5 (c : Dev nD) (E : Set ℕ) (i : grid5.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5 x0 x1)) -∗ Kc ⟨⟩))
      ⊢ wp frame (wpE (defs₀ (F := F)) 𝒱₀ c none) E (cc5_body i arg1 harg1 arg2 harg2 argA hargA arg3 harg3) Kc := by
  simp only [cc5_body_eq_skeleton]; unfold cc5_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover5_2 _)

/-! ## The proof data -/

variable (n : ℕ)

/-- The proof data of pipeline 2 on device c between calls: the arrays as found; after the body at point t each
    input's buffer at its block and the output's at out5 of the blocks; the invariant the scoped buffers no window
    stages; the TensorCore owing what it owes before call n, its recorded pairs at or below level 8 n. -/
def dat5 (c : Dev nD) : Dat τ (Elt F) (HIx 5) ℕ UU ℕ cfg5 c where
  A := arr5 w g f0 c
  after x t := match x with
    | ⟨0, _⟩ => iblk5 w g f0 c 0 t
    | ⟨1, _⟩ => iblk5 w g f0 c 1 t
    | ⟨2, _⟩ => out5 (iblk5 w g f0 c 0 t) (iblk5 w g f0 c 1 t)
  Φ _ := Pipeline.scopedRest (Ix := HIx 5) (Name := ℕ) (U := UU) (Lvl := ℕ) (Val := Elt F) spec5 c
  q _ := fullShare
  owed _ := (K (F := F)).Otc c n
  recorded _ := recBelow (F := F) c n

theorem after5_0 (c : Dev nD) (t : Fin cfg5.N) : (dat5 w g f0 n c).after 0 t = iblk5 w g f0 c 0 t := by dsimp only [dat5]
theorem after5_1 (c : Dev nD) (t : Fin cfg5.N) : (dat5 w g f0 n c).after 1 t = iblk5 w g f0 c 1 t := by dsimp only [dat5]
theorem after5_2 (c : Dev nD) (t : Fin cfg5.N) :
    (dat5 w g f0 n c).after 2 t = out5 (iblk5 w g f0 c 0 t) (iblk5 w g f0 c 1 t) := by dsimp only [dat5]

/-- Each input's current staging buffer holds its block at every point, fetched there or not. -/
theorem before5_0 (c : Dev nD) (t : Fin cfg5.N) (d) : (dat5 w g f0 n c).before 0 t d = iblk5 w g f0 c 0 t :=
  ((dat5 w g f0 n c).before_in_eq_fetched 0 rfl (fun _ => rfl) (fun _ _ _ => rfl)
    (fun t => by rw [after5_0]; unfold Dat.blockOf iblk5; rfl) t d).trans
    (by unfold Dat.fetched Dat.blockOf iblk5; rfl)
theorem before5_1 (c : Dev nD) (t : Fin cfg5.N) (d) : (dat5 w g f0 n c).before 1 t d = iblk5 w g f0 c 1 t :=
  ((dat5 w g f0 n c).before_in_eq_fetched 1 rfl (fun _ => rfl) (fun _ _ _ => rfl)
    (fun t => by rw [after5_1]; unfold Dat.blockOf iblk5; rfl) t d).trans
    (by unfold Dat.fetched Dat.blockOf iblk5; rfl)

/-! ## The body obligation, at a generic point -/

def bodyPre5 (c : Dev nD) (t : Fin cfg5.N) : sProp 𝕄 :=
  iprop((dat5 w g f0 n c).Φ t.castSucc ∗ (dat5 w g f0 n c).owesAt none t.castSucc
    ∗ (∃ d, owns (c : Thread nD τ) (st5_0 t) fullShare ((dat5 w g f0 n c).before 0 t d))
    ∗ (∃ d, owns (c : Thread nD τ) (st5_1 t) fullShare ((dat5 w g f0 n c).before 1 t d))
    ∗ (∃ d, owns (c : Thread nD τ) (st5_2 t) fullShare ((dat5 w g f0 n c).before 2 t d)))

def bodyPost5 (c : Dev nD) (t : Fin cfg5.N) : sProp 𝕄 :=
  iprop((dat5 w g f0 n c).Φ t.succ ∗ (dat5 w g f0 n c).owesAt none t.succ
    ∗ owns (c : Thread nD τ) (st5_0 t) fullShare ((dat5 w g f0 n c).after 0 t)
    ∗ owns (c : Thread nD τ) (st5_1 t) fullShare ((dat5 w g f0 n c).after 1 t)
    ∗ owns (c : Thread nD τ) (st5_2 t) fullShare ((dat5 w g f0 n c).after 2 t))

/-- The body at any point: the inputs' memrefs hold their blocks, so the body's triple applies; the invariant and what
    the TensorCore owes pass through unread. -/
theorem sound_body5 (c : Dev nD) (t : Fin cfg5.N) :
    bodyPre5 w g f0 n c t ⊢ wp frame (wpE (defs₀ (F := F)) 𝒱₀ c none) Set.univ (bodyAt5 t) (fun _ => bodyPost5 w g f0 n c t) := by
  unfold bodyPre5 bodyPost5 bodyAt5
  simp only [before5_0, before5_1]
  rw [show (dat5 w g f0 n c).Φ t.succ = (dat5 w g f0 n c).Φ t.castSucc from rfl,
    show (dat5 w g f0 n c).owesAt none t.succ = (dat5 w g f0 n c).owesAt none t.castSucc from rfl,
    after5_0, after5_1, after5_2]
  iintro ⟨HΦ, Ho, ⟨%d0, H0⟩, ⟨%d1, H1⟩, ⟨%d2, H2⟩⟩
  iapply (sound_kernel5 c Set.univ _ _ _ _ _ _ _ _ _ (iblk5 w g f0 c 0 t) (iblk5 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 w g f0 n c) (defs₀ (F := F)) 𝒱₀ none Set.univ := fun t => by
  rw [bigSep_W5, bigSep_W5]
  exact sound_body5 w g f0 n c t

/-! ## The region as a record -/

/-- Every pipeline's proof data as region 1's record sees it: pipeline 2's, and nothing said of the others. -/
def pdats5 : (p : Fin 5) → (c : Dev nD) → Dat τ (Elt F) (HIx 5) ℕ UU ℕ (Pipeline.pin (pcfgs (F := F)) adm p) c
  | ⟨0, _⟩ => fun c => datIdle _ c
  | ⟨1, _⟩ => fun c => datIdle _ c
  | ⟨2, _⟩ => fun c => dat5 w g f0 n c
  | ⟨3, _⟩ => fun c => datIdle _ c
  | ⟨4, _⟩ => fun c => datIdle _ c

/-- The inputs' arrays are never written. -/
theorem arrAt5_0 (c : Dev nD) (k : ℕ) : (dat5 w g f0 n c).arrAt 0 k = w c := (dat5 w g f0 n c).arrAt_in 0 rfl k
theorem arrAt5_1 (c : Dev nD) (k : ℕ) : (dat5 w g f0 n c).arrAt 1 k = g c := (dat5 w g f0 n c).arrAt_in 1 rfl k

/-- The output array after the region: the entry contents overwritten by the ten write-backs. -/
def fin5 (c : Dev nD) : Buf (Elt F) ((SparseCore.T c : Thread nD τ).loc main_v13) := (dat5 w g f0 n c).arrAt 2 cfg5.N

/-- The thread state around the region: what the TensorCore owes before call n with its recorded pairs bounded, and
    the three arrays whole. -/
def tst5 (c : Dev nD) (f : Buf (Elt F) ((SparseCore.T c : Thread nD τ).loc main_v13)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v12) ↦{fullShare} g c) ∗ (((SparseCore.T c : Thread nD τ).loc main_v13) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg5 : Pipeline.RegionSeg (pcfgs (F := F)) adm (pdats5 w g f0 n) none defs₀ 𝒱₀ (K (F := F)).L lv 2 where
  win := launch5.win.to₀
  block_pos := launch5.block_pos
  stage_whole := launch5.stage_whole
  K := PEmpty
  osem k := k.elim
  ho := Pipeline.OwnSemFacts.none _
  hbody c := (body_obligation5 w g f0 n c).loose
  hwaits c := Pipeline.cellsWaits_intro (Pipeline.pin (pcfgs (F := F)) adm) (pdats5 w g f0 n) none 2 c (R := levAts (K (F := F)).L lv)
    fun x s t => SparseCore.Cfg.mayWait_none (K := K (F := F)) (.dma _) (fun g' => Otc_none c n g') lv hlv
  pre c := tst5 w g n c (f0 c)
  post c := tst5 w g n c (fin5 w g f0 n c)
  X _ := BI.emp
  Y _ := BI.emp
  Z _ := BI.emp
  hentry c := by
    rw [Pipeline.ownSems0_none, Pipeline.arrays_eq (Pipeline.pin (pcfgs (F := F)) adm) (pdats5 w g f0 n) 2 c launch5.arr_whole
      ((pdats5 w g f0 n 2 c).share_full fun _ => rfl), bigSep_W5]
    unfold tst5
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats5 w g f0 n 2 c).Φ 0 = Pipeline.scopedRest spec5 c from rfl]
    iintro ⟨-, -, Hr⟩; iexact Hr
  hout c := by
    rw [Pipeline.ownSems0_none, show (pdats5 w g f0 n 2 c).Φ (Fin.last _) = Pipeline.scopedRest spec5 c from rfl]
    iintro Hr
    isplitr; · iempintro
    isplitr; · iempintro
    iexact Hr
  hexit c := by
    rw [Pipeline.arrays_eq (Pipeline.pin (pcfgs (F := F)) adm) (pdats5 w g f0 n) 2 c launch5.arr_whole
      ((pdats5 w g f0 n 2 c).share_full fun _ => rfl), bigSep_W5]
    unfold tst5
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats5 w g f0 n 2 c).arrAt 0 (Pipeline.pin (pcfgs (F := F)) adm 2).N = w c from arrAt5_0 w g f0 n c _]; iexact H0
    isplitl [H1]; · rw [show (pdats5 w g f0 n 2 c).arrAt 1 (Pipeline.pin (pcfgs (F := F)) adm 2).N = g c from arrAt5_1 w g f0 n c _]; iexact H1
    iexact H2

/-- What the region hands on: the boundary, the TensorCore's handshake state, the arrays with the output at what the
    write-backs leave. -/
def post5 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v12) ↦{fullShare} g d)
    ∗ (((SparseCore.T d : Thread nD τ).loc main_v13) ↦{fullShare} fin5 w g f0 n d))

include hlv in
set_option maxHeartbeats 2000000 in
set_option backward.isDefEq.respectTransparency.types false in
/-- THE REGION inside the program: from the region boundary, the TensorCore's handshake state before call n, the level
    facts, the three arrays whole and pipeline 2's ghost state, the region's call runs to the same with the output
    array at what the ten write-backs leave. -/
theorem region5 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v12) ↦{fullShare} g d)
        ∗ (((SparseCore.T d : Thread nD τ).loc main_v13) ↦{fullShare} f0 d)
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (SparseCore.T d : Thread nD τ) none) Set.univ
          (Prog.lift (.customCall (SparseCore.inner (Pipeline.entry (2 : Fin 5))) ()))
          (fun _ => post5 w g f0 n d) := by
  have hreg := Pipeline.RegionSeg.wp (pcfgs (F := F)) adm (pdats5 w g f0 n) none cellOf_inj EP defs₀ 𝒱₀ (K (F := F)).L lv
    (reg5 w g f0 n hlv) d none (fun _ h => by cases h) (α := PUnit) (fun _ => .ret PUnit.unit) (fun _ => post5 w g f0 n d)
  have hlift := (K (F := F)).wp_liftProg (D (F := F)) 𝒱 (SparseCore.T d : Thread nD τ) Set.univ none
    (α := PUnit) (.op (.customCall (Pipeline.entry (2 : Fin 5)) ()) fun _ => .ret PUnit.unit) (fun _ => post5 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post5 SparseCore.Cfg.tcSt
    ihave Hpost' := (show (reg5 w g f0 n hlv).post d ⊢ tst5 w g n d (fin5 w g f0 n d) from .rfl) $$ Hpost
    unfold tst5
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst5 w g n d (f0 d) ⊢ (reg5 w g f0 n hlv).pre d from .rfl)
    unfold tst5
    isplitl [HO]; · iexact HO
    isplitl [H0]; · iexact H0
    isplitl [H1]; · iexact H1
    iexact H2
  isplitr; · iexact Hlev
  isplitl [Hg]; · iexact Hg
  iexact Ht

end Region5

end Cert.Kernel.Hand

end
-- ==== Proof.BRegion5Value.lean ====
/-
  What region 5 leaves in the output array, in closed form.

  Each point's block of the output is block (20 + t, 0, 0) of ONE whole-array function of the region's arrays: on
  leading slice 20 + t the product of the weight matrix with the transposed block t of the gathered rows. So the
  array ends at that function on leading slices 20 … 29 and at its entry contents elsewhere.
-/
import proofs.«206421_g46840913330738_cont_8to1c4_247_26_alg».proof.Proof.BRegion5
import proofs.«206421_g46840913330738_cont_8to1c4_247_26_alg».proof.Proof.BRegion5Defs

set_option maxRecDepth 16384

noncomputable section

namespace Cert.Kernel.Hand

open Cert.Kernel Cert.Kernel.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal5_of_mem (w : Vec F S64x128 .f32) (g : Vec F S163840x128 .f32) (f0 : Vec F S50x64x16384 .f32) (i : S50x64x16384.Idx)
    (h : 20 ≤ (i 0).val ∧ (i 0).val < 30) :
    regionVal5 w g f0 i = k5_pay1 w (gBlock g ⟨(i 0).val - 20, by omega⟩) (toBlk i) := dif_pos h

theorem regionVal5_of_not (w : Vec F S64x128 .f32) (g : Vec F S163840x128 .f32) (f0 : Vec F S50x64x16384 .f32) (i : S50x64x16384.Idx)
    (h : ¬(20 ≤ (i 0).val ∧ (i 0).val < 30)) : regionVal5 w g f0 i = f0 i := dif_neg h

/-! ## The windows' block indices -/

omit [FloatOps F] in
theorem index5_0 : ∀ t : Fin grid5.N, win5_0.index t 0 = 0 ∧ win5_0.index t 1 = 0 := by decide +kernel
omit [FloatOps F] in
theorem index5_1 : ∀ t : Fin grid5.N, win5_1.index t 0 = t.val ∧ win5_1.index t 1 = 0 := by decide +kernel
omit [FloatOps F] in
theorem index5_2 : ∀ t : Fin grid5.N, win5_2.index t 0 = 20 + t.val ∧ win5_2.index t 1 = 0 ∧ win5_2.index t 2 = 0 := by decide +kernel

/-- The grid point that writes leading slice l. -/
def ptAt5 (l : ℕ) (h : 20 ≤ l ∧ l < 30) : Fin cfg5.N := ⟨l - 20, by have e : cfg5.N = 10 := N_5; omega⟩

/-- A point of the grid as a number below ten. -/
def pt5 (t : Fin cfg5.N) : Fin 10 := ⟨t.val, by have h := t.isLt; have e : cfg5.N = 10 := N_5; omega⟩

section Blocks

variable (w : (c : Dev nD) → Buf (Elt F) ((SparseCore.T c : Thread nD τ).loc main_arg2)) (g : (c : Dev nD) → Buf (Elt F) ((SparseCore.T c : Thread nD τ).loc main_v12))
  (f0 : (c : Dev nD) → Buf (Elt F) ((SparseCore.T c : Thread nD τ).loc main_v13)) (n : ℕ)

/-- The weight window's block is the whole matrix at every point. -/
theorem iblk5_0_eq (c : Dev nD) (t : Fin cfg5.N) : iblk5 w g f0 c 0 t = w c := by
  funext y
  show (w c) ((win5_0.rect t).emb y) = (w c) y
  congr 1
  funext a
  apply Fin.ext
  rw [Window.rect_emb_val]
  have h := index5_0 t
  match a with
  | ⟨0, _⟩ => show win5_0.index t 0 * 64 + (y 0).val = (y 0).val; rw [h.1]; omega
  | ⟨1, _⟩ => show win5_0.index t 1 * 128 + (y 1).val = (y 1).val; rw [h.2]; omega

/-- The gathered rows' window holds block t at point t. -/
theorem iblk5_1_eq (c : Dev nD) (t : Fin cfg5.N) : iblk5 w g f0 c 1 t = gBlock (g c) (pt5 t) := by
  funext y
  show (g c) ((win5_1.rect t).emb y) = gBlock (g c) (pt5 t) y
  unfold gBlock
  congr 1
  funext a
  apply Fin.ext
  rw [Window.rect_emb_val]
  have h := index5_1 t
  match a with
  | ⟨0, _⟩ => show win5_1.index t 0 * 16384 + (y 0).val = t.val * 16384 + (y 0).val; rw [h.1]
  | ⟨1, _⟩ => show win5_1.index t 1 * 128 + (y 1).val = (y 1).val; rw [h.2]; omega

/-- The output window's block at point t sits at leading slice 20 + t. -/
theorem emb5_2_zero (t : Fin cfg5.N) (y : S1x64x16384.Idx) : (((win5_2.rect t).emb y) 0).val = 20 + t.val := by
  rw [Window.rect_emb_val]
  show win5_2.index t 0 * 1 + (y 0).val = 20 + t.val
  rw [(index5_2 t).1]
  have : (y 0).val < 1 := (y 0).isLt
  omega

theorem toBlk_emb5_2 (t : Fin cfg5.N) (y : S1x64x16384.Idx) : toBlk ((win5_2.rect t).emb y) = y := by
  funext a
  apply Fin.ext
  have h := index5_2 t
  match a with
  | ⟨0, _⟩ => show 0 = (y 0).val; have : (y 0).val < 1 := (y 0).isLt; omega
  | ⟨1, _⟩ =>
    show (((win5_2.rect t).emb y) 1).val = (y 1).val
    rw [Window.rect_emb_val]; show win5_2.index t 1 * 64 + (y 1).val = (y 1).val; rw [h.2.1]; omega
  | ⟨2, _⟩ =>
    show (((win5_2.rect t).emb y) 2).val = (y 2).val
    rw [Window.rect_emb_val]; show win5_2.index t 2 * 16384 + (y 2).val = (y 2).val; rw [h.2.2]; omega

theorem emb5_2_toBlk (i : S50x64x16384.Idx) (h : 20 ≤ (i 0).val ∧ (i 0).val < 30) :
    (win5_2.rect (ptAt5 (i 0).val h)).emb (toBlk i) = i := by
  funext a
  apply Fin.ext
  rw [Window.rect_emb_val]
  have hx := index5_2 (ptAt5 (i 0).val h)
  match a with
  | ⟨0, _⟩ =>
    show win5_2.index _ 0 * 1 + 0 = (i 0).val
    rw [hx.1]; show (20 + ((i 0).val - 20)) * 1 + 0 = (i 0).val; omega
  | ⟨1, _⟩ => show win5_2.index _ 1 * 64 + (i 1).val = (i 1).val; rw [hx.2.1]; omega
  | ⟨2, _⟩ => show win5_2.index _ 2 * 16384 + (i 2).val = (i 2).val; rw [hx.2.2]; omega

/-- What point t writes back is block t of the whole-array function. -/
theorem flushed5_2 (d : Dev nD) (t : Fin cfg5.N) :
    (dat5 w g f0 n d).flushed 2 t = ((cfg5.win 2).blk t).view.read (Elt F) (regionVal5 (w d) (g d) (f0 d)) := by
  funext y
  show (dat5 w g f0 n d).after 2 t y = regionVal5 (w d) (g d) (f0 d) ((win5_2.rect t).emb y)
  rw [after5_2, out5_eq, iblk5_0_eq, iblk5_1_eq]
  have h0 := emb5_2_zero t y
  have hmem : 20 ≤ (((win5_2.rect t).emb y) 0).val ∧ (((win5_2.rect t).emb y) 0).val < 30 := by
    have ht : t.val < 10 := (pt5 t).isLt
    rw [h0]; exact ⟨by omega, by omega⟩
  rw [regionVal5_of_mem _ _ _ _ hmem]
  have e1 : (⟨(((win5_2.rect t).emb y) 0).val - 20, by omega⟩ : Fin 10) = pt5 t := Fin.ext (by show _ - 20 = t.val; omega)
  rw [e1, toBlk_emb5_2]

/-- THE OUTPUT ARRAY AFTER THE REGION is the whole-array function. -/
theorem fin5_eq (d : Dev nD) : fin5 w g f0 n d = regionVal5 (w d) (g d) (f0 d) := by
  funext i
  unfold fin5
  by_cases h : 20 ≤ (i 0).val ∧ (i 0).val < 30
  · refine (dat5 w g f0 n d).arrAt_apply_of_mem 2 (regionVal5 (w d) (g d) (f0 d)) (fun t _ => flushed5_2 w g f0 n d t) cfg5.N
      (ptAt5 (i 0).val h) i (Fin.isLt _) (flush5_2 _) ?_
    have hm : ((win5_2.rect (ptAt5 (i 0).val h)).emb (toBlk i)
          : ((cfg5.win 2).blk (ptAt5 (i 0).val h)).view.ty.Idx)
        ∈ ((cfg5.win 2).blk (ptAt5 (i 0).val h)).view.set :=
      ((cfg5.win 2).blk (ptAt5 (i 0).val h)).view.emb_mem_set (toBlk i)
    rw [emb5_2_toBlk i h] at hm
    exact hm
  · rw [regionVal5_of_not _ _ _ _ h]
    refine (dat5 w g f0 n d).arrAt_apply_of_forall_not_mem 2 cfg5.N i fun t _ _ hi => h ?_
    obtain ⟨y, rfl⟩ := View.exists_emb_of_mem_set _ hi
    have h0 := emb5_2_zero t y
    have ht : t.val < 10 := (pt5 t).isLt
    show 20 ≤ (((win5_2.rect t).emb y) 0).val ∧ (((win5_2.rect t).emb y) 0).val < 30
    rw [h0]; exact ⟨by omega, by omega⟩

end Blocks

end Cert.Kernel.Hand

end
-- ==== Proof.BRegStep5.lean ====
/-
  Matrix-product region 5, as @main's TensorCore meets it. Of all its arrays the region's pipeline works on three:
  the weights, the gathered rows of the call before it, and the output array. The pipeline's run leaves the first two
  as they were and the output with its ten leading slices 20 … 29 written; the TensorCore's other arrays are
  untouched, and what the TensorCore owes the launch's handshakes is the same before and after.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BRegion5
import proofs.«206421_g46840913330738_cont_8to1c4_247_26_alg».proof.Proof.BRegion5Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR5 : Finset (DevRef τ sig) := {r main_arg2, r main_v12, r main_v13}
omit [FloatOps F] in
theorem SR5_sub : SR5 ⊆ Sall := by decide

omit [FloatOps F] in
theorem held_SR5 (d : Dev nD) (V : Valuation τ sig (Elt F)) :
    (held (T d) SR5 V : sProp (MM F))
      = iprop(((SparseCore.T d).loc main_arg2 ↦{fullShare} V (r main_arg2)) ∗ ((SparseCore.T d).loc main_v12 ↦{fullShare} V (r main_v12))
          ∗ ((SparseCore.T d).loc main_v13 ↦{fullShare} V (r main_v13))) := by
  unfold held SR5
  rw [SparseCore.bigSep_insert' (by decide), SparseCore.bigSep_insert' (by decide), bigSep_singleton]

theorem held_SR5_after (d : Dev nD) :
    (held (T d) SR5 (W16 m d) : sProp (MM F))
      = iprop(((SparseCore.T d).loc main_arg2 ↦{fullShare} W15 m d (r main_arg2)) ∗ ((SparseCore.T d).loc main_v12 ↦{fullShare} W15 m d (r main_v12))
          ∗ ((SparseCore.T d).loc main_v13 ↦{fullShare} regionVal5 (W15 m d (r main_arg2)) (W15 m d (r main_v12)) (W15 m d (r main_v13)))) := by
  rw [held_SR5]; unfold W16
  rw [Function.update_of_ne (show r main_arg2 ≠ r main_v13 by decide), Function.update_of_ne (show r main_v12 ≠ r main_v13 by decide),
    Function.update_self]

theorem held_restR5_after (d : Dev nD) :
    (held (T d) (Sall \ SR5) (W16 m d) : sProp (MM F)) = held (T d) (Sall \ SR5) (W15 m d) :=
  held_congr _ fun b hb => by
    unfold W16
    exact Function.update_of_ne (fun e => (Finset.mem_sdiff.mp hb).2 (by rw [e]; decide)) _ _

/-- Region 5 on the TensorCore of `d`: all its arrays before, all its arrays after. -/
theorem rstep5 (κ : GSem nD τ sig → ℕ) (d : Dev nD) {Φ : PUnit → sProp (MM F)} :
    iprop((K (F := F)).ctx EH (P m) κ ∗ boundary (SparseCore.T d : Thread nD τ) ∗ (K (F := F)).tcSt EH d 3 ∗ held (T d) Sall (W15 m d)
        ∗ (Pipeline.cellsGhost (nD := nD) (τ := τ) cfgs EP 2 d ∗ Pipeline.toksInit (nD := nD) (τ := τ) cfgs EP 2 d)
        ∗ ((boundary (SparseCore.T d : Thread nD τ) ∗ (K (F := F)).tcSt EH d 3 ∗ held (T d) Sall (W16 m d)) -∗ Φ ⟨⟩))
      ⊢ wp frame (wpE ((K (F := F)).defs (D (F := F))) 𝒱 (SparseCore.T d) none) Set.univ
          (Prog.lift (.customCall (SparseCore.inner (Pipeline.entry (2 : Fin 5))) ())) Φ := by
  rw [held_sub_split (T d) SR5_sub (W15 m d), held_SR5]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post5 (fun c => W15 m c (r main_arg2)) (fun c => W15 m c (r main_v12)) (fun c => W15 m c (r main_v13)) 3 d))
  isplitl [Hb Hst Hw Hg Hf Hcg Htk]
  · iapply (region5 (fun c => W15 m c (r main_arg2)) (fun c => W15 m c (r main_v12)) (fun c => W15 m c (r main_v13)) 3
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post5
  icases Hpost with ⟨Hb, Hst, Hw, Hg, Hf⟩
  rw [fin5_eq]
  iapply HΦ
  isplitl [Hb]; · iexact Hb
  isplitl [Hst]; · iexact Hst
  rw [held_sub_split (T d) SR5_sub (W16 m d), held_SR5_after, held_restR5_after]
  isplitr [Hrest]
  · isplitl [Hw]; · iexact Hw
    isplitl [Hg]; · iexact Hg
    iexact Hf
  iexact Hrest

end Cert.Kernel.Hand

end
-- ==== Proof.BRegion7.lean ====
/-
  The fourth TensorCore matrix-product region of the program (pipeline 3), as the TensorCore meets it between two
  SparseCore calls. It is the first region's pipeline over the fourth gathered array and the fourth output array: at
  point j it holds the weight matrix, block j of the gathered rows, and writes block (30 + j, 0, 0) of the output
  array; every other entry of the output array keeps what it held. The body is handed the previous output array as
  an operand left in place and never touches it.
-/
import proofs.«206421_g46840913330738_cont_8to1c4_247_26_alg».proof.Proof.BRegion1

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 7 (pipeline 3): the arrays, the blocks, the body -/

section Region7

variable (w : (c : Dev nD) → Buf (Elt F) ((SparseCore.T c : Thread nD τ).loc main_arg2)) (g : (c : Dev nD) → Buf (Elt F) ((SparseCore.T c : Thread nD τ).loc main_v16))
  (f0 : (c : Dev nD) → Buf (Elt F) ((SparseCore.T c : Thread nD τ).loc main_v17))

/-- The three windowed arrays as the region finds them. -/
def arr7 (c : Dev nD) : (x : Fin cfg7.W) → Buf (Elt F) ((cfg7.win x).arr.view.loc (c : Thread nD τ))
  | ⟨0, _⟩ => w c
  | ⟨1, _⟩ => g c
  | ⟨2, _⟩ => f0 c

/-- Window x's block at point t, read off its array. -/
def iblk7 (c : Dev nD) (x : Fin cfg7.W) (t : Fin cfg7.N) : ((cfg7.win x).xblock (cfg7.grid.coords t)).Idx → Elt F (cfg7.win x).elt :=
  ((cfg7.win x).blk t).view.read (Elt F) (arr7 w g f0 c x)

abbrev r7_0 : Rect S64x128 := Rect.unit (s := S64x128) ![0, 0] S64x128.size inb_S64x128_S64x128_0_0
abbrev r7_1 : Rect S16384x128 := Rect.unit (s := S16384x128) ![0, 0] S16384x128.size inb_S16384x128_S16384x128_0_0
abbrev r7_2 : Rect S1x64x16384 := Rect.unit (s := S1x64x16384) ![0, 0, 0] S1x64x16384.size inb_S1x64x16384_S1x64x16384_0_0_0

/-- What the body leaves in the output window's buffer, from the two input blocks: its one store, whole. -/
def out7 (x0 : Vec F S64x128 .f32) (x1 : Vec F S16384x128 .f32) : Vec F S1x64x16384 .f32 :=
  View.canon [⟨r7_2, k7_pay1 (View.ld x0 r7_0) (View.ld x1 r7_1)⟩]

/-- The store covers the buffer. -/
theorem cover7_2 (p0 : Vec F S1x64x16384 .f32) (y : S1x64x16384.Idx) :
    ∃ pc ∈ ([⟨r7_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out7_eq (x0 : Vec F S64x128 .f32) (x1 : Vec F S16384x128 .f32) : out7 x0 x1 = k7_pay1 x0 x1 := by
  unfold out7
  rw [View.canon_unit_zero zero3, View.ld_unit_zero zero2, View.ld_unit_zero zero2]

set_option maxHeartbeats 1000000 in
/-- The body on whole staging memrefs: the inputs' at read contents x0, x1, the output's at anything; it leaves the
    inputs as they were and the output at out7 of them. -/
theorem sound_kernel7 (c : Dev nD) (E : Set ℕ) (i : grid7.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7 x0 x1)) -∗ Kc ⟨⟩))
      ⊢ wp frame (wpE (defs₀ (F := F)) 𝒱₀ c none) E (cc7_body i arg1 harg1 arg2 harg2 argA hargA arg3 harg3) Kc := by
  simp only [cc7_body_eq_skeleton]; unfold cc7_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover7_2 _)

/-! ## The proof data -/

variable (n : ℕ)

/-- The proof data of pipeline 3 on device c between calls: the arrays as found; after the body at point t each
    input's buffer at its block and the output's at out7 of the blocks; the invariant the scoped buffers no window
    stages; the TensorCore owing what it owes before call n, its recorded pairs at or below level 8 n. -/
def dat7 (c : Dev nD) : Dat τ (Elt F) (HIx 5) ℕ UU ℕ cfg7 c where
  A := arr7 w g f0 c
  after x t := match x with
    | ⟨0, _⟩ => iblk7 w g f0 c 0 t
    | ⟨1, _⟩ => iblk7 w g f0 c 1 t
    | ⟨2, _⟩ => out7 (iblk7 w g f0 c 0 t) (iblk7 w g f0 c 1 t)
  Φ _ := Pipeline.scopedRest (Ix := HIx 5) (Name := ℕ) (U := UU) (Lvl := ℕ) (Val := Elt F) spec7 c
  q _ := fullShare
  owed _ := (K (F := F)).Otc c n
  recorded _ := recBelow (F := F) c n

theorem after7_0 (c : Dev nD) (t : Fin cfg7.N) : (dat7 w g f0 n c).after 0 t = iblk7 w g f0 c 0 t := by dsimp only [dat7]
theorem after7_1 (c : Dev nD) (t : Fin cfg7.N) : (dat7 w g f0 n c).after 1 t = iblk7 w g f0 c 1 t := by dsimp only [dat7]
theorem after7_2 (c : Dev nD) (t : Fin cfg7.N) :
    (dat7 w g f0 n c).after 2 t = out7 (iblk7 w g f0 c 0 t) (iblk7 w g f0 c 1 t) := by dsimp only [dat7]

/-- Each input's current staging buffer holds its block at every point, fetched there or not. -/
theorem before7_0 (c : Dev nD) (t : Fin cfg7.N) (d) : (dat7 w g f0 n c).before 0 t d = iblk7 w g f0 c 0 t :=
  ((dat7 w g f0 n c).before_in_eq_fetched 0 rfl (fun _ => rfl) (fun _ _ _ => rfl)
    (fun t => by rw [after7_0]; unfold Dat.blockOf iblk7; rfl) t d).trans
    (by unfold Dat.fetched Dat.blockOf iblk7; rfl)
theorem before7_1 (c : Dev nD) (t : Fin cfg7.N) (d) : (dat7 w g f0 n c).before 1 t d = iblk7 w g f0 c 1 t :=
  ((dat7 w g f0 n c).before_in_eq_fetched 1 rfl (fun _ => rfl) (fun _ _ _ => rfl)
    (fun t => by rw [after7_1]; unfold Dat.blockOf iblk7; rfl) t d).trans
    (by unfold Dat.fetched Dat.blockOf iblk7; rfl)

/-! ## The body obligation, at a generic point -/

def bodyPre7 (c : Dev nD) (t : Fin cfg7.N) : sProp 𝕄 :=
  iprop((dat7 w g f0 n c).Φ t.castSucc ∗ (dat7 w g f0 n c).owesAt none t.castSucc
    ∗ (∃ d, owns (c : Thread nD τ) (st7_0 t) fullShare ((dat7 w g f0 n c).before 0 t d))
    ∗ (∃ d, owns (c : Thread nD τ) (st7_1 t) fullShare ((dat7 w g f0 n c).before 1 t d))
    ∗ (∃ d, owns (c : Thread nD τ) (st7_2 t) fullShare ((dat7 w g f0 n c).before 2 t d)))

def bodyPost7 (c : Dev nD) (t : Fin cfg7.N) : sProp 𝕄 :=
  iprop((dat7 w g f0 n c).Φ t.succ ∗ (dat7 w g f0 n c).owesAt none t.succ
    ∗ owns (c : Thread nD τ) (st7_0 t) fullShare ((dat7 w g f0 n c).after 0 t)
    ∗ owns (c : Thread nD τ) (st7_1 t) fullShare ((dat7 w g f0 n c).after 1 t)
    ∗ owns (c : Thread nD τ) (st7_2 t) fullShare ((dat7 w g f0 n c).after 2 t))

/-- The body at any point: the inputs' memrefs hold their blocks, so the body's triple applies; the invariant and what
    the TensorCore owes pass through unread. -/
theorem sound_body7 (c : Dev nD) (t : Fin cfg7.N) :
    bodyPre7 w g f0 n c t ⊢ wp frame (wpE (defs₀ (F := F)) 𝒱₀ c none) Set.univ (bodyAt7 t) (fun _ => bodyPost7 w g f0 n c t) := by
  unfold bodyPre7 bodyPost7 bodyAt7
  simp only [before7_0, before7_1]
  rw [show (dat7 w g f0 n c).Φ t.succ = (dat7 w g f0 n c).Φ t.castSucc from rfl,
    show (dat7 w g f0 n c).owesAt none t.succ = (dat7 w g f0 n c).owesAt none t.castSucc from rfl,
    after7_0, after7_1, after7_2]
  iintro ⟨HΦ, Ho, ⟨%d0, H0⟩, ⟨%d1, H1⟩, ⟨%d2, H2⟩⟩
  iapply (sound_kernel7 c Set.univ _ _ _ _ _ _ _ _ _ (iblk7 w g f0 c 0 t) (iblk7 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 w g f0 n c) (defs₀ (F := F)) 𝒱₀ none Set.univ := fun t => by
  rw [bigSep_W7, bigSep_W7]
  exact sound_body7 w g f0 n c t

/-! ## The region as a record -/

/-- Every pipeline's proof data as region 1's record sees it: pipeline 3's, and nothing said of the others. -/
def pdats7 : (p : Fin 5) → (c : Dev nD) → Dat τ (Elt F) (HIx 5) ℕ UU ℕ (Pipeline.pin (pcfgs (F := F)) adm p) c
  | ⟨0, _⟩ => fun c => datIdle _ c
  | ⟨1, _⟩ => fun c => datIdle _ c
  | ⟨2, _⟩ => fun c => datIdle _ c
  | ⟨3, _⟩ => fun c => dat7 w g f0 n c
  | ⟨4, _⟩ => fun c => datIdle _ c

/-- The inputs' arrays are never written. -/
theorem arrAt7_0 (c : Dev nD) (k : ℕ) : (dat7 w g f0 n c).arrAt 0 k = w c := (dat7 w g f0 n c).arrAt_in 0 rfl k
theorem arrAt7_1 (c : Dev nD) (k : ℕ) : (dat7 w g f0 n c).arrAt 1 k = g c := (dat7 w g f0 n c).arrAt_in 1 rfl k

/-- The output array after the region: the entry contents overwritten by the ten write-backs. -/
def fin7 (c : Dev nD) : Buf (Elt F) ((SparseCore.T c : Thread nD τ).loc main_v17) := (dat7 w g f0 n c).arrAt 2 cfg7.N

/-- The thread state around the region: what the TensorCore owes before call n with its recorded pairs bounded, and
    the three arrays whole. -/
def tst7 (c : Dev nD) (f : Buf (Elt F) ((SparseCore.T c : Thread nD τ).loc main_v17)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v16) ↦{fullShare} g c) ∗ (((SparseCore.T c : Thread nD τ).loc main_v17) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg7 : Pipeline.RegionSeg (pcfgs (F := F)) adm (pdats7 w g f0 n) none defs₀ 𝒱₀ (K (F := F)).L lv 3 where
  win := launch7.win.to₀
  block_pos := launch7.block_pos
  stage_whole := launch7.stage_whole
  K := PEmpty
  osem k := k.elim
  ho := Pipeline.OwnSemFacts.none _
  hbody c := (body_obligation7 w g f0 n c).loose
  hwaits c := Pipeline.cellsWaits_intro (Pipeline.pin (pcfgs (F := F)) adm) (pdats7 w g f0 n) none 3 c (R := levAts (K (F := F)).L lv)
    fun x s t => SparseCore.Cfg.mayWait_none (K := K (F := F)) (.dma _) (fun g' => Otc_none c n g') lv hlv
  pre c := tst7 w g n c (f0 c)
  post c := tst7 w g n c (fin7 w g f0 n c)
  X _ := BI.emp
  Y _ := BI.emp
  Z _ := BI.emp
  hentry c := by
    rw [Pipeline.ownSems0_none, Pipeline.arrays_eq (Pipeline.pin (pcfgs (F := F)) adm) (pdats7 w g f0 n) 3 c launch7.arr_whole
      ((pdats7 w g f0 n 3 c).share_full fun _ => rfl), bigSep_W7]
    unfold tst7
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats7 w g f0 n 3 c).Φ 0 = Pipeline.scopedRest spec7 c from rfl]
    iintro ⟨-, -, Hr⟩; iexact Hr
  hout c := by
    rw [Pipeline.ownSems0_none, show (pdats7 w g f0 n 3 c).Φ (Fin.last _) = Pipeline.scopedRest spec7 c from rfl]
    iintro Hr
    isplitr; · iempintro
    isplitr; · iempintro
    iexact Hr
  hexit c := by
    rw [Pipeline.arrays_eq (Pipeline.pin (pcfgs (F := F)) adm) (pdats7 w g f0 n) 3 c launch7.arr_whole
      ((pdats7 w g f0 n 3 c).share_full fun _ => rfl), bigSep_W7]
    unfold tst7
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats7 w g f0 n 3 c).arrAt 0 (Pipeline.pin (pcfgs (F := F)) adm 3).N = w c from arrAt7_0 w g f0 n c _]; iexact H0
    isplitl [H1]; · rw [show (pdats7 w g f0 n 3 c).arrAt 1 (Pipeline.pin (pcfgs (F := F)) adm 3).N = g c from arrAt7_1 w g f0 n c _]; iexact H1
    iexact H2

/-- What the region hands on: the boundary, the TensorCore's handshake state, the arrays with the output at what the
    write-backs leave. -/
def post7 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v16) ↦{fullShare} g d)
    ∗ (((SparseCore.T d : Thread nD τ).loc main_v17) ↦{fullShare} fin7 w g f0 n d))

include hlv in
set_option maxHeartbeats 2000000 in
set_option backward.isDefEq.respectTransparency.types false in
/-- THE REGION inside the program: from the region boundary, the TensorCore's handshake state before call n, the level
    facts, the three arrays whole and pipeline 3's ghost state, the region's call runs to the same with the output
    array at what the ten write-backs leave. -/
theorem region7 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v16) ↦{fullShare} g d)
        ∗ (((SparseCore.T d : Thread nD τ).loc main_v17) ↦{fullShare} f0 d)
        ∗ Pipeline.cellsGhost (Pipeline.pin (pcfgs (F := F)) adm) EP 3 d ∗ Pipeline.toksInit (Pipeline.pin (pcfgs (F := F)) adm) EP 3 d)
      ⊢ wp frame (wpE ((K (F := F)).defs (D (F := F))) 𝒱 (SparseCore.T d : Thread nD τ) none) Set.univ
          (Prog.lift (.customCall (SparseCore.inner (Pipeline.entry (3 : Fin 5))) ()))
          (fun _ => post7 w g f0 n d) := by
  have hreg := Pipeline.RegionSeg.wp (pcfgs (F := F)) adm (pdats7 w g f0 n) none cellOf_inj EP defs₀ 𝒱₀ (K (F := F)).L lv
    (reg7 w g f0 n hlv) d none (fun _ h => by cases h) (α := PUnit) (fun _ => .ret PUnit.unit) (fun _ => post7 w g f0 n d)
  have hlift := (K (F := F)).wp_liftProg (D (F := F)) 𝒱 (SparseCore.T d : Thread nD τ) Set.univ none
    (α := PUnit) (.op (.customCall (Pipeline.entry (3 : Fin 5)) ()) fun _ => .ret PUnit.unit) (fun _ => post7 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post7 SparseCore.Cfg.tcSt
    ihave Hpost' := (show (reg7 w g f0 n hlv).post d ⊢ tst7 w g n d (fin7 w g f0 n d) from .rfl) $$ Hpost
    unfold tst7
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst7 w g n d (f0 d) ⊢ (reg7 w g f0 n hlv).pre d from .rfl)
    unfold tst7
    isplitl [HO]; · iexact HO
    isplitl [H0]; · iexact H0
    isplitl [H1]; · iexact H1
    iexact H2
  isplitr; · iexact Hlev
  isplitl [Hg]; · iexact Hg
  iexact Ht

end Region7

end Cert.Kernel.Hand

end
-- ==== Proof.BRegion7Value.lean ====
/-
  What region 7 leaves in the output array, in closed form.

  Each point's block of the output is block (30 + t, 0, 0) of ONE whole-array function of the region's arrays: on
  leading slice 30 + t the product of the weight matrix with the transposed block t of the gathered rows. So the
  array ends at that function on leading slices 30 … 39 and at its entry contents elsewhere.
-/
import proofs.«206421_g46840913330738_cont_8to1c4_247_26_alg».proof.Proof.BRegion7
import proofs.«206421_g46840913330738_cont_8to1c4_247_26_alg».proof.Proof.BRegion7Defs

set_option maxRecDepth 16384

noncomputable section

namespace Cert.Kernel.Hand

open Cert.Kernel Cert.Kernel.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal7_of_mem (w : Vec F S64x128 .f32) (g : Vec F S163840x128 .f32) (f0 : Vec F S50x64x16384 .f32) (i : S50x64x16384.Idx)
    (h : 30 ≤ (i 0).val ∧ (i 0).val < 40) :
    regionVal7 w g f0 i = k7_pay1 w (gBlock g ⟨(i 0).val - 30, by omega⟩) (toBlk i) := dif_pos h

theorem regionVal7_of_not (w : Vec F S64x128 .f32) (g : Vec F S163840x128 .f32) (f0 : Vec F S50x64x16384 .f32) (i : S50x64x16384.Idx)
    (h : ¬(30 ≤ (i 0).val ∧ (i 0).val < 40)) : regionVal7 w g f0 i = f0 i := dif_neg h

/-! ## The windows' block indices -/

omit [FloatOps F] in
theorem index7_0 : ∀ t : Fin grid7.N, win7_0.index t 0 = 0 ∧ win7_0.index t 1 = 0 := by decide +kernel
omit [FloatOps F] in
theorem index7_1 : ∀ t : Fin grid7.N, win7_1.index t 0 = t.val ∧ win7_1.index t 1 = 0 := by decide +kernel
omit [FloatOps F] in
theorem index7_2 : ∀ t : Fin grid7.N, win7_2.index t 0 = 30 + t.val ∧ win7_2.index t 1 = 0 ∧ win7_2.index t 2 = 0 := by decide +kernel

/-- The grid point that writes leading slice l. -/
def ptAt7 (l : ℕ) (h : 30 ≤ l ∧ l < 40) : Fin cfg7.N := ⟨l - 30, by have e : cfg7.N = 10 := N_7; omega⟩

/-- A point of the grid as a number below ten. -/
def pt7 (t : Fin cfg7.N) : Fin 10 := ⟨t.val, by have h := t.isLt; have e : cfg7.N = 10 := N_7; omega⟩

section Blocks

variable (w : (c : Dev nD) → Buf (Elt F) ((SparseCore.T c : Thread nD τ).loc main_arg2)) (g : (c : Dev nD) → Buf (Elt F) ((SparseCore.T c : Thread nD τ).loc main_v16))
  (f0 : (c : Dev nD) → Buf (Elt F) ((SparseCore.T c : Thread nD τ).loc main_v17)) (n : ℕ)

/-- The weight window's block is the whole matrix at every point. -/
theorem iblk7_0_eq (c : Dev nD) (t : Fin cfg7.N) : iblk7 w g f0 c 0 t = w c := by
  funext y
  show (w c) ((win7_0.rect t).emb y) = (w c) y
  congr 1
  funext a
  apply Fin.ext
  rw [Window.rect_emb_val]
  have h := index7_0 t
  match a with
  | ⟨0, _⟩ => show win7_0.index t 0 * 64 + (y 0).val = (y 0).val; rw [h.1]; omega
  | ⟨1, _⟩ => show win7_0.index t 1 * 128 + (y 1).val = (y 1).val; rw [h.2]; omega

/-- The gathered rows' window holds block t at point t. -/
theorem iblk7_1_eq (c : Dev nD) (t : Fin cfg7.N) : iblk7 w g f0 c 1 t = gBlock (g c) (pt7 t) := by
  funext y
  show (g c) ((win7_1.rect t).emb y) = gBlock (g c) (pt7 t) y
  unfold gBlock
  congr 1
  funext a
  apply Fin.ext
  rw [Window.rect_emb_val]
  have h := index7_1 t
  match a with
  | ⟨0, _⟩ => show win7_1.index t 0 * 16384 + (y 0).val = t.val * 16384 + (y 0).val; rw [h.1]
  | ⟨1, _⟩ => show win7_1.index t 1 * 128 + (y 1).val = (y 1).val; rw [h.2]; omega

/-- The output window's block at point t sits at leading slice 30 + t. -/
theorem emb7_2_zero (t : Fin cfg7.N) (y : S1x64x16384.Idx) : (((win7_2.rect t).emb y) 0).val = 30 + t.val := by
  rw [Window.rect_emb_val]
  show win7_2.index t 0 * 1 + (y 0).val = 30 + t.val
  rw [(index7_2 t).1]
  have : (y 0).val < 1 := (y 0).isLt
  omega

theorem toBlk_emb7_2 (t : Fin cfg7.N) (y : S1x64x16384.Idx) : toBlk ((win7_2.rect t).emb y) = y := by
  funext a
  apply Fin.ext
  have h := index7_2 t
  match a with
  | ⟨0, _⟩ => show 0 = (y 0).val; have : (y 0).val < 1 := (y 0).isLt; omega
  | ⟨1, _⟩ =>
    show (((win7_2.rect t).emb y) 1).val = (y 1).val
    rw [Window.rect_emb_val]; show win7_2.index t 1 * 64 + (y 1).val = (y 1).val; rw [h.2.1]; omega
  | ⟨2, _⟩ =>
    show (((win7_2.rect t).emb y) 2).val = (y 2).val
    rw [Window.rect_emb_val]; show win7_2.index t 2 * 16384 + (y 2).val = (y 2).val; rw [h.2.2]; omega

theorem emb7_2_toBlk (i : S50x64x16384.Idx) (h : 30 ≤ (i 0).val ∧ (i 0).val < 40) :
    (win7_2.rect (ptAt7 (i 0).val h)).emb (toBlk i) = i := by
  funext a
  apply Fin.ext
  rw [Window.rect_emb_val]
  have hx := index7_2 (ptAt7 (i 0).val h)
  match a with
  | ⟨0, _⟩ =>
    show win7_2.index _ 0 * 1 + 0 = (i 0).val
    rw [hx.1]; show (30 + ((i 0).val - 30)) * 1 + 0 = (i 0).val; omega
  | ⟨1, _⟩ => show win7_2.index _ 1 * 64 + (i 1).val = (i 1).val; rw [hx.2.1]; omega
  | ⟨2, _⟩ => show win7_2.index _ 2 * 16384 + (i 2).val = (i 2).val; rw [hx.2.2]; omega

/-- What point t writes back is block t of the whole-array function. -/
theorem flushed7_2 (d : Dev nD) (t : Fin cfg7.N) :
    (dat7 w g f0 n d).flushed 2 t = ((cfg7.win 2).blk t).view.read (Elt F) (regionVal7 (w d) (g d) (f0 d)) := by
  funext y
  show (dat7 w g f0 n d).after 2 t y = regionVal7 (w d) (g d) (f0 d) ((win7_2.rect t).emb y)
  rw [after7_2, out7_eq, iblk7_0_eq, iblk7_1_eq]
  have h0 := emb7_2_zero t y
  have hmem : 30 ≤ (((win7_2.rect t).emb y) 0).val ∧ (((win7_2.rect t).emb y) 0).val < 40 := by
    have ht : t.val < 10 := (pt7 t).isLt
    rw [h0]; exact ⟨by omega, by omega⟩
  rw [regionVal7_of_mem _ _ _ _ hmem]
  have e1 : (⟨(((win7_2.rect t).emb y) 0).val - 30, by omega⟩ : Fin 10) = pt7 t := Fin.ext (by show _ - 30 = t.val; omega)
  rw [e1, toBlk_emb7_2]

/-- THE OUTPUT ARRAY AFTER THE REGION is the whole-array function. -/
theorem fin7_eq (d : Dev nD) : fin7 w g f0 n d = regionVal7 (w d) (g d) (f0 d) := by
  funext i
  unfold fin7
  by_cases h : 30 ≤ (i 0).val ∧ (i 0).val < 40
  · refine (dat7 w g f0 n d).arrAt_apply_of_mem 2 (regionVal7 (w d) (g d) (f0 d)) (fun t _ => flushed7_2 w g f0 n d t) cfg7.N
      (ptAt7 (i 0).val h) i (Fin.isLt _) (flush7_2 _) ?_
    have hm : ((win7_2.rect (ptAt7 (i 0).val h)).emb (toBlk i)
          : ((cfg7.win 2).blk (ptAt7 (i 0).val h)).view.ty.Idx)
        ∈ ((cfg7.win 2).blk (ptAt7 (i 0).val h)).view.set :=
      ((cfg7.win 2).blk (ptAt7 (i 0).val h)).view.emb_mem_set (toBlk i)
    rw [emb7_2_toBlk i h] at hm
    exact hm
  · rw [regionVal7_of_not _ _ _ _ h]
    refine (dat7 w g f0 n d).arrAt_apply_of_forall_not_mem 2 cfg7.N i fun t _ _ hi => h ?_
    obtain ⟨y, rfl⟩ := View.exists_emb_of_mem_set _ hi
    have h0 := emb7_2_zero t y
    have ht : t.val < 10 := (pt7 t).isLt
    show 30 ≤ (((win7_2.rect t).emb y) 0).val ∧ (((win7_2.rect t).emb y) 0).val < 40
    rw [h0]; exact ⟨by omega, by omega⟩

end Blocks

end Cert.Kernel.Hand

end
-- ==== Proof.BRegStep7.lean ====
/-
  Matrix-product region 7, as @main's TensorCore meets it. Of all its arrays the region's pipeline works on three:
  the weights, the gathered rows of the call before it, and the output array. The pipeline's run leaves the first two
  as they were and the output with its ten leading slices 30 … 39 written; the TensorCore's other arrays are
  untouched, and what the TensorCore owes the launch's handshakes is the same before and after.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BRegion7
import proofs.«206421_g46840913330738_cont_8to1c4_247_26_alg».proof.Proof.BRegion7Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR7 : Finset (DevRef τ sig) := {r main_arg2, r main_v16, r main_v17}
omit [FloatOps F] in
theorem SR7_sub : SR7 ⊆ Sall := by decide

omit [FloatOps F] in
theorem held_SR7 (d : Dev nD) (V : Valuation τ sig (Elt F)) :
    (held (T d) SR7 V : sProp (MM F))
      = iprop(((SparseCore.T d).loc main_arg2 ↦{fullShare} V (r main_arg2)) ∗ ((SparseCore.T d).loc main_v16 ↦{fullShare} V (r main_v16))
          ∗ ((SparseCore.T d).loc main_v17 ↦{fullShare} V (r main_v17))) := by
  unfold held SR7
  rw [SparseCore.bigSep_insert' (by decide), SparseCore.bigSep_insert' (by decide), bigSep_singleton]

theorem held_SR7_after (d : Dev nD) :
    (held (T d) SR7 (W21 m d) : sProp (MM F))
      = iprop(((SparseCore.T d).loc main_arg2 ↦{fullShare} W20 m d (r main_arg2)) ∗ ((SparseCore.T d).loc main_v16 ↦{fullShare} W20 m d (r main_v16))
          ∗ ((SparseCore.T d).loc main_v17 ↦{fullShare} regionVal7 (W20 m d (r main_arg2)) (W20 m d (r main_v16)) (W20 m d (r main_v17)))) := by
  rw [held_SR7]; unfold W21
  rw [Function.update_of_ne (show r main_arg2 ≠ r main_v17 by decide), Function.update_of_ne (show r main_v16 ≠ r main_v17 by decide),
    Function.update_self]

theorem held_restR7_after (d : Dev nD) :
    (held (T d) (Sall \ SR7) (W21 m d) : sProp (MM F)) = held (T d) (Sall \ SR7) (W20 m d) :=
  held_congr _ fun b hb => by
    unfold W21
    exact Function.update_of_ne (fun e => (Finset.mem_sdiff.mp hb).2 (by rw [e]; decide)) _ _

/-- Region 7 on the TensorCore of `d`: all its arrays before, all its arrays after. -/
theorem rstep7 (κ : GSem nD τ sig → ℕ) (d : Dev nD) {Φ : PUnit → sProp (MM F)} :
    iprop((K (F := F)).ctx EH (P m) κ ∗ boundary (SparseCore.T d : Thread nD τ) ∗ (K (F := F)).tcSt EH d 4 ∗ held (T d) Sall (W20 m d)
        ∗ (Pipeline.cellsGhost (nD := nD) (τ := τ) cfgs EP 3 d ∗ Pipeline.toksInit (nD := nD) (τ := τ) cfgs EP 3 d)
        ∗ ((boundary (SparseCore.T d : Thread nD τ) ∗ (K (F := F)).tcSt EH d 4 ∗ held (T d) Sall (W21 m d)) -∗ Φ ⟨⟩))
      ⊢ wp frame (wpE ((K (F := F)).defs (D (F := F))) 𝒱 (SparseCore.T d) none) Set.univ
          (Prog.lift (.customCall (SparseCore.inner (Pipeline.entry (3 : Fin 5))) ())) Φ := by
  rw [held_sub_split (T d) SR7_sub (W20 m d), held_SR7]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post7 (fun c => W20 m c (r main_arg2)) (fun c => W20 m c (r main_v16)) (fun c => W20 m c (r main_v17)) 4 d))
  isplitl [Hb Hst Hw Hg Hf Hcg Htk]
  · iapply (region7 (fun c => W20 m c (r main_arg2)) (fun c => W20 m c (r main_v16)) (fun c => W20 m c (r main_v17)) 4
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post7
  icases Hpost with ⟨Hb, Hst, Hw, Hg, Hf⟩
  rw [fin7_eq]
  iapply HΦ
  isplitl [Hb]; · iexact Hb
  isplitl [Hst]; · iexact Hst
  rw [held_sub_split (T d) SR7_sub (W21 m d), held_SR7_after, held_restR7_after]
  isplitr [Hrest]
  · isplitl [Hw]; · iexact Hw
    isplitl [Hg]; · iexact Hg
    iexact Hf
  iexact Hrest

end Cert.Kernel.Hand

end
-- ==== Proof.BRegion9.lean ====
/-
  The fifth TensorCore matrix-product region of the program (pipeline 4), as the TensorCore meets it between two
  SparseCore calls. It is the first region's pipeline over the fifth gathered array and the fifth output array: at
  point j it holds the weight matrix, block j of the gathered rows, and writes block (40 + j, 0, 0) of the output
  array; every other entry of the output array keeps what it held. The body is handed the previous output array as
  an operand left in place and never touches it.
-/
import proofs.«206421_g46840913330738_cont_8to1c4_247_26_alg».proof.Proof.BRegion1

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## Region 9 (pipeline 4): the arrays, the blocks, the body -/

section Region9

variable (w : (c : Dev nD) → Buf (Elt F) ((SparseCore.T c : Thread nD τ).loc main_arg2)) (g : (c : Dev nD) → Buf (Elt F) ((SparseCore.T c : Thread nD τ).loc main_v20))
  (f0 : (c : Dev nD) → Buf (Elt F) ((SparseCore.T c : Thread nD τ).loc main_v21))

/-- The three windowed arrays as the region finds them. -/
def arr9 (c : Dev nD) : (x : Fin cfg9.W) → Buf (Elt F) ((cfg9.win x).arr.view.loc (c : Thread nD τ))
  | ⟨0, _⟩ => w c
  | ⟨1, _⟩ => g c
  | ⟨2, _⟩ => f0 c

/-- Window x's block at point t, read off its array. -/
def iblk9 (c : Dev nD) (x : Fin cfg9.W) (t : Fin cfg9.N) : ((cfg9.win x).xblock (cfg9.grid.coords t)).Idx → Elt F (cfg9.win x).elt :=
  ((cfg9.win x).blk t).view.read (Elt F) (arr9 w g f0 c x)

abbrev r9_0 : Rect S64x128 := Rect.unit (s := S64x128) ![0, 0] S64x128.size inb_S64x128_S64x128_0_0
abbrev r9_1 : Rect S16384x128 := Rect.unit (s := S16384x128) ![0, 0] S16384x128.size inb_S16384x128_S16384x128_0_0
abbrev r9_2 : Rect S1x64x16384 := Rect.unit (s := S1x64x16384) ![0, 0, 0] S1x64x16384.size inb_S1x64x16384_S1x64x16384_0_0_0

/-- What the body leaves in the output window's buffer, from the two input blocks: its one store, whole. -/
def out9 (x0 : Vec F S64x128 .f32) (x1 : Vec F S16384x128 .f32) : Vec F S1x64x16384 .f32 :=
  View.canon [⟨r9_2, k9_pay1 (View.ld x0 r9_0) (View.ld x1 r9_1)⟩]

/-- The store covers the buffer. -/
theorem cover9_2 (p0 : Vec F S1x64x16384 .f32) (y : S1x64x16384.Idx) :
    ∃ pc ∈ ([⟨r9_2, p0⟩] : List (View.Piece (Elt F) S1x64x16384 .f32)), y ∈ pc.1.set :=
  ⟨_, List.mem_singleton_self _, View.mem_set_unit_zero zero3 inb_S1x64x16384_S1x64x16384_0_0_0 y⟩

/-- The body is the matrix product of the two blocks. -/
theorem out9_eq (x0 : Vec F S64x128 .f32) (x1 : Vec F S16384x128 .f32) : out9 x0 x1 = k9_pay1 x0 x1 := by
  unfold out9
  rw [View.canon_unit_zero zero3, View.ld_unit_zero zero2, View.ld_unit_zero zero2]

set_option maxHeartbeats 1000000 in
/-- The body on whole staging memrefs: the inputs' at read contents x0, x1, the output's at anything; it leaves the
    inputs as they were and the output at out9 of them. -/
theorem sound_kernel9 (c : Dev nD) (E : Set ℕ) (i : grid9.Coords)
    (arg1 : Memref sig .tc .vmem S64x128 .f32) (harg1 : arg1.IsWhole) (arg2 : Memref sig .tc .vmem S16384x128 .f32) (harg2 : arg2.IsWhole)
    (argA : Memref sig .tc .hbm S50x64x16384 .f32) (hargA : argA.IsWhole)
    (arg3 : Memref sig .tc .vmem S1x64x16384 .f32) (harg3 : arg3.IsWhole)
    (x0 : Vec F S64x128 .f32) (x1 : Vec F S16384x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9 x0 x1)) -∗ Kc ⟨⟩))
      ⊢ wp frame (wpE (defs₀ (F := F)) 𝒱₀ c none) E (cc9_body i arg1 harg1 arg2 harg2 argA hargA arg3 harg3) Kc := by
  simp only [cc9_body_eq_skeleton]; unfold cc9_body_skel
  unfold owns
  iintro ⟨⟨%f0', %hf0, H0⟩, ⟨%f1', %hf1, H1⟩, ⟨%d2, %f2', -, H2⟩, Hk⟩
  subst hf0; subst hf1
  sl_exec
  sl_step
  iapply Hk
  isplitl [H0]
  · iexists f0'; isplitr; · ipureintro; rfl
    iexact H0
  isplitl [H1]
  · iexists f1'; isplitr; · ipureintro; rfl
    iexact H1
  iexists _; isplitr
  swap; · iexact H2
  ipureintro
  exact View.read_writes_eq_canon _ _ _ (cover9_2 _)

/-! ## The proof data -/

variable (n : ℕ)

/-- The proof data of pipeline 4 on device c between calls: the arrays as found; after the body at point t each
    input's buffer at its block and the output's at out9 of the blocks; the invariant the scoped buffers no window
    stages; the TensorCore owing what it owes before call n, its recorded pairs at or below level 8 n. -/
def dat9 (c : Dev nD) : Dat τ (Elt F) (HIx 5) ℕ UU ℕ cfg9 c where
  A := arr9 w g f0 c
  after x t := match x with
    | ⟨0, _⟩ => iblk9 w g f0 c 0 t
    | ⟨1, _⟩ => iblk9 w g f0 c 1 t
    | ⟨2, _⟩ => out9 (iblk9 w g f0 c 0 t) (iblk9 w g f0 c 1 t)
  Φ _ := Pipeline.scopedRest (Ix := HIx 5) (Name := ℕ) (U := UU) (Lvl := ℕ) (Val := Elt F) spec9 c
  q _ := fullShare
  owed _ := (K (F := F)).Otc c n
  recorded _ := recBelow (F := F) c n

theorem after9_0 (c : Dev nD) (t : Fin cfg9.N) : (dat9 w g f0 n c).after 0 t = iblk9 w g f0 c 0 t := by dsimp only [dat9]
theorem after9_1 (c : Dev nD) (t : Fin cfg9.N) : (dat9 w g f0 n c).after 1 t = iblk9 w g f0 c 1 t := by dsimp only [dat9]
theorem after9_2 (c : Dev nD) (t : Fin cfg9.N) :
    (dat9 w g f0 n c).after 2 t = out9 (iblk9 w g f0 c 0 t) (iblk9 w g f0 c 1 t) := by dsimp only [dat9]

/-- Each input's current staging buffer holds its block at every point, fetched there or not. -/
theorem before9_0 (c : Dev nD) (t : Fin cfg9.N) (d) : (dat9 w g f0 n c).before 0 t d = iblk9 w g f0 c 0 t :=
  ((dat9 w g f0 n c).before_in_eq_fetched 0 rfl (fun _ => rfl) (fun _ _ _ => rfl)
    (fun t => by rw [after9_0]; unfold Dat.blockOf iblk9; rfl) t d).trans
    (by unfold Dat.fetched Dat.blockOf iblk9; rfl)
theorem before9_1 (c : Dev nD) (t : Fin cfg9.N) (d) : (dat9 w g f0 n c).before 1 t d = iblk9 w g f0 c 1 t :=
  ((dat9 w g f0 n c).before_in_eq_fetched 1 rfl (fun _ => rfl) (fun _ _ _ => rfl)
    (fun t => by rw [after9_1]; unfold Dat.blockOf iblk9; rfl) t d).trans
    (by unfold Dat.fetched Dat.blockOf iblk9; rfl)

/-! ## The body obligation, at a generic point -/

def bodyPre9 (c : Dev nD) (t : Fin cfg9.N) : sProp 𝕄 :=
  iprop((dat9 w g f0 n c).Φ t.castSucc ∗ (dat9 w g f0 n c).owesAt none t.castSucc
    ∗ (∃ d, owns (c : Thread nD τ) (st9_0 t) fullShare ((dat9 w g f0 n c).before 0 t d))
    ∗ (∃ d, owns (c : Thread nD τ) (st9_1 t) fullShare ((dat9 w g f0 n c).before 1 t d))
    ∗ (∃ d, owns (c : Thread nD τ) (st9_2 t) fullShare ((dat9 w g f0 n c).before 2 t d)))

def bodyPost9 (c : Dev nD) (t : Fin cfg9.N) : sProp 𝕄 :=
  iprop((dat9 w g f0 n c).Φ t.succ ∗ (dat9 w g f0 n c).owesAt none t.succ
    ∗ owns (c : Thread nD τ) (st9_0 t) fullShare ((dat9 w g f0 n c).after 0 t)
    ∗ owns (c : Thread nD τ) (st9_1 t) fullShare ((dat9 w g f0 n c).after 1 t)
    ∗ owns (c : Thread nD τ) (st9_2 t) fullShare ((dat9 w g f0 n c).after 2 t))

/-- The body at any point: the inputs' memrefs hold their blocks, so the body's triple applies; the invariant and what
    the TensorCore owes pass through unread. -/
theorem sound_body9 (c : Dev nD) (t : Fin cfg9.N) :
    bodyPre9 w g f0 n c t ⊢ wp frame (wpE (defs₀ (F := F)) 𝒱₀ c none) Set.univ (bodyAt9 t) (fun _ => bodyPost9 w g f0 n c t) := by
  unfold bodyPre9 bodyPost9 bodyAt9
  simp only [before9_0, before9_1]
  rw [show (dat9 w g f0 n c).Φ t.succ = (dat9 w g f0 n c).Φ t.castSucc from rfl,
    show (dat9 w g f0 n c).owesAt none t.succ = (dat9 w g f0 n c).owesAt none t.castSucc from rfl,
    after9_0, after9_1, after9_2]
  iintro ⟨HΦ, Ho, ⟨%d0, H0⟩, ⟨%d1, H1⟩, ⟨%d2, H2⟩⟩
  iapply (sound_kernel9 c Set.univ _ _ _ _ _ _ _ _ _ (iblk9 w g f0 c 0 t) (iblk9 w g f0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 w g f0 n c) (defs₀ (F := F)) 𝒱₀ none Set.univ := fun t => by
  rw [bigSep_W9, bigSep_W9]
  exact sound_body9 w g f0 n c t

/-! ## The region as a record -/

/-- Every pipeline's proof data as region 1's record sees it: pipeline 4's, and nothing said of the others. -/
def pdats9 : (p : Fin 5) → (c : Dev nD) → Dat τ (Elt F) (HIx 5) ℕ UU ℕ (Pipeline.pin (pcfgs (F := F)) adm p) c
  | ⟨0, _⟩ => fun c => datIdle _ c
  | ⟨1, _⟩ => fun c => datIdle _ c
  | ⟨2, _⟩ => fun c => datIdle _ c
  | ⟨3, _⟩ => fun c => datIdle _ c
  | ⟨4, _⟩ => fun c => dat9 w g f0 n c

/-- The inputs' arrays are never written. -/
theorem arrAt9_0 (c : Dev nD) (k : ℕ) : (dat9 w g f0 n c).arrAt 0 k = w c := (dat9 w g f0 n c).arrAt_in 0 rfl k
theorem arrAt9_1 (c : Dev nD) (k : ℕ) : (dat9 w g f0 n c).arrAt 1 k = g c := (dat9 w g f0 n c).arrAt_in 1 rfl k

/-- The output array after the region: the entry contents overwritten by the ten write-backs. -/
def fin9 (c : Dev nD) : Buf (Elt F) ((SparseCore.T c : Thread nD τ).loc main_v21) := (dat9 w g f0 n c).arrAt 2 cfg9.N

/-- The thread state around the region: what the TensorCore owes before call n with its recorded pairs bounded, and
    the three arrays whole. -/
def tst9 (c : Dev nD) (f : Buf (Elt F) ((SparseCore.T c : Thread nD τ).loc main_v21)) : sProp 𝕄 :=
  iprop((∃ W, ⌜(K (F := F)).WBelow (SparseCore.T c : Thread nD τ) W (8 * n)⌝ ∗ owes (SparseCore.T c : Thread nD τ) ((K (F := F)).Otc c n) W)
    ∗ (((SparseCore.T c : Thread nD τ).loc main_arg2) ↦{fullShare} w c) ∗ (((SparseCore.T c : Thread nD τ).loc main_v20) ↦{fullShare} g c) ∗ (((SparseCore.T c : Thread nD τ).loc main_v21) ↦{fullShare} f))

variable {lv : GSem nD τ sig → HIx 5 → ℕ} (hlv : (K (F := F)).Refines lv)

set_option backward.isDefEq.respectTransparency.types false in
/-- Region 1 over the thread state: its arrays out of the state and back, nothing of its own in the invariant but the
    scoped buffers no window stages, no semaphore of its own. -/
def reg9 : Pipeline.RegionSeg (pcfgs (F := F)) adm (pdats9 w g f0 n) none defs₀ 𝒱₀ (K (F := F)).L lv 4 where
  win := launch9.win.to₀
  block_pos := launch9.block_pos
  stage_whole := launch9.stage_whole
  K := PEmpty
  osem k := k.elim
  ho := Pipeline.OwnSemFacts.none _
  hbody c := (body_obligation9 w g f0 n c).loose
  hwaits c := Pipeline.cellsWaits_intro (Pipeline.pin (pcfgs (F := F)) adm) (pdats9 w g f0 n) none 4 c (R := levAts (K (F := F)).L lv)
    fun x s t => SparseCore.Cfg.mayWait_none (K := K (F := F)) (.dma _) (fun g' => Otc_none c n g') lv hlv
  pre c := tst9 w g n c (f0 c)
  post c := tst9 w g n c (fin9 w g f0 n c)
  X _ := BI.emp
  Y _ := BI.emp
  Z _ := BI.emp
  hentry c := by
    rw [Pipeline.ownSems0_none, Pipeline.arrays_eq (Pipeline.pin (pcfgs (F := F)) adm) (pdats9 w g f0 n) 4 c launch9.arr_whole
      ((pdats9 w g f0 n 4 c).share_full fun _ => rfl), bigSep_W9]
    unfold tst9
    iintro ⟨⟨⟨%W, %hW, HO⟩, H0, H1, H2⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr <;> iempintro
  hin c := by
    rw [show (pdats9 w g f0 n 4 c).Φ 0 = Pipeline.scopedRest spec9 c from rfl]
    iintro ⟨-, -, Hr⟩; iexact Hr
  hout c := by
    rw [Pipeline.ownSems0_none, show (pdats9 w g f0 n 4 c).Φ (Fin.last _) = Pipeline.scopedRest spec9 c from rfl]
    iintro Hr
    isplitr; · iempintro
    isplitr; · iempintro
    iexact Hr
  hexit c := by
    rw [Pipeline.arrays_eq (Pipeline.pin (pcfgs (F := F)) adm) (pdats9 w g f0 n) 4 c launch9.arr_whole
      ((pdats9 w g f0 n 4 c).share_full fun _ => rfl), bigSep_W9]
    unfold tst9
    iintro ⟨⟨H0, H1, H2⟩, HO, -, -⟩
    imodintro
    isplitl [HO]
    · unfold Pipeline.Dat.owesAt Pipeline.owesWithin
      icases HO with ⟨%W, %hW, HO⟩
      iexists W; isplitr
      · ipureintro
        intro p hp
        rcases hW hp with h | ⟨x, s, rfl⟩
        · exact h
        · exact Nat.zero_le _
      iexact HO
    isplitl [H0]; · rw [show (pdats9 w g f0 n 4 c).arrAt 0 (Pipeline.pin (pcfgs (F := F)) adm 4).N = w c from arrAt9_0 w g f0 n c _]; iexact H0
    isplitl [H1]; · rw [show (pdats9 w g f0 n 4 c).arrAt 1 (Pipeline.pin (pcfgs (F := F)) adm 4).N = g c from arrAt9_1 w g f0 n c _]; iexact H1
    iexact H2

/-- What the region hands on: the boundary, the TensorCore's handshake state, the arrays with the output at what the
    write-backs leave. -/
def post9 (d : Dev nD) : sProp 𝕄 :=
  iprop(boundary (SparseCore.T d : Thread nD τ) ∗ (K (F := F)).tcSt EH d n
    ∗ (((SparseCore.T d : Thread nD τ).loc main_arg2) ↦{fullShare} w d) ∗ (((SparseCore.T d : Thread nD τ).loc main_v20) ↦{fullShare} g d)
    ∗ (((SparseCore.T d : Thread nD τ).loc main_v21) ↦{fullShare} fin9 w g f0 n d))

include hlv in
set_option maxHeartbeats 2000000 in
set_option backward.isDefEq.respectTransparency.types false in
/-- THE REGION inside the program: from the region boundary, the TensorCore's handshake state before call n, the level
    facts, the three arrays whole and pipeline 4's ghost state, the region's call runs to the same with the output
    array at what the ten write-backs leave. -/
theorem region9 (d : Dev nD) :
    iprop(boundary (SparseCore.T d : Thread nD τ) ∗ (K (F := F)).tcSt EH d n ∗ levAts (K (F := F)).L lv
        ∗ (((SparseCore.T d : Thread nD τ).loc main_arg2) ↦{fullShare} w d) ∗ (((SparseCore.T d : Thread nD τ).loc main_v20) ↦{fullShare} g d)
        ∗ (((SparseCore.T d : Thread nD τ).loc main_v21) ↦{fullShare} f0 d)
        ∗ Pipeline.cellsGhost (Pipeline.pin (pcfgs (F := F)) adm) EP 4 d ∗ Pipeline.toksInit (Pipeline.pin (pcfgs (F := F)) adm) EP 4 d)
      ⊢ wp frame (wpE ((K (F := F)).defs (D (F := F))) 𝒱 (SparseCore.T d : Thread nD τ) none) Set.univ
          (Prog.lift (.customCall (SparseCore.inner (Pipeline.entry (4 : Fin 5))) ()))
          (fun _ => post9 w g f0 n d) := by
  have hreg := Pipeline.RegionSeg.wp (pcfgs (F := F)) adm (pdats9 w g f0 n) none cellOf_inj EP defs₀ 𝒱₀ (K (F := F)).L lv
    (reg9 w g f0 n hlv) d none (fun _ h => by cases h) (α := PUnit) (fun _ => .ret PUnit.unit) (fun _ => post9 w g f0 n d)
  have hlift := (K (F := F)).wp_liftProg (D (F := F)) 𝒱 (SparseCore.T d : Thread nD τ) Set.univ none
    (α := PUnit) (.op (.customCall (Pipeline.entry (4 : Fin 5)) ()) fun _ => .ret PUnit.unit) (fun _ => post9 w g f0 n d)
  refine .trans ?_ (hreg.trans hlift)
  unfold SparseCore.Cfg.tcSt
  iintro ⟨Hb, ⟨HO, Hrest⟩, #Hlev, H0, H1, H2, Hg, Ht⟩
  isplitl [Hrest]
  · iintro ⟨Hb, Hpost⟩
    rw [wp_ret]; imodintro
    unfold post9 SparseCore.Cfg.tcSt
    ihave Hpost' := (show (reg9 w g f0 n hlv).post d ⊢ tst9 w g n d (fin9 w g f0 n d) from .rfl) $$ Hpost
    unfold tst9
    icases Hpost' with ⟨HO, H0, H1, H2⟩
    isplitl [Hb]; · iexact Hb
    isplitl [HO Hrest]
    · isplitl [HO]; · iexact HO
      iexact Hrest
    isplitl [H0]; · iexact H0
    isplitl [H1]; · iexact H1
    iexact H2
  isplitl [Hb]; · iexact Hb
  isplitl [HO H0 H1 H2]
  · iapply (show tst9 w g n d (f0 d) ⊢ (reg9 w g f0 n hlv).pre d from .rfl)
    unfold tst9
    isplitl [HO]; · iexact HO
    isplitl [H0]; · iexact H0
    isplitl [H1]; · iexact H1
    iexact H2
  isplitr; · iexact Hlev
  isplitl [Hg]; · iexact Hg
  iexact Ht

end Region9

end Cert.Kernel.Hand

end
-- ==== Proof.BRegion9Value.lean ====
/-
  What region 9 leaves in the output array, in closed form.

  Each point's block of the output is block (40 + t, 0, 0) of ONE whole-array function of the region's arrays: on
  leading slice 40 + t the product of the weight matrix with the transposed block t of the gathered rows. So the
  array ends at that function on leading slices 40 … 49 and at its entry contents elsewhere.
-/
import proofs.«206421_g46840913330738_cont_8to1c4_247_26_alg».proof.Proof.BRegion9
import proofs.«206421_g46840913330738_cont_8to1c4_247_26_alg».proof.Proof.BRegion9Defs

set_option maxRecDepth 16384

noncomputable section

namespace Cert.Kernel.Hand

open Cert.Kernel Cert.Kernel.Gen

open Idealize.ShloMosaic Idealize.ShloMosaic.TcCoe
open Idealize.ShloMosaic.SparseCore.Cfg (HIx)
open Idealize.SL Idealize.SL.RA Idealize.SL.BI
open Idealize.ShloMosaic.Pipeline (Dat Cfg Window)

variable {F : FTy → Type} [FloatOps F]

/-! ## The function, by cases -/

theorem regionVal9_of_mem (w : Vec F S64x128 .f32) (g : Vec F S163840x128 .f32) (f0 : Vec F S50x64x16384 .f32) (i : S50x64x16384.Idx)
    (h : 40 ≤ (i 0).val ∧ (i 0).val < 50) :
    regionVal9 w g f0 i = k9_pay1 w (gBlock g ⟨(i 0).val - 40, by omega⟩) (toBlk i) := dif_pos h

theorem regionVal9_of_not (w : Vec F S64x128 .f32) (g : Vec F S163840x128 .f32) (f0 : Vec F S50x64x16384 .f32) (i : S50x64x16384.Idx)
    (h : ¬(40 ≤ (i 0).val ∧ (i 0).val < 50)) : regionVal9 w g f0 i = f0 i := dif_neg h

/-! ## The windows' block indices -/

omit [FloatOps F] in
theorem index9_0 : ∀ t : Fin grid9.N, win9_0.index t 0 = 0 ∧ win9_0.index t 1 = 0 := by decide +kernel
omit [FloatOps F] in
theorem index9_1 : ∀ t : Fin grid9.N, win9_1.index t 0 = t.val ∧ win9_1.index t 1 = 0 := by decide +kernel
omit [FloatOps F] in
theorem index9_2 : ∀ t : Fin grid9.N, win9_2.index t 0 = 40 + t.val ∧ win9_2.index t 1 = 0 ∧ win9_2.index t 2 = 0 := by decide +kernel

/-- The grid point that writes leading slice l. -/
def ptAt9 (l : ℕ) (h : 40 ≤ l ∧ l < 50) : Fin cfg9.N := ⟨l - 40, by have e : cfg9.N = 10 := N_9; omega⟩

/-- A point of the grid as a number below ten. -/
def pt9 (t : Fin cfg9.N) : Fin 10 := ⟨t.val, by have h := t.isLt; have e : cfg9.N = 10 := N_9; omega⟩

section Blocks

variable (w : (c : Dev nD) → Buf (Elt F) ((SparseCore.T c : Thread nD τ).loc main_arg2)) (g : (c : Dev nD) → Buf (Elt F) ((SparseCore.T c : Thread nD τ).loc main_v20))
  (f0 : (c : Dev nD) → Buf (Elt F) ((SparseCore.T c : Thread nD τ).loc main_v21)) (n : ℕ)

/-- The weight window's block is the whole matrix at every point. -/
theorem iblk9_0_eq (c : Dev nD) (t : Fin cfg9.N) : iblk9 w g f0 c 0 t = w c := by
  funext y
  show (w c) ((win9_0.rect t).emb y) = (w c) y
  congr 1
  funext a
  apply Fin.ext
  rw [Window.rect_emb_val]
  have h := index9_0 t
  match a with
  | ⟨0, _⟩ => show win9_0.index t 0 * 64 + (y 0).val = (y 0).val; rw [h.1]; omega
  | ⟨1, _⟩ => show win9_0.index t 1 * 128 + (y 1).val = (y 1).val; rw [h.2]; omega

/-- The gathered rows' window holds block t at point t. -/
theorem iblk9_1_eq (c : Dev nD) (t : Fin cfg9.N) : iblk9 w g f0 c 1 t = gBlock (g c) (pt9 t) := by
  funext y
  show (g c) ((win9_1.rect t).emb y) = gBlock (g c) (pt9 t) y
  unfold gBlock
  congr 1
  funext a
  apply Fin.ext
  rw [Window.rect_emb_val]
  have h := index9_1 t
  match a with
  | ⟨0, _⟩ => show win9_1.index t 0 * 16384 + (y 0).val = t.val * 16384 + (y 0).val; rw [h.1]
  | ⟨1, _⟩ => show win9_1.index t 1 * 128 + (y 1).val = (y 1).val; rw [h.2]; omega

/-- The output window's block at point t sits at leading slice 40 + t. -/
theorem emb9_2_zero (t : Fin cfg9.N) (y : S1x64x16384.Idx) : (((win9_2.rect t).emb y) 0).val = 40 + t.val := by
  rw [Window.rect_emb_val]
  show win9_2.index t 0 * 1 + (y 0).val = 40 + t.val
  rw [(index9_2 t).1]
  have : (y 0).val < 1 := (y 0).isLt
  omega

theorem toBlk_emb9_2 (t : Fin cfg9.N) (y : S1x64x16384.Idx) : toBlk ((win9_2.rect t).emb y) = y := by
  funext a
  apply Fin.ext
  have h := index9_2 t
  match a with
  | ⟨0, _⟩ => show 0 = (y 0).val; have : (y 0).val < 1 := (y 0).isLt; omega
  | ⟨1, _⟩ =>
    show (((win9_2.rect t).emb y) 1).val = (y 1).val
    rw [Window.rect_emb_val]; show win9_2.index t 1 * 64 + (y 1).val = (y 1).val; rw [h.2.1]; omega
  | ⟨2, _⟩ =>
    show (((win9_2.rect t).emb y) 2).val = (y 2).val
    rw [Window.rect_emb_val]; show win9_2.index t 2 * 16384 + (y 2).val = (y 2).val; rw [h.2.2]; omega

theorem emb9_2_toBlk (i : S50x64x16384.Idx) (h : 40 ≤ (i 0).val ∧ (i 0).val < 50) :
    (win9_2.rect (ptAt9 (i 0).val h)).emb (toBlk i) = i := by
  funext a
  apply Fin.ext
  rw [Window.rect_emb_val]
  have hx := index9_2 (ptAt9 (i 0).val h)
  match a with
  | ⟨0, _⟩ =>
    show win9_2.index _ 0 * 1 + 0 = (i 0).val
    rw [hx.1]; show (40 + ((i 0).val - 40)) * 1 + 0 = (i 0).val; omega
  | ⟨1, _⟩ => show win9_2.index _ 1 * 64 + (i 1).val = (i 1).val; rw [hx.2.1]; omega
  | ⟨2, _⟩ => show win9_2.index _ 2 * 16384 + (i 2).val = (i 2).val; rw [hx.2.2]; omega

/-- What point t writes back is block t of the whole-array function. -/
theorem flushed9_2 (d : Dev nD) (t : Fin cfg9.N) :
    (dat9 w g f0 n d).flushed 2 t = ((cfg9.win 2).blk t).view.read (Elt F) (regionVal9 (w d) (g d) (f0 d)) := by
  funext y
  show (dat9 w g f0 n d).after 2 t y = regionVal9 (w d) (g d) (f0 d) ((win9_2.rect t).emb y)
  rw [after9_2, out9_eq, iblk9_0_eq, iblk9_1_eq]
  have h0 := emb9_2_zero t y
  have hmem : 40 ≤ (((win9_2.rect t).emb y) 0).val ∧ (((win9_2.rect t).emb y) 0).val < 50 := by
    have ht : t.val < 10 := (pt9 t).isLt
    rw [h0]; exact ⟨by omega, by omega⟩
  rw [regionVal9_of_mem _ _ _ _ hmem]
  have e1 : (⟨(((win9_2.rect t).emb y) 0).val - 40, by omega⟩ : Fin 10) = pt9 t := Fin.ext (by show _ - 40 = t.val; omega)
  rw [e1, toBlk_emb9_2]

/-- THE OUTPUT ARRAY AFTER THE REGION is the whole-array function. -/
theorem fin9_eq (d : Dev nD) : fin9 w g f0 n d = regionVal9 (w d) (g d) (f0 d) := by
  funext i
  unfold fin9
  by_cases h : 40 ≤ (i 0).val ∧ (i 0).val < 50
  · refine (dat9 w g f0 n d).arrAt_apply_of_mem 2 (regionVal9 (w d) (g d) (f0 d)) (fun t _ => flushed9_2 w g f0 n d t) cfg9.N
      (ptAt9 (i 0).val h) i (Fin.isLt _) (flush9_2 _) ?_
    have hm : ((win9_2.rect (ptAt9 (i 0).val h)).emb (toBlk i)
          : ((cfg9.win 2).blk (ptAt9 (i 0).val h)).view.ty.Idx)
        ∈ ((cfg9.win 2).blk (ptAt9 (i 0).val h)).view.set :=
      ((cfg9.win 2).blk (ptAt9 (i 0).val h)).view.emb_mem_set (toBlk i)
    rw [emb9_2_toBlk i h] at hm
    exact hm
  · rw [regionVal9_of_not _ _ _ _ h]
    refine (dat9 w g f0 n d).arrAt_apply_of_forall_not_mem 2 cfg9.N i fun t _ _ hi => h ?_
    obtain ⟨y, rfl⟩ := View.exists_emb_of_mem_set _ hi
    have h0 := emb9_2_zero t y
    have ht : t.val < 10 := (pt9 t).isLt
    show 40 ≤ (((win9_2.rect t).emb y) 0).val ∧ (((win9_2.rect t).emb y) 0).val < 50
    rw [h0]; exact ⟨by omega, by omega⟩

end Blocks

end Cert.Kernel.Hand

end
-- ==== Proof.BRegStep9.lean ====
/-
  Matrix-product region 9, as @main's TensorCore meets it. Of all its arrays the region's pipeline works on three:
  the weights, the gathered rows of the call before it, and the output array. The pipeline's run leaves the first two
  as they were and the output with its ten leading slices 40 … 49 written; the TensorCore's other arrays are
  untouched, and what the TensorCore owes the launch's handshakes is the same before and after.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BRegion9
import proofs.«206421_g46840913330738_cont_8to1c4_247_26_alg».proof.Proof.BRegion9Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The region's three arrays. -/
abbrev SR9 : Finset (DevRef τ sig) := {r main_arg2, r main_v20, r main_v21}
omit [FloatOps F] in
theorem SR9_sub : SR9 ⊆ Sall := by decide

omit [FloatOps F] in
theorem held_SR9 (d : Dev nD) (V : Valuation τ sig (Elt F)) :
    (held (T d) SR9 V : sProp (MM F))
      = iprop(((SparseCore.T d).loc main_arg2 ↦{fullShare} V (r main_arg2)) ∗ ((SparseCore.T d).loc main_v20 ↦{fullShare} V (r main_v20))
          ∗ ((SparseCore.T d).loc main_v21 ↦{fullShare} V (r main_v21))) := by
  unfold held SR9
  rw [SparseCore.bigSep_insert' (by decide), SparseCore.bigSep_insert' (by decide), bigSep_singleton]

theorem held_SR9_after (d : Dev nD) :
    (held (T d) SR9 (W26 m d) : sProp (MM F))
      = iprop(((SparseCore.T d).loc main_arg2 ↦{fullShare} W25 m d (r main_arg2)) ∗ ((SparseCore.T d).loc main_v20 ↦{fullShare} W25 m d (r main_v20))
          ∗ ((SparseCore.T d).loc main_v21 ↦{fullShare} regionVal9 (W25 m d (r main_arg2)) (W25 m d (r main_v20)) (W25 m d (r main_v21)))) := by
  rw [held_SR9]; unfold W26
  rw [Function.update_of_ne (show r main_arg2 ≠ r main_v21 by decide), Function.update_of_ne (show r main_v20 ≠ r main_v21 by decide),
    Function.update_self]

theorem held_restR9_after (d : Dev nD) :
    (held (T d) (Sall \ SR9) (W26 m d) : sProp (MM F)) = held (T d) (Sall \ SR9) (W25 m d) :=
  held_congr _ fun b hb => by
    unfold W26
    exact Function.update_of_ne (fun e => (Finset.mem_sdiff.mp hb).2 (by rw [e]; decide)) _ _

/-- Region 9 on the TensorCore of `d`: all its arrays before, all its arrays after. -/
theorem rstep9 (κ : GSem nD τ sig → ℕ) (d : Dev nD) {Φ : PUnit → sProp (MM F)} :
    iprop((K (F := F)).ctx EH (P m) κ ∗ boundary (SparseCore.T d : Thread nD τ) ∗ (K (F := F)).tcSt EH d 5 ∗ held (T d) Sall (W25 m d)
        ∗ (Pipeline.cellsGhost (nD := nD) (τ := τ) cfgs EP 4 d ∗ Pipeline.toksInit (nD := nD) (τ := τ) cfgs EP 4 d)
        ∗ ((boundary (SparseCore.T d : Thread nD τ) ∗ (K (F := F)).tcSt EH d 5 ∗ held (T d) Sall (W26 m d)) -∗ Φ ⟨⟩))
      ⊢ wp frame (wpE ((K (F := F)).defs (D (F := F))) 𝒱 (SparseCore.T d) none) Set.univ
          (Prog.lift (.customCall (SparseCore.inner (Pipeline.entry (4 : Fin 5))) ())) Φ := by
  rw [held_sub_split (T d) SR9_sub (W25 m d), held_SR9]
  iintro ⟨#Hctx, Hb, Hst, ⟨⟨Hw, Hg, Hf⟩, Hrest⟩, ⟨Hcg, Htk⟩, HΦ⟩
  ihave #Hlev := ((K (F := F)).ctx_levAts (EH := EH) (P := P m) κ) $$ Hctx
  iapply (wp_wand_r frame (wpE ((K (F := F)).defs (D (F := F))) 𝒱 (SparseCore.T d) none) Set.univ
    (Q := fun _ => post9 (fun c => W25 m c (r main_arg2)) (fun c => W25 m c (r main_v20)) (fun c => W25 m c (r main_v21)) 5 d))
  isplitl [Hb Hst Hw Hg Hf Hcg Htk]
  · iapply (region9 (fun c => W25 m c (r main_arg2)) (fun c => W25 m c (r main_v20)) (fun c => W25 m c (r main_v21)) 5
        (lv := (K (F := F)).lev) (by sl_refines_lev) d)
    isplitl [Hb]; · iexact Hb
    isplitl [Hst]; · iexact Hst
    isplitr; · iexact Hlev
    isplitl [Hw]; · iexact Hw
    isplitl [Hg]; · iexact Hg
    isplitl [Hf]; · iexact Hf
    isplitl [Hcg]; · iexact Hcg
    iexact Htk
  iintro %_ Hpost
  unfold post9
  icases Hpost with ⟨Hb, Hst, Hw, Hg, Hf⟩
  rw [fin9_eq]
  iapply HΦ
  isplitl [Hb]; · iexact Hb
  isplitl [Hst]; · iexact Hst
  rw [held_sub_split (T d) SR9_sub (W26 m d), held_SR9_after, held_restR9_after]
  isplitr [Hrest]
  · isplitl [Hw]; · iexact Hw
    isplitl [Hg]; · iexact Hg
    iexact Hf
  iexact Hrest

end Cert.Kernel.Hand

end
-- ==== Proof.BMainRun.lean ====
/-
  @main on the TensorCore, from what the launch deals it to what the claim reads. All the TensorCore's arrays are
  held together at one valuation; a host operation moves the valuation by the operation's function; a gather call
  hands three of the arrays to the SparseCores and takes them back with the gathered rows; a matrix-product region
  runs its pipeline over three of them and leaves its rows of the output written. After the last step the arguments
  hold their launch contents and the result holds the last valuation's.
-/
import proofs.«206421_g46840913330738_cont_8to1c4_247_26_alg».proof.Proof.BBase
import proofs.«206421_g46840913330738_cont_8to1c4_247_26_alg».proof.Proof.BEnd
import proofs.«206421_g46840913330738_cont_8to1c4_247_26_alg».proof.Proof.BLaunchElem
import proofs.«206421_g46840913330738_cont_8to1c4_247_26_alg».proof.Proof.BCallStep0
import proofs.«206421_g46840913330738_cont_8to1c4_247_26_alg».proof.Proof.BCallStep2
import proofs.«206421_g46840913330738_cont_8to1c4_247_26_alg».proof.Proof.BCallStep4
import proofs.«206421_g46840913330738_cont_8to1c4_247_26_alg».proof.Proof.BCallStep6
import proofs.«206421_g46840913330738_cont_8to1c4_247_26_alg».proof.Proof.BCallStep8
import proofs.«206421_g46840913330738_cont_8to1c4_247_26_alg».proof.Proof.BRegStep1
import proofs.«206421_g46840913330738_cont_8to1c4_247_26_alg».proof.Proof.BRegStep3
import proofs.«206421_g46840913330738_cont_8to1c4_247_26_alg».proof.Proof.BRegStep5
import proofs.«206421_g46840913330738_cont_8to1c4_247_26_alg».proof.Proof.BRegStep7
import proofs.«206421_g46840913330738_cont_8to1c4_247_26_alg».proof.Proof.BRegStep9

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (ρ : Dev nD → PrngReg) [FloatOps F]

/-- The five regions' ghost state, one by one. -/
theorem G_eq (d : Dev nD) :
    (G (F := F) d) = iprop(
      (Pipeline.cellsGhost (nD := nD) (τ := τ) cfgs EP 0 d ∗ Pipeline.toksInit (nD := nD) (τ := τ) cfgs EP 0 d)
      ∗ (Pipeline.cellsGhost (nD := nD) (τ := τ) cfgs EP 1 d ∗ Pipeline.toksInit (nD := nD) (τ := τ) cfgs EP 1 d)
      ∗ (Pipeline.cellsGhost (nD := nD) (τ := τ) cfgs EP 2 d ∗ Pipeline.toksInit (nD := nD) (τ := τ) cfgs EP 2 d)
      ∗ (Pipeline.cellsGhost (nD := nD) (τ := τ) cfgs EP 3 d ∗ Pipeline.toksInit (nD := nD) (τ := τ) cfgs EP 3 d)
      ∗ (Pipeline.cellsGhost (nD := nD) (τ := τ) cfgs EP 4 d ∗ Pipeline.toksInit (nD := nD) (τ := τ) cfgs EP 4 d)) := by
  unfold G
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m d) := by
  unfold SparseCore.Cfg.tcRes
  rw [unscoped_held, G_eq]
  simp only [main, wp_bind, wp_pure]
  iintro ⟨#Hctx, Hst, ⟨Hb, Hheld, -, -⟩, HG0, HG1, HG2, HG3, HG4⟩
  -- step 0: a host operation
  iapply (wp_hlo_within 𝒱 (SparseCore.T d) none Set.univ (op := op0) (S := Sall) op0_sub (V := W0 m d)) $$ [Hb Hheld]
  · isplitl [Hb]; · iexact Hb
    iexact Hheld
  iintro ⟨Hb, Hheld⟩
  rw [wp_ret]; imodintro
  -- step 1: a host operation
  iapply (wp_hlo_within 𝒱 (SparseCore.T d) none Set.univ (op := op1) (S := Sall) op1_sub (V := W1 m d)) $$ [Hb Hheld]
  · isplitl [Hb]; · iexact Hb
    iexact Hheld
  iintro ⟨Hb, Hheld⟩
  rw [wp_ret]; imodintro
  -- step 2: a host operation
  iapply (wp_hlo_within 𝒱 (SparseCore.T d) none Set.univ (op := op2) (S := Sall) op2_sub (V := W2 m d)) $$ [Hb Hheld]
  · isplitl [Hb]; · iexact Hb
    iexact Hheld
  iintro ⟨Hb, Hheld⟩
  rw [wp_ret]; imodintro
  -- step 3: a host operation
  iapply (wp_hlo_within 𝒱 (SparseCore.T d) none Set.univ (op := op3) (S := Sall) op3_sub (V := W3 m d)) $$ [Hb Hheld]
  · isplitl [Hb]; · iexact Hb
    iexact Hheld
  iintro ⟨Hb, Hheld⟩
  rw [wp_ret]; imodintro
  -- step 4: gather call 0
  iapply (call0 m κ d)
  isplitr; · iexact Hctx
  isplitl [Hst]; · iexact Hst
  isplitl [Hheld]; · iexact Hheld
  iintro ⟨Hst, Hheld⟩
  -- step 5: matrix-product region 0
  iapply (rstep1 m κ d)
  isplitr; · iexact Hctx
  isplitl [Hb]; · iexact Hb
  isplitl [Hst]; · iexact Hst
  isplitl [Hheld]; · iexact Hheld
  isplitl [HG0]; · iexact HG0
  iintro ⟨Hb, Hst, Hheld⟩
  -- step 6: a host operation
  iapply (wp_hlo_within 𝒱 (SparseCore.T d) none Set.univ (op := op6) (S := Sall) op6_sub (V := W6 m d)) $$ [Hb Hheld]
  · isplitl [Hb]; · iexact Hb
    iexact Hheld
  iintro ⟨Hb, Hheld⟩
  rw [wp_ret]; imodintro
  -- step 7: a host operation
  iapply (wp_hlo_within 𝒱 (SparseCore.T d) none Set.univ (op := op7) (S := Sall) op7_sub (V := W7 m d)) $$ [Hb Hheld]
  · isplitl [Hb]; · iexact Hb
    iexact Hheld
  iintro ⟨Hb, Hheld⟩
  rw [wp_ret]; imodintro
  -- step 8: gather call 1
  iapply (call2 m κ d)
  isplitr; · iexact Hctx
  isplitl [Hst]; · iexact Hst
  isplitl [Hheld]; · iexact Hheld
  iintro ⟨Hst, Hheld⟩
  -- step 9: a host operation
  iapply (wp_hlo_within 𝒱 (SparseCore.T d) none Set.univ (op := op9) (S := Sall) op9_sub (V := W9 m d)) $$ [Hb Hheld]
  · isplitl [Hb]; · iexact Hb
    iexact Hheld
  iintro ⟨Hb, Hheld⟩
  rw [wp_ret]; imodintro
  -- step 10: matrix-product region 1
  iapply (rstep3 m κ d)
  isplitr; · iexact Hctx
  isplitl [Hb]; · iexact Hb
  isplitl [Hst]; · iexact Hst
  isplitl [Hheld]; · iexact Hheld
  isplitl [HG1]; · iexact HG1
  iintro ⟨Hb, Hst, Hheld⟩
  -- step 11: a host operation
  iapply (wp_hlo_within 𝒱 (SparseCore.T d) none Set.univ (op := op11) (S := Sall) op11_sub (V := W11 m d)) $$ [Hb Hheld]
  · isplitl [Hb]; · iexact Hb
    iexact Hheld
  iintro ⟨Hb, Hheld⟩
  rw [wp_ret]; imodintro
  -- step 12: a host operation
  iapply (wp_hlo_within 𝒱 (SparseCore.T d) none Set.univ (op := op12) (S := Sall) op12_sub (V := W12 m d)) $$ [Hb Hheld]
  · isplitl [Hb]; · iexact Hb
    iexact Hheld
  iintro ⟨Hb, Hheld⟩
  rw [wp_ret]; imodintro
  -- step 13: gather call 2
  iapply (call4 m κ d)
  isplitr; · iexact Hctx
  isplitl [Hst]; · iexact Hst
  isplitl [Hheld]; · iexact Hheld
  iintro ⟨Hst, Hheld⟩
  -- step 14: a host operation
  iapply (wp_hlo_within 𝒱 (SparseCore.T d) none Set.univ (op := op14) (S := Sall) op14_sub (V := W14 m d)) $$ [Hb Hheld]
  · isplitl [Hb]; · iexact Hb
    iexact Hheld
  iintro ⟨Hb, Hheld⟩
  rw [wp_ret]; imodintro
  -- step 15: matrix-product region 2
  iapply (rstep5 m κ d)
  isplitr; · iexact Hctx
  isplitl [Hb]; · iexact Hb
  isplitl [Hst]; · iexact Hst
  isplitl [Hheld]; · iexact Hheld
  isplitl [HG2]; · iexact HG2
  iintro ⟨Hb, Hst, Hheld⟩
  -- step 16: a host operation
  iapply (wp_hlo_within 𝒱 (SparseCore.T d) none Set.univ (op := op16) (S := Sall) op16_sub (V := W16 m d)) $$ [Hb Hheld]
  · isplitl [Hb]; · iexact Hb
    iexact Hheld
  iintro ⟨Hb, Hheld⟩
  rw [wp_ret]; imodintro
  -- step 17: a host operation
  iapply (wp_hlo_within 𝒱 (SparseCore.T d) none Set.univ (op := op17) (S := Sall) op17_sub (V := W17 m d)) $$ [Hb Hheld]
  · isplitl [Hb]; · iexact Hb
    iexact Hheld
  iintro ⟨Hb, Hheld⟩
  rw [wp_ret]; imodintro
  -- step 18: gather call 3
  iapply (call6 m κ d)
  isplitr; · iexact Hctx
  isplitl [Hst]; · iexact Hst
  isplitl [Hheld]; · iexact Hheld
  iintro ⟨Hst, Hheld⟩
  -- step 19: a host operation
  iapply (wp_hlo_within 𝒱 (SparseCore.T d) none Set.univ (op := op19) (S := Sall) op19_sub (V := W19 m d)) $$ [Hb Hheld]
  · isplitl [Hb]; · iexact Hb
    iexact Hheld
  iintro ⟨Hb, Hheld⟩
  rw [wp_ret]; imodintro
  -- step 20: matrix-product region 3
  iapply (rstep7 m κ d)
  isplitr; · iexact Hctx
  isplitl [Hb]; · iexact Hb
  isplitl [Hst]; · iexact Hst
  isplitl [Hheld]; · iexact Hheld
  isplitl [HG3]; · iexact HG3
  iintro ⟨Hb, Hst, Hheld⟩
  -- step 21: a host operation
  iapply (wp_hlo_within 𝒱 (SparseCore.T d) none Set.univ (op := op21) (S := Sall) op21_sub (V := W21 m d)) $$ [Hb Hheld]
  · isplitl [Hb]; · iexact Hb
    iexact Hheld
  iintro ⟨Hb, Hheld⟩
  rw [wp_ret]; imodintro
  -- step 22: a host operation
  iapply (wp_hlo_within 𝒱 (SparseCore.T d) none Set.univ (op := op22) (S := Sall) op22_sub (V := W22 m d)) $$ [Hb Hheld]
  · isplitl [Hb]; · iexact Hb
    iexact Hheld
  iintro ⟨Hb, Hheld⟩
  rw [wp_ret]; imodintro
  -- step 23: gather call 4
  iapply (call8 m κ d)
  isplitr; · iexact Hctx
  isplitl [Hst]; · iexact Hst
  isplitl [Hheld]; · iexact Hheld
  iintro ⟨Hst, Hheld⟩
  -- step 24: a host operation
  iapply (wp_hlo_within 𝒱 (SparseCore.T d) none Set.univ (op := op24) (S := Sall) op24_sub (V := W24 m d)) $$ [Hb Hheld]
  · isplitl [Hb]; · iexact Hb
    iexact Hheld
  iintro ⟨Hb, Hheld⟩
  rw [wp_ret]; imodintro
  -- step 25: matrix-product region 4
  iapply (rstep9 m κ d)
  isplitr; · iexact Hctx
  isplitl [Hb]; · iexact Hb
  isplitl [Hst]; · iexact Hst
  isplitl [Hheld]; · iexact Hheld
  isplitl [HG4]; · iexact HG4
  iintro ⟨Hb, Hst, Hheld⟩
  -- step 26: a host operation
  iapply (wp_hlo_within 𝒱 (SparseCore.T d) none Set.univ (op := op26) (S := Sall) op26_sub (V := W26 m d)) $$ [Hb Hheld]
  · isplitl [Hb]; · iexact Hb
    iexact Hheld
  iintro ⟨Hb, Hheld⟩
  rw [wp_ret]; imodintro
  -- the end: the handshake state after five calls, and what the claim reads
  imodintro
  isplitl [Hst]; · iexact Hst
  iapply (held_FIN m d); iexact Hheld

end Cert.Kernel.Hand

end
-- ==== Proof.BTile0a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.BTile0Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt (d : Dev nD) (L : grid0.Coords) : Thread nD τ := V d (cV L) (jV L)

abbrev tabW : Memref sig .scVector .hbm S1000000x128 .f32 := Memref.whole main_arg1_scv
abbrev idxW : Memref sig .scVector .hbm S32x40x128 .i32 := Memref.whole main_v3_scv
abbrev outW : Memref sig .scVector .hbm S163840x128 .f32 := Memref.whole main_v4_scv
abbrev listW : Memref sig .scVector .vmem S40x128 .i32 := Memref.whole cc0_scratch0
abbrev ringW : Memref sig .scVector .vmem S5x128x128 .f32 := Memref.whole cc0_scratch1
/-- The table as every gather names it: the slice that is all of it. -/
abbrev tabS : Memref sig .scVector .hbm S1000000x128 .f32 :=
  tabW.slice (Rect.unit (s := S1000000x128) ![0, 0] S1000000x128.size inb_S1000000x128_S1000000x128_0_0) (fun _ => rfl)
/-- The subcore's block of the index array, as the block copy names it. -/
abbrev idxBlkM (L : grid0.Coords) : Memref sig .scVector .hbm S40x128 .i32 :=
  (idxW.slice (Rect.unit (s := S32x40x128) (k0_off1 L) S1x40x128.size (k0_off1_inb L)) (fun _ => rfl)).squeeze S40x128 squeezes_S1x40x128_S40x128
/-- The five slots of the ring. -/
abbrev slot0M : Memref sig .scVector .vmem S128x128 .f32 :=
  (ringW.slice (Rect.unit (s := S5x128x128) ![0, 0, 0] S1x128x128.size inb_S5x128x128_S1x128x128_0_0_0) (fun _ => rfl)).squeeze S128x128 squeezes_S1x128x128_S128x128
abbrev slot1M : Memref sig .scVector .vmem S128x128 .f32 :=
  (ringW.slice (Rect.unit (s := S5x128x128) ![1, 0, 0] S1x128x128.size inb_S5x128x128_S1x128x128_1_0_0) (fun _ => rfl)).squeeze S128x128 squeezes_S1x128x128_S128x128
abbrev slot2M : Memref sig .scVector .vmem S128x128 .f32 :=
  (ringW.slice (Rect.unit (s := S5x128x128) ![2, 0, 0] S1x128x128.size inb_S5x128x128_S1x128x128_2_0_0) (fun _ => rfl)).squeeze S128x128 squeezes_S1x128x128_S128x128
abbrev slot3M : Memref sig .scVector .vmem S128x128 .f32 :=
  (ringW.slice (Rect.unit (s := S5x128x128) ![3, 0, 0] S1x128x128.size inb_S5x128x128_S1x128x128_3_0_0) (fun _ => rfl)).squeeze S128x128 squeezes_S1x128x128_S128x128
abbrev slot4M : Memref sig .scVector .vmem S128x128 .f32 :=
  (ringW.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM (o : Fin 2 → ℕ) (h : ∀ a, o a + S1x128.size a ≤ S40x128.size a) : Memref sig .scVector .vmem S128 .i32 :=
  (listW.slice (Rect.unit (s := S40x128) o S1x128.size h) (fun _ => rfl)).squeeze S128 squeezes_S1x128_S128

theorem rowInb (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0 (g : ℕ) (h : g < 8) : ∀ a, (![5 * g + 0, 0] : Fin 2 → ℕ) a + S1x128.size a ≤ S40x128.size a := rowInb (5 * g + 0) (by omega)
theorem rowInb1 (g : ℕ) (h : g < 8) : ∀ a, (![5 * g + 1, 0] : Fin 2 → ℕ) a + S1x128.size a ≤ S40x128.size a := rowInb (5 * g + 1) (by omega)
theorem rowInb2 (g : ℕ) (h : g < 8) : ∀ a, (![5 * g + 2, 0] : Fin 2 → ℕ) a + S1x128.size a ≤ S40x128.size a := rowInb (5 * g + 2) (by omega)
theorem rowInb3 (g : ℕ) (h : g < 8) : ∀ a, (![5 * g + 3, 0] : Fin 2 → ℕ) a + S1x128.size a ≤ S40x128.size a := rowInb (5 * g + 3) (by omega)
theorem rowInb4 (g : ℕ) (h : g < 8) : ∀ a, (![5 * g + 4, 0] : Fin 2 → ℕ) a + S1x128.size a ≤ S40x128.size a := rowInb (5 * g + 4) (by omega)

theorem rowM_congr {o o' : Fin 2 → ℕ} (e : o = o') (h : ∀ a, o a + S1x128.size a ≤ S40x128.size a)
    (h' : ∀ a, o' a + S1x128.size a ≤ S40x128.size a) : rowM o h = rowM o' h' := by
  subst e; rfl

/-- The subcore's rows of the gathered array as a rectangle in the grid coordinates themselves. -/
theorem outWinR_inb (L : grid0.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR (L : grid0.Coords) : Rect S163840x128 :=
  Rect.unit (s := S163840x128) ![10240 * (L 1).val + 5120 * (L 0).val, 0] ![5120, 128] (outWinR_inb L)

theorem outWinR_eq (L : grid0.Coords) : outWinR L = outRect0 L :=
  Rect.unit_congr (by unfold wid; rw [show 5120 * (2 * (L 1).val + (L 0).val) = 10240 * (L 1).val + 5120 * (L 0).val by omega]) _ _

/-! ## The trips' offsets and conditions in closed form -/

theorem off4 (k : Fin k0_t1_loop.trips) : k0_off4 k = ![5 * (k.val + 1) + 0, 0] :=
  (k0_off4_eq k).trans (by rw [show 5 * (k.val + 1) + 0 = 5 * k.val + 5 by omega])
theorem off5 (k : Fin k0_t1_loop.trips) : k0_off5 k = ![5 * (k.val + 1) + 1, 0] :=
  (k0_off5_eq k).trans (by rw [show 5 * (k.val + 1) + 1 = 5 * k.val + 6 by omega])
theorem off6 (k : Fin k0_t1_loop.trips) : k0_off6 k = ![5 * (k.val + 1) + 2, 0] :=
  (k0_off6_eq k).trans (by rw [show 5 * (k.val + 1) + 2 = 5 * k.val + 7 by omega])
theorem off7 (k : Fin k0_t1_loop.trips) : k0_off7 k = ![5 * (k.val + 1) + 3, 0] :=
  (k0_off7_eq k).trans (by rw [show 5 * (k.val + 1) + 3 = 5 * k.val + 8 by omega])
theorem off8 (k : Fin k0_t1_loop.trips) : k0_off8 k = ![5 * (k.val + 1) + 4, 0] :=
  (k0_off8_eq k).trans (by rw [show 5 * (k.val + 1) + 4 = 5 * k.val + 9 by omega])

theorem conds_lt : ∀ k : Fin k0_t1_loop.trips, k.val < 7 →
    k0_cond1 k = 1#1 ∧ k0_cond2 k = 1#1 ∧ k0_cond3 k = 1#1 ∧ k0_cond4 k = 1#1 ∧ k0_cond5 k = 1#1 := by decide +kernel
theorem conds_last : ∀ k : Fin k0_t1_loop.trips, ¬ k.val < 7 →
    ¬ k0_cond1 k = 1#1 ∧ ¬ k0_cond2 k = 1#1 ∧ ¬ k0_cond3 k = 1#1 ∧ ¬ k0_cond4 k = 1#1 ∧ ¬ k0_cond5 k = 1#1 := by decide +kernel
theorem trips_eq : k0_t1_loop.trips = 8 := by decide +kernel

/-! ## The words of the list scratch are words of the block -/

theorem list_words (d : Dev nD) (L : grid0.Coords) (I : Buf (Elt F) ((idxBlkM L).view.loc (Vt d L)))
    (g0 : Buf (Elt F) (listW.view.loc (Vt d L)))
    (hI : ∀ z ∈ (idxBlkM L).view.set, BitVec.toNat (I z) < 1000000)
    (o : Fin 2 → ℕ) (h : ∀ a, o a + S1x128.size a ≤ S40x128.size a) (x : S128.Idx) :
    BitVec.toNat (View.read (Elt F) (rowM o h).view
      (View.write (Elt F) listW.view g0 (ReadAs.same.apply (View.read (Elt F) (idxBlkM L).view I)) Finset.univ) x) < 1000000 := by
  rw [View.read_apply]
  have e : (rowM o h).view.emb x = listW.view.emb ((rowM o h).view.emb x) := rfl
  rw [e, View.write_emb_of_mem _ _ (Finset.mem_univ _)]
  simp only [cast_cast, cast_eq]
  show BitVec.toNat (View.read (Elt F) (idxBlkM L).view I _) < 1000000
  rw [View.read_apply]
  simp only [cast_eq]
  exact hI _ (View.emb_mem_set _ _)

theorem set_idxBlkM (d : Dev nD) (L : grid0.Coords) : (idxBlkM L).view.set = idxRows0 d L := by
  show ((idxW.view.slice (Rect.unit (s := S32x40x128) (k0_off1 L) S1x40x128.size (k0_off1_inb L))).reshape S40x128 _).set = _
  rw [View.set_reshape]
  exact View.set_slice_whole _ _

/-! ## What lands -/

/-- The list scratch after the block of indices is copied into it. -/
abbrev listFill (d : Dev nD) (L : grid0.Coords) (I : Buf (Elt F) ((idxBlkM L).view.loc (Vt d L)))
    (g0 : Buf (Elt F) (listW.view.loc (Vt d L))) : Buf (Elt F) (listW.view.loc (Vt d L)) :=
  View.write (Elt F) listW.view g0 (ReadAs.same.apply (View.read (Elt F) (idxBlkM L).view I)) Finset.univ

/-- What the gather over the list row at offsets o lands in its slot: at row j of the slot, the table row the j-th
    word of that list row names. -/
abbrev landed (d : Dev nD) (L : grid0.Coords) (tab : Buf (Elt F) (tabW.view.loc (Vt d L)))
    (fl : Buf (Elt F) (listW.view.loc (Vt d L))) (o : Fin 2 → ℕ) (h : ∀ a, o a + S1x128.size a ≤ S40x128.size a)
    (hin : ∀ x : S128.Idx, BitVec.toNat (View.read (Elt F) (rowM o h).view fl x) < 1000000) : S128x128.Idx → Elt F .f32 :=
  SparseCore.gatherPayload gathers_S1000000x128_S128x128 (View.read (Elt F) tabS.view tab)
    (SparseCore.rows (View.read (Elt F) (rowM o h).view fl) rfl hin)

variable [FloatOps F]

/-! ## What the loop keeps -/

/-- The subcore owes what it owed, its waits recorded beyond W all at the launch's index. -/
def owesW (d : Dev nD) (L : grid0.Coords) (O : CellTallies nD τ sig (HIx 5)) (W : Waits sig (HIx 5)) : sProp (MM F) :=
  iprop(∃ W', ⌜∀ p ∈ W', p ∈ W ∨ p.2 = none⌝ ∗ owes (Vt d L) O W')

theorem owesW_intro {d : Dev nD} {L : grid0.Coords} {O : CellTallies nD τ sig (HIx 5)} {W W' : Waits sig (HIx 5)}
    (h : ∀ p ∈ W', p ∈ W ∨ p.2 = none) : (owes (Vt d L) O W' : sProp (MM F)) ⊢ owesW d L O W := by
  unfold owesW
  iintro H
  iexists W'
  isplitr
  · ipureintro; exact h
  · iexact H

theorem owesW_elim {d : Dev nD} {L : grid0.Coords} {O : CellTallies nD τ sig (HIx 5)} {W : Waits sig (HIx 5)} :
    (owesW d L O W : sProp (MM F)) ⊢ iprop(∃ W', ⌜∀ p ∈ W', p ∈ W ∨ p.2 = none⌝ ∗ owes (Vt d L) O W') := by
  unfold owesW; exact .rfl

theorem ins_none {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr (d : Dev nD) (L : grid0.Coords) {o o' : Fin 2 → ℕ} (e : o = o')
    (h : ∀ a, o a + S1x128.size a ≤ S40x128.size a) (h' : ∀ a, o' a + S1x128.size a ≤ S40x128.size a) :
    ((rowM o h).view.set : Finset (Idx (listW.view.loc (Vt d L)))) = (rowM o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0 (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L))) (g : ℕ) (_ : PUnit) : sProp (MM F) :=
  iprop(Transfers.MayWaits (Vt d L) (default : HIx 5) O
    ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
    ∗ owesW d L O W
    ∗ (∃ f : Buf (Elt F) (outW.view.loc (Vt d L)), outW.view.loc (Vt d L) ↦[outW.view.setOn (outWinR L).set]{fullShare} f)
    ∗ (if h : g < 8 then
        iprop(((∃ s : Buf (Elt F) (slot0M.view.loc (Vt d L)),
            Transfers.Flight countersEmb (Vt d L) (SemLoc.dma cc0_scratch2.sem) (default : HIx 5) 524288
              iprop(((slot0M.view.loc (Vt d L) ↦[slot0M.view.set]{fullShare} s)
                  ∗ (listW.view.loc (Vt d L) ↦[(rowM ![5 * g + 0, 0] (rowInb0 g h)).view.set]{fullShare} fl))
                ∗ (tabW.view.loc (Vt d L) ↦[tabS.view.set]{Transfers.shareTok q 80 cc0_scratch2.sem} tab))
            ∗ (slot0M.view.loc (Vt d L) ↦[slot0M.view.set \ slot0M.view.set]{fullShare} s))
          ∗ (tabW.view.loc (Vt d L) ↦[Finset.univ \ tabS.view.set]{Transfers.shareTok q 80 cc0_scratch2.sem} tab))
          ∗ ((∃ s : Buf (Elt F) (slot1M.view.loc (Vt d L)),
            Transfers.Flight countersEmb (Vt d L) (SemLoc.dma cc0_scratch3.sem) (default : HIx 5) 524288
              iprop(((slot1M.view.loc (Vt d L) ↦[slot1M.view.set]{fullShare} s)
                  ∗ (listW.view.loc (Vt d L) ↦[(rowM ![5 * g + 1, 0] (rowInb1 g h)).view.set]{fullShare} fl))
                ∗ (tabW.view.loc (Vt d L) ↦[tabS.view.set]{Transfers.shareTok q 80 cc0_scratch3.sem} tab))
            ∗ (slot1M.view.loc (Vt d L) ↦[slot1M.view.set \ slot1M.view.set]{fullShare} s))
          ∗ (tabW.view.loc (Vt d L) ↦[Finset.univ \ tabS.view.set]{Transfers.shareTok q 80 cc0_scratch3.sem} tab))
          ∗ ((∃ s : Buf (Elt F) (slot2M.view.loc (Vt d L)),
            Transfers.Flight countersEmb (Vt d L) (SemLoc.dma cc0_scratch4.sem) (default : HIx 5) 524288
              iprop(((slot2M.view.loc (Vt d L) ↦[slot2M.view.set]{fullShare} s)
                  ∗ (listW.view.loc (Vt d L) ↦[(rowM ![5 * g + 2, 0] (rowInb2 g h)).view.set]{fullShare} fl))
                ∗ (tabW.view.loc (Vt d L) ↦[tabS.view.set]{Transfers.shareTok q 80 cc0_scratch4.sem} tab))
            ∗ (slot2M.view.loc (Vt d L) ↦[slot2M.view.set \ slot2M.view.set]{fullShare} s))
          ∗ (tabW.view.loc (Vt d L) ↦[Finset.univ \ tabS.view.set]{Transfers.shareTok q 80 cc0_scratch4.sem} tab))
          ∗ ((∃ s : Buf (Elt F) (slot3M.view.loc (Vt d L)),
            Transfers.Flight countersEmb (Vt d L) (SemLoc.dma cc0_scratch5.sem) (default : HIx 5) 524288
              iprop(((slot3M.view.loc (Vt d L) ↦[slot3M.view.set]{fullShare} s)
                  ∗ (listW.view.loc (Vt d L) ↦[(rowM ![5 * g + 3, 0] (rowInb3 g h)).view.set]{fullShare} fl))
                ∗ (tabW.view.loc (Vt d L) ↦[tabS.view.set]{Transfers.shareTok q 80 cc0_scratch5.sem} tab))
            ∗ (slot3M.view.loc (Vt d L) ↦[slot3M.view.set \ slot3M.view.set]{fullShare} s))
          ∗ (tabW.view.loc (Vt d L) ↦[Finset.univ \ tabS.view.set]{Transfers.shareTok q 80 cc0_scratch5.sem} tab))
          ∗ ((∃ s : Buf (Elt F) (slot4M.view.loc (Vt d L)),
            Transfers.Flight countersEmb (Vt d L) (SemLoc.dma cc0_scratch6.sem) (default : HIx 5) 524288
              iprop(((slot4M.view.loc (Vt d L) ↦[slot4M.view.set]{fullShare} s)
                  ∗ (listW.view.loc (Vt d L) ↦[(rowM ![5 * g + 4, 0] (rowInb4 g h)).view.set]{fullShare} fl))
                ∗ (tabW.view.loc (Vt d L) ↦[tabS.view.set]{Transfers.shareTok q 80 cc0_scratch6.sem} tab))
            ∗ (slot4M.view.loc (Vt d L) ↦[slot4M.view.set \ slot4M.view.set]{fullShare} s))
          ∗ (tabW.view.loc (Vt d L) ↦[Finset.univ \ tabS.view.set]{Transfers.shareTok q 80 cc0_scratch6.sem} tab))
          ∗ (listW.view.loc (Vt d L) ↦[((((Finset.univ \ (rowM ![5 * g + 0, 0] (rowInb0 g h)).view.set) \ (rowM ![5 * g + 1, 0] (rowInb1 g h)).view.set)
              \ (rowM ![5 * g + 2, 0] (rowInb2 g h)).view.set) \ (rowM ![5 * g + 3, 0] (rowInb3 g h)).view.set) \ (rowM ![5 * g + 4, 0] (rowInb4 g h)).view.set]{fullShare} fl))
      else
        iprop(((tabW.view.loc (Vt d L) ↦{Transfers.shareTok q 80 cc0_scratch2.sem} tab) ∗ semVal (Vt d L, SemLoc.dma cc0_scratch2.sem) 0
          ∗ (∃ s : Buf (Elt F) (slot0M.view.loc (Vt d L)), slot0M.view.loc (Vt d L) ↦[slot0M.view.set]{fullShare} s))
          ∗ ((tabW.view.loc (Vt d L) ↦{Transfers.shareTok q 80 cc0_scratch3.sem} tab) ∗ semVal (Vt d L, SemLoc.dma cc0_scratch3.sem) 0
          ∗ (∃ s : Buf (Elt F) (slot1M.view.loc (Vt d L)), slot1M.view.loc (Vt d L) ↦[slot1M.view.set]{fullShare} s))
          ∗ ((tabW.view.loc (Vt d L) ↦{Transfers.shareTok q 80 cc0_scratch4.sem} tab) ∗ semVal (Vt d L, SemLoc.dma cc0_scratch4.sem) 0
          ∗ (∃ s : Buf (Elt F) (slot2M.view.loc (Vt d L)), slot2M.view.loc (Vt d L) ↦[slot2M.view.set]{fullShare} s))
          ∗ ((tabW.view.loc (Vt d L) ↦{Transfers.shareTok q 80 cc0_scratch5.sem} tab) ∗ semVal (Vt d L, SemLoc.dma cc0_scratch5.sem) 0
          ∗ (∃ s : Buf (Elt F) (slot3M.view.loc (Vt d L)), slot3M.view.loc (Vt d L) ↦[slot3M.view.set]{fullShare} s))
          ∗ ((tabW.view.loc (Vt d L) ↦{Transfers.shareTok q 80 cc0_scratch6.sem} tab) ∗ semVal (Vt d L, SemLoc.dma cc0_scratch6.sem) 0
          ∗ (∃ s : Buf (Elt F) (slot4M.view.loc (Vt d L)), slot4M.view.loc (Vt d L) ↦[slot4M.view.set]{fullShare} s))
          ∗ (listW.view.loc (Vt d L) ↦{fullShare} fl))))

/-! ## One trip -/

set_option maxHeartbeats 4000000 in
theorem trip0 (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L)))
    (hin : ∀ (o : Fin 2 → ℕ) (h : ∀ a, o a + S1x128.size a ≤ S40x128.size a) (x : S128.Idx),
      BitVec.toNat (View.read (Elt F) (rowM o h).view fl x) < 1000000)
    (v2 : BitVec 32) (k : Fin k0_t1_loop.trips) (acc : PUnit) :
    inv0 d L q O W tab fl k.val acc
      ⊢ wp frame (wpE (defs₀ (F := F)) 𝒱₀ (Vt d L) none) Set.univ
          (k0_t1_body L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0 v2 k acc)
          (inv0 d L q O W tab fl (k.val + 1)) := by
  have hk8 : k.val < 8 := trips_eq ▸ k.isLt
  unfold inv0
  rw [dif_pos hk8]
  by_cases hk : k.val < 7
  · obtain ⟨hc1, hc2, hc3, hc4, hc5⟩ := conds_lt k hk
    rw [dif_pos (show k.val + 1 < 8 by omega)]
    unfold k0_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    rw [rowSet_congr d L (off4 k) (k0_off4_inb k hc1) (rowInb0 (k.val + 1) (by omega)), rowSet_congr d L (off5 k) (k0_off5_inb k hc2) (rowInb1 (k.val + 1) (by omega)),
      rowSet_congr d L (off6 k) (k0_off6_inb k hc3) (rowInb2 (k.val + 1) (by omega)), rowSet_congr d L (off7 k) (k0_off7_inb k hc4) (rowInb3 (k.val + 1) (by omega)),
      rowSet_congr d L (off8 k) (k0_off8_inb k hc5) (rowInb4 (k.val + 1) (by omega))]
    ihave HO' := (owesW_intro (W := W) (ins_none (ins_none (ins_none (ins_none (ins_none (ins_none (ins_none (ins_none (ins_none (ins_none hW' _) _) _) _) _) _) _) _) _) _)) $$ HO
    sl_close
  · obtain ⟨hc1, hc2, hc3, hc4, hc5⟩ := conds_last k hk
    rw [dif_neg (show ¬ k.val + 1 < 8 by omega)]
    unfold k0_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    ihave HO' := (owesW_intro (W := W) (ins_none (ins_none (ins_none (ins_none (ins_none (ins_none (ins_none (ins_none (ins_none (ins_none hW' _) _) _) _) _) _) _) _) _) _)) $$ HO
    sl_close

end Cert.Kernel.Hand

end
-- ==== Proof.BTile0.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.BTile0a

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0 (d : Dev nD) (L : grid0.Coords) (q : PosShare TreeShare) (O : CellTallies nD τ sig (HIx 5)) (W : Waits sig (HIx 5))
    (tab : Buf (Elt F) (tabW.view.loc (Vt d L))) (I : Buf (Elt F) ((idxBlkM L).view.loc (Vt d L)))
    (hI : ∀ z ∈ (idxBlkM L).view.set, BitVec.toNat (I z) < 1000000)
    (g0 : Buf (Elt F) (listW.view.loc (Vt d L))) (r : Buf (Elt F) (ringW.view.loc (Vt d L)))
    (f : Buf (Elt F) (outW.view.loc (Vt d L))) :
    (iprop(Transfers.MayWaits (Vt d L) (default : HIx 5) O
        ∗ (tabW.view.loc (Vt d L) ↦{Transfers.shareTok q 80 cc0_scratch2.sem} tab)
        ∗ (tabW.view.loc (Vt d L) ↦{Transfers.shareTok q 80 cc0_scratch3.sem} tab)
        ∗ (tabW.view.loc (Vt d L) ↦{Transfers.shareTok q 80 cc0_scratch4.sem} tab)
        ∗ (tabW.view.loc (Vt d L) ↦{Transfers.shareTok q 80 cc0_scratch5.sem} tab)
        ∗ (tabW.view.loc (Vt d L) ↦{Transfers.shareTok q 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok q 80 cc0_scratch2.sem} tab)
            ∗ (tabW.view.loc (Vt d L) ↦{Transfers.shareTok q 80 cc0_scratch3.sem} tab)
            ∗ (tabW.view.loc (Vt d L) ↦{Transfers.shareTok q 80 cc0_scratch4.sem} tab)
            ∗ (tabW.view.loc (Vt d L) ↦{Transfers.shareTok q 80 cc0_scratch5.sem} tab)
            ∗ (tabW.view.loc (Vt d L) ↦{Transfers.shareTok q 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ (∃ f' : Buf (Elt F) (outW.view.loc (Vt d L)), outW.view.loc (Vt d L) ↦[outW.view.setOn (outWinR L).set]{fullShare} f')) := by
  have hin := list_words d L I g0 hI
  rw [cc0_gather_k_eq_skeleton]; unfold cc0_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0 d L q O W tab (View.write (Elt F) listW.view g0 (ReadAs.same.apply (View.read (Elt F) (idxBlkM L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0 d L q O W tab _ hin _ k acc
  · unfold inv0
    rw [dif_pos (show 0 < 8 by decide)]
    ihave HO' := (owesW_intro (W := W) (ins_none (fun p hp => Or.inl hp) _)) $$ HO
    sl_close
  iintro %acc HI
  unfold inv0
  rw [dif_neg (show ¬ k0_t1_loop.trips < 8 by rw [trips_eq]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.Kernel.Hand

end
-- ==== Proof.BTile0Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.BTile0a
import proofs.«206421_g46840913330738_cont_8to1c4_247_26_alg».proof.Proof.BTile0

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0 : Fin 11 → DmaSem sig :=
  ![cc0_scratch2.sem, cc0_scratch3.sem, cc0_scratch4.sem, cc0_scratch5.sem, cc0_scratch6.sem, cc0_scratch7.sem,
    cc0_scratch8.sem, cc0_scratch9.sem, cc0_scratch10.sem, cc0_scratch11.sem, cc0_scoped0.sem]

theorem sems0_inj : Function.Injective sems0 := by decide

/-- The k-th of them on the subcore at (c, i) of device d. -/
abbrev dcell0 (d : Dev nD) (c : Fin τ.nSC) (i : Fin τ.nSub) (k : Fin 11) : GSem nD τ sig := (V d c i, .dma (sems0 k))

theorem dcell0_mem (d : Dev nD) (c : Fin τ.nSC) (i : Fin τ.nSub) (k : Fin 11) : dcell0 d c i k ∈ ownCells (V d c i) :=
  mem_ownCells.mpr ⟨rfl, (show ∀ s : DmaSem sig, (SemLoc.dma s : SemLoc sig).isScoped .scVector = true by decide) _⟩

/-- The eleven cells, each at zero. -/
def cells0 (d : Dev nD) (L : grid0.Coords) : sProp (MM F) :=
  iprop(semVal (Vt d L, SemLoc.dma cc0_scratch2.sem) 0 ∗ semVal (Vt d L, SemLoc.dma cc0_scratch3.sem) 0
    ∗ semVal (Vt d L, SemLoc.dma cc0_scratch4.sem) 0 ∗ semVal (Vt d L, SemLoc.dma cc0_scratch5.sem) 0
    ∗ semVal (Vt d L, SemLoc.dma cc0_scratch6.sem) 0 ∗ semVal (Vt d L, SemLoc.dma cc0_scratch7.sem) 0
    ∗ semVal (Vt d L, SemLoc.dma cc0_scratch8.sem) 0 ∗ semVal (Vt d L, SemLoc.dma cc0_scratch9.sem) 0
    ∗ semVal (Vt d L, SemLoc.dma cc0_scratch10.sem) 0 ∗ semVal (Vt d L, SemLoc.dma cc0_scratch11.sem) 0
    ∗ semVal (Vt d L, SemLoc.dma cc0_scoped0.sem) 0)

/-- The subcore's own cells at zero: the eleven the kernel function names, and the rest. -/
theorem ownSems0_V0 (d : Dev nD) (L : grid0.Coords) :
    (ownSems0 (Vt d L) : sProp (MM F))
      = iprop(cells0 d L ∗ bigSep ((ownCells (Vt d L)) \ Finset.univ.image (dcell0 d (cV L) (jV L))) fun g => semVal g 0) := by
  unfold SparseCore.Cfg.ownSems0
  rw [SparseCore.bigSep_sdiff_split' (t := Finset.univ.image (dcell0 d (cV L) (jV L)))
      (Finset.image_subset_iff.mpr fun k _ => dcell0_mem d (cV L) (jV L) k),
    SparseCore.bigSep_image_of_injOn (fun a _ b _ h => sems0_inj (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0 (d : Dev nD) (L : grid0.Coords) :
    (ownBufs (Vt d L) : sProp (MM F))
      = iprop((∃ f, (Vt d L).loc cc0_scratch0 ↦{fullShare} f) ∗ (∃ f, (Vt d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The dealt pieces in the body's spelling -/

theorem pts_idx0 (d : Dev nD) (L : grid0.Coords) (I : Buf (Elt F) (idxLoc d)) :
    ((idxBlkM L).view.loc (Vt d L) ↦[(idxBlkM L).view.set]{fullShare} I : sProp (MM F)) = idxLoc d ↦[idxRows0 d L]{fullShare} I := by
  rw [set_idxBlkM d L]

theorem setOn_out0 (d : Dev nD) (L : grid0.Coords) :
    (outW.view.setOn (outWinR L).set : Finset (Idx (outW.view.loc (Vt d L)))) = outRows0 d L := by
  show Finset.map (Function.Embedding.refl _) (outWinR L).set = _
  rw [Finset.map_refl, outWinR_eq]; rfl

theorem pts_out0 (d : Dev nD) (L : grid0.Coords) (f : Buf (Elt F) (outLoc d)) :
    (outW.view.loc (Vt d L) ↦[outW.view.setOn (outWinR L).set]{fullShare} f : sProp (MM F)) = outLoc d ↦[outRows0 d L]{fullShare} f := by
  rw [setOn_out0 d L]

/-- The read tokens of the table other than the five gather cells'. -/
abbrev otherToks0 : Finset (Fin 80) :=
  ((((Finset.univ.erase cc0_scratch2.sem).erase cc0_scratch3.sem).erase cc0_scratch4.sem).erase cc0_scratch5.sem).erase cc0_scratch6.sem

/-- The subcore's read share of the table as one read token per cell: the five gather cells', and the remainder with
    the other cells' tokens. -/
theorem tabToks0 (d : Dev nD) (L : grid0.Coords) (q : PosShare TreeShare) (tab : Buf (Elt F) (tabLoc d)) :
    (tabLoc d ↦[Finset.univ]{q} tab : sProp (MM F)) ⊣⊢ iprop((tabLoc d ↦[Finset.univ]{Transfers.shareDrop q 80} tab)
      ∗ (tabW.view.loc (Vt d L) ↦{Transfers.shareTok q 80 cc0_scratch2.sem} tab)
      ∗ (tabW.view.loc (Vt d L) ↦{Transfers.shareTok q 80 cc0_scratch3.sem} tab)
      ∗ (tabW.view.loc (Vt d L) ↦{Transfers.shareTok q 80 cc0_scratch4.sem} tab)
      ∗ (tabW.view.loc (Vt d L) ↦{Transfers.shareTok q 80 cc0_scratch5.sem} tab)
      ∗ (tabW.view.loc (Vt d L) ↦{Transfers.shareTok q 80 cc0_scratch6.sem} tab)
      ∗ bigSep otherToks0 fun i => (tabLoc d ↦[Finset.univ]{Transfers.shareTok q 80 i} tab : sProp (MM F))) := by
  have h := Transfers.pointsTo_toks (Ix := HIx 5) (Name := ℕ) (U := UU) (Lvl := ℕ) (ℓ := tabLoc d) (S := Finset.univ) (f := tab) q 80
  rw [SparseCore.bigSep_erase' (Finset.mem_univ (cc0_scratch2.sem : Fin 80)),
    SparseCore.bigSep_erase' (Finset.mem_erase.mpr ⟨(by decide : (cc0_scratch3.sem : Fin 80) ≠ cc0_scratch2.sem), Finset.mem_univ _⟩),
    SparseCore.bigSep_erase' (Finset.mem_erase.mpr ⟨(by decide : (cc0_scratch4.sem : Fin 80) ≠ cc0_scratch3.sem),
      Finset.mem_erase.mpr ⟨(by decide : (cc0_scratch4.sem : Fin 80) ≠ cc0_scratch2.sem), Finset.mem_univ _⟩⟩),
    SparseCore.bigSep_erase' (Finset.mem_erase.mpr ⟨(by decide : (cc0_scratch5.sem : Fin 80) ≠ cc0_scratch4.sem),
      Finset.mem_erase.mpr ⟨(by decide : (cc0_scratch5.sem : Fin 80) ≠ cc0_scratch3.sem),
        Finset.mem_erase.mpr ⟨(by decide : (cc0_scratch5.sem : Fin 80) ≠ cc0_scratch2.sem), Finset.mem_univ _⟩⟩⟩),
    SparseCore.bigSep_erase' (Finset.mem_erase.mpr ⟨(by decide : (cc0_scratch6.sem : Fin 80) ≠ cc0_scratch5.sem),
      Finset.mem_erase.mpr ⟨(by decide : (cc0_scratch6.sem : Fin 80) ≠ cc0_scratch4.sem),
        Finset.mem_erase.mpr ⟨(by decide : (cc0_scratch6.sem : Fin 80) ≠ cc0_scratch3.sem),
          Finset.mem_erase.mpr ⟨(by decide : (cc0_scratch6.sem : Fin 80) ≠ cc0_scratch2.sem), Finset.mem_univ _⟩⟩⟩⟩)] at h
  exact h

/-! ## The ring scratch as its five slots -/

theorem unit_congr2 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr {κ : Kind} {sp : Space} {s : Shape} {e : EltTy} (v : View sig κ sp s e) {R R' : Rect s} (h : R = R') :
    (v.slice R).set = (v.slice R').set := by
  subst h; rfl

/-- Row k of the ring along its leading axis. -/
abbrev ringRow (d : Dev nD) (L : grid0.Coords) (k : Fin 5) : Finset (Idx (ringW.view.loc (Vt d L))) :=
  ((View.whole cc0_scratch1 : View sig .scVector .vmem S5x128x128 .f32).slice (S5x128x128.rowRect 0 k)).set

theorem slot0_set (d : Dev nD) (L : grid0.Coords) : (slot0M.view.set : Finset (Idx (ringW.view.loc (Vt d L)))) = ringRow d L 0 := by
  show (((View.whole cc0_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot1_set (d : Dev nD) (L : grid0.Coords) : (slot1M.view.set : Finset (Idx (ringW.view.loc (Vt d L)))) = ringRow d L 1 := by
  show (((View.whole cc0_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot2_set (d : Dev nD) (L : grid0.Coords) : (slot2M.view.set : Finset (Idx (ringW.view.loc (Vt d L)))) = ringRow d L 2 := by
  show (((View.whole cc0_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot3_set (d : Dev nD) (L : grid0.Coords) : (slot3M.view.set : Finset (Idx (ringW.view.loc (Vt d L)))) = ringRow d L 3 := by
  show (((View.whole cc0_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)
theorem slot4_set (d : Dev nD) (L : grid0.Coords) : (slot4M.view.set : Finset (Idx (ringW.view.loc (Vt d L)))) = ringRow d L 4 := by
  show (((View.whole cc0_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr (View.whole cc0_scratch1 : View sig .scVector .vmem S5x128x128 .f32)
    (unit_congr2 (by funext a; fin_cases a <;> rfl) (by funext a; fin_cases a <;> rfl) _ _)

/-- Five functions on the ring's rows, over the five rows, as the five slots each at its own function. -/
theorem ring_rows0 (d : Dev nD) (L : grid0.Coords) (s : Fin 5 → Buf (Elt F) (ringW.view.loc (Vt d L))) :
    (bigSep (Finset.univ : Finset (Fin 5)) fun k => (ringW.view.loc (Vt d L) ↦[ringRow d L k]{fullShare} s k : sProp (MM F)))
      = iprop((slot0M.view.loc (Vt d L) ↦[slot0M.view.set]{fullShare} s 0)
        ∗ (slot1M.view.loc (Vt d L) ↦[slot1M.view.set]{fullShare} s 1)
        ∗ (slot2M.view.loc (Vt d L) ↦[slot2M.view.set]{fullShare} s 2)
        ∗ (slot3M.view.loc (Vt d L) ↦[slot3M.view.set]{fullShare} s 3)
        ∗ (slot4M.view.loc (Vt d L) ↦[slot4M.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set d L, slot1_set d L, slot2_set d L, slot3_set d L, slot4_set d L]

/-- The ring whole at one function is its five slots at that function. -/
theorem ring_split0 (d : Dev nD) (L : grid0.Coords) (r : Buf (Elt F) (ringW.view.loc (Vt d L))) :
    ((Vt d L).loc cc0_scratch1 ↦{fullShare} r : sProp (MM F))
      = iprop((slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)) := by
  rw [← ring_rows0 d L (fun _ => r)]
  have h := pointsTo_rows (Ix := HIx 5) (Name := ℕ) (U := UU) (Lvl := ℕ) (Val := Elt F) (Vt d L)
    (View.whole cc0_scratch1 : View sig .scVector .vmem S5x128x128 .f32) 0 fullShare r
  rw [View.set_whole] at h
  exact h

/-- The five slots, each at some function, are the ring whole at some function. -/
theorem ring_join0 (d : Dev nD) (L : grid0.Coords) (s : Fin 5 → Buf (Elt F) (ringW.view.loc (Vt d L))) :
    iprop((slot0M.view.loc (Vt d L) ↦[slot0M.view.set]{fullShare} s 0)
        ∗ (slot1M.view.loc (Vt d L) ↦[slot1M.view.set]{fullShare} s 1)
        ∗ (slot2M.view.loc (Vt d L) ↦[slot2M.view.set]{fullShare} s 2)
        ∗ (slot3M.view.loc (Vt d L) ↦[slot3M.view.set]{fullShare} s 3)
        ∗ (slot4M.view.loc (Vt d L) ↦[slot4M.view.set]{fullShare} s 4))
      ⊢ (iprop(∃ f, (Vt d L).loc cc0_scratch1 ↦{fullShare} f) : sProp (MM F)) := by
  rw [← ring_rows0 d L s]
  refine (pointsTo_biUnion_join (Ix := HIx 5) (Name := ℕ) (U := UU) (Lvl := ℕ) (ℓ := ringW.view.loc (Vt d L)) (q := fullShare)
    Finset.univ (fun k : Fin 5 => ringRow d L k) s (s 0)
    (fun k _ k' _ h => (View.whole cc0_scratch1 : View sig .scVector .vmem S5x128x128 .f32).disjoint_rows 0 h)).trans ?_
  iintro ⟨%g, -, H⟩
  iexists g
  have e : (Finset.univ : Finset (Fin 5)).biUnion (fun k => ringRow d L k) = (Finset.univ : Finset (Idx (ringW.view.loc (Vt d L)))) := by
    rw [← View.set_whole (cc0_scratch1 : Ref sig .scVector)]
    exact ((View.whole cc0_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0 (d : Dev nD) (L : grid0.Coords) (tab : Buf (Elt F) (tabLoc d)) (I : Buf (Elt F) (idxLoc d))
    (f : Buf (Elt F) (outLoc d)) (hF : (K (F := F)).Facts) (hI : ∀ x ∈ idxRows0 d L, BitVec.toNat (I x) < 1000000)
    (O : CellTallies nD τ sig (HIx 5)) (W : Waits sig (HIx 5)) (hO : ∀ g, O g none = 0) (outP outQ : sProp (MM F))
    (hrun : ∀ (g0 : Buf (Elt F) (listW.view.loc (Vt d L))) (r : Buf (Elt F) (ringW.view.loc (Vt d L))),
      (iprop(Transfers.MayWaits (Vt d L) (default : HIx 5) O
        ∗ (tabW.view.loc (Vt d L) ↦{Transfers.shareTok (Transfers.shareTok fullShare 32 ⟨wid L, wid_lt L⟩) 80 cc0_scratch2.sem} tab)
        ∗ (tabW.view.loc (Vt d L) ↦{Transfers.shareTok (Transfers.shareTok fullShare 32 ⟨wid L, wid_lt L⟩) 80 cc0_scratch3.sem} tab)
        ∗ (tabW.view.loc (Vt d L) ↦{Transfers.shareTok (Transfers.shareTok fullShare 32 ⟨wid L, wid_lt L⟩) 80 cc0_scratch4.sem} tab)
        ∗ (tabW.view.loc (Vt d L) ↦{Transfers.shareTok (Transfers.shareTok fullShare 32 ⟨wid L, wid_lt L⟩) 80 cc0_scratch5.sem} tab)
        ∗ (tabW.view.loc (Vt d L) ↦{Transfers.shareTok (Transfers.shareTok fullShare 32 ⟨wid L, wid_lt L⟩) 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok (Transfers.shareTok fullShare 32 ⟨wid L, wid_lt L⟩) 80 cc0_scratch2.sem} tab)
            ∗ (tabW.view.loc (Vt d L) ↦{Transfers.shareTok (Transfers.shareTok fullShare 32 ⟨wid L, wid_lt L⟩) 80 cc0_scratch3.sem} tab)
            ∗ (tabW.view.loc (Vt d L) ↦{Transfers.shareTok (Transfers.shareTok fullShare 32 ⟨wid L, wid_lt L⟩) 80 cc0_scratch4.sem} tab)
            ∗ (tabW.view.loc (Vt d L) ↦{Transfers.shareTok (Transfers.shareTok fullShare 32 ⟨wid L, wid_lt L⟩) 80 cc0_scratch5.sem} tab)
            ∗ (tabW.view.loc (Vt d L) ↦{Transfers.shareTok (Transfers.shareTok fullShare 32 ⟨wid L, wid_lt L⟩) 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ outP))
    (hclose : outP ⊢ outQ) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(((tabLoc d ↦[Finset.univ]{Transfers.shareTok fullShare 32 ⟨wid L, wid_lt L⟩} tab)
              ∗ (idxLoc d ↦[idxRows0 d L]{fullShare} I) ∗ outQ)
            ∗ scopedBufs (Vt d L) ∗ scopedSems0 (Vt d L)
            ∗ ∃ W', ⌜∀ p ∈ W', p ∈ W ∨ p.2 = none⌝ ∗ owes (Vt d L) O W') := by
  rw [(K (F := F)).scopedBufs_V hF d (cV L) (jV L), SparseCore.Cfg.scopedSems0_V (Val := Elt F) d (cV L) (jV L), ownSems0_V0, ownBufs_V0]
  unfold goRes0 cells0
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt d L) hO) $$ Hlv
  ihave Htoks := (tabToks0 (F := F) d L (Transfers.shareTok fullShare 32 ⟨wid L, wid_lt L⟩) tab).1 $$ Htab
  icases Htoks with ⟨Hdrop, Ht0, Ht1, Ht2, Ht3, Ht4, Hother⟩
  ihave Hidx' := (Entails.of_eq (pts_idx0 (F := F) d L I).symm) $$ Hidx
  ihave Hout' := (Entails.of_eq (pts_out0 (F := F) d L f).symm) $$ Hout
  ihave Hring := (Entails.of_eq (ring_split0 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt d L) none) Set.univ
    (R := iprop((tabLoc d ↦[Finset.univ]{Transfers.shareDrop (Transfers.shareTok fullShare 32 ⟨wid L, wid_lt L⟩) 80} tab)
      ∗ (bigSep otherToks0 fun i => (tabLoc d ↦[Finset.univ]{Transfers.shareTok (Transfers.shareTok fullShare 32 ⟨wid L, wid_lt L⟩) 80 i} tab : sProp (MM F)))
      ∗ (bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f))
      ∗ (bigSep ((ownCells (Vt d L)) \ Finset.univ.image (dcell0 d (cV L) (jV L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0 (F := F) d L (Transfers.shareTok fullShare 32 ⟨wid L, wid_lt L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim $$ HOw
  ihave Hq := hclose $$ Hout
  isplitl [Htab Hidx Hq]
  · isplitl [Htab]; · iexact Htab
    isplitl [Hidx]; · iapply (Entails.of_eq (pts_idx0 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0 (d : Dev nD) (L : grid0.Coords) :
    (iprop(∃ f' : Buf (Elt F) (outW.view.loc (Vt d L)), outW.view.loc (Vt d L) ↦[outW.view.setOn (outWinR L).set]{fullShare} f') : sProp (MM F))
      ⊢ iprop(∃ f' : Buf (Elt F) (outLoc d), outLoc d ↦[outRows0 d L]{fullShare} f') := by
  iintro ⟨%f', H⟩
  iexists f'
  iapply (Entails.of_eq (pts_out0 (F := F) d L f')); iexact H

/-- Rows the run leaves at contents that are the gathered rows on the subcore's rows are those rows at the gathered
    rows. -/
theorem out_valued0 (d : Dev nD) (L : grid0.Coords) (tab : Buf (Elt F) (tabLoc d)) (I : Buf (Elt F) (idxLoc d)) :
    (iprop(∃ f' : Buf (Elt F) (outW.view.loc (Vt d L)), (outW.view.loc (Vt d L) ↦[outW.view.setOn (outWinR L).set]{fullShare} f')
        ∗ ⌜∀ x : S163840x128.Idx, 5120 * wid L ≤ (x 0).val ∧ (x 0).val < 5120 * wid L + 5120 → f' x = gathered0 (d := d) tab I x⌝) : sProp (MM F))
      ⊢ (outLoc d ↦[outRows0 d L]{fullShare} gathered0 (d := d) tab I) := by
  iintro ⟨%f', H, %hf⟩
  have e : (outW.view.loc (Vt d L) ↦[outW.view.setOn (outWinR L).set]{fullShare} f' : sProp (MM F))
      = (outLoc d ↦[outRows0 d L]{fullShare} gathered0 (d := d) tab I) := by
    rw [pts_out0 (F := F) d L f']
    exact pointsTo_congr (fun x hx => hf x ((mem_outRows0 d L x).mp hx))
  iapply (Entails.of_eq e); iexact H

/-! ## The task as the launch theorem's obligation consumes it -/

/-- The body's run with the gathered rows named: the statement of the run with, of the subcore's rows of the gathered
    array, contents that are the gathered rows on those rows. -/
def TileRunV0 (F : FTy → Type) [FloatOps F] : Prop :=
  ∀ (d : Dev nD) (L : grid0.Coords) (q : PosShare TreeShare) (O : CellTallies nD τ sig (HIx 5)) (W : Waits sig (HIx 5))
    (tab : Buf (Elt F) (tabW.view.loc (Vt d L))) (I : Buf (Elt F) ((idxBlkM L).view.loc (Vt d L)))
    (hI : ∀ z ∈ (idxBlkM L).view.set, BitVec.toNat (I z) < 1000000)
    (g0 : Buf (Elt F) (listW.view.loc (Vt d L))) (r : Buf (Elt F) (ringW.view.loc (Vt d L)))
    (f : Buf (Elt F) (outW.view.loc (Vt d L))),
    (iprop(Transfers.MayWaits (Vt d L) (default : HIx 5) O
        ∗ (tabW.view.loc (Vt d L) ↦{Transfers.shareTok q 80 cc0_scratch2.sem} tab)
        ∗ (tabW.view.loc (Vt d L) ↦{Transfers.shareTok q 80 cc0_scratch3.sem} tab)
        ∗ (tabW.view.loc (Vt d L) ↦{Transfers.shareTok q 80 cc0_scratch4.sem} tab)
        ∗ (tabW.view.loc (Vt d L) ↦{Transfers.shareTok q 80 cc0_scratch5.sem} tab)
        ∗ (tabW.view.loc (Vt d L) ↦{Transfers.shareTok q 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok q 80 cc0_scratch2.sem} tab)
            ∗ (tabW.view.loc (Vt d L) ↦{Transfers.shareTok q 80 cc0_scratch3.sem} tab)
            ∗ (tabW.view.loc (Vt d L) ↦{Transfers.shareTok q 80 cc0_scratch4.sem} tab)
            ∗ (tabW.view.loc (Vt d L) ↦{Transfers.shareTok q 80 cc0_scratch5.sem} tab)
            ∗ (tabW.view.loc (Vt d L) ↦{Transfers.shareTok q 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ (∃ f' : Buf (Elt F) (outW.view.loc (Vt d L)), (outW.view.loc (Vt d L) ↦[outW.view.setOn (outWinR L).set]{fullShare} f')
                ∗ ⌜∀ x : S163840x128.Idx, 5120 * wid L ≤ (x 0).val ∧ (x 0).val < 5120 * wid L + 5120 → f' x = gathered0 (d := d) tab I x⌝))

/-- THE TASK, with the gathered rows: what the launch theorem's obligation for the call consumes, from the run with
    the gathered rows named. -/
theorem tile_body0_of (hrun : TileRunV0 F) (d : Dev nD) (L : grid0.Coords) (tab : Buf (Elt F) (tabLoc d)) (I : Buf (Elt F) (idxLoc d))
    (f : Buf (Elt F) (outLoc d)) (hF : (K (F := F)).Facts) (hI : ∀ x ∈ idxRows0 d L, BitVec.toNat (I x) < 1000000)
    (O : CellTallies nD τ sig (HIx 5)) (W : Waits sig (HIx 5)) (hO : ∀ g, O g none = 0) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(tdRes0 d L tab I ∗ scopedBufs (Vt d L) ∗ scopedSems0 (Vt d L)
            ∗ ∃ W', ⌜∀ p ∈ W', p ∈ W ∨ p.2 = none⌝ ∗ owes (Vt d L) O W') := by
  unfold tdRes0
  exact tile_wrap0 d L tab I f hF hI O W hO _ _
    (fun g0 r => hrun d L _ O W tab I (fun z hz => hI z (set_idxBlkM d L ▸ hz)) g0 r f) (out_valued0 d L tab I)

/-- THE TASK, the rows at some contents: from the run as proved, which does not name what it gathers. -/
theorem tile_frame0 (d : Dev nD) (L : grid0.Coords) (tab : Buf (Elt F) (tabLoc d)) (I : Buf (Elt F) (idxLoc d))
    (f : Buf (Elt F) (outLoc d)) (hF : (K (F := F)).Facts) (hI : ∀ x ∈ idxRows0 d L, BitVec.toNat (I x) < 1000000)
    (O : CellTallies nD τ sig (HIx 5)) (W : Waits sig (HIx 5)) (hO : ∀ g, O g none = 0) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(((tabLoc d ↦[Finset.univ]{Transfers.shareTok fullShare 32 ⟨wid L, wid_lt L⟩} tab)
              ∗ (idxLoc d ↦[idxRows0 d L]{fullShare} I) ∗ ∃ f' : Buf (Elt F) (outLoc d), outLoc d ↦[outRows0 d L]{fullShare} f')
            ∗ scopedBufs (Vt d L) ∗ scopedSems0 (Vt d L)
            ∗ ∃ W', ⌜∀ p ∈ W', p ∈ W ∨ p.2 = none⌝ ∗ owes (Vt d L) O W') :=
  tile_wrap0 d L tab I f hF hI O W hO _ _
    (fun g0 r => tile_run0 d L _ O W tab I (fun z hz => hI z (set_idxBlkM d L ▸ hz)) g0 r f) (out_frame0 d L)

end Cert.Kernel.Hand

end
-- ==== Proof.BTile0k.lean ====
/-
  The value of one chunk of the first gather call.

  The subcore's list scratch holds its block of the index array: word (c, x) of the scratch is word (wid, c, x) of the
  array. The gather of chunk c reads row c of the scratch as its list and lands, at row j of the ring slot, the table
  row that word (c, j) names. Row 5120 wid + 128 c + j of the whole-array function is the table row named by the
  index word at flat position 5120 wid + 128 c + j, which is word (wid, c, j): the same row. So what a chunk's gather
  lands is its rows of the one function.
-/
import proofs.«206421_g46840913330738_cont_8to1c4_247_26_alg».proof.Proof.BTile0a
import Idealize.ShloMosaic.Lib.ValueIdx
import Idealize.ShloMosaic.Lib.Pipeline.Value

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0 (d : Dev nD) (L : grid0.Coords) (fl : Buf (Elt F) (listW.view.loc (Vt d L))) (c : ℕ) (hc : c < 40)
    (o : Fin 2 → ℕ) (h : ∀ a, o a + S1x128.size a ≤ S40x128.size a) (ho : o = ![c, 0]) (y : S128.Idx) :
    View.read (Elt F) (rowM o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid, c, x) of the index array. -/
theorem idxBlk_read0 (d : Dev nD) (L : grid0.Coords) (I : Buf (Elt F) ((idxBlkM L).view.loc (Vt d L))) (z : S40x128.Idx) :
    View.read (Elt F) (idxBlkM L).view I z = I (ix3 (⟨wid L, wid_lt L⟩ : Fin 32) (z 0) (z 1)) := by
  rw [View.read_apply]
  simp only [cast_eq]
  congr 1
  show (Rect.unit (s := S32x40x128) (k0_off1 L) S1x40x128.size (k0_off1_inb L)).emb (Shape.reshapeEquiv _ z) = _
  rw [Shape.reshapeEquiv_cons_one]
  funext a
  apply Fin.ext
  rw [Rect.emb_apply]
  have e := k0_off1_eq L
  match a with
  | ⟨0, _⟩ => show k0_off1 L 0 + 1 * 0 = wid L; rw [e]; show 2 * (L 1).val + (L 0).val + 1 * 0 = wid L; unfold wid; omega
  | ⟨1, _⟩ => show k0_off1 L 1 + 1 * (z 0).val = (z 0).val; rw [e]; show 0 + 1 * (z 0).val = (z 0).val; omega
  | ⟨2, _⟩ => show k0_off1 L 2 + 1 * (z 1).val = (z 1).val; rw [e]; show 0 + 1 * (z 1).val = (z 1).val; omega

/-- After the block copy the list scratch holds the subcore's block: word (c, x) is word (wid, c, x) of the array. -/
theorem listFill_apply0 (d : Dev nD) (L : grid0.Coords) (I : Buf (Elt F) ((idxBlkM L).view.loc (Vt d L)))
    (g0 : Buf (Elt F) (listW.view.loc (Vt d L))) (z : S40x128.Idx) :
    listFill d L I g0 z = I (ix3 (⟨wid L, wid_lt L⟩ : Fin 32) (z 0) (z 1)) := by
  unfold listFill
  show View.write (Elt F) listW.view g0 _ Finset.univ (listW.view.emb z) = _
  rw [View.write_emb_of_mem _ _ (Finset.mem_univ _)]
  simp only [cast_eq]
  exact idxBlk_read0 d L I z

/-! ## What a chunk's gather lands is its rows of the whole-array function -/

/-- The flat position of word (w, c, j) of the index array. -/
theorem rowMajor_ix3_0 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0 (v : S1000000x128.Idx) : tabS.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid + 128 c + j, column e. -/
theorem landed_eq_gathered0 (d : Dev nD) (L : grid0.Coords) (tab : Buf (Elt F) (tabLoc d)) (I : Buf (Elt F) (idxLoc d))
    (g0 : Buf (Elt F) (listW.view.loc (Vt d L)))
    (hI : ∀ z ∈ idxRows0 d L, BitVec.toNat (I z) < 1000000)
    (c : ℕ) (hc : c < 40)
    (hin : ∀ x : S128.Idx, BitVec.toNat (View.read (Elt F) (rowM ![c, 0] (rowInb c hc)).view (listFill d L I g0) x) < 1000000)
    (y : S128x128.Idx) (x : S163840x128.Idx)
    (hx0 : (x 0).val = 5120 * wid L + 128 * c + (y 0).val) (hx1 : (x 1).val = (y 1).val) :
    landed d L tab (listFill d L I g0) ![c, 0] (rowInb c hc) hin y = gathered0 tab I x := by
  rw [gathered0_apply]
  unfold landed SparseCore.gatherPayload
  rw [View.read_apply]
  simp only [cast_eq]
  congr 1
  refine (tabS_emb0 _).trans ?_
  have hw : ∀ u : S128.Idx, View.read (Elt F) (rowM ![c, 0] (rowInb c hc)).view (listFill d L I g0) u
      = I (ix3 (⟨wid L, wid_lt L⟩ : Fin 32) (⟨c, hc⟩ : Fin 40) (u 0)) := fun u => by
    rw [rowM_read0 d L _ c hc _ _ rfl u, listFill_apply0]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll (fun r => gatherRow0 I r) x)).symm
    show BitVec.toNat (View.read (Elt F) (rowM ![c, 0] (rowInb c hc)).view (listFill d L I g0)
        (S128.rowMajor.symm (Fin.cast _ (y gathers_S1000000x128_S128x128.axis'))))
      = BitVec.toNat (I (S32x40x128.rowMajor.symm (Fin.cast _ (x gathersAll.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll.axis'))
        = ix3 (⟨wid L, wid_lt L⟩ : Fin 32) (⟨c, hc⟩ : Fin 40) (u 0) :=
      (Equiv.symm_apply_eq _).mpr (Fin.ext ((show (x gathersAll.axis').val = 5120 * wid L + 128 * c + (u 0).val from by
        rw [hu0, ← hx0]; rfl).trans (rowMajor_ix3_0 (⟨wid L, wid_lt L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll (fun r => gatherRow0 I r) x ⟨1, by decide⟩ Nat.one_ne_zero).symm
    exact hx1.symm

end Cert.Kernel.Hand

end
-- ==== Proof.BTile0b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.BTile0a
import proofs.«206421_g46840913330738_cont_8to1c4_247_26_alg».proof.Proof.BTile0k

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo (d : Dev nD) (L : grid0.Coords) (tab : Buf (Elt F) (tabW.view.loc (Vt d L))) (I : Buf (Elt F) ((idxBlkM L).view.loc (Vt d L)))
    (n : ℕ) (f : Buf (Elt F) (outW.view.loc (Vt d L))) : Prop :=
  ∀ x : S163840x128.Idx, 5120 * wid L ≤ (x 0).val → (x 0).val < 5120 * wid L + 128 * n → f x = gathered0 (d := d) tab I x

/-- Before trip g < 8, of the contents: the rows of the chunks before 5g hold the gathered rows, and slot b is
    to hold what the gather of chunk 5g + b lands. -/
def FactsFly (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000) (g : ℕ) (h : g < 8) (s0 s1 s2 s3 s4 : Buf (Elt F) (ringW.view.loc (Vt d L))) (f : Buf (Elt F) (outW.view.loc (Vt d L))) : Prop :=
  DoneUpTo d L tab I (5 * g) f
    ∧ View.read (Elt F) slot0M.view s0 = landed d L tab (listFill d L I g0) ![5 * g + 0, 0] (rowInb0 g h) (hin _ _)
    ∧ View.read (Elt F) slot1M.view s1 = landed d L tab (listFill d L I g0) ![5 * g + 1, 0] (rowInb1 g h) (hin _ _)
    ∧ View.read (Elt F) slot2M.view s2 = landed d L tab (listFill d L I g0) ![5 * g + 2, 0] (rowInb2 g h) (hin _ _)
    ∧ View.read (Elt F) slot3M.view s3 = landed d L tab (listFill d L I g0) ![5 * g + 3, 0] (rowInb3 g h) (hin _ _)
    ∧ View.read (Elt F) slot4M.view s4 = landed d L tab (listFill d L I g0) ![5 * g + 4, 0] (rowInb4 g h) (hin _ _)

/-- A slot written whole reads back what was written. -/
theorem read_writes_whole {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr (d : Dev nD) (L : grid0.Coords) (tab : Buf (Elt F) (tabW.view.loc (Vt d L)))
    (fl : Buf (Elt F) (listW.view.loc (Vt d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM o h).view fl x) < 1000000)
    (hin' : ∀ x : S128.Idx, BitVec.toNat (View.read (Elt F) (rowM o' h').view fl x) < 1000000) :
    landed d L tab fl o h hin = landed d L tab fl o' h' hin' := by
  subst e; rfl

/-- One chunk copied out extends what is done by that chunk. -/
theorem done_step (d : Dev nD) (L : grid0.Coords) (tab : Buf (Elt F) (tabW.view.loc (Vt d L))) (I : Buf (Elt F) ((idxBlkM L).view.loc (Vt d L)))
    (n : ℕ) (o : Fin 2 → ℕ) (ho : o = ![5120 * wid L + 128 * n, 0])
    (hinb : ∀ a, o a + S128x128.size a ≤ S163840x128.size a)
    (f : Buf (Elt F) (outW.view.loc (Vt d L))) (p : S128x128.Idx → Elt F .f32)
    (hf : DoneUpTo d L tab I n f)
    (hp : ∀ (y : S128x128.Idx) (x : S163840x128.Idx), (x 0).val = 5120 * wid L + 128 * n + (y 0).val → (x 1).val = (y 1).val →
      p y = gathered0 (d := d) tab I x) :
    DoneUpTo d L tab I (n + 1)
      (View.write (Elt F) (outW.slice (Rect.unit (s := S163840x128) o S128x128.size hinb) (fun _ => rfl)).view f p Finset.univ) := by
  subst ho
  intro x hlo hhi
  by_cases hx : (x 0).val < 5120 * wid L + 128 * n
  · rw [View.write_of_not_mem]
    · exact hf x hlo hx
    · rw [View.setOn_univ]
      show x ∉ ((View.whole main_v4_scv : View sig .scVector .hbm S163840x128 .f32).slice (Rect.unit (s := S163840x128) ![5120 * wid L + 128 * n, 0] S128x128.size hinb)).set
      rw [View.set_slice_whole, Rect.mem_set_unit]
      intro h
      have h0 : 5120 * wid L + 128 * n ≤ (x 0).val := (h 0).1
      omega
  · have hmem : x ∈ (Rect.unit (s := S163840x128) ![5120 * wid L + 128 * n, 0] S128x128.size hinb).set := by
      rw [Rect.mem_set_unit]
      intro a
      have h1 : (x 1).val < 128 := (x 1).isLt
      fin_cases a
      · show 5120 * wid L + 128 * n ≤ (x 0).val ∧ (x 0).val < 5120 * wid L + 128 * n + 128
        omega
      · show 0 ≤ (x 1).val ∧ (x 1).val < 0 + 128
        omega
    rw [← Rect.map_emb_univ] at hmem
    obtain ⟨y, -, rfl⟩ := Finset.mem_map.mp hmem
    have e : (outW.slice (Rect.unit (s := S163840x128) ![5120 * wid L + 128 * n, 0] S128x128.size hinb) (fun _ => rfl)).view.emb y
        = (Rect.unit (s := S163840x128) ![5120 * wid L + 128 * n, 0] S128x128.size hinb).emb y := rfl
    rw [← e, View.write_emb_of_mem _ _ (Finset.mem_univ y)]
    simp only [cast_eq]
    refine hp y _ ?_ ?_
    · rw [e, Rect.emb_apply]
      show 5120 * wid L + 128 * n + 1 * (y 0).val = 5120 * wid L + 128 * n + (y 0).val
      omega
    · rw [e, Rect.emb_apply]
      show 0 + 1 * (y 1).val = (y 1).val
      omega

theorem off3c (L : grid0.Coords) (k : Fin k0_t1_loop.trips) (r : Fin 5) :
    k0_off3 L k (BitVec.ofNat 32 r.val) = ![5120 * wid L + 128 * (5 * k.val + r.val), 0] :=
  (k0_off3_eq L k r).trans (by unfold wid; rw [show 10240 * (L 1).val + 5120 * (L 0).val + 640 * k.val + 128 * r.val = 5120 * (2 * (L 1).val + (L 0).val) + 128 * (5 * k.val + r.val) by omega])

/-- The five chunks a trip copies out extend what is done by five chunks. -/
theorem done5 (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000)
    (hK : ∀ (c : ℕ) (hc : c < 40) (hin' : ∀ x : S128.Idx, BitVec.toNat (View.read (Elt F) (rowM ![c, 0] (rowInb c hc)).view (listFill d L I g0) x) < 1000000)
      (y : S128x128.Idx) (x : S163840x128.Idx), (x 0).val = 5120 * wid L + 128 * c + (y 0).val → (x 1).val = (y 1).val →
      landed d L tab (listFill d L I g0) ![c, 0] (rowInb c hc) hin' y = gathered0 (d := d) tab I x)
    (k : Fin k0_t1_loop.trips) (hk8 : k.val < 8) (s0 s1 s2 s3 s4 : Buf (Elt F) (ringW.view.loc (Vt d L))) (f : Buf (Elt F) (outW.view.loc (Vt d L)))
    (hF : FactsFly d L tab I g0 hin k.val hk8 s0 s1 s2 s3 s4 f) :
    DoneUpTo d L tab I (5 * (k.val + 1))
      (View.write (Elt F) (outW.slice (Rect.unit (s := S163840x128) (k0_off3 L k 4#32) S128x128.size (k0_off3_inb L k 4)) (fun _ => rfl)).view (View.write (Elt F) (outW.slice (Rect.unit (s := S163840x128) (k0_off3 L k 3#32) S128x128.size (k0_off3_inb L k 3)) (fun _ => rfl)).view (View.write (Elt F) (outW.slice (Rect.unit (s := S163840x128) (k0_off3 L k 2#32) S128x128.size (k0_off3_inb L k 2)) (fun _ => rfl)).view (View.write (Elt F) (outW.slice (Rect.unit (s := S163840x128) (k0_off3 L k 1#32) S128x128.size (k0_off3_inb L k 1)) (fun _ => rfl)).view (View.write (Elt F) (outW.slice (Rect.unit (s := S163840x128) (k0_off3 L k 0#32) S128x128.size (k0_off3_inb L k 0)) (fun _ => rfl)).view f (ReadAs.same.apply (View.read (Elt F) slot0M.view s0)) Finset.univ) (ReadAs.same.apply (View.read (Elt F) slot1M.view s1)) Finset.univ) (ReadAs.same.apply (View.read (Elt F) slot2M.view s2)) Finset.univ) (ReadAs.same.apply (View.read (Elt F) slot3M.view s3)) Finset.univ) (ReadAs.same.apply (View.read (Elt F) slot4M.view s4)) Finset.univ) := by
  obtain ⟨hd, h0, h1, h2, h3, h4⟩ := hF
  have e : 5 * (k.val + 1) = 5 * k.val + 0 + 1 + 1 + 1 + 1 + 1 := by omega
  rw [e]
  refine done_step d L tab I _ _ (off3c L k 4) _ _ _ ?_ ?_
  refine done_step d L tab I _ _ (off3c L k 3) _ _ _ ?_ ?_
  refine done_step d L tab I _ _ (off3c L k 2) _ _ _ ?_ ?_
  refine done_step d L tab I _ _ (off3c L k 1) _ _ _ ?_ ?_
  refine done_step d L tab I _ _ (off3c L k 0) _ _ _ ?_ ?_
  · exact hd
  · intro y x hx0 hx1
    show View.read (Elt F) slot0M.view s0 y = _
    rw [h0]; exact hK (5 * k.val + 0) (by omega) _ y x hx0 hx1
  · intro y x hx0 hx1
    show View.read (Elt F) slot1M.view s1 y = _
    rw [h1]; exact hK (5 * k.val + 1) (by omega) _ y x hx0 hx1
  · intro y x hx0 hx1
    show View.read (Elt F) slot2M.view s2 y = _
    rw [h2]; exact hK (5 * k.val + 2) (by omega) _ y x hx0 hx1
  · intro y x hx0 hx1
    show View.read (Elt F) slot3M.view s3 y = _
    rw [h3]; exact hK (5 * k.val + 3) (by omega) _ y x hx0 hx1
  · intro y x hx0 hx1
    show View.read (Elt F) slot4M.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L))) (g : ℕ) (h : g < 8) (s0 s1 s2 s3 s4 : Buf (Elt F) (ringW.view.loc (Vt d L))) (f : Buf (Elt F) (outW.view.loc (Vt d L))) : sProp (MM F) :=
  iprop(Transfers.MayWaits (Vt d L) (default : HIx 5) O
    ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
    ∗ owesW d L O W
    ∗ (outW.view.loc (Vt d L) ↦[outW.view.setOn (outWinR L).set]{fullShare} f)
    ∗ ((Transfers.Flight countersEmb (Vt d L) (SemLoc.dma cc0_scratch2.sem) (default : HIx 5) 524288
              iprop(((slot0M.view.loc (Vt d L) ↦[slot0M.view.set]{fullShare} s0)
                  ∗ (listW.view.loc (Vt d L) ↦[(rowM ![5 * g + 0, 0] (rowInb0 g h)).view.set]{fullShare} fl))
                ∗ (tabW.view.loc (Vt d L) ↦[tabS.view.set]{Transfers.shareTok q 80 cc0_scratch2.sem} tab))
            ∗ (slot0M.view.loc (Vt d L) ↦[slot0M.view.set \ slot0M.view.set]{fullShare} s0))
          ∗ (tabW.view.loc (Vt d L) ↦[Finset.univ \ tabS.view.set]{Transfers.shareTok q 80 cc0_scratch2.sem} tab))
    ∗ ((Transfers.Flight countersEmb (Vt d L) (SemLoc.dma cc0_scratch3.sem) (default : HIx 5) 524288
              iprop(((slot1M.view.loc (Vt d L) ↦[slot1M.view.set]{fullShare} s1)
                  ∗ (listW.view.loc (Vt d L) ↦[(rowM ![5 * g + 1, 0] (rowInb1 g h)).view.set]{fullShare} fl))
                ∗ (tabW.view.loc (Vt d L) ↦[tabS.view.set]{Transfers.shareTok q 80 cc0_scratch3.sem} tab))
            ∗ (slot1M.view.loc (Vt d L) ↦[slot1M.view.set \ slot1M.view.set]{fullShare} s1))
          ∗ (tabW.view.loc (Vt d L) ↦[Finset.univ \ tabS.view.set]{Transfers.shareTok q 80 cc0_scratch3.sem} tab))
    ∗ ((Transfers.Flight countersEmb (Vt d L) (SemLoc.dma cc0_scratch4.sem) (default : HIx 5) 524288
              iprop(((slot2M.view.loc (Vt d L) ↦[slot2M.view.set]{fullShare} s2)
                  ∗ (listW.view.loc (Vt d L) ↦[(rowM ![5 * g + 2, 0] (rowInb2 g h)).view.set]{fullShare} fl))
                ∗ (tabW.view.loc (Vt d L) ↦[tabS.view.set]{Transfers.shareTok q 80 cc0_scratch4.sem} tab))
            ∗ (slot2M.view.loc (Vt d L) ↦[slot2M.view.set \ slot2M.view.set]{fullShare} s2))
          ∗ (tabW.view.loc (Vt d L) ↦[Finset.univ \ tabS.view.set]{Transfers.shareTok q 80 cc0_scratch4.sem} tab))
    ∗ ((Transfers.Flight countersEmb (Vt d L) (SemLoc.dma cc0_scratch5.sem) (default : HIx 5) 524288
              iprop(((slot3M.view.loc (Vt d L) ↦[slot3M.view.set]{fullShare} s3)
                  ∗ (listW.view.loc (Vt d L) ↦[(rowM ![5 * g + 3, 0] (rowInb3 g h)).view.set]{fullShare} fl))
                ∗ (tabW.view.loc (Vt d L) ↦[tabS.view.set]{Transfers.shareTok q 80 cc0_scratch5.sem} tab))
            ∗ (slot3M.view.loc (Vt d L) ↦[slot3M.view.set \ slot3M.view.set]{fullShare} s3))
          ∗ (tabW.view.loc (Vt d L) ↦[Finset.univ \ tabS.view.set]{Transfers.shareTok q 80 cc0_scratch5.sem} tab))
    ∗ ((Transfers.Flight countersEmb (Vt d L) (SemLoc.dma cc0_scratch6.sem) (default : HIx 5) 524288
              iprop(((slot4M.view.loc (Vt d L) ↦[slot4M.view.set]{fullShare} s4)
                  ∗ (listW.view.loc (Vt d L) ↦[(rowM ![5 * g + 4, 0] (rowInb4 g h)).view.set]{fullShare} fl))
                ∗ (tabW.view.loc (Vt d L) ↦[tabS.view.set]{Transfers.shareTok q 80 cc0_scratch6.sem} tab))
            ∗ (slot4M.view.loc (Vt d L) ↦[slot4M.view.set \ slot4M.view.set]{fullShare} s4))
          ∗ (tabW.view.loc (Vt d L) ↦[Finset.univ \ tabS.view.set]{Transfers.shareTok q 80 cc0_scratch6.sem} tab))
    ∗ (listW.view.loc (Vt d L) ↦[((((Finset.univ \ (rowM ![5 * g + 0, 0] (rowInb0 g h)).view.set) \ (rowM ![5 * g + 1, 0] (rowInb1 g h)).view.set)
              \ (rowM ![5 * g + 2, 0] (rowInb2 g h)).view.set) \ (rowM ![5 * g + 3, 0] (rowInb3 g h)).view.set) \ (rowM ![5 * g + 4, 0] (rowInb4 g h)).view.set]{fullShare} fl))

/-- After the last trip: every cell at zero, the slots, the list and the shares back. -/
def invIdle (d : Dev nD) (L : grid0.Coords) (q : PosShare TreeShare) (O : CellTallies nD τ sig (HIx 5)) (W : Waits sig (HIx 5))
    (tab : Buf (Elt F) (tabW.view.loc (Vt d L))) (fl : Buf (Elt F) (listW.view.loc (Vt d L))) (s0 s1 s2 s3 s4 : Buf (Elt F) (ringW.view.loc (Vt d L))) (f : Buf (Elt F) (outW.view.loc (Vt d L))) : sProp (MM F) :=
  iprop(Transfers.MayWaits (Vt d L) (default : HIx 5) O
    ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
    ∗ owesW d L O W
    ∗ (outW.view.loc (Vt d L) ↦[outW.view.setOn (outWinR L).set]{fullShare} f)
    ∗ ((tabW.view.loc (Vt d L) ↦{Transfers.shareTok q 80 cc0_scratch2.sem} tab) ∗ semVal (Vt d L, SemLoc.dma cc0_scratch2.sem) 0
          ∗ (slot0M.view.loc (Vt d L) ↦[slot0M.view.set]{fullShare} s0))
    ∗ ((tabW.view.loc (Vt d L) ↦{Transfers.shareTok q 80 cc0_scratch3.sem} tab) ∗ semVal (Vt d L, SemLoc.dma cc0_scratch3.sem) 0
          ∗ (slot1M.view.loc (Vt d L) ↦[slot1M.view.set]{fullShare} s1))
    ∗ ((tabW.view.loc (Vt d L) ↦{Transfers.shareTok q 80 cc0_scratch4.sem} tab) ∗ semVal (Vt d L, SemLoc.dma cc0_scratch4.sem) 0
          ∗ (slot2M.view.loc (Vt d L) ↦[slot2M.view.set]{fullShare} s2))
    ∗ ((tabW.view.loc (Vt d L) ↦{Transfers.shareTok q 80 cc0_scratch5.sem} tab) ∗ semVal (Vt d L, SemLoc.dma cc0_scratch5.sem) 0
          ∗ (slot3M.view.loc (Vt d L) ↦[slot3M.view.set]{fullShare} s3))
    ∗ ((tabW.view.loc (Vt d L) ↦{Transfers.shareTok q 80 cc0_scratch6.sem} tab) ∗ semVal (Vt d L, SemLoc.dma cc0_scratch6.sem) 0
          ∗ (slot4M.view.loc (Vt d L) ↦[slot4M.view.set]{fullShare} s4))
    ∗ (listW.view.loc (Vt d L) ↦{fullShare} fl))

/-- What the loop keeps. -/
def inv0v (q : PosShare TreeShare) (O : CellTallies nD τ sig (HIx 5)) (W : Waits sig (HIx 5)) (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000) (g : ℕ) (_ : PUnit) : sProp (MM F) :=
  if h : g < 8 then
    iprop(∃ s0 s1 s2 s3 s4 f, ⌜FactsFly d L tab I g0 hin g h s0 s1 s2 s3 s4 f⌝ ∗ invFly d L q O W tab (listFill d L I g0) g h s0 s1 s2 s3 s4 f)
  else
    iprop(∃ s0 s1 s2 s3 s4 f, ⌜DoneUpTo d L tab I (5 * g) f⌝ ∗ invIdle d L q O W tab (listFill d L I g0) s0 s1 s2 s3 s4 f)

/-! ## One trip, with the contents -/

set_option maxHeartbeats 4000000 in
theorem trip0v (q : PosShare TreeShare) (O : CellTallies nD τ sig (HIx 5)) (W : Waits sig (HIx 5)) (d : Dev nD) (L : grid0.Coords) (tab : Buf (Elt F) (tabW.view.loc (Vt d L))) (I : Buf (Elt F) ((idxBlkM L).view.loc (Vt d L)))
    (g0 : Buf (Elt F) (listW.view.loc (Vt d L)))
    (hin : ∀ (o : Fin 2 → ℕ) (h : ∀ a, o a + S1x128.size a ≤ S40x128.size a) (x : S128.Idx),
      BitVec.toNat (View.read (Elt F) (rowM o h).view (listFill d L I g0) x) < 1000000)
    (hK : ∀ (c : ℕ) (hc : c < 40) (hin' : ∀ x : S128.Idx, BitVec.toNat (View.read (Elt F) (rowM ![c, 0] (rowInb c hc)).view (listFill d L I g0) x) < 1000000)
      (y : S128x128.Idx) (x : S163840x128.Idx), (x 0).val = 5120 * wid L + 128 * c + (y 0).val → (x 1).val = (y 1).val →
      landed d L tab (listFill d L I g0) ![c, 0] (rowInb c hc) hin' y = gathered0 (d := d) tab I x)
    (v2 : BitVec 32) (k : Fin k0_t1_loop.trips) (acc : PUnit) :
    inv0v q O W d L tab I g0 hin k.val acc
      ⊢ wp frame (wpE (defs₀ (F := F)) 𝒱₀ (Vt d L) none) Set.univ
          (k0_t1_body L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0 v2 k acc)
          (inv0v q O W d L tab I g0 hin (k.val + 1)) := by
  have hk8 : k.val < 8 := trips_eq ▸ k.isLt
  unfold inv0v
  rw [dif_pos hk8]
  by_cases hk : k.val < 7
  · obtain ⟨hc1, hc2, hc3, hc4, hc5⟩ := conds_lt k hk
    have hk1 : k.val + 1 < 8 := by omega
    rw [dif_pos hk1]
    unfold k0_t1_body
    iintro ⟨%s0, %s1, %s2, %s3, %s4, %f, %hF, HP⟩
    unfold invFly
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    rw [rowSet_congr d L (off4 k) (k0_off4_inb k hc1) (rowInb0 (k.val + 1) hk1), rowSet_congr d L (off5 k) (k0_off5_inb k hc2) (rowInb1 (k.val + 1) hk1),
      rowSet_congr d L (off6 k) (k0_off6_inb k hc3) (rowInb2 (k.val + 1) hk1), rowSet_congr d L (off7 k) (k0_off7_inb k hc4) (rowInb3 (k.val + 1) hk1),
      rowSet_congr d L (off8 k) (k0_off8_inb k hc5) (rowInb4 (k.val + 1) hk1)]
    ihave HO' := (owesW_intro (W := W) (ins_none (ins_none (ins_none (ins_none (ins_none (ins_none (ins_none (ins_none (ins_none (ins_none hW' _) _) _) _) _) _) _) _) _) _)) $$ HO
    iexists _; iexists _; iexists _; iexists _; iexists _; iexists _
    isplitr
    swap
    · sl_close
    · ipureintro
      refine ⟨done5 d L tab I g0 hin hK k hk8 s0 s1 s2 s3 s4 f hF, ?_, ?_, ?_, ?_, ?_⟩
      · exact (read_writes_whole _ _ _).trans (landed_congr d L tab _ (off4 k) _ _ _ _)
      · exact (read_writes_whole _ _ _).trans (landed_congr d L tab _ (off5 k) _ _ _ _)
      · exact (read_writes_whole _ _ _).trans (landed_congr d L tab _ (off6 k) _ _ _ _)
      · exact (read_writes_whole _ _ _).trans (landed_congr d L tab _ (off7 k) _ _ _ _)
      · exact (read_writes_whole _ _ _).trans (landed_congr d L tab _ (off8 k) _ _ _ _)
  · obtain ⟨hc1, hc2, hc3, hc4, hc5⟩ := conds_last k hk
    rw [dif_neg (show ¬ k.val + 1 < 8 by omega)]
    unfold k0_t1_body
    iintro ⟨%s0, %s1, %s2, %s3, %s4, %f, %hF, HP⟩
    unfold invFly
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim $$ HOw
    icases HO2 with ⟨%W', %hW', HO⟩
    set_option sl_exec.dmaWindow true in set_option sl_exec.dmaWindowLent true in sl_exec
    sl_step
    ihave HO' := (owesW_intro (W := W) (ins_none (ins_none (ins_none (ins_none (ins_none (ins_none (ins_none (ins_none (ins_none (ins_none hW' _) _) _) _) _) _) _) _) _) _)) $$ HO
    iexists _; iexists _; iexists _; iexists _; iexists _; iexists _
    isplitr
    swap
    · unfold invIdle
      sl_close
    · ipureintro
      exact done5 d L tab I g0 hin hK k hk8 s0 s1 s2 s3 s4 f hF

end Cert.Kernel.Hand

end
-- ==== Proof.BTile0v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.BTile0b

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0 (d : Dev nD) (L : grid0.Coords) (q : PosShare TreeShare) (O : CellTallies nD τ sig (HIx 5)) (W : Waits sig (HIx 5))
    (tab : Buf (Elt F) (tabW.view.loc (Vt d L))) (I : Buf (Elt F) ((idxBlkM L).view.loc (Vt d L)))
    (hI : ∀ z ∈ (idxBlkM L).view.set, BitVec.toNat (I z) < 1000000)
    (g0 : Buf (Elt F) (listW.view.loc (Vt d L))) (r : Buf (Elt F) (ringW.view.loc (Vt d L)))
    (f : Buf (Elt F) (outW.view.loc (Vt d L))) :
    (iprop(Transfers.MayWaits (Vt d L) (default : HIx 5) O
        ∗ (tabW.view.loc (Vt d L) ↦{Transfers.shareTok q 80 cc0_scratch2.sem} tab)
        ∗ (tabW.view.loc (Vt d L) ↦{Transfers.shareTok q 80 cc0_scratch3.sem} tab)
        ∗ (tabW.view.loc (Vt d L) ↦{Transfers.shareTok q 80 cc0_scratch4.sem} tab)
        ∗ (tabW.view.loc (Vt d L) ↦{Transfers.shareTok q 80 cc0_scratch5.sem} tab)
        ∗ (tabW.view.loc (Vt d L) ↦{Transfers.shareTok q 80 cc0_scratch6.sem} tab)
        ∗ ((idxBlkM L).view.loc (Vt d L) ↦[(idxBlkM L).view.set]{fullShare} I)
        ∗ (listW.view.loc (Vt d L) ↦{fullShare} g0)
        ∗ (slot0M.view.loc (Vt d L) ↦[slot0M.view.set]{fullShare} r)
        ∗ (slot1M.view.loc (Vt d L) ↦[slot1M.view.set]{fullShare} r)
        ∗ (slot2M.view.loc (Vt d L) ↦[slot2M.view.set]{fullShare} r)
        ∗ (slot3M.view.loc (Vt d L) ↦[slot3M.view.set]{fullShare} r)
        ∗ (slot4M.view.loc (Vt d L) ↦[slot4M.view.set]{fullShare} r)
        ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
        ∗ owes (Vt d L) O W
        ∗ (outW.view.loc (Vt d L) ↦[outW.view.setOn (outWinR L).set]{fullShare} f)) : sProp (MM F))
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop((tabW.view.loc (Vt d L) ↦{Transfers.shareTok q 80 cc0_scratch2.sem} tab)
            ∗ (tabW.view.loc (Vt d L) ↦{Transfers.shareTok q 80 cc0_scratch3.sem} tab)
            ∗ (tabW.view.loc (Vt d L) ↦{Transfers.shareTok q 80 cc0_scratch4.sem} tab)
            ∗ (tabW.view.loc (Vt d L) ↦{Transfers.shareTok q 80 cc0_scratch5.sem} tab)
            ∗ (tabW.view.loc (Vt d L) ↦{Transfers.shareTok q 80 cc0_scratch6.sem} tab)
            ∗ ((idxBlkM L).view.loc (Vt d L) ↦[(idxBlkM L).view.set]{fullShare} I)
            ∗ (∃ fl : Buf (Elt F) (listW.view.loc (Vt d L)), listW.view.loc (Vt d L) ↦{fullShare} fl)
            ∗ (∃ s : Buf (Elt F) (slot0M.view.loc (Vt d L)), slot0M.view.loc (Vt d L) ↦[slot0M.view.set]{fullShare} s)
            ∗ (∃ s : Buf (Elt F) (slot1M.view.loc (Vt d L)), slot1M.view.loc (Vt d L) ↦[slot1M.view.set]{fullShare} s)
            ∗ (∃ s : Buf (Elt F) (slot2M.view.loc (Vt d L)), slot2M.view.loc (Vt d L) ↦[slot2M.view.set]{fullShare} s)
            ∗ (∃ s : Buf (Elt F) (slot3M.view.loc (Vt d L)), slot3M.view.loc (Vt d L) ↦[slot3M.view.set]{fullShare} s)
            ∗ (∃ s : Buf (Elt F) (slot4M.view.loc (Vt d L)), slot4M.view.loc (Vt d L) ↦[slot4M.view.set]{fullShare} s)
            ∗ semVal (Vt d L, SemLoc.dma cc0_scratch2.sem) 0 ∗ semVal (Vt d L, SemLoc.dma cc0_scratch3.sem) 0 ∗ semVal (Vt d L, SemLoc.dma cc0_scratch4.sem) 0 ∗ semVal (Vt d L, SemLoc.dma cc0_scratch5.sem) 0 ∗ semVal (Vt d L, SemLoc.dma cc0_scratch6.sem) 0 ∗ semVal (Vt d L, SemLoc.dma cc0_scratch7.sem) 0 ∗ semVal (Vt d L, SemLoc.dma cc0_scratch8.sem) 0 ∗ semVal (Vt d L, SemLoc.dma cc0_scratch9.sem) 0 ∗ semVal (Vt d L, SemLoc.dma cc0_scratch10.sem) 0 ∗ semVal (Vt d L, SemLoc.dma cc0_scratch11.sem) 0 ∗ semVal (Vt d L, SemLoc.dma cc0_scoped0.sem) 0
            ∗ owesW d L O W
            ∗ (∃ f' : Buf (Elt F) (outW.view.loc (Vt d L)), (outW.view.loc (Vt d L) ↦[outW.view.setOn (outWinR L).set]{fullShare} f')
                ∗ ⌜∀ x : S163840x128.Idx, 5120 * wid L ≤ (x 0).val ∧ (x 0).val < 5120 * wid L + 5120 → f' x = gathered0 (d := d) tab I x⌝)) := by
  have hin := list_words d L I g0 hI
  have hI' : ∀ z ∈ idxRows0 d L, BitVec.toNat (I z) < 1000000 := fun z hz => hI z (by rw [set_idxBlkM d L]; exact hz)
  have hK := fun c hc hin' y x hx0 hx1 => landed_eq_gathered0 (F := F) d L tab I g0 hI' c hc hin' y x hx0 hx1
  rw [cc0_gather_k_eq_skeleton]; unfold cc0_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v q O W d L tab I g0 hin hK _ k acc
  · unfold inv0v
    rw [dif_pos (show 0 < 8 by decide)]
    ihave HO' := (owesW_intro (W := W) (ins_none (fun p hp => Or.inl hp) _)) $$ HO
    iexists _; iexists _; iexists _; iexists _; iexists _; iexists _
    isplitr
    swap
    · unfold invFly
      sl_close
    · ipureintro
      refine ⟨fun x h1 h2 => absurd h2 (by omega), ?_, ?_, ?_, ?_, ?_⟩
      · exact (read_writes_whole _ _ _).trans (landed_congr d L tab _ (show (![0, 0] : Fin 2 → ℕ) = ![5 * 0 + 0, 0] from rfl) _ _ _ _)
      · exact (read_writes_whole _ _ _).trans (landed_congr d L tab _ (show (![1, 0] : Fin 2 → ℕ) = ![5 * 0 + 1, 0] from rfl) _ _ _ _)
      · exact (read_writes_whole _ _ _).trans (landed_congr d L tab _ (show (![2, 0] : Fin 2 → ℕ) = ![5 * 0 + 2, 0] from rfl) _ _ _ _)
      · exact (read_writes_whole _ _ _).trans (landed_congr d L tab _ (show (![3, 0] : Fin 2 → ℕ) = ![5 * 0 + 3, 0] from rfl) _ _ _ _)
      · exact (read_writes_whole _ _ _).trans (landed_congr d L tab _ (show (![4, 0] : Fin 2 → ℕ) = ![5 * 0 + 4, 0] from rfl) _ _ _ _)
  unfold inv0v
  rw [dif_neg (show ¬ k0_t1_loop.trips < 8 by rw [trips_eq]; decide)]
  iintro %acc ⟨%s0, %s1, %s2, %s3, %s4, %f', %hdone, HP⟩
  unfold invIdle
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k0_t1_loop.lb k0_t1_loop.ub k0_t1_loop.st = 8 := trips_eq
  rw [h8] at hdone
  have hfin : ∀ x : S163840x128.Idx, 5120 * wid L ≤ (x 0).val ∧ (x 0).val < 5120 * wid L + 5120 → f' x = gathered0 (d := d) tab I x :=
    fun x h => hdone x h.1 (by omega)
  sl_close

end Cert.Kernel.Hand

end
-- ==== Proof.BTile0Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.BTile0Wrap
import proofs.«206421_g46840913330738_cont_8to1c4_247_26_alg».proof.Proof.BTile0v

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body0 (d : Dev nD) (L : grid0.Coords) (tab : Buf (Elt F) (tabLoc d)) (I : Buf (Elt F) (idxLoc d)) (f : Buf (Elt F) (outLoc d))
    (hF : (K (F := F)).Facts) (hI : ∀ x ∈ idxRows0 d L, BitVec.toNat (I x) < 1000000)
    (O : CellTallies nD τ sig (HIx 5)) (W : Waits sig (HIx 5)) (hO : ∀ g, O g none = 0) :
    iprop(levAts (K (F := F)).L (K (F := F)).lev ∗ emp ∗ goRes0 d L tab I f
        ∗ scopedBufs (Vt d L) ∗ scopedSems0 (Vt d L) ∗ owes (Vt d L) O W)
      ⊢ wp frame (wpE (defs₀ (F := F)) 𝒱₀ (Vt d L) none) Set.univ
          (cc0_gather_k L tabW (Memref.isWhole_whole _) idxW (Memref.isWhole_whole _) outW (Memref.isWhole_whole _)
            listW (Memref.isWhole_whole _) ringW (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(tdRes0 d L tab I ∗ scopedBufs (Vt d L) ∗ scopedSems0 (Vt d L)
            ∗ ∃ W', ⌜∀ p ∈ W', p ∈ W ∨ p.2 = none⌝ ∗ owes (Vt d L) O W') :=
  tile_body0_of (F := F) tile_runV0 d L tab I f hF hI O W hO

end Cert.Kernel.Hand

end
-- ==== Proof.BTileObl0.lean ====
/-
  The launch theorem's obligation for gather call 0: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BTile0Body

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec0 (c : Fin τ.nSC) (s : Fin τ.nSub) :
    defs₀ (F := F) (.scVector c s) 0 ()
      = SparseCore.onTile hcore0 hsub0 (fun c s => cc0_gather_k (coordsV c s) (Memref.whole main_arg1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scoped0) ⟨⟩ c s := rfl

/-- Every index word of the call's index array names a table row. -/
def InRange0 : Prop := ∀ (d : Dev nD) (x : S32x40x128.Idx), (BitVec.toNat (W4 m d (r main_v3) x)) < 1000000

/-- The task of call 0, for every subcore of its grid. -/
theorem tileObl0 (hR : InRange0 m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vec0]; simp only [SparseCore.onTile, hc, and_self, ↓reduceDIte]
  show iprop(_ ∗ _ ∗ goRes0 d (coordsV c i) (W4 m d (r main_arg1)) (W4 m d (r main_v3)) (W4 m d (r main_v4)) ∗ _) ⊢ wp _ _ _ _
    (fun _ => iprop(tdRes0 d (coordsV c i) (W4 m d (r main_arg1)) (W4 m d (r main_v3)) ∗ _))
  exact (tile_body0 d (coordsV c i) (W4 m d (r main_arg1)) (W4 m d (r main_v3)) (W4 m d (r main_v4)) facts (fun x _ => hR d x) O W hO).trans
    (wp_mono frame _ _ fun _ => obl_post)

end Cert.Kernel.Hand

end
-- ==== Proof.BTile2a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.BTile2Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c2 (d : Dev nD) (L : grid2.Coords) : Thread nD τ := V d (cV2 L) (jV2 L)

abbrev tabW_c2 : Memref sig .scVector .hbm S1000000x128 .f32 := Memref.whole main_arg1_scv
abbrev idxW_c2 : Memref sig .scVector .hbm S32x40x128 .i32 := Memref.whole main_v7_scv
abbrev outW_c2 : Memref sig .scVector .hbm S163840x128 .f32 := Memref.whole main_v8_scv
abbrev listW_c2 : Memref sig .scVector .vmem S40x128 .i32 := Memref.whole cc2_scratch0
abbrev ringW_c2 : Memref sig .scVector .vmem S5x128x128 .f32 := Memref.whole cc2_scratch1
/-- The table as every gather names it: the slice that is all of it. -/
abbrev tabS_c2 : Memref sig .scVector .hbm S1000000x128 .f32 :=
  tabW_c2.slice (Rect.unit (s := S1000000x128) ![0, 0] S1000000x128.size inb_S1000000x128_S1000000x128_0_0) (fun _ => rfl)
/-- The subcore's block of the index array, as the block copy names it. -/
abbrev idxBlkM_c2 (L : grid2.Coords) : Memref sig .scVector .hbm S40x128 .i32 :=
  (idxW_c2.slice (Rect.unit (s := S32x40x128) (k2_off1 L) S1x40x128.size (k2_off1_inb L)) (fun _ => rfl)).squeeze S40x128 squeezes_S1x40x128_S40x128
/-- The five slots of the ring. -/
abbrev slot0M_c2 : Memref sig .scVector .vmem S128x128 .f32 :=
  (ringW_c2.slice (Rect.unit (s := S5x128x128) ![0, 0, 0] S1x128x128.size inb_S5x128x128_S1x128x128_0_0_0) (fun _ => rfl)).squeeze S128x128 squeezes_S1x128x128_S128x128
abbrev slot1M_c2 : Memref sig .scVector .vmem S128x128 .f32 :=
  (ringW_c2.slice (Rect.unit (s := S5x128x128) ![1, 0, 0] S1x128x128.size inb_S5x128x128_S1x128x128_1_0_0) (fun _ => rfl)).squeeze S128x128 squeezes_S1x128x128_S128x128
abbrev slot2M_c2 : Memref sig .scVector .vmem S128x128 .f32 :=
  (ringW_c2.slice (Rect.unit (s := S5x128x128) ![2, 0, 0] S1x128x128.size inb_S5x128x128_S1x128x128_2_0_0) (fun _ => rfl)).squeeze S128x128 squeezes_S1x128x128_S128x128
abbrev slot3M_c2 : Memref sig .scVector .vmem S128x128 .f32 :=
  (ringW_c2.slice (Rect.unit (s := S5x128x128) ![3, 0, 0] S1x128x128.size inb_S5x128x128_S1x128x128_3_0_0) (fun _ => rfl)).squeeze S128x128 squeezes_S1x128x128_S128x128
abbrev slot4M_c2 : Memref sig .scVector .vmem S128x128 .f32 :=
  (ringW_c2.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c2 (o : Fin 2 → ℕ) (h : ∀ a, o a + S1x128.size a ≤ S40x128.size a) : Memref sig .scVector .vmem S128 .i32 :=
  (listW_c2.slice (Rect.unit (s := S40x128) o S1x128.size h) (fun _ => rfl)).squeeze S128 squeezes_S1x128_S128

theorem rowInb_c2 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c2 (g : ℕ) (h : g < 8) : ∀ a, (![5 * g + 0, 0] : Fin 2 → ℕ) a + S1x128.size a ≤ S40x128.size a := rowInb_c2 (5 * g + 0) (by omega)
theorem rowInb1_c2 (g : ℕ) (h : g < 8) : ∀ a, (![5 * g + 1, 0] : Fin 2 → ℕ) a + S1x128.size a ≤ S40x128.size a := rowInb_c2 (5 * g + 1) (by omega)
theorem rowInb2_c2 (g : ℕ) (h : g < 8) : ∀ a, (![5 * g + 2, 0] : Fin 2 → ℕ) a + S1x128.size a ≤ S40x128.size a := rowInb_c2 (5 * g + 2) (by omega)
theorem rowInb3_c2 (g : ℕ) (h : g < 8) : ∀ a, (![5 * g + 3, 0] : Fin 2 → ℕ) a + S1x128.size a ≤ S40x128.size a := rowInb_c2 (5 * g + 3) (by omega)
theorem rowInb4_c2 (g : ℕ) (h : g < 8) : ∀ a, (![5 * g + 4, 0] : Fin 2 → ℕ) a + S1x128.size a ≤ S40x128.size a := rowInb_c2 (5 * g + 4) (by omega)

theorem rowM_congr_c2 {o o' : Fin 2 → ℕ} (e : o = o') (h : ∀ a, o a + S1x128.size a ≤ S40x128.size a)
    (h' : ∀ a, o' a + S1x128.size a ≤ S40x128.size a) : rowM_c2 o h = rowM_c2 o' h' := by
  subst e; rfl

/-- The subcore's rows of the gathered array as a rectangle in the grid coordinates themselves. -/
theorem outWinR_inb_c2 (L : grid2.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c2 (L : grid2.Coords) : Rect S163840x128 :=
  Rect.unit (s := S163840x128) ![10240 * (L 1).val + 5120 * (L 0).val, 0] ![5120, 128] (outWinR_inb_c2 L)

theorem outWinR_eq_c2 (L : grid2.Coords) : outWinR_c2 L = outRect2 L :=
  Rect.unit_congr (by unfold wid2; rw [show 5120 * (2 * (L 1).val + (L 0).val) = 10240 * (L 1).val + 5120 * (L 0).val by omega]) _ _

/-! ## The trips' offsets and conditions in closed form -/

theorem off4_c2 (k : Fin k2_t1_loop.trips) : k2_off4 k = ![5 * (k.val + 1) + 0, 0] :=
  (k2_off4_eq k).trans (by rw [show 5 * (k.val + 1) + 0 = 5 * k.val + 5 by omega])
theorem off5_c2 (k : Fin k2_t1_loop.trips) : k2_off5 k = ![5 * (k.val + 1) + 1, 0] :=
  (k2_off5_eq k).trans (by rw [show 5 * (k.val + 1) + 1 = 5 * k.val + 6 by omega])
theorem off6_c2 (k : Fin k2_t1_loop.trips) : k2_off6 k = ![5 * (k.val + 1) + 2, 0] :=
  (k2_off6_eq k).trans (by rw [show 5 * (k.val + 1) + 2 = 5 * k.val + 7 by omega])
theorem off7_c2 (k : Fin k2_t1_loop.trips) : k2_off7 k = ![5 * (k.val + 1) + 3, 0] :=
  (k2_off7_eq k).trans (by rw [show 5 * (k.val + 1) + 3 = 5 * k.val + 8 by omega])
theorem off8_c2 (k : Fin k2_t1_loop.trips) : k2_off8 k = ![5 * (k.val + 1) + 4, 0] :=
  (k2_off8_eq k).trans (by rw [show 5 * (k.val + 1) + 4 = 5 * k.val + 9 by omega])

theorem conds_lt_c2 : ∀ k : Fin k2_t1_loop.trips, k.val < 7 →
    k2_cond1 k = 1#1 ∧ k2_cond2 k = 1#1 ∧ k2_cond3 k = 1#1 ∧ k2_cond4 k = 1#1 ∧ k2_cond5 k = 1#1 := by decide +kernel
theorem conds_last_c2 : ∀ k : Fin k2_t1_loop.trips, ¬ k.val < 7 →
    ¬ k2_cond1 k = 1#1 ∧ ¬ k2_cond2 k = 1#1 ∧ ¬ k2_cond3 k = 1#1 ∧ ¬ k2_cond4 k = 1#1 ∧ ¬ k2_cond5 k = 1#1 := by decide +kernel
theorem trips_eq_c2 : k2_t1_loop.trips = 8 := by decide +kernel

/-! ## The words of the list scratch are words of the block -/

theorem list_words_c2 (d : Dev nD) (L : grid2.Coords) (I : Buf (Elt F) ((idxBlkM_c2 L).view.loc (Vt_c2 d L)))
    (g0 : Buf (Elt F) (listW_c2.view.loc (Vt_c2 d L)))
    (hI : ∀ z ∈ (idxBlkM_c2 L).view.set, BitVec.toNat (I z) < 1000000)
    (o : Fin 2 → ℕ) (h : ∀ a, o a + S1x128.size a ≤ S40x128.size a) (x : S128.Idx) :
    BitVec.toNat (View.read (Elt F) (rowM_c2 o h).view
      (View.write (Elt F) listW_c2.view g0 (ReadAs.same.apply (View.read (Elt F) (idxBlkM_c2 L).view I)) Finset.univ) x) < 1000000 := by
  rw [View.read_apply]
  have e : (rowM_c2 o h).view.emb x = listW_c2.view.emb ((rowM_c2 o h).view.emb x) := rfl
  rw [e, View.write_emb_of_mem _ _ (Finset.mem_univ _)]
  simp only [cast_cast, cast_eq]
  show BitVec.toNat (View.read (Elt F) (idxBlkM_c2 L).view I _) < 1000000
  rw [View.read_apply]
  simp only [cast_eq]
  exact hI _ (View.emb_mem_set _ _)

theorem set_idxBlkM_c2 (d : Dev nD) (L : grid2.Coords) : (idxBlkM_c2 L).view.set = idxRows2 d L := by
  show ((idxW_c2.view.slice (Rect.unit (s := S32x40x128) (k2_off1 L) S1x40x128.size (k2_off1_inb L))).reshape S40x128 _).set = _
  rw [View.set_reshape]
  exact View.set_slice_whole _ _

/-! ## What lands -/

/-- The list scratch after the block of indices is copied into it. -/
abbrev listFill_c2 (d : Dev nD) (L : grid2.Coords) (I : Buf (Elt F) ((idxBlkM_c2 L).view.loc (Vt_c2 d L)))
    (g0 : Buf (Elt F) (listW_c2.view.loc (Vt_c2 d L))) : Buf (Elt F) (listW_c2.view.loc (Vt_c2 d L)) :=
  View.write (Elt F) listW_c2.view g0 (ReadAs.same.apply (View.read (Elt F) (idxBlkM_c2 L).view I)) Finset.univ

/-- What the gather over the list row at offsets o lands in its slot: at row j of the slot, the table row the j-th
    word of that list row names. -/
abbrev landed_c2 (d : Dev nD) (L : grid2.Coords) (tab : Buf (Elt F) (tabW_c2.view.loc (Vt_c2 d L)))
    (fl : Buf (Elt F) (listW_c2.view.loc (Vt_c2 d L))) (o : Fin 2 → ℕ) (h : ∀ a, o a + S1x128.size a ≤ S40x128.size a)
    (hin : ∀ x : S128.Idx, BitVec.toNat (View.read (Elt F) (rowM_c2 o h).view fl x) < 1000000) : S128x128.Idx → Elt F .f32 :=
  SparseCore.gatherPayload gathers_S1000000x128_S128x128 (View.read (Elt F) tabS_c2.view tab)
    (SparseCore.rows (View.read (Elt F) (rowM_c2 o h).view fl) rfl hin)

variable [FloatOps F]

/-! ## What the loop keeps -/

/-- The subcore owes what it owed, its waits recorded beyond W all at the launch's index. -/
def owesW_c2 (d : Dev nD) (L : grid2.Coords) (O : CellTallies nD τ sig (HIx 5)) (W : Waits sig (HIx 5)) : sProp (MM F) :=
  iprop(∃ W', ⌜∀ p ∈ W', p ∈ W ∨ p.2 = none⌝ ∗ owes (Vt_c2 d L) O W')

theorem owesW_intro_c2 {d : Dev nD} {L : grid2.Coords} {O : CellTallies nD τ sig (HIx 5)} {W W' : Waits sig (HIx 5)}
    (h : ∀ p ∈ W', p ∈ W ∨ p.2 = none) : (owes (Vt_c2 d L) O W' : sProp (MM F)) ⊢ owesW_c2 d L O W := by
  unfold owesW_c2
  iintro H
  iexists W'
  isplitr
  · ipureintro; exact h
  · iexact H

theorem owesW_elim_c2 {d : Dev nD} {L : grid2.Coords} {O : CellTallies nD τ sig (HIx 5)} {W : Waits sig (HIx 5)} :
    (owesW_c2 d L O W : sProp (MM F)) ⊢ iprop(∃ W', ⌜∀ p ∈ W', p ∈ W ∨ p.2 = none⌝ ∗ owes (Vt_c2 d L) O W') := by
  unfold owesW_c2; exact .rfl

theorem ins_none_c2 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c2 (d : Dev nD) (L : grid2.Coords) {o o' : Fin 2 → ℕ} (e : o = o')
    (h : ∀ a, o a + S1x128.size a ≤ S40x128.size a) (h' : ∀ a, o' a + S1x128.size a ≤ S40x128.size a) :
    ((rowM_c2 o h).view.set : Finset (Idx (listW_c2.view.loc (Vt_c2 d L)))) = (rowM_c2 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L))) (g : ℕ) (_ : PUnit) : sProp (MM F) :=
  iprop(Transfers.MayWaits (Vt_c2 d L) (default : HIx 5) O
    ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
    ∗ owesW_c2 d L O W
    ∗ (∃ f : Buf (Elt F) (outW_c2.view.loc (Vt_c2 d L)), outW_c2.view.loc (Vt_c2 d L) ↦[outW_c2.view.setOn (outWinR_c2 L).set]{fullShare} f)
    ∗ (if h : g < 8 then
        iprop(((∃ s : Buf (Elt F) (slot0M_c2.view.loc (Vt_c2 d L)),
            Transfers.Flight countersEmb (Vt_c2 d L) (SemLoc.dma cc2_scratch2.sem) (default : HIx 5) 524288
              iprop(((slot0M_c2.view.loc (Vt_c2 d L) ↦[slot0M_c2.view.set]{fullShare} s)
                  ∗ (listW_c2.view.loc (Vt_c2 d L) ↦[(rowM_c2 ![5 * g + 0, 0] (rowInb0_c2 g h)).view.set]{fullShare} fl))
                ∗ (tabW_c2.view.loc (Vt_c2 d L) ↦[tabS_c2.view.set]{Transfers.shareTok q 80 cc2_scratch2.sem} tab))
            ∗ (slot0M_c2.view.loc (Vt_c2 d L) ↦[slot0M_c2.view.set \ slot0M_c2.view.set]{fullShare} s))
          ∗ (tabW_c2.view.loc (Vt_c2 d L) ↦[Finset.univ \ tabS_c2.view.set]{Transfers.shareTok q 80 cc2_scratch2.sem} tab))
          ∗ ((∃ s : Buf (Elt F) (slot1M_c2.view.loc (Vt_c2 d L)),
            Transfers.Flight countersEmb (Vt_c2 d L) (SemLoc.dma cc2_scratch3.sem) (default : HIx 5) 524288
              iprop(((slot1M_c2.view.loc (Vt_c2 d L) ↦[slot1M_c2.view.set]{fullShare} s)
                  ∗ (listW_c2.view.loc (Vt_c2 d L) ↦[(rowM_c2 ![5 * g + 1, 0] (rowInb1_c2 g h)).view.set]{fullShare} fl))
                ∗ (tabW_c2.view.loc (Vt_c2 d L) ↦[tabS_c2.view.set]{Transfers.shareTok q 80 cc2_scratch3.sem} tab))
            ∗ (slot1M_c2.view.loc (Vt_c2 d L) ↦[slot1M_c2.view.set \ slot1M_c2.view.set]{fullShare} s))
          ∗ (tabW_c2.view.loc (Vt_c2 d L) ↦[Finset.univ \ tabS_c2.view.set]{Transfers.shareTok q 80 cc2_scratch3.sem} tab))
          ∗ ((∃ s : Buf (Elt F) (slot2M_c2.view.loc (Vt_c2 d L)),
            Transfers.Flight countersEmb (Vt_c2 d L) (SemLoc.dma cc2_scratch4.sem) (default : HIx 5) 524288
              iprop(((slot2M_c2.view.loc (Vt_c2 d L) ↦[slot2M_c2.view.set]{fullShare} s)
                  ∗ (listW_c2.view.loc (Vt_c2 d L) ↦[(rowM_c2 ![5 * g + 2, 0] (rowInb2_c2 g h)).view.set]{fullShare} fl))
                ∗ (tabW_c2.view.loc (Vt_c2 d L) ↦[tabS_c2.view.set]{Transfers.shareTok q 80 cc2_scratch4.sem} tab))
            ∗ (slot2M_c2.view.loc (Vt_c2 d L) ↦[slot2M_c2.view.set \ slot2M_c2.view.set]{fullShare} s))
          ∗ (tabW_c2.view.loc (Vt_c2 d L) ↦[Finset.univ \ tabS_c2.view.set]{Transfers.shareTok q 80 cc2_scratch4.sem} tab))
          ∗ ((∃ s : Buf (Elt F) (slot3M_c2.view.loc (Vt_c2 d L)),
            Transfers.Flight countersEmb (Vt_c2 d L) (SemLoc.dma cc2_scratch5.sem) (default : HIx 5) 524288
              iprop(((slot3M_c2.view.loc (Vt_c2 d L) ↦[slot3M_c2.view.set]{fullShare} s)
                  ∗ (listW_c2.view.loc (Vt_c2 d L) ↦[(rowM_c2 ![5 * g + 3, 0] (rowInb3_c2 g h)).view.set]{fullShare} fl))
                ∗ (tabW_c2.view.loc (Vt_c2 d L) ↦[tabS_c2.view.set]{Transfers.shareTok q 80 cc2_scratch5.sem} tab))
            ∗ (slot3M_c2.view.loc (Vt_c2 d L) ↦[slot3M_c2.view.set \ slot3M_c2.view.set]{fullShare} s))
          ∗ (tabW_c2.view.loc (Vt_c2 d L) ↦[Finset.univ \ tabS_c2.view.set]{Transfers.shareTok q 80 cc2_scratch5.sem} tab))
          ∗ ((∃ s : Buf (Elt F) (slot4M_c2.view.loc (Vt_c2 d L)),
            Transfers.Flight countersEmb (Vt_c2 d L) (SemLoc.dma cc2_scratch6.sem) (default : HIx 5) 524288
              iprop(((slot4M_c2.view.loc (Vt_c2 d L) ↦[slot4M_c2.view.set]{fullShare} s)
                  ∗ (listW_c2.view.loc (Vt_c2 d L) ↦[(rowM_c2 ![5 * g + 4, 0] (rowInb4_c2 g h)).view.set]{fullShare} fl))
                ∗ (tabW_c2.view.loc (Vt_c2 d L) ↦[tabS_c2.view.set]{Transfers.shareTok q 80 cc2_scratch6.sem} tab))
            ∗ (slot4M_c2.view.loc (Vt_c2 d L) ↦[slot4M_c2.view.set \ slot4M_c2.view.set]{fullShare} s))
          ∗ (tabW_c2.view.loc (Vt_c2 d L) ↦[Finset.univ \ tabS_c2.view.set]{Transfers.shareTok q 80 cc2_scratch6.sem} tab))
          ∗ (listW_c2.view.loc (Vt_c2 d L) ↦[((((Finset.univ \ (rowM_c2 ![5 * g + 0, 0] (rowInb0_c2 g h)).view.set) \ (rowM_c2 ![5 * g + 1, 0] (rowInb1_c2 g h)).view.set)
              \ (rowM_c2 ![5 * g + 2, 0] (rowInb2_c2 g h)).view.set) \ (rowM_c2 ![5 * g + 3, 0] (rowInb3_c2 g h)).view.set) \ (rowM_c2 ![5 * g + 4, 0] (rowInb4_c2 g h)).view.set]{fullShare} fl))
      else
        iprop(((tabW_c2.view.loc (Vt_c2 d L) ↦{Transfers.shareTok q 80 cc2_scratch2.sem} tab) ∗ semVal (Vt_c2 d L, SemLoc.dma cc2_scratch2.sem) 0
          ∗ (∃ s : Buf (Elt F) (slot0M_c2.view.loc (Vt_c2 d L)), slot0M_c2.view.loc (Vt_c2 d L) ↦[slot0M_c2.view.set]{fullShare} s))
          ∗ ((tabW_c2.view.loc (Vt_c2 d L) ↦{Transfers.shareTok q 80 cc2_scratch3.sem} tab) ∗ semVal (Vt_c2 d L, SemLoc.dma cc2_scratch3.sem) 0
          ∗ (∃ s : Buf (Elt F) (slot1M_c2.view.loc (Vt_c2 d L)), slot1M_c2.view.loc (Vt_c2 d L) ↦[slot1M_c2.view.set]{fullShare} s))
          ∗ ((tabW_c2.view.loc (Vt_c2 d L) ↦{Transfers.shareTok q 80 cc2_scratch4.sem} tab) ∗ semVal (Vt_c2 d L, SemLoc.dma cc2_scratch4.sem) 0
          ∗ (∃ s : Buf (Elt F) (slot2M_c2.view.loc (Vt_c2 d L)), slot2M_c2.view.loc (Vt_c2 d L) ↦[slot2M_c2.view.set]{fullShare} s))
          ∗ ((tabW_c2.view.loc (Vt_c2 d L) ↦{Transfers.shareTok q 80 cc2_scratch5.sem} tab) ∗ semVal (Vt_c2 d L, SemLoc.dma cc2_scratch5.sem) 0
          ∗ (∃ s : Buf (Elt F) (slot3M_c2.view.loc (Vt_c2 d L)), slot3M_c2.view.loc (Vt_c2 d L) ↦[slot3M_c2.view.set]{fullShare} s))
          ∗ ((tabW_c2.view.loc (Vt_c2 d L) ↦{Transfers.shareTok q 80 cc2_scratch6.sem} tab) ∗ semVal (Vt_c2 d L, SemLoc.dma cc2_scratch6.sem) 0
          ∗ (∃ s : Buf (Elt F) (slot4M_c2.view.loc (Vt_c2 d L)), slot4M_c2.view.loc (Vt_c2 d L) ↦[slot4M_c2.view.set]{fullShare} s))
          ∗ (listW_c2.view.loc (Vt_c2 d L) ↦{fullShare} fl))))

/-! ## One trip -/

set_option maxHeartbeats 4000000 in
theorem trip0_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view fl x) < 1000000)
    (v2 : BitVec 32) (k : Fin k2_t1_loop.trips) (acc : PUnit) :
    inv0_c2 d L q O W tab fl k.val acc
      ⊢ wp frame (wpE (defs₀ (F := F)) 𝒱₀ (Vt_c2 d L) none) Set.univ
          (k2_t1_body L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0 v2 k acc)
          (inv0_c2 d L q O W tab fl (k.val + 1)) := by
  have hk8 : k.val < 8 := trips_eq_c2 ▸ k.isLt
  unfold inv0_c2
  rw [dif_pos hk8]
  by_cases hk : k.val < 7
  · obtain ⟨hc1, hc2, hc3, hc4, hc5⟩ := conds_lt_c2 k hk
    rw [dif_pos (show k.val + 1 < 8 by omega)]
    unfold k2_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    rw [rowSet_congr_c2 d L (off4_c2 k) (k2_off4_inb k hc1) (rowInb0_c2 (k.val + 1) (by omega)), rowSet_congr_c2 d L (off5_c2 k) (k2_off5_inb k hc2) (rowInb1_c2 (k.val + 1) (by omega)),
      rowSet_congr_c2 d L (off6_c2 k) (k2_off6_inb k hc3) (rowInb2_c2 (k.val + 1) (by omega)), rowSet_congr_c2 d L (off7_c2 k) (k2_off7_inb k hc4) (rowInb3_c2 (k.val + 1) (by omega)),
      rowSet_congr_c2 d L (off8_c2 k) (k2_off8_inb k hc5) (rowInb4_c2 (k.val + 1) (by omega))]
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    sl_close
  · obtain ⟨hc1, hc2, hc3, hc4, hc5⟩ := conds_last_c2 k hk
    rw [dif_neg (show ¬ k.val + 1 < 8 by omega)]
    unfold k2_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    sl_close

end Cert.Kernel.Hand

end
-- ==== Proof.BTile2.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.BTile2a

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c2 (d : Dev nD) (L : grid2.Coords) (q : PosShare TreeShare) (O : CellTallies nD τ sig (HIx 5)) (W : Waits sig (HIx 5))
    (tab : Buf (Elt F) (tabW_c2.view.loc (Vt_c2 d L))) (I : Buf (Elt F) ((idxBlkM_c2 L).view.loc (Vt_c2 d L)))
    (hI : ∀ z ∈ (idxBlkM_c2 L).view.set, BitVec.toNat (I z) < 1000000)
    (g0 : Buf (Elt F) (listW_c2.view.loc (Vt_c2 d L))) (r : Buf (Elt F) (ringW_c2.view.loc (Vt_c2 d L)))
    (f : Buf (Elt F) (outW_c2.view.loc (Vt_c2 d L))) :
    (iprop(Transfers.MayWaits (Vt_c2 d L) (default : HIx 5) O
        ∗ (tabW_c2.view.loc (Vt_c2 d L) ↦{Transfers.shareTok q 80 cc2_scratch2.sem} tab)
        ∗ (tabW_c2.view.loc (Vt_c2 d L) ↦{Transfers.shareTok q 80 cc2_scratch3.sem} tab)
        ∗ (tabW_c2.view.loc (Vt_c2 d L) ↦{Transfers.shareTok q 80 cc2_scratch4.sem} tab)
        ∗ (tabW_c2.view.loc (Vt_c2 d L) ↦{Transfers.shareTok q 80 cc2_scratch5.sem} tab)
        ∗ (tabW_c2.view.loc (Vt_c2 d L) ↦{Transfers.shareTok q 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok q 80 cc2_scratch2.sem} tab)
            ∗ (tabW_c2.view.loc (Vt_c2 d L) ↦{Transfers.shareTok q 80 cc2_scratch3.sem} tab)
            ∗ (tabW_c2.view.loc (Vt_c2 d L) ↦{Transfers.shareTok q 80 cc2_scratch4.sem} tab)
            ∗ (tabW_c2.view.loc (Vt_c2 d L) ↦{Transfers.shareTok q 80 cc2_scratch5.sem} tab)
            ∗ (tabW_c2.view.loc (Vt_c2 d L) ↦{Transfers.shareTok q 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ (∃ f' : Buf (Elt F) (outW_c2.view.loc (Vt_c2 d L)), outW_c2.view.loc (Vt_c2 d L) ↦[outW_c2.view.setOn (outWinR_c2 L).set]{fullShare} f')) := by
  have hin := list_words_c2 d L I g0 hI
  rw [cc2_gather_k_eq_skeleton]; unfold cc2_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c2 d L q O W tab (View.write (Elt F) listW_c2.view g0 (ReadAs.same.apply (View.read (Elt F) (idxBlkM_c2 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c2 d L q O W tab _ hin _ k acc
  · unfold inv0_c2
    rw [dif_pos (show 0 < 8 by decide)]
    ihave HO' := (owesW_intro_c2 (W := W) (ins_none_c2 (fun p hp => Or.inl hp) _)) $$ HO
    sl_close
  iintro %acc HI
  unfold inv0_c2
  rw [dif_neg (show ¬ k2_t1_loop.trips < 8 by rw [trips_eq_c2]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.Kernel.Hand

end
-- ==== Proof.BTile2Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.BTile2a
import proofs.«206421_g46840913330738_cont_8to1c4_247_26_alg».proof.Proof.BTile2

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c2 : Fin 11 → DmaSem sig :=
  ![cc2_scratch2.sem, cc2_scratch3.sem, cc2_scratch4.sem, cc2_scratch5.sem, cc2_scratch6.sem, cc2_scratch7.sem,
    cc2_scratch8.sem, cc2_scratch9.sem, cc2_scratch10.sem, cc2_scratch11.sem, cc2_scoped0.sem]

theorem sems0_inj_c2 : Function.Injective sems0_c2 := by decide

/-- The k-th of them on the subcore at (c, i) of device d. -/
abbrev dcell0_c2 (d : Dev nD) (c : Fin τ.nSC) (i : Fin τ.nSub) (k : Fin 11) : GSem nD τ sig := (V d c i, .dma (sems0_c2 k))

theorem dcell0_mem_c2 (d : Dev nD) (c : Fin τ.nSC) (i : Fin τ.nSub) (k : Fin 11) : dcell0_c2 d c i k ∈ ownCells (V d c i) :=
  mem_ownCells.mpr ⟨rfl, (show ∀ s : DmaSem sig, (SemLoc.dma s : SemLoc sig).isScoped .scVector = true by decide) _⟩

/-- The eleven cells, each at zero. -/
def cells0_c2 (d : Dev nD) (L : grid2.Coords) : sProp (MM F) :=
  iprop(semVal (Vt_c2 d L, SemLoc.dma cc2_scratch2.sem) 0 ∗ semVal (Vt_c2 d L, SemLoc.dma cc2_scratch3.sem) 0
    ∗ semVal (Vt_c2 d L, SemLoc.dma cc2_scratch4.sem) 0 ∗ semVal (Vt_c2 d L, SemLoc.dma cc2_scratch5.sem) 0
    ∗ semVal (Vt_c2 d L, SemLoc.dma cc2_scratch6.sem) 0 ∗ semVal (Vt_c2 d L, SemLoc.dma cc2_scratch7.sem) 0
    ∗ semVal (Vt_c2 d L, SemLoc.dma cc2_scratch8.sem) 0 ∗ semVal (Vt_c2 d L, SemLoc.dma cc2_scratch9.sem) 0
    ∗ semVal (Vt_c2 d L, SemLoc.dma cc2_scratch10.sem) 0 ∗ semVal (Vt_c2 d L, SemLoc.dma cc2_scratch11.sem) 0
    ∗ semVal (Vt_c2 d L, SemLoc.dma cc2_scoped0.sem) 0)

/-- The subcore's own cells at zero: the eleven the kernel function names, and the rest. -/
theorem ownSems0_V0_c2 (d : Dev nD) (L : grid2.Coords) :
    (ownSems0 (Vt_c2 d L) : sProp (MM F))
      = iprop(cells0_c2 d L ∗ bigSep ((ownCells (Vt_c2 d L)) \ Finset.univ.image (dcell0_c2 d (cV2 L) (jV2 L))) fun g => semVal g 0) := by
  unfold SparseCore.Cfg.ownSems0
  rw [SparseCore.bigSep_sdiff_split' (t := Finset.univ.image (dcell0_c2 d (cV2 L) (jV2 L)))
      (Finset.image_subset_iff.mpr fun k _ => dcell0_mem_c2 d (cV2 L) (jV2 L) k),
    SparseCore.bigSep_image_of_injOn (fun a _ b _ h => sems0_inj_c2 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c2 (d : Dev nD) (L : grid2.Coords) :
    (ownBufs (Vt_c2 d L) : sProp (MM F))
      = iprop((∃ f, (Vt_c2 d L).loc cc2_scratch0 ↦{fullShare} f) ∗ (∃ f, (Vt_c2 d L).loc cc2_scratch1 ↦{fullShare} f)
          ∗ bigSep (((ownRefs (τ := τ) (.scVector (cV2 L) (jV2 L))).erase ((Proc.scVector (cV2 L) (jV2 L)).devRef cc2_scratch0)).erase
              ((Proc.scVector (cV2 L) (jV2 L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩)]

/-! ## The dealt pieces in the body's spelling -/

theorem pts_idx0_c2 (d : Dev nD) (L : grid2.Coords) (I : Buf (Elt F) (idxLoc2 d)) :
    ((idxBlkM_c2 L).view.loc (Vt_c2 d L) ↦[(idxBlkM_c2 L).view.set]{fullShare} I : sProp (MM F)) = idxLoc2 d ↦[idxRows2 d L]{fullShare} I := by
  rw [set_idxBlkM_c2 d L]

theorem setOn_out0_c2 (d : Dev nD) (L : grid2.Coords) :
    (outW_c2.view.setOn (outWinR_c2 L).set : Finset (Idx (outW_c2.view.loc (Vt_c2 d L)))) = outRows2 d L := by
  show Finset.map (Function.Embedding.refl _) (outWinR_c2 L).set = _
  rw [Finset.map_refl, outWinR_eq_c2]; rfl

theorem pts_out0_c2 (d : Dev nD) (L : grid2.Coords) (f : Buf (Elt F) (outLoc2 d)) :
    (outW_c2.view.loc (Vt_c2 d L) ↦[outW_c2.view.setOn (outWinR_c2 L).set]{fullShare} f : sProp (MM F)) = outLoc2 d ↦[outRows2 d L]{fullShare} f := by
  rw [setOn_out0_c2 d L]

/-- The read tokens of the table other than the five gather cells'. -/
abbrev otherToks0_c2 : Finset (Fin 80) :=
  ((((Finset.univ.erase cc2_scratch2.sem).erase cc2_scratch3.sem).erase cc2_scratch4.sem).erase cc2_scratch5.sem).erase cc2_scratch6.sem

/-- The subcore's read share of the table as one read token per cell: the five gather cells', and the remainder with
    the other cells' tokens. -/
theorem tabToks0_c2 (d : Dev nD) (L : grid2.Coords) (q : PosShare TreeShare) (tab : Buf (Elt F) (tabLoc2 d)) :
    (tabLoc2 d ↦[Finset.univ]{q} tab : sProp (MM F)) ⊣⊢ iprop((tabLoc2 d ↦[Finset.univ]{Transfers.shareDrop q 80} tab)
      ∗ (tabW_c2.view.loc (Vt_c2 d L) ↦{Transfers.shareTok q 80 cc2_scratch2.sem} tab)
      ∗ (tabW_c2.view.loc (Vt_c2 d L) ↦{Transfers.shareTok q 80 cc2_scratch3.sem} tab)
      ∗ (tabW_c2.view.loc (Vt_c2 d L) ↦{Transfers.shareTok q 80 cc2_scratch4.sem} tab)
      ∗ (tabW_c2.view.loc (Vt_c2 d L) ↦{Transfers.shareTok q 80 cc2_scratch5.sem} tab)
      ∗ (tabW_c2.view.loc (Vt_c2 d L) ↦{Transfers.shareTok q 80 cc2_scratch6.sem} tab)
      ∗ bigSep otherToks0_c2 fun i => (tabLoc2 d ↦[Finset.univ]{Transfers.shareTok q 80 i} tab : sProp (MM F))) := by
  have h := Transfers.pointsTo_toks (Ix := HIx 5) (Name := ℕ) (U := UU) (Lvl := ℕ) (ℓ := tabLoc2 d) (S := Finset.univ) (f := tab) q 80
  rw [SparseCore.bigSep_erase' (Finset.mem_univ (cc2_scratch2.sem : Fin 80)),
    SparseCore.bigSep_erase' (Finset.mem_erase.mpr ⟨(by decide : (cc2_scratch3.sem : Fin 80) ≠ cc2_scratch2.sem), Finset.mem_univ _⟩),
    SparseCore.bigSep_erase' (Finset.mem_erase.mpr ⟨(by decide : (cc2_scratch4.sem : Fin 80) ≠ cc2_scratch3.sem),
      Finset.mem_erase.mpr ⟨(by decide : (cc2_scratch4.sem : Fin 80) ≠ cc2_scratch2.sem), Finset.mem_univ _⟩⟩),
    SparseCore.bigSep_erase' (Finset.mem_erase.mpr ⟨(by decide : (cc2_scratch5.sem : Fin 80) ≠ cc2_scratch4.sem),
      Finset.mem_erase.mpr ⟨(by decide : (cc2_scratch5.sem : Fin 80) ≠ cc2_scratch3.sem),
        Finset.mem_erase.mpr ⟨(by decide : (cc2_scratch5.sem : Fin 80) ≠ cc2_scratch2.sem), Finset.mem_univ _⟩⟩⟩),
    SparseCore.bigSep_erase' (Finset.mem_erase.mpr ⟨(by decide : (cc2_scratch6.sem : Fin 80) ≠ cc2_scratch5.sem),
      Finset.mem_erase.mpr ⟨(by decide : (cc2_scratch6.sem : Fin 80) ≠ cc2_scratch4.sem),
        Finset.mem_erase.mpr ⟨(by decide : (cc2_scratch6.sem : Fin 80) ≠ cc2_scratch3.sem),
          Finset.mem_erase.mpr ⟨(by decide : (cc2_scratch6.sem : Fin 80) ≠ cc2_scratch2.sem), Finset.mem_univ _⟩⟩⟩⟩)] at h
  exact h

/-! ## The ring scratch as its five slots -/

theorem unit_congr2_c2 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c2 {κ : Kind} {sp : Space} {s : Shape} {e : EltTy} (v : View sig κ sp s e) {R R' : Rect s} (h : R = R') :
    (v.slice R).set = (v.slice R').set := by
  subst h; rfl

/-- Row k of the ring along its leading axis. -/
abbrev ringRow_c2 (d : Dev nD) (L : grid2.Coords) (k : Fin 5) : Finset (Idx (ringW_c2.view.loc (Vt_c2 d L))) :=
  ((View.whole cc2_scratch1 : View sig .scVector .vmem S5x128x128 .f32).slice (S5x128x128.rowRect 0 k)).set

theorem slot0_set_c2 (d : Dev nD) (L : grid2.Coords) : (slot0M_c2.view.set : Finset (Idx (ringW_c2.view.loc (Vt_c2 d L)))) = ringRow_c2 d L 0 := by
  show (((View.whole cc2_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot1_set_c2 (d : Dev nD) (L : grid2.Coords) : (slot1M_c2.view.set : Finset (Idx (ringW_c2.view.loc (Vt_c2 d L)))) = ringRow_c2 d L 1 := by
  show (((View.whole cc2_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot2_set_c2 (d : Dev nD) (L : grid2.Coords) : (slot2M_c2.view.set : Finset (Idx (ringW_c2.view.loc (Vt_c2 d L)))) = ringRow_c2 d L 2 := by
  show (((View.whole cc2_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot3_set_c2 (d : Dev nD) (L : grid2.Coords) : (slot3M_c2.view.set : Finset (Idx (ringW_c2.view.loc (Vt_c2 d L)))) = ringRow_c2 d L 3 := by
  show (((View.whole cc2_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)
theorem slot4_set_c2 (d : Dev nD) (L : grid2.Coords) : (slot4M_c2.view.set : Finset (Idx (ringW_c2.view.loc (Vt_c2 d L)))) = ringRow_c2 d L 4 := by
  show (((View.whole cc2_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c2 (View.whole cc2_scratch1 : View sig .scVector .vmem S5x128x128 .f32)
    (unit_congr2_c2 (by funext a; fin_cases a <;> rfl) (by funext a; fin_cases a <;> rfl) _ _)

/-- Five functions on the ring's rows, over the five rows, as the five slots each at its own function. -/
theorem ring_rows0_c2 (d : Dev nD) (L : grid2.Coords) (s : Fin 5 → Buf (Elt F) (ringW_c2.view.loc (Vt_c2 d L))) :
    (bigSep (Finset.univ : Finset (Fin 5)) fun k => (ringW_c2.view.loc (Vt_c2 d L) ↦[ringRow_c2 d L k]{fullShare} s k : sProp (MM F)))
      = iprop((slot0M_c2.view.loc (Vt_c2 d L) ↦[slot0M_c2.view.set]{fullShare} s 0)
        ∗ (slot1M_c2.view.loc (Vt_c2 d L) ↦[slot1M_c2.view.set]{fullShare} s 1)
        ∗ (slot2M_c2.view.loc (Vt_c2 d L) ↦[slot2M_c2.view.set]{fullShare} s 2)
        ∗ (slot3M_c2.view.loc (Vt_c2 d L) ↦[slot3M_c2.view.set]{fullShare} s 3)
        ∗ (slot4M_c2.view.loc (Vt_c2 d L) ↦[slot4M_c2.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c2 d L, slot1_set_c2 d L, slot2_set_c2 d L, slot3_set_c2 d L, slot4_set_c2 d L]

/-- The ring whole at one function is its five slots at that function. -/
theorem ring_split0_c2 (d : Dev nD) (L : grid2.Coords) (r : Buf (Elt F) (ringW_c2.view.loc (Vt_c2 d L))) :
    ((Vt_c2 d L).loc cc2_scratch1 ↦{fullShare} r : sProp (MM F))
      = iprop((slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)) := by
  rw [← ring_rows0_c2 d L (fun _ => r)]
  have h := pointsTo_rows (Ix := HIx 5) (Name := ℕ) (U := UU) (Lvl := ℕ) (Val := Elt F) (Vt_c2 d L)
    (View.whole cc2_scratch1 : View sig .scVector .vmem S5x128x128 .f32) 0 fullShare r
  rw [View.set_whole] at h
  exact h

/-- The five slots, each at some function, are the ring whole at some function. -/
theorem ring_join0_c2 (d : Dev nD) (L : grid2.Coords) (s : Fin 5 → Buf (Elt F) (ringW_c2.view.loc (Vt_c2 d L))) :
    iprop((slot0M_c2.view.loc (Vt_c2 d L) ↦[slot0M_c2.view.set]{fullShare} s 0)
        ∗ (slot1M_c2.view.loc (Vt_c2 d L) ↦[slot1M_c2.view.set]{fullShare} s 1)
        ∗ (slot2M_c2.view.loc (Vt_c2 d L) ↦[slot2M_c2.view.set]{fullShare} s 2)
        ∗ (slot3M_c2.view.loc (Vt_c2 d L) ↦[slot3M_c2.view.set]{fullShare} s 3)
        ∗ (slot4M_c2.view.loc (Vt_c2 d L) ↦[slot4M_c2.view.set]{fullShare} s 4))
      ⊢ (iprop(∃ f, (Vt_c2 d L).loc cc2_scratch1 ↦{fullShare} f) : sProp (MM F)) := by
  rw [← ring_rows0_c2 d L s]
  refine (pointsTo_biUnion_join (Ix := HIx 5) (Name := ℕ) (U := UU) (Lvl := ℕ) (ℓ := ringW_c2.view.loc (Vt_c2 d L)) (q := fullShare)
    Finset.univ (fun k : Fin 5 => ringRow_c2 d L k) s (s 0)
    (fun k _ k' _ h => (View.whole cc2_scratch1 : View sig .scVector .vmem S5x128x128 .f32).disjoint_rows 0 h)).trans ?_
  iintro ⟨%g, -, H⟩
  iexists g
  have e : (Finset.univ : Finset (Fin 5)).biUnion (fun k => ringRow_c2 d L k) = (Finset.univ : Finset (Idx (ringW_c2.view.loc (Vt_c2 d L)))) := by
    rw [← View.set_whole (cc2_scratch1 : Ref sig .scVector)]
    exact ((View.whole cc2_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c2 (d : Dev nD) (L : grid2.Coords) (tab : Buf (Elt F) (tabLoc2 d)) (I : Buf (Elt F) (idxLoc2 d))
    (f : Buf (Elt F) (outLoc2 d)) (hF : (K (F := F)).Facts) (hI : ∀ x ∈ idxRows2 d L, BitVec.toNat (I x) < 1000000)
    (O : CellTallies nD τ sig (HIx 5)) (W : Waits sig (HIx 5)) (hO : ∀ g, O g none = 0) (outP outQ : sProp (MM F))
    (hrun : ∀ (g0 : Buf (Elt F) (listW_c2.view.loc (Vt_c2 d L))) (r : Buf (Elt F) (ringW_c2.view.loc (Vt_c2 d L))),
      (iprop(Transfers.MayWaits (Vt_c2 d L) (default : HIx 5) O
        ∗ (tabW_c2.view.loc (Vt_c2 d L) ↦{Transfers.shareTok (Transfers.shareTok fullShare 32 ⟨wid2 L, wid_lt2 L⟩) 80 cc2_scratch2.sem} tab)
        ∗ (tabW_c2.view.loc (Vt_c2 d L) ↦{Transfers.shareTok (Transfers.shareTok fullShare 32 ⟨wid2 L, wid_lt2 L⟩) 80 cc2_scratch3.sem} tab)
        ∗ (tabW_c2.view.loc (Vt_c2 d L) ↦{Transfers.shareTok (Transfers.shareTok fullShare 32 ⟨wid2 L, wid_lt2 L⟩) 80 cc2_scratch4.sem} tab)
        ∗ (tabW_c2.view.loc (Vt_c2 d L) ↦{Transfers.shareTok (Transfers.shareTok fullShare 32 ⟨wid2 L, wid_lt2 L⟩) 80 cc2_scratch5.sem} tab)
        ∗ (tabW_c2.view.loc (Vt_c2 d L) ↦{Transfers.shareTok (Transfers.shareTok fullShare 32 ⟨wid2 L, wid_lt2 L⟩) 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok (Transfers.shareTok fullShare 32 ⟨wid2 L, wid_lt2 L⟩) 80 cc2_scratch2.sem} tab)
            ∗ (tabW_c2.view.loc (Vt_c2 d L) ↦{Transfers.shareTok (Transfers.shareTok fullShare 32 ⟨wid2 L, wid_lt2 L⟩) 80 cc2_scratch3.sem} tab)
            ∗ (tabW_c2.view.loc (Vt_c2 d L) ↦{Transfers.shareTok (Transfers.shareTok fullShare 32 ⟨wid2 L, wid_lt2 L⟩) 80 cc2_scratch4.sem} tab)
            ∗ (tabW_c2.view.loc (Vt_c2 d L) ↦{Transfers.shareTok (Transfers.shareTok fullShare 32 ⟨wid2 L, wid_lt2 L⟩) 80 cc2_scratch5.sem} tab)
            ∗ (tabW_c2.view.loc (Vt_c2 d L) ↦{Transfers.shareTok (Transfers.shareTok fullShare 32 ⟨wid2 L, wid_lt2 L⟩) 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ outP))
    (hclose : outP ⊢ outQ) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(((tabLoc2 d ↦[Finset.univ]{Transfers.shareTok fullShare 32 ⟨wid2 L, wid_lt2 L⟩} tab)
              ∗ (idxLoc2 d ↦[idxRows2 d L]{fullShare} I) ∗ outQ)
            ∗ scopedBufs (Vt_c2 d L) ∗ scopedSems0 (Vt_c2 d L)
            ∗ ∃ W', ⌜∀ p ∈ W', p ∈ W ∨ p.2 = none⌝ ∗ owes (Vt_c2 d L) O W') := by
  rw [(K (F := F)).scopedBufs_V hF d (cV2 L) (jV2 L), SparseCore.Cfg.scopedSems0_V (Val := Elt F) d (cV2 L) (jV2 L), ownSems0_V0_c2, ownBufs_V0_c2]
  unfold goRes2 cells0_c2
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c2 d L) hO) $$ Hlv
  ihave Htoks := (tabToks0_c2 (F := F) d L (Transfers.shareTok fullShare 32 ⟨wid2 L, wid_lt2 L⟩) tab).1 $$ Htab
  icases Htoks with ⟨Hdrop, Ht0, Ht1, Ht2, Ht3, Ht4, Hother⟩
  ihave Hidx' := (Entails.of_eq (pts_idx0_c2 (F := F) d L I).symm) $$ Hidx
  ihave Hout' := (Entails.of_eq (pts_out0_c2 (F := F) d L f).symm) $$ Hout
  ihave Hring := (Entails.of_eq (ring_split0_c2 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c2 d L) none) Set.univ
    (R := iprop((tabLoc2 d ↦[Finset.univ]{Transfers.shareDrop (Transfers.shareTok fullShare 32 ⟨wid2 L, wid_lt2 L⟩) 80} tab)
      ∗ (bigSep otherToks0_c2 fun i => (tabLoc2 d ↦[Finset.univ]{Transfers.shareTok (Transfers.shareTok fullShare 32 ⟨wid2 L, wid_lt2 L⟩) 80 i} tab : sProp (MM F)))
      ∗ (bigSep (((ownRefs (τ := τ) (.scVector (cV2 L) (jV2 L))).erase ((Proc.scVector (cV2 L) (jV2 L)).devRef cc2_scratch0)).erase
              ((Proc.scVector (cV2 L) (jV2 L)).devRef cc2_scratch1))
              fun b => iprop(∃ f, ((d, b) : Loc nD τ sig) ↦{fullShare} f))
      ∗ (bigSep ((ownCells (Vt_c2 d L)) \ Finset.univ.image (dcell0_c2 d (cV2 L) (jV2 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c2 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c2 (F := F) d L (Transfers.shareTok fullShare 32 ⟨wid2 L, wid_lt2 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c2 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c2 $$ HOw
  ihave Hq := hclose $$ Hout
  isplitl [Htab Hidx Hq]
  · isplitl [Htab]; · iexact Htab
    isplitl [Hidx]; · iapply (Entails.of_eq (pts_idx0_c2 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c2 (d : Dev nD) (L : grid2.Coords) :
    (iprop(∃ f' : Buf (Elt F) (outW_c2.view.loc (Vt_c2 d L)), outW_c2.view.loc (Vt_c2 d L) ↦[outW_c2.view.setOn (outWinR_c2 L).set]{fullShare} f') : sProp (MM F))
      ⊢ iprop(∃ f' : Buf (Elt F) (outLoc2 d), outLoc2 d ↦[outRows2 d L]{fullShare} f') := by
  iintro ⟨%f', H⟩
  iexists f'
  iapply (Entails.of_eq (pts_out0_c2 (F := F) d L f')); iexact H

/-- Rows the run leaves at contents that are the gathered rows on the subcore's rows are those rows at the gathered
    rows. -/
theorem out_valued0_c2 (d : Dev nD) (L : grid2.Coords) (tab : Buf (Elt F) (tabLoc2 d)) (I : Buf (Elt F) (idxLoc2 d)) :
    (iprop(∃ f' : Buf (Elt F) (outW_c2.view.loc (Vt_c2 d L)), (outW_c2.view.loc (Vt_c2 d L) ↦[outW_c2.view.setOn (outWinR_c2 L).set]{fullShare} f')
        ∗ ⌜∀ x : S163840x128.Idx, 5120 * wid2 L ≤ (x 0).val ∧ (x 0).val < 5120 * wid2 L + 5120 → f' x = gathered2 (d := d) tab I x⌝) : sProp (MM F))
      ⊢ (outLoc2 d ↦[outRows2 d L]{fullShare} gathered2 (d := d) tab I) := by
  iintro ⟨%f', H, %hf⟩
  have e : (outW_c2.view.loc (Vt_c2 d L) ↦[outW_c2.view.setOn (outWinR_c2 L).set]{fullShare} f' : sProp (MM F))
      = (outLoc2 d ↦[outRows2 d L]{fullShare} gathered2 (d := d) tab I) := by
    rw [pts_out0_c2 (F := F) d L f']
    exact pointsTo_congr (fun x hx => hf x ((mem_outRows2 d L x).mp hx))
  iapply (Entails.of_eq e); iexact H

/-! ## The task as the launch theorem's obligation consumes it -/

/-- The body's run with the gathered rows named: the statement of the run with, of the subcore's rows of the gathered
    array, contents that are the gathered rows on those rows. -/
def TileRunV0_c2 (F : FTy → Type) [FloatOps F] : Prop :=
  ∀ (d : Dev nD) (L : grid2.Coords) (q : PosShare TreeShare) (O : CellTallies nD τ sig (HIx 5)) (W : Waits sig (HIx 5))
    (tab : Buf (Elt F) (tabW_c2.view.loc (Vt_c2 d L))) (I : Buf (Elt F) ((idxBlkM_c2 L).view.loc (Vt_c2 d L)))
    (hI : ∀ z ∈ (idxBlkM_c2 L).view.set, BitVec.toNat (I z) < 1000000)
    (g0 : Buf (Elt F) (listW_c2.view.loc (Vt_c2 d L))) (r : Buf (Elt F) (ringW_c2.view.loc (Vt_c2 d L)))
    (f : Buf (Elt F) (outW_c2.view.loc (Vt_c2 d L))),
    (iprop(Transfers.MayWaits (Vt_c2 d L) (default : HIx 5) O
        ∗ (tabW_c2.view.loc (Vt_c2 d L) ↦{Transfers.shareTok q 80 cc2_scratch2.sem} tab)
        ∗ (tabW_c2.view.loc (Vt_c2 d L) ↦{Transfers.shareTok q 80 cc2_scratch3.sem} tab)
        ∗ (tabW_c2.view.loc (Vt_c2 d L) ↦{Transfers.shareTok q 80 cc2_scratch4.sem} tab)
        ∗ (tabW_c2.view.loc (Vt_c2 d L) ↦{Transfers.shareTok q 80 cc2_scratch5.sem} tab)
        ∗ (tabW_c2.view.loc (Vt_c2 d L) ↦{Transfers.shareTok q 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok q 80 cc2_scratch2.sem} tab)
            ∗ (tabW_c2.view.loc (Vt_c2 d L) ↦{Transfers.shareTok q 80 cc2_scratch3.sem} tab)
            ∗ (tabW_c2.view.loc (Vt_c2 d L) ↦{Transfers.shareTok q 80 cc2_scratch4.sem} tab)
            ∗ (tabW_c2.view.loc (Vt_c2 d L) ↦{Transfers.shareTok q 80 cc2_scratch5.sem} tab)
            ∗ (tabW_c2.view.loc (Vt_c2 d L) ↦{Transfers.shareTok q 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ (∃ f' : Buf (Elt F) (outW_c2.view.loc (Vt_c2 d L)), (outW_c2.view.loc (Vt_c2 d L) ↦[outW_c2.view.setOn (outWinR_c2 L).set]{fullShare} f')
                ∗ ⌜∀ x : S163840x128.Idx, 5120 * wid2 L ≤ (x 0).val ∧ (x 0).val < 5120 * wid2 L + 5120 → f' x = gathered2 (d := d) tab I x⌝))

/-- THE TASK, with the gathered rows: what the launch theorem's obligation for the call consumes, from the run with
    the gathered rows named. -/
theorem tile_body0_of_c2 (hrun : TileRunV0_c2 F) (d : Dev nD) (L : grid2.Coords) (tab : Buf (Elt F) (tabLoc2 d)) (I : Buf (Elt F) (idxLoc2 d))
    (f : Buf (Elt F) (outLoc2 d)) (hF : (K (F := F)).Facts) (hI : ∀ x ∈ idxRows2 d L, BitVec.toNat (I x) < 1000000)
    (O : CellTallies nD τ sig (HIx 5)) (W : Waits sig (HIx 5)) (hO : ∀ g, O g none = 0) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(tdRes2 d L tab I ∗ scopedBufs (Vt_c2 d L) ∗ scopedSems0 (Vt_c2 d L)
            ∗ ∃ W', ⌜∀ p ∈ W', p ∈ W ∨ p.2 = none⌝ ∗ owes (Vt_c2 d L) O W') := by
  unfold tdRes2
  exact tile_wrap0_c2 d L tab I f hF hI O W hO _ _
    (fun g0 r => hrun d L _ O W tab I (fun z hz => hI z (set_idxBlkM_c2 d L ▸ hz)) g0 r f) (out_valued0_c2 d L tab I)

/-- THE TASK, the rows at some contents: from the run as proved, which does not name what it gathers. -/
theorem tile_frame0_c2 (d : Dev nD) (L : grid2.Coords) (tab : Buf (Elt F) (tabLoc2 d)) (I : Buf (Elt F) (idxLoc2 d))
    (f : Buf (Elt F) (outLoc2 d)) (hF : (K (F := F)).Facts) (hI : ∀ x ∈ idxRows2 d L, BitVec.toNat (I x) < 1000000)
    (O : CellTallies nD τ sig (HIx 5)) (W : Waits sig (HIx 5)) (hO : ∀ g, O g none = 0) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(((tabLoc2 d ↦[Finset.univ]{Transfers.shareTok fullShare 32 ⟨wid2 L, wid_lt2 L⟩} tab)
              ∗ (idxLoc2 d ↦[idxRows2 d L]{fullShare} I) ∗ ∃ f' : Buf (Elt F) (outLoc2 d), outLoc2 d ↦[outRows2 d L]{fullShare} f')
            ∗ scopedBufs (Vt_c2 d L) ∗ scopedSems0 (Vt_c2 d L)
            ∗ ∃ W', ⌜∀ p ∈ W', p ∈ W ∨ p.2 = none⌝ ∗ owes (Vt_c2 d L) O W') :=
  tile_wrap0_c2 d L tab I f hF hI O W hO _ _
    (fun g0 r => tile_run0_c2 d L _ O W tab I (fun z hz => hI z (set_idxBlkM_c2 d L ▸ hz)) g0 r f) (out_frame0_c2 d L)

end Cert.Kernel.Hand

end
-- ==== Proof.BTile2k.lean ====
/-
  The value of one chunk of the first gather call.

  The subcore's list scratch holds its block of the index array: word (c, x) of the scratch is word (wid2, c, x) of the
  array. The gather of chunk c reads row c of the scratch as its list and lands, at row j of the ring slot, the table
  row that word (c, j) names. Row 5120 wid2 + 128 c + j of the whole-array function is the table row named by the
  index word at flat position 5120 wid2 + 128 c + j, which is word (wid2, c, j): the same row. So what a chunk's gather
  lands is its rows of the one function.
-/
import proofs.«206421_g46840913330738_cont_8to1c4_247_26_alg».proof.Proof.BTile2a
import Idealize.ShloMosaic.Lib.ValueIdx
import Idealize.ShloMosaic.Lib.Pipeline.Value

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c2 (d : Dev nD) (L : grid2.Coords) (fl : Buf (Elt F) (listW_c2.view.loc (Vt_c2 d L))) (c : ℕ) (hc : c < 40)
    (o : Fin 2 → ℕ) (h : ∀ a, o a + S1x128.size a ≤ S40x128.size a) (ho : o = ![c, 0]) (y : S128.Idx) :
    View.read (Elt F) (rowM_c2 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid2, c, x) of the index array. -/
theorem idxBlk_read0_c2 (d : Dev nD) (L : grid2.Coords) (I : Buf (Elt F) ((idxBlkM_c2 L).view.loc (Vt_c2 d L))) (z : S40x128.Idx) :
    View.read (Elt F) (idxBlkM_c2 L).view I z = I (ix3 (⟨wid2 L, wid_lt2 L⟩ : Fin 32) (z 0) (z 1)) := by
  rw [View.read_apply]
  simp only [cast_eq]
  congr 1
  show (Rect.unit (s := S32x40x128) (k2_off1 L) S1x40x128.size (k2_off1_inb L)).emb (Shape.reshapeEquiv _ z) = _
  rw [Shape.reshapeEquiv_cons_one]
  funext a
  apply Fin.ext
  rw [Rect.emb_apply]
  have e := k2_off1_eq L
  match a with
  | ⟨0, _⟩ => show k2_off1 L 0 + 1 * 0 = wid2 L; rw [e]; show 2 * (L 1).val + (L 0).val + 1 * 0 = wid2 L; unfold wid2; omega
  | ⟨1, _⟩ => show k2_off1 L 1 + 1 * (z 0).val = (z 0).val; rw [e]; show 0 + 1 * (z 0).val = (z 0).val; omega
  | ⟨2, _⟩ => show k2_off1 L 2 + 1 * (z 1).val = (z 1).val; rw [e]; show 0 + 1 * (z 1).val = (z 1).val; omega

/-- After the block copy the list scratch holds the subcore's block: word (c, x) is word (wid2, c, x) of the array. -/
theorem listFill_apply0_c2 (d : Dev nD) (L : grid2.Coords) (I : Buf (Elt F) ((idxBlkM_c2 L).view.loc (Vt_c2 d L)))
    (g0 : Buf (Elt F) (listW_c2.view.loc (Vt_c2 d L))) (z : S40x128.Idx) :
    listFill_c2 d L I g0 z = I (ix3 (⟨wid2 L, wid_lt2 L⟩ : Fin 32) (z 0) (z 1)) := by
  unfold listFill_c2
  show View.write (Elt F) listW_c2.view g0 _ Finset.univ (listW_c2.view.emb z) = _
  rw [View.write_emb_of_mem _ _ (Finset.mem_univ _)]
  simp only [cast_eq]
  exact idxBlk_read0_c2 d L I z

/-! ## What a chunk's gather lands is its rows of the whole-array function -/

/-- The flat position of word (w, c, j) of the index array. -/
theorem rowMajor_ix3_0_c2 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c2 (v : S1000000x128.Idx) : tabS_c2.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid2 + 128 c + j, column e. -/
theorem landed_eq_gathered0_c2 (d : Dev nD) (L : grid2.Coords) (tab : Buf (Elt F) (tabLoc2 d)) (I : Buf (Elt F) (idxLoc2 d))
    (g0 : Buf (Elt F) (listW_c2.view.loc (Vt_c2 d L)))
    (hI : ∀ z ∈ idxRows2 d L, BitVec.toNat (I z) < 1000000)
    (c : ℕ) (hc : c < 40)
    (hin : ∀ x : S128.Idx, BitVec.toNat (View.read (Elt F) (rowM_c2 ![c, 0] (rowInb_c2 c hc)).view (listFill_c2 d L I g0) x) < 1000000)
    (y : S128x128.Idx) (x : S163840x128.Idx)
    (hx0 : (x 0).val = 5120 * wid2 L + 128 * c + (y 0).val) (hx1 : (x 1).val = (y 1).val) :
    landed_c2 d L tab (listFill_c2 d L I g0) ![c, 0] (rowInb_c2 c hc) hin y = gathered2 tab I x := by
  rw [gathered2_apply]
  unfold landed_c2 SparseCore.gatherPayload
  rw [View.read_apply]
  simp only [cast_eq]
  congr 1
  refine (tabS_emb0_c2 _).trans ?_
  have hw : ∀ u : S128.Idx, View.read (Elt F) (rowM_c2 ![c, 0] (rowInb_c2 c hc)).view (listFill_c2 d L I g0) u
      = I (ix3 (⟨wid2 L, wid_lt2 L⟩ : Fin 32) (⟨c, hc⟩ : Fin 40) (u 0)) := fun u => by
    rw [rowM_read0_c2 d L _ c hc _ _ rfl u, listFill_apply0_c2]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll2 (fun r => gatherRow2 I r) x)).symm
    show BitVec.toNat (View.read (Elt F) (rowM_c2 ![c, 0] (rowInb_c2 c hc)).view (listFill_c2 d L I g0)
        (S128.rowMajor.symm (Fin.cast _ (y gathers_S1000000x128_S128x128.axis'))))
      = BitVec.toNat (I (S32x40x128.rowMajor.symm (Fin.cast _ (x gathersAll2.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll2.axis'))
        = ix3 (⟨wid2 L, wid_lt2 L⟩ : Fin 32) (⟨c, hc⟩ : Fin 40) (u 0) :=
      (Equiv.symm_apply_eq _).mpr (Fin.ext ((show (x gathersAll2.axis').val = 5120 * wid2 L + 128 * c + (u 0).val from by
        rw [hu0, ← hx0]; rfl).trans (rowMajor_ix3_0_c2 (⟨wid2 L, wid_lt2 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll2 (fun r => gatherRow2 I r) x ⟨1, by decide⟩ Nat.one_ne_zero).symm
    exact hx1.symm

end Cert.Kernel.Hand

end
-- ==== Proof.BTile2b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.BTile2a
import proofs.«206421_g46840913330738_cont_8to1c4_247_26_alg».proof.Proof.BTile2k

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c2 (d : Dev nD) (L : grid2.Coords) (tab : Buf (Elt F) (tabW_c2.view.loc (Vt_c2 d L))) (I : Buf (Elt F) ((idxBlkM_c2 L).view.loc (Vt_c2 d L)))
    (n : ℕ) (f : Buf (Elt F) (outW_c2.view.loc (Vt_c2 d L))) : Prop :=
  ∀ x : S163840x128.Idx, 5120 * wid2 L ≤ (x 0).val → (x 0).val < 5120 * wid2 L + 128 * n → f x = gathered2 (d := d) tab I x

/-- Before trip g < 8, of the contents: the rows of the chunks before 5g hold the gathered rows, and slot b is
    to hold what the gather of chunk 5g + b lands. -/
def FactsFly_c2 (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000) (g : ℕ) (h : g < 8) (s0 s1 s2 s3 s4 : Buf (Elt F) (ringW_c2.view.loc (Vt_c2 d L))) (f : Buf (Elt F) (outW_c2.view.loc (Vt_c2 d L))) : Prop :=
  DoneUpTo_c2 d L tab I (5 * g) f
    ∧ View.read (Elt F) slot0M_c2.view s0 = landed_c2 d L tab (listFill_c2 d L I g0) ![5 * g + 0, 0] (rowInb0_c2 g h) (hin _ _)
    ∧ View.read (Elt F) slot1M_c2.view s1 = landed_c2 d L tab (listFill_c2 d L I g0) ![5 * g + 1, 0] (rowInb1_c2 g h) (hin _ _)
    ∧ View.read (Elt F) slot2M_c2.view s2 = landed_c2 d L tab (listFill_c2 d L I g0) ![5 * g + 2, 0] (rowInb2_c2 g h) (hin _ _)
    ∧ View.read (Elt F) slot3M_c2.view s3 = landed_c2 d L tab (listFill_c2 d L I g0) ![5 * g + 3, 0] (rowInb3_c2 g h) (hin _ _)
    ∧ View.read (Elt F) slot4M_c2.view s4 = landed_c2 d L tab (listFill_c2 d L I g0) ![5 * g + 4, 0] (rowInb4_c2 g h) (hin _ _)

/-- A slot written whole reads back what was written. -/
theorem read_writes_whole_c2 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c2 (d : Dev nD) (L : grid2.Coords) (tab : Buf (Elt F) (tabW_c2.view.loc (Vt_c2 d L)))
    (fl : Buf (Elt F) (listW_c2.view.loc (Vt_c2 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c2 o h).view fl x) < 1000000)
    (hin' : ∀ x : S128.Idx, BitVec.toNat (View.read (Elt F) (rowM_c2 o' h').view fl x) < 1000000) :
    landed_c2 d L tab fl o h hin = landed_c2 d L tab fl o' h' hin' := by
  subst e; rfl

/-- One chunk copied out extends what is done by that chunk. -/
theorem done_step_c2 (d : Dev nD) (L : grid2.Coords) (tab : Buf (Elt F) (tabW_c2.view.loc (Vt_c2 d L))) (I : Buf (Elt F) ((idxBlkM_c2 L).view.loc (Vt_c2 d L)))
    (n : ℕ) (o : Fin 2 → ℕ) (ho : o = ![5120 * wid2 L + 128 * n, 0])
    (hinb : ∀ a, o a + S128x128.size a ≤ S163840x128.size a)
    (f : Buf (Elt F) (outW_c2.view.loc (Vt_c2 d L))) (p : S128x128.Idx → Elt F .f32)
    (hf : DoneUpTo_c2 d L tab I n f)
    (hp : ∀ (y : S128x128.Idx) (x : S163840x128.Idx), (x 0).val = 5120 * wid2 L + 128 * n + (y 0).val → (x 1).val = (y 1).val →
      p y = gathered2 (d := d) tab I x) :
    DoneUpTo_c2 d L tab I (n + 1)
      (View.write (Elt F) (outW_c2.slice (Rect.unit (s := S163840x128) o S128x128.size hinb) (fun _ => rfl)).view f p Finset.univ) := by
  subst ho
  intro x hlo hhi
  by_cases hx : (x 0).val < 5120 * wid2 L + 128 * n
  · rw [View.write_of_not_mem]
    · exact hf x hlo hx
    · rw [View.setOn_univ]
      show x ∉ ((View.whole main_v8_scv : View sig .scVector .hbm S163840x128 .f32).slice (Rect.unit (s := S163840x128) ![5120 * wid2 L + 128 * n, 0] S128x128.size hinb)).set
      rw [View.set_slice_whole, Rect.mem_set_unit]
      intro h
      have h0 : 5120 * wid2 L + 128 * n ≤ (x 0).val := (h 0).1
      omega
  · have hmem : x ∈ (Rect.unit (s := S163840x128) ![5120 * wid2 L + 128 * n, 0] S128x128.size hinb).set := by
      rw [Rect.mem_set_unit]
      intro a
      have h1 : (x 1).val < 128 := (x 1).isLt
      fin_cases a
      · show 5120 * wid2 L + 128 * n ≤ (x 0).val ∧ (x 0).val < 5120 * wid2 L + 128 * n + 128
        omega
      · show 0 ≤ (x 1).val ∧ (x 1).val < 0 + 128
        omega
    rw [← Rect.map_emb_univ] at hmem
    obtain ⟨y, -, rfl⟩ := Finset.mem_map.mp hmem
    have e : (outW_c2.slice (Rect.unit (s := S163840x128) ![5120 * wid2 L + 128 * n, 0] S128x128.size hinb) (fun _ => rfl)).view.emb y
        = (Rect.unit (s := S163840x128) ![5120 * wid2 L + 128 * n, 0] S128x128.size hinb).emb y := rfl
    rw [← e, View.write_emb_of_mem _ _ (Finset.mem_univ y)]
    simp only [cast_eq]
    refine hp y _ ?_ ?_
    · rw [e, Rect.emb_apply]
      show 5120 * wid2 L + 128 * n + 1 * (y 0).val = 5120 * wid2 L + 128 * n + (y 0).val
      omega
    · rw [e, Rect.emb_apply]
      show 0 + 1 * (y 1).val = (y 1).val
      omega

theorem off3c_c2 (L : grid2.Coords) (k : Fin k2_t1_loop.trips) (r : Fin 5) :
    k2_off3 L k (BitVec.ofNat 32 r.val) = ![5120 * wid2 L + 128 * (5 * k.val + r.val), 0] :=
  (k2_off3_eq L k r).trans (by unfold wid2; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c2 (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000)
    (hK : ∀ (c : ℕ) (hc : c < 40) (hin' : ∀ x : S128.Idx, BitVec.toNat (View.read (Elt F) (rowM_c2 ![c, 0] (rowInb_c2 c hc)).view (listFill_c2 d L I g0) x) < 1000000)
      (y : S128x128.Idx) (x : S163840x128.Idx), (x 0).val = 5120 * wid2 L + 128 * c + (y 0).val → (x 1).val = (y 1).val →
      landed_c2 d L tab (listFill_c2 d L I g0) ![c, 0] (rowInb_c2 c hc) hin' y = gathered2 (d := d) tab I x)
    (k : Fin k2_t1_loop.trips) (hk8 : k.val < 8) (s0 s1 s2 s3 s4 : Buf (Elt F) (ringW_c2.view.loc (Vt_c2 d L))) (f : Buf (Elt F) (outW_c2.view.loc (Vt_c2 d L)))
    (hF : FactsFly_c2 d L tab I g0 hin k.val hk8 s0 s1 s2 s3 s4 f) :
    DoneUpTo_c2 d L tab I (5 * (k.val + 1))
      (View.write (Elt F) (outW_c2.slice (Rect.unit (s := S163840x128) (k2_off3 L k 4#32) S128x128.size (k2_off3_inb L k 4)) (fun _ => rfl)).view (View.write (Elt F) (outW_c2.slice (Rect.unit (s := S163840x128) (k2_off3 L k 3#32) S128x128.size (k2_off3_inb L k 3)) (fun _ => rfl)).view (View.write (Elt F) (outW_c2.slice (Rect.unit (s := S163840x128) (k2_off3 L k 2#32) S128x128.size (k2_off3_inb L k 2)) (fun _ => rfl)).view (View.write (Elt F) (outW_c2.slice (Rect.unit (s := S163840x128) (k2_off3 L k 1#32) S128x128.size (k2_off3_inb L k 1)) (fun _ => rfl)).view (View.write (Elt F) (outW_c2.slice (Rect.unit (s := S163840x128) (k2_off3 L k 0#32) S128x128.size (k2_off3_inb L k 0)) (fun _ => rfl)).view f (ReadAs.same.apply (View.read (Elt F) slot0M_c2.view s0)) Finset.univ) (ReadAs.same.apply (View.read (Elt F) slot1M_c2.view s1)) Finset.univ) (ReadAs.same.apply (View.read (Elt F) slot2M_c2.view s2)) Finset.univ) (ReadAs.same.apply (View.read (Elt F) slot3M_c2.view s3)) Finset.univ) (ReadAs.same.apply (View.read (Elt F) slot4M_c2.view s4)) Finset.univ) := by
  obtain ⟨hd, h0, h1, h2, h3, h4⟩ := hF
  have e : 5 * (k.val + 1) = 5 * k.val + 0 + 1 + 1 + 1 + 1 + 1 := by omega
  rw [e]
  refine done_step_c2 d L tab I _ _ (off3c_c2 L k 4) _ _ _ ?_ ?_
  refine done_step_c2 d L tab I _ _ (off3c_c2 L k 3) _ _ _ ?_ ?_
  refine done_step_c2 d L tab I _ _ (off3c_c2 L k 2) _ _ _ ?_ ?_
  refine done_step_c2 d L tab I _ _ (off3c_c2 L k 1) _ _ _ ?_ ?_
  refine done_step_c2 d L tab I _ _ (off3c_c2 L k 0) _ _ _ ?_ ?_
  · exact hd
  · intro y x hx0 hx1
    show View.read (Elt F) slot0M_c2.view s0 y = _
    rw [h0]; exact hK (5 * k.val + 0) (by omega) _ y x hx0 hx1
  · intro y x hx0 hx1
    show View.read (Elt F) slot1M_c2.view s1 y = _
    rw [h1]; exact hK (5 * k.val + 1) (by omega) _ y x hx0 hx1
  · intro y x hx0 hx1
    show View.read (Elt F) slot2M_c2.view s2 y = _
    rw [h2]; exact hK (5 * k.val + 2) (by omega) _ y x hx0 hx1
  · intro y x hx0 hx1
    show View.read (Elt F) slot3M_c2.view s3 y = _
    rw [h3]; exact hK (5 * k.val + 3) (by omega) _ y x hx0 hx1
  · intro y x hx0 hx1
    show View.read (Elt F) slot4M_c2.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L))) (g : ℕ) (h : g < 8) (s0 s1 s2 s3 s4 : Buf (Elt F) (ringW_c2.view.loc (Vt_c2 d L))) (f : Buf (Elt F) (outW_c2.view.loc (Vt_c2 d L))) : sProp (MM F) :=
  iprop(Transfers.MayWaits (Vt_c2 d L) (default : HIx 5) O
    ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
    ∗ owesW_c2 d L O W
    ∗ (outW_c2.view.loc (Vt_c2 d L) ↦[outW_c2.view.setOn (outWinR_c2 L).set]{fullShare} f)
    ∗ ((Transfers.Flight countersEmb (Vt_c2 d L) (SemLoc.dma cc2_scratch2.sem) (default : HIx 5) 524288
              iprop(((slot0M_c2.view.loc (Vt_c2 d L) ↦[slot0M_c2.view.set]{fullShare} s0)
                  ∗ (listW_c2.view.loc (Vt_c2 d L) ↦[(rowM_c2 ![5 * g + 0, 0] (rowInb0_c2 g h)).view.set]{fullShare} fl))
                ∗ (tabW_c2.view.loc (Vt_c2 d L) ↦[tabS_c2.view.set]{Transfers.shareTok q 80 cc2_scratch2.sem} tab))
            ∗ (slot0M_c2.view.loc (Vt_c2 d L) ↦[slot0M_c2.view.set \ slot0M_c2.view.set]{fullShare} s0))
          ∗ (tabW_c2.view.loc (Vt_c2 d L) ↦[Finset.univ \ tabS_c2.view.set]{Transfers.shareTok q 80 cc2_scratch2.sem} tab))
    ∗ ((Transfers.Flight countersEmb (Vt_c2 d L) (SemLoc.dma cc2_scratch3.sem) (default : HIx 5) 524288
              iprop(((slot1M_c2.view.loc (Vt_c2 d L) ↦[slot1M_c2.view.set]{fullShare} s1)
                  ∗ (listW_c2.view.loc (Vt_c2 d L) ↦[(rowM_c2 ![5 * g + 1, 0] (rowInb1_c2 g h)).view.set]{fullShare} fl))
                ∗ (tabW_c2.view.loc (Vt_c2 d L) ↦[tabS_c2.view.set]{Transfers.shareTok q 80 cc2_scratch3.sem} tab))
            ∗ (slot1M_c2.view.loc (Vt_c2 d L) ↦[slot1M_c2.view.set \ slot1M_c2.view.set]{fullShare} s1))
          ∗ (tabW_c2.view.loc (Vt_c2 d L) ↦[Finset.univ \ tabS_c2.view.set]{Transfers.shareTok q 80 cc2_scratch3.sem} tab))
    ∗ ((Transfers.Flight countersEmb (Vt_c2 d L) (SemLoc.dma cc2_scratch4.sem) (default : HIx 5) 524288
              iprop(((slot2M_c2.view.loc (Vt_c2 d L) ↦[slot2M_c2.view.set]{fullShare} s2)
                  ∗ (listW_c2.view.loc (Vt_c2 d L) ↦[(rowM_c2 ![5 * g + 2, 0] (rowInb2_c2 g h)).view.set]{fullShare} fl))
                ∗ (tabW_c2.view.loc (Vt_c2 d L) ↦[tabS_c2.view.set]{Transfers.shareTok q 80 cc2_scratch4.sem} tab))
            ∗ (slot2M_c2.view.loc (Vt_c2 d L) ↦[slot2M_c2.view.set \ slot2M_c2.view.set]{fullShare} s2))
          ∗ (tabW_c2.view.loc (Vt_c2 d L) ↦[Finset.univ \ tabS_c2.view.set]{Transfers.shareTok q 80 cc2_scratch4.sem} tab))
    ∗ ((Transfers.Flight countersEmb (Vt_c2 d L) (SemLoc.dma cc2_scratch5.sem) (default : HIx 5) 524288
              iprop(((slot3M_c2.view.loc (Vt_c2 d L) ↦[slot3M_c2.view.set]{fullShare} s3)
                  ∗ (listW_c2.view.loc (Vt_c2 d L) ↦[(rowM_c2 ![5 * g + 3, 0] (rowInb3_c2 g h)).view.set]{fullShare} fl))
                ∗ (tabW_c2.view.loc (Vt_c2 d L) ↦[tabS_c2.view.set]{Transfers.shareTok q 80 cc2_scratch5.sem} tab))
            ∗ (slot3M_c2.view.loc (Vt_c2 d L) ↦[slot3M_c2.view.set \ slot3M_c2.view.set]{fullShare} s3))
          ∗ (tabW_c2.view.loc (Vt_c2 d L) ↦[Finset.univ \ tabS_c2.view.set]{Transfers.shareTok q 80 cc2_scratch5.sem} tab))
    ∗ ((Transfers.Flight countersEmb (Vt_c2 d L) (SemLoc.dma cc2_scratch6.sem) (default : HIx 5) 524288
              iprop(((slot4M_c2.view.loc (Vt_c2 d L) ↦[slot4M_c2.view.set]{fullShare} s4)
                  ∗ (listW_c2.view.loc (Vt_c2 d L) ↦[(rowM_c2 ![5 * g + 4, 0] (rowInb4_c2 g h)).view.set]{fullShare} fl))
                ∗ (tabW_c2.view.loc (Vt_c2 d L) ↦[tabS_c2.view.set]{Transfers.shareTok q 80 cc2_scratch6.sem} tab))
            ∗ (slot4M_c2.view.loc (Vt_c2 d L) ↦[slot4M_c2.view.set \ slot4M_c2.view.set]{fullShare} s4))
          ∗ (tabW_c2.view.loc (Vt_c2 d L) ↦[Finset.univ \ tabS_c2.view.set]{Transfers.shareTok q 80 cc2_scratch6.sem} tab))
    ∗ (listW_c2.view.loc (Vt_c2 d L) ↦[((((Finset.univ \ (rowM_c2 ![5 * g + 0, 0] (rowInb0_c2 g h)).view.set) \ (rowM_c2 ![5 * g + 1, 0] (rowInb1_c2 g h)).view.set)
              \ (rowM_c2 ![5 * g + 2, 0] (rowInb2_c2 g h)).view.set) \ (rowM_c2 ![5 * g + 3, 0] (rowInb3_c2 g h)).view.set) \ (rowM_c2 ![5 * g + 4, 0] (rowInb4_c2 g h)).view.set]{fullShare} fl))

/-- After the last trip: every cell at zero, the slots, the list and the shares back. -/
def invIdle_c2 (d : Dev nD) (L : grid2.Coords) (q : PosShare TreeShare) (O : CellTallies nD τ sig (HIx 5)) (W : Waits sig (HIx 5))
    (tab : Buf (Elt F) (tabW_c2.view.loc (Vt_c2 d L))) (fl : Buf (Elt F) (listW_c2.view.loc (Vt_c2 d L))) (s0 s1 s2 s3 s4 : Buf (Elt F) (ringW_c2.view.loc (Vt_c2 d L))) (f : Buf (Elt F) (outW_c2.view.loc (Vt_c2 d L))) : sProp (MM F) :=
  iprop(Transfers.MayWaits (Vt_c2 d L) (default : HIx 5) O
    ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
    ∗ owesW_c2 d L O W
    ∗ (outW_c2.view.loc (Vt_c2 d L) ↦[outW_c2.view.setOn (outWinR_c2 L).set]{fullShare} f)
    ∗ ((tabW_c2.view.loc (Vt_c2 d L) ↦{Transfers.shareTok q 80 cc2_scratch2.sem} tab) ∗ semVal (Vt_c2 d L, SemLoc.dma cc2_scratch2.sem) 0
          ∗ (slot0M_c2.view.loc (Vt_c2 d L) ↦[slot0M_c2.view.set]{fullShare} s0))
    ∗ ((tabW_c2.view.loc (Vt_c2 d L) ↦{Transfers.shareTok q 80 cc2_scratch3.sem} tab) ∗ semVal (Vt_c2 d L, SemLoc.dma cc2_scratch3.sem) 0
          ∗ (slot1M_c2.view.loc (Vt_c2 d L) ↦[slot1M_c2.view.set]{fullShare} s1))
    ∗ ((tabW_c2.view.loc (Vt_c2 d L) ↦{Transfers.shareTok q 80 cc2_scratch4.sem} tab) ∗ semVal (Vt_c2 d L, SemLoc.dma cc2_scratch4.sem) 0
          ∗ (slot2M_c2.view.loc (Vt_c2 d L) ↦[slot2M_c2.view.set]{fullShare} s2))
    ∗ ((tabW_c2.view.loc (Vt_c2 d L) ↦{Transfers.shareTok q 80 cc2_scratch5.sem} tab) ∗ semVal (Vt_c2 d L, SemLoc.dma cc2_scratch5.sem) 0
          ∗ (slot3M_c2.view.loc (Vt_c2 d L) ↦[slot3M_c2.view.set]{fullShare} s3))
    ∗ ((tabW_c2.view.loc (Vt_c2 d L) ↦{Transfers.shareTok q 80 cc2_scratch6.sem} tab) ∗ semVal (Vt_c2 d L, SemLoc.dma cc2_scratch6.sem) 0
          ∗ (slot4M_c2.view.loc (Vt_c2 d L) ↦[slot4M_c2.view.set]{fullShare} s4))
    ∗ (listW_c2.view.loc (Vt_c2 d L) ↦{fullShare} fl))

/-- What the loop keeps. -/
def inv0v_c2 (q : PosShare TreeShare) (O : CellTallies nD τ sig (HIx 5)) (W : Waits sig (HIx 5)) (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000) (g : ℕ) (_ : PUnit) : sProp (MM F) :=
  if h : g < 8 then
    iprop(∃ s0 s1 s2 s3 s4 f, ⌜FactsFly_c2 d L tab I g0 hin g h s0 s1 s2 s3 s4 f⌝ ∗ invFly_c2 d L q O W tab (listFill_c2 d L I g0) g h s0 s1 s2 s3 s4 f)
  else
    iprop(∃ s0 s1 s2 s3 s4 f, ⌜DoneUpTo_c2 d L tab I (5 * g) f⌝ ∗ invIdle_c2 d L q O W tab (listFill_c2 d L I g0) s0 s1 s2 s3 s4 f)

/-! ## One trip, with the contents -/

set_option maxHeartbeats 4000000 in
theorem trip0v_c2 (q : PosShare TreeShare) (O : CellTallies nD τ sig (HIx 5)) (W : Waits sig (HIx 5)) (d : Dev nD) (L : grid2.Coords) (tab : Buf (Elt F) (tabW_c2.view.loc (Vt_c2 d L))) (I : Buf (Elt F) ((idxBlkM_c2 L).view.loc (Vt_c2 d L)))
    (g0 : Buf (Elt F) (listW_c2.view.loc (Vt_c2 d L)))
    (hin : ∀ (o : Fin 2 → ℕ) (h : ∀ a, o a + S1x128.size a ≤ S40x128.size a) (x : S128.Idx),
      BitVec.toNat (View.read (Elt F) (rowM_c2 o h).view (listFill_c2 d L I g0) x) < 1000000)
    (hK : ∀ (c : ℕ) (hc : c < 40) (hin' : ∀ x : S128.Idx, BitVec.toNat (View.read (Elt F) (rowM_c2 ![c, 0] (rowInb_c2 c hc)).view (listFill_c2 d L I g0) x) < 1000000)
      (y : S128x128.Idx) (x : S163840x128.Idx), (x 0).val = 5120 * wid2 L + 128 * c + (y 0).val → (x 1).val = (y 1).val →
      landed_c2 d L tab (listFill_c2 d L I g0) ![c, 0] (rowInb_c2 c hc) hin' y = gathered2 (d := d) tab I x)
    (v2 : BitVec 32) (k : Fin k2_t1_loop.trips) (acc : PUnit) :
    inv0v_c2 q O W d L tab I g0 hin k.val acc
      ⊢ wp frame (wpE (defs₀ (F := F)) 𝒱₀ (Vt_c2 d L) none) Set.univ
          (k2_t1_body L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0 v2 k acc)
          (inv0v_c2 q O W d L tab I g0 hin (k.val + 1)) := by
  have hk8 : k.val < 8 := trips_eq_c2 ▸ k.isLt
  unfold inv0v_c2
  rw [dif_pos hk8]
  by_cases hk : k.val < 7
  · obtain ⟨hc1, hc2, hc3, hc4, hc5⟩ := conds_lt_c2 k hk
    have hk1 : k.val + 1 < 8 := by omega
    rw [dif_pos hk1]
    unfold k2_t1_body
    iintro ⟨%s0, %s1, %s2, %s3, %s4, %f, %hF, HP⟩
    unfold invFly_c2
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    rw [rowSet_congr_c2 d L (off4_c2 k) (k2_off4_inb k hc1) (rowInb0_c2 (k.val + 1) hk1), rowSet_congr_c2 d L (off5_c2 k) (k2_off5_inb k hc2) (rowInb1_c2 (k.val + 1) hk1),
      rowSet_congr_c2 d L (off6_c2 k) (k2_off6_inb k hc3) (rowInb2_c2 (k.val + 1) hk1), rowSet_congr_c2 d L (off7_c2 k) (k2_off7_inb k hc4) (rowInb3_c2 (k.val + 1) hk1),
      rowSet_congr_c2 d L (off8_c2 k) (k2_off8_inb k hc5) (rowInb4_c2 (k.val + 1) hk1)]
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    iexists _; iexists _; iexists _; iexists _; iexists _; iexists _
    isplitr
    swap
    · sl_close
    · ipureintro
      refine ⟨done5_c2 d L tab I g0 hin hK k hk8 s0 s1 s2 s3 s4 f hF, ?_, ?_, ?_, ?_, ?_⟩
      · exact (read_writes_whole_c2 _ _ _).trans (landed_congr_c2 d L tab _ (off4_c2 k) _ _ _ _)
      · exact (read_writes_whole_c2 _ _ _).trans (landed_congr_c2 d L tab _ (off5_c2 k) _ _ _ _)
      · exact (read_writes_whole_c2 _ _ _).trans (landed_congr_c2 d L tab _ (off6_c2 k) _ _ _ _)
      · exact (read_writes_whole_c2 _ _ _).trans (landed_congr_c2 d L tab _ (off7_c2 k) _ _ _ _)
      · exact (read_writes_whole_c2 _ _ _).trans (landed_congr_c2 d L tab _ (off8_c2 k) _ _ _ _)
  · obtain ⟨hc1, hc2, hc3, hc4, hc5⟩ := conds_last_c2 k hk
    rw [dif_neg (show ¬ k.val + 1 < 8 by omega)]
    unfold k2_t1_body
    iintro ⟨%s0, %s1, %s2, %s3, %s4, %f, %hF, HP⟩
    unfold invFly_c2
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c2 $$ HOw
    icases HO2 with ⟨%W', %hW', HO⟩
    set_option sl_exec.dmaWindow true in set_option sl_exec.dmaWindowLent true in sl_exec
    sl_step
    ihave HO' := (owesW_intro_c2 (W := W) (ins_none_c2 (ins_none_c2 (ins_none_c2 (ins_none_c2 (ins_none_c2 (ins_none_c2 (ins_none_c2 (ins_none_c2 (ins_none_c2 (ins_none_c2 hW' _) _) _) _) _) _) _) _) _) _)) $$ HO
    iexists _; iexists _; iexists _; iexists _; iexists _; iexists _
    isplitr
    swap
    · unfold invIdle_c2
      sl_close
    · ipureintro
      exact done5_c2 d L tab I g0 hin hK k hk8 s0 s1 s2 s3 s4 f hF

end Cert.Kernel.Hand

end
-- ==== Proof.BTile2v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.BTile2b

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c2 (d : Dev nD) (L : grid2.Coords) (q : PosShare TreeShare) (O : CellTallies nD τ sig (HIx 5)) (W : Waits sig (HIx 5))
    (tab : Buf (Elt F) (tabW_c2.view.loc (Vt_c2 d L))) (I : Buf (Elt F) ((idxBlkM_c2 L).view.loc (Vt_c2 d L)))
    (hI : ∀ z ∈ (idxBlkM_c2 L).view.set, BitVec.toNat (I z) < 1000000)
    (g0 : Buf (Elt F) (listW_c2.view.loc (Vt_c2 d L))) (r : Buf (Elt F) (ringW_c2.view.loc (Vt_c2 d L)))
    (f : Buf (Elt F) (outW_c2.view.loc (Vt_c2 d L))) :
    (iprop(Transfers.MayWaits (Vt_c2 d L) (default : HIx 5) O
        ∗ (tabW_c2.view.loc (Vt_c2 d L) ↦{Transfers.shareTok q 80 cc2_scratch2.sem} tab)
        ∗ (tabW_c2.view.loc (Vt_c2 d L) ↦{Transfers.shareTok q 80 cc2_scratch3.sem} tab)
        ∗ (tabW_c2.view.loc (Vt_c2 d L) ↦{Transfers.shareTok q 80 cc2_scratch4.sem} tab)
        ∗ (tabW_c2.view.loc (Vt_c2 d L) ↦{Transfers.shareTok q 80 cc2_scratch5.sem} tab)
        ∗ (tabW_c2.view.loc (Vt_c2 d L) ↦{Transfers.shareTok q 80 cc2_scratch6.sem} tab)
        ∗ ((idxBlkM_c2 L).view.loc (Vt_c2 d L) ↦[(idxBlkM_c2 L).view.set]{fullShare} I)
        ∗ (listW_c2.view.loc (Vt_c2 d L) ↦{fullShare} g0)
        ∗ (slot0M_c2.view.loc (Vt_c2 d L) ↦[slot0M_c2.view.set]{fullShare} r)
        ∗ (slot1M_c2.view.loc (Vt_c2 d L) ↦[slot1M_c2.view.set]{fullShare} r)
        ∗ (slot2M_c2.view.loc (Vt_c2 d L) ↦[slot2M_c2.view.set]{fullShare} r)
        ∗ (slot3M_c2.view.loc (Vt_c2 d L) ↦[slot3M_c2.view.set]{fullShare} r)
        ∗ (slot4M_c2.view.loc (Vt_c2 d L) ↦[slot4M_c2.view.set]{fullShare} r)
        ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
        ∗ owes (Vt_c2 d L) O W
        ∗ (outW_c2.view.loc (Vt_c2 d L) ↦[outW_c2.view.setOn (outWinR_c2 L).set]{fullShare} f)) : sProp (MM F))
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop((tabW_c2.view.loc (Vt_c2 d L) ↦{Transfers.shareTok q 80 cc2_scratch2.sem} tab)
            ∗ (tabW_c2.view.loc (Vt_c2 d L) ↦{Transfers.shareTok q 80 cc2_scratch3.sem} tab)
            ∗ (tabW_c2.view.loc (Vt_c2 d L) ↦{Transfers.shareTok q 80 cc2_scratch4.sem} tab)
            ∗ (tabW_c2.view.loc (Vt_c2 d L) ↦{Transfers.shareTok q 80 cc2_scratch5.sem} tab)
            ∗ (tabW_c2.view.loc (Vt_c2 d L) ↦{Transfers.shareTok q 80 cc2_scratch6.sem} tab)
            ∗ ((idxBlkM_c2 L).view.loc (Vt_c2 d L) ↦[(idxBlkM_c2 L).view.set]{fullShare} I)
            ∗ (∃ fl : Buf (Elt F) (listW_c2.view.loc (Vt_c2 d L)), listW_c2.view.loc (Vt_c2 d L) ↦{fullShare} fl)
            ∗ (∃ s : Buf (Elt F) (slot0M_c2.view.loc (Vt_c2 d L)), slot0M_c2.view.loc (Vt_c2 d L) ↦[slot0M_c2.view.set]{fullShare} s)
            ∗ (∃ s : Buf (Elt F) (slot1M_c2.view.loc (Vt_c2 d L)), slot1M_c2.view.loc (Vt_c2 d L) ↦[slot1M_c2.view.set]{fullShare} s)
            ∗ (∃ s : Buf (Elt F) (slot2M_c2.view.loc (Vt_c2 d L)), slot2M_c2.view.loc (Vt_c2 d L) ↦[slot2M_c2.view.set]{fullShare} s)
            ∗ (∃ s : Buf (Elt F) (slot3M_c2.view.loc (Vt_c2 d L)), slot3M_c2.view.loc (Vt_c2 d L) ↦[slot3M_c2.view.set]{fullShare} s)
            ∗ (∃ s : Buf (Elt F) (slot4M_c2.view.loc (Vt_c2 d L)), slot4M_c2.view.loc (Vt_c2 d L) ↦[slot4M_c2.view.set]{fullShare} s)
            ∗ semVal (Vt_c2 d L, SemLoc.dma cc2_scratch2.sem) 0 ∗ semVal (Vt_c2 d L, SemLoc.dma cc2_scratch3.sem) 0 ∗ semVal (Vt_c2 d L, SemLoc.dma cc2_scratch4.sem) 0 ∗ semVal (Vt_c2 d L, SemLoc.dma cc2_scratch5.sem) 0 ∗ semVal (Vt_c2 d L, SemLoc.dma cc2_scratch6.sem) 0 ∗ semVal (Vt_c2 d L, SemLoc.dma cc2_scratch7.sem) 0 ∗ semVal (Vt_c2 d L, SemLoc.dma cc2_scratch8.sem) 0 ∗ semVal (Vt_c2 d L, SemLoc.dma cc2_scratch9.sem) 0 ∗ semVal (Vt_c2 d L, SemLoc.dma cc2_scratch10.sem) 0 ∗ semVal (Vt_c2 d L, SemLoc.dma cc2_scratch11.sem) 0 ∗ semVal (Vt_c2 d L, SemLoc.dma cc2_scoped0.sem) 0
            ∗ owesW_c2 d L O W
            ∗ (∃ f' : Buf (Elt F) (outW_c2.view.loc (Vt_c2 d L)), (outW_c2.view.loc (Vt_c2 d L) ↦[outW_c2.view.setOn (outWinR_c2 L).set]{fullShare} f')
                ∗ ⌜∀ x : S163840x128.Idx, 5120 * wid2 L ≤ (x 0).val ∧ (x 0).val < 5120 * wid2 L + 5120 → f' x = gathered2 (d := d) tab I x⌝)) := by
  have hin := list_words_c2 d L I g0 hI
  have hI' : ∀ z ∈ idxRows2 d L, BitVec.toNat (I z) < 1000000 := fun z hz => hI z (by rw [set_idxBlkM_c2 d L]; exact hz)
  have hK := fun c hc hin' y x hx0 hx1 => landed_eq_gathered0_c2 (F := F) d L tab I g0 hI' c hc hin' y x hx0 hx1
  rw [cc2_gather_k_eq_skeleton]; unfold cc2_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c2 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c2 q O W d L tab I g0 hin hK _ k acc
  · unfold inv0v_c2
    rw [dif_pos (show 0 < 8 by decide)]
    ihave HO' := (owesW_intro_c2 (W := W) (ins_none_c2 (fun p hp => Or.inl hp) _)) $$ HO
    iexists _; iexists _; iexists _; iexists _; iexists _; iexists _
    isplitr
    swap
    · unfold invFly_c2
      sl_close
    · ipureintro
      refine ⟨fun x h1 h2 => absurd h2 (by omega), ?_, ?_, ?_, ?_, ?_⟩
      · exact (read_writes_whole_c2 _ _ _).trans (landed_congr_c2 d L tab _ (show (![0, 0] : Fin 2 → ℕ) = ![5 * 0 + 0, 0] from rfl) _ _ _ _)
      · exact (read_writes_whole_c2 _ _ _).trans (landed_congr_c2 d L tab _ (show (![1, 0] : Fin 2 → ℕ) = ![5 * 0 + 1, 0] from rfl) _ _ _ _)
      · exact (read_writes_whole_c2 _ _ _).trans (landed_congr_c2 d L tab _ (show (![2, 0] : Fin 2 → ℕ) = ![5 * 0 + 2, 0] from rfl) _ _ _ _)
      · exact (read_writes_whole_c2 _ _ _).trans (landed_congr_c2 d L tab _ (show (![3, 0] : Fin 2 → ℕ) = ![5 * 0 + 3, 0] from rfl) _ _ _ _)
      · exact (read_writes_whole_c2 _ _ _).trans (landed_congr_c2 d L tab _ (show (![4, 0] : Fin 2 → ℕ) = ![5 * 0 + 4, 0] from rfl) _ _ _ _)
  unfold inv0v_c2
  rw [dif_neg (show ¬ k2_t1_loop.trips < 8 by rw [trips_eq_c2]; decide)]
  iintro %acc ⟨%s0, %s1, %s2, %s3, %s4, %f', %hdone, HP⟩
  unfold invIdle_c2
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k2_t1_loop.lb k2_t1_loop.ub k2_t1_loop.st = 8 := trips_eq_c2
  rw [h8] at hdone
  have hfin : ∀ x : S163840x128.Idx, 5120 * wid2 L ≤ (x 0).val ∧ (x 0).val < 5120 * wid2 L + 5120 → f' x = gathered2 (d := d) tab I x :=
    fun x h => hdone x h.1 (by omega)
  sl_close

end Cert.Kernel.Hand

end
-- ==== Proof.BTile2Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.BTile2Wrap
import proofs.«206421_g46840913330738_cont_8to1c4_247_26_alg».proof.Proof.BTile2v

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body2 (d : Dev nD) (L : grid2.Coords) (tab : Buf (Elt F) (tabLoc2 d)) (I : Buf (Elt F) (idxLoc2 d)) (f : Buf (Elt F) (outLoc2 d))
    (hF : (K (F := F)).Facts) (hI : ∀ x ∈ idxRows2 d L, BitVec.toNat (I x) < 1000000)
    (O : CellTallies nD τ sig (HIx 5)) (W : Waits sig (HIx 5)) (hO : ∀ g, O g none = 0) :
    iprop(levAts (K (F := F)).L (K (F := F)).lev ∗ emp ∗ goRes2 d L tab I f
        ∗ scopedBufs (Vt_c2 d L) ∗ scopedSems0 (Vt_c2 d L) ∗ owes (Vt_c2 d L) O W)
      ⊢ wp frame (wpE (defs₀ (F := F)) 𝒱₀ (Vt_c2 d L) none) Set.univ
          (cc2_gather_k L tabW_c2 (Memref.isWhole_whole _) idxW_c2 (Memref.isWhole_whole _) outW_c2 (Memref.isWhole_whole _)
            listW_c2 (Memref.isWhole_whole _) ringW_c2 (Memref.isWhole_whole _)
            cc2_scratch2 cc2_scratch3 cc2_scratch4 cc2_scratch5 cc2_scratch6 cc2_scratch7 cc2_scratch8 cc2_scratch9 cc2_scratch10 cc2_scratch11 cc2_scoped0)
          fun _ => iprop(tdRes2 d L tab I ∗ scopedBufs (Vt_c2 d L) ∗ scopedSems0 (Vt_c2 d L)
            ∗ ∃ W', ⌜∀ p ∈ W', p ∈ W ∨ p.2 = none⌝ ∗ owes (Vt_c2 d L) O W') :=
  tile_body0_of_c2 (F := F) tile_runV0_c2 d L tab I f hF hI O W hO

end Cert.Kernel.Hand

end
-- ==== Proof.BTileObl2.lean ====
/-
  The launch theorem's obligation for gather call 1: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BTile2Body

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec2 (c : Fin τ.nSC) (s : Fin τ.nSub) :
    defs₀ (F := F) (.scVector c s) 2 ()
      = SparseCore.onTile hcore2 hsub2 (fun c s => cc2_gather_k (coordsV2 c s) (Memref.whole main_arg1_scv) (Memref.isWhole_whole _) (Memref.whole main_v7_scv) (Memref.isWhole_whole _) (Memref.whole main_v8_scv) (Memref.isWhole_whole _) (Memref.whole cc2_scratch0) (Memref.isWhole_whole _) (Memref.whole cc2_scratch1) (Memref.isWhole_whole _) cc2_scratch2 cc2_scratch3 cc2_scratch4 cc2_scratch5 cc2_scratch6 cc2_scratch7 cc2_scratch8 cc2_scratch9 cc2_scratch10 cc2_scratch11 cc2_scoped0) ⟨⟩ c s := rfl

/-- Every index word of the call's index array names a table row. -/
def InRange2 : Prop := ∀ (d : Dev nD) (x : S32x40x128.Idx), (BitVec.toNat (W8 m d (r main_v7) x)) < 1000000

/-- The task of call 1, for every subcore of its grid. -/
theorem tileObl2 (hR : InRange2 m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vec2]; simp only [SparseCore.onTile, hc, and_self, ↓reduceDIte]
  show iprop(_ ∗ _ ∗ goRes2 d (coordsV2 c i) (W8 m d (r main_arg1)) (W8 m d (r main_v7)) (W8 m d (r main_v8)) ∗ _) ⊢ wp _ _ _ _
    (fun _ => iprop(tdRes2 d (coordsV2 c i) (W8 m d (r main_arg1)) (W8 m d (r main_v7)) ∗ _))
  exact (tile_body2 d (coordsV2 c i) (W8 m d (r main_arg1)) (W8 m d (r main_v7)) (W8 m d (r main_v8)) facts (fun x _ => hR d x) O W hO).trans
    (wp_mono frame _ _ fun _ => obl_post)

end Cert.Kernel.Hand

end
-- ==== Proof.BTile4a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.BTile4Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c4 (d : Dev nD) (L : grid4.Coords) : Thread nD τ := V d (cV4 L) (jV4 L)

abbrev tabW_c4 : Memref sig .scVector .hbm S1000000x128 .f32 := Memref.whole main_arg1_scv
abbrev idxW_c4 : Memref sig .scVector .hbm S32x40x128 .i32 := Memref.whole main_v11_scv
abbrev outW_c4 : Memref sig .scVector .hbm S163840x128 .f32 := Memref.whole main_v12_scv
abbrev listW_c4 : Memref sig .scVector .vmem S40x128 .i32 := Memref.whole cc4_scratch0
abbrev ringW_c4 : Memref sig .scVector .vmem S5x128x128 .f32 := Memref.whole cc4_scratch1
/-- The table as every gather names it: the slice that is all of it. -/
abbrev tabS_c4 : Memref sig .scVector .hbm S1000000x128 .f32 :=
  tabW_c4.slice (Rect.unit (s := S1000000x128) ![0, 0] S1000000x128.size inb_S1000000x128_S1000000x128_0_0) (fun _ => rfl)
/-- The subcore's block of the index array, as the block copy names it. -/
abbrev idxBlkM_c4 (L : grid4.Coords) : Memref sig .scVector .hbm S40x128 .i32 :=
  (idxW_c4.slice (Rect.unit (s := S32x40x128) (k4_off1 L) S1x40x128.size (k4_off1_inb L)) (fun _ => rfl)).squeeze S40x128 squeezes_S1x40x128_S40x128
/-- The five slots of the ring. -/
abbrev slot0M_c4 : Memref sig .scVector .vmem S128x128 .f32 :=
  (ringW_c4.slice (Rect.unit (s := S5x128x128) ![0, 0, 0] S1x128x128.size inb_S5x128x128_S1x128x128_0_0_0) (fun _ => rfl)).squeeze S128x128 squeezes_S1x128x128_S128x128
abbrev slot1M_c4 : Memref sig .scVector .vmem S128x128 .f32 :=
  (ringW_c4.slice (Rect.unit (s := S5x128x128) ![1, 0, 0] S1x128x128.size inb_S5x128x128_S1x128x128_1_0_0) (fun _ => rfl)).squeeze S128x128 squeezes_S1x128x128_S128x128
abbrev slot2M_c4 : Memref sig .scVector .vmem S128x128 .f32 :=
  (ringW_c4.slice (Rect.unit (s := S5x128x128) ![2, 0, 0] S1x128x128.size inb_S5x128x128_S1x128x128_2_0_0) (fun _ => rfl)).squeeze S128x128 squeezes_S1x128x128_S128x128
abbrev slot3M_c4 : Memref sig .scVector .vmem S128x128 .f32 :=
  (ringW_c4.slice (Rect.unit (s := S5x128x128) ![3, 0, 0] S1x128x128.size inb_S5x128x128_S1x128x128_3_0_0) (fun _ => rfl)).squeeze S128x128 squeezes_S1x128x128_S128x128
abbrev slot4M_c4 : Memref sig .scVector .vmem S128x128 .f32 :=
  (ringW_c4.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c4 (o : Fin 2 → ℕ) (h : ∀ a, o a + S1x128.size a ≤ S40x128.size a) : Memref sig .scVector .vmem S128 .i32 :=
  (listW_c4.slice (Rect.unit (s := S40x128) o S1x128.size h) (fun _ => rfl)).squeeze S128 squeezes_S1x128_S128

theorem rowInb_c4 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c4 (g : ℕ) (h : g < 8) : ∀ a, (![5 * g + 0, 0] : Fin 2 → ℕ) a + S1x128.size a ≤ S40x128.size a := rowInb_c4 (5 * g + 0) (by omega)
theorem rowInb1_c4 (g : ℕ) (h : g < 8) : ∀ a, (![5 * g + 1, 0] : Fin 2 → ℕ) a + S1x128.size a ≤ S40x128.size a := rowInb_c4 (5 * g + 1) (by omega)
theorem rowInb2_c4 (g : ℕ) (h : g < 8) : ∀ a, (![5 * g + 2, 0] : Fin 2 → ℕ) a + S1x128.size a ≤ S40x128.size a := rowInb_c4 (5 * g + 2) (by omega)
theorem rowInb3_c4 (g : ℕ) (h : g < 8) : ∀ a, (![5 * g + 3, 0] : Fin 2 → ℕ) a + S1x128.size a ≤ S40x128.size a := rowInb_c4 (5 * g + 3) (by omega)
theorem rowInb4_c4 (g : ℕ) (h : g < 8) : ∀ a, (![5 * g + 4, 0] : Fin 2 → ℕ) a + S1x128.size a ≤ S40x128.size a := rowInb_c4 (5 * g + 4) (by omega)

theorem rowM_congr_c4 {o o' : Fin 2 → ℕ} (e : o = o') (h : ∀ a, o a + S1x128.size a ≤ S40x128.size a)
    (h' : ∀ a, o' a + S1x128.size a ≤ S40x128.size a) : rowM_c4 o h = rowM_c4 o' h' := by
  subst e; rfl

/-- The subcore's rows of the gathered array as a rectangle in the grid coordinates themselves. -/
theorem outWinR_inb_c4 (L : grid4.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c4 (L : grid4.Coords) : Rect S163840x128 :=
  Rect.unit (s := S163840x128) ![10240 * (L 1).val + 5120 * (L 0).val, 0] ![5120, 128] (outWinR_inb_c4 L)

theorem outWinR_eq_c4 (L : grid4.Coords) : outWinR_c4 L = outRect4 L :=
  Rect.unit_congr (by unfold wid4; rw [show 5120 * (2 * (L 1).val + (L 0).val) = 10240 * (L 1).val + 5120 * (L 0).val by omega]) _ _

/-! ## The trips' offsets and conditions in closed form -/

theorem off4_c4 (k : Fin k4_t1_loop.trips) : k4_off4 k = ![5 * (k.val + 1) + 0, 0] :=
  (k4_off4_eq k).trans (by rw [show 5 * (k.val + 1) + 0 = 5 * k.val + 5 by omega])
theorem off5_c4 (k : Fin k4_t1_loop.trips) : k4_off5 k = ![5 * (k.val + 1) + 1, 0] :=
  (k4_off5_eq k).trans (by rw [show 5 * (k.val + 1) + 1 = 5 * k.val + 6 by omega])
theorem off6_c4 (k : Fin k4_t1_loop.trips) : k4_off6 k = ![5 * (k.val + 1) + 2, 0] :=
  (k4_off6_eq k).trans (by rw [show 5 * (k.val + 1) + 2 = 5 * k.val + 7 by omega])
theorem off7_c4 (k : Fin k4_t1_loop.trips) : k4_off7 k = ![5 * (k.val + 1) + 3, 0] :=
  (k4_off7_eq k).trans (by rw [show 5 * (k.val + 1) + 3 = 5 * k.val + 8 by omega])
theorem off8_c4 (k : Fin k4_t1_loop.trips) : k4_off8 k = ![5 * (k.val + 1) + 4, 0] :=
  (k4_off8_eq k).trans (by rw [show 5 * (k.val + 1) + 4 = 5 * k.val + 9 by omega])

theorem conds_lt_c4 : ∀ k : Fin k4_t1_loop.trips, k.val < 7 →
    k4_cond1 k = 1#1 ∧ k4_cond2 k = 1#1 ∧ k4_cond3 k = 1#1 ∧ k4_cond4 k = 1#1 ∧ k4_cond5 k = 1#1 := by decide +kernel
theorem conds_last_c4 : ∀ k : Fin k4_t1_loop.trips, ¬ k.val < 7 →
    ¬ k4_cond1 k = 1#1 ∧ ¬ k4_cond2 k = 1#1 ∧ ¬ k4_cond3 k = 1#1 ∧ ¬ k4_cond4 k = 1#1 ∧ ¬ k4_cond5 k = 1#1 := by decide +kernel
theorem trips_eq_c4 : k4_t1_loop.trips = 8 := by decide +kernel

/-! ## The words of the list scratch are words of the block -/

theorem list_words_c4 (d : Dev nD) (L : grid4.Coords) (I : Buf (Elt F) ((idxBlkM_c4 L).view.loc (Vt_c4 d L)))
    (g0 : Buf (Elt F) (listW_c4.view.loc (Vt_c4 d L)))
    (hI : ∀ z ∈ (idxBlkM_c4 L).view.set, BitVec.toNat (I z) < 1000000)
    (o : Fin 2 → ℕ) (h : ∀ a, o a + S1x128.size a ≤ S40x128.size a) (x : S128.Idx) :
    BitVec.toNat (View.read (Elt F) (rowM_c4 o h).view
      (View.write (Elt F) listW_c4.view g0 (ReadAs.same.apply (View.read (Elt F) (idxBlkM_c4 L).view I)) Finset.univ) x) < 1000000 := by
  rw [View.read_apply]
  have e : (rowM_c4 o h).view.emb x = listW_c4.view.emb ((rowM_c4 o h).view.emb x) := rfl
  rw [e, View.write_emb_of_mem _ _ (Finset.mem_univ _)]
  simp only [cast_cast, cast_eq]
  show BitVec.toNat (View.read (Elt F) (idxBlkM_c4 L).view I _) < 1000000
  rw [View.read_apply]
  simp only [cast_eq]
  exact hI _ (View.emb_mem_set _ _)

theorem set_idxBlkM_c4 (d : Dev nD) (L : grid4.Coords) : (idxBlkM_c4 L).view.set = idxRows4 d L := by
  show ((idxW_c4.view.slice (Rect.unit (s := S32x40x128) (k4_off1 L) S1x40x128.size (k4_off1_inb L))).reshape S40x128 _).set = _
  rw [View.set_reshape]
  exact View.set_slice_whole _ _

/-! ## What lands -/

/-- The list scratch after the block of indices is copied into it. -/
abbrev listFill_c4 (d : Dev nD) (L : grid4.Coords) (I : Buf (Elt F) ((idxBlkM_c4 L).view.loc (Vt_c4 d L)))
    (g0 : Buf (Elt F) (listW_c4.view.loc (Vt_c4 d L))) : Buf (Elt F) (listW_c4.view.loc (Vt_c4 d L)) :=
  View.write (Elt F) listW_c4.view g0 (ReadAs.same.apply (View.read (Elt F) (idxBlkM_c4 L).view I)) Finset.univ

/-- What the gather over the list row at offsets o lands in its slot: at row j of the slot, the table row the j-th
    word of that list row names. -/
abbrev landed_c4 (d : Dev nD) (L : grid4.Coords) (tab : Buf (Elt F) (tabW_c4.view.loc (Vt_c4 d L)))
    (fl : Buf (Elt F) (listW_c4.view.loc (Vt_c4 d L))) (o : Fin 2 → ℕ) (h : ∀ a, o a + S1x128.size a ≤ S40x128.size a)
    (hin : ∀ x : S128.Idx, BitVec.toNat (View.read (Elt F) (rowM_c4 o h).view fl x) < 1000000) : S128x128.Idx → Elt F .f32 :=
  SparseCore.gatherPayload gathers_S1000000x128_S128x128 (View.read (Elt F) tabS_c4.view tab)
    (SparseCore.rows (View.read (Elt F) (rowM_c4 o h).view fl) rfl hin)

variable [FloatOps F]

/-! ## What the loop keeps -/

/-- The subcore owes what it owed, its waits recorded beyond W all at the launch's index. -/
def owesW_c4 (d : Dev nD) (L : grid4.Coords) (O : CellTallies nD τ sig (HIx 5)) (W : Waits sig (HIx 5)) : sProp (MM F) :=
  iprop(∃ W', ⌜∀ p ∈ W', p ∈ W ∨ p.2 = none⌝ ∗ owes (Vt_c4 d L) O W')

theorem owesW_intro_c4 {d : Dev nD} {L : grid4.Coords} {O : CellTallies nD τ sig (HIx 5)} {W W' : Waits sig (HIx 5)}
    (h : ∀ p ∈ W', p ∈ W ∨ p.2 = none) : (owes (Vt_c4 d L) O W' : sProp (MM F)) ⊢ owesW_c4 d L O W := by
  unfold owesW_c4
  iintro H
  iexists W'
  isplitr
  · ipureintro; exact h
  · iexact H

theorem owesW_elim_c4 {d : Dev nD} {L : grid4.Coords} {O : CellTallies nD τ sig (HIx 5)} {W : Waits sig (HIx 5)} :
    (owesW_c4 d L O W : sProp (MM F)) ⊢ iprop(∃ W', ⌜∀ p ∈ W', p ∈ W ∨ p.2 = none⌝ ∗ owes (Vt_c4 d L) O W') := by
  unfold owesW_c4; exact .rfl

theorem ins_none_c4 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c4 (d : Dev nD) (L : grid4.Coords) {o o' : Fin 2 → ℕ} (e : o = o')
    (h : ∀ a, o a + S1x128.size a ≤ S40x128.size a) (h' : ∀ a, o' a + S1x128.size a ≤ S40x128.size a) :
    ((rowM_c4 o h).view.set : Finset (Idx (listW_c4.view.loc (Vt_c4 d L)))) = (rowM_c4 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L))) (g : ℕ) (_ : PUnit) : sProp (MM F) :=
  iprop(Transfers.MayWaits (Vt_c4 d L) (default : HIx 5) O
    ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
    ∗ owesW_c4 d L O W
    ∗ (∃ f : Buf (Elt F) (outW_c4.view.loc (Vt_c4 d L)), outW_c4.view.loc (Vt_c4 d L) ↦[outW_c4.view.setOn (outWinR_c4 L).set]{fullShare} f)
    ∗ (if h : g < 8 then
        iprop(((∃ s : Buf (Elt F) (slot0M_c4.view.loc (Vt_c4 d L)),
            Transfers.Flight countersEmb (Vt_c4 d L) (SemLoc.dma cc4_scratch2.sem) (default : HIx 5) 524288
              iprop(((slot0M_c4.view.loc (Vt_c4 d L) ↦[slot0M_c4.view.set]{fullShare} s)
                  ∗ (listW_c4.view.loc (Vt_c4 d L) ↦[(rowM_c4 ![5 * g + 0, 0] (rowInb0_c4 g h)).view.set]{fullShare} fl))
                ∗ (tabW_c4.view.loc (Vt_c4 d L) ↦[tabS_c4.view.set]{Transfers.shareTok q 80 cc4_scratch2.sem} tab))
            ∗ (slot0M_c4.view.loc (Vt_c4 d L) ↦[slot0M_c4.view.set \ slot0M_c4.view.set]{fullShare} s))
          ∗ (tabW_c4.view.loc (Vt_c4 d L) ↦[Finset.univ \ tabS_c4.view.set]{Transfers.shareTok q 80 cc4_scratch2.sem} tab))
          ∗ ((∃ s : Buf (Elt F) (slot1M_c4.view.loc (Vt_c4 d L)),
            Transfers.Flight countersEmb (Vt_c4 d L) (SemLoc.dma cc4_scratch3.sem) (default : HIx 5) 524288
              iprop(((slot1M_c4.view.loc (Vt_c4 d L) ↦[slot1M_c4.view.set]{fullShare} s)
                  ∗ (listW_c4.view.loc (Vt_c4 d L) ↦[(rowM_c4 ![5 * g + 1, 0] (rowInb1_c4 g h)).view.set]{fullShare} fl))
                ∗ (tabW_c4.view.loc (Vt_c4 d L) ↦[tabS_c4.view.set]{Transfers.shareTok q 80 cc4_scratch3.sem} tab))
            ∗ (slot1M_c4.view.loc (Vt_c4 d L) ↦[slot1M_c4.view.set \ slot1M_c4.view.set]{fullShare} s))
          ∗ (tabW_c4.view.loc (Vt_c4 d L) ↦[Finset.univ \ tabS_c4.view.set]{Transfers.shareTok q 80 cc4_scratch3.sem} tab))
          ∗ ((∃ s : Buf (Elt F) (slot2M_c4.view.loc (Vt_c4 d L)),
            Transfers.Flight countersEmb (Vt_c4 d L) (SemLoc.dma cc4_scratch4.sem) (default : HIx 5) 524288
              iprop(((slot2M_c4.view.loc (Vt_c4 d L) ↦[slot2M_c4.view.set]{fullShare} s)
                  ∗ (listW_c4.view.loc (Vt_c4 d L) ↦[(rowM_c4 ![5 * g + 2, 0] (rowInb2_c4 g h)).view.set]{fullShare} fl))
                ∗ (tabW_c4.view.loc (Vt_c4 d L) ↦[tabS_c4.view.set]{Transfers.shareTok q 80 cc4_scratch4.sem} tab))
            ∗ (slot2M_c4.view.loc (Vt_c4 d L) ↦[slot2M_c4.view.set \ slot2M_c4.view.set]{fullShare} s))
          ∗ (tabW_c4.view.loc (Vt_c4 d L) ↦[Finset.univ \ tabS_c4.view.set]{Transfers.shareTok q 80 cc4_scratch4.sem} tab))
          ∗ ((∃ s : Buf (Elt F) (slot3M_c4.view.loc (Vt_c4 d L)),
            Transfers.Flight countersEmb (Vt_c4 d L) (SemLoc.dma cc4_scratch5.sem) (default : HIx 5) 524288
              iprop(((slot3M_c4.view.loc (Vt_c4 d L) ↦[slot3M_c4.view.set]{fullShare} s)
                  ∗ (listW_c4.view.loc (Vt_c4 d L) ↦[(rowM_c4 ![5 * g + 3, 0] (rowInb3_c4 g h)).view.set]{fullShare} fl))
                ∗ (tabW_c4.view.loc (Vt_c4 d L) ↦[tabS_c4.view.set]{Transfers.shareTok q 80 cc4_scratch5.sem} tab))
            ∗ (slot3M_c4.view.loc (Vt_c4 d L) ↦[slot3M_c4.view.set \ slot3M_c4.view.set]{fullShare} s))
          ∗ (tabW_c4.view.loc (Vt_c4 d L) ↦[Finset.univ \ tabS_c4.view.set]{Transfers.shareTok q 80 cc4_scratch5.sem} tab))
          ∗ ((∃ s : Buf (Elt F) (slot4M_c4.view.loc (Vt_c4 d L)),
            Transfers.Flight countersEmb (Vt_c4 d L) (SemLoc.dma cc4_scratch6.sem) (default : HIx 5) 524288
              iprop(((slot4M_c4.view.loc (Vt_c4 d L) ↦[slot4M_c4.view.set]{fullShare} s)
                  ∗ (listW_c4.view.loc (Vt_c4 d L) ↦[(rowM_c4 ![5 * g + 4, 0] (rowInb4_c4 g h)).view.set]{fullShare} fl))
                ∗ (tabW_c4.view.loc (Vt_c4 d L) ↦[tabS_c4.view.set]{Transfers.shareTok q 80 cc4_scratch6.sem} tab))
            ∗ (slot4M_c4.view.loc (Vt_c4 d L) ↦[slot4M_c4.view.set \ slot4M_c4.view.set]{fullShare} s))
          ∗ (tabW_c4.view.loc (Vt_c4 d L) ↦[Finset.univ \ tabS_c4.view.set]{Transfers.shareTok q 80 cc4_scratch6.sem} tab))
          ∗ (listW_c4.view.loc (Vt_c4 d L) ↦[((((Finset.univ \ (rowM_c4 ![5 * g + 0, 0] (rowInb0_c4 g h)).view.set) \ (rowM_c4 ![5 * g + 1, 0] (rowInb1_c4 g h)).view.set)
              \ (rowM_c4 ![5 * g + 2, 0] (rowInb2_c4 g h)).view.set) \ (rowM_c4 ![5 * g + 3, 0] (rowInb3_c4 g h)).view.set) \ (rowM_c4 ![5 * g + 4, 0] (rowInb4_c4 g h)).view.set]{fullShare} fl))
      else
        iprop(((tabW_c4.view.loc (Vt_c4 d L) ↦{Transfers.shareTok q 80 cc4_scratch2.sem} tab) ∗ semVal (Vt_c4 d L, SemLoc.dma cc4_scratch2.sem) 0
          ∗ (∃ s : Buf (Elt F) (slot0M_c4.view.loc (Vt_c4 d L)), slot0M_c4.view.loc (Vt_c4 d L) ↦[slot0M_c4.view.set]{fullShare} s))
          ∗ ((tabW_c4.view.loc (Vt_c4 d L) ↦{Transfers.shareTok q 80 cc4_scratch3.sem} tab) ∗ semVal (Vt_c4 d L, SemLoc.dma cc4_scratch3.sem) 0
          ∗ (∃ s : Buf (Elt F) (slot1M_c4.view.loc (Vt_c4 d L)), slot1M_c4.view.loc (Vt_c4 d L) ↦[slot1M_c4.view.set]{fullShare} s))
          ∗ ((tabW_c4.view.loc (Vt_c4 d L) ↦{Transfers.shareTok q 80 cc4_scratch4.sem} tab) ∗ semVal (Vt_c4 d L, SemLoc.dma cc4_scratch4.sem) 0
          ∗ (∃ s : Buf (Elt F) (slot2M_c4.view.loc (Vt_c4 d L)), slot2M_c4.view.loc (Vt_c4 d L) ↦[slot2M_c4.view.set]{fullShare} s))
          ∗ ((tabW_c4.view.loc (Vt_c4 d L) ↦{Transfers.shareTok q 80 cc4_scratch5.sem} tab) ∗ semVal (Vt_c4 d L, SemLoc.dma cc4_scratch5.sem) 0
          ∗ (∃ s : Buf (Elt F) (slot3M_c4.view.loc (Vt_c4 d L)), slot3M_c4.view.loc (Vt_c4 d L) ↦[slot3M_c4.view.set]{fullShare} s))
          ∗ ((tabW_c4.view.loc (Vt_c4 d L) ↦{Transfers.shareTok q 80 cc4_scratch6.sem} tab) ∗ semVal (Vt_c4 d L, SemLoc.dma cc4_scratch6.sem) 0
          ∗ (∃ s : Buf (Elt F) (slot4M_c4.view.loc (Vt_c4 d L)), slot4M_c4.view.loc (Vt_c4 d L) ↦[slot4M_c4.view.set]{fullShare} s))
          ∗ (listW_c4.view.loc (Vt_c4 d L) ↦{fullShare} fl))))

/-! ## One trip -/

set_option maxHeartbeats 4000000 in
theorem trip0_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view fl x) < 1000000)
    (v2 : BitVec 32) (k : Fin k4_t1_loop.trips) (acc : PUnit) :
    inv0_c4 d L q O W tab fl k.val acc
      ⊢ wp frame (wpE (defs₀ (F := F)) 𝒱₀ (Vt_c4 d L) none) Set.univ
          (k4_t1_body L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0 v2 k acc)
          (inv0_c4 d L q O W tab fl (k.val + 1)) := by
  have hk8 : k.val < 8 := trips_eq_c4 ▸ k.isLt
  unfold inv0_c4
  rw [dif_pos hk8]
  by_cases hk : k.val < 7
  · obtain ⟨hc1, hc2, hc3, hc4, hc5⟩ := conds_lt_c4 k hk
    rw [dif_pos (show k.val + 1 < 8 by omega)]
    unfold k4_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    rw [rowSet_congr_c4 d L (off4_c4 k) (k4_off4_inb k hc1) (rowInb0_c4 (k.val + 1) (by omega)), rowSet_congr_c4 d L (off5_c4 k) (k4_off5_inb k hc2) (rowInb1_c4 (k.val + 1) (by omega)),
      rowSet_congr_c4 d L (off6_c4 k) (k4_off6_inb k hc3) (rowInb2_c4 (k.val + 1) (by omega)), rowSet_congr_c4 d L (off7_c4 k) (k4_off7_inb k hc4) (rowInb3_c4 (k.val + 1) (by omega)),
      rowSet_congr_c4 d L (off8_c4 k) (k4_off8_inb k hc5) (rowInb4_c4 (k.val + 1) (by omega))]
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    sl_close
  · obtain ⟨hc1, hc2, hc3, hc4, hc5⟩ := conds_last_c4 k hk
    rw [dif_neg (show ¬ k.val + 1 < 8 by omega)]
    unfold k4_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    sl_close

end Cert.Kernel.Hand

end
-- ==== Proof.BTile4.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.BTile4a

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c4 (d : Dev nD) (L : grid4.Coords) (q : PosShare TreeShare) (O : CellTallies nD τ sig (HIx 5)) (W : Waits sig (HIx 5))
    (tab : Buf (Elt F) (tabW_c4.view.loc (Vt_c4 d L))) (I : Buf (Elt F) ((idxBlkM_c4 L).view.loc (Vt_c4 d L)))
    (hI : ∀ z ∈ (idxBlkM_c4 L).view.set, BitVec.toNat (I z) < 1000000)
    (g0 : Buf (Elt F) (listW_c4.view.loc (Vt_c4 d L))) (r : Buf (Elt F) (ringW_c4.view.loc (Vt_c4 d L)))
    (f : Buf (Elt F) (outW_c4.view.loc (Vt_c4 d L))) :
    (iprop(Transfers.MayWaits (Vt_c4 d L) (default : HIx 5) O
        ∗ (tabW_c4.view.loc (Vt_c4 d L) ↦{Transfers.shareTok q 80 cc4_scratch2.sem} tab)
        ∗ (tabW_c4.view.loc (Vt_c4 d L) ↦{Transfers.shareTok q 80 cc4_scratch3.sem} tab)
        ∗ (tabW_c4.view.loc (Vt_c4 d L) ↦{Transfers.shareTok q 80 cc4_scratch4.sem} tab)
        ∗ (tabW_c4.view.loc (Vt_c4 d L) ↦{Transfers.shareTok q 80 cc4_scratch5.sem} tab)
        ∗ (tabW_c4.view.loc (Vt_c4 d L) ↦{Transfers.shareTok q 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok q 80 cc4_scratch2.sem} tab)
            ∗ (tabW_c4.view.loc (Vt_c4 d L) ↦{Transfers.shareTok q 80 cc4_scratch3.sem} tab)
            ∗ (tabW_c4.view.loc (Vt_c4 d L) ↦{Transfers.shareTok q 80 cc4_scratch4.sem} tab)
            ∗ (tabW_c4.view.loc (Vt_c4 d L) ↦{Transfers.shareTok q 80 cc4_scratch5.sem} tab)
            ∗ (tabW_c4.view.loc (Vt_c4 d L) ↦{Transfers.shareTok q 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ (∃ f' : Buf (Elt F) (outW_c4.view.loc (Vt_c4 d L)), outW_c4.view.loc (Vt_c4 d L) ↦[outW_c4.view.setOn (outWinR_c4 L).set]{fullShare} f')) := by
  have hin := list_words_c4 d L I g0 hI
  rw [cc4_gather_k_eq_skeleton]; unfold cc4_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c4 d L q O W tab (View.write (Elt F) listW_c4.view g0 (ReadAs.same.apply (View.read (Elt F) (idxBlkM_c4 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c4 d L q O W tab _ hin _ k acc
  · unfold inv0_c4
    rw [dif_pos (show 0 < 8 by decide)]
    ihave HO' := (owesW_intro_c4 (W := W) (ins_none_c4 (fun p hp => Or.inl hp) _)) $$ HO
    sl_close
  iintro %acc HI
  unfold inv0_c4
  rw [dif_neg (show ¬ k4_t1_loop.trips < 8 by rw [trips_eq_c4]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.Kernel.Hand

end
-- ==== Proof.BTile4Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.BTile4a
import proofs.«206421_g46840913330738_cont_8to1c4_247_26_alg».proof.Proof.BTile4

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c4 : Fin 11 → DmaSem sig :=
  ![cc4_scratch2.sem, cc4_scratch3.sem, cc4_scratch4.sem, cc4_scratch5.sem, cc4_scratch6.sem, cc4_scratch7.sem,
    cc4_scratch8.sem, cc4_scratch9.sem, cc4_scratch10.sem, cc4_scratch11.sem, cc4_scoped0.sem]

theorem sems0_inj_c4 : Function.Injective sems0_c4 := by decide

/-- The k-th of them on the subcore at (c, i) of device d. -/
abbrev dcell0_c4 (d : Dev nD) (c : Fin τ.nSC) (i : Fin τ.nSub) (k : Fin 11) : GSem nD τ sig := (V d c i, .dma (sems0_c4 k))

theorem dcell0_mem_c4 (d : Dev nD) (c : Fin τ.nSC) (i : Fin τ.nSub) (k : Fin 11) : dcell0_c4 d c i k ∈ ownCells (V d c i) :=
  mem_ownCells.mpr ⟨rfl, (show ∀ s : DmaSem sig, (SemLoc.dma s : SemLoc sig).isScoped .scVector = true by decide) _⟩

/-- The eleven cells, each at zero. -/
def cells0_c4 (d : Dev nD) (L : grid4.Coords) : sProp (MM F) :=
  iprop(semVal (Vt_c4 d L, SemLoc.dma cc4_scratch2.sem) 0 ∗ semVal (Vt_c4 d L, SemLoc.dma cc4_scratch3.sem) 0
    ∗ semVal (Vt_c4 d L, SemLoc.dma cc4_scratch4.sem) 0 ∗ semVal (Vt_c4 d L, SemLoc.dma cc4_scratch5.sem) 0
    ∗ semVal (Vt_c4 d L, SemLoc.dma cc4_scratch6.sem) 0 ∗ semVal (Vt_c4 d L, SemLoc.dma cc4_scratch7.sem) 0
    ∗ semVal (Vt_c4 d L, SemLoc.dma cc4_scratch8.sem) 0 ∗ semVal (Vt_c4 d L, SemLoc.dma cc4_scratch9.sem) 0
    ∗ semVal (Vt_c4 d L, SemLoc.dma cc4_scratch10.sem) 0 ∗ semVal (Vt_c4 d L, SemLoc.dma cc4_scratch11.sem) 0
    ∗ semVal (Vt_c4 d L, SemLoc.dma cc4_scoped0.sem) 0)

/-- The subcore's own cells at zero: the eleven the kernel function names, and the rest. -/
theorem ownSems0_V0_c4 (d : Dev nD) (L : grid4.Coords) :
    (ownSems0 (Vt_c4 d L) : sProp (MM F))
      = iprop(cells0_c4 d L ∗ bigSep ((ownCells (Vt_c4 d L)) \ Finset.univ.image (dcell0_c4 d (cV4 L) (jV4 L))) fun g => semVal g 0) := by
  unfold SparseCore.Cfg.ownSems0
  rw [SparseCore.bigSep_sdiff_split' (t := Finset.univ.image (dcell0_c4 d (cV4 L) (jV4 L)))
      (Finset.image_subset_iff.mpr fun k _ => dcell0_mem_c4 d (cV4 L) (jV4 L) k),
    SparseCore.bigSep_image_of_injOn (fun a _ b _ h => sems0_inj_c4 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c4 (d : Dev nD) (L : grid4.Coords) :
    (ownBufs (Vt_c4 d L) : sProp (MM F))
      = iprop((∃ f, (Vt_c4 d L).loc cc4_scratch0 ↦{fullShare} f) ∗ (∃ f, (Vt_c4 d L).loc cc4_scratch1 ↦{fullShare} f)
          ∗ bigSep (((ownRefs (τ := τ) (.scVector (cV4 L) (jV4 L))).erase ((Proc.scVector (cV4 L) (jV4 L)).devRef cc4_scratch0)).erase
              ((Proc.scVector (cV4 L) (jV4 L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV4 L) (jV4 L))
    (b := (Proc.scVector (cV4 L) (jV4 L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV4 L) (jV4 L)) (b := (Proc.scVector (cV4 L) (jV4 L)).devRef cc4_scratch1) rfl⟩)]

/-! ## The dealt pieces in the body's spelling -/

theorem pts_idx0_c4 (d : Dev nD) (L : grid4.Coords) (I : Buf (Elt F) (idxLoc4 d)) :
    ((idxBlkM_c4 L).view.loc (Vt_c4 d L) ↦[(idxBlkM_c4 L).view.set]{fullShare} I : sProp (MM F)) = idxLoc4 d ↦[idxRows4 d L]{fullShare} I := by
  rw [set_idxBlkM_c4 d L]

theorem setOn_out0_c4 (d : Dev nD) (L : grid4.Coords) :
    (outW_c4.view.setOn (outWinR_c4 L).set : Finset (Idx (outW_c4.view.loc (Vt_c4 d L)))) = outRows4 d L := by
  show Finset.map (Function.Embedding.refl _) (outWinR_c4 L).set = _
  rw [Finset.map_refl, outWinR_eq_c4]; rfl

theorem pts_out0_c4 (d : Dev nD) (L : grid4.Coords) (f : Buf (Elt F) (outLoc4 d)) :
    (outW_c4.view.loc (Vt_c4 d L) ↦[outW_c4.view.setOn (outWinR_c4 L).set]{fullShare} f : sProp (MM F)) = outLoc4 d ↦[outRows4 d L]{fullShare} f := by
  rw [setOn_out0_c4 d L]

/-- The read tokens of the table other than the five gather cells'. -/
abbrev otherToks0_c4 : Finset (Fin 80) :=
  ((((Finset.univ.erase cc4_scratch2.sem).erase cc4_scratch3.sem).erase cc4_scratch4.sem).erase cc4_scratch5.sem).erase cc4_scratch6.sem

/-- The subcore's read share of the table as one read token per cell: the five gather cells', and the remainder with
    the other cells' tokens. -/
theorem tabToks0_c4 (d : Dev nD) (L : grid4.Coords) (q : PosShare TreeShare) (tab : Buf (Elt F) (tabLoc4 d)) :
    (tabLoc4 d ↦[Finset.univ]{q} tab : sProp (MM F)) ⊣⊢ iprop((tabLoc4 d ↦[Finset.univ]{Transfers.shareDrop q 80} tab)
      ∗ (tabW_c4.view.loc (Vt_c4 d L) ↦{Transfers.shareTok q 80 cc4_scratch2.sem} tab)
      ∗ (tabW_c4.view.loc (Vt_c4 d L) ↦{Transfers.shareTok q 80 cc4_scratch3.sem} tab)
      ∗ (tabW_c4.view.loc (Vt_c4 d L) ↦{Transfers.shareTok q 80 cc4_scratch4.sem} tab)
      ∗ (tabW_c4.view.loc (Vt_c4 d L) ↦{Transfers.shareTok q 80 cc4_scratch5.sem} tab)
      ∗ (tabW_c4.view.loc (Vt_c4 d L) ↦{Transfers.shareTok q 80 cc4_scratch6.sem} tab)
      ∗ bigSep otherToks0_c4 fun i => (tabLoc4 d ↦[Finset.univ]{Transfers.shareTok q 80 i} tab : sProp (MM F))) := by
  have h := Transfers.pointsTo_toks (Ix := HIx 5) (Name := ℕ) (U := UU) (Lvl := ℕ) (ℓ := tabLoc4 d) (S := Finset.univ) (f := tab) q 80
  rw [SparseCore.bigSep_erase' (Finset.mem_univ (cc4_scratch2.sem : Fin 80)),
    SparseCore.bigSep_erase' (Finset.mem_erase.mpr ⟨(by decide : (cc4_scratch3.sem : Fin 80) ≠ cc4_scratch2.sem), Finset.mem_univ _⟩),
    SparseCore.bigSep_erase' (Finset.mem_erase.mpr ⟨(by decide : (cc4_scratch4.sem : Fin 80) ≠ cc4_scratch3.sem),
      Finset.mem_erase.mpr ⟨(by decide : (cc4_scratch4.sem : Fin 80) ≠ cc4_scratch2.sem), Finset.mem_univ _⟩⟩),
    SparseCore.bigSep_erase' (Finset.mem_erase.mpr ⟨(by decide : (cc4_scratch5.sem : Fin 80) ≠ cc4_scratch4.sem),
      Finset.mem_erase.mpr ⟨(by decide : (cc4_scratch5.sem : Fin 80) ≠ cc4_scratch3.sem),
        Finset.mem_erase.mpr ⟨(by decide : (cc4_scratch5.sem : Fin 80) ≠ cc4_scratch2.sem), Finset.mem_univ _⟩⟩⟩),
    SparseCore.bigSep_erase' (Finset.mem_erase.mpr ⟨(by decide : (cc4_scratch6.sem : Fin 80) ≠ cc4_scratch5.sem),
      Finset.mem_erase.mpr ⟨(by decide : (cc4_scratch6.sem : Fin 80) ≠ cc4_scratch4.sem),
        Finset.mem_erase.mpr ⟨(by decide : (cc4_scratch6.sem : Fin 80) ≠ cc4_scratch3.sem),
          Finset.mem_erase.mpr ⟨(by decide : (cc4_scratch6.sem : Fin 80) ≠ cc4_scratch2.sem), Finset.mem_univ _⟩⟩⟩⟩)] at h
  exact h

/-! ## The ring scratch as its five slots -/

theorem unit_congr2_c4 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c4 {κ : Kind} {sp : Space} {s : Shape} {e : EltTy} (v : View sig κ sp s e) {R R' : Rect s} (h : R = R') :
    (v.slice R).set = (v.slice R').set := by
  subst h; rfl

/-- Row k of the ring along its leading axis. -/
abbrev ringRow_c4 (d : Dev nD) (L : grid4.Coords) (k : Fin 5) : Finset (Idx (ringW_c4.view.loc (Vt_c4 d L))) :=
  ((View.whole cc4_scratch1 : View sig .scVector .vmem S5x128x128 .f32).slice (S5x128x128.rowRect 0 k)).set

theorem slot0_set_c4 (d : Dev nD) (L : grid4.Coords) : (slot0M_c4.view.set : Finset (Idx (ringW_c4.view.loc (Vt_c4 d L)))) = ringRow_c4 d L 0 := by
  show (((View.whole cc4_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot1_set_c4 (d : Dev nD) (L : grid4.Coords) : (slot1M_c4.view.set : Finset (Idx (ringW_c4.view.loc (Vt_c4 d L)))) = ringRow_c4 d L 1 := by
  show (((View.whole cc4_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot2_set_c4 (d : Dev nD) (L : grid4.Coords) : (slot2M_c4.view.set : Finset (Idx (ringW_c4.view.loc (Vt_c4 d L)))) = ringRow_c4 d L 2 := by
  show (((View.whole cc4_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot3_set_c4 (d : Dev nD) (L : grid4.Coords) : (slot3M_c4.view.set : Finset (Idx (ringW_c4.view.loc (Vt_c4 d L)))) = ringRow_c4 d L 3 := by
  show (((View.whole cc4_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)
theorem slot4_set_c4 (d : Dev nD) (L : grid4.Coords) : (slot4M_c4.view.set : Finset (Idx (ringW_c4.view.loc (Vt_c4 d L)))) = ringRow_c4 d L 4 := by
  show (((View.whole cc4_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c4 (View.whole cc4_scratch1 : View sig .scVector .vmem S5x128x128 .f32)
    (unit_congr2_c4 (by funext a; fin_cases a <;> rfl) (by funext a; fin_cases a <;> rfl) _ _)

/-- Five functions on the ring's rows, over the five rows, as the five slots each at its own function. -/
theorem ring_rows0_c4 (d : Dev nD) (L : grid4.Coords) (s : Fin 5 → Buf (Elt F) (ringW_c4.view.loc (Vt_c4 d L))) :
    (bigSep (Finset.univ : Finset (Fin 5)) fun k => (ringW_c4.view.loc (Vt_c4 d L) ↦[ringRow_c4 d L k]{fullShare} s k : sProp (MM F)))
      = iprop((slot0M_c4.view.loc (Vt_c4 d L) ↦[slot0M_c4.view.set]{fullShare} s 0)
        ∗ (slot1M_c4.view.loc (Vt_c4 d L) ↦[slot1M_c4.view.set]{fullShare} s 1)
        ∗ (slot2M_c4.view.loc (Vt_c4 d L) ↦[slot2M_c4.view.set]{fullShare} s 2)
        ∗ (slot3M_c4.view.loc (Vt_c4 d L) ↦[slot3M_c4.view.set]{fullShare} s 3)
        ∗ (slot4M_c4.view.loc (Vt_c4 d L) ↦[slot4M_c4.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c4 d L, slot1_set_c4 d L, slot2_set_c4 d L, slot3_set_c4 d L, slot4_set_c4 d L]

/-- The ring whole at one function is its five slots at that function. -/
theorem ring_split0_c4 (d : Dev nD) (L : grid4.Coords) (r : Buf (Elt F) (ringW_c4.view.loc (Vt_c4 d L))) :
    ((Vt_c4 d L).loc cc4_scratch1 ↦{fullShare} r : sProp (MM F))
      = iprop((slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)) := by
  rw [← ring_rows0_c4 d L (fun _ => r)]
  have h := pointsTo_rows (Ix := HIx 5) (Name := ℕ) (U := UU) (Lvl := ℕ) (Val := Elt F) (Vt_c4 d L)
    (View.whole cc4_scratch1 : View sig .scVector .vmem S5x128x128 .f32) 0 fullShare r
  rw [View.set_whole] at h
  exact h

/-- The five slots, each at some function, are the ring whole at some function. -/
theorem ring_join0_c4 (d : Dev nD) (L : grid4.Coords) (s : Fin 5 → Buf (Elt F) (ringW_c4.view.loc (Vt_c4 d L))) :
    iprop((slot0M_c4.view.loc (Vt_c4 d L) ↦[slot0M_c4.view.set]{fullShare} s 0)
        ∗ (slot1M_c4.view.loc (Vt_c4 d L) ↦[slot1M_c4.view.set]{fullShare} s 1)
        ∗ (slot2M_c4.view.loc (Vt_c4 d L) ↦[slot2M_c4.view.set]{fullShare} s 2)
        ∗ (slot3M_c4.view.loc (Vt_c4 d L) ↦[slot3M_c4.view.set]{fullShare} s 3)
        ∗ (slot4M_c4.view.loc (Vt_c4 d L) ↦[slot4M_c4.view.set]{fullShare} s 4))
      ⊢ (iprop(∃ f, (Vt_c4 d L).loc cc4_scratch1 ↦{fullShare} f) : sProp (MM F)) := by
  rw [← ring_rows0_c4 d L s]
  refine (pointsTo_biUnion_join (Ix := HIx 5) (Name := ℕ) (U := UU) (Lvl := ℕ) (ℓ := ringW_c4.view.loc (Vt_c4 d L)) (q := fullShare)
    Finset.univ (fun k : Fin 5 => ringRow_c4 d L k) s (s 0)
    (fun k _ k' _ h => (View.whole cc4_scratch1 : View sig .scVector .vmem S5x128x128 .f32).disjoint_rows 0 h)).trans ?_
  iintro ⟨%g, -, H⟩
  iexists g
  have e : (Finset.univ : Finset (Fin 5)).biUnion (fun k => ringRow_c4 d L k) = (Finset.univ : Finset (Idx (ringW_c4.view.loc (Vt_c4 d L)))) := by
    rw [← View.set_whole (cc4_scratch1 : Ref sig .scVector)]
    exact ((View.whole cc4_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c4 (d : Dev nD) (L : grid4.Coords) (tab : Buf (Elt F) (tabLoc4 d)) (I : Buf (Elt F) (idxLoc4 d))
    (f : Buf (Elt F) (outLoc4 d)) (hF : (K (F := F)).Facts) (hI : ∀ x ∈ idxRows4 d L, BitVec.toNat (I x) < 1000000)
    (O : CellTallies nD τ sig (HIx 5)) (W : Waits sig (HIx 5)) (hO : ∀ g, O g none = 0) (outP outQ : sProp (MM F))
    (hrun : ∀ (g0 : Buf (Elt F) (listW_c4.view.loc (Vt_c4 d L))) (r : Buf (Elt F) (ringW_c4.view.loc (Vt_c4 d L))),
      (iprop(Transfers.MayWaits (Vt_c4 d L) (default : HIx 5) O
        ∗ (tabW_c4.view.loc (Vt_c4 d L) ↦{Transfers.shareTok (Transfers.shareTok fullShare 32 ⟨wid4 L, wid_lt4 L⟩) 80 cc4_scratch2.sem} tab)
        ∗ (tabW_c4.view.loc (Vt_c4 d L) ↦{Transfers.shareTok (Transfers.shareTok fullShare 32 ⟨wid4 L, wid_lt4 L⟩) 80 cc4_scratch3.sem} tab)
        ∗ (tabW_c4.view.loc (Vt_c4 d L) ↦{Transfers.shareTok (Transfers.shareTok fullShare 32 ⟨wid4 L, wid_lt4 L⟩) 80 cc4_scratch4.sem} tab)
        ∗ (tabW_c4.view.loc (Vt_c4 d L) ↦{Transfers.shareTok (Transfers.shareTok fullShare 32 ⟨wid4 L, wid_lt4 L⟩) 80 cc4_scratch5.sem} tab)
        ∗ (tabW_c4.view.loc (Vt_c4 d L) ↦{Transfers.shareTok (Transfers.shareTok fullShare 32 ⟨wid4 L, wid_lt4 L⟩) 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok (Transfers.shareTok fullShare 32 ⟨wid4 L, wid_lt4 L⟩) 80 cc4_scratch2.sem} tab)
            ∗ (tabW_c4.view.loc (Vt_c4 d L) ↦{Transfers.shareTok (Transfers.shareTok fullShare 32 ⟨wid4 L, wid_lt4 L⟩) 80 cc4_scratch3.sem} tab)
            ∗ (tabW_c4.view.loc (Vt_c4 d L) ↦{Transfers.shareTok (Transfers.shareTok fullShare 32 ⟨wid4 L, wid_lt4 L⟩) 80 cc4_scratch4.sem} tab)
            ∗ (tabW_c4.view.loc (Vt_c4 d L) ↦{Transfers.shareTok (Transfers.shareTok fullShare 32 ⟨wid4 L, wid_lt4 L⟩) 80 cc4_scratch5.sem} tab)
            ∗ (tabW_c4.view.loc (Vt_c4 d L) ↦{Transfers.shareTok (Transfers.shareTok fullShare 32 ⟨wid4 L, wid_lt4 L⟩) 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ outP))
    (hclose : outP ⊢ outQ) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(((tabLoc4 d ↦[Finset.univ]{Transfers.shareTok fullShare 32 ⟨wid4 L, wid_lt4 L⟩} tab)
              ∗ (idxLoc4 d ↦[idxRows4 d L]{fullShare} I) ∗ outQ)
            ∗ scopedBufs (Vt_c4 d L) ∗ scopedSems0 (Vt_c4 d L)
            ∗ ∃ W', ⌜∀ p ∈ W', p ∈ W ∨ p.2 = none⌝ ∗ owes (Vt_c4 d L) O W') := by
  rw [(K (F := F)).scopedBufs_V hF d (cV4 L) (jV4 L), SparseCore.Cfg.scopedSems0_V (Val := Elt F) d (cV4 L) (jV4 L), ownSems0_V0_c4, ownBufs_V0_c4]
  unfold goRes4 cells0_c4
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c4 d L) hO) $$ Hlv
  ihave Htoks := (tabToks0_c4 (F := F) d L (Transfers.shareTok fullShare 32 ⟨wid4 L, wid_lt4 L⟩) tab).1 $$ Htab
  icases Htoks with ⟨Hdrop, Ht0, Ht1, Ht2, Ht3, Ht4, Hother⟩
  ihave Hidx' := (Entails.of_eq (pts_idx0_c4 (F := F) d L I).symm) $$ Hidx
  ihave Hout' := (Entails.of_eq (pts_out0_c4 (F := F) d L f).symm) $$ Hout
  ihave Hring := (Entails.of_eq (ring_split0_c4 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c4 d L) none) Set.univ
    (R := iprop((tabLoc4 d ↦[Finset.univ]{Transfers.shareDrop (Transfers.shareTok fullShare 32 ⟨wid4 L, wid_lt4 L⟩) 80} tab)
      ∗ (bigSep otherToks0_c4 fun i => (tabLoc4 d ↦[Finset.univ]{Transfers.shareTok (Transfers.shareTok fullShare 32 ⟨wid4 L, wid_lt4 L⟩) 80 i} tab : sProp (MM F)))
      ∗ (bigSep (((ownRefs (τ := τ) (.scVector (cV4 L) (jV4 L))).erase ((Proc.scVector (cV4 L) (jV4 L)).devRef cc4_scratch0)).erase
              ((Proc.scVector (cV4 L) (jV4 L)).devRef cc4_scratch1))
              fun b => iprop(∃ f, ((d, b) : Loc nD τ sig) ↦{fullShare} f))
      ∗ (bigSep ((ownCells (Vt_c4 d L)) \ Finset.univ.image (dcell0_c4 d (cV4 L) (jV4 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c4 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c4 (F := F) d L (Transfers.shareTok fullShare 32 ⟨wid4 L, wid_lt4 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c4 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c4 $$ HOw
  ihave Hq := hclose $$ Hout
  isplitl [Htab Hidx Hq]
  · isplitl [Htab]; · iexact Htab
    isplitl [Hidx]; · iapply (Entails.of_eq (pts_idx0_c4 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c4 (d : Dev nD) (L : grid4.Coords) :
    (iprop(∃ f' : Buf (Elt F) (outW_c4.view.loc (Vt_c4 d L)), outW_c4.view.loc (Vt_c4 d L) ↦[outW_c4.view.setOn (outWinR_c4 L).set]{fullShare} f') : sProp (MM F))
      ⊢ iprop(∃ f' : Buf (Elt F) (outLoc4 d), outLoc4 d ↦[outRows4 d L]{fullShare} f') := by
  iintro ⟨%f', H⟩
  iexists f'
  iapply (Entails.of_eq (pts_out0_c4 (F := F) d L f')); iexact H

/-- Rows the run leaves at contents that are the gathered rows on the subcore's rows are those rows at the gathered
    rows. -/
theorem out_valued0_c4 (d : Dev nD) (L : grid4.Coords) (tab : Buf (Elt F) (tabLoc4 d)) (I : Buf (Elt F) (idxLoc4 d)) :
    (iprop(∃ f' : Buf (Elt F) (outW_c4.view.loc (Vt_c4 d L)), (outW_c4.view.loc (Vt_c4 d L) ↦[outW_c4.view.setOn (outWinR_c4 L).set]{fullShare} f')
        ∗ ⌜∀ x : S163840x128.Idx, 5120 * wid4 L ≤ (x 0).val ∧ (x 0).val < 5120 * wid4 L + 5120 → f' x = gathered4 (d := d) tab I x⌝) : sProp (MM F))
      ⊢ (outLoc4 d ↦[outRows4 d L]{fullShare} gathered4 (d := d) tab I) := by
  iintro ⟨%f', H, %hf⟩
  have e : (outW_c4.view.loc (Vt_c4 d L) ↦[outW_c4.view.setOn (outWinR_c4 L).set]{fullShare} f' : sProp (MM F))
      = (outLoc4 d ↦[outRows4 d L]{fullShare} gathered4 (d := d) tab I) := by
    rw [pts_out0_c4 (F := F) d L f']
    exact pointsTo_congr (fun x hx => hf x ((mem_outRows4 d L x).mp hx))
  iapply (Entails.of_eq e); iexact H

/-! ## The task as the launch theorem's obligation consumes it -/

/-- The body's run with the gathered rows named: the statement of the run with, of the subcore's rows of the gathered
    array, contents that are the gathered rows on those rows. -/
def TileRunV0_c4 (F : FTy → Type) [FloatOps F] : Prop :=
  ∀ (d : Dev nD) (L : grid4.Coords) (q : PosShare TreeShare) (O : CellTallies nD τ sig (HIx 5)) (W : Waits sig (HIx 5))
    (tab : Buf (Elt F) (tabW_c4.view.loc (Vt_c4 d L))) (I : Buf (Elt F) ((idxBlkM_c4 L).view.loc (Vt_c4 d L)))
    (hI : ∀ z ∈ (idxBlkM_c4 L).view.set, BitVec.toNat (I z) < 1000000)
    (g0 : Buf (Elt F) (listW_c4.view.loc (Vt_c4 d L))) (r : Buf (Elt F) (ringW_c4.view.loc (Vt_c4 d L)))
    (f : Buf (Elt F) (outW_c4.view.loc (Vt_c4 d L))),
    (iprop(Transfers.MayWaits (Vt_c4 d L) (default : HIx 5) O
        ∗ (tabW_c4.view.loc (Vt_c4 d L) ↦{Transfers.shareTok q 80 cc4_scratch2.sem} tab)
        ∗ (tabW_c4.view.loc (Vt_c4 d L) ↦{Transfers.shareTok q 80 cc4_scratch3.sem} tab)
        ∗ (tabW_c4.view.loc (Vt_c4 d L) ↦{Transfers.shareTok q 80 cc4_scratch4.sem} tab)
        ∗ (tabW_c4.view.loc (Vt_c4 d L) ↦{Transfers.shareTok q 80 cc4_scratch5.sem} tab)
        ∗ (tabW_c4.view.loc (Vt_c4 d L) ↦{Transfers.shareTok q 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok q 80 cc4_scratch2.sem} tab)
            ∗ (tabW_c4.view.loc (Vt_c4 d L) ↦{Transfers.shareTok q 80 cc4_scratch3.sem} tab)
            ∗ (tabW_c4.view.loc (Vt_c4 d L) ↦{Transfers.shareTok q 80 cc4_scratch4.sem} tab)
            ∗ (tabW_c4.view.loc (Vt_c4 d L) ↦{Transfers.shareTok q 80 cc4_scratch5.sem} tab)
            ∗ (tabW_c4.view.loc (Vt_c4 d L) ↦{Transfers.shareTok q 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ (∃ f' : Buf (Elt F) (outW_c4.view.loc (Vt_c4 d L)), (outW_c4.view.loc (Vt_c4 d L) ↦[outW_c4.view.setOn (outWinR_c4 L).set]{fullShare} f')
                ∗ ⌜∀ x : S163840x128.Idx, 5120 * wid4 L ≤ (x 0).val ∧ (x 0).val < 5120 * wid4 L + 5120 → f' x = gathered4 (d := d) tab I x⌝))

/-- THE TASK, with the gathered rows: what the launch theorem's obligation for the call consumes, from the run with
    the gathered rows named. -/
theorem tile_body0_of_c4 (hrun : TileRunV0_c4 F) (d : Dev nD) (L : grid4.Coords) (tab : Buf (Elt F) (tabLoc4 d)) (I : Buf (Elt F) (idxLoc4 d))
    (f : Buf (Elt F) (outLoc4 d)) (hF : (K (F := F)).Facts) (hI : ∀ x ∈ idxRows4 d L, BitVec.toNat (I x) < 1000000)
    (O : CellTallies nD τ sig (HIx 5)) (W : Waits sig (HIx 5)) (hO : ∀ g, O g none = 0) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(tdRes4 d L tab I ∗ scopedBufs (Vt_c4 d L) ∗ scopedSems0 (Vt_c4 d L)
            ∗ ∃ W', ⌜∀ p ∈ W', p ∈ W ∨ p.2 = none⌝ ∗ owes (Vt_c4 d L) O W') := by
  unfold tdRes4
  exact tile_wrap0_c4 d L tab I f hF hI O W hO _ _
    (fun g0 r => hrun d L _ O W tab I (fun z hz => hI z (set_idxBlkM_c4 d L ▸ hz)) g0 r f) (out_valued0_c4 d L tab I)

/-- THE TASK, the rows at some contents: from the run as proved, which does not name what it gathers. -/
theorem tile_frame0_c4 (d : Dev nD) (L : grid4.Coords) (tab : Buf (Elt F) (tabLoc4 d)) (I : Buf (Elt F) (idxLoc4 d))
    (f : Buf (Elt F) (outLoc4 d)) (hF : (K (F := F)).Facts) (hI : ∀ x ∈ idxRows4 d L, BitVec.toNat (I x) < 1000000)
    (O : CellTallies nD τ sig (HIx 5)) (W : Waits sig (HIx 5)) (hO : ∀ g, O g none = 0) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(((tabLoc4 d ↦[Finset.univ]{Transfers.shareTok fullShare 32 ⟨wid4 L, wid_lt4 L⟩} tab)
              ∗ (idxLoc4 d ↦[idxRows4 d L]{fullShare} I) ∗ ∃ f' : Buf (Elt F) (outLoc4 d), outLoc4 d ↦[outRows4 d L]{fullShare} f')
            ∗ scopedBufs (Vt_c4 d L) ∗ scopedSems0 (Vt_c4 d L)
            ∗ ∃ W', ⌜∀ p ∈ W', p ∈ W ∨ p.2 = none⌝ ∗ owes (Vt_c4 d L) O W') :=
  tile_wrap0_c4 d L tab I f hF hI O W hO _ _
    (fun g0 r => tile_run0_c4 d L _ O W tab I (fun z hz => hI z (set_idxBlkM_c4 d L ▸ hz)) g0 r f) (out_frame0_c4 d L)

end Cert.Kernel.Hand

end
-- ==== Proof.BTile4k.lean ====
/-
  The value of one chunk of the first gather call.

  The subcore's list scratch holds its block of the index array: word (c, x) of the scratch is word (wid4, c, x) of the
  array. The gather of chunk c reads row c of the scratch as its list and lands, at row j of the ring slot, the table
  row that word (c, j) names. Row 5120 wid4 + 128 c + j of the whole-array function is the table row named by the
  index word at flat position 5120 wid4 + 128 c + j, which is word (wid4, c, j): the same row. So what a chunk's gather
  lands is its rows of the one function.
-/
import proofs.«206421_g46840913330738_cont_8to1c4_247_26_alg».proof.Proof.BTile4a
import Idealize.ShloMosaic.Lib.ValueIdx
import Idealize.ShloMosaic.Lib.Pipeline.Value

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c4 (d : Dev nD) (L : grid4.Coords) (fl : Buf (Elt F) (listW_c4.view.loc (Vt_c4 d L))) (c : ℕ) (hc : c < 40)
    (o : Fin 2 → ℕ) (h : ∀ a, o a + S1x128.size a ≤ S40x128.size a) (ho : o = ![c, 0]) (y : S128.Idx) :
    View.read (Elt F) (rowM_c4 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid4, c, x) of the index array. -/
theorem idxBlk_read0_c4 (d : Dev nD) (L : grid4.Coords) (I : Buf (Elt F) ((idxBlkM_c4 L).view.loc (Vt_c4 d L))) (z : S40x128.Idx) :
    View.read (Elt F) (idxBlkM_c4 L).view I z = I (ix3 (⟨wid4 L, wid_lt4 L⟩ : Fin 32) (z 0) (z 1)) := by
  rw [View.read_apply]
  simp only [cast_eq]
  congr 1
  show (Rect.unit (s := S32x40x128) (k4_off1 L) S1x40x128.size (k4_off1_inb L)).emb (Shape.reshapeEquiv _ z) = _
  rw [Shape.reshapeEquiv_cons_one]
  funext a
  apply Fin.ext
  rw [Rect.emb_apply]
  have e := k4_off1_eq L
  match a with
  | ⟨0, _⟩ => show k4_off1 L 0 + 1 * 0 = wid4 L; rw [e]; show 2 * (L 1).val + (L 0).val + 1 * 0 = wid4 L; unfold wid4; omega
  | ⟨1, _⟩ => show k4_off1 L 1 + 1 * (z 0).val = (z 0).val; rw [e]; show 0 + 1 * (z 0).val = (z 0).val; omega
  | ⟨2, _⟩ => show k4_off1 L 2 + 1 * (z 1).val = (z 1).val; rw [e]; show 0 + 1 * (z 1).val = (z 1).val; omega

/-- After the block copy the list scratch holds the subcore's block: word (c, x) is word (wid4, c, x) of the array. -/
theorem listFill_apply0_c4 (d : Dev nD) (L : grid4.Coords) (I : Buf (Elt F) ((idxBlkM_c4 L).view.loc (Vt_c4 d L)))
    (g0 : Buf (Elt F) (listW_c4.view.loc (Vt_c4 d L))) (z : S40x128.Idx) :
    listFill_c4 d L I g0 z = I (ix3 (⟨wid4 L, wid_lt4 L⟩ : Fin 32) (z 0) (z 1)) := by
  unfold listFill_c4
  show View.write (Elt F) listW_c4.view g0 _ Finset.univ (listW_c4.view.emb z) = _
  rw [View.write_emb_of_mem _ _ (Finset.mem_univ _)]
  simp only [cast_eq]
  exact idxBlk_read0_c4 d L I z

/-! ## What a chunk's gather lands is its rows of the whole-array function -/

/-- The flat position of word (w, c, j) of the index array. -/
theorem rowMajor_ix3_0_c4 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c4 (v : S1000000x128.Idx) : tabS_c4.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid4 + 128 c + j, column e. -/
theorem landed_eq_gathered0_c4 (d : Dev nD) (L : grid4.Coords) (tab : Buf (Elt F) (tabLoc4 d)) (I : Buf (Elt F) (idxLoc4 d))
    (g0 : Buf (Elt F) (listW_c4.view.loc (Vt_c4 d L)))
    (hI : ∀ z ∈ idxRows4 d L, BitVec.toNat (I z) < 1000000)
    (c : ℕ) (hc : c < 40)
    (hin : ∀ x : S128.Idx, BitVec.toNat (View.read (Elt F) (rowM_c4 ![c, 0] (rowInb_c4 c hc)).view (listFill_c4 d L I g0) x) < 1000000)
    (y : S128x128.Idx) (x : S163840x128.Idx)
    (hx0 : (x 0).val = 5120 * wid4 L + 128 * c + (y 0).val) (hx1 : (x 1).val = (y 1).val) :
    landed_c4 d L tab (listFill_c4 d L I g0) ![c, 0] (rowInb_c4 c hc) hin y = gathered4 tab I x := by
  rw [gathered4_apply]
  unfold landed_c4 SparseCore.gatherPayload
  rw [View.read_apply]
  simp only [cast_eq]
  congr 1
  refine (tabS_emb0_c4 _).trans ?_
  have hw : ∀ u : S128.Idx, View.read (Elt F) (rowM_c4 ![c, 0] (rowInb_c4 c hc)).view (listFill_c4 d L I g0) u
      = I (ix3 (⟨wid4 L, wid_lt4 L⟩ : Fin 32) (⟨c, hc⟩ : Fin 40) (u 0)) := fun u => by
    rw [rowM_read0_c4 d L _ c hc _ _ rfl u, listFill_apply0_c4]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll4 (fun r => gatherRow4 I r) x)).symm
    show BitVec.toNat (View.read (Elt F) (rowM_c4 ![c, 0] (rowInb_c4 c hc)).view (listFill_c4 d L I g0)
        (S128.rowMajor.symm (Fin.cast _ (y gathers_S1000000x128_S128x128.axis'))))
      = BitVec.toNat (I (S32x40x128.rowMajor.symm (Fin.cast _ (x gathersAll4.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll4.axis'))
        = ix3 (⟨wid4 L, wid_lt4 L⟩ : Fin 32) (⟨c, hc⟩ : Fin 40) (u 0) :=
      (Equiv.symm_apply_eq _).mpr (Fin.ext ((show (x gathersAll4.axis').val = 5120 * wid4 L + 128 * c + (u 0).val from by
        rw [hu0, ← hx0]; rfl).trans (rowMajor_ix3_0_c4 (⟨wid4 L, wid_lt4 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll4 (fun r => gatherRow4 I r) x ⟨1, by decide⟩ Nat.one_ne_zero).symm
    exact hx1.symm

end Cert.Kernel.Hand

end
-- ==== Proof.BTile4b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.BTile4a
import proofs.«206421_g46840913330738_cont_8to1c4_247_26_alg».proof.Proof.BTile4k

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c4 (d : Dev nD) (L : grid4.Coords) (tab : Buf (Elt F) (tabW_c4.view.loc (Vt_c4 d L))) (I : Buf (Elt F) ((idxBlkM_c4 L).view.loc (Vt_c4 d L)))
    (n : ℕ) (f : Buf (Elt F) (outW_c4.view.loc (Vt_c4 d L))) : Prop :=
  ∀ x : S163840x128.Idx, 5120 * wid4 L ≤ (x 0).val → (x 0).val < 5120 * wid4 L + 128 * n → f x = gathered4 (d := d) tab I x

/-- Before trip g < 8, of the contents: the rows of the chunks before 5g hold the gathered rows, and slot b is
    to hold what the gather of chunk 5g + b lands. -/
def FactsFly_c4 (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000) (g : ℕ) (h : g < 8) (s0 s1 s2 s3 s4 : Buf (Elt F) (ringW_c4.view.loc (Vt_c4 d L))) (f : Buf (Elt F) (outW_c4.view.loc (Vt_c4 d L))) : Prop :=
  DoneUpTo_c4 d L tab I (5 * g) f
    ∧ View.read (Elt F) slot0M_c4.view s0 = landed_c4 d L tab (listFill_c4 d L I g0) ![5 * g + 0, 0] (rowInb0_c4 g h) (hin _ _)
    ∧ View.read (Elt F) slot1M_c4.view s1 = landed_c4 d L tab (listFill_c4 d L I g0) ![5 * g + 1, 0] (rowInb1_c4 g h) (hin _ _)
    ∧ View.read (Elt F) slot2M_c4.view s2 = landed_c4 d L tab (listFill_c4 d L I g0) ![5 * g + 2, 0] (rowInb2_c4 g h) (hin _ _)
    ∧ View.read (Elt F) slot3M_c4.view s3 = landed_c4 d L tab (listFill_c4 d L I g0) ![5 * g + 3, 0] (rowInb3_c4 g h) (hin _ _)
    ∧ View.read (Elt F) slot4M_c4.view s4 = landed_c4 d L tab (listFill_c4 d L I g0) ![5 * g + 4, 0] (rowInb4_c4 g h) (hin _ _)

/-- A slot written whole reads back what was written. -/
theorem read_writes_whole_c4 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c4 (d : Dev nD) (L : grid4.Coords) (tab : Buf (Elt F) (tabW_c4.view.loc (Vt_c4 d L)))
    (fl : Buf (Elt F) (listW_c4.view.loc (Vt_c4 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c4 o h).view fl x) < 1000000)
    (hin' : ∀ x : S128.Idx, BitVec.toNat (View.read (Elt F) (rowM_c4 o' h').view fl x) < 1000000) :
    landed_c4 d L tab fl o h hin = landed_c4 d L tab fl o' h' hin' := by
  subst e; rfl

/-- One chunk copied out extends what is done by that chunk. -/
theorem done_step_c4 (d : Dev nD) (L : grid4.Coords) (tab : Buf (Elt F) (tabW_c4.view.loc (Vt_c4 d L))) (I : Buf (Elt F) ((idxBlkM_c4 L).view.loc (Vt_c4 d L)))
    (n : ℕ) (o : Fin 2 → ℕ) (ho : o = ![5120 * wid4 L + 128 * n, 0])
    (hinb : ∀ a, o a + S128x128.size a ≤ S163840x128.size a)
    (f : Buf (Elt F) (outW_c4.view.loc (Vt_c4 d L))) (p : S128x128.Idx → Elt F .f32)
    (hf : DoneUpTo_c4 d L tab I n f)
    (hp : ∀ (y : S128x128.Idx) (x : S163840x128.Idx), (x 0).val = 5120 * wid4 L + 128 * n + (y 0).val → (x 1).val = (y 1).val →
      p y = gathered4 (d := d) tab I x) :
    DoneUpTo_c4 d L tab I (n + 1)
      (View.write (Elt F) (outW_c4.slice (Rect.unit (s := S163840x128) o S128x128.size hinb) (fun _ => rfl)).view f p Finset.univ) := by
  subst ho
  intro x hlo hhi
  by_cases hx : (x 0).val < 5120 * wid4 L + 128 * n
  · rw [View.write_of_not_mem]
    · exact hf x hlo hx
    · rw [View.setOn_univ]
      show x ∉ ((View.whole main_v12_scv : View sig .scVector .hbm S163840x128 .f32).slice (Rect.unit (s := S163840x128) ![5120 * wid4 L + 128 * n, 0] S128x128.size hinb)).set
      rw [View.set_slice_whole, Rect.mem_set_unit]
      intro h
      have h0 : 5120 * wid4 L + 128 * n ≤ (x 0).val := (h 0).1
      omega
  · have hmem : x ∈ (Rect.unit (s := S163840x128) ![5120 * wid4 L + 128 * n, 0] S128x128.size hinb).set := by
      rw [Rect.mem_set_unit]
      intro a
      have h1 : (x 1).val < 128 := (x 1).isLt
      fin_cases a
      · show 5120 * wid4 L + 128 * n ≤ (x 0).val ∧ (x 0).val < 5120 * wid4 L + 128 * n + 128
        omega
      · show 0 ≤ (x 1).val ∧ (x 1).val < 0 + 128
        omega
    rw [← Rect.map_emb_univ] at hmem
    obtain ⟨y, -, rfl⟩ := Finset.mem_map.mp hmem
    have e : (outW_c4.slice (Rect.unit (s := S163840x128) ![5120 * wid4 L + 128 * n, 0] S128x128.size hinb) (fun _ => rfl)).view.emb y
        = (Rect.unit (s := S163840x128) ![5120 * wid4 L + 128 * n, 0] S128x128.size hinb).emb y := rfl
    rw [← e, View.write_emb_of_mem _ _ (Finset.mem_univ y)]
    simp only [cast_eq]
    refine hp y _ ?_ ?_
    · rw [e, Rect.emb_apply]
      show 5120 * wid4 L + 128 * n + 1 * (y 0).val = 5120 * wid4 L + 128 * n + (y 0).val
      omega
    · rw [e, Rect.emb_apply]
      show 0 + 1 * (y 1).val = (y 1).val
      omega

theorem off3c_c4 (L : grid4.Coords) (k : Fin k4_t1_loop.trips) (r : Fin 5) :
    k4_off3 L k (BitVec.ofNat 32 r.val) = ![5120 * wid4 L + 128 * (5 * k.val + r.val), 0] :=
  (k4_off3_eq L k r).trans (by unfold wid4; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c4 (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000)
    (hK : ∀ (c : ℕ) (hc : c < 40) (hin' : ∀ x : S128.Idx, BitVec.toNat (View.read (Elt F) (rowM_c4 ![c, 0] (rowInb_c4 c hc)).view (listFill_c4 d L I g0) x) < 1000000)
      (y : S128x128.Idx) (x : S163840x128.Idx), (x 0).val = 5120 * wid4 L + 128 * c + (y 0).val → (x 1).val = (y 1).val →
      landed_c4 d L tab (listFill_c4 d L I g0) ![c, 0] (rowInb_c4 c hc) hin' y = gathered4 (d := d) tab I x)
    (k : Fin k4_t1_loop.trips) (hk8 : k.val < 8) (s0 s1 s2 s3 s4 : Buf (Elt F) (ringW_c4.view.loc (Vt_c4 d L))) (f : Buf (Elt F) (outW_c4.view.loc (Vt_c4 d L)))
    (hF : FactsFly_c4 d L tab I g0 hin k.val hk8 s0 s1 s2 s3 s4 f) :
    DoneUpTo_c4 d L tab I (5 * (k.val + 1))
      (View.write (Elt F) (outW_c4.slice (Rect.unit (s := S163840x128) (k4_off3 L k 4#32) S128x128.size (k4_off3_inb L k 4)) (fun _ => rfl)).view (View.write (Elt F) (outW_c4.slice (Rect.unit (s := S163840x128) (k4_off3 L k 3#32) S128x128.size (k4_off3_inb L k 3)) (fun _ => rfl)).view (View.write (Elt F) (outW_c4.slice (Rect.unit (s := S163840x128) (k4_off3 L k 2#32) S128x128.size (k4_off3_inb L k 2)) (fun _ => rfl)).view (View.write (Elt F) (outW_c4.slice (Rect.unit (s := S163840x128) (k4_off3 L k 1#32) S128x128.size (k4_off3_inb L k 1)) (fun _ => rfl)).view (View.write (Elt F) (outW_c4.slice (Rect.unit (s := S163840x128) (k4_off3 L k 0#32) S128x128.size (k4_off3_inb L k 0)) (fun _ => rfl)).view f (ReadAs.same.apply (View.read (Elt F) slot0M_c4.view s0)) Finset.univ) (ReadAs.same.apply (View.read (Elt F) slot1M_c4.view s1)) Finset.univ) (ReadAs.same.apply (View.read (Elt F) slot2M_c4.view s2)) Finset.univ) (ReadAs.same.apply (View.read (Elt F) slot3M_c4.view s3)) Finset.univ) (ReadAs.same.apply (View.read (Elt F) slot4M_c4.view s4)) Finset.univ) := by
  obtain ⟨hd, h0, h1, h2, h3, h4⟩ := hF
  have e : 5 * (k.val + 1) = 5 * k.val + 0 + 1 + 1 + 1 + 1 + 1 := by omega
  rw [e]
  refine done_step_c4 d L tab I _ _ (off3c_c4 L k 4) _ _ _ ?_ ?_
  refine done_step_c4 d L tab I _ _ (off3c_c4 L k 3) _ _ _ ?_ ?_
  refine done_step_c4 d L tab I _ _ (off3c_c4 L k 2) _ _ _ ?_ ?_
  refine done_step_c4 d L tab I _ _ (off3c_c4 L k 1) _ _ _ ?_ ?_
  refine done_step_c4 d L tab I _ _ (off3c_c4 L k 0) _ _ _ ?_ ?_
  · exact hd
  · intro y x hx0 hx1
    show View.read (Elt F) slot0M_c4.view s0 y = _
    rw [h0]; exact hK (5 * k.val + 0) (by omega) _ y x hx0 hx1
  · intro y x hx0 hx1
    show View.read (Elt F) slot1M_c4.view s1 y = _
    rw [h1]; exact hK (5 * k.val + 1) (by omega) _ y x hx0 hx1
  · intro y x hx0 hx1
    show View.read (Elt F) slot2M_c4.view s2 y = _
    rw [h2]; exact hK (5 * k.val + 2) (by omega) _ y x hx0 hx1
  · intro y x hx0 hx1
    show View.read (Elt F) slot3M_c4.view s3 y = _
    rw [h3]; exact hK (5 * k.val + 3) (by omega) _ y x hx0 hx1
  · intro y x hx0 hx1
    show View.read (Elt F) slot4M_c4.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L))) (g : ℕ) (h : g < 8) (s0 s1 s2 s3 s4 : Buf (Elt F) (ringW_c4.view.loc (Vt_c4 d L))) (f : Buf (Elt F) (outW_c4.view.loc (Vt_c4 d L))) : sProp (MM F) :=
  iprop(Transfers.MayWaits (Vt_c4 d L) (default : HIx 5) O
    ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
    ∗ owesW_c4 d L O W
    ∗ (outW_c4.view.loc (Vt_c4 d L) ↦[outW_c4.view.setOn (outWinR_c4 L).set]{fullShare} f)
    ∗ ((Transfers.Flight countersEmb (Vt_c4 d L) (SemLoc.dma cc4_scratch2.sem) (default : HIx 5) 524288
              iprop(((slot0M_c4.view.loc (Vt_c4 d L) ↦[slot0M_c4.view.set]{fullShare} s0)
                  ∗ (listW_c4.view.loc (Vt_c4 d L) ↦[(rowM_c4 ![5 * g + 0, 0] (rowInb0_c4 g h)).view.set]{fullShare} fl))
                ∗ (tabW_c4.view.loc (Vt_c4 d L) ↦[tabS_c4.view.set]{Transfers.shareTok q 80 cc4_scratch2.sem} tab))
            ∗ (slot0M_c4.view.loc (Vt_c4 d L) ↦[slot0M_c4.view.set \ slot0M_c4.view.set]{fullShare} s0))
          ∗ (tabW_c4.view.loc (Vt_c4 d L) ↦[Finset.univ \ tabS_c4.view.set]{Transfers.shareTok q 80 cc4_scratch2.sem} tab))
    ∗ ((Transfers.Flight countersEmb (Vt_c4 d L) (SemLoc.dma cc4_scratch3.sem) (default : HIx 5) 524288
              iprop(((slot1M_c4.view.loc (Vt_c4 d L) ↦[slot1M_c4.view.set]{fullShare} s1)
                  ∗ (listW_c4.view.loc (Vt_c4 d L) ↦[(rowM_c4 ![5 * g + 1, 0] (rowInb1_c4 g h)).view.set]{fullShare} fl))
                ∗ (tabW_c4.view.loc (Vt_c4 d L) ↦[tabS_c4.view.set]{Transfers.shareTok q 80 cc4_scratch3.sem} tab))
            ∗ (slot1M_c4.view.loc (Vt_c4 d L) ↦[slot1M_c4.view.set \ slot1M_c4.view.set]{fullShare} s1))
          ∗ (tabW_c4.view.loc (Vt_c4 d L) ↦[Finset.univ \ tabS_c4.view.set]{Transfers.shareTok q 80 cc4_scratch3.sem} tab))
    ∗ ((Transfers.Flight countersEmb (Vt_c4 d L) (SemLoc.dma cc4_scratch4.sem) (default : HIx 5) 524288
              iprop(((slot2M_c4.view.loc (Vt_c4 d L) ↦[slot2M_c4.view.set]{fullShare} s2)
                  ∗ (listW_c4.view.loc (Vt_c4 d L) ↦[(rowM_c4 ![5 * g + 2, 0] (rowInb2_c4 g h)).view.set]{fullShare} fl))
                ∗ (tabW_c4.view.loc (Vt_c4 d L) ↦[tabS_c4.view.set]{Transfers.shareTok q 80 cc4_scratch4.sem} tab))
            ∗ (slot2M_c4.view.loc (Vt_c4 d L) ↦[slot2M_c4.view.set \ slot2M_c4.view.set]{fullShare} s2))
          ∗ (tabW_c4.view.loc (Vt_c4 d L) ↦[Finset.univ \ tabS_c4.view.set]{Transfers.shareTok q 80 cc4_scratch4.sem} tab))
    ∗ ((Transfers.Flight countersEmb (Vt_c4 d L) (SemLoc.dma cc4_scratch5.sem) (default : HIx 5) 524288
              iprop(((slot3M_c4.view.loc (Vt_c4 d L) ↦[slot3M_c4.view.set]{fullShare} s3)
                  ∗ (listW_c4.view.loc (Vt_c4 d L) ↦[(rowM_c4 ![5 * g + 3, 0] (rowInb3_c4 g h)).view.set]{fullShare} fl))
                ∗ (tabW_c4.view.loc (Vt_c4 d L) ↦[tabS_c4.view.set]{Transfers.shareTok q 80 cc4_scratch5.sem} tab))
            ∗ (slot3M_c4.view.loc (Vt_c4 d L) ↦[slot3M_c4.view.set \ slot3M_c4.view.set]{fullShare} s3))
          ∗ (tabW_c4.view.loc (Vt_c4 d L) ↦[Finset.univ \ tabS_c4.view.set]{Transfers.shareTok q 80 cc4_scratch5.sem} tab))
    ∗ ((Transfers.Flight countersEmb (Vt_c4 d L) (SemLoc.dma cc4_scratch6.sem) (default : HIx 5) 524288
              iprop(((slot4M_c4.view.loc (Vt_c4 d L) ↦[slot4M_c4.view.set]{fullShare} s4)
                  ∗ (listW_c4.view.loc (Vt_c4 d L) ↦[(rowM_c4 ![5 * g + 4, 0] (rowInb4_c4 g h)).view.set]{fullShare} fl))
                ∗ (tabW_c4.view.loc (Vt_c4 d L) ↦[tabS_c4.view.set]{Transfers.shareTok q 80 cc4_scratch6.sem} tab))
            ∗ (slot4M_c4.view.loc (Vt_c4 d L) ↦[slot4M_c4.view.set \ slot4M_c4.view.set]{fullShare} s4))
          ∗ (tabW_c4.view.loc (Vt_c4 d L) ↦[Finset.univ \ tabS_c4.view.set]{Transfers.shareTok q 80 cc4_scratch6.sem} tab))
    ∗ (listW_c4.view.loc (Vt_c4 d L) ↦[((((Finset.univ \ (rowM_c4 ![5 * g + 0, 0] (rowInb0_c4 g h)).view.set) \ (rowM_c4 ![5 * g + 1, 0] (rowInb1_c4 g h)).view.set)
              \ (rowM_c4 ![5 * g + 2, 0] (rowInb2_c4 g h)).view.set) \ (rowM_c4 ![5 * g + 3, 0] (rowInb3_c4 g h)).view.set) \ (rowM_c4 ![5 * g + 4, 0] (rowInb4_c4 g h)).view.set]{fullShare} fl))

/-- After the last trip: every cell at zero, the slots, the list and the shares back. -/
def invIdle_c4 (d : Dev nD) (L : grid4.Coords) (q : PosShare TreeShare) (O : CellTallies nD τ sig (HIx 5)) (W : Waits sig (HIx 5))
    (tab : Buf (Elt F) (tabW_c4.view.loc (Vt_c4 d L))) (fl : Buf (Elt F) (listW_c4.view.loc (Vt_c4 d L))) (s0 s1 s2 s3 s4 : Buf (Elt F) (ringW_c4.view.loc (Vt_c4 d L))) (f : Buf (Elt F) (outW_c4.view.loc (Vt_c4 d L))) : sProp (MM F) :=
  iprop(Transfers.MayWaits (Vt_c4 d L) (default : HIx 5) O
    ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
    ∗ owesW_c4 d L O W
    ∗ (outW_c4.view.loc (Vt_c4 d L) ↦[outW_c4.view.setOn (outWinR_c4 L).set]{fullShare} f)
    ∗ ((tabW_c4.view.loc (Vt_c4 d L) ↦{Transfers.shareTok q 80 cc4_scratch2.sem} tab) ∗ semVal (Vt_c4 d L, SemLoc.dma cc4_scratch2.sem) 0
          ∗ (slot0M_c4.view.loc (Vt_c4 d L) ↦[slot0M_c4.view.set]{fullShare} s0))
    ∗ ((tabW_c4.view.loc (Vt_c4 d L) ↦{Transfers.shareTok q 80 cc4_scratch3.sem} tab) ∗ semVal (Vt_c4 d L, SemLoc.dma cc4_scratch3.sem) 0
          ∗ (slot1M_c4.view.loc (Vt_c4 d L) ↦[slot1M_c4.view.set]{fullShare} s1))
    ∗ ((tabW_c4.view.loc (Vt_c4 d L) ↦{Transfers.shareTok q 80 cc4_scratch4.sem} tab) ∗ semVal (Vt_c4 d L, SemLoc.dma cc4_scratch4.sem) 0
          ∗ (slot2M_c4.view.loc (Vt_c4 d L) ↦[slot2M_c4.view.set]{fullShare} s2))
    ∗ ((tabW_c4.view.loc (Vt_c4 d L) ↦{Transfers.shareTok q 80 cc4_scratch5.sem} tab) ∗ semVal (Vt_c4 d L, SemLoc.dma cc4_scratch5.sem) 0
          ∗ (slot3M_c4.view.loc (Vt_c4 d L) ↦[slot3M_c4.view.set]{fullShare} s3))
    ∗ ((tabW_c4.view.loc (Vt_c4 d L) ↦{Transfers.shareTok q 80 cc4_scratch6.sem} tab) ∗ semVal (Vt_c4 d L, SemLoc.dma cc4_scratch6.sem) 0
          ∗ (slot4M_c4.view.loc (Vt_c4 d L) ↦[slot4M_c4.view.set]{fullShare} s4))
    ∗ (listW_c4.view.loc (Vt_c4 d L) ↦{fullShare} fl))

/-- What the loop keeps. -/
def inv0v_c4 (q : PosShare TreeShare) (O : CellTallies nD τ sig (HIx 5)) (W : Waits sig (HIx 5)) (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000) (g : ℕ) (_ : PUnit) : sProp (MM F) :=
  if h : g < 8 then
    iprop(∃ s0 s1 s2 s3 s4 f, ⌜FactsFly_c4 d L tab I g0 hin g h s0 s1 s2 s3 s4 f⌝ ∗ invFly_c4 d L q O W tab (listFill_c4 d L I g0) g h s0 s1 s2 s3 s4 f)
  else
    iprop(∃ s0 s1 s2 s3 s4 f, ⌜DoneUpTo_c4 d L tab I (5 * g) f⌝ ∗ invIdle_c4 d L q O W tab (listFill_c4 d L I g0) s0 s1 s2 s3 s4 f)

/-! ## One trip, with the contents -/

set_option maxHeartbeats 4000000 in
theorem trip0v_c4 (q : PosShare TreeShare) (O : CellTallies nD τ sig (HIx 5)) (W : Waits sig (HIx 5)) (d : Dev nD) (L : grid4.Coords) (tab : Buf (Elt F) (tabW_c4.view.loc (Vt_c4 d L))) (I : Buf (Elt F) ((idxBlkM_c4 L).view.loc (Vt_c4 d L)))
    (g0 : Buf (Elt F) (listW_c4.view.loc (Vt_c4 d L)))
    (hin : ∀ (o : Fin 2 → ℕ) (h : ∀ a, o a + S1x128.size a ≤ S40x128.size a) (x : S128.Idx),
      BitVec.toNat (View.read (Elt F) (rowM_c4 o h).view (listFill_c4 d L I g0) x) < 1000000)
    (hK : ∀ (c : ℕ) (hc : c < 40) (hin' : ∀ x : S128.Idx, BitVec.toNat (View.read (Elt F) (rowM_c4 ![c, 0] (rowInb_c4 c hc)).view (listFill_c4 d L I g0) x) < 1000000)
      (y : S128x128.Idx) (x : S163840x128.Idx), (x 0).val = 5120 * wid4 L + 128 * c + (y 0).val → (x 1).val = (y 1).val →
      landed_c4 d L tab (listFill_c4 d L I g0) ![c, 0] (rowInb_c4 c hc) hin' y = gathered4 (d := d) tab I x)
    (v2 : BitVec 32) (k : Fin k4_t1_loop.trips) (acc : PUnit) :
    inv0v_c4 q O W d L tab I g0 hin k.val acc
      ⊢ wp frame (wpE (defs₀ (F := F)) 𝒱₀ (Vt_c4 d L) none) Set.univ
          (k4_t1_body L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0 v2 k acc)
          (inv0v_c4 q O W d L tab I g0 hin (k.val + 1)) := by
  have hk8 : k.val < 8 := trips_eq_c4 ▸ k.isLt
  unfold inv0v_c4
  rw [dif_pos hk8]
  by_cases hk : k.val < 7
  · obtain ⟨hc1, hc2, hc3, hc4, hc5⟩ := conds_lt_c4 k hk
    have hk1 : k.val + 1 < 8 := by omega
    rw [dif_pos hk1]
    unfold k4_t1_body
    iintro ⟨%s0, %s1, %s2, %s3, %s4, %f, %hF, HP⟩
    unfold invFly_c4
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    rw [rowSet_congr_c4 d L (off4_c4 k) (k4_off4_inb k hc1) (rowInb0_c4 (k.val + 1) hk1), rowSet_congr_c4 d L (off5_c4 k) (k4_off5_inb k hc2) (rowInb1_c4 (k.val + 1) hk1),
      rowSet_congr_c4 d L (off6_c4 k) (k4_off6_inb k hc3) (rowInb2_c4 (k.val + 1) hk1), rowSet_congr_c4 d L (off7_c4 k) (k4_off7_inb k hc4) (rowInb3_c4 (k.val + 1) hk1),
      rowSet_congr_c4 d L (off8_c4 k) (k4_off8_inb k hc5) (rowInb4_c4 (k.val + 1) hk1)]
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    iexists _; iexists _; iexists _; iexists _; iexists _; iexists _
    isplitr
    swap
    · sl_close
    · ipureintro
      refine ⟨done5_c4 d L tab I g0 hin hK k hk8 s0 s1 s2 s3 s4 f hF, ?_, ?_, ?_, ?_, ?_⟩
      · exact (read_writes_whole_c4 _ _ _).trans (landed_congr_c4 d L tab _ (off4_c4 k) _ _ _ _)
      · exact (read_writes_whole_c4 _ _ _).trans (landed_congr_c4 d L tab _ (off5_c4 k) _ _ _ _)
      · exact (read_writes_whole_c4 _ _ _).trans (landed_congr_c4 d L tab _ (off6_c4 k) _ _ _ _)
      · exact (read_writes_whole_c4 _ _ _).trans (landed_congr_c4 d L tab _ (off7_c4 k) _ _ _ _)
      · exact (read_writes_whole_c4 _ _ _).trans (landed_congr_c4 d L tab _ (off8_c4 k) _ _ _ _)
  · obtain ⟨hc1, hc2, hc3, hc4, hc5⟩ := conds_last_c4 k hk
    rw [dif_neg (show ¬ k.val + 1 < 8 by omega)]
    unfold k4_t1_body
    iintro ⟨%s0, %s1, %s2, %s3, %s4, %f, %hF, HP⟩
    unfold invFly_c4
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c4 $$ HOw
    icases HO2 with ⟨%W', %hW', HO⟩
    set_option sl_exec.dmaWindow true in set_option sl_exec.dmaWindowLent true in sl_exec
    sl_step
    ihave HO' := (owesW_intro_c4 (W := W) (ins_none_c4 (ins_none_c4 (ins_none_c4 (ins_none_c4 (ins_none_c4 (ins_none_c4 (ins_none_c4 (ins_none_c4 (ins_none_c4 (ins_none_c4 hW' _) _) _) _) _) _) _) _) _) _)) $$ HO
    iexists _; iexists _; iexists _; iexists _; iexists _; iexists _
    isplitr
    swap
    · unfold invIdle_c4
      sl_close
    · ipureintro
      exact done5_c4 d L tab I g0 hin hK k hk8 s0 s1 s2 s3 s4 f hF

end Cert.Kernel.Hand

end
-- ==== Proof.BTile4v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.BTile4b

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c4 (d : Dev nD) (L : grid4.Coords) (q : PosShare TreeShare) (O : CellTallies nD τ sig (HIx 5)) (W : Waits sig (HIx 5))
    (tab : Buf (Elt F) (tabW_c4.view.loc (Vt_c4 d L))) (I : Buf (Elt F) ((idxBlkM_c4 L).view.loc (Vt_c4 d L)))
    (hI : ∀ z ∈ (idxBlkM_c4 L).view.set, BitVec.toNat (I z) < 1000000)
    (g0 : Buf (Elt F) (listW_c4.view.loc (Vt_c4 d L))) (r : Buf (Elt F) (ringW_c4.view.loc (Vt_c4 d L)))
    (f : Buf (Elt F) (outW_c4.view.loc (Vt_c4 d L))) :
    (iprop(Transfers.MayWaits (Vt_c4 d L) (default : HIx 5) O
        ∗ (tabW_c4.view.loc (Vt_c4 d L) ↦{Transfers.shareTok q 80 cc4_scratch2.sem} tab)
        ∗ (tabW_c4.view.loc (Vt_c4 d L) ↦{Transfers.shareTok q 80 cc4_scratch3.sem} tab)
        ∗ (tabW_c4.view.loc (Vt_c4 d L) ↦{Transfers.shareTok q 80 cc4_scratch4.sem} tab)
        ∗ (tabW_c4.view.loc (Vt_c4 d L) ↦{Transfers.shareTok q 80 cc4_scratch5.sem} tab)
        ∗ (tabW_c4.view.loc (Vt_c4 d L) ↦{Transfers.shareTok q 80 cc4_scratch6.sem} tab)
        ∗ ((idxBlkM_c4 L).view.loc (Vt_c4 d L) ↦[(idxBlkM_c4 L).view.set]{fullShare} I)
        ∗ (listW_c4.view.loc (Vt_c4 d L) ↦{fullShare} g0)
        ∗ (slot0M_c4.view.loc (Vt_c4 d L) ↦[slot0M_c4.view.set]{fullShare} r)
        ∗ (slot1M_c4.view.loc (Vt_c4 d L) ↦[slot1M_c4.view.set]{fullShare} r)
        ∗ (slot2M_c4.view.loc (Vt_c4 d L) ↦[slot2M_c4.view.set]{fullShare} r)
        ∗ (slot3M_c4.view.loc (Vt_c4 d L) ↦[slot3M_c4.view.set]{fullShare} r)
        ∗ (slot4M_c4.view.loc (Vt_c4 d L) ↦[slot4M_c4.view.set]{fullShare} r)
        ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
        ∗ owes (Vt_c4 d L) O W
        ∗ (outW_c4.view.loc (Vt_c4 d L) ↦[outW_c4.view.setOn (outWinR_c4 L).set]{fullShare} f)) : sProp (MM F))
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop((tabW_c4.view.loc (Vt_c4 d L) ↦{Transfers.shareTok q 80 cc4_scratch2.sem} tab)
            ∗ (tabW_c4.view.loc (Vt_c4 d L) ↦{Transfers.shareTok q 80 cc4_scratch3.sem} tab)
            ∗ (tabW_c4.view.loc (Vt_c4 d L) ↦{Transfers.shareTok q 80 cc4_scratch4.sem} tab)
            ∗ (tabW_c4.view.loc (Vt_c4 d L) ↦{Transfers.shareTok q 80 cc4_scratch5.sem} tab)
            ∗ (tabW_c4.view.loc (Vt_c4 d L) ↦{Transfers.shareTok q 80 cc4_scratch6.sem} tab)
            ∗ ((idxBlkM_c4 L).view.loc (Vt_c4 d L) ↦[(idxBlkM_c4 L).view.set]{fullShare} I)
            ∗ (∃ fl : Buf (Elt F) (listW_c4.view.loc (Vt_c4 d L)), listW_c4.view.loc (Vt_c4 d L) ↦{fullShare} fl)
            ∗ (∃ s : Buf (Elt F) (slot0M_c4.view.loc (Vt_c4 d L)), slot0M_c4.view.loc (Vt_c4 d L) ↦[slot0M_c4.view.set]{fullShare} s)
            ∗ (∃ s : Buf (Elt F) (slot1M_c4.view.loc (Vt_c4 d L)), slot1M_c4.view.loc (Vt_c4 d L) ↦[slot1M_c4.view.set]{fullShare} s)
            ∗ (∃ s : Buf (Elt F) (slot2M_c4.view.loc (Vt_c4 d L)), slot2M_c4.view.loc (Vt_c4 d L) ↦[slot2M_c4.view.set]{fullShare} s)
            ∗ (∃ s : Buf (Elt F) (slot3M_c4.view.loc (Vt_c4 d L)), slot3M_c4.view.loc (Vt_c4 d L) ↦[slot3M_c4.view.set]{fullShare} s)
            ∗ (∃ s : Buf (Elt F) (slot4M_c4.view.loc (Vt_c4 d L)), slot4M_c4.view.loc (Vt_c4 d L) ↦[slot4M_c4.view.set]{fullShare} s)
            ∗ semVal (Vt_c4 d L, SemLoc.dma cc4_scratch2.sem) 0 ∗ semVal (Vt_c4 d L, SemLoc.dma cc4_scratch3.sem) 0 ∗ semVal (Vt_c4 d L, SemLoc.dma cc4_scratch4.sem) 0 ∗ semVal (Vt_c4 d L, SemLoc.dma cc4_scratch5.sem) 0 ∗ semVal (Vt_c4 d L, SemLoc.dma cc4_scratch6.sem) 0 ∗ semVal (Vt_c4 d L, SemLoc.dma cc4_scratch7.sem) 0 ∗ semVal (Vt_c4 d L, SemLoc.dma cc4_scratch8.sem) 0 ∗ semVal (Vt_c4 d L, SemLoc.dma cc4_scratch9.sem) 0 ∗ semVal (Vt_c4 d L, SemLoc.dma cc4_scratch10.sem) 0 ∗ semVal (Vt_c4 d L, SemLoc.dma cc4_scratch11.sem) 0 ∗ semVal (Vt_c4 d L, SemLoc.dma cc4_scoped0.sem) 0
            ∗ owesW_c4 d L O W
            ∗ (∃ f' : Buf (Elt F) (outW_c4.view.loc (Vt_c4 d L)), (outW_c4.view.loc (Vt_c4 d L) ↦[outW_c4.view.setOn (outWinR_c4 L).set]{fullShare} f')
                ∗ ⌜∀ x : S163840x128.Idx, 5120 * wid4 L ≤ (x 0).val ∧ (x 0).val < 5120 * wid4 L + 5120 → f' x = gathered4 (d := d) tab I x⌝)) := by
  have hin := list_words_c4 d L I g0 hI
  have hI' : ∀ z ∈ idxRows4 d L, BitVec.toNat (I z) < 1000000 := fun z hz => hI z (by rw [set_idxBlkM_c4 d L]; exact hz)
  have hK := fun c hc hin' y x hx0 hx1 => landed_eq_gathered0_c4 (F := F) d L tab I g0 hI' c hc hin' y x hx0 hx1
  rw [cc4_gather_k_eq_skeleton]; unfold cc4_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c4 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c4 q O W d L tab I g0 hin hK _ k acc
  · unfold inv0v_c4
    rw [dif_pos (show 0 < 8 by decide)]
    ihave HO' := (owesW_intro_c4 (W := W) (ins_none_c4 (fun p hp => Or.inl hp) _)) $$ HO
    iexists _; iexists _; iexists _; iexists _; iexists _; iexists _
    isplitr
    swap
    · unfold invFly_c4
      sl_close
    · ipureintro
      refine ⟨fun x h1 h2 => absurd h2 (by omega), ?_, ?_, ?_, ?_, ?_⟩
      · exact (read_writes_whole_c4 _ _ _).trans (landed_congr_c4 d L tab _ (show (![0, 0] : Fin 2 → ℕ) = ![5 * 0 + 0, 0] from rfl) _ _ _ _)
      · exact (read_writes_whole_c4 _ _ _).trans (landed_congr_c4 d L tab _ (show (![1, 0] : Fin 2 → ℕ) = ![5 * 0 + 1, 0] from rfl) _ _ _ _)
      · exact (read_writes_whole_c4 _ _ _).trans (landed_congr_c4 d L tab _ (show (![2, 0] : Fin 2 → ℕ) = ![5 * 0 + 2, 0] from rfl) _ _ _ _)
      · exact (read_writes_whole_c4 _ _ _).trans (landed_congr_c4 d L tab _ (show (![3, 0] : Fin 2 → ℕ) = ![5 * 0 + 3, 0] from rfl) _ _ _ _)
      · exact (read_writes_whole_c4 _ _ _).trans (landed_congr_c4 d L tab _ (show (![4, 0] : Fin 2 → ℕ) = ![5 * 0 + 4, 0] from rfl) _ _ _ _)
  unfold inv0v_c4
  rw [dif_neg (show ¬ k4_t1_loop.trips < 8 by rw [trips_eq_c4]; decide)]
  iintro %acc ⟨%s0, %s1, %s2, %s3, %s4, %f', %hdone, HP⟩
  unfold invIdle_c4
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k4_t1_loop.lb k4_t1_loop.ub k4_t1_loop.st = 8 := trips_eq_c4
  rw [h8] at hdone
  have hfin : ∀ x : S163840x128.Idx, 5120 * wid4 L ≤ (x 0).val ∧ (x 0).val < 5120 * wid4 L + 5120 → f' x = gathered4 (d := d) tab I x :=
    fun x h => hdone x h.1 (by omega)
  sl_close

end Cert.Kernel.Hand

end
-- ==== Proof.BTile4Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.BTile4Wrap
import proofs.«206421_g46840913330738_cont_8to1c4_247_26_alg».proof.Proof.BTile4v

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body4 (d : Dev nD) (L : grid4.Coords) (tab : Buf (Elt F) (tabLoc4 d)) (I : Buf (Elt F) (idxLoc4 d)) (f : Buf (Elt F) (outLoc4 d))
    (hF : (K (F := F)).Facts) (hI : ∀ x ∈ idxRows4 d L, BitVec.toNat (I x) < 1000000)
    (O : CellTallies nD τ sig (HIx 5)) (W : Waits sig (HIx 5)) (hO : ∀ g, O g none = 0) :
    iprop(levAts (K (F := F)).L (K (F := F)).lev ∗ emp ∗ goRes4 d L tab I f
        ∗ scopedBufs (Vt_c4 d L) ∗ scopedSems0 (Vt_c4 d L) ∗ owes (Vt_c4 d L) O W)
      ⊢ wp frame (wpE (defs₀ (F := F)) 𝒱₀ (Vt_c4 d L) none) Set.univ
          (cc4_gather_k L tabW_c4 (Memref.isWhole_whole _) idxW_c4 (Memref.isWhole_whole _) outW_c4 (Memref.isWhole_whole _)
            listW_c4 (Memref.isWhole_whole _) ringW_c4 (Memref.isWhole_whole _)
            cc4_scratch2 cc4_scratch3 cc4_scratch4 cc4_scratch5 cc4_scratch6 cc4_scratch7 cc4_scratch8 cc4_scratch9 cc4_scratch10 cc4_scratch11 cc4_scoped0)
          fun _ => iprop(tdRes4 d L tab I ∗ scopedBufs (Vt_c4 d L) ∗ scopedSems0 (Vt_c4 d L)
            ∗ ∃ W', ⌜∀ p ∈ W', p ∈ W ∨ p.2 = none⌝ ∗ owes (Vt_c4 d L) O W') :=
  tile_body0_of_c4 (F := F) tile_runV0_c4 d L tab I f hF hI O W hO

end Cert.Kernel.Hand

end
-- ==== Proof.BTileObl4.lean ====
/-
  The launch theorem's obligation for gather call 2: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BTile4Body

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec4 (c : Fin τ.nSC) (s : Fin τ.nSub) :
    defs₀ (F := F) (.scVector c s) 4 ()
      = SparseCore.onTile hcore4 hsub4 (fun c s => cc4_gather_k (coordsV4 c s) (Memref.whole main_arg1_scv) (Memref.isWhole_whole _) (Memref.whole main_v11_scv) (Memref.isWhole_whole _) (Memref.whole main_v12_scv) (Memref.isWhole_whole _) (Memref.whole cc4_scratch0) (Memref.isWhole_whole _) (Memref.whole cc4_scratch1) (Memref.isWhole_whole _) cc4_scratch2 cc4_scratch3 cc4_scratch4 cc4_scratch5 cc4_scratch6 cc4_scratch7 cc4_scratch8 cc4_scratch9 cc4_scratch10 cc4_scratch11 cc4_scoped0) ⟨⟩ c s := rfl

/-- Every index word of the call's index array names a table row. -/
def InRange4 : Prop := ∀ (d : Dev nD) (x : S32x40x128.Idx), (BitVec.toNat (W13 m d (r main_v11) x)) < 1000000

/-- The task of call 2, for every subcore of its grid. -/
theorem tileObl4 (hR : InRange4 m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vec4]; simp only [SparseCore.onTile, hc, and_self, ↓reduceDIte]
  show iprop(_ ∗ _ ∗ goRes4 d (coordsV4 c i) (W13 m d (r main_arg1)) (W13 m d (r main_v11)) (W13 m d (r main_v12)) ∗ _) ⊢ wp _ _ _ _
    (fun _ => iprop(tdRes4 d (coordsV4 c i) (W13 m d (r main_arg1)) (W13 m d (r main_v11)) ∗ _))
  exact (tile_body4 d (coordsV4 c i) (W13 m d (r main_arg1)) (W13 m d (r main_v11)) (W13 m d (r main_v12)) facts (fun x _ => hR d x) O W hO).trans
    (wp_mono frame _ _ fun _ => obl_post)

end Cert.Kernel.Hand

end
-- ==== Proof.BTile6a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.BTile6Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c6 (d : Dev nD) (L : grid6.Coords) : Thread nD τ := V d (cV6 L) (jV6 L)

abbrev tabW_c6 : Memref sig .scVector .hbm S1000000x128 .f32 := Memref.whole main_arg1_scv
abbrev idxW_c6 : Memref sig .scVector .hbm S32x40x128 .i32 := Memref.whole main_v15_scv
abbrev outW_c6 : Memref sig .scVector .hbm S163840x128 .f32 := Memref.whole main_v16_scv
abbrev listW_c6 : Memref sig .scVector .vmem S40x128 .i32 := Memref.whole cc6_scratch0
abbrev ringW_c6 : Memref sig .scVector .vmem S5x128x128 .f32 := Memref.whole cc6_scratch1
/-- The table as every gather names it: the slice that is all of it. -/
abbrev tabS_c6 : Memref sig .scVector .hbm S1000000x128 .f32 :=
  tabW_c6.slice (Rect.unit (s := S1000000x128) ![0, 0] S1000000x128.size inb_S1000000x128_S1000000x128_0_0) (fun _ => rfl)
/-- The subcore's block of the index array, as the block copy names it. -/
abbrev idxBlkM_c6 (L : grid6.Coords) : Memref sig .scVector .hbm S40x128 .i32 :=
  (idxW_c6.slice (Rect.unit (s := S32x40x128) (k6_off1 L) S1x40x128.size (k6_off1_inb L)) (fun _ => rfl)).squeeze S40x128 squeezes_S1x40x128_S40x128
/-- The five slots of the ring. -/
abbrev slot0M_c6 : Memref sig .scVector .vmem S128x128 .f32 :=
  (ringW_c6.slice (Rect.unit (s := S5x128x128) ![0, 0, 0] S1x128x128.size inb_S5x128x128_S1x128x128_0_0_0) (fun _ => rfl)).squeeze S128x128 squeezes_S1x128x128_S128x128
abbrev slot1M_c6 : Memref sig .scVector .vmem S128x128 .f32 :=
  (ringW_c6.slice (Rect.unit (s := S5x128x128) ![1, 0, 0] S1x128x128.size inb_S5x128x128_S1x128x128_1_0_0) (fun _ => rfl)).squeeze S128x128 squeezes_S1x128x128_S128x128
abbrev slot2M_c6 : Memref sig .scVector .vmem S128x128 .f32 :=
  (ringW_c6.slice (Rect.unit (s := S5x128x128) ![2, 0, 0] S1x128x128.size inb_S5x128x128_S1x128x128_2_0_0) (fun _ => rfl)).squeeze S128x128 squeezes_S1x128x128_S128x128
abbrev slot3M_c6 : Memref sig .scVector .vmem S128x128 .f32 :=
  (ringW_c6.slice (Rect.unit (s := S5x128x128) ![3, 0, 0] S1x128x128.size inb_S5x128x128_S1x128x128_3_0_0) (fun _ => rfl)).squeeze S128x128 squeezes_S1x128x128_S128x128
abbrev slot4M_c6 : Memref sig .scVector .vmem S128x128 .f32 :=
  (ringW_c6.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c6 (o : Fin 2 → ℕ) (h : ∀ a, o a + S1x128.size a ≤ S40x128.size a) : Memref sig .scVector .vmem S128 .i32 :=
  (listW_c6.slice (Rect.unit (s := S40x128) o S1x128.size h) (fun _ => rfl)).squeeze S128 squeezes_S1x128_S128

theorem rowInb_c6 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c6 (g : ℕ) (h : g < 8) : ∀ a, (![5 * g + 0, 0] : Fin 2 → ℕ) a + S1x128.size a ≤ S40x128.size a := rowInb_c6 (5 * g + 0) (by omega)
theorem rowInb1_c6 (g : ℕ) (h : g < 8) : ∀ a, (![5 * g + 1, 0] : Fin 2 → ℕ) a + S1x128.size a ≤ S40x128.size a := rowInb_c6 (5 * g + 1) (by omega)
theorem rowInb2_c6 (g : ℕ) (h : g < 8) : ∀ a, (![5 * g + 2, 0] : Fin 2 → ℕ) a + S1x128.size a ≤ S40x128.size a := rowInb_c6 (5 * g + 2) (by omega)
theorem rowInb3_c6 (g : ℕ) (h : g < 8) : ∀ a, (![5 * g + 3, 0] : Fin 2 → ℕ) a + S1x128.size a ≤ S40x128.size a := rowInb_c6 (5 * g + 3) (by omega)
theorem rowInb4_c6 (g : ℕ) (h : g < 8) : ∀ a, (![5 * g + 4, 0] : Fin 2 → ℕ) a + S1x128.size a ≤ S40x128.size a := rowInb_c6 (5 * g + 4) (by omega)

theorem rowM_congr_c6 {o o' : Fin 2 → ℕ} (e : o = o') (h : ∀ a, o a + S1x128.size a ≤ S40x128.size a)
    (h' : ∀ a, o' a + S1x128.size a ≤ S40x128.size a) : rowM_c6 o h = rowM_c6 o' h' := by
  subst e; rfl

/-- The subcore's rows of the gathered array as a rectangle in the grid coordinates themselves. -/
theorem outWinR_inb_c6 (L : grid6.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c6 (L : grid6.Coords) : Rect S163840x128 :=
  Rect.unit (s := S163840x128) ![10240 * (L 1).val + 5120 * (L 0).val, 0] ![5120, 128] (outWinR_inb_c6 L)

theorem outWinR_eq_c6 (L : grid6.Coords) : outWinR_c6 L = outRect6 L :=
  Rect.unit_congr (by unfold wid6; rw [show 5120 * (2 * (L 1).val + (L 0).val) = 10240 * (L 1).val + 5120 * (L 0).val by omega]) _ _

/-! ## The trips' offsets and conditions in closed form -/

theorem off4_c6 (k : Fin k6_t1_loop.trips) : k6_off4 k = ![5 * (k.val + 1) + 0, 0] :=
  (k6_off4_eq k).trans (by rw [show 5 * (k.val + 1) + 0 = 5 * k.val + 5 by omega])
theorem off5_c6 (k : Fin k6_t1_loop.trips) : k6_off5 k = ![5 * (k.val + 1) + 1, 0] :=
  (k6_off5_eq k).trans (by rw [show 5 * (k.val + 1) + 1 = 5 * k.val + 6 by omega])
theorem off6_c6 (k : Fin k6_t1_loop.trips) : k6_off6 k = ![5 * (k.val + 1) + 2, 0] :=
  (k6_off6_eq k).trans (by rw [show 5 * (k.val + 1) + 2 = 5 * k.val + 7 by omega])
theorem off7_c6 (k : Fin k6_t1_loop.trips) : k6_off7 k = ![5 * (k.val + 1) + 3, 0] :=
  (k6_off7_eq k).trans (by rw [show 5 * (k.val + 1) + 3 = 5 * k.val + 8 by omega])
theorem off8_c6 (k : Fin k6_t1_loop.trips) : k6_off8 k = ![5 * (k.val + 1) + 4, 0] :=
  (k6_off8_eq k).trans (by rw [show 5 * (k.val + 1) + 4 = 5 * k.val + 9 by omega])

theorem conds_lt_c6 : ∀ k : Fin k6_t1_loop.trips, k.val < 7 →
    k6_cond1 k = 1#1 ∧ k6_cond2 k = 1#1 ∧ k6_cond3 k = 1#1 ∧ k6_cond4 k = 1#1 ∧ k6_cond5 k = 1#1 := by decide +kernel
theorem conds_last_c6 : ∀ k : Fin k6_t1_loop.trips, ¬ k.val < 7 →
    ¬ k6_cond1 k = 1#1 ∧ ¬ k6_cond2 k = 1#1 ∧ ¬ k6_cond3 k = 1#1 ∧ ¬ k6_cond4 k = 1#1 ∧ ¬ k6_cond5 k = 1#1 := by decide +kernel
theorem trips_eq_c6 : k6_t1_loop.trips = 8 := by decide +kernel

/-! ## The words of the list scratch are words of the block -/

theorem list_words_c6 (d : Dev nD) (L : grid6.Coords) (I : Buf (Elt F) ((idxBlkM_c6 L).view.loc (Vt_c6 d L)))
    (g0 : Buf (Elt F) (listW_c6.view.loc (Vt_c6 d L)))
    (hI : ∀ z ∈ (idxBlkM_c6 L).view.set, BitVec.toNat (I z) < 1000000)
    (o : Fin 2 → ℕ) (h : ∀ a, o a + S1x128.size a ≤ S40x128.size a) (x : S128.Idx) :
    BitVec.toNat (View.read (Elt F) (rowM_c6 o h).view
      (View.write (Elt F) listW_c6.view g0 (ReadAs.same.apply (View.read (Elt F) (idxBlkM_c6 L).view I)) Finset.univ) x) < 1000000 := by
  rw [View.read_apply]
  have e : (rowM_c6 o h).view.emb x = listW_c6.view.emb ((rowM_c6 o h).view.emb x) := rfl
  rw [e, View.write_emb_of_mem _ _ (Finset.mem_univ _)]
  simp only [cast_cast, cast_eq]
  show BitVec.toNat (View.read (Elt F) (idxBlkM_c6 L).view I _) < 1000000
  rw [View.read_apply]
  simp only [cast_eq]
  exact hI _ (View.emb_mem_set _ _)

theorem set_idxBlkM_c6 (d : Dev nD) (L : grid6.Coords) : (idxBlkM_c6 L).view.set = idxRows6 d L := by
  show ((idxW_c6.view.slice (Rect.unit (s := S32x40x128) (k6_off1 L) S1x40x128.size (k6_off1_inb L))).reshape S40x128 _).set = _
  rw [View.set_reshape]
  exact View.set_slice_whole _ _

/-! ## What lands -/

/-- The list scratch after the block of indices is copied into it. -/
abbrev listFill_c6 (d : Dev nD) (L : grid6.Coords) (I : Buf (Elt F) ((idxBlkM_c6 L).view.loc (Vt_c6 d L)))
    (g0 : Buf (Elt F) (listW_c6.view.loc (Vt_c6 d L))) : Buf (Elt F) (listW_c6.view.loc (Vt_c6 d L)) :=
  View.write (Elt F) listW_c6.view g0 (ReadAs.same.apply (View.read (Elt F) (idxBlkM_c6 L).view I)) Finset.univ

/-- What the gather over the list row at offsets o lands in its slot: at row j of the slot, the table row the j-th
    word of that list row names. -/
abbrev landed_c6 (d : Dev nD) (L : grid6.Coords) (tab : Buf (Elt F) (tabW_c6.view.loc (Vt_c6 d L)))
    (fl : Buf (Elt F) (listW_c6.view.loc (Vt_c6 d L))) (o : Fin 2 → ℕ) (h : ∀ a, o a + S1x128.size a ≤ S40x128.size a)
    (hin : ∀ x : S128.Idx, BitVec.toNat (View.read (Elt F) (rowM_c6 o h).view fl x) < 1000000) : S128x128.Idx → Elt F .f32 :=
  SparseCore.gatherPayload gathers_S1000000x128_S128x128 (View.read (Elt F) tabS_c6.view tab)
    (SparseCore.rows (View.read (Elt F) (rowM_c6 o h).view fl) rfl hin)

variable [FloatOps F]

/-! ## What the loop keeps -/

/-- The subcore owes what it owed, its waits recorded beyond W all at the launch's index. -/
def owesW_c6 (d : Dev nD) (L : grid6.Coords) (O : CellTallies nD τ sig (HIx 5)) (W : Waits sig (HIx 5)) : sProp (MM F) :=
  iprop(∃ W', ⌜∀ p ∈ W', p ∈ W ∨ p.2 = none⌝ ∗ owes (Vt_c6 d L) O W')

theorem owesW_intro_c6 {d : Dev nD} {L : grid6.Coords} {O : CellTallies nD τ sig (HIx 5)} {W W' : Waits sig (HIx 5)}
    (h : ∀ p ∈ W', p ∈ W ∨ p.2 = none) : (owes (Vt_c6 d L) O W' : sProp (MM F)) ⊢ owesW_c6 d L O W := by
  unfold owesW_c6
  iintro H
  iexists W'
  isplitr
  · ipureintro; exact h
  · iexact H

theorem owesW_elim_c6 {d : Dev nD} {L : grid6.Coords} {O : CellTallies nD τ sig (HIx 5)} {W : Waits sig (HIx 5)} :
    (owesW_c6 d L O W : sProp (MM F)) ⊢ iprop(∃ W', ⌜∀ p ∈ W', p ∈ W ∨ p.2 = none⌝ ∗ owes (Vt_c6 d L) O W') := by
  unfold owesW_c6; exact .rfl

theorem ins_none_c6 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c6 (d : Dev nD) (L : grid6.Coords) {o o' : Fin 2 → ℕ} (e : o = o')
    (h : ∀ a, o a + S1x128.size a ≤ S40x128.size a) (h' : ∀ a, o' a + S1x128.size a ≤ S40x128.size a) :
    ((rowM_c6 o h).view.set : Finset (Idx (listW_c6.view.loc (Vt_c6 d L)))) = (rowM_c6 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L))) (g : ℕ) (_ : PUnit) : sProp (MM F) :=
  iprop(Transfers.MayWaits (Vt_c6 d L) (default : HIx 5) O
    ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
    ∗ owesW_c6 d L O W
    ∗ (∃ f : Buf (Elt F) (outW_c6.view.loc (Vt_c6 d L)), outW_c6.view.loc (Vt_c6 d L) ↦[outW_c6.view.setOn (outWinR_c6 L).set]{fullShare} f)
    ∗ (if h : g < 8 then
        iprop(((∃ s : Buf (Elt F) (slot0M_c6.view.loc (Vt_c6 d L)),
            Transfers.Flight countersEmb (Vt_c6 d L) (SemLoc.dma cc6_scratch2.sem) (default : HIx 5) 524288
              iprop(((slot0M_c6.view.loc (Vt_c6 d L) ↦[slot0M_c6.view.set]{fullShare} s)
                  ∗ (listW_c6.view.loc (Vt_c6 d L) ↦[(rowM_c6 ![5 * g + 0, 0] (rowInb0_c6 g h)).view.set]{fullShare} fl))
                ∗ (tabW_c6.view.loc (Vt_c6 d L) ↦[tabS_c6.view.set]{Transfers.shareTok q 80 cc6_scratch2.sem} tab))
            ∗ (slot0M_c6.view.loc (Vt_c6 d L) ↦[slot0M_c6.view.set \ slot0M_c6.view.set]{fullShare} s))
          ∗ (tabW_c6.view.loc (Vt_c6 d L) ↦[Finset.univ \ tabS_c6.view.set]{Transfers.shareTok q 80 cc6_scratch2.sem} tab))
          ∗ ((∃ s : Buf (Elt F) (slot1M_c6.view.loc (Vt_c6 d L)),
            Transfers.Flight countersEmb (Vt_c6 d L) (SemLoc.dma cc6_scratch3.sem) (default : HIx 5) 524288
              iprop(((slot1M_c6.view.loc (Vt_c6 d L) ↦[slot1M_c6.view.set]{fullShare} s)
                  ∗ (listW_c6.view.loc (Vt_c6 d L) ↦[(rowM_c6 ![5 * g + 1, 0] (rowInb1_c6 g h)).view.set]{fullShare} fl))
                ∗ (tabW_c6.view.loc (Vt_c6 d L) ↦[tabS_c6.view.set]{Transfers.shareTok q 80 cc6_scratch3.sem} tab))
            ∗ (slot1M_c6.view.loc (Vt_c6 d L) ↦[slot1M_c6.view.set \ slot1M_c6.view.set]{fullShare} s))
          ∗ (tabW_c6.view.loc (Vt_c6 d L) ↦[Finset.univ \ tabS_c6.view.set]{Transfers.shareTok q 80 cc6_scratch3.sem} tab))
          ∗ ((∃ s : Buf (Elt F) (slot2M_c6.view.loc (Vt_c6 d L)),
            Transfers.Flight countersEmb (Vt_c6 d L) (SemLoc.dma cc6_scratch4.sem) (default : HIx 5) 524288
              iprop(((slot2M_c6.view.loc (Vt_c6 d L) ↦[slot2M_c6.view.set]{fullShare} s)
                  ∗ (listW_c6.view.loc (Vt_c6 d L) ↦[(rowM_c6 ![5 * g + 2, 0] (rowInb2_c6 g h)).view.set]{fullShare} fl))
                ∗ (tabW_c6.view.loc (Vt_c6 d L) ↦[tabS_c6.view.set]{Transfers.shareTok q 80 cc6_scratch4.sem} tab))
            ∗ (slot2M_c6.view.loc (Vt_c6 d L) ↦[slot2M_c6.view.set \ slot2M_c6.view.set]{fullShare} s))
          ∗ (tabW_c6.view.loc (Vt_c6 d L) ↦[Finset.univ \ tabS_c6.view.set]{Transfers.shareTok q 80 cc6_scratch4.sem} tab))
          ∗ ((∃ s : Buf (Elt F) (slot3M_c6.view.loc (Vt_c6 d L)),
            Transfers.Flight countersEmb (Vt_c6 d L) (SemLoc.dma cc6_scratch5.sem) (default : HIx 5) 524288
              iprop(((slot3M_c6.view.loc (Vt_c6 d L) ↦[slot3M_c6.view.set]{fullShare} s)
                  ∗ (listW_c6.view.loc (Vt_c6 d L) ↦[(rowM_c6 ![5 * g + 3, 0] (rowInb3_c6 g h)).view.set]{fullShare} fl))
                ∗ (tabW_c6.view.loc (Vt_c6 d L) ↦[tabS_c6.view.set]{Transfers.shareTok q 80 cc6_scratch5.sem} tab))
            ∗ (slot3M_c6.view.loc (Vt_c6 d L) ↦[slot3M_c6.view.set \ slot3M_c6.view.set]{fullShare} s))
          ∗ (tabW_c6.view.loc (Vt_c6 d L) ↦[Finset.univ \ tabS_c6.view.set]{Transfers.shareTok q 80 cc6_scratch5.sem} tab))
          ∗ ((∃ s : Buf (Elt F) (slot4M_c6.view.loc (Vt_c6 d L)),
            Transfers.Flight countersEmb (Vt_c6 d L) (SemLoc.dma cc6_scratch6.sem) (default : HIx 5) 524288
              iprop(((slot4M_c6.view.loc (Vt_c6 d L) ↦[slot4M_c6.view.set]{fullShare} s)
                  ∗ (listW_c6.view.loc (Vt_c6 d L) ↦[(rowM_c6 ![5 * g + 4, 0] (rowInb4_c6 g h)).view.set]{fullShare} fl))
                ∗ (tabW_c6.view.loc (Vt_c6 d L) ↦[tabS_c6.view.set]{Transfers.shareTok q 80 cc6_scratch6.sem} tab))
            ∗ (slot4M_c6.view.loc (Vt_c6 d L) ↦[slot4M_c6.view.set \ slot4M_c6.view.set]{fullShare} s))
          ∗ (tabW_c6.view.loc (Vt_c6 d L) ↦[Finset.univ \ tabS_c6.view.set]{Transfers.shareTok q 80 cc6_scratch6.sem} tab))
          ∗ (listW_c6.view.loc (Vt_c6 d L) ↦[((((Finset.univ \ (rowM_c6 ![5 * g + 0, 0] (rowInb0_c6 g h)).view.set) \ (rowM_c6 ![5 * g + 1, 0] (rowInb1_c6 g h)).view.set)
              \ (rowM_c6 ![5 * g + 2, 0] (rowInb2_c6 g h)).view.set) \ (rowM_c6 ![5 * g + 3, 0] (rowInb3_c6 g h)).view.set) \ (rowM_c6 ![5 * g + 4, 0] (rowInb4_c6 g h)).view.set]{fullShare} fl))
      else
        iprop(((tabW_c6.view.loc (Vt_c6 d L) ↦{Transfers.shareTok q 80 cc6_scratch2.sem} tab) ∗ semVal (Vt_c6 d L, SemLoc.dma cc6_scratch2.sem) 0
          ∗ (∃ s : Buf (Elt F) (slot0M_c6.view.loc (Vt_c6 d L)), slot0M_c6.view.loc (Vt_c6 d L) ↦[slot0M_c6.view.set]{fullShare} s))
          ∗ ((tabW_c6.view.loc (Vt_c6 d L) ↦{Transfers.shareTok q 80 cc6_scratch3.sem} tab) ∗ semVal (Vt_c6 d L, SemLoc.dma cc6_scratch3.sem) 0
          ∗ (∃ s : Buf (Elt F) (slot1M_c6.view.loc (Vt_c6 d L)), slot1M_c6.view.loc (Vt_c6 d L) ↦[slot1M_c6.view.set]{fullShare} s))
          ∗ ((tabW_c6.view.loc (Vt_c6 d L) ↦{Transfers.shareTok q 80 cc6_scratch4.sem} tab) ∗ semVal (Vt_c6 d L, SemLoc.dma cc6_scratch4.sem) 0
          ∗ (∃ s : Buf (Elt F) (slot2M_c6.view.loc (Vt_c6 d L)), slot2M_c6.view.loc (Vt_c6 d L) ↦[slot2M_c6.view.set]{fullShare} s))
          ∗ ((tabW_c6.view.loc (Vt_c6 d L) ↦{Transfers.shareTok q 80 cc6_scratch5.sem} tab) ∗ semVal (Vt_c6 d L, SemLoc.dma cc6_scratch5.sem) 0
          ∗ (∃ s : Buf (Elt F) (slot3M_c6.view.loc (Vt_c6 d L)), slot3M_c6.view.loc (Vt_c6 d L) ↦[slot3M_c6.view.set]{fullShare} s))
          ∗ ((tabW_c6.view.loc (Vt_c6 d L) ↦{Transfers.shareTok q 80 cc6_scratch6.sem} tab) ∗ semVal (Vt_c6 d L, SemLoc.dma cc6_scratch6.sem) 0
          ∗ (∃ s : Buf (Elt F) (slot4M_c6.view.loc (Vt_c6 d L)), slot4M_c6.view.loc (Vt_c6 d L) ↦[slot4M_c6.view.set]{fullShare} s))
          ∗ (listW_c6.view.loc (Vt_c6 d L) ↦{fullShare} fl))))

/-! ## One trip -/

set_option maxHeartbeats 4000000 in
theorem trip0_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view fl x) < 1000000)
    (v2 : BitVec 32) (k : Fin k6_t1_loop.trips) (acc : PUnit) :
    inv0_c6 d L q O W tab fl k.val acc
      ⊢ wp frame (wpE (defs₀ (F := F)) 𝒱₀ (Vt_c6 d L) none) Set.univ
          (k6_t1_body L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0 v2 k acc)
          (inv0_c6 d L q O W tab fl (k.val + 1)) := by
  have hk8 : k.val < 8 := trips_eq_c6 ▸ k.isLt
  unfold inv0_c6
  rw [dif_pos hk8]
  by_cases hk : k.val < 7
  · obtain ⟨hc1, hc2, hc3, hc4, hc5⟩ := conds_lt_c6 k hk
    rw [dif_pos (show k.val + 1 < 8 by omega)]
    unfold k6_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    rw [rowSet_congr_c6 d L (off4_c6 k) (k6_off4_inb k hc1) (rowInb0_c6 (k.val + 1) (by omega)), rowSet_congr_c6 d L (off5_c6 k) (k6_off5_inb k hc2) (rowInb1_c6 (k.val + 1) (by omega)),
      rowSet_congr_c6 d L (off6_c6 k) (k6_off6_inb k hc3) (rowInb2_c6 (k.val + 1) (by omega)), rowSet_congr_c6 d L (off7_c6 k) (k6_off7_inb k hc4) (rowInb3_c6 (k.val + 1) (by omega)),
      rowSet_congr_c6 d L (off8_c6 k) (k6_off8_inb k hc5) (rowInb4_c6 (k.val + 1) (by omega))]
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    sl_close
  · obtain ⟨hc1, hc2, hc3, hc4, hc5⟩ := conds_last_c6 k hk
    rw [dif_neg (show ¬ k.val + 1 < 8 by omega)]
    unfold k6_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    sl_close

end Cert.Kernel.Hand

end
-- ==== Proof.BTile6.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.BTile6a

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c6 (d : Dev nD) (L : grid6.Coords) (q : PosShare TreeShare) (O : CellTallies nD τ sig (HIx 5)) (W : Waits sig (HIx 5))
    (tab : Buf (Elt F) (tabW_c6.view.loc (Vt_c6 d L))) (I : Buf (Elt F) ((idxBlkM_c6 L).view.loc (Vt_c6 d L)))
    (hI : ∀ z ∈ (idxBlkM_c6 L).view.set, BitVec.toNat (I z) < 1000000)
    (g0 : Buf (Elt F) (listW_c6.view.loc (Vt_c6 d L))) (r : Buf (Elt F) (ringW_c6.view.loc (Vt_c6 d L)))
    (f : Buf (Elt F) (outW_c6.view.loc (Vt_c6 d L))) :
    (iprop(Transfers.MayWaits (Vt_c6 d L) (default : HIx 5) O
        ∗ (tabW_c6.view.loc (Vt_c6 d L) ↦{Transfers.shareTok q 80 cc6_scratch2.sem} tab)
        ∗ (tabW_c6.view.loc (Vt_c6 d L) ↦{Transfers.shareTok q 80 cc6_scratch3.sem} tab)
        ∗ (tabW_c6.view.loc (Vt_c6 d L) ↦{Transfers.shareTok q 80 cc6_scratch4.sem} tab)
        ∗ (tabW_c6.view.loc (Vt_c6 d L) ↦{Transfers.shareTok q 80 cc6_scratch5.sem} tab)
        ∗ (tabW_c6.view.loc (Vt_c6 d L) ↦{Transfers.shareTok q 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok q 80 cc6_scratch2.sem} tab)
            ∗ (tabW_c6.view.loc (Vt_c6 d L) ↦{Transfers.shareTok q 80 cc6_scratch3.sem} tab)
            ∗ (tabW_c6.view.loc (Vt_c6 d L) ↦{Transfers.shareTok q 80 cc6_scratch4.sem} tab)
            ∗ (tabW_c6.view.loc (Vt_c6 d L) ↦{Transfers.shareTok q 80 cc6_scratch5.sem} tab)
            ∗ (tabW_c6.view.loc (Vt_c6 d L) ↦{Transfers.shareTok q 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ (∃ f' : Buf (Elt F) (outW_c6.view.loc (Vt_c6 d L)), outW_c6.view.loc (Vt_c6 d L) ↦[outW_c6.view.setOn (outWinR_c6 L).set]{fullShare} f')) := by
  have hin := list_words_c6 d L I g0 hI
  rw [cc6_gather_k_eq_skeleton]; unfold cc6_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c6 d L q O W tab (View.write (Elt F) listW_c6.view g0 (ReadAs.same.apply (View.read (Elt F) (idxBlkM_c6 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c6 d L q O W tab _ hin _ k acc
  · unfold inv0_c6
    rw [dif_pos (show 0 < 8 by decide)]
    ihave HO' := (owesW_intro_c6 (W := W) (ins_none_c6 (fun p hp => Or.inl hp) _)) $$ HO
    sl_close
  iintro %acc HI
  unfold inv0_c6
  rw [dif_neg (show ¬ k6_t1_loop.trips < 8 by rw [trips_eq_c6]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.Kernel.Hand

end
-- ==== Proof.BTile6Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.BTile6a
import proofs.«206421_g46840913330738_cont_8to1c4_247_26_alg».proof.Proof.BTile6

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c6 : Fin 11 → DmaSem sig :=
  ![cc6_scratch2.sem, cc6_scratch3.sem, cc6_scratch4.sem, cc6_scratch5.sem, cc6_scratch6.sem, cc6_scratch7.sem,
    cc6_scratch8.sem, cc6_scratch9.sem, cc6_scratch10.sem, cc6_scratch11.sem, cc6_scoped0.sem]

theorem sems0_inj_c6 : Function.Injective sems0_c6 := by decide

/-- The k-th of them on the subcore at (c, i) of device d. -/
abbrev dcell0_c6 (d : Dev nD) (c : Fin τ.nSC) (i : Fin τ.nSub) (k : Fin 11) : GSem nD τ sig := (V d c i, .dma (sems0_c6 k))

theorem dcell0_mem_c6 (d : Dev nD) (c : Fin τ.nSC) (i : Fin τ.nSub) (k : Fin 11) : dcell0_c6 d c i k ∈ ownCells (V d c i) :=
  mem_ownCells.mpr ⟨rfl, (show ∀ s : DmaSem sig, (SemLoc.dma s : SemLoc sig).isScoped .scVector = true by decide) _⟩

/-- The eleven cells, each at zero. -/
def cells0_c6 (d : Dev nD) (L : grid6.Coords) : sProp (MM F) :=
  iprop(semVal (Vt_c6 d L, SemLoc.dma cc6_scratch2.sem) 0 ∗ semVal (Vt_c6 d L, SemLoc.dma cc6_scratch3.sem) 0
    ∗ semVal (Vt_c6 d L, SemLoc.dma cc6_scratch4.sem) 0 ∗ semVal (Vt_c6 d L, SemLoc.dma cc6_scratch5.sem) 0
    ∗ semVal (Vt_c6 d L, SemLoc.dma cc6_scratch6.sem) 0 ∗ semVal (Vt_c6 d L, SemLoc.dma cc6_scratch7.sem) 0
    ∗ semVal (Vt_c6 d L, SemLoc.dma cc6_scratch8.sem) 0 ∗ semVal (Vt_c6 d L, SemLoc.dma cc6_scratch9.sem) 0
    ∗ semVal (Vt_c6 d L, SemLoc.dma cc6_scratch10.sem) 0 ∗ semVal (Vt_c6 d L, SemLoc.dma cc6_scratch11.sem) 0
    ∗ semVal (Vt_c6 d L, SemLoc.dma cc6_scoped0.sem) 0)

/-- The subcore's own cells at zero: the eleven the kernel function names, and the rest. -/
theorem ownSems0_V0_c6 (d : Dev nD) (L : grid6.Coords) :
    (ownSems0 (Vt_c6 d L) : sProp (MM F))
      = iprop(cells0_c6 d L ∗ bigSep ((ownCells (Vt_c6 d L)) \ Finset.univ.image (dcell0_c6 d (cV6 L) (jV6 L))) fun g => semVal g 0) := by
  unfold SparseCore.Cfg.ownSems0
  rw [SparseCore.bigSep_sdiff_split' (t := Finset.univ.image (dcell0_c6 d (cV6 L) (jV6 L)))
      (Finset.image_subset_iff.mpr fun k _ => dcell0_mem_c6 d (cV6 L) (jV6 L) k),
    SparseCore.bigSep_image_of_injOn (fun a _ b _ h => sems0_inj_c6 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c6 (d : Dev nD) (L : grid6.Coords) :
    (ownBufs (Vt_c6 d L) : sProp (MM F))
      = iprop((∃ f, (Vt_c6 d L).loc cc6_scratch0 ↦{fullShare} f) ∗ (∃ f, (Vt_c6 d L).loc cc6_scratch1 ↦{fullShare} f)
          ∗ bigSep (((ownRefs (τ := τ) (.scVector (cV6 L) (jV6 L))).erase ((Proc.scVector (cV6 L) (jV6 L)).devRef cc6_scratch0)).erase
              ((Proc.scVector (cV6 L) (jV6 L)).devRef cc6_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV6 L) (jV6 L))
    (b := (Proc.scVector (cV6 L) (jV6 L)).devRef cc6_scratch0) rfl)).trans ?_
  rw [SparseCore.bigSep_erase' (Finset.mem_erase.mpr ⟨fun e => absurd (Proc.devRef_injective _ e) (show (cc6_scratch1 : Ref sig .scVector) ≠ cc6_scratch0 by decide),
    SparseCore.Cfg.mem_ownRefs_of_owner (p := Proc.scVector (cV6 L) (jV6 L)) (b := (Proc.scVector (cV6 L) (jV6 L)).devRef cc6_scratch1) rfl⟩)]

/-! ## The dealt pieces in the body's spelling -/

theorem pts_idx0_c6 (d : Dev nD) (L : grid6.Coords) (I : Buf (Elt F) (idxLoc6 d)) :
    ((idxBlkM_c6 L).view.loc (Vt_c6 d L) ↦[(idxBlkM_c6 L).view.set]{fullShare} I : sProp (MM F)) = idxLoc6 d ↦[idxRows6 d L]{fullShare} I := by
  rw [set_idxBlkM_c6 d L]

theorem setOn_out0_c6 (d : Dev nD) (L : grid6.Coords) :
    (outW_c6.view.setOn (outWinR_c6 L).set : Finset (Idx (outW_c6.view.loc (Vt_c6 d L)))) = outRows6 d L := by
  show Finset.map (Function.Embedding.refl _) (outWinR_c6 L).set = _
  rw [Finset.map_refl, outWinR_eq_c6]; rfl

theorem pts_out0_c6 (d : Dev nD) (L : grid6.Coords) (f : Buf (Elt F) (outLoc6 d)) :
    (outW_c6.view.loc (Vt_c6 d L) ↦[outW_c6.view.setOn (outWinR_c6 L).set]{fullShare} f : sProp (MM F)) = outLoc6 d ↦[outRows6 d L]{fullShare} f := by
  rw [setOn_out0_c6 d L]

/-- The read tokens of the table other than the five gather cells'. -/
abbrev otherToks0_c6 : Finset (Fin 80) :=
  ((((Finset.univ.erase cc6_scratch2.sem).erase cc6_scratch3.sem).erase cc6_scratch4.sem).erase cc6_scratch5.sem).erase cc6_scratch6.sem

/-- The subcore's read share of the table as one read token per cell: the five gather cells', and the remainder with
    the other cells' tokens. -/
theorem tabToks0_c6 (d : Dev nD) (L : grid6.Coords) (q : PosShare TreeShare) (tab : Buf (Elt F) (tabLoc6 d)) :
    (tabLoc6 d ↦[Finset.univ]{q} tab : sProp (MM F)) ⊣⊢ iprop((tabLoc6 d ↦[Finset.univ]{Transfers.shareDrop q 80} tab)
      ∗ (tabW_c6.view.loc (Vt_c6 d L) ↦{Transfers.shareTok q 80 cc6_scratch2.sem} tab)
      ∗ (tabW_c6.view.loc (Vt_c6 d L) ↦{Transfers.shareTok q 80 cc6_scratch3.sem} tab)
      ∗ (tabW_c6.view.loc (Vt_c6 d L) ↦{Transfers.shareTok q 80 cc6_scratch4.sem} tab)
      ∗ (tabW_c6.view.loc (Vt_c6 d L) ↦{Transfers.shareTok q 80 cc6_scratch5.sem} tab)
      ∗ (tabW_c6.view.loc (Vt_c6 d L) ↦{Transfers.shareTok q 80 cc6_scratch6.sem} tab)
      ∗ bigSep otherToks0_c6 fun i => (tabLoc6 d ↦[Finset.univ]{Transfers.shareTok q 80 i} tab : sProp (MM F))) := by
  have h := Transfers.pointsTo_toks (Ix := HIx 5) (Name := ℕ) (U := UU) (Lvl := ℕ) (ℓ := tabLoc6 d) (S := Finset.univ) (f := tab) q 80
  rw [SparseCore.bigSep_erase' (Finset.mem_univ (cc6_scratch2.sem : Fin 80)),
    SparseCore.bigSep_erase' (Finset.mem_erase.mpr ⟨(by decide : (cc6_scratch3.sem : Fin 80) ≠ cc6_scratch2.sem), Finset.mem_univ _⟩),
    SparseCore.bigSep_erase' (Finset.mem_erase.mpr ⟨(by decide : (cc6_scratch4.sem : Fin 80) ≠ cc6_scratch3.sem),
      Finset.mem_erase.mpr ⟨(by decide : (cc6_scratch4.sem : Fin 80) ≠ cc6_scratch2.sem), Finset.mem_univ _⟩⟩),
    SparseCore.bigSep_erase' (Finset.mem_erase.mpr ⟨(by decide : (cc6_scratch5.sem : Fin 80) ≠ cc6_scratch4.sem),
      Finset.mem_erase.mpr ⟨(by decide : (cc6_scratch5.sem : Fin 80) ≠ cc6_scratch3.sem),
        Finset.mem_erase.mpr ⟨(by decide : (cc6_scratch5.sem : Fin 80) ≠ cc6_scratch2.sem), Finset.mem_univ _⟩⟩⟩),
    SparseCore.bigSep_erase' (Finset.mem_erase.mpr ⟨(by decide : (cc6_scratch6.sem : Fin 80) ≠ cc6_scratch5.sem),
      Finset.mem_erase.mpr ⟨(by decide : (cc6_scratch6.sem : Fin 80) ≠ cc6_scratch4.sem),
        Finset.mem_erase.mpr ⟨(by decide : (cc6_scratch6.sem : Fin 80) ≠ cc6_scratch3.sem),
          Finset.mem_erase.mpr ⟨(by decide : (cc6_scratch6.sem : Fin 80) ≠ cc6_scratch2.sem), Finset.mem_univ _⟩⟩⟩⟩)] at h
  exact h

/-! ## The ring scratch as its five slots -/

theorem unit_congr2_c6 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c6 {κ : Kind} {sp : Space} {s : Shape} {e : EltTy} (v : View sig κ sp s e) {R R' : Rect s} (h : R = R') :
    (v.slice R).set = (v.slice R').set := by
  subst h; rfl

/-- Row k of the ring along its leading axis. -/
abbrev ringRow_c6 (d : Dev nD) (L : grid6.Coords) (k : Fin 5) : Finset (Idx (ringW_c6.view.loc (Vt_c6 d L))) :=
  ((View.whole cc6_scratch1 : View sig .scVector .vmem S5x128x128 .f32).slice (S5x128x128.rowRect 0 k)).set

theorem slot0_set_c6 (d : Dev nD) (L : grid6.Coords) : (slot0M_c6.view.set : Finset (Idx (ringW_c6.view.loc (Vt_c6 d L)))) = ringRow_c6 d L 0 := by
  show (((View.whole cc6_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot1_set_c6 (d : Dev nD) (L : grid6.Coords) : (slot1M_c6.view.set : Finset (Idx (ringW_c6.view.loc (Vt_c6 d L)))) = ringRow_c6 d L 1 := by
  show (((View.whole cc6_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot2_set_c6 (d : Dev nD) (L : grid6.Coords) : (slot2M_c6.view.set : Finset (Idx (ringW_c6.view.loc (Vt_c6 d L)))) = ringRow_c6 d L 2 := by
  show (((View.whole cc6_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot3_set_c6 (d : Dev nD) (L : grid6.Coords) : (slot3M_c6.view.set : Finset (Idx (ringW_c6.view.loc (Vt_c6 d L)))) = ringRow_c6 d L 3 := by
  show (((View.whole cc6_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)
theorem slot4_set_c6 (d : Dev nD) (L : grid6.Coords) : (slot4M_c6.view.set : Finset (Idx (ringW_c6.view.loc (Vt_c6 d L)))) = ringRow_c6 d L 4 := by
  show (((View.whole cc6_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c6 (View.whole cc6_scratch1 : View sig .scVector .vmem S5x128x128 .f32)
    (unit_congr2_c6 (by funext a; fin_cases a <;> rfl) (by funext a; fin_cases a <;> rfl) _ _)

/-- Five functions on the ring's rows, over the five rows, as the five slots each at its own function. -/
theorem ring_rows0_c6 (d : Dev nD) (L : grid6.Coords) (s : Fin 5 → Buf (Elt F) (ringW_c6.view.loc (Vt_c6 d L))) :
    (bigSep (Finset.univ : Finset (Fin 5)) fun k => (ringW_c6.view.loc (Vt_c6 d L) ↦[ringRow_c6 d L k]{fullShare} s k : sProp (MM F)))
      = iprop((slot0M_c6.view.loc (Vt_c6 d L) ↦[slot0M_c6.view.set]{fullShare} s 0)
        ∗ (slot1M_c6.view.loc (Vt_c6 d L) ↦[slot1M_c6.view.set]{fullShare} s 1)
        ∗ (slot2M_c6.view.loc (Vt_c6 d L) ↦[slot2M_c6.view.set]{fullShare} s 2)
        ∗ (slot3M_c6.view.loc (Vt_c6 d L) ↦[slot3M_c6.view.set]{fullShare} s 3)
        ∗ (slot4M_c6.view.loc (Vt_c6 d L) ↦[slot4M_c6.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c6 d L, slot1_set_c6 d L, slot2_set_c6 d L, slot3_set_c6 d L, slot4_set_c6 d L]

/-- The ring whole at one function is its five slots at that function. -/
theorem ring_split0_c6 (d : Dev nD) (L : grid6.Coords) (r : Buf (Elt F) (ringW_c6.view.loc (Vt_c6 d L))) :
    ((Vt_c6 d L).loc cc6_scratch1 ↦{fullShare} r : sProp (MM F))
      = iprop((slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)) := by
  rw [← ring_rows0_c6 d L (fun _ => r)]
  have h := pointsTo_rows (Ix := HIx 5) (Name := ℕ) (U := UU) (Lvl := ℕ) (Val := Elt F) (Vt_c6 d L)
    (View.whole cc6_scratch1 : View sig .scVector .vmem S5x128x128 .f32) 0 fullShare r
  rw [View.set_whole] at h
  exact h

/-- The five slots, each at some function, are the ring whole at some function. -/
theorem ring_join0_c6 (d : Dev nD) (L : grid6.Coords) (s : Fin 5 → Buf (Elt F) (ringW_c6.view.loc (Vt_c6 d L))) :
    iprop((slot0M_c6.view.loc (Vt_c6 d L) ↦[slot0M_c6.view.set]{fullShare} s 0)
        ∗ (slot1M_c6.view.loc (Vt_c6 d L) ↦[slot1M_c6.view.set]{fullShare} s 1)
        ∗ (slot2M_c6.view.loc (Vt_c6 d L) ↦[slot2M_c6.view.set]{fullShare} s 2)
        ∗ (slot3M_c6.view.loc (Vt_c6 d L) ↦[slot3M_c6.view.set]{fullShare} s 3)
        ∗ (slot4M_c6.view.loc (Vt_c6 d L) ↦[slot4M_c6.view.set]{fullShare} s 4))
      ⊢ (iprop(∃ f, (Vt_c6 d L).loc cc6_scratch1 ↦{fullShare} f) : sProp (MM F)) := by
  rw [← ring_rows0_c6 d L s]
  refine (pointsTo_biUnion_join (Ix := HIx 5) (Name := ℕ) (U := UU) (Lvl := ℕ) (ℓ := ringW_c6.view.loc (Vt_c6 d L)) (q := fullShare)
    Finset.univ (fun k : Fin 5 => ringRow_c6 d L k) s (s 0)
    (fun k _ k' _ h => (View.whole cc6_scratch1 : View sig .scVector .vmem S5x128x128 .f32).disjoint_rows 0 h)).trans ?_
  iintro ⟨%g, -, H⟩
  iexists g
  have e : (Finset.univ : Finset (Fin 5)).biUnion (fun k => ringRow_c6 d L k) = (Finset.univ : Finset (Idx (ringW_c6.view.loc (Vt_c6 d L)))) := by
    rw [← View.set_whole (cc6_scratch1 : Ref sig .scVector)]
    exact ((View.whole cc6_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c6 (d : Dev nD) (L : grid6.Coords) (tab : Buf (Elt F) (tabLoc6 d)) (I : Buf (Elt F) (idxLoc6 d))
    (f : Buf (Elt F) (outLoc6 d)) (hF : (K (F := F)).Facts) (hI : ∀ x ∈ idxRows6 d L, BitVec.toNat (I x) < 1000000)
    (O : CellTallies nD τ sig (HIx 5)) (W : Waits sig (HIx 5)) (hO : ∀ g, O g none = 0) (outP outQ : sProp (MM F))
    (hrun : ∀ (g0 : Buf (Elt F) (listW_c6.view.loc (Vt_c6 d L))) (r : Buf (Elt F) (ringW_c6.view.loc (Vt_c6 d L))),
      (iprop(Transfers.MayWaits (Vt_c6 d L) (default : HIx 5) O
        ∗ (tabW_c6.view.loc (Vt_c6 d L) ↦{Transfers.shareTok (Transfers.shareTok fullShare 32 ⟨wid6 L, wid_lt6 L⟩) 80 cc6_scratch2.sem} tab)
        ∗ (tabW_c6.view.loc (Vt_c6 d L) ↦{Transfers.shareTok (Transfers.shareTok fullShare 32 ⟨wid6 L, wid_lt6 L⟩) 80 cc6_scratch3.sem} tab)
        ∗ (tabW_c6.view.loc (Vt_c6 d L) ↦{Transfers.shareTok (Transfers.shareTok fullShare 32 ⟨wid6 L, wid_lt6 L⟩) 80 cc6_scratch4.sem} tab)
        ∗ (tabW_c6.view.loc (Vt_c6 d L) ↦{Transfers.shareTok (Transfers.shareTok fullShare 32 ⟨wid6 L, wid_lt6 L⟩) 80 cc6_scratch5.sem} tab)
        ∗ (tabW_c6.view.loc (Vt_c6 d L) ↦{Transfers.shareTok (Transfers.shareTok fullShare 32 ⟨wid6 L, wid_lt6 L⟩) 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok (Transfers.shareTok fullShare 32 ⟨wid6 L, wid_lt6 L⟩) 80 cc6_scratch2.sem} tab)
            ∗ (tabW_c6.view.loc (Vt_c6 d L) ↦{Transfers.shareTok (Transfers.shareTok fullShare 32 ⟨wid6 L, wid_lt6 L⟩) 80 cc6_scratch3.sem} tab)
            ∗ (tabW_c6.view.loc (Vt_c6 d L) ↦{Transfers.shareTok (Transfers.shareTok fullShare 32 ⟨wid6 L, wid_lt6 L⟩) 80 cc6_scratch4.sem} tab)
            ∗ (tabW_c6.view.loc (Vt_c6 d L) ↦{Transfers.shareTok (Transfers.shareTok fullShare 32 ⟨wid6 L, wid_lt6 L⟩) 80 cc6_scratch5.sem} tab)
            ∗ (tabW_c6.view.loc (Vt_c6 d L) ↦{Transfers.shareTok (Transfers.shareTok fullShare 32 ⟨wid6 L, wid_lt6 L⟩) 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ outP))
    (hclose : outP ⊢ outQ) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(((tabLoc6 d ↦[Finset.univ]{Transfers.shareTok fullShare 32 ⟨wid6 L, wid_lt6 L⟩} tab)
              ∗ (idxLoc6 d ↦[idxRows6 d L]{fullShare} I) ∗ outQ)
            ∗ scopedBufs (Vt_c6 d L) ∗ scopedSems0 (Vt_c6 d L)
            ∗ ∃ W', ⌜∀ p ∈ W', p ∈ W ∨ p.2 = none⌝ ∗ owes (Vt_c6 d L) O W') := by
  rw [(K (F := F)).scopedBufs_V hF d (cV6 L) (jV6 L), SparseCore.Cfg.scopedSems0_V (Val := Elt F) d (cV6 L) (jV6 L), ownSems0_V0_c6, ownBufs_V0_c6]
  unfold goRes6 cells0_c6
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c6 d L) hO) $$ Hlv
  ihave Htoks := (tabToks0_c6 (F := F) d L (Transfers.shareTok fullShare 32 ⟨wid6 L, wid_lt6 L⟩) tab).1 $$ Htab
  icases Htoks with ⟨Hdrop, Ht0, Ht1, Ht2, Ht3, Ht4, Hother⟩
  ihave Hidx' := (Entails.of_eq (pts_idx0_c6 (F := F) d L I).symm) $$ Hidx
  ihave Hout' := (Entails.of_eq (pts_out0_c6 (F := F) d L f).symm) $$ Hout
  ihave Hring := (Entails.of_eq (ring_split0_c6 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c6 d L) none) Set.univ
    (R := iprop((tabLoc6 d ↦[Finset.univ]{Transfers.shareDrop (Transfers.shareTok fullShare 32 ⟨wid6 L, wid_lt6 L⟩) 80} tab)
      ∗ (bigSep otherToks0_c6 fun i => (tabLoc6 d ↦[Finset.univ]{Transfers.shareTok (Transfers.shareTok fullShare 32 ⟨wid6 L, wid_lt6 L⟩) 80 i} tab : sProp (MM F)))
      ∗ (bigSep (((ownRefs (τ := τ) (.scVector (cV6 L) (jV6 L))).erase ((Proc.scVector (cV6 L) (jV6 L)).devRef cc6_scratch0)).erase
              ((Proc.scVector (cV6 L) (jV6 L)).devRef cc6_scratch1))
              fun b => iprop(∃ f, ((d, b) : Loc nD τ sig) ↦{fullShare} f))
      ∗ (bigSep ((ownCells (Vt_c6 d L)) \ Finset.univ.image (dcell0_c6 d (cV6 L) (jV6 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c6 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c6 (F := F) d L (Transfers.shareTok fullShare 32 ⟨wid6 L, wid_lt6 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c6 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c6 $$ HOw
  ihave Hq := hclose $$ Hout
  isplitl [Htab Hidx Hq]
  · isplitl [Htab]; · iexact Htab
    isplitl [Hidx]; · iapply (Entails.of_eq (pts_idx0_c6 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c6 (d : Dev nD) (L : grid6.Coords) :
    (iprop(∃ f' : Buf (Elt F) (outW_c6.view.loc (Vt_c6 d L)), outW_c6.view.loc (Vt_c6 d L) ↦[outW_c6.view.setOn (outWinR_c6 L).set]{fullShare} f') : sProp (MM F))
      ⊢ iprop(∃ f' : Buf (Elt F) (outLoc6 d), outLoc6 d ↦[outRows6 d L]{fullShare} f') := by
  iintro ⟨%f', H⟩
  iexists f'
  iapply (Entails.of_eq (pts_out0_c6 (F := F) d L f')); iexact H

/-- Rows the run leaves at contents that are the gathered rows on the subcore's rows are those rows at the gathered
    rows. -/
theorem out_valued0_c6 (d : Dev nD) (L : grid6.Coords) (tab : Buf (Elt F) (tabLoc6 d)) (I : Buf (Elt F) (idxLoc6 d)) :
    (iprop(∃ f' : Buf (Elt F) (outW_c6.view.loc (Vt_c6 d L)), (outW_c6.view.loc (Vt_c6 d L) ↦[outW_c6.view.setOn (outWinR_c6 L).set]{fullShare} f')
        ∗ ⌜∀ x : S163840x128.Idx, 5120 * wid6 L ≤ (x 0).val ∧ (x 0).val < 5120 * wid6 L + 5120 → f' x = gathered6 (d := d) tab I x⌝) : sProp (MM F))
      ⊢ (outLoc6 d ↦[outRows6 d L]{fullShare} gathered6 (d := d) tab I) := by
  iintro ⟨%f', H, %hf⟩
  have e : (outW_c6.view.loc (Vt_c6 d L) ↦[outW_c6.view.setOn (outWinR_c6 L).set]{fullShare} f' : sProp (MM F))
      = (outLoc6 d ↦[outRows6 d L]{fullShare} gathered6 (d := d) tab I) := by
    rw [pts_out0_c6 (F := F) d L f']
    exact pointsTo_congr (fun x hx => hf x ((mem_outRows6 d L x).mp hx))
  iapply (Entails.of_eq e); iexact H

/-! ## The task as the launch theorem's obligation consumes it -/

/-- The body's run with the gathered rows named: the statement of the run with, of the subcore's rows of the gathered
    array, contents that are the gathered rows on those rows. -/
def TileRunV0_c6 (F : FTy → Type) [FloatOps F] : Prop :=
  ∀ (d : Dev nD) (L : grid6.Coords) (q : PosShare TreeShare) (O : CellTallies nD τ sig (HIx 5)) (W : Waits sig (HIx 5))
    (tab : Buf (Elt F) (tabW_c6.view.loc (Vt_c6 d L))) (I : Buf (Elt F) ((idxBlkM_c6 L).view.loc (Vt_c6 d L)))
    (hI : ∀ z ∈ (idxBlkM_c6 L).view.set, BitVec.toNat (I z) < 1000000)
    (g0 : Buf (Elt F) (listW_c6.view.loc (Vt_c6 d L))) (r : Buf (Elt F) (ringW_c6.view.loc (Vt_c6 d L)))
    (f : Buf (Elt F) (outW_c6.view.loc (Vt_c6 d L))),
    (iprop(Transfers.MayWaits (Vt_c6 d L) (default : HIx 5) O
        ∗ (tabW_c6.view.loc (Vt_c6 d L) ↦{Transfers.shareTok q 80 cc6_scratch2.sem} tab)
        ∗ (tabW_c6.view.loc (Vt_c6 d L) ↦{Transfers.shareTok q 80 cc6_scratch3.sem} tab)
        ∗ (tabW_c6.view.loc (Vt_c6 d L) ↦{Transfers.shareTok q 80 cc6_scratch4.sem} tab)
        ∗ (tabW_c6.view.loc (Vt_c6 d L) ↦{Transfers.shareTok q 80 cc6_scratch5.sem} tab)
        ∗ (tabW_c6.view.loc (Vt_c6 d L) ↦{Transfers.shareTok q 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok q 80 cc6_scratch2.sem} tab)
            ∗ (tabW_c6.view.loc (Vt_c6 d L) ↦{Transfers.shareTok q 80 cc6_scratch3.sem} tab)
            ∗ (tabW_c6.view.loc (Vt_c6 d L) ↦{Transfers.shareTok q 80 cc6_scratch4.sem} tab)
            ∗ (tabW_c6.view.loc (Vt_c6 d L) ↦{Transfers.shareTok q 80 cc6_scratch5.sem} tab)
            ∗ (tabW_c6.view.loc (Vt_c6 d L) ↦{Transfers.shareTok q 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ (∃ f' : Buf (Elt F) (outW_c6.view.loc (Vt_c6 d L)), (outW_c6.view.loc (Vt_c6 d L) ↦[outW_c6.view.setOn (outWinR_c6 L).set]{fullShare} f')
                ∗ ⌜∀ x : S163840x128.Idx, 5120 * wid6 L ≤ (x 0).val ∧ (x 0).val < 5120 * wid6 L + 5120 → f' x = gathered6 (d := d) tab I x⌝))

/-- THE TASK, with the gathered rows: what the launch theorem's obligation for the call consumes, from the run with
    the gathered rows named. -/
theorem tile_body0_of_c6 (hrun : TileRunV0_c6 F) (d : Dev nD) (L : grid6.Coords) (tab : Buf (Elt F) (tabLoc6 d)) (I : Buf (Elt F) (idxLoc6 d))
    (f : Buf (Elt F) (outLoc6 d)) (hF : (K (F := F)).Facts) (hI : ∀ x ∈ idxRows6 d L, BitVec.toNat (I x) < 1000000)
    (O : CellTallies nD τ sig (HIx 5)) (W : Waits sig (HIx 5)) (hO : ∀ g, O g none = 0) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(tdRes6 d L tab I ∗ scopedBufs (Vt_c6 d L) ∗ scopedSems0 (Vt_c6 d L)
            ∗ ∃ W', ⌜∀ p ∈ W', p ∈ W ∨ p.2 = none⌝ ∗ owes (Vt_c6 d L) O W') := by
  unfold tdRes6
  exact tile_wrap0_c6 d L tab I f hF hI O W hO _ _
    (fun g0 r => hrun d L _ O W tab I (fun z hz => hI z (set_idxBlkM_c6 d L ▸ hz)) g0 r f) (out_valued0_c6 d L tab I)

/-- THE TASK, the rows at some contents: from the run as proved, which does not name what it gathers. -/
theorem tile_frame0_c6 (d : Dev nD) (L : grid6.Coords) (tab : Buf (Elt F) (tabLoc6 d)) (I : Buf (Elt F) (idxLoc6 d))
    (f : Buf (Elt F) (outLoc6 d)) (hF : (K (F := F)).Facts) (hI : ∀ x ∈ idxRows6 d L, BitVec.toNat (I x) < 1000000)
    (O : CellTallies nD τ sig (HIx 5)) (W : Waits sig (HIx 5)) (hO : ∀ g, O g none = 0) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(((tabLoc6 d ↦[Finset.univ]{Transfers.shareTok fullShare 32 ⟨wid6 L, wid_lt6 L⟩} tab)
              ∗ (idxLoc6 d ↦[idxRows6 d L]{fullShare} I) ∗ ∃ f' : Buf (Elt F) (outLoc6 d), outLoc6 d ↦[outRows6 d L]{fullShare} f')
            ∗ scopedBufs (Vt_c6 d L) ∗ scopedSems0 (Vt_c6 d L)
            ∗ ∃ W', ⌜∀ p ∈ W', p ∈ W ∨ p.2 = none⌝ ∗ owes (Vt_c6 d L) O W') :=
  tile_wrap0_c6 d L tab I f hF hI O W hO _ _
    (fun g0 r => tile_run0_c6 d L _ O W tab I (fun z hz => hI z (set_idxBlkM_c6 d L ▸ hz)) g0 r f) (out_frame0_c6 d L)

end Cert.Kernel.Hand

end
-- ==== Proof.BTile6k.lean ====
/-
  The value of one chunk of the first gather call.

  The subcore's list scratch holds its block of the index array: word (c, x) of the scratch is word (wid6, c, x) of the
  array. The gather of chunk c reads row c of the scratch as its list and lands, at row j of the ring slot, the table
  row that word (c, j) names. Row 5120 wid6 + 128 c + j of the whole-array function is the table row named by the
  index word at flat position 5120 wid6 + 128 c + j, which is word (wid6, c, j): the same row. So what a chunk's gather
  lands is its rows of the one function.
-/
import proofs.«206421_g46840913330738_cont_8to1c4_247_26_alg».proof.Proof.BTile6a
import Idealize.ShloMosaic.Lib.ValueIdx
import Idealize.ShloMosaic.Lib.Pipeline.Value

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c6 (d : Dev nD) (L : grid6.Coords) (fl : Buf (Elt F) (listW_c6.view.loc (Vt_c6 d L))) (c : ℕ) (hc : c < 40)
    (o : Fin 2 → ℕ) (h : ∀ a, o a + S1x128.size a ≤ S40x128.size a) (ho : o = ![c, 0]) (y : S128.Idx) :
    View.read (Elt F) (rowM_c6 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid6, c, x) of the index array. -/
theorem idxBlk_read0_c6 (d : Dev nD) (L : grid6.Coords) (I : Buf (Elt F) ((idxBlkM_c6 L).view.loc (Vt_c6 d L))) (z : S40x128.Idx) :
    View.read (Elt F) (idxBlkM_c6 L).view I z = I (ix3 (⟨wid6 L, wid_lt6 L⟩ : Fin 32) (z 0) (z 1)) := by
  rw [View.read_apply]
  simp only [cast_eq]
  congr 1
  show (Rect.unit (s := S32x40x128) (k6_off1 L) S1x40x128.size (k6_off1_inb L)).emb (Shape.reshapeEquiv _ z) = _
  rw [Shape.reshapeEquiv_cons_one]
  funext a
  apply Fin.ext
  rw [Rect.emb_apply]
  have e := k6_off1_eq L
  match a with
  | ⟨0, _⟩ => show k6_off1 L 0 + 1 * 0 = wid6 L; rw [e]; show 2 * (L 1).val + (L 0).val + 1 * 0 = wid6 L; unfold wid6; omega
  | ⟨1, _⟩ => show k6_off1 L 1 + 1 * (z 0).val = (z 0).val; rw [e]; show 0 + 1 * (z 0).val = (z 0).val; omega
  | ⟨2, _⟩ => show k6_off1 L 2 + 1 * (z 1).val = (z 1).val; rw [e]; show 0 + 1 * (z 1).val = (z 1).val; omega

/-- After the block copy the list scratch holds the subcore's block: word (c, x) is word (wid6, c, x) of the array. -/
theorem listFill_apply0_c6 (d : Dev nD) (L : grid6.Coords) (I : Buf (Elt F) ((idxBlkM_c6 L).view.loc (Vt_c6 d L)))
    (g0 : Buf (Elt F) (listW_c6.view.loc (Vt_c6 d L))) (z : S40x128.Idx) :
    listFill_c6 d L I g0 z = I (ix3 (⟨wid6 L, wid_lt6 L⟩ : Fin 32) (z 0) (z 1)) := by
  unfold listFill_c6
  show View.write (Elt F) listW_c6.view g0 _ Finset.univ (listW_c6.view.emb z) = _
  rw [View.write_emb_of_mem _ _ (Finset.mem_univ _)]
  simp only [cast_eq]
  exact idxBlk_read0_c6 d L I z

/-! ## What a chunk's gather lands is its rows of the whole-array function -/

/-- The flat position of word (w, c, j) of the index array. -/
theorem rowMajor_ix3_0_c6 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c6 (v : S1000000x128.Idx) : tabS_c6.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid6 + 128 c + j, column e. -/
theorem landed_eq_gathered0_c6 (d : Dev nD) (L : grid6.Coords) (tab : Buf (Elt F) (tabLoc6 d)) (I : Buf (Elt F) (idxLoc6 d))
    (g0 : Buf (Elt F) (listW_c6.view.loc (Vt_c6 d L)))
    (hI : ∀ z ∈ idxRows6 d L, BitVec.toNat (I z) < 1000000)
    (c : ℕ) (hc : c < 40)
    (hin : ∀ x : S128.Idx, BitVec.toNat (View.read (Elt F) (rowM_c6 ![c, 0] (rowInb_c6 c hc)).view (listFill_c6 d L I g0) x) < 1000000)
    (y : S128x128.Idx) (x : S163840x128.Idx)
    (hx0 : (x 0).val = 5120 * wid6 L + 128 * c + (y 0).val) (hx1 : (x 1).val = (y 1).val) :
    landed_c6 d L tab (listFill_c6 d L I g0) ![c, 0] (rowInb_c6 c hc) hin y = gathered6 tab I x := by
  rw [gathered6_apply]
  unfold landed_c6 SparseCore.gatherPayload
  rw [View.read_apply]
  simp only [cast_eq]
  congr 1
  refine (tabS_emb0_c6 _).trans ?_
  have hw : ∀ u : S128.Idx, View.read (Elt F) (rowM_c6 ![c, 0] (rowInb_c6 c hc)).view (listFill_c6 d L I g0) u
      = I (ix3 (⟨wid6 L, wid_lt6 L⟩ : Fin 32) (⟨c, hc⟩ : Fin 40) (u 0)) := fun u => by
    rw [rowM_read0_c6 d L _ c hc _ _ rfl u, listFill_apply0_c6]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll6 (fun r => gatherRow6 I r) x)).symm
    show BitVec.toNat (View.read (Elt F) (rowM_c6 ![c, 0] (rowInb_c6 c hc)).view (listFill_c6 d L I g0)
        (S128.rowMajor.symm (Fin.cast _ (y gathers_S1000000x128_S128x128.axis'))))
      = BitVec.toNat (I (S32x40x128.rowMajor.symm (Fin.cast _ (x gathersAll6.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll6.axis'))
        = ix3 (⟨wid6 L, wid_lt6 L⟩ : Fin 32) (⟨c, hc⟩ : Fin 40) (u 0) :=
      (Equiv.symm_apply_eq _).mpr (Fin.ext ((show (x gathersAll6.axis').val = 5120 * wid6 L + 128 * c + (u 0).val from by
        rw [hu0, ← hx0]; rfl).trans (rowMajor_ix3_0_c6 (⟨wid6 L, wid_lt6 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll6 (fun r => gatherRow6 I r) x ⟨1, by decide⟩ Nat.one_ne_zero).symm
    exact hx1.symm

end Cert.Kernel.Hand

end
-- ==== Proof.BTile6b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.BTile6a
import proofs.«206421_g46840913330738_cont_8to1c4_247_26_alg».proof.Proof.BTile6k

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c6 (d : Dev nD) (L : grid6.Coords) (tab : Buf (Elt F) (tabW_c6.view.loc (Vt_c6 d L))) (I : Buf (Elt F) ((idxBlkM_c6 L).view.loc (Vt_c6 d L)))
    (n : ℕ) (f : Buf (Elt F) (outW_c6.view.loc (Vt_c6 d L))) : Prop :=
  ∀ x : S163840x128.Idx, 5120 * wid6 L ≤ (x 0).val → (x 0).val < 5120 * wid6 L + 128 * n → f x = gathered6 (d := d) tab I x

/-- Before trip g < 8, of the contents: the rows of the chunks before 5g hold the gathered rows, and slot b is
    to hold what the gather of chunk 5g + b lands. -/
def FactsFly_c6 (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000) (g : ℕ) (h : g < 8) (s0 s1 s2 s3 s4 : Buf (Elt F) (ringW_c6.view.loc (Vt_c6 d L))) (f : Buf (Elt F) (outW_c6.view.loc (Vt_c6 d L))) : Prop :=
  DoneUpTo_c6 d L tab I (5 * g) f
    ∧ View.read (Elt F) slot0M_c6.view s0 = landed_c6 d L tab (listFill_c6 d L I g0) ![5 * g + 0, 0] (rowInb0_c6 g h) (hin _ _)
    ∧ View.read (Elt F) slot1M_c6.view s1 = landed_c6 d L tab (listFill_c6 d L I g0) ![5 * g + 1, 0] (rowInb1_c6 g h) (hin _ _)
    ∧ View.read (Elt F) slot2M_c6.view s2 = landed_c6 d L tab (listFill_c6 d L I g0) ![5 * g + 2, 0] (rowInb2_c6 g h) (hin _ _)
    ∧ View.read (Elt F) slot3M_c6.view s3 = landed_c6 d L tab (listFill_c6 d L I g0) ![5 * g + 3, 0] (rowInb3_c6 g h) (hin _ _)
    ∧ View.read (Elt F) slot4M_c6.view s4 = landed_c6 d L tab (listFill_c6 d L I g0) ![5 * g + 4, 0] (rowInb4_c6 g h) (hin _ _)

/-- A slot written whole reads back what was written. -/
theorem read_writes_whole_c6 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c6 (d : Dev nD) (L : grid6.Coords) (tab : Buf (Elt F) (tabW_c6.view.loc (Vt_c6 d L)))
    (fl : Buf (Elt F) (listW_c6.view.loc (Vt_c6 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c6 o h).view fl x) < 1000000)
    (hin' : ∀ x : S128.Idx, BitVec.toNat (View.read (Elt F) (rowM_c6 o' h').view fl x) < 1000000) :
    landed_c6 d L tab fl o h hin = landed_c6 d L tab fl o' h' hin' := by
  subst e; rfl

/-- One chunk copied out extends what is done by that chunk. -/
theorem done_step_c6 (d : Dev nD) (L : grid6.Coords) (tab : Buf (Elt F) (tabW_c6.view.loc (Vt_c6 d L))) (I : Buf (Elt F) ((idxBlkM_c6 L).view.loc (Vt_c6 d L)))
    (n : ℕ) (o : Fin 2 → ℕ) (ho : o = ![5120 * wid6 L + 128 * n, 0])
    (hinb : ∀ a, o a + S128x128.size a ≤ S163840x128.size a)
    (f : Buf (Elt F) (outW_c6.view.loc (Vt_c6 d L))) (p : S128x128.Idx → Elt F .f32)
    (hf : DoneUpTo_c6 d L tab I n f)
    (hp : ∀ (y : S128x128.Idx) (x : S163840x128.Idx), (x 0).val = 5120 * wid6 L + 128 * n + (y 0).val → (x 1).val = (y 1).val →
      p y = gathered6 (d := d) tab I x) :
    DoneUpTo_c6 d L tab I (n + 1)
      (View.write (Elt F) (outW_c6.slice (Rect.unit (s := S163840x128) o S128x128.size hinb) (fun _ => rfl)).view f p Finset.univ) := by
  subst ho
  intro x hlo hhi
  by_cases hx : (x 0).val < 5120 * wid6 L + 128 * n
  · rw [View.write_of_not_mem]
    · exact hf x hlo hx
    · rw [View.setOn_univ]
      show x ∉ ((View.whole main_v16_scv : View sig .scVector .hbm S163840x128 .f32).slice (Rect.unit (s := S163840x128) ![5120 * wid6 L + 128 * n, 0] S128x128.size hinb)).set
      rw [View.set_slice_whole, Rect.mem_set_unit]
      intro h
      have h0 : 5120 * wid6 L + 128 * n ≤ (x 0).val := (h 0).1
      omega
  · have hmem : x ∈ (Rect.unit (s := S163840x128) ![5120 * wid6 L + 128 * n, 0] S128x128.size hinb).set := by
      rw [Rect.mem_set_unit]
      intro a
      have h1 : (x 1).val < 128 := (x 1).isLt
      fin_cases a
      · show 5120 * wid6 L + 128 * n ≤ (x 0).val ∧ (x 0).val < 5120 * wid6 L + 128 * n + 128
        omega
      · show 0 ≤ (x 1).val ∧ (x 1).val < 0 + 128
        omega
    rw [← Rect.map_emb_univ] at hmem
    obtain ⟨y, -, rfl⟩ := Finset.mem_map.mp hmem
    have e : (outW_c6.slice (Rect.unit (s := S163840x128) ![5120 * wid6 L + 128 * n, 0] S128x128.size hinb) (fun _ => rfl)).view.emb y
        = (Rect.unit (s := S163840x128) ![5120 * wid6 L + 128 * n, 0] S128x128.size hinb).emb y := rfl
    rw [← e, View.write_emb_of_mem _ _ (Finset.mem_univ y)]
    simp only [cast_eq]
    refine hp y _ ?_ ?_
    · rw [e, Rect.emb_apply]
      show 5120 * wid6 L + 128 * n + 1 * (y 0).val = 5120 * wid6 L + 128 * n + (y 0).val
      omega
    · rw [e, Rect.emb_apply]
      show 0 + 1 * (y 1).val = (y 1).val
      omega

theorem off3c_c6 (L : grid6.Coords) (k : Fin k6_t1_loop.trips) (r : Fin 5) :
    k6_off3 L k (BitVec.ofNat 32 r.val) = ![5120 * wid6 L + 128 * (5 * k.val + r.val), 0] :=
  (k6_off3_eq L k r).trans (by unfold wid6; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c6 (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000)
    (hK : ∀ (c : ℕ) (hc : c < 40) (hin' : ∀ x : S128.Idx, BitVec.toNat (View.read (Elt F) (rowM_c6 ![c, 0] (rowInb_c6 c hc)).view (listFill_c6 d L I g0) x) < 1000000)
      (y : S128x128.Idx) (x : S163840x128.Idx), (x 0).val = 5120 * wid6 L + 128 * c + (y 0).val → (x 1).val = (y 1).val →
      landed_c6 d L tab (listFill_c6 d L I g0) ![c, 0] (rowInb_c6 c hc) hin' y = gathered6 (d := d) tab I x)
    (k : Fin k6_t1_loop.trips) (hk8 : k.val < 8) (s0 s1 s2 s3 s4 : Buf (Elt F) (ringW_c6.view.loc (Vt_c6 d L))) (f : Buf (Elt F) (outW_c6.view.loc (Vt_c6 d L)))
    (hF : FactsFly_c6 d L tab I g0 hin k.val hk8 s0 s1 s2 s3 s4 f) :
    DoneUpTo_c6 d L tab I (5 * (k.val + 1))
      (View.write (Elt F) (outW_c6.slice (Rect.unit (s := S163840x128) (k6_off3 L k 4#32) S128x128.size (k6_off3_inb L k 4)) (fun _ => rfl)).view (View.write (Elt F) (outW_c6.slice (Rect.unit (s := S163840x128) (k6_off3 L k 3#32) S128x128.size (k6_off3_inb L k 3)) (fun _ => rfl)).view (View.write (Elt F) (outW_c6.slice (Rect.unit (s := S163840x128) (k6_off3 L k 2#32) S128x128.size (k6_off3_inb L k 2)) (fun _ => rfl)).view (View.write (Elt F) (outW_c6.slice (Rect.unit (s := S163840x128) (k6_off3 L k 1#32) S128x128.size (k6_off3_inb L k 1)) (fun _ => rfl)).view (View.write (Elt F) (outW_c6.slice (Rect.unit (s := S163840x128) (k6_off3 L k 0#32) S128x128.size (k6_off3_inb L k 0)) (fun _ => rfl)).view f (ReadAs.same.apply (View.read (Elt F) slot0M_c6.view s0)) Finset.univ) (ReadAs.same.apply (View.read (Elt F) slot1M_c6.view s1)) Finset.univ) (ReadAs.same.apply (View.read (Elt F) slot2M_c6.view s2)) Finset.univ) (ReadAs.same.apply (View.read (Elt F) slot3M_c6.view s3)) Finset.univ) (ReadAs.same.apply (View.read (Elt F) slot4M_c6.view s4)) Finset.univ) := by
  obtain ⟨hd, h0, h1, h2, h3, h4⟩ := hF
  have e : 5 * (k.val + 1) = 5 * k.val + 0 + 1 + 1 + 1 + 1 + 1 := by omega
  rw [e]
  refine done_step_c6 d L tab I _ _ (off3c_c6 L k 4) _ _ _ ?_ ?_
  refine done_step_c6 d L tab I _ _ (off3c_c6 L k 3) _ _ _ ?_ ?_
  refine done_step_c6 d L tab I _ _ (off3c_c6 L k 2) _ _ _ ?_ ?_
  refine done_step_c6 d L tab I _ _ (off3c_c6 L k 1) _ _ _ ?_ ?_
  refine done_step_c6 d L tab I _ _ (off3c_c6 L k 0) _ _ _ ?_ ?_
  · exact hd
  · intro y x hx0 hx1
    show View.read (Elt F) slot0M_c6.view s0 y = _
    rw [h0]; exact hK (5 * k.val + 0) (by omega) _ y x hx0 hx1
  · intro y x hx0 hx1
    show View.read (Elt F) slot1M_c6.view s1 y = _
    rw [h1]; exact hK (5 * k.val + 1) (by omega) _ y x hx0 hx1
  · intro y x hx0 hx1
    show View.read (Elt F) slot2M_c6.view s2 y = _
    rw [h2]; exact hK (5 * k.val + 2) (by omega) _ y x hx0 hx1
  · intro y x hx0 hx1
    show View.read (Elt F) slot3M_c6.view s3 y = _
    rw [h3]; exact hK (5 * k.val + 3) (by omega) _ y x hx0 hx1
  · intro y x hx0 hx1
    show View.read (Elt F) slot4M_c6.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L))) (g : ℕ) (h : g < 8) (s0 s1 s2 s3 s4 : Buf (Elt F) (ringW_c6.view.loc (Vt_c6 d L))) (f : Buf (Elt F) (outW_c6.view.loc (Vt_c6 d L))) : sProp (MM F) :=
  iprop(Transfers.MayWaits (Vt_c6 d L) (default : HIx 5) O
    ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
    ∗ owesW_c6 d L O W
    ∗ (outW_c6.view.loc (Vt_c6 d L) ↦[outW_c6.view.setOn (outWinR_c6 L).set]{fullShare} f)
    ∗ ((Transfers.Flight countersEmb (Vt_c6 d L) (SemLoc.dma cc6_scratch2.sem) (default : HIx 5) 524288
              iprop(((slot0M_c6.view.loc (Vt_c6 d L) ↦[slot0M_c6.view.set]{fullShare} s0)
                  ∗ (listW_c6.view.loc (Vt_c6 d L) ↦[(rowM_c6 ![5 * g + 0, 0] (rowInb0_c6 g h)).view.set]{fullShare} fl))
                ∗ (tabW_c6.view.loc (Vt_c6 d L) ↦[tabS_c6.view.set]{Transfers.shareTok q 80 cc6_scratch2.sem} tab))
            ∗ (slot0M_c6.view.loc (Vt_c6 d L) ↦[slot0M_c6.view.set \ slot0M_c6.view.set]{fullShare} s0))
          ∗ (tabW_c6.view.loc (Vt_c6 d L) ↦[Finset.univ \ tabS_c6.view.set]{Transfers.shareTok q 80 cc6_scratch2.sem} tab))
    ∗ ((Transfers.Flight countersEmb (Vt_c6 d L) (SemLoc.dma cc6_scratch3.sem) (default : HIx 5) 524288
              iprop(((slot1M_c6.view.loc (Vt_c6 d L) ↦[slot1M_c6.view.set]{fullShare} s1)
                  ∗ (listW_c6.view.loc (Vt_c6 d L) ↦[(rowM_c6 ![5 * g + 1, 0] (rowInb1_c6 g h)).view.set]{fullShare} fl))
                ∗ (tabW_c6.view.loc (Vt_c6 d L) ↦[tabS_c6.view.set]{Transfers.shareTok q 80 cc6_scratch3.sem} tab))
            ∗ (slot1M_c6.view.loc (Vt_c6 d L) ↦[slot1M_c6.view.set \ slot1M_c6.view.set]{fullShare} s1))
          ∗ (tabW_c6.view.loc (Vt_c6 d L) ↦[Finset.univ \ tabS_c6.view.set]{Transfers.shareTok q 80 cc6_scratch3.sem} tab))
    ∗ ((Transfers.Flight countersEmb (Vt_c6 d L) (SemLoc.dma cc6_scratch4.sem) (default : HIx 5) 524288
              iprop(((slot2M_c6.view.loc (Vt_c6 d L) ↦[slot2M_c6.view.set]{fullShare} s2)
                  ∗ (listW_c6.view.loc (Vt_c6 d L) ↦[(rowM_c6 ![5 * g + 2, 0] (rowInb2_c6 g h)).view.set]{fullShare} fl))
                ∗ (tabW_c6.view.loc (Vt_c6 d L) ↦[tabS_c6.view.set]{Transfers.shareTok q 80 cc6_scratch4.sem} tab))
            ∗ (slot2M_c6.view.loc (Vt_c6 d L) ↦[slot2M_c6.view.set \ slot2M_c6.view.set]{fullShare} s2))
          ∗ (tabW_c6.view.loc (Vt_c6 d L) ↦[Finset.univ \ tabS_c6.view.set]{Transfers.shareTok q 80 cc6_scratch4.sem} tab))
    ∗ ((Transfers.Flight countersEmb (Vt_c6 d L) (SemLoc.dma cc6_scratch5.sem) (default : HIx 5) 524288
              iprop(((slot3M_c6.view.loc (Vt_c6 d L) ↦[slot3M_c6.view.set]{fullShare} s3)
                  ∗ (listW_c6.view.loc (Vt_c6 d L) ↦[(rowM_c6 ![5 * g + 3, 0] (rowInb3_c6 g h)).view.set]{fullShare} fl))
                ∗ (tabW_c6.view.loc (Vt_c6 d L) ↦[tabS_c6.view.set]{Transfers.shareTok q 80 cc6_scratch5.sem} tab))
            ∗ (slot3M_c6.view.loc (Vt_c6 d L) ↦[slot3M_c6.view.set \ slot3M_c6.view.set]{fullShare} s3))
          ∗ (tabW_c6.view.loc (Vt_c6 d L) ↦[Finset.univ \ tabS_c6.view.set]{Transfers.shareTok q 80 cc6_scratch5.sem} tab))
    ∗ ((Transfers.Flight countersEmb (Vt_c6 d L) (SemLoc.dma cc6_scratch6.sem) (default : HIx 5) 524288
              iprop(((slot4M_c6.view.loc (Vt_c6 d L) ↦[slot4M_c6.view.set]{fullShare} s4)
                  ∗ (listW_c6.view.loc (Vt_c6 d L) ↦[(rowM_c6 ![5 * g + 4, 0] (rowInb4_c6 g h)).view.set]{fullShare} fl))
                ∗ (tabW_c6.view.loc (Vt_c6 d L) ↦[tabS_c6.view.set]{Transfers.shareTok q 80 cc6_scratch6.sem} tab))
            ∗ (slot4M_c6.view.loc (Vt_c6 d L) ↦[slot4M_c6.view.set \ slot4M_c6.view.set]{fullShare} s4))
          ∗ (tabW_c6.view.loc (Vt_c6 d L) ↦[Finset.univ \ tabS_c6.view.set]{Transfers.shareTok q 80 cc6_scratch6.sem} tab))
    ∗ (listW_c6.view.loc (Vt_c6 d L) ↦[((((Finset.univ \ (rowM_c6 ![5 * g + 0, 0] (rowInb0_c6 g h)).view.set) \ (rowM_c6 ![5 * g + 1, 0] (rowInb1_c6 g h)).view.set)
              \ (rowM_c6 ![5 * g + 2, 0] (rowInb2_c6 g h)).view.set) \ (rowM_c6 ![5 * g + 3, 0] (rowInb3_c6 g h)).view.set) \ (rowM_c6 ![5 * g + 4, 0] (rowInb4_c6 g h)).view.set]{fullShare} fl))

/-- After the last trip: every cell at zero, the slots, the list and the shares back. -/
def invIdle_c6 (d : Dev nD) (L : grid6.Coords) (q : PosShare TreeShare) (O : CellTallies nD τ sig (HIx 5)) (W : Waits sig (HIx 5))
    (tab : Buf (Elt F) (tabW_c6.view.loc (Vt_c6 d L))) (fl : Buf (Elt F) (listW_c6.view.loc (Vt_c6 d L))) (s0 s1 s2 s3 s4 : Buf (Elt F) (ringW_c6.view.loc (Vt_c6 d L))) (f : Buf (Elt F) (outW_c6.view.loc (Vt_c6 d L))) : sProp (MM F) :=
  iprop(Transfers.MayWaits (Vt_c6 d L) (default : HIx 5) O
    ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
    ∗ owesW_c6 d L O W
    ∗ (outW_c6.view.loc (Vt_c6 d L) ↦[outW_c6.view.setOn (outWinR_c6 L).set]{fullShare} f)
    ∗ ((tabW_c6.view.loc (Vt_c6 d L) ↦{Transfers.shareTok q 80 cc6_scratch2.sem} tab) ∗ semVal (Vt_c6 d L, SemLoc.dma cc6_scratch2.sem) 0
          ∗ (slot0M_c6.view.loc (Vt_c6 d L) ↦[slot0M_c6.view.set]{fullShare} s0))
    ∗ ((tabW_c6.view.loc (Vt_c6 d L) ↦{Transfers.shareTok q 80 cc6_scratch3.sem} tab) ∗ semVal (Vt_c6 d L, SemLoc.dma cc6_scratch3.sem) 0
          ∗ (slot1M_c6.view.loc (Vt_c6 d L) ↦[slot1M_c6.view.set]{fullShare} s1))
    ∗ ((tabW_c6.view.loc (Vt_c6 d L) ↦{Transfers.shareTok q 80 cc6_scratch4.sem} tab) ∗ semVal (Vt_c6 d L, SemLoc.dma cc6_scratch4.sem) 0
          ∗ (slot2M_c6.view.loc (Vt_c6 d L) ↦[slot2M_c6.view.set]{fullShare} s2))
    ∗ ((tabW_c6.view.loc (Vt_c6 d L) ↦{Transfers.shareTok q 80 cc6_scratch5.sem} tab) ∗ semVal (Vt_c6 d L, SemLoc.dma cc6_scratch5.sem) 0
          ∗ (slot3M_c6.view.loc (Vt_c6 d L) ↦[slot3M_c6.view.set]{fullShare} s3))
    ∗ ((tabW_c6.view.loc (Vt_c6 d L) ↦{Transfers.shareTok q 80 cc6_scratch6.sem} tab) ∗ semVal (Vt_c6 d L, SemLoc.dma cc6_scratch6.sem) 0
          ∗ (slot4M_c6.view.loc (Vt_c6 d L) ↦[slot4M_c6.view.set]{fullShare} s4))
    ∗ (listW_c6.view.loc (Vt_c6 d L) ↦{fullShare} fl))

/-- What the loop keeps. -/
def inv0v_c6 (q : PosShare TreeShare) (O : CellTallies nD τ sig (HIx 5)) (W : Waits sig (HIx 5)) (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000) (g : ℕ) (_ : PUnit) : sProp (MM F) :=
  if h : g < 8 then
    iprop(∃ s0 s1 s2 s3 s4 f, ⌜FactsFly_c6 d L tab I g0 hin g h s0 s1 s2 s3 s4 f⌝ ∗ invFly_c6 d L q O W tab (listFill_c6 d L I g0) g h s0 s1 s2 s3 s4 f)
  else
    iprop(∃ s0 s1 s2 s3 s4 f, ⌜DoneUpTo_c6 d L tab I (5 * g) f⌝ ∗ invIdle_c6 d L q O W tab (listFill_c6 d L I g0) s0 s1 s2 s3 s4 f)

/-! ## One trip, with the contents -/

set_option maxHeartbeats 4000000 in
theorem trip0v_c6 (q : PosShare TreeShare) (O : CellTallies nD τ sig (HIx 5)) (W : Waits sig (HIx 5)) (d : Dev nD) (L : grid6.Coords) (tab : Buf (Elt F) (tabW_c6.view.loc (Vt_c6 d L))) (I : Buf (Elt F) ((idxBlkM_c6 L).view.loc (Vt_c6 d L)))
    (g0 : Buf (Elt F) (listW_c6.view.loc (Vt_c6 d L)))
    (hin : ∀ (o : Fin 2 → ℕ) (h : ∀ a, o a + S1x128.size a ≤ S40x128.size a) (x : S128.Idx),
      BitVec.toNat (View.read (Elt F) (rowM_c6 o h).view (listFill_c6 d L I g0) x) < 1000000)
    (hK : ∀ (c : ℕ) (hc : c < 40) (hin' : ∀ x : S128.Idx, BitVec.toNat (View.read (Elt F) (rowM_c6 ![c, 0] (rowInb_c6 c hc)).view (listFill_c6 d L I g0) x) < 1000000)
      (y : S128x128.Idx) (x : S163840x128.Idx), (x 0).val = 5120 * wid6 L + 128 * c + (y 0).val → (x 1).val = (y 1).val →
      landed_c6 d L tab (listFill_c6 d L I g0) ![c, 0] (rowInb_c6 c hc) hin' y = gathered6 (d := d) tab I x)
    (v2 : BitVec 32) (k : Fin k6_t1_loop.trips) (acc : PUnit) :
    inv0v_c6 q O W d L tab I g0 hin k.val acc
      ⊢ wp frame (wpE (defs₀ (F := F)) 𝒱₀ (Vt_c6 d L) none) Set.univ
          (k6_t1_body L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0 v2 k acc)
          (inv0v_c6 q O W d L tab I g0 hin (k.val + 1)) := by
  have hk8 : k.val < 8 := trips_eq_c6 ▸ k.isLt
  unfold inv0v_c6
  rw [dif_pos hk8]
  by_cases hk : k.val < 7
  · obtain ⟨hc1, hc2, hc3, hc4, hc5⟩ := conds_lt_c6 k hk
    have hk1 : k.val + 1 < 8 := by omega
    rw [dif_pos hk1]
    unfold k6_t1_body
    iintro ⟨%s0, %s1, %s2, %s3, %s4, %f, %hF, HP⟩
    unfold invFly_c6
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    rw [rowSet_congr_c6 d L (off4_c6 k) (k6_off4_inb k hc1) (rowInb0_c6 (k.val + 1) hk1), rowSet_congr_c6 d L (off5_c6 k) (k6_off5_inb k hc2) (rowInb1_c6 (k.val + 1) hk1),
      rowSet_congr_c6 d L (off6_c6 k) (k6_off6_inb k hc3) (rowInb2_c6 (k.val + 1) hk1), rowSet_congr_c6 d L (off7_c6 k) (k6_off7_inb k hc4) (rowInb3_c6 (k.val + 1) hk1),
      rowSet_congr_c6 d L (off8_c6 k) (k6_off8_inb k hc5) (rowInb4_c6 (k.val + 1) hk1)]
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    iexists _; iexists _; iexists _; iexists _; iexists _; iexists _
    isplitr
    swap
    · sl_close
    · ipureintro
      refine ⟨done5_c6 d L tab I g0 hin hK k hk8 s0 s1 s2 s3 s4 f hF, ?_, ?_, ?_, ?_, ?_⟩
      · exact (read_writes_whole_c6 _ _ _).trans (landed_congr_c6 d L tab _ (off4_c6 k) _ _ _ _)
      · exact (read_writes_whole_c6 _ _ _).trans (landed_congr_c6 d L tab _ (off5_c6 k) _ _ _ _)
      · exact (read_writes_whole_c6 _ _ _).trans (landed_congr_c6 d L tab _ (off6_c6 k) _ _ _ _)
      · exact (read_writes_whole_c6 _ _ _).trans (landed_congr_c6 d L tab _ (off7_c6 k) _ _ _ _)
      · exact (read_writes_whole_c6 _ _ _).trans (landed_congr_c6 d L tab _ (off8_c6 k) _ _ _ _)
  · obtain ⟨hc1, hc2, hc3, hc4, hc5⟩ := conds_last_c6 k hk
    rw [dif_neg (show ¬ k.val + 1 < 8 by omega)]
    unfold k6_t1_body
    iintro ⟨%s0, %s1, %s2, %s3, %s4, %f, %hF, HP⟩
    unfold invFly_c6
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c6 $$ HOw
    icases HO2 with ⟨%W', %hW', HO⟩
    set_option sl_exec.dmaWindow true in set_option sl_exec.dmaWindowLent true in sl_exec
    sl_step
    ihave HO' := (owesW_intro_c6 (W := W) (ins_none_c6 (ins_none_c6 (ins_none_c6 (ins_none_c6 (ins_none_c6 (ins_none_c6 (ins_none_c6 (ins_none_c6 (ins_none_c6 (ins_none_c6 hW' _) _) _) _) _) _) _) _) _) _)) $$ HO
    iexists _; iexists _; iexists _; iexists _; iexists _; iexists _
    isplitr
    swap
    · unfold invIdle_c6
      sl_close
    · ipureintro
      exact done5_c6 d L tab I g0 hin hK k hk8 s0 s1 s2 s3 s4 f hF

end Cert.Kernel.Hand

end
-- ==== Proof.BTile6v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.BTile6b

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c6 (d : Dev nD) (L : grid6.Coords) (q : PosShare TreeShare) (O : CellTallies nD τ sig (HIx 5)) (W : Waits sig (HIx 5))
    (tab : Buf (Elt F) (tabW_c6.view.loc (Vt_c6 d L))) (I : Buf (Elt F) ((idxBlkM_c6 L).view.loc (Vt_c6 d L)))
    (hI : ∀ z ∈ (idxBlkM_c6 L).view.set, BitVec.toNat (I z) < 1000000)
    (g0 : Buf (Elt F) (listW_c6.view.loc (Vt_c6 d L))) (r : Buf (Elt F) (ringW_c6.view.loc (Vt_c6 d L)))
    (f : Buf (Elt F) (outW_c6.view.loc (Vt_c6 d L))) :
    (iprop(Transfers.MayWaits (Vt_c6 d L) (default : HIx 5) O
        ∗ (tabW_c6.view.loc (Vt_c6 d L) ↦{Transfers.shareTok q 80 cc6_scratch2.sem} tab)
        ∗ (tabW_c6.view.loc (Vt_c6 d L) ↦{Transfers.shareTok q 80 cc6_scratch3.sem} tab)
        ∗ (tabW_c6.view.loc (Vt_c6 d L) ↦{Transfers.shareTok q 80 cc6_scratch4.sem} tab)
        ∗ (tabW_c6.view.loc (Vt_c6 d L) ↦{Transfers.shareTok q 80 cc6_scratch5.sem} tab)
        ∗ (tabW_c6.view.loc (Vt_c6 d L) ↦{Transfers.shareTok q 80 cc6_scratch6.sem} tab)
        ∗ ((idxBlkM_c6 L).view.loc (Vt_c6 d L) ↦[(idxBlkM_c6 L).view.set]{fullShare} I)
        ∗ (listW_c6.view.loc (Vt_c6 d L) ↦{fullShare} g0)
        ∗ (slot0M_c6.view.loc (Vt_c6 d L) ↦[slot0M_c6.view.set]{fullShare} r)
        ∗ (slot1M_c6.view.loc (Vt_c6 d L) ↦[slot1M_c6.view.set]{fullShare} r)
        ∗ (slot2M_c6.view.loc (Vt_c6 d L) ↦[slot2M_c6.view.set]{fullShare} r)
        ∗ (slot3M_c6.view.loc (Vt_c6 d L) ↦[slot3M_c6.view.set]{fullShare} r)
        ∗ (slot4M_c6.view.loc (Vt_c6 d L) ↦[slot4M_c6.view.set]{fullShare} r)
        ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
        ∗ owes (Vt_c6 d L) O W
        ∗ (outW_c6.view.loc (Vt_c6 d L) ↦[outW_c6.view.setOn (outWinR_c6 L).set]{fullShare} f)) : sProp (MM F))
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop((tabW_c6.view.loc (Vt_c6 d L) ↦{Transfers.shareTok q 80 cc6_scratch2.sem} tab)
            ∗ (tabW_c6.view.loc (Vt_c6 d L) ↦{Transfers.shareTok q 80 cc6_scratch3.sem} tab)
            ∗ (tabW_c6.view.loc (Vt_c6 d L) ↦{Transfers.shareTok q 80 cc6_scratch4.sem} tab)
            ∗ (tabW_c6.view.loc (Vt_c6 d L) ↦{Transfers.shareTok q 80 cc6_scratch5.sem} tab)
            ∗ (tabW_c6.view.loc (Vt_c6 d L) ↦{Transfers.shareTok q 80 cc6_scratch6.sem} tab)
            ∗ ((idxBlkM_c6 L).view.loc (Vt_c6 d L) ↦[(idxBlkM_c6 L).view.set]{fullShare} I)
            ∗ (∃ fl : Buf (Elt F) (listW_c6.view.loc (Vt_c6 d L)), listW_c6.view.loc (Vt_c6 d L) ↦{fullShare} fl)
            ∗ (∃ s : Buf (Elt F) (slot0M_c6.view.loc (Vt_c6 d L)), slot0M_c6.view.loc (Vt_c6 d L) ↦[slot0M_c6.view.set]{fullShare} s)
            ∗ (∃ s : Buf (Elt F) (slot1M_c6.view.loc (Vt_c6 d L)), slot1M_c6.view.loc (Vt_c6 d L) ↦[slot1M_c6.view.set]{fullShare} s)
            ∗ (∃ s : Buf (Elt F) (slot2M_c6.view.loc (Vt_c6 d L)), slot2M_c6.view.loc (Vt_c6 d L) ↦[slot2M_c6.view.set]{fullShare} s)
            ∗ (∃ s : Buf (Elt F) (slot3M_c6.view.loc (Vt_c6 d L)), slot3M_c6.view.loc (Vt_c6 d L) ↦[slot3M_c6.view.set]{fullShare} s)
            ∗ (∃ s : Buf (Elt F) (slot4M_c6.view.loc (Vt_c6 d L)), slot4M_c6.view.loc (Vt_c6 d L) ↦[slot4M_c6.view.set]{fullShare} s)
            ∗ semVal (Vt_c6 d L, SemLoc.dma cc6_scratch2.sem) 0 ∗ semVal (Vt_c6 d L, SemLoc.dma cc6_scratch3.sem) 0 ∗ semVal (Vt_c6 d L, SemLoc.dma cc6_scratch4.sem) 0 ∗ semVal (Vt_c6 d L, SemLoc.dma cc6_scratch5.sem) 0 ∗ semVal (Vt_c6 d L, SemLoc.dma cc6_scratch6.sem) 0 ∗ semVal (Vt_c6 d L, SemLoc.dma cc6_scratch7.sem) 0 ∗ semVal (Vt_c6 d L, SemLoc.dma cc6_scratch8.sem) 0 ∗ semVal (Vt_c6 d L, SemLoc.dma cc6_scratch9.sem) 0 ∗ semVal (Vt_c6 d L, SemLoc.dma cc6_scratch10.sem) 0 ∗ semVal (Vt_c6 d L, SemLoc.dma cc6_scratch11.sem) 0 ∗ semVal (Vt_c6 d L, SemLoc.dma cc6_scoped0.sem) 0
            ∗ owesW_c6 d L O W
            ∗ (∃ f' : Buf (Elt F) (outW_c6.view.loc (Vt_c6 d L)), (outW_c6.view.loc (Vt_c6 d L) ↦[outW_c6.view.setOn (outWinR_c6 L).set]{fullShare} f')
                ∗ ⌜∀ x : S163840x128.Idx, 5120 * wid6 L ≤ (x 0).val ∧ (x 0).val < 5120 * wid6 L + 5120 → f' x = gathered6 (d := d) tab I x⌝)) := by
  have hin := list_words_c6 d L I g0 hI
  have hI' : ∀ z ∈ idxRows6 d L, BitVec.toNat (I z) < 1000000 := fun z hz => hI z (by rw [set_idxBlkM_c6 d L]; exact hz)
  have hK := fun c hc hin' y x hx0 hx1 => landed_eq_gathered0_c6 (F := F) d L tab I g0 hI' c hc hin' y x hx0 hx1
  rw [cc6_gather_k_eq_skeleton]; unfold cc6_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c6 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c6 q O W d L tab I g0 hin hK _ k acc
  · unfold inv0v_c6
    rw [dif_pos (show 0 < 8 by decide)]
    ihave HO' := (owesW_intro_c6 (W := W) (ins_none_c6 (fun p hp => Or.inl hp) _)) $$ HO
    iexists _; iexists _; iexists _; iexists _; iexists _; iexists _
    isplitr
    swap
    · unfold invFly_c6
      sl_close
    · ipureintro
      refine ⟨fun x h1 h2 => absurd h2 (by omega), ?_, ?_, ?_, ?_, ?_⟩
      · exact (read_writes_whole_c6 _ _ _).trans (landed_congr_c6 d L tab _ (show (![0, 0] : Fin 2 → ℕ) = ![5 * 0 + 0, 0] from rfl) _ _ _ _)
      · exact (read_writes_whole_c6 _ _ _).trans (landed_congr_c6 d L tab _ (show (![1, 0] : Fin 2 → ℕ) = ![5 * 0 + 1, 0] from rfl) _ _ _ _)
      · exact (read_writes_whole_c6 _ _ _).trans (landed_congr_c6 d L tab _ (show (![2, 0] : Fin 2 → ℕ) = ![5 * 0 + 2, 0] from rfl) _ _ _ _)
      · exact (read_writes_whole_c6 _ _ _).trans (landed_congr_c6 d L tab _ (show (![3, 0] : Fin 2 → ℕ) = ![5 * 0 + 3, 0] from rfl) _ _ _ _)
      · exact (read_writes_whole_c6 _ _ _).trans (landed_congr_c6 d L tab _ (show (![4, 0] : Fin 2 → ℕ) = ![5 * 0 + 4, 0] from rfl) _ _ _ _)
  unfold inv0v_c6
  rw [dif_neg (show ¬ k6_t1_loop.trips < 8 by rw [trips_eq_c6]; decide)]
  iintro %acc ⟨%s0, %s1, %s2, %s3, %s4, %f', %hdone, HP⟩
  unfold invIdle_c6
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k6_t1_loop.lb k6_t1_loop.ub k6_t1_loop.st = 8 := trips_eq_c6
  rw [h8] at hdone
  have hfin : ∀ x : S163840x128.Idx, 5120 * wid6 L ≤ (x 0).val ∧ (x 0).val < 5120 * wid6 L + 5120 → f' x = gathered6 (d := d) tab I x :=
    fun x h => hdone x h.1 (by omega)
  sl_close

end Cert.Kernel.Hand

end
-- ==== Proof.BTile6Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.BTile6Wrap
import proofs.«206421_g46840913330738_cont_8to1c4_247_26_alg».proof.Proof.BTile6v

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body6 (d : Dev nD) (L : grid6.Coords) (tab : Buf (Elt F) (tabLoc6 d)) (I : Buf (Elt F) (idxLoc6 d)) (f : Buf (Elt F) (outLoc6 d))
    (hF : (K (F := F)).Facts) (hI : ∀ x ∈ idxRows6 d L, BitVec.toNat (I x) < 1000000)
    (O : CellTallies nD τ sig (HIx 5)) (W : Waits sig (HIx 5)) (hO : ∀ g, O g none = 0) :
    iprop(levAts (K (F := F)).L (K (F := F)).lev ∗ emp ∗ goRes6 d L tab I f
        ∗ scopedBufs (Vt_c6 d L) ∗ scopedSems0 (Vt_c6 d L) ∗ owes (Vt_c6 d L) O W)
      ⊢ wp frame (wpE (defs₀ (F := F)) 𝒱₀ (Vt_c6 d L) none) Set.univ
          (cc6_gather_k L tabW_c6 (Memref.isWhole_whole _) idxW_c6 (Memref.isWhole_whole _) outW_c6 (Memref.isWhole_whole _)
            listW_c6 (Memref.isWhole_whole _) ringW_c6 (Memref.isWhole_whole _)
            cc6_scratch2 cc6_scratch3 cc6_scratch4 cc6_scratch5 cc6_scratch6 cc6_scratch7 cc6_scratch8 cc6_scratch9 cc6_scratch10 cc6_scratch11 cc6_scoped0)
          fun _ => iprop(tdRes6 d L tab I ∗ scopedBufs (Vt_c6 d L) ∗ scopedSems0 (Vt_c6 d L)
            ∗ ∃ W', ⌜∀ p ∈ W', p ∈ W ∨ p.2 = none⌝ ∗ owes (Vt_c6 d L) O W') :=
  tile_body0_of_c6 (F := F) tile_runV0_c6 d L tab I f hF hI O W hO

end Cert.Kernel.Hand

end
-- ==== Proof.BTileObl6.lean ====
/-
  The launch theorem's obligation for gather call 3: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BTile6Body

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec6 (c : Fin τ.nSC) (s : Fin τ.nSub) :
    defs₀ (F := F) (.scVector c s) 6 ()
      = SparseCore.onTile hcore6 hsub6 (fun c s => cc6_gather_k (coordsV6 c s) (Memref.whole main_arg1_scv) (Memref.isWhole_whole _) (Memref.whole main_v15_scv) (Memref.isWhole_whole _) (Memref.whole main_v16_scv) (Memref.isWhole_whole _) (Memref.whole cc6_scratch0) (Memref.isWhole_whole _) (Memref.whole cc6_scratch1) (Memref.isWhole_whole _) cc6_scratch2 cc6_scratch3 cc6_scratch4 cc6_scratch5 cc6_scratch6 cc6_scratch7 cc6_scratch8 cc6_scratch9 cc6_scratch10 cc6_scratch11 cc6_scoped0) ⟨⟩ c s := rfl

/-- Every index word of the call's index array names a table row. -/
def InRange6 : Prop := ∀ (d : Dev nD) (x : S32x40x128.Idx), (BitVec.toNat (W18 m d (r main_v15) x)) < 1000000

/-- The task of call 3, for every subcore of its grid. -/
theorem tileObl6 (hR : InRange6 m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vec6]; simp only [SparseCore.onTile, hc, and_self, ↓reduceDIte]
  show iprop(_ ∗ _ ∗ goRes6 d (coordsV6 c i) (W18 m d (r main_arg1)) (W18 m d (r main_v15)) (W18 m d (r main_v16)) ∗ _) ⊢ wp _ _ _ _
    (fun _ => iprop(tdRes6 d (coordsV6 c i) (W18 m d (r main_arg1)) (W18 m d (r main_v15)) ∗ _))
  exact (tile_body6 d (coordsV6 c i) (W18 m d (r main_arg1)) (W18 m d (r main_v15)) (W18 m d (r main_v16)) facts (fun x _ => hR d x) O W hO).trans
    (wp_mono frame _ _ fun _ => obl_post)

end Cert.Kernel.Hand

end
-- ==== Proof.BTile8a.lean ====
/-
  The first gather call on one vector subcore, 1: the arrays and scratch as the subcore's program spells them, the
  trips' offsets and conditions in closed form, why every word of the list scratch names a table row, what the
  loop keeps from trip to trip, and one trip of the loop at a symbolic trip number.

  The protocol: the block of indices is copied into the list scratch; five gathers are started, chunk b into
  ring slot b on gather cell b, each reading its own row of the list and its own read share of the table; in
  trip g the subcore waits for gather b and starts the copy of slot b out to rows of chunk 5g+b of its part of the
  gathered array on copy cell b (b = 0..4), then waits for copy b and, while trips remain, starts the gather of
  chunk 5g+5+b into slot b (b = 0..4). No slot is touched between the issue of a transfer into or out of it and
  the wait for that transfer.
-/
import proofs.«206421_g46840913330738_cont_8to1c4_247_26_alg».proof.Proof.BTile8Defs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's thread, and the arrays and scratch as its program spells them -/

abbrev Vt_c8 (d : Dev nD) (L : grid8.Coords) : Thread nD τ := V d (cV8 L) (jV8 L)

abbrev tabW_c8 : Memref sig .scVector .hbm S1000000x128 .f32 := Memref.whole main_arg1_scv
abbrev idxW_c8 : Memref sig .scVector .hbm S32x40x128 .i32 := Memref.whole main_v19_scv
abbrev outW_c8 : Memref sig .scVector .hbm S163840x128 .f32 := Memref.whole main_v20_scv
abbrev listW_c8 : Memref sig .scVector .vmem S40x128 .i32 := Memref.whole cc8_scratch0
abbrev ringW_c8 : Memref sig .scVector .vmem S5x128x128 .f32 := Memref.whole cc8_scratch1
/-- The table as every gather names it: the slice that is all of it. -/
abbrev tabS_c8 : Memref sig .scVector .hbm S1000000x128 .f32 :=
  tabW_c8.slice (Rect.unit (s := S1000000x128) ![0, 0] S1000000x128.size inb_S1000000x128_S1000000x128_0_0) (fun _ => rfl)
/-- The subcore's block of the index array, as the block copy names it. -/
abbrev idxBlkM_c8 (L : grid8.Coords) : Memref sig .scVector .hbm S40x128 .i32 :=
  (idxW_c8.slice (Rect.unit (s := S32x40x128) (k8_off1 L) S1x40x128.size (k8_off1_inb L)) (fun _ => rfl)).squeeze S40x128 squeezes_S1x40x128_S40x128
/-- The five slots of the ring. -/
abbrev slot0M_c8 : Memref sig .scVector .vmem S128x128 .f32 :=
  (ringW_c8.slice (Rect.unit (s := S5x128x128) ![0, 0, 0] S1x128x128.size inb_S5x128x128_S1x128x128_0_0_0) (fun _ => rfl)).squeeze S128x128 squeezes_S1x128x128_S128x128
abbrev slot1M_c8 : Memref sig .scVector .vmem S128x128 .f32 :=
  (ringW_c8.slice (Rect.unit (s := S5x128x128) ![1, 0, 0] S1x128x128.size inb_S5x128x128_S1x128x128_1_0_0) (fun _ => rfl)).squeeze S128x128 squeezes_S1x128x128_S128x128
abbrev slot2M_c8 : Memref sig .scVector .vmem S128x128 .f32 :=
  (ringW_c8.slice (Rect.unit (s := S5x128x128) ![2, 0, 0] S1x128x128.size inb_S5x128x128_S1x128x128_2_0_0) (fun _ => rfl)).squeeze S128x128 squeezes_S1x128x128_S128x128
abbrev slot3M_c8 : Memref sig .scVector .vmem S128x128 .f32 :=
  (ringW_c8.slice (Rect.unit (s := S5x128x128) ![3, 0, 0] S1x128x128.size inb_S5x128x128_S1x128x128_3_0_0) (fun _ => rfl)).squeeze S128x128 squeezes_S1x128x128_S128x128
abbrev slot4M_c8 : Memref sig .scVector .vmem S128x128 .f32 :=
  (ringW_c8.slice (Rect.unit (s := S5x128x128) ![4, 0, 0] S1x128x128.size inb_S5x128x128_S1x128x128_4_0_0) (fun _ => rfl)).squeeze S128x128 squeezes_S1x128x128_S128x128
/-- A row of the list scratch, at the offsets the program computes. -/
abbrev rowM_c8 (o : Fin 2 → ℕ) (h : ∀ a, o a + S1x128.size a ≤ S40x128.size a) : Memref sig .scVector .vmem S128 .i32 :=
  (listW_c8.slice (Rect.unit (s := S40x128) o S1x128.size h) (fun _ => rfl)).squeeze S128 squeezes_S1x128_S128

theorem rowInb_c8 (c : ℕ) (hc : c < 40) : ∀ a, (![c, 0] : Fin 2 → ℕ) a + S1x128.size a ≤ S40x128.size a := by
  intro a
  fin_cases a
  · show c + 1 ≤ 40
    omega
  · show 0 + 128 ≤ 128
    omega

theorem rowInb0_c8 (g : ℕ) (h : g < 8) : ∀ a, (![5 * g + 0, 0] : Fin 2 → ℕ) a + S1x128.size a ≤ S40x128.size a := rowInb_c8 (5 * g + 0) (by omega)
theorem rowInb1_c8 (g : ℕ) (h : g < 8) : ∀ a, (![5 * g + 1, 0] : Fin 2 → ℕ) a + S1x128.size a ≤ S40x128.size a := rowInb_c8 (5 * g + 1) (by omega)
theorem rowInb2_c8 (g : ℕ) (h : g < 8) : ∀ a, (![5 * g + 2, 0] : Fin 2 → ℕ) a + S1x128.size a ≤ S40x128.size a := rowInb_c8 (5 * g + 2) (by omega)
theorem rowInb3_c8 (g : ℕ) (h : g < 8) : ∀ a, (![5 * g + 3, 0] : Fin 2 → ℕ) a + S1x128.size a ≤ S40x128.size a := rowInb_c8 (5 * g + 3) (by omega)
theorem rowInb4_c8 (g : ℕ) (h : g < 8) : ∀ a, (![5 * g + 4, 0] : Fin 2 → ℕ) a + S1x128.size a ≤ S40x128.size a := rowInb_c8 (5 * g + 4) (by omega)

theorem rowM_congr_c8 {o o' : Fin 2 → ℕ} (e : o = o') (h : ∀ a, o a + S1x128.size a ≤ S40x128.size a)
    (h' : ∀ a, o' a + S1x128.size a ≤ S40x128.size a) : rowM_c8 o h = rowM_c8 o' h' := by
  subst e; rfl

/-- The subcore's rows of the gathered array as a rectangle in the grid coordinates themselves. -/
theorem outWinR_inb_c8 (L : grid8.Coords) :
    ∀ a, (![10240 * (L 1).val + 5120 * (L 0).val, 0] : Fin 2 → ℕ) a + (![5120, 128] : Fin 2 → ℕ) a ≤ S163840x128.size a := by
  have h0 : (L 0).val < 2 := (L 0).isLt
  have h1 : (L 1).val < 16 := (L 1).isLt
  intro a
  fin_cases a
  · show 10240 * (L 1).val + 5120 * (L 0).val + 5120 ≤ 163840
    omega
  · show 0 + 128 ≤ 128
    omega

abbrev outWinR_c8 (L : grid8.Coords) : Rect S163840x128 :=
  Rect.unit (s := S163840x128) ![10240 * (L 1).val + 5120 * (L 0).val, 0] ![5120, 128] (outWinR_inb_c8 L)

theorem outWinR_eq_c8 (L : grid8.Coords) : outWinR_c8 L = outRect8 L :=
  Rect.unit_congr (by unfold wid8; rw [show 5120 * (2 * (L 1).val + (L 0).val) = 10240 * (L 1).val + 5120 * (L 0).val by omega]) _ _

/-! ## The trips' offsets and conditions in closed form -/

theorem off4_c8 (k : Fin k8_t1_loop.trips) : k8_off4 k = ![5 * (k.val + 1) + 0, 0] :=
  (k8_off4_eq k).trans (by rw [show 5 * (k.val + 1) + 0 = 5 * k.val + 5 by omega])
theorem off5_c8 (k : Fin k8_t1_loop.trips) : k8_off5 k = ![5 * (k.val + 1) + 1, 0] :=
  (k8_off5_eq k).trans (by rw [show 5 * (k.val + 1) + 1 = 5 * k.val + 6 by omega])
theorem off6_c8 (k : Fin k8_t1_loop.trips) : k8_off6 k = ![5 * (k.val + 1) + 2, 0] :=
  (k8_off6_eq k).trans (by rw [show 5 * (k.val + 1) + 2 = 5 * k.val + 7 by omega])
theorem off7_c8 (k : Fin k8_t1_loop.trips) : k8_off7 k = ![5 * (k.val + 1) + 3, 0] :=
  (k8_off7_eq k).trans (by rw [show 5 * (k.val + 1) + 3 = 5 * k.val + 8 by omega])
theorem off8_c8 (k : Fin k8_t1_loop.trips) : k8_off8 k = ![5 * (k.val + 1) + 4, 0] :=
  (k8_off8_eq k).trans (by rw [show 5 * (k.val + 1) + 4 = 5 * k.val + 9 by omega])

theorem conds_lt_c8 : ∀ k : Fin k8_t1_loop.trips, k.val < 7 →
    k8_cond1 k = 1#1 ∧ k8_cond2 k = 1#1 ∧ k8_cond3 k = 1#1 ∧ k8_cond4 k = 1#1 ∧ k8_cond5 k = 1#1 := by decide +kernel
theorem conds_last_c8 : ∀ k : Fin k8_t1_loop.trips, ¬ k.val < 7 →
    ¬ k8_cond1 k = 1#1 ∧ ¬ k8_cond2 k = 1#1 ∧ ¬ k8_cond3 k = 1#1 ∧ ¬ k8_cond4 k = 1#1 ∧ ¬ k8_cond5 k = 1#1 := by decide +kernel
theorem trips_eq_c8 : k8_t1_loop.trips = 8 := by decide +kernel

/-! ## The words of the list scratch are words of the block -/

theorem list_words_c8 (d : Dev nD) (L : grid8.Coords) (I : Buf (Elt F) ((idxBlkM_c8 L).view.loc (Vt_c8 d L)))
    (g0 : Buf (Elt F) (listW_c8.view.loc (Vt_c8 d L)))
    (hI : ∀ z ∈ (idxBlkM_c8 L).view.set, BitVec.toNat (I z) < 1000000)
    (o : Fin 2 → ℕ) (h : ∀ a, o a + S1x128.size a ≤ S40x128.size a) (x : S128.Idx) :
    BitVec.toNat (View.read (Elt F) (rowM_c8 o h).view
      (View.write (Elt F) listW_c8.view g0 (ReadAs.same.apply (View.read (Elt F) (idxBlkM_c8 L).view I)) Finset.univ) x) < 1000000 := by
  rw [View.read_apply]
  have e : (rowM_c8 o h).view.emb x = listW_c8.view.emb ((rowM_c8 o h).view.emb x) := rfl
  rw [e, View.write_emb_of_mem _ _ (Finset.mem_univ _)]
  simp only [cast_cast, cast_eq]
  show BitVec.toNat (View.read (Elt F) (idxBlkM_c8 L).view I _) < 1000000
  rw [View.read_apply]
  simp only [cast_eq]
  exact hI _ (View.emb_mem_set _ _)

theorem set_idxBlkM_c8 (d : Dev nD) (L : grid8.Coords) : (idxBlkM_c8 L).view.set = idxRows8 d L := by
  show ((idxW_c8.view.slice (Rect.unit (s := S32x40x128) (k8_off1 L) S1x40x128.size (k8_off1_inb L))).reshape S40x128 _).set = _
  rw [View.set_reshape]
  exact View.set_slice_whole _ _

/-! ## What lands -/

/-- The list scratch after the block of indices is copied into it. -/
abbrev listFill_c8 (d : Dev nD) (L : grid8.Coords) (I : Buf (Elt F) ((idxBlkM_c8 L).view.loc (Vt_c8 d L)))
    (g0 : Buf (Elt F) (listW_c8.view.loc (Vt_c8 d L))) : Buf (Elt F) (listW_c8.view.loc (Vt_c8 d L)) :=
  View.write (Elt F) listW_c8.view g0 (ReadAs.same.apply (View.read (Elt F) (idxBlkM_c8 L).view I)) Finset.univ

/-- What the gather over the list row at offsets o lands in its slot: at row j of the slot, the table row the j-th
    word of that list row names. -/
abbrev landed_c8 (d : Dev nD) (L : grid8.Coords) (tab : Buf (Elt F) (tabW_c8.view.loc (Vt_c8 d L)))
    (fl : Buf (Elt F) (listW_c8.view.loc (Vt_c8 d L))) (o : Fin 2 → ℕ) (h : ∀ a, o a + S1x128.size a ≤ S40x128.size a)
    (hin : ∀ x : S128.Idx, BitVec.toNat (View.read (Elt F) (rowM_c8 o h).view fl x) < 1000000) : S128x128.Idx → Elt F .f32 :=
  SparseCore.gatherPayload gathers_S1000000x128_S128x128 (View.read (Elt F) tabS_c8.view tab)
    (SparseCore.rows (View.read (Elt F) (rowM_c8 o h).view fl) rfl hin)

variable [FloatOps F]

/-! ## What the loop keeps -/

/-- The subcore owes what it owed, its waits recorded beyond W all at the launch's index. -/
def owesW_c8 (d : Dev nD) (L : grid8.Coords) (O : CellTallies nD τ sig (HIx 5)) (W : Waits sig (HIx 5)) : sProp (MM F) :=
  iprop(∃ W', ⌜∀ p ∈ W', p ∈ W ∨ p.2 = none⌝ ∗ owes (Vt_c8 d L) O W')

theorem owesW_intro_c8 {d : Dev nD} {L : grid8.Coords} {O : CellTallies nD τ sig (HIx 5)} {W W' : Waits sig (HIx 5)}
    (h : ∀ p ∈ W', p ∈ W ∨ p.2 = none) : (owes (Vt_c8 d L) O W' : sProp (MM F)) ⊢ owesW_c8 d L O W := by
  unfold owesW_c8
  iintro H
  iexists W'
  isplitr
  · ipureintro; exact h
  · iexact H

theorem owesW_elim_c8 {d : Dev nD} {L : grid8.Coords} {O : CellTallies nD τ sig (HIx 5)} {W : Waits sig (HIx 5)} :
    (owesW_c8 d L O W : sProp (MM F)) ⊢ iprop(∃ W', ⌜∀ p ∈ W', p ∈ W ∨ p.2 = none⌝ ∗ owes (Vt_c8 d L) O W') := by
  unfold owesW_c8; exact .rfl

theorem ins_none_c8 {W W' : Waits sig (HIx 5)} (h : ∀ p ∈ W', p ∈ W ∨ p.2 = none) (sm : SemLoc sig) :
    ∀ p ∈ insert (sm, (default : HIx 5)) W', p ∈ W ∨ p.2 = none := by
  intro p hp
  rcases Finset.mem_insert.mp hp with rfl | hp
  · exact .inr rfl
  · exact h p hp

theorem rowSet_congr_c8 (d : Dev nD) (L : grid8.Coords) {o o' : Fin 2 → ℕ} (e : o = o')
    (h : ∀ a, o a + S1x128.size a ≤ S40x128.size a) (h' : ∀ a, o' a + S1x128.size a ≤ S40x128.size a) :
    ((rowM_c8 o h).view.set : Finset (Idx (listW_c8.view.loc (Vt_c8 d L)))) = (rowM_c8 o' h').view.set := by
  subst e; rfl

/-- Before trip g: the copies out idle, the subcore's rows of the gathered array at some contents; while trips
    remain, the five gathers of chunks 5g .. 5g+4 in flight, each holding its slot, its row of the list and its read
    share of the table; after the last trip, the slots, the list and the shares back and the gathers' cells at zero. -/
def inv0_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L))) (g : ℕ) (_ : PUnit) : sProp (MM F) :=
  iprop(Transfers.MayWaits (Vt_c8 d L) (default : HIx 5) O
    ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
    ∗ owesW_c8 d L O W
    ∗ (∃ f : Buf (Elt F) (outW_c8.view.loc (Vt_c8 d L)), outW_c8.view.loc (Vt_c8 d L) ↦[outW_c8.view.setOn (outWinR_c8 L).set]{fullShare} f)
    ∗ (if h : g < 8 then
        iprop(((∃ s : Buf (Elt F) (slot0M_c8.view.loc (Vt_c8 d L)),
            Transfers.Flight countersEmb (Vt_c8 d L) (SemLoc.dma cc8_scratch2.sem) (default : HIx 5) 524288
              iprop(((slot0M_c8.view.loc (Vt_c8 d L) ↦[slot0M_c8.view.set]{fullShare} s)
                  ∗ (listW_c8.view.loc (Vt_c8 d L) ↦[(rowM_c8 ![5 * g + 0, 0] (rowInb0_c8 g h)).view.set]{fullShare} fl))
                ∗ (tabW_c8.view.loc (Vt_c8 d L) ↦[tabS_c8.view.set]{Transfers.shareTok q 80 cc8_scratch2.sem} tab))
            ∗ (slot0M_c8.view.loc (Vt_c8 d L) ↦[slot0M_c8.view.set \ slot0M_c8.view.set]{fullShare} s))
          ∗ (tabW_c8.view.loc (Vt_c8 d L) ↦[Finset.univ \ tabS_c8.view.set]{Transfers.shareTok q 80 cc8_scratch2.sem} tab))
          ∗ ((∃ s : Buf (Elt F) (slot1M_c8.view.loc (Vt_c8 d L)),
            Transfers.Flight countersEmb (Vt_c8 d L) (SemLoc.dma cc8_scratch3.sem) (default : HIx 5) 524288
              iprop(((slot1M_c8.view.loc (Vt_c8 d L) ↦[slot1M_c8.view.set]{fullShare} s)
                  ∗ (listW_c8.view.loc (Vt_c8 d L) ↦[(rowM_c8 ![5 * g + 1, 0] (rowInb1_c8 g h)).view.set]{fullShare} fl))
                ∗ (tabW_c8.view.loc (Vt_c8 d L) ↦[tabS_c8.view.set]{Transfers.shareTok q 80 cc8_scratch3.sem} tab))
            ∗ (slot1M_c8.view.loc (Vt_c8 d L) ↦[slot1M_c8.view.set \ slot1M_c8.view.set]{fullShare} s))
          ∗ (tabW_c8.view.loc (Vt_c8 d L) ↦[Finset.univ \ tabS_c8.view.set]{Transfers.shareTok q 80 cc8_scratch3.sem} tab))
          ∗ ((∃ s : Buf (Elt F) (slot2M_c8.view.loc (Vt_c8 d L)),
            Transfers.Flight countersEmb (Vt_c8 d L) (SemLoc.dma cc8_scratch4.sem) (default : HIx 5) 524288
              iprop(((slot2M_c8.view.loc (Vt_c8 d L) ↦[slot2M_c8.view.set]{fullShare} s)
                  ∗ (listW_c8.view.loc (Vt_c8 d L) ↦[(rowM_c8 ![5 * g + 2, 0] (rowInb2_c8 g h)).view.set]{fullShare} fl))
                ∗ (tabW_c8.view.loc (Vt_c8 d L) ↦[tabS_c8.view.set]{Transfers.shareTok q 80 cc8_scratch4.sem} tab))
            ∗ (slot2M_c8.view.loc (Vt_c8 d L) ↦[slot2M_c8.view.set \ slot2M_c8.view.set]{fullShare} s))
          ∗ (tabW_c8.view.loc (Vt_c8 d L) ↦[Finset.univ \ tabS_c8.view.set]{Transfers.shareTok q 80 cc8_scratch4.sem} tab))
          ∗ ((∃ s : Buf (Elt F) (slot3M_c8.view.loc (Vt_c8 d L)),
            Transfers.Flight countersEmb (Vt_c8 d L) (SemLoc.dma cc8_scratch5.sem) (default : HIx 5) 524288
              iprop(((slot3M_c8.view.loc (Vt_c8 d L) ↦[slot3M_c8.view.set]{fullShare} s)
                  ∗ (listW_c8.view.loc (Vt_c8 d L) ↦[(rowM_c8 ![5 * g + 3, 0] (rowInb3_c8 g h)).view.set]{fullShare} fl))
                ∗ (tabW_c8.view.loc (Vt_c8 d L) ↦[tabS_c8.view.set]{Transfers.shareTok q 80 cc8_scratch5.sem} tab))
            ∗ (slot3M_c8.view.loc (Vt_c8 d L) ↦[slot3M_c8.view.set \ slot3M_c8.view.set]{fullShare} s))
          ∗ (tabW_c8.view.loc (Vt_c8 d L) ↦[Finset.univ \ tabS_c8.view.set]{Transfers.shareTok q 80 cc8_scratch5.sem} tab))
          ∗ ((∃ s : Buf (Elt F) (slot4M_c8.view.loc (Vt_c8 d L)),
            Transfers.Flight countersEmb (Vt_c8 d L) (SemLoc.dma cc8_scratch6.sem) (default : HIx 5) 524288
              iprop(((slot4M_c8.view.loc (Vt_c8 d L) ↦[slot4M_c8.view.set]{fullShare} s)
                  ∗ (listW_c8.view.loc (Vt_c8 d L) ↦[(rowM_c8 ![5 * g + 4, 0] (rowInb4_c8 g h)).view.set]{fullShare} fl))
                ∗ (tabW_c8.view.loc (Vt_c8 d L) ↦[tabS_c8.view.set]{Transfers.shareTok q 80 cc8_scratch6.sem} tab))
            ∗ (slot4M_c8.view.loc (Vt_c8 d L) ↦[slot4M_c8.view.set \ slot4M_c8.view.set]{fullShare} s))
          ∗ (tabW_c8.view.loc (Vt_c8 d L) ↦[Finset.univ \ tabS_c8.view.set]{Transfers.shareTok q 80 cc8_scratch6.sem} tab))
          ∗ (listW_c8.view.loc (Vt_c8 d L) ↦[((((Finset.univ \ (rowM_c8 ![5 * g + 0, 0] (rowInb0_c8 g h)).view.set) \ (rowM_c8 ![5 * g + 1, 0] (rowInb1_c8 g h)).view.set)
              \ (rowM_c8 ![5 * g + 2, 0] (rowInb2_c8 g h)).view.set) \ (rowM_c8 ![5 * g + 3, 0] (rowInb3_c8 g h)).view.set) \ (rowM_c8 ![5 * g + 4, 0] (rowInb4_c8 g h)).view.set]{fullShare} fl))
      else
        iprop(((tabW_c8.view.loc (Vt_c8 d L) ↦{Transfers.shareTok q 80 cc8_scratch2.sem} tab) ∗ semVal (Vt_c8 d L, SemLoc.dma cc8_scratch2.sem) 0
          ∗ (∃ s : Buf (Elt F) (slot0M_c8.view.loc (Vt_c8 d L)), slot0M_c8.view.loc (Vt_c8 d L) ↦[slot0M_c8.view.set]{fullShare} s))
          ∗ ((tabW_c8.view.loc (Vt_c8 d L) ↦{Transfers.shareTok q 80 cc8_scratch3.sem} tab) ∗ semVal (Vt_c8 d L, SemLoc.dma cc8_scratch3.sem) 0
          ∗ (∃ s : Buf (Elt F) (slot1M_c8.view.loc (Vt_c8 d L)), slot1M_c8.view.loc (Vt_c8 d L) ↦[slot1M_c8.view.set]{fullShare} s))
          ∗ ((tabW_c8.view.loc (Vt_c8 d L) ↦{Transfers.shareTok q 80 cc8_scratch4.sem} tab) ∗ semVal (Vt_c8 d L, SemLoc.dma cc8_scratch4.sem) 0
          ∗ (∃ s : Buf (Elt F) (slot2M_c8.view.loc (Vt_c8 d L)), slot2M_c8.view.loc (Vt_c8 d L) ↦[slot2M_c8.view.set]{fullShare} s))
          ∗ ((tabW_c8.view.loc (Vt_c8 d L) ↦{Transfers.shareTok q 80 cc8_scratch5.sem} tab) ∗ semVal (Vt_c8 d L, SemLoc.dma cc8_scratch5.sem) 0
          ∗ (∃ s : Buf (Elt F) (slot3M_c8.view.loc (Vt_c8 d L)), slot3M_c8.view.loc (Vt_c8 d L) ↦[slot3M_c8.view.set]{fullShare} s))
          ∗ ((tabW_c8.view.loc (Vt_c8 d L) ↦{Transfers.shareTok q 80 cc8_scratch6.sem} tab) ∗ semVal (Vt_c8 d L, SemLoc.dma cc8_scratch6.sem) 0
          ∗ (∃ s : Buf (Elt F) (slot4M_c8.view.loc (Vt_c8 d L)), slot4M_c8.view.loc (Vt_c8 d L) ↦[slot4M_c8.view.set]{fullShare} s))
          ∗ (listW_c8.view.loc (Vt_c8 d L) ↦{fullShare} fl))))

/-! ## One trip -/

set_option maxHeartbeats 4000000 in
theorem trip0_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view fl x) < 1000000)
    (v2 : BitVec 32) (k : Fin k8_t1_loop.trips) (acc : PUnit) :
    inv0_c8 d L q O W tab fl k.val acc
      ⊢ wp frame (wpE (defs₀ (F := F)) 𝒱₀ (Vt_c8 d L) none) Set.univ
          (k8_t1_body L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0 v2 k acc)
          (inv0_c8 d L q O W tab fl (k.val + 1)) := by
  have hk8 : k.val < 8 := trips_eq_c8 ▸ k.isLt
  unfold inv0_c8
  rw [dif_pos hk8]
  by_cases hk : k.val < 7
  · obtain ⟨hc1, hc2, hc3, hc4, hc5⟩ := conds_lt_c8 k hk
    rw [dif_pos (show k.val + 1 < 8 by omega)]
    unfold k8_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    rw [rowSet_congr_c8 d L (off4_c8 k) (k8_off4_inb k hc1) (rowInb0_c8 (k.val + 1) (by omega)), rowSet_congr_c8 d L (off5_c8 k) (k8_off5_inb k hc2) (rowInb1_c8 (k.val + 1) (by omega)),
      rowSet_congr_c8 d L (off6_c8 k) (k8_off6_inb k hc3) (rowInb2_c8 (k.val + 1) (by omega)), rowSet_congr_c8 d L (off7_c8 k) (k8_off7_inb k hc4) (rowInb3_c8 (k.val + 1) (by omega)),
      rowSet_congr_c8 d L (off8_c8 k) (k8_off8_inb k hc5) (rowInb4_c8 (k.val + 1) (by omega))]
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    sl_close
  · obtain ⟨hc1, hc2, hc3, hc4, hc5⟩ := conds_last_c8 k hk
    rw [dif_neg (show ¬ k.val + 1 < 8 by omega)]
    unfold k8_t1_body
    iintro ⟨#Hmw, Hc5, Hc6, Hc7, Hc8, Hc9, Hc10, HOw, ⟨%f, Hout⟩, ⟨⟨%s0, Hf0, Hs0⟩, Ht0⟩, ⟨⟨%s1, Hf1, Hs1⟩, Ht1⟩, ⟨⟨%s2, Hf2, Hs2⟩, Ht2⟩, ⟨⟨%s3, Hf3, Hs3⟩, Ht3⟩, ⟨⟨%s4, Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    sl_close

end Cert.Kernel.Hand

end
-- ==== Proof.BTile8.lean ====
/-
  The first gather call on one vector subcore, 2: the whole body from the pieces in the program's own spelling —
  the block copy and the five first gathers, the loop by what it keeps, the return — handing back the table's read
  tokens, the index block, the list, the ring's slots, every cell at zero, and the subcore's rows of the gathered array.
-/
import proofs.«206421_g46840913330738_cont_8to1c4_247_26_alg».proof.Proof.BTile8a

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, from the pieces in its own spelling -/

set_option maxHeartbeats 4000000 in
theorem tile_run0_c8 (d : Dev nD) (L : grid8.Coords) (q : PosShare TreeShare) (O : CellTallies nD τ sig (HIx 5)) (W : Waits sig (HIx 5))
    (tab : Buf (Elt F) (tabW_c8.view.loc (Vt_c8 d L))) (I : Buf (Elt F) ((idxBlkM_c8 L).view.loc (Vt_c8 d L)))
    (hI : ∀ z ∈ (idxBlkM_c8 L).view.set, BitVec.toNat (I z) < 1000000)
    (g0 : Buf (Elt F) (listW_c8.view.loc (Vt_c8 d L))) (r : Buf (Elt F) (ringW_c8.view.loc (Vt_c8 d L)))
    (f : Buf (Elt F) (outW_c8.view.loc (Vt_c8 d L))) :
    (iprop(Transfers.MayWaits (Vt_c8 d L) (default : HIx 5) O
        ∗ (tabW_c8.view.loc (Vt_c8 d L) ↦{Transfers.shareTok q 80 cc8_scratch2.sem} tab)
        ∗ (tabW_c8.view.loc (Vt_c8 d L) ↦{Transfers.shareTok q 80 cc8_scratch3.sem} tab)
        ∗ (tabW_c8.view.loc (Vt_c8 d L) ↦{Transfers.shareTok q 80 cc8_scratch4.sem} tab)
        ∗ (tabW_c8.view.loc (Vt_c8 d L) ↦{Transfers.shareTok q 80 cc8_scratch5.sem} tab)
        ∗ (tabW_c8.view.loc (Vt_c8 d L) ↦{Transfers.shareTok q 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok q 80 cc8_scratch2.sem} tab)
            ∗ (tabW_c8.view.loc (Vt_c8 d L) ↦{Transfers.shareTok q 80 cc8_scratch3.sem} tab)
            ∗ (tabW_c8.view.loc (Vt_c8 d L) ↦{Transfers.shareTok q 80 cc8_scratch4.sem} tab)
            ∗ (tabW_c8.view.loc (Vt_c8 d L) ↦{Transfers.shareTok q 80 cc8_scratch5.sem} tab)
            ∗ (tabW_c8.view.loc (Vt_c8 d L) ↦{Transfers.shareTok q 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ (∃ f' : Buf (Elt F) (outW_c8.view.loc (Vt_c8 d L)), outW_c8.view.loc (Vt_c8 d L) ↦[outW_c8.view.setOn (outWinR_c8 L).set]{fullShare} f')) := by
  have hin := list_words_c8 d L I g0 hI
  rw [cc8_gather_k_eq_skeleton]; unfold cc8_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0_c8 d L q O W tab (View.write (Elt F) listW_c8.view g0 (ReadAs.same.apply (View.read (Elt F) (idxBlkM_c8 L).view I)) Finset.univ)) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0_c8 d L q O W tab _ hin _ k acc
  · unfold inv0_c8
    rw [dif_pos (show 0 < 8 by decide)]
    ihave HO' := (owesW_intro_c8 (W := W) (ins_none_c8 (fun p hp => Or.inl hp) _)) $$ HO
    sl_close
  iintro %acc HI
  unfold inv0_c8
  rw [dif_neg (show ¬ k8_t1_loop.trips < 8 by rw [trips_eq_c8]; decide)]
  icases HI with ⟨-, Hc5, Hc6, Hc7, Hc8, Hc9, Hc10, HOw, ⟨%f', Hout⟩, ⟨Ht0, Hc0, ⟨%s0, Hs0⟩⟩, ⟨Ht1, Hc1, ⟨%s1, Hs1⟩⟩, ⟨Ht2, Hc2, ⟨%s2, Hs2⟩⟩, ⟨Ht3, Hc3, ⟨%s3, Hs3⟩⟩, ⟨Ht4, Hc4, ⟨%s4, Hs4⟩⟩, Hl⟩
  sl_exec
  sl_step
  sl_close

end Cert.Kernel.Hand

end
-- ==== Proof.BTile8Wrap.lean ====
/-
  The first gather call on one vector subcore, 2: from what the launch deals the subcore to what the body's run asks,
  and back. The launch deals the subcore a read share of the table, its block of the index array, its rows of the
  gathered array, and its own scratch and semaphores as two sets; the body's run asks for the read share as five read
  tokens (one per gather cell), the block and the rows through the views the program slices, the list scratch whole,
  the ring scratch as its five slots, and the eleven cells the kernel function names, each at zero. This module opens
  the two sets, hands the run its pieces, and closes them again around what the run hands back.
-/
import proofs.«206421_g46840913330738_cont_8to1c4_247_26_alg».proof.Proof.BTile8a
import proofs.«206421_g46840913330738_cont_8to1c4_247_26_alg».proof.Proof.BTile8

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The subcore's own cells -/

/-- The call's eleven DMA semaphores, in the order the kernel function takes them. -/
def sems0_c8 : Fin 11 → DmaSem sig :=
  ![cc8_scratch2.sem, cc8_scratch3.sem, cc8_scratch4.sem, cc8_scratch5.sem, cc8_scratch6.sem, cc8_scratch7.sem,
    cc8_scratch8.sem, cc8_scratch9.sem, cc8_scratch10.sem, cc8_scratch11.sem, cc8_scoped0.sem]

theorem sems0_inj_c8 : Function.Injective sems0_c8 := by decide

/-- The k-th of them on the subcore at (c, i) of device d. -/
abbrev dcell0_c8 (d : Dev nD) (c : Fin τ.nSC) (i : Fin τ.nSub) (k : Fin 11) : GSem nD τ sig := (V d c i, .dma (sems0_c8 k))

theorem dcell0_mem_c8 (d : Dev nD) (c : Fin τ.nSC) (i : Fin τ.nSub) (k : Fin 11) : dcell0_c8 d c i k ∈ ownCells (V d c i) :=
  mem_ownCells.mpr ⟨rfl, (show ∀ s : DmaSem sig, (SemLoc.dma s : SemLoc sig).isScoped .scVector = true by decide) _⟩

/-- The eleven cells, each at zero. -/
def cells0_c8 (d : Dev nD) (L : grid8.Coords) : sProp (MM F) :=
  iprop(semVal (Vt_c8 d L, SemLoc.dma cc8_scratch2.sem) 0 ∗ semVal (Vt_c8 d L, SemLoc.dma cc8_scratch3.sem) 0
    ∗ semVal (Vt_c8 d L, SemLoc.dma cc8_scratch4.sem) 0 ∗ semVal (Vt_c8 d L, SemLoc.dma cc8_scratch5.sem) 0
    ∗ semVal (Vt_c8 d L, SemLoc.dma cc8_scratch6.sem) 0 ∗ semVal (Vt_c8 d L, SemLoc.dma cc8_scratch7.sem) 0
    ∗ semVal (Vt_c8 d L, SemLoc.dma cc8_scratch8.sem) 0 ∗ semVal (Vt_c8 d L, SemLoc.dma cc8_scratch9.sem) 0
    ∗ semVal (Vt_c8 d L, SemLoc.dma cc8_scratch10.sem) 0 ∗ semVal (Vt_c8 d L, SemLoc.dma cc8_scratch11.sem) 0
    ∗ semVal (Vt_c8 d L, SemLoc.dma cc8_scoped0.sem) 0)

/-- The subcore's own cells at zero: the eleven the kernel function names, and the rest. -/
theorem ownSems0_V0_c8 (d : Dev nD) (L : grid8.Coords) :
    (ownSems0 (Vt_c8 d L) : sProp (MM F))
      = iprop(cells0_c8 d L ∗ bigSep ((ownCells (Vt_c8 d L)) \ Finset.univ.image (dcell0_c8 d (cV8 L) (jV8 L))) fun g => semVal g 0) := by
  unfold SparseCore.Cfg.ownSems0
  rw [SparseCore.bigSep_sdiff_split' (t := Finset.univ.image (dcell0_c8 d (cV8 L) (jV8 L)))
      (Finset.image_subset_iff.mpr fun k _ => dcell0_mem_c8 d (cV8 L) (jV8 L) k),
    SparseCore.bigSep_image_of_injOn (fun a _ b _ h => sems0_inj_c8 (by
      have h2 := congrArg (fun g : GSem nD τ sig => g.2) h
      exact SemLoc.dma.inj h2))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's own scratch -/

/-- The two scratch buffers are among the subcore's own: they are them, at some contents, and the rest. -/
theorem ownBufs_V0_c8 (d : Dev nD) (L : grid8.Coords) :
    (ownBufs (Vt_c8 d L) : sProp (MM F))
      = iprop((∃ f, (Vt_c8 d L).loc cc8_scratch0 ↦{fullShare} f) ∗ (∃ f, (Vt_c8 d L).loc cc8_scratch1 ↦{fullShare} f)
          ∗ bigSep (((ownRefs (τ := τ) (.scVector (cV8 L) (jV8 L))).erase ((Proc.scVector (cV8 L) (jV8 L)).devRef cc8_scratch0)).erase
              ((Proc.scVector (cV8 L) (jV8 L)).devRef cc8_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV8 L) (jV8 L))
    (b := (Proc.scVector (cV8 L) (jV8 L)).devRef cc8_scratch0) rfl)).trans ?_
  rw [SparseCore.bigSep_erase' (Finset.mem_erase.mpr ⟨fun e => absurd (Proc.devRef_injective _ e) (show (cc8_scratch1 : Ref sig .scVector) ≠ cc8_scratch0 by decide),
    SparseCore.Cfg.mem_ownRefs_of_owner (p := Proc.scVector (cV8 L) (jV8 L)) (b := (Proc.scVector (cV8 L) (jV8 L)).devRef cc8_scratch1) rfl⟩)]

/-! ## The dealt pieces in the body's spelling -/

theorem pts_idx0_c8 (d : Dev nD) (L : grid8.Coords) (I : Buf (Elt F) (idxLoc8 d)) :
    ((idxBlkM_c8 L).view.loc (Vt_c8 d L) ↦[(idxBlkM_c8 L).view.set]{fullShare} I : sProp (MM F)) = idxLoc8 d ↦[idxRows8 d L]{fullShare} I := by
  rw [set_idxBlkM_c8 d L]

theorem setOn_out0_c8 (d : Dev nD) (L : grid8.Coords) :
    (outW_c8.view.setOn (outWinR_c8 L).set : Finset (Idx (outW_c8.view.loc (Vt_c8 d L)))) = outRows8 d L := by
  show Finset.map (Function.Embedding.refl _) (outWinR_c8 L).set = _
  rw [Finset.map_refl, outWinR_eq_c8]; rfl

theorem pts_out0_c8 (d : Dev nD) (L : grid8.Coords) (f : Buf (Elt F) (outLoc8 d)) :
    (outW_c8.view.loc (Vt_c8 d L) ↦[outW_c8.view.setOn (outWinR_c8 L).set]{fullShare} f : sProp (MM F)) = outLoc8 d ↦[outRows8 d L]{fullShare} f := by
  rw [setOn_out0_c8 d L]

/-- The read tokens of the table other than the five gather cells'. -/
abbrev otherToks0_c8 : Finset (Fin 80) :=
  ((((Finset.univ.erase cc8_scratch2.sem).erase cc8_scratch3.sem).erase cc8_scratch4.sem).erase cc8_scratch5.sem).erase cc8_scratch6.sem

/-- The subcore's read share of the table as one read token per cell: the five gather cells', and the remainder with
    the other cells' tokens. -/
theorem tabToks0_c8 (d : Dev nD) (L : grid8.Coords) (q : PosShare TreeShare) (tab : Buf (Elt F) (tabLoc8 d)) :
    (tabLoc8 d ↦[Finset.univ]{q} tab : sProp (MM F)) ⊣⊢ iprop((tabLoc8 d ↦[Finset.univ]{Transfers.shareDrop q 80} tab)
      ∗ (tabW_c8.view.loc (Vt_c8 d L) ↦{Transfers.shareTok q 80 cc8_scratch2.sem} tab)
      ∗ (tabW_c8.view.loc (Vt_c8 d L) ↦{Transfers.shareTok q 80 cc8_scratch3.sem} tab)
      ∗ (tabW_c8.view.loc (Vt_c8 d L) ↦{Transfers.shareTok q 80 cc8_scratch4.sem} tab)
      ∗ (tabW_c8.view.loc (Vt_c8 d L) ↦{Transfers.shareTok q 80 cc8_scratch5.sem} tab)
      ∗ (tabW_c8.view.loc (Vt_c8 d L) ↦{Transfers.shareTok q 80 cc8_scratch6.sem} tab)
      ∗ bigSep otherToks0_c8 fun i => (tabLoc8 d ↦[Finset.univ]{Transfers.shareTok q 80 i} tab : sProp (MM F))) := by
  have h := Transfers.pointsTo_toks (Ix := HIx 5) (Name := ℕ) (U := UU) (Lvl := ℕ) (ℓ := tabLoc8 d) (S := Finset.univ) (f := tab) q 80
  rw [SparseCore.bigSep_erase' (Finset.mem_univ (cc8_scratch2.sem : Fin 80)),
    SparseCore.bigSep_erase' (Finset.mem_erase.mpr ⟨(by decide : (cc8_scratch3.sem : Fin 80) ≠ cc8_scratch2.sem), Finset.mem_univ _⟩),
    SparseCore.bigSep_erase' (Finset.mem_erase.mpr ⟨(by decide : (cc8_scratch4.sem : Fin 80) ≠ cc8_scratch3.sem),
      Finset.mem_erase.mpr ⟨(by decide : (cc8_scratch4.sem : Fin 80) ≠ cc8_scratch2.sem), Finset.mem_univ _⟩⟩),
    SparseCore.bigSep_erase' (Finset.mem_erase.mpr ⟨(by decide : (cc8_scratch5.sem : Fin 80) ≠ cc8_scratch4.sem),
      Finset.mem_erase.mpr ⟨(by decide : (cc8_scratch5.sem : Fin 80) ≠ cc8_scratch3.sem),
        Finset.mem_erase.mpr ⟨(by decide : (cc8_scratch5.sem : Fin 80) ≠ cc8_scratch2.sem), Finset.mem_univ _⟩⟩⟩),
    SparseCore.bigSep_erase' (Finset.mem_erase.mpr ⟨(by decide : (cc8_scratch6.sem : Fin 80) ≠ cc8_scratch5.sem),
      Finset.mem_erase.mpr ⟨(by decide : (cc8_scratch6.sem : Fin 80) ≠ cc8_scratch4.sem),
        Finset.mem_erase.mpr ⟨(by decide : (cc8_scratch6.sem : Fin 80) ≠ cc8_scratch3.sem),
          Finset.mem_erase.mpr ⟨(by decide : (cc8_scratch6.sem : Fin 80) ≠ cc8_scratch2.sem), Finset.mem_univ _⟩⟩⟩⟩)] at h
  exact h

/-! ## The ring scratch as its five slots -/

theorem unit_congr2_c8 {s : Shape} {o o' sz sz' : Fin s.rank → ℕ} (eo : o = o') (es : sz = sz')
    (p : ∀ a, o a + sz a ≤ s.size a) (p' : ∀ a, o' a + sz' a ≤ s.size a) : Rect.unit o sz p = Rect.unit o' sz' p' := by
  subst eo es; rfl

/-- Equal rectangles cut the same elements out of a view. -/
theorem slice_set_congr_c8 {κ : Kind} {sp : Space} {s : Shape} {e : EltTy} (v : View sig κ sp s e) {R R' : Rect s} (h : R = R') :
    (v.slice R).set = (v.slice R').set := by
  subst h; rfl

/-- Row k of the ring along its leading axis. -/
abbrev ringRow_c8 (d : Dev nD) (L : grid8.Coords) (k : Fin 5) : Finset (Idx (ringW_c8.view.loc (Vt_c8 d L))) :=
  ((View.whole cc8_scratch1 : View sig .scVector .vmem S5x128x128 .f32).slice (S5x128x128.rowRect 0 k)).set

theorem slot0_set_c8 (d : Dev nD) (L : grid8.Coords) : (slot0M_c8.view.set : Finset (Idx (ringW_c8.view.loc (Vt_c8 d L)))) = ringRow_c8 d L 0 := by
  show (((View.whole cc8_scratch1 : View sig .scVector .vmem S5x128x128 .f32).slice (Rect.unit (s := S5x128x128) ![0, 0, 0] S1x128x128.size inb_S5x128x128_S1x128x128_0_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot1_set_c8 (d : Dev nD) (L : grid8.Coords) : (slot1M_c8.view.set : Finset (Idx (ringW_c8.view.loc (Vt_c8 d L)))) = ringRow_c8 d L 1 := by
  show (((View.whole cc8_scratch1 : View sig .scVector .vmem S5x128x128 .f32).slice (Rect.unit (s := S5x128x128) ![1, 0, 0] S1x128x128.size inb_S5x128x128_S1x128x128_1_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot2_set_c8 (d : Dev nD) (L : grid8.Coords) : (slot2M_c8.view.set : Finset (Idx (ringW_c8.view.loc (Vt_c8 d L)))) = ringRow_c8 d L 2 := by
  show (((View.whole cc8_scratch1 : View sig .scVector .vmem S5x128x128 .f32).slice (Rect.unit (s := S5x128x128) ![2, 0, 0] S1x128x128.size inb_S5x128x128_S1x128x128_2_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot3_set_c8 (d : Dev nD) (L : grid8.Coords) : (slot3M_c8.view.set : Finset (Idx (ringW_c8.view.loc (Vt_c8 d L)))) = ringRow_c8 d L 3 := by
  show (((View.whole cc8_scratch1 : View sig .scVector .vmem S5x128x128 .f32).slice (Rect.unit (s := S5x128x128) ![3, 0, 0] S1x128x128.size inb_S5x128x128_S1x128x128_3_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)
theorem slot4_set_c8 (d : Dev nD) (L : grid8.Coords) : (slot4M_c8.view.set : Finset (Idx (ringW_c8.view.loc (Vt_c8 d L)))) = ringRow_c8 d L 4 := by
  show (((View.whole cc8_scratch1 : View sig .scVector .vmem S5x128x128 .f32).slice (Rect.unit (s := S5x128x128) ![4, 0, 0] S1x128x128.size inb_S5x128x128_S1x128x128_4_0_0)).reshape S128x128 _).set = _
  rw [View.set_reshape]
  exact slice_set_congr_c8 (View.whole cc8_scratch1 : View sig .scVector .vmem S5x128x128 .f32)
    (unit_congr2_c8 (by funext a; fin_cases a <;> rfl) (by funext a; fin_cases a <;> rfl) _ _)

/-- Five functions on the ring's rows, over the five rows, as the five slots each at its own function. -/
theorem ring_rows0_c8 (d : Dev nD) (L : grid8.Coords) (s : Fin 5 → Buf (Elt F) (ringW_c8.view.loc (Vt_c8 d L))) :
    (bigSep (Finset.univ : Finset (Fin 5)) fun k => (ringW_c8.view.loc (Vt_c8 d L) ↦[ringRow_c8 d L k]{fullShare} s k : sProp (MM F)))
      = iprop((slot0M_c8.view.loc (Vt_c8 d L) ↦[slot0M_c8.view.set]{fullShare} s 0)
        ∗ (slot1M_c8.view.loc (Vt_c8 d L) ↦[slot1M_c8.view.set]{fullShare} s 1)
        ∗ (slot2M_c8.view.loc (Vt_c8 d L) ↦[slot2M_c8.view.set]{fullShare} s 2)
        ∗ (slot3M_c8.view.loc (Vt_c8 d L) ↦[slot3M_c8.view.set]{fullShare} s 3)
        ∗ (slot4M_c8.view.loc (Vt_c8 d L) ↦[slot4M_c8.view.set]{fullShare} s 4)) := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton,
    slot0_set_c8 d L, slot1_set_c8 d L, slot2_set_c8 d L, slot3_set_c8 d L, slot4_set_c8 d L]

/-- The ring whole at one function is its five slots at that function. -/
theorem ring_split0_c8 (d : Dev nD) (L : grid8.Coords) (r : Buf (Elt F) (ringW_c8.view.loc (Vt_c8 d L))) :
    ((Vt_c8 d L).loc cc8_scratch1 ↦{fullShare} r : sProp (MM F))
      = iprop((slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)) := by
  rw [← ring_rows0_c8 d L (fun _ => r)]
  have h := pointsTo_rows (Ix := HIx 5) (Name := ℕ) (U := UU) (Lvl := ℕ) (Val := Elt F) (Vt_c8 d L)
    (View.whole cc8_scratch1 : View sig .scVector .vmem S5x128x128 .f32) 0 fullShare r
  rw [View.set_whole] at h
  exact h

/-- The five slots, each at some function, are the ring whole at some function. -/
theorem ring_join0_c8 (d : Dev nD) (L : grid8.Coords) (s : Fin 5 → Buf (Elt F) (ringW_c8.view.loc (Vt_c8 d L))) :
    iprop((slot0M_c8.view.loc (Vt_c8 d L) ↦[slot0M_c8.view.set]{fullShare} s 0)
        ∗ (slot1M_c8.view.loc (Vt_c8 d L) ↦[slot1M_c8.view.set]{fullShare} s 1)
        ∗ (slot2M_c8.view.loc (Vt_c8 d L) ↦[slot2M_c8.view.set]{fullShare} s 2)
        ∗ (slot3M_c8.view.loc (Vt_c8 d L) ↦[slot3M_c8.view.set]{fullShare} s 3)
        ∗ (slot4M_c8.view.loc (Vt_c8 d L) ↦[slot4M_c8.view.set]{fullShare} s 4))
      ⊢ (iprop(∃ f, (Vt_c8 d L).loc cc8_scratch1 ↦{fullShare} f) : sProp (MM F)) := by
  rw [← ring_rows0_c8 d L s]
  refine (pointsTo_biUnion_join (Ix := HIx 5) (Name := ℕ) (U := UU) (Lvl := ℕ) (ℓ := ringW_c8.view.loc (Vt_c8 d L)) (q := fullShare)
    Finset.univ (fun k : Fin 5 => ringRow_c8 d L k) s (s 0)
    (fun k _ k' _ h => (View.whole cc8_scratch1 : View sig .scVector .vmem S5x128x128 .f32).disjoint_rows 0 h)).trans ?_
  iintro ⟨%g, -, H⟩
  iexists g
  have e : (Finset.univ : Finset (Fin 5)).biUnion (fun k => ringRow_c8 d L k) = (Finset.univ : Finset (Idx (ringW_c8.view.loc (Vt_c8 d L)))) := by
    rw [← View.set_whole (cc8_scratch1 : Ref sig .scVector)]
    exact ((View.whole cc8_scratch1 : View sig .scVector .vmem S5x128x128 .f32).set_eq_biUnion_rows 0).symm
  rw [e]
  iexact H

/-! ## The task, around the body's run -/

variable [FloatOps F]

/-- THE TASK of the subcore at L around any run of the body: the run takes the pieces in its own spelling and hands
    them back, saying outP of the subcore's rows of the gathered array; what outP gives of those rows in the launch's
    spelling, outQ, is what the task hands back of them. -/
theorem tile_wrap0_c8 (d : Dev nD) (L : grid8.Coords) (tab : Buf (Elt F) (tabLoc8 d)) (I : Buf (Elt F) (idxLoc8 d))
    (f : Buf (Elt F) (outLoc8 d)) (hF : (K (F := F)).Facts) (hI : ∀ x ∈ idxRows8 d L, BitVec.toNat (I x) < 1000000)
    (O : CellTallies nD τ sig (HIx 5)) (W : Waits sig (HIx 5)) (hO : ∀ g, O g none = 0) (outP outQ : sProp (MM F))
    (hrun : ∀ (g0 : Buf (Elt F) (listW_c8.view.loc (Vt_c8 d L))) (r : Buf (Elt F) (ringW_c8.view.loc (Vt_c8 d L))),
      (iprop(Transfers.MayWaits (Vt_c8 d L) (default : HIx 5) O
        ∗ (tabW_c8.view.loc (Vt_c8 d L) ↦{Transfers.shareTok (Transfers.shareTok fullShare 32 ⟨wid8 L, wid_lt8 L⟩) 80 cc8_scratch2.sem} tab)
        ∗ (tabW_c8.view.loc (Vt_c8 d L) ↦{Transfers.shareTok (Transfers.shareTok fullShare 32 ⟨wid8 L, wid_lt8 L⟩) 80 cc8_scratch3.sem} tab)
        ∗ (tabW_c8.view.loc (Vt_c8 d L) ↦{Transfers.shareTok (Transfers.shareTok fullShare 32 ⟨wid8 L, wid_lt8 L⟩) 80 cc8_scratch4.sem} tab)
        ∗ (tabW_c8.view.loc (Vt_c8 d L) ↦{Transfers.shareTok (Transfers.shareTok fullShare 32 ⟨wid8 L, wid_lt8 L⟩) 80 cc8_scratch5.sem} tab)
        ∗ (tabW_c8.view.loc (Vt_c8 d L) ↦{Transfers.shareTok (Transfers.shareTok fullShare 32 ⟨wid8 L, wid_lt8 L⟩) 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok (Transfers.shareTok fullShare 32 ⟨wid8 L, wid_lt8 L⟩) 80 cc8_scratch2.sem} tab)
            ∗ (tabW_c8.view.loc (Vt_c8 d L) ↦{Transfers.shareTok (Transfers.shareTok fullShare 32 ⟨wid8 L, wid_lt8 L⟩) 80 cc8_scratch3.sem} tab)
            ∗ (tabW_c8.view.loc (Vt_c8 d L) ↦{Transfers.shareTok (Transfers.shareTok fullShare 32 ⟨wid8 L, wid_lt8 L⟩) 80 cc8_scratch4.sem} tab)
            ∗ (tabW_c8.view.loc (Vt_c8 d L) ↦{Transfers.shareTok (Transfers.shareTok fullShare 32 ⟨wid8 L, wid_lt8 L⟩) 80 cc8_scratch5.sem} tab)
            ∗ (tabW_c8.view.loc (Vt_c8 d L) ↦{Transfers.shareTok (Transfers.shareTok fullShare 32 ⟨wid8 L, wid_lt8 L⟩) 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ outP))
    (hclose : outP ⊢ outQ) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(((tabLoc8 d ↦[Finset.univ]{Transfers.shareTok fullShare 32 ⟨wid8 L, wid_lt8 L⟩} tab)
              ∗ (idxLoc8 d ↦[idxRows8 d L]{fullShare} I) ∗ outQ)
            ∗ scopedBufs (Vt_c8 d L) ∗ scopedSems0 (Vt_c8 d L)
            ∗ ∃ W', ⌜∀ p ∈ W', p ∈ W ∨ p.2 = none⌝ ∗ owes (Vt_c8 d L) O W') := by
  rw [(K (F := F)).scopedBufs_V hF d (cV8 L) (jV8 L), SparseCore.Cfg.scopedSems0_V (Val := Elt F) d (cV8 L) (jV8 L), ownSems0_V0_c8, ownBufs_V0_c8]
  unfold goRes8 cells0_c8
  iintro ⟨#Hlv, -, ⟨Htab, Hidx, Hout⟩, ⟨⟨%fl, Hl⟩, ⟨%fr, Hr⟩, Hbufs⟩, ⟨⟨Hc2, Hc3, Hc4, Hc5, Hc6, Hc7, Hc8, Hc9, Hc10, Hc11, Hc12⟩, Hsems⟩, HO⟩
  ihave Hmw := ((K (F := F)).mayWaits_none (thr := Vt_c8 d L) hO) $$ Hlv
  ihave Htoks := (tabToks0_c8 (F := F) d L (Transfers.shareTok fullShare 32 ⟨wid8 L, wid_lt8 L⟩) tab).1 $$ Htab
  icases Htoks with ⟨Hdrop, Ht0, Ht1, Ht2, Ht3, Ht4, Hother⟩
  ihave Hidx' := (Entails.of_eq (pts_idx0_c8 (F := F) d L I).symm) $$ Hidx
  ihave Hout' := (Entails.of_eq (pts_out0_c8 (F := F) d L f).symm) $$ Hout
  ihave Hring := (Entails.of_eq (ring_split0_c8 (F := F) d L fr)) $$ Hr
  icases Hring with ⟨Hs0, Hs1, Hs2, Hs3, Hs4⟩
  ihave Hwp := (hrun fl fr) $$ [Hmw Ht0 Ht1 Ht2 Ht3 Ht4 Hidx' Hl Hs0 Hs1 Hs2 Hs3 Hs4 Hc2 Hc3 Hc4 Hc5 Hc6 Hc7 Hc8 Hc9 Hc10 Hc11 Hc12 HO Hout']
  · isplitl [Hmw]; · iexact Hmw
    isplitl [Ht0]; · iexact Ht0
    isplitl [Ht1]; · iexact Ht1
    isplitl [Ht2]; · iexact Ht2
    isplitl [Ht3]; · iexact Ht3
    isplitl [Ht4]; · iexact Ht4
    isplitl [Hidx']; · iexact Hidx'
    isplitl [Hl]; · iexact Hl
    isplitl [Hs0]; · iexact Hs0
    isplitl [Hs1]; · iexact Hs1
    isplitl [Hs2]; · iexact Hs2
    isplitl [Hs3]; · iexact Hs3
    isplitl [Hs4]; · iexact Hs4
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [HO]; · iexact HO
    iexact Hout'
  ihave Hfr := (wp_frame_l frame (wpE (defs₀ (F := F)) 𝒱₀ (Vt_c8 d L) none) Set.univ
    (R := iprop((tabLoc8 d ↦[Finset.univ]{Transfers.shareDrop (Transfers.shareTok fullShare 32 ⟨wid8 L, wid_lt8 L⟩) 80} tab)
      ∗ (bigSep otherToks0_c8 fun i => (tabLoc8 d ↦[Finset.univ]{Transfers.shareTok (Transfers.shareTok fullShare 32 ⟨wid8 L, wid_lt8 L⟩) 80 i} tab : sProp (MM F)))
      ∗ (bigSep (((ownRefs (τ := τ) (.scVector (cV8 L) (jV8 L))).erase ((Proc.scVector (cV8 L) (jV8 L)).devRef cc8_scratch0)).erase
              ((Proc.scVector (cV8 L) (jV8 L)).devRef cc8_scratch1))
              fun b => iprop(∃ f, ((d, b) : Loc nD τ sig) ↦{fullShare} f))
      ∗ (bigSep ((ownCells (Vt_c8 d L)) \ Finset.univ.image (dcell0_c8 d (cV8 L) (jV8 L))) fun g => semVal g 0)))) $$ [Hdrop Hother Hbufs Hsems Hwp]
  · isplitl [Hdrop Hother Hbufs Hsems]
    · isplitl [Hdrop]; · iexact Hdrop
      isplitl [Hother]; · iexact Hother
      isplitl [Hbufs]; · iexact Hbufs
      iexact Hsems
    · iexact Hwp
  iapply (wp_mono frame (wpE (defs₀ (F := F)) 𝒱₀ (Vt_c8 d L) none) Set.univ ?_) $$ Hfr
  intro _
  iintro ⟨⟨Hdrop, Hother, Hbufs, Hsems⟩, Ht0, Ht1, Ht2, Ht3, Ht4, Hidx, ⟨%fl', Hl⟩, ⟨%s0, Hs0⟩, ⟨%s1, Hs1⟩, ⟨%s2, Hs2⟩, ⟨%s3, Hs3⟩, ⟨%s4, Hs4⟩, Hc2, Hc3, Hc4, Hc5, Hc6, Hc7, Hc8, Hc9, Hc10, Hc11, Hc12, HOw, Hout⟩
  ihave Htab := (tabToks0_c8 (F := F) d L (Transfers.shareTok fullShare 32 ⟨wid8 L, wid_lt8 L⟩) tab).2 $$ [Hdrop Ht0 Ht1 Ht2 Ht3 Ht4 Hother]
  · isplitl [Hdrop]; · iexact Hdrop
    isplitl [Ht0]; · iexact Ht0
    isplitl [Ht1]; · iexact Ht1
    isplitl [Ht2]; · iexact Ht2
    isplitl [Ht3]; · iexact Ht3
    isplitl [Ht4]; · iexact Ht4
    iexact Hother
  ihave Hring := (ring_join0_c8 (F := F) d L ![s0, s1, s2, s3, s4]) $$ [Hs0 Hs1 Hs2 Hs3 Hs4]
  · isplitl [Hs0]; · iexact Hs0
    isplitl [Hs1]; · iexact Hs1
    isplitl [Hs2]; · iexact Hs2
    isplitl [Hs3]; · iexact Hs3
    iexact Hs4
  ihave HO2 := owesW_elim_c8 $$ HOw
  ihave Hq := hclose $$ Hout
  isplitl [Htab Hidx Hq]
  · isplitl [Htab]; · iexact Htab
    isplitl [Hidx]; · iapply (Entails.of_eq (pts_idx0_c8 (F := F) d L I)); iexact Hidx
    iexact Hq
  isplitl [Hl Hring Hbufs]
  · isplitl [Hl]; · iexists fl'; iexact Hl
    isplitl [Hring]; · iexact Hring
    iexact Hbufs
  isplitl [Hc2 Hc3 Hc4 Hc5 Hc6 Hc7 Hc8 Hc9 Hc10 Hc11 Hc12 Hsems]
  · isplitl [Hc2 Hc3 Hc4 Hc5 Hc6 Hc7 Hc8 Hc9 Hc10 Hc11 Hc12]
    · isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      iexact Hc12
    · iexact Hsems
  iexact HO2

/-! ## The two readings of the run's post -/

/-- Rows the run leaves at some contents are rows at some contents, in the launch's spelling. -/
theorem out_frame0_c8 (d : Dev nD) (L : grid8.Coords) :
    (iprop(∃ f' : Buf (Elt F) (outW_c8.view.loc (Vt_c8 d L)), outW_c8.view.loc (Vt_c8 d L) ↦[outW_c8.view.setOn (outWinR_c8 L).set]{fullShare} f') : sProp (MM F))
      ⊢ iprop(∃ f' : Buf (Elt F) (outLoc8 d), outLoc8 d ↦[outRows8 d L]{fullShare} f') := by
  iintro ⟨%f', H⟩
  iexists f'
  iapply (Entails.of_eq (pts_out0_c8 (F := F) d L f')); iexact H

/-- Rows the run leaves at contents that are the gathered rows on the subcore's rows are those rows at the gathered
    rows. -/
theorem out_valued0_c8 (d : Dev nD) (L : grid8.Coords) (tab : Buf (Elt F) (tabLoc8 d)) (I : Buf (Elt F) (idxLoc8 d)) :
    (iprop(∃ f' : Buf (Elt F) (outW_c8.view.loc (Vt_c8 d L)), (outW_c8.view.loc (Vt_c8 d L) ↦[outW_c8.view.setOn (outWinR_c8 L).set]{fullShare} f')
        ∗ ⌜∀ x : S163840x128.Idx, 5120 * wid8 L ≤ (x 0).val ∧ (x 0).val < 5120 * wid8 L + 5120 → f' x = gathered8 (d := d) tab I x⌝) : sProp (MM F))
      ⊢ (outLoc8 d ↦[outRows8 d L]{fullShare} gathered8 (d := d) tab I) := by
  iintro ⟨%f', H, %hf⟩
  have e : (outW_c8.view.loc (Vt_c8 d L) ↦[outW_c8.view.setOn (outWinR_c8 L).set]{fullShare} f' : sProp (MM F))
      = (outLoc8 d ↦[outRows8 d L]{fullShare} gathered8 (d := d) tab I) := by
    rw [pts_out0_c8 (F := F) d L f']
    exact pointsTo_congr (fun x hx => hf x ((mem_outRows8 d L x).mp hx))
  iapply (Entails.of_eq e); iexact H

/-! ## The task as the launch theorem's obligation consumes it -/

/-- The body's run with the gathered rows named: the statement of the run with, of the subcore's rows of the gathered
    array, contents that are the gathered rows on those rows. -/
def TileRunV0_c8 (F : FTy → Type) [FloatOps F] : Prop :=
  ∀ (d : Dev nD) (L : grid8.Coords) (q : PosShare TreeShare) (O : CellTallies nD τ sig (HIx 5)) (W : Waits sig (HIx 5))
    (tab : Buf (Elt F) (tabW_c8.view.loc (Vt_c8 d L))) (I : Buf (Elt F) ((idxBlkM_c8 L).view.loc (Vt_c8 d L)))
    (hI : ∀ z ∈ (idxBlkM_c8 L).view.set, BitVec.toNat (I z) < 1000000)
    (g0 : Buf (Elt F) (listW_c8.view.loc (Vt_c8 d L))) (r : Buf (Elt F) (ringW_c8.view.loc (Vt_c8 d L)))
    (f : Buf (Elt F) (outW_c8.view.loc (Vt_c8 d L))),
    (iprop(Transfers.MayWaits (Vt_c8 d L) (default : HIx 5) O
        ∗ (tabW_c8.view.loc (Vt_c8 d L) ↦{Transfers.shareTok q 80 cc8_scratch2.sem} tab)
        ∗ (tabW_c8.view.loc (Vt_c8 d L) ↦{Transfers.shareTok q 80 cc8_scratch3.sem} tab)
        ∗ (tabW_c8.view.loc (Vt_c8 d L) ↦{Transfers.shareTok q 80 cc8_scratch4.sem} tab)
        ∗ (tabW_c8.view.loc (Vt_c8 d L) ↦{Transfers.shareTok q 80 cc8_scratch5.sem} tab)
        ∗ (tabW_c8.view.loc (Vt_c8 d L) ↦{Transfers.shareTok q 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok q 80 cc8_scratch2.sem} tab)
            ∗ (tabW_c8.view.loc (Vt_c8 d L) ↦{Transfers.shareTok q 80 cc8_scratch3.sem} tab)
            ∗ (tabW_c8.view.loc (Vt_c8 d L) ↦{Transfers.shareTok q 80 cc8_scratch4.sem} tab)
            ∗ (tabW_c8.view.loc (Vt_c8 d L) ↦{Transfers.shareTok q 80 cc8_scratch5.sem} tab)
            ∗ (tabW_c8.view.loc (Vt_c8 d L) ↦{Transfers.shareTok q 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ (∃ f' : Buf (Elt F) (outW_c8.view.loc (Vt_c8 d L)), (outW_c8.view.loc (Vt_c8 d L) ↦[outW_c8.view.setOn (outWinR_c8 L).set]{fullShare} f')
                ∗ ⌜∀ x : S163840x128.Idx, 5120 * wid8 L ≤ (x 0).val ∧ (x 0).val < 5120 * wid8 L + 5120 → f' x = gathered8 (d := d) tab I x⌝))

/-- THE TASK, with the gathered rows: what the launch theorem's obligation for the call consumes, from the run with
    the gathered rows named. -/
theorem tile_body0_of_c8 (hrun : TileRunV0_c8 F) (d : Dev nD) (L : grid8.Coords) (tab : Buf (Elt F) (tabLoc8 d)) (I : Buf (Elt F) (idxLoc8 d))
    (f : Buf (Elt F) (outLoc8 d)) (hF : (K (F := F)).Facts) (hI : ∀ x ∈ idxRows8 d L, BitVec.toNat (I x) < 1000000)
    (O : CellTallies nD τ sig (HIx 5)) (W : Waits sig (HIx 5)) (hO : ∀ g, O g none = 0) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(tdRes8 d L tab I ∗ scopedBufs (Vt_c8 d L) ∗ scopedSems0 (Vt_c8 d L)
            ∗ ∃ W', ⌜∀ p ∈ W', p ∈ W ∨ p.2 = none⌝ ∗ owes (Vt_c8 d L) O W') := by
  unfold tdRes8
  exact tile_wrap0_c8 d L tab I f hF hI O W hO _ _
    (fun g0 r => hrun d L _ O W tab I (fun z hz => hI z (set_idxBlkM_c8 d L ▸ hz)) g0 r f) (out_valued0_c8 d L tab I)

/-- THE TASK, the rows at some contents: from the run as proved, which does not name what it gathers. -/
theorem tile_frame0_c8 (d : Dev nD) (L : grid8.Coords) (tab : Buf (Elt F) (tabLoc8 d)) (I : Buf (Elt F) (idxLoc8 d))
    (f : Buf (Elt F) (outLoc8 d)) (hF : (K (F := F)).Facts) (hI : ∀ x ∈ idxRows8 d L, BitVec.toNat (I x) < 1000000)
    (O : CellTallies nD τ sig (HIx 5)) (W : Waits sig (HIx 5)) (hO : ∀ g, O g none = 0) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(((tabLoc8 d ↦[Finset.univ]{Transfers.shareTok fullShare 32 ⟨wid8 L, wid_lt8 L⟩} tab)
              ∗ (idxLoc8 d ↦[idxRows8 d L]{fullShare} I) ∗ ∃ f' : Buf (Elt F) (outLoc8 d), outLoc8 d ↦[outRows8 d L]{fullShare} f')
            ∗ scopedBufs (Vt_c8 d L) ∗ scopedSems0 (Vt_c8 d L)
            ∗ ∃ W', ⌜∀ p ∈ W', p ∈ W ∨ p.2 = none⌝ ∗ owes (Vt_c8 d L) O W') :=
  tile_wrap0_c8 d L tab I f hF hI O W hO _ _
    (fun g0 r => tile_run0_c8 d L _ O W tab I (fun z hz => hI z (set_idxBlkM_c8 d L ▸ hz)) g0 r f) (out_frame0_c8 d L)

end Cert.Kernel.Hand

end
-- ==== Proof.BTile8k.lean ====
/-
  The value of one chunk of the first gather call.

  The subcore's list scratch holds its block of the index array: word (c, x) of the scratch is word (wid8, c, x) of the
  array. The gather of chunk c reads row c of the scratch as its list and lands, at row j of the ring slot, the table
  row that word (c, j) names. Row 5120 wid8 + 128 c + j of the whole-array function is the table row named by the
  index word at flat position 5120 wid8 + 128 c + j, which is word (wid8, c, j): the same row. So what a chunk's gather
  lands is its rows of the one function.
-/
import proofs.«206421_g46840913330738_cont_8to1c4_247_26_alg».proof.Proof.BTile8a
import Idealize.ShloMosaic.Lib.ValueIdx
import Idealize.ShloMosaic.Lib.Pipeline.Value

noncomputable section

namespace Cert.Kernel.Hand

open Cert.Kernel Cert.Kernel.Gen

open Idealize.ShloMosaic
open Idealize.ShloMosaic.SparseCore (S V T)
open Idealize.SL Idealize.SL.RA Idealize.SL.BI
open Idealize.ShloMosaic.ValueIdx (ix2 ix3)

variable {F : FTy → Type}

/-! ## Reading the list scratch and the block -/

/-- Word x of row c of the list scratch is word (c, x) of the scratch. -/
theorem rowM_read0_c8 (d : Dev nD) (L : grid8.Coords) (fl : Buf (Elt F) (listW_c8.view.loc (Vt_c8 d L))) (c : ℕ) (hc : c < 40)
    (o : Fin 2 → ℕ) (h : ∀ a, o a + S1x128.size a ≤ S40x128.size a) (ho : o = ![c, 0]) (y : S128.Idx) :
    View.read (Elt F) (rowM_c8 o h).view fl y = fl (ix2 (⟨c, hc⟩ : Fin 40) (y 0)) := by
  subst ho
  rw [View.read_apply]
  simp only [cast_eq]
  congr 1
  show (Rect.unit (s := S40x128) ![c, 0] S1x128.size h).emb (Shape.reshapeEquiv _ y) = _
  rw [Shape.reshapeEquiv_cons_one]
  funext a
  apply Fin.ext
  rw [Rect.emb_apply]
  match a with
  | ⟨0, _⟩ => show c + 1 * 0 = c; omega
  | ⟨1, _⟩ => show 0 + 1 * (y 0).val = (y 0).val; omega

/-- Word (c, x) of the subcore's block is word (wid8, c, x) of the index array. -/
theorem idxBlk_read0_c8 (d : Dev nD) (L : grid8.Coords) (I : Buf (Elt F) ((idxBlkM_c8 L).view.loc (Vt_c8 d L))) (z : S40x128.Idx) :
    View.read (Elt F) (idxBlkM_c8 L).view I z = I (ix3 (⟨wid8 L, wid_lt8 L⟩ : Fin 32) (z 0) (z 1)) := by
  rw [View.read_apply]
  simp only [cast_eq]
  congr 1
  show (Rect.unit (s := S32x40x128) (k8_off1 L) S1x40x128.size (k8_off1_inb L)).emb (Shape.reshapeEquiv _ z) = _
  rw [Shape.reshapeEquiv_cons_one]
  funext a
  apply Fin.ext
  rw [Rect.emb_apply]
  have e := k8_off1_eq L
  match a with
  | ⟨0, _⟩ => show k8_off1 L 0 + 1 * 0 = wid8 L; rw [e]; show 2 * (L 1).val + (L 0).val + 1 * 0 = wid8 L; unfold wid8; omega
  | ⟨1, _⟩ => show k8_off1 L 1 + 1 * (z 0).val = (z 0).val; rw [e]; show 0 + 1 * (z 0).val = (z 0).val; omega
  | ⟨2, _⟩ => show k8_off1 L 2 + 1 * (z 1).val = (z 1).val; rw [e]; show 0 + 1 * (z 1).val = (z 1).val; omega

/-- After the block copy the list scratch holds the subcore's block: word (c, x) is word (wid8, c, x) of the array. -/
theorem listFill_apply0_c8 (d : Dev nD) (L : grid8.Coords) (I : Buf (Elt F) ((idxBlkM_c8 L).view.loc (Vt_c8 d L)))
    (g0 : Buf (Elt F) (listW_c8.view.loc (Vt_c8 d L))) (z : S40x128.Idx) :
    listFill_c8 d L I g0 z = I (ix3 (⟨wid8 L, wid_lt8 L⟩ : Fin 32) (z 0) (z 1)) := by
  unfold listFill_c8
  show View.write (Elt F) listW_c8.view g0 _ Finset.univ (listW_c8.view.emb z) = _
  rw [View.write_emb_of_mem _ _ (Finset.mem_univ _)]
  simp only [cast_eq]
  exact idxBlk_read0_c8 d L I z

/-! ## What a chunk's gather lands is its rows of the whole-array function -/

/-- The flat position of word (w, c, j) of the index array. -/
theorem rowMajor_ix3_0_c8 (w : Fin 32) (c : Fin 40) (j : Fin 128) :
    (S32x40x128.rowMajor (ix3 w c j)).val = 5120 * w.val + 128 * c.val + j.val := by
  rw [Shape.rowMajor_val_three]
  show (w.val * 40 + c.val) * 128 + j.val = _
  omega

/-- The table as a gather names it is the table: the slice that is all of it moves no index. -/
theorem tabS_emb0_c8 (v : S1000000x128.Idx) : tabS_c8.view.emb v = v := by
  funext a
  apply Fin.ext
  match a with
  | ⟨0, _⟩ => show 0 + 1 * (v 0).val = (v 0).val; omega
  | ⟨1, _⟩ => show 0 + 1 * (v 1).val = (v 1).val; omega

/-- THE CHUNK: what the gather of chunk c lands, read at (j, e), is the whole-array function at row
    5120 wid8 + 128 c + j, column e. -/
theorem landed_eq_gathered0_c8 (d : Dev nD) (L : grid8.Coords) (tab : Buf (Elt F) (tabLoc8 d)) (I : Buf (Elt F) (idxLoc8 d))
    (g0 : Buf (Elt F) (listW_c8.view.loc (Vt_c8 d L)))
    (hI : ∀ z ∈ idxRows8 d L, BitVec.toNat (I z) < 1000000)
    (c : ℕ) (hc : c < 40)
    (hin : ∀ x : S128.Idx, BitVec.toNat (View.read (Elt F) (rowM_c8 ![c, 0] (rowInb_c8 c hc)).view (listFill_c8 d L I g0) x) < 1000000)
    (y : S128x128.Idx) (x : S163840x128.Idx)
    (hx0 : (x 0).val = 5120 * wid8 L + 128 * c + (y 0).val) (hx1 : (x 1).val = (y 1).val) :
    landed_c8 d L tab (listFill_c8 d L I g0) ![c, 0] (rowInb_c8 c hc) hin y = gathered8 tab I x := by
  rw [gathered8_apply]
  unfold landed_c8 SparseCore.gatherPayload
  rw [View.read_apply]
  simp only [cast_eq]
  congr 1
  refine (tabS_emb0_c8 _).trans ?_
  have hw : ∀ u : S128.Idx, View.read (Elt F) (rowM_c8 ![c, 0] (rowInb_c8 c hc)).view (listFill_c8 d L I g0) u
      = I (ix3 (⟨wid8 L, wid_lt8 L⟩ : Fin 32) (⟨c, hc⟩ : Fin 40) (u 0)) := fun u => by
    rw [rowM_read0_c8 d L _ c hc _ _ rfl u, listFill_apply0_c8]
  funext a
  apply Fin.ext
  match a with
  | ⟨0, _⟩ =>
    refine (congrArg Fin.val (Shape.Gathers.idx_axis gathers_S1000000x128_S128x128 _ y)).trans ?_
    refine Eq.trans ?_ (congrArg Fin.val (Shape.Gathers.idx_axis gathersAll8 (fun r => gatherRow8 I r) x)).symm
    show BitVec.toNat (View.read (Elt F) (rowM_c8 ![c, 0] (rowInb_c8 c hc)).view (listFill_c8 d L I g0)
        (S128.rowMajor.symm (Fin.cast _ (y gathers_S1000000x128_S128x128.axis'))))
      = BitVec.toNat (I (S32x40x128.rowMajor.symm (Fin.cast _ (x gathersAll8.axis')))) % 1000000
    generalize hu : S128.rowMajor.symm (Fin.cast _ (y gathers_S1000000x128_S128x128.axis')) = u
    have hu' : (S128.rowMajor u).val = (y gathers_S1000000x128_S128x128.axis').val := by
      rw [← hu, Equiv.apply_symm_apply]; rfl
    have hu0 : (u 0).val = (y 0).val := by
      rw [← Shape.rowMajor_val_one u, hu']; rfl
    have hsym : S32x40x128.rowMajor.symm (Fin.cast (by decide) (x gathersAll8.axis'))
        = ix3 (⟨wid8 L, wid_lt8 L⟩ : Fin 32) (⟨c, hc⟩ : Fin 40) (u 0) :=
      (Equiv.symm_apply_eq _).mpr (Fin.ext ((show (x gathersAll8.axis').val = 5120 * wid8 L + 128 * c + (u 0).val from by
        rw [hu0, ← hx0]; rfl).trans (rowMajor_ix3_0_c8 (⟨wid8 L, wid_lt8 L⟩ : Fin 32) (⟨c, hc⟩ : Fin 40) (u 0)).symm))
    have hb := hin u
    rw [hw] at hb
    refine Eq.trans ?_ (congrArg (fun t => BitVec.toNat (I t) % 1000000) hsym).symm
    rw [hw]
    exact (Nat.mod_eq_of_lt hb).symm
  | ⟨1, _⟩ =>
    refine (Shape.Gathers.idx_of_ne gathers_S1000000x128_S128x128 _ y ⟨1, by decide⟩ Nat.one_ne_zero).trans ?_
    refine Eq.trans ?_ (Shape.Gathers.idx_of_ne gathersAll8 (fun r => gatherRow8 I r) x ⟨1, by decide⟩ Nat.one_ne_zero).symm
    exact hx1.symm

end Cert.Kernel.Hand

end
-- ==== Proof.BTile8b.lean ====
/-
  The first gather call on one vector subcore, 3: the contents. What is done (the subcore's rows of its first
  chunks hold the gathered rows), what each slot is to hold while its gather flies (what that gather lands), how
  one chunk copied out extends what is done, and one trip of the loop carrying both.
-/
import proofs.«206421_g46840913330738_cont_8to1c4_247_26_alg».proof.Proof.BTile8a
import proofs.«206421_g46840913330738_cont_8to1c4_247_26_alg».proof.Proof.BTile8k

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The contents: what is done, what each slot is to hold -/

/-- The subcore's rows of its first n chunks hold the gathered rows. -/
def DoneUpTo_c8 (d : Dev nD) (L : grid8.Coords) (tab : Buf (Elt F) (tabW_c8.view.loc (Vt_c8 d L))) (I : Buf (Elt F) ((idxBlkM_c8 L).view.loc (Vt_c8 d L)))
    (n : ℕ) (f : Buf (Elt F) (outW_c8.view.loc (Vt_c8 d L))) : Prop :=
  ∀ x : S163840x128.Idx, 5120 * wid8 L ≤ (x 0).val → (x 0).val < 5120 * wid8 L + 128 * n → f x = gathered8 (d := d) tab I x

/-- Before trip g < 8, of the contents: the rows of the chunks before 5g hold the gathered rows, and slot b is
    to hold what the gather of chunk 5g + b lands. -/
def FactsFly_c8 (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000) (g : ℕ) (h : g < 8) (s0 s1 s2 s3 s4 : Buf (Elt F) (ringW_c8.view.loc (Vt_c8 d L))) (f : Buf (Elt F) (outW_c8.view.loc (Vt_c8 d L))) : Prop :=
  DoneUpTo_c8 d L tab I (5 * g) f
    ∧ View.read (Elt F) slot0M_c8.view s0 = landed_c8 d L tab (listFill_c8 d L I g0) ![5 * g + 0, 0] (rowInb0_c8 g h) (hin _ _)
    ∧ View.read (Elt F) slot1M_c8.view s1 = landed_c8 d L tab (listFill_c8 d L I g0) ![5 * g + 1, 0] (rowInb1_c8 g h) (hin _ _)
    ∧ View.read (Elt F) slot2M_c8.view s2 = landed_c8 d L tab (listFill_c8 d L I g0) ![5 * g + 2, 0] (rowInb2_c8 g h) (hin _ _)
    ∧ View.read (Elt F) slot3M_c8.view s3 = landed_c8 d L tab (listFill_c8 d L I g0) ![5 * g + 3, 0] (rowInb3_c8 g h) (hin _ _)
    ∧ View.read (Elt F) slot4M_c8.view s4 = landed_c8 d L tab (listFill_c8 d L I g0) ![5 * g + 4, 0] (rowInb4_c8 g h) (hin _ _)

/-- A slot written whole reads back what was written. -/
theorem read_writes_whole_c8 {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb (v := v) (f := f) (Rect.whole s) p [] y
  rw [Rect.emb_whole_apply] at h
  exact h

theorem landed_congr_c8 (d : Dev nD) (L : grid8.Coords) (tab : Buf (Elt F) (tabW_c8.view.loc (Vt_c8 d L)))
    (fl : Buf (Elt F) (listW_c8.view.loc (Vt_c8 d L))) {o o' : Fin 2 → ℕ} (e : o = o')
    (h : ∀ a, o a + S1x128.size a ≤ S40x128.size a) (h' : ∀ a, o' a + S1x128.size a ≤ S40x128.size a)
    (hin : ∀ x : S128.Idx, BitVec.toNat (View.read (Elt F) (rowM_c8 o h).view fl x) < 1000000)
    (hin' : ∀ x : S128.Idx, BitVec.toNat (View.read (Elt F) (rowM_c8 o' h').view fl x) < 1000000) :
    landed_c8 d L tab fl o h hin = landed_c8 d L tab fl o' h' hin' := by
  subst e; rfl

/-- One chunk copied out extends what is done by that chunk. -/
theorem done_step_c8 (d : Dev nD) (L : grid8.Coords) (tab : Buf (Elt F) (tabW_c8.view.loc (Vt_c8 d L))) (I : Buf (Elt F) ((idxBlkM_c8 L).view.loc (Vt_c8 d L)))
    (n : ℕ) (o : Fin 2 → ℕ) (ho : o = ![5120 * wid8 L + 128 * n, 0])
    (hinb : ∀ a, o a + S128x128.size a ≤ S163840x128.size a)
    (f : Buf (Elt F) (outW_c8.view.loc (Vt_c8 d L))) (p : S128x128.Idx → Elt F .f32)
    (hf : DoneUpTo_c8 d L tab I n f)
    (hp : ∀ (y : S128x128.Idx) (x : S163840x128.Idx), (x 0).val = 5120 * wid8 L + 128 * n + (y 0).val → (x 1).val = (y 1).val →
      p y = gathered8 (d := d) tab I x) :
    DoneUpTo_c8 d L tab I (n + 1)
      (View.write (Elt F) (outW_c8.slice (Rect.unit (s := S163840x128) o S128x128.size hinb) (fun _ => rfl)).view f p Finset.univ) := by
  subst ho
  intro x hlo hhi
  by_cases hx : (x 0).val < 5120 * wid8 L + 128 * n
  · rw [View.write_of_not_mem]
    · exact hf x hlo hx
    · rw [View.setOn_univ]
      show x ∉ ((View.whole main_v20_scv : View sig .scVector .hbm S163840x128 .f32).slice (Rect.unit (s := S163840x128) ![5120 * wid8 L + 128 * n, 0] S128x128.size hinb)).set
      rw [View.set_slice_whole, Rect.mem_set_unit]
      intro h
      have h0 : 5120 * wid8 L + 128 * n ≤ (x 0).val := (h 0).1
      omega
  · have hmem : x ∈ (Rect.unit (s := S163840x128) ![5120 * wid8 L + 128 * n, 0] S128x128.size hinb).set := by
      rw [Rect.mem_set_unit]
      intro a
      have h1 : (x 1).val < 128 := (x 1).isLt
      fin_cases a
      · show 5120 * wid8 L + 128 * n ≤ (x 0).val ∧ (x 0).val < 5120 * wid8 L + 128 * n + 128
        omega
      · show 0 ≤ (x 1).val ∧ (x 1).val < 0 + 128
        omega
    rw [← Rect.map_emb_univ] at hmem
    obtain ⟨y, -, rfl⟩ := Finset.mem_map.mp hmem
    have e : (outW_c8.slice (Rect.unit (s := S163840x128) ![5120 * wid8 L + 128 * n, 0] S128x128.size hinb) (fun _ => rfl)).view.emb y
        = (Rect.unit (s := S163840x128) ![5120 * wid8 L + 128 * n, 0] S128x128.size hinb).emb y := rfl
    rw [← e, View.write_emb_of_mem _ _ (Finset.mem_univ y)]
    simp only [cast_eq]
    refine hp y _ ?_ ?_
    · rw [e, Rect.emb_apply]
      show 5120 * wid8 L + 128 * n + 1 * (y 0).val = 5120 * wid8 L + 128 * n + (y 0).val
      omega
    · rw [e, Rect.emb_apply]
      show 0 + 1 * (y 1).val = (y 1).val
      omega

theorem off3c_c8 (L : grid8.Coords) (k : Fin k8_t1_loop.trips) (r : Fin 5) :
    k8_off3 L k (BitVec.ofNat 32 r.val) = ![5120 * wid8 L + 128 * (5 * k.val + r.val), 0] :=
  (k8_off3_eq L k r).trans (by unfold wid8; rw [show 10240 * (L 1).val + 5120 * (L 0).val + 640 * k.val + 128 * r.val = 5120 * (2 * (L 1).val + (L 0).val) + 128 * (5 * k.val + r.val) by omega])

/-- The five chunks a trip copies out extend what is done by five chunks. -/
theorem done5_c8 (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000)
    (hK : ∀ (c : ℕ) (hc : c < 40) (hin' : ∀ x : S128.Idx, BitVec.toNat (View.read (Elt F) (rowM_c8 ![c, 0] (rowInb_c8 c hc)).view (listFill_c8 d L I g0) x) < 1000000)
      (y : S128x128.Idx) (x : S163840x128.Idx), (x 0).val = 5120 * wid8 L + 128 * c + (y 0).val → (x 1).val = (y 1).val →
      landed_c8 d L tab (listFill_c8 d L I g0) ![c, 0] (rowInb_c8 c hc) hin' y = gathered8 (d := d) tab I x)
    (k : Fin k8_t1_loop.trips) (hk8 : k.val < 8) (s0 s1 s2 s3 s4 : Buf (Elt F) (ringW_c8.view.loc (Vt_c8 d L))) (f : Buf (Elt F) (outW_c8.view.loc (Vt_c8 d L)))
    (hF : FactsFly_c8 d L tab I g0 hin k.val hk8 s0 s1 s2 s3 s4 f) :
    DoneUpTo_c8 d L tab I (5 * (k.val + 1))
      (View.write (Elt F) (outW_c8.slice (Rect.unit (s := S163840x128) (k8_off3 L k 4#32) S128x128.size (k8_off3_inb L k 4)) (fun _ => rfl)).view (View.write (Elt F) (outW_c8.slice (Rect.unit (s := S163840x128) (k8_off3 L k 3#32) S128x128.size (k8_off3_inb L k 3)) (fun _ => rfl)).view (View.write (Elt F) (outW_c8.slice (Rect.unit (s := S163840x128) (k8_off3 L k 2#32) S128x128.size (k8_off3_inb L k 2)) (fun _ => rfl)).view (View.write (Elt F) (outW_c8.slice (Rect.unit (s := S163840x128) (k8_off3 L k 1#32) S128x128.size (k8_off3_inb L k 1)) (fun _ => rfl)).view (View.write (Elt F) (outW_c8.slice (Rect.unit (s := S163840x128) (k8_off3 L k 0#32) S128x128.size (k8_off3_inb L k 0)) (fun _ => rfl)).view f (ReadAs.same.apply (View.read (Elt F) slot0M_c8.view s0)) Finset.univ) (ReadAs.same.apply (View.read (Elt F) slot1M_c8.view s1)) Finset.univ) (ReadAs.same.apply (View.read (Elt F) slot2M_c8.view s2)) Finset.univ) (ReadAs.same.apply (View.read (Elt F) slot3M_c8.view s3)) Finset.univ) (ReadAs.same.apply (View.read (Elt F) slot4M_c8.view s4)) Finset.univ) := by
  obtain ⟨hd, h0, h1, h2, h3, h4⟩ := hF
  have e : 5 * (k.val + 1) = 5 * k.val + 0 + 1 + 1 + 1 + 1 + 1 := by omega
  rw [e]
  refine done_step_c8 d L tab I _ _ (off3c_c8 L k 4) _ _ _ ?_ ?_
  refine done_step_c8 d L tab I _ _ (off3c_c8 L k 3) _ _ _ ?_ ?_
  refine done_step_c8 d L tab I _ _ (off3c_c8 L k 2) _ _ _ ?_ ?_
  refine done_step_c8 d L tab I _ _ (off3c_c8 L k 1) _ _ _ ?_ ?_
  refine done_step_c8 d L tab I _ _ (off3c_c8 L k 0) _ _ _ ?_ ?_
  · exact hd
  · intro y x hx0 hx1
    show View.read (Elt F) slot0M_c8.view s0 y = _
    rw [h0]; exact hK (5 * k.val + 0) (by omega) _ y x hx0 hx1
  · intro y x hx0 hx1
    show View.read (Elt F) slot1M_c8.view s1 y = _
    rw [h1]; exact hK (5 * k.val + 1) (by omega) _ y x hx0 hx1
  · intro y x hx0 hx1
    show View.read (Elt F) slot2M_c8.view s2 y = _
    rw [h2]; exact hK (5 * k.val + 2) (by omega) _ y x hx0 hx1
  · intro y x hx0 hx1
    show View.read (Elt F) slot3M_c8.view s3 y = _
    rw [h3]; exact hK (5 * k.val + 3) (by omega) _ y x hx0 hx1
  · intro y x hx0 hx1
    show View.read (Elt F) slot4M_c8.view s4 y = _
    rw [h4]; exact hK (5 * k.val + 4) (by omega) _ y x hx0 hx1

variable [FloatOps F]

/-! ## What the loop keeps, with the contents -/

/-- While trips remain: the copies out idle; the five gathers of chunks 5g .. 5g+4 in flight, each holding its slot,
    its row of the list and its read share of the table. -/
def invFly_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L))) (g : ℕ) (h : g < 8) (s0 s1 s2 s3 s4 : Buf (Elt F) (ringW_c8.view.loc (Vt_c8 d L))) (f : Buf (Elt F) (outW_c8.view.loc (Vt_c8 d L))) : sProp (MM F) :=
  iprop(Transfers.MayWaits (Vt_c8 d L) (default : HIx 5) O
    ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
    ∗ owesW_c8 d L O W
    ∗ (outW_c8.view.loc (Vt_c8 d L) ↦[outW_c8.view.setOn (outWinR_c8 L).set]{fullShare} f)
    ∗ ((Transfers.Flight countersEmb (Vt_c8 d L) (SemLoc.dma cc8_scratch2.sem) (default : HIx 5) 524288
              iprop(((slot0M_c8.view.loc (Vt_c8 d L) ↦[slot0M_c8.view.set]{fullShare} s0)
                  ∗ (listW_c8.view.loc (Vt_c8 d L) ↦[(rowM_c8 ![5 * g + 0, 0] (rowInb0_c8 g h)).view.set]{fullShare} fl))
                ∗ (tabW_c8.view.loc (Vt_c8 d L) ↦[tabS_c8.view.set]{Transfers.shareTok q 80 cc8_scratch2.sem} tab))
            ∗ (slot0M_c8.view.loc (Vt_c8 d L) ↦[slot0M_c8.view.set \ slot0M_c8.view.set]{fullShare} s0))
          ∗ (tabW_c8.view.loc (Vt_c8 d L) ↦[Finset.univ \ tabS_c8.view.set]{Transfers.shareTok q 80 cc8_scratch2.sem} tab))
    ∗ ((Transfers.Flight countersEmb (Vt_c8 d L) (SemLoc.dma cc8_scratch3.sem) (default : HIx 5) 524288
              iprop(((slot1M_c8.view.loc (Vt_c8 d L) ↦[slot1M_c8.view.set]{fullShare} s1)
                  ∗ (listW_c8.view.loc (Vt_c8 d L) ↦[(rowM_c8 ![5 * g + 1, 0] (rowInb1_c8 g h)).view.set]{fullShare} fl))
                ∗ (tabW_c8.view.loc (Vt_c8 d L) ↦[tabS_c8.view.set]{Transfers.shareTok q 80 cc8_scratch3.sem} tab))
            ∗ (slot1M_c8.view.loc (Vt_c8 d L) ↦[slot1M_c8.view.set \ slot1M_c8.view.set]{fullShare} s1))
          ∗ (tabW_c8.view.loc (Vt_c8 d L) ↦[Finset.univ \ tabS_c8.view.set]{Transfers.shareTok q 80 cc8_scratch3.sem} tab))
    ∗ ((Transfers.Flight countersEmb (Vt_c8 d L) (SemLoc.dma cc8_scratch4.sem) (default : HIx 5) 524288
              iprop(((slot2M_c8.view.loc (Vt_c8 d L) ↦[slot2M_c8.view.set]{fullShare} s2)
                  ∗ (listW_c8.view.loc (Vt_c8 d L) ↦[(rowM_c8 ![5 * g + 2, 0] (rowInb2_c8 g h)).view.set]{fullShare} fl))
                ∗ (tabW_c8.view.loc (Vt_c8 d L) ↦[tabS_c8.view.set]{Transfers.shareTok q 80 cc8_scratch4.sem} tab))
            ∗ (slot2M_c8.view.loc (Vt_c8 d L) ↦[slot2M_c8.view.set \ slot2M_c8.view.set]{fullShare} s2))
          ∗ (tabW_c8.view.loc (Vt_c8 d L) ↦[Finset.univ \ tabS_c8.view.set]{Transfers.shareTok q 80 cc8_scratch4.sem} tab))
    ∗ ((Transfers.Flight countersEmb (Vt_c8 d L) (SemLoc.dma cc8_scratch5.sem) (default : HIx 5) 524288
              iprop(((slot3M_c8.view.loc (Vt_c8 d L) ↦[slot3M_c8.view.set]{fullShare} s3)
                  ∗ (listW_c8.view.loc (Vt_c8 d L) ↦[(rowM_c8 ![5 * g + 3, 0] (rowInb3_c8 g h)).view.set]{fullShare} fl))
                ∗ (tabW_c8.view.loc (Vt_c8 d L) ↦[tabS_c8.view.set]{Transfers.shareTok q 80 cc8_scratch5.sem} tab))
            ∗ (slot3M_c8.view.loc (Vt_c8 d L) ↦[slot3M_c8.view.set \ slot3M_c8.view.set]{fullShare} s3))
          ∗ (tabW_c8.view.loc (Vt_c8 d L) ↦[Finset.univ \ tabS_c8.view.set]{Transfers.shareTok q 80 cc8_scratch5.sem} tab))
    ∗ ((Transfers.Flight countersEmb (Vt_c8 d L) (SemLoc.dma cc8_scratch6.sem) (default : HIx 5) 524288
              iprop(((slot4M_c8.view.loc (Vt_c8 d L) ↦[slot4M_c8.view.set]{fullShare} s4)
                  ∗ (listW_c8.view.loc (Vt_c8 d L) ↦[(rowM_c8 ![5 * g + 4, 0] (rowInb4_c8 g h)).view.set]{fullShare} fl))
                ∗ (tabW_c8.view.loc (Vt_c8 d L) ↦[tabS_c8.view.set]{Transfers.shareTok q 80 cc8_scratch6.sem} tab))
            ∗ (slot4M_c8.view.loc (Vt_c8 d L) ↦[slot4M_c8.view.set \ slot4M_c8.view.set]{fullShare} s4))
          ∗ (tabW_c8.view.loc (Vt_c8 d L) ↦[Finset.univ \ tabS_c8.view.set]{Transfers.shareTok q 80 cc8_scratch6.sem} tab))
    ∗ (listW_c8.view.loc (Vt_c8 d L) ↦[((((Finset.univ \ (rowM_c8 ![5 * g + 0, 0] (rowInb0_c8 g h)).view.set) \ (rowM_c8 ![5 * g + 1, 0] (rowInb1_c8 g h)).view.set)
              \ (rowM_c8 ![5 * g + 2, 0] (rowInb2_c8 g h)).view.set) \ (rowM_c8 ![5 * g + 3, 0] (rowInb3_c8 g h)).view.set) \ (rowM_c8 ![5 * g + 4, 0] (rowInb4_c8 g h)).view.set]{fullShare} fl))

/-- After the last trip: every cell at zero, the slots, the list and the shares back. -/
def invIdle_c8 (d : Dev nD) (L : grid8.Coords) (q : PosShare TreeShare) (O : CellTallies nD τ sig (HIx 5)) (W : Waits sig (HIx 5))
    (tab : Buf (Elt F) (tabW_c8.view.loc (Vt_c8 d L))) (fl : Buf (Elt F) (listW_c8.view.loc (Vt_c8 d L))) (s0 s1 s2 s3 s4 : Buf (Elt F) (ringW_c8.view.loc (Vt_c8 d L))) (f : Buf (Elt F) (outW_c8.view.loc (Vt_c8 d L))) : sProp (MM F) :=
  iprop(Transfers.MayWaits (Vt_c8 d L) (default : HIx 5) O
    ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
    ∗ owesW_c8 d L O W
    ∗ (outW_c8.view.loc (Vt_c8 d L) ↦[outW_c8.view.setOn (outWinR_c8 L).set]{fullShare} f)
    ∗ ((tabW_c8.view.loc (Vt_c8 d L) ↦{Transfers.shareTok q 80 cc8_scratch2.sem} tab) ∗ semVal (Vt_c8 d L, SemLoc.dma cc8_scratch2.sem) 0
          ∗ (slot0M_c8.view.loc (Vt_c8 d L) ↦[slot0M_c8.view.set]{fullShare} s0))
    ∗ ((tabW_c8.view.loc (Vt_c8 d L) ↦{Transfers.shareTok q 80 cc8_scratch3.sem} tab) ∗ semVal (Vt_c8 d L, SemLoc.dma cc8_scratch3.sem) 0
          ∗ (slot1M_c8.view.loc (Vt_c8 d L) ↦[slot1M_c8.view.set]{fullShare} s1))
    ∗ ((tabW_c8.view.loc (Vt_c8 d L) ↦{Transfers.shareTok q 80 cc8_scratch4.sem} tab) ∗ semVal (Vt_c8 d L, SemLoc.dma cc8_scratch4.sem) 0
          ∗ (slot2M_c8.view.loc (Vt_c8 d L) ↦[slot2M_c8.view.set]{fullShare} s2))
    ∗ ((tabW_c8.view.loc (Vt_c8 d L) ↦{Transfers.shareTok q 80 cc8_scratch5.sem} tab) ∗ semVal (Vt_c8 d L, SemLoc.dma cc8_scratch5.sem) 0
          ∗ (slot3M_c8.view.loc (Vt_c8 d L) ↦[slot3M_c8.view.set]{fullShare} s3))
    ∗ ((tabW_c8.view.loc (Vt_c8 d L) ↦{Transfers.shareTok q 80 cc8_scratch6.sem} tab) ∗ semVal (Vt_c8 d L, SemLoc.dma cc8_scratch6.sem) 0
          ∗ (slot4M_c8.view.loc (Vt_c8 d L) ↦[slot4M_c8.view.set]{fullShare} s4))
    ∗ (listW_c8.view.loc (Vt_c8 d L) ↦{fullShare} fl))

/-- What the loop keeps. -/
def inv0v_c8 (q : PosShare TreeShare) (O : CellTallies nD τ sig (HIx 5)) (W : Waits sig (HIx 5)) (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000) (g : ℕ) (_ : PUnit) : sProp (MM F) :=
  if h : g < 8 then
    iprop(∃ s0 s1 s2 s3 s4 f, ⌜FactsFly_c8 d L tab I g0 hin g h s0 s1 s2 s3 s4 f⌝ ∗ invFly_c8 d L q O W tab (listFill_c8 d L I g0) g h s0 s1 s2 s3 s4 f)
  else
    iprop(∃ s0 s1 s2 s3 s4 f, ⌜DoneUpTo_c8 d L tab I (5 * g) f⌝ ∗ invIdle_c8 d L q O W tab (listFill_c8 d L I g0) s0 s1 s2 s3 s4 f)

/-! ## One trip, with the contents -/

set_option maxHeartbeats 4000000 in
theorem trip0v_c8 (q : PosShare TreeShare) (O : CellTallies nD τ sig (HIx 5)) (W : Waits sig (HIx 5)) (d : Dev nD) (L : grid8.Coords) (tab : Buf (Elt F) (tabW_c8.view.loc (Vt_c8 d L))) (I : Buf (Elt F) ((idxBlkM_c8 L).view.loc (Vt_c8 d L)))
    (g0 : Buf (Elt F) (listW_c8.view.loc (Vt_c8 d L)))
    (hin : ∀ (o : Fin 2 → ℕ) (h : ∀ a, o a + S1x128.size a ≤ S40x128.size a) (x : S128.Idx),
      BitVec.toNat (View.read (Elt F) (rowM_c8 o h).view (listFill_c8 d L I g0) x) < 1000000)
    (hK : ∀ (c : ℕ) (hc : c < 40) (hin' : ∀ x : S128.Idx, BitVec.toNat (View.read (Elt F) (rowM_c8 ![c, 0] (rowInb_c8 c hc)).view (listFill_c8 d L I g0) x) < 1000000)
      (y : S128x128.Idx) (x : S163840x128.Idx), (x 0).val = 5120 * wid8 L + 128 * c + (y 0).val → (x 1).val = (y 1).val →
      landed_c8 d L tab (listFill_c8 d L I g0) ![c, 0] (rowInb_c8 c hc) hin' y = gathered8 (d := d) tab I x)
    (v2 : BitVec 32) (k : Fin k8_t1_loop.trips) (acc : PUnit) :
    inv0v_c8 q O W d L tab I g0 hin k.val acc
      ⊢ wp frame (wpE (defs₀ (F := F)) 𝒱₀ (Vt_c8 d L) none) Set.univ
          (k8_t1_body L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0 v2 k acc)
          (inv0v_c8 q O W d L tab I g0 hin (k.val + 1)) := by
  have hk8 : k.val < 8 := trips_eq_c8 ▸ k.isLt
  unfold inv0v_c8
  rw [dif_pos hk8]
  by_cases hk : k.val < 7
  · obtain ⟨hc1, hc2, hc3, hc4, hc5⟩ := conds_lt_c8 k hk
    have hk1 : k.val + 1 < 8 := by omega
    rw [dif_pos hk1]
    unfold k8_t1_body
    iintro ⟨%s0, %s1, %s2, %s3, %s4, %f, %hF, HP⟩
    unfold invFly_c8
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    rw [rowSet_congr_c8 d L (off4_c8 k) (k8_off4_inb k hc1) (rowInb0_c8 (k.val + 1) hk1), rowSet_congr_c8 d L (off5_c8 k) (k8_off5_inb k hc2) (rowInb1_c8 (k.val + 1) hk1),
      rowSet_congr_c8 d L (off6_c8 k) (k8_off6_inb k hc3) (rowInb2_c8 (k.val + 1) hk1), rowSet_congr_c8 d L (off7_c8 k) (k8_off7_inb k hc4) (rowInb3_c8 (k.val + 1) hk1),
      rowSet_congr_c8 d L (off8_c8 k) (k8_off8_inb k hc5) (rowInb4_c8 (k.val + 1) hk1)]
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    iexists _; iexists _; iexists _; iexists _; iexists _; iexists _
    isplitr
    swap
    · sl_close
    · ipureintro
      refine ⟨done5_c8 d L tab I g0 hin hK k hk8 s0 s1 s2 s3 s4 f hF, ?_, ?_, ?_, ?_, ?_⟩
      · exact (read_writes_whole_c8 _ _ _).trans (landed_congr_c8 d L tab _ (off4_c8 k) _ _ _ _)
      · exact (read_writes_whole_c8 _ _ _).trans (landed_congr_c8 d L tab _ (off5_c8 k) _ _ _ _)
      · exact (read_writes_whole_c8 _ _ _).trans (landed_congr_c8 d L tab _ (off6_c8 k) _ _ _ _)
      · exact (read_writes_whole_c8 _ _ _).trans (landed_congr_c8 d L tab _ (off7_c8 k) _ _ _ _)
      · exact (read_writes_whole_c8 _ _ _).trans (landed_congr_c8 d L tab _ (off8_c8 k) _ _ _ _)
  · obtain ⟨hc1, hc2, hc3, hc4, hc5⟩ := conds_last_c8 k hk
    rw [dif_neg (show ¬ k.val + 1 < 8 by omega)]
    unfold k8_t1_body
    iintro ⟨%s0, %s1, %s2, %s3, %s4, %f, %hF, HP⟩
    unfold invFly_c8
    icases HP with ⟨#Hmw, Hc5, Hc6, Hc7, Hc8, Hc9, Hc10, HOw, Hout, ⟨⟨Hf0, Hs0⟩, Ht0⟩, ⟨⟨Hf1, Hs1⟩, Ht1⟩, ⟨⟨Hf2, Hs2⟩, Ht2⟩, ⟨⟨Hf3, Hs3⟩, Ht3⟩, ⟨⟨Hf4, Hs4⟩, Ht4⟩, Hl⟩
    ihave HO2 := owesW_elim_c8 $$ HOw
    icases HO2 with ⟨%W', %hW', HO⟩
    set_option sl_exec.dmaWindow true in set_option sl_exec.dmaWindowLent true in sl_exec
    sl_step
    ihave HO' := (owesW_intro_c8 (W := W) (ins_none_c8 (ins_none_c8 (ins_none_c8 (ins_none_c8 (ins_none_c8 (ins_none_c8 (ins_none_c8 (ins_none_c8 (ins_none_c8 (ins_none_c8 hW' _) _) _) _) _) _) _) _) _) _)) $$ HO
    iexists _; iexists _; iexists _; iexists _; iexists _; iexists _
    isplitr
    swap
    · unfold invIdle_c8
      sl_close
    · ipureintro
      exact done5_c8 d L tab I g0 hin hK k hk8 s0 s1 s2 s3 s4 f hF

end Cert.Kernel.Hand

end
-- ==== Proof.BTile8v.lean ====
/-
  The first gather call on one vector subcore, 4: the whole body with the contents — the block copy and the
  five first gathers, the loop by what it keeps, the return — handing back what it was dealt with the subcore's
  rows of the gathered array holding, row by row, the table row its index word names.
-/
import proofs.«206421_g46840913330738_cont_8to1c4_247_26_alg».proof.Proof.BTile8b

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The body, with the contents -/

set_option maxHeartbeats 4000000 in
theorem tile_runV0_c8 (d : Dev nD) (L : grid8.Coords) (q : PosShare TreeShare) (O : CellTallies nD τ sig (HIx 5)) (W : Waits sig (HIx 5))
    (tab : Buf (Elt F) (tabW_c8.view.loc (Vt_c8 d L))) (I : Buf (Elt F) ((idxBlkM_c8 L).view.loc (Vt_c8 d L)))
    (hI : ∀ z ∈ (idxBlkM_c8 L).view.set, BitVec.toNat (I z) < 1000000)
    (g0 : Buf (Elt F) (listW_c8.view.loc (Vt_c8 d L))) (r : Buf (Elt F) (ringW_c8.view.loc (Vt_c8 d L)))
    (f : Buf (Elt F) (outW_c8.view.loc (Vt_c8 d L))) :
    (iprop(Transfers.MayWaits (Vt_c8 d L) (default : HIx 5) O
        ∗ (tabW_c8.view.loc (Vt_c8 d L) ↦{Transfers.shareTok q 80 cc8_scratch2.sem} tab)
        ∗ (tabW_c8.view.loc (Vt_c8 d L) ↦{Transfers.shareTok q 80 cc8_scratch3.sem} tab)
        ∗ (tabW_c8.view.loc (Vt_c8 d L) ↦{Transfers.shareTok q 80 cc8_scratch4.sem} tab)
        ∗ (tabW_c8.view.loc (Vt_c8 d L) ↦{Transfers.shareTok q 80 cc8_scratch5.sem} tab)
        ∗ (tabW_c8.view.loc (Vt_c8 d L) ↦{Transfers.shareTok q 80 cc8_scratch6.sem} tab)
        ∗ ((idxBlkM_c8 L).view.loc (Vt_c8 d L) ↦[(idxBlkM_c8 L).view.set]{fullShare} I)
        ∗ (listW_c8.view.loc (Vt_c8 d L) ↦{fullShare} g0)
        ∗ (slot0M_c8.view.loc (Vt_c8 d L) ↦[slot0M_c8.view.set]{fullShare} r)
        ∗ (slot1M_c8.view.loc (Vt_c8 d L) ↦[slot1M_c8.view.set]{fullShare} r)
        ∗ (slot2M_c8.view.loc (Vt_c8 d L) ↦[slot2M_c8.view.set]{fullShare} r)
        ∗ (slot3M_c8.view.loc (Vt_c8 d L) ↦[slot3M_c8.view.set]{fullShare} r)
        ∗ (slot4M_c8.view.loc (Vt_c8 d L) ↦[slot4M_c8.view.set]{fullShare} r)
        ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
        ∗ owes (Vt_c8 d L) O W
        ∗ (outW_c8.view.loc (Vt_c8 d L) ↦[outW_c8.view.setOn (outWinR_c8 L).set]{fullShare} f)) : sProp (MM F))
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop((tabW_c8.view.loc (Vt_c8 d L) ↦{Transfers.shareTok q 80 cc8_scratch2.sem} tab)
            ∗ (tabW_c8.view.loc (Vt_c8 d L) ↦{Transfers.shareTok q 80 cc8_scratch3.sem} tab)
            ∗ (tabW_c8.view.loc (Vt_c8 d L) ↦{Transfers.shareTok q 80 cc8_scratch4.sem} tab)
            ∗ (tabW_c8.view.loc (Vt_c8 d L) ↦{Transfers.shareTok q 80 cc8_scratch5.sem} tab)
            ∗ (tabW_c8.view.loc (Vt_c8 d L) ↦{Transfers.shareTok q 80 cc8_scratch6.sem} tab)
            ∗ ((idxBlkM_c8 L).view.loc (Vt_c8 d L) ↦[(idxBlkM_c8 L).view.set]{fullShare} I)
            ∗ (∃ fl : Buf (Elt F) (listW_c8.view.loc (Vt_c8 d L)), listW_c8.view.loc (Vt_c8 d L) ↦{fullShare} fl)
            ∗ (∃ s : Buf (Elt F) (slot0M_c8.view.loc (Vt_c8 d L)), slot0M_c8.view.loc (Vt_c8 d L) ↦[slot0M_c8.view.set]{fullShare} s)
            ∗ (∃ s : Buf (Elt F) (slot1M_c8.view.loc (Vt_c8 d L)), slot1M_c8.view.loc (Vt_c8 d L) ↦[slot1M_c8.view.set]{fullShare} s)
            ∗ (∃ s : Buf (Elt F) (slot2M_c8.view.loc (Vt_c8 d L)), slot2M_c8.view.loc (Vt_c8 d L) ↦[slot2M_c8.view.set]{fullShare} s)
            ∗ (∃ s : Buf (Elt F) (slot3M_c8.view.loc (Vt_c8 d L)), slot3M_c8.view.loc (Vt_c8 d L) ↦[slot3M_c8.view.set]{fullShare} s)
            ∗ (∃ s : Buf (Elt F) (slot4M_c8.view.loc (Vt_c8 d L)), slot4M_c8.view.loc (Vt_c8 d L) ↦[slot4M_c8.view.set]{fullShare} s)
            ∗ semVal (Vt_c8 d L, SemLoc.dma cc8_scratch2.sem) 0 ∗ semVal (Vt_c8 d L, SemLoc.dma cc8_scratch3.sem) 0 ∗ semVal (Vt_c8 d L, SemLoc.dma cc8_scratch4.sem) 0 ∗ semVal (Vt_c8 d L, SemLoc.dma cc8_scratch5.sem) 0 ∗ semVal (Vt_c8 d L, SemLoc.dma cc8_scratch6.sem) 0 ∗ semVal (Vt_c8 d L, SemLoc.dma cc8_scratch7.sem) 0 ∗ semVal (Vt_c8 d L, SemLoc.dma cc8_scratch8.sem) 0 ∗ semVal (Vt_c8 d L, SemLoc.dma cc8_scratch9.sem) 0 ∗ semVal (Vt_c8 d L, SemLoc.dma cc8_scratch10.sem) 0 ∗ semVal (Vt_c8 d L, SemLoc.dma cc8_scratch11.sem) 0 ∗ semVal (Vt_c8 d L, SemLoc.dma cc8_scoped0.sem) 0
            ∗ owesW_c8 d L O W
            ∗ (∃ f' : Buf (Elt F) (outW_c8.view.loc (Vt_c8 d L)), (outW_c8.view.loc (Vt_c8 d L) ↦[outW_c8.view.setOn (outWinR_c8 L).set]{fullShare} f')
                ∗ ⌜∀ x : S163840x128.Idx, 5120 * wid8 L ≤ (x 0).val ∧ (x 0).val < 5120 * wid8 L + 5120 → f' x = gathered8 (d := d) tab I x⌝)) := by
  have hin := list_words_c8 d L I g0 hI
  have hI' : ∀ z ∈ idxRows8 d L, BitVec.toNat (I z) < 1000000 := fun z hz => hI z (by rw [set_idxBlkM_c8 d L]; exact hz)
  have hK := fun c hc hin' y x hx0 hx1 => landed_eq_gathered0_c8 (F := F) d L tab I g0 hI' c hc hin' y x hx0 hx1
  rw [cc8_gather_k_eq_skeleton]; unfold cc8_gather_k_skel
  iintro ⟨#Hmw, Ht0, Ht1, Ht2, Ht3, Ht4, Hi, Hl, Hs0, Hs1, Hs2, Hs3, Hs4, Hc0, Hc1, Hc2, Hc3, Hc4, Hc5, Hc6, Hc7, Hc8, Hc9, Hc10, HO, Hout⟩
  sl_exec
  sl_for (inv0v_c8 q O W d L tab I g0 hin) $$ [Hmw Hc5 Hc6 Hc7 Hc8 Hc9 Hc10 HO Hout Hc0 Ht0 Hs0 Hc1 Ht1 Hs1 Hc2 Ht2 Hs2 Hc3 Ht3 Hs3 Hc4 Ht4 Hs4 Hl]
  case region =>
    intro k acc
    exact trip0v_c8 q O W d L tab I g0 hin hK _ k acc
  · unfold inv0v_c8
    rw [dif_pos (show 0 < 8 by decide)]
    ihave HO' := (owesW_intro_c8 (W := W) (ins_none_c8 (fun p hp => Or.inl hp) _)) $$ HO
    iexists _; iexists _; iexists _; iexists _; iexists _; iexists _
    isplitr
    swap
    · unfold invFly_c8
      sl_close
    · ipureintro
      refine ⟨fun x h1 h2 => absurd h2 (by omega), ?_, ?_, ?_, ?_, ?_⟩
      · exact (read_writes_whole_c8 _ _ _).trans (landed_congr_c8 d L tab _ (show (![0, 0] : Fin 2 → ℕ) = ![5 * 0 + 0, 0] from rfl) _ _ _ _)
      · exact (read_writes_whole_c8 _ _ _).trans (landed_congr_c8 d L tab _ (show (![1, 0] : Fin 2 → ℕ) = ![5 * 0 + 1, 0] from rfl) _ _ _ _)
      · exact (read_writes_whole_c8 _ _ _).trans (landed_congr_c8 d L tab _ (show (![2, 0] : Fin 2 → ℕ) = ![5 * 0 + 2, 0] from rfl) _ _ _ _)
      · exact (read_writes_whole_c8 _ _ _).trans (landed_congr_c8 d L tab _ (show (![3, 0] : Fin 2 → ℕ) = ![5 * 0 + 3, 0] from rfl) _ _ _ _)
      · exact (read_writes_whole_c8 _ _ _).trans (landed_congr_c8 d L tab _ (show (![4, 0] : Fin 2 → ℕ) = ![5 * 0 + 4, 0] from rfl) _ _ _ _)
  unfold inv0v_c8
  rw [dif_neg (show ¬ k8_t1_loop.trips < 8 by rw [trips_eq_c8]; decide)]
  iintro %acc ⟨%s0, %s1, %s2, %s3, %s4, %f', %hdone, HP⟩
  unfold invIdle_c8
  icases HP with ⟨-, Hc5, Hc6, Hc7, Hc8, Hc9, Hc10, HOw, Hout, ⟨Ht0, Hc0, Hs0⟩, ⟨Ht1, Hc1, Hs1⟩, ⟨Ht2, Hc2, Hs2⟩, ⟨Ht3, Hc3, Hs3⟩, ⟨Ht4, Hc4, Hs4⟩, Hl⟩
  sl_exec
  sl_step
  have h8 : Scf.trips k8_t1_loop.lb k8_t1_loop.ub k8_t1_loop.st = 8 := trips_eq_c8
  rw [h8] at hdone
  have hfin : ∀ x : S163840x128.Idx, 5120 * wid8 L ≤ (x 0).val ∧ (x 0).val < 5120 * wid8 L + 5120 → f' x = gathered8 (d := d) tab I x :=
    fun x h => hdone x h.1 (by omega)
  sl_close

end Cert.Kernel.Hand

end
-- ==== Proof.BTile8Body.lean ====
/-
  The first gather call's task on the vector subcore at any grid coordinates, from what the handshake hands it to what
  it hands back: the run of the kernel over its named scratch buffers, semaphores and table tokens, which leaves the
  subcore's rows of the gathered array at the gathered rows, inside the opening and closing of the subcore's scoped
  storage.
-/
import proofs.«206421_g46840913330738_cont_8to1c4_247_26_alg».proof.Proof.BTile8Wrap
import proofs.«206421_g46840913330738_cont_8to1c4_247_26_alg».proof.Proof.BTile8v

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The task of the first gather call on one vector subcore. -/
theorem tile_body8 (d : Dev nD) (L : grid8.Coords) (tab : Buf (Elt F) (tabLoc8 d)) (I : Buf (Elt F) (idxLoc8 d)) (f : Buf (Elt F) (outLoc8 d))
    (hF : (K (F := F)).Facts) (hI : ∀ x ∈ idxRows8 d L, BitVec.toNat (I x) < 1000000)
    (O : CellTallies nD τ sig (HIx 5)) (W : Waits sig (HIx 5)) (hO : ∀ g, O g none = 0) :
    iprop(levAts (K (F := F)).L (K (F := F)).lev ∗ emp ∗ goRes8 d L tab I f
        ∗ scopedBufs (Vt_c8 d L) ∗ scopedSems0 (Vt_c8 d L) ∗ owes (Vt_c8 d L) O W)
      ⊢ wp frame (wpE (defs₀ (F := F)) 𝒱₀ (Vt_c8 d L) none) Set.univ
          (cc8_gather_k L tabW_c8 (Memref.isWhole_whole _) idxW_c8 (Memref.isWhole_whole _) outW_c8 (Memref.isWhole_whole _)
            listW_c8 (Memref.isWhole_whole _) ringW_c8 (Memref.isWhole_whole _)
            cc8_scratch2 cc8_scratch3 cc8_scratch4 cc8_scratch5 cc8_scratch6 cc8_scratch7 cc8_scratch8 cc8_scratch9 cc8_scratch10 cc8_scratch11 cc8_scoped0)
          fun _ => iprop(tdRes8 d L tab I ∗ scopedBufs (Vt_c8 d L) ∗ scopedSems0 (Vt_c8 d L)
            ∗ ∃ W', ⌜∀ p ∈ W', p ∈ W ∨ p.2 = none⌝ ∗ owes (Vt_c8 d L) O W') :=
  tile_body0_of_c8 (F := F) tile_runV0_c8 d L tab I f hF hI O W hO

end Cert.Kernel.Hand

end
-- ==== Proof.BTileObl8.lean ====
/-
  The launch theorem's obligation for gather call 4: the task of the vector subcore at any place of the call's
  grid, from the operands the handshake hands it to the results it hands back. The body table runs the kernel function
  at the subcore's grid coordinates on the whole arrays and the subcore's own scratch; that run is the task proved
  for a subcore at symbolic coordinates.
-/
import proofs.«206421_g46840913330738_cont_8to1c4_247_26_alg».proof.Proof.BBase
import proofs.«206421_g46840913330738_cont_8to1c4_247_26_alg».proof.Proof.BPay
import proofs.«206421_g46840913330738_cont_8to1c4_247_26_alg».proof.Proof.BTile8Body

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) [FloatOps F]

/-- The body table's row for the call's label on a vector subcore. -/
theorem defs₀_vec8 (c : Fin τ.nSC) (s : Fin τ.nSub) :
    defs₀ (F := F) (.scVector c s) 8 ()
      = SparseCore.onTile hcore8 hsub8 (fun c s => cc8_gather_k (coordsV8 c s) (Memref.whole main_arg1_scv) (Memref.isWhole_whole _) (Memref.whole main_v19_scv) (Memref.isWhole_whole _) (Memref.whole main_v20_scv) (Memref.isWhole_whole _) (Memref.whole cc8_scratch0) (Memref.isWhole_whole _) (Memref.whole cc8_scratch1) (Memref.isWhole_whole _) cc8_scratch2 cc8_scratch3 cc8_scratch4 cc8_scratch5 cc8_scratch6 cc8_scratch7 cc8_scratch8 cc8_scratch9 cc8_scratch10 cc8_scratch11 cc8_scoped0) ⟨⟩ c s := rfl

/-- Every index word of the call's index array names a table row. -/
def InRange8 : Prop := ∀ (d : Dev nD) (x : S32x40x128.Idx), (BitVec.toNat (W23 m d (r main_v19) x)) < 1000000

/-- The task of call 4, for every subcore of its grid. -/
theorem tileObl8 (hR : InRange8 m) : (K (F := F)).TileObl (D (F := F)) 𝒱 (P m) v₀ 4 := by
  intro d c i O W hO _ _
  simp only [show (P m).ox = fun _ _ => 0 from rfl, add_zero]
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  have hc : ((K (F := F)).core 4 c).val < grid8.bound 0 ∧ ((K (F := F)).sub 4 i).val < grid8.bound 1 := ⟨c.isLt, i.isLt⟩
  rw [defs₀_vec8]; simp only [SparseCore.onTile, hc, and_self, ↓reduceDIte]
  show iprop(_ ∗ _ ∗ goRes8 d (coordsV8 c i) (W23 m d (r main_arg1)) (W23 m d (r main_v19)) (W23 m d (r main_v20)) ∗ _) ⊢ wp _ _ _ _
    (fun _ => iprop(tdRes8 d (coordsV8 c i) (W23 m d (r main_arg1)) (W23 m d (r main_v19)) ∗ _))
  exact (tile_body8 d (coordsV8 c i) (W23 m d (r main_arg1)) (W23 m d (r main_v19)) (W23 m d (r main_v20)) facts (fun x _ => hR d x) O W hO).trans
    (wp_mono frame _ _ fun _ => obl_post)

end Cert.Kernel.Hand

end
-- ==== Proof.BRun.lean ====
/-
  The whole program's run, from the launch theorem of a SparseCore program: the five gather calls' task obligations,
  the hand-over of a SparseCore's operands to its tasks, @main on the TensorCore, the launch element of the ghost
  state, and how the final memory reads the claim. Every weakly fair execution of the device's threads terminates,
  nothing faulting, with the three arguments unchanged and the result array at the last valuation's contents.
-/
import proofs.«206421_g46840913330738_cont_8to1c4_247_26_alg».proof.Proof.BBase
import proofs.«206421_g46840913330738_cont_8to1c4_247_26_alg».proof.Proof.BEnd
import proofs.«206421_g46840913330738_cont_8to1c4_247_26_alg».proof.Proof.BLaunchElem
import proofs.«206421_g46840913330738_cont_8to1c4_247_26_alg».proof.Proof.BMainRun
import proofs.«206421_g46840913330738_cont_8to1c4_247_26_alg».proof.Proof.BTileObl0
import proofs.«206421_g46840913330738_cont_8to1c4_247_26_alg».proof.Proof.BTileObl2
import proofs.«206421_g46840913330738_cont_8to1c4_247_26_alg».proof.Proof.BTileObl4
import proofs.«206421_g46840913330738_cont_8to1c4_247_26_alg».proof.Proof.BTileObl6
import proofs.«206421_g46840913330738_cont_8to1c4_247_26_alg».proof.Proof.BTileObl8

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

variable (m : (ℓ : Loc nD τ sig) → Buf (Elt F) ℓ) (ρ : Dev nD → PrngReg) [FloatOps F]

/-- No call of this program is a scalar-subcore kernel. -/
theorem no_scalar : ∀ q : Fin 5, scKind q ≠ Kind.scScalar := by decide

/-- The launch element, as the launch theorem asks it: the credit and the free semaphores are not needed. -/
theorem hu₀' :
    iprop(ownU (u₀ (F := F)) ∗ (P m).oxCred ∗ (K (F := F)).freeSems0)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (P m).x q thr) :=
  sep_elim_left.trans hu₀

/-- The program's run. -/
theorem run_main [∀ e, Nonempty (Elt F e)] (h0 : InRange0 m) (h2 : InRange2 m) (h4 : InRange4 m) (h6 : InRange6 m) (h8 : InRange8 m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => absurd hq (no_scalar q))
    (fun q _ => match q with
      | 0 => tileObl0 m h0 | 1 => tileObl2 m h2 | 2 => tileObl4 m h4 | 3 => tileObl6 m h6 | 4 => tileObl8 m h8
      | ⟨_ + 5, h⟩ => absurd h (Nat.not_lt.2 (Nat.le_add_left _ _)))
    (fun q _ => SparseCore.Cfg.VecSplit.of_plain (vecSplit m q))
    m ρ main (fun d => G (F := F) d) (FIN m) (u₀ (F := F)) (hu₀' m) (hmain m ρ) (fq m) (hfin m) (QC m) (fun _ h => h)

end Cert.Kernel.Hand

end
-- ==== Proof.Spec.lean ====
/-
  The result both programs are shown to compute, as one function of the three argument arrays: an embedding lookup
  followed by a linear map without bias. Element (b, l, o) of the result is the inner product of row o of the weight
  matrix with the table row that the index word at (b, l) names,

      result[b, l, o] = ∑ d, W[o, d] * table[row (seqs[b, l]), d].

  A word names a row by its signed value clamped into the table (what an indexed read does with a start index); for a
  word in the table's range that is the word's own value.
-/
import Idealize.ShloMosaic.PureOps.Ideal
import Idealize.ShloMosaic.Lib.ValueIdx

noncomputable section

open scoped BigOperators

namespace Cert.Lookup

open Idealize.ShloMosaic Idealize.ShloMosaic.ValueIdx

/-! ## Shapes -/

/-- The index array: 16384 sequences of 50 words. -/
abbrev Sseq : Shape := ⟨2, ![16384, 50]⟩
/-- The table: 1000000 rows of 128 features. -/
abbrev Stab : Shape := ⟨2, ![1000000, 128]⟩
/-- The weight matrix: 64 outputs by 128 features. -/
abbrev Sw : Shape := ⟨2, ![64, 128]⟩
/-- The result: one 64-vector per word. -/
abbrev Sout : Shape := ⟨3, ![16384, 50, 64]⟩

/-! ## The row a word names -/

/-- The table row a 32-bit word names: its signed value, clamped into 0 … 999999. -/
def row (x : BitVec 32) : Fin 1000000 := ⟨min x.toInt.toNat 999999, by omega⟩

theorem row_val (x : BitVec 32) : (row x).val = min x.toInt.toNat 999999 := rfl

/-- A word whose signed value is in the table's range names the row of that value, which is also its unsigned value. -/
theorem row_val_of_range {x : BitVec 32} (h0 : 0 ≤ x.toInt) (h1 : x.toInt ≤ 999999) : (row x).val = x.toNat := by
  have hx : x.toInt = (x.toNat : Int) := by
    rw [BitVec.toInt_eq_toNat_cond] at h0 h1 ⊢
    split at h0 <;> omega
  rw [row_val, hx]
  rw [hx] at h1
  omega

theorem toInt_toNat_of_range {x : BitVec 32} (h0 : 0 ≤ x.toInt) : x.toInt.toNat = x.toNat := by
  have hx : x.toInt = (x.toNat : Int) := by
    rw [BitVec.toInt_eq_toNat_cond] at h0 ⊢
    split at h0 <;> omega
  rw [hx]; rfl

/-- A word in the table's range, read unsigned, is below the table's height. -/
theorem toNat_lt_of_range {x : BitVec 32} (h0 : 0 ≤ x.toInt) (h1 : x.toInt ≤ 999999) : x.toNat < 1000000 := by
  have := row_val_of_range h0 h1
  have := (row x).isLt
  omega

/-! ## The specification -/

/-- The lookup followed by the linear map, element by element: the weight's factor first. -/
def Spec (seqs : IVec Sseq 32) (tab : FVec Ideal Stab .f32) (w : FVec Ideal Sw .f32) : FVec Ideal Sout .f32 :=
  fun i => ∑ k : Fin 128, w (ix2 (i 2) k) * tab (ix2 (row (seqs (ix2 (i 0) (i 1)))) k)

theorem Spec_apply (seqs : IVec Sseq 32) (tab : FVec Ideal Stab .f32) (w : FVec Ideal Sw .f32)
    (b : Fin 16384) (l : Fin 50) (o : Fin 64) :
    Spec seqs tab w (ix3 b l o) = ∑ k : Fin 128, w (ix2 o k) * tab (ix2 (row (seqs (ix2 b l))) k) := rfl

end Cert.Lookup

end
-- ==== Proof.LibTransposedDot.lean ====
/-
  A matrix product whose right operand is contracted on its LAST axis, read at an entry, at the ideal instance.

  For dimension numbers that contract the left operand's columns with the right operand's columns and have no batch
  axis (`DotDims.transposedRhs m k n`: an m×k matrix against an n×k one, "a · bᵀ"), the kernel's product into a zero
  accumulator and the host's `dot_general` are, at entry (p, j), the sum over q < k of l (p, q) · r (j, q) on the
  extended reals.  Stated for any record equal to that one, so that a printed record (a definition of its own) can
  be cited by `rfl`.  General lemma: any extents, any float formats of the operands.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    (p, j) written by coordinates: the left operand at (p, q), the right one at (j, q). -/
theorem sum_transposedRhs (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry (p, j). -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposedRhs l r p j

/-- The host's `dot_general` with the same dimension numbers, at entry (p, j). -/
theorem dotGeneral_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    Host.dotGeneral D prec l r (ix2 p j) = ∑ q : Fin k, l (ix2 p q) * r (ix2 j q) := by
  subst hD
  simp only [Host.dotGeneral]
  rw [Ideal.dotGeneral_apply]
  exact sum_transposedRhs l r p j

end Cert.TransposedDot

end
-- ==== Proof.Reading.lean ====
/-
  The kernel's arrays read at an index, for the shapes of this program and no program in view.

  The index array of a gather call is a 163840-word stretch of the transposed index matrix laid flat, cut into
  32 × 40 × 128: its word at flat position ρ of the stretch starting at off is the word of the index matrix at
  row (off + ρ) mod 16384, column (off + ρ) div 16384. A matrix-product region's body, at the ideal values, is at
  entry (o, b) of its one leading slice the inner product of row o of the weights with row b of the block of
  gathered rows. A region that writes the next ten leading slices with those inner products over the rows its index
  words name, and keeps the slices below, extends the range of slices on which the array is the specification.
-/
import proofs.«206421_g46840913330738_cont_8to1c4_247_26_alg».proof.Proof.Spec
import proofs.«206421_g46840913330738_cont_8to1c4_247_26_alg».proof.Proof.LibTransposedDot
import Idealize.ShloMosaic.Lib.Pipeline.Value

noncomputable section

open scoped BigOperators

namespace Cert.Lookup

open Idealize.ShloMosaic Idealize.ShloMosaic.ValueIdx

/-! ## Shapes -/

/-- The index matrix transposed: 50 columns of 16384 words. -/
abbrev SseqT : Shape := ⟨2, ![50, 16384]⟩
/-- The same laid flat. -/
abbrev Sflat : Shape := ⟨1, ![819200]⟩
/-- One call's stretch of it. -/
abbrev Schunk : Shape := ⟨1, ![163840]⟩
/-- The stretch as the subcores' blocks. -/
abbrev Sidx : Shape := ⟨3, ![32, 40, 128]⟩
/-- One call's gathered rows. -/
abbrev Sgath : Shape := ⟨2, ![163840, 128]⟩
/-- The projected array, leading axis the columns of the index matrix. -/
abbrev Sproj : Shape := ⟨3, ![50, 64, 16384]⟩
/-- One block of gathered rows. -/
abbrev Sblk : Shape := ⟨2, ![16384, 128]⟩
/-- One leading slice of the projected array, and the same with its unit axis. -/
abbrev Sprod : Shape := ⟨2, ![64, 16384]⟩
abbrev Sprod1 : Shape := ⟨3, ![1, 64, 16384]⟩

/-! ## The index words -/

/-- The transposed index matrix laid flat, at position n: the word at row n mod 16384, column n div 16384. -/
theorem flat_apply (seqs : IVec Sseq 32) (ht : Sseq.Transposes [1, 0] SseqT) (hc : SseqT.ShapeCasts Sflat)
    (n : ℕ) (hn : n < 819200) :
    shapeCast Sflat (transpose SseqT [1, 0] seqs ht) hc (ix1 (⟨n, hn⟩ : Fin 819200))
      = seqs (ix2 (⟨n % 16384, Nat.mod_lt _ (by decide)⟩ : Fin 16384) (⟨n / 16384, by omega⟩ : Fin 50)) := by
  refine (shapeCast_apply _ hc (ix1 (⟨n, hn⟩ : Fin 819200))
    (ix2 (⟨n / 16384, by omega⟩ : Fin 50) (⟨n % 16384, Nat.mod_lt _ (by decide)⟩ : Fin 16384)) ?_).trans ?_
  · rw [Shape.rowMajor_val_two, Shape.rowMajor_val_one]
    show n / 16384 * 16384 + n % 16384 = n
    omega
  · exact transpose_apply [1, 0] seqs ht _ _ (fun b => match b with | ⟨0, _⟩ => rfl | ⟨1, _⟩ => rfl)

/-- A call's index array at the index of flat position ρ: the word of the index matrix at row (off + ρ) mod 16384,
    column (off + ρ) div 16384. -/
theorem idxArr_apply (seqs : IVec Sseq 32) (off : ℕ) (hoff : off + 163840 ≤ 819200)
    (ht : Sseq.Transposes [1, 0] SseqT) (hc : SseqT.ShapeCasts Sflat) (hs : Sflat.Slices ![off] Schunk)
    (hc2 : Schunk.ShapeCasts Sidx) (x : Sidx.Idx) (ρ : ℕ) (hρ : ρ < 163840) (hx : (Sidx.rowMajor x).val = ρ) :
    shapeCast Sidx (extractStridedSlice Schunk ![off] (shapeCast Sflat (transpose SseqT [1, 0] seqs ht) hc) hs) hc2 x
      = seqs (ix2 (⟨(off + ρ) % 16384, Nat.mod_lt _ (by decide)⟩ : Fin 16384) (⟨(off + ρ) / 16384, by omega⟩ : Fin 50)) := by
  refine (shapeCast_apply _ hc2 x (ix1 (⟨ρ, hρ⟩ : Fin 163840)) ?_).trans ?_
  · rw [Shape.rowMajor_val_one, hx]
  refine (extractStridedSlice_apply ![off] _ hs (ix1 (⟨ρ, hρ⟩ : Fin 163840)) (ix1 (⟨off + ρ, by omega⟩ : Fin 819200))
    (fun a => match a with | ⟨0, _⟩ => rfl)).trans ?_
  exact flat_apply seqs ht hc (off + ρ) (by omega)

/-! ## A region's body at the ideal values -/

/-- The body's product between its two shape casts, at entry (0, o, b): the inner product over the 128 features of the
    weights' row o with the block's row b. -/
theorem pay_apply (D : DotDims Sw Sblk Sprod) (hD : D = DotDims.transposedRhs 64 128 16384)
    (w : FVec Ideal Sw .f32) (v : FVec Ideal Sblk .f32) (h1 : Sblk.ShapeCasts Sblk) (h2 : Sprod.ShapeCasts Sprod1)
    (y : Sprod1.Idx) :
    shapeCast Sprod1 (matmul D none w (shapeCast Sblk v h1) (constant (F := Ideal) Sprod .f32 0x00000000#32)) h2 y
      = ∑ q : Fin 128, w (ix2 (y 1) q) * v (ix2 (y 2) q) := by
  have h0 : (y 0).val < 1 := (y 0).isLt
  refine (shapeCast_apply _ h2 y (ix2 (y 1) (y 2)) ?_).trans ?_
  · rw [Shape.rowMajor_val_two, Shape.rowMajor_val_three]
    show (y 1).val * 16384 + (y 2).val = ((y 0).val * 64 + (y 1).val) * 16384 + (y 2).val
    omega
  rw [shapeCast_self]
  exact Cert.TransposedDot.matmul_zero_ix2 D hD none w v (y 1) (y 2)

/-! ## The slices done so far -/

/-- The projected array is the specification on its leading slices below n: entry (l, o, b) is the result's (b, l, o). -/
def Done (n : ℕ) (seqs : IVec Sseq 32) (tab : FVec Ideal Stab .f32) (w : FVec Ideal Sw .f32) (f : FVec Ideal Sproj .f32) : Prop :=
  ∀ i : Sproj.Idx, (i 0).val < n → f i = Spec seqs tab w (ix3 (i 2) (i 0) (i 1))

/-- Nothing is asked of no slice. -/
theorem Done_zero (seqs : IVec Sseq 32) (tab : FVec Ideal Stab .f32) (w : FVec Ideal Sw .f32) (f : FVec Ideal Sproj .f32) :
    Done 0 seqs tab w f := fun _ h => absurd h (Nat.not_lt_zero _)

/-- A region that writes slices lo … lo + 9 with the inner products over the gathered rows, the gathered row at
    position ρ being the table row the index matrix names at row ρ mod 16384, column lo + ρ div 16384, and keeps the
    other slices, takes the array from done below lo to done below lo + 10. -/
theorem Done_step (lo : ℕ) (hlo : lo + 10 ≤ 50) (seqs : IVec Sseq 32) (tab : FVec Ideal Stab .f32) (w : FVec Ideal Sw .f32)
    (g : FVec Ideal Sgath .f32)
    (hg : ∀ (ρ : ℕ) (hρ : ρ < 163840) (q : Fin 128), g (ix2 (⟨ρ, hρ⟩ : Fin 163840) q)
      = tab (ix2 (row (seqs (ix2 (⟨ρ % 16384, Nat.mod_lt _ (by decide)⟩ : Fin 16384) (⟨lo + ρ / 16384, by omega⟩ : Fin 50)))) q))
    (f0 f1 : FVec Ideal Sproj .f32) (h0 : Done lo seqs tab w f0)
    (hin : ∀ (i : Sproj.Idx) (h : lo ≤ (i 0).val ∧ (i 0).val < lo + 10),
      f1 i = ∑ q : Fin 128, w (ix2 (i 1) q)
        * g (ix2 (⟨((i 0).val - lo) * 16384 + (i 2).val, by have := (i 2).isLt; have : (i 2).val < 16384 := this; omega⟩ : Fin 163840) q))
    (hout : ∀ i : Sproj.Idx, ¬(lo ≤ (i 0).val ∧ (i 0).val < lo + 10) → f1 i = f0 i) :
    Done (lo + 10) seqs tab w f1 := by
  intro i hi
  by_cases h : lo ≤ (i 0).val ∧ (i 0).val < lo + 10
  · rw [hin i h]
    have h2 : (i 2).val < 16384 := (i 2).isLt
    show _ = ∑ k : Fin 128, w (ix2 (i 1) k) * tab (ix2 (row (seqs (ix2 (i 2) (i 0)))) k)
    refine Finset.sum_congr rfl fun q _ => ?_
    rw [hg]
    have e : (ix2 (⟨(((i 0).val - lo) * 16384 + (i 2).val) % 16384, Nat.mod_lt _ (by decide)⟩ : Fin 16384)
        (⟨lo + (((i 0).val - lo) * 16384 + (i 2).val) / 16384, by omega⟩ : Fin 50) : Sseq.Idx) = ix2 (i 2) (i 0) := by
      funext a
      refine Fin.ext ?_
      match a with
      | ⟨0, _⟩ => show (((i 0).val - lo) * 16384 + (i 2).val) % 16384 = (i 2).val; omega
      | ⟨1, _⟩ => show lo + (((i 0).val - lo) * 16384 + (i 2).val) / 16384 = (i 0).val; omega
    rw [e]
    rfl
  · rw [hout i h]
    exact h0 i (by omega)

end Cert.Lookup

end
-- ==== Proof.IdxRange.lean ====
/-
  The five index arrays of the gather calls, for every float instance at once. Each is a 163840-word stretch of the
  transposed index matrix laid flat, cut into the subcores' blocks, so each of its words is a word of the index matrix;
  where the index matrix's words name table rows, so does every word of every index array.
-/
import proofs.«206421_g46840913330738_cont_8to1c4_247_26_alg».proof.Proof.Vals
import proofs.«206421_g46840913330738_cont_8to1c4_247_26_alg».proof.Proof.Kept
import proofs.«206421_g46840913330738_cont_8to1c4_247_26_alg».proof.Proof.Reading

noncomputable section

namespace Cert.KernelIdeal.Hand

open Cert.KernelIdeal Cert.KernelIdeal.Gen Cert.Lookup
open Idealize.ShloMosaic Idealize.ShloMosaic.ValueIdx

/-! ## The pure terms -/

/-- The transposed index matrix laid flat. -/
def flatIdx (seqs : IVec S16384x50 32) : IVec S819200 32 :=
  shapeCast S819200 (transpose S50x16384 [1, 0] seqs transposes_S16384x50_S50x16384_1_0) shapeCasts_S50x16384_S819200

/-- The stretch of it from position off, as the subcores' blocks. -/
def idxArr (off : ℕ) (hs : S819200.Slices ![off] S163840) (seqs : IVec S16384x50 32) : IVec S32x40x128 32 :=
  shapeCast S32x40x128 (extractStridedSlice S163840 ![off] (flatIdx seqs) hs) shapeCasts_S163840_S32x40x128

theorem numel_idx : S32x40x128.numel = 163840 := by decide

/-- A flat position in the blocks' shape is below 163840. -/
theorem rowMajor_lt (x : S32x40x128.Idx) : (S32x40x128.rowMajor x).val < 163840 :=
  Nat.lt_of_lt_of_eq (S32x40x128.rowMajor x).isLt numel_idx

/-- The stretch's word at an index is the index matrix's at row (off + ρ) mod 16384, column (off + ρ) div 16384, ρ the
    index's flat position. -/
theorem idxArr_word (off : ℕ) (hoff : off + 163840 ≤ 819200) (hs : S819200.Slices ![off] S163840) (seqs : IVec S16384x50 32)
    (x : S32x40x128.Idx) :
    idxArr off hs seqs x
      = seqs (ix2 (⟨(off + (S32x40x128.rowMajor x).val) % 16384, Nat.mod_lt _ (by decide)⟩ : Fin 16384)
          (⟨(off + (S32x40x128.rowMajor x).val) / 16384, by have := rowMajor_lt x; omega⟩ : Fin 50)) :=
  idxArr_apply seqs off hoff _ _ hs _ x _ (rowMajor_lt x) rfl

/-- Where the index matrix's words name table rows, so do the stretch's. -/
theorem idxArr_lt (off : ℕ) (hoff : off + 163840 ≤ 819200) (hs : S819200.Slices ![off] S163840) (seqs : IVec S16384x50 32)
    (hr : ∀ j, 0 ≤ (seqs j).toInt ∧ (seqs j).toInt ≤ 999999) (x : S32x40x128.Idx) :
    BitVec.toNat (idxArr off hs seqs x) < 1000000 := by
  rw [idxArr_word off hoff hs seqs x]
  exact toNat_lt_of_range (hr _).1 (hr _).2

/-! ## @main's steps off their own buffers -/

variable {F : FTy → Type}

variable (m : (ℓ : Loc nD τ sig) → Buf (Elt F) ℓ) (d : Dev nD) [FloatOps F]

theorem W1_ne {b : DevRef τ sig} (hb : b ≠ r main_v0) : W1 m d b = W0 m d b :=
  (op0 (F := F)).result_of_not_mem (W0 m d) (fun h => hb (Finset.mem_singleton.mp h))
theorem W2_ne {b : DevRef τ sig} (hb : b ≠ r main_v1) : W2 m d b = W1 m d b :=
  (op1 (F := F)).result_of_not_mem (W1 m d) (fun h => hb (Finset.mem_singleton.mp h))
theorem W3_ne {b : DevRef τ sig} (hb : b ≠ r main_v2) : W3 m d b = W2 m d b :=
  (op2 (F := F)).result_of_not_mem (W2 m d) (fun h => hb (Finset.mem_singleton.mp h))
theorem W4_ne {b : DevRef τ sig} (hb : b ≠ r main_v3) : W4 m d b = W3 m d b :=
  (op3 (F := F)).result_of_not_mem (W3 m d) (fun h => hb (Finset.mem_singleton.mp h))
theorem W5_ne {b : DevRef τ sig} (hb : b ≠ r main_v4) : W5 m d b = W4 m d b :=
  Function.update_of_ne hb _ _
theorem W6_ne {b : DevRef τ sig} (hb : b ≠ r main_v5) : W6 m d b = W5 m d b :=
  Function.update_of_ne hb _ _
theorem W7_ne {b : DevRef τ sig} (hb : b ≠ r main_v6) : W7 m d b = W6 m d b :=
  (op6 (F := F)).result_of_not_mem (W6 m d) (fun h => hb (Finset.mem_singleton.mp h))
theorem W8_ne {b : DevRef τ sig} (hb : b ≠ r main_v7) : W8 m d b = W7 m d b :=
  (op7 (F := F)).result_of_not_mem (W7 m d) (fun h => hb (Finset.mem_singleton.mp h))
theorem W9_ne {b : DevRef τ sig} (hb : b ≠ r main_v8) : W9 m d b = W8 m d b :=
  Function.update_of_ne hb _ _
theorem W10_ne {b : DevRef τ sig} (hb : b ≠ r main_v9) : W10 m d b = W9 m d b :=
  (op9 (F := F)).result_of_not_mem (W9 m d) (fun h => hb (Finset.mem_singleton.mp h))
theorem W11_ne {b : DevRef τ sig} (hb : b ≠ r main_v9) : W11 m d b = W10 m d b :=
  Function.update_of_ne hb _ _
theorem W12_ne {b : DevRef τ sig} (hb : b ≠ r main_v10) : W12 m d b = W11 m d b :=
  (op11 (F := F)).result_of_not_mem (W11 m d) (fun h => hb (Finset.mem_singleton.mp h))
theorem W13_ne {b : DevRef τ sig} (hb : b ≠ r main_v11) : W13 m d b = W12 m d b :=
  (op12 (F := F)).result_of_not_mem (W12 m d) (fun h => hb (Finset.mem_singleton.mp h))
theorem W14_ne {b : DevRef τ sig} (hb : b ≠ r main_v12) : W14 m d b = W13 m d b :=
  Function.update_of_ne hb _ _
theorem W15_ne {b : DevRef τ sig} (hb : b ≠ r main_v13) : W15 m d b = W14 m d b :=
  (op14 (F := F)).result_of_not_mem (W14 m d) (fun h => hb (Finset.mem_singleton.mp h))
theorem W16_ne {b : DevRef τ sig} (hb : b ≠ r main_v13) : W16 m d b = W15 m d b :=
  Function.update_of_ne hb _ _
theorem W17_ne {b : DevRef τ sig} (hb : b ≠ r main_v14) : W17 m d b = W16 m d b :=
  (op16 (F := F)).result_of_not_mem (W16 m d) (fun h => hb (Finset.mem_singleton.mp h))
theorem W18_ne {b : DevRef τ sig} (hb : b ≠ r main_v15) : W18 m d b = W17 m d b :=
  (op17 (F := F)).result_of_not_mem (W17 m d) (fun h => hb (Finset.mem_singleton.mp h))
theorem W19_ne {b : DevRef τ sig} (hb : b ≠ r main_v16) : W19 m d b = W18 m d b :=
  Function.update_of_ne hb _ _
theorem W20_ne {b : DevRef τ sig} (hb : b ≠ r main_v17) : W20 m d b = W19 m d b :=
  (op19 (F := F)).result_of_not_mem (W19 m d) (fun h => hb (Finset.mem_singleton.mp h))
theorem W21_ne {b : DevRef τ sig} (hb : b ≠ r main_v17) : W21 m d b = W20 m d b :=
  Function.update_of_ne hb _ _
theorem W22_ne {b : DevRef τ sig} (hb : b ≠ r main_v18) : W22 m d b = W21 m d b :=
  (op21 (F := F)).result_of_not_mem (W21 m d) (fun h => hb (Finset.mem_singleton.mp h))
theorem W23_ne {b : DevRef τ sig} (hb : b ≠ r main_v19) : W23 m d b = W22 m d b :=
  (op22 (F := F)).result_of_not_mem (W22 m d) (fun h => hb (Finset.mem_singleton.mp h))
theorem W24_ne {b : DevRef τ sig} (hb : b ≠ r main_v20) : W24 m d b = W23 m d b :=
  Function.update_of_ne hb _ _
theorem W25_ne {b : DevRef τ sig} (hb : b ≠ r main_v21) : W25 m d b = W24 m d b :=
  (op24 (F := F)).result_of_not_mem (W24 m d) (fun h => hb (Finset.mem_singleton.mp h))
theorem W26_ne {b : DevRef τ sig} (hb : b ≠ r main_v21) : W26 m d b = W25 m d b :=
  Function.update_of_ne hb _ _
theorem W27_ne {b : DevRef τ sig} (hb : b ≠ r main_v22) : W27 m d b = W26 m d b :=
  (op26 (F := F)).result_of_not_mem (W26 m d) (fun h => hb (Finset.mem_singleton.mp h))

/-! ## The index arrays -/

/-- The transposed index matrix laid flat, as @main's second step leaves it. -/
theorem W2_v1 : W2 m d (r main_v1) = flatIdx (m ((SparseCore.T d).loc main_arg0)) := by
  have e0 : W1 m d (r main_v0) = transpose S50x16384 [1, 0] (W0 m d (r main_arg0)) transposes_S16384x50_S50x16384_1_0 :=
    StableHlo.unary_result main_arg0 main_v0 _ _ _ (W0 m d)
  have e1 : W2 m d (r main_v1) = shapeCast S819200 (W1 m d (r main_v0)) shapeCasts_S50x16384_S819200 :=
    StableHlo.reshape_result main_v0 main_v1 rfl shapeCasts_S50x16384_S819200 _ _ (W1 m d)
  rw [e1, e0]
  rfl
theorem W6_v1 : W6 m d (r main_v1) = flatIdx (m ((SparseCore.T d).loc main_arg0)) := by
  rw [W6_ne m d (by decide), W5_ne m d (by decide), W4_ne m d (by decide), W3_ne m d (by decide)]
  exact W2_v1 m d
theorem W11_v1 : W11 m d (r main_v1) = flatIdx (m ((SparseCore.T d).loc main_arg0)) := by
  rw [W11_ne m d (by decide), W10_ne m d (by decide), W9_ne m d (by decide), W8_ne m d (by decide), W7_ne m d (by decide)]
  exact W6_v1 m d
theorem W16_v1 : W16 m d (r main_v1) = flatIdx (m ((SparseCore.T d).loc main_arg0)) := by
  rw [W16_ne m d (by decide), W15_ne m d (by decide), W14_ne m d (by decide), W13_ne m d (by decide), W12_ne m d (by decide)]
  exact W11_v1 m d
theorem W21_v1 : W21 m d (r main_v1) = flatIdx (m ((SparseCore.T d).loc main_arg0)) := by
  rw [W21_ne m d (by decide), W20_ne m d (by decide), W19_ne m d (by decide), W18_ne m d (by decide), W17_ne m d (by decide)]
  exact W16_v1 m d

/-- The index array of gather call 0. -/
theorem W4_idx : W4 m d (r main_v3) = idxArr 0 slices_S819200_S163840_0 (m ((SparseCore.T d).loc main_arg0)) := by
  have e0 : W3 m d (r main_v2) = extractStridedSlice S163840 ![0] (W2 m d (r main_v1)) slices_S819200_S163840_0 :=
    StableHlo.unary_result main_v1 main_v2 _ _ _ (W2 m d)
  have e1 : W4 m d (r main_v3) = shapeCast S32x40x128 (W3 m d (r main_v2)) shapeCasts_S163840_S32x40x128 :=
    StableHlo.reshape_result main_v2 main_v3 rfl shapeCasts_S163840_S32x40x128 _ _ (W3 m d)
  rw [e1, e0, W2_v1]
  rfl
/-- The index array of gather call 1. -/
theorem W8_idx : W8 m d (r main_v7) = idxArr 163840 slices_S819200_S163840_163840 (m ((SparseCore.T d).loc main_arg0)) := by
  have e0 : W7 m d (r main_v6) = extractStridedSlice S163840 ![163840] (W6 m d (r main_v1)) slices_S819200_S163840_163840 :=
    StableHlo.unary_result main_v1 main_v6 _ _ _ (W6 m d)
  have e1 : W8 m d (r main_v7) = shapeCast S32x40x128 (W7 m d (r main_v6)) shapeCasts_S163840_S32x40x128 :=
    StableHlo.reshape_result main_v6 main_v7 rfl shapeCasts_S163840_S32x40x128 _ _ (W7 m d)
  rw [e1, e0, W6_v1]
  rfl
/-- The index array of gather call 2. -/
theorem W13_idx : W13 m d (r main_v11) = idxArr 327680 slices_S819200_S163840_327680 (m ((SparseCore.T d).loc main_arg0)) := by
  have e0 : W12 m d (r main_v10) = extractStridedSlice S163840 ![327680] (W11 m d (r main_v1)) slices_S819200_S163840_327680 :=
    StableHlo.unary_result main_v1 main_v10 _ _ _ (W11 m d)
  have e1 : W13 m d (r main_v11) = shapeCast S32x40x128 (W12 m d (r main_v10)) shapeCasts_S163840_S32x40x128 :=
    StableHlo.reshape_result main_v10 main_v11 rfl shapeCasts_S163840_S32x40x128 _ _ (W12 m d)
  rw [e1, e0, W11_v1]
  rfl
/-- The index array of gather call 3. -/
theorem W18_idx : W18 m d (r main_v15) = idxArr 491520 slices_S819200_S163840_491520 (m ((SparseCore.T d).loc main_arg0)) := by
  have e0 : W17 m d (r main_v14) = extractStridedSlice S163840 ![491520] (W16 m d (r main_v1)) slices_S819200_S163840_491520 :=
    StableHlo.unary_result main_v1 main_v14 _ _ _ (W16 m d)
  have e1 : W18 m d (r main_v15) = shapeCast S32x40x128 (W17 m d (r main_v14)) shapeCasts_S163840_S32x40x128 :=
    StableHlo.reshape_result main_v14 main_v15 rfl shapeCasts_S163840_S32x40x128 _ _ (W17 m d)
  rw [e1, e0, W16_v1]
  rfl
/-- The index array of gather call 4. -/
theorem W23_idx : W23 m d (r main_v19) = idxArr 655360 slices_S819200_S163840_655360 (m ((SparseCore.T d).loc main_arg0)) := by
  have e0 : W22 m d (r main_v18) = extractStridedSlice S163840 ![655360] (W21 m d (r main_v1)) slices_S819200_S163840_655360 :=
    StableHlo.unary_result main_v1 main_v18 _ _ _ (W21 m d)
  have e1 : W23 m d (r main_v19) = shapeCast S32x40x128 (W22 m d (r main_v18)) shapeCasts_S163840_S32x40x128 :=
    StableHlo.reshape_result main_v18 main_v19 rfl shapeCasts_S163840_S32x40x128 _ _ (W22 m d)
  rw [e1, e0, W21_v1]
  rfl

/-! ## Their words name table rows -/

/-- Every word of gather call 0's index array names a table row. -/
theorem inRange0 (hr : ∀ j, 0 ≤ (m ((SparseCore.T d).loc main_arg0) j).toInt ∧ (m ((SparseCore.T d).loc main_arg0) j).toInt ≤ 999999)
    (x : S32x40x128.Idx) : BitVec.toNat (W4 m d (r main_v3) x) < 1000000 := by
  rw [W4_idx]
  exact idxArr_lt 0 (by decide) _ _ hr x
/-- Every word of gather call 1's index array names a table row. -/
theorem inRange2 (hr : ∀ j, 0 ≤ (m ((SparseCore.T d).loc main_arg0) j).toInt ∧ (m ((SparseCore.T d).loc main_arg0) j).toInt ≤ 999999)
    (x : S32x40x128.Idx) : BitVec.toNat (W8 m d (r main_v7) x) < 1000000 := by
  rw [W8_idx]
  exact idxArr_lt 163840 (by decide) _ _ hr x
/-- Every word of gather call 2's index array names a table row. -/
theorem inRange4 (hr : ∀ j, 0 ≤ (m ((SparseCore.T d).loc main_arg0) j).toInt ∧ (m ((SparseCore.T d).loc main_arg0) j).toInt ≤ 999999)
    (x : S32x40x128.Idx) : BitVec.toNat (W13 m d (r main_v11) x) < 1000000 := by
  rw [W13_idx]
  exact idxArr_lt 327680 (by decide) _ _ hr x
/-- Every word of gather call 3's index array names a table row. -/
theorem inRange6 (hr : ∀ j, 0 ≤ (m ((SparseCore.T d).loc main_arg0) j).toInt ∧ (m ((SparseCore.T d).loc main_arg0) j).toInt ≤ 999999)
    (x : S32x40x128.Idx) : BitVec.toNat (W18 m d (r main_v15) x) < 1000000 := by
  rw [W18_idx]
  exact idxArr_lt 491520 (by decide) _ _ hr x
/-- Every word of gather call 4's index array names a table row. -/
theorem inRange8 (hr : ∀ j, 0 ≤ (m ((SparseCore.T d).loc main_arg0) j).toInt ∧ (m ((SparseCore.T d).loc main_arg0) j).toInt ≤ 999999)
    (x : S32x40x128.Idx) : BitVec.toNat (W23 m d (r main_v19) x) < 1000000 := by
  rw [W23_idx]
  exact idxArr_lt 655360 (by decide) _ _ hr x

end Cert.KernelIdeal.Hand

end
-- ==== Proof.BIdxRange.lean ====
/-
  The five index arrays of the gather calls, for every float instance at once. Each is a 163840-word stretch of the
  transposed index matrix laid flat, cut into the subcores' blocks, so each of its words is a word of the index matrix;
  where the index matrix's words name table rows, so does every word of every index array.
-/
import proofs.«206421_g46840913330738_cont_8to1c4_247_26_alg».proof.Proof.BVals
import proofs.«206421_g46840913330738_cont_8to1c4_247_26_alg».proof.Proof.BKept
import proofs.«206421_g46840913330738_cont_8to1c4_247_26_alg».proof.Proof.Reading

noncomputable section

namespace Cert.Kernel.Hand

open Cert.Kernel Cert.Kernel.Gen Cert.Lookup
open Idealize.ShloMosaic Idealize.ShloMosaic.ValueIdx

/-! ## The pure terms -/

/-- The transposed index matrix laid flat. -/
def flatIdx (seqs : IVec S16384x50 32) : IVec S819200 32 :=
  shapeCast S819200 (transpose S50x16384 [1, 0] seqs transposes_S16384x50_S50x16384_1_0) shapeCasts_S50x16384_S819200

/-- The stretch of it from position off, as the subcores' blocks. -/
def idxArr (off : ℕ) (hs : S819200.Slices ![off] S163840) (seqs : IVec S16384x50 32) : IVec S32x40x128 32 :=
  shapeCast S32x40x128 (extractStridedSlice S163840 ![off] (flatIdx seqs) hs) shapeCasts_S163840_S32x40x128

theorem numel_idx : S32x40x128.numel = 163840 := by decide

/-- A flat position in the blocks' shape is below 163840. -/
theorem rowMajor_lt (x : S32x40x128.Idx) : (S32x40x128.rowMajor x).val < 163840 :=
  Nat.lt_of_lt_of_eq (S32x40x128.rowMajor x).isLt numel_idx

/-- The stretch's word at an index is the index matrix's at row (off + ρ) mod 16384, column (off + ρ) div 16384, ρ the
    index's flat position. -/
theorem idxArr_word (off : ℕ) (hoff : off + 163840 ≤ 819200) (hs : S819200.Slices ![off] S163840) (seqs : IVec S16384x50 32)
    (x : S32x40x128.Idx) :
    idxArr off hs seqs x
      = seqs (ix2 (⟨(off + (S32x40x128.rowMajor x).val) % 16384, Nat.mod_lt _ (by decide)⟩ : Fin 16384)
          (⟨(off + (S32x40x128.rowMajor x).val) / 16384, by have := rowMajor_lt x; omega⟩ : Fin 50)) :=
  idxArr_apply seqs off hoff _ _ hs _ x _ (rowMajor_lt x) rfl

/-- Where the index matrix's words name table rows, so do the stretch's. -/
theorem idxArr_lt (off : ℕ) (hoff : off + 163840 ≤ 819200) (hs : S819200.Slices ![off] S163840) (seqs : IVec S16384x50 32)
    (hr : ∀ j, 0 ≤ (seqs j).toInt ∧ (seqs j).toInt ≤ 999999) (x : S32x40x128.Idx) :
    BitVec.toNat (idxArr off hs seqs x) < 1000000 := by
  rw [idxArr_word off hoff hs seqs x]
  exact toNat_lt_of_range (hr _).1 (hr _).2

/-! ## @main's steps off their own buffers -/

variable {F : FTy → Type}

variable (m : (ℓ : Loc nD τ sig) → Buf (Elt F) ℓ) (d : Dev nD) [FloatOps F]

theorem W1_ne {b : DevRef τ sig} (hb : b ≠ r main_v0) : W1 m d b = W0 m d b :=
  (op0 (F := F)).result_of_not_mem (W0 m d) (fun h => hb (Finset.mem_singleton.mp h))
theorem W2_ne {b : DevRef τ sig} (hb : b ≠ r main_v1) : W2 m d b = W1 m d b :=
  (op1 (F := F)).result_of_not_mem (W1 m d) (fun h => hb (Finset.mem_singleton.mp h))
theorem W3_ne {b : DevRef τ sig} (hb : b ≠ r main_v2) : W3 m d b = W2 m d b :=
  (op2 (F := F)).result_of_not_mem (W2 m d) (fun h => hb (Finset.mem_singleton.mp h))
theorem W4_ne {b : DevRef τ sig} (hb : b ≠ r main_v3) : W4 m d b = W3 m d b :=
  (op3 (F := F)).result_of_not_mem (W3 m d) (fun h => hb (Finset.mem_singleton.mp h))
theorem W5_ne {b : DevRef τ sig} (hb : b ≠ r main_v4) : W5 m d b = W4 m d b :=
  Function.update_of_ne hb _ _
theorem W6_ne {b : DevRef τ sig} (hb : b ≠ r main_v5) : W6 m d b = W5 m d b :=
  Function.update_of_ne hb _ _
theorem W7_ne {b : DevRef τ sig} (hb : b ≠ r main_v6) : W7 m d b = W6 m d b :=
  (op6 (F := F)).result_of_not_mem (W6 m d) (fun h => hb (Finset.mem_singleton.mp h))
theorem W8_ne {b : DevRef τ sig} (hb : b ≠ r main_v7) : W8 m d b = W7 m d b :=
  (op7 (F := F)).result_of_not_mem (W7 m d) (fun h => hb (Finset.mem_singleton.mp h))
theorem W9_ne {b : DevRef τ sig} (hb : b ≠ r main_v8) : W9 m d b = W8 m d b :=
  Function.update_of_ne hb _ _
theorem W10_ne {b : DevRef τ sig} (hb : b ≠ r main_v9) : W10 m d b = W9 m d b :=
  (op9 (F := F)).result_of_not_mem (W9 m d) (fun h => hb (Finset.mem_singleton.mp h))
theorem W11_ne {b : DevRef τ sig} (hb : b ≠ r main_v9) : W11 m d b = W10 m d b :=
  Function.update_of_ne hb _ _
theorem W12_ne {b : DevRef τ sig} (hb : b ≠ r main_v10) : W12 m d b = W11 m d b :=
  (op11 (F := F)).result_of_not_mem (W11 m d) (fun h => hb (Finset.mem_singleton.mp h))
theorem W13_ne {b : DevRef τ sig} (hb : b ≠ r main_v11) : W13 m d b = W12 m d b :=
  (op12 (F := F)).result_of_not_mem (W12 m d) (fun h => hb (Finset.mem_singleton.mp h))
theorem W14_ne {b : DevRef τ sig} (hb : b ≠ r main_v12) : W14 m d b = W13 m d b :=
  Function.update_of_ne hb _ _
theorem W15_ne {b : DevRef τ sig} (hb : b ≠ r main_v13) : W15 m d b = W14 m d b :=
  (op14 (F := F)).result_of_not_mem (W14 m d) (fun h => hb (Finset.mem_singleton.mp h))
theorem W16_ne {b : DevRef τ sig} (hb : b ≠ r main_v13) : W16 m d b = W15 m d b :=
  Function.update_of_ne hb _ _
theorem W17_ne {b : DevRef τ sig} (hb : b ≠ r main_v14) : W17 m d b = W16 m d b :=
  (op16 (F := F)).result_of_not_mem (W16 m d) (fun h => hb (Finset.mem_singleton.mp h))
theorem W18_ne {b : DevRef τ sig} (hb : b ≠ r main_v15) : W18 m d b = W17 m d b :=
  (op17 (F := F)).result_of_not_mem (W17 m d) (fun h => hb (Finset.mem_singleton.mp h))
theorem W19_ne {b : DevRef τ sig} (hb : b ≠ r main_v16) : W19 m d b = W18 m d b :=
  Function.update_of_ne hb _ _
theorem W20_ne {b : DevRef τ sig} (hb : b ≠ r main_v17) : W20 m d b = W19 m d b :=
  (op19 (F := F)).result_of_not_mem (W19 m d) (fun h => hb (Finset.mem_singleton.mp h))
theorem W21_ne {b : DevRef τ sig} (hb : b ≠ r main_v17) : W21 m d b = W20 m d b :=
  Function.update_of_ne hb _ _
theorem W22_ne {b : DevRef τ sig} (hb : b ≠ r main_v18) : W22 m d b = W21 m d b :=
  (op21 (F := F)).result_of_not_mem (W21 m d) (fun h => hb (Finset.mem_singleton.mp h))
theorem W23_ne {b : DevRef τ sig} (hb : b ≠ r main_v19) : W23 m d b = W22 m d b :=
  (op22 (F := F)).result_of_not_mem (W22 m d) (fun h => hb (Finset.mem_singleton.mp h))
theorem W24_ne {b : DevRef τ sig} (hb : b ≠ r main_v20) : W24 m d b = W23 m d b :=
  Function.update_of_ne hb _ _
theorem W25_ne {b : DevRef τ sig} (hb : b ≠ r main_v21) : W25 m d b = W24 m d b :=
  (op24 (F := F)).result_of_not_mem (W24 m d) (fun h => hb (Finset.mem_singleton.mp h))
theorem W26_ne {b : DevRef τ sig} (hb : b ≠ r main_v21) : W26 m d b = W25 m d b :=
  Function.update_of_ne hb _ _
theorem W27_ne {b : DevRef τ sig} (hb : b ≠ r main_v22) : W27 m d b = W26 m d b :=
  (op26 (F := F)).result_of_not_mem (W26 m d) (fun h => hb (Finset.mem_singleton.mp h))

/-! ## The index arrays -/

/-- The transposed index matrix laid flat, as @main's second step leaves it. -/
theorem W2_v1 : W2 m d (r main_v1) = flatIdx (m ((SparseCore.T d).loc main_arg0)) := by
  have e0 : W1 m d (r main_v0) = transpose S50x16384 [1, 0] (W0 m d (r main_arg0)) transposes_S16384x50_S50x16384_1_0 :=
    StableHlo.unary_result main_arg0 main_v0 _ _ _ (W0 m d)
  have e1 : W2 m d (r main_v1) = shapeCast S819200 (W1 m d (r main_v0)) shapeCasts_S50x16384_S819200 :=
    StableHlo.reshape_result main_v0 main_v1 rfl shapeCasts_S50x16384_S819200 _ _ (W1 m d)
  rw [e1, e0]
  rfl
theorem W6_v1 : W6 m d (r main_v1) = flatIdx (m ((SparseCore.T d).loc main_arg0)) := by
  rw [W6_ne m d (by decide), W5_ne m d (by decide), W4_ne m d (by decide), W3_ne m d (by decide)]
  exact W2_v1 m d
theorem W11_v1 : W11 m d (r main_v1) = flatIdx (m ((SparseCore.T d).loc main_arg0)) := by
  rw [W11_ne m d (by decide), W10_ne m d (by decide), W9_ne m d (by decide), W8_ne m d (by decide), W7_ne m d (by decide)]
  exact W6_v1 m d
theorem W16_v1 : W16 m d (r main_v1) = flatIdx (m ((SparseCore.T d).loc main_arg0)) := by
  rw [W16_ne m d (by decide), W15_ne m d (by decide), W14_ne m d (by decide), W13_ne m d (by decide), W12_ne m d (by decide)]
  exact W11_v1 m d
theorem W21_v1 : W21 m d (r main_v1) = flatIdx (m ((SparseCore.T d).loc main_arg0)) := by
  rw [W21_ne m d (by decide), W20_ne m d (by decide), W19_ne m d (by decide), W18_ne m d (by decide), W17_ne m d (by decide)]
  exact W16_v1 m d

/-- The index array of gather call 0. -/
theorem W4_idx : W4 m d (r main_v3) = idxArr 0 slices_S819200_S163840_0 (m ((SparseCore.T d).loc main_arg0)) := by
  have e0 : W3 m d (r main_v2) = extractStridedSlice S163840 ![0] (W2 m d (r main_v1)) slices_S819200_S163840_0 :=
    StableHlo.unary_result main_v1 main_v2 _ _ _ (W2 m d)
  have e1 : W4 m d (r main_v3) = shapeCast S32x40x128 (W3 m d (r main_v2)) shapeCasts_S163840_S32x40x128 :=
    StableHlo.reshape_result main_v2 main_v3 rfl shapeCasts_S163840_S32x40x128 _ _ (W3 m d)
  rw [e1, e0, W2_v1]
  rfl
/-- The index array of gather call 1. -/
theorem W8_idx : W8 m d (r main_v7) = idxArr 163840 slices_S819200_S163840_163840 (m ((SparseCore.T d).loc main_arg0)) := by
  have e0 : W7 m d (r main_v6) = extractStridedSlice S163840 ![163840] (W6 m d (r main_v1)) slices_S819200_S163840_163840 :=
    StableHlo.unary_result main_v1 main_v6 _ _ _ (W6 m d)
  have e1 : W8 m d (r main_v7) = shapeCast S32x40x128 (W7 m d (r main_v6)) shapeCasts_S163840_S32x40x128 :=
    StableHlo.reshape_result main_v6 main_v7 rfl shapeCasts_S163840_S32x40x128 _ _ (W7 m d)
  rw [e1, e0, W6_v1]
  rfl
/-- The index array of gather call 2. -/
theorem W13_idx : W13 m d (r main_v11) = idxArr 327680 slices_S819200_S163840_327680 (m ((SparseCore.T d).loc main_arg0)) := by
  have e0 : W12 m d (r main_v10) = extractStridedSlice S163840 ![327680] (W11 m d (r main_v1)) slices_S819200_S163840_327680 :=
    StableHlo.unary_result main_v1 main_v10 _ _ _ (W11 m d)
  have e1 : W13 m d (r main_v11) = shapeCast S32x40x128 (W12 m d (r main_v10)) shapeCasts_S163840_S32x40x128 :=
    StableHlo.reshape_result main_v10 main_v11 rfl shapeCasts_S163840_S32x40x128 _ _ (W12 m d)
  rw [e1, e0, W11_v1]
  rfl
/-- The index array of gather call 3. -/
theorem W18_idx : W18 m d (r main_v15) = idxArr 491520 slices_S819200_S163840_491520 (m ((SparseCore.T d).loc main_arg0)) := by
  have e0 : W17 m d (r main_v14) = extractStridedSlice S163840 ![491520] (W16 m d (r main_v1)) slices_S819200_S163840_491520 :=
    StableHlo.unary_result main_v1 main_v14 _ _ _ (W16 m d)
  have e1 : W18 m d (r main_v15) = shapeCast S32x40x128 (W17 m d (r main_v14)) shapeCasts_S163840_S32x40x128 :=
    StableHlo.reshape_result main_v14 main_v15 rfl shapeCasts_S163840_S32x40x128 _ _ (W17 m d)
  rw [e1, e0, W16_v1]
  rfl
/-- The index array of gather call 4. -/
theorem W23_idx : W23 m d (r main_v19) = idxArr 655360 slices_S819200_S163840_655360 (m ((SparseCore.T d).loc main_arg0)) := by
  have e0 : W22 m d (r main_v18) = extractStridedSlice S163840 ![655360] (W21 m d (r main_v1)) slices_S819200_S163840_655360 :=
    StableHlo.unary_result main_v1 main_v18 _ _ _ (W21 m d)
  have e1 : W23 m d (r main_v19) = shapeCast S32x40x128 (W22 m d (r main_v18)) shapeCasts_S163840_S32x40x128 :=
    StableHlo.reshape_result main_v18 main_v19 rfl shapeCasts_S163840_S32x40x128 _ _ (W22 m d)
  rw [e1, e0, W21_v1]
  rfl

/-! ## Their words name table rows -/

/-- Every word of gather call 0's index array names a table row. -/
theorem inRange0 (hr : ∀ j, 0 ≤ (m ((SparseCore.T d).loc main_arg0) j).toInt ∧ (m ((SparseCore.T d).loc main_arg0) j).toInt ≤ 999999)
    (x : S32x40x128.Idx) : BitVec.toNat (W4 m d (r main_v3) x) < 1000000 := by
  rw [W4_idx]
  exact idxArr_lt 0 (by decide) _ _ hr x
/-- Every word of gather call 1's index array names a table row. -/
theorem inRange2 (hr : ∀ j, 0 ≤ (m ((SparseCore.T d).loc main_arg0) j).toInt ∧ (m ((SparseCore.T d).loc main_arg0) j).toInt ≤ 999999)
    (x : S32x40x128.Idx) : BitVec.toNat (W8 m d (r main_v7) x) < 1000000 := by
  rw [W8_idx]
  exact idxArr_lt 163840 (by decide) _ _ hr x
/-- Every word of gather call 2's index array names a table row. -/
theorem inRange4 (hr : ∀ j, 0 ≤ (m ((SparseCore.T d).loc main_arg0) j).toInt ∧ (m ((SparseCore.T d).loc main_arg0) j).toInt ≤ 999999)
    (x : S32x40x128.Idx) : BitVec.toNat (W13 m d (r main_v11) x) < 1000000 := by
  rw [W13_idx]
  exact idxArr_lt 327680 (by decide) _ _ hr x
/-- Every word of gather call 3's index array names a table row. -/
theorem inRange6 (hr : ∀ j, 0 ≤ (m ((SparseCore.T d).loc main_arg0) j).toInt ∧ (m ((SparseCore.T d).loc main_arg0) j).toInt ≤ 999999)
    (x : S32x40x128.Idx) : BitVec.toNat (W18 m d (r main_v15) x) < 1000000 := by
  rw [W18_idx]
  exact idxArr_lt 491520 (by decide) _ _ hr x
/-- Every word of gather call 4's index array names a table row. -/
theorem inRange8 (hr : ∀ j, 0 ≤ (m ((SparseCore.T d).loc main_arg0) j).toInt ∧ (m ((SparseCore.T d).loc main_arg0) j).toInt ≤ 999999)
    (x : S32x40x128.Idx) : BitVec.toNat (W23 m d (r main_v19) x) < 1000000 := by
  rw [W23_idx]
  exact idxArr_lt 655360 (by decide) _ _ hr x

end Cert.Kernel.Hand

end
-- ==== Proof.KernelValue.lean ====
/-
  The value of the kernel's result, step by step through @main, at the ideal values.

  Gather call p fills its array with the table rows its index array's words name: row ρ is the row the index matrix
  names at row ρ mod 16384, column 10p + ρ div 16384. Matrix-product region p writes slices 10p … 10p + 9 of the
  projected array with the inner products of the weights' rows with those table rows, over a copy of what the earlier
  regions wrote. After the fifth region every slice is the specification, and the last step permutes the axes into the
  result's order.
-/
import proofs.«206421_g46840913330738_cont_8to1c4_247_26_alg».proof.Proof.IdxRange
import proofs.«206421_g46840913330738_cont_8to1c4_247_26_alg».proof.Proof.End

noncomputable section

open scoped BigOperators

namespace Cert.KernelIdeal.Hand

open Cert.KernelIdeal Cert.KernelIdeal.Gen Cert.Lookup
open Idealize.ShloMosaic Idealize.ShloMosaic.ValueIdx

/-! ## A gather's result at an index -/

variable {F : FTy → Type}

/-- Row ρ of the gathered array is the table's row the list names for ρ. -/
theorem gatherPayload_ix2 (hg : S1000000x128.Gathers 0 S163840x128) (tab : S1000000x128.Idx → Elt F .f32)
    (rows : Fin 163840 → Fin 1000000) (ρ : Fin 163840) (q : Fin 128) :
    SparseCore.gatherPayload (F := F) (e := .f32) hg tab rows (ix2 ρ q) = tab (ix2 (rows ρ) q) := by
  unfold SparseCore.gatherPayload
  congr 1
  funext a
  refine Fin.ext ?_
  match a with
  | ⟨0, _⟩ => rfl
  | ⟨1, _⟩ => rfl

/-- The row the word at flat position ρ names, for a stretch from off = 16384 · lo whose words are in range: the row
    of the index matrix's word at row ρ mod 16384, column lo + ρ div 16384. -/
theorem gathered_row (off lo : ℕ) (hoff : off + 163840 ≤ 819200) (hlo : off = 16384 * lo) (hs : S819200.Slices ![off] S163840)
    (seqs : IVec S16384x50 32) (hr : ∀ j, 0 ≤ (seqs j).toInt ∧ (seqs j).toInt ≤ 999999)
    (tab : S1000000x128.Idx → Elt F .f32) (ρ : ℕ) (hρ : ρ < 163840) (q : Fin 128) :
    SparseCore.gatherPayload (F := F) (e := .f32) (Shape.Gathers.rank2 1000000 163840 128) tab
        (fun r => (⟨BitVec.toNat (idxArr off hs seqs (S32x40x128.rowMajor.symm (r.cast (by decide)))) % 1000000,
          Nat.mod_lt _ (by decide)⟩ : Fin 1000000)) (ix2 (⟨ρ, hρ⟩ : Fin 163840) q)
      = tab (ix2 (row (seqs (ix2 (⟨ρ % 16384, Nat.mod_lt _ (by decide)⟩ : Fin 16384) (⟨lo + ρ / 16384, by omega⟩ : Fin 50)))) q) := by
  refine (gatherPayload_ix2 _ tab _ (⟨ρ, hρ⟩ : Fin 163840) q).trans ?_
  congr 1
  funext a
  refine Fin.ext ?_
  match a with
  | ⟨1, _⟩ => rfl
  | ⟨0, _⟩ =>
    show BitVec.toNat (idxArr off hs seqs (S32x40x128.rowMajor.symm ((⟨ρ, hρ⟩ : Fin 163840).cast (by decide)))) % 1000000
      = (row (seqs (ix2 (⟨ρ % 16384, Nat.mod_lt _ (by decide)⟩ : Fin 16384) (⟨lo + ρ / 16384, by omega⟩ : Fin 50)))).val
    have hx : (S32x40x128.rowMajor (S32x40x128.rowMajor.symm ((⟨ρ, hρ⟩ : Fin 163840).cast (by decide)))).val = ρ := by
      rw [Equiv.apply_symm_apply]
      rfl
    rw [Nat.mod_eq_of_lt (idxArr_lt off hoff hs seqs hr _), idxArr_word off hoff hs seqs, row_val_of_range (hr _).1 (hr _).2]
    congr 2
    funext c
    refine Fin.ext ?_
    match c with
    | ⟨0, _⟩ => show (off + _) % 16384 = ρ % 16384; rw [hx]; omega
    | ⟨1, _⟩ => show (off + _) / 16384 = lo + ρ / 16384; rw [hx]; omega

/-! ## A region's body over a block of gathered rows -/

/-- The two spellings of a two-axis index. -/
theorem idx2_eq_ix2 {a b : ℕ} (x : Fin a) (y : Fin b) : idx2 x y = ix2 x y := by
  funext c
  match c with
  | ⟨0, _⟩ => rfl
  | ⟨1, _⟩ => rfl

/-- The body at an entry of slice l of its ten: the inner product of the weights' row with gathered row 16384 l + b. -/
theorem pay_block (w : Vec Ideal S64x128 .f32) (g : Vec Ideal S163840x128 .f32) (l : Fin 10) (i : S50x64x16384.Idx) :
    k1_pay1 w (gBlock g l) (toBlk i)
      = ∑ q : Fin 128, w (ix2 (i 1) q)
          * g (ix2 (⟨l.val * 16384 + (i 2).val, by have h1 := l.isLt; have h2 : (i 2).val < 16384 := (i 2).isLt; omega⟩ : Fin 163840) q) := by
  unfold k1_pay1
  refine (pay_apply dot_S64x128_S16384x128_S64x16384_1_1_0_0_n_n rfl w (gBlock g l) _ _ (toBlk i)).trans ?_
  refine Finset.sum_congr rfl fun q _ => ?_
  congr 1

/-- A region that writes slices lo … lo + 9 with its body over the blocks of the gathered rows, and keeps the others,
    extends the done slices by ten. -/
theorem region_done (lo : ℕ) (hlo : lo + 10 ≤ 50) (seqs : IVec S16384x50 32) (tab : Vec Ideal S1000000x128 .f32)
    (w : Vec Ideal S64x128 .f32) (g : Vec Ideal S163840x128 .f32)
    (hg : ∀ (ρ : ℕ) (hρ : ρ < 163840) (q : Fin 128), g (ix2 (⟨ρ, hρ⟩ : Fin 163840) q)
      = tab (ix2 (row (seqs (ix2 (⟨ρ % 16384, Nat.mod_lt _ (by decide)⟩ : Fin 16384) (⟨lo + ρ / 16384, by omega⟩ : Fin 50)))) q))
    (f0 f1 : Vec Ideal S50x64x16384 .f32) (h0 : Done lo seqs tab w f0)
    (hin : ∀ (i : S50x64x16384.Idx) (h : lo ≤ (i 0).val ∧ (i 0).val < lo + 10),
      f1 i = k1_pay1 w (gBlock g ⟨(i 0).val - lo, by omega⟩) (toBlk i))
    (hout : ∀ i : S50x64x16384.Idx, ¬(lo ≤ (i 0).val ∧ (i 0).val < lo + 10) → f1 i = f0 i) :
    Done (lo + 10) seqs tab w f1 :=
  Done_step lo hlo seqs tab w g hg f0 f1 h0 (fun i h => (hin i h).trans (pay_block w g _ i)) hout

/-! ## The gathered rows -/

section Rows

variable (m : (ℓ : Loc nD τ sig) → Buf (Elt F) ℓ) (d : Dev nD) [FloatOps F]

/-- Row ρ of gather call 0's result is the table row the index matrix names at row ρ mod 16384, column 0 + ρ div 16384. -/
theorem W5_row (hr : ∀ j, 0 ≤ (m ((SparseCore.T d).loc main_arg0) j).toInt ∧ (m ((SparseCore.T d).loc main_arg0) j).toInt ≤ 999999)
    (ρ : ℕ) (hρ : ρ < 163840) (q : Fin 128) :
    W5 m d (r main_v4) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨0 + ρ / 16384, by omega⟩ : Fin 50)))) q) := by
  have e : W5 m d (r main_v4) = gathered0 (d := d) (W4 m d (r main_arg1)) (W4 m d (r main_v3)) := Function.update_self _ _ _
  rw [e, W4_arg_launch m d (Or.inr (Or.inl rfl)), W4_idx]
  exact gathered_row 0 0 (by decide) (by decide) _ _ hr _ ρ hρ q
/-- Row ρ of gather call 1's result is the table row the index matrix names at row ρ mod 16384, column 10 + ρ div 16384. -/
theorem W9_row (hr : ∀ j, 0 ≤ (m ((SparseCore.T d).loc main_arg0) j).toInt ∧ (m ((SparseCore.T d).loc main_arg0) j).toInt ≤ 999999)
    (ρ : ℕ) (hρ : ρ < 163840) (q : Fin 128) :
    W9 m d (r main_v8) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨10 + ρ / 16384, by omega⟩ : Fin 50)))) q) := by
  have e : W9 m d (r main_v8) = gathered2 (d := d) (W8 m d (r main_arg1)) (W8 m d (r main_v7)) := Function.update_self _ _ _
  rw [e, W8_arg_launch m d (Or.inr (Or.inl rfl)), W8_idx]
  exact gathered_row 163840 10 (by decide) (by decide) _ _ hr _ ρ hρ q
/-- Row ρ of gather call 2's result is the table row the index matrix names at row ρ mod 16384, column 20 + ρ div 16384. -/
theorem W14_row (hr : ∀ j, 0 ≤ (m ((SparseCore.T d).loc main_arg0) j).toInt ∧ (m ((SparseCore.T d).loc main_arg0) j).toInt ≤ 999999)
    (ρ : ℕ) (hρ : ρ < 163840) (q : Fin 128) :
    W14 m d (r main_v12) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨20 + ρ / 16384, by omega⟩ : Fin 50)))) q) := by
  have e : W14 m d (r main_v12) = gathered4 (d := d) (W13 m d (r main_arg1)) (W13 m d (r main_v11)) := Function.update_self _ _ _
  rw [e, W13_arg_launch m d (Or.inr (Or.inl rfl)), W13_idx]
  exact gathered_row 327680 20 (by decide) (by decide) _ _ hr _ ρ hρ q
/-- Row ρ of gather call 3's result is the table row the index matrix names at row ρ mod 16384, column 30 + ρ div 16384. -/
theorem W19_row (hr : ∀ j, 0 ≤ (m ((SparseCore.T d).loc main_arg0) j).toInt ∧ (m ((SparseCore.T d).loc main_arg0) j).toInt ≤ 999999)
    (ρ : ℕ) (hρ : ρ < 163840) (q : Fin 128) :
    W19 m d (r main_v16) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨30 + ρ / 16384, by omega⟩ : Fin 50)))) q) := by
  have e : W19 m d (r main_v16) = gathered6 (d := d) (W18 m d (r main_arg1)) (W18 m d (r main_v15)) := Function.update_self _ _ _
  rw [e, W18_arg_launch m d (Or.inr (Or.inl rfl)), W18_idx]
  exact gathered_row 491520 30 (by decide) (by decide) _ _ hr _ ρ hρ q
/-- Row ρ of gather call 4's result is the table row the index matrix names at row ρ mod 16384, column 40 + ρ div 16384. -/
theorem W24_row (hr : ∀ j, 0 ≤ (m ((SparseCore.T d).loc main_arg0) j).toInt ∧ (m ((SparseCore.T d).loc main_arg0) j).toInt ≤ 999999)
    (ρ : ℕ) (hρ : ρ < 163840) (q : Fin 128) :
    W24 m d (r main_v20) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨40 + ρ / 16384, by omega⟩ : Fin 50)))) q) := by
  have e : W24 m d (r main_v20) = gathered8 (d := d) (W23 m d (r main_arg1)) (W23 m d (r main_v19)) := Function.update_self _ _ _
  rw [e, W23_arg_launch m d (Or.inr (Or.inl rfl)), W23_idx]
  exact gathered_row 655360 40 (by decide) (by decide) _ _ hr _ ρ hρ q

end Rows

/-! ## The projected array, region by region, at the ideal values -/

section Value

variable (m : (ℓ : Loc nD τ sig) → Buf (Elt Ideal) ℓ) (d : Dev nD)

/-- After matrix-product region 0 the projected array is the specification on slices 0 … 9. -/
theorem done6 (hr : ∀ j, 0 ≤ (m ((SparseCore.T d).loc main_arg0) j).toInt ∧ (m ((SparseCore.T d).loc main_arg0) j).toInt ≤ 999999) :
    Done 10 (m ((SparseCore.T d).loc main_arg0)) (m ((SparseCore.T d).loc main_arg1)) (m ((SparseCore.T d).loc main_arg2)) (W6 m d (r main_v5)) := by
  have e : W6 m d (r main_v5) = regionVal1 (W5 m d (r main_arg2)) (W5 m d (r main_v4)) (W5 m d (r main_v5)) := Function.update_self _ _ _
  have ew : W5 m d (r main_arg2) = m ((SparseCore.T d).loc main_arg2) := by
    rw [W5_arg m d (Or.inr (Or.inr rfl))]
    exact W4_arg_launch m d (Or.inr (Or.inr rfl))
  have eg : ∀ (ρ : ℕ) (hρ : ρ < 163840) (q : Fin 128), W5 m d (r main_v4) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨0 + ρ / 16384, by omega⟩ : Fin 50)))) q) := by
    intro ρ hρ q
    exact W5_row m d hr ρ hρ q
  rw [e, ew]
  exact region_done 0 (by decide) _ _ _ _ eg _ _ (Done_zero _ _ _ _)
    (fun i h => (dif_pos (show (i 0).val < 10 from h.2)).trans rfl)
    (fun i h => dif_neg (fun h' : (i 0).val < 10 => h ⟨Nat.zero_le _, h'⟩))
/-- After matrix-product region 1 the projected array is the specification on slices 0 … 19. -/
theorem done11 (hr : ∀ j, 0 ≤ (m ((SparseCore.T d).loc main_arg0) j).toInt ∧ (m ((SparseCore.T d).loc main_arg0) j).toInt ≤ 999999) :
    Done 20 (m ((SparseCore.T d).loc main_arg0)) (m ((SparseCore.T d).loc main_arg1)) (m ((SparseCore.T d).loc main_arg2)) (W11 m d (r main_v9)) := by
  have e : W11 m d (r main_v9) = regionVal3 (W10 m d (r main_arg2)) (W10 m d (r main_v8)) (W10 m d (r main_v9)) := Function.update_self _ _ _
  have ew : W10 m d (r main_arg2) = m ((SparseCore.T d).loc main_arg2) := by
    rw [W10_arg m d (Or.inr (Or.inr rfl)), W9_arg m d (Or.inr (Or.inr rfl))]
    exact W8_arg_launch m d (Or.inr (Or.inr rfl))
  have eg : ∀ (ρ : ℕ) (hρ : ρ < 163840) (q : Fin 128), W10 m d (r main_v8) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨10 + ρ / 16384, by omega⟩ : Fin 50)))) q) := by
    intro ρ hρ q
    rw [W10_ne m d (by decide)]
    exact W9_row m d hr ρ hρ q
  rw [e, ew]
  exact region_done 10 (by decide) _ _ _ _ eg _ _ (by
      have ec : W10 m d (r main_v9) = W9 m d (r main_v5) := StableHlo.unary_result main_v5 main_v9 id _ _ (W9 m d)
      rw [ec, W9_ne m d (by decide), W8_ne m d (by decide), W7_ne m d (by decide)]
      exact done6 m d hr)
    (fun i h => (dif_pos (show 10 ≤ (i 0).val ∧ (i 0).val < 20 from h)).trans rfl)
    (fun i h => dif_neg (show ¬(10 ≤ (i 0).val ∧ (i 0).val < 20) from h))
/-- After matrix-product region 2 the projected array is the specification on slices 0 … 29. -/
theorem done16 (hr : ∀ j, 0 ≤ (m ((SparseCore.T d).loc main_arg0) j).toInt ∧ (m ((SparseCore.T d).loc main_arg0) j).toInt ≤ 999999) :
    Done 30 (m ((SparseCore.T d).loc main_arg0)) (m ((SparseCore.T d).loc main_arg1)) (m ((SparseCore.T d).loc main_arg2)) (W16 m d (r main_v13)) := by
  have e : W16 m d (r main_v13) = regionVal5 (W15 m d (r main_arg2)) (W15 m d (r main_v12)) (W15 m d (r main_v13)) := Function.update_self _ _ _
  have ew : W15 m d (r main_arg2) = m ((SparseCore.T d).loc main_arg2) := by
    rw [W15_arg m d (Or.inr (Or.inr rfl)), W14_arg m d (Or.inr (Or.inr rfl))]
    exact W13_arg_launch m d (Or.inr (Or.inr rfl))
  have eg : ∀ (ρ : ℕ) (hρ : ρ < 163840) (q : Fin 128), W15 m d (r main_v12) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨20 + ρ / 16384, by omega⟩ : Fin 50)))) q) := by
    intro ρ hρ q
    rw [W15_ne m d (by decide)]
    exact W14_row m d hr ρ hρ q
  rw [e, ew]
  exact region_done 20 (by decide) _ _ _ _ eg _ _ (by
      have ec : W15 m d (r main_v13) = W14 m d (r main_v9) := StableHlo.unary_result main_v9 main_v13 id _ _ (W14 m d)
      rw [ec, W14_ne m d (by decide), W13_ne m d (by decide), W12_ne m d (by decide)]
      exact done11 m d hr)
    (fun i h => (dif_pos (show 20 ≤ (i 0).val ∧ (i 0).val < 30 from h)).trans rfl)
    (fun i h => dif_neg (show ¬(20 ≤ (i 0).val ∧ (i 0).val < 30) from h))
/-- After matrix-product region 3 the projected array is the specification on slices 0 … 39. -/
theorem done21 (hr : ∀ j, 0 ≤ (m ((SparseCore.T d).loc main_arg0) j).toInt ∧ (m ((SparseCore.T d).loc main_arg0) j).toInt ≤ 999999) :
    Done 40 (m ((SparseCore.T d).loc main_arg0)) (m ((SparseCore.T d).loc main_arg1)) (m ((SparseCore.T d).loc main_arg2)) (W21 m d (r main_v17)) := by
  have e : W21 m d (r main_v17) = regionVal7 (W20 m d (r main_arg2)) (W20 m d (r main_v16)) (W20 m d (r main_v17)) := Function.update_self _ _ _
  have ew : W20 m d (r main_arg2) = m ((SparseCore.T d).loc main_arg2) := by
    rw [W20_arg m d (Or.inr (Or.inr rfl)), W19_arg m d (Or.inr (Or.inr rfl))]
    exact W18_arg_launch m d (Or.inr (Or.inr rfl))
  have eg : ∀ (ρ : ℕ) (hρ : ρ < 163840) (q : Fin 128), W20 m d (r main_v16) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨30 + ρ / 16384, by omega⟩ : Fin 50)))) q) := by
    intro ρ hρ q
    rw [W20_ne m d (by decide)]
    exact W19_row m d hr ρ hρ q
  rw [e, ew]
  exact region_done 30 (by decide) _ _ _ _ eg _ _ (by
      have ec : W20 m d (r main_v17) = W19 m d (r main_v13) := StableHlo.unary_result main_v13 main_v17 id _ _ (W19 m d)
      rw [ec, W19_ne m d (by decide), W18_ne m d (by decide), W17_ne m d (by decide)]
      exact done16 m d hr)
    (fun i h => (dif_pos (show 30 ≤ (i 0).val ∧ (i 0).val < 40 from h)).trans rfl)
    (fun i h => dif_neg (show ¬(30 ≤ (i 0).val ∧ (i 0).val < 40) from h))
/-- After matrix-product region 4 the projected array is the specification on slices 0 … 49. -/
theorem done26 (hr : ∀ j, 0 ≤ (m ((SparseCore.T d).loc main_arg0) j).toInt ∧ (m ((SparseCore.T d).loc main_arg0) j).toInt ≤ 999999) :
    Done 50 (m ((SparseCore.T d).loc main_arg0)) (m ((SparseCore.T d).loc main_arg1)) (m ((SparseCore.T d).loc main_arg2)) (W26 m d (r main_v21)) := by
  have e : W26 m d (r main_v21) = regionVal9 (W25 m d (r main_arg2)) (W25 m d (r main_v20)) (W25 m d (r main_v21)) := Function.update_self _ _ _
  have ew : W25 m d (r main_arg2) = m ((SparseCore.T d).loc main_arg2) := by
    rw [W25_arg m d (Or.inr (Or.inr rfl)), W24_arg m d (Or.inr (Or.inr rfl))]
    exact W23_arg_launch m d (Or.inr (Or.inr rfl))
  have eg : ∀ (ρ : ℕ) (hρ : ρ < 163840) (q : Fin 128), W25 m d (r main_v20) (ix2 (⟨ρ, hρ⟩ : Fin 163840) q)
      = m ((SparseCore.T d).loc main_arg1) (ix2 (row (m ((SparseCore.T d).loc main_arg0)
          (ix2 (⟨ρ % 16384, Nat.mod_lt _ (by decide)⟩ : Fin 16384) (⟨40 + ρ / 16384, by omega⟩ : Fin 50)))) q) := by
    intro ρ hρ q
    rw [W25_ne m d (by decide)]
    exact W24_row m d hr ρ hρ q
  rw [e, ew]
  exact region_done 40 (by decide) _ _ _ _ eg _ _ (by
      have ec : W25 m d (r main_v21) = W24 m d (r main_v17) := StableHlo.unary_result main_v17 main_v21 id _ _ (W24 m d)
      rw [ec, W24_ne m d (by decide), W23_ne m d (by decide), W22_ne m d (by decide)]
      exact done21 m d hr)
    (fun i h => (dif_pos (show 40 ≤ (i 0).val ∧ (i 0).val < 50 from h)).trans rfl)
    (fun i h => dif_neg (show ¬(40 ≤ (i 0).val ∧ (i 0).val < 50) from h))

/-- THE KERNEL'S VALUE: where the index words are in range, the result array at the end of @main is the specification. -/
theorem W27_res_eq_Spec (hr : ∀ j, 0 ≤ (m ((SparseCore.T d).loc main_arg0) j).toInt ∧ (m ((SparseCore.T d).loc main_arg0) j).toInt ≤ 999999) :
    W27 m d (r main_v22) = Spec (m ((SparseCore.T d).loc main_arg0)) (m ((SparseCore.T d).loc main_arg1)) (m ((SparseCore.T d).loc main_arg2)) := by
  have e : W27 m d (r main_v22) = transpose S16384x50x64 [2, 0, 1] (W26 m d (r main_v21)) transposes_S50x64x16384_S16384x50x64_2_0_1 :=
    StableHlo.unary_result main_v21 main_v22 _ _ _ (W26 m d)
  rw [e]
  funext i
  obtain ⟨b, l, o, rfl⟩ : ∃ (b : Fin 16384) (l : Fin 50) (o : Fin 64), i = ix3 b l o := ⟨i 0, i 1, i 2, eq_ix3 i⟩
  refine (transpose_apply [2, 0, 1] (W26 m d (r main_v21)) transposes_S50x64x16384_S16384x50x64_2_0_1 (ix3 b l o) (ix3 l o b)
    (fun c => match c with | ⟨0, _⟩ => rfl | ⟨1, _⟩ => rfl | ⟨2, _⟩ => rfl)).trans ?_
  exact done26 m d hr (ix3 l o b) l.isLt

/-- The same of the result as the claim reads it. -/
theorem resVal_eq_Spec (hr : ∀ j, 0 ≤ (m ((SparseCore.T d).loc main_arg0) j).toInt ∧ (m ((SparseCore.T d).loc main_arg0) j).toInt ≤ 999999) :
    resVal m d = Spec (m ((SparseCore.T d).loc main_arg0)) (m ((SparseCore.T d).loc main_arg1)) (m ((SparseCore.T d).loc main_arg2)) :=
  W27_res_eq_Spec m d hr

end Value

end Cert.KernelIdeal.Hand

end
-- ==== Proof.RefRun.lean ====
/-
  The reference's @main as the list of its 24 host operations — the index normalisation, the row gather with its
  in-bounds mask and the select against the fill value (jnp.take, the callee's and its own callee's operations listed
  in place over the call's buffers), then the contraction with the weight matrix — and its run read back: every weakly
  fair execution terminates with the result buffer at the operations' composed pure term of the three arguments'
  launch contents, the arguments unchanged.
-/
import proofs.«206421_g46840913330738_cont_8to1c4_247_26_alg».proof.ReferenceIdeal
import proofs.«206421_g46840913330738_cont_8to1c4_247_26_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The index after jnp.take's normalisation: a negative word has the table's height added. -/
def normIdx (seqs : IVec S16384x50 32) : IVec S16384x50 32 :=
  select (cmpi .slt seqs (broadcastInDim S16384x50 ![] bcast_S_S16384x50 (constantI S_ 32 0#32)))
    (addi seqs (broadcastInDim S16384x50 ![] bcast_S_S16384x50 (constantI S_ 32 1000000#32))) seqs

/-- The start indices of the gather: the normalised index with a unit axis appended. -/
def startIdx (seqs : IVec S16384x50 32) : IVec S16384x50x1 32 :=
  broadcastInDim S16384x50x1 ![0, 1] bcast_S16384x50_S16384x50x1_0_1 (normIdx seqs)

/-- The in-bounds mask: 0 ≤ index ≤ 999999, reduced by and over the unit axis. -/
def inBounds (seqs : IVec S16384x50 32) : IVec S16384x50 1 :=
  Host.reduce IntOp.andi
    (andi (cmpi .sge (startIdx seqs) (broadcastInDim S16384x50x1 ![] bcast_S_S16384x50x1 (constantI S_ 32 0#32)))
      (cmpi .sle (startIdx seqs) (broadcastInDim S16384x50x1 ![0, 1, 2] bcast_S1x1x1_S16384x50x1_0_1_2
        (broadcastInDim S1x1x1 ![2] bcast_S1_S1x1x1_2 (constantI S1 32 999999#32)))))
    (constantI S_ 1 1#1) reducesTo_S16384x50x1_S16384x50_d2 h_S_

/-- jnp.take: the gathered rows where the index is in bounds, the fill value elsewhere. -/
def taken (seqs : IVec S16384x50 32) (tab : FVec F S1000000x128 .f32) : FVec F S16384x50x128 .f32 :=
  select (broadcastInDim S16384x50x128 ![0, 1] bcast_S16384x50_S16384x50x128_0_1 (inBounds seqs))
    (Host.gather gather_S1000000x128_S16384x50x1_S16384x50x128_2_0_n_n_0_2_1128 tab (startIdx seqs))
    (broadcastInDim S16384x50x128 ![] bcast_S_S16384x50x128 (constant S_ .f32 0x7FC00000#32))

/-- The reference's result as one pure term of its three arguments. -/
def refTerm (seqs : IVec S16384x50 32) (tab : FVec F S1000000x128 .f32) (w : FVec F S64x128 .f32) :
    FVec F S16384x50x64 .f32 :=
  Host.dotGeneral dot_S16384x50x128_S64x128_S16384x50x64_2_1_01_0_n_n none (taken seqs tab) w

/-! ## The operations -/

/-- @main's 24 operations in order, the two calls unfolded over the call's buffers. -/
abbrev ops : List (HloOp τ sig (Elt F)) :=
  [ TRef.nullary main_call0.c (constantI S_ 32 0#32),
    TRef.unary main_call0.c main_call0.v0 (broadcastInDim S16384x50 ![] bcast_S_S16384x50),
    TRef.binary (.of main_arg0 : TRef sig ⟨S16384x50, .i32⟩) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0 : TRef sig ⟨S16384x50, .i32⟩) main_call0.v2 main_call0.v3 addi,
    TRef.ternary main_call0.v1 main_call0.v3 (.of main_arg0 : TRef sig ⟨S16384x50, .i32⟩) main_call0.call0.v0 select,
    TRef.unary main_call0.call0.v0 main_call0.v5 (broadcastInDim S16384x50x1 ![0, 1] bcast_S16384x50_S16384x50x1_0_1),
    TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x50x1_S16384x50_d2 h_S_),
    TRef.binary (.of main_arg1 : TRef sig ⟨S1000000x128, .f32⟩) main_call0.v5 main_call0.v13 (fun x i => Host.gather gather_S1000000x128_S16384x50x1_S16384x50x128_2_0_n_n_0_2_1128 x i),
    TRef.unary main_call0.v12 main_call0.v14 (broadcastInDim S16384x50x128 ![0, 1] bcast_S16384x50_S16384x50x128_0_1),
    TRef.nullary main_call0.cst (constant S_ .f32 0x7FC00000#32),
    TRef.unary main_call0.cst main_call0.v15 (broadcastInDim S16384x50x128 ![] bcast_S_S16384x50x128),
    TRef.ternary main_call0.v14 main_call0.v13 main_call0.v15 main_call0.v16 select,
    binary main_v0 main_arg2 main_v1 ((fun l r => Host.dotGeneral dot_S16384x50x128_S64x128_S16384x50x64_2_1_01_0_n_n none l r) : (⟨S16384x50x128, .f32⟩ : BufTy).Contents (Elt F) → (⟨S64x128, .f32⟩ : BufTy).Contents (Elt F) → (⟨S16384x50x64, .f32⟩ : BufTy).Contents (Elt F)) ]

set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

/-! ## What the line leaves in the result and the arguments -/

attribute [local irreducible] Host.reduce Host.gather in
set_option maxRecDepth 8192 in
/-- The fold at the result buffer is the composed term: each operation's result decides whether the buffer read is the
    one it writes, and the typed references' casts are the identity at these literal references. -/
theorem out_eq (V : Valuation τ sig (Elt F)) :
    after ops V (main_v1 : DevRef τ sig)
      = refTerm (V (main_arg0 : DevRef τ sig)) (V (main_arg1 : DevRef τ sig)) (V (main_arg2 : DevRef τ sig)) := by
  after_results
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

/-! ## The run -/

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Hand

end
-- ==== Proof.RefValue.lean ====
/-
  The reference's composed term is the specification, at the ideal values, wherever every index word is in the table's
  range 0 … 999999: the normalisation of a nonnegative word is the word, the in-bounds mask is all ones so the select
  takes the gathered rows, the gather's clamp leaves an index in range, and the contraction with the weight matrix is the
  inner product over the 128 features with its two factors in the other order. Also: the range of the index words read
  back from the printed input-domain predicate.
-/
import proofs.«206421_g46840913330738_cont_8to1c4_247_26_alg».proof.Proof.Spec
import proofs.«206421_g46840913330738_cont_8to1c4_247_26_alg».proof.Proof.RefRun
import proofs.«206421_g46840913330738_cont_8to1c4_247_26_alg».proof.Pre_input_domain
import Idealize.ShloMosaic.Lib.ReduceAll
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.Lookup
open Idealize.ShloMosaic Idealize.ShloMosaic.ValueIdx

/-! ## A reduction by and of ones -/

/-- A left fold by and over one-bit words, from 1, that meets only 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by and, from 1, of an array of ones is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

/-! ## The index words in range -/

section Range

variable (seqs : IVec S16384x50 32) (hr : ∀ j, 0 ≤ (seqs j).toInt ∧ (seqs j).toInt ≤ 999999)
include hr

/-- A nonnegative word is left as it is by the normalisation. -/
theorem normIdx_eq : normIdx seqs = seqs := by
  funext j
  unfold normIdx
  rw [select_apply]
  have hc : cmpi .slt seqs (broadcastInDim S16384x50 ![] bcast_S_S16384x50 (constantI S_ 32 0#32)) j = 0#1 := by
    refine eq_zero_of_ne_one fun h => ?_
    have h' : IntOp.cmpi .slt (seqs j) 0#32 = 1#1 := h
    have h1 := IntOp.cmpi_slt.1 h'
    have h0 := (hr j).1
    have hz : (0#32 : BitVec 32).toInt = 0 := by decide
    omega
  rw [hc, select_zero]

/-- The start index of result row (b, l) is the word at (b, l). -/
theorem startIdx_apply (b : Fin 16384) (l : Fin 50) (z : Fin 1) : startIdx seqs (ix3 b l z) = seqs (ix2 b l) := by
  unfold startIdx
  rw [normIdx_eq seqs hr]
  exact broadcastInDim_apply (s := S16384x50) (t := S16384x50x1) ![0, 1] bcast_S16384x50_S16384x50x1_0_1 seqs (ix3 b l z) (ix2 b l)
    (fun a => match a with | ⟨0, _⟩ => rfl | ⟨1, _⟩ => rfl)

/-- Every index is in bounds. -/
theorem inBounds_eq (j : S16384x50.Idx) : inBounds seqs j = 1#1 := by
  unfold inBounds
  refine reduce_andi_of_all_one _ _ _ _ (fun i => ?_) rfl j
  obtain ⟨b, l, z, rfl⟩ : ∃ (b : Fin 16384) (l : Fin 50) (z : Fin 1), i = ix3 b l z := ⟨i 0, i 1, i 2, eq_ix3 i⟩
  show IntOp.andi (IntOp.cmpi .sge (startIdx seqs (ix3 b l z)) 0#32) (IntOp.cmpi .sle (startIdx seqs (ix3 b l z)) 999999#32) = 1#1
  rw [startIdx_apply seqs hr, IntOp.andi_eq_one, IntOp.cmpi_sge, IntOp.cmpi_sle]
  have hz : (0#32 : BitVec 32).toInt = 0 := by decide
  have hm : (999999#32 : BitVec 32).toInt = 999999 := by decide
  rw [hz, hm]
  exact hr _

end Range

/-! ## The gather of rows, read at an index -/

section Gather

variable {s si t : Shape} (d : GatherDims s si t)

/-- On an axis the start index map names, the slice starts at the start index's component, read signed and clamped. -/
theorem start_of_mem {w : Nat} (j : t.Idx) (idx : IVec si w) (a : Fin s.rank) (ha : a ∈ d.startIndexMap) :
    d.start j idx a
      = min (idx (d.siIdx j ⟨d.startIndexMap.idxOf a, List.idxOf_lt_length_iff.2 ha⟩)).toInt.toNat (s.size a - d.sliceSizes a) := by
  unfold GatherDims.start
  rw [dif_pos ha]

/-- On any other axis it starts at 0. -/
theorem start_of_not_mem {w : Nat} (j : t.Idx) (idx : IVec si w) (a : Fin s.rank) (ha : a ∉ d.startIndexMap) :
    d.start j idx a = 0 := by
  unfold GatherDims.start
  rw [dif_neg ha]

/-- On an axis neither collapsed nor batching the offset is the result index's coordinate on the matching offset axis. -/
theorem offCoord_of_mem (j : t.Idx) (a : Fin s.rank) (ha : a ∈ d.sKept) :
    d.offCoord j a
      = (j (d.offsetDims[d.sKept.idxOf a]'(by rw [d.offset_length]; exact List.idxOf_lt_length_iff.2 ha))).val := by
  unfold GatherDims.offCoord
  rw [dif_pos ha]

end Gather

/-- Row (b, l) of the gather's result is the table's row at the start index (b, l, 0), read signed and clamped into the
    table: for any name r of that row. -/
theorem gather_row_apply {α : Type} (tab : S1000000x128.Idx → α) (idx : IVec S16384x50x1 32)
    (b : Fin 16384) (l : Fin 50) (k : Fin 128) (r : Fin 1000000)
    (hrow : r.val = min (idx (ix3 b l (0 : Fin 1))).toInt.toNat 999999) :
    Host.gather gather_S1000000x128_S16384x50x1_S16384x50x128_2_0_n_n_0_2_1128 tab idx (ix3 b l k) = tab (ix2 r k) := by
  unfold Host.gather
  congr 1
  funext a
  refine Fin.ext ?_
  show gather_S1000000x128_S16384x50x1_S16384x50x128_2_0_n_n_0_2_1128.start (ix3 b l k) idx a
      + gather_S1000000x128_S16384x50x1_S16384x50x128_2_0_n_n_0_2_1128.batchCoord (ix3 b l k) a
      + gather_S1000000x128_S16384x50x1_S16384x50x128_2_0_n_n_0_2_1128.offCoord (ix3 b l k) a = (ix2 r k a).val
  rw [GatherDims.batchCoord_eq_zero _ _ _ List.not_mem_nil]
  match a with
  | ⟨0, h0⟩ =>
    have hmem : (⟨0, h0⟩ : Fin S1000000x128.rank) ∈ gather_S1000000x128_S16384x50x1_S16384x50x128_2_0_n_n_0_2_1128.startIndexMap :=
      (by decide : (0 : Fin 2) ∈ gather_S1000000x128_S16384x50x1_S16384x50x128_2_0_n_n_0_2_1128.startIndexMap)
    have hnk : (⟨0, h0⟩ : Fin S1000000x128.rank) ∉ gather_S1000000x128_S16384x50x1_S16384x50x128_2_0_n_n_0_2_1128.sKept :=
      (by decide : (0 : Fin 2) ∉ gather_S1000000x128_S16384x50x1_S16384x50x128_2_0_n_n_0_2_1128.sKept)
    rw [start_of_mem _ _ _ _ hmem, GatherDims.offCoord_eq_zero _ _ _ hnk]
    have hsi : gather_S1000000x128_S16384x50x1_S16384x50x128_2_0_n_n_0_2_1128.siIdx (ix3 b l k)
        ⟨List.idxOf (⟨0, h0⟩ : Fin S1000000x128.rank) gather_S1000000x128_S16384x50x1_S16384x50x128_2_0_n_n_0_2_1128.startIndexMap,
          List.idxOf_lt_length_iff.2 hmem⟩ = ix3 b l (0 : Fin 1) := by
      funext c; refine Fin.ext ?_
      match c with
      | ⟨0, _⟩ => rfl
      | ⟨1, _⟩ => rfl
      | ⟨2, _⟩ => rfl
    rw [hsi]
    exact hrow.symm
  | ⟨1, h1⟩ =>
    have hnm : (⟨1, h1⟩ : Fin S1000000x128.rank) ∉ gather_S1000000x128_S16384x50x1_S16384x50x128_2_0_n_n_0_2_1128.startIndexMap :=
      (by decide : (1 : Fin 2) ∉ gather_S1000000x128_S16384x50x1_S16384x50x128_2_0_n_n_0_2_1128.startIndexMap)
    have hk : (⟨1, h1⟩ : Fin S1000000x128.rank) ∈ gather_S1000000x128_S16384x50x1_S16384x50x128_2_0_n_n_0_2_1128.sKept :=
      (by decide : (1 : Fin 2) ∈ gather_S1000000x128_S16384x50x1_S16384x50x128_2_0_n_n_0_2_1128.sKept)
    rw [start_of_not_mem _ _ _ _ hnm, offCoord_of_mem _ _ _ hk]
    simp only [Nat.zero_add]
    rfl

/-! ## The contraction, read at an index -/

/-- The contraction of the rows' features with the weight matrix's, at (b, l, o), is the sum over the 128 features. -/
theorem dot_apply (x : FVec Ideal S16384x50x128 .f32) (w : FVec Ideal S64x128 .f32) (b : Fin 16384) (l : Fin 50) (o : Fin 64) :
    Host.dotGeneral dot_S16384x50x128_S64x128_S16384x50x64_2_1_01_0_n_n none x w (ix3 b l o)
      = ∑ k : Fin 128, x (ix3 b l k) * w (ix2 o k) := by
  show FloatOps.dotGeneral _ none _ x w (ix3 b l o) = _
  rw [Ideal.dotGeneral_apply,
    ← Equiv.sum_comp (contrEquiv1 dot_S16384x50x128_S64x128_S16384x50x64_2_1_01_0_n_n 128 rfl rfl).symm]
  refine Finset.sum_congr rfl fun k _ => ?_
  have ck := contrEquiv1_symm_val dot_S16384x50x128_S64x128_S16384x50x64_2_1_01_0_n_n 128 rfl rfl k
  have hl : dot_S16384x50x128_S64x128_S16384x50x64_2_1_01_0_n_n.lhsIdx (ix3 b l o)
      ((contrEquiv1 dot_S16384x50x128_S64x128_S16384x50x64_2_1_01_0_n_n 128 rfl rfl).symm k) = ix3 b l k := by
    funext ax; apply Fin.ext
    match ax with
    | ⟨0, _⟩ => rfl
    | ⟨1, _⟩ => rfl
    | ⟨2, _⟩ => exact (DotDims.lhsIdx_val_of_single _ rfl _ _).trans ck
  have hrr : dot_S16384x50x128_S64x128_S16384x50x64_2_1_01_0_n_n.rhsIdx (ix3 b l o)
      ((contrEquiv1 dot_S16384x50x128_S64x128_S16384x50x64_2_1_01_0_n_n 128 rfl rfl).symm k) = ix2 o k := by
    funext ax; apply Fin.ext
    match ax with
    | ⟨0, _⟩ => rfl
    | ⟨1, _⟩ => exact (DotDims.rhsIdx_val_of_single _ rfl _ _).trans ck
  rw [hl, hrr]

/-! ## The reference is the specification -/

/-- Where the index words are in range, jnp.take's result is the table's rows at the words. -/
theorem taken_apply {F : FTy → Type} [FloatOps F] (seqs : IVec S16384x50 32)
    (hr : ∀ j, 0 ≤ (seqs j).toInt ∧ (seqs j).toInt ≤ 999999) (tab : FVec F S1000000x128 .f32)
    (b : Fin 16384) (l : Fin 50) (k : Fin 128) :
    taken seqs tab (ix3 b l k) = tab (ix2 (row (seqs (ix2 b l))) k) := by
  unfold taken
  rw [select_apply]
  have hm : broadcastInDim S16384x50x128 ![0, 1] bcast_S16384x50_S16384x50x128_0_1 (inBounds seqs) (ix3 b l k) = 1#1 := by
    rw [broadcastInDim_apply (s := S16384x50) (t := S16384x50x128) ![0, 1] bcast_S16384x50_S16384x50x128_0_1 (inBounds seqs)
      (ix3 b l k) (ix2 b l) (fun a => match a with | ⟨0, _⟩ => rfl | ⟨1, _⟩ => rfl)]
    exact inBounds_eq seqs hr _
  rw [hm, select_one]
  exact gather_row_apply tab _ b l k (row (seqs (ix2 b l))) (by rw [startIdx_apply seqs hr]; rfl)

/-- THE REFERENCE'S VALUE: where the index words are in range, the composed term is the specification. -/
theorem refTerm_eq_Spec (seqs : IVec S16384x50 32) (tab : FVec Ideal S1000000x128 .f32) (w : FVec Ideal S64x128 .f32)
    (hr : ∀ j, 0 ≤ (seqs j).toInt ∧ (seqs j).toInt ≤ 999999) :
    refTerm (F := Ideal) seqs tab w = Spec seqs tab w := by
  funext i
  obtain ⟨b, l, o, rfl⟩ : ∃ (b : Fin 16384) (l : Fin 50) (o : Fin 64), i = ix3 b l o := ⟨i 0, i 1, i 2, eq_ix3 i⟩
  unfold refTerm
  rw [dot_apply, Spec_apply]
  refine Finset.sum_congr rfl fun k _ => ?_
  rw [taken_apply seqs hr tab b l k]
  exact mul_comm _ _

/-! ## The range, read back from the printed input-domain predicate -/

instance : Subsingleton Cert.Pre_input_domain.S_.Idx := ⟨fun a b => funext fun d => d.elim0⟩

/-- The printed predicate being all ones says, of the index words, that each is in 0 … 999999 read signed. -/
theorem range_of_fn [Cert.Pre_input_domain.Facts] {F : FTy → Type} [FloatOps F] (seqs : IVec S16384x50 32)
    (tab : FVec F S1000000x128 .f32) (w : FVec F S64x128 .f32)
    (h : Cert.Pre_input_domain.fn (F := F) seqs tab w = fun _ => 1#1) (j : S16384x50.Idx) :
    0 ≤ (seqs j).toInt ∧ (seqs j).toInt ≤ 999999 := by
  have e := congrFun h ValueIdx.ix0
  dsimp only [Cert.Pre_input_domain.fn] at e
  have e14 := (IntOp.andi_eq_one.1 e).2
  have e13 := Host.reduce_andi_all _ _ _ _ _ e14 j
  obtain ⟨hge, hle⟩ := IntOp.andi_eq_one.1 e13
  have hge' : IntOp.cmpi .sge (seqs j) 0#32 = 1#1 := hge
  have hle' : IntOp.cmpi .sle (seqs j) 999999#32 = 1#1 := hle
  have h0 := IntOp.cmpi_sge.1 hge'
  have h1 := IntOp.cmpi_sle.1 hle'
  have hz : (0#32 : BitVec 32).toInt = 0 := by decide
  have hm : (999999#32 : BitVec 32).toInt = 999999 := by decide
  rw [hz] at h0
  rw [hm] at h1
  exact ⟨h0, h1⟩

end Cert.ReferenceIdeal.Hand

end
-- ==== Proof.lean ====
/-
  The proof of the certificate's claim: an embedding lookup followed by a linear map without bias, computed by five
  rounds of a SparseCore row gather and a TensorCore matrix product, against the plain take-and-contract reference.

  result[b, l, o] = ∑ₖ W[o, k] · table[seqs[b, l], k]  on both sides. The kernel transposes and flattens seqs so that flat
  position 16384·l + b holds seqs[b, l]; round p takes the stretch of 163840 positions from 163840·p, and its 32 gather
  tasks copy, for each position r of the stretch, the table row the index word names into row r of the round's gathered
  array; the round's matrix-product region writes leading slices 10p … 10p+9 of a [50, 64, 16384] array, slice l at
  (o, b) the contraction of W's row o with gathered row 16384·(l − 10p) + b, which is table row seqs[b, l]; the last
  step permutes the axes to [16384, 50, 64]. The reference gathers the same rows (its index normalisation and its
  bounds mask are the identity on indices in [0, 999999], which the precondition states) and contracts them with W in
  the other order of the factors: equal on the extended reals by commutativity of the product, with no appeal to
  finiteness.

  The three frames: the reference's run is its host operations composed; the kernel programs' run is the launch
  theorem of a SparseCore program applied to the five calls' task obligations and to @main on the TensorCore, once at
  the word-level instance and once at the ideal one, from one text generic in the float instance. The ideal pass
  rewrote nothing, so what it must preserve is trivial.
-/
import proofs.«206421_g46840913330738_cont_8to1c4_247_26_alg».proof.Defs
import proofs.«206421_g46840913330738_cont_8to1c4_247_26_alg».proof.Proof.Gen.Kernel
import proofs.«206421_g46840913330738_cont_8to1c4_247_26_alg».proof.Proof.Gen.Kernel.Skeleton
import proofs.«206421_g46840913330738_cont_8to1c4_247_26_alg».proof.Proof.Gen.Kernel.Launch
import proofs.«206421_g46840913330738_cont_8to1c4_247_26_alg».proof.Proof.Gen.Kernel.Regions
import proofs.«206421_g46840913330738_cont_8to1c4_247_26_alg».proof.Proof.Gen.Kernel.Points
import proofs.«206421_g46840913330738_cont_8to1c4_247_26_alg».proof.Proof.Gen.KernelIdeal
import proofs.«206421_g46840913330738_cont_8to1c4_247_26_alg».proof.Proof.Gen.KernelIdeal.Skeleton
import proofs.«206421_g46840913330738_cont_8to1c4_247_26_alg».proof.Proof.Gen.KernelIdeal.Launch
import proofs.«206421_g46840913330738_cont_8to1c4_247_26_alg».proof.Proof.Gen.KernelIdeal.Regions
import proofs.«206421_g46840913330738_cont_8to1c4_247_26_alg».proof.Proof.Gen.KernelIdeal.Points
import proofs.«206421_g46840913330738_cont_8to1c4_247_26_alg».proof.Proof.Gen.ReferenceIdeal
import proofs.«206421_g46840913330738_cont_8to1c4_247_26_alg».proof.Proof.Gen.Pre_input_domain
import Idealize.ShloMosaic.Adequacy
import Idealize.ShloMosaic.Init
import proofs.«206421_g46840913330738_cont_8to1c4_247_26_alg».proof.Proof.Run
import proofs.«206421_g46840913330738_cont_8to1c4_247_26_alg».proof.Proof.BRun
import proofs.«206421_g46840913330738_cont_8to1c4_247_26_alg».proof.Proof.IdxRange
import proofs.«206421_g46840913330738_cont_8to1c4_247_26_alg».proof.Proof.BIdxRange
import proofs.«206421_g46840913330738_cont_8to1c4_247_26_alg».proof.Proof.KernelValue
import proofs.«206421_g46840913330738_cont_8to1c4_247_26_alg».proof.Proof.RefRun
import proofs.«206421_g46840913330738_cont_8to1c4_247_26_alg».proof.Proof.RefValue

noncomputable section

namespace Cert.Proof

open Idealize.ShloMosaic Idealize.SL.Sem

/-- The word-level kernel program runs and leaves its arguments as they were: under the precondition every index word
    names a table row, so every gather task's indexed copies are in range. -/
theorem frame_k : Cert.frame_Kernel := fun m ρ hpre =>
  have hr : ∀ (d : Dev Cert.Kernel.nD) (j : Cert.Kernel.S16384x50.Idx),
      0 ≤ (m ((SparseCore.T d : Thread Cert.Kernel.nD Cert.Kernel.τ).loc Cert.Kernel.main_arg0) j).toInt
        ∧ (m ((SparseCore.T d : Thread Cert.Kernel.nD Cert.Kernel.τ).loc Cert.Kernel.main_arg0) j).toInt ≤ 999999 :=
    fun d j => Cert.ReferenceIdeal.Hand.range_of_fn _ _ _ (hpre d) j
  (θ_run (Cert.Kernel.defs (F := Bits)) _ _).mono (fun _ h c => (h c).2)
    (Cert.Kernel.Hand.run_main (F := Bits) m ρ
      (fun d x => Cert.Kernel.Hand.inRange0 m d (hr d) x) (fun d x => Cert.Kernel.Hand.inRange2 m d (hr d) x)
      (fun d x => Cert.Kernel.Hand.inRange4 m d (hr d) x) (fun d x => Cert.Kernel.Hand.inRange6 m d (hr d) x)
      (fun d x => Cert.Kernel.Hand.inRange8 m d (hr d) x))

/-- Every index word of the ideal program's `seqs` names a table row, under the precondition. -/
theorem range_ki (m : (ℓ : Loc Cert.KernelIdeal.nD Cert.KernelIdeal.τ Cert.KernelIdeal.sig) → Buf (Elt Ideal) ℓ) (hpre : Cert.Pre_KernelIdeal m)
    (d : Dev Cert.KernelIdeal.nD) (j : Cert.KernelIdeal.S16384x50.Idx) :
    0 ≤ (m ((SparseCore.T d : Thread Cert.KernelIdeal.nD Cert.KernelIdeal.τ).loc Cert.KernelIdeal.main_arg0) j).toInt
      ∧ (m ((SparseCore.T d : Thread Cert.KernelIdeal.nD Cert.KernelIdeal.τ).loc Cert.KernelIdeal.main_arg0) j).toInt ≤ 999999 :=
  Cert.ReferenceIdeal.Hand.range_of_fn _ _ _ (hpre d) j

/-- The ideal kernel program's run, with the result array named. -/
theorem run_ki (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩ (Cert.KernelIdeal.Hand.QC m) :=
  Cert.KernelIdeal.Hand.run_main (F := Ideal) m ρ
    (fun d x => Cert.KernelIdeal.Hand.inRange0 m d (range_ki m hpre d) x) (fun d x => Cert.KernelIdeal.Hand.inRange2 m d (range_ki m hpre d) x)
    (fun d x => Cert.KernelIdeal.Hand.inRange4 m d (range_ki m hpre d) x) (fun d x => Cert.KernelIdeal.Hand.inRange6 m d (range_ki m hpre d) x)
    (fun d x => Cert.KernelIdeal.Hand.inRange8 m d (range_ki m hpre d) x)

theorem frame_ki : Cert.frame_KernelIdeal := fun m ρ hpre =>
  (θ_run (Cert.KernelIdeal.defs (F := Ideal)) _ _).mono (fun _ h c => (h c).2) (run_ki m ρ hpre)

/-- The reference's run with its result dropped. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- Both programs end with the result at the specification of the arguments: the kernel's last valuation reads it
    slice by slice, the reference's composed term gathers and contracts the same rows. -/
theorem algebraic : Cert.algebraic_KernelIdeal_ReferenceIdeal := by
  intro m ρ m' ρ' hpre hagree
  refine ⟨fun c => Cert.Lookup.Spec (m ((SparseCore.T c : Thread Cert.KernelIdeal.nD Cert.KernelIdeal.τ).loc Cert.KernelIdeal.main_arg0))
      (m ((SparseCore.T c : Thread Cert.KernelIdeal.nD Cert.KernelIdeal.τ).loc Cert.KernelIdeal.main_arg1))
      (m ((SparseCore.T c : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.Hand.W27_res_eq_Spec m c (range_ki m hpre c)), (h c).2⟩) (run_ki m ρ hpre)
  · refine (θ_run (Cert.ReferenceIdeal.defs (F := Ideal)) _ _).mono (fun _ h c => ⟨(h c).1.trans ?_, (h c).2⟩)
      (Cert.ReferenceIdeal.Hand.run (F := Ideal) m' ρ')
    rw [(hagree c).1, (hagree c).2.1, (hagree c).2.2]
    exact Cert.ReferenceIdeal.Hand.refTerm_eq_Spec _ _ _ (range_ki m hpre c)

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
